-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S100000x64 : Shape := ⟨2, ![100000, 64]⟩
abbrev S128x10 : Shape := ⟨2, ![128, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg1 : IVec S16384 32) (main_v28 : IVec S_ 1) (main_v33 : IVec S16384 1) : IVec S_ 1 :=
  let main_c_12 : IVec S_ 1 := constantI S_ 1 1#1
  let main_v34 : IVec S_ 1 := (fun x v => Host.reduce IntOp.andi x v reducesTo_S16384_S_d0 h_S_) main_v33 main_c_12
  let main_v35 : IVec S_ 1 := andi main_v28 main_v34
  let main_c_13 : IVec S_ 32 := constantI S_ 32 0#32
  let main_v36 : IVec S16384 32 := broadcastInDim S16384 ![] bcast_S_S16384 main_c_13
  let main_v37 : IVec S16384 1 := cmpi .sge main_arg1 main_v36
  let main_c_14 : IVec S_ 32 := constantI S_ 32 99999#32
  let main_v38 : IVec S16384 32 := broadcastInDim S16384 ![] bcast_S_S16384 main_c_14
  let main_v39 : IVec S16384 1 := cmpi .sle main_arg1 main_v38
  let main_v40 : IVec S16384 1 := andi main_v37 main_v39
  let main_c_15 : IVec S_ 1 := constantI S_ 1 1#1
  let main_v41 : IVec S_ 1 := (fun x v => Host.reduce IntOp.andi x v reducesTo_S16384_S_d0 h_S_) main_v40 main_c_15
  let main_v42 : IVec S_ 1 := andi main_v35 main_v41
  main_v42

def fn_part1 {F : FTy → Type} [FloatOps F] (main_arg0 : IVec S16384 32) (main_arg1 : IVec S16384 32) (main_arg6 : FVec F S10x1 .f32) (main_arg7 : FVec F S1 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x1 .f32 := Host.absf main_arg6
  let main_cst_6 : FVec F S_ .f32 := constant S_ .f32 0x7F800000#32
  let main_v20 : FVec F S10x1 .f32 := broadcastInDim S10x1 ![] bcast_S_S10x1 main_cst_6
  let main_v21 : IVec S10x1 1 := cmpf .olt main_v19 main_v20
  let main_c_7 : IVec S_ 1 := constantI S_ 1 1#1
  let main_v22 : IVec S_ 1 := (fun x v => Host.reduce IntOp.andi x v reducesTo_S10x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S16384 32 := broadcastInDim S16384 ![] bcast_S_S16384 main_c_10
  let main_v30 : IVec S16384 1 := cmpi .sge main_arg0 main_v29
  let main_c_11 : IVec S_ 32 := constantI S_ 32 999999#32
  let main_v31 : IVec S16384 32 := broadcastInDim S16384 ![] bcast_S_S16384 main_c_11
  let main_v32 : IVec S16384 1 := cmpi .sle main_arg0 main_v31
  let main_v33 : IVec S16384 1 := andi main_v30 main_v32
  fn_part2 (F := F) main_arg1 main_v28 main_v33

def fn {F : FTy → Type} [FloatOps F] (main_arg0 : IVec S16384 32) (main_arg1 : IVec S16384 32) (main_arg2 : FVec F S1000000x64 .f32) (main_arg3 : FVec F S100000x64 .f32) (main_arg4 : FVec F S128x10 .f32) (main_arg5 : FVec F S10 .f32) (main_arg6 : FVec F S10x1 .f32) (main_arg7 : FVec F S1 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x10 .f32 := Host.absf main_arg4
  let main_cst_2 : FVec F S_ .f32 := constant S_ .f32 0x7F800000#32
  let main_v10 : FVec F S128x10 .f32 := broadcastInDim S128x10 ![] bcast_S_S128x10 main_cst_2
  let main_v11 : IVec S128x10 1 := cmpf .olt main_v9 main_v10
  let main_c_3 : IVec S_ 1 := constantI S_ 1 1#1
  let main_v12 : IVec S_ 1 := (fun x v => Host.reduce IntOp.andi x v reducesTo_S128x10_S_d0_1 h_S_) main_v11 main_c_3
  let main_v13 : IVec S_ 1 := andi main_v8 main_v12
  let main_v14 : FVec F S10 .f32 := Host.absf main_arg5
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg0 main_arg1 main_arg6 main_arg7 main_v13 main_v16
-- ==== Kernel.lean ====
abbrev S16384 : Shape := ⟨1, ![16384]⟩
abbrev S1000000x64 : Shape := ⟨2, ![1000000, 64]⟩
abbrev S100000x64 : Shape := ⟨2, ![100000, 64]⟩
abbrev S128x10 : Shape := ⟨2, ![128, 10]⟩
abbrev S10 : Shape := ⟨1, ![10]⟩
abbrev S10x1 : Shape := ⟨2, ![10, 1]⟩
abbrev S1 : Shape := ⟨1, ![1]⟩
abbrev S1280 : Shape := ⟨1, ![1280]⟩
abbrev S_ : Shape := ⟨0, ![]⟩
abbrev S11 : Shape := ⟨1, ![11]⟩
abbrev S1312 : Shape := ⟨1, ![1312]⟩
abbrev S512 : Shape := ⟨1, ![512]⟩
abbrev S2x128x64 : Shape := ⟨3, ![2, 128, 64]⟩
abbrev S10x512 : Shape := ⟨2, ![10, 512]⟩
abbrev S16 : Shape := ⟨1, ![16]⟩
abbrev S1x16 : Shape := ⟨2, ![1, 16]⟩
abbrev S1x1x64 : Shape := ⟨3, ![1, 1, 64]⟩
abbrev S64 : Shape := ⟨1, ![64]⟩
abbrev S1x64 : Shape := ⟨2, ![1, 64]⟩
abbrev S1x128x64 : Shape := ⟨3, ![1, 128, 64]⟩
abbrev S128x64 : Shape := ⟨2, ![128, 64]⟩
abbrev S16384x1 : Shape := ⟨2, ![16384, 1]⟩

abbrev nBuf : Table → Nat
  | .hbm => 15
  | .local .scVector .vmem => 7
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S100000x64, .f32⟩
  | .hbm, ⟨4, _⟩ => ⟨S128x10, .f32⟩
  | .hbm, ⟨5, _⟩ => ⟨S10, .f32⟩
  | .hbm, ⟨6, _⟩ => ⟨S10x1, .f32⟩
  | .hbm, ⟨7, _⟩ => ⟨S1, .f32⟩
  | .hbm, ⟨8, _⟩ => ⟨S1280, .f32⟩
  | .hbm, ⟨9, _⟩ => ⟨S10, .f32⟩
  | .hbm, ⟨10, _⟩ => ⟨S_, .f32⟩
  | .hbm, ⟨11, _⟩ => ⟨S11, .f32⟩
  | .hbm, ⟨12, _⟩ => ⟨S1312, .f32⟩
  | .hbm, ⟨13, _⟩ => ⟨S16384, .f32⟩
  | .hbm, ⟨14, _⟩ => ⟨S16384x1, .f32⟩
  | .local .scVector .vmem, ⟨0, _⟩ => ⟨S512, .i32⟩
  | .local .scVector .vmem, ⟨1, _⟩ => ⟨S512, .i32⟩
  | .local .scVector .vmem, ⟨2, _⟩ => ⟨S2x128x64, .f32⟩
  | .local .scVector .vmem, ⟨3, _⟩ => ⟨S2x128x64, .f32⟩
  | .local .scVector .vmem, ⟨4, _⟩ => ⟨S1312, .f32⟩
  | .local .scVector .vmem, ⟨5, _⟩ => ⟨S10x512, .f32⟩
  | .local .scVector .vmem, ⟨6, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v3_scv : Ref sig .scVector := ⟨.hbm, 12, rfl⟩
abbrev main_v4_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]

def k0_chk1 (v6 : IVec S16 32) : Prop :=
  (∀ a x, ((![v6] : Fin 1 → IVec S16 32) a x).toNat < S1312.size a)
instance k0_chk1.dec : ∀ (v6 : IVec S16 32), Decidable (k0_chk1 v6) := fun v6 => decidable_of_iff' _ (Iff.of_eq (k0_chk1.eq_1 v6))
theorem k0_idx1_inb : ∀ (v6 : IVec S16 32) (k0_hw1 : k0_chk1 v6), ∀ a x, ((![v6] : Fin 1 → IVec S16 32) a x).toNat < S1312.size a := fun v6 k0_hw1 => k0_hw1

def k0_chk2 (v10 : IVec S16 32) : Prop :=
  (∀ a x, ((![v10] : Fin 1 → IVec S16 32) a x).toNat < S1312.size a)
instance k0_chk2.dec : ∀ (v10 : IVec S16 32), Decidable (k0_chk2 v10) := fun v10 => decidable_of_iff' _ (Iff.of_eq (k0_chk2.eq_1 v10))
theorem k0_idx2_inb : ∀ (v10 : IVec S16 32) (k0_hw2 : k0_chk2 v10), ∀ a x, ((![v10] : Fin 1 → IVec S16 32) a x).toNat < S1312.size a := fun v10 k0_hw2 => k0_hw2

def k0_chk3 (v14 : IVec S16 32) : Prop :=
  (∀ a x, ((![v14] : Fin 1 → IVec S16 32) a x).toNat < S1312.size a)
instance k0_chk3.dec : ∀ (v14 : IVec S16 32), Decidable (k0_chk3 v14) := fun v14 => decidable_of_iff' _ (Iff.of_eq (k0_chk3.eq_1 v14))
theorem k0_idx3_inb : ∀ (v14 : IVec S16 32) (k0_hw3 : k0_chk3 v14), ∀ a x, ((![v14] : Fin 1 → IVec S16 32) a x).toNat < S1312.size a := fun v14 k0_hw3 => k0_hw3

def k0_chk4 (v18 : IVec S16 32) : Prop :=
  (∀ a x, ((![v18] : Fin 1 → IVec S16 32) a x).toNat < S1312.size a)
instance k0_chk4.dec : ∀ (v18 : IVec S16 32), Decidable (k0_chk4 v18) := fun v18 => decidable_of_iff' _ (Iff.of_eq (k0_chk4.eq_1 v18))
theorem k0_idx4_inb : ∀ (v18 : IVec S16 32) (k0_hw4 : k0_chk4 v18), ∀ a x, ((![v18] : Fin 1 → IVec S16 32) a x).toNat < S1312.size a := fun v18 k0_hw4 => k0_hw4

def k0_chk5 (v22 : IVec S16 32) : Prop :=
  (∀ a x, ((![v22] : Fin 1 → IVec S16 32) a x).toNat < S1312.size a)
instance k0_chk5.dec : ∀ (v22 : IVec S16 32), Decidable (k0_chk5 v22) := fun v22 => decidable_of_iff' _ (Iff.of_eq (k0_chk5.eq_1 v22))
theorem k0_idx5_inb : ∀ (v22 : IVec S16 32) (k0_hw5 : k0_chk5 v22), ∀ a x, ((![v22] : Fin 1 → IVec S16 32) a x).toNat < S1312.size a := fun v22 k0_hw5 => k0_hw5

def k0_chk6 (v26 : IVec S16 32) : Prop :=
  (∀ a x, ((![v26] : Fin 1 → IVec S16 32) a x).toNat < S1312.size a)
instance k0_chk6.dec : ∀ (v26 : IVec S16 32), Decidable (k0_chk6 v26) := fun v26 => decidable_of_iff' _ (Iff.of_eq (k0_chk6.eq_1 v26))
theorem k0_idx6_inb : ∀ (v26 : IVec S16 32) (k0_hw6 : k0_chk6 v26), ∀ a x, ((![v26] : Fin 1 → IVec S16 32) a x).toNat < S1312.size a := fun v26 k0_hw6 => k0_hw6

def k0_chk7 (v30 : IVec S16 32) : Prop :=
  (∀ a x, ((![v30] : Fin 1 → IVec S16 32) a x).toNat < S1312.size a)
instance k0_chk7.dec : ∀ (v30 : IVec S16 32), Decidable (k0_chk7 v30) := fun v30 => decidable_of_iff' _ (Iff.of_eq (k0_chk7.eq_1 v30))
theorem k0_idx7_inb : ∀ (v30 : IVec S16 32) (k0_hw7 : k0_chk7 v30), ∀ a x, ((![v30] : Fin 1 → IVec S16 32) a x).toNat < S1312.size a := fun v30 k0_hw7 => k0_hw7

def k0_chk8 (v34 : IVec S16 32) : Prop :=
  (∀ a x, ((![v34] : Fin 1 → IVec S16 32) a x).toNat < S1312.size a)
instance k0_chk8.dec : ∀ (v34 : IVec S16 32), Decidable (k0_chk8 v34) := fun v34 => decidable_of_iff' _ (Iff.of_eq (k0_chk8.eq_1 v34))
theorem k0_idx8_inb : ∀ (v34 : IVec S16 32) (k0_hw8 : k0_chk8 v34), ∀ a x, ((![v34] : Fin 1 → IVec S16 32) a x).toNat < S1312.size a := fun v34 k0_hw8 => k0_hw8

def k0_chk9 (v38 : IVec S16 32) : Prop :=
  (∀ a x, ((![v38] : Fin 1 → IVec S16 32) a x).toNat < S1312.size a)
instance k0_chk9.dec : ∀ (v38 : IVec S16 32), Decidable (k0_chk9 v38) := fun v38 => decidable_of_iff' _ (Iff.of_eq (k0_chk9.eq_1 v38))
theorem k0_idx9_inb : ∀ (v38 : IVec S16 32) (k0_hw9 : k0_chk9 v38), ∀ a x, ((![v38] : Fin 1 → IVec S16 32) a x).toNat < S1312.size a := fun v38 k0_hw9 => k0_hw9

def k0_chk10 (v42 : IVec S16 32) : Prop :=
  (∀ a x, ((![v42] : Fin 1 → IVec S16 32) a x).toNat < S1312.size a)
instance k0_chk10.dec : ∀ (v42 : IVec S16 32), Decidable (k0_chk10 v42) := fun v42 => decidable_of_iff' _ (Iff.of_eq (k0_chk10.eq_1 v42))
theorem k0_idx10_inb : ∀ (v42 : IVec S16 32) (k0_hw10 : k0_chk10 v42), ∀ a x, ((![v42] : Fin 1 → IVec S16 32) a x).toNat < S1312.size a := fun v42 k0_hw10 => k0_hw10
@[reducible] def k0_t1_loop : Scf.Loop 32 :=
  let c0_i32_9 : BitVec 32 := 0#32
  let c32_i32 : BitVec 32 := 32#32
  let v44 : BitVec 32 := Scalar.addi c0_i32_9 c32_i32
  let c1_i32_10 : BitVec 32 := 1#32
  ⟨c0_i32_9, v44, c1_i32_10⟩
def k0_off2 (k0_t1 : Fin k0_t1_loop.trips) : Fin 2 → Nat :=
  let c0_i32_41 : BitVec 32 := 0#32
  let v94 : Index := Scalar.indexCast c0_i32_41
  let c0_i32_9 : BitVec 32 := 0#32
  let c1_i32_10 : BitVec 32 := 1#32
  let arg19 : BitVec 32 := Scf.iv c0_i32_9 c1_i32_10 k0_t1
  let c16_i32 : BitVec 32 := 16#32
  let v93 : BitVec 32 := Scalar.muli arg19 c16_i32
  let v95 : Index := Scalar.indexCast v93
  ![0, v95.toNat]
def k0_off3 (k0_t1 : Fin k0_t1_loop.trips) : Fin 2 → Nat :=
  let c1_i32_43 : BitVec 32 := 1#32
  let v98 : Index := Scalar.indexCast c1_i32_43
  let c0_i32_9 : BitVec 32 := 0#32
  let c1_i32_10 : BitVec 32 := 1#32
  let arg19 : BitVec 32 := Scf.iv c0_i32_9 c1_i32_10 k0_t1
  let c16_i32_42 : BitVec 32 := 16#32
  let v97 : BitVec 32 := Scalar.muli arg19 c16_i32_42
  let v99 : Index := Scalar.indexCast v97
  ![1, v99.toNat]
def k0_off4 (k0_t1 : Fin k0_t1_loop.trips) : Fin 2 → Nat :=
  let c2_i32_45 : BitVec 32 := 2#32
  let v102 : Index := Scalar.indexCast c2_i32_45
  let c0_i32_9 : BitVec 32 := 0#32
  let c1_i32_10 : BitVec 32 := 1#32
  let arg19 : BitVec 32 := Scf.iv c0_i32_9 c1_i32_10 k0_t1
  let c16_i32_44 : BitVec 32 := 16#32
  let v101 : BitVec 32 := Scalar.muli arg19 c16_i32_44
  let v103 : Index := Scalar.indexCast v101
  ![2, v103.toNat]
def k0_off5 (k0_t1 : Fin k0_t1_loop.trips) : Fin 2 → Nat :=
  let c3_i32 : BitVec 32 := 3#32
  let v106 : Index := Scalar.indexCast c3_i32
  let c0_i32_9 : BitVec 32 := 0#32
  let c1_i32_10 : BitVec 32 := 1#32
  let arg19 : BitVec 32 := Scf.iv c0_i32_9 c1_i32_10 k0_t1
  let c16_i32_46 : BitVec 32 := 16#32
  let v105 : BitVec 32 := Scalar.muli arg19 c16_i32_46
  let v107 : Index := Scalar.indexCast v105
  ![3, v107.toNat]
def k0_off6 (k0_t1 : Fin k0_t1_loop.trips) : Fin 2 → Nat :=
  let c4_i32_48 : BitVec 32 := 4#32
  let v110 : Index := Scalar.indexCast c4_i32_48
  let c0_i32_9 : BitVec 32 := 0#32
  let c1_i32_10 : BitVec 32 := 1#32
  let arg19 : BitVec 32 := Scf.iv c0_i32_9 c1_i32_10 k0_t1
  let c16_i32_47 : BitVec 32 := 16#32
  let v109 : BitVec 32 := Scalar.muli arg19 c16_i32_47
  let v111 : Index := Scalar.indexCast v109
  ![4, v111.toNat]
def k0_off7 (k0_t1 : Fin k0_t1_loop.trips) : Fin 2 → Nat :=
  let c5_i32 : BitVec 32 := 5#32
  let v114 : Index := Scalar.indexCast c5_i32
  let c0_i32_9 : BitVec 32 := 0#32
  let c1_i32_10 : BitVec 32 := 1#32
  let arg19 : BitVec 32 := Scf.iv c0_i32_9 c1_i32_10 k0_t1
  let c16_i32_49 : BitVec 32 := 16#32
  let v113 : BitVec 32 := Scalar.muli arg19 c16_i32_49
  let v115 : Index := Scalar.indexCast v113
  ![5, v115.toNat]
def k0_off8 (k0_t1 : Fin k0_t1_loop.trips) : Fin 2 → Nat :=
  let c6_i32 : BitVec 32 := 6#32
  let v118 : Index := Scalar.indexCast c6_i32
  let c0_i32_9 : BitVec 32 := 0#32
  let c1_i32_10 : BitVec 32 := 1#32
  let arg19 : BitVec 32 := Scf.iv c0_i32_9 c1_i32_10 k0_t1
  let c16_i32_50 : BitVec 32 := 16#32
  let v117 : BitVec 32 := Scalar.muli arg19 c16_i32_50
  let v119 : Index := Scalar.indexCast v117
  ![6, v119.toNat]
def k0_off9 (k0_t1 : Fin k0_t1_loop.trips) : Fin 2 → Nat :=
  let c7_i32 : BitVec 32 := 7#32
  let v122 : Index := Scalar.indexCast c7_i32
  let c0_i32_9 : BitVec 32 := 0#32
  let c1_i32_10 : BitVec 32 := 1#32
  let arg19 : BitVec 32 := Scf.iv c0_i32_9 c1_i32_10 k0_t1
  let c16_i32_51 : BitVec 32 := 16#32
  let v121 : BitVec 32 := Scalar.muli arg19 c16_i32_51
  let v123 : Index := Scalar.indexCast v121
  ![7, v123.toNat]
def k0_off10 (k0_t1 : Fin k0_t1_loop.trips) : Fin 2 → Nat :=
  let c8_i32_53 : BitVec 32 := 8#32
  let v126 : Index := Scalar.indexCast c8_i32_53
  let c0_i32_9 : BitVec 32 := 0#32
  let c1_i32_10 : BitVec 32 := 1#32
  let arg19 : BitVec 32 := Scf.iv c0_i32_9 c1_i32_10 k0_t1
  let c16_i32_52 : BitVec 32 := 16#32
  let v125 : BitVec 32 := Scalar.muli arg19 c16_i32_52
  let v127 : Index := Scalar.indexCast v125
  ![8, v127.toNat]
def k0_off11 (k0_t1 : Fin k0_t1_loop.trips) : Fin 2 → Nat :=
  let c9_i32 : BitVec 32 := 9#32
  let v130 : Index := Scalar.indexCast c9_i32
  let c0_i32_9 : BitVec 32 := 0#32
  let c1_i32_10 : BitVec 32 := 1#32
  let arg19 : BitVec 32 := Scf.iv c0_i32_9 c1_i32_10 k0_t1
  let c16_i32_54 : BitVec 32 := 16#32
  let v129 : BitVec 32 := Scalar.muli arg19 c16_i32_54
  let v131 : Index := Scalar.indexCast v129
  ![9, v131.toNat]
@[reducible] def k0_t2_loop : Scf.Loop 32 :=
  let c0_i32_13 : BitVec 32 := 0#32
  let c8_i32 : BitVec 32 := 8#32
  let v45 : BitVec 32 := Scalar.addi c0_i32_13 c8_i32
  let c1_i32_14 : BitVec 32 := 1#32
  ⟨c0_i32_13, v45, c1_i32_14⟩
def k0_off12 (k0_t2 : Fin k0_t2_loop.trips) : Fin 1 → Nat :=
  let c0_i32_41 : BitVec 32 := 0#32
  let c0_i32_13 : BitVec 32 := 0#32
  let c1_i32_14 : BitVec 32 := 1#32
  let arg19 : BitVec 32 := Scf.iv c0_i32_13 c1_i32_14 k0_t2
  let c16_i32 : BitVec 32 := 16#32
  let v93 : BitVec 32 := Scalar.muli arg19 c16_i32
  let v94 : BitVec 32 := Scalar.addi c0_i32_41 v93
  let v95 : Index := Scalar.indexCast v94
  ![v95.toNat]
def k0_off13 (k0_t2 : Fin k0_t2_loop.trips) : Fin 3 → Nat :=
  let c0_i32_46 : BitVec 32 := 0#32
  let c0_i32_13 : BitVec 32 := 0#32
  let c1_i32_14 : BitVec 32 := 1#32
  let arg19 : BitVec 32 := Scf.iv c0_i32_13 c1_i32_14 k0_t2
  let c16_i32_44 : BitVec 32 := 16#32
  let v101 : BitVec 32 := Scalar.muli arg19 c16_i32_44
  let c0_i32_45 : BitVec 32 := 0#32
  let v102 : BitVec 32 := Scalar.addi v101 c0_i32_45
  let c0_i32_47 : BitVec 32 := 0#32
  ![0, v102.toNat, 0]
def k0_off14 (v104 : BitVec 32) : Fin 2 → Nat :=
  let c0_i32_48 : BitVec 32 := 0#32
  ![v104.toNat, 0]

def k0_chk11 (v104 : BitVec 32) : Prop :=
  (∀ a, (k0_off14 v104) a + S1x64.size a ≤ S1000000x64.size a)
instance k0_chk11.dec : ∀ (v104 : BitVec 32), Decidable (k0_chk11 v104) := fun v104 => decidable_of_iff' _ (Iff.of_eq (k0_chk11.eq_1 v104))
theorem k0_off14_inb : ∀ (v104 : BitVec 32) (k0_hw11 : k0_chk11 v104), ∀ a, (k0_off14 v104) a + S1x64.size a ≤ S1000000x64.size a := fun v104 k0_hw11 => k0_hw11

def k0_off15 (k0_t2 : Fin k0_t2_loop.trips) : Fin 3 → Nat :=
  let c0_i32_46 : BitVec 32 := 0#32
  let c0_i32_13 : BitVec 32 := 0#32
  let c1_i32_14 : BitVec 32 := 1#32
  let arg19 : BitVec 32 := Scf.iv c0_i32_13 c1_i32_14 k0_t2
  let c16_i32_44 : BitVec 32 := 16#32
  let v101 : BitVec 32 := Scalar.muli arg19 c16_i32_44
  let c0_i32_45 : BitVec 32 := 0#32
  let v102 : BitVec 32 := Scalar.addi v101 c0_i32_45
  let c0_i32_49 : BitVec 32 := 0#32
  ![0, v102.toNat, 0]
def k0_off16 (v114 : BitVec 32) : Fin 2 → Nat :=
  let c0_i32_53 : BitVec 32 := 0#32
  ![v114.toNat, 0]

def k0_chk12 (v114 : BitVec 32) : Prop :=
  (∀ a, (k0_off16 v114) a + S1x64.size a ≤ S100000x64.size a)
instance k0_chk12.dec : ∀ (v114 : BitVec 32), Decidable (k0_chk12 v114) := fun v114 => decidable_of_iff' _ (Iff.of_eq (k0_chk12.eq_1 v114))
theorem k0_off16_inb : ∀ (v114 : BitVec 32) (k0_hw12 : k0_chk12 v114), ∀ a, (k0_off16 v114) a + S1x64.size a ≤ S100000x64.size a := fun v114 k0_hw12 => k0_hw12

def k0_off17 (k0_t2 : Fin k0_t2_loop.trips) (c0_i32_45 : BitVec 32) : Fin 3 → Nat :=
  let c0_i32_51 : BitVec 32 := 0#32
  let c0_i32_13 : BitVec 32 := 0#32
  let c1_i32_14 : BitVec 32 := 1#32
  let arg19 : BitVec 32 := Scf.iv c0_i32_13 c1_i32_14 k0_t2
  let c16_i32_44 : BitVec 32 := 16#32
  let v101 : BitVec 32 := Scalar.muli arg19 c16_i32_44
  let v102 : BitVec 32 := Scalar.addi v101 c0_i32_45
  let c0_i32_54 : BitVec 32 := 0#32
  ![0, v102.toNat, 0]
def k0_off18 (v126 : BitVec 32) : Fin 2 → Nat :=
  let c0_i32_60 : BitVec 32 := 0#32
  ![v126.toNat, 0]

def k0_chk13 (v126 : BitVec 32) : Prop :=
  (∀ a, (k0_off18 v126) a + S1x64.size a ≤ S1000000x64.size a)
instance k0_chk13.dec : ∀ (v126 : BitVec 32), Decidable (k0_chk13 v126) := fun v126 => decidable_of_iff' _ (Iff.of_eq (k0_chk13.eq_1 v126))
theorem k0_off18_inb : ∀ (v126 : BitVec 32) (k0_hw13 : k0_chk13 v126), ∀ a, (k0_off18 v126) a + S1x64.size a ≤ S1000000x64.size a := fun v126 k0_hw13 => k0_hw13

def k0_off19 (k0_t2 : Fin k0_t2_loop.trips) : Fin 3 → Nat :=
  let c0_i32_58 : BitVec 32 := 0#32
  let c0_i32_13 : BitVec 32 := 0#32
  let c1_i32_14 : BitVec 32 := 1#32
  let arg19 : BitVec 32 := Scf.iv c0_i32_13 c1_i32_14 k0_t2
  let c16_i32_56 : BitVec 32 := 16#32
  let v123 : BitVec 32 := Scalar.muli arg19 c16_i32_56
  let c1_i32_57 : BitVec 32 := 1#32
  let v124 : BitVec 32 := Scalar.addi v123 c1_i32_57
  let c0_i32_61 : BitVec 32 := 0#32
  ![0, v124.toNat, 0]
def k0_off20 (v136 : BitVec 32) : Fin 2 → Nat :=
  let c0_i32_65 : BitVec 32 := 0#32
  ![v136.toNat, 0]

def k0_chk14 (v136 : BitVec 32) : Prop :=
  (∀ a, (k0_off20 v136) a + S1x64.size a ≤ S100000x64.size a)
instance k0_chk14.dec : ∀ (v136 : BitVec 32), Decidable (k0_chk14 v136) := fun v136 => decidable_of_iff' _ (Iff.of_eq (k0_chk14.eq_1 v136))
theorem k0_off20_inb : ∀ (v136 : BitVec 32) (k0_hw14 : k0_chk14 v136), ∀ a, (k0_off20 v136) a + S1x64.size a ≤ S100000x64.size a := fun v136 k0_hw14 => k0_hw14

def k0_off21 (k0_t2 : Fin k0_t2_loop.trips) (c1_i32_57 : BitVec 32) : Fin 3 → Nat :=
  let c0_i32_63 : BitVec 32 := 0#32
  let c0_i32_13 : BitVec 32 := 0#32
  let c1_i32_14 : BitVec 32 := 1#32
  let arg19 : BitVec 32 := Scf.iv c0_i32_13 c1_i32_14 k0_t2
  let c16_i32_56 : BitVec 32 := 16#32
  let v123 : BitVec 32 := Scalar.muli arg19 c16_i32_56
  let v124 : BitVec 32 := Scalar.addi v123 c1_i32_57
  let c0_i32_66 : BitVec 32 := 0#32
  ![0, v124.toNat, 0]
def k0_off22 (v148 : BitVec 32) : Fin 2 → Nat :=
  let c0_i32_72 : BitVec 32 := 0#32
  ![v148.toNat, 0]

def k0_chk15 (v148 : BitVec 32) : Prop :=
  (∀ a, (k0_off22 v148) a + S1x64.size a ≤ S1000000x64.size a)
instance k0_chk15.dec : ∀ (v148 : BitVec 32), Decidable (k0_chk15 v148) := fun v148 => decidable_of_iff' _ (Iff.of_eq (k0_chk15.eq_1 v148))
theorem k0_off22_inb : ∀ (v148 : BitVec 32) (k0_hw15 : k0_chk15 v148), ∀ a, (k0_off22 v148) a + S1x64.size a ≤ S1000000x64.size a := fun v148 k0_hw15 => k0_hw15

def k0_off23 (k0_t2 : Fin k0_t2_loop.trips) : Fin 3 → Nat :=
  let c0_i32_70 : BitVec 32 := 0#32
  let c0_i32_13 : BitVec 32 := 0#32
  let c1_i32_14 : BitVec 32 := 1#32
  let arg19 : BitVec 32 := Scf.iv c0_i32_13 c1_i32_14 k0_t2
  let c16_i32_68 : BitVec 32 := 16#32
  let v145 : BitVec 32 := Scalar.muli arg19 c16_i32_68
  let c2_i32_69 : BitVec 32 := 2#32
  let v146 : BitVec 32 := Scalar.addi v145 c2_i32_69
  let c0_i32_73 : BitVec 32 := 0#32
  ![0, v146.toNat, 0]
def k0_off24 (v158 : BitVec 32) : Fin 2 → Nat :=
  let c0_i32_77 : BitVec 32 := 0#32
  ![v158.toNat, 0]

def k0_chk16 (v158 : BitVec 32) : Prop :=
  (∀ a, (k0_off24 v158) a + S1x64.size a ≤ S100000x64.size a)
instance k0_chk16.dec : ∀ (v158 : BitVec 32), Decidable (k0_chk16 v158) := fun v158 => decidable_of_iff' _ (Iff.of_eq (k0_chk16.eq_1 v158))
theorem k0_off24_inb : ∀ (v158 : BitVec 32) (k0_hw16 : k0_chk16 v158), ∀ a, (k0_off24 v158) a + S1x64.size a ≤ S100000x64.size a := fun v158 k0_hw16 => k0_hw16

def k0_off25 (k0_t2 : Fin k0_t2_loop.trips) (c2_i32_69 : BitVec 32) : Fin 3 → Nat :=
  let c0_i32_75 : BitVec 32 := 0#32
  let c0_i32_13 : BitVec 32 := 0#32
  let c1_i32_14 : BitVec 32 := 1#32
  let arg19 : BitVec 32 := Scf.iv c0_i32_13 c1_i32_14 k0_t2
  let c16_i32_68 : BitVec 32 := 16#32
  let v145 : BitVec 32 := Scalar.muli arg19 c16_i32_68
  let v146 : BitVec 32 := Scalar.addi v145 c2_i32_69
  let c0_i32_78 : BitVec 32 := 0#32
  ![0, v146.toNat, 0]
def k0_off26 (v170 : BitVec 32) : Fin 2 → Nat :=
  let c0_i32_83 : BitVec 32 := 0#32
  ![v170.toNat, 0]

def k0_chk17 (v170 : BitVec 32) : Prop :=
  (∀ a, (k0_off26 v170) a + S1x64.size a ≤ S1000000x64.size a)
instance k0_chk17.dec : ∀ (v170 : BitVec 32), Decidable (k0_chk17 v170) := fun v170 => decidable_of_iff' _ (Iff.of_eq (k0_chk17.eq_1 v170))
theorem k0_off26_inb : ∀ (v170 : BitVec 32) (k0_hw17 : k0_chk17 v170), ∀ a, (k0_off26 v170) a + S1x64.size a ≤ S1000000x64.size a := fun v170 k0_hw17 => k0_hw17

def k0_off27 (k0_t2 : Fin k0_t2_loop.trips) : Fin 3 → Nat :=
  let c0_i32_81 : BitVec 32 := 0#32
  let c0_i32_13 : BitVec 32 := 0#32
  let c1_i32_14 : BitVec 32 := 1#32
  let arg19 : BitVec 32 := Scf.iv c0_i32_13 c1_i32_14 k0_t2
  let c16_i32_80 : BitVec 32 := 16#32
  let v167 : BitVec 32 := Scalar.muli arg19 c16_i32_80
  let c3_i32 : BitVec 32 := 3#32
  let v168 : BitVec 32 := Scalar.addi v167 c3_i32
  let c0_i32_84 : BitVec 32 := 0#32
  ![0, v168.toNat, 0]
def k0_off28 (v180 : BitVec 32) : Fin 2 → Nat :=
  let c0_i32_88 : BitVec 32 := 0#32
  ![v180.toNat, 0]

def k0_chk18 (v180 : BitVec 32) : Prop :=
  (∀ a, (k0_off28 v180) a + S1x64.size a ≤ S100000x64.size a)
instance k0_chk18.dec : ∀ (v180 : BitVec 32), Decidable (k0_chk18 v180) := fun v180 => decidable_of_iff' _ (Iff.of_eq (k0_chk18.eq_1 v180))
theorem k0_off28_inb : ∀ (v180 : BitVec 32) (k0_hw18 : k0_chk18 v180), ∀ a, (k0_off28 v180) a + S1x64.size a ≤ S100000x64.size a := fun v180 k0_hw18 => k0_hw18

def k0_off29 (k0_t2 : Fin k0_t2_loop.trips) (c3_i32 : BitVec 32) : Fin 3 → Nat :=
  let c0_i32_86 : BitVec 32 := 0#32
  let c0_i32_13 : BitVec 32 := 0#32
  let c1_i32_14 : BitVec 32 := 1#32
  let arg19 : BitVec 32 := Scf.iv c0_i32_13 c1_i32_14 k0_t2
  let c16_i32_80 : BitVec 32 := 16#32
  let v167 : BitVec 32 := Scalar.muli arg19 c16_i32_80
  let v168 : BitVec 32 := Scalar.addi v167 c3_i32
  let c0_i32_89 : BitVec 32 := 0#32
  ![0, v168.toNat, 0]
def k0_off30 (v192 : BitVec 32) : Fin 2 → Nat :=
  let c0_i32_95 : BitVec 32 := 0#32
  ![v192.toNat, 0]

def k0_chk19 (v192 : BitVec 32) : Prop :=
  (∀ a, (k0_off30 v192) a + S1x64.size a ≤ S1000000x64.size a)
instance k0_chk19.dec : ∀ (v192 : BitVec 32), Decidable (k0_chk19 v192) := fun v192 => decidable_of_iff' _ (Iff.of_eq (k0_chk19.eq_1 v192))
theorem k0_off30_inb : ∀ (v192 : BitVec 32) (k0_hw19 : k0_chk19 v192), ∀ a, (k0_off30 v192) a + S1x64.size a ≤ S1000000x64.size a := fun v192 k0_hw19 => k0_hw19

def k0_off31 (k0_t2 : Fin k0_t2_loop.trips) : Fin 3 → Nat :=
  let c0_i32_93 : BitVec 32 := 0#32
  let c0_i32_13 : BitVec 32 := 0#32
  let c1_i32_14 : BitVec 32 := 1#32
  let arg19 : BitVec 32 := Scf.iv c0_i32_13 c1_i32_14 k0_t2
  let c16_i32_91 : BitVec 32 := 16#32
  let v189 : BitVec 32 := Scalar.muli arg19 c16_i32_91
  let c4_i32_92 : BitVec 32 := 4#32
  let v190 : BitVec 32 := Scalar.addi v189 c4_i32_92
  let c0_i32_96 : BitVec 32 := 0#32
  ![0, v190.toNat, 0]
def k0_off32 (v202 : BitVec 32) : Fin 2 → Nat :=
  let c0_i32_100 : BitVec 32 := 0#32
  ![v202.toNat, 0]

def k0_chk20 (v202 : BitVec 32) : Prop :=
  (∀ a, (k0_off32 v202) a + S1x64.size a ≤ S100000x64.size a)
instance k0_chk20.dec : ∀ (v202 : BitVec 32), Decidable (k0_chk20 v202) := fun v202 => decidable_of_iff' _ (Iff.of_eq (k0_chk20.eq_1 v202))
theorem k0_off32_inb : ∀ (v202 : BitVec 32) (k0_hw20 : k0_chk20 v202), ∀ a, (k0_off32 v202) a + S1x64.size a ≤ S100000x64.size a := fun v202 k0_hw20 => k0_hw20

def k0_off33 (k0_t2 : Fin k0_t2_loop.trips) (c4_i32_92 : BitVec 32) : Fin 3 → Nat :=
  let c0_i32_98 : BitVec 32 := 0#32
  let c0_i32_13 : BitVec 32 := 0#32
  let c1_i32_14 : BitVec 32 := 1#32
  let arg19 : BitVec 32 := Scf.iv c0_i32_13 c1_i32_14 k0_t2
  let c16_i32_91 : BitVec 32 := 16#32
  let v189 : BitVec 32 := Scalar.muli arg19 c16_i32_91
  let v190 : BitVec 32 := Scalar.addi v189 c4_i32_92
  let c0_i32_101 : BitVec 32 := 0#32
  ![0, v190.toNat, 0]
def k0_off34 (v214 : BitVec 32) : Fin 2 → Nat :=
  let c0_i32_106 : BitVec 32 := 0#32
  ![v214.toNat, 0]

def k0_chk21 (v214 : BitVec 32) : Prop :=
  (∀ a, (k0_off34 v214) a + S1x64.size a ≤ S1000000x64.size a)
instance k0_chk21.dec : ∀ (v214 : BitVec 32), Decidable (k0_chk21 v214) := fun v214 => decidable_of_iff' _ (Iff.of_eq (k0_chk21.eq_1 v214))
theorem k0_off34_inb : ∀ (v214 : BitVec 32) (k0_hw21 : k0_chk21 v214), ∀ a, (k0_off34 v214) a + S1x64.size a ≤ S1000000x64.size a := fun v214 k0_hw21 => k0_hw21

def k0_off35 (k0_t2 : Fin k0_t2_loop.trips) : Fin 3 → Nat :=
  let c0_i32_104 : BitVec 32 := 0#32
  let c0_i32_13 : BitVec 32 := 0#32
  let c1_i32_14 : BitVec 32 := 1#32
  let arg19 : BitVec 32 := Scf.iv c0_i32_13 c1_i32_14 k0_t2
  let c16_i32_103 : BitVec 32 := 16#32
  let v211 : BitVec 32 := Scalar.muli arg19 c16_i32_103
  let c5_i32 : BitVec 32 := 5#32
  let v212 : BitVec 32 := Scalar.addi v211 c5_i32
  let c0_i32_107 : BitVec 32 := 0#32
  ![0, v212.toNat, 0]
def k0_off36 (v224 : BitVec 32) : Fin 2 → Nat :=
  let c0_i32_111 : BitVec 32 := 0#32
  ![v224.toNat, 0]

def k0_chk22 (v224 : BitVec 32) : Prop :=
  (∀ a, (k0_off36 v224) a + S1x64.size a ≤ S100000x64.size a)
instance k0_chk22.dec : ∀ (v224 : BitVec 32), Decidable (k0_chk22 v224) := fun v224 => decidable_of_iff' _ (Iff.of_eq (k0_chk22.eq_1 v224))
theorem k0_off36_inb : ∀ (v224 : BitVec 32) (k0_hw22 : k0_chk22 v224), ∀ a, (k0_off36 v224) a + S1x64.size a ≤ S100000x64.size a := fun v224 k0_hw22 => k0_hw22

def k0_off37 (k0_t2 : Fin k0_t2_loop.trips) (c5_i32 : BitVec 32) : Fin 3 → Nat :=
  let c0_i32_109 : BitVec 32 := 0#32
  let c0_i32_13 : BitVec 32 := 0#32
  let c1_i32_14 : BitVec 32 := 1#32
  let arg19 : BitVec 32 := Scf.iv c0_i32_13 c1_i32_14 k0_t2
  let c16_i32_103 : BitVec 32 := 16#32
  let v211 : BitVec 32 := Scalar.muli arg19 c16_i32_103
  let v212 : BitVec 32 := Scalar.addi v211 c5_i32
  let c0_i32_112 : BitVec 32 := 0#32
  ![0, v212.toNat, 0]
def k0_off38 (v236 : BitVec 32) : Fin 2 → Nat :=
  let c0_i32_117 : BitVec 32 := 0#32
  ![v236.toNat, 0]

def k0_chk23 (v236 : BitVec 32) : Prop :=
  (∀ a, (k0_off38 v236) a + S1x64.size a ≤ S1000000x64.size a)
instance k0_chk23.dec : ∀ (v236 : BitVec 32), Decidable (k0_chk23 v236) := fun v236 => decidable_of_iff' _ (Iff.of_eq (k0_chk23.eq_1 v236))
theorem k0_off38_inb : ∀ (v236 : BitVec 32) (k0_hw23 : k0_chk23 v236), ∀ a, (k0_off38 v236) a + S1x64.size a ≤ S1000000x64.size a := fun v236 k0_hw23 => k0_hw23

def k0_off39 (k0_t2 : Fin k0_t2_loop.trips) : Fin 3 → Nat :=
  let c0_i32_115 : BitVec 32 := 0#32
  let c0_i32_13 : BitVec 32 := 0#32
  let c1_i32_14 : BitVec 32 := 1#32
  let arg19 : BitVec 32 := Scf.iv c0_i32_13 c1_i32_14 k0_t2
  let c16_i32_114 : BitVec 32 := 16#32
  let v233 : BitVec 32 := Scalar.muli arg19 c16_i32_114
  let c6_i32 : BitVec 32 := 6#32
  let v234 : BitVec 32 := Scalar.addi v233 c6_i32
  let c0_i32_118 : BitVec 32 := 0#32
  ![0, v234.toNat, 0]
def k0_off40 (v246 : BitVec 32) : Fin 2 → Nat :=
  let c0_i32_122 : BitVec 32 := 0#32
  ![v246.toNat, 0]

def k0_chk24 (v246 : BitVec 32) : Prop :=
  (∀ a, (k0_off40 v246) a + S1x64.size a ≤ S100000x64.size a)
instance k0_chk24.dec : ∀ (v246 : BitVec 32), Decidable (k0_chk24 v246) := fun v246 => decidable_of_iff' _ (Iff.of_eq (k0_chk24.eq_1 v246))
theorem k0_off40_inb : ∀ (v246 : BitVec 32) (k0_hw24 : k0_chk24 v246), ∀ a, (k0_off40 v246) a + S1x64.size a ≤ S100000x64.size a := fun v246 k0_hw24 => k0_hw24

def k0_off41 (k0_t2 : Fin k0_t2_loop.trips) (c6_i32 : BitVec 32) : Fin 3 → Nat :=
  let c0_i32_120 : BitVec 32 := 0#32
  let c0_i32_13 : BitVec 32 := 0#32
  let c1_i32_14 : BitVec 32 := 1#32
  let arg19 : BitVec 32 := Scf.iv c0_i32_13 c1_i32_14 k0_t2
  let c16_i32_114 : BitVec 32 := 16#32
  let v233 : BitVec 32 := Scalar.muli arg19 c16_i32_114
  let v234 : BitVec 32 := Scalar.addi v233 c6_i32
  let c0_i32_123 : BitVec 32 := 0#32
  ![0, v234.toNat, 0]
def k0_off42 (v258 : BitVec 32) : Fin 2 → Nat :=
  let c0_i32_128 : BitVec 32 := 0#32
  ![v258.toNat, 0]

def k0_chk25 (v258 : BitVec 32) : Prop :=
  (∀ a, (k0_off42 v258) a + S1x64.size a ≤ S1000000x64.size a)
instance k0_chk25.dec : ∀ (v258 : BitVec 32), Decidable (k0_chk25 v258) := fun v258 => decidable_of_iff' _ (Iff.of_eq (k0_chk25.eq_1 v258))
theorem k0_off42_inb : ∀ (v258 : BitVec 32) (k0_hw25 : k0_chk25 v258), ∀ a, (k0_off42 v258) a + S1x64.size a ≤ S1000000x64.size a := fun v258 k0_hw25 => k0_hw25

def k0_off43 (k0_t2 : Fin k0_t2_loop.trips) : Fin 3 → Nat :=
  let c0_i32_126 : BitVec 32 := 0#32
  let c0_i32_13 : BitVec 32 := 0#32
  let c1_i32_14 : BitVec 32 := 1#32
  let arg19 : BitVec 32 := Scf.iv c0_i32_13 c1_i32_14 k0_t2
  let c16_i32_125 : BitVec 32 := 16#32
  let v255 : BitVec 32 := Scalar.muli arg19 c16_i32_125
  let c7_i32 : BitVec 32 := 7#32
  let v256 : BitVec 32 := Scalar.addi v255 c7_i32
  let c0_i32_129 : BitVec 32 := 0#32
  ![0, v256.toNat, 0]
def k0_off44 (v268 : BitVec 32) : Fin 2 → Nat :=
  let c0_i32_133 : BitVec 32 := 0#32
  ![v268.toNat, 0]

def k0_chk26 (v268 : BitVec 32) : Prop :=
  (∀ a, (k0_off44 v268) a + S1x64.size a ≤ S100000x64.size a)
instance k0_chk26.dec : ∀ (v268 : BitVec 32), Decidable (k0_chk26 v268) := fun v268 => decidable_of_iff' _ (Iff.of_eq (k0_chk26.eq_1 v268))
theorem k0_off44_inb : ∀ (v268 : BitVec 32) (k0_hw26 : k0_chk26 v268), ∀ a, (k0_off44 v268) a + S1x64.size a ≤ S100000x64.size a := fun v268 k0_hw26 => k0_hw26

def k0_off45 (k0_t2 : Fin k0_t2_loop.trips) (c7_i32 : BitVec 32) : Fin 3 → Nat :=
  let c0_i32_131 : BitVec 32 := 0#32
  let c0_i32_13 : BitVec 32 := 0#32
  let c1_i32_14 : BitVec 32 := 1#32
  let arg19 : BitVec 32 := Scf.iv c0_i32_13 c1_i32_14 k0_t2
  let c16_i32_125 : BitVec 32 := 16#32
  let v255 : BitVec 32 := Scalar.muli arg19 c16_i32_125
  let v256 : BitVec 32 := Scalar.addi v255 c7_i32
  let c0_i32_134 : BitVec 32 := 0#32
  ![0, v256.toNat, 0]
def k0_off46 (v280 : BitVec 32) : Fin 2 → Nat :=
  let c0_i32_140 : BitVec 32 := 0#32
  ![v280.toNat, 0]

def k0_chk27 (v280 : BitVec 32) : Prop :=
  (∀ a, (k0_off46 v280) a + S1x64.size a ≤ S1000000x64.size a)
instance k0_chk27.dec : ∀ (v280 : BitVec 32), Decidable (k0_chk27 v280) := fun v280 => decidable_of_iff' _ (Iff.of_eq (k0_chk27.eq_1 v280))
theorem k0_off46_inb : ∀ (v280 : BitVec 32) (k0_hw27 : k0_chk27 v280), ∀ a, (k0_off46 v280) a + S1x64.size a ≤ S1000000x64.size a := fun v280 k0_hw27 => k0_hw27

def k0_off47 (k0_t2 : Fin k0_t2_loop.trips) : Fin 3 → Nat :=
  let c0_i32_138 : BitVec 32 := 0#32
  let c0_i32_13 : BitVec 32 := 0#32
  let c1_i32_14 : BitVec 32 := 1#32
  let arg19 : BitVec 32 := Scf.iv c0_i32_13 c1_i32_14 k0_t2
  let c16_i32_136 : BitVec 32 := 16#32
  let v277 : BitVec 32 := Scalar.muli arg19 c16_i32_136
  let c8_i32_137 : BitVec 32 := 8#32
  let v278 : BitVec 32 := Scalar.addi v277 c8_i32_137
  let c0_i32_141 : BitVec 32 := 0#32
  ![0, v278.toNat, 0]
def k0_off48 (v290 : BitVec 32) : Fin 2 → Nat :=
  let c0_i32_145 : BitVec 32 := 0#32
  ![v290.toNat, 0]

def k0_chk28 (v290 : BitVec 32) : Prop :=
  (∀ a, (k0_off48 v290) a + S1x64.size a ≤ S100000x64.size a)
instance k0_chk28.dec : ∀ (v290 : BitVec 32), Decidable (k0_chk28 v290) := fun v290 => decidable_of_iff' _ (Iff.of_eq (k0_chk28.eq_1 v290))
theorem k0_off48_inb : ∀ (v290 : BitVec 32) (k0_hw28 : k0_chk28 v290), ∀ a, (k0_off48 v290) a + S1x64.size a ≤ S100000x64.size a := fun v290 k0_hw28 => k0_hw28

def k0_off49 (k0_t2 : Fin k0_t2_loop.trips) (c8_i32_137 : BitVec 32) : Fin 3 → Nat :=
  let c0_i32_143 : BitVec 32 := 0#32
  let c0_i32_13 : BitVec 32 := 0#32
  let c1_i32_14 : BitVec 32 := 1#32
  let arg19 : BitVec 32 := Scf.iv c0_i32_13 c1_i32_14 k0_t2
  let c16_i32_136 : BitVec 32 := 16#32
  let v277 : BitVec 32 := Scalar.muli arg19 c16_i32_136
  let v278 : BitVec 32 := Scalar.addi v277 c8_i32_137
  let c0_i32_146 : BitVec 32 := 0#32
  ![0, v278.toNat, 0]
def k0_off50 (v302 : BitVec 32) : Fin 2 → Nat :=
  let c0_i32_151 : BitVec 32 := 0#32
  ![v302.toNat, 0]

def k0_chk29 (v302 : BitVec 32) : Prop :=
  (∀ a, (k0_off50 v302) a + S1x64.size a ≤ S1000000x64.size a)
instance k0_chk29.dec : ∀ (v302 : BitVec 32), Decidable (k0_chk29 v302) := fun v302 => decidable_of_iff' _ (Iff.of_eq (k0_chk29.eq_1 v302))
theorem k0_off50_inb : ∀ (v302 : BitVec 32) (k0_hw29 : k0_chk29 v302), ∀ a, (k0_off50 v302) a + S1x64.size a ≤ S1000000x64.size a := fun v302 k0_hw29 => k0_hw29

def k0_off51 (k0_t2 : Fin k0_t2_loop.trips) : Fin 3 → Nat :=
  let c0_i32_149 : BitVec 32 := 0#32
  let c0_i32_13 : BitVec 32 := 0#32
  let c1_i32_14 : BitVec 32 := 1#32
  let arg19 : BitVec 32 := Scf.iv c0_i32_13 c1_i32_14 k0_t2
  let c16_i32_148 : BitVec 32 := 16#32
  let v299 : BitVec 32 := Scalar.muli arg19 c16_i32_148
  let c9_i32 : BitVec 32 := 9#32
  let v300 : BitVec 32 := Scalar.addi v299 c9_i32
  let c0_i32_152 : BitVec 32 := 0#32
  ![0, v300.toNat, 0]
def k0_off52 (v312 : BitVec 32) : Fin 2 → Nat :=
  let c0_i32_156 : BitVec 32 := 0#32
  ![v312.toNat, 0]

def k0_chk30 (v312 : BitVec 32) : Prop :=
  (∀ a, (k0_off52 v312) a + S1x64.size a ≤ S100000x64.size a)
instance k0_chk30.dec : ∀ (v312 : BitVec 32), Decidable (k0_chk30 v312) := fun v312 => decidable_of_iff' _ (Iff.of_eq (k0_chk30.eq_1 v312))
theorem k0_off52_inb : ∀ (v312 : BitVec 32) (k0_hw30 : k0_chk30 v312), ∀ a, (k0_off52 v312) a + S1x64.size a ≤ S100000x64.size a := fun v312 k0_hw30 => k0_hw30

def k0_off53 (k0_t2 : Fin k0_t2_loop.trips) (c9_i32 : BitVec 32) : Fin 3 → Nat :=
  let c0_i32_154 : BitVec 32 := 0#32
  let c0_i32_13 : BitVec 32 := 0#32
  let c1_i32_14 : BitVec 32 := 1#32
  let arg19 : BitVec 32 := Scf.iv c0_i32_13 c1_i32_14 k0_t2
  let c16_i32_148 : BitVec 32 := 16#32
  let v299 : BitVec 32 := Scalar.muli arg19 c16_i32_148
  let v300 : BitVec 32 := Scalar.addi v299 c9_i32
  let c0_i32_157 : BitVec 32 := 0#32
  ![0, v300.toNat, 0]
def k0_off54 (v324 : BitVec 32) : Fin 2 → Nat :=
  let c0_i32_162 : BitVec 32 := 0#32
  ![v324.toNat, 0]

def k0_chk31 (v324 : BitVec 32) : Prop :=
  (∀ a, (k0_off54 v324) a + S1x64.size a ≤ S1000000x64.size a)
instance k0_chk31.dec : ∀ (v324 : BitVec 32), Decidable (k0_chk31 v324) := fun v324 => decidable_of_iff' _ (Iff.of_eq (k0_chk31.eq_1 v324))
theorem k0_off54_inb : ∀ (v324 : BitVec 32) (k0_hw31 : k0_chk31 v324), ∀ a, (k0_off54 v324) a + S1x64.size a ≤ S1000000x64.size a := fun v324 k0_hw31 => k0_hw31

def k0_off55 (k0_t2 : Fin k0_t2_loop.trips) : Fin 3 → Nat :=
  let c0_i32_160 : BitVec 32 := 0#32
  let c0_i32_13 : BitVec 32 := 0#32
  let c1_i32_14 : BitVec 32 := 1#32
  let arg19 : BitVec 32 := Scf.iv c0_i32_13 c1_i32_14 k0_t2
  let c16_i32_159 : BitVec 32 := 16#32
  let v321 : BitVec 32 := Scalar.muli arg19 c16_i32_159
  let c10_i32 : BitVec 32 := 10#32
  let v322 : BitVec 32 := Scalar.addi v321 c10_i32
  let c0_i32_163 : BitVec 32 := 0#32
  ![0, v322.toNat, 0]
def k0_off56 (v334 : BitVec 32) : Fin 2 → Nat :=
  let c0_i32_167 : BitVec 32 := 0#32
  ![v334.toNat, 0]

def k0_chk32 (v334 : BitVec 32) : Prop :=
  (∀ a, (k0_off56 v334) a + S1x64.size a ≤ S100000x64.size a)
instance k0_chk32.dec : ∀ (v334 : BitVec 32), Decidable (k0_chk32 v334) := fun v334 => decidable_of_iff' _ (Iff.of_eq (k0_chk32.eq_1 v334))
theorem k0_off56_inb : ∀ (v334 : BitVec 32) (k0_hw32 : k0_chk32 v334), ∀ a, (k0_off56 v334) a + S1x64.size a ≤ S100000x64.size a := fun v334 k0_hw32 => k0_hw32

def k0_off57 (k0_t2 : Fin k0_t2_loop.trips) (c10_i32 : BitVec 32) : Fin 3 → Nat :=
  let c0_i32_165 : BitVec 32 := 0#32
  let c0_i32_13 : BitVec 32 := 0#32
  let c1_i32_14 : BitVec 32 := 1#32
  let arg19 : BitVec 32 := Scf.iv c0_i32_13 c1_i32_14 k0_t2
  let c16_i32_159 : BitVec 32 := 16#32
  let v321 : BitVec 32 := Scalar.muli arg19 c16_i32_159
  let v322 : BitVec 32 := Scalar.addi v321 c10_i32
  let c0_i32_168 : BitVec 32 := 0#32
  ![0, v322.toNat, 0]
def k0_off58 (v346 : BitVec 32) : Fin 2 → Nat :=
  let c0_i32_173 : BitVec 32 := 0#32
  ![v346.toNat, 0]

def k0_chk33 (v346 : BitVec 32) : Prop :=
  (∀ a, (k0_off58 v346) a + S1x64.size a ≤ S1000000x64.size a)
instance k0_chk33.dec : ∀ (v346 : BitVec 32), Decidable (k0_chk33 v346) := fun v346 => decidable_of_iff' _ (Iff.of_eq (k0_chk33.eq_1 v346))
theorem k0_off58_inb : ∀ (v346 : BitVec 32) (k0_hw33 : k0_chk33 v346), ∀ a, (k0_off58 v346) a + S1x64.size a ≤ S1000000x64.size a := fun v346 k0_hw33 => k0_hw33

def k0_off59 (k0_t2 : Fin k0_t2_loop.trips) : Fin 3 → Nat :=
  let c0_i32_171 : BitVec 32 := 0#32
  let c0_i32_13 : BitVec 32 := 0#32
  let c1_i32_14 : BitVec 32 := 1#32
  let arg19 : BitVec 32 := Scf.iv c0_i32_13 c1_i32_14 k0_t2
  let c16_i32_170 : BitVec 32 := 16#32
  let v343 : BitVec 32 := Scalar.muli arg19 c16_i32_170
  let c11_i32 : BitVec 32 := 11#32
  let v344 : BitVec 32 := Scalar.addi v343 c11_i32
  let c0_i32_174 : BitVec 32 := 0#32
  ![0, v344.toNat, 0]
def k0_off60 (v356 : BitVec 32) : Fin 2 → Nat :=
  let c0_i32_178 : BitVec 32 := 0#32
  ![v356.toNat, 0]

def k0_chk34 (v356 : BitVec 32) : Prop :=
  (∀ a, (k0_off60 v356) a + S1x64.size a ≤ S100000x64.size a)
instance k0_chk34.dec : ∀ (v356 : BitVec 32), Decidable (k0_chk34 v356) := fun v356 => decidable_of_iff' _ (Iff.of_eq (k0_chk34.eq_1 v356))
theorem k0_off60_inb : ∀ (v356 : BitVec 32) (k0_hw34 : k0_chk34 v356), ∀ a, (k0_off60 v356) a + S1x64.size a ≤ S100000x64.size a := fun v356 k0_hw34 => k0_hw34

def k0_off61 (k0_t2 : Fin k0_t2_loop.trips) (c11_i32 : BitVec 32) : Fin 3 → Nat :=
  let c0_i32_176 : BitVec 32 := 0#32
  let c0_i32_13 : BitVec 32 := 0#32
  let c1_i32_14 : BitVec 32 := 1#32
  let arg19 : BitVec 32 := Scf.iv c0_i32_13 c1_i32_14 k0_t2
  let c16_i32_170 : BitVec 32 := 16#32
  let v343 : BitVec 32 := Scalar.muli arg19 c16_i32_170
  let v344 : BitVec 32 := Scalar.addi v343 c11_i32
  let c0_i32_179 : BitVec 32 := 0#32
  ![0, v344.toNat, 0]
def k0_off62 (v368 : BitVec 32) : Fin 2 → Nat :=
  let c0_i32_184 : BitVec 32 := 0#32
  ![v368.toNat, 0]

def k0_chk35 (v368 : BitVec 32) : Prop :=
  (∀ a, (k0_off62 v368) a + S1x64.size a ≤ S1000000x64.size a)
instance k0_chk35.dec : ∀ (v368 : BitVec 32), Decidable (k0_chk35 v368) := fun v368 => decidable_of_iff' _ (Iff.of_eq (k0_chk35.eq_1 v368))
theorem k0_off62_inb : ∀ (v368 : BitVec 32) (k0_hw35 : k0_chk35 v368), ∀ a, (k0_off62 v368) a + S1x64.size a ≤ S1000000x64.size a := fun v368 k0_hw35 => k0_hw35

def k0_off63 (k0_t2 : Fin k0_t2_loop.trips) : Fin 3 → Nat :=
  let c0_i32_182 : BitVec 32 := 0#32
  let c0_i32_13 : BitVec 32 := 0#32
  let c1_i32_14 : BitVec 32 := 1#32
  let arg19 : BitVec 32 := Scf.iv c0_i32_13 c1_i32_14 k0_t2
  let c16_i32_181 : BitVec 32 := 16#32
  let v365 : BitVec 32 := Scalar.muli arg19 c16_i32_181
  let c12_i32 : BitVec 32 := 12#32
  let v366 : BitVec 32 := Scalar.addi v365 c12_i32
  let c0_i32_185 : BitVec 32 := 0#32
  ![0, v366.toNat, 0]
def k0_off64 (v378 : BitVec 32) : Fin 2 → Nat :=
  let c0_i32_189 : BitVec 32 := 0#32
  ![v378.toNat, 0]

def k0_chk36 (v378 : BitVec 32) : Prop :=
  (∀ a, (k0_off64 v378) a + S1x64.size a ≤ S100000x64.size a)
instance k0_chk36.dec : ∀ (v378 : BitVec 32), Decidable (k0_chk36 v378) := fun v378 => decidable_of_iff' _ (Iff.of_eq (k0_chk36.eq_1 v378))
theorem k0_off64_inb : ∀ (v378 : BitVec 32) (k0_hw36 : k0_chk36 v378), ∀ a, (k0_off64 v378) a + S1x64.size a ≤ S100000x64.size a := fun v378 k0_hw36 => k0_hw36

def k0_off65 (k0_t2 : Fin k0_t2_loop.trips) (c12_i32 : BitVec 32) : Fin 3 → Nat :=
  let c0_i32_187 : BitVec 32 := 0#32
  let c0_i32_13 : BitVec 32 := 0#32
  let c1_i32_14 : BitVec 32 := 1#32
  let arg19 : BitVec 32 := Scf.iv c0_i32_13 c1_i32_14 k0_t2
  let c16_i32_181 : BitVec 32 := 16#32
  let v365 : BitVec 32 := Scalar.muli arg19 c16_i32_181
  let v366 : BitVec 32 := Scalar.addi v365 c12_i32
  let c0_i32_190 : BitVec 32 := 0#32
  ![0, v366.toNat, 0]
def k0_off66 (v390 : BitVec 32) : Fin 2 → Nat :=
  let c0_i32_195 : BitVec 32 := 0#32
  ![v390.toNat, 0]

def k0_chk37 (v390 : BitVec 32) : Prop :=
  (∀ a, (k0_off66 v390) a + S1x64.size a ≤ S1000000x64.size a)
instance k0_chk37.dec : ∀ (v390 : BitVec 32), Decidable (k0_chk37 v390) := fun v390 => decidable_of_iff' _ (Iff.of_eq (k0_chk37.eq_1 v390))
theorem k0_off66_inb : ∀ (v390 : BitVec 32) (k0_hw37 : k0_chk37 v390), ∀ a, (k0_off66 v390) a + S1x64.size a ≤ S1000000x64.size a := fun v390 k0_hw37 => k0_hw37

def k0_off67 (k0_t2 : Fin k0_t2_loop.trips) : Fin 3 → Nat :=
  let c0_i32_193 : BitVec 32 := 0#32
  let c0_i32_13 : BitVec 32 := 0#32
  let c1_i32_14 : BitVec 32 := 1#32
  let arg19 : BitVec 32 := Scf.iv c0_i32_13 c1_i32_14 k0_t2
  let c16_i32_192 : BitVec 32 := 16#32
  let v387 : BitVec 32 := Scalar.muli arg19 c16_i32_192
  let c13_i32 : BitVec 32 := 13#32
  let v388 : BitVec 32 := Scalar.addi v387 c13_i32
  let c0_i32_196 : BitVec 32 := 0#32
  ![0, v388.toNat, 0]
def k0_off68 (v400 : BitVec 32) : Fin 2 → Nat :=
  let c0_i32_200 : BitVec 32 := 0#32
  ![v400.toNat, 0]

def k0_chk38 (v400 : BitVec 32) : Prop :=
  (∀ a, (k0_off68 v400) a + S1x64.size a ≤ S100000x64.size a)
instance k0_chk38.dec : ∀ (v400 : BitVec 32), Decidable (k0_chk38 v400) := fun v400 => decidable_of_iff' _ (Iff.of_eq (k0_chk38.eq_1 v400))
theorem k0_off68_inb : ∀ (v400 : BitVec 32) (k0_hw38 : k0_chk38 v400), ∀ a, (k0_off68 v400) a + S1x64.size a ≤ S100000x64.size a := fun v400 k0_hw38 => k0_hw38

def k0_off69 (k0_t2 : Fin k0_t2_loop.trips) (c13_i32 : BitVec 32) : Fin 3 → Nat :=
  let c0_i32_198 : BitVec 32 := 0#32
  let c0_i32_13 : BitVec 32 := 0#32
  let c1_i32_14 : BitVec 32 := 1#32
  let arg19 : BitVec 32 := Scf.iv c0_i32_13 c1_i32_14 k0_t2
  let c16_i32_192 : BitVec 32 := 16#32
  let v387 : BitVec 32 := Scalar.muli arg19 c16_i32_192
  let v388 : BitVec 32 := Scalar.addi v387 c13_i32
  let c0_i32_201 : BitVec 32 := 0#32
  ![0, v388.toNat, 0]
def k0_off70 (v412 : BitVec 32) : Fin 2 → Nat :=
  let c0_i32_206 : BitVec 32 := 0#32
  ![v412.toNat, 0]

def k0_chk39 (v412 : BitVec 32) : Prop :=
  (∀ a, (k0_off70 v412) a + S1x64.size a ≤ S1000000x64.size a)
instance k0_chk39.dec : ∀ (v412 : BitVec 32), Decidable (k0_chk39 v412) := fun v412 => decidable_of_iff' _ (Iff.of_eq (k0_chk39.eq_1 v412))
theorem k0_off70_inb : ∀ (v412 : BitVec 32) (k0_hw39 : k0_chk39 v412), ∀ a, (k0_off70 v412) a + S1x64.size a ≤ S1000000x64.size a := fun v412 k0_hw39 => k0_hw39

def k0_off71 (k0_t2 : Fin k0_t2_loop.trips) : Fin 3 → Nat :=
  let c0_i32_204 : BitVec 32 := 0#32
  let c0_i32_13 : BitVec 32 := 0#32
  let c1_i32_14 : BitVec 32 := 1#32
  let arg19 : BitVec 32 := Scf.iv c0_i32_13 c1_i32_14 k0_t2
  let c16_i32_203 : BitVec 32 := 16#32
  let v409 : BitVec 32 := Scalar.muli arg19 c16_i32_203
  let c14_i32 : BitVec 32 := 14#32
  let v410 : BitVec 32 := Scalar.addi v409 c14_i32
  let c0_i32_207 : BitVec 32 := 0#32
  ![0, v410.toNat, 0]
def k0_off72 (v422 : BitVec 32) : Fin 2 → Nat :=
  let c0_i32_211 : BitVec 32 := 0#32
  ![v422.toNat, 0]

def k0_chk40 (v422 : BitVec 32) : Prop :=
  (∀ a, (k0_off72 v422) a + S1x64.size a ≤ S100000x64.size a)
instance k0_chk40.dec : ∀ (v422 : BitVec 32), Decidable (k0_chk40 v422) := fun v422 => decidable_of_iff' _ (Iff.of_eq (k0_chk40.eq_1 v422))
theorem k0_off72_inb : ∀ (v422 : BitVec 32) (k0_hw40 : k0_chk40 v422), ∀ a, (k0_off72 v422) a + S1x64.size a ≤ S100000x64.size a := fun v422 k0_hw40 => k0_hw40

def k0_off73 (k0_t2 : Fin k0_t2_loop.trips) (c14_i32 : BitVec 32) : Fin 3 → Nat :=
  let c0_i32_209 : BitVec 32 := 0#32
  let c0_i32_13 : BitVec 32 := 0#32
  let c1_i32_14 : BitVec 32 := 1#32
  let arg19 : BitVec 32 := Scf.iv c0_i32_13 c1_i32_14 k0_t2
  let c16_i32_203 : BitVec 32 := 16#32
  let v409 : BitVec 32 := Scalar.muli arg19 c16_i32_203
  let v410 : BitVec 32 := Scalar.addi v409 c14_i32
  let c0_i32_212 : BitVec 32 := 0#32
  ![0, v410.toNat, 0]
def k0_off74 (v434 : BitVec 32) : Fin 2 → Nat :=
  let c0_i32_217 : BitVec 32 := 0#32
  ![v434.toNat, 0]

def k0_chk41 (v434 : BitVec 32) : Prop :=
  (∀ a, (k0_off74 v434) a + S1x64.size a ≤ S1000000x64.size a)
instance k0_chk41.dec : ∀ (v434 : BitVec 32), Decidable (k0_chk41 v434) := fun v434 => decidable_of_iff' _ (Iff.of_eq (k0_chk41.eq_1 v434))
theorem k0_off74_inb : ∀ (v434 : BitVec 32) (k0_hw41 : k0_chk41 v434), ∀ a, (k0_off74 v434) a + S1x64.size a ≤ S1000000x64.size a := fun v434 k0_hw41 => k0_hw41

def k0_off75 (k0_t2 : Fin k0_t2_loop.trips) : Fin 3 → Nat :=
  let c0_i32_215 : BitVec 32 := 0#32
  let c0_i32_13 : BitVec 32 := 0#32
  let c1_i32_14 : BitVec 32 := 1#32
  let arg19 : BitVec 32 := Scf.iv c0_i32_13 c1_i32_14 k0_t2
  let c16_i32_214 : BitVec 32 := 16#32
  let v431 : BitVec 32 := Scalar.muli arg19 c16_i32_214
  let c15_i32 : BitVec 32 := 15#32
  let v432 : BitVec 32 := Scalar.addi v431 c15_i32
  let c0_i32_218 : BitVec 32 := 0#32
  ![0, v432.toNat, 0]
def k0_off76 (v444 : BitVec 32) : Fin 2 → Nat :=
  let c0_i32_222 : BitVec 32 := 0#32
  ![v444.toNat, 0]

def k0_chk42 (v444 : BitVec 32) : Prop :=
  (∀ a, (k0_off76 v444) a + S1x64.size a ≤ S100000x64.size a)
instance k0_chk42.dec : ∀ (v444 : BitVec 32), Decidable (k0_chk42 v444) := fun v444 => decidable_of_iff' _ (Iff.of_eq (k0_chk42.eq_1 v444))
theorem k0_off76_inb : ∀ (v444 : BitVec 32) (k0_hw42 : k0_chk42 v444), ∀ a, (k0_off76 v444) a + S1x64.size a ≤ S100000x64.size a := fun v444 k0_hw42 => k0_hw42

def k0_off77 (k0_t2 : Fin k0_t2_loop.trips) : Fin 3 → Nat :=
  let c0_i32_220 : BitVec 32 := 0#32
  let c0_i32_13 : BitVec 32 := 0#32
  let c1_i32_14 : BitVec 32 := 1#32
  let arg19 : BitVec 32 := Scf.iv c0_i32_13 c1_i32_14 k0_t2
  let c16_i32_214 : BitVec 32 := 16#32
  let v431 : BitVec 32 := Scalar.muli arg19 c16_i32_214
  let c15_i32 : BitVec 32 := 15#32
  let v432 : BitVec 32 := Scalar.addi v431 c15_i32
  let c0_i32_223 : BitVec 32 := 0#32
  ![0, v432.toNat, 0]
@[reducible] def k0_t3_loop : Scf.Loop 32 :=
  let c0_i32_17 : BitVec 32 := 0#32
  let c8_i32_18 : BitVec 32 := 8#32
  let v46 : BitVec 32 := Scalar.addi c0_i32_17 c8_i32_18
  let c1_i32_19 : BitVec 32 := 1#32
  ⟨c0_i32_17, v46, c1_i32_19⟩
def k0_off78 (k0_t3 : Fin k0_t3_loop.trips) : Fin 1 → Nat :=
  let c128_i32 : BitVec 32 := 128#32
  let c0_i32_17 : BitVec 32 := 0#32
  let c1_i32_19 : BitVec 32 := 1#32
  let arg19 : BitVec 32 := Scf.iv c0_i32_17 c1_i32_19 k0_t3
  let c16_i32 : BitVec 32 := 16#32
  let v93 : BitVec 32 := Scalar.muli arg19 c16_i32
  let v94 : BitVec 32 := Scalar.addi c128_i32 v93
  let v95 : Index := Scalar.indexCast v94
  ![v95.toNat]
def k0_off79 (k0_t3 : Fin k0_t3_loop.trips) : Fin 3 → Nat :=
  let c1_i32_45 : BitVec 32 := 1#32
  let c0_i32_17 : BitVec 32 := 0#32
  let c1_i32_19 : BitVec 32 := 1#32
  let arg19 : BitVec 32 := Scf.iv c0_i32_17 c1_i32_19 k0_t3
  let c16_i32_43 : BitVec 32 := 16#32
  let v101 : BitVec 32 := Scalar.muli arg19 c16_i32_43
  let c0_i32_44 : BitVec 32 := 0#32
  let v102 : BitVec 32 := Scalar.addi v101 c0_i32_44
  let c0_i32_46 : BitVec 32 := 0#32
  ![1, v102.toNat, 0]
def k0_off80 (v104 : BitVec 32) : Fin 2 → Nat :=
  let c0_i32_47 : BitVec 32 := 0#32
  ![v104.toNat, 0]

def k0_chk43 (v104 : BitVec 32) : Prop :=
  (∀ a, (k0_off80 v104) a + S1x64.size a ≤ S1000000x64.size a)
instance k0_chk43.dec : ∀ (v104 : BitVec 32), Decidable (k0_chk43 v104) := fun v104 => decidable_of_iff' _ (Iff.of_eq (k0_chk43.eq_1 v104))
theorem k0_off80_inb : ∀ (v104 : BitVec 32) (k0_hw43 : k0_chk43 v104), ∀ a, (k0_off80 v104) a + S1x64.size a ≤ S1000000x64.size a := fun v104 k0_hw43 => k0_hw43

def k0_off81 (k0_t3 : Fin k0_t3_loop.trips) : Fin 3 → Nat :=
  let c1_i32_45 : BitVec 32 := 1#32
  let c0_i32_17 : BitVec 32 := 0#32
  let c1_i32_19 : BitVec 32 := 1#32
  let arg19 : BitVec 32 := Scf.iv c0_i32_17 c1_i32_19 k0_t3
  let c16_i32_43 : BitVec 32 := 16#32
  let v101 : BitVec 32 := Scalar.muli arg19 c16_i32_43
  let c0_i32_44 : BitVec 32 := 0#32
  let v102 : BitVec 32 := Scalar.addi v101 c0_i32_44
  let c0_i32_48 : BitVec 32 := 0#32
  ![1, v102.toNat, 0]
def k0_off82 (v114 : BitVec 32) : Fin 2 → Nat :=
  let c0_i32_52 : BitVec 32 := 0#32
  ![v114.toNat, 0]

def k0_chk44 (v114 : BitVec 32) : Prop :=
  (∀ a, (k0_off82 v114) a + S1x64.size a ≤ S100000x64.size a)
instance k0_chk44.dec : ∀ (v114 : BitVec 32), Decidable (k0_chk44 v114) := fun v114 => decidable_of_iff' _ (Iff.of_eq (k0_chk44.eq_1 v114))
theorem k0_off82_inb : ∀ (v114 : BitVec 32) (k0_hw44 : k0_chk44 v114), ∀ a, (k0_off82 v114) a + S1x64.size a ≤ S100000x64.size a := fun v114 k0_hw44 => k0_hw44

def k0_off83 (k0_t3 : Fin k0_t3_loop.trips) (c0_i32_44 : BitVec 32) : Fin 3 → Nat :=
  let c1_i32_50 : BitVec 32 := 1#32
  let c0_i32_17 : BitVec 32 := 0#32
  let c1_i32_19 : BitVec 32 := 1#32
  let arg19 : BitVec 32 := Scf.iv c0_i32_17 c1_i32_19 k0_t3
  let c16_i32_43 : BitVec 32 := 16#32
  let v101 : BitVec 32 := Scalar.muli arg19 c16_i32_43
  let v102 : BitVec 32 := Scalar.addi v101 c0_i32_44
  let c0_i32_53 : BitVec 32 := 0#32
  ![1, v102.toNat, 0]
def k0_off84 (v126 : BitVec 32) : Fin 2 → Nat :=
  let c0_i32_59 : BitVec 32 := 0#32
  ![v126.toNat, 0]

def k0_chk45 (v126 : BitVec 32) : Prop :=
  (∀ a, (k0_off84 v126) a + S1x64.size a ≤ S1000000x64.size a)
instance k0_chk45.dec : ∀ (v126 : BitVec 32), Decidable (k0_chk45 v126) := fun v126 => decidable_of_iff' _ (Iff.of_eq (k0_chk45.eq_1 v126))
theorem k0_off84_inb : ∀ (v126 : BitVec 32) (k0_hw45 : k0_chk45 v126), ∀ a, (k0_off84 v126) a + S1x64.size a ≤ S1000000x64.size a := fun v126 k0_hw45 => k0_hw45

def k0_off85 (k0_t3 : Fin k0_t3_loop.trips) : Fin 3 → Nat :=
  let c1_i32_57 : BitVec 32 := 1#32
  let c0_i32_17 : BitVec 32 := 0#32
  let c1_i32_19 : BitVec 32 := 1#32
  let arg19 : BitVec 32 := Scf.iv c0_i32_17 c1_i32_19 k0_t3
  let c16_i32_55 : BitVec 32 := 16#32
  let v123 : BitVec 32 := Scalar.muli arg19 c16_i32_55
  let c1_i32_56 : BitVec 32 := 1#32
  let v124 : BitVec 32 := Scalar.addi v123 c1_i32_56
  let c0_i32_60 : BitVec 32 := 0#32
  ![1, v124.toNat, 0]
def k0_off86 (v136 : BitVec 32) : Fin 2 → Nat :=
  let c0_i32_64 : BitVec 32 := 0#32
  ![v136.toNat, 0]

def k0_chk46 (v136 : BitVec 32) : Prop :=
  (∀ a, (k0_off86 v136) a + S1x64.size a ≤ S100000x64.size a)
instance k0_chk46.dec : ∀ (v136 : BitVec 32), Decidable (k0_chk46 v136) := fun v136 => decidable_of_iff' _ (Iff.of_eq (k0_chk46.eq_1 v136))
theorem k0_off86_inb : ∀ (v136 : BitVec 32) (k0_hw46 : k0_chk46 v136), ∀ a, (k0_off86 v136) a + S1x64.size a ≤ S100000x64.size a := fun v136 k0_hw46 => k0_hw46

def k0_off87 (k0_t3 : Fin k0_t3_loop.trips) (c1_i32_56 : BitVec 32) : Fin 3 → Nat :=
  let c1_i32_62 : BitVec 32 := 1#32
  let c0_i32_17 : BitVec 32 := 0#32
  let c1_i32_19 : BitVec 32 := 1#32
  let arg19 : BitVec 32 := Scf.iv c0_i32_17 c1_i32_19 k0_t3
  let c16_i32_55 : BitVec 32 := 16#32
  let v123 : BitVec 32 := Scalar.muli arg19 c16_i32_55
  let v124 : BitVec 32 := Scalar.addi v123 c1_i32_56
  let c0_i32_65 : BitVec 32 := 0#32
  ![1, v124.toNat, 0]
def k0_off88 (v148 : BitVec 32) : Fin 2 → Nat :=
  let c0_i32_71 : BitVec 32 := 0#32
  ![v148.toNat, 0]

def k0_chk47 (v148 : BitVec 32) : Prop :=
  (∀ a, (k0_off88 v148) a + S1x64.size a ≤ S1000000x64.size a)
instance k0_chk47.dec : ∀ (v148 : BitVec 32), Decidable (k0_chk47 v148) := fun v148 => decidable_of_iff' _ (Iff.of_eq (k0_chk47.eq_1 v148))
theorem k0_off88_inb : ∀ (v148 : BitVec 32) (k0_hw47 : k0_chk47 v148), ∀ a, (k0_off88 v148) a + S1x64.size a ≤ S1000000x64.size a := fun v148 k0_hw47 => k0_hw47

def k0_off89 (k0_t3 : Fin k0_t3_loop.trips) : Fin 3 → Nat :=
  let c1_i32_69 : BitVec 32 := 1#32
  let c0_i32_17 : BitVec 32 := 0#32
  let c1_i32_19 : BitVec 32 := 1#32
  let arg19 : BitVec 32 := Scf.iv c0_i32_17 c1_i32_19 k0_t3
  let c16_i32_67 : BitVec 32 := 16#32
  let v145 : BitVec 32 := Scalar.muli arg19 c16_i32_67
  let c2_i32_68 : BitVec 32 := 2#32
  let v146 : BitVec 32 := Scalar.addi v145 c2_i32_68
  let c0_i32_72 : BitVec 32 := 0#32
  ![1, v146.toNat, 0]
def k0_off90 (v158 : BitVec 32) : Fin 2 → Nat :=
  let c0_i32_76 : BitVec 32 := 0#32
  ![v158.toNat, 0]

def k0_chk48 (v158 : BitVec 32) : Prop :=
  (∀ a, (k0_off90 v158) a + S1x64.size a ≤ S100000x64.size a)
instance k0_chk48.dec : ∀ (v158 : BitVec 32), Decidable (k0_chk48 v158) := fun v158 => decidable_of_iff' _ (Iff.of_eq (k0_chk48.eq_1 v158))
theorem k0_off90_inb : ∀ (v158 : BitVec 32) (k0_hw48 : k0_chk48 v158), ∀ a, (k0_off90 v158) a + S1x64.size a ≤ S100000x64.size a := fun v158 k0_hw48 => k0_hw48

def k0_off91 (k0_t3 : Fin k0_t3_loop.trips) (c2_i32_68 : BitVec 32) : Fin 3 → Nat :=
  let c1_i32_74 : BitVec 32 := 1#32
  let c0_i32_17 : BitVec 32 := 0#32
  let c1_i32_19 : BitVec 32 := 1#32
  let arg19 : BitVec 32 := Scf.iv c0_i32_17 c1_i32_19 k0_t3
  let c16_i32_67 : BitVec 32 := 16#32
  let v145 : BitVec 32 := Scalar.muli arg19 c16_i32_67
  let v146 : BitVec 32 := Scalar.addi v145 c2_i32_68
  let c0_i32_77 : BitVec 32 := 0#32
  ![1, v146.toNat, 0]
def k0_off92 (v170 : BitVec 32) : Fin 2 → Nat :=
  let c0_i32_82 : BitVec 32 := 0#32
  ![v170.toNat, 0]

def k0_chk49 (v170 : BitVec 32) : Prop :=
  (∀ a, (k0_off92 v170) a + S1x64.size a ≤ S1000000x64.size a)
instance k0_chk49.dec : ∀ (v170 : BitVec 32), Decidable (k0_chk49 v170) := fun v170 => decidable_of_iff' _ (Iff.of_eq (k0_chk49.eq_1 v170))
theorem k0_off92_inb : ∀ (v170 : BitVec 32) (k0_hw49 : k0_chk49 v170), ∀ a, (k0_off92 v170) a + S1x64.size a ≤ S1000000x64.size a := fun v170 k0_hw49 => k0_hw49

def k0_off93 (k0_t3 : Fin k0_t3_loop.trips) : Fin 3 → Nat :=
  let c1_i32_80 : BitVec 32 := 1#32
  let c0_i32_17 : BitVec 32 := 0#32
  let c1_i32_19 : BitVec 32 := 1#32
  let arg19 : BitVec 32 := Scf.iv c0_i32_17 c1_i32_19 k0_t3
  let c16_i32_79 : BitVec 32 := 16#32
  let v167 : BitVec 32 := Scalar.muli arg19 c16_i32_79
  let c3_i32 : BitVec 32 := 3#32
  let v168 : BitVec 32 := Scalar.addi v167 c3_i32
  let c0_i32_83 : BitVec 32 := 0#32
  ![1, v168.toNat, 0]
def k0_off94 (v180 : BitVec 32) : Fin 2 → Nat :=
  let c0_i32_87 : BitVec 32 := 0#32
  ![v180.toNat, 0]

def k0_chk50 (v180 : BitVec 32) : Prop :=
  (∀ a, (k0_off94 v180) a + S1x64.size a ≤ S100000x64.size a)
instance k0_chk50.dec : ∀ (v180 : BitVec 32), Decidable (k0_chk50 v180) := fun v180 => decidable_of_iff' _ (Iff.of_eq (k0_chk50.eq_1 v180))
theorem k0_off94_inb : ∀ (v180 : BitVec 32) (k0_hw50 : k0_chk50 v180), ∀ a, (k0_off94 v180) a + S1x64.size a ≤ S100000x64.size a := fun v180 k0_hw50 => k0_hw50

def k0_off95 (k0_t3 : Fin k0_t3_loop.trips) (c3_i32 : BitVec 32) : Fin 3 → Nat :=
  let c1_i32_85 : BitVec 32 := 1#32
  let c0_i32_17 : BitVec 32 := 0#32
  let c1_i32_19 : BitVec 32 := 1#32
  let arg19 : BitVec 32 := Scf.iv c0_i32_17 c1_i32_19 k0_t3
  let c16_i32_79 : BitVec 32 := 16#32
  let v167 : BitVec 32 := Scalar.muli arg19 c16_i32_79
  let v168 : BitVec 32 := Scalar.addi v167 c3_i32
  let c0_i32_88 : BitVec 32 := 0#32
  ![1, v168.toNat, 0]
def k0_off96 (v192 : BitVec 32) : Fin 2 → Nat :=
  let c0_i32_94 : BitVec 32 := 0#32
  ![v192.toNat, 0]

def k0_chk51 (v192 : BitVec 32) : Prop :=
  (∀ a, (k0_off96 v192) a + S1x64.size a ≤ S1000000x64.size a)
instance k0_chk51.dec : ∀ (v192 : BitVec 32), Decidable (k0_chk51 v192) := fun v192 => decidable_of_iff' _ (Iff.of_eq (k0_chk51.eq_1 v192))
theorem k0_off96_inb : ∀ (v192 : BitVec 32) (k0_hw51 : k0_chk51 v192), ∀ a, (k0_off96 v192) a + S1x64.size a ≤ S1000000x64.size a := fun v192 k0_hw51 => k0_hw51

def k0_off97 (k0_t3 : Fin k0_t3_loop.trips) : Fin 3 → Nat :=
  let c1_i32_92 : BitVec 32 := 1#32
  let c0_i32_17 : BitVec 32 := 0#32
  let c1_i32_19 : BitVec 32 := 1#32
  let arg19 : BitVec 32 := Scf.iv c0_i32_17 c1_i32_19 k0_t3
  let c16_i32_90 : BitVec 32 := 16#32
  let v189 : BitVec 32 := Scalar.muli arg19 c16_i32_90
  let c4_i32_91 : BitVec 32 := 4#32
  let v190 : BitVec 32 := Scalar.addi v189 c4_i32_91
  let c0_i32_95 : BitVec 32 := 0#32
  ![1, v190.toNat, 0]
def k0_off98 (v202 : BitVec 32) : Fin 2 → Nat :=
  let c0_i32_99 : BitVec 32 := 0#32
  ![v202.toNat, 0]

def k0_chk52 (v202 : BitVec 32) : Prop :=
  (∀ a, (k0_off98 v202) a + S1x64.size a ≤ S100000x64.size a)
instance k0_chk52.dec : ∀ (v202 : BitVec 32), Decidable (k0_chk52 v202) := fun v202 => decidable_of_iff' _ (Iff.of_eq (k0_chk52.eq_1 v202))
theorem k0_off98_inb : ∀ (v202 : BitVec 32) (k0_hw52 : k0_chk52 v202), ∀ a, (k0_off98 v202) a + S1x64.size a ≤ S100000x64.size a := fun v202 k0_hw52 => k0_hw52

def k0_off99 (k0_t3 : Fin k0_t3_loop.trips) (c4_i32_91 : BitVec 32) : Fin 3 → Nat :=
  let c1_i32_97 : BitVec 32 := 1#32
  let c0_i32_17 : BitVec 32 := 0#32
  let c1_i32_19 : BitVec 32 := 1#32
  let arg19 : BitVec 32 := Scf.iv c0_i32_17 c1_i32_19 k0_t3
  let c16_i32_90 : BitVec 32 := 16#32
  let v189 : BitVec 32 := Scalar.muli arg19 c16_i32_90
  let v190 : BitVec 32 := Scalar.addi v189 c4_i32_91
  let c0_i32_100 : BitVec 32 := 0#32
  ![1, v190.toNat, 0]
def k0_off100 (v214 : BitVec 32) : Fin 2 → Nat :=
  let c0_i32_105 : BitVec 32 := 0#32
  ![v214.toNat, 0]

def k0_chk53 (v214 : BitVec 32) : Prop :=
  (∀ a, (k0_off100 v214) a + S1x64.size a ≤ S1000000x64.size a)
instance k0_chk53.dec : ∀ (v214 : BitVec 32), Decidable (k0_chk53 v214) := fun v214 => decidable_of_iff' _ (Iff.of_eq (k0_chk53.eq_1 v214))
theorem k0_off100_inb : ∀ (v214 : BitVec 32) (k0_hw53 : k0_chk53 v214), ∀ a, (k0_off100 v214) a + S1x64.size a ≤ S1000000x64.size a := fun v214 k0_hw53 => k0_hw53

def k0_off101 (k0_t3 : Fin k0_t3_loop.trips) : Fin 3 → Nat :=
  let c1_i32_103 : BitVec 32 := 1#32
  let c0_i32_17 : BitVec 32 := 0#32
  let c1_i32_19 : BitVec 32 := 1#32
  let arg19 : BitVec 32 := Scf.iv c0_i32_17 c1_i32_19 k0_t3
  let c16_i32_102 : BitVec 32 := 16#32
  let v211 : BitVec 32 := Scalar.muli arg19 c16_i32_102
  let c5_i32 : BitVec 32 := 5#32
  let v212 : BitVec 32 := Scalar.addi v211 c5_i32
  let c0_i32_106 : BitVec 32 := 0#32
  ![1, v212.toNat, 0]
def k0_off102 (v224 : BitVec 32) : Fin 2 → Nat :=
  let c0_i32_110 : BitVec 32 := 0#32
  ![v224.toNat, 0]

def k0_chk54 (v224 : BitVec 32) : Prop :=
  (∀ a, (k0_off102 v224) a + S1x64.size a ≤ S100000x64.size a)
instance k0_chk54.dec : ∀ (v224 : BitVec 32), Decidable (k0_chk54 v224) := fun v224 => decidable_of_iff' _ (Iff.of_eq (k0_chk54.eq_1 v224))
theorem k0_off102_inb : ∀ (v224 : BitVec 32) (k0_hw54 : k0_chk54 v224), ∀ a, (k0_off102 v224) a + S1x64.size a ≤ S100000x64.size a := fun v224 k0_hw54 => k0_hw54

def k0_off103 (k0_t3 : Fin k0_t3_loop.trips) (c5_i32 : BitVec 32) : Fin 3 → Nat :=
  let c1_i32_108 : BitVec 32 := 1#32
  let c0_i32_17 : BitVec 32 := 0#32
  let c1_i32_19 : BitVec 32 := 1#32
  let arg19 : BitVec 32 := Scf.iv c0_i32_17 c1_i32_19 k0_t3
  let c16_i32_102 : BitVec 32 := 16#32
  let v211 : BitVec 32 := Scalar.muli arg19 c16_i32_102
  let v212 : BitVec 32 := Scalar.addi v211 c5_i32
  let c0_i32_111 : BitVec 32 := 0#32
  ![1, v212.toNat, 0]
def k0_off104 (v236 : BitVec 32) : Fin 2 → Nat :=
  let c0_i32_116 : BitVec 32 := 0#32
  ![v236.toNat, 0]

def k0_chk55 (v236 : BitVec 32) : Prop :=
  (∀ a, (k0_off104 v236) a + S1x64.size a ≤ S1000000x64.size a)
instance k0_chk55.dec : ∀ (v236 : BitVec 32), Decidable (k0_chk55 v236) := fun v236 => decidable_of_iff' _ (Iff.of_eq (k0_chk55.eq_1 v236))
theorem k0_off104_inb : ∀ (v236 : BitVec 32) (k0_hw55 : k0_chk55 v236), ∀ a, (k0_off104 v236) a + S1x64.size a ≤ S1000000x64.size a := fun v236 k0_hw55 => k0_hw55

def k0_off105 (k0_t3 : Fin k0_t3_loop.trips) : Fin 3 → Nat :=
  let c1_i32_114 : BitVec 32 := 1#32
  let c0_i32_17 : BitVec 32 := 0#32
  let c1_i32_19 : BitVec 32 := 1#32
  let arg19 : BitVec 32 := Scf.iv c0_i32_17 c1_i32_19 k0_t3
  let c16_i32_113 : BitVec 32 := 16#32
  let v233 : BitVec 32 := Scalar.muli arg19 c16_i32_113
  let c6_i32 : BitVec 32 := 6#32
  let v234 : BitVec 32 := Scalar.addi v233 c6_i32
  let c0_i32_117 : BitVec 32 := 0#32
  ![1, v234.toNat, 0]
def k0_off106 (v246 : BitVec 32) : Fin 2 → Nat :=
  let c0_i32_121 : BitVec 32 := 0#32
  ![v246.toNat, 0]

def k0_chk56 (v246 : BitVec 32) : Prop :=
  (∀ a, (k0_off106 v246) a + S1x64.size a ≤ S100000x64.size a)
instance k0_chk56.dec : ∀ (v246 : BitVec 32), Decidable (k0_chk56 v246) := fun v246 => decidable_of_iff' _ (Iff.of_eq (k0_chk56.eq_1 v246))
theorem k0_off106_inb : ∀ (v246 : BitVec 32) (k0_hw56 : k0_chk56 v246), ∀ a, (k0_off106 v246) a + S1x64.size a ≤ S100000x64.size a := fun v246 k0_hw56 => k0_hw56

def k0_off107 (k0_t3 : Fin k0_t3_loop.trips) (c6_i32 : BitVec 32) : Fin 3 → Nat :=
  let c1_i32_119 : BitVec 32 := 1#32
  let c0_i32_17 : BitVec 32 := 0#32
  let c1_i32_19 : BitVec 32 := 1#32
  let arg19 : BitVec 32 := Scf.iv c0_i32_17 c1_i32_19 k0_t3
  let c16_i32_113 : BitVec 32 := 16#32
  let v233 : BitVec 32 := Scalar.muli arg19 c16_i32_113
  let v234 : BitVec 32 := Scalar.addi v233 c6_i32
  let c0_i32_122 : BitVec 32 := 0#32
  ![1, v234.toNat, 0]
def k0_off108 (v258 : BitVec 32) : Fin 2 → Nat :=
  let c0_i32_127 : BitVec 32 := 0#32
  ![v258.toNat, 0]

def k0_chk57 (v258 : BitVec 32) : Prop :=
  (∀ a, (k0_off108 v258) a + S1x64.size a ≤ S1000000x64.size a)
instance k0_chk57.dec : ∀ (v258 : BitVec 32), Decidable (k0_chk57 v258) := fun v258 => decidable_of_iff' _ (Iff.of_eq (k0_chk57.eq_1 v258))
theorem k0_off108_inb : ∀ (v258 : BitVec 32) (k0_hw57 : k0_chk57 v258), ∀ a, (k0_off108 v258) a + S1x64.size a ≤ S1000000x64.size a := fun v258 k0_hw57 => k0_hw57

def k0_off109 (k0_t3 : Fin k0_t3_loop.trips) : Fin 3 → Nat :=
  let c1_i32_125 : BitVec 32 := 1#32
  let c0_i32_17 : BitVec 32 := 0#32
  let c1_i32_19 : BitVec 32 := 1#32
  let arg19 : BitVec 32 := Scf.iv c0_i32_17 c1_i32_19 k0_t3
  let c16_i32_124 : BitVec 32 := 16#32
  let v255 : BitVec 32 := Scalar.muli arg19 c16_i32_124
  let c7_i32 : BitVec 32 := 7#32
  let v256 : BitVec 32 := Scalar.addi v255 c7_i32
  let c0_i32_128 : BitVec 32 := 0#32
  ![1, v256.toNat, 0]
def k0_off110 (v268 : BitVec 32) : Fin 2 → Nat :=
  let c0_i32_132 : BitVec 32 := 0#32
  ![v268.toNat, 0]

def k0_chk58 (v268 : BitVec 32) : Prop :=
  (∀ a, (k0_off110 v268) a + S1x64.size a ≤ S100000x64.size a)
instance k0_chk58.dec : ∀ (v268 : BitVec 32), Decidable (k0_chk58 v268) := fun v268 => decidable_of_iff' _ (Iff.of_eq (k0_chk58.eq_1 v268))
theorem k0_off110_inb : ∀ (v268 : BitVec 32) (k0_hw58 : k0_chk58 v268), ∀ a, (k0_off110 v268) a + S1x64.size a ≤ S100000x64.size a := fun v268 k0_hw58 => k0_hw58

def k0_off111 (k0_t3 : Fin k0_t3_loop.trips) (c7_i32 : BitVec 32) : Fin 3 → Nat :=
  let c1_i32_130 : BitVec 32 := 1#32
  let c0_i32_17 : BitVec 32 := 0#32
  let c1_i32_19 : BitVec 32 := 1#32
  let arg19 : BitVec 32 := Scf.iv c0_i32_17 c1_i32_19 k0_t3
  let c16_i32_124 : BitVec 32 := 16#32
  let v255 : BitVec 32 := Scalar.muli arg19 c16_i32_124
  let v256 : BitVec 32 := Scalar.addi v255 c7_i32
  let c0_i32_133 : BitVec 32 := 0#32
  ![1, v256.toNat, 0]
def k0_off112 (v280 : BitVec 32) : Fin 2 → Nat :=
  let c0_i32_139 : BitVec 32 := 0#32
  ![v280.toNat, 0]

def k0_chk59 (v280 : BitVec 32) : Prop :=
  (∀ a, (k0_off112 v280) a + S1x64.size a ≤ S1000000x64.size a)
instance k0_chk59.dec : ∀ (v280 : BitVec 32), Decidable (k0_chk59 v280) := fun v280 => decidable_of_iff' _ (Iff.of_eq (k0_chk59.eq_1 v280))
theorem k0_off112_inb : ∀ (v280 : BitVec 32) (k0_hw59 : k0_chk59 v280), ∀ a, (k0_off112 v280) a + S1x64.size a ≤ S1000000x64.size a := fun v280 k0_hw59 => k0_hw59

def k0_off113 (k0_t3 : Fin k0_t3_loop.trips) : Fin 3 → Nat :=
  let c1_i32_137 : BitVec 32 := 1#32
  let c0_i32_17 : BitVec 32 := 0#32
  let c1_i32_19 : BitVec 32 := 1#32
  let arg19 : BitVec 32 := Scf.iv c0_i32_17 c1_i32_19 k0_t3
  let c16_i32_135 : BitVec 32 := 16#32
  let v277 : BitVec 32 := Scalar.muli arg19 c16_i32_135
  let c8_i32_136 : BitVec 32 := 8#32
  let v278 : BitVec 32 := Scalar.addi v277 c8_i32_136
  let c0_i32_140 : BitVec 32 := 0#32
  ![1, v278.toNat, 0]
def k0_off114 (v290 : BitVec 32) : Fin 2 → Nat :=
  let c0_i32_144 : BitVec 32 := 0#32
  ![v290.toNat, 0]

def k0_chk60 (v290 : BitVec 32) : Prop :=
  (∀ a, (k0_off114 v290) a + S1x64.size a ≤ S100000x64.size a)
instance k0_chk60.dec : ∀ (v290 : BitVec 32), Decidable (k0_chk60 v290) := fun v290 => decidable_of_iff' _ (Iff.of_eq (k0_chk60.eq_1 v290))
theorem k0_off114_inb : ∀ (v290 : BitVec 32) (k0_hw60 : k0_chk60 v290), ∀ a, (k0_off114 v290) a + S1x64.size a ≤ S100000x64.size a := fun v290 k0_hw60 => k0_hw60

def k0_off115 (k0_t3 : Fin k0_t3_loop.trips) (c8_i32_136 : BitVec 32) : Fin 3 → Nat :=
  let c1_i32_142 : BitVec 32 := 1#32
  let c0_i32_17 : BitVec 32 := 0#32
  let c1_i32_19 : BitVec 32 := 1#32
  let arg19 : BitVec 32 := Scf.iv c0_i32_17 c1_i32_19 k0_t3
  let c16_i32_135 : BitVec 32 := 16#32
  let v277 : BitVec 32 := Scalar.muli arg19 c16_i32_135
  let v278 : BitVec 32 := Scalar.addi v277 c8_i32_136
  let c0_i32_145 : BitVec 32 := 0#32
  ![1, v278.toNat, 0]
def k0_off116 (v302 : BitVec 32) : Fin 2 → Nat :=
  let c0_i32_150 : BitVec 32 := 0#32
  ![v302.toNat, 0]

def k0_chk61 (v302 : BitVec 32) : Prop :=
  (∀ a, (k0_off116 v302) a + S1x64.size a ≤ S1000000x64.size a)
instance k0_chk61.dec : ∀ (v302 : BitVec 32), Decidable (k0_chk61 v302) := fun v302 => decidable_of_iff' _ (Iff.of_eq (k0_chk61.eq_1 v302))
theorem k0_off116_inb : ∀ (v302 : BitVec 32) (k0_hw61 : k0_chk61 v302), ∀ a, (k0_off116 v302) a + S1x64.size a ≤ S1000000x64.size a := fun v302 k0_hw61 => k0_hw61

def k0_off117 (k0_t3 : Fin k0_t3_loop.trips) : Fin 3 → Nat :=
  let c1_i32_148 : BitVec 32 := 1#32
  let c0_i32_17 : BitVec 32 := 0#32
  let c1_i32_19 : BitVec 32 := 1#32
  let arg19 : BitVec 32 := Scf.iv c0_i32_17 c1_i32_19 k0_t3
  let c16_i32_147 : BitVec 32 := 16#32
  let v299 : BitVec 32 := Scalar.muli arg19 c16_i32_147
  let c9_i32 : BitVec 32 := 9#32
  let v300 : BitVec 32 := Scalar.addi v299 c9_i32
  let c0_i32_151 : BitVec 32 := 0#32
  ![1, v300.toNat, 0]
def k0_off118 (v312 : BitVec 32) : Fin 2 → Nat :=
  let c0_i32_155 : BitVec 32 := 0#32
  ![v312.toNat, 0]

def k0_chk62 (v312 : BitVec 32) : Prop :=
  (∀ a, (k0_off118 v312) a + S1x64.size a ≤ S100000x64.size a)
instance k0_chk62.dec : ∀ (v312 : BitVec 32), Decidable (k0_chk62 v312) := fun v312 => decidable_of_iff' _ (Iff.of_eq (k0_chk62.eq_1 v312))
theorem k0_off118_inb : ∀ (v312 : BitVec 32) (k0_hw62 : k0_chk62 v312), ∀ a, (k0_off118 v312) a + S1x64.size a ≤ S100000x64.size a := fun v312 k0_hw62 => k0_hw62

def k0_off119 (k0_t3 : Fin k0_t3_loop.trips) (c9_i32 : BitVec 32) : Fin 3 → Nat :=
  let c1_i32_153 : BitVec 32 := 1#32
  let c0_i32_17 : BitVec 32 := 0#32
  let c1_i32_19 : BitVec 32 := 1#32
  let arg19 : BitVec 32 := Scf.iv c0_i32_17 c1_i32_19 k0_t3
  let c16_i32_147 : BitVec 32 := 16#32
  let v299 : BitVec 32 := Scalar.muli arg19 c16_i32_147
  let v300 : BitVec 32 := Scalar.addi v299 c9_i32
  let c0_i32_156 : BitVec 32 := 0#32
  ![1, v300.toNat, 0]
def k0_off120 (v324 : BitVec 32) : Fin 2 → Nat :=
  let c0_i32_161 : BitVec 32 := 0#32
  ![v324.toNat, 0]

def k0_chk63 (v324 : BitVec 32) : Prop :=
  (∀ a, (k0_off120 v324) a + S1x64.size a ≤ S1000000x64.size a)
instance k0_chk63.dec : ∀ (v324 : BitVec 32), Decidable (k0_chk63 v324) := fun v324 => decidable_of_iff' _ (Iff.of_eq (k0_chk63.eq_1 v324))
theorem k0_off120_inb : ∀ (v324 : BitVec 32) (k0_hw63 : k0_chk63 v324), ∀ a, (k0_off120 v324) a + S1x64.size a ≤ S1000000x64.size a := fun v324 k0_hw63 => k0_hw63

def k0_off121 (k0_t3 : Fin k0_t3_loop.trips) : Fin 3 → Nat :=
  let c1_i32_159 : BitVec 32 := 1#32
  let c0_i32_17 : BitVec 32 := 0#32
  let c1_i32_19 : BitVec 32 := 1#32
  let arg19 : BitVec 32 := Scf.iv c0_i32_17 c1_i32_19 k0_t3
  let c16_i32_158 : BitVec 32 := 16#32
  let v321 : BitVec 32 := Scalar.muli arg19 c16_i32_158
  let c10_i32 : BitVec 32 := 10#32
  let v322 : BitVec 32 := Scalar.addi v321 c10_i32
  let c0_i32_162 : BitVec 32 := 0#32
  ![1, v322.toNat, 0]
def k0_off122 (v334 : BitVec 32) : Fin 2 → Nat :=
  let c0_i32_166 : BitVec 32 := 0#32
  ![v334.toNat, 0]

def k0_chk64 (v334 : BitVec 32) : Prop :=
  (∀ a, (k0_off122 v334) a + S1x64.size a ≤ S100000x64.size a)
instance k0_chk64.dec : ∀ (v334 : BitVec 32), Decidable (k0_chk64 v334) := fun v334 => decidable_of_iff' _ (Iff.of_eq (k0_chk64.eq_1 v334))
theorem k0_off122_inb : ∀ (v334 : BitVec 32) (k0_hw64 : k0_chk64 v334), ∀ a, (k0_off122 v334) a + S1x64.size a ≤ S100000x64.size a := fun v334 k0_hw64 => k0_hw64

def k0_off123 (k0_t3 : Fin k0_t3_loop.trips) (c10_i32 : BitVec 32) : Fin 3 → Nat :=
  let c1_i32_164 : BitVec 32 := 1#32
  let c0_i32_17 : BitVec 32 := 0#32
  let c1_i32_19 : BitVec 32 := 1#32
  let arg19 : BitVec 32 := Scf.iv c0_i32_17 c1_i32_19 k0_t3
  let c16_i32_158 : BitVec 32 := 16#32
  let v321 : BitVec 32 := Scalar.muli arg19 c16_i32_158
  let v322 : BitVec 32 := Scalar.addi v321 c10_i32
  let c0_i32_167 : BitVec 32 := 0#32
  ![1, v322.toNat, 0]
def k0_off124 (v346 : BitVec 32) : Fin 2 → Nat :=
  let c0_i32_172 : BitVec 32 := 0#32
  ![v346.toNat, 0]

def k0_chk65 (v346 : BitVec 32) : Prop :=
  (∀ a, (k0_off124 v346) a + S1x64.size a ≤ S1000000x64.size a)
instance k0_chk65.dec : ∀ (v346 : BitVec 32), Decidable (k0_chk65 v346) := fun v346 => decidable_of_iff' _ (Iff.of_eq (k0_chk65.eq_1 v346))
theorem k0_off124_inb : ∀ (v346 : BitVec 32) (k0_hw65 : k0_chk65 v346), ∀ a, (k0_off124 v346) a + S1x64.size a ≤ S1000000x64.size a := fun v346 k0_hw65 => k0_hw65

def k0_off125 (k0_t3 : Fin k0_t3_loop.trips) : Fin 3 → Nat :=
  let c1_i32_170 : BitVec 32 := 1#32
  let c0_i32_17 : BitVec 32 := 0#32
  let c1_i32_19 : BitVec 32 := 1#32
  let arg19 : BitVec 32 := Scf.iv c0_i32_17 c1_i32_19 k0_t3
  let c16_i32_169 : BitVec 32 := 16#32
  let v343 : BitVec 32 := Scalar.muli arg19 c16_i32_169
  let c11_i32 : BitVec 32 := 11#32
  let v344 : BitVec 32 := Scalar.addi v343 c11_i32
  let c0_i32_173 : BitVec 32 := 0#32
  ![1, v344.toNat, 0]
def k0_off126 (v356 : BitVec 32) : Fin 2 → Nat :=
  let c0_i32_177 : BitVec 32 := 0#32
  ![v356.toNat, 0]

def k0_chk66 (v356 : BitVec 32) : Prop :=
  (∀ a, (k0_off126 v356) a + S1x64.size a ≤ S100000x64.size a)
instance k0_chk66.dec : ∀ (v356 : BitVec 32), Decidable (k0_chk66 v356) := fun v356 => decidable_of_iff' _ (Iff.of_eq (k0_chk66.eq_1 v356))
theorem k0_off126_inb : ∀ (v356 : BitVec 32) (k0_hw66 : k0_chk66 v356), ∀ a, (k0_off126 v356) a + S1x64.size a ≤ S100000x64.size a := fun v356 k0_hw66 => k0_hw66

def k0_off127 (k0_t3 : Fin k0_t3_loop.trips) (c11_i32 : BitVec 32) : Fin 3 → Nat :=
  let c1_i32_175 : BitVec 32 := 1#32
  let c0_i32_17 : BitVec 32 := 0#32
  let c1_i32_19 : BitVec 32 := 1#32
  let arg19 : BitVec 32 := Scf.iv c0_i32_17 c1_i32_19 k0_t3
  let c16_i32_169 : BitVec 32 := 16#32
  let v343 : BitVec 32 := Scalar.muli arg19 c16_i32_169
  let v344 : BitVec 32 := Scalar.addi v343 c11_i32
  let c0_i32_178 : BitVec 32 := 0#32
  ![1, v344.toNat, 0]
def k0_off128 (v368 : BitVec 32) : Fin 2 → Nat :=
  let c0_i32_183 : BitVec 32 := 0#32
  ![v368.toNat, 0]

def k0_chk67 (v368 : BitVec 32) : Prop :=
  (∀ a, (k0_off128 v368) a + S1x64.size a ≤ S1000000x64.size a)
instance k0_chk67.dec : ∀ (v368 : BitVec 32), Decidable (k0_chk67 v368) := fun v368 => decidable_of_iff' _ (Iff.of_eq (k0_chk67.eq_1 v368))
theorem k0_off128_inb : ∀ (v368 : BitVec 32) (k0_hw67 : k0_chk67 v368), ∀ a, (k0_off128 v368) a + S1x64.size a ≤ S1000000x64.size a := fun v368 k0_hw67 => k0_hw67

def k0_off129 (k0_t3 : Fin k0_t3_loop.trips) : Fin 3 → Nat :=
  let c1_i32_181 : BitVec 32 := 1#32
  let c0_i32_17 : BitVec 32 := 0#32
  let c1_i32_19 : BitVec 32 := 1#32
  let arg19 : BitVec 32 := Scf.iv c0_i32_17 c1_i32_19 k0_t3
  let c16_i32_180 : BitVec 32 := 16#32
  let v365 : BitVec 32 := Scalar.muli arg19 c16_i32_180
  let c12_i32 : BitVec 32 := 12#32
  let v366 : BitVec 32 := Scalar.addi v365 c12_i32
  let c0_i32_184 : BitVec 32 := 0#32
  ![1, v366.toNat, 0]
def k0_off130 (v378 : BitVec 32) : Fin 2 → Nat :=
  let c0_i32_188 : BitVec 32 := 0#32
  ![v378.toNat, 0]

def k0_chk68 (v378 : BitVec 32) : Prop :=
  (∀ a, (k0_off130 v378) a + S1x64.size a ≤ S100000x64.size a)
instance k0_chk68.dec : ∀ (v378 : BitVec 32), Decidable (k0_chk68 v378) := fun v378 => decidable_of_iff' _ (Iff.of_eq (k0_chk68.eq_1 v378))
theorem k0_off130_inb : ∀ (v378 : BitVec 32) (k0_hw68 : k0_chk68 v378), ∀ a, (k0_off130 v378) a + S1x64.size a ≤ S100000x64.size a := fun v378 k0_hw68 => k0_hw68

def k0_off131 (k0_t3 : Fin k0_t3_loop.trips) (c12_i32 : BitVec 32) : Fin 3 → Nat :=
  let c1_i32_186 : BitVec 32 := 1#32
  let c0_i32_17 : BitVec 32 := 0#32
  let c1_i32_19 : BitVec 32 := 1#32
  let arg19 : BitVec 32 := Scf.iv c0_i32_17 c1_i32_19 k0_t3
  let c16_i32_180 : BitVec 32 := 16#32
  let v365 : BitVec 32 := Scalar.muli arg19 c16_i32_180
  let v366 : BitVec 32 := Scalar.addi v365 c12_i32
  let c0_i32_189 : BitVec 32 := 0#32
  ![1, v366.toNat, 0]
def k0_off132 (v390 : BitVec 32) : Fin 2 → Nat :=
  let c0_i32_194 : BitVec 32 := 0#32
  ![v390.toNat, 0]

def k0_chk69 (v390 : BitVec 32) : Prop :=
  (∀ a, (k0_off132 v390) a + S1x64.size a ≤ S1000000x64.size a)
instance k0_chk69.dec : ∀ (v390 : BitVec 32), Decidable (k0_chk69 v390) := fun v390 => decidable_of_iff' _ (Iff.of_eq (k0_chk69.eq_1 v390))
theorem k0_off132_inb : ∀ (v390 : BitVec 32) (k0_hw69 : k0_chk69 v390), ∀ a, (k0_off132 v390) a + S1x64.size a ≤ S1000000x64.size a := fun v390 k0_hw69 => k0_hw69

def k0_off133 (k0_t3 : Fin k0_t3_loop.trips) : Fin 3 → Nat :=
  let c1_i32_192 : BitVec 32 := 1#32
  let c0_i32_17 : BitVec 32 := 0#32
  let c1_i32_19 : BitVec 32 := 1#32
  let arg19 : BitVec 32 := Scf.iv c0_i32_17 c1_i32_19 k0_t3
  let c16_i32_191 : BitVec 32 := 16#32
  let v387 : BitVec 32 := Scalar.muli arg19 c16_i32_191
  let c13_i32 : BitVec 32 := 13#32
  let v388 : BitVec 32 := Scalar.addi v387 c13_i32
  let c0_i32_195 : BitVec 32 := 0#32
  ![1, v388.toNat, 0]
def k0_off134 (v400 : BitVec 32) : Fin 2 → Nat :=
  let c0_i32_199 : BitVec 32 := 0#32
  ![v400.toNat, 0]

def k0_chk70 (v400 : BitVec 32) : Prop :=
  (∀ a, (k0_off134 v400) a + S1x64.size a ≤ S100000x64.size a)
instance k0_chk70.dec : ∀ (v400 : BitVec 32), Decidable (k0_chk70 v400) := fun v400 => decidable_of_iff' _ (Iff.of_eq (k0_chk70.eq_1 v400))
theorem k0_off134_inb : ∀ (v400 : BitVec 32) (k0_hw70 : k0_chk70 v400), ∀ a, (k0_off134 v400) a + S1x64.size a ≤ S100000x64.size a := fun v400 k0_hw70 => k0_hw70

def k0_off135 (k0_t3 : Fin k0_t3_loop.trips) (c13_i32 : BitVec 32) : Fin 3 → Nat :=
  let c1_i32_197 : BitVec 32 := 1#32
  let c0_i32_17 : BitVec 32 := 0#32
  let c1_i32_19 : BitVec 32 := 1#32
  let arg19 : BitVec 32 := Scf.iv c0_i32_17 c1_i32_19 k0_t3
  let c16_i32_191 : BitVec 32 := 16#32
  let v387 : BitVec 32 := Scalar.muli arg19 c16_i32_191
  let v388 : BitVec 32 := Scalar.addi v387 c13_i32
  let c0_i32_200 : BitVec 32 := 0#32
  ![1, v388.toNat, 0]
def k0_off136 (v412 : BitVec 32) : Fin 2 → Nat :=
  let c0_i32_205 : BitVec 32 := 0#32
  ![v412.toNat, 0]

def k0_chk71 (v412 : BitVec 32) : Prop :=
  (∀ a, (k0_off136 v412) a + S1x64.size a ≤ S1000000x64.size a)
instance k0_chk71.dec : ∀ (v412 : BitVec 32), Decidable (k0_chk71 v412) := fun v412 => decidable_of_iff' _ (Iff.of_eq (k0_chk71.eq_1 v412))
theorem k0_off136_inb : ∀ (v412 : BitVec 32) (k0_hw71 : k0_chk71 v412), ∀ a, (k0_off136 v412) a + S1x64.size a ≤ S1000000x64.size a := fun v412 k0_hw71 => k0_hw71

def k0_off137 (k0_t3 : Fin k0_t3_loop.trips) : Fin 3 → Nat :=
  let c1_i32_203 : BitVec 32 := 1#32
  let c0_i32_17 : BitVec 32 := 0#32
  let c1_i32_19 : BitVec 32 := 1#32
  let arg19 : BitVec 32 := Scf.iv c0_i32_17 c1_i32_19 k0_t3
  let c16_i32_202 : BitVec 32 := 16#32
  let v409 : BitVec 32 := Scalar.muli arg19 c16_i32_202
  let c14_i32 : BitVec 32 := 14#32
  let v410 : BitVec 32 := Scalar.addi v409 c14_i32
  let c0_i32_206 : BitVec 32 := 0#32
  ![1, v410.toNat, 0]
def k0_off138 (v422 : BitVec 32) : Fin 2 → Nat :=
  let c0_i32_210 : BitVec 32 := 0#32
  ![v422.toNat, 0]

def k0_chk72 (v422 : BitVec 32) : Prop :=
  (∀ a, (k0_off138 v422) a + S1x64.size a ≤ S100000x64.size a)
instance k0_chk72.dec : ∀ (v422 : BitVec 32), Decidable (k0_chk72 v422) := fun v422 => decidable_of_iff' _ (Iff.of_eq (k0_chk72.eq_1 v422))
theorem k0_off138_inb : ∀ (v422 : BitVec 32) (k0_hw72 : k0_chk72 v422), ∀ a, (k0_off138 v422) a + S1x64.size a ≤ S100000x64.size a := fun v422 k0_hw72 => k0_hw72

def k0_off139 (k0_t3 : Fin k0_t3_loop.trips) (c14_i32 : BitVec 32) : Fin 3 → Nat :=
  let c1_i32_208 : BitVec 32 := 1#32
  let c0_i32_17 : BitVec 32 := 0#32
  let c1_i32_19 : BitVec 32 := 1#32
  let arg19 : BitVec 32 := Scf.iv c0_i32_17 c1_i32_19 k0_t3
  let c16_i32_202 : BitVec 32 := 16#32
  let v409 : BitVec 32 := Scalar.muli arg19 c16_i32_202
  let v410 : BitVec 32 := Scalar.addi v409 c14_i32
  let c0_i32_211 : BitVec 32 := 0#32
  ![1, v410.toNat, 0]
def k0_off140 (v434 : BitVec 32) : Fin 2 → Nat :=
  let c0_i32_216 : BitVec 32 := 0#32
  ![v434.toNat, 0]

def k0_chk73 (v434 : BitVec 32) : Prop :=
  (∀ a, (k0_off140 v434) a + S1x64.size a ≤ S1000000x64.size a)
instance k0_chk73.dec : ∀ (v434 : BitVec 32), Decidable (k0_chk73 v434) := fun v434 => decidable_of_iff' _ (Iff.of_eq (k0_chk73.eq_1 v434))
theorem k0_off140_inb : ∀ (v434 : BitVec 32) (k0_hw73 : k0_chk73 v434), ∀ a, (k0_off140 v434) a + S1x64.size a ≤ S1000000x64.size a := fun v434 k0_hw73 => k0_hw73

def k0_off141 (k0_t3 : Fin k0_t3_loop.trips) : Fin 3 → Nat :=
  let c1_i32_214 : BitVec 32 := 1#32
  let c0_i32_17 : BitVec 32 := 0#32
  let c1_i32_19 : BitVec 32 := 1#32
  let arg19 : BitVec 32 := Scf.iv c0_i32_17 c1_i32_19 k0_t3
  let c16_i32_213 : BitVec 32 := 16#32
  let v431 : BitVec 32 := Scalar.muli arg19 c16_i32_213
  let c15_i32 : BitVec 32 := 15#32
  let v432 : BitVec 32 := Scalar.addi v431 c15_i32
  let c0_i32_217 : BitVec 32 := 0#32
  ![1, v432.toNat, 0]
def k0_off142 (v444 : BitVec 32) : Fin 2 → Nat :=
  let c0_i32_221 : BitVec 32 := 0#32
  ![v444.toNat, 0]

def k0_chk74 (v444 : BitVec 32) : Prop :=
  (∀ a, (k0_off142 v444) a + S1x64.size a ≤ S100000x64.size a)
instance k0_chk74.dec : ∀ (v444 : BitVec 32), Decidable (k0_chk74 v444) := fun v444 => decidable_of_iff' _ (Iff.of_eq (k0_chk74.eq_1 v444))
theorem k0_off142_inb : ∀ (v444 : BitVec 32) (k0_hw74 : k0_chk74 v444), ∀ a, (k0_off142 v444) a + S1x64.size a ≤ S100000x64.size a := fun v444 k0_hw74 => k0_hw74

def k0_off143 (k0_t3 : Fin k0_t3_loop.trips) : Fin 3 → Nat :=
  let c1_i32_219 : BitVec 32 := 1#32
  let c0_i32_17 : BitVec 32 := 0#32
  let c1_i32_19 : BitVec 32 := 1#32
  let arg19 : BitVec 32 := Scf.iv c0_i32_17 c1_i32_19 k0_t3
  let c16_i32_213 : BitVec 32 := 16#32
  let v431 : BitVec 32 := Scalar.muli arg19 c16_i32_213
  let c15_i32 : BitVec 32 := 15#32
  let v432 : BitVec 32 := Scalar.addi v431 c15_i32
  let c0_i32_222 : BitVec 32 := 0#32
  ![1, v432.toNat, 0]
@[reducible] def k0_t4_loop : Scf.Loop 32 :=
  let c0_i32_22 : BitVec 32 := 0#32
  let c4_i32 : BitVec 32 := 4#32
  let v47 : BitVec 32 := Scalar.addi c0_i32_22 c4_i32
  let c1_i32_23 : BitVec 32 := 1#32
  ⟨c0_i32_22, v47, c1_i32_23⟩
def k0_cond1 (k0_t4 : Fin k0_t4_loop.trips) : BitVec 1 :=
  let c0_i32_22 : BitVec 32 := 0#32
  let c1_i32_23 : BitVec 32 := 1#32
  let arg19 : BitVec 32 := Scf.iv c0_i32_22 c1_i32_23 k0_t4
  let c2_i32_41 : BitVec 32 := 2#32
  let v93 : BitVec 32 := Scalar.remsi arg19 c2_i32_41
  let c0_i32_42 : BitVec 32 := 0#32
  let v94 : BitVec 1 := Scalar.cmpi .eq v93 c0_i32_42
  let v95 : BitVec 32 := Scalar.extui v94
  let c0_i32_43 : BitVec 32 := 0#32
  let v96 : BitVec 1 := Scalar.cmpi .ne v95 c0_i32_43
  v96

@[reducible] def k0_t5_loop : Scf.Loop 32 :=
  let c0_i32_64 : BitVec 32 := 0#32
  let c128_i32 : BitVec 32 := 128#32
  let v114 : BitVec 32 := Scalar.addi c0_i32_64 c128_i32
  let c1_i32_65 : BitVec 32 := 1#32
  ⟨c0_i32_64, v114, c1_i32_65⟩
def k0_cond2 (k0_t4 : Fin k0_t4_loop.trips) : BitVec 1 :=
  let c0_i32_22 : BitVec 32 := 0#32
  let c1_i32_23 : BitVec 32 := 1#32
  let arg19 : BitVec 32 := Scf.iv c0_i32_22 c1_i32_23 k0_t4
  let c2_i32_41 : BitVec 32 := 2#32
  let v93 : BitVec 32 := Scalar.remsi arg19 c2_i32_41
  let c1_i32_44 : BitVec 32 := 1#32
  let v97 : BitVec 1 := Scalar.cmpi .eq v93 c1_i32_44
  let v98 : BitVec 32 := Scalar.extui v97
  let c0_i32_45 : BitVec 32 := 0#32
  let v99 : BitVec 1 := Scalar.cmpi .ne v98 c0_i32_45
  v99

@[reducible] def k0_t6_loop : Scf.Loop 32 :=
  let c0_i32_64 : BitVec 32 := 0#32
  let c128_i32 : BitVec 32 := 128#32
  let v114 : BitVec 32 := Scalar.addi c0_i32_64 c128_i32
  let c1_i32_65 : BitVec 32 := 1#32
  ⟨c0_i32_64, v114, c1_i32_65⟩
@[reducible] def k0_t7_loop : Scf.Loop 32 :=
  let c0_i32_47 : BitVec 32 := 0#32
  let c16_i32 : BitVec 32 := 16#32
  let v100 : BitVec 32 := Scalar.addi c0_i32_47 c16_i32
  let c1_i32_48 : BitVec 32 := 1#32
  ⟨c0_i32_47, v100, c1_i32_48⟩

def k0_chk75 (v121 : IVec S16 32) : Prop :=
  (∀ a x, ((![v121] : Fin 1 → IVec S16 32) a x).toNat < S1312.size a)
instance k0_chk75.dec : ∀ (v121 : IVec S16 32), Decidable (k0_chk75 v121) := fun v121 => decidable_of_iff' _ (Iff.of_eq (k0_chk75.eq_1 v121))
theorem k0_idx11_inb : ∀ (v121 : IVec S16 32) (k0_hw75 : k0_chk75 v121), ∀ a x, ((![v121] : Fin 1 → IVec S16 32) a x).toNat < S1312.size a := fun v121 k0_hw75 => k0_hw75

def k0_chk76 (v129 : IVec S16 32) : Prop :=
  (∀ a x, ((![v129] : Fin 1 → IVec S16 32) a x).toNat < S1312.size a)
instance k0_chk76.dec : ∀ (v129 : IVec S16 32), Decidable (k0_chk76 v129) := fun v129 => decidable_of_iff' _ (Iff.of_eq (k0_chk76.eq_1 v129))
theorem k0_idx12_inb : ∀ (v129 : IVec S16 32) (k0_hw76 : k0_chk76 v129), ∀ a x, ((![v129] : Fin 1 → IVec S16 32) a x).toNat < S1312.size a := fun v129 k0_hw76 => k0_hw76

def k0_chk77 (v137 : IVec S16 32) : Prop :=
  (∀ a x, ((![v137] : Fin 1 → IVec S16 32) a x).toNat < S1312.size a)
instance k0_chk77.dec : ∀ (v137 : IVec S16 32), Decidable (k0_chk77 v137) := fun v137 => decidable_of_iff' _ (Iff.of_eq (k0_chk77.eq_1 v137))
theorem k0_idx13_inb : ∀ (v137 : IVec S16 32) (k0_hw77 : k0_chk77 v137), ∀ a x, ((![v137] : Fin 1 → IVec S16 32) a x).toNat < S1312.size a := fun v137 k0_hw77 => k0_hw77

def k0_chk78 (v145 : IVec S16 32) : Prop :=
  (∀ a x, ((![v145] : Fin 1 → IVec S16 32) a x).toNat < S1312.size a)
instance k0_chk78.dec : ∀ (v145 : IVec S16 32), Decidable (k0_chk78 v145) := fun v145 => decidable_of_iff' _ (Iff.of_eq (k0_chk78.eq_1 v145))
theorem k0_idx14_inb : ∀ (v145 : IVec S16 32) (k0_hw78 : k0_chk78 v145), ∀ a x, ((![v145] : Fin 1 → IVec S16 32) a x).toNat < S1312.size a := fun v145 k0_hw78 => k0_hw78

def k0_chk79 (v153 : IVec S16 32) : Prop :=
  (∀ a x, ((![v153] : Fin 1 → IVec S16 32) a x).toNat < S1312.size a)
instance k0_chk79.dec : ∀ (v153 : IVec S16 32), Decidable (k0_chk79 v153) := fun v153 => decidable_of_iff' _ (Iff.of_eq (k0_chk79.eq_1 v153))
theorem k0_idx15_inb : ∀ (v153 : IVec S16 32) (k0_hw79 : k0_chk79 v153), ∀ a x, ((![v153] : Fin 1 → IVec S16 32) a x).toNat < S1312.size a := fun v153 k0_hw79 => k0_hw79

def k0_chk80 (v161 : IVec S16 32) : Prop :=
  (∀ a x, ((![v161] : Fin 1 → IVec S16 32) a x).toNat < S1312.size a)
instance k0_chk80.dec : ∀ (v161 : IVec S16 32), Decidable (k0_chk80 v161) := fun v161 => decidable_of_iff' _ (Iff.of_eq (k0_chk80.eq_1 v161))
theorem k0_idx16_inb : ∀ (v161 : IVec S16 32) (k0_hw80 : k0_chk80 v161), ∀ a x, ((![v161] : Fin 1 → IVec S16 32) a x).toNat < S1312.size a := fun v161 k0_hw80 => k0_hw80

def k0_chk81 (v169 : IVec S16 32) : Prop :=
  (∀ a x, ((![v169] : Fin 1 → IVec S16 32) a x).toNat < S1312.size a)
instance k0_chk81.dec : ∀ (v169 : IVec S16 32), Decidable (k0_chk81 v169) := fun v169 => decidable_of_iff' _ (Iff.of_eq (k0_chk81.eq_1 v169))
theorem k0_idx17_inb : ∀ (v169 : IVec S16 32) (k0_hw81 : k0_chk81 v169), ∀ a x, ((![v169] : Fin 1 → IVec S16 32) a x).toNat < S1312.size a := fun v169 k0_hw81 => k0_hw81

def k0_chk82 (v177 : IVec S16 32) : Prop :=
  (∀ a x, ((![v177] : Fin 1 → IVec S16 32) a x).toNat < S1312.size a)
instance k0_chk82.dec : ∀ (v177 : IVec S16 32), Decidable (k0_chk82 v177) := fun v177 => decidable_of_iff' _ (Iff.of_eq (k0_chk82.eq_1 v177))
theorem k0_idx18_inb : ∀ (v177 : IVec S16 32) (k0_hw82 : k0_chk82 v177), ∀ a x, ((![v177] : Fin 1 → IVec S16 32) a x).toNat < S1312.size a := fun v177 k0_hw82 => k0_hw82

def k0_chk83 (v185 : IVec S16 32) : Prop :=
  (∀ a x, ((![v185] : Fin 1 → IVec S16 32) a x).toNat < S1312.size a)
instance k0_chk83.dec : ∀ (v185 : IVec S16 32), Decidable (k0_chk83 v185) := fun v185 => decidable_of_iff' _ (Iff.of_eq (k0_chk83.eq_1 v185))
theorem k0_idx19_inb : ∀ (v185 : IVec S16 32) (k0_hw83 : k0_chk83 v185), ∀ a x, ((![v185] : Fin 1 → IVec S16 32) a x).toNat < S1312.size a := fun v185 k0_hw83 => k0_hw83

def k0_chk84 (v193 : IVec S16 32) : Prop :=
  (∀ a x, ((![v193] : Fin 1 → IVec S16 32) a x).toNat < S1312.size a)
instance k0_chk84.dec : ∀ (v193 : IVec S16 32), Decidable (k0_chk84 v193) := fun v193 => decidable_of_iff' _ (Iff.of_eq (k0_chk84.eq_1 v193))
theorem k0_idx20_inb : ∀ (v193 : IVec S16 32) (k0_hw84 : k0_chk84 v193), ∀ a x, ((![v193] : Fin 1 → IVec S16 32) a x).toNat < S1312.size a := fun v193 k0_hw84 => k0_hw84

def k0_chk85 (v201 : IVec S16 32) : Prop :=
  (∀ a x, ((![v201] : Fin 1 → IVec S16 32) a x).toNat < S1312.size a)
instance k0_chk85.dec : ∀ (v201 : IVec S16 32), Decidable (k0_chk85 v201) := fun v201 => decidable_of_iff' _ (Iff.of_eq (k0_chk85.eq_1 v201))
theorem k0_idx21_inb : ∀ (v201 : IVec S16 32) (k0_hw85 : k0_chk85 v201), ∀ a x, ((![v201] : Fin 1 → IVec S16 32) a x).toNat < S1312.size a := fun v201 k0_hw85 => k0_hw85

def k0_chk86 (v209 : IVec S16 32) : Prop :=
  (∀ a x, ((![v209] : Fin 1 → IVec S16 32) a x).toNat < S1312.size a)
instance k0_chk86.dec : ∀ (v209 : IVec S16 32), Decidable (k0_chk86 v209) := fun v209 => decidable_of_iff' _ (Iff.of_eq (k0_chk86.eq_1 v209))
theorem k0_idx22_inb : ∀ (v209 : IVec S16 32) (k0_hw86 : k0_chk86 v209), ∀ a x, ((![v209] : Fin 1 → IVec S16 32) a x).toNat < S1312.size a := fun v209 k0_hw86 => k0_hw86

def k0_chk87 (v217 : IVec S16 32) : Prop :=
  (∀ a x, ((![v217] : Fin 1 → IVec S16 32) a x).toNat < S1312.size a)
instance k0_chk87.dec : ∀ (v217 : IVec S16 32), Decidable (k0_chk87 v217) := fun v217 => decidable_of_iff' _ (Iff.of_eq (k0_chk87.eq_1 v217))
theorem k0_idx23_inb : ∀ (v217 : IVec S16 32) (k0_hw87 : k0_chk87 v217), ∀ a x, ((![v217] : Fin 1 → IVec S16 32) a x).toNat < S1312.size a := fun v217 k0_hw87 => k0_hw87

def k0_chk88 (v225 : IVec S16 32) : Prop :=
  (∀ a x, ((![v225] : Fin 1 → IVec S16 32) a x).toNat < S1312.size a)
instance k0_chk88.dec : ∀ (v225 : IVec S16 32), Decidable (k0_chk88 v225) := fun v225 => decidable_of_iff' _ (Iff.of_eq (k0_chk88.eq_1 v225))
theorem k0_idx24_inb : ∀ (v225 : IVec S16 32) (k0_hw88 : k0_chk88 v225), ∀ a x, ((![v225] : Fin 1 → IVec S16 32) a x).toNat < S1312.size a := fun v225 k0_hw88 => k0_hw88

def k0_chk89 (v233 : IVec S16 32) : Prop :=
  (∀ a x, ((![v233] : Fin 1 → IVec S16 32) a x).toNat < S1312.size a)
instance k0_chk89.dec : ∀ (v233 : IVec S16 32), Decidable (k0_chk89 v233) := fun v233 => decidable_of_iff' _ (Iff.of_eq (k0_chk89.eq_1 v233))
theorem k0_idx25_inb : ∀ (v233 : IVec S16 32) (k0_hw89 : k0_chk89 v233), ∀ a x, ((![v233] : Fin 1 → IVec S16 32) a x).toNat < S1312.size a := fun v233 k0_hw89 => k0_hw89

def k0_chk90 (v241 : IVec S16 32) : Prop :=
  (∀ a x, ((![v241] : Fin 1 → IVec S16 32) a x).toNat < S1312.size a)
instance k0_chk90.dec : ∀ (v241 : IVec S16 32), Decidable (k0_chk90 v241) := fun v241 => decidable_of_iff' _ (Iff.of_eq (k0_chk90.eq_1 v241))
theorem k0_idx26_inb : ∀ (v241 : IVec S16 32) (k0_hw90 : k0_chk90 v241), ∀ a x, ((![v241] : Fin 1 → IVec S16 32) a x).toNat < S1312.size a := fun v241 k0_hw90 => k0_hw90

def k0_chk91 (v249 : IVec S16 32) : Prop :=
  (∀ a x, ((![v249] : Fin 1 → IVec S16 32) a x).toNat < S1312.size a)
instance k0_chk91.dec : ∀ (v249 : IVec S16 32), Decidable (k0_chk91 v249) := fun v249 => decidable_of_iff' _ (Iff.of_eq (k0_chk91.eq_1 v249))
theorem k0_idx27_inb : ∀ (v249 : IVec S16 32) (k0_hw91 : k0_chk91 v249), ∀ a x, ((![v249] : Fin 1 → IVec S16 32) a x).toNat < S1312.size a := fun v249 k0_hw91 => k0_hw91

def k0_chk92 (v257 : IVec S16 32) : Prop :=
  (∀ a x, ((![v257] : Fin 1 → IVec S16 32) a x).toNat < S1312.size a)
instance k0_chk92.dec : ∀ (v257 : IVec S16 32), Decidable (k0_chk92 v257) := fun v257 => decidable_of_iff' _ (Iff.of_eq (k0_chk92.eq_1 v257))
theorem k0_idx28_inb : ∀ (v257 : IVec S16 32) (k0_hw92 : k0_chk92 v257), ∀ a x, ((![v257] : Fin 1 → IVec S16 32) a x).toNat < S1312.size a := fun v257 k0_hw92 => k0_hw92

def k0_chk93 (v265 : IVec S16 32) : Prop :=
  (∀ a x, ((![v265] : Fin 1 → IVec S16 32) a x).toNat < S1312.size a)
instance k0_chk93.dec : ∀ (v265 : IVec S16 32), Decidable (k0_chk93 v265) := fun v265 => decidable_of_iff' _ (Iff.of_eq (k0_chk93.eq_1 v265))
theorem k0_idx29_inb : ∀ (v265 : IVec S16 32) (k0_hw93 : k0_chk93 v265), ∀ a x, ((![v265] : Fin 1 → IVec S16 32) a x).toNat < S1312.size a := fun v265 k0_hw93 => k0_hw93

def k0_chk94 (v273 : IVec S16 32) : Prop :=
  (∀ a x, ((![v273] : Fin 1 → IVec S16 32) a x).toNat < S1312.size a)
instance k0_chk94.dec : ∀ (v273 : IVec S16 32), Decidable (k0_chk94 v273) := fun v273 => decidable_of_iff' _ (Iff.of_eq (k0_chk94.eq_1 v273))
theorem k0_idx30_inb : ∀ (v273 : IVec S16 32) (k0_hw94 : k0_chk94 v273), ∀ a x, ((![v273] : Fin 1 → IVec S16 32) a x).toNat < S1312.size a := fun v273 k0_hw94 => k0_hw94

def k0_chk95 (v281 : IVec S16 32) : Prop :=
  (∀ a x, ((![v281] : Fin 1 → IVec S16 32) a x).toNat < S1312.size a)
instance k0_chk95.dec : ∀ (v281 : IVec S16 32), Decidable (k0_chk95 v281) := fun v281 => decidable_of_iff' _ (Iff.of_eq (k0_chk95.eq_1 v281))
theorem k0_idx31_inb : ∀ (v281 : IVec S16 32) (k0_hw95 : k0_chk95 v281), ∀ a x, ((![v281] : Fin 1 → IVec S16 32) a x).toNat < S1312.size a := fun v281 k0_hw95 => k0_hw95

def k0_chk96 (v289 : IVec S16 32) : Prop :=
  (∀ a x, ((![v289] : Fin 1 → IVec S16 32) a x).toNat < S1312.size a)
instance k0_chk96.dec : ∀ (v289 : IVec S16 32), Decidable (k0_chk96 v289) := fun v289 => decidable_of_iff' _ (Iff.of_eq (k0_chk96.eq_1 v289))
theorem k0_idx32_inb : ∀ (v289 : IVec S16 32) (k0_hw96 : k0_chk96 v289), ∀ a x, ((![v289] : Fin 1 → IVec S16 32) a x).toNat < S1312.size a := fun v289 k0_hw96 => k0_hw96

def k0_chk97 (v297 : IVec S16 32) : Prop :=
  (∀ a x, ((![v297] : Fin 1 → IVec S16 32) a x).toNat < S1312.size a)
instance k0_chk97.dec : ∀ (v297 : IVec S16 32), Decidable (k0_chk97 v297) := fun v297 => decidable_of_iff' _ (Iff.of_eq (k0_chk97.eq_1 v297))
theorem k0_idx33_inb : ∀ (v297 : IVec S16 32) (k0_hw97 : k0_chk97 v297), ∀ a x, ((![v297] : Fin 1 → IVec S16 32) a x).toNat < S1312.size a := fun v297 k0_hw97 => k0_hw97

def k0_chk98 (v305 : IVec S16 32) : Prop :=
  (∀ a x, ((![v305] : Fin 1 → IVec S16 32) a x).toNat < S1312.size a)
instance k0_chk98.dec : ∀ (v305 : IVec S16 32), Decidable (k0_chk98 v305) := fun v305 => decidable_of_iff' _ (Iff.of_eq (k0_chk98.eq_1 v305))
theorem k0_idx34_inb : ∀ (v305 : IVec S16 32) (k0_hw98 : k0_chk98 v305), ∀ a x, ((![v305] : Fin 1 → IVec S16 32) a x).toNat < S1312.size a := fun v305 k0_hw98 => k0_hw98

def k0_chk99 (v313 : IVec S16 32) : Prop :=
  (∀ a x, ((![v313] : Fin 1 → IVec S16 32) a x).toNat < S1312.size a)
instance k0_chk99.dec : ∀ (v313 : IVec S16 32), Decidable (k0_chk99 v313) := fun v313 => decidable_of_iff' _ (Iff.of_eq (k0_chk99.eq_1 v313))
theorem k0_idx35_inb : ∀ (v313 : IVec S16 32) (k0_hw99 : k0_chk99 v313), ∀ a x, ((![v313] : Fin 1 → IVec S16 32) a x).toNat < S1312.size a := fun v313 k0_hw99 => k0_hw99

def k0_chk100 (v321 : IVec S16 32) : Prop :=
  (∀ a x, ((![v321] : Fin 1 → IVec S16 32) a x).toNat < S1312.size a)
instance k0_chk100.dec : ∀ (v321 : IVec S16 32), Decidable (k0_chk100 v321) := fun v321 => decidable_of_iff' _ (Iff.of_eq (k0_chk100.eq_1 v321))
theorem k0_idx36_inb : ∀ (v321 : IVec S16 32) (k0_hw100 : k0_chk100 v321), ∀ a x, ((![v321] : Fin 1 → IVec S16 32) a x).toNat < S1312.size a := fun v321 k0_hw100 => k0_hw100

def k0_chk101 (v329 : IVec S16 32) : Prop :=
  (∀ a x, ((![v329] : Fin 1 → IVec S16 32) a x).toNat < S1312.size a)
instance k0_chk101.dec : ∀ (v329 : IVec S16 32), Decidable (k0_chk101 v329) := fun v329 => decidable_of_iff' _ (Iff.of_eq (k0_chk101.eq_1 v329))
theorem k0_idx37_inb : ∀ (v329 : IVec S16 32) (k0_hw101 : k0_chk101 v329), ∀ a x, ((![v329] : Fin 1 → IVec S16 32) a x).toNat < S1312.size a := fun v329 k0_hw101 => k0_hw101

def k0_chk102 (v337 : IVec S16 32) : Prop :=
  (∀ a x, ((![v337] : Fin 1 → IVec S16 32) a x).toNat < S1312.size a)
instance k0_chk102.dec : ∀ (v337 : IVec S16 32), Decidable (k0_chk102 v337) := fun v337 => decidable_of_iff' _ (Iff.of_eq (k0_chk102.eq_1 v337))
theorem k0_idx38_inb : ∀ (v337 : IVec S16 32) (k0_hw102 : k0_chk102 v337), ∀ a x, ((![v337] : Fin 1 → IVec S16 32) a x).toNat < S1312.size a := fun v337 k0_hw102 => k0_hw102

def k0_chk103 (v345 : IVec S16 32) : Prop :=
  (∀ a x, ((![v345] : Fin 1 → IVec S16 32) a x).toNat < S1312.size a)
instance k0_chk103.dec : ∀ (v345 : IVec S16 32), Decidable (k0_chk103 v345) := fun v345 => decidable_of_iff' _ (Iff.of_eq (k0_chk103.eq_1 v345))
theorem k0_idx39_inb : ∀ (v345 : IVec S16 32) (k0_hw103 : k0_chk103 v345), ∀ a x, ((![v345] : Fin 1 → IVec S16 32) a x).toNat < S1312.size a := fun v345 k0_hw103 => k0_hw103

def k0_chk104 (v353 : IVec S16 32) : Prop :=
  (∀ a x, ((![v353] : Fin 1 → IVec S16 32) a x).toNat < S1312.size a)
instance k0_chk104.dec : ∀ (v353 : IVec S16 32), Decidable (k0_chk104 v353) := fun v353 => decidable_of_iff' _ (Iff.of_eq (k0_chk104.eq_1 v353))
theorem k0_idx40_inb : ∀ (v353 : IVec S16 32) (k0_hw104 : k0_chk104 v353), ∀ a x, ((![v353] : Fin 1 → IVec S16 32) a x).toNat < S1312.size a := fun v353 k0_hw104 => k0_hw104

def k0_chk105 (v361 : IVec S16 32) : Prop :=
  (∀ a x, ((![v361] : Fin 1 → IVec S16 32) a x).toNat < S1312.size a)
instance k0_chk105.dec : ∀ (v361 : IVec S16 32), Decidable (k0_chk105 v361) := fun v361 => decidable_of_iff' _ (Iff.of_eq (k0_chk105.eq_1 v361))
theorem k0_idx41_inb : ∀ (v361 : IVec S16 32) (k0_hw105 : k0_chk105 v361), ∀ a x, ((![v361] : Fin 1 → IVec S16 32) a x).toNat < S1312.size a := fun v361 k0_hw105 => k0_hw105

def k0_chk106 (v369 : IVec S16 32) : Prop :=
  (∀ a x, ((![v369] : Fin 1 → IVec S16 32) a x).toNat < S1312.size a)
instance k0_chk106.dec : ∀ (v369 : IVec S16 32), Decidable (k0_chk106 v369) := fun v369 => decidable_of_iff' _ (Iff.of_eq (k0_chk106.eq_1 v369))
theorem k0_idx42_inb : ∀ (v369 : IVec S16 32) (k0_hw106 : k0_chk106 v369), ∀ a x, ((![v369] : Fin 1 → IVec S16 32) a x).toNat < S1312.size a := fun v369 k0_hw106 => k0_hw106

def k0_chk107 (v377 : IVec S16 32) : Prop :=
  (∀ a x, ((![v377] : Fin 1 → IVec S16 32) a x).toNat < S1312.size a)
instance k0_chk107.dec : ∀ (v377 : IVec S16 32), Decidable (k0_chk107 v377) := fun v377 => decidable_of_iff' _ (Iff.of_eq (k0_chk107.eq_1 v377))
theorem k0_idx43_inb : ∀ (v377 : IVec S16 32) (k0_hw107 : k0_chk107 v377), ∀ a x, ((![v377] : Fin 1 → IVec S16 32) a x).toNat < S1312.size a := fun v377 k0_hw107 => k0_hw107

def k0_chk108 (v385 : IVec S16 32) : Prop :=
  (∀ a x, ((![v385] : Fin 1 → IVec S16 32) a x).toNat < S1312.size a)
instance k0_chk108.dec : ∀ (v385 : IVec S16 32), Decidable (k0_chk108 v385) := fun v385 => decidable_of_iff' _ (Iff.of_eq (k0_chk108.eq_1 v385))
theorem k0_idx44_inb : ∀ (v385 : IVec S16 32) (k0_hw108 : k0_chk108 v385), ∀ a x, ((![v385] : Fin 1 → IVec S16 32) a x).toNat < S1312.size a := fun v385 k0_hw108 => k0_hw108

def k0_chk109 (v393 : IVec S16 32) : Prop :=
  (∀ a x, ((![v393] : Fin 1 → IVec S16 32) a x).toNat < S1312.size a)
instance k0_chk109.dec : ∀ (v393 : IVec S16 32), Decidable (k0_chk109 v393) := fun v393 => decidable_of_iff' _ (Iff.of_eq (k0_chk109.eq_1 v393))
theorem k0_idx45_inb : ∀ (v393 : IVec S16 32) (k0_hw109 : k0_chk109 v393), ∀ a x, ((![v393] : Fin 1 → IVec S16 32) a x).toNat < S1312.size a := fun v393 k0_hw109 => k0_hw109

def k0_chk110 (v401 : IVec S16 32) : Prop :=
  (∀ a x, ((![v401] : Fin 1 → IVec S16 32) a x).toNat < S1312.size a)
instance k0_chk110.dec : ∀ (v401 : IVec S16 32), Decidable (k0_chk110 v401) := fun v401 => decidable_of_iff' _ (Iff.of_eq (k0_chk110.eq_1 v401))
theorem k0_idx46_inb : ∀ (v401 : IVec S16 32) (k0_hw110 : k0_chk110 v401), ∀ a x, ((![v401] : Fin 1 → IVec S16 32) a x).toNat < S1312.size a := fun v401 k0_hw110 => k0_hw110

def k0_chk111 (v409 : IVec S16 32) : Prop :=
  (∀ a x, ((![v409] : Fin 1 → IVec S16 32) a x).toNat < S1312.size a)
instance k0_chk111.dec : ∀ (v409 : IVec S16 32), Decidable (k0_chk111 v409) := fun v409 => decidable_of_iff' _ (Iff.of_eq (k0_chk111.eq_1 v409))
theorem k0_idx47_inb : ∀ (v409 : IVec S16 32) (k0_hw111 : k0_chk111 v409), ∀ a x, ((![v409] : Fin 1 → IVec S16 32) a x).toNat < S1312.size a := fun v409 k0_hw111 => k0_hw111

def k0_chk112 (v417 : IVec S16 32) : Prop :=
  (∀ a x, ((![v417] : Fin 1 → IVec S16 32) a x).toNat < S1312.size a)
instance k0_chk112.dec : ∀ (v417 : IVec S16 32), Decidable (k0_chk112 v417) := fun v417 => decidable_of_iff' _ (Iff.of_eq (k0_chk112.eq_1 v417))
theorem k0_idx48_inb : ∀ (v417 : IVec S16 32) (k0_hw112 : k0_chk112 v417), ∀ a x, ((![v417] : Fin 1 → IVec S16 32) a x).toNat < S1312.size a := fun v417 k0_hw112 => k0_hw112

def k0_chk113 (v425 : IVec S16 32) : Prop :=
  (∀ a x, ((![v425] : Fin 1 → IVec S16 32) a x).toNat < S1312.size a)
instance k0_chk113.dec : ∀ (v425 : IVec S16 32), Decidable (k0_chk113 v425) := fun v425 => decidable_of_iff' _ (Iff.of_eq (k0_chk113.eq_1 v425))
theorem k0_idx49_inb : ∀ (v425 : IVec S16 32) (k0_hw113 : k0_chk113 v425), ∀ a x, ((![v425] : Fin 1 → IVec S16 32) a x).toNat < S1312.size a := fun v425 k0_hw113 => k0_hw113

def k0_chk114 (v433 : IVec S16 32) : Prop :=
  (∀ a x, ((![v433] : Fin 1 → IVec S16 32) a x).toNat < S1312.size a)
instance k0_chk114.dec : ∀ (v433 : IVec S16 32), Decidable (k0_chk114 v433) := fun v433 => decidable_of_iff' _ (Iff.of_eq (k0_chk114.eq_1 v433))
theorem k0_idx50_inb : ∀ (v433 : IVec S16 32) (k0_hw114 : k0_chk114 v433), ∀ a x, ((![v433] : Fin 1 → IVec S16 32) a x).toNat < S1312.size a := fun v433 k0_hw114 => k0_hw114
@[reducible] def k0_t8_loop : Scf.Loop 32 :=
  let c0_i32_259 : BitVec 32 := 0#32
  let c8_i32_260 : BitVec 32 := 8#32
  let v435 : BitVec 32 := Scalar.addi c0_i32_259 c8_i32_260
  let c1_i32_261 : BitVec 32 := 1#32
  ⟨c0_i32_259, v435, c1_i32_261⟩
def k0_off144 (k0_t4 : Fin k0_t4_loop.trips) : Fin 3 → Nat :=
  let c0_i32_22 : BitVec 32 := 0#32
  let c1_i32_23 : BitVec 32 := 1#32
  let arg19 : BitVec 32 := Scf.iv c0_i32_22 c1_i32_23 k0_t4
  let c2_i32_41 : BitVec 32 := 2#32
  let v93 : BitVec 32 := Scalar.remsi arg19 c2_i32_41
  let c0_i32_265 : BitVec 32 := 0#32
  let c0_i32_266 : BitVec 32 := 0#32
  ![v93.toNat, 0, 0]

def k0_chk115 (v438 : IVec S16 32) (v441 : IVec S16 32) : Prop :=
  (∀ a x, ((![v438, v441] : Fin 2 → IVec S16 32) a x).toNat < S128x64.size a)
instance k0_chk115.dec : ∀ (v438 : IVec S16 32) (v441 : IVec S16 32), Decidable (k0_chk115 v438 v441) := fun v438 v441 => decidable_of_iff' _ (Iff.of_eq (k0_chk115.eq_1 v438 v441))
theorem k0_idx51_inb : ∀ (v438 : IVec S16 32) (v441 : IVec S16 32) (k0_hw115 : k0_chk115 v438 v441), ∀ a x, ((![v438, v441] : Fin 2 → IVec S16 32) a x).toNat < S128x64.size a := fun v438 v441 k0_hw115 => k0_hw115
def k0_off145 (k0_t4 : Fin k0_t4_loop.trips) : Fin 3 → Nat :=
  let c0_i32_22 : BitVec 32 := 0#32
  let c1_i32_23 : BitVec 32 := 1#32
  let arg19 : BitVec 32 := Scf.iv c0_i32_22 c1_i32_23 k0_t4
  let c2_i32_41 : BitVec 32 := 2#32
  let v93 : BitVec 32 := Scalar.remsi arg19 c2_i32_41
  let c0_i32_268 : BitVec 32 := 0#32
  let c0_i32_269 : BitVec 32 := 0#32
  ![v93.toNat, 0, 0]

def k0_chk116 (v438 : IVec S16 32) (v449 : IVec S16 32) : Prop :=
  (∀ a x, ((![v438, v449] : Fin 2 → IVec S16 32) a x).toNat < S128x64.size a)
instance k0_chk116.dec : ∀ (v438 : IVec S16 32) (v449 : IVec S16 32), Decidable (k0_chk116 v438 v449) := fun v438 v449 => decidable_of_iff' _ (Iff.of_eq (k0_chk116.eq_1 v438 v449))
theorem k0_idx52_inb : ∀ (v438 : IVec S16 32) (v449 : IVec S16 32) (k0_hw116 : k0_chk116 v438 v449), ∀ a x, ((![v438, v449] : Fin 2 → IVec S16 32) a x).toNat < S128x64.size a := fun v438 v449 k0_hw116 => k0_hw116
def k0_off146 (k0_t4 : Fin k0_t4_loop.trips) : Fin 3 → Nat :=
  let c0_i32_22 : BitVec 32 := 0#32
  let c1_i32_23 : BitVec 32 := 1#32
  let arg19 : BitVec 32 := Scf.iv c0_i32_22 c1_i32_23 k0_t4
  let c2_i32_41 : BitVec 32 := 2#32
  let v93 : BitVec 32 := Scalar.remsi arg19 c2_i32_41
  let c0_i32_272 : BitVec 32 := 0#32
  let c0_i32_273 : BitVec 32 := 0#32
  ![v93.toNat, 0, 0]

def k0_chk117 (v438 : IVec S16 32) (v457 : IVec S16 32) : Prop :=
  (∀ a x, ((![v438, v457] : Fin 2 → IVec S16 32) a x).toNat < S128x64.size a)
instance k0_chk117.dec : ∀ (v438 : IVec S16 32) (v457 : IVec S16 32), Decidable (k0_chk117 v438 v457) := fun v438 v457 => decidable_of_iff' _ (Iff.of_eq (k0_chk117.eq_1 v438 v457))
theorem k0_idx53_inb : ∀ (v438 : IVec S16 32) (v457 : IVec S16 32) (k0_hw117 : k0_chk117 v438 v457), ∀ a x, ((![v438, v457] : Fin 2 → IVec S16 32) a x).toNat < S128x64.size a := fun v438 v457 k0_hw117 => k0_hw117
def k0_off147 (k0_t4 : Fin k0_t4_loop.trips) : Fin 3 → Nat :=
  let c0_i32_22 : BitVec 32 := 0#32
  let c1_i32_23 : BitVec 32 := 1#32
  let arg19 : BitVec 32 := Scf.iv c0_i32_22 c1_i32_23 k0_t4
  let c2_i32_41 : BitVec 32 := 2#32
  let v93 : BitVec 32 := Scalar.remsi arg19 c2_i32_41
  let c0_i32_276 : BitVec 32 := 0#32
  let c0_i32_277 : BitVec 32 := 0#32
  ![v93.toNat, 0, 0]

def k0_chk118 (v438 : IVec S16 32) (v465 : IVec S16 32) : Prop :=
  (∀ a x, ((![v438, v465] : Fin 2 → IVec S16 32) a x).toNat < S128x64.size a)
instance k0_chk118.dec : ∀ (v438 : IVec S16 32) (v465 : IVec S16 32), Decidable (k0_chk118 v438 v465) := fun v438 v465 => decidable_of_iff' _ (Iff.of_eq (k0_chk118.eq_1 v438 v465))
theorem k0_idx54_inb : ∀ (v438 : IVec S16 32) (v465 : IVec S16 32) (k0_hw118 : k0_chk118 v438 v465), ∀ a x, ((![v438, v465] : Fin 2 → IVec S16 32) a x).toNat < S128x64.size a := fun v438 v465 k0_hw118 => k0_hw118
def k0_off148 (k0_t4 : Fin k0_t4_loop.trips) (k0_t8 : Fin k0_t8_loop.trips) : Fin 2 → Nat :=
  let c0_i32_280 : BitVec 32 := 0#32
  let v474 : Index := Scalar.indexCast c0_i32_280
  let c0_i32_22 : BitVec 32 := 0#32
  let c1_i32_23 : BitVec 32 := 1#32
  let arg19 : BitVec 32 := Scf.iv c0_i32_22 c1_i32_23 k0_t4
  let c128_i32 : BitVec 32 := 128#32
  let v471 : BitVec 32 := Scalar.muli arg19 c128_i32
  let c0_i32_259 : BitVec 32 := 0#32
  let c1_i32_261 : BitVec 32 := 1#32
  let arg21 : BitVec 32 := Scf.iv c0_i32_259 c1_i32_261 k0_t8
  let c16_i32_279 : BitVec 32 := 16#32
  let v472 : BitVec 32 := Scalar.muli arg21 c16_i32_279
  let v473 : BitVec 32 := Scalar.addi v471 v472
  let v475 : Index := Scalar.indexCast v473
  ![0, v475.toNat]
def k0_off149 (k0_t4 : Fin k0_t4_loop.trips) (k0_t8 : Fin k0_t8_loop.trips) : Fin 2 → Nat :=
  let c1_i32_286 : BitVec 32 := 1#32
  let v494 : Index := Scalar.indexCast c1_i32_286
  let c0_i32_22 : BitVec 32 := 0#32
  let c1_i32_23 : BitVec 32 := 1#32
  let arg19 : BitVec 32 := Scf.iv c0_i32_22 c1_i32_23 k0_t4
  let c128_i32_284 : BitVec 32 := 128#32
  let v491 : BitVec 32 := Scalar.muli arg19 c128_i32_284
  let c0_i32_259 : BitVec 32 := 0#32
  let c1_i32_261 : BitVec 32 := 1#32
  let arg21 : BitVec 32 := Scf.iv c0_i32_259 c1_i32_261 k0_t8
  let c16_i32_285 : BitVec 32 := 16#32
  let v492 : BitVec 32 := Scalar.muli arg21 c16_i32_285
  let v493 : BitVec 32 := Scalar.addi v491 v492
  let v495 : Index := Scalar.indexCast v493
  ![1, v495.toNat]
def k0_off150 (k0_t4 : Fin k0_t4_loop.trips) (k0_t8 : Fin k0_t8_loop.trips) : Fin 2 → Nat :=
  let c2_i32_292 : BitVec 32 := 2#32
  let v514 : Index := Scalar.indexCast c2_i32_292
  let c0_i32_22 : BitVec 32 := 0#32
  let c1_i32_23 : BitVec 32 := 1#32
  let arg19 : BitVec 32 := Scf.iv c0_i32_22 c1_i32_23 k0_t4
  let c128_i32_290 : BitVec 32 := 128#32
  let v511 : BitVec 32 := Scalar.muli arg19 c128_i32_290
  let c0_i32_259 : BitVec 32 := 0#32
  let c1_i32_261 : BitVec 32 := 1#32
  let arg21 : BitVec 32 := Scf.iv c0_i32_259 c1_i32_261 k0_t8
  let c16_i32_291 : BitVec 32 := 16#32
  let v512 : BitVec 32 := Scalar.muli arg21 c16_i32_291
  let v513 : BitVec 32 := Scalar.addi v511 v512
  let v515 : Index := Scalar.indexCast v513
  ![2, v515.toNat]
def k0_off151 (k0_t4 : Fin k0_t4_loop.trips) (k0_t8 : Fin k0_t8_loop.trips) : Fin 2 → Nat :=
  let c3_i32_298 : BitVec 32 := 3#32
  let v534 : Index := Scalar.indexCast c3_i32_298
  let c0_i32_22 : BitVec 32 := 0#32
  let c1_i32_23 : BitVec 32 := 1#32
  let arg19 : BitVec 32 := Scf.iv c0_i32_22 c1_i32_23 k0_t4
  let c128_i32_296 : BitVec 32 := 128#32
  let v531 : BitVec 32 := Scalar.muli arg19 c128_i32_296
  let c0_i32_259 : BitVec 32 := 0#32
  let c1_i32_261 : BitVec 32 := 1#32
  let arg21 : BitVec 32 := Scf.iv c0_i32_259 c1_i32_261 k0_t8
  let c16_i32_297 : BitVec 32 := 16#32
  let v532 : BitVec 32 := Scalar.muli arg21 c16_i32_297
  let v533 : BitVec 32 := Scalar.addi v531 v532
  let v535 : Index := Scalar.indexCast v533
  ![3, v535.toNat]
def k0_off152 (k0_t4 : Fin k0_t4_loop.trips) (k0_t8 : Fin k0_t8_loop.trips) : Fin 2 → Nat :=
  let c4_i32_304 : BitVec 32 := 4#32
  let v554 : Index := Scalar.indexCast c4_i32_304
  let c0_i32_22 : BitVec 32 := 0#32
  let c1_i32_23 : BitVec 32 := 1#32
  let arg19 : BitVec 32 := Scf.iv c0_i32_22 c1_i32_23 k0_t4
  let c128_i32_302 : BitVec 32 := 128#32
  let v551 : BitVec 32 := Scalar.muli arg19 c128_i32_302
  let c0_i32_259 : BitVec 32 := 0#32
  let c1_i32_261 : BitVec 32 := 1#32
  let arg21 : BitVec 32 := Scf.iv c0_i32_259 c1_i32_261 k0_t8
  let c16_i32_303 : BitVec 32 := 16#32
  let v552 : BitVec 32 := Scalar.muli arg21 c16_i32_303
  let v553 : BitVec 32 := Scalar.addi v551 v552
  let v555 : Index := Scalar.indexCast v553
  ![4, v555.toNat]
def k0_off153 (k0_t4 : Fin k0_t4_loop.trips) (k0_t8 : Fin k0_t8_loop.trips) : Fin 2 → Nat :=
  let c5_i32_310 : BitVec 32 := 5#32
  let v574 : Index := Scalar.indexCast c5_i32_310
  let c0_i32_22 : BitVec 32 := 0#32
  let c1_i32_23 : BitVec 32 := 1#32
  let arg19 : BitVec 32 := Scf.iv c0_i32_22 c1_i32_23 k0_t4
  let c128_i32_308 : BitVec 32 := 128#32
  let v571 : BitVec 32 := Scalar.muli arg19 c128_i32_308
  let c0_i32_259 : BitVec 32 := 0#32
  let c1_i32_261 : BitVec 32 := 1#32
  let arg21 : BitVec 32 := Scf.iv c0_i32_259 c1_i32_261 k0_t8
  let c16_i32_309 : BitVec 32 := 16#32
  let v572 : BitVec 32 := Scalar.muli arg21 c16_i32_309
  let v573 : BitVec 32 := Scalar.addi v571 v572
  let v575 : Index := Scalar.indexCast v573
  ![5, v575.toNat]
def k0_off154 (k0_t4 : Fin k0_t4_loop.trips) (k0_t8 : Fin k0_t8_loop.trips) : Fin 2 → Nat :=
  let c6_i32_316 : BitVec 32 := 6#32
  let v594 : Index := Scalar.indexCast c6_i32_316
  let c0_i32_22 : BitVec 32 := 0#32
  let c1_i32_23 : BitVec 32 := 1#32
  let arg19 : BitVec 32 := Scf.iv c0_i32_22 c1_i32_23 k0_t4
  let c128_i32_314 : BitVec 32 := 128#32
  let v591 : BitVec 32 := Scalar.muli arg19 c128_i32_314
  let c0_i32_259 : BitVec 32 := 0#32
  let c1_i32_261 : BitVec 32 := 1#32
  let arg21 : BitVec 32 := Scf.iv c0_i32_259 c1_i32_261 k0_t8
  let c16_i32_315 : BitVec 32 := 16#32
  let v592 : BitVec 32 := Scalar.muli arg21 c16_i32_315
  let v593 : BitVec 32 := Scalar.addi v591 v592
  let v595 : Index := Scalar.indexCast v593
  ![6, v595.toNat]
def k0_off155 (k0_t4 : Fin k0_t4_loop.trips) (k0_t8 : Fin k0_t8_loop.trips) : Fin 2 → Nat :=
  let c7_i32_322 : BitVec 32 := 7#32
  let v614 : Index := Scalar.indexCast c7_i32_322
  let c0_i32_22 : BitVec 32 := 0#32
  let c1_i32_23 : BitVec 32 := 1#32
  let arg19 : BitVec 32 := Scf.iv c0_i32_22 c1_i32_23 k0_t4
  let c128_i32_320 : BitVec 32 := 128#32
  let v611 : BitVec 32 := Scalar.muli arg19 c128_i32_320
  let c0_i32_259 : BitVec 32 := 0#32
  let c1_i32_261 : BitVec 32 := 1#32
  let arg21 : BitVec 32 := Scf.iv c0_i32_259 c1_i32_261 k0_t8
  let c16_i32_321 : BitVec 32 := 16#32
  let v612 : BitVec 32 := Scalar.muli arg21 c16_i32_321
  let v613 : BitVec 32 := Scalar.addi v611 v612
  let v615 : Index := Scalar.indexCast v613
  ![7, v615.toNat]
def k0_off156 (k0_t4 : Fin k0_t4_loop.trips) (k0_t8 : Fin k0_t8_loop.trips) : Fin 2 → Nat :=
  let c8_i32_328 : BitVec 32 := 8#32
  let v634 : Index := Scalar.indexCast c8_i32_328
  let c0_i32_22 : BitVec 32 := 0#32
  let c1_i32_23 : BitVec 32 := 1#32
  let arg19 : BitVec 32 := Scf.iv c0_i32_22 c1_i32_23 k0_t4
  let c128_i32_326 : BitVec 32 := 128#32
  let v631 : BitVec 32 := Scalar.muli arg19 c128_i32_326
  let c0_i32_259 : BitVec 32 := 0#32
  let c1_i32_261 : BitVec 32 := 1#32
  let arg21 : BitVec 32 := Scf.iv c0_i32_259 c1_i32_261 k0_t8
  let c16_i32_327 : BitVec 32 := 16#32
  let v632 : BitVec 32 := Scalar.muli arg21 c16_i32_327
  let v633 : BitVec 32 := Scalar.addi v631 v632
  let v635 : Index := Scalar.indexCast v633
  ![8, v635.toNat]
def k0_off157 (k0_t4 : Fin k0_t4_loop.trips) (k0_t8 : Fin k0_t8_loop.trips) : Fin 2 → Nat :=
  let c9_i32_334 : BitVec 32 := 9#32
  let v654 : Index := Scalar.indexCast c9_i32_334
  let c0_i32_22 : BitVec 32 := 0#32
  let c1_i32_23 : BitVec 32 := 1#32
  let arg19 : BitVec 32 := Scf.iv c0_i32_22 c1_i32_23 k0_t4
  let c128_i32_332 : BitVec 32 := 128#32
  let v651 : BitVec 32 := Scalar.muli arg19 c128_i32_332
  let c0_i32_259 : BitVec 32 := 0#32
  let c1_i32_261 : BitVec 32 := 1#32
  let arg21 : BitVec 32 := Scf.iv c0_i32_259 c1_i32_261 k0_t8
  let c16_i32_333 : BitVec 32 := 16#32
  let v652 : BitVec 32 := Scalar.muli arg21 c16_i32_333
  let v653 : BitVec 32 := Scalar.addi v651 v652
  let v655 : Index := Scalar.indexCast v653
  ![9, v655.toNat]
@[reducible] def k0_t9_loop : Scf.Loop 32 :=
  let c0_i32_51 : BitVec 32 := 0#32
  let c16_i32_52 : BitVec 32 := 16#32
  let v101 : BitVec 32 := Scalar.addi c0_i32_51 c16_i32_52
  let c1_i32_53 : BitVec 32 := 1#32
  ⟨c0_i32_51, v101, c1_i32_53⟩

def k0_chk119 (v121 : IVec S16 32) : Prop :=
  (∀ a x, ((![v121] : Fin 1 → IVec S16 32) a x).toNat < S1312.size a)
instance k0_chk119.dec : ∀ (v121 : IVec S16 32), Decidable (k0_chk119 v121) := fun v121 => decidable_of_iff' _ (Iff.of_eq (k0_chk119.eq_1 v121))
theorem k0_idx55_inb : ∀ (v121 : IVec S16 32) (k0_hw119 : k0_chk119 v121), ∀ a x, ((![v121] : Fin 1 → IVec S16 32) a x).toNat < S1312.size a := fun v121 k0_hw119 => k0_hw119

def k0_chk120 (v129 : IVec S16 32) : Prop :=
  (∀ a x, ((![v129] : Fin 1 → IVec S16 32) a x).toNat < S1312.size a)
instance k0_chk120.dec : ∀ (v129 : IVec S16 32), Decidable (k0_chk120 v129) := fun v129 => decidable_of_iff' _ (Iff.of_eq (k0_chk120.eq_1 v129))
theorem k0_idx56_inb : ∀ (v129 : IVec S16 32) (k0_hw120 : k0_chk120 v129), ∀ a x, ((![v129] : Fin 1 → IVec S16 32) a x).toNat < S1312.size a := fun v129 k0_hw120 => k0_hw120

def k0_chk121 (v137 : IVec S16 32) : Prop :=
  (∀ a x, ((![v137] : Fin 1 → IVec S16 32) a x).toNat < S1312.size a)
instance k0_chk121.dec : ∀ (v137 : IVec S16 32), Decidable (k0_chk121 v137) := fun v137 => decidable_of_iff' _ (Iff.of_eq (k0_chk121.eq_1 v137))
theorem k0_idx57_inb : ∀ (v137 : IVec S16 32) (k0_hw121 : k0_chk121 v137), ∀ a x, ((![v137] : Fin 1 → IVec S16 32) a x).toNat < S1312.size a := fun v137 k0_hw121 => k0_hw121

def k0_chk122 (v145 : IVec S16 32) : Prop :=
  (∀ a x, ((![v145] : Fin 1 → IVec S16 32) a x).toNat < S1312.size a)
instance k0_chk122.dec : ∀ (v145 : IVec S16 32), Decidable (k0_chk122 v145) := fun v145 => decidable_of_iff' _ (Iff.of_eq (k0_chk122.eq_1 v145))
theorem k0_idx58_inb : ∀ (v145 : IVec S16 32) (k0_hw122 : k0_chk122 v145), ∀ a x, ((![v145] : Fin 1 → IVec S16 32) a x).toNat < S1312.size a := fun v145 k0_hw122 => k0_hw122

def k0_chk123 (v153 : IVec S16 32) : Prop :=
  (∀ a x, ((![v153] : Fin 1 → IVec S16 32) a x).toNat < S1312.size a)
instance k0_chk123.dec : ∀ (v153 : IVec S16 32), Decidable (k0_chk123 v153) := fun v153 => decidable_of_iff' _ (Iff.of_eq (k0_chk123.eq_1 v153))
theorem k0_idx59_inb : ∀ (v153 : IVec S16 32) (k0_hw123 : k0_chk123 v153), ∀ a x, ((![v153] : Fin 1 → IVec S16 32) a x).toNat < S1312.size a := fun v153 k0_hw123 => k0_hw123

def k0_chk124 (v161 : IVec S16 32) : Prop :=
  (∀ a x, ((![v161] : Fin 1 → IVec S16 32) a x).toNat < S1312.size a)
instance k0_chk124.dec : ∀ (v161 : IVec S16 32), Decidable (k0_chk124 v161) := fun v161 => decidable_of_iff' _ (Iff.of_eq (k0_chk124.eq_1 v161))
theorem k0_idx60_inb : ∀ (v161 : IVec S16 32) (k0_hw124 : k0_chk124 v161), ∀ a x, ((![v161] : Fin 1 → IVec S16 32) a x).toNat < S1312.size a := fun v161 k0_hw124 => k0_hw124

def k0_chk125 (v169 : IVec S16 32) : Prop :=
  (∀ a x, ((![v169] : Fin 1 → IVec S16 32) a x).toNat < S1312.size a)
instance k0_chk125.dec : ∀ (v169 : IVec S16 32), Decidable (k0_chk125 v169) := fun v169 => decidable_of_iff' _ (Iff.of_eq (k0_chk125.eq_1 v169))
theorem k0_idx61_inb : ∀ (v169 : IVec S16 32) (k0_hw125 : k0_chk125 v169), ∀ a x, ((![v169] : Fin 1 → IVec S16 32) a x).toNat < S1312.size a := fun v169 k0_hw125 => k0_hw125

def k0_chk126 (v177 : IVec S16 32) : Prop :=
  (∀ a x, ((![v177] : Fin 1 → IVec S16 32) a x).toNat < S1312.size a)
instance k0_chk126.dec : ∀ (v177 : IVec S16 32), Decidable (k0_chk126 v177) := fun v177 => decidable_of_iff' _ (Iff.of_eq (k0_chk126.eq_1 v177))
theorem k0_idx62_inb : ∀ (v177 : IVec S16 32) (k0_hw126 : k0_chk126 v177), ∀ a x, ((![v177] : Fin 1 → IVec S16 32) a x).toNat < S1312.size a := fun v177 k0_hw126 => k0_hw126

def k0_chk127 (v185 : IVec S16 32) : Prop :=
  (∀ a x, ((![v185] : Fin 1 → IVec S16 32) a x).toNat < S1312.size a)
instance k0_chk127.dec : ∀ (v185 : IVec S16 32), Decidable (k0_chk127 v185) := fun v185 => decidable_of_iff' _ (Iff.of_eq (k0_chk127.eq_1 v185))
theorem k0_idx63_inb : ∀ (v185 : IVec S16 32) (k0_hw127 : k0_chk127 v185), ∀ a x, ((![v185] : Fin 1 → IVec S16 32) a x).toNat < S1312.size a := fun v185 k0_hw127 => k0_hw127

def k0_chk128 (v193 : IVec S16 32) : Prop :=
  (∀ a x, ((![v193] : Fin 1 → IVec S16 32) a x).toNat < S1312.size a)
instance k0_chk128.dec : ∀ (v193 : IVec S16 32), Decidable (k0_chk128 v193) := fun v193 => decidable_of_iff' _ (Iff.of_eq (k0_chk128.eq_1 v193))
theorem k0_idx64_inb : ∀ (v193 : IVec S16 32) (k0_hw128 : k0_chk128 v193), ∀ a x, ((![v193] : Fin 1 → IVec S16 32) a x).toNat < S1312.size a := fun v193 k0_hw128 => k0_hw128

def k0_chk129 (v201 : IVec S16 32) : Prop :=
  (∀ a x, ((![v201] : Fin 1 → IVec S16 32) a x).toNat < S1312.size a)
instance k0_chk129.dec : ∀ (v201 : IVec S16 32), Decidable (k0_chk129 v201) := fun v201 => decidable_of_iff' _ (Iff.of_eq (k0_chk129.eq_1 v201))
theorem k0_idx65_inb : ∀ (v201 : IVec S16 32) (k0_hw129 : k0_chk129 v201), ∀ a x, ((![v201] : Fin 1 → IVec S16 32) a x).toNat < S1312.size a := fun v201 k0_hw129 => k0_hw129

def k0_chk130 (v209 : IVec S16 32) : Prop :=
  (∀ a x, ((![v209] : Fin 1 → IVec S16 32) a x).toNat < S1312.size a)
instance k0_chk130.dec : ∀ (v209 : IVec S16 32), Decidable (k0_chk130 v209) := fun v209 => decidable_of_iff' _ (Iff.of_eq (k0_chk130.eq_1 v209))
theorem k0_idx66_inb : ∀ (v209 : IVec S16 32) (k0_hw130 : k0_chk130 v209), ∀ a x, ((![v209] : Fin 1 → IVec S16 32) a x).toNat < S1312.size a := fun v209 k0_hw130 => k0_hw130

def k0_chk131 (v217 : IVec S16 32) : Prop :=
  (∀ a x, ((![v217] : Fin 1 → IVec S16 32) a x).toNat < S1312.size a)
instance k0_chk131.dec : ∀ (v217 : IVec S16 32), Decidable (k0_chk131 v217) := fun v217 => decidable_of_iff' _ (Iff.of_eq (k0_chk131.eq_1 v217))
theorem k0_idx67_inb : ∀ (v217 : IVec S16 32) (k0_hw131 : k0_chk131 v217), ∀ a x, ((![v217] : Fin 1 → IVec S16 32) a x).toNat < S1312.size a := fun v217 k0_hw131 => k0_hw131

def k0_chk132 (v225 : IVec S16 32) : Prop :=
  (∀ a x, ((![v225] : Fin 1 → IVec S16 32) a x).toNat < S1312.size a)
instance k0_chk132.dec : ∀ (v225 : IVec S16 32), Decidable (k0_chk132 v225) := fun v225 => decidable_of_iff' _ (Iff.of_eq (k0_chk132.eq_1 v225))
theorem k0_idx68_inb : ∀ (v225 : IVec S16 32) (k0_hw132 : k0_chk132 v225), ∀ a x, ((![v225] : Fin 1 → IVec S16 32) a x).toNat < S1312.size a := fun v225 k0_hw132 => k0_hw132

def k0_chk133 (v233 : IVec S16 32) : Prop :=
  (∀ a x, ((![v233] : Fin 1 → IVec S16 32) a x).toNat < S1312.size a)
instance k0_chk133.dec : ∀ (v233 : IVec S16 32), Decidable (k0_chk133 v233) := fun v233 => decidable_of_iff' _ (Iff.of_eq (k0_chk133.eq_1 v233))
theorem k0_idx69_inb : ∀ (v233 : IVec S16 32) (k0_hw133 : k0_chk133 v233), ∀ a x, ((![v233] : Fin 1 → IVec S16 32) a x).toNat < S1312.size a := fun v233 k0_hw133 => k0_hw133

def k0_chk134 (v241 : IVec S16 32) : Prop :=
  (∀ a x, ((![v241] : Fin 1 → IVec S16 32) a x).toNat < S1312.size a)
instance k0_chk134.dec : ∀ (v241 : IVec S16 32), Decidable (k0_chk134 v241) := fun v241 => decidable_of_iff' _ (Iff.of_eq (k0_chk134.eq_1 v241))
theorem k0_idx70_inb : ∀ (v241 : IVec S16 32) (k0_hw134 : k0_chk134 v241), ∀ a x, ((![v241] : Fin 1 → IVec S16 32) a x).toNat < S1312.size a := fun v241 k0_hw134 => k0_hw134

def k0_chk135 (v249 : IVec S16 32) : Prop :=
  (∀ a x, ((![v249] : Fin 1 → IVec S16 32) a x).toNat < S1312.size a)
instance k0_chk135.dec : ∀ (v249 : IVec S16 32), Decidable (k0_chk135 v249) := fun v249 => decidable_of_iff' _ (Iff.of_eq (k0_chk135.eq_1 v249))
theorem k0_idx71_inb : ∀ (v249 : IVec S16 32) (k0_hw135 : k0_chk135 v249), ∀ a x, ((![v249] : Fin 1 → IVec S16 32) a x).toNat < S1312.size a := fun v249 k0_hw135 => k0_hw135

def k0_chk136 (v257 : IVec S16 32) : Prop :=
  (∀ a x, ((![v257] : Fin 1 → IVec S16 32) a x).toNat < S1312.size a)
instance k0_chk136.dec : ∀ (v257 : IVec S16 32), Decidable (k0_chk136 v257) := fun v257 => decidable_of_iff' _ (Iff.of_eq (k0_chk136.eq_1 v257))
theorem k0_idx72_inb : ∀ (v257 : IVec S16 32) (k0_hw136 : k0_chk136 v257), ∀ a x, ((![v257] : Fin 1 → IVec S16 32) a x).toNat < S1312.size a := fun v257 k0_hw136 => k0_hw136

def k0_chk137 (v265 : IVec S16 32) : Prop :=
  (∀ a x, ((![v265] : Fin 1 → IVec S16 32) a x).toNat < S1312.size a)
instance k0_chk137.dec : ∀ (v265 : IVec S16 32), Decidable (k0_chk137 v265) := fun v265 => decidable_of_iff' _ (Iff.of_eq (k0_chk137.eq_1 v265))
theorem k0_idx73_inb : ∀ (v265 : IVec S16 32) (k0_hw137 : k0_chk137 v265), ∀ a x, ((![v265] : Fin 1 → IVec S16 32) a x).toNat < S1312.size a := fun v265 k0_hw137 => k0_hw137

def k0_chk138 (v273 : IVec S16 32) : Prop :=
  (∀ a x, ((![v273] : Fin 1 → IVec S16 32) a x).toNat < S1312.size a)
instance k0_chk138.dec : ∀ (v273 : IVec S16 32), Decidable (k0_chk138 v273) := fun v273 => decidable_of_iff' _ (Iff.of_eq (k0_chk138.eq_1 v273))
theorem k0_idx74_inb : ∀ (v273 : IVec S16 32) (k0_hw138 : k0_chk138 v273), ∀ a x, ((![v273] : Fin 1 → IVec S16 32) a x).toNat < S1312.size a := fun v273 k0_hw138 => k0_hw138

def k0_chk139 (v281 : IVec S16 32) : Prop :=
  (∀ a x, ((![v281] : Fin 1 → IVec S16 32) a x).toNat < S1312.size a)
instance k0_chk139.dec : ∀ (v281 : IVec S16 32), Decidable (k0_chk139 v281) := fun v281 => decidable_of_iff' _ (Iff.of_eq (k0_chk139.eq_1 v281))
theorem k0_idx75_inb : ∀ (v281 : IVec S16 32) (k0_hw139 : k0_chk139 v281), ∀ a x, ((![v281] : Fin 1 → IVec S16 32) a x).toNat < S1312.size a := fun v281 k0_hw139 => k0_hw139

def k0_chk140 (v289 : IVec S16 32) : Prop :=
  (∀ a x, ((![v289] : Fin 1 → IVec S16 32) a x).toNat < S1312.size a)
instance k0_chk140.dec : ∀ (v289 : IVec S16 32), Decidable (k0_chk140 v289) := fun v289 => decidable_of_iff' _ (Iff.of_eq (k0_chk140.eq_1 v289))
theorem k0_idx76_inb : ∀ (v289 : IVec S16 32) (k0_hw140 : k0_chk140 v289), ∀ a x, ((![v289] : Fin 1 → IVec S16 32) a x).toNat < S1312.size a := fun v289 k0_hw140 => k0_hw140

def k0_chk141 (v297 : IVec S16 32) : Prop :=
  (∀ a x, ((![v297] : Fin 1 → IVec S16 32) a x).toNat < S1312.size a)
instance k0_chk141.dec : ∀ (v297 : IVec S16 32), Decidable (k0_chk141 v297) := fun v297 => decidable_of_iff' _ (Iff.of_eq (k0_chk141.eq_1 v297))
theorem k0_idx77_inb : ∀ (v297 : IVec S16 32) (k0_hw141 : k0_chk141 v297), ∀ a x, ((![v297] : Fin 1 → IVec S16 32) a x).toNat < S1312.size a := fun v297 k0_hw141 => k0_hw141

def k0_chk142 (v305 : IVec S16 32) : Prop :=
  (∀ a x, ((![v305] : Fin 1 → IVec S16 32) a x).toNat < S1312.size a)
instance k0_chk142.dec : ∀ (v305 : IVec S16 32), Decidable (k0_chk142 v305) := fun v305 => decidable_of_iff' _ (Iff.of_eq (k0_chk142.eq_1 v305))
theorem k0_idx78_inb : ∀ (v305 : IVec S16 32) (k0_hw142 : k0_chk142 v305), ∀ a x, ((![v305] : Fin 1 → IVec S16 32) a x).toNat < S1312.size a := fun v305 k0_hw142 => k0_hw142

def k0_chk143 (v313 : IVec S16 32) : Prop :=
  (∀ a x, ((![v313] : Fin 1 → IVec S16 32) a x).toNat < S1312.size a)
instance k0_chk143.dec : ∀ (v313 : IVec S16 32), Decidable (k0_chk143 v313) := fun v313 => decidable_of_iff' _ (Iff.of_eq (k0_chk143.eq_1 v313))
theorem k0_idx79_inb : ∀ (v313 : IVec S16 32) (k0_hw143 : k0_chk143 v313), ∀ a x, ((![v313] : Fin 1 → IVec S16 32) a x).toNat < S1312.size a := fun v313 k0_hw143 => k0_hw143

def k0_chk144 (v321 : IVec S16 32) : Prop :=
  (∀ a x, ((![v321] : Fin 1 → IVec S16 32) a x).toNat < S1312.size a)
instance k0_chk144.dec : ∀ (v321 : IVec S16 32), Decidable (k0_chk144 v321) := fun v321 => decidable_of_iff' _ (Iff.of_eq (k0_chk144.eq_1 v321))
theorem k0_idx80_inb : ∀ (v321 : IVec S16 32) (k0_hw144 : k0_chk144 v321), ∀ a x, ((![v321] : Fin 1 → IVec S16 32) a x).toNat < S1312.size a := fun v321 k0_hw144 => k0_hw144

def k0_chk145 (v329 : IVec S16 32) : Prop :=
  (∀ a x, ((![v329] : Fin 1 → IVec S16 32) a x).toNat < S1312.size a)
instance k0_chk145.dec : ∀ (v329 : IVec S16 32), Decidable (k0_chk145 v329) := fun v329 => decidable_of_iff' _ (Iff.of_eq (k0_chk145.eq_1 v329))
theorem k0_idx81_inb : ∀ (v329 : IVec S16 32) (k0_hw145 : k0_chk145 v329), ∀ a x, ((![v329] : Fin 1 → IVec S16 32) a x).toNat < S1312.size a := fun v329 k0_hw145 => k0_hw145

def k0_chk146 (v337 : IVec S16 32) : Prop :=
  (∀ a x, ((![v337] : Fin 1 → IVec S16 32) a x).toNat < S1312.size a)
instance k0_chk146.dec : ∀ (v337 : IVec S16 32), Decidable (k0_chk146 v337) := fun v337 => decidable_of_iff' _ (Iff.of_eq (k0_chk146.eq_1 v337))
theorem k0_idx82_inb : ∀ (v337 : IVec S16 32) (k0_hw146 : k0_chk146 v337), ∀ a x, ((![v337] : Fin 1 → IVec S16 32) a x).toNat < S1312.size a := fun v337 k0_hw146 => k0_hw146

def k0_chk147 (v345 : IVec S16 32) : Prop :=
  (∀ a x, ((![v345] : Fin 1 → IVec S16 32) a x).toNat < S1312.size a)
instance k0_chk147.dec : ∀ (v345 : IVec S16 32), Decidable (k0_chk147 v345) := fun v345 => decidable_of_iff' _ (Iff.of_eq (k0_chk147.eq_1 v345))
theorem k0_idx83_inb : ∀ (v345 : IVec S16 32) (k0_hw147 : k0_chk147 v345), ∀ a x, ((![v345] : Fin 1 → IVec S16 32) a x).toNat < S1312.size a := fun v345 k0_hw147 => k0_hw147

def k0_chk148 (v353 : IVec S16 32) : Prop :=
  (∀ a x, ((![v353] : Fin 1 → IVec S16 32) a x).toNat < S1312.size a)
instance k0_chk148.dec : ∀ (v353 : IVec S16 32), Decidable (k0_chk148 v353) := fun v353 => decidable_of_iff' _ (Iff.of_eq (k0_chk148.eq_1 v353))
theorem k0_idx84_inb : ∀ (v353 : IVec S16 32) (k0_hw148 : k0_chk148 v353), ∀ a x, ((![v353] : Fin 1 → IVec S16 32) a x).toNat < S1312.size a := fun v353 k0_hw148 => k0_hw148

def k0_chk149 (v361 : IVec S16 32) : Prop :=
  (∀ a x, ((![v361] : Fin 1 → IVec S16 32) a x).toNat < S1312.size a)
instance k0_chk149.dec : ∀ (v361 : IVec S16 32), Decidable (k0_chk149 v361) := fun v361 => decidable_of_iff' _ (Iff.of_eq (k0_chk149.eq_1 v361))
theorem k0_idx85_inb : ∀ (v361 : IVec S16 32) (k0_hw149 : k0_chk149 v361), ∀ a x, ((![v361] : Fin 1 → IVec S16 32) a x).toNat < S1312.size a := fun v361 k0_hw149 => k0_hw149

def k0_chk150 (v369 : IVec S16 32) : Prop :=
  (∀ a x, ((![v369] : Fin 1 → IVec S16 32) a x).toNat < S1312.size a)
instance k0_chk150.dec : ∀ (v369 : IVec S16 32), Decidable (k0_chk150 v369) := fun v369 => decidable_of_iff' _ (Iff.of_eq (k0_chk150.eq_1 v369))
theorem k0_idx86_inb : ∀ (v369 : IVec S16 32) (k0_hw150 : k0_chk150 v369), ∀ a x, ((![v369] : Fin 1 → IVec S16 32) a x).toNat < S1312.size a := fun v369 k0_hw150 => k0_hw150

def k0_chk151 (v377 : IVec S16 32) : Prop :=
  (∀ a x, ((![v377] : Fin 1 → IVec S16 32) a x).toNat < S1312.size a)
instance k0_chk151.dec : ∀ (v377 : IVec S16 32), Decidable (k0_chk151 v377) := fun v377 => decidable_of_iff' _ (Iff.of_eq (k0_chk151.eq_1 v377))
theorem k0_idx87_inb : ∀ (v377 : IVec S16 32) (k0_hw151 : k0_chk151 v377), ∀ a x, ((![v377] : Fin 1 → IVec S16 32) a x).toNat < S1312.size a := fun v377 k0_hw151 => k0_hw151

def k0_chk152 (v385 : IVec S16 32) : Prop :=
  (∀ a x, ((![v385] : Fin 1 → IVec S16 32) a x).toNat < S1312.size a)
instance k0_chk152.dec : ∀ (v385 : IVec S16 32), Decidable (k0_chk152 v385) := fun v385 => decidable_of_iff' _ (Iff.of_eq (k0_chk152.eq_1 v385))
theorem k0_idx88_inb : ∀ (v385 : IVec S16 32) (k0_hw152 : k0_chk152 v385), ∀ a x, ((![v385] : Fin 1 → IVec S16 32) a x).toNat < S1312.size a := fun v385 k0_hw152 => k0_hw152

def k0_chk153 (v393 : IVec S16 32) : Prop :=
  (∀ a x, ((![v393] : Fin 1 → IVec S16 32) a x).toNat < S1312.size a)
instance k0_chk153.dec : ∀ (v393 : IVec S16 32), Decidable (k0_chk153 v393) := fun v393 => decidable_of_iff' _ (Iff.of_eq (k0_chk153.eq_1 v393))
theorem k0_idx89_inb : ∀ (v393 : IVec S16 32) (k0_hw153 : k0_chk153 v393), ∀ a x, ((![v393] : Fin 1 → IVec S16 32) a x).toNat < S1312.size a := fun v393 k0_hw153 => k0_hw153

def k0_chk154 (v401 : IVec S16 32) : Prop :=
  (∀ a x, ((![v401] : Fin 1 → IVec S16 32) a x).toNat < S1312.size a)
instance k0_chk154.dec : ∀ (v401 : IVec S16 32), Decidable (k0_chk154 v401) := fun v401 => decidable_of_iff' _ (Iff.of_eq (k0_chk154.eq_1 v401))
theorem k0_idx90_inb : ∀ (v401 : IVec S16 32) (k0_hw154 : k0_chk154 v401), ∀ a x, ((![v401] : Fin 1 → IVec S16 32) a x).toNat < S1312.size a := fun v401 k0_hw154 => k0_hw154

def k0_chk155 (v409 : IVec S16 32) : Prop :=
  (∀ a x, ((![v409] : Fin 1 → IVec S16 32) a x).toNat < S1312.size a)
instance k0_chk155.dec : ∀ (v409 : IVec S16 32), Decidable (k0_chk155 v409) := fun v409 => decidable_of_iff' _ (Iff.of_eq (k0_chk155.eq_1 v409))
theorem k0_idx91_inb : ∀ (v409 : IVec S16 32) (k0_hw155 : k0_chk155 v409), ∀ a x, ((![v409] : Fin 1 → IVec S16 32) a x).toNat < S1312.size a := fun v409 k0_hw155 => k0_hw155

def k0_chk156 (v417 : IVec S16 32) : Prop :=
  (∀ a x, ((![v417] : Fin 1 → IVec S16 32) a x).toNat < S1312.size a)
instance k0_chk156.dec : ∀ (v417 : IVec S16 32), Decidable (k0_chk156 v417) := fun v417 => decidable_of_iff' _ (Iff.of_eq (k0_chk156.eq_1 v417))
theorem k0_idx92_inb : ∀ (v417 : IVec S16 32) (k0_hw156 : k0_chk156 v417), ∀ a x, ((![v417] : Fin 1 → IVec S16 32) a x).toNat < S1312.size a := fun v417 k0_hw156 => k0_hw156

def k0_chk157 (v425 : IVec S16 32) : Prop :=
  (∀ a x, ((![v425] : Fin 1 → IVec S16 32) a x).toNat < S1312.size a)
instance k0_chk157.dec : ∀ (v425 : IVec S16 32), Decidable (k0_chk157 v425) := fun v425 => decidable_of_iff' _ (Iff.of_eq (k0_chk157.eq_1 v425))
theorem k0_idx93_inb : ∀ (v425 : IVec S16 32) (k0_hw157 : k0_chk157 v425), ∀ a x, ((![v425] : Fin 1 → IVec S16 32) a x).toNat < S1312.size a := fun v425 k0_hw157 => k0_hw157

def k0_chk158 (v433 : IVec S16 32) : Prop :=
  (∀ a x, ((![v433] : Fin 1 → IVec S16 32) a x).toNat < S1312.size a)
instance k0_chk158.dec : ∀ (v433 : IVec S16 32), Decidable (k0_chk158 v433) := fun v433 => decidable_of_iff' _ (Iff.of_eq (k0_chk158.eq_1 v433))
theorem k0_idx94_inb : ∀ (v433 : IVec S16 32) (k0_hw158 : k0_chk158 v433), ∀ a x, ((![v433] : Fin 1 → IVec S16 32) a x).toNat < S1312.size a := fun v433 k0_hw158 => k0_hw158
@[reducible] def k0_t10_loop : Scf.Loop 32 :=
  let c0_i32_258 : BitVec 32 := 0#32
  let c8_i32_259 : BitVec 32 := 8#32
  let v435 : BitVec 32 := Scalar.addi c0_i32_258 c8_i32_259
  let c1_i32_260 : BitVec 32 := 1#32
  ⟨c0_i32_258, v435, c1_i32_260⟩
def k0_off158 (k0_t4 : Fin k0_t4_loop.trips) : Fin 3 → Nat :=
  let c0_i32_22 : BitVec 32 := 0#32
  let c1_i32_23 : BitVec 32 := 1#32
  let arg19 : BitVec 32 := Scf.iv c0_i32_22 c1_i32_23 k0_t4
  let c2_i32_41 : BitVec 32 := 2#32
  let v93 : BitVec 32 := Scalar.remsi arg19 c2_i32_41
  let c0_i32_264 : BitVec 32 := 0#32
  let c0_i32_265 : BitVec 32 := 0#32
  ![v93.toNat, 0, 0]

def k0_chk159 (v438 : IVec S16 32) (v441 : IVec S16 32) : Prop :=
  (∀ a x, ((![v438, v441] : Fin 2 → IVec S16 32) a x).toNat < S128x64.size a)
instance k0_chk159.dec : ∀ (v438 : IVec S16 32) (v441 : IVec S16 32), Decidable (k0_chk159 v438 v441) := fun v438 v441 => decidable_of_iff' _ (Iff.of_eq (k0_chk159.eq_1 v438 v441))
theorem k0_idx95_inb : ∀ (v438 : IVec S16 32) (v441 : IVec S16 32) (k0_hw159 : k0_chk159 v438 v441), ∀ a x, ((![v438, v441] : Fin 2 → IVec S16 32) a x).toNat < S128x64.size a := fun v438 v441 k0_hw159 => k0_hw159
def k0_off159 (k0_t4 : Fin k0_t4_loop.trips) : Fin 3 → Nat :=
  let c0_i32_22 : BitVec 32 := 0#32
  let c1_i32_23 : BitVec 32 := 1#32
  let arg19 : BitVec 32 := Scf.iv c0_i32_22 c1_i32_23 k0_t4
  let c2_i32_41 : BitVec 32 := 2#32
  let v93 : BitVec 32 := Scalar.remsi arg19 c2_i32_41
  let c0_i32_267 : BitVec 32 := 0#32
  let c0_i32_268 : BitVec 32 := 0#32
  ![v93.toNat, 0, 0]

def k0_chk160 (v438 : IVec S16 32) (v449 : IVec S16 32) : Prop :=
  (∀ a x, ((![v438, v449] : Fin 2 → IVec S16 32) a x).toNat < S128x64.size a)
instance k0_chk160.dec : ∀ (v438 : IVec S16 32) (v449 : IVec S16 32), Decidable (k0_chk160 v438 v449) := fun v438 v449 => decidable_of_iff' _ (Iff.of_eq (k0_chk160.eq_1 v438 v449))
theorem k0_idx96_inb : ∀ (v438 : IVec S16 32) (v449 : IVec S16 32) (k0_hw160 : k0_chk160 v438 v449), ∀ a x, ((![v438, v449] : Fin 2 → IVec S16 32) a x).toNat < S128x64.size a := fun v438 v449 k0_hw160 => k0_hw160
def k0_off160 (k0_t4 : Fin k0_t4_loop.trips) : Fin 3 → Nat :=
  let c0_i32_22 : BitVec 32 := 0#32
  let c1_i32_23 : BitVec 32 := 1#32
  let arg19 : BitVec 32 := Scf.iv c0_i32_22 c1_i32_23 k0_t4
  let c2_i32_41 : BitVec 32 := 2#32
  let v93 : BitVec 32 := Scalar.remsi arg19 c2_i32_41
  let c0_i32_271 : BitVec 32 := 0#32
  let c0_i32_272 : BitVec 32 := 0#32
  ![v93.toNat, 0, 0]

def k0_chk161 (v438 : IVec S16 32) (v457 : IVec S16 32) : Prop :=
  (∀ a x, ((![v438, v457] : Fin 2 → IVec S16 32) a x).toNat < S128x64.size a)
instance k0_chk161.dec : ∀ (v438 : IVec S16 32) (v457 : IVec S16 32), Decidable (k0_chk161 v438 v457) := fun v438 v457 => decidable_of_iff' _ (Iff.of_eq (k0_chk161.eq_1 v438 v457))
theorem k0_idx97_inb : ∀ (v438 : IVec S16 32) (v457 : IVec S16 32) (k0_hw161 : k0_chk161 v438 v457), ∀ a x, ((![v438, v457] : Fin 2 → IVec S16 32) a x).toNat < S128x64.size a := fun v438 v457 k0_hw161 => k0_hw161
def k0_off161 (k0_t4 : Fin k0_t4_loop.trips) : Fin 3 → Nat :=
  let c0_i32_22 : BitVec 32 := 0#32
  let c1_i32_23 : BitVec 32 := 1#32
  let arg19 : BitVec 32 := Scf.iv c0_i32_22 c1_i32_23 k0_t4
  let c2_i32_41 : BitVec 32 := 2#32
  let v93 : BitVec 32 := Scalar.remsi arg19 c2_i32_41
  let c0_i32_275 : BitVec 32 := 0#32
  let c0_i32_276 : BitVec 32 := 0#32
  ![v93.toNat, 0, 0]

def k0_chk162 (v438 : IVec S16 32) (v465 : IVec S16 32) : Prop :=
  (∀ a x, ((![v438, v465] : Fin 2 → IVec S16 32) a x).toNat < S128x64.size a)
instance k0_chk162.dec : ∀ (v438 : IVec S16 32) (v465 : IVec S16 32), Decidable (k0_chk162 v438 v465) := fun v438 v465 => decidable_of_iff' _ (Iff.of_eq (k0_chk162.eq_1 v438 v465))
theorem k0_idx98_inb : ∀ (v438 : IVec S16 32) (v465 : IVec S16 32) (k0_hw162 : k0_chk162 v438 v465), ∀ a x, ((![v438, v465] : Fin 2 → IVec S16 32) a x).toNat < S128x64.size a := fun v438 v465 k0_hw162 => k0_hw162
def k0_off162 (k0_t4 : Fin k0_t4_loop.trips) (k0_t10 : Fin k0_t10_loop.trips) : Fin 2 → Nat :=
  let c0_i32_279 : BitVec 32 := 0#32
  let v474 : Index := Scalar.indexCast c0_i32_279
  let c0_i32_22 : BitVec 32 := 0#32
  let c1_i32_23 : BitVec 32 := 1#32
  let arg19 : BitVec 32 := Scf.iv c0_i32_22 c1_i32_23 k0_t4
  let c128_i32 : BitVec 32 := 128#32
  let v471 : BitVec 32 := Scalar.muli arg19 c128_i32
  let c0_i32_258 : BitVec 32 := 0#32
  let c1_i32_260 : BitVec 32 := 1#32
  let arg21 : BitVec 32 := Scf.iv c0_i32_258 c1_i32_260 k0_t10
  let c16_i32_278 : BitVec 32 := 16#32
  let v472 : BitVec 32 := Scalar.muli arg21 c16_i32_278
  let v473 : BitVec 32 := Scalar.addi v471 v472
  let v475 : Index := Scalar.indexCast v473
  ![0, v475.toNat]
def k0_off163 (k0_t4 : Fin k0_t4_loop.trips) (k0_t10 : Fin k0_t10_loop.trips) : Fin 2 → Nat :=
  let c1_i32_285 : BitVec 32 := 1#32
  let v494 : Index := Scalar.indexCast c1_i32_285
  let c0_i32_22 : BitVec 32 := 0#32
  let c1_i32_23 : BitVec 32 := 1#32
  let arg19 : BitVec 32 := Scf.iv c0_i32_22 c1_i32_23 k0_t4
  let c128_i32_283 : BitVec 32 := 128#32
  let v491 : BitVec 32 := Scalar.muli arg19 c128_i32_283
  let c0_i32_258 : BitVec 32 := 0#32
  let c1_i32_260 : BitVec 32 := 1#32
  let arg21 : BitVec 32 := Scf.iv c0_i32_258 c1_i32_260 k0_t10
  let c16_i32_284 : BitVec 32 := 16#32
  let v492 : BitVec 32 := Scalar.muli arg21 c16_i32_284
  let v493 : BitVec 32 := Scalar.addi v491 v492
  let v495 : Index := Scalar.indexCast v493
  ![1, v495.toNat]
def k0_off164 (k0_t4 : Fin k0_t4_loop.trips) (k0_t10 : Fin k0_t10_loop.trips) : Fin 2 → Nat :=
  let c2_i32_291 : BitVec 32 := 2#32
  let v514 : Index := Scalar.indexCast c2_i32_291
  let c0_i32_22 : BitVec 32 := 0#32
  let c1_i32_23 : BitVec 32 := 1#32
  let arg19 : BitVec 32 := Scf.iv c0_i32_22 c1_i32_23 k0_t4
  let c128_i32_289 : BitVec 32 := 128#32
  let v511 : BitVec 32 := Scalar.muli arg19 c128_i32_289
  let c0_i32_258 : BitVec 32 := 0#32
  let c1_i32_260 : BitVec 32 := 1#32
  let arg21 : BitVec 32 := Scf.iv c0_i32_258 c1_i32_260 k0_t10
  let c16_i32_290 : BitVec 32 := 16#32
  let v512 : BitVec 32 := Scalar.muli arg21 c16_i32_290
  let v513 : BitVec 32 := Scalar.addi v511 v512
  let v515 : Index := Scalar.indexCast v513
  ![2, v515.toNat]
def k0_off165 (k0_t4 : Fin k0_t4_loop.trips) (k0_t10 : Fin k0_t10_loop.trips) : Fin 2 → Nat :=
  let c3_i32_297 : BitVec 32 := 3#32
  let v534 : Index := Scalar.indexCast c3_i32_297
  let c0_i32_22 : BitVec 32 := 0#32
  let c1_i32_23 : BitVec 32 := 1#32
  let arg19 : BitVec 32 := Scf.iv c0_i32_22 c1_i32_23 k0_t4
  let c128_i32_295 : BitVec 32 := 128#32
  let v531 : BitVec 32 := Scalar.muli arg19 c128_i32_295
  let c0_i32_258 : BitVec 32 := 0#32
  let c1_i32_260 : BitVec 32 := 1#32
  let arg21 : BitVec 32 := Scf.iv c0_i32_258 c1_i32_260 k0_t10
  let c16_i32_296 : BitVec 32 := 16#32
  let v532 : BitVec 32 := Scalar.muli arg21 c16_i32_296
  let v533 : BitVec 32 := Scalar.addi v531 v532
  let v535 : Index := Scalar.indexCast v533
  ![3, v535.toNat]
def k0_off166 (k0_t4 : Fin k0_t4_loop.trips) (k0_t10 : Fin k0_t10_loop.trips) : Fin 2 → Nat :=
  let c4_i32_303 : BitVec 32 := 4#32
  let v554 : Index := Scalar.indexCast c4_i32_303
  let c0_i32_22 : BitVec 32 := 0#32
  let c1_i32_23 : BitVec 32 := 1#32
  let arg19 : BitVec 32 := Scf.iv c0_i32_22 c1_i32_23 k0_t4
  let c128_i32_301 : BitVec 32 := 128#32
  let v551 : BitVec 32 := Scalar.muli arg19 c128_i32_301
  let c0_i32_258 : BitVec 32 := 0#32
  let c1_i32_260 : BitVec 32 := 1#32
  let arg21 : BitVec 32 := Scf.iv c0_i32_258 c1_i32_260 k0_t10
  let c16_i32_302 : BitVec 32 := 16#32
  let v552 : BitVec 32 := Scalar.muli arg21 c16_i32_302
  let v553 : BitVec 32 := Scalar.addi v551 v552
  let v555 : Index := Scalar.indexCast v553
  ![4, v555.toNat]
def k0_off167 (k0_t4 : Fin k0_t4_loop.trips) (k0_t10 : Fin k0_t10_loop.trips) : Fin 2 → Nat :=
  let c5_i32_309 : BitVec 32 := 5#32
  let v574 : Index := Scalar.indexCast c5_i32_309
  let c0_i32_22 : BitVec 32 := 0#32
  let c1_i32_23 : BitVec 32 := 1#32
  let arg19 : BitVec 32 := Scf.iv c0_i32_22 c1_i32_23 k0_t4
  let c128_i32_307 : BitVec 32 := 128#32
  let v571 : BitVec 32 := Scalar.muli arg19 c128_i32_307
  let c0_i32_258 : BitVec 32 := 0#32
  let c1_i32_260 : BitVec 32 := 1#32
  let arg21 : BitVec 32 := Scf.iv c0_i32_258 c1_i32_260 k0_t10
  let c16_i32_308 : BitVec 32 := 16#32
  let v572 : BitVec 32 := Scalar.muli arg21 c16_i32_308
  let v573 : BitVec 32 := Scalar.addi v571 v572
  let v575 : Index := Scalar.indexCast v573
  ![5, v575.toNat]
def k0_off168 (k0_t4 : Fin k0_t4_loop.trips) (k0_t10 : Fin k0_t10_loop.trips) : Fin 2 → Nat :=
  let c6_i32_315 : BitVec 32 := 6#32
  let v594 : Index := Scalar.indexCast c6_i32_315
  let c0_i32_22 : BitVec 32 := 0#32
  let c1_i32_23 : BitVec 32 := 1#32
  let arg19 : BitVec 32 := Scf.iv c0_i32_22 c1_i32_23 k0_t4
  let c128_i32_313 : BitVec 32 := 128#32
  let v591 : BitVec 32 := Scalar.muli arg19 c128_i32_313
  let c0_i32_258 : BitVec 32 := 0#32
  let c1_i32_260 : BitVec 32 := 1#32
  let arg21 : BitVec 32 := Scf.iv c0_i32_258 c1_i32_260 k0_t10
  let c16_i32_314 : BitVec 32 := 16#32
  let v592 : BitVec 32 := Scalar.muli arg21 c16_i32_314
  let v593 : BitVec 32 := Scalar.addi v591 v592
  let v595 : Index := Scalar.indexCast v593
  ![6, v595.toNat]
def k0_off169 (k0_t4 : Fin k0_t4_loop.trips) (k0_t10 : Fin k0_t10_loop.trips) : Fin 2 → Nat :=
  let c7_i32_321 : BitVec 32 := 7#32
  let v614 : Index := Scalar.indexCast c7_i32_321
  let c0_i32_22 : BitVec 32 := 0#32
  let c1_i32_23 : BitVec 32 := 1#32
  let arg19 : BitVec 32 := Scf.iv c0_i32_22 c1_i32_23 k0_t4
  let c128_i32_319 : BitVec 32 := 128#32
  let v611 : BitVec 32 := Scalar.muli arg19 c128_i32_319
  let c0_i32_258 : BitVec 32 := 0#32
  let c1_i32_260 : BitVec 32 := 1#32
  let arg21 : BitVec 32 := Scf.iv c0_i32_258 c1_i32_260 k0_t10
  let c16_i32_320 : BitVec 32 := 16#32
  let v612 : BitVec 32 := Scalar.muli arg21 c16_i32_320
  let v613 : BitVec 32 := Scalar.addi v611 v612
  let v615 : Index := Scalar.indexCast v613
  ![7, v615.toNat]
def k0_off170 (k0_t4 : Fin k0_t4_loop.trips) (k0_t10 : Fin k0_t10_loop.trips) : Fin 2 → Nat :=
  let c8_i32_327 : BitVec 32 := 8#32
  let v634 : Index := Scalar.indexCast c8_i32_327
  let c0_i32_22 : BitVec 32 := 0#32
  let c1_i32_23 : BitVec 32 := 1#32
  let arg19 : BitVec 32 := Scf.iv c0_i32_22 c1_i32_23 k0_t4
  let c128_i32_325 : BitVec 32 := 128#32
  let v631 : BitVec 32 := Scalar.muli arg19 c128_i32_325
  let c0_i32_258 : BitVec 32 := 0#32
  let c1_i32_260 : BitVec 32 := 1#32
  let arg21 : BitVec 32 := Scf.iv c0_i32_258 c1_i32_260 k0_t10
  let c16_i32_326 : BitVec 32 := 16#32
  let v632 : BitVec 32 := Scalar.muli arg21 c16_i32_326
  let v633 : BitVec 32 := Scalar.addi v631 v632
  let v635 : Index := Scalar.indexCast v633
  ![8, v635.toNat]
def k0_off171 (k0_t4 : Fin k0_t4_loop.trips) (k0_t10 : Fin k0_t10_loop.trips) : Fin 2 → Nat :=
  let c9_i32_333 : BitVec 32 := 9#32
  let v654 : Index := Scalar.indexCast c9_i32_333
  let c0_i32_22 : BitVec 32 := 0#32
  let c1_i32_23 : BitVec 32 := 1#32
  let arg19 : BitVec 32 := Scf.iv c0_i32_22 c1_i32_23 k0_t4
  let c128_i32_331 : BitVec 32 := 128#32
  let v651 : BitVec 32 := Scalar.muli arg19 c128_i32_331
  let c0_i32_258 : BitVec 32 := 0#32
  let c1_i32_260 : BitVec 32 := 1#32
  let arg21 : BitVec 32 := Scf.iv c0_i32_258 c1_i32_260 k0_t10
  let c16_i32_332 : BitVec 32 := 16#32
  let v652 : BitVec 32 := Scalar.muli arg21 c16_i32_332
  let v653 : BitVec 32 := Scalar.addi v651 v652
  let v655 : Index := Scalar.indexCast v653
  ![9, v655.toNat]
def k0_cond3 (k0_t4 : Fin k0_t4_loop.trips) : BitVec 1 :=
  let c0_i32_22 : BitVec 32 := 0#32
  let c1_i32_23 : BitVec 32 := 1#32
  let arg19 : BitVec 32 := Scf.iv c0_i32_22 c1_i32_23 k0_t4
  let c2_i32_55 : BitVec 32 := 2#32
  let v102 : BitVec 32 := Scalar.addi arg19 c2_i32_55
  let c4_i32_56 : BitVec 32 := 4#32
  let v103 : BitVec 1 := Scalar.cmpi .slt v102 c4_i32_56
  let c2_i32_41 : BitVec 32 := 2#32
  let v93 : BitVec 32 := Scalar.remsi arg19 c2_i32_41
  let c0_i32_57 : BitVec 32 := 0#32
  let v104 : BitVec 1 := Scalar.cmpi .eq v93 c0_i32_57
  let v105 : BitVec 1 := Scalar.andi v103 v104
  let v106 : BitVec 32 := Scalar.extui v105
  let c0_i32_58 : BitVec 32 := 0#32
  let v107 : BitVec 1 := Scalar.cmpi .ne v106 c0_i32_58
  v107

@[reducible] def k0_t11_loop : Scf.Loop 32 :=
  let c0_i32_65 : BitVec 32 := 0#32
  let c8_i32_66 : BitVec 32 := 8#32
  let v115 : BitVec 32 := Scalar.addi c0_i32_65 c8_i32_66
  let c1_i32_67 : BitVec 32 := 1#32
  ⟨c0_i32_65, v115, c1_i32_67⟩
def k0_off172 (k0_t4 : Fin k0_t4_loop.trips) (k0_t11 : Fin k0_t11_loop.trips) : Fin 1 → Nat :=
  let c0_i32_22 : BitVec 32 := 0#32
  let c1_i32_23 : BitVec 32 := 1#32
  let arg19 : BitVec 32 := Scf.iv c0_i32_22 c1_i32_23 k0_t4
  let c2_i32_63 : BitVec 32 := 2#32
  let v114 : BitVec 32 := Scalar.addi arg19 c2_i32_63
  let c128_i32 : BitVec 32 := 128#32
  let v116 : BitVec 32 := Scalar.muli v114 c128_i32
  let c0_i32_65 : BitVec 32 := 0#32
  let c1_i32_67 : BitVec 32 := 1#32
  let arg20 : BitVec 32 := Scf.iv c0_i32_65 c1_i32_67 k0_t11
  let c16_i32_69 : BitVec 32 := 16#32
  let v117 : BitVec 32 := Scalar.muli arg20 c16_i32_69
  let v118 : BitVec 32 := Scalar.addi v116 v117
  let v119 : Index := Scalar.indexCast v118
  ![v119.toNat]
def k0_off173 (k0_t11 : Fin k0_t11_loop.trips) : Fin 3 → Nat :=
  let c0_i32_74 : BitVec 32 := 0#32
  let c0_i32_65 : BitVec 32 := 0#32
  let c1_i32_67 : BitVec 32 := 1#32
  let arg20 : BitVec 32 := Scf.iv c0_i32_65 c1_i32_67 k0_t11
  let c16_i32_72 : BitVec 32 := 16#32
  let v126 : BitVec 32 := Scalar.muli arg20 c16_i32_72
  let c0_i32_73 : BitVec 32 := 0#32
  let v127 : BitVec 32 := Scalar.addi v126 c0_i32_73
  let c0_i32_75 : BitVec 32 := 0#32
  ![0, v127.toNat, 0]
def k0_off174 (v129 : BitVec 32) : Fin 2 → Nat :=
  let c0_i32_76 : BitVec 32 := 0#32
  ![v129.toNat, 0]

def k0_chk163 (k0_t4 : Fin k0_t4_loop.trips) (v129 : BitVec 32) : Prop :=
  (∀ (k0_h3 : k0_cond3 k0_t4 = 1#1), ∀ a, (k0_off174 v129) a + S1x64.size a ≤ S1000000x64.size a)
instance k0_chk163.dec : ∀ (k0_t4 : Fin k0_t4_loop.trips) (v129 : BitVec 32), Decidable (k0_chk163 k0_t4 v129) := fun k0_t4 v129 => decidable_of_iff' _ (Iff.of_eq (k0_chk163.eq_1 k0_t4 v129))
theorem k0_off174_inb : ∀ (k0_t4 : Fin k0_t4_loop.trips) (v129 : BitVec 32) (k0_hw163 : k0_chk163 k0_t4 v129), ∀ (k0_h3 : k0_cond3 k0_t4 = 1#1), ∀ a, (k0_off174 v129) a + S1x64.size a ≤ S1000000x64.size a := fun k0_t4 v129 k0_hw163 k0_h3 => k0_hw163 k0_h3

def k0_off175 (k0_t11 : Fin k0_t11_loop.trips) : Fin 3 → Nat :=
  let c0_i32_74 : BitVec 32 := 0#32
  let c0_i32_65 : BitVec 32 := 0#32
  let c1_i32_67 : BitVec 32 := 1#32
  let arg20 : BitVec 32 := Scf.iv c0_i32_65 c1_i32_67 k0_t11
  let c16_i32_72 : BitVec 32 := 16#32
  let v126 : BitVec 32 := Scalar.muli arg20 c16_i32_72
  let c0_i32_73 : BitVec 32 := 0#32
  let v127 : BitVec 32 := Scalar.addi v126 c0_i32_73
  let c0_i32_77 : BitVec 32 := 0#32
  ![0, v127.toNat, 0]
def k0_off176 (v139 : BitVec 32) : Fin 2 → Nat :=
  let c0_i32_81 : BitVec 32 := 0#32
  ![v139.toNat, 0]

def k0_chk164 (k0_t4 : Fin k0_t4_loop.trips) (v139 : BitVec 32) : Prop :=
  (∀ (k0_h3 : k0_cond3 k0_t4 = 1#1), ∀ a, (k0_off176 v139) a + S1x64.size a ≤ S100000x64.size a)
instance k0_chk164.dec : ∀ (k0_t4 : Fin k0_t4_loop.trips) (v139 : BitVec 32), Decidable (k0_chk164 k0_t4 v139) := fun k0_t4 v139 => decidable_of_iff' _ (Iff.of_eq (k0_chk164.eq_1 k0_t4 v139))
theorem k0_off176_inb : ∀ (k0_t4 : Fin k0_t4_loop.trips) (v139 : BitVec 32) (k0_hw164 : k0_chk164 k0_t4 v139), ∀ (k0_h3 : k0_cond3 k0_t4 = 1#1), ∀ a, (k0_off176 v139) a + S1x64.size a ≤ S100000x64.size a := fun k0_t4 v139 k0_hw164 k0_h3 => k0_hw164 k0_h3

def k0_off177 (k0_t11 : Fin k0_t11_loop.trips) (c0_i32_73 : BitVec 32) : Fin 3 → Nat :=
  let c0_i32_79 : BitVec 32 := 0#32
  let c0_i32_65 : BitVec 32 := 0#32
  let c1_i32_67 : BitVec 32 := 1#32
  let arg20 : BitVec 32 := Scf.iv c0_i32_65 c1_i32_67 k0_t11
  let c16_i32_72 : BitVec 32 := 16#32
  let v126 : BitVec 32 := Scalar.muli arg20 c16_i32_72
  let v127 : BitVec 32 := Scalar.addi v126 c0_i32_73
  let c0_i32_82 : BitVec 32 := 0#32
  ![0, v127.toNat, 0]
def k0_off178 (v151 : BitVec 32) : Fin 2 → Nat :=
  let c0_i32_88 : BitVec 32 := 0#32
  ![v151.toNat, 0]

def k0_chk165 (k0_t4 : Fin k0_t4_loop.trips) (v151 : BitVec 32) : Prop :=
  (∀ (k0_h3 : k0_cond3 k0_t4 = 1#1), ∀ a, (k0_off178 v151) a + S1x64.size a ≤ S1000000x64.size a)
instance k0_chk165.dec : ∀ (k0_t4 : Fin k0_t4_loop.trips) (v151 : BitVec 32), Decidable (k0_chk165 k0_t4 v151) := fun k0_t4 v151 => decidable_of_iff' _ (Iff.of_eq (k0_chk165.eq_1 k0_t4 v151))
theorem k0_off178_inb : ∀ (k0_t4 : Fin k0_t4_loop.trips) (v151 : BitVec 32) (k0_hw165 : k0_chk165 k0_t4 v151), ∀ (k0_h3 : k0_cond3 k0_t4 = 1#1), ∀ a, (k0_off178 v151) a + S1x64.size a ≤ S1000000x64.size a := fun k0_t4 v151 k0_hw165 k0_h3 => k0_hw165 k0_h3

def k0_off179 (k0_t11 : Fin k0_t11_loop.trips) : Fin 3 → Nat :=
  let c0_i32_86 : BitVec 32 := 0#32
  let c0_i32_65 : BitVec 32 := 0#32
  let c1_i32_67 : BitVec 32 := 1#32
  let arg20 : BitVec 32 := Scf.iv c0_i32_65 c1_i32_67 k0_t11
  let c16_i32_84 : BitVec 32 := 16#32
  let v148 : BitVec 32 := Scalar.muli arg20 c16_i32_84
  let c1_i32_85 : BitVec 32 := 1#32
  let v149 : BitVec 32 := Scalar.addi v148 c1_i32_85
  let c0_i32_89 : BitVec 32 := 0#32
  ![0, v149.toNat, 0]
def k0_off180 (v161 : BitVec 32) : Fin 2 → Nat :=
  let c0_i32_93 : BitVec 32 := 0#32
  ![v161.toNat, 0]

def k0_chk166 (k0_t4 : Fin k0_t4_loop.trips) (v161 : BitVec 32) : Prop :=
  (∀ (k0_h3 : k0_cond3 k0_t4 = 1#1), ∀ a, (k0_off180 v161) a + S1x64.size a ≤ S100000x64.size a)
instance k0_chk166.dec : ∀ (k0_t4 : Fin k0_t4_loop.trips) (v161 : BitVec 32), Decidable (k0_chk166 k0_t4 v161) := fun k0_t4 v161 => decidable_of_iff' _ (Iff.of_eq (k0_chk166.eq_1 k0_t4 v161))
theorem k0_off180_inb : ∀ (k0_t4 : Fin k0_t4_loop.trips) (v161 : BitVec 32) (k0_hw166 : k0_chk166 k0_t4 v161), ∀ (k0_h3 : k0_cond3 k0_t4 = 1#1), ∀ a, (k0_off180 v161) a + S1x64.size a ≤ S100000x64.size a := fun k0_t4 v161 k0_hw166 k0_h3 => k0_hw166 k0_h3

def k0_off181 (k0_t11 : Fin k0_t11_loop.trips) (c1_i32_85 : BitVec 32) : Fin 3 → Nat :=
  let c0_i32_91 : BitVec 32 := 0#32
  let c0_i32_65 : BitVec 32 := 0#32
  let c1_i32_67 : BitVec 32 := 1#32
  let arg20 : BitVec 32 := Scf.iv c0_i32_65 c1_i32_67 k0_t11
  let c16_i32_84 : BitVec 32 := 16#32
  let v148 : BitVec 32 := Scalar.muli arg20 c16_i32_84
  let v149 : BitVec 32 := Scalar.addi v148 c1_i32_85
  let c0_i32_94 : BitVec 32 := 0#32
  ![0, v149.toNat, 0]
def k0_off182 (v173 : BitVec 32) : Fin 2 → Nat :=
  let c0_i32_100 : BitVec 32 := 0#32
  ![v173.toNat, 0]

def k0_chk167 (k0_t4 : Fin k0_t4_loop.trips) (v173 : BitVec 32) : Prop :=
  (∀ (k0_h3 : k0_cond3 k0_t4 = 1#1), ∀ a, (k0_off182 v173) a + S1x64.size a ≤ S1000000x64.size a)
instance k0_chk167.dec : ∀ (k0_t4 : Fin k0_t4_loop.trips) (v173 : BitVec 32), Decidable (k0_chk167 k0_t4 v173) := fun k0_t4 v173 => decidable_of_iff' _ (Iff.of_eq (k0_chk167.eq_1 k0_t4 v173))
theorem k0_off182_inb : ∀ (k0_t4 : Fin k0_t4_loop.trips) (v173 : BitVec 32) (k0_hw167 : k0_chk167 k0_t4 v173), ∀ (k0_h3 : k0_cond3 k0_t4 = 1#1), ∀ a, (k0_off182 v173) a + S1x64.size a ≤ S1000000x64.size a := fun k0_t4 v173 k0_hw167 k0_h3 => k0_hw167 k0_h3

def k0_off183 (k0_t11 : Fin k0_t11_loop.trips) : Fin 3 → Nat :=
  let c0_i32_98 : BitVec 32 := 0#32
  let c0_i32_65 : BitVec 32 := 0#32
  let c1_i32_67 : BitVec 32 := 1#32
  let arg20 : BitVec 32 := Scf.iv c0_i32_65 c1_i32_67 k0_t11
  let c16_i32_96 : BitVec 32 := 16#32
  let v170 : BitVec 32 := Scalar.muli arg20 c16_i32_96
  let c2_i32_97 : BitVec 32 := 2#32
  let v171 : BitVec 32 := Scalar.addi v170 c2_i32_97
  let c0_i32_101 : BitVec 32 := 0#32
  ![0, v171.toNat, 0]
def k0_off184 (v183 : BitVec 32) : Fin 2 → Nat :=
  let c0_i32_105 : BitVec 32 := 0#32
  ![v183.toNat, 0]

def k0_chk168 (k0_t4 : Fin k0_t4_loop.trips) (v183 : BitVec 32) : Prop :=
  (∀ (k0_h3 : k0_cond3 k0_t4 = 1#1), ∀ a, (k0_off184 v183) a + S1x64.size a ≤ S100000x64.size a)
instance k0_chk168.dec : ∀ (k0_t4 : Fin k0_t4_loop.trips) (v183 : BitVec 32), Decidable (k0_chk168 k0_t4 v183) := fun k0_t4 v183 => decidable_of_iff' _ (Iff.of_eq (k0_chk168.eq_1 k0_t4 v183))
theorem k0_off184_inb : ∀ (k0_t4 : Fin k0_t4_loop.trips) (v183 : BitVec 32) (k0_hw168 : k0_chk168 k0_t4 v183), ∀ (k0_h3 : k0_cond3 k0_t4 = 1#1), ∀ a, (k0_off184 v183) a + S1x64.size a ≤ S100000x64.size a := fun k0_t4 v183 k0_hw168 k0_h3 => k0_hw168 k0_h3

def k0_off185 (k0_t11 : Fin k0_t11_loop.trips) (c2_i32_97 : BitVec 32) : Fin 3 → Nat :=
  let c0_i32_103 : BitVec 32 := 0#32
  let c0_i32_65 : BitVec 32 := 0#32
  let c1_i32_67 : BitVec 32 := 1#32
  let arg20 : BitVec 32 := Scf.iv c0_i32_65 c1_i32_67 k0_t11
  let c16_i32_96 : BitVec 32 := 16#32
  let v170 : BitVec 32 := Scalar.muli arg20 c16_i32_96
  let v171 : BitVec 32 := Scalar.addi v170 c2_i32_97
  let c0_i32_106 : BitVec 32 := 0#32
  ![0, v171.toNat, 0]
def k0_off186 (v195 : BitVec 32) : Fin 2 → Nat :=
  let c0_i32_111 : BitVec 32 := 0#32
  ![v195.toNat, 0]

def k0_chk169 (k0_t4 : Fin k0_t4_loop.trips) (v195 : BitVec 32) : Prop :=
  (∀ (k0_h3 : k0_cond3 k0_t4 = 1#1), ∀ a, (k0_off186 v195) a + S1x64.size a ≤ S1000000x64.size a)
instance k0_chk169.dec : ∀ (k0_t4 : Fin k0_t4_loop.trips) (v195 : BitVec 32), Decidable (k0_chk169 k0_t4 v195) := fun k0_t4 v195 => decidable_of_iff' _ (Iff.of_eq (k0_chk169.eq_1 k0_t4 v195))
theorem k0_off186_inb : ∀ (k0_t4 : Fin k0_t4_loop.trips) (v195 : BitVec 32) (k0_hw169 : k0_chk169 k0_t4 v195), ∀ (k0_h3 : k0_cond3 k0_t4 = 1#1), ∀ a, (k0_off186 v195) a + S1x64.size a ≤ S1000000x64.size a := fun k0_t4 v195 k0_hw169 k0_h3 => k0_hw169 k0_h3

def k0_off187 (k0_t11 : Fin k0_t11_loop.trips) : Fin 3 → Nat :=
  let c0_i32_109 : BitVec 32 := 0#32
  let c0_i32_65 : BitVec 32 := 0#32
  let c1_i32_67 : BitVec 32 := 1#32
  let arg20 : BitVec 32 := Scf.iv c0_i32_65 c1_i32_67 k0_t11
  let c16_i32_108 : BitVec 32 := 16#32
  let v192 : BitVec 32 := Scalar.muli arg20 c16_i32_108
  let c3_i32 : BitVec 32 := 3#32
  let v193 : BitVec 32 := Scalar.addi v192 c3_i32
  let c0_i32_112 : BitVec 32 := 0#32
  ![0, v193.toNat, 0]
def k0_off188 (v205 : BitVec 32) : Fin 2 → Nat :=
  let c0_i32_116 : BitVec 32 := 0#32
  ![v205.toNat, 0]

def k0_chk170 (k0_t4 : Fin k0_t4_loop.trips) (v205 : BitVec 32) : Prop :=
  (∀ (k0_h3 : k0_cond3 k0_t4 = 1#1), ∀ a, (k0_off188 v205) a + S1x64.size a ≤ S100000x64.size a)
instance k0_chk170.dec : ∀ (k0_t4 : Fin k0_t4_loop.trips) (v205 : BitVec 32), Decidable (k0_chk170 k0_t4 v205) := fun k0_t4 v205 => decidable_of_iff' _ (Iff.of_eq (k0_chk170.eq_1 k0_t4 v205))
theorem k0_off188_inb : ∀ (k0_t4 : Fin k0_t4_loop.trips) (v205 : BitVec 32) (k0_hw170 : k0_chk170 k0_t4 v205), ∀ (k0_h3 : k0_cond3 k0_t4 = 1#1), ∀ a, (k0_off188 v205) a + S1x64.size a ≤ S100000x64.size a := fun k0_t4 v205 k0_hw170 k0_h3 => k0_hw170 k0_h3

def k0_off189 (k0_t11 : Fin k0_t11_loop.trips) (c3_i32 : BitVec 32) : Fin 3 → Nat :=
  let c0_i32_114 : BitVec 32 := 0#32
  let c0_i32_65 : BitVec 32 := 0#32
  let c1_i32_67 : BitVec 32 := 1#32
  let arg20 : BitVec 32 := Scf.iv c0_i32_65 c1_i32_67 k0_t11
  let c16_i32_108 : BitVec 32 := 16#32
  let v192 : BitVec 32 := Scalar.muli arg20 c16_i32_108
  let v193 : BitVec 32 := Scalar.addi v192 c3_i32
  let c0_i32_117 : BitVec 32 := 0#32
  ![0, v193.toNat, 0]
def k0_off190 (v217 : BitVec 32) : Fin 2 → Nat :=
  let c0_i32_123 : BitVec 32 := 0#32
  ![v217.toNat, 0]

def k0_chk171 (k0_t4 : Fin k0_t4_loop.trips) (v217 : BitVec 32) : Prop :=
  (∀ (k0_h3 : k0_cond3 k0_t4 = 1#1), ∀ a, (k0_off190 v217) a + S1x64.size a ≤ S1000000x64.size a)
instance k0_chk171.dec : ∀ (k0_t4 : Fin k0_t4_loop.trips) (v217 : BitVec 32), Decidable (k0_chk171 k0_t4 v217) := fun k0_t4 v217 => decidable_of_iff' _ (Iff.of_eq (k0_chk171.eq_1 k0_t4 v217))
theorem k0_off190_inb : ∀ (k0_t4 : Fin k0_t4_loop.trips) (v217 : BitVec 32) (k0_hw171 : k0_chk171 k0_t4 v217), ∀ (k0_h3 : k0_cond3 k0_t4 = 1#1), ∀ a, (k0_off190 v217) a + S1x64.size a ≤ S1000000x64.size a := fun k0_t4 v217 k0_hw171 k0_h3 => k0_hw171 k0_h3

def k0_off191 (k0_t11 : Fin k0_t11_loop.trips) : Fin 3 → Nat :=
  let c0_i32_121 : BitVec 32 := 0#32
  let c0_i32_65 : BitVec 32 := 0#32
  let c1_i32_67 : BitVec 32 := 1#32
  let arg20 : BitVec 32 := Scf.iv c0_i32_65 c1_i32_67 k0_t11
  let c16_i32_119 : BitVec 32 := 16#32
  let v214 : BitVec 32 := Scalar.muli arg20 c16_i32_119
  let c4_i32_120 : BitVec 32 := 4#32
  let v215 : BitVec 32 := Scalar.addi v214 c4_i32_120
  let c0_i32_124 : BitVec 32 := 0#32
  ![0, v215.toNat, 0]
def k0_off192 (v227 : BitVec 32) : Fin 2 → Nat :=
  let c0_i32_128 : BitVec 32 := 0#32
  ![v227.toNat, 0]

def k0_chk172 (k0_t4 : Fin k0_t4_loop.trips) (v227 : BitVec 32) : Prop :=
  (∀ (k0_h3 : k0_cond3 k0_t4 = 1#1), ∀ a, (k0_off192 v227) a + S1x64.size a ≤ S100000x64.size a)
instance k0_chk172.dec : ∀ (k0_t4 : Fin k0_t4_loop.trips) (v227 : BitVec 32), Decidable (k0_chk172 k0_t4 v227) := fun k0_t4 v227 => decidable_of_iff' _ (Iff.of_eq (k0_chk172.eq_1 k0_t4 v227))
theorem k0_off192_inb : ∀ (k0_t4 : Fin k0_t4_loop.trips) (v227 : BitVec 32) (k0_hw172 : k0_chk172 k0_t4 v227), ∀ (k0_h3 : k0_cond3 k0_t4 = 1#1), ∀ a, (k0_off192 v227) a + S1x64.size a ≤ S100000x64.size a := fun k0_t4 v227 k0_hw172 k0_h3 => k0_hw172 k0_h3

def k0_off193 (k0_t11 : Fin k0_t11_loop.trips) (c4_i32_120 : BitVec 32) : Fin 3 → Nat :=
  let c0_i32_126 : BitVec 32 := 0#32
  let c0_i32_65 : BitVec 32 := 0#32
  let c1_i32_67 : BitVec 32 := 1#32
  let arg20 : BitVec 32 := Scf.iv c0_i32_65 c1_i32_67 k0_t11
  let c16_i32_119 : BitVec 32 := 16#32
  let v214 : BitVec 32 := Scalar.muli arg20 c16_i32_119
  let v215 : BitVec 32 := Scalar.addi v214 c4_i32_120
  let c0_i32_129 : BitVec 32 := 0#32
  ![0, v215.toNat, 0]
def k0_off194 (v239 : BitVec 32) : Fin 2 → Nat :=
  let c0_i32_134 : BitVec 32 := 0#32
  ![v239.toNat, 0]

def k0_chk173 (k0_t4 : Fin k0_t4_loop.trips) (v239 : BitVec 32) : Prop :=
  (∀ (k0_h3 : k0_cond3 k0_t4 = 1#1), ∀ a, (k0_off194 v239) a + S1x64.size a ≤ S1000000x64.size a)
instance k0_chk173.dec : ∀ (k0_t4 : Fin k0_t4_loop.trips) (v239 : BitVec 32), Decidable (k0_chk173 k0_t4 v239) := fun k0_t4 v239 => decidable_of_iff' _ (Iff.of_eq (k0_chk173.eq_1 k0_t4 v239))
theorem k0_off194_inb : ∀ (k0_t4 : Fin k0_t4_loop.trips) (v239 : BitVec 32) (k0_hw173 : k0_chk173 k0_t4 v239), ∀ (k0_h3 : k0_cond3 k0_t4 = 1#1), ∀ a, (k0_off194 v239) a + S1x64.size a ≤ S1000000x64.size a := fun k0_t4 v239 k0_hw173 k0_h3 => k0_hw173 k0_h3

def k0_off195 (k0_t11 : Fin k0_t11_loop.trips) : Fin 3 → Nat :=
  let c0_i32_132 : BitVec 32 := 0#32
  let c0_i32_65 : BitVec 32 := 0#32
  let c1_i32_67 : BitVec 32 := 1#32
  let arg20 : BitVec 32 := Scf.iv c0_i32_65 c1_i32_67 k0_t11
  let c16_i32_131 : BitVec 32 := 16#32
  let v236 : BitVec 32 := Scalar.muli arg20 c16_i32_131
  let c5_i32 : BitVec 32 := 5#32
  let v237 : BitVec 32 := Scalar.addi v236 c5_i32
  let c0_i32_135 : BitVec 32 := 0#32
  ![0, v237.toNat, 0]
def k0_off196 (v249 : BitVec 32) : Fin 2 → Nat :=
  let c0_i32_139 : BitVec 32 := 0#32
  ![v249.toNat, 0]

def k0_chk174 (k0_t4 : Fin k0_t4_loop.trips) (v249 : BitVec 32) : Prop :=
  (∀ (k0_h3 : k0_cond3 k0_t4 = 1#1), ∀ a, (k0_off196 v249) a + S1x64.size a ≤ S100000x64.size a)
instance k0_chk174.dec : ∀ (k0_t4 : Fin k0_t4_loop.trips) (v249 : BitVec 32), Decidable (k0_chk174 k0_t4 v249) := fun k0_t4 v249 => decidable_of_iff' _ (Iff.of_eq (k0_chk174.eq_1 k0_t4 v249))
theorem k0_off196_inb : ∀ (k0_t4 : Fin k0_t4_loop.trips) (v249 : BitVec 32) (k0_hw174 : k0_chk174 k0_t4 v249), ∀ (k0_h3 : k0_cond3 k0_t4 = 1#1), ∀ a, (k0_off196 v249) a + S1x64.size a ≤ S100000x64.size a := fun k0_t4 v249 k0_hw174 k0_h3 => k0_hw174 k0_h3

def k0_off197 (k0_t11 : Fin k0_t11_loop.trips) (c5_i32 : BitVec 32) : Fin 3 → Nat :=
  let c0_i32_137 : BitVec 32 := 0#32
  let c0_i32_65 : BitVec 32 := 0#32
  let c1_i32_67 : BitVec 32 := 1#32
  let arg20 : BitVec 32 := Scf.iv c0_i32_65 c1_i32_67 k0_t11
  let c16_i32_131 : BitVec 32 := 16#32
  let v236 : BitVec 32 := Scalar.muli arg20 c16_i32_131
  let v237 : BitVec 32 := Scalar.addi v236 c5_i32
  let c0_i32_140 : BitVec 32 := 0#32
  ![0, v237.toNat, 0]
def k0_off198 (v261 : BitVec 32) : Fin 2 → Nat :=
  let c0_i32_145 : BitVec 32 := 0#32
  ![v261.toNat, 0]

def k0_chk175 (k0_t4 : Fin k0_t4_loop.trips) (v261 : BitVec 32) : Prop :=
  (∀ (k0_h3 : k0_cond3 k0_t4 = 1#1), ∀ a, (k0_off198 v261) a + S1x64.size a ≤ S1000000x64.size a)
instance k0_chk175.dec : ∀ (k0_t4 : Fin k0_t4_loop.trips) (v261 : BitVec 32), Decidable (k0_chk175 k0_t4 v261) := fun k0_t4 v261 => decidable_of_iff' _ (Iff.of_eq (k0_chk175.eq_1 k0_t4 v261))
theorem k0_off198_inb : ∀ (k0_t4 : Fin k0_t4_loop.trips) (v261 : BitVec 32) (k0_hw175 : k0_chk175 k0_t4 v261), ∀ (k0_h3 : k0_cond3 k0_t4 = 1#1), ∀ a, (k0_off198 v261) a + S1x64.size a ≤ S1000000x64.size a := fun k0_t4 v261 k0_hw175 k0_h3 => k0_hw175 k0_h3

def k0_off199 (k0_t11 : Fin k0_t11_loop.trips) : Fin 3 → Nat :=
  let c0_i32_143 : BitVec 32 := 0#32
  let c0_i32_65 : BitVec 32 := 0#32
  let c1_i32_67 : BitVec 32 := 1#32
  let arg20 : BitVec 32 := Scf.iv c0_i32_65 c1_i32_67 k0_t11
  let c16_i32_142 : BitVec 32 := 16#32
  let v258 : BitVec 32 := Scalar.muli arg20 c16_i32_142
  let c6_i32 : BitVec 32 := 6#32
  let v259 : BitVec 32 := Scalar.addi v258 c6_i32
  let c0_i32_146 : BitVec 32 := 0#32
  ![0, v259.toNat, 0]
def k0_off200 (v271 : BitVec 32) : Fin 2 → Nat :=
  let c0_i32_150 : BitVec 32 := 0#32
  ![v271.toNat, 0]

def k0_chk176 (k0_t4 : Fin k0_t4_loop.trips) (v271 : BitVec 32) : Prop :=
  (∀ (k0_h3 : k0_cond3 k0_t4 = 1#1), ∀ a, (k0_off200 v271) a + S1x64.size a ≤ S100000x64.size a)
instance k0_chk176.dec : ∀ (k0_t4 : Fin k0_t4_loop.trips) (v271 : BitVec 32), Decidable (k0_chk176 k0_t4 v271) := fun k0_t4 v271 => decidable_of_iff' _ (Iff.of_eq (k0_chk176.eq_1 k0_t4 v271))
theorem k0_off200_inb : ∀ (k0_t4 : Fin k0_t4_loop.trips) (v271 : BitVec 32) (k0_hw176 : k0_chk176 k0_t4 v271), ∀ (k0_h3 : k0_cond3 k0_t4 = 1#1), ∀ a, (k0_off200 v271) a + S1x64.size a ≤ S100000x64.size a := fun k0_t4 v271 k0_hw176 k0_h3 => k0_hw176 k0_h3

def k0_off201 (k0_t11 : Fin k0_t11_loop.trips) (c6_i32 : BitVec 32) : Fin 3 → Nat :=
  let c0_i32_148 : BitVec 32 := 0#32
  let c0_i32_65 : BitVec 32 := 0#32
  let c1_i32_67 : BitVec 32 := 1#32
  let arg20 : BitVec 32 := Scf.iv c0_i32_65 c1_i32_67 k0_t11
  let c16_i32_142 : BitVec 32 := 16#32
  let v258 : BitVec 32 := Scalar.muli arg20 c16_i32_142
  let v259 : BitVec 32 := Scalar.addi v258 c6_i32
  let c0_i32_151 : BitVec 32 := 0#32
  ![0, v259.toNat, 0]
def k0_off202 (v283 : BitVec 32) : Fin 2 → Nat :=
  let c0_i32_156 : BitVec 32 := 0#32
  ![v283.toNat, 0]

def k0_chk177 (k0_t4 : Fin k0_t4_loop.trips) (v283 : BitVec 32) : Prop :=
  (∀ (k0_h3 : k0_cond3 k0_t4 = 1#1), ∀ a, (k0_off202 v283) a + S1x64.size a ≤ S1000000x64.size a)
instance k0_chk177.dec : ∀ (k0_t4 : Fin k0_t4_loop.trips) (v283 : BitVec 32), Decidable (k0_chk177 k0_t4 v283) := fun k0_t4 v283 => decidable_of_iff' _ (Iff.of_eq (k0_chk177.eq_1 k0_t4 v283))
theorem k0_off202_inb : ∀ (k0_t4 : Fin k0_t4_loop.trips) (v283 : BitVec 32) (k0_hw177 : k0_chk177 k0_t4 v283), ∀ (k0_h3 : k0_cond3 k0_t4 = 1#1), ∀ a, (k0_off202 v283) a + S1x64.size a ≤ S1000000x64.size a := fun k0_t4 v283 k0_hw177 k0_h3 => k0_hw177 k0_h3

def k0_off203 (k0_t11 : Fin k0_t11_loop.trips) : Fin 3 → Nat :=
  let c0_i32_154 : BitVec 32 := 0#32
  let c0_i32_65 : BitVec 32 := 0#32
  let c1_i32_67 : BitVec 32 := 1#32
  let arg20 : BitVec 32 := Scf.iv c0_i32_65 c1_i32_67 k0_t11
  let c16_i32_153 : BitVec 32 := 16#32
  let v280 : BitVec 32 := Scalar.muli arg20 c16_i32_153
  let c7_i32 : BitVec 32 := 7#32
  let v281 : BitVec 32 := Scalar.addi v280 c7_i32
  let c0_i32_157 : BitVec 32 := 0#32
  ![0, v281.toNat, 0]
def k0_off204 (v293 : BitVec 32) : Fin 2 → Nat :=
  let c0_i32_161 : BitVec 32 := 0#32
  ![v293.toNat, 0]

def k0_chk178 (k0_t4 : Fin k0_t4_loop.trips) (v293 : BitVec 32) : Prop :=
  (∀ (k0_h3 : k0_cond3 k0_t4 = 1#1), ∀ a, (k0_off204 v293) a + S1x64.size a ≤ S100000x64.size a)
instance k0_chk178.dec : ∀ (k0_t4 : Fin k0_t4_loop.trips) (v293 : BitVec 32), Decidable (k0_chk178 k0_t4 v293) := fun k0_t4 v293 => decidable_of_iff' _ (Iff.of_eq (k0_chk178.eq_1 k0_t4 v293))
theorem k0_off204_inb : ∀ (k0_t4 : Fin k0_t4_loop.trips) (v293 : BitVec 32) (k0_hw178 : k0_chk178 k0_t4 v293), ∀ (k0_h3 : k0_cond3 k0_t4 = 1#1), ∀ a, (k0_off204 v293) a + S1x64.size a ≤ S100000x64.size a := fun k0_t4 v293 k0_hw178 k0_h3 => k0_hw178 k0_h3

def k0_off205 (k0_t11 : Fin k0_t11_loop.trips) (c7_i32 : BitVec 32) : Fin 3 → Nat :=
  let c0_i32_159 : BitVec 32 := 0#32
  let c0_i32_65 : BitVec 32 := 0#32
  let c1_i32_67 : BitVec 32 := 1#32
  let arg20 : BitVec 32 := Scf.iv c0_i32_65 c1_i32_67 k0_t11
  let c16_i32_153 : BitVec 32 := 16#32
  let v280 : BitVec 32 := Scalar.muli arg20 c16_i32_153
  let v281 : BitVec 32 := Scalar.addi v280 c7_i32
  let c0_i32_162 : BitVec 32 := 0#32
  ![0, v281.toNat, 0]
def k0_off206 (v305 : BitVec 32) : Fin 2 → Nat :=
  let c0_i32_168 : BitVec 32 := 0#32
  ![v305.toNat, 0]

def k0_chk179 (k0_t4 : Fin k0_t4_loop.trips) (v305 : BitVec 32) : Prop :=
  (∀ (k0_h3 : k0_cond3 k0_t4 = 1#1), ∀ a, (k0_off206 v305) a + S1x64.size a ≤ S1000000x64.size a)
instance k0_chk179.dec : ∀ (k0_t4 : Fin k0_t4_loop.trips) (v305 : BitVec 32), Decidable (k0_chk179 k0_t4 v305) := fun k0_t4 v305 => decidable_of_iff' _ (Iff.of_eq (k0_chk179.eq_1 k0_t4 v305))
theorem k0_off206_inb : ∀ (k0_t4 : Fin k0_t4_loop.trips) (v305 : BitVec 32) (k0_hw179 : k0_chk179 k0_t4 v305), ∀ (k0_h3 : k0_cond3 k0_t4 = 1#1), ∀ a, (k0_off206 v305) a + S1x64.size a ≤ S1000000x64.size a := fun k0_t4 v305 k0_hw179 k0_h3 => k0_hw179 k0_h3

def k0_off207 (k0_t11 : Fin k0_t11_loop.trips) : Fin 3 → Nat :=
  let c0_i32_166 : BitVec 32 := 0#32
  let c0_i32_65 : BitVec 32 := 0#32
  let c1_i32_67 : BitVec 32 := 1#32
  let arg20 : BitVec 32 := Scf.iv c0_i32_65 c1_i32_67 k0_t11
  let c16_i32_164 : BitVec 32 := 16#32
  let v302 : BitVec 32 := Scalar.muli arg20 c16_i32_164
  let c8_i32_165 : BitVec 32 := 8#32
  let v303 : BitVec 32 := Scalar.addi v302 c8_i32_165
  let c0_i32_169 : BitVec 32 := 0#32
  ![0, v303.toNat, 0]
def k0_off208 (v315 : BitVec 32) : Fin 2 → Nat :=
  let c0_i32_173 : BitVec 32 := 0#32
  ![v315.toNat, 0]

def k0_chk180 (k0_t4 : Fin k0_t4_loop.trips) (v315 : BitVec 32) : Prop :=
  (∀ (k0_h3 : k0_cond3 k0_t4 = 1#1), ∀ a, (k0_off208 v315) a + S1x64.size a ≤ S100000x64.size a)
instance k0_chk180.dec : ∀ (k0_t4 : Fin k0_t4_loop.trips) (v315 : BitVec 32), Decidable (k0_chk180 k0_t4 v315) := fun k0_t4 v315 => decidable_of_iff' _ (Iff.of_eq (k0_chk180.eq_1 k0_t4 v315))
theorem k0_off208_inb : ∀ (k0_t4 : Fin k0_t4_loop.trips) (v315 : BitVec 32) (k0_hw180 : k0_chk180 k0_t4 v315), ∀ (k0_h3 : k0_cond3 k0_t4 = 1#1), ∀ a, (k0_off208 v315) a + S1x64.size a ≤ S100000x64.size a := fun k0_t4 v315 k0_hw180 k0_h3 => k0_hw180 k0_h3

def k0_off209 (k0_t11 : Fin k0_t11_loop.trips) (c8_i32_165 : BitVec 32) : Fin 3 → Nat :=
  let c0_i32_171 : BitVec 32 := 0#32
  let c0_i32_65 : BitVec 32 := 0#32
  let c1_i32_67 : BitVec 32 := 1#32
  let arg20 : BitVec 32 := Scf.iv c0_i32_65 c1_i32_67 k0_t11
  let c16_i32_164 : BitVec 32 := 16#32
  let v302 : BitVec 32 := Scalar.muli arg20 c16_i32_164
  let v303 : BitVec 32 := Scalar.addi v302 c8_i32_165
  let c0_i32_174 : BitVec 32 := 0#32
  ![0, v303.toNat, 0]
def k0_off210 (v327 : BitVec 32) : Fin 2 → Nat :=
  let c0_i32_179 : BitVec 32 := 0#32
  ![v327.toNat, 0]

def k0_chk181 (k0_t4 : Fin k0_t4_loop.trips) (v327 : BitVec 32) : Prop :=
  (∀ (k0_h3 : k0_cond3 k0_t4 = 1#1), ∀ a, (k0_off210 v327) a + S1x64.size a ≤ S1000000x64.size a)
instance k0_chk181.dec : ∀ (k0_t4 : Fin k0_t4_loop.trips) (v327 : BitVec 32), Decidable (k0_chk181 k0_t4 v327) := fun k0_t4 v327 => decidable_of_iff' _ (Iff.of_eq (k0_chk181.eq_1 k0_t4 v327))
theorem k0_off210_inb : ∀ (k0_t4 : Fin k0_t4_loop.trips) (v327 : BitVec 32) (k0_hw181 : k0_chk181 k0_t4 v327), ∀ (k0_h3 : k0_cond3 k0_t4 = 1#1), ∀ a, (k0_off210 v327) a + S1x64.size a ≤ S1000000x64.size a := fun k0_t4 v327 k0_hw181 k0_h3 => k0_hw181 k0_h3

def k0_off211 (k0_t11 : Fin k0_t11_loop.trips) : Fin 3 → Nat :=
  let c0_i32_177 : BitVec 32 := 0#32
  let c0_i32_65 : BitVec 32 := 0#32
  let c1_i32_67 : BitVec 32 := 1#32
  let arg20 : BitVec 32 := Scf.iv c0_i32_65 c1_i32_67 k0_t11
  let c16_i32_176 : BitVec 32 := 16#32
  let v324 : BitVec 32 := Scalar.muli arg20 c16_i32_176
  let c9_i32 : BitVec 32 := 9#32
  let v325 : BitVec 32 := Scalar.addi v324 c9_i32
  let c0_i32_180 : BitVec 32 := 0#32
  ![0, v325.toNat, 0]
def k0_off212 (v337 : BitVec 32) : Fin 2 → Nat :=
  let c0_i32_184 : BitVec 32 := 0#32
  ![v337.toNat, 0]

def k0_chk182 (k0_t4 : Fin k0_t4_loop.trips) (v337 : BitVec 32) : Prop :=
  (∀ (k0_h3 : k0_cond3 k0_t4 = 1#1), ∀ a, (k0_off212 v337) a + S1x64.size a ≤ S100000x64.size a)
instance k0_chk182.dec : ∀ (k0_t4 : Fin k0_t4_loop.trips) (v337 : BitVec 32), Decidable (k0_chk182 k0_t4 v337) := fun k0_t4 v337 => decidable_of_iff' _ (Iff.of_eq (k0_chk182.eq_1 k0_t4 v337))
theorem k0_off212_inb : ∀ (k0_t4 : Fin k0_t4_loop.trips) (v337 : BitVec 32) (k0_hw182 : k0_chk182 k0_t4 v337), ∀ (k0_h3 : k0_cond3 k0_t4 = 1#1), ∀ a, (k0_off212 v337) a + S1x64.size a ≤ S100000x64.size a := fun k0_t4 v337 k0_hw182 k0_h3 => k0_hw182 k0_h3

def k0_off213 (k0_t11 : Fin k0_t11_loop.trips) (c9_i32 : BitVec 32) : Fin 3 → Nat :=
  let c0_i32_182 : BitVec 32 := 0#32
  let c0_i32_65 : BitVec 32 := 0#32
  let c1_i32_67 : BitVec 32 := 1#32
  let arg20 : BitVec 32 := Scf.iv c0_i32_65 c1_i32_67 k0_t11
  let c16_i32_176 : BitVec 32 := 16#32
  let v324 : BitVec 32 := Scalar.muli arg20 c16_i32_176
  let v325 : BitVec 32 := Scalar.addi v324 c9_i32
  let c0_i32_185 : BitVec 32 := 0#32
  ![0, v325.toNat, 0]
def k0_off214 (v349 : BitVec 32) : Fin 2 → Nat :=
  let c0_i32_190 : BitVec 32 := 0#32
  ![v349.toNat, 0]

def k0_chk183 (k0_t4 : Fin k0_t4_loop.trips) (v349 : BitVec 32) : Prop :=
  (∀ (k0_h3 : k0_cond3 k0_t4 = 1#1), ∀ a, (k0_off214 v349) a + S1x64.size a ≤ S1000000x64.size a)
instance k0_chk183.dec : ∀ (k0_t4 : Fin k0_t4_loop.trips) (v349 : BitVec 32), Decidable (k0_chk183 k0_t4 v349) := fun k0_t4 v349 => decidable_of_iff' _ (Iff.of_eq (k0_chk183.eq_1 k0_t4 v349))
theorem k0_off214_inb : ∀ (k0_t4 : Fin k0_t4_loop.trips) (v349 : BitVec 32) (k0_hw183 : k0_chk183 k0_t4 v349), ∀ (k0_h3 : k0_cond3 k0_t4 = 1#1), ∀ a, (k0_off214 v349) a + S1x64.size a ≤ S1000000x64.size a := fun k0_t4 v349 k0_hw183 k0_h3 => k0_hw183 k0_h3

def k0_off215 (k0_t11 : Fin k0_t11_loop.trips) : Fin 3 → Nat :=
  let c0_i32_188 : BitVec 32 := 0#32
  let c0_i32_65 : BitVec 32 := 0#32
  let c1_i32_67 : BitVec 32 := 1#32
  let arg20 : BitVec 32 := Scf.iv c0_i32_65 c1_i32_67 k0_t11
  let c16_i32_187 : BitVec 32 := 16#32
  let v346 : BitVec 32 := Scalar.muli arg20 c16_i32_187
  let c10_i32 : BitVec 32 := 10#32
  let v347 : BitVec 32 := Scalar.addi v346 c10_i32
  let c0_i32_191 : BitVec 32 := 0#32
  ![0, v347.toNat, 0]
def k0_off216 (v359 : BitVec 32) : Fin 2 → Nat :=
  let c0_i32_195 : BitVec 32 := 0#32
  ![v359.toNat, 0]

def k0_chk184 (k0_t4 : Fin k0_t4_loop.trips) (v359 : BitVec 32) : Prop :=
  (∀ (k0_h3 : k0_cond3 k0_t4 = 1#1), ∀ a, (k0_off216 v359) a + S1x64.size a ≤ S100000x64.size a)
instance k0_chk184.dec : ∀ (k0_t4 : Fin k0_t4_loop.trips) (v359 : BitVec 32), Decidable (k0_chk184 k0_t4 v359) := fun k0_t4 v359 => decidable_of_iff' _ (Iff.of_eq (k0_chk184.eq_1 k0_t4 v359))
theorem k0_off216_inb : ∀ (k0_t4 : Fin k0_t4_loop.trips) (v359 : BitVec 32) (k0_hw184 : k0_chk184 k0_t4 v359), ∀ (k0_h3 : k0_cond3 k0_t4 = 1#1), ∀ a, (k0_off216 v359) a + S1x64.size a ≤ S100000x64.size a := fun k0_t4 v359 k0_hw184 k0_h3 => k0_hw184 k0_h3

def k0_off217 (k0_t11 : Fin k0_t11_loop.trips) (c10_i32 : BitVec 32) : Fin 3 → Nat :=
  let c0_i32_193 : BitVec 32 := 0#32
  let c0_i32_65 : BitVec 32 := 0#32
  let c1_i32_67 : BitVec 32 := 1#32
  let arg20 : BitVec 32 := Scf.iv c0_i32_65 c1_i32_67 k0_t11
  let c16_i32_187 : BitVec 32 := 16#32
  let v346 : BitVec 32 := Scalar.muli arg20 c16_i32_187
  let v347 : BitVec 32 := Scalar.addi v346 c10_i32
  let c0_i32_196 : BitVec 32 := 0#32
  ![0, v347.toNat, 0]
def k0_off218 (v371 : BitVec 32) : Fin 2 → Nat :=
  let c0_i32_201 : BitVec 32 := 0#32
  ![v371.toNat, 0]

def k0_chk185 (k0_t4 : Fin k0_t4_loop.trips) (v371 : BitVec 32) : Prop :=
  (∀ (k0_h3 : k0_cond3 k0_t4 = 1#1), ∀ a, (k0_off218 v371) a + S1x64.size a ≤ S1000000x64.size a)
instance k0_chk185.dec : ∀ (k0_t4 : Fin k0_t4_loop.trips) (v371 : BitVec 32), Decidable (k0_chk185 k0_t4 v371) := fun k0_t4 v371 => decidable_of_iff' _ (Iff.of_eq (k0_chk185.eq_1 k0_t4 v371))
theorem k0_off218_inb : ∀ (k0_t4 : Fin k0_t4_loop.trips) (v371 : BitVec 32) (k0_hw185 : k0_chk185 k0_t4 v371), ∀ (k0_h3 : k0_cond3 k0_t4 = 1#1), ∀ a, (k0_off218 v371) a + S1x64.size a ≤ S1000000x64.size a := fun k0_t4 v371 k0_hw185 k0_h3 => k0_hw185 k0_h3

def k0_off219 (k0_t11 : Fin k0_t11_loop.trips) : Fin 3 → Nat :=
  let c0_i32_199 : BitVec 32 := 0#32
  let c0_i32_65 : BitVec 32 := 0#32
  let c1_i32_67 : BitVec 32 := 1#32
  let arg20 : BitVec 32 := Scf.iv c0_i32_65 c1_i32_67 k0_t11
  let c16_i32_198 : BitVec 32 := 16#32
  let v368 : BitVec 32 := Scalar.muli arg20 c16_i32_198
  let c11_i32 : BitVec 32 := 11#32
  let v369 : BitVec 32 := Scalar.addi v368 c11_i32
  let c0_i32_202 : BitVec 32 := 0#32
  ![0, v369.toNat, 0]
def k0_off220 (v381 : BitVec 32) : Fin 2 → Nat :=
  let c0_i32_206 : BitVec 32 := 0#32
  ![v381.toNat, 0]

def k0_chk186 (k0_t4 : Fin k0_t4_loop.trips) (v381 : BitVec 32) : Prop :=
  (∀ (k0_h3 : k0_cond3 k0_t4 = 1#1), ∀ a, (k0_off220 v381) a + S1x64.size a ≤ S100000x64.size a)
instance k0_chk186.dec : ∀ (k0_t4 : Fin k0_t4_loop.trips) (v381 : BitVec 32), Decidable (k0_chk186 k0_t4 v381) := fun k0_t4 v381 => decidable_of_iff' _ (Iff.of_eq (k0_chk186.eq_1 k0_t4 v381))
theorem k0_off220_inb : ∀ (k0_t4 : Fin k0_t4_loop.trips) (v381 : BitVec 32) (k0_hw186 : k0_chk186 k0_t4 v381), ∀ (k0_h3 : k0_cond3 k0_t4 = 1#1), ∀ a, (k0_off220 v381) a + S1x64.size a ≤ S100000x64.size a := fun k0_t4 v381 k0_hw186 k0_h3 => k0_hw186 k0_h3

def k0_off221 (k0_t11 : Fin k0_t11_loop.trips) (c11_i32 : BitVec 32) : Fin 3 → Nat :=
  let c0_i32_204 : BitVec 32 := 0#32
  let c0_i32_65 : BitVec 32 := 0#32
  let c1_i32_67 : BitVec 32 := 1#32
  let arg20 : BitVec 32 := Scf.iv c0_i32_65 c1_i32_67 k0_t11
  let c16_i32_198 : BitVec 32 := 16#32
  let v368 : BitVec 32 := Scalar.muli arg20 c16_i32_198
  let v369 : BitVec 32 := Scalar.addi v368 c11_i32
  let c0_i32_207 : BitVec 32 := 0#32
  ![0, v369.toNat, 0]
def k0_off222 (v393 : BitVec 32) : Fin 2 → Nat :=
  let c0_i32_212 : BitVec 32 := 0#32
  ![v393.toNat, 0]

def k0_chk187 (k0_t4 : Fin k0_t4_loop.trips) (v393 : BitVec 32) : Prop :=
  (∀ (k0_h3 : k0_cond3 k0_t4 = 1#1), ∀ a, (k0_off222 v393) a + S1x64.size a ≤ S1000000x64.size a)
instance k0_chk187.dec : ∀ (k0_t4 : Fin k0_t4_loop.trips) (v393 : BitVec 32), Decidable (k0_chk187 k0_t4 v393) := fun k0_t4 v393 => decidable_of_iff' _ (Iff.of_eq (k0_chk187.eq_1 k0_t4 v393))
theorem k0_off222_inb : ∀ (k0_t4 : Fin k0_t4_loop.trips) (v393 : BitVec 32) (k0_hw187 : k0_chk187 k0_t4 v393), ∀ (k0_h3 : k0_cond3 k0_t4 = 1#1), ∀ a, (k0_off222 v393) a + S1x64.size a ≤ S1000000x64.size a := fun k0_t4 v393 k0_hw187 k0_h3 => k0_hw187 k0_h3

def k0_off223 (k0_t11 : Fin k0_t11_loop.trips) : Fin 3 → Nat :=
  let c0_i32_210 : BitVec 32 := 0#32
  let c0_i32_65 : BitVec 32 := 0#32
  let c1_i32_67 : BitVec 32 := 1#32
  let arg20 : BitVec 32 := Scf.iv c0_i32_65 c1_i32_67 k0_t11
  let c16_i32_209 : BitVec 32 := 16#32
  let v390 : BitVec 32 := Scalar.muli arg20 c16_i32_209
  let c12_i32 : BitVec 32 := 12#32
  let v391 : BitVec 32 := Scalar.addi v390 c12_i32
  let c0_i32_213 : BitVec 32 := 0#32
  ![0, v391.toNat, 0]
def k0_off224 (v403 : BitVec 32) : Fin 2 → Nat :=
  let c0_i32_217 : BitVec 32 := 0#32
  ![v403.toNat, 0]

def k0_chk188 (k0_t4 : Fin k0_t4_loop.trips) (v403 : BitVec 32) : Prop :=
  (∀ (k0_h3 : k0_cond3 k0_t4 = 1#1), ∀ a, (k0_off224 v403) a + S1x64.size a ≤ S100000x64.size a)
instance k0_chk188.dec : ∀ (k0_t4 : Fin k0_t4_loop.trips) (v403 : BitVec 32), Decidable (k0_chk188 k0_t4 v403) := fun k0_t4 v403 => decidable_of_iff' _ (Iff.of_eq (k0_chk188.eq_1 k0_t4 v403))
theorem k0_off224_inb : ∀ (k0_t4 : Fin k0_t4_loop.trips) (v403 : BitVec 32) (k0_hw188 : k0_chk188 k0_t4 v403), ∀ (k0_h3 : k0_cond3 k0_t4 = 1#1), ∀ a, (k0_off224 v403) a + S1x64.size a ≤ S100000x64.size a := fun k0_t4 v403 k0_hw188 k0_h3 => k0_hw188 k0_h3

def k0_off225 (k0_t11 : Fin k0_t11_loop.trips) (c12_i32 : BitVec 32) : Fin 3 → Nat :=
  let c0_i32_215 : BitVec 32 := 0#32
  let c0_i32_65 : BitVec 32 := 0#32
  let c1_i32_67 : BitVec 32 := 1#32
  let arg20 : BitVec 32 := Scf.iv c0_i32_65 c1_i32_67 k0_t11
  let c16_i32_209 : BitVec 32 := 16#32
  let v390 : BitVec 32 := Scalar.muli arg20 c16_i32_209
  let v391 : BitVec 32 := Scalar.addi v390 c12_i32
  let c0_i32_218 : BitVec 32 := 0#32
  ![0, v391.toNat, 0]
def k0_off226 (v415 : BitVec 32) : Fin 2 → Nat :=
  let c0_i32_223 : BitVec 32 := 0#32
  ![v415.toNat, 0]

def k0_chk189 (k0_t4 : Fin k0_t4_loop.trips) (v415 : BitVec 32) : Prop :=
  (∀ (k0_h3 : k0_cond3 k0_t4 = 1#1), ∀ a, (k0_off226 v415) a + S1x64.size a ≤ S1000000x64.size a)
instance k0_chk189.dec : ∀ (k0_t4 : Fin k0_t4_loop.trips) (v415 : BitVec 32), Decidable (k0_chk189 k0_t4 v415) := fun k0_t4 v415 => decidable_of_iff' _ (Iff.of_eq (k0_chk189.eq_1 k0_t4 v415))
theorem k0_off226_inb : ∀ (k0_t4 : Fin k0_t4_loop.trips) (v415 : BitVec 32) (k0_hw189 : k0_chk189 k0_t4 v415), ∀ (k0_h3 : k0_cond3 k0_t4 = 1#1), ∀ a, (k0_off226 v415) a + S1x64.size a ≤ S1000000x64.size a := fun k0_t4 v415 k0_hw189 k0_h3 => k0_hw189 k0_h3

def k0_off227 (k0_t11 : Fin k0_t11_loop.trips) : Fin 3 → Nat :=
  let c0_i32_221 : BitVec 32 := 0#32
  let c0_i32_65 : BitVec 32 := 0#32
  let c1_i32_67 : BitVec 32 := 1#32
  let arg20 : BitVec 32 := Scf.iv c0_i32_65 c1_i32_67 k0_t11
  let c16_i32_220 : BitVec 32 := 16#32
  let v412 : BitVec 32 := Scalar.muli arg20 c16_i32_220
  let c13_i32 : BitVec 32 := 13#32
  let v413 : BitVec 32 := Scalar.addi v412 c13_i32
  let c0_i32_224 : BitVec 32 := 0#32
  ![0, v413.toNat, 0]
def k0_off228 (v425 : BitVec 32) : Fin 2 → Nat :=
  let c0_i32_228 : BitVec 32 := 0#32
  ![v425.toNat, 0]

def k0_chk190 (k0_t4 : Fin k0_t4_loop.trips) (v425 : BitVec 32) : Prop :=
  (∀ (k0_h3 : k0_cond3 k0_t4 = 1#1), ∀ a, (k0_off228 v425) a + S1x64.size a ≤ S100000x64.size a)
instance k0_chk190.dec : ∀ (k0_t4 : Fin k0_t4_loop.trips) (v425 : BitVec 32), Decidable (k0_chk190 k0_t4 v425) := fun k0_t4 v425 => decidable_of_iff' _ (Iff.of_eq (k0_chk190.eq_1 k0_t4 v425))
theorem k0_off228_inb : ∀ (k0_t4 : Fin k0_t4_loop.trips) (v425 : BitVec 32) (k0_hw190 : k0_chk190 k0_t4 v425), ∀ (k0_h3 : k0_cond3 k0_t4 = 1#1), ∀ a, (k0_off228 v425) a + S1x64.size a ≤ S100000x64.size a := fun k0_t4 v425 k0_hw190 k0_h3 => k0_hw190 k0_h3

def k0_off229 (k0_t11 : Fin k0_t11_loop.trips) (c13_i32 : BitVec 32) : Fin 3 → Nat :=
  let c0_i32_226 : BitVec 32 := 0#32
  let c0_i32_65 : BitVec 32 := 0#32
  let c1_i32_67 : BitVec 32 := 1#32
  let arg20 : BitVec 32 := Scf.iv c0_i32_65 c1_i32_67 k0_t11
  let c16_i32_220 : BitVec 32 := 16#32
  let v412 : BitVec 32 := Scalar.muli arg20 c16_i32_220
  let v413 : BitVec 32 := Scalar.addi v412 c13_i32
  let c0_i32_229 : BitVec 32 := 0#32
  ![0, v413.toNat, 0]
def k0_off230 (v437 : BitVec 32) : Fin 2 → Nat :=
  let c0_i32_234 : BitVec 32 := 0#32
  ![v437.toNat, 0]

def k0_chk191 (k0_t4 : Fin k0_t4_loop.trips) (v437 : BitVec 32) : Prop :=
  (∀ (k0_h3 : k0_cond3 k0_t4 = 1#1), ∀ a, (k0_off230 v437) a + S1x64.size a ≤ S1000000x64.size a)
instance k0_chk191.dec : ∀ (k0_t4 : Fin k0_t4_loop.trips) (v437 : BitVec 32), Decidable (k0_chk191 k0_t4 v437) := fun k0_t4 v437 => decidable_of_iff' _ (Iff.of_eq (k0_chk191.eq_1 k0_t4 v437))
theorem k0_off230_inb : ∀ (k0_t4 : Fin k0_t4_loop.trips) (v437 : BitVec 32) (k0_hw191 : k0_chk191 k0_t4 v437), ∀ (k0_h3 : k0_cond3 k0_t4 = 1#1), ∀ a, (k0_off230 v437) a + S1x64.size a ≤ S1000000x64.size a := fun k0_t4 v437 k0_hw191 k0_h3 => k0_hw191 k0_h3

def k0_off231 (k0_t11 : Fin k0_t11_loop.trips) : Fin 3 → Nat :=
  let c0_i32_232 : BitVec 32 := 0#32
  let c0_i32_65 : BitVec 32 := 0#32
  let c1_i32_67 : BitVec 32 := 1#32
  let arg20 : BitVec 32 := Scf.iv c0_i32_65 c1_i32_67 k0_t11
  let c16_i32_231 : BitVec 32 := 16#32
  let v434 : BitVec 32 := Scalar.muli arg20 c16_i32_231
  let c14_i32 : BitVec 32 := 14#32
  let v435 : BitVec 32 := Scalar.addi v434 c14_i32
  let c0_i32_235 : BitVec 32 := 0#32
  ![0, v435.toNat, 0]
def k0_off232 (v447 : BitVec 32) : Fin 2 → Nat :=
  let c0_i32_239 : BitVec 32 := 0#32
  ![v447.toNat, 0]

def k0_chk192 (k0_t4 : Fin k0_t4_loop.trips) (v447 : BitVec 32) : Prop :=
  (∀ (k0_h3 : k0_cond3 k0_t4 = 1#1), ∀ a, (k0_off232 v447) a + S1x64.size a ≤ S100000x64.size a)
instance k0_chk192.dec : ∀ (k0_t4 : Fin k0_t4_loop.trips) (v447 : BitVec 32), Decidable (k0_chk192 k0_t4 v447) := fun k0_t4 v447 => decidable_of_iff' _ (Iff.of_eq (k0_chk192.eq_1 k0_t4 v447))
theorem k0_off232_inb : ∀ (k0_t4 : Fin k0_t4_loop.trips) (v447 : BitVec 32) (k0_hw192 : k0_chk192 k0_t4 v447), ∀ (k0_h3 : k0_cond3 k0_t4 = 1#1), ∀ a, (k0_off232 v447) a + S1x64.size a ≤ S100000x64.size a := fun k0_t4 v447 k0_hw192 k0_h3 => k0_hw192 k0_h3

def k0_off233 (k0_t11 : Fin k0_t11_loop.trips) (c14_i32 : BitVec 32) : Fin 3 → Nat :=
  let c0_i32_237 : BitVec 32 := 0#32
  let c0_i32_65 : BitVec 32 := 0#32
  let c1_i32_67 : BitVec 32 := 1#32
  let arg20 : BitVec 32 := Scf.iv c0_i32_65 c1_i32_67 k0_t11
  let c16_i32_231 : BitVec 32 := 16#32
  let v434 : BitVec 32 := Scalar.muli arg20 c16_i32_231
  let v435 : BitVec 32 := Scalar.addi v434 c14_i32
  let c0_i32_240 : BitVec 32 := 0#32
  ![0, v435.toNat, 0]
def k0_off234 (v459 : BitVec 32) : Fin 2 → Nat :=
  let c0_i32_245 : BitVec 32 := 0#32
  ![v459.toNat, 0]

def k0_chk193 (k0_t4 : Fin k0_t4_loop.trips) (v459 : BitVec 32) : Prop :=
  (∀ (k0_h3 : k0_cond3 k0_t4 = 1#1), ∀ a, (k0_off234 v459) a + S1x64.size a ≤ S1000000x64.size a)
instance k0_chk193.dec : ∀ (k0_t4 : Fin k0_t4_loop.trips) (v459 : BitVec 32), Decidable (k0_chk193 k0_t4 v459) := fun k0_t4 v459 => decidable_of_iff' _ (Iff.of_eq (k0_chk193.eq_1 k0_t4 v459))
theorem k0_off234_inb : ∀ (k0_t4 : Fin k0_t4_loop.trips) (v459 : BitVec 32) (k0_hw193 : k0_chk193 k0_t4 v459), ∀ (k0_h3 : k0_cond3 k0_t4 = 1#1), ∀ a, (k0_off234 v459) a + S1x64.size a ≤ S1000000x64.size a := fun k0_t4 v459 k0_hw193 k0_h3 => k0_hw193 k0_h3

def k0_off235 (k0_t11 : Fin k0_t11_loop.trips) : Fin 3 → Nat :=
  let c0_i32_243 : BitVec 32 := 0#32
  let c0_i32_65 : BitVec 32 := 0#32
  let c1_i32_67 : BitVec 32 := 1#32
  let arg20 : BitVec 32 := Scf.iv c0_i32_65 c1_i32_67 k0_t11
  let c16_i32_242 : BitVec 32 := 16#32
  let v456 : BitVec 32 := Scalar.muli arg20 c16_i32_242
  let c15_i32 : BitVec 32 := 15#32
  let v457 : BitVec 32 := Scalar.addi v456 c15_i32
  let c0_i32_246 : BitVec 32 := 0#32
  ![0, v457.toNat, 0]
def k0_off236 (v469 : BitVec 32) : Fin 2 → Nat :=
  let c0_i32_250 : BitVec 32 := 0#32
  ![v469.toNat, 0]

def k0_chk194 (k0_t4 : Fin k0_t4_loop.trips) (v469 : BitVec 32) : Prop :=
  (∀ (k0_h3 : k0_cond3 k0_t4 = 1#1), ∀ a, (k0_off236 v469) a + S1x64.size a ≤ S100000x64.size a)
instance k0_chk194.dec : ∀ (k0_t4 : Fin k0_t4_loop.trips) (v469 : BitVec 32), Decidable (k0_chk194 k0_t4 v469) := fun k0_t4 v469 => decidable_of_iff' _ (Iff.of_eq (k0_chk194.eq_1 k0_t4 v469))
theorem k0_off236_inb : ∀ (k0_t4 : Fin k0_t4_loop.trips) (v469 : BitVec 32) (k0_hw194 : k0_chk194 k0_t4 v469), ∀ (k0_h3 : k0_cond3 k0_t4 = 1#1), ∀ a, (k0_off236 v469) a + S1x64.size a ≤ S100000x64.size a := fun k0_t4 v469 k0_hw194 k0_h3 => k0_hw194 k0_h3

def k0_off237 (k0_t11 : Fin k0_t11_loop.trips) : Fin 3 → Nat :=
  let c0_i32_248 : BitVec 32 := 0#32
  let c0_i32_65 : BitVec 32 := 0#32
  let c1_i32_67 : BitVec 32 := 1#32
  let arg20 : BitVec 32 := Scf.iv c0_i32_65 c1_i32_67 k0_t11
  let c16_i32_242 : BitVec 32 := 16#32
  let v456 : BitVec 32 := Scalar.muli arg20 c16_i32_242
  let c15_i32 : BitVec 32 := 15#32
  let v457 : BitVec 32 := Scalar.addi v456 c15_i32
  let c0_i32_251 : BitVec 32 := 0#32
  ![0, v457.toNat, 0]
def k0_cond4 (k0_t4 : Fin k0_t4_loop.trips) : BitVec 1 :=
  let c0_i32_22 : BitVec 32 := 0#32
  let c1_i32_23 : BitVec 32 := 1#32
  let arg19 : BitVec 32 := Scf.iv c0_i32_22 c1_i32_23 k0_t4
  let c2_i32_59 : BitVec 32 := 2#32
  let v108 : BitVec 32 := Scalar.addi arg19 c2_i32_59
  let c4_i32_60 : BitVec 32 := 4#32
  let v109 : BitVec 1 := Scalar.cmpi .slt v108 c4_i32_60
  let c2_i32_41 : BitVec 32 := 2#32
  let v93 : BitVec 32 := Scalar.remsi arg19 c2_i32_41
  let c1_i32_61 : BitVec 32 := 1#32
  let v110 : BitVec 1 := Scalar.cmpi .eq v93 c1_i32_61
  let v111 : BitVec 1 := Scalar.andi v109 v110
  let v112 : BitVec 32 := Scalar.extui v111
  let c0_i32_62 : BitVec 32 := 0#32
  let v113 : BitVec 1 := Scalar.cmpi .ne v112 c0_i32_62
  v113

@[reducible] def k0_t12_loop : Scf.Loop 32 :=
  let c0_i32_65 : BitVec 32 := 0#32
  let c8_i32_66 : BitVec 32 := 8#32
  let v115 : BitVec 32 := Scalar.addi c0_i32_65 c8_i32_66
  let c1_i32_67 : BitVec 32 := 1#32
  ⟨c0_i32_65, v115, c1_i32_67⟩
def k0_off238 (k0_t4 : Fin k0_t4_loop.trips) (k0_t12 : Fin k0_t12_loop.trips) : Fin 1 → Nat :=
  let c0_i32_22 : BitVec 32 := 0#32
  let c1_i32_23 : BitVec 32 := 1#32
  let arg19 : BitVec 32 := Scf.iv c0_i32_22 c1_i32_23 k0_t4
  let c2_i32_63 : BitVec 32 := 2#32
  let v114 : BitVec 32 := Scalar.addi arg19 c2_i32_63
  let c128_i32 : BitVec 32 := 128#32
  let v116 : BitVec 32 := Scalar.muli v114 c128_i32
  let c0_i32_65 : BitVec 32 := 0#32
  let c1_i32_67 : BitVec 32 := 1#32
  let arg20 : BitVec 32 := Scf.iv c0_i32_65 c1_i32_67 k0_t12
  let c16_i32_69 : BitVec 32 := 16#32
  let v117 : BitVec 32 := Scalar.muli arg20 c16_i32_69
  let v118 : BitVec 32 := Scalar.addi v116 v117
  let v119 : Index := Scalar.indexCast v118
  ![v119.toNat]
def k0_off239 (k0_t12 : Fin k0_t12_loop.trips) : Fin 3 → Nat :=
  let c1_i32_74 : BitVec 32 := 1#32
  let c0_i32_65 : BitVec 32 := 0#32
  let c1_i32_67 : BitVec 32 := 1#32
  let arg20 : BitVec 32 := Scf.iv c0_i32_65 c1_i32_67 k0_t12
  let c16_i32_72 : BitVec 32 := 16#32
  let v126 : BitVec 32 := Scalar.muli arg20 c16_i32_72
  let c0_i32_73 : BitVec 32 := 0#32
  let v127 : BitVec 32 := Scalar.addi v126 c0_i32_73
  let c0_i32_75 : BitVec 32 := 0#32
  ![1, v127.toNat, 0]
def k0_off240 (v129 : BitVec 32) : Fin 2 → Nat :=
  let c0_i32_76 : BitVec 32 := 0#32
  ![v129.toNat, 0]

def k0_chk195 (k0_t4 : Fin k0_t4_loop.trips) (v129 : BitVec 32) : Prop :=
  (∀ (k0_h4 : k0_cond4 k0_t4 = 1#1), ∀ a, (k0_off240 v129) a + S1x64.size a ≤ S1000000x64.size a)
instance k0_chk195.dec : ∀ (k0_t4 : Fin k0_t4_loop.trips) (v129 : BitVec 32), Decidable (k0_chk195 k0_t4 v129) := fun k0_t4 v129 => decidable_of_iff' _ (Iff.of_eq (k0_chk195.eq_1 k0_t4 v129))
theorem k0_off240_inb : ∀ (k0_t4 : Fin k0_t4_loop.trips) (v129 : BitVec 32) (k0_hw195 : k0_chk195 k0_t4 v129), ∀ (k0_h4 : k0_cond4 k0_t4 = 1#1), ∀ a, (k0_off240 v129) a + S1x64.size a ≤ S1000000x64.size a := fun k0_t4 v129 k0_hw195 k0_h4 => k0_hw195 k0_h4

def k0_off241 (k0_t12 : Fin k0_t12_loop.trips) : Fin 3 → Nat :=
  let c1_i32_74 : BitVec 32 := 1#32
  let c0_i32_65 : BitVec 32 := 0#32
  let c1_i32_67 : BitVec 32 := 1#32
  let arg20 : BitVec 32 := Scf.iv c0_i32_65 c1_i32_67 k0_t12
  let c16_i32_72 : BitVec 32 := 16#32
  let v126 : BitVec 32 := Scalar.muli arg20 c16_i32_72
  let c0_i32_73 : BitVec 32 := 0#32
  let v127 : BitVec 32 := Scalar.addi v126 c0_i32_73
  let c0_i32_77 : BitVec 32 := 0#32
  ![1, v127.toNat, 0]
def k0_off242 (v139 : BitVec 32) : Fin 2 → Nat :=
  let c0_i32_81 : BitVec 32 := 0#32
  ![v139.toNat, 0]

def k0_chk196 (k0_t4 : Fin k0_t4_loop.trips) (v139 : BitVec 32) : Prop :=
  (∀ (k0_h4 : k0_cond4 k0_t4 = 1#1), ∀ a, (k0_off242 v139) a + S1x64.size a ≤ S100000x64.size a)
instance k0_chk196.dec : ∀ (k0_t4 : Fin k0_t4_loop.trips) (v139 : BitVec 32), Decidable (k0_chk196 k0_t4 v139) := fun k0_t4 v139 => decidable_of_iff' _ (Iff.of_eq (k0_chk196.eq_1 k0_t4 v139))
theorem k0_off242_inb : ∀ (k0_t4 : Fin k0_t4_loop.trips) (v139 : BitVec 32) (k0_hw196 : k0_chk196 k0_t4 v139), ∀ (k0_h4 : k0_cond4 k0_t4 = 1#1), ∀ a, (k0_off242 v139) a + S1x64.size a ≤ S100000x64.size a := fun k0_t4 v139 k0_hw196 k0_h4 => k0_hw196 k0_h4

def k0_off243 (k0_t12 : Fin k0_t12_loop.trips) (c0_i32_73 : BitVec 32) : Fin 3 → Nat :=
  let c1_i32_79 : BitVec 32 := 1#32
  let c0_i32_65 : BitVec 32 := 0#32
  let c1_i32_67 : BitVec 32 := 1#32
  let arg20 : BitVec 32 := Scf.iv c0_i32_65 c1_i32_67 k0_t12
  let c16_i32_72 : BitVec 32 := 16#32
  let v126 : BitVec 32 := Scalar.muli arg20 c16_i32_72
  let v127 : BitVec 32 := Scalar.addi v126 c0_i32_73
  let c0_i32_82 : BitVec 32 := 0#32
  ![1, v127.toNat, 0]
def k0_off244 (v151 : BitVec 32) : Fin 2 → Nat :=
  let c0_i32_88 : BitVec 32 := 0#32
  ![v151.toNat, 0]

def k0_chk197 (k0_t4 : Fin k0_t4_loop.trips) (v151 : BitVec 32) : Prop :=
  (∀ (k0_h4 : k0_cond4 k0_t4 = 1#1), ∀ a, (k0_off244 v151) a + S1x64.size a ≤ S1000000x64.size a)
instance k0_chk197.dec : ∀ (k0_t4 : Fin k0_t4_loop.trips) (v151 : BitVec 32), Decidable (k0_chk197 k0_t4 v151) := fun k0_t4 v151 => decidable_of_iff' _ (Iff.of_eq (k0_chk197.eq_1 k0_t4 v151))
theorem k0_off244_inb : ∀ (k0_t4 : Fin k0_t4_loop.trips) (v151 : BitVec 32) (k0_hw197 : k0_chk197 k0_t4 v151), ∀ (k0_h4 : k0_cond4 k0_t4 = 1#1), ∀ a, (k0_off244 v151) a + S1x64.size a ≤ S1000000x64.size a := fun k0_t4 v151 k0_hw197 k0_h4 => k0_hw197 k0_h4

def k0_off245 (k0_t12 : Fin k0_t12_loop.trips) : Fin 3 → Nat :=
  let c1_i32_86 : BitVec 32 := 1#32
  let c0_i32_65 : BitVec 32 := 0#32
  let c1_i32_67 : BitVec 32 := 1#32
  let arg20 : BitVec 32 := Scf.iv c0_i32_65 c1_i32_67 k0_t12
  let c16_i32_84 : BitVec 32 := 16#32
  let v148 : BitVec 32 := Scalar.muli arg20 c16_i32_84
  let c1_i32_85 : BitVec 32 := 1#32
  let v149 : BitVec 32 := Scalar.addi v148 c1_i32_85
  let c0_i32_89 : BitVec 32 := 0#32
  ![1, v149.toNat, 0]
def k0_off246 (v161 : BitVec 32) : Fin 2 → Nat :=
  let c0_i32_93 : BitVec 32 := 0#32
  ![v161.toNat, 0]

def k0_chk198 (k0_t4 : Fin k0_t4_loop.trips) (v161 : BitVec 32) : Prop :=
  (∀ (k0_h4 : k0_cond4 k0_t4 = 1#1), ∀ a, (k0_off246 v161) a + S1x64.size a ≤ S100000x64.size a)
instance k0_chk198.dec : ∀ (k0_t4 : Fin k0_t4_loop.trips) (v161 : BitVec 32), Decidable (k0_chk198 k0_t4 v161) := fun k0_t4 v161 => decidable_of_iff' _ (Iff.of_eq (k0_chk198.eq_1 k0_t4 v161))
theorem k0_off246_inb : ∀ (k0_t4 : Fin k0_t4_loop.trips) (v161 : BitVec 32) (k0_hw198 : k0_chk198 k0_t4 v161), ∀ (k0_h4 : k0_cond4 k0_t4 = 1#1), ∀ a, (k0_off246 v161) a + S1x64.size a ≤ S100000x64.size a := fun k0_t4 v161 k0_hw198 k0_h4 => k0_hw198 k0_h4

def k0_off247 (k0_t12 : Fin k0_t12_loop.trips) (c1_i32_85 : BitVec 32) : Fin 3 → Nat :=
  let c1_i32_91 : BitVec 32 := 1#32
  let c0_i32_65 : BitVec 32 := 0#32
  let c1_i32_67 : BitVec 32 := 1#32
  let arg20 : BitVec 32 := Scf.iv c0_i32_65 c1_i32_67 k0_t12
  let c16_i32_84 : BitVec 32 := 16#32
  let v148 : BitVec 32 := Scalar.muli arg20 c16_i32_84
  let v149 : BitVec 32 := Scalar.addi v148 c1_i32_85
  let c0_i32_94 : BitVec 32 := 0#32
  ![1, v149.toNat, 0]
def k0_off248 (v173 : BitVec 32) : Fin 2 → Nat :=
  let c0_i32_100 : BitVec 32 := 0#32
  ![v173.toNat, 0]

def k0_chk199 (k0_t4 : Fin k0_t4_loop.trips) (v173 : BitVec 32) : Prop :=
  (∀ (k0_h4 : k0_cond4 k0_t4 = 1#1), ∀ a, (k0_off248 v173) a + S1x64.size a ≤ S1000000x64.size a)
instance k0_chk199.dec : ∀ (k0_t4 : Fin k0_t4_loop.trips) (v173 : BitVec 32), Decidable (k0_chk199 k0_t4 v173) := fun k0_t4 v173 => decidable_of_iff' _ (Iff.of_eq (k0_chk199.eq_1 k0_t4 v173))
theorem k0_off248_inb : ∀ (k0_t4 : Fin k0_t4_loop.trips) (v173 : BitVec 32) (k0_hw199 : k0_chk199 k0_t4 v173), ∀ (k0_h4 : k0_cond4 k0_t4 = 1#1), ∀ a, (k0_off248 v173) a + S1x64.size a ≤ S1000000x64.size a := fun k0_t4 v173 k0_hw199 k0_h4 => k0_hw199 k0_h4

def k0_off249 (k0_t12 : Fin k0_t12_loop.trips) : Fin 3 → Nat :=
  let c1_i32_98 : BitVec 32 := 1#32
  let c0_i32_65 : BitVec 32 := 0#32
  let c1_i32_67 : BitVec 32 := 1#32
  let arg20 : BitVec 32 := Scf.iv c0_i32_65 c1_i32_67 k0_t12
  let c16_i32_96 : BitVec 32 := 16#32
  let v170 : BitVec 32 := Scalar.muli arg20 c16_i32_96
  let c2_i32_97 : BitVec 32 := 2#32
  let v171 : BitVec 32 := Scalar.addi v170 c2_i32_97
  let c0_i32_101 : BitVec 32 := 0#32
  ![1, v171.toNat, 0]
def k0_off250 (v183 : BitVec 32) : Fin 2 → Nat :=
  let c0_i32_105 : BitVec 32 := 0#32
  ![v183.toNat, 0]

def k0_chk200 (k0_t4 : Fin k0_t4_loop.trips) (v183 : BitVec 32) : Prop :=
  (∀ (k0_h4 : k0_cond4 k0_t4 = 1#1), ∀ a, (k0_off250 v183) a + S1x64.size a ≤ S100000x64.size a)
instance k0_chk200.dec : ∀ (k0_t4 : Fin k0_t4_loop.trips) (v183 : BitVec 32), Decidable (k0_chk200 k0_t4 v183) := fun k0_t4 v183 => decidable_of_iff' _ (Iff.of_eq (k0_chk200.eq_1 k0_t4 v183))
theorem k0_off250_inb : ∀ (k0_t4 : Fin k0_t4_loop.trips) (v183 : BitVec 32) (k0_hw200 : k0_chk200 k0_t4 v183), ∀ (k0_h4 : k0_cond4 k0_t4 = 1#1), ∀ a, (k0_off250 v183) a + S1x64.size a ≤ S100000x64.size a := fun k0_t4 v183 k0_hw200 k0_h4 => k0_hw200 k0_h4

def k0_off251 (k0_t12 : Fin k0_t12_loop.trips) (c2_i32_97 : BitVec 32) : Fin 3 → Nat :=
  let c1_i32_103 : BitVec 32 := 1#32
  let c0_i32_65 : BitVec 32 := 0#32
  let c1_i32_67 : BitVec 32 := 1#32
  let arg20 : BitVec 32 := Scf.iv c0_i32_65 c1_i32_67 k0_t12
  let c16_i32_96 : BitVec 32 := 16#32
  let v170 : BitVec 32 := Scalar.muli arg20 c16_i32_96
  let v171 : BitVec 32 := Scalar.addi v170 c2_i32_97
  let c0_i32_106 : BitVec 32 := 0#32
  ![1, v171.toNat, 0]
def k0_off252 (v195 : BitVec 32) : Fin 2 → Nat :=
  let c0_i32_111 : BitVec 32 := 0#32
  ![v195.toNat, 0]

def k0_chk201 (k0_t4 : Fin k0_t4_loop.trips) (v195 : BitVec 32) : Prop :=
  (∀ (k0_h4 : k0_cond4 k0_t4 = 1#1), ∀ a, (k0_off252 v195) a + S1x64.size a ≤ S1000000x64.size a)
instance k0_chk201.dec : ∀ (k0_t4 : Fin k0_t4_loop.trips) (v195 : BitVec 32), Decidable (k0_chk201 k0_t4 v195) := fun k0_t4 v195 => decidable_of_iff' _ (Iff.of_eq (k0_chk201.eq_1 k0_t4 v195))
theorem k0_off252_inb : ∀ (k0_t4 : Fin k0_t4_loop.trips) (v195 : BitVec 32) (k0_hw201 : k0_chk201 k0_t4 v195), ∀ (k0_h4 : k0_cond4 k0_t4 = 1#1), ∀ a, (k0_off252 v195) a + S1x64.size a ≤ S1000000x64.size a := fun k0_t4 v195 k0_hw201 k0_h4 => k0_hw201 k0_h4

def k0_off253 (k0_t12 : Fin k0_t12_loop.trips) : Fin 3 → Nat :=
  let c1_i32_109 : BitVec 32 := 1#32
  let c0_i32_65 : BitVec 32 := 0#32
  let c1_i32_67 : BitVec 32 := 1#32
  let arg20 : BitVec 32 := Scf.iv c0_i32_65 c1_i32_67 k0_t12
  let c16_i32_108 : BitVec 32 := 16#32
  let v192 : BitVec 32 := Scalar.muli arg20 c16_i32_108
  let c3_i32 : BitVec 32 := 3#32
  let v193 : BitVec 32 := Scalar.addi v192 c3_i32
  let c0_i32_112 : BitVec 32 := 0#32
  ![1, v193.toNat, 0]
def k0_off254 (v205 : BitVec 32) : Fin 2 → Nat :=
  let c0_i32_116 : BitVec 32 := 0#32
  ![v205.toNat, 0]

def k0_chk202 (k0_t4 : Fin k0_t4_loop.trips) (v205 : BitVec 32) : Prop :=
  (∀ (k0_h4 : k0_cond4 k0_t4 = 1#1), ∀ a, (k0_off254 v205) a + S1x64.size a ≤ S100000x64.size a)
instance k0_chk202.dec : ∀ (k0_t4 : Fin k0_t4_loop.trips) (v205 : BitVec 32), Decidable (k0_chk202 k0_t4 v205) := fun k0_t4 v205 => decidable_of_iff' _ (Iff.of_eq (k0_chk202.eq_1 k0_t4 v205))
theorem k0_off254_inb : ∀ (k0_t4 : Fin k0_t4_loop.trips) (v205 : BitVec 32) (k0_hw202 : k0_chk202 k0_t4 v205), ∀ (k0_h4 : k0_cond4 k0_t4 = 1#1), ∀ a, (k0_off254 v205) a + S1x64.size a ≤ S100000x64.size a := fun k0_t4 v205 k0_hw202 k0_h4 => k0_hw202 k0_h4

def k0_off255 (k0_t12 : Fin k0_t12_loop.trips) (c3_i32 : BitVec 32) : Fin 3 → Nat :=
  let c1_i32_114 : BitVec 32 := 1#32
  let c0_i32_65 : BitVec 32 := 0#32
  let c1_i32_67 : BitVec 32 := 1#32
  let arg20 : BitVec 32 := Scf.iv c0_i32_65 c1_i32_67 k0_t12
  let c16_i32_108 : BitVec 32 := 16#32
  let v192 : BitVec 32 := Scalar.muli arg20 c16_i32_108
  let v193 : BitVec 32 := Scalar.addi v192 c3_i32
  let c0_i32_117 : BitVec 32 := 0#32
  ![1, v193.toNat, 0]
def k0_off256 (v217 : BitVec 32) : Fin 2 → Nat :=
  let c0_i32_123 : BitVec 32 := 0#32
  ![v217.toNat, 0]

def k0_chk203 (k0_t4 : Fin k0_t4_loop.trips) (v217 : BitVec 32) : Prop :=
  (∀ (k0_h4 : k0_cond4 k0_t4 = 1#1), ∀ a, (k0_off256 v217) a + S1x64.size a ≤ S1000000x64.size a)
instance k0_chk203.dec : ∀ (k0_t4 : Fin k0_t4_loop.trips) (v217 : BitVec 32), Decidable (k0_chk203 k0_t4 v217) := fun k0_t4 v217 => decidable_of_iff' _ (Iff.of_eq (k0_chk203.eq_1 k0_t4 v217))
theorem k0_off256_inb : ∀ (k0_t4 : Fin k0_t4_loop.trips) (v217 : BitVec 32) (k0_hw203 : k0_chk203 k0_t4 v217), ∀ (k0_h4 : k0_cond4 k0_t4 = 1#1), ∀ a, (k0_off256 v217) a + S1x64.size a ≤ S1000000x64.size a := fun k0_t4 v217 k0_hw203 k0_h4 => k0_hw203 k0_h4

def k0_off257 (k0_t12 : Fin k0_t12_loop.trips) : Fin 3 → Nat :=
  let c1_i32_121 : BitVec 32 := 1#32
  let c0_i32_65 : BitVec 32 := 0#32
  let c1_i32_67 : BitVec 32 := 1#32
  let arg20 : BitVec 32 := Scf.iv c0_i32_65 c1_i32_67 k0_t12
  let c16_i32_119 : BitVec 32 := 16#32
  let v214 : BitVec 32 := Scalar.muli arg20 c16_i32_119
  let c4_i32_120 : BitVec 32 := 4#32
  let v215 : BitVec 32 := Scalar.addi v214 c4_i32_120
  let c0_i32_124 : BitVec 32 := 0#32
  ![1, v215.toNat, 0]
def k0_off258 (v227 : BitVec 32) : Fin 2 → Nat :=
  let c0_i32_128 : BitVec 32 := 0#32
  ![v227.toNat, 0]

def k0_chk204 (k0_t4 : Fin k0_t4_loop.trips) (v227 : BitVec 32) : Prop :=
  (∀ (k0_h4 : k0_cond4 k0_t4 = 1#1), ∀ a, (k0_off258 v227) a + S1x64.size a ≤ S100000x64.size a)
instance k0_chk204.dec : ∀ (k0_t4 : Fin k0_t4_loop.trips) (v227 : BitVec 32), Decidable (k0_chk204 k0_t4 v227) := fun k0_t4 v227 => decidable_of_iff' _ (Iff.of_eq (k0_chk204.eq_1 k0_t4 v227))
theorem k0_off258_inb : ∀ (k0_t4 : Fin k0_t4_loop.trips) (v227 : BitVec 32) (k0_hw204 : k0_chk204 k0_t4 v227), ∀ (k0_h4 : k0_cond4 k0_t4 = 1#1), ∀ a, (k0_off258 v227) a + S1x64.size a ≤ S100000x64.size a := fun k0_t4 v227 k0_hw204 k0_h4 => k0_hw204 k0_h4

def k0_off259 (k0_t12 : Fin k0_t12_loop.trips) (c4_i32_120 : BitVec 32) : Fin 3 → Nat :=
  let c1_i32_126 : BitVec 32 := 1#32
  let c0_i32_65 : BitVec 32 := 0#32
  let c1_i32_67 : BitVec 32 := 1#32
  let arg20 : BitVec 32 := Scf.iv c0_i32_65 c1_i32_67 k0_t12
  let c16_i32_119 : BitVec 32 := 16#32
  let v214 : BitVec 32 := Scalar.muli arg20 c16_i32_119
  let v215 : BitVec 32 := Scalar.addi v214 c4_i32_120
  let c0_i32_129 : BitVec 32 := 0#32
  ![1, v215.toNat, 0]
def k0_off260 (v239 : BitVec 32) : Fin 2 → Nat :=
  let c0_i32_134 : BitVec 32 := 0#32
  ![v239.toNat, 0]

def k0_chk205 (k0_t4 : Fin k0_t4_loop.trips) (v239 : BitVec 32) : Prop :=
  (∀ (k0_h4 : k0_cond4 k0_t4 = 1#1), ∀ a, (k0_off260 v239) a + S1x64.size a ≤ S1000000x64.size a)
instance k0_chk205.dec : ∀ (k0_t4 : Fin k0_t4_loop.trips) (v239 : BitVec 32), Decidable (k0_chk205 k0_t4 v239) := fun k0_t4 v239 => decidable_of_iff' _ (Iff.of_eq (k0_chk205.eq_1 k0_t4 v239))
theorem k0_off260_inb : ∀ (k0_t4 : Fin k0_t4_loop.trips) (v239 : BitVec 32) (k0_hw205 : k0_chk205 k0_t4 v239), ∀ (k0_h4 : k0_cond4 k0_t4 = 1#1), ∀ a, (k0_off260 v239) a + S1x64.size a ≤ S1000000x64.size a := fun k0_t4 v239 k0_hw205 k0_h4 => k0_hw205 k0_h4

def k0_off261 (k0_t12 : Fin k0_t12_loop.trips) : Fin 3 → Nat :=
  let c1_i32_132 : BitVec 32 := 1#32
  let c0_i32_65 : BitVec 32 := 0#32
  let c1_i32_67 : BitVec 32 := 1#32
  let arg20 : BitVec 32 := Scf.iv c0_i32_65 c1_i32_67 k0_t12
  let c16_i32_131 : BitVec 32 := 16#32
  let v236 : BitVec 32 := Scalar.muli arg20 c16_i32_131
  let c5_i32 : BitVec 32 := 5#32
  let v237 : BitVec 32 := Scalar.addi v236 c5_i32
  let c0_i32_135 : BitVec 32 := 0#32
  ![1, v237.toNat, 0]
def k0_off262 (v249 : BitVec 32) : Fin 2 → Nat :=
  let c0_i32_139 : BitVec 32 := 0#32
  ![v249.toNat, 0]

def k0_chk206 (k0_t4 : Fin k0_t4_loop.trips) (v249 : BitVec 32) : Prop :=
  (∀ (k0_h4 : k0_cond4 k0_t4 = 1#1), ∀ a, (k0_off262 v249) a + S1x64.size a ≤ S100000x64.size a)
instance k0_chk206.dec : ∀ (k0_t4 : Fin k0_t4_loop.trips) (v249 : BitVec 32), Decidable (k0_chk206 k0_t4 v249) := fun k0_t4 v249 => decidable_of_iff' _ (Iff.of_eq (k0_chk206.eq_1 k0_t4 v249))
theorem k0_off262_inb : ∀ (k0_t4 : Fin k0_t4_loop.trips) (v249 : BitVec 32) (k0_hw206 : k0_chk206 k0_t4 v249), ∀ (k0_h4 : k0_cond4 k0_t4 = 1#1), ∀ a, (k0_off262 v249) a + S1x64.size a ≤ S100000x64.size a := fun k0_t4 v249 k0_hw206 k0_h4 => k0_hw206 k0_h4

def k0_off263 (k0_t12 : Fin k0_t12_loop.trips) (c5_i32 : BitVec 32) : Fin 3 → Nat :=
  let c1_i32_137 : BitVec 32 := 1#32
  let c0_i32_65 : BitVec 32 := 0#32
  let c1_i32_67 : BitVec 32 := 1#32
  let arg20 : BitVec 32 := Scf.iv c0_i32_65 c1_i32_67 k0_t12
  let c16_i32_131 : BitVec 32 := 16#32
  let v236 : BitVec 32 := Scalar.muli arg20 c16_i32_131
  let v237 : BitVec 32 := Scalar.addi v236 c5_i32
  let c0_i32_140 : BitVec 32 := 0#32
  ![1, v237.toNat, 0]
def k0_off264 (v261 : BitVec 32) : Fin 2 → Nat :=
  let c0_i32_145 : BitVec 32 := 0#32
  ![v261.toNat, 0]

def k0_chk207 (k0_t4 : Fin k0_t4_loop.trips) (v261 : BitVec 32) : Prop :=
  (∀ (k0_h4 : k0_cond4 k0_t4 = 1#1), ∀ a, (k0_off264 v261) a + S1x64.size a ≤ S1000000x64.size a)
instance k0_chk207.dec : ∀ (k0_t4 : Fin k0_t4_loop.trips) (v261 : BitVec 32), Decidable (k0_chk207 k0_t4 v261) := fun k0_t4 v261 => decidable_of_iff' _ (Iff.of_eq (k0_chk207.eq_1 k0_t4 v261))
theorem k0_off264_inb : ∀ (k0_t4 : Fin k0_t4_loop.trips) (v261 : BitVec 32) (k0_hw207 : k0_chk207 k0_t4 v261), ∀ (k0_h4 : k0_cond4 k0_t4 = 1#1), ∀ a, (k0_off264 v261) a + S1x64.size a ≤ S1000000x64.size a := fun k0_t4 v261 k0_hw207 k0_h4 => k0_hw207 k0_h4

def k0_off265 (k0_t12 : Fin k0_t12_loop.trips) : Fin 3 → Nat :=
  let c1_i32_143 : BitVec 32 := 1#32
  let c0_i32_65 : BitVec 32 := 0#32
  let c1_i32_67 : BitVec 32 := 1#32
  let arg20 : BitVec 32 := Scf.iv c0_i32_65 c1_i32_67 k0_t12
  let c16_i32_142 : BitVec 32 := 16#32
  let v258 : BitVec 32 := Scalar.muli arg20 c16_i32_142
  let c6_i32 : BitVec 32 := 6#32
  let v259 : BitVec 32 := Scalar.addi v258 c6_i32
  let c0_i32_146 : BitVec 32 := 0#32
  ![1, v259.toNat, 0]
def k0_off266 (v271 : BitVec 32) : Fin 2 → Nat :=
  let c0_i32_150 : BitVec 32 := 0#32
  ![v271.toNat, 0]

def k0_chk208 (k0_t4 : Fin k0_t4_loop.trips) (v271 : BitVec 32) : Prop :=
  (∀ (k0_h4 : k0_cond4 k0_t4 = 1#1), ∀ a, (k0_off266 v271) a + S1x64.size a ≤ S100000x64.size a)
instance k0_chk208.dec : ∀ (k0_t4 : Fin k0_t4_loop.trips) (v271 : BitVec 32), Decidable (k0_chk208 k0_t4 v271) := fun k0_t4 v271 => decidable_of_iff' _ (Iff.of_eq (k0_chk208.eq_1 k0_t4 v271))
theorem k0_off266_inb : ∀ (k0_t4 : Fin k0_t4_loop.trips) (v271 : BitVec 32) (k0_hw208 : k0_chk208 k0_t4 v271), ∀ (k0_h4 : k0_cond4 k0_t4 = 1#1), ∀ a, (k0_off266 v271) a + S1x64.size a ≤ S100000x64.size a := fun k0_t4 v271 k0_hw208 k0_h4 => k0_hw208 k0_h4

def k0_off267 (k0_t12 : Fin k0_t12_loop.trips) (c6_i32 : BitVec 32) : Fin 3 → Nat :=
  let c1_i32_148 : BitVec 32 := 1#32
  let c0_i32_65 : BitVec 32 := 0#32
  let c1_i32_67 : BitVec 32 := 1#32
  let arg20 : BitVec 32 := Scf.iv c0_i32_65 c1_i32_67 k0_t12
  let c16_i32_142 : BitVec 32 := 16#32
  let v258 : BitVec 32 := Scalar.muli arg20 c16_i32_142
  let v259 : BitVec 32 := Scalar.addi v258 c6_i32
  let c0_i32_151 : BitVec 32 := 0#32
  ![1, v259.toNat, 0]
def k0_off268 (v283 : BitVec 32) : Fin 2 → Nat :=
  let c0_i32_156 : BitVec 32 := 0#32
  ![v283.toNat, 0]

def k0_chk209 (k0_t4 : Fin k0_t4_loop.trips) (v283 : BitVec 32) : Prop :=
  (∀ (k0_h4 : k0_cond4 k0_t4 = 1#1), ∀ a, (k0_off268 v283) a + S1x64.size a ≤ S1000000x64.size a)
instance k0_chk209.dec : ∀ (k0_t4 : Fin k0_t4_loop.trips) (v283 : BitVec 32), Decidable (k0_chk209 k0_t4 v283) := fun k0_t4 v283 => decidable_of_iff' _ (Iff.of_eq (k0_chk209.eq_1 k0_t4 v283))
theorem k0_off268_inb : ∀ (k0_t4 : Fin k0_t4_loop.trips) (v283 : BitVec 32) (k0_hw209 : k0_chk209 k0_t4 v283), ∀ (k0_h4 : k0_cond4 k0_t4 = 1#1), ∀ a, (k0_off268 v283) a + S1x64.size a ≤ S1000000x64.size a := fun k0_t4 v283 k0_hw209 k0_h4 => k0_hw209 k0_h4

def k0_off269 (k0_t12 : Fin k0_t12_loop.trips) : Fin 3 → Nat :=
  let c1_i32_154 : BitVec 32 := 1#32
  let c0_i32_65 : BitVec 32 := 0#32
  let c1_i32_67 : BitVec 32 := 1#32
  let arg20 : BitVec 32 := Scf.iv c0_i32_65 c1_i32_67 k0_t12
  let c16_i32_153 : BitVec 32 := 16#32
  let v280 : BitVec 32 := Scalar.muli arg20 c16_i32_153
  let c7_i32 : BitVec 32 := 7#32
  let v281 : BitVec 32 := Scalar.addi v280 c7_i32
  let c0_i32_157 : BitVec 32 := 0#32
  ![1, v281.toNat, 0]
def k0_off270 (v293 : BitVec 32) : Fin 2 → Nat :=
  let c0_i32_161 : BitVec 32 := 0#32
  ![v293.toNat, 0]

def k0_chk210 (k0_t4 : Fin k0_t4_loop.trips) (v293 : BitVec 32) : Prop :=
  (∀ (k0_h4 : k0_cond4 k0_t4 = 1#1), ∀ a, (k0_off270 v293) a + S1x64.size a ≤ S100000x64.size a)
instance k0_chk210.dec : ∀ (k0_t4 : Fin k0_t4_loop.trips) (v293 : BitVec 32), Decidable (k0_chk210 k0_t4 v293) := fun k0_t4 v293 => decidable_of_iff' _ (Iff.of_eq (k0_chk210.eq_1 k0_t4 v293))
theorem k0_off270_inb : ∀ (k0_t4 : Fin k0_t4_loop.trips) (v293 : BitVec 32) (k0_hw210 : k0_chk210 k0_t4 v293), ∀ (k0_h4 : k0_cond4 k0_t4 = 1#1), ∀ a, (k0_off270 v293) a + S1x64.size a ≤ S100000x64.size a := fun k0_t4 v293 k0_hw210 k0_h4 => k0_hw210 k0_h4

def k0_off271 (k0_t12 : Fin k0_t12_loop.trips) (c7_i32 : BitVec 32) : Fin 3 → Nat :=
  let c1_i32_159 : BitVec 32 := 1#32
  let c0_i32_65 : BitVec 32 := 0#32
  let c1_i32_67 : BitVec 32 := 1#32
  let arg20 : BitVec 32 := Scf.iv c0_i32_65 c1_i32_67 k0_t12
  let c16_i32_153 : BitVec 32 := 16#32
  let v280 : BitVec 32 := Scalar.muli arg20 c16_i32_153
  let v281 : BitVec 32 := Scalar.addi v280 c7_i32
  let c0_i32_162 : BitVec 32 := 0#32
  ![1, v281.toNat, 0]
def k0_off272 (v305 : BitVec 32) : Fin 2 → Nat :=
  let c0_i32_168 : BitVec 32 := 0#32
  ![v305.toNat, 0]

def k0_chk211 (k0_t4 : Fin k0_t4_loop.trips) (v305 : BitVec 32) : Prop :=
  (∀ (k0_h4 : k0_cond4 k0_t4 = 1#1), ∀ a, (k0_off272 v305) a + S1x64.size a ≤ S1000000x64.size a)
instance k0_chk211.dec : ∀ (k0_t4 : Fin k0_t4_loop.trips) (v305 : BitVec 32), Decidable (k0_chk211 k0_t4 v305) := fun k0_t4 v305 => decidable_of_iff' _ (Iff.of_eq (k0_chk211.eq_1 k0_t4 v305))
theorem k0_off272_inb : ∀ (k0_t4 : Fin k0_t4_loop.trips) (v305 : BitVec 32) (k0_hw211 : k0_chk211 k0_t4 v305), ∀ (k0_h4 : k0_cond4 k0_t4 = 1#1), ∀ a, (k0_off272 v305) a + S1x64.size a ≤ S1000000x64.size a := fun k0_t4 v305 k0_hw211 k0_h4 => k0_hw211 k0_h4

def k0_off273 (k0_t12 : Fin k0_t12_loop.trips) : Fin 3 → Nat :=
  let c1_i32_166 : BitVec 32 := 1#32
  let c0_i32_65 : BitVec 32 := 0#32
  let c1_i32_67 : BitVec 32 := 1#32
  let arg20 : BitVec 32 := Scf.iv c0_i32_65 c1_i32_67 k0_t12
  let c16_i32_164 : BitVec 32 := 16#32
  let v302 : BitVec 32 := Scalar.muli arg20 c16_i32_164
  let c8_i32_165 : BitVec 32 := 8#32
  let v303 : BitVec 32 := Scalar.addi v302 c8_i32_165
  let c0_i32_169 : BitVec 32 := 0#32
  ![1, v303.toNat, 0]
def k0_off274 (v315 : BitVec 32) : Fin 2 → Nat :=
  let c0_i32_173 : BitVec 32 := 0#32
  ![v315.toNat, 0]

def k0_chk212 (k0_t4 : Fin k0_t4_loop.trips) (v315 : BitVec 32) : Prop :=
  (∀ (k0_h4 : k0_cond4 k0_t4 = 1#1), ∀ a, (k0_off274 v315) a + S1x64.size a ≤ S100000x64.size a)
instance k0_chk212.dec : ∀ (k0_t4 : Fin k0_t4_loop.trips) (v315 : BitVec 32), Decidable (k0_chk212 k0_t4 v315) := fun k0_t4 v315 => decidable_of_iff' _ (Iff.of_eq (k0_chk212.eq_1 k0_t4 v315))
theorem k0_off274_inb : ∀ (k0_t4 : Fin k0_t4_loop.trips) (v315 : BitVec 32) (k0_hw212 : k0_chk212 k0_t4 v315), ∀ (k0_h4 : k0_cond4 k0_t4 = 1#1), ∀ a, (k0_off274 v315) a + S1x64.size a ≤ S100000x64.size a := fun k0_t4 v315 k0_hw212 k0_h4 => k0_hw212 k0_h4

def k0_off275 (k0_t12 : Fin k0_t12_loop.trips) (c8_i32_165 : BitVec 32) : Fin 3 → Nat :=
  let c1_i32_171 : BitVec 32 := 1#32
  let c0_i32_65 : BitVec 32 := 0#32
  let c1_i32_67 : BitVec 32 := 1#32
  let arg20 : BitVec 32 := Scf.iv c0_i32_65 c1_i32_67 k0_t12
  let c16_i32_164 : BitVec 32 := 16#32
  let v302 : BitVec 32 := Scalar.muli arg20 c16_i32_164
  let v303 : BitVec 32 := Scalar.addi v302 c8_i32_165
  let c0_i32_174 : BitVec 32 := 0#32
  ![1, v303.toNat, 0]
def k0_off276 (v327 : BitVec 32) : Fin 2 → Nat :=
  let c0_i32_179 : BitVec 32 := 0#32
  ![v327.toNat, 0]

def k0_chk213 (k0_t4 : Fin k0_t4_loop.trips) (v327 : BitVec 32) : Prop :=
  (∀ (k0_h4 : k0_cond4 k0_t4 = 1#1), ∀ a, (k0_off276 v327) a + S1x64.size a ≤ S1000000x64.size a)
instance k0_chk213.dec : ∀ (k0_t4 : Fin k0_t4_loop.trips) (v327 : BitVec 32), Decidable (k0_chk213 k0_t4 v327) := fun k0_t4 v327 => decidable_of_iff' _ (Iff.of_eq (k0_chk213.eq_1 k0_t4 v327))
theorem k0_off276_inb : ∀ (k0_t4 : Fin k0_t4_loop.trips) (v327 : BitVec 32) (k0_hw213 : k0_chk213 k0_t4 v327), ∀ (k0_h4 : k0_cond4 k0_t4 = 1#1), ∀ a, (k0_off276 v327) a + S1x64.size a ≤ S1000000x64.size a := fun k0_t4 v327 k0_hw213 k0_h4 => k0_hw213 k0_h4

def k0_off277 (k0_t12 : Fin k0_t12_loop.trips) : Fin 3 → Nat :=
  let c1_i32_177 : BitVec 32 := 1#32
  let c0_i32_65 : BitVec 32 := 0#32
  let c1_i32_67 : BitVec 32 := 1#32
  let arg20 : BitVec 32 := Scf.iv c0_i32_65 c1_i32_67 k0_t12
  let c16_i32_176 : BitVec 32 := 16#32
  let v324 : BitVec 32 := Scalar.muli arg20 c16_i32_176
  let c9_i32 : BitVec 32 := 9#32
  let v325 : BitVec 32 := Scalar.addi v324 c9_i32
  let c0_i32_180 : BitVec 32 := 0#32
  ![1, v325.toNat, 0]
def k0_off278 (v337 : BitVec 32) : Fin 2 → Nat :=
  let c0_i32_184 : BitVec 32 := 0#32
  ![v337.toNat, 0]

def k0_chk214 (k0_t4 : Fin k0_t4_loop.trips) (v337 : BitVec 32) : Prop :=
  (∀ (k0_h4 : k0_cond4 k0_t4 = 1#1), ∀ a, (k0_off278 v337) a + S1x64.size a ≤ S100000x64.size a)
instance k0_chk214.dec : ∀ (k0_t4 : Fin k0_t4_loop.trips) (v337 : BitVec 32), Decidable (k0_chk214 k0_t4 v337) := fun k0_t4 v337 => decidable_of_iff' _ (Iff.of_eq (k0_chk214.eq_1 k0_t4 v337))
theorem k0_off278_inb : ∀ (k0_t4 : Fin k0_t4_loop.trips) (v337 : BitVec 32) (k0_hw214 : k0_chk214 k0_t4 v337), ∀ (k0_h4 : k0_cond4 k0_t4 = 1#1), ∀ a, (k0_off278 v337) a + S1x64.size a ≤ S100000x64.size a := fun k0_t4 v337 k0_hw214 k0_h4 => k0_hw214 k0_h4

def k0_off279 (k0_t12 : Fin k0_t12_loop.trips) (c9_i32 : BitVec 32) : Fin 3 → Nat :=
  let c1_i32_182 : BitVec 32 := 1#32
  let c0_i32_65 : BitVec 32 := 0#32
  let c1_i32_67 : BitVec 32 := 1#32
  let arg20 : BitVec 32 := Scf.iv c0_i32_65 c1_i32_67 k0_t12
  let c16_i32_176 : BitVec 32 := 16#32
  let v324 : BitVec 32 := Scalar.muli arg20 c16_i32_176
  let v325 : BitVec 32 := Scalar.addi v324 c9_i32
  let c0_i32_185 : BitVec 32 := 0#32
  ![1, v325.toNat, 0]
def k0_off280 (v349 : BitVec 32) : Fin 2 → Nat :=
  let c0_i32_190 : BitVec 32 := 0#32
  ![v349.toNat, 0]

def k0_chk215 (k0_t4 : Fin k0_t4_loop.trips) (v349 : BitVec 32) : Prop :=
  (∀ (k0_h4 : k0_cond4 k0_t4 = 1#1), ∀ a, (k0_off280 v349) a + S1x64.size a ≤ S1000000x64.size a)
instance k0_chk215.dec : ∀ (k0_t4 : Fin k0_t4_loop.trips) (v349 : BitVec 32), Decidable (k0_chk215 k0_t4 v349) := fun k0_t4 v349 => decidable_of_iff' _ (Iff.of_eq (k0_chk215.eq_1 k0_t4 v349))
theorem k0_off280_inb : ∀ (k0_t4 : Fin k0_t4_loop.trips) (v349 : BitVec 32) (k0_hw215 : k0_chk215 k0_t4 v349), ∀ (k0_h4 : k0_cond4 k0_t4 = 1#1), ∀ a, (k0_off280 v349) a + S1x64.size a ≤ S1000000x64.size a := fun k0_t4 v349 k0_hw215 k0_h4 => k0_hw215 k0_h4

def k0_off281 (k0_t12 : Fin k0_t12_loop.trips) : Fin 3 → Nat :=
  let c1_i32_188 : BitVec 32 := 1#32
  let c0_i32_65 : BitVec 32 := 0#32
  let c1_i32_67 : BitVec 32 := 1#32
  let arg20 : BitVec 32 := Scf.iv c0_i32_65 c1_i32_67 k0_t12
  let c16_i32_187 : BitVec 32 := 16#32
  let v346 : BitVec 32 := Scalar.muli arg20 c16_i32_187
  let c10_i32 : BitVec 32 := 10#32
  let v347 : BitVec 32 := Scalar.addi v346 c10_i32
  let c0_i32_191 : BitVec 32 := 0#32
  ![1, v347.toNat, 0]
def k0_off282 (v359 : BitVec 32) : Fin 2 → Nat :=
  let c0_i32_195 : BitVec 32 := 0#32
  ![v359.toNat, 0]

def k0_chk216 (k0_t4 : Fin k0_t4_loop.trips) (v359 : BitVec 32) : Prop :=
  (∀ (k0_h4 : k0_cond4 k0_t4 = 1#1), ∀ a, (k0_off282 v359) a + S1x64.size a ≤ S100000x64.size a)
instance k0_chk216.dec : ∀ (k0_t4 : Fin k0_t4_loop.trips) (v359 : BitVec 32), Decidable (k0_chk216 k0_t4 v359) := fun k0_t4 v359 => decidable_of_iff' _ (Iff.of_eq (k0_chk216.eq_1 k0_t4 v359))
theorem k0_off282_inb : ∀ (k0_t4 : Fin k0_t4_loop.trips) (v359 : BitVec 32) (k0_hw216 : k0_chk216 k0_t4 v359), ∀ (k0_h4 : k0_cond4 k0_t4 = 1#1), ∀ a, (k0_off282 v359) a + S1x64.size a ≤ S100000x64.size a := fun k0_t4 v359 k0_hw216 k0_h4 => k0_hw216 k0_h4

def k0_off283 (k0_t12 : Fin k0_t12_loop.trips) (c10_i32 : BitVec 32) : Fin 3 → Nat :=
  let c1_i32_193 : BitVec 32 := 1#32
  let c0_i32_65 : BitVec 32 := 0#32
  let c1_i32_67 : BitVec 32 := 1#32
  let arg20 : BitVec 32 := Scf.iv c0_i32_65 c1_i32_67 k0_t12
  let c16_i32_187 : BitVec 32 := 16#32
  let v346 : BitVec 32 := Scalar.muli arg20 c16_i32_187
  let v347 : BitVec 32 := Scalar.addi v346 c10_i32
  let c0_i32_196 : BitVec 32 := 0#32
  ![1, v347.toNat, 0]
def k0_off284 (v371 : BitVec 32) : Fin 2 → Nat :=
  let c0_i32_201 : BitVec 32 := 0#32
  ![v371.toNat, 0]

def k0_chk217 (k0_t4 : Fin k0_t4_loop.trips) (v371 : BitVec 32) : Prop :=
  (∀ (k0_h4 : k0_cond4 k0_t4 = 1#1), ∀ a, (k0_off284 v371) a + S1x64.size a ≤ S1000000x64.size a)
instance k0_chk217.dec : ∀ (k0_t4 : Fin k0_t4_loop.trips) (v371 : BitVec 32), Decidable (k0_chk217 k0_t4 v371) := fun k0_t4 v371 => decidable_of_iff' _ (Iff.of_eq (k0_chk217.eq_1 k0_t4 v371))
theorem k0_off284_inb : ∀ (k0_t4 : Fin k0_t4_loop.trips) (v371 : BitVec 32) (k0_hw217 : k0_chk217 k0_t4 v371), ∀ (k0_h4 : k0_cond4 k0_t4 = 1#1), ∀ a, (k0_off284 v371) a + S1x64.size a ≤ S1000000x64.size a := fun k0_t4 v371 k0_hw217 k0_h4 => k0_hw217 k0_h4

def k0_off285 (k0_t12 : Fin k0_t12_loop.trips) : Fin 3 → Nat :=
  let c1_i32_199 : BitVec 32 := 1#32
  let c0_i32_65 : BitVec 32 := 0#32
  let c1_i32_67 : BitVec 32 := 1#32
  let arg20 : BitVec 32 := Scf.iv c0_i32_65 c1_i32_67 k0_t12
  let c16_i32_198 : BitVec 32 := 16#32
  let v368 : BitVec 32 := Scalar.muli arg20 c16_i32_198
  let c11_i32 : BitVec 32 := 11#32
  let v369 : BitVec 32 := Scalar.addi v368 c11_i32
  let c0_i32_202 : BitVec 32 := 0#32
  ![1, v369.toNat, 0]
def k0_off286 (v381 : BitVec 32) : Fin 2 → Nat :=
  let c0_i32_206 : BitVec 32 := 0#32
  ![v381.toNat, 0]

def k0_chk218 (k0_t4 : Fin k0_t4_loop.trips) (v381 : BitVec 32) : Prop :=
  (∀ (k0_h4 : k0_cond4 k0_t4 = 1#1), ∀ a, (k0_off286 v381) a + S1x64.size a ≤ S100000x64.size a)
instance k0_chk218.dec : ∀ (k0_t4 : Fin k0_t4_loop.trips) (v381 : BitVec 32), Decidable (k0_chk218 k0_t4 v381) := fun k0_t4 v381 => decidable_of_iff' _ (Iff.of_eq (k0_chk218.eq_1 k0_t4 v381))
theorem k0_off286_inb : ∀ (k0_t4 : Fin k0_t4_loop.trips) (v381 : BitVec 32) (k0_hw218 : k0_chk218 k0_t4 v381), ∀ (k0_h4 : k0_cond4 k0_t4 = 1#1), ∀ a, (k0_off286 v381) a + S1x64.size a ≤ S100000x64.size a := fun k0_t4 v381 k0_hw218 k0_h4 => k0_hw218 k0_h4

def k0_off287 (k0_t12 : Fin k0_t12_loop.trips) (c11_i32 : BitVec 32) : Fin 3 → Nat :=
  let c1_i32_204 : BitVec 32 := 1#32
  let c0_i32_65 : BitVec 32 := 0#32
  let c1_i32_67 : BitVec 32 := 1#32
  let arg20 : BitVec 32 := Scf.iv c0_i32_65 c1_i32_67 k0_t12
  let c16_i32_198 : BitVec 32 := 16#32
  let v368 : BitVec 32 := Scalar.muli arg20 c16_i32_198
  let v369 : BitVec 32 := Scalar.addi v368 c11_i32
  let c0_i32_207 : BitVec 32 := 0#32
  ![1, v369.toNat, 0]
def k0_off288 (v393 : BitVec 32) : Fin 2 → Nat :=
  let c0_i32_212 : BitVec 32 := 0#32
  ![v393.toNat, 0]

def k0_chk219 (k0_t4 : Fin k0_t4_loop.trips) (v393 : BitVec 32) : Prop :=
  (∀ (k0_h4 : k0_cond4 k0_t4 = 1#1), ∀ a, (k0_off288 v393) a + S1x64.size a ≤ S1000000x64.size a)
instance k0_chk219.dec : ∀ (k0_t4 : Fin k0_t4_loop.trips) (v393 : BitVec 32), Decidable (k0_chk219 k0_t4 v393) := fun k0_t4 v393 => decidable_of_iff' _ (Iff.of_eq (k0_chk219.eq_1 k0_t4 v393))
theorem k0_off288_inb : ∀ (k0_t4 : Fin k0_t4_loop.trips) (v393 : BitVec 32) (k0_hw219 : k0_chk219 k0_t4 v393), ∀ (k0_h4 : k0_cond4 k0_t4 = 1#1), ∀ a, (k0_off288 v393) a + S1x64.size a ≤ S1000000x64.size a := fun k0_t4 v393 k0_hw219 k0_h4 => k0_hw219 k0_h4

def k0_off289 (k0_t12 : Fin k0_t12_loop.trips) : Fin 3 → Nat :=
  let c1_i32_210 : BitVec 32 := 1#32
  let c0_i32_65 : BitVec 32 := 0#32
  let c1_i32_67 : BitVec 32 := 1#32
  let arg20 : BitVec 32 := Scf.iv c0_i32_65 c1_i32_67 k0_t12
  let c16_i32_209 : BitVec 32 := 16#32
  let v390 : BitVec 32 := Scalar.muli arg20 c16_i32_209
  let c12_i32 : BitVec 32 := 12#32
  let v391 : BitVec 32 := Scalar.addi v390 c12_i32
  let c0_i32_213 : BitVec 32 := 0#32
  ![1, v391.toNat, 0]
def k0_off290 (v403 : BitVec 32) : Fin 2 → Nat :=
  let c0_i32_217 : BitVec 32 := 0#32
  ![v403.toNat, 0]

def k0_chk220 (k0_t4 : Fin k0_t4_loop.trips) (v403 : BitVec 32) : Prop :=
  (∀ (k0_h4 : k0_cond4 k0_t4 = 1#1), ∀ a, (k0_off290 v403) a + S1x64.size a ≤ S100000x64.size a)
instance k0_chk220.dec : ∀ (k0_t4 : Fin k0_t4_loop.trips) (v403 : BitVec 32), Decidable (k0_chk220 k0_t4 v403) := fun k0_t4 v403 => decidable_of_iff' _ (Iff.of_eq (k0_chk220.eq_1 k0_t4 v403))
theorem k0_off290_inb : ∀ (k0_t4 : Fin k0_t4_loop.trips) (v403 : BitVec 32) (k0_hw220 : k0_chk220 k0_t4 v403), ∀ (k0_h4 : k0_cond4 k0_t4 = 1#1), ∀ a, (k0_off290 v403) a + S1x64.size a ≤ S100000x64.size a := fun k0_t4 v403 k0_hw220 k0_h4 => k0_hw220 k0_h4

def k0_off291 (k0_t12 : Fin k0_t12_loop.trips) (c12_i32 : BitVec 32) : Fin 3 → Nat :=
  let c1_i32_215 : BitVec 32 := 1#32
  let c0_i32_65 : BitVec 32 := 0#32
  let c1_i32_67 : BitVec 32 := 1#32
  let arg20 : BitVec 32 := Scf.iv c0_i32_65 c1_i32_67 k0_t12
  let c16_i32_209 : BitVec 32 := 16#32
  let v390 : BitVec 32 := Scalar.muli arg20 c16_i32_209
  let v391 : BitVec 32 := Scalar.addi v390 c12_i32
  let c0_i32_218 : BitVec 32 := 0#32
  ![1, v391.toNat, 0]
def k0_off292 (v415 : BitVec 32) : Fin 2 → Nat :=
  let c0_i32_223 : BitVec 32 := 0#32
  ![v415.toNat, 0]

def k0_chk221 (k0_t4 : Fin k0_t4_loop.trips) (v415 : BitVec 32) : Prop :=
  (∀ (k0_h4 : k0_cond4 k0_t4 = 1#1), ∀ a, (k0_off292 v415) a + S1x64.size a ≤ S1000000x64.size a)
instance k0_chk221.dec : ∀ (k0_t4 : Fin k0_t4_loop.trips) (v415 : BitVec 32), Decidable (k0_chk221 k0_t4 v415) := fun k0_t4 v415 => decidable_of_iff' _ (Iff.of_eq (k0_chk221.eq_1 k0_t4 v415))
theorem k0_off292_inb : ∀ (k0_t4 : Fin k0_t4_loop.trips) (v415 : BitVec 32) (k0_hw221 : k0_chk221 k0_t4 v415), ∀ (k0_h4 : k0_cond4 k0_t4 = 1#1), ∀ a, (k0_off292 v415) a + S1x64.size a ≤ S1000000x64.size a := fun k0_t4 v415 k0_hw221 k0_h4 => k0_hw221 k0_h4

def k0_off293 (k0_t12 : Fin k0_t12_loop.trips) : Fin 3 → Nat :=
  let c1_i32_221 : BitVec 32 := 1#32
  let c0_i32_65 : BitVec 32 := 0#32
  let c1_i32_67 : BitVec 32 := 1#32
  let arg20 : BitVec 32 := Scf.iv c0_i32_65 c1_i32_67 k0_t12
  let c16_i32_220 : BitVec 32 := 16#32
  let v412 : BitVec 32 := Scalar.muli arg20 c16_i32_220
  let c13_i32 : BitVec 32 := 13#32
  let v413 : BitVec 32 := Scalar.addi v412 c13_i32
  let c0_i32_224 : BitVec 32 := 0#32
  ![1, v413.toNat, 0]
def k0_off294 (v425 : BitVec 32) : Fin 2 → Nat :=
  let c0_i32_228 : BitVec 32 := 0#32
  ![v425.toNat, 0]

def k0_chk222 (k0_t4 : Fin k0_t4_loop.trips) (v425 : BitVec 32) : Prop :=
  (∀ (k0_h4 : k0_cond4 k0_t4 = 1#1), ∀ a, (k0_off294 v425) a + S1x64.size a ≤ S100000x64.size a)
instance k0_chk222.dec : ∀ (k0_t4 : Fin k0_t4_loop.trips) (v425 : BitVec 32), Decidable (k0_chk222 k0_t4 v425) := fun k0_t4 v425 => decidable_of_iff' _ (Iff.of_eq (k0_chk222.eq_1 k0_t4 v425))
theorem k0_off294_inb : ∀ (k0_t4 : Fin k0_t4_loop.trips) (v425 : BitVec 32) (k0_hw222 : k0_chk222 k0_t4 v425), ∀ (k0_h4 : k0_cond4 k0_t4 = 1#1), ∀ a, (k0_off294 v425) a + S1x64.size a ≤ S100000x64.size a := fun k0_t4 v425 k0_hw222 k0_h4 => k0_hw222 k0_h4

def k0_off295 (k0_t12 : Fin k0_t12_loop.trips) (c13_i32 : BitVec 32) : Fin 3 → Nat :=
  let c1_i32_226 : BitVec 32 := 1#32
  let c0_i32_65 : BitVec 32 := 0#32
  let c1_i32_67 : BitVec 32 := 1#32
  let arg20 : BitVec 32 := Scf.iv c0_i32_65 c1_i32_67 k0_t12
  let c16_i32_220 : BitVec 32 := 16#32
  let v412 : BitVec 32 := Scalar.muli arg20 c16_i32_220
  let v413 : BitVec 32 := Scalar.addi v412 c13_i32
  let c0_i32_229 : BitVec 32 := 0#32
  ![1, v413.toNat, 0]
def k0_off296 (v437 : BitVec 32) : Fin 2 → Nat :=
  let c0_i32_234 : BitVec 32 := 0#32
  ![v437.toNat, 0]

def k0_chk223 (k0_t4 : Fin k0_t4_loop.trips) (v437 : BitVec 32) : Prop :=
  (∀ (k0_h4 : k0_cond4 k0_t4 = 1#1), ∀ a, (k0_off296 v437) a + S1x64.size a ≤ S1000000x64.size a)
instance k0_chk223.dec : ∀ (k0_t4 : Fin k0_t4_loop.trips) (v437 : BitVec 32), Decidable (k0_chk223 k0_t4 v437) := fun k0_t4 v437 => decidable_of_iff' _ (Iff.of_eq (k0_chk223.eq_1 k0_t4 v437))
theorem k0_off296_inb : ∀ (k0_t4 : Fin k0_t4_loop.trips) (v437 : BitVec 32) (k0_hw223 : k0_chk223 k0_t4 v437), ∀ (k0_h4 : k0_cond4 k0_t4 = 1#1), ∀ a, (k0_off296 v437) a + S1x64.size a ≤ S1000000x64.size a := fun k0_t4 v437 k0_hw223 k0_h4 => k0_hw223 k0_h4

def k0_off297 (k0_t12 : Fin k0_t12_loop.trips) : Fin 3 → Nat :=
  let c1_i32_232 : BitVec 32 := 1#32
  let c0_i32_65 : BitVec 32 := 0#32
  let c1_i32_67 : BitVec 32 := 1#32
  let arg20 : BitVec 32 := Scf.iv c0_i32_65 c1_i32_67 k0_t12
  let c16_i32_231 : BitVec 32 := 16#32
  let v434 : BitVec 32 := Scalar.muli arg20 c16_i32_231
  let c14_i32 : BitVec 32 := 14#32
  let v435 : BitVec 32 := Scalar.addi v434 c14_i32
  let c0_i32_235 : BitVec 32 := 0#32
  ![1, v435.toNat, 0]
def k0_off298 (v447 : BitVec 32) : Fin 2 → Nat :=
  let c0_i32_239 : BitVec 32 := 0#32
  ![v447.toNat, 0]

def k0_chk224 (k0_t4 : Fin k0_t4_loop.trips) (v447 : BitVec 32) : Prop :=
  (∀ (k0_h4 : k0_cond4 k0_t4 = 1#1), ∀ a, (k0_off298 v447) a + S1x64.size a ≤ S100000x64.size a)
instance k0_chk224.dec : ∀ (k0_t4 : Fin k0_t4_loop.trips) (v447 : BitVec 32), Decidable (k0_chk224 k0_t4 v447) := fun k0_t4 v447 => decidable_of_iff' _ (Iff.of_eq (k0_chk224.eq_1 k0_t4 v447))
theorem k0_off298_inb : ∀ (k0_t4 : Fin k0_t4_loop.trips) (v447 : BitVec 32) (k0_hw224 : k0_chk224 k0_t4 v447), ∀ (k0_h4 : k0_cond4 k0_t4 = 1#1), ∀ a, (k0_off298 v447) a + S1x64.size a ≤ S100000x64.size a := fun k0_t4 v447 k0_hw224 k0_h4 => k0_hw224 k0_h4

def k0_off299 (k0_t12 : Fin k0_t12_loop.trips) (c14_i32 : BitVec 32) : Fin 3 → Nat :=
  let c1_i32_237 : BitVec 32 := 1#32
  let c0_i32_65 : BitVec 32 := 0#32
  let c1_i32_67 : BitVec 32 := 1#32
  let arg20 : BitVec 32 := Scf.iv c0_i32_65 c1_i32_67 k0_t12
  let c16_i32_231 : BitVec 32 := 16#32
  let v434 : BitVec 32 := Scalar.muli arg20 c16_i32_231
  let v435 : BitVec 32 := Scalar.addi v434 c14_i32
  let c0_i32_240 : BitVec 32 := 0#32
  ![1, v435.toNat, 0]
def k0_off300 (v459 : BitVec 32) : Fin 2 → Nat :=
  let c0_i32_245 : BitVec 32 := 0#32
  ![v459.toNat, 0]

def k0_chk225 (k0_t4 : Fin k0_t4_loop.trips) (v459 : BitVec 32) : Prop :=
  (∀ (k0_h4 : k0_cond4 k0_t4 = 1#1), ∀ a, (k0_off300 v459) a + S1x64.size a ≤ S1000000x64.size a)
instance k0_chk225.dec : ∀ (k0_t4 : Fin k0_t4_loop.trips) (v459 : BitVec 32), Decidable (k0_chk225 k0_t4 v459) := fun k0_t4 v459 => decidable_of_iff' _ (Iff.of_eq (k0_chk225.eq_1 k0_t4 v459))
theorem k0_off300_inb : ∀ (k0_t4 : Fin k0_t4_loop.trips) (v459 : BitVec 32) (k0_hw225 : k0_chk225 k0_t4 v459), ∀ (k0_h4 : k0_cond4 k0_t4 = 1#1), ∀ a, (k0_off300 v459) a + S1x64.size a ≤ S1000000x64.size a := fun k0_t4 v459 k0_hw225 k0_h4 => k0_hw225 k0_h4

def k0_off301 (k0_t12 : Fin k0_t12_loop.trips) : Fin 3 → Nat :=
  let c1_i32_243 : BitVec 32 := 1#32
  let c0_i32_65 : BitVec 32 := 0#32
  let c1_i32_67 : BitVec 32 := 1#32
  let arg20 : BitVec 32 := Scf.iv c0_i32_65 c1_i32_67 k0_t12
  let c16_i32_242 : BitVec 32 := 16#32
  let v456 : BitVec 32 := Scalar.muli arg20 c16_i32_242
  let c15_i32 : BitVec 32 := 15#32
  let v457 : BitVec 32 := Scalar.addi v456 c15_i32
  let c0_i32_246 : BitVec 32 := 0#32
  ![1, v457.toNat, 0]
def k0_off302 (v469 : BitVec 32) : Fin 2 → Nat :=
  let c0_i32_250 : BitVec 32 := 0#32
  ![v469.toNat, 0]

def k0_chk226 (k0_t4 : Fin k0_t4_loop.trips) (v469 : BitVec 32) : Prop :=
  (∀ (k0_h4 : k0_cond4 k0_t4 = 1#1), ∀ a, (k0_off302 v469) a + S1x64.size a ≤ S100000x64.size a)
instance k0_chk226.dec : ∀ (k0_t4 : Fin k0_t4_loop.trips) (v469 : BitVec 32), Decidable (k0_chk226 k0_t4 v469) := fun k0_t4 v469 => decidable_of_iff' _ (Iff.of_eq (k0_chk226.eq_1 k0_t4 v469))
theorem k0_off302_inb : ∀ (k0_t4 : Fin k0_t4_loop.trips) (v469 : BitVec 32) (k0_hw226 : k0_chk226 k0_t4 v469), ∀ (k0_h4 : k0_cond4 k0_t4 = 1#1), ∀ a, (k0_off302 v469) a + S1x64.size a ≤ S100000x64.size a := fun k0_t4 v469 k0_hw226 k0_h4 => k0_hw226 k0_h4

def k0_off303 (k0_t12 : Fin k0_t12_loop.trips) : Fin 3 → Nat :=
  let c1_i32_248 : BitVec 32 := 1#32
  let c0_i32_65 : BitVec 32 := 0#32
  let c1_i32_67 : BitVec 32 := 1#32
  let arg20 : BitVec 32 := Scf.iv c0_i32_65 c1_i32_67 k0_t12
  let c16_i32_242 : BitVec 32 := 16#32
  let v456 : BitVec 32 := Scalar.muli arg20 c16_i32_242
  let c15_i32 : BitVec 32 := 15#32
  let v457 : BitVec 32 := Scalar.addi v456 c15_i32
  let c0_i32_251 : BitVec 32 := 0#32
  ![1, v457.toNat, 0]

def k0_chk227 (v50 : IVec S16 32) : Prop :=
  (∀ a x, ((![v50] : Fin 1 → IVec S16 32) a x).toNat < S1312.size a)
instance k0_chk227.dec : ∀ (v50 : IVec S16 32), Decidable (k0_chk227 v50) := fun v50 => decidable_of_iff' _ (Iff.of_eq (k0_chk227.eq_1 v50))
theorem k0_idx99_inb : ∀ (v50 : IVec S16 32) (k0_hw227 : k0_chk227 v50), ∀ a x, ((![v50] : Fin 1 → IVec S16 32) a x).toNat < S1312.size a := fun v50 k0_hw227 => k0_hw227

def k0_chk228 (v54 : IVec S16 32) : Prop :=
  (∀ a x, ((![v54] : Fin 1 → IVec S16 32) a x).toNat < S1312.size a)
instance k0_chk228.dec : ∀ (v54 : IVec S16 32), Decidable (k0_chk228 v54) := fun v54 => decidable_of_iff' _ (Iff.of_eq (k0_chk228.eq_1 v54))
theorem k0_idx100_inb : ∀ (v54 : IVec S16 32) (k0_hw228 : k0_chk228 v54), ∀ a x, ((![v54] : Fin 1 → IVec S16 32) a x).toNat < S1312.size a := fun v54 k0_hw228 => k0_hw228

def k0_chk229 (v58 : IVec S16 32) : Prop :=
  (∀ a x, ((![v58] : Fin 1 → IVec S16 32) a x).toNat < S1312.size a)
instance k0_chk229.dec : ∀ (v58 : IVec S16 32), Decidable (k0_chk229 v58) := fun v58 => decidable_of_iff' _ (Iff.of_eq (k0_chk229.eq_1 v58))
theorem k0_idx101_inb : ∀ (v58 : IVec S16 32) (k0_hw229 : k0_chk229 v58), ∀ a x, ((![v58] : Fin 1 → IVec S16 32) a x).toNat < S1312.size a := fun v58 k0_hw229 => k0_hw229

def k0_chk230 (v62 : IVec S16 32) : Prop :=
  (∀ a x, ((![v62] : Fin 1 → IVec S16 32) a x).toNat < S1312.size a)
instance k0_chk230.dec : ∀ (v62 : IVec S16 32), Decidable (k0_chk230 v62) := fun v62 => decidable_of_iff' _ (Iff.of_eq (k0_chk230.eq_1 v62))
theorem k0_idx102_inb : ∀ (v62 : IVec S16 32) (k0_hw230 : k0_chk230 v62), ∀ a x, ((![v62] : Fin 1 → IVec S16 32) a x).toNat < S1312.size a := fun v62 k0_hw230 => k0_hw230

def k0_chk231 (v66 : IVec S16 32) : Prop :=
  (∀ a x, ((![v66] : Fin 1 → IVec S16 32) a x).toNat < S1312.size a)
instance k0_chk231.dec : ∀ (v66 : IVec S16 32), Decidable (k0_chk231 v66) := fun v66 => decidable_of_iff' _ (Iff.of_eq (k0_chk231.eq_1 v66))
theorem k0_idx103_inb : ∀ (v66 : IVec S16 32) (k0_hw231 : k0_chk231 v66), ∀ a x, ((![v66] : Fin 1 → IVec S16 32) a x).toNat < S1312.size a := fun v66 k0_hw231 => k0_hw231

def k0_chk232 (v70 : IVec S16 32) : Prop :=
  (∀ a x, ((![v70] : Fin 1 → IVec S16 32) a x).toNat < S1312.size a)
instance k0_chk232.dec : ∀ (v70 : IVec S16 32), Decidable (k0_chk232 v70) := fun v70 => decidable_of_iff' _ (Iff.of_eq (k0_chk232.eq_1 v70))
theorem k0_idx104_inb : ∀ (v70 : IVec S16 32) (k0_hw232 : k0_chk232 v70), ∀ a x, ((![v70] : Fin 1 → IVec S16 32) a x).toNat < S1312.size a := fun v70 k0_hw232 => k0_hw232

def k0_chk233 (v74 : IVec S16 32) : Prop :=
  (∀ a x, ((![v74] : Fin 1 → IVec S16 32) a x).toNat < S1312.size a)
instance k0_chk233.dec : ∀ (v74 : IVec S16 32), Decidable (k0_chk233 v74) := fun v74 => decidable_of_iff' _ (Iff.of_eq (k0_chk233.eq_1 v74))
theorem k0_idx105_inb : ∀ (v74 : IVec S16 32) (k0_hw233 : k0_chk233 v74), ∀ a x, ((![v74] : Fin 1 → IVec S16 32) a x).toNat < S1312.size a := fun v74 k0_hw233 => k0_hw233

def k0_chk234 (v78 : IVec S16 32) : Prop :=
  (∀ a x, ((![v78] : Fin 1 → IVec S16 32) a x).toNat < S1312.size a)
instance k0_chk234.dec : ∀ (v78 : IVec S16 32), Decidable (k0_chk234 v78) := fun v78 => decidable_of_iff' _ (Iff.of_eq (k0_chk234.eq_1 v78))
theorem k0_idx106_inb : ∀ (v78 : IVec S16 32) (k0_hw234 : k0_chk234 v78), ∀ a x, ((![v78] : Fin 1 → IVec S16 32) a x).toNat < S1312.size a := fun v78 k0_hw234 => k0_hw234

def k0_chk235 (v82 : IVec S16 32) : Prop :=
  (∀ a x, ((![v82] : Fin 1 → IVec S16 32) a x).toNat < S1312.size a)
instance k0_chk235.dec : ∀ (v82 : IVec S16 32), Decidable (k0_chk235 v82) := fun v82 => decidable_of_iff' _ (Iff.of_eq (k0_chk235.eq_1 v82))
theorem k0_idx107_inb : ∀ (v82 : IVec S16 32) (k0_hw235 : k0_chk235 v82), ∀ a x, ((![v82] : Fin 1 → IVec S16 32) a x).toNat < S1312.size a := fun v82 k0_hw235 => k0_hw235

def k0_chk236 (v86 : IVec S16 32) : Prop :=
  (∀ a x, ((![v86] : Fin 1 → IVec S16 32) a x).toNat < S1312.size a)
instance k0_chk236.dec : ∀ (v86 : IVec S16 32), Decidable (k0_chk236 v86) := fun v86 => decidable_of_iff' _ (Iff.of_eq (k0_chk236.eq_1 v86))
theorem k0_idx108_inb : ∀ (v86 : IVec S16 32) (k0_hw236 : k0_chk236 v86), ∀ a x, ((![v86] : Fin 1 → IVec S16 32) a x).toNat < S1312.size a := fun v86 k0_hw236 => k0_hw236

def k0_chk237 (v90 : IVec S16 32) : Prop :=
  (∀ a x, ((![v90] : Fin 1 → IVec S16 32) a x).toNat < S1312.size a)
instance k0_chk237.dec : ∀ (v90 : IVec S16 32), Decidable (k0_chk237 v90) := fun v90 => decidable_of_iff' _ (Iff.of_eq (k0_chk237.eq_1 v90))
theorem k0_idx109_inb : ∀ (v90 : IVec S16 32) (k0_hw237 : k0_chk237 v90), ∀ a x, ((![v90] : Fin 1 → IVec S16 32) a x).toNat < S1312.size a := fun v90 k0_hw237 => k0_hw237
@[reducible] def k0_t13_loop : Scf.Loop 32 :=
  let c0_i32_37 : BitVec 32 := 0#32
  let c32_i32_38 : BitVec 32 := 32#32
  let v92 : BitVec 32 := Scalar.addi c0_i32_37 c32_i32_38
  let c1_i32_39 : BitVec 32 := 1#32
  ⟨c0_i32_37, v92, c1_i32_39⟩
def k0_off304 (k0_t13 : Fin k0_t13_loop.trips) : Fin 2 → Nat :=
  let c0_i32_41 : BitVec 32 := 0#32
  let v94 : Index := Scalar.indexCast c0_i32_41
  let c0_i32_37 : BitVec 32 := 0#32
  let c1_i32_39 : BitVec 32 := 1#32
  let arg19 : BitVec 32 := Scf.iv c0_i32_37 c1_i32_39 k0_t13
  let c16_i32 : BitVec 32 := 16#32
  let v93 : BitVec 32 := Scalar.muli arg19 c16_i32
  let v95 : Index := Scalar.indexCast v93
  ![0, v95.toNat]
def k0_off305 (k0_t13 : Fin k0_t13_loop.trips) : Fin 2 → Nat :=
  let c1_i32_43 : BitVec 32 := 1#32
  let v102 : Index := Scalar.indexCast c1_i32_43
  let c0_i32_37 : BitVec 32 := 0#32
  let c1_i32_39 : BitVec 32 := 1#32
  let arg19 : BitVec 32 := Scf.iv c0_i32_37 c1_i32_39 k0_t13
  let c16_i32_42 : BitVec 32 := 16#32
  let v101 : BitVec 32 := Scalar.muli arg19 c16_i32_42
  let v103 : Index := Scalar.indexCast v101
  ![1, v103.toNat]
def k0_off306 (k0_t13 : Fin k0_t13_loop.trips) : Fin 2 → Nat :=
  let c2_i32_46 : BitVec 32 := 2#32
  let v110 : Index := Scalar.indexCast c2_i32_46
  let c0_i32_37 : BitVec 32 := 0#32
  let c1_i32_39 : BitVec 32 := 1#32
  let arg19 : BitVec 32 := Scf.iv c0_i32_37 c1_i32_39 k0_t13
  let c16_i32_45 : BitVec 32 := 16#32
  let v109 : BitVec 32 := Scalar.muli arg19 c16_i32_45
  let v111 : Index := Scalar.indexCast v109
  ![2, v111.toNat]
def k0_off307 (k0_t13 : Fin k0_t13_loop.trips) : Fin 2 → Nat :=
  let c3_i32 : BitVec 32 := 3#32
  let v118 : Index := Scalar.indexCast c3_i32
  let c0_i32_37 : BitVec 32 := 0#32
  let c1_i32_39 : BitVec 32 := 1#32
  let arg19 : BitVec 32 := Scf.iv c0_i32_37 c1_i32_39 k0_t13
  let c16_i32_48 : BitVec 32 := 16#32
  let v117 : BitVec 32 := Scalar.muli arg19 c16_i32_48
  let v119 : Index := Scalar.indexCast v117
  ![3, v119.toNat]
def k0_off308 (k0_t13 : Fin k0_t13_loop.trips) : Fin 2 → Nat :=
  let c4_i32_51 : BitVec 32 := 4#32
  let v126 : Index := Scalar.indexCast c4_i32_51
  let c0_i32_37 : BitVec 32 := 0#32
  let c1_i32_39 : BitVec 32 := 1#32
  let arg19 : BitVec 32 := Scf.iv c0_i32_37 c1_i32_39 k0_t13
  let c16_i32_50 : BitVec 32 := 16#32
  let v125 : BitVec 32 := Scalar.muli arg19 c16_i32_50
  let v127 : Index := Scalar.indexCast v125
  ![4, v127.toNat]
def k0_off309 (k0_t13 : Fin k0_t13_loop.trips) : Fin 2 → Nat :=
  let c5_i32 : BitVec 32 := 5#32
  let v134 : Index := Scalar.indexCast c5_i32
  let c0_i32_37 : BitVec 32 := 0#32
  let c1_i32_39 : BitVec 32 := 1#32
  let arg19 : BitVec 32 := Scf.iv c0_i32_37 c1_i32_39 k0_t13
  let c16_i32_53 : BitVec 32 := 16#32
  let v133 : BitVec 32 := Scalar.muli arg19 c16_i32_53
  let v135 : Index := Scalar.indexCast v133
  ![5, v135.toNat]
def k0_off310 (k0_t13 : Fin k0_t13_loop.trips) : Fin 2 → Nat :=
  let c6_i32 : BitVec 32 := 6#32
  let v142 : Index := Scalar.indexCast c6_i32
  let c0_i32_37 : BitVec 32 := 0#32
  let c1_i32_39 : BitVec 32 := 1#32
  let arg19 : BitVec 32 := Scf.iv c0_i32_37 c1_i32_39 k0_t13
  let c16_i32_55 : BitVec 32 := 16#32
  let v141 : BitVec 32 := Scalar.muli arg19 c16_i32_55
  let v143 : Index := Scalar.indexCast v141
  ![6, v143.toNat]
def k0_off311 (k0_t13 : Fin k0_t13_loop.trips) : Fin 2 → Nat :=
  let c7_i32 : BitVec 32 := 7#32
  let v150 : Index := Scalar.indexCast c7_i32
  let c0_i32_37 : BitVec 32 := 0#32
  let c1_i32_39 : BitVec 32 := 1#32
  let arg19 : BitVec 32 := Scf.iv c0_i32_37 c1_i32_39 k0_t13
  let c16_i32_57 : BitVec 32 := 16#32
  let v149 : BitVec 32 := Scalar.muli arg19 c16_i32_57
  let v151 : Index := Scalar.indexCast v149
  ![7, v151.toNat]
def k0_off312 (k0_t13 : Fin k0_t13_loop.trips) : Fin 2 → Nat :=
  let c8_i32_60 : BitVec 32 := 8#32
  let v158 : Index := Scalar.indexCast c8_i32_60
  let c0_i32_37 : BitVec 32 := 0#32
  let c1_i32_39 : BitVec 32 := 1#32
  let arg19 : BitVec 32 := Scf.iv c0_i32_37 c1_i32_39 k0_t13
  let c16_i32_59 : BitVec 32 := 16#32
  let v157 : BitVec 32 := Scalar.muli arg19 c16_i32_59
  let v159 : Index := Scalar.indexCast v157
  ![8, v159.toNat]
def k0_off313 (k0_t13 : Fin k0_t13_loop.trips) : Fin 2 → Nat :=
  let c9_i32 : BitVec 32 := 9#32
  let v166 : Index := Scalar.indexCast c9_i32
  let c0_i32_37 : BitVec 32 := 0#32
  let c1_i32_39 : BitVec 32 := 1#32
  let arg19 : BitVec 32 := Scf.iv c0_i32_37 c1_i32_39 k0_t13
  let c16_i32_62 : BitVec 32 := 16#32
  let v165 : BitVec 32 := Scalar.muli arg19 c16_i32_62
  let v167 : Index := Scalar.indexCast v165
  ![9, v167.toNat]
def k0_off314 (k0_t13 : Fin k0_t13_loop.trips) : Fin 1 → Nat :=
  let c0_i32_37 : BitVec 32 := 0#32
  let c1_i32_39 : BitVec 32 := 1#32
  let arg19 : BitVec 32 := Scf.iv c0_i32_37 c1_i32_39 k0_t13
  let c16_i32_64 : BitVec 32 := 16#32
  let v173 : BitVec 32 := Scalar.muli arg19 c16_i32_64
  let v174 : Index := Scalar.indexCast v173
  ![v174.toNat]
def k0_off315 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128x10_S1280 : S128x10.ShapeCasts S1280
  shapeCasts_S10x1_S10 : S10x1.ShapeCasts S10
  bcast_S_S11 : S_.BroadcastsInDim S11 (![] : Fin 0 → Fin S11.rank)
  concatenates_S1280_S10_S10_S1_S11_S1312_d0 : Shape.Concatenates [S1280, S10, S10, S1, S11] S1312 0
  iota_S16_d0_w32_scVector : S16.Iotas .scVector 32 [0]
  h_S1312 : 0 < S1312.numel
  h_S1x16 : 0 < S1x16.numel
  shapeCasts_S1x16_S16 : S1x16.ShapeCasts S16
  shapeCasts_S16_S1x16 : S16.ShapeCasts S1x16
  h_S16 : 0 < S16.numel
  slices_S16_o0_S1 : S16.Slices ![0] S1
  inpos_S1_p0 : ∀ a, (![0] : Fin 1 → Nat) a < S1.size a
  squeezes_S1x1x64_S64 : S1x1x64.Squeezes S64
  squeezes_S1x64_S64 : S1x64.Squeezes S64
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S2x128x64_S1x1x64_0_0_0 : ∀ a, (![0, 0, 0] : Fin 3 → Nat) a + S1x1x64.size a ≤ S2x128x64.size a
  inb_S1000000x64_S1x64_0_0 : ∀ a, (![0, 0] : Fin 2 → Nat) a + S1x64.size a ≤ S1000000x64.size a
  inb_S100000x64_S1x64_0_0 : ∀ a, (![0, 0] : Fin 2 → Nat) a + S1x64.size a ≤ S100000x64.size a
  squeezes_S1x128x64_S128x64 : S1x128x64.Squeezes S128x64
  h_S128x64 : 0 < S128x64.numel
  shapeCasts_S16384_S16384x1 : S16384.ShapeCasts S16384x1
  hcc0_scratch7 : 0 + S_.numel ≤ 8
  hcc0_scratch8 : 1 + S_.numel ≤ 8
  hcc0_scratch9 : 2 + S_.numel ≤ 8
  hcc0_scratch10 : 3 + S_.numel ≤ 8
  hcc0_scoped0 : 4 + S_.numel ≤ 8
  hcc0_scoped1 : 5 + S_.numel ≤ 8
  hcc0_scoped2 : 6 + S_.numel ≤ 8
  hcc0_scoped3 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S1x16.size a ≤ S10x512.size a
  k0_off3_inb : ∀ k0_t1 : Fin k0_t1_loop.trips, ∀ a, (k0_off3 k0_t1) a + S1x16.size a ≤ S10x512.size a
  k0_off4_inb : ∀ k0_t1 : Fin k0_t1_loop.trips, ∀ a, (k0_off4 k0_t1) a + S1x16.size a ≤ S10x512.size a
  k0_off5_inb : ∀ k0_t1 : Fin k0_t1_loop.trips, ∀ a, (k0_off5 k0_t1) a + S1x16.size a ≤ S10x512.size a
  k0_off6_inb : ∀ k0_t1 : Fin k0_t1_loop.trips, ∀ a, (k0_off6 k0_t1) a + S1x16.size a ≤ S10x512.size a
  k0_off7_inb : ∀ k0_t1 : Fin k0_t1_loop.trips, ∀ a, (k0_off7 k0_t1) a + S1x16.size a ≤ S10x512.size a
  k0_off8_inb : ∀ k0_t1 : Fin k0_t1_loop.trips, ∀ a, (k0_off8 k0_t1) a + S1x16.size a ≤ S10x512.size a
  k0_off9_inb : ∀ k0_t1 : Fin k0_t1_loop.trips, ∀ a, (k0_off9 k0_t1) a + S1x16.size a ≤ S10x512.size a
  k0_off10_inb : ∀ k0_t1 : Fin k0_t1_loop.trips, ∀ a, (k0_off10 k0_t1) a + S1x16.size a ≤ S10x512.size a
  k0_off11_inb : ∀ k0_t1 : Fin k0_t1_loop.trips, ∀ a, (k0_off11 k0_t1) a + S1x16.size a ≤ S10x512.size a
  k0_t2_ok : k0_t2_loop.OK
  k0_off12_inb : ∀ k0_t2 : Fin k0_t2_loop.trips, ∀ a, (k0_off12 k0_t2) a + S16.size a ≤ S512.size a
  k0_off13_inb : ∀ k0_t2 : Fin k0_t2_loop.trips, ∀ a, (k0_off13 k0_t2) a + S1x1x64.size a ≤ S2x128x64.size a
  k0_off15_inb : ∀ k0_t2 : Fin k0_t2_loop.trips, ∀ a, (k0_off15 k0_t2) a + S1x1x64.size a ≤ S2x128x64.size a
  k0_off17_inb : ∀ k0_t2 : Fin k0_t2_loop.trips, ∀ (r : Fin 2), ∀ a, (k0_off17 k0_t2 (BitVec.ofNat 32 r.val)) a + S1x1x64.size a ≤ S2x128x64.size a
  k0_off19_inb : ∀ k0_t2 : Fin k0_t2_loop.trips, ∀ a, (k0_off19 k0_t2) a + S1x1x64.size a ≤ S2x128x64.size a
  k0_off21_inb : ∀ k0_t2 : Fin k0_t2_loop.trips, ∀ (r : Fin 2), ∀ a, (k0_off21 k0_t2 (BitVec.ofNat 32 (1 + r.val))) a + S1x1x64.size a ≤ S2x128x64.size a
  k0_off23_inb : ∀ k0_t2 : Fin k0_t2_loop.trips, ∀ a, (k0_off23 k0_t2) a + S1x1x64.size a ≤ S2x128x64.size a
  k0_off25_inb : ∀ k0_t2 : Fin k0_t2_loop.trips, ∀ (r : Fin 2), ∀ a, (k0_off25 k0_t2 (BitVec.ofNat 32 (2 + r.val))) a + S1x1x64.size a ≤ S2x128x64.size a
  k0_off27_inb : ∀ k0_t2 : Fin k0_t2_loop.trips, ∀ a, (k0_off27 k0_t2) a + S1x1x64.size a ≤ S2x128x64.size a
  k0_off29_inb : ∀ k0_t2 : Fin k0_t2_loop.trips, ∀ (r : Fin 2), ∀ a, (k0_off29 k0_t2 (BitVec.ofNat 32 (3 + r.val))) a + S1x1x64.size a ≤ S2x128x64.size a
  k0_off31_inb : ∀ k0_t2 : Fin k0_t2_loop.trips, ∀ a, (k0_off31 k0_t2) a + S1x1x64.size a ≤ S2x128x64.size a
  k0_off33_inb : ∀ k0_t2 : Fin k0_t2_loop.trips, ∀ (r : Fin 2), ∀ a, (k0_off33 k0_t2 (BitVec.ofNat 32 (4 + r.val))) a + S1x1x64.size a ≤ S2x128x64.size a
  k0_off35_inb : ∀ k0_t2 : Fin k0_t2_loop.trips, ∀ a, (k0_off35 k0_t2) a + S1x1x64.size a ≤ S2x128x64.size a
  k0_off37_inb : ∀ k0_t2 : Fin k0_t2_loop.trips, ∀ (r : Fin 2), ∀ a, (k0_off37 k0_t2 (BitVec.ofNat 32 (5 + r.val))) a + S1x1x64.size a ≤ S2x128x64.size a
  k0_off39_inb : ∀ k0_t2 : Fin k0_t2_loop.trips, ∀ a, (k0_off39 k0_t2) a + S1x1x64.size a ≤ S2x128x64.size a
  k0_off41_inb : ∀ k0_t2 : Fin k0_t2_loop.trips, ∀ (r : Fin 2), ∀ a, (k0_off41 k0_t2 (BitVec.ofNat 32 (6 + r.val))) a + S1x1x64.size a ≤ S2x128x64.size a
  k0_off43_inb : ∀ k0_t2 : Fin k0_t2_loop.trips, ∀ a, (k0_off43 k0_t2) a + S1x1x64.size a ≤ S2x128x64.size a
  k0_off45_inb : ∀ k0_t2 : Fin k0_t2_loop.trips, ∀ (r : Fin 2), ∀ a, (k0_off45 k0_t2 (BitVec.ofNat 32 (7 + r.val))) a + S1x1x64.size a ≤ S2x128x64.size a
  k0_off47_inb : ∀ k0_t2 : Fin k0_t2_loop.trips, ∀ a, (k0_off47 k0_t2) a + S1x1x64.size a ≤ S2x128x64.size a
  k0_off49_inb : ∀ k0_t2 : Fin k0_t2_loop.trips, ∀ (r : Fin 2), ∀ a, (k0_off49 k0_t2 (BitVec.ofNat 32 (8 + r.val))) a + S1x1x64.size a ≤ S2x128x64.size a
  k0_off51_inb : ∀ k0_t2 : Fin k0_t2_loop.trips, ∀ a, (k0_off51 k0_t2) a + S1x1x64.size a ≤ S2x128x64.size a
  k0_off53_inb : ∀ k0_t2 : Fin k0_t2_loop.trips, ∀ (r : Fin 2), ∀ a, (k0_off53 k0_t2 (BitVec.ofNat 32 (9 + r.val))) a + S1x1x64.size a ≤ S2x128x64.size a
  k0_off55_inb : ∀ k0_t2 : Fin k0_t2_loop.trips, ∀ a, (k0_off55 k0_t2) a + S1x1x64.size a ≤ S2x128x64.size a
  k0_off57_inb : ∀ k0_t2 : Fin k0_t2_loop.trips, ∀ (r : Fin 2), ∀ a, (k0_off57 k0_t2 (BitVec.ofNat 32 (10 + r.val))) a + S1x1x64.size a ≤ S2x128x64.size a
  k0_off59_inb : ∀ k0_t2 : Fin k0_t2_loop.trips, ∀ a, (k0_off59 k0_t2) a + S1x1x64.size a ≤ S2x128x64.size a
  k0_off61_inb : ∀ k0_t2 : Fin k0_t2_loop.trips, ∀ (r : Fin 2), ∀ a, (k0_off61 k0_t2 (BitVec.ofNat 32 (11 + r.val))) a + S1x1x64.size a ≤ S2x128x64.size a
  k0_off63_inb : ∀ k0_t2 : Fin k0_t2_loop.trips, ∀ a, (k0_off63 k0_t2) a + S1x1x64.size a ≤ S2x128x64.size a
  k0_off65_inb : ∀ k0_t2 : Fin k0_t2_loop.trips, ∀ (r : Fin 2), ∀ a, (k0_off65 k0_t2 (BitVec.ofNat 32 (12 + r.val))) a + S1x1x64.size a ≤ S2x128x64.size a
  k0_off67_inb : ∀ k0_t2 : Fin k0_t2_loop.trips, ∀ a, (k0_off67 k0_t2) a + S1x1x64.size a ≤ S2x128x64.size a
  k0_off69_inb : ∀ k0_t2 : Fin k0_t2_loop.trips, ∀ (r : Fin 2), ∀ a, (k0_off69 k0_t2 (BitVec.ofNat 32 (13 + r.val))) a + S1x1x64.size a ≤ S2x128x64.size a
  k0_off71_inb : ∀ k0_t2 : Fin k0_t2_loop.trips, ∀ a, (k0_off71 k0_t2) a + S1x1x64.size a ≤ S2x128x64.size a
  k0_off73_inb : ∀ k0_t2 : Fin k0_t2_loop.trips, ∀ (r : Fin 2), ∀ a, (k0_off73 k0_t2 (BitVec.ofNat 32 (14 + r.val))) a + S1x1x64.size a ≤ S2x128x64.size a
  k0_off75_inb : ∀ k0_t2 : Fin k0_t2_loop.trips, ∀ a, (k0_off75 k0_t2) a + S1x1x64.size a ≤ S2x128x64.size a
  k0_off77_inb : ∀ k0_t2 : Fin k0_t2_loop.trips, ∀ a, (k0_off77 k0_t2) a + S1x1x64.size a ≤ S2x128x64.size a
  k0_t3_ok : k0_t3_loop.OK
  k0_off78_inb : ∀ k0_t3 : Fin k0_t3_loop.trips, ∀ a, (k0_off78 k0_t3) a + S16.size a ≤ S512.size a
  k0_off79_inb : ∀ k0_t3 : Fin k0_t3_loop.trips, ∀ a, (k0_off79 k0_t3) a + S1x1x64.size a ≤ S2x128x64.size a
  k0_off81_inb : ∀ k0_t3 : Fin k0_t3_loop.trips, ∀ a, (k0_off81 k0_t3) a + S1x1x64.size a ≤ S2x128x64.size a
  k0_off83_inb : ∀ k0_t3 : Fin k0_t3_loop.trips, ∀ (r : Fin 2), ∀ a, (k0_off83 k0_t3 (BitVec.ofNat 32 r.val)) a + S1x1x64.size a ≤ S2x128x64.size a
  k0_off85_inb : ∀ k0_t3 : Fin k0_t3_loop.trips, ∀ a, (k0_off85 k0_t3) a + S1x1x64.size a ≤ S2x128x64.size a
  k0_off87_inb : ∀ k0_t3 : Fin k0_t3_loop.trips, ∀ (r : Fin 2), ∀ a, (k0_off87 k0_t3 (BitVec.ofNat 32 (1 + r.val))) a + S1x1x64.size a ≤ S2x128x64.size a
  k0_off89_inb : ∀ k0_t3 : Fin k0_t3_loop.trips, ∀ a, (k0_off89 k0_t3) a + S1x1x64.size a ≤ S2x128x64.size a
  k0_off91_inb : ∀ k0_t3 : Fin k0_t3_loop.trips, ∀ (r : Fin 2), ∀ a, (k0_off91 k0_t3 (BitVec.ofNat 32 (2 + r.val))) a + S1x1x64.size a ≤ S2x128x64.size a
  k0_off93_inb : ∀ k0_t3 : Fin k0_t3_loop.trips, ∀ a, (k0_off93 k0_t3) a + S1x1x64.size a ≤ S2x128x64.size a
  k0_off95_inb : ∀ k0_t3 : Fin k0_t3_loop.trips, ∀ (r : Fin 2), ∀ a, (k0_off95 k0_t3 (BitVec.ofNat 32 (3 + r.val))) a + S1x1x64.size a ≤ S2x128x64.size a
  k0_off97_inb : ∀ k0_t3 : Fin k0_t3_loop.trips, ∀ a, (k0_off97 k0_t3) a + S1x1x64.size a ≤ S2x128x64.size a
  k0_off99_inb : ∀ k0_t3 : Fin k0_t3_loop.trips, ∀ (r : Fin 2), ∀ a, (k0_off99 k0_t3 (BitVec.ofNat 32 (4 + r.val))) a + S1x1x64.size a ≤ S2x128x64.size a
  k0_off101_inb : ∀ k0_t3 : Fin k0_t3_loop.trips, ∀ a, (k0_off101 k0_t3) a + S1x1x64.size a ≤ S2x128x64.size a
  k0_off103_inb : ∀ k0_t3 : Fin k0_t3_loop.trips, ∀ (r : Fin 2), ∀ a, (k0_off103 k0_t3 (BitVec.ofNat 32 (5 + r.val))) a + S1x1x64.size a ≤ S2x128x64.size a
  k0_off105_inb : ∀ k0_t3 : Fin k0_t3_loop.trips, ∀ a, (k0_off105 k0_t3) a + S1x1x64.size a ≤ S2x128x64.size a
  k0_off107_inb : ∀ k0_t3 : Fin k0_t3_loop.trips, ∀ (r : Fin 2), ∀ a, (k0_off107 k0_t3 (BitVec.ofNat 32 (6 + r.val))) a + S1x1x64.size a ≤ S2x128x64.size a
  k0_off109_inb : ∀ k0_t3 : Fin k0_t3_loop.trips, ∀ a, (k0_off109 k0_t3) a + S1x1x64.size a ≤ S2x128x64.size a
  k0_off111_inb : ∀ k0_t3 : Fin k0_t3_loop.trips, ∀ (r : Fin 2), ∀ a, (k0_off111 k0_t3 (BitVec.ofNat 32 (7 + r.val))) a + S1x1x64.size a ≤ S2x128x64.size a
  k0_off113_inb : ∀ k0_t3 : Fin k0_t3_loop.trips, ∀ a, (k0_off113 k0_t3) a + S1x1x64.size a ≤ S2x128x64.size a
  k0_off115_inb : ∀ k0_t3 : Fin k0_t3_loop.trips, ∀ (r : Fin 2), ∀ a, (k0_off115 k0_t3 (BitVec.ofNat 32 (8 + r.val))) a + S1x1x64.size a ≤ S2x128x64.size a
  k0_off117_inb : ∀ k0_t3 : Fin k0_t3_loop.trips, ∀ a, (k0_off117 k0_t3) a + S1x1x64.size a ≤ S2x128x64.size a
  k0_off119_inb : ∀ k0_t3 : Fin k0_t3_loop.trips, ∀ (r : Fin 2), ∀ a, (k0_off119 k0_t3 (BitVec.ofNat 32 (9 + r.val))) a + S1x1x64.size a ≤ S2x128x64.size a
  k0_off121_inb : ∀ k0_t3 : Fin k0_t3_loop.trips, ∀ a, (k0_off121 k0_t3) a + S1x1x64.size a ≤ S2x128x64.size a
  k0_off123_inb : ∀ k0_t3 : Fin k0_t3_loop.trips, ∀ (r : Fin 2), ∀ a, (k0_off123 k0_t3 (BitVec.ofNat 32 (10 + r.val))) a + S1x1x64.size a ≤ S2x128x64.size a
  k0_off125_inb : ∀ k0_t3 : Fin k0_t3_loop.trips, ∀ a, (k0_off125 k0_t3) a + S1x1x64.size a ≤ S2x128x64.size a
  k0_off127_inb : ∀ k0_t3 : Fin k0_t3_loop.trips, ∀ (r : Fin 2), ∀ a, (k0_off127 k0_t3 (BitVec.ofNat 32 (11 + r.val))) a + S1x1x64.size a ≤ S2x128x64.size a
  k0_off129_inb : ∀ k0_t3 : Fin k0_t3_loop.trips, ∀ a, (k0_off129 k0_t3) a + S1x1x64.size a ≤ S2x128x64.size a
  k0_off131_inb : ∀ k0_t3 : Fin k0_t3_loop.trips, ∀ (r : Fin 2), ∀ a, (k0_off131 k0_t3 (BitVec.ofNat 32 (12 + r.val))) a + S1x1x64.size a ≤ S2x128x64.size a
  k0_off133_inb : ∀ k0_t3 : Fin k0_t3_loop.trips, ∀ a, (k0_off133 k0_t3) a + S1x1x64.size a ≤ S2x128x64.size a
  k0_off135_inb : ∀ k0_t3 : Fin k0_t3_loop.trips, ∀ (r : Fin 2), ∀ a, (k0_off135 k0_t3 (BitVec.ofNat 32 (13 + r.val))) a + S1x1x64.size a ≤ S2x128x64.size a
  k0_off137_inb : ∀ k0_t3 : Fin k0_t3_loop.trips, ∀ a, (k0_off137 k0_t3) a + S1x1x64.size a ≤ S2x128x64.size a
  k0_off139_inb : ∀ k0_t3 : Fin k0_t3_loop.trips, ∀ (r : Fin 2), ∀ a, (k0_off139 k0_t3 (BitVec.ofNat 32 (14 + r.val))) a + S1x1x64.size a ≤ S2x128x64.size a
  k0_off141_inb : ∀ k0_t3 : Fin k0_t3_loop.trips, ∀ a, (k0_off141 k0_t3) a + S1x1x64.size a ≤ S2x128x64.size a
  k0_off143_inb : ∀ k0_t3 : Fin k0_t3_loop.trips, ∀ a, (k0_off143 k0_t3) a + S1x1x64.size a ≤ S2x128x64.size a
  k0_t4_ok : k0_t4_loop.OK
  k0_t5_ok : ∀ k0_t4 : Fin k0_t4_loop.trips, ∀ (k0_h1 : k0_cond1 k0_t4 = 1#1), k0_t5_loop.OK
  k0_t6_ok : ∀ k0_t4 : Fin k0_t4_loop.trips, ∀ (k0_h2 : k0_cond2 k0_t4 = 1#1), k0_t6_loop.OK
  k0_t7_ok : k0_t7_loop.OK
  k0_t8_ok : k0_t8_loop.OK
  k0_off144_inb : ∀ k0_t4 : Fin k0_t4_loop.trips, ∀ a, (k0_off144 k0_t4) a + S1x128x64.size a ≤ S2x128x64.size a
  k0_off145_inb : ∀ k0_t4 : Fin k0_t4_loop.trips, ∀ a, (k0_off145 k0_t4) a + S1x128x64.size a ≤ S2x128x64.size a
  k0_off146_inb : ∀ k0_t4 : Fin k0_t4_loop.trips, ∀ a, (k0_off146 k0_t4) a + S1x128x64.size a ≤ S2x128x64.size a
  k0_off147_inb : ∀ k0_t4 : Fin k0_t4_loop.trips, ∀ a, (k0_off147 k0_t4) a + S1x128x64.size a ≤ S2x128x64.size a
  k0_off148_inb : ∀ (k0_t4 : Fin k0_t4_loop.trips) (k0_t8 : Fin k0_t8_loop.trips), ∀ a, (k0_off148 k0_t4 k0_t8) a + S1x16.size a ≤ S10x512.size a
  k0_off149_inb : ∀ (k0_t4 : Fin k0_t4_loop.trips) (k0_t8 : Fin k0_t8_loop.trips), ∀ a, (k0_off149 k0_t4 k0_t8) a + S1x16.size a ≤ S10x512.size a
  k0_off150_inb : ∀ (k0_t4 : Fin k0_t4_loop.trips) (k0_t8 : Fin k0_t8_loop.trips), ∀ a, (k0_off150 k0_t4 k0_t8) a + S1x16.size a ≤ S10x512.size a
  k0_off151_inb : ∀ (k0_t4 : Fin k0_t4_loop.trips) (k0_t8 : Fin k0_t8_loop.trips), ∀ a, (k0_off151 k0_t4 k0_t8) a + S1x16.size a ≤ S10x512.size a
  k0_off152_inb : ∀ (k0_t4 : Fin k0_t4_loop.trips) (k0_t8 : Fin k0_t8_loop.trips), ∀ a, (k0_off152 k0_t4 k0_t8) a + S1x16.size a ≤ S10x512.size a
  k0_off153_inb : ∀ (k0_t4 : Fin k0_t4_loop.trips) (k0_t8 : Fin k0_t8_loop.trips), ∀ a, (k0_off153 k0_t4 k0_t8) a + S1x16.size a ≤ S10x512.size a
  k0_off154_inb : ∀ (k0_t4 : Fin k0_t4_loop.trips) (k0_t8 : Fin k0_t8_loop.trips), ∀ a, (k0_off154 k0_t4 k0_t8) a + S1x16.size a ≤ S10x512.size a
  k0_off155_inb : ∀ (k0_t4 : Fin k0_t4_loop.trips) (k0_t8 : Fin k0_t8_loop.trips), ∀ a, (k0_off155 k0_t4 k0_t8) a + S1x16.size a ≤ S10x512.size a
  k0_off156_inb : ∀ (k0_t4 : Fin k0_t4_loop.trips) (k0_t8 : Fin k0_t8_loop.trips), ∀ a, (k0_off156 k0_t4 k0_t8) a + S1x16.size a ≤ S10x512.size a
  k0_off157_inb : ∀ (k0_t4 : Fin k0_t4_loop.trips) (k0_t8 : Fin k0_t8_loop.trips), ∀ a, (k0_off157 k0_t4 k0_t8) a + S1x16.size a ≤ S10x512.size a
  k0_t9_ok : k0_t9_loop.OK
  k0_t10_ok : k0_t10_loop.OK
  k0_off158_inb : ∀ k0_t4 : Fin k0_t4_loop.trips, ∀ a, (k0_off158 k0_t4) a + S1x128x64.size a ≤ S2x128x64.size a
  k0_off159_inb : ∀ k0_t4 : Fin k0_t4_loop.trips, ∀ a, (k0_off159 k0_t4) a + S1x128x64.size a ≤ S2x128x64.size a
  k0_off160_inb : ∀ k0_t4 : Fin k0_t4_loop.trips, ∀ a, (k0_off160 k0_t4) a + S1x128x64.size a ≤ S2x128x64.size a
  k0_off161_inb : ∀ k0_t4 : Fin k0_t4_loop.trips, ∀ a, (k0_off161 k0_t4) a + S1x128x64.size a ≤ S2x128x64.size a
  k0_off162_inb : ∀ (k0_t4 : Fin k0_t4_loop.trips) (k0_t10 : Fin k0_t10_loop.trips), ∀ a, (k0_off162 k0_t4 k0_t10) a + S1x16.size a ≤ S10x512.size a
  k0_off163_inb : ∀ (k0_t4 : Fin k0_t4_loop.trips) (k0_t10 : Fin k0_t10_loop.trips), ∀ a, (k0_off163 k0_t4 k0_t10) a + S1x16.size a ≤ S10x512.size a
  k0_off164_inb : ∀ (k0_t4 : Fin k0_t4_loop.trips) (k0_t10 : Fin k0_t10_loop.trips), ∀ a, (k0_off164 k0_t4 k0_t10) a + S1x16.size a ≤ S10x512.size a
  k0_off165_inb : ∀ (k0_t4 : Fin k0_t4_loop.trips) (k0_t10 : Fin k0_t10_loop.trips), ∀ a, (k0_off165 k0_t4 k0_t10) a + S1x16.size a ≤ S10x512.size a
  k0_off166_inb : ∀ (k0_t4 : Fin k0_t4_loop.trips) (k0_t10 : Fin k0_t10_loop.trips), ∀ a, (k0_off166 k0_t4 k0_t10) a + S1x16.size a ≤ S10x512.size a
  k0_off167_inb : ∀ (k0_t4 : Fin k0_t4_loop.trips) (k0_t10 : Fin k0_t10_loop.trips), ∀ a, (k0_off167 k0_t4 k0_t10) a + S1x16.size a ≤ S10x512.size a
  k0_off168_inb : ∀ (k0_t4 : Fin k0_t4_loop.trips) (k0_t10 : Fin k0_t10_loop.trips), ∀ a, (k0_off168 k0_t4 k0_t10) a + S1x16.size a ≤ S10x512.size a
  k0_off169_inb : ∀ (k0_t4 : Fin k0_t4_loop.trips) (k0_t10 : Fin k0_t10_loop.trips), ∀ a, (k0_off169 k0_t4 k0_t10) a + S1x16.size a ≤ S10x512.size a
  k0_off170_inb : ∀ (k0_t4 : Fin k0_t4_loop.trips) (k0_t10 : Fin k0_t10_loop.trips), ∀ a, (k0_off170 k0_t4 k0_t10) a + S1x16.size a ≤ S10x512.size a
  k0_off171_inb : ∀ (k0_t4 : Fin k0_t4_loop.trips) (k0_t10 : Fin k0_t10_loop.trips), ∀ a, (k0_off171 k0_t4 k0_t10) a + S1x16.size a ≤ S10x512.size a
  k0_t11_ok : ∀ k0_t4 : Fin k0_t4_loop.trips, ∀ (k0_h3 : k0_cond3 k0_t4 = 1#1), k0_t11_loop.OK
  k0_off172_inb : ∀ (k0_t4 : Fin k0_t4_loop.trips) (k0_t11 : Fin k0_t11_loop.trips), ∀ (k0_h3 : k0_cond3 k0_t4 = 1#1), ∀ a, (k0_off172 k0_t4 k0_t11) a + S16.size a ≤ S512.size a
  k0_off173_inb : ∀ (k0_t4 : Fin k0_t4_loop.trips) (k0_t11 : Fin k0_t11_loop.trips), ∀ (k0_h3 : k0_cond3 k0_t4 = 1#1), ∀ a, (k0_off173 k0_t11) a + S1x1x64.size a ≤ S2x128x64.size a
  k0_off175_inb : ∀ (k0_t4 : Fin k0_t4_loop.trips) (k0_t11 : Fin k0_t11_loop.trips), ∀ (k0_h3 : k0_cond3 k0_t4 = 1#1), ∀ a, (k0_off175 k0_t11) a + S1x1x64.size a ≤ S2x128x64.size a
  k0_off177_inb : ∀ (k0_t4 : Fin k0_t4_loop.trips) (k0_t11 : Fin k0_t11_loop.trips), ∀ (k0_h3 : k0_cond3 k0_t4 = 1#1), ∀ (r : Fin 2), ∀ a, (k0_off177 k0_t11 (BitVec.ofNat 32 r.val)) a + S1x1x64.size a ≤ S2x128x64.size a
  k0_off179_inb : ∀ (k0_t4 : Fin k0_t4_loop.trips) (k0_t11 : Fin k0_t11_loop.trips), ∀ (k0_h3 : k0_cond3 k0_t4 = 1#1), ∀ a, (k0_off179 k0_t11) a + S1x1x64.size a ≤ S2x128x64.size a
  k0_off181_inb : ∀ (k0_t4 : Fin k0_t4_loop.trips) (k0_t11 : Fin k0_t11_loop.trips), ∀ (k0_h3 : k0_cond3 k0_t4 = 1#1), ∀ (r : Fin 2), ∀ a, (k0_off181 k0_t11 (BitVec.ofNat 32 (1 + r.val))) a + S1x1x64.size a ≤ S2x128x64.size a
  k0_off183_inb : ∀ (k0_t4 : Fin k0_t4_loop.trips) (k0_t11 : Fin k0_t11_loop.trips), ∀ (k0_h3 : k0_cond3 k0_t4 = 1#1), ∀ a, (k0_off183 k0_t11) a + S1x1x64.size a ≤ S2x128x64.size a
  k0_off185_inb : ∀ (k0_t4 : Fin k0_t4_loop.trips) (k0_t11 : Fin k0_t11_loop.trips), ∀ (k0_h3 : k0_cond3 k0_t4 = 1#1), ∀ (r : Fin 2), ∀ a, (k0_off185 k0_t11 (BitVec.ofNat 32 (2 + r.val))) a + S1x1x64.size a ≤ S2x128x64.size a
  k0_off187_inb : ∀ (k0_t4 : Fin k0_t4_loop.trips) (k0_t11 : Fin k0_t11_loop.trips), ∀ (k0_h3 : k0_cond3 k0_t4 = 1#1), ∀ a, (k0_off187 k0_t11) a + S1x1x64.size a ≤ S2x128x64.size a
  k0_off189_inb : ∀ (k0_t4 : Fin k0_t4_loop.trips) (k0_t11 : Fin k0_t11_loop.trips), ∀ (k0_h3 : k0_cond3 k0_t4 = 1#1), ∀ (r : Fin 2), ∀ a, (k0_off189 k0_t11 (BitVec.ofNat 32 (3 + r.val))) a + S1x1x64.size a ≤ S2x128x64.size a
  k0_off191_inb : ∀ (k0_t4 : Fin k0_t4_loop.trips) (k0_t11 : Fin k0_t11_loop.trips), ∀ (k0_h3 : k0_cond3 k0_t4 = 1#1), ∀ a, (k0_off191 k0_t11) a + S1x1x64.size a ≤ S2x128x64.size a
  k0_off193_inb : ∀ (k0_t4 : Fin k0_t4_loop.trips) (k0_t11 : Fin k0_t11_loop.trips), ∀ (k0_h3 : k0_cond3 k0_t4 = 1#1), ∀ (r : Fin 2), ∀ a, (k0_off193 k0_t11 (BitVec.ofNat 32 (4 + r.val))) a + S1x1x64.size a ≤ S2x128x64.size a
  k0_off195_inb : ∀ (k0_t4 : Fin k0_t4_loop.trips) (k0_t11 : Fin k0_t11_loop.trips), ∀ (k0_h3 : k0_cond3 k0_t4 = 1#1), ∀ a, (k0_off195 k0_t11) a + S1x1x64.size a ≤ S2x128x64.size a
  k0_off197_inb : ∀ (k0_t4 : Fin k0_t4_loop.trips) (k0_t11 : Fin k0_t11_loop.trips), ∀ (k0_h3 : k0_cond3 k0_t4 = 1#1), ∀ (r : Fin 2), ∀ a, (k0_off197 k0_t11 (BitVec.ofNat 32 (5 + r.val))) a + S1x1x64.size a ≤ S2x128x64.size a
  k0_off199_inb : ∀ (k0_t4 : Fin k0_t4_loop.trips) (k0_t11 : Fin k0_t11_loop.trips), ∀ (k0_h3 : k0_cond3 k0_t4 = 1#1), ∀ a, (k0_off199 k0_t11) a + S1x1x64.size a ≤ S2x128x64.size a
  k0_off201_inb : ∀ (k0_t4 : Fin k0_t4_loop.trips) (k0_t11 : Fin k0_t11_loop.trips), ∀ (k0_h3 : k0_cond3 k0_t4 = 1#1), ∀ (r : Fin 2), ∀ a, (k0_off201 k0_t11 (BitVec.ofNat 32 (6 + r.val))) a + S1x1x64.size a ≤ S2x128x64.size a
  k0_off203_inb : ∀ (k0_t4 : Fin k0_t4_loop.trips) (k0_t11 : Fin k0_t11_loop.trips), ∀ (k0_h3 : k0_cond3 k0_t4 = 1#1), ∀ a, (k0_off203 k0_t11) a + S1x1x64.size a ≤ S2x128x64.size a
  k0_off205_inb : ∀ (k0_t4 : Fin k0_t4_loop.trips) (k0_t11 : Fin k0_t11_loop.trips), ∀ (k0_h3 : k0_cond3 k0_t4 = 1#1), ∀ (r : Fin 2), ∀ a, (k0_off205 k0_t11 (BitVec.ofNat 32 (7 + r.val))) a + S1x1x64.size a ≤ S2x128x64.size a
  k0_off207_inb : ∀ (k0_t4 : Fin k0_t4_loop.trips) (k0_t11 : Fin k0_t11_loop.trips), ∀ (k0_h3 : k0_cond3 k0_t4 = 1#1), ∀ a, (k0_off207 k0_t11) a + S1x1x64.size a ≤ S2x128x64.size a
  k0_off209_inb : ∀ (k0_t4 : Fin k0_t4_loop.trips) (k0_t11 : Fin k0_t11_loop.trips), ∀ (k0_h3 : k0_cond3 k0_t4 = 1#1), ∀ (r : Fin 2), ∀ a, (k0_off209 k0_t11 (BitVec.ofNat 32 (8 + r.val))) a + S1x1x64.size a ≤ S2x128x64.size a
  k0_off211_inb : ∀ (k0_t4 : Fin k0_t4_loop.trips) (k0_t11 : Fin k0_t11_loop.trips), ∀ (k0_h3 : k0_cond3 k0_t4 = 1#1), ∀ a, (k0_off211 k0_t11) a + S1x1x64.size a ≤ S2x128x64.size a
  k0_off213_inb : ∀ (k0_t4 : Fin k0_t4_loop.trips) (k0_t11 : Fin k0_t11_loop.trips), ∀ (k0_h3 : k0_cond3 k0_t4 = 1#1), ∀ (r : Fin 2), ∀ a, (k0_off213 k0_t11 (BitVec.ofNat 32 (9 + r.val))) a + S1x1x64.size a ≤ S2x128x64.size a
  k0_off215_inb : ∀ (k0_t4 : Fin k0_t4_loop.trips) (k0_t11 : Fin k0_t11_loop.trips), ∀ (k0_h3 : k0_cond3 k0_t4 = 1#1), ∀ a, (k0_off215 k0_t11) a + S1x1x64.size a ≤ S2x128x64.size a
  k0_off217_inb : ∀ (k0_t4 : Fin k0_t4_loop.trips) (k0_t11 : Fin k0_t11_loop.trips), ∀ (k0_h3 : k0_cond3 k0_t4 = 1#1), ∀ (r : Fin 2), ∀ a, (k0_off217 k0_t11 (BitVec.ofNat 32 (10 + r.val))) a + S1x1x64.size a ≤ S2x128x64.size a
  k0_off219_inb : ∀ (k0_t4 : Fin k0_t4_loop.trips) (k0_t11 : Fin k0_t11_loop.trips), ∀ (k0_h3 : k0_cond3 k0_t4 = 1#1), ∀ a, (k0_off219 k0_t11) a + S1x1x64.size a ≤ S2x128x64.size a
  k0_off221_inb : ∀ (k0_t4 : Fin k0_t4_loop.trips) (k0_t11 : Fin k0_t11_loop.trips), ∀ (k0_h3 : k0_cond3 k0_t4 = 1#1), ∀ (r : Fin 2), ∀ a, (k0_off221 k0_t11 (BitVec.ofNat 32 (11 + r.val))) a + S1x1x64.size a ≤ S2x128x64.size a
  k0_off223_inb : ∀ (k0_t4 : Fin k0_t4_loop.trips) (k0_t11 : Fin k0_t11_loop.trips), ∀ (k0_h3 : k0_cond3 k0_t4 = 1#1), ∀ a, (k0_off223 k0_t11) a + S1x1x64.size a ≤ S2x128x64.size a
  k0_off225_inb : ∀ (k0_t4 : Fin k0_t4_loop.trips) (k0_t11 : Fin k0_t11_loop.trips), ∀ (k0_h3 : k0_cond3 k0_t4 = 1#1), ∀ (r : Fin 2), ∀ a, (k0_off225 k0_t11 (BitVec.ofNat 32 (12 + r.val))) a + S1x1x64.size a ≤ S2x128x64.size a
  k0_off227_inb : ∀ (k0_t4 : Fin k0_t4_loop.trips) (k0_t11 : Fin k0_t11_loop.trips), ∀ (k0_h3 : k0_cond3 k0_t4 = 1#1), ∀ a, (k0_off227 k0_t11) a + S1x1x64.size a ≤ S2x128x64.size a
  k0_off229_inb : ∀ (k0_t4 : Fin k0_t4_loop.trips) (k0_t11 : Fin k0_t11_loop.trips), ∀ (k0_h3 : k0_cond3 k0_t4 = 1#1), ∀ (r : Fin 2), ∀ a, (k0_off229 k0_t11 (BitVec.ofNat 32 (13 + r.val))) a + S1x1x64.size a ≤ S2x128x64.size a
  k0_off231_inb : ∀ (k0_t4 : Fin k0_t4_loop.trips) (k0_t11 : Fin k0_t11_loop.trips), ∀ (k0_h3 : k0_cond3 k0_t4 = 1#1), ∀ a, (k0_off231 k0_t11) a + S1x1x64.size a ≤ S2x128x64.size a
  k0_off233_inb : ∀ (k0_t4 : Fin k0_t4_loop.trips) (k0_t11 : Fin k0_t11_loop.trips), ∀ (k0_h3 : k0_cond3 k0_t4 = 1#1), ∀ (r : Fin 2), ∀ a, (k0_off233 k0_t11 (BitVec.ofNat 32 (14 + r.val))) a + S1x1x64.size a ≤ S2x128x64.size a
  k0_off235_inb : ∀ (k0_t4 : Fin k0_t4_loop.trips) (k0_t11 : Fin k0_t11_loop.trips), ∀ (k0_h3 : k0_cond3 k0_t4 = 1#1), ∀ a, (k0_off235 k0_t11) a + S1x1x64.size a ≤ S2x128x64.size a
  k0_off237_inb : ∀ (k0_t4 : Fin k0_t4_loop.trips) (k0_t11 : Fin k0_t11_loop.trips), ∀ (k0_h3 : k0_cond3 k0_t4 = 1#1), ∀ a, (k0_off237 k0_t11) a + S1x1x64.size a ≤ S2x128x64.size a
  k0_t12_ok : ∀ k0_t4 : Fin k0_t4_loop.trips, ∀ (k0_h4 : k0_cond4 k0_t4 = 1#1), k0_t12_loop.OK
  k0_off238_inb : ∀ (k0_t4 : Fin k0_t4_loop.trips) (k0_t12 : Fin k0_t12_loop.trips), ∀ (k0_h4 : k0_cond4 k0_t4 = 1#1), ∀ a, (k0_off238 k0_t4 k0_t12) a + S16.size a ≤ S512.size a
  k0_off239_inb : ∀ (k0_t4 : Fin k0_t4_loop.trips) (k0_t12 : Fin k0_t12_loop.trips), ∀ (k0_h4 : k0_cond4 k0_t4 = 1#1), ∀ a, (k0_off239 k0_t12) a + S1x1x64.size a ≤ S2x128x64.size a
  k0_off241_inb : ∀ (k0_t4 : Fin k0_t4_loop.trips) (k0_t12 : Fin k0_t12_loop.trips), ∀ (k0_h4 : k0_cond4 k0_t4 = 1#1), ∀ a, (k0_off241 k0_t12) a + S1x1x64.size a ≤ S2x128x64.size a
  k0_off243_inb : ∀ (k0_t4 : Fin k0_t4_loop.trips) (k0_t12 : Fin k0_t12_loop.trips), ∀ (k0_h4 : k0_cond4 k0_t4 = 1#1), ∀ (r : Fin 2), ∀ a, (k0_off243 k0_t12 (BitVec.ofNat 32 r.val)) a + S1x1x64.size a ≤ S2x128x64.size a
  k0_off245_inb : ∀ (k0_t4 : Fin k0_t4_loop.trips) (k0_t12 : Fin k0_t12_loop.trips), ∀ (k0_h4 : k0_cond4 k0_t4 = 1#1), ∀ a, (k0_off245 k0_t12) a + S1x1x64.size a ≤ S2x128x64.size a
  k0_off247_inb : ∀ (k0_t4 : Fin k0_t4_loop.trips) (k0_t12 : Fin k0_t12_loop.trips), ∀ (k0_h4 : k0_cond4 k0_t4 = 1#1), ∀ (r : Fin 2), ∀ a, (k0_off247 k0_t12 (BitVec.ofNat 32 (1 + r.val))) a + S1x1x64.size a ≤ S2x128x64.size a
  k0_off249_inb : ∀ (k0_t4 : Fin k0_t4_loop.trips) (k0_t12 : Fin k0_t12_loop.trips), ∀ (k0_h4 : k0_cond4 k0_t4 = 1#1), ∀ a, (k0_off249 k0_t12) a + S1x1x64.size a ≤ S2x128x64.size a
  k0_off251_inb : ∀ (k0_t4 : Fin k0_t4_loop.trips) (k0_t12 : Fin k0_t12_loop.trips), ∀ (k0_h4 : k0_cond4 k0_t4 = 1#1), ∀ (r : Fin 2), ∀ a, (k0_off251 k0_t12 (BitVec.ofNat 32 (2 + r.val))) a + S1x1x64.size a ≤ S2x128x64.size a
  k0_off253_inb : ∀ (k0_t4 : Fin k0_t4_loop.trips) (k0_t12 : Fin k0_t12_loop.trips), ∀ (k0_h4 : k0_cond4 k0_t4 = 1#1), ∀ a, (k0_off253 k0_t12) a + S1x1x64.size a ≤ S2x128x64.size a
  k0_off255_inb : ∀ (k0_t4 : Fin k0_t4_loop.trips) (k0_t12 : Fin k0_t12_loop.trips), ∀ (k0_h4 : k0_cond4 k0_t4 = 1#1), ∀ (r : Fin 2), ∀ a, (k0_off255 k0_t12 (BitVec.ofNat 32 (3 + r.val))) a + S1x1x64.size a ≤ S2x128x64.size a
  k0_off257_inb : ∀ (k0_t4 : Fin k0_t4_loop.trips) (k0_t12 : Fin k0_t12_loop.trips), ∀ (k0_h4 : k0_cond4 k0_t4 = 1#1), ∀ a, (k0_off257 k0_t12) a + S1x1x64.size a ≤ S2x128x64.size a
  k0_off259_inb : ∀ (k0_t4 : Fin k0_t4_loop.trips) (k0_t12 : Fin k0_t12_loop.trips), ∀ (k0_h4 : k0_cond4 k0_t4 = 1#1), ∀ (r : Fin 2), ∀ a, (k0_off259 k0_t12 (BitVec.ofNat 32 (4 + r.val))) a + S1x1x64.size a ≤ S2x128x64.size a
  k0_off261_inb : ∀ (k0_t4 : Fin k0_t4_loop.trips) (k0_t12 : Fin k0_t12_loop.trips), ∀ (k0_h4 : k0_cond4 k0_t4 = 1#1), ∀ a, (k0_off261 k0_t12) a + S1x1x64.size a ≤ S2x128x64.size a
  k0_off263_inb : ∀ (k0_t4 : Fin k0_t4_loop.trips) (k0_t12 : Fin k0_t12_loop.trips), ∀ (k0_h4 : k0_cond4 k0_t4 = 1#1), ∀ (r : Fin 2), ∀ a, (k0_off263 k0_t12 (BitVec.ofNat 32 (5 + r.val))) a + S1x1x64.size a ≤ S2x128x64.size a
  k0_off265_inb : ∀ (k0_t4 : Fin k0_t4_loop.trips) (k0_t12 : Fin k0_t12_loop.trips), ∀ (k0_h4 : k0_cond4 k0_t4 = 1#1), ∀ a, (k0_off265 k0_t12) a + S1x1x64.size a ≤ S2x128x64.size a
  k0_off267_inb : ∀ (k0_t4 : Fin k0_t4_loop.trips) (k0_t12 : Fin k0_t12_loop.trips), ∀ (k0_h4 : k0_cond4 k0_t4 = 1#1), ∀ (r : Fin 2), ∀ a, (k0_off267 k0_t12 (BitVec.ofNat 32 (6 + r.val))) a + S1x1x64.size a ≤ S2x128x64.size a
  k0_off269_inb : ∀ (k0_t4 : Fin k0_t4_loop.trips) (k0_t12 : Fin k0_t12_loop.trips), ∀ (k0_h4 : k0_cond4 k0_t4 = 1#1), ∀ a, (k0_off269 k0_t12) a + S1x1x64.size a ≤ S2x128x64.size a
  k0_off271_inb : ∀ (k0_t4 : Fin k0_t4_loop.trips) (k0_t12 : Fin k0_t12_loop.trips), ∀ (k0_h4 : k0_cond4 k0_t4 = 1#1), ∀ (r : Fin 2), ∀ a, (k0_off271 k0_t12 (BitVec.ofNat 32 (7 + r.val))) a + S1x1x64.size a ≤ S2x128x64.size a
  k0_off273_inb : ∀ (k0_t4 : Fin k0_t4_loop.trips) (k0_t12 : Fin k0_t12_loop.trips), ∀ (k0_h4 : k0_cond4 k0_t4 = 1#1), ∀ a, (k0_off273 k0_t12) a + S1x1x64.size a ≤ S2x128x64.size a
  k0_off275_inb : ∀ (k0_t4 : Fin k0_t4_loop.trips) (k0_t12 : Fin k0_t12_loop.trips), ∀ (k0_h4 : k0_cond4 k0_t4 = 1#1), ∀ (r : Fin 2), ∀ a, (k0_off275 k0_t12 (BitVec.ofNat 32 (8 + r.val))) a + S1x1x64.size a ≤ S2x128x64.size a
  k0_off277_inb : ∀ (k0_t4 : Fin k0_t4_loop.trips) (k0_t12 : Fin k0_t12_loop.trips), ∀ (k0_h4 : k0_cond4 k0_t4 = 1#1), ∀ a, (k0_off277 k0_t12) a + S1x1x64.size a ≤ S2x128x64.size a
  k0_off279_inb : ∀ (k0_t4 : Fin k0_t4_loop.trips) (k0_t12 : Fin k0_t12_loop.trips), ∀ (k0_h4 : k0_cond4 k0_t4 = 1#1), ∀ (r : Fin 2), ∀ a, (k0_off279 k0_t12 (BitVec.ofNat 32 (9 + r.val))) a + S1x1x64.size a ≤ S2x128x64.size a
  k0_off281_inb : ∀ (k0_t4 : Fin k0_t4_loop.trips) (k0_t12 : Fin k0_t12_loop.trips), ∀ (k0_h4 : k0_cond4 k0_t4 = 1#1), ∀ a, (k0_off281 k0_t12) a + S1x1x64.size a ≤ S2x128x64.size a
  k0_off283_inb : ∀ (k0_t4 : Fin k0_t4_loop.trips) (k0_t12 : Fin k0_t12_loop.trips), ∀ (k0_h4 : k0_cond4 k0_t4 = 1#1), ∀ (r : Fin 2), ∀ a, (k0_off283 k0_t12 (BitVec.ofNat 32 (10 + r.val))) a + S1x1x64.size a ≤ S2x128x64.size a
  k0_off285_inb : ∀ (k0_t4 : Fin k0_t4_loop.trips) (k0_t12 : Fin k0_t12_loop.trips), ∀ (k0_h4 : k0_cond4 k0_t4 = 1#1), ∀ a, (k0_off285 k0_t12) a + S1x1x64.size a ≤ S2x128x64.size a
  k0_off287_inb : ∀ (k0_t4 : Fin k0_t4_loop.trips) (k0_t12 : Fin k0_t12_loop.trips), ∀ (k0_h4 : k0_cond4 k0_t4 = 1#1), ∀ (r : Fin 2), ∀ a, (k0_off287 k0_t12 (BitVec.ofNat 32 (11 + r.val))) a + S1x1x64.size a ≤ S2x128x64.size a
  k0_off289_inb : ∀ (k0_t4 : Fin k0_t4_loop.trips) (k0_t12 : Fin k0_t12_loop.trips), ∀ (k0_h4 : k0_cond4 k0_t4 = 1#1), ∀ a, (k0_off289 k0_t12) a + S1x1x64.size a ≤ S2x128x64.size a
  k0_off291_inb : ∀ (k0_t4 : Fin k0_t4_loop.trips) (k0_t12 : Fin k0_t12_loop.trips), ∀ (k0_h4 : k0_cond4 k0_t4 = 1#1), ∀ (r : Fin 2), ∀ a, (k0_off291 k0_t12 (BitVec.ofNat 32 (12 + r.val))) a + S1x1x64.size a ≤ S2x128x64.size a
  k0_off293_inb : ∀ (k0_t4 : Fin k0_t4_loop.trips) (k0_t12 : Fin k0_t12_loop.trips), ∀ (k0_h4 : k0_cond4 k0_t4 = 1#1), ∀ a, (k0_off293 k0_t12) a + S1x1x64.size a ≤ S2x128x64.size a
  k0_off295_inb : ∀ (k0_t4 : Fin k0_t4_loop.trips) (k0_t12 : Fin k0_t12_loop.trips), ∀ (k0_h4 : k0_cond4 k0_t4 = 1#1), ∀ (r : Fin 2), ∀ a, (k0_off295 k0_t12 (BitVec.ofNat 32 (13 + r.val))) a + S1x1x64.size a ≤ S2x128x64.size a
  k0_off297_inb : ∀ (k0_t4 : Fin k0_t4_loop.trips) (k0_t12 : Fin k0_t12_loop.trips), ∀ (k0_h4 : k0_cond4 k0_t4 = 1#1), ∀ a, (k0_off297 k0_t12) a + S1x1x64.size a ≤ S2x128x64.size a
  k0_off299_inb : ∀ (k0_t4 : Fin k0_t4_loop.trips) (k0_t12 : Fin k0_t12_loop.trips), ∀ (k0_h4 : k0_cond4 k0_t4 = 1#1), ∀ (r : Fin 2), ∀ a, (k0_off299 k0_t12 (BitVec.ofNat 32 (14 + r.val))) a + S1x1x64.size a ≤ S2x128x64.size a
  k0_off301_inb : ∀ (k0_t4 : Fin k0_t4_loop.trips) (k0_t12 : Fin k0_t12_loop.trips), ∀ (k0_h4 : k0_cond4 k0_t4 = 1#1), ∀ a, (k0_off301 k0_t12) a + S1x1x64.size a ≤ S2x128x64.size a
  k0_off303_inb : ∀ (k0_t4 : Fin k0_t4_loop.trips) (k0_t12 : Fin k0_t12_loop.trips), ∀ (k0_h4 : k0_cond4 k0_t4 = 1#1), ∀ a, (k0_off303 k0_t12) a + S1x1x64.size a ≤ S2x128x64.size a
  k0_t13_ok : k0_t13_loop.OK
  k0_off304_inb : ∀ k0_t13 : Fin k0_t13_loop.trips, ∀ a, (k0_off304 k0_t13) a + S1x16.size a ≤ S10x512.size a
  k0_off305_inb : ∀ k0_t13 : Fin k0_t13_loop.trips, ∀ a, (k0_off305 k0_t13) a + S1x16.size a ≤ S10x512.size a
  k0_off306_inb : ∀ k0_t13 : Fin k0_t13_loop.trips, ∀ a, (k0_off306 k0_t13) a + S1x16.size a ≤ S10x512.size a
  k0_off307_inb : ∀ k0_t13 : Fin k0_t13_loop.trips, ∀ a, (k0_off307 k0_t13) a + S1x16.size a ≤ S10x512.size a
  k0_off308_inb : ∀ k0_t13 : Fin k0_t13_loop.trips, ∀ a, (k0_off308 k0_t13) a + S1x16.size a ≤ S10x512.size a
  k0_off309_inb : ∀ k0_t13 : Fin k0_t13_loop.trips, ∀ a, (k0_off309 k0_t13) a + S1x16.size a ≤ S10x512.size a
  k0_off310_inb : ∀ k0_t13 : Fin k0_t13_loop.trips, ∀ a, (k0_off310 k0_t13) a + S1x16.size a ≤ S10x512.size a
  k0_off311_inb : ∀ k0_t13 : Fin k0_t13_loop.trips, ∀ a, (k0_off311 k0_t13) a + S1x16.size a ≤ S10x512.size a
  k0_off312_inb : ∀ k0_t13 : Fin k0_t13_loop.trips, ∀ a, (k0_off312 k0_t13) a + S1x16.size a ≤ S10x512.size a
  k0_off313_inb : ∀ k0_t13 : Fin k0_t13_loop.trips, ∀ a, (k0_off313 k0_t13) a + S1x16.size a ≤ S10x512.size a
  k0_off314_inb : ∀ k0_t13 : Fin k0_t13_loop.trips, ∀ a, (k0_off314 k0_t13) a + S16.size a ≤ S512.size a
  k0_off315_inb : ∀ i : grid0.Coords, ∀ a, (k0_off315 i) a + S512.size a ≤ S16384.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3

class Facts : Prop extends Facts₀ where

variable [Facts]
-- ==== ReferenceIdeal.lean ====
abbrev S16384 : Shape := ⟨1, ![16384]⟩
abbrev S1000000x64 : Shape := ⟨2, ![1000000, 64]⟩
abbrev S100000x64 : Shape := ⟨2, ![100000, 64]⟩
abbrev S128x10 : Shape := ⟨2, ![128, 10]⟩
abbrev S10 : Shape := ⟨1, ![10]⟩
abbrev S10x1 : Shape := ⟨2, ![10, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S16384x128 : Shape := ⟨2, ![16384, 128]⟩
abbrev S16384x10 : Shape := ⟨2, ![16384, 10]⟩
abbrev S1x10 : Shape := ⟨2, ![1, 10]⟩

abbrev nBuf : Space → Nat
  | .hbm => 69
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S100000x64, .f32⟩
  | .hbm, ⟨4, _⟩ => ⟨S128x10, .f32⟩
  | .hbm, ⟨5, _⟩ => ⟨S10, .f32⟩
  | .hbm, ⟨6, _⟩ => ⟨S10x1, .f32⟩
  | .hbm, ⟨7, _⟩ => ⟨S1, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x64, .f32⟩
  | .hbm, ⟨27, _⟩ => ⟨S16384x64, .i1⟩
  | .hbm, ⟨28, _⟩ => ⟨S_, .f32⟩
  | .hbm, ⟨29, _⟩ => ⟨S16384x64, .f32⟩
  | .hbm, ⟨30, _⟩ => ⟨S16384x64, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S1x1, .i32⟩
  | .hbm, ⟨44, _⟩ => ⟨S16384x1, .i32⟩
  | .hbm, ⟨45, _⟩ => ⟨S16384x1, .i1⟩
  | .hbm, ⟨46, _⟩ => ⟨S16384x1, .i1⟩
  | .hbm, ⟨47, _⟩ => ⟨S_, .i1⟩
  | .hbm, ⟨48, _⟩ => ⟨S16384, .i1⟩
  | .hbm, ⟨49, _⟩ => ⟨S16384x64, .f32⟩
  | .hbm, ⟨50, _⟩ => ⟨S16384x64, .i1⟩
  | .hbm, ⟨51, _⟩ => ⟨S_, .f32⟩
  | .hbm, ⟨52, _⟩ => ⟨S16384x64, .f32⟩
  | .hbm, ⟨53, _⟩ => ⟨S16384x64, .f32⟩
  | .hbm, ⟨54, _⟩ => ⟨S16384x128, .f32⟩
  | .hbm, ⟨55, _⟩ => ⟨S_, .f32⟩
  | .hbm, ⟨56, _⟩ => ⟨S16384x128, .f32⟩
  | .hbm, ⟨57, _⟩ => ⟨S16384x128, .f32⟩
  | .hbm, ⟨58, _⟩ => ⟨S16384x10, .f32⟩
  | .hbm, ⟨59, _⟩ => ⟨S1x10, .f32⟩
  | .hbm, ⟨60, _⟩ => ⟨S16384x10, .f32⟩
  | .hbm, ⟨61, _⟩ => ⟨S16384x10, .f32⟩
  | .hbm, ⟨62, _⟩ => ⟨S_, .f32⟩
  | .hbm, ⟨63, _⟩ => ⟨S16384x10, .f32⟩
  | .hbm, ⟨64, _⟩ => ⟨S16384x10, .f32⟩
  | .hbm, ⟨65, _⟩ => ⟨S16384x1, .f32⟩
  | .hbm, ⟨66, _⟩ => ⟨S1x1, .f32⟩
  | .hbm, ⟨67, _⟩ => ⟨S16384x1, .f32⟩
  | .hbm, ⟨68, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_call2_cst : Ref sig .tc := ⟨.hbm, 55, rfl⟩
abbrev main_call2_v0 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_call3_cst : Ref sig .tc := ⟨.hbm, 62, rfl⟩
abbrev main_call3_v0 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  concatenates_S16384x64_S16384x64_S16384x128_d1 : Shape.Concatenates [S16384x64, S16384x64] S16384x128 1
  bcast_S_S16384x128 : S_.BroadcastsInDim S16384x128 (![] : Fin 0 → Fin S16384x128.rank)
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  bcast_S_S16384x10 : S_.BroadcastsInDim S16384x10 (![] : Fin 0 → Fin S16384x10.rank)
  gather_S1000000x64_S16384x1_S16384x64_1_0_n_n_0_1_164_wf : GatherDims.WF S1000000x64 S16384x1 S16384x64 [1] [0] [] [0] [] 1 ![1, 64]
  gather_S100000x64_S16384x1_S16384x64_1_0_n_n_0_1_164_wf : GatherDims.WF S100000x64 S16384x1 S16384x64 [1] [0] [] [0] [] 1 ![1, 64]
  dot_S16384x128_S128x10_S16384x10_1_0_0_1_n_n_wf : DotDims.WF S16384x128 S128x10 S16384x10 [1] [0] [0] [1] [] []
  dot_S16384x10_S10x1_S16384x1_1_0_0_1_n_n_wf : DotDims.WF S16384x10 S10x1 S16384x1 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S16384x128_S128x10_S16384x10_1_0_0_1_n_n : DotDims S16384x128 S128x10 S16384x10 where
  lhsContracting := [1]
  rhsContracting := [0]
  lhsNonContracting := [0]
  rhsNonContracting := [1]
  lhsBatch := []
  rhsBatch := []
  wf := dot_S16384x128_S128x10_S16384x10_1_0_0_1_n_n_wf
def dot_S16384x10_S10x1_S16384x1_1_0_0_1_n_n : DotDims S16384x10 S10x1 S16384x1 where
  lhsContracting := [1]
  rhsContracting := [0]
  lhsNonContracting := [0]
  rhsNonContracting := [1]
  lhsBatch := []
  rhsBatch := []
  wf := dot_S16384x10_S10x1_S16384x1_1_0_0_1_n_n_wf

class Facts : Prop extends Facts₀ where

variable [Facts]
-- ==== Proof.Spec.lean ====
/-
  The function both programs compute, stated once over the argument arrays at the exact instance
  (floats are extended reals): for each sample `b` of the batch,

    x[b, k]   = max (u[user b, k]) 0        for k < 64      (the user's embedding row, rectified)
              = max (v[item b, k - 64]) 0   for 64 ≤ k      (the item's embedding row, rectified)
    hid[b, h] = max ((∑ k < 128, x[b, k] * W1[k, h]) + b1[h]) 0
    out[b]    = (∑ h < 10, hid[b, h] * W2[h, 0]) + b2[0].

  A table row is read at the index word's natural number; where that number names no row the entry is
  taken as `0`, which keeps the function total (both programs are compared only where every index names a row).
-/
import Idealize.ShloMosaic.PureOps.Ideal
import Idealize.ShloMosaic.Lib.ValueIdx

noncomputable section

namespace Cert.Spec

open Idealize.ShloMosaic Idealize.ShloMosaic.ValueIdx
open scoped BigOperators

/-- Entry `k` of row `i` of a table of `n` rows of 64 entries (`0` where `i` names no row). -/
def row (n : Nat) (t : FVec Ideal ⟨2, ![n, 64]⟩ .f32) (i : BitVec 32) (k : Fin 64) : EReal :=
  if h : i.toNat < n then t (ix2 ⟨i.toNat, h⟩ k) else 0

/-- The rectified feature `x[b, k]`: the user's row in columns 0–63, the item's row in columns 64–127. -/
def feat (user item : IVec ⟨1, ![16384]⟩ 32)
    (ue : FVec Ideal ⟨2, ![1000000, 64]⟩ .f32) (ie : FVec Ideal ⟨2, ![100000, 64]⟩ .f32)
    (b : Fin 16384) (k : Fin 128) : EReal :=
  max (if h : k.val < 64 then row 1000000 ue (user (ix1 b)) ⟨k.val, h⟩
       else row 100000 ie (item (ix1 b)) ⟨k.val - 64, by omega⟩) 0

/-- The hidden layer `hid[b, h]`. -/
def hidden (user item : IVec ⟨1, ![16384]⟩ 32)
    (ue : FVec Ideal ⟨2, ![1000000, 64]⟩ .f32) (ie : FVec Ideal ⟨2, ![100000, 64]⟩ .f32)
    (W1 : FVec Ideal ⟨2, ![128, 10]⟩ .f32) (b1 : FVec Ideal ⟨1, ![10]⟩ .f32)
    (b : Fin 16384) (h : Fin 10) : EReal :=
  max ((∑ k : Fin 128, feat user item ue ie b k * W1 (ix2 k h)) + b1 (ix1 h)) 0

/-- The score `out[b]`. -/
def score (user item : IVec ⟨1, ![16384]⟩ 32)
    (ue : FVec Ideal ⟨2, ![1000000, 64]⟩ .f32) (ie : FVec Ideal ⟨2, ![100000, 64]⟩ .f32)
    (W1 : FVec Ideal ⟨2, ![128, 10]⟩ .f32) (b1 : FVec Ideal ⟨1, ![10]⟩ .f32)
    (W2 : FVec Ideal ⟨2, ![10, 1]⟩ .f32) (b2 : FVec Ideal ⟨1, ![1]⟩ .f32)
    (b : Fin 16384) : EReal :=
  (∑ h : Fin 10, hidden user item ue ie W1 b1 b h * W2 (ix2 h (0 : Fin 1))) + b2 (ix1 (0 : Fin 1))

/-- The result array: one column, entry `[b, 0]` the score of sample `b`. -/
def G (user item : IVec ⟨1, ![16384]⟩ 32)
    (ue : FVec Ideal ⟨2, ![1000000, 64]⟩ .f32) (ie : FVec Ideal ⟨2, ![100000, 64]⟩ .f32)
    (W1 : FVec Ideal ⟨2, ![128, 10]⟩ .f32) (b1 : FVec Ideal ⟨1, ![10]⟩ .f32)
    (W2 : FVec Ideal ⟨2, ![10, 1]⟩ .f32) (b2 : FVec Ideal ⟨1, ![1]⟩ .f32) :
    FVec Ideal ⟨2, ![16384, 1]⟩ .f32 :=
  fun j => score user item ue ie W1 b1 W2 b2 (j 0)

end Cert.Spec

end
-- ==== Proof.PreDecode.lean ====
/-
  The precondition read back as index ranges. The input-domain predicate is a conjunction of "every entry is finite"
  checks on the six float arrays and of two range checks on the integer arrays: every user index lies in
  [0, 999999] and every item index in [0, 99999], read signed. Each range check is an `and`-reduction, over the whole
  array, of the elementwise conjunction of two signed comparisons against a broadcast constant; the predicate being
  all ones makes every element of each reduction's operand one, hence both comparisons hold at every position.
  Only the two integer conjuncts are opened, so the statements hold for every float instance.
-/
import proofs.«214512_g89103391522852_cont_sun_m_1157_25_alg».proof.Pre_input_domain
import proofs.«214512_g89103391522852_cont_sun_m_1157_25_alg».proof.Proof.Gen.Pre_input_domain
import Idealize.ShloMosaic.Lib.ReduceAll
import Idealize.ShloMosaic.Lib.ValueIdx

namespace Cert.PreDecode

open Idealize.ShloMosaic Cert.Pre_input_domain

/-- The rank-0 shape has one index. -/
instance subsingleton_scalar_idx : Subsingleton S_.Idx := ⟨fun _ _ => funext fun d => d.elim0⟩

/-- A word whose signed reading is nonnegative reads the same unsigned. -/
theorem toInt_eq_toNat_of_nonneg (w : BitVec 32) (h0 : 0 ≤ w.toInt) : w.toInt = (w.toNat : Int) :=
  BitVec.toInt_eq_toNat_of_lt (BitVec.toInt_pos_iff.1 h0)

/-- A word whose signed reading lies in [0, n] is at most n unsigned. -/
theorem toNat_le_of_range (w : BitVec 32) (n : Nat) (h0 : 0 ≤ w.toInt) (h1 : w.toInt ≤ (n : Int)) : w.toNat ≤ n := by
  rw [toInt_eq_toNat_of_nonneg w h0] at h1
  exact Int.ofNat_le.1 h1

/-- Both signed comparisons of one element against the constants `0` and `n` hold: the element lies in [0, n]. -/
theorem range_of_bits (w n : BitVec 32)
    (h : IntOp.andi (IntOp.cmpi .sge w 0#32) (IntOp.cmpi .sle w n) = 1#1) : 0 ≤ w.toInt ∧ w.toInt ≤ n.toInt := by
  obtain ⟨h0, h1⟩ := IntOp.andi_eq_one.1 h
  have h0' : (0#32 : BitVec 32).toInt ≤ w.toInt := IntOp.cmpi_sge.1 h0
  rw [show (0#32 : BitVec 32).toInt = 0 from by decide] at h0'
  exact ⟨h0', IntOp.cmpi_sle.1 h1⟩

variable {F : FTy → Type} [FloatOps F] [Facts]

/-- Under the input-domain predicate every user index lies in [0, 999999], read signed. -/
theorem user_lt (a0 a1 : IVec S16384 32) (a2 : FVec F S1000000x64 .f32) (a3 : FVec F S100000x64 .f32)
    (a4 : FVec F S128x10 .f32) (a5 : FVec F S10 .f32) (a6 : FVec F S10x1 .f32) (a7 : FVec F S1 .f32)
    (h : fn (F := F) a0 a1 a2 a3 a4 a5 a6 a7 = fun _ => 1#1) :
    ∀ b, 0 ≤ (a0 b).toInt ∧ (a0 b).toInt ≤ 999999 := by
  intro b
  have e := congrFun h ValueIdx.ix0
  dsimp only [fn, fn_part1, fn_part2] at e
  obtain ⟨e35, -⟩ := IntOp.andi_eq_one.1 e
  obtain ⟨-, e34⟩ := IntOp.andi_eq_one.1 e35
  have e33 := Host.reduce_andi_all _ _ _ _ _ e34 b
  have r := range_of_bits (a0 b) 999999#32 e33
  rw [show (999999#32 : BitVec 32).toInt = 999999 from by decide] at r
  exact r

/-- Under the input-domain predicate every item index lies in [0, 99999], read signed. -/
theorem item_lt (a0 a1 : IVec S16384 32) (a2 : FVec F S1000000x64 .f32) (a3 : FVec F S100000x64 .f32)
    (a4 : FVec F S128x10 .f32) (a5 : FVec F S10 .f32) (a6 : FVec F S10x1 .f32) (a7 : FVec F S1 .f32)
    (h : fn (F := F) a0 a1 a2 a3 a4 a5 a6 a7 = fun _ => 1#1) :
    ∀ b, 0 ≤ (a1 b).toInt ∧ (a1 b).toInt ≤ 99999 := by
  intro b
  have e := congrFun h ValueIdx.ix0
  dsimp only [fn, fn_part1, fn_part2] at e
  obtain ⟨-, e41⟩ := IntOp.andi_eq_one.1 e
  have e40 := Host.reduce_andi_all _ _ _ _ _ e41 b
  have r := range_of_bits (a1 b) 99999#32 e40
  rw [show (99999#32 : BitVec 32).toInt = 99999 from by decide] at r
  exact r

/-- Every user index, read unsigned, names one of the 1000000 rows of the user table. -/
theorem user_toNat_lt (a0 a1 : IVec S16384 32) (a2 : FVec F S1000000x64 .f32) (a3 : FVec F S100000x64 .f32)
    (a4 : FVec F S128x10 .f32) (a5 : FVec F S10 .f32) (a6 : FVec F S10x1 .f32) (a7 : FVec F S1 .f32)
    (h : fn (F := F) a0 a1 a2 a3 a4 a5 a6 a7 = fun _ => 1#1) : ∀ b, (a0 b).toNat < 1000000 := fun b =>
  Nat.lt_succ_of_le (toNat_le_of_range (a0 b) 999999 (user_lt a0 a1 a2 a3 a4 a5 a6 a7 h b).1
    (user_lt a0 a1 a2 a3 a4 a5 a6 a7 h b).2)

/-- Every item index, read unsigned, names one of the 100000 rows of the item table. -/
theorem item_toNat_lt (a0 a1 : IVec S16384 32) (a2 : FVec F S1000000x64 .f32) (a3 : FVec F S100000x64 .f32)
    (a4 : FVec F S128x10 .f32) (a5 : FVec F S10 .f32) (a6 : FVec F S10x1 .f32) (a7 : FVec F S1 .f32)
    (h : fn (F := F) a0 a1 a2 a3 a4 a5 a6 a7 = fun _ => 1#1) : ∀ b, (a1 b).toNat < 100000 := fun b =>
  Nat.lt_succ_of_le (toNat_le_of_range (a1 b) 99999 (item_lt a0 a1 a2 a3 a4 a5 a6 a7 h b).1
    (item_lt a0 a1 a2 a3 a4 a5 a6 a7 h b).2)

end Cert.PreDecode
-- ==== Proof.RefTerm.lean ====
/-
  The reference program's operations composed as pure functions of its argument arrays: two table lookups (each: wrap a
  negative index by the table's row count, gather the rows, and blank every row whose index falls outside the table),
  their concatenation along the feature axis and a rectifier (`rFeat`), a matrix product with a bias and a rectifier
  (`rHidden`), and a second matrix product with a bias (`rOut`). Stated for every float instance; the program's run
  ends with its result buffer at `rOut` of the arguments, and at the exact instance `rOut` is the specification.
-/
import proofs.«214512_g89103391522852_cont_sun_m_1157_25_alg».proof.Proof.Gen.ReferenceIdeal

noncomputable section

namespace Cert.ReferenceIdeal.RefTerm

open Cert.ReferenceIdeal Cert.ReferenceIdeal.Gen Idealize.ShloMosaic

variable {F : FTy → Type} [FloatOps F]

/-- The index column a table lookup gathers at: an index below zero is moved up by the table's row count `N`
    (negative indexing), every other index kept; laid out as a [16384, 1] column. -/
def idxCol (N : BitVec 32) (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 N))) i)

/-- Per sample, whether its (wrapped) index lies in [0, M], read signed: the conjunction over the column's one entry. -/
def inRange (M : BitVec 32) (col : IVec S16384x1 32) : IVec S16384 1 :=
  Host.reduce IntOp.andi
    (andi (cmpi .sge col (broadcastInDim S16384x1 ![] bcast_S_S16384x1 (constantI S_ 32 0#32)))
      (cmpi .sle col (broadcastInDim S16384x1 ![0, 1] bcast_S1x1_S16384x1_0_1
        (broadcastInDim S1x1 ![1] bcast_S1_S1x1_1 (constantI S1 32 M)))))
    (constantI S_ 1 1#1) reducesTo_S16384x1_S16384_d1 h_S_

/-- The user-table lookup: row `i[b]` of the table for sample `b`, a constant row where the index is out of range. -/
def lookupUser (t : FVec F S1000000x64 .f32) (i : IVec S16384 32) : FVec F S16384x64 .f32 :=
  select (broadcastInDim S16384x64 ![0] bcast_S16384_S16384x64_0 (inRange 999999#32 (idxCol 1000000#32 i)))
    (Host.gather gather_S1000000x64_S16384x1_S16384x64_1_0_n_n_0_1_164 t (idxCol 1000000#32 i))
    (broadcastInDim S16384x64 ![] bcast_S_S16384x64 (constant (F := F) S_ .f32 0x7FC00000#32))

/-- The item-table lookup, likewise. -/
def lookupItem (t : FVec F S100000x64 .f32) (i : IVec S16384 32) : FVec F S16384x64 .f32 :=
  select (broadcastInDim S16384x64 ![0] bcast_S16384_S16384x64_0 (inRange 99999#32 (idxCol 100000#32 i)))
    (Host.gather gather_S100000x64_S16384x1_S16384x64_1_0_n_n_0_1_164 t (idxCol 100000#32 i))
    (broadcastInDim S16384x64 ![] bcast_S_S16384x64 (constant (F := F) S_ .f32 0x7FC00000#32))

/-- The rectified features: the two looked-up rows side by side, negative entries replaced by zero. -/
def rFeat (a0 a1 : IVec S16384 32) (a2 : FVec F S1000000x64 .f32) (a3 : FVec F S100000x64 .f32) : FVec F S16384x128 .f32 :=
  maximumf
    (concatenate S16384x128 1 [⟨S16384x64, lookupUser a2 a0⟩, ⟨S16384x64, lookupItem a3 a1⟩]
      concatenates_S16384x64_S16384x64_S16384x128_d1)
    (broadcastInDim S16384x128 ![] bcast_S_S16384x128 (constant (F := F) S_ .f32 0x00000000#32))

/-- The hidden layer: features times the first weight matrix, plus the first bias, rectified. -/
def rHidden (a0 a1 : IVec S16384 32) (a2 : FVec F S1000000x64 .f32) (a3 : FVec F S100000x64 .f32)
    (a4 : FVec F S128x10 .f32) (a5 : FVec F S10 .f32) : FVec F S16384x10 .f32 :=
  maximumf
    (addf (Host.dotGeneral dot_S16384x128_S128x10_S16384x10_1_0_0_1_n_n none (rFeat a0 a1 a2 a3) a4)
      (broadcastInDim S16384x10 ![0, 1] bcast_S1x10_S16384x10_0_1 (broadcastInDim S1x10 ![1] bcast_S10_S1x10_1 a5)))
    (broadcastInDim S16384x10 ![] bcast_S_S16384x10 (constant (F := F) S_ .f32 0x00000000#32))

/-- The result: hidden layer times the second weight matrix, plus the second bias. -/
def rOut (a0 a1 : IVec S16384 32) (a2 : FVec F S1000000x64 .f32) (a3 : FVec F S100000x64 .f32)
    (a4 : FVec F S128x10 .f32) (a5 : FVec F S10 .f32) (a6 : FVec F S10x1 .f32) (a7 : FVec F S1 .f32) :
    FVec F S16384x1 .f32 :=
  addf (Host.dotGeneral dot_S16384x10_S10x1_S16384x1_1_0_0_1_n_n none (rHidden a0 a1 a2 a3 a4 a5) a6)
    (broadcastInDim S16384x1 ![0, 1] bcast_S1x1_S16384x1_0_1 (broadcastInDim S1x1 ![1] bcast_S1_S1x1_1 a7))

end Cert.ReferenceIdeal.RefTerm

end
-- ==== Proof.RefRun.lean ====
/-
  The reference program's run, read back. Its @main is a straight line of 61 host operations once the five outlined
  functions are unfolded at their calls: two table lookups (23 operations each, the index wrap's select among them),
  their concatenation, a rectifier (3 operations), a matrix product with its bias broadcast and added, a second
  rectifier, and a second matrix product with its bias. Every weakly fair execution terminates with the result buffer at
  the composition `rOut` of those operations applied to the argument arrays, and with the argument arrays unchanged.
  The line is read in nine stretches, one per composed function.
-/
import proofs.«214512_g89103391522852_cont_sun_m_1157_25_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-! ## The program in nine stretches

Each stretch is a short list of operations whose last result is one of the composed functions applied to the contents
the stretch reads; everything a stretch does not write it leaves as it was. -/

/-- Lookup 0, the index column: the zero and its broadcast, the sign test, the row count and its broadcast, the sum, the select, the column layout. -/
def c1 : List (HloOp τ sig (Elt F)) :=
  [
    TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0) ]

/-- The references stretch 1 writes. -/
abbrev W1 : List (Ref sig .tc) := [main_call0_c, main_call0_v0, main_call0_v1, main_call0_c_0, main_call0_v2, main_call0_v3, main_call0_v4, main_call0_v5]

theorem c1_writes : (c1 : List (HloOp τ sig (Elt F))).Forall fun op => op.writes ⊆ (W1.map (Proc.devRef (τ := τ) .tc)).toFinset := by
  unfold c1
  simp only [List.Forall, nullary_writes, unary_writes, binary_writes, ternary_writes, Finset.singleton_subset_iff, List.mem_toFinset]
  repeat' constructor
  all_goals exact List.mem_map_of_mem (by decide)

/-- Stretch 1 leaves every reference it does not write as it was. -/
theorem keep1 (V : Valuation τ sig (Elt F)) (r : Ref sig .tc) (h : r ∉ W1) :
    after c1 V (Proc.devRef .tc r) = V (Proc.devRef .tc r) :=
  after_of_writes_sub c1 V c1_writes h

attribute [local irreducible] Host.reduce Host.gather concatenate in
/-- What stretch 1 leaves in its last result, from the contents it reads. -/
theorem c1_out (V : Valuation τ sig (Elt F)) :
    after c1 V (main_call0_v5 : DevRef τ sig) = idxCol 1000000#32 (V (main_arg0 : DevRef τ sig)) := by
  unfold c1
  after_results
  all_goals rfl

/-- Lookup 0, the range mask: the bounds broadcast, the two comparisons, their conjunction, reduced over the column's one entry. -/
def c2 : List (HloOp τ sig (Elt F)) :=
  [
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_) ]

/-- The references stretch 2 writes. -/
abbrev W2 : List (Ref sig .tc) := [main_call0_c_1, main_call0_c_2, main_call0_v6, main_call0_v7, main_call0_v8, main_call0_v9, main_call0_v10, main_call0_v11, main_call0_c_3, main_call0_v12]

theorem c2_writes : (c2 : List (HloOp τ sig (Elt F))).Forall fun op => op.writes ⊆ (W2.map (Proc.devRef (τ := τ) .tc)).toFinset := by
  unfold c2
  simp only [List.Forall, nullary_writes, unary_writes, binary_writes, ternary_writes, Finset.singleton_subset_iff, List.mem_toFinset]
  repeat' constructor
  all_goals exact List.mem_map_of_mem (by decide)

/-- Stretch 2 leaves every reference it does not write as it was. -/
theorem keep2 (V : Valuation τ sig (Elt F)) (r : Ref sig .tc) (h : r ∉ W2) :
    after c2 V (Proc.devRef .tc r) = V (Proc.devRef .tc r) :=
  after_of_writes_sub c2 V c2_writes h

attribute [local irreducible] Host.reduce Host.gather concatenate in
/-- What stretch 2 leaves in its last result, from the contents it reads. -/
theorem c2_out (V : Valuation τ sig (Elt F)) :
    after c2 V (main_call0_v12 : DevRef τ sig) = inRange 999999#32 (V (main_call0_v5 : DevRef τ sig)) := by
  unfold c2
  after_results
  all_goals rfl

/-- Lookup 0, the rows: the gather, the mask broadcast over the columns, the blank row, the select. -/
def c3 : List (HloOp τ sig (Elt F)) :=
  [
    TRef.binary (.of main_arg2) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select ]

/-- The references stretch 3 writes. -/
abbrev W3 : List (Ref sig .tc) := [main_call0_v13, main_call0_v14, main_call0_cst, main_call0_v15, main_v0]

theorem c3_writes : (c3 : List (HloOp τ sig (Elt F))).Forall fun op => op.writes ⊆ (W3.map (Proc.devRef (τ := τ) .tc)).toFinset := by
  unfold c3
  simp only [List.Forall, nullary_writes, unary_writes, binary_writes, ternary_writes, Finset.singleton_subset_iff, List.mem_toFinset]
  repeat' constructor
  all_goals exact List.mem_map_of_mem (by decide)

/-- Stretch 3 leaves every reference it does not write as it was. -/
theorem keep3 (V : Valuation τ sig (Elt F)) (r : Ref sig .tc) (h : r ∉ W3) :
    after c3 V (Proc.devRef .tc r) = V (Proc.devRef .tc r) :=
  after_of_writes_sub c3 V c3_writes h

attribute [local irreducible] Host.reduce Host.gather concatenate in
/-- What stretch 3 leaves in its last result, from the contents it reads. -/
theorem c3_out (V : Valuation τ sig (Elt F)) :
    after c3 V (main_v0 : DevRef τ sig) = select (broadcastInDim S16384x64 ![0] bcast_S16384_S16384x64_0 (V (main_call0_v12 : DevRef τ sig)))
        (Host.gather gather_S1000000x64_S16384x1_S16384x64_1_0_n_n_0_1_164 (V (main_arg2 : DevRef τ sig)) (V (main_call0_v5 : DevRef τ sig)))
        (broadcastInDim S16384x64 ![] bcast_S_S16384x64 (constant (F := F) S_ .f32 0x7FC00000#32)) := by
  unfold c3
  after_results
  all_goals rfl

/-- Lookup 1, the index column. -/
def c4 : List (HloOp τ sig (Elt F)) :=
  [
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0) ]

/-- The references stretch 4 writes. -/
abbrev W4 : List (Ref sig .tc) := [main_call1_c, main_call1_v0, main_call1_v1, main_call1_c_0, main_call1_v2, main_call1_v3, main_call1_v4, main_call1_v5]

theorem c4_writes : (c4 : List (HloOp τ sig (Elt F))).Forall fun op => op.writes ⊆ (W4.map (Proc.devRef (τ := τ) .tc)).toFinset := by
  unfold c4
  simp only [List.Forall, nullary_writes, unary_writes, binary_writes, ternary_writes, Finset.singleton_subset_iff, List.mem_toFinset]
  repeat' constructor
  all_goals exact List.mem_map_of_mem (by decide)

/-- Stretch 4 leaves every reference it does not write as it was. -/
theorem keep4 (V : Valuation τ sig (Elt F)) (r : Ref sig .tc) (h : r ∉ W4) :
    after c4 V (Proc.devRef .tc r) = V (Proc.devRef .tc r) :=
  after_of_writes_sub c4 V c4_writes h

attribute [local irreducible] Host.reduce Host.gather concatenate in
/-- What stretch 4 leaves in its last result, from the contents it reads. -/
theorem c4_out (V : Valuation τ sig (Elt F)) :
    after c4 V (main_call1_v5 : DevRef τ sig) = idxCol 100000#32 (V (main_arg1 : DevRef τ sig)) := by
  unfold c4
  after_results
  all_goals rfl

/-- Lookup 1, the range mask. -/
def c5 : List (HloOp τ sig (Elt F)) :=
  [
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_) ]

/-- The references stretch 5 writes. -/
abbrev W5 : List (Ref sig .tc) := [main_call1_c_1, main_call1_c_2, main_call1_v6, main_call1_v7, main_call1_v8, main_call1_v9, main_call1_v10, main_call1_v11, main_call1_c_3, main_call1_v12]

theorem c5_writes : (c5 : List (HloOp τ sig (Elt F))).Forall fun op => op.writes ⊆ (W5.map (Proc.devRef (τ := τ) .tc)).toFinset := by
  unfold c5
  simp only [List.Forall, nullary_writes, unary_writes, binary_writes, ternary_writes, Finset.singleton_subset_iff, List.mem_toFinset]
  repeat' constructor
  all_goals exact List.mem_map_of_mem (by decide)

/-- Stretch 5 leaves every reference it does not write as it was. -/
theorem keep5 (V : Valuation τ sig (Elt F)) (r : Ref sig .tc) (h : r ∉ W5) :
    after c5 V (Proc.devRef .tc r) = V (Proc.devRef .tc r) :=
  after_of_writes_sub c5 V c5_writes h

attribute [local irreducible] Host.reduce Host.gather concatenate in
/-- What stretch 5 leaves in its last result, from the contents it reads. -/
theorem c5_out (V : Valuation τ sig (Elt F)) :
    after c5 V (main_call1_v12 : DevRef τ sig) = inRange 99999#32 (V (main_call1_v5 : DevRef τ sig)) := by
  unfold c5
  after_results
  all_goals rfl

/-- Lookup 1, the rows. -/
def c6 : List (HloOp τ sig (Elt F)) :=
  [
    TRef.binary (.of main_arg3) main_call1.v5 main_call1.v13 (fun x i => Host.gather gather_S100000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select ]

/-- The references stretch 6 writes. -/
abbrev W6 : List (Ref sig .tc) := [main_call1_v13, main_call1_v14, main_call1_cst, main_call1_v15, main_v1]

theorem c6_writes : (c6 : List (HloOp τ sig (Elt F))).Forall fun op => op.writes ⊆ (W6.map (Proc.devRef (τ := τ) .tc)).toFinset := by
  unfold c6
  simp only [List.Forall, nullary_writes, unary_writes, binary_writes, ternary_writes, Finset.singleton_subset_iff, List.mem_toFinset]
  repeat' constructor
  all_goals exact List.mem_map_of_mem (by decide)

/-- Stretch 6 leaves every reference it does not write as it was. -/
theorem keep6 (V : Valuation τ sig (Elt F)) (r : Ref sig .tc) (h : r ∉ W6) :
    after c6 V (Proc.devRef .tc r) = V (Proc.devRef .tc r) :=
  after_of_writes_sub c6 V c6_writes h

attribute [local irreducible] Host.reduce Host.gather concatenate in
/-- What stretch 6 leaves in its last result, from the contents it reads. -/
theorem c6_out (V : Valuation τ sig (Elt F)) :
    after c6 V (main_v1 : DevRef τ sig) = select (broadcastInDim S16384x64 ![0] bcast_S16384_S16384x64_0 (V (main_call1_v12 : DevRef τ sig)))
        (Host.gather gather_S100000x64_S16384x1_S16384x64_1_0_n_n_0_1_164 (V (main_arg3 : DevRef τ sig)) (V (main_call1_v5 : DevRef τ sig)))
        (broadcastInDim S16384x64 ![] bcast_S_S16384x64 (constant (F := F) S_ .f32 0x7FC00000#32)) := by
  unfold c6
  after_results
  all_goals rfl

/-- The concatenation and the first rectifier. -/
def c7 : List (HloOp τ sig (Elt F)) :=
  [
    binary main_v0 main_v1 main_v2 ((fun a b => concatenate S16384x128 1 [⟨S16384x64, a⟩, ⟨S16384x64, b⟩] concatenates_S16384x64_S16384x64_S16384x128_d1) : (⟨S16384x64, .f32⟩ : BufTy).Contents (Elt F) → (⟨S16384x64, .f32⟩ : BufTy).Contents (Elt F) → (⟨S16384x128, .f32⟩ : BufTy).Contents (Elt F)),
    TRef.nullary main_call2.cst (constant S_ .f32 0x00000000#32),
    TRef.unary main_call2.cst main_call2.v0 (broadcastInDim S16384x128 ![] bcast_S_S16384x128),
    TRef.binary (.of main_v2) main_call2.v0 main_call2.v1 maximumf ]

/-- The references stretch 7 writes. -/
abbrev W7 : List (Ref sig .tc) := [main_v2, main_call2_cst, main_call2_v0, main_v3]

theorem c7_writes : (c7 : List (HloOp τ sig (Elt F))).Forall fun op => op.writes ⊆ (W7.map (Proc.devRef (τ := τ) .tc)).toFinset := by
  unfold c7
  simp only [List.Forall, nullary_writes, unary_writes, binary_writes, ternary_writes, Finset.singleton_subset_iff, List.mem_toFinset]
  repeat' constructor
  all_goals exact List.mem_map_of_mem (by decide)

/-- Stretch 7 leaves every reference it does not write as it was. -/
theorem keep7 (V : Valuation τ sig (Elt F)) (r : Ref sig .tc) (h : r ∉ W7) :
    after c7 V (Proc.devRef .tc r) = V (Proc.devRef .tc r) :=
  after_of_writes_sub c7 V c7_writes h

attribute [local irreducible] Host.reduce Host.gather concatenate in
/-- What stretch 7 leaves in its last result, from the contents it reads. -/
theorem c7_out (V : Valuation τ sig (Elt F)) :
    after c7 V (main_v3 : DevRef τ sig) = maximumf
        (concatenate S16384x128 1 [⟨S16384x64, V (main_v0 : DevRef τ sig)⟩, ⟨S16384x64, V (main_v1 : DevRef τ sig)⟩]
          concatenates_S16384x64_S16384x64_S16384x128_d1)
        (broadcastInDim S16384x128 ![] bcast_S_S16384x128 (constant (F := F) S_ .f32 0x00000000#32)) := by
  unfold c7
  after_results
  all_goals rfl

/-- The first matrix product, its bias, the second rectifier. -/
def c8 : List (HloOp τ sig (Elt F)) :=
  [
    binary main_v3 main_arg4 main_v4 ((fun l r => Host.dotGeneral dot_S16384x128_S128x10_S16384x10_1_0_0_1_n_n none l r) : (⟨S16384x128, .f32⟩ : BufTy).Contents (Elt F) → (⟨S128x10, .f32⟩ : BufTy).Contents (Elt F) → (⟨S16384x10, .f32⟩ : BufTy).Contents (Elt F)),
    unary main_arg5 main_v5 (broadcastInDim S1x10 ![1] bcast_S10_S1x10_1 : (⟨S10, .f32⟩ : BufTy).Contents (Elt F) → (⟨S1x10, .f32⟩ : BufTy).Contents (Elt F)),
    unary main_v5 main_v6 (broadcastInDim S16384x10 ![0, 1] bcast_S1x10_S16384x10_0_1 : (⟨S1x10, .f32⟩ : BufTy).Contents (Elt F) → (⟨S16384x10, .f32⟩ : BufTy).Contents (Elt F)),
    binary main_v4 main_v6 main_v7 (addf : (⟨S16384x10, .f32⟩ : BufTy).Contents (Elt F) → (⟨S16384x10, .f32⟩ : BufTy).Contents (Elt F) → (⟨S16384x10, .f32⟩ : BufTy).Contents (Elt F)),
    TRef.nullary main_call3.cst (constant S_ .f32 0x00000000#32),
    TRef.unary main_call3.cst main_call3.v0 (broadcastInDim S16384x10 ![] bcast_S_S16384x10),
    TRef.binary (.of main_v7) main_call3.v0 main_call3.v1 maximumf ]

/-- The references stretch 8 writes. -/
abbrev W8 : List (Ref sig .tc) := [main_v4, main_v5, main_v6, main_v7, main_call3_cst, main_call3_v0, main_v8]

theorem c8_writes : (c8 : List (HloOp τ sig (Elt F))).Forall fun op => op.writes ⊆ (W8.map (Proc.devRef (τ := τ) .tc)).toFinset := by
  unfold c8
  simp only [List.Forall, nullary_writes, unary_writes, binary_writes, ternary_writes, Finset.singleton_subset_iff, List.mem_toFinset]
  repeat' constructor
  all_goals exact List.mem_map_of_mem (by decide)

/-- Stretch 8 leaves every reference it does not write as it was. -/
theorem keep8 (V : Valuation τ sig (Elt F)) (r : Ref sig .tc) (h : r ∉ W8) :
    after c8 V (Proc.devRef .tc r) = V (Proc.devRef .tc r) :=
  after_of_writes_sub c8 V c8_writes h

attribute [local irreducible] Host.reduce Host.gather concatenate in
/-- What stretch 8 leaves in its last result, from the contents it reads. -/
theorem c8_out (V : Valuation τ sig (Elt F)) :
    after c8 V (main_v8 : DevRef τ sig) = maximumf
        (addf (Host.dotGeneral dot_S16384x128_S128x10_S16384x10_1_0_0_1_n_n none (V (main_v3 : DevRef τ sig)) (V (main_arg4 : DevRef τ sig)))
          (broadcastInDim S16384x10 ![0, 1] bcast_S1x10_S16384x10_0_1 (broadcastInDim S1x10 ![1] bcast_S10_S1x10_1 (V (main_arg5 : DevRef τ sig)))))
        (broadcastInDim S16384x10 ![] bcast_S_S16384x10 (constant (F := F) S_ .f32 0x00000000#32)) := by
  unfold c8
  after_results
  all_goals rfl

/-- The second matrix product and its bias. -/
def c9 : List (HloOp τ sig (Elt F)) :=
  [
    binary main_v8 main_arg6 main_v9 ((fun l r => Host.dotGeneral dot_S16384x10_S10x1_S16384x1_1_0_0_1_n_n none l r) : (⟨S16384x10, .f32⟩ : BufTy).Contents (Elt F) → (⟨S10x1, .f32⟩ : BufTy).Contents (Elt F) → (⟨S16384x1, .f32⟩ : BufTy).Contents (Elt F)),
    unary main_arg7 main_v10 (broadcastInDim S1x1 ![1] bcast_S1_S1x1_1 : (⟨S1, .f32⟩ : BufTy).Contents (Elt F) → (⟨S1x1, .f32⟩ : BufTy).Contents (Elt F)),
    unary main_v10 main_v11 (broadcastInDim S16384x1 ![0, 1] bcast_S1x1_S16384x1_0_1 : (⟨S1x1, .f32⟩ : BufTy).Contents (Elt F) → (⟨S16384x1, .f32⟩ : BufTy).Contents (Elt F)),
    binary main_v9 main_v11 main_v12 (addf : (⟨S16384x1, .f32⟩ : BufTy).Contents (Elt F) → (⟨S16384x1, .f32⟩ : BufTy).Contents (Elt F) → (⟨S16384x1, .f32⟩ : BufTy).Contents (Elt F)) ]

/-- The references stretch 9 writes. -/
abbrev W9 : List (Ref sig .tc) := [main_v9, main_v10, main_v11, main_v12]

theorem c9_writes : (c9 : List (HloOp τ sig (Elt F))).Forall fun op => op.writes ⊆ (W9.map (Proc.devRef (τ := τ) .tc)).toFinset := by
  unfold c9
  simp only [List.Forall, nullary_writes, unary_writes, binary_writes, ternary_writes, Finset.singleton_subset_iff, List.mem_toFinset]
  repeat' constructor
  all_goals exact List.mem_map_of_mem (by decide)

/-- Stretch 9 leaves every reference it does not write as it was. -/
theorem keep9 (V : Valuation τ sig (Elt F)) (r : Ref sig .tc) (h : r ∉ W9) :
    after c9 V (Proc.devRef .tc r) = V (Proc.devRef .tc r) :=
  after_of_writes_sub c9 V c9_writes h

attribute [local irreducible] Host.reduce Host.gather concatenate in
/-- What stretch 9 leaves in its last result, from the contents it reads. -/
theorem c9_out (V : Valuation τ sig (Elt F)) :
    after c9 V (main_v12 : DevRef τ sig) = addf (Host.dotGeneral dot_S16384x10_S10x1_S16384x1_1_0_0_1_n_n none (V (main_v8 : DevRef τ sig)) (V (main_arg6 : DevRef τ sig)))
        (broadcastInDim S16384x1 ![0, 1] bcast_S1x1_S16384x1_0_1 (broadcastInDim S1x1 ![1] bcast_S1_S1x1_1 (V (main_arg7 : DevRef τ sig)))) := by
  unfold c9
  after_results
  all_goals rfl

/-! ## The stretches in sequence -/

theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- @main's 61 operations in order: the nine stretches one after the other. -/
abbrev ops : List (HloOp τ sig (Elt F)) :=
  c1 ++ (c2 ++ (c3 ++ (c4 ++ (c5 ++ (c6 ++ (c7 ++ (c8 ++ c9)))))))

/-- A reference no stretch writes keeps its contents through the whole line. -/
theorem keep_all (V : Valuation τ sig (Elt F)) (r : Ref sig .tc) (h1 : r ∉ W1) (h2 : r ∉ W2) (h3 : r ∉ W3) (h4 : r ∉ W4)
    (h5 : r ∉ W5) (h6 : r ∉ W6) (h7 : r ∉ W7) (h8 : r ∉ W8) (h9 : r ∉ W9) :
    after ops V (Proc.devRef .tc r) = V (Proc.devRef .tc r) := by
  simp only [ops, after_app]
  rw [keep9 _ _ h9, keep8 _ _ h8, keep7 _ _ h7, keep6 _ _ h6, keep5 _ _ h5, keep4 _ _ h4, keep3 _ _ h3, keep2 _ _ h2,
    keep1 _ _ h1]

attribute [local irreducible] Host.reduce Host.gather concatenate in
/-- The fold of the operations at the result buffer is `rOut` of the contents of the argument buffers: each stretch's
    result rewritten in turn, last stretch first, and each reference a stretch only passes on carried back through it. -/
theorem out_eq (V : Valuation τ sig (Elt F)) :
    after ops V (main_v12 : DevRef τ sig)
      = rOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  simp only [ops, after_app]
  rw [c9_out]
  rw [c8_out, keep8 _ main_arg6 (by decide), keep8 _ main_arg7 (by decide)]
  rw [c7_out, keep7 _ main_arg4 (by decide), keep7 _ main_arg5 (by decide), keep7 _ main_arg6 (by decide), keep7 _ main_arg7 (by decide)]
  rw [c6_out, keep6 _ main_v0 (by decide), keep6 _ main_arg4 (by decide), keep6 _ main_arg5 (by decide), keep6 _ main_arg6 (by decide), keep6 _ main_arg7 (by decide)]
  rw [c5_out, keep5 _ main_arg3 (by decide), keep5 _ main_call1_v5 (by decide), keep5 _ main_v0 (by decide), keep5 _ main_arg4 (by decide), keep5 _ main_arg5 (by decide), keep5 _ main_arg6 (by decide), keep5 _ main_arg7 (by decide)]
  rw [c4_out, keep4 _ main_arg3 (by decide), keep4 _ main_v0 (by decide), keep4 _ main_arg4 (by decide), keep4 _ main_arg5 (by decide), keep4 _ main_arg6 (by decide), keep4 _ main_arg7 (by decide)]
  rw [c3_out, keep3 _ main_arg1 (by decide), keep3 _ main_arg3 (by decide), keep3 _ main_arg4 (by decide), keep3 _ main_arg5 (by decide), keep3 _ main_arg6 (by decide), keep3 _ main_arg7 (by decide)]
  rw [c2_out, keep2 _ main_arg2 (by decide), keep2 _ main_call0_v5 (by decide), keep2 _ main_arg1 (by decide), keep2 _ main_arg3 (by decide), keep2 _ main_arg4 (by decide), keep2 _ main_arg5 (by decide), keep2 _ main_arg6 (by decide), keep2 _ main_arg7 (by decide)]
  rw [c1_out, keep1 _ main_arg2 (by decide), keep1 _ main_arg1 (by decide), keep1 _ main_arg3 (by decide), keep1 _ main_arg4 (by decide), keep1 _ main_arg5 (by decide), keep1 _ main_arg6 (by decide), keep1 _ main_arg7 (by decide)]
  rfl

/-! ## The run -/

/-- @main is that straight line: unfolding the functions at their calls and reassociating the sequencing is
    computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  show List.Forall _ [TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S100000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select,
    binary main_v0 main_v1 main_v2 ((fun a b => concatenate S16384x128 1 [⟨S16384x64, a⟩, ⟨S16384x64, b⟩] concatenates_S16384x64_S16384x64_S16384x128_d1) : (⟨S16384x64, .f32⟩ : BufTy).Contents (Elt F) → (⟨S16384x64, .f32⟩ : BufTy).Contents (Elt F) → (⟨S16384x128, .f32⟩ : BufTy).Contents (Elt F)),
    TRef.nullary main_call2.cst (constant S_ .f32 0x00000000#32),
    TRef.unary main_call2.cst main_call2.v0 (broadcastInDim S16384x128 ![] bcast_S_S16384x128),
    TRef.binary (.of main_v2) main_call2.v0 main_call2.v1 maximumf,
    binary main_v3 main_arg4 main_v4 ((fun l r => Host.dotGeneral dot_S16384x128_S128x10_S16384x10_1_0_0_1_n_n none l r) : (⟨S16384x128, .f32⟩ : BufTy).Contents (Elt F) → (⟨S128x10, .f32⟩ : BufTy).Contents (Elt F) → (⟨S16384x10, .f32⟩ : BufTy).Contents (Elt F)),
    unary main_arg5 main_v5 (broadcastInDim S1x10 ![1] bcast_S10_S1x10_1 : (⟨S10, .f32⟩ : BufTy).Contents (Elt F) → (⟨S1x10, .f32⟩ : BufTy).Contents (Elt F)),
    unary main_v5 main_v6 (broadcastInDim S16384x10 ![0, 1] bcast_S1x10_S16384x10_0_1 : (⟨S1x10, .f32⟩ : BufTy).Contents (Elt F) → (⟨S16384x10, .f32⟩ : BufTy).Contents (Elt F)),
    binary main_v4 main_v6 main_v7 (addf : (⟨S16384x10, .f32⟩ : BufTy).Contents (Elt F) → (⟨S16384x10, .f32⟩ : BufTy).Contents (Elt F) → (⟨S16384x10, .f32⟩ : BufTy).Contents (Elt F)),
    TRef.nullary main_call3.cst (constant S_ .f32 0x00000000#32),
    TRef.unary main_call3.cst main_call3.v0 (broadcastInDim S16384x10 ![] bcast_S_S16384x10),
    TRef.binary (.of main_v7) main_call3.v0 main_call3.v1 maximumf,
    binary main_v8 main_arg6 main_v9 ((fun l r => Host.dotGeneral dot_S16384x10_S10x1_S16384x1_1_0_0_1_n_n none l r) : (⟨S16384x10, .f32⟩ : BufTy).Contents (Elt F) → (⟨S10x1, .f32⟩ : BufTy).Contents (Elt F) → (⟨S16384x1, .f32⟩ : BufTy).Contents (Elt F)),
    unary main_arg7 main_v10 (broadcastInDim S1x1 ![1] bcast_S1_S1x1_1 : (⟨S1, .f32⟩ : BufTy).Contents (Elt F) → (⟨S1x1, .f32⟩ : BufTy).Contents (Elt F)),
    unary main_v10 main_v11 (broadcastInDim S16384x1 ![0, 1] bcast_S1x1_S16384x1_0_1 : (⟨S1x1, .f32⟩ : BufTy).Contents (Elt F) → (⟨S16384x1, .f32⟩ : BufTy).Contents (Elt F)),
    binary main_v9 main_v11 main_v12 (addf : (⟨S16384x1, .f32⟩ : BufTy).Contents (Elt F) → (⟨S16384x1, .f32⟩ : BufTy).Contents (Elt F) → (⟨S16384x1, .f32⟩ : BufTy).Contents (Elt F))]
  exact ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

/-- On every device, for any float values, from any memory with zero counters: every weakly fair execution of @main
    terminates with the result at `rOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v12).trans (out_eq _),
      (h c main_arg0).trans (keep_all _ main_arg0 (by decide) (by decide) (by decide) (by decide) (by decide) (by decide) (by decide) (by decide) (by decide)),
      (h c main_arg1).trans (keep_all _ main_arg1 (by decide) (by decide) (by decide) (by decide) (by decide) (by decide) (by decide) (by decide) (by decide)),
      (h c main_arg2).trans (keep_all _ main_arg2 (by decide) (by decide) (by decide) (by decide) (by decide) (by decide) (by decide) (by decide) (by decide)),
      (h c main_arg3).trans (keep_all _ main_arg3 (by decide) (by decide) (by decide) (by decide) (by decide) (by decide) (by decide) (by decide) (by decide)),
      (h c main_arg4).trans (keep_all _ main_arg4 (by decide) (by decide) (by decide) (by decide) (by decide) (by decide) (by decide) (by decide) (by decide)),
      (h c main_arg5).trans (keep_all _ main_arg5 (by decide) (by decide) (by decide) (by decide) (by decide) (by decide) (by decide) (by decide) (by decide)),
      (h c main_arg6).trans (keep_all _ main_arg6 (by decide) (by decide) (by decide) (by decide) (by decide) (by decide) (by decide) (by decide) (by decide)),
      (h c main_arg7).trans (keep_all _ main_arg7 (by decide) (by decide) (by decide) (by decide) (by decide) (by decide) (by decide) (by decide) (by decide))⟩)
    (run_seq scopedRefs_eq scopedSems_eq defs main (fun _ => ops) main_eq (fun _ => ops_sub) m ρ)

end Cert.ReferenceIdeal.RefRun

end
-- ==== Proof.RefValue.lean ====
/-
  The reference's composed operations are the specification, index by index, at the exact instance and where every
  index names a row of its table.

  A table lookup first wraps a negative index (an index that is not negative is kept), then gathers with the start
  index clamped into the table (an index inside the table is kept), then blanks the rows whose index lies outside
  [0, rows - 1] (none does); so its row for sample `b` is the table's row at the index word's natural number. The
  concatenation reads the user's row in columns 0–63 and the item's row, 64 columns to the left, in columns 64–127; the
  rectifier is the maximum with the zero word, which is the real number zero; each matrix product at an entry is the
  sum over the one contracted coordinate of the products of the entries; a bias broadcast along the samples reads its
  entry at the column.
-/
import proofs.«214512_g89103391522852_cont_sun_m_1157_25_alg».proof.Proof.RefTerm
import proofs.«214512_g89103391522852_cont_sun_m_1157_25_alg».proof.Proof.Spec
import Idealize.ShloMosaic.Lib.ValueIdx
import Idealize.ShloMosaic.Lib.Pipeline.Value
import Idealize.ShloMosaic.Lib.StackMember
import Idealize.ShloMosaic.Lib.ReduceAll
import Idealize.ShloMosaic.PureOps.Ideal.Laws

noncomputable section

namespace Cert.ReferenceIdeal.RefValue

open Cert.ReferenceIdeal Cert.ReferenceIdeal.Gen Cert.ReferenceIdeal.RefTerm
open Idealize.ShloMosaic Idealize.ShloMosaic.ValueIdx Idealize.ShloMosaic.StackMember
open scoped BigOperators

/-! ## Words -/

theorem toInt_zero : (0#32 : BitVec 32).toInt = 0 := by decide

/-- A word that is not negative does not test below zero. -/
theorem slt_zero_of_nonneg (w : BitVec 32) (h : 0 ≤ w.toInt) : IntOp.cmpi .slt w 0#32 = 0#1 :=
  eq_zero_of_ne_one fun e => by
    have := IntOp.cmpi_slt.1 e
    rw [toInt_zero] at this
    omega

/-- A left fold by `and` from 1 over ones is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-! ## The index column and the range mask -/

/-- The index column at sample `b` is the index itself when the index is not negative. -/
theorem idxCol_apply (N : BitVec 32) (i : IVec S16384 32) (b : Fin 16384) (z : Fin 1) (h : 0 ≤ (i (ix1 b)).toInt) :
    idxCol N i (ix2 b z) = i (ix1 b) := by
  unfold idxCol
  refine (broadcastInDim_apply _ _ _ (ix2 b z) (ix1 b) (fun a => ?_)).trans ?_
  · match a with
    | ⟨0, _⟩ => rfl
  · show Scalar.select (IntOp.cmpi .slt (i (ix1 b)) 0#32) _ (i (ix1 b)) = _
    rw [slt_zero_of_nonneg _ h, select_zero]

/-- The range mask is 1 at every sample when every entry of the column lies in [0, M]. -/
theorem inRange_eq_one (M : BitVec 32) (col : IVec S16384x1 32)
    (hcol : ∀ i, 0 ≤ (col i).toInt ∧ (col i).toInt ≤ M.toInt) (j : S16384.Idx) : inRange M col j = 1#1 := by
  unfold inRange
  rw [Host.reduce_eq_foldl]
  refine foldl_andi_one _ _ fun i _ => ?_
  show IntOp.andi (IntOp.cmpi .sge (col i) 0#32) (IntOp.cmpi .sle (col i) M) = 1#1
  exact IntOp.andi_eq_one.2 ⟨IntOp.cmpi_sge.2 (by rw [toInt_zero]; exact (hcol i).1), IntOp.cmpi_sle.2 (hcol i).2⟩

/-! ## A row gather at an index -/

section Gather
variable {α : Type}

/-- The dimension numbers of a row gather: operand `[N, 64]`, start indices `[R, 1]`, result `[R, 64]`; the one start
    component names the row, the row axis is collapsed, the 64 columns are the slice. -/
abbrev rowDims (N R : Nat)
    (wf : GatherDims.WF ⟨2, ![N, 64]⟩ ⟨2, ![R, 1]⟩ ⟨2, ![R, 64]⟩ [1] [0] [] [0] [] 1 ![1, 64]) :
    GatherDims ⟨2, ![N, 64]⟩ ⟨2, ![R, 1]⟩ ⟨2, ![R, 64]⟩ where
  offsetDims := [1]
  collapsedSliceDims := [0]
  operandBatchingDims := []
  startIndicesBatchingDims := []
  startIndexMap := [0]
  indexVectorDim := 1
  sliceSizes := ![1, 64]
  wf := wf

/-- The row gather read at `(b, k)`: column `k` of the operand's row at the start index `idx[b, 0]`, read signed and
    clamped into `[0, N − 1]`. -/
theorem gather_rows_apply {N R w : Nat} (hN : 0 < N)
    (wf : GatherDims.WF ⟨2, ![N, 64]⟩ ⟨2, ![R, 1]⟩ ⟨2, ![R, 64]⟩ [1] [0] [] [0] [] 1 ![1, 64])
    (x : (⟨2, ![N, 64]⟩ : Shape).Idx → α) (idx : IVec ⟨2, ![R, 1]⟩ w) (b : Fin R) (k : Fin 64) :
    Host.gather (rowDims N R wf) x idx (ix2 b k)
      = x (ix2 ⟨min (idx (ix2 b (0 : Fin 1))).toInt.toNat (N - 1), by omega⟩ k) := by
  unfold Host.gather
  congr 1
  funext a
  refine Fin.ext ?_
  match a with
  | ⟨0, _⟩ =>
    show (rowDims N R wf).start (ix2 b k) idx 0 + (rowDims N R wf).batchCoord (ix2 b k) 0
      + (rowDims N R wf).offCoord (ix2 b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R wf).startIndexMap from List.mem_singleton.mpr rfl)]
    have hsi : (rowDims N R wf).siIdx (ix2 b k) ⟨List.idxOf (0 : Fin 2) (rowDims N R wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show (rowDims N R wf).start (ix2 b k) idx 1 + (rowDims N R wf).batchCoord (ix2 b k) 1
      + (rowDims N R wf).offCoord (ix2 b k) 1 = k.val
    rw [GatherDims.batchCoord_eq_zero _ _ _ List.not_mem_nil]
    unfold GatherDims.start
    rw [dif_neg (show (1 : Fin 2) ∉ ([0] : List (Fin 2)) from by decide)]
    simp only [Nat.add_zero, Nat.zero_add]
    rfl

end Gather

/-! ## The lookups -/

theorem gatherUser_eq : gather_S1000000x64_S16384x1_S16384x64_1_0_n_n_0_1_164
    = rowDims 1000000 16384 gather_S1000000x64_S16384x1_S16384x64_1_0_n_n_0_1_164_wf := rfl
theorem gatherItem_eq : gather_S100000x64_S16384x1_S16384x64_1_0_n_n_0_1_164
    = rowDims 100000 16384 gather_S100000x64_S16384x1_S16384x64_1_0_n_n_0_1_164_wf := rfl

/-- A word in [0, n] signed, clamped to n as a natural number read signed, is its natural number. -/
theorem clamp_eq (w : BitVec 32) (n : Nat) (h0 : 0 ≤ w.toInt) (h1 : w.toInt ≤ (n : Int)) :
    min w.toInt.toNat n = w.toNat := by
  have e : w.toInt = (w.toNat : Int) := BitVec.toInt_eq_toNat_of_lt (BitVec.toInt_pos_iff.1 h0)
  rw [e] at h1 ⊢
  rw [Int.toNat_natCast]
  exact Nat.min_eq_left (Int.ofNat_le.1 h1)

/-- The user lookup at `(b, k)` is entry `k` of the user table's row at the index word's natural number. -/
theorem lookupUser_apply (t : FVec Ideal S1000000x64 .f32) (i : IVec S16384 32)
    (hi : ∀ b, 0 ≤ (i b).toInt ∧ (i b).toInt ≤ 999999) (b : Fin 16384) (k : Fin 64) :
    lookupUser t i (ix2 b k) = Cert.Spec.row 1000000 t (i (ix1 b)) k := by
  have hcol : ∀ j, 0 ≤ (idxCol 1000000#32 i j).toInt ∧ (idxCol 1000000#32 i j).toInt ≤ (999999#32 : BitVec 32).toInt := by
    intro j
    obtain ⟨p, q, rfl⟩ : ∃ (p : Fin 16384) (q : Fin 1), j = ix2 p q := ⟨j 0, j 1, eq_ix2 j⟩
    rw [idxCol_apply _ _ _ _ (hi _).1, show (999999#32 : BitVec 32).toInt = 999999 from by decide]
    exact hi _
  have hm : inRange 999999#32 (idxCol 1000000#32 i) (ix1 b) = 1#1 := inRange_eq_one _ _ hcol _
  have hlt : (i (ix1 b)).toNat < 1000000 := by
    have := clamp_eq (i (ix1 b)) 999999 (hi _).1 (hi _).2
    omega
  unfold lookupUser Cert.Spec.row
  rw [dif_pos hlt]
  show Scalar.select (broadcastInDim S16384x64 ![0] bcast_S16384_S16384x64_0 (inRange 999999#32 (idxCol 1000000#32 i)) (ix2 b k))
    (Host.gather gather_S1000000x64_S16384x1_S16384x64_1_0_n_n_0_1_164 t (idxCol 1000000#32 i) (ix2 b k)) _ = _
  rw [broadcastInDim_apply _ _ _ (ix2 b k) (ix1 b) (fun a => by match a with | ⟨0, _⟩ => rfl), hm, select_one,
    gatherUser_eq, gather_rows_apply (by decide)]
  refine congrArg t (congrArg (fun r => ix2 r k) (Fin.ext ?_))
  show min (idxCol 1000000#32 i (ix2 b (0 : Fin 1))).toInt.toNat 999999 = (i (ix1 b)).toNat
  rw [idxCol_apply _ _ _ _ (hi _).1]
  exact clamp_eq _ 999999 (hi _).1 (hi _).2

/-- The item lookup at `(b, k)` is entry `k` of the item table's row at the index word's natural number. -/
theorem lookupItem_apply (t : FVec Ideal S100000x64 .f32) (i : IVec S16384 32)
    (hi : ∀ b, 0 ≤ (i b).toInt ∧ (i b).toInt ≤ 99999) (b : Fin 16384) (k : Fin 64) :
    lookupItem t i (ix2 b k) = Cert.Spec.row 100000 t (i (ix1 b)) k := by
  have hcol : ∀ j, 0 ≤ (idxCol 100000#32 i j).toInt ∧ (idxCol 100000#32 i j).toInt ≤ (99999#32 : BitVec 32).toInt := by
    intro j
    obtain ⟨p, q, rfl⟩ : ∃ (p : Fin 16384) (q : Fin 1), j = ix2 p q := ⟨j 0, j 1, eq_ix2 j⟩
    rw [idxCol_apply _ _ _ _ (hi _).1, show (99999#32 : BitVec 32).toInt = 99999 from by decide]
    exact hi _
  have hm : inRange 99999#32 (idxCol 100000#32 i) (ix1 b) = 1#1 := inRange_eq_one _ _ hcol _
  have hlt : (i (ix1 b)).toNat < 100000 := by
    have := clamp_eq (i (ix1 b)) 99999 (hi _).1 (hi _).2
    omega
  unfold lookupItem Cert.Spec.row
  rw [dif_pos hlt]
  show Scalar.select (broadcastInDim S16384x64 ![0] bcast_S16384_S16384x64_0 (inRange 99999#32 (idxCol 100000#32 i)) (ix2 b k))
    (Host.gather gather_S100000x64_S16384x1_S16384x64_1_0_n_n_0_1_164 t (idxCol 100000#32 i) (ix2 b k)) _ = _
  rw [broadcastInDim_apply _ _ _ (ix2 b k) (ix1 b) (fun a => by match a with | ⟨0, _⟩ => rfl), hm, select_one,
    gatherItem_eq, gather_rows_apply (by decide)]
  refine congrArg t (congrArg (fun r => ix2 r k) (Fin.ext ?_))
  show min (idxCol 100000#32 i (ix2 b (0 : Fin 1))).toInt.toNat 99999 = (i (ix1 b)).toNat
  rw [idxCol_apply _ _ _ _ (hi _).1]
  exact clamp_eq _ 99999 (hi _).1 (hi _).2

/-! ## The features, the hidden layer, the result -/

theorem dot1_eq : dot_S16384x128_S128x10_S16384x10_1_0_0_1_n_n = DotDims.plain 16384 128 10 := rfl
theorem dot2_eq : dot_S16384x10_S10x1_S16384x1_1_0_0_1_n_n = DotDims.plain 16384 10 1 := rfl

/-- The rectified features are the specification's. -/
theorem rFeat_apply (a0 a1 : IVec S16384 32) (a2 : FVec Ideal S1000000x64 .f32) (a3 : FVec Ideal S100000x64 .f32)
    (h0 : ∀ b, 0 ≤ (a0 b).toInt ∧ (a0 b).toInt ≤ 999999) (h1 : ∀ b, 0 ≤ (a1 b).toInt ∧ (a1 b).toInt ≤ 99999)
    (b : Fin 16384) (k : Fin 128) : rFeat a0 a1 a2 a3 (ix2 b k) = Cert.Spec.feat a0 a1 a2 a3 b k := by
  unfold rFeat Cert.Spec.feat
  show max (concatenate S16384x128 1 [⟨S16384x64, lookupUser a2 a0⟩, ⟨S16384x64, lookupItem a3 a1⟩]
      concatenates_S16384x64_S16384x64_S16384x128_d1 (ix2 b k)) (Ideal.ofBits .f32 0x00000000#32) = _
  rw [Ideal.ofBits_zero_f32]
  refine congrArg (fun v => max v (0 : EReal)) ?_
  by_cases hk : k.val < 64
  · rw [dif_pos hk]
    refine (concatenate_pair_apply_left (t := S16384x128) (s₁ := S16384x64) (s₂ := S16384x64) 1 (lookupUser a2 a0)
      (lookupItem a3 a1) concatenates_S16384x64_S16384x64_S16384x128_d1 (ix2 b k) rfl
      (ix2 b (⟨k.val, hk⟩ : Fin 64)) (fun c => ?_)).trans (lookupUser_apply a2 a0 h0 b ⟨k.val, hk⟩)
    match c with
    | ⟨0, _⟩ => rfl
    | ⟨1, _⟩ => rfl
  · rw [dif_neg hk]
    have hk' : k.val - 64 < 64 := by have := k.isLt; omega
    refine (concatenate_pair_apply_right (t := S16384x128) (s₁ := S16384x64) (s₂ := S16384x64) 1 (lookupUser a2 a0)
      (lookupItem a3 a1) concatenates_S16384x64_S16384x64_S16384x128_d1 (ix2 b k) rfl rfl
      (ix2 b (⟨k.val - 64, hk'⟩ : Fin 64)) (fun c hc => ?_) ?_).trans (lookupItem_apply a3 a1 h1 b ⟨k.val - 64, hk'⟩)
    · match c with
      | ⟨0, _⟩ => rfl
      | ⟨1, _⟩ => exact absurd rfl hc
    · show (k.val - 64) + 64 = k.val
      omega

/-- The hidden layer is the specification's. -/
theorem rHidden_apply (a0 a1 : IVec S16384 32) (a2 : FVec Ideal S1000000x64 .f32) (a3 : FVec Ideal S100000x64 .f32)
    (a4 : FVec Ideal S128x10 .f32) (a5 : FVec Ideal S10 .f32)
    (h0 : ∀ b, 0 ≤ (a0 b).toInt ∧ (a0 b).toInt ≤ 999999) (h1 : ∀ b, 0 ≤ (a1 b).toInt ∧ (a1 b).toInt ≤ 99999)
    (b : Fin 16384) (h : Fin 10) : rHidden a0 a1 a2 a3 a4 a5 (ix2 b h) = Cert.Spec.hidden a0 a1 a2 a3 a4 a5 b h := by
  unfold rHidden Cert.Spec.hidden
  show max (Host.dotGeneral dot_S16384x128_S128x10_S16384x10_1_0_0_1_n_n none (rFeat a0 a1 a2 a3) a4 (ix2 b h)
      + broadcastInDim S16384x10 ![0, 1] bcast_S1x10_S16384x10_0_1 (broadcastInDim S1x10 ![1] bcast_S10_S1x10_1 a5) (ix2 b h))
    (Ideal.ofBits .f32 0x00000000#32) = _
  rw [Ideal.ofBits_zero_f32, dot1_eq, dotGeneral_plain_apply,
    broadcastInDim_apply _ _ _ (ix2 b h) (ix2 (0 : Fin 1) h) (fun a => by match a with | ⟨0, _⟩ => rfl | ⟨1, _⟩ => rfl),
    broadcastInDim_apply _ _ _ (ix2 (0 : Fin 1) h) (ix1 h) (fun a => by match a with | ⟨0, _⟩ => rfl)]
  refine congrArg (fun v => max (v + a5 (ix1 h)) (0 : EReal)) (Finset.sum_congr rfl fun k _ => ?_)
  rw [rFeat_apply a0 a1 a2 a3 h0 h1 b k]

/-- The result is the specification's score. -/
theorem rOut_apply (a0 a1 : IVec S16384 32) (a2 : FVec Ideal S1000000x64 .f32) (a3 : FVec Ideal S100000x64 .f32)
    (a4 : FVec Ideal S128x10 .f32) (a5 : FVec Ideal S10 .f32) (a6 : FVec Ideal S10x1 .f32) (a7 : FVec Ideal S1 .f32)
    (h0 : ∀ b, 0 ≤ (a0 b).toInt ∧ (a0 b).toInt ≤ 999999) (h1 : ∀ b, 0 ≤ (a1 b).toInt ∧ (a1 b).toInt ≤ 99999)
    (b : Fin 16384) (z : Fin 1) :
    rOut a0 a1 a2 a3 a4 a5 a6 a7 (ix2 b z) = Cert.Spec.score a0 a1 a2 a3 a4 a5 a6 a7 b := by
  obtain rfl : z = 0 := Subsingleton.elim _ _
  unfold rOut Cert.Spec.score
  show Host.dotGeneral dot_S16384x10_S10x1_S16384x1_1_0_0_1_n_n none (rHidden a0 a1 a2 a3 a4 a5) a6 (ix2 b 0)
      + broadcastInDim S16384x1 ![0, 1] bcast_S1x1_S16384x1_0_1 (broadcastInDim S1x1 ![1] bcast_S1_S1x1_1 a7) (ix2 b 0) = _
  rw [dot2_eq, dotGeneral_plain_apply,
    broadcastInDim_apply _ _ _ (ix2 b (0 : Fin 1)) (ix2 (0 : Fin 1) (0 : Fin 1)) (fun a => by match a with | ⟨0, _⟩ => rfl | ⟨1, _⟩ => rfl),
    broadcastInDim_apply _ _ _ (ix2 (0 : Fin 1) (0 : Fin 1)) (ix1 (0 : Fin 1)) (fun a => by match a with | ⟨0, _⟩ => rfl)]
  refine congrArg (fun v => v + a7 (ix1 (0 : Fin 1))) (Finset.sum_congr rfl fun k _ => ?_)
  rw [rHidden_apply a0 a1 a2 a3 a4 a5 h0 h1 b k]

/-- THE REFERENCE'S RESULT IS THE SPECIFICATION, where every index names a row of its table. -/
theorem rOut_eq_G (a0 a1 : IVec S16384 32) (a2 : FVec Ideal S1000000x64 .f32) (a3 : FVec Ideal S100000x64 .f32)
    (a4 : FVec Ideal S128x10 .f32) (a5 : FVec Ideal S10 .f32) (a6 : FVec Ideal S10x1 .f32) (a7 : FVec Ideal S1 .f32)
    (h0 : ∀ b, 0 ≤ (a0 b).toInt ∧ (a0 b).toInt ≤ 999999) (h1 : ∀ b, 0 ≤ (a1 b).toInt ∧ (a1 b).toInt ≤ 99999) :
    rOut a0 a1 a2 a3 a4 a5 a6 a7 = Cert.Spec.G a0 a1 a2 a3 a4 a5 a6 a7 := by
  funext j
  obtain ⟨b, z, rfl⟩ : ∃ (b : Fin 16384) (z : Fin 1), j = ix2 b z := ⟨j 0, j 1, eq_ix2 j⟩
  exact rOut_apply a0 a1 a2 a3 a4 a5 a6 a7 h0 h1 b z

end Cert.ReferenceIdeal.RefValue

end
-- ==== Proof.RefClaims.lean ====
/-
  The reference side of the certificate, as cited by the assembly: under the input-domain predicate the reference
  program runs to the end, leaves its eight argument arrays unchanged, and ends with its result array equal to the
  specification `Cert.Spec.G` of the argument arrays. The run gives the result as the composition of the program's
  operations; the predicate gives every user index in [0, 999999] and every item index in [0, 99999]; under those
  ranges the composition is the specification. The frame claim is the same run with the value dropped.
-/
import proofs.«214512_g89103391522852_cont_sun_m_1157_25_alg».proof.Defs
import proofs.«214512_g89103391522852_cont_sun_m_1157_25_alg».proof.Proof.Gen.ReferenceIdeal
import proofs.«214512_g89103391522852_cont_sun_m_1157_25_alg».proof.Proof.Gen.Pre_input_domain
import proofs.«214512_g89103391522852_cont_sun_m_1157_25_alg».proof.Proof.Spec
import proofs.«214512_g89103391522852_cont_sun_m_1157_25_alg».proof.Proof.PreDecode
import proofs.«214512_g89103391522852_cont_sun_m_1157_25_alg».proof.Proof.RefRun
import proofs.«214512_g89103391522852_cont_sun_m_1157_25_alg».proof.Proof.RefValue

noncomputable section

namespace Cert.RefClaims

open Idealize.ShloMosaic Idealize.SL.Sem Cert.ReferenceIdeal

/-- Under the input-domain predicate the reference runs, ends with its result at the specification of its arguments,
    and leaves its arguments unchanged. -/
theorem ref_run (m : (ℓ : Loc nD τ sig) → Buf (Elt Ideal) ℓ) (g : Dev nD → PrngReg) (hpre : Cert.Pre_ReferenceIdeal m) :
    θ_run (defs (F := Ideal)) (onTc (τ := τ) (main (F := Ideal))) ⟨m, fun _ => 0, g⟩ (fun r => ∀ c : Dev nD,
      r.2.mem ((c.tc : Thread nD τ).loc main_v12) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => ⟨(h c).1.trans
      (Cert.ReferenceIdeal.RefValue.rOut_eq_G _ _ _ _ _ _ _ _
        (Cert.PreDecode.user_lt (F := Ideal) _ _ _ _ _ _ _ _ (hpre c))
        (Cert.PreDecode.item_lt (F := Ideal) _ _ _ _ _ _ _ _ (hpre c))), (h c).2⟩)
    (Cert.ReferenceIdeal.RefRun.run (F := Ideal) m g)

/-- The reference's frame claim: it runs and leaves its arguments unchanged. -/
theorem frame_ref : Cert.frame_ReferenceIdeal := fun m g hpre =>
  (θ_run _ _ _).mono (fun _ h c => (h c).2) (ref_run m g hpre)

end Cert.RefClaims

end
-- ==== Proof.KAlg.lean ====
/-
  The fifth conjunct, reduced to the one statement about the kernel that it rests on.

  Both programs compute the function `Cert.Spec.G` of their eight argument arrays. For the reference this is proved
  (`Cert.RefClaims.ref_run`). For the kernel it is stated here as `KernelValue`: under the precondition every weakly
  fair execution of the idealized kernel's threads ends, faulting nowhere, with the result array equal to `Spec.G` of
  the argument arrays and the arguments unchanged. From it the comparison follows: the two memories agree on the
  arguments, so the precondition passes from the kernel's memory to the reference's, the common result is `Spec.G` of
  the kernel's arguments, and the reference's result is rewritten to it along the agreement.
-/
import proofs.«214512_g89103391522852_cont_sun_m_1157_25_alg».proof.Defs
import proofs.«214512_g89103391522852_cont_sun_m_1157_25_alg».proof.Proof.Spec
import proofs.«214512_g89103391522852_cont_sun_m_1157_25_alg».proof.Proof.RefClaims
import proofs.«214512_g89103391522852_cont_sun_m_1157_25_alg».proof.Proof.Gen.KernelIdeal
import proofs.«214512_g89103391522852_cont_sun_m_1157_25_alg».proof.Proof.Gen.ReferenceIdeal
import proofs.«214512_g89103391522852_cont_sun_m_1157_25_alg».proof.Proof.Gen.Pre_input_domain

noncomputable section

namespace Cert.Proof

open Idealize.ShloMosaic Idealize.SL.Sem

/-- The kernel's run with its result named: under the precondition every weakly fair execution of the idealized
    kernel's threads ends, faulting nowhere, with the result array the function `Spec.G` of the argument arrays and the
    arguments unchanged. -/
def KernelValue : Prop :=
  ∀ (m : (ℓ : Loc Cert.KernelIdeal.nD Cert.KernelIdeal.τ Cert.KernelIdeal.sig) → Buf (Elt Ideal) ℓ) (g : Dev Cert.KernelIdeal.nD → PrngReg), Cert.Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v5) = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

/-- The comparison of the idealized kernel with the reference, from the kernel's run with its result named. -/
theorem algebraic_of_value (hval : KernelValue) : Cert.algebraic_KernelIdeal_ReferenceIdeal := by
  intro m g m' g' hpre hagree
  have hpre' : Cert.Pre_ReferenceIdeal m' := by
    intro c
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact hpre c
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), hval m g hpre, ?_⟩
  refine (θ_run Cert.ReferenceIdeal.defs _ _).mono (fun _ h c => ⟨(h c).1.trans ?_, (h c).2⟩) (Cert.RefClaims.ref_run m' g' hpre')
  rw [(hagree c).1, (hagree c).2.1, (hagree c).2.2.1, (hagree c).2.2.2.1, (hagree c).2.2.2.2.1, (hagree c).2.2.2.2.2.1, (hagree c).2.2.2.2.2.2.1, (hagree c).2.2.2.2.2.2.2]

end Cert.Proof

end
-- ==== Proof.KSetup.lean ====
/-
  The idealized kernel as the SparseCore launch theorem reads it: the call's configuration, the body table
  beneath it, the side conditions the launch asks of the four handshake semaphores, and the ghost state — the
  handshakes' rounds beside a copy of the exclusive counters, which is all a kernel needs whose tiles only
  start copies of their own and wait for them.
-/
import proofs.«214512_g89103391522852_cont_sun_m_1157_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Ring
import Idealize.ShloMosaic.Lib.Tactic
import proofs.«214512_g89103391522852_cont_sun_m_1157_25_alg».proof.Proof.Gen.KernelIdeal
import proofs.«214512_g89103391522852_cont_sun_m_1157_25_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the counters are found by instance in the right. -/
abbrev EH : Emb UH (MT nD τ sig (HIx 1) (Elt F) ℕ UU ℕ) := embL

/-! ## A tile, its coordinates and its place in the batch -/

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

end Cert.Proof.KI

end
-- ==== Proof.KPay.lean ====
/-
  What each tile is handed and what it owes back, stated once for a tile at symbolic coordinates `L`.

  A tile only reads the two index arrays, the two embedding tables and the packed parameters, so it is handed a READ
  SHARE of each of them whole (a share of a share: SparseCore `c`'s token, then tile `i`'s token of that), and it is
  handed outright the 512 entries of the result that it alone writes (entries `1024·s + 512·c …` for tile `(c, s)`).
  The read shares are not asked back: the TensorCore keeps a residual share of every argument, which is enough to read
  the arguments off the final memory unchanged. The 512 result entries do come back, at whatever the tile left in them:
  the host's last operation reads the result whole.
-/
import proofs.«214512_g89103391522852_cont_sun_m_1157_25_alg».proof.Proof.KSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The arrays the kernel touches, as locations of device `d`: the two index arrays, the two tables, the packed
    parameters, the result. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev pLoc (d : Dev nD) : Loc nD τ sig := (SparseCore.T d).loc main_v3
abbrev oLoc (d : Dev nD) : Loc nD τ sig := (SparseCore.T d).loc main_v4

/-- SparseCore `c`'s read share of an array held whole, and tile `i`'s read share of that. -/
abbrev qC (c : ℕ) : PosShare TreeShare := Transfers.shareTokN fullShare c
abbrev qT (c i : ℕ) : PosShare TreeShare := Transfers.shareTokN (qC c) i

/-- The thread of the tile at coordinates `L`. -/
abbrev thr (d : Dev nD) (L : grid0.Coords) : Thread nD τ := V d (cV L) (jV L)

/-- The 512 entries of the result that the tile at `L` writes, as the kernel slices them. -/
def outSl (L : grid0.Coords) : Memref sig .scVector .hbm S512 .f32 :=
  (Memref.whole main_v4_scv : Memref sig .scVector .hbm S16384 .f32).slice (Rect.unit (s := S16384) (k0_off315 L) S512.size (k0_off315_inb L)) (fun _ => rfl)

/-- What the tile at `L` is handed. -/
def goRes (d : Dev nD) (L : grid0.Coords) : sProp 𝕄 :=
  iprop((a0Loc d ↦{qT (L 0).val (L 1).val} m (a0Loc d)) ∗ (a1Loc d ↦{qT (L 0).val (L 1).val} m (a1Loc d))
    ∗ (a2Loc d ↦{qT (L 0).val (L 1).val} m (a2Loc d)) ∗ (a3Loc d ↦{qT (L 0).val (L 1).val} m (a3Loc d))
    ∗ (∃ fp, pLoc d ↦{qT (L 0).val (L 1).val} fp) ∗ (∃ fo, oLoc d ↦[(outSl L).view.set]{fullShare} fo))

/-- What the tile at `L` hands back: its 512 entries of the result, at whatever it left in them. -/
def tdRes (d : Dev nD) (L : grid0.Coords) : sProp 𝕄 := iprop(∃ fo, oLoc d ↦[(outSl L).view.set]{fullShare} fo)

/-- The coordinates of task `i` of SparseCore `c` of the call's grid. -/
abbrev Ltile (c : Fin ((K (F := F)).nCore 0)) (i : Fin ((K (F := F)).nSub 0)) : grid0.Coords := coordsV ⟨c.val, c.isLt⟩ ⟨i.val, i.isLt⟩

/-- What the proof asks of the launch memory: every word of the two index arrays names a row of its table. -/
def PreOK : Prop := ∀ (d : Dev nD) (b : S16384.Idx), (m (a0Loc d) b).toNat < 1000000 ∧ (m (a1Loc d) b).toNat < 100000

/-- The one call: a SparseCore is handed its sixteen tiles' shares, a tile its own; the result entries come back. -/
def P : (K (F := F)).Pay (nD := nD) (Val := Elt F) (Name := ℕ) (U := UU) where
  st := fun q d c => match q with | 0 => bigSep Finset.univ fun i : Fin ((K (F := F)).nSub 0) => goRes m d (Ltile c i)
  dn := fun q d c => match q with | 0 => bigSep Finset.univ fun i : Fin ((K (F := F)).nSub 0) => tdRes (F := F) d (Ltile c i)
  go := fun q d c i => match q with | 0 => goRes m d (Ltile c i)
  td := fun q d c i => match q with | 0 => tdRes (F := F) d (Ltile c i)
  x := fun _ _ => iprop(emp)

variable [FloatOps F]

/-- The kernel's function on the tile at `L`, over the whole arrays and the tile's own scratch, as the body table
    applies it. -/
abbrev tileProg (L : grid0.Coords) : Prog (TpuEff nD τ sig (Elt F) Λ₀ (.scVector ((L 0).castLE hcore0) ((L 1).castLE hsub0))) PUnit :=
  cc0__fwd L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3

/-- The tile's task, once, at symbolic coordinates: from its share, its own scratch and semaphores (all at zero) and
    what it owes the launch, the kernel's function runs to the end, faulting nowhere, and leaves its result entries, the
    scratch and the semaphores as a later call would need them, and the debts untouched. -/
def TileBody : Prop :=
  PreOK m → ∀ (d : Dev nD) (L : grid0.Coords) (O : CellTallies nD τ sig (HIx 1)) (W : Waits sig (HIx 1)), (∀ g, O g none = 0) →
    (iprop(levAts (K (F := F)).L (K (F := F)).lev ∗ goRes m d L ∗ scopedBufs (thr d L) ∗ scopedSems0 (thr d L) ∗ owes (thr d L) O W) : sProp 𝕄)
      ⊢ wp frame (wpE (defs₀ (F := F)) 𝒱₀ (thr d L) none) Set.univ (tileProg (F := F) L)
          fun _ => iprop(tdRes d L ∗ scopedBufs (thr d L) ∗ scopedSems0 (thr d L) ∗ ∃ W', ⌜∀ p ∈ W', p ∈ W ∨ p.2 = none⌝ ∗ owes (thr d L) O W')

end Cert.Proof.KI

end
-- ==== Proof.KLaunch.lean ====
/-
  The launch side of the idealized kernel's frame. Given the tile's body once, at symbolic coordinates, the whole
  program — @main on the TensorCore, the two sequencers, the thirty-two tiles — runs to the end from any launch memory
  whose two index arrays name rows of their tables, faulting nowhere, and leaves the eight arguments as they were.

  In order: the payloads may be kept in the handshake cells' invariants; a tile's task is the body at that tile's
  coordinates; what a SparseCore is handed is what its sixteen tiles are handed, and what they hand back is what it
  hands back; the launch element needs only the handshakes' rounds; then @main — five host operations, the call, a
  reshape. For the call each of the four read-only arrays and the packed parameters splits into a read share per tile
  (a residual share stays on the TensorCore), and the result, held whole, into the thirty-two slices of 512 entries
  that the tiles write — tile (c, s) from entry 1024·s + 512·c on: pairwise disjoint, and together all 16384 entries.
  The tiles hand their slices back, so the reshape after the call finds the result whole again. The arguments are read
  off the final memory from the shares @main still holds.
-/
import proofs.«214512_g89103391522852_cont_sun_m_1157_25_alg».proof.Proof.KPay
import proofs.«214512_g89103391522852_cont_sun_m_1157_25_alg».proof.Proof.PreDecode
import proofs.«214512_g89103391522852_cont_sun_m_1157_25_alg».proof.Proof.Gen.Pre_input_domain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The payloads, as equations -/

omit [FloatOps F] in
theorem P_st (d : Dev nD) (c : Fin ((K (F := F)).nCore 0)) :
    (P (F := F) m).st 0 d c = bigSep Finset.univ fun i : Fin ((K (F := F)).nSub 0) => goRes m d (Ltile c i) := rfl
omit [FloatOps F] in
theorem P_dn (d : Dev nD) (c : Fin ((K (F := F)).nCore 0)) :
    (P (F := F) m).dn 0 d c = bigSep Finset.univ fun i : Fin ((K (F := F)).nSub 0) => tdRes (F := F) d (Ltile c i) := rfl
omit [FloatOps F] in
theorem P_go (d : Dev nD) (c : Fin ((K (F := F)).nCore 0)) (i : Fin ((K (F := F)).nSub 0)) :
    (P (F := F) m).go 0 d c i = goRes m d (Ltile c i) := rfl
omit [FloatOps F] in
theorem P_td (d : Dev nD) (c : Fin ((K (F := F)).nCore 0)) (i : Fin ((K (F := F)).nSub 0)) :
    (P (F := F) m).td 0 d c i = tdRes (F := F) d (Ltile c i) := rfl

/-- A points-to on any set of an array's entries may be kept in an invariant. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

instance goRes_storable (d : Dev nD) (L : grid0.Coords) : BI.Storable (upEmb : UEmb _ 𝕄) (goRes m d L) := by
  unfold goRes
  haveI : ∀ fo : Buf (Elt F) (oLoc d), BI.Storable (upEmb : UEmb _ 𝕄) (oLoc d ↦[(outSl L).view.set]{fullShare} fo : sProp 𝕄) :=
    fun fo => pts_storable (oLoc d) _ fullShare fo
  infer_instance
instance tdRes_storable (d : Dev nD) (L : grid0.Coords) : BI.Storable (upEmb : UEmb _ 𝕄) (tdRes (F := F) d L) := by
  unfold tdRes
  haveI : ∀ fo : Buf (Elt F) (oLoc d), BI.Storable (upEmb : UEmb _ 𝕄) (oLoc d ↦[(outSl L).view.set]{fullShare} fo : sProp 𝕄) :=
    fun fo => pts_storable (oLoc d) _ fullShare fo
  infer_instance

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The launch theorem's obligations -/

theorem defs₀_vector (c : Fin τ.nSC) (s : Fin τ.nSub) :
    defs₀ (F := F) (.scVector c s) 0 () = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem obl_pre {A X G B C O : sProp 𝕄} : iprop(A ∗ X ∗ G ∗ B ∗ C ∗ O) ⊢ iprop(A ∗ G ∗ B ∗ C ∗ O) := by
  iintro ⟨HA, -, HG, HB, HC, HO⟩
  isplitl [HA]; · iexact HA
  isplitl [HG]; · iexact HG
  isplitl [HB]; · iexact HB
  isplitl [HC]; · iexact HC
  iexact HO

theorem tileObl (hbody : TileBody m) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_pre.trans ((hbody hpre d (coordsV ⟨_, hc.1⟩ ⟨_, hc.2⟩) O W hO).trans (wp_mono frame _ _ fun _ => obl_post))

omit [FloatOps F] in
theorem vecSplit : (K (F := F)).VecSplit' (P m) 0 := by
  intro d c
  rw [P_st, P_dn]
  simp only [P_go, P_td]
  iintro H; imodintro
  isplitl [H]; · iexact H
  iintro H; iexact H

/-! ## The launch element: the handshakes' rounds; the kernel's transfers need only the counters -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The result's thirty-two slices -/

/-- The entries of the result that the tile at `L` writes: the 512 from entry `1024·(L 1) + 512·(L 0)` on. -/
theorem mem_outSet (L : grid0.Coords) (x : S16384.Idx) :
    x ∈ (outSl L).view.set
      ↔ 1024 * (L 1).val + 512 * (L 0).val ≤ (x 0).val ∧ (x 0).val < 1024 * (L 1).val + 512 * (L 0).val + 512 := by
  show x ∈ ((View.whole (main_v4_scv : Ref sig .scVector)).slice (Rect.unit (s := S16384) (k0_off315 L) S512.size (k0_off315_inb L))).set ↔ _
  rw [View.set_slice_whole, Rect.mem_set_unit, k0_off315_eq]
  constructor
  · intro h
    exact (h 0 : 1024 * (L 1).val + 512 * (L 0).val ≤ (x 0).val ∧ (x 0).val < 1024 * (L 1).val + 512 * (L 0).val + 512)
  · intro h a
    have ha : a = 0 := Fin.fin_one_eq_zero a
    subst ha
    exact h

/-- The slice of task `p.2` of SparseCore `p.1`. -/
abbrev tset (p : Fin ((K (F := F)).nCore 0) × Fin ((K (F := F)).nSub 0)) : Finset S16384.Idx := (outSl (Ltile p.1 p.2)).view.set

theorem mem_tset (p : Fin ((K (F := F)).nCore 0) × Fin ((K (F := F)).nSub 0)) (x : S16384.Idx) :
    x ∈ tset (F := F) p ↔ 1024 * p.2.val + 512 * p.1.val ≤ (x 0).val ∧ (x 0).val < 1024 * p.2.val + 512 * p.1.val + 512 :=
  mem_outSet (Ltile p.1 p.2) x

/-- Two different tiles write disjoint slices, -/
theorem tset_disjoint : ∀ p ∈ (Finset.univ ×ˢ Finset.univ : Finset (Fin ((K (F := F)).nCore 0) × Fin ((K (F := F)).nSub 0))),
    ∀ p' ∈ (Finset.univ ×ˢ Finset.univ : Finset (Fin ((K (F := F)).nCore 0) × Fin ((K (F := F)).nSub 0))), p ≠ p' →
      Disjoint (tset (F := F) p) (tset (F := F) p') := by
  intro p _ p' _ hne
  rw [Finset.disjoint_left]
  intro x hx hx'
  rw [mem_tset] at hx hx'
  have h1 : p.1.val < 2 := p.1.isLt
  have h1' : p'.1.val < 2 := p'.1.isLt
  exact hne (Prod.ext (Fin.ext (by omega)) (Fin.ext (by omega)))

/-- and every entry of the result lies in some tile's. -/
theorem tset_cover :
    (Finset.univ ×ˢ Finset.univ : Finset (Fin ((K (F := F)).nCore 0) × Fin ((K (F := F)).nSub 0))).biUnion (tset (F := F)) = Finset.univ := by
  ext x
  simp only [Finset.mem_biUnion, Finset.mem_univ, iff_true]
  have hx : (x 0).val < 16384 := (x 0).isLt
  refine ⟨(⟨(x 0).val % 1024 / 512, show _ < 2 by omega⟩, ⟨(x 0).val / 1024, show _ < 16 by omega⟩), Finset.mem_product.mpr ⟨Finset.mem_univ _, Finset.mem_univ _⟩, ?_⟩
  rw [mem_tset]
  show 1024 * ((x 0).val / 1024) + 512 * ((x 0).val % 1024 / 512) ≤ (x 0).val ∧ (x 0).val < 1024 * ((x 0).val / 1024) + 512 * ((x 0).val % 1024 / 512) + 512
  omega

/-- The result held whole is its thirty-two slices held, one per tile. -/
theorem oPts_tiles (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oLoc d ↦[(outSl (Ltile c i)).view.set]{fullShare} f := by
  rw [← SparseCore.bigSep_product Finset.univ Finset.univ
      (fun p : Fin ((K (F := F)).nCore 0) × Fin ((K (F := F)).nSub 0) => (oLoc d ↦[tset (F := F) p]{fullShare} f : sProp 𝕄)),
    ← pointsTo_biUnion (Finset.univ ×ˢ Finset.univ) (ℓ := oLoc d) (tset (F := F)) tset_disjoint, tset_cover]; try rfl

/-- The slices the tiles hand back, each at whatever its tile left, are the result whole at some contents. -/
theorem oTiles_join (d : Dev nD) :
    (bigSep Finset.univ fun c : Fin ((K (F := F)).nCore 0) => bigSep Finset.univ fun i : Fin ((K (F := F)).nSub 0) => tdRes (F := F) d (Ltile c i))
      ⊢ (iprop(∃ f, oLoc d ↦{fullShare} f) : sProp 𝕄) := by
  rw [← SparseCore.bigSep_product Finset.univ Finset.univ
      (fun p : Fin ((K (F := F)).nCore 0) × Fin ((K (F := F)).nSub 0) => tdRes (F := F) d (Ltile p.1 p.2))]
  unfold tdRes
  refine (bigSep_exists_pi (Finset.univ ×ˢ Finset.univ)
    (fun (p : Fin ((K (F := F)).nCore 0) × Fin ((K (F := F)).nSub 0)) (fo : Buf (Elt F) (oLoc d)) => (oLoc d ↦[tset (F := F) p]{fullShare} fo : sProp 𝕄))).trans ?_
  iintro ⟨%fs, H⟩
  ihave H' := (pointsTo_biUnion_join (Finset.univ ×ˢ Finset.univ) (tset (F := F)) fs (fs (⟨0, (by decide : 0 < 2)⟩, ⟨0, (by decide : 0 < 16)⟩)) tset_disjoint) $$ H
  icases H' with ⟨%g, -, Hg⟩
  rw [tset_cover]
  iexists g; iexact Hg

/-! ## Read shares of an array for the two SparseCores' sixteen tiles each -/

/-- An array held whole splits into a residual share and one read share per tile: SparseCore `c`'s token of the
    full share, then tile `i`'s token of that. -/
theorem rd_tiles (ℓ : Loc nD τ sig) (f : Buf (Elt F) ℓ) :
    (ℓ ↦{fullShare} f : sProp 𝕄)
      ⊢ iprop((ℓ ↦{Transfers.shareDrop fullShare 2} f)
          ∗ bigSep Finset.univ fun c : Fin ((K (F := F)).nCore 0) => bigSep Finset.univ fun i : Fin ((K (F := F)).nSub 0) => ℓ ↦{qT c.val i.val} f) :=
  (Transfers.pointsTo_toks_split fullShare 2).trans
    (sep_mono_right (bigSep_mono fun c _ => (Transfers.pointsTo_toks_split (qC c.val) 16).trans sep_elim_right))

/-- A separating conjunction under the two big conjunctions over SparseCores and tiles comes out of both. -/
theorem nest_sep {n k : ℕ} (A B : Fin n → Fin k → sProp 𝕄) :
    (bigSep Finset.univ fun c : Fin n => bigSep Finset.univ fun i : Fin k => iprop(A c i ∗ B c i))
      = iprop((bigSep Finset.univ fun c : Fin n => bigSep Finset.univ fun i : Fin k => A c i)
          ∗ bigSep Finset.univ fun c : Fin n => bigSep Finset.univ fun i : Fin k => B c i) := by
  rw [← bigSep_sep']
  exact bigSep_congr fun c _ => bigSep_sep' _ _ _

/-- A family of existentials under the two big conjunctions is had from one witness for all. -/
theorem nest_exists {n k : ℕ} {α : Type} (Φ : Fin n → Fin k → α → sProp 𝕄) (a : α) :
    (bigSep Finset.univ fun c : Fin n => bigSep Finset.univ fun i : Fin k => Φ c i a)
      ⊢ bigSep Finset.univ fun c : Fin n => bigSep Finset.univ fun i : Fin k => iprop(∃ x, Φ c i x) :=
  bigSep_mono fun c _ => bigSep_mono fun i _ => exists_intro (Φ := Φ c i) a

/-! ## @main on the TensorCore -/

/-- A TensorCore array as a buffer of its device, and as a location of device `d`. -/
abbrev rf (b : Ref sig .tc) : DevRef τ sig := Proc.devRef .tc b
abbrev tcLoc (d : Dev nD) (b : Ref sig .tc) : Loc nD τ sig := (SparseCore.T d).loc b

/-- The TensorCore's arrays, all unscoped: the eight arguments, the host operations' five values, the kernel's
    result and its reshape. -/
abbrev B15 : Finset (DevRef τ sig) :=
  {rf main_arg0, rf main_arg1, rf main_arg2, rf main_arg3, rf main_arg4, rf main_arg5, rf main_arg6, rf main_arg7,
    rf main_v0, rf main_v1, rf main_cst, rf main_v2, rf main_v3, rf main_v4, rf main_v5}
/-- Those followed by name once the host operations have run: the arguments, the packed parameters, the result and
    its reshape. -/
abbrev B11 : Finset (DevRef τ sig) :=
  {rf main_arg0, rf main_arg1, rf main_arg2, rf main_arg3, rf main_arg4, rf main_arg5, rf main_arg6, rf main_arg7,
    rf main_v3, rf main_v4, rf main_v5}
/-- The last reshape's two. -/
abbrev B2 : Finset (DevRef τ sig) := {rf main_v4, rf main_v5}

/-- The host operations, in order: the two reshapes, the zero constant and its broadcast, the concatenation that
    packs the parameters; and the reshape of the result. -/
abbrev op1 : HloOp τ sig (Elt F) := StableHlo.reshape main_arg4 main_v0 rfl Facts₀.shapeCasts_S128x10_S1280
abbrev op2 : HloOp τ sig (Elt F) := StableHlo.reshape main_arg6 main_v1 rfl Facts₀.shapeCasts_S10x1_S10
abbrev op3 : HloOp τ sig (Elt F) := StableHlo.nullary main_cst (constant S_ .f32 0x00000000#32)
abbrev op4 : HloOp τ sig (Elt F) :=
  StableHlo.unary main_cst main_v2 (broadcastInDim S11 ![] Facts₀.bcast_S_S11 : (⟨S_, .f32⟩ : BufTy).Contents (Elt F) → (⟨S11, .f32⟩ : BufTy).Contents (Elt F))
abbrev op5 : HloOp τ sig (Elt F) :=
  StableHlo.nary ![main_v0, main_arg5, main_v1, main_arg7, main_v2] main_v3
    (fun u => concatenate S1312 0 [⟨S1280, u 0⟩, ⟨S10, u 1⟩, ⟨S10, u 2⟩, ⟨S1, u 3⟩, ⟨S11, u 4⟩] Facts₀.concatenates_S1280_S10_S10_S1_S11_S1312_d0)
abbrev op6 : HloOp τ sig (Elt F) := StableHlo.reshape main_v4 main_v5 rfl Facts₀.shapeCasts_S16384_S16384x1

theorem h1 : (op1 (F := F)).bufs ⊆ B15 := show ({rf main_arg4, rf main_v0} : Finset (DevRef τ sig)) ⊆ B15 by decide
theorem h2 : (op2 (F := F)).bufs ⊆ B15 := show ({rf main_arg6, rf main_v1} : Finset (DevRef τ sig)) ⊆ B15 by decide
theorem h3 : (op3 (F := F)).bufs ⊆ B15 := show ({rf main_cst} : Finset (DevRef τ sig)) ⊆ B15 by decide
theorem h4 : (op4 (F := F)).bufs ⊆ B15 := show ({rf main_cst, rf main_v2} : Finset (DevRef τ sig)) ⊆ B15 by decide
theorem h5 : (op5 (F := F)).bufs ⊆ B15 :=
  show insert (rf main_v3) (Finset.univ.image fun k : Fin 5 => rf ((![main_v0, main_arg5, main_v1, main_arg7, main_v2] : Fin 5 → Ref sig .tc) k)) ⊆ B15 by decide
theorem h6 : (op6 (F := F)).bufs ⊆ B2 := show ({rf main_v4, rf main_v5} : Finset (DevRef τ sig)) ⊆ B2 by decide

/-- The launch contents; what the five host operations leave; and that with the result at `f`. -/
def V0 (d : Dev nD) : Valuation τ sig (Elt F) := fun b => m (d, b)
abbrev V5 (d : Dev nD) : Valuation τ sig (Elt F) :=
  (op5 (F := F)).result ((op4 (F := F)).result ((op3 (F := F)).result ((op2 (F := F)).result ((op1 (F := F)).result (V0 m d)))))
def V6 (d : Dev nD) (f : Buf (Elt F) (oLoc d)) : Valuation τ sig (Elt F) := Function.update (V5 m d) (rf main_v4) f

theorem unscoped_held (d : Dev nD) :
    (unscopedBufs d (fun b => m ((SparseCore.T d).loc b)) : sProp 𝕄) = held (T d) B15 (V0 m d) := by
  unfold unscopedBufs held
  rw [show (B15 : Finset (DevRef τ sig))
      = (Finset.univ.filter fun b : Ref sig .tc => ¬ b.isScoped).map ⟨Proc.devRef (sig := sig) (.tc : Proc τ), Proc.devRef_injective _⟩ by decide,
    bigSep_map]
  rfl

/-- The host operations write their own five values only: every other array is as at the launch. -/
theorem V5_arg (d : Dev nD) (b : Ref sig .tc) (e0 : rf b ≠ rf main_v0) (e1 : rf b ≠ rf main_v1) (e2 : rf b ≠ rf main_cst)
    (e3 : rf b ≠ rf main_v2) (e4 : rf b ≠ rf main_v3) : V5 m d (rf b) = m (tcLoc d b) := by
  unfold V5
  rw [(op5 (F := F)).result_of_not_mem _ (show rf b ∉ ({rf main_v3} : Finset (DevRef τ sig)) from fun h => e4 (Finset.mem_singleton.mp h)),
    (op4 (F := F)).result_of_not_mem _ (show rf b ∉ ({rf main_v2} : Finset (DevRef τ sig)) from fun h => e3 (Finset.mem_singleton.mp h)),
    (op3 (F := F)).result_of_not_mem _ (show rf b ∉ ({rf main_cst} : Finset (DevRef τ sig)) from fun h => e2 (Finset.mem_singleton.mp h)),
    (op2 (F := F)).result_of_not_mem _ (show rf b ∉ ({rf main_v1} : Finset (DevRef τ sig)) from fun h => e1 (Finset.mem_singleton.mp h)),
    (op1 (F := F)).result_of_not_mem _ (show rf b ∉ ({rf main_v0} : Finset (DevRef τ sig)) from fun h => e0 (Finset.mem_singleton.mp h))]
  rfl

theorem V6_o (d : Dev nD) (f : Buf (Elt F) (oLoc d)) : V6 m d f (rf main_v4) = f := Function.update_self _ _ _
theorem V6_r (d : Dev nD) (f : Buf (Elt F) (oLoc d)) : V6 m d f (rf main_v5) = V5 m d (rf main_v5) :=
  Function.update_of_ne (show rf main_v5 ≠ rf main_v4 by decide) _ _

theorem held_B11 (d : Dev nD) (W : Valuation τ sig (Elt F)) :
    (held (T d) B11 W : sProp 𝕄)
      = iprop((tcLoc d main_arg0 ↦{fullShare} W (rf main_arg0)) ∗ (tcLoc d main_arg1 ↦{fullShare} W (rf main_arg1))
          ∗ (tcLoc d main_arg2 ↦{fullShare} W (rf main_arg2)) ∗ (tcLoc d main_arg3 ↦{fullShare} W (rf main_arg3))
          ∗ (tcLoc d main_arg4 ↦{fullShare} W (rf main_arg4)) ∗ (tcLoc d main_arg5 ↦{fullShare} W (rf main_arg5))
          ∗ (tcLoc d main_arg6 ↦{fullShare} W (rf main_arg6)) ∗ (tcLoc d main_arg7 ↦{fullShare} W (rf main_arg7))
          ∗ (tcLoc d main_v3 ↦{fullShare} W (rf main_v3)) ∗ (tcLoc d main_v4 ↦{fullShare} W (rf main_v4))
          ∗ (tcLoc d main_v5 ↦{fullShare} W (rf main_v5))) := by
  unfold held B11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem held_B2 (d : Dev nD) (W : Valuation τ sig (Elt F)) :
    (held (T d) B2 W : sProp 𝕄) = iprop((tcLoc d main_v4 ↦{fullShare} W (rf main_v4)) ∗ (tcLoc d main_v5 ↦{fullShare} W (rf main_v5))) := by
  unfold held B2
  rw [SparseCore.bigSep_insert' (by decide), bigSep_singleton]

/-- What the host operations leave of the arrays followed by name: the arguments as at the launch, the packed
    parameters, the result and its reshape at some contents. -/
theorem after_host (d : Dev nD) :
    (held (T d) B15 (V5 m d) : sProp 𝕄)
      ⊢ iprop((tcLoc d main_arg0 ↦{fullShare} m (tcLoc d main_arg0)) ∗ (tcLoc d main_arg1 ↦{fullShare} m (tcLoc d main_arg1))
          ∗ (tcLoc d main_arg2 ↦{fullShare} m (tcLoc d main_arg2)) ∗ (tcLoc d main_arg3 ↦{fullShare} m (tcLoc d main_arg3))
          ∗ (tcLoc d main_arg4 ↦{fullShare} m (tcLoc d main_arg4)) ∗ (tcLoc d main_arg5 ↦{fullShare} m (tcLoc d main_arg5))
          ∗ (tcLoc d main_arg6 ↦{fullShare} m (tcLoc d main_arg6)) ∗ (tcLoc d main_arg7 ↦{fullShare} m (tcLoc d main_arg7))
          ∗ (tcLoc d main_v3 ↦{fullShare} V5 m d (rf main_v3)) ∗ (tcLoc d main_v4 ↦{fullShare} V5 m d (rf main_v4))
          ∗ (tcLoc d main_v5 ↦{fullShare} V5 m d (rf main_v5))) := by
  rw [held_sub_split (T d) (show B11 ⊆ B15 by decide) (V5 m d), held_B11,
    V5_arg m d main_arg0 (by decide) (by decide) (by decide) (by decide) (by decide),
    V5_arg m d main_arg1 (by decide) (by decide) (by decide) (by decide) (by decide),
    V5_arg m d main_arg2 (by decide) (by decide) (by decide) (by decide) (by decide),
    V5_arg m d main_arg3 (by decide) (by decide) (by decide) (by decide) (by decide),
    V5_arg m d main_arg4 (by decide) (by decide) (by decide) (by decide) (by decide),
    V5_arg m d main_arg5 (by decide) (by decide) (by decide) (by decide) (by decide),
    V5_arg m d main_arg6 (by decide) (by decide) (by decide) (by decide) (by decide),
    V5_arg m d main_arg7 (by decide) (by decide) (by decide) (by decide) (by decide)]
  exact sep_elim_left

/-! ### What the call takes and gives back -/

theorem goRes_tile (d : Dev nD) (c : Fin ((K (F := F)).nCore 0)) (i : Fin ((K (F := F)).nSub 0)) :
    goRes m d (Ltile c i)
      = iprop((a0Loc d ↦{qT c.val i.val} m (a0Loc d)) ∗ (a1Loc d ↦{qT c.val i.val} m (a1Loc d))
          ∗ (a2Loc d ↦{qT c.val i.val} m (a2Loc d)) ∗ (a3Loc d ↦{qT c.val i.val} m (a3Loc d))
          ∗ (∃ fp, pLoc d ↦{qT c.val i.val} fp) ∗ (∃ fo, oLoc d ↦[(outSl (Ltile c i)).view.set]{fullShare} fo)) := rfl

/-- What is left of a read-only array on the TensorCore once the tiles have their shares. -/
abbrev sd2 : PosShare TreeShare := Transfers.shareDrop fullShare 2

/-- The four arrays the tiles only read, the packed parameters and the result, all held whole, are what the call
    hands the two SparseCores, and a residual share of each of the four. -/
theorem st_intro (d : Dev nD) (fp : Buf (Elt F) (pLoc d)) (fo : Buf (Elt F) (oLoc d)) :
    iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (pLoc d ↦{fullShare} fp) ∗ (oLoc d ↦{fullShare} fo))
      ⊢ iprop(((a0Loc d ↦{sd2} m (a0Loc d)) ∗ (a1Loc d ↦{sd2} m (a1Loc d)) ∗ (a2Loc d ↦{sd2} m (a2Loc d)) ∗ (a3Loc d ↦{sd2} m (a3Loc d)))
          ∗ bigSep Finset.univ fun c : Fin ((K (F := F)).nCore 0) => (P m).st 0 d c) := by
  simp only [P_st, goRes_tile]
  rw [nest_sep, nest_sep, nest_sep, nest_sep, nest_sep]
  iintro ⟨H0, H1, H2, H3, Hp, Ho⟩
  ihave X0 := (rd_tiles (F := F) (a0Loc d) (m (a0Loc d))) $$ H0
  icases X0 with ⟨R0, T0⟩
  ihave X1 := (rd_tiles (F := F) (a1Loc d) (m (a1Loc d))) $$ H1
  icases X1 with ⟨R1, T1⟩
  ihave X2 := (rd_tiles (F := F) (a2Loc d) (m (a2Loc d))) $$ H2
  icases X2 with ⟨R2, T2⟩
  ihave X3 := (rd_tiles (F := F) (a3Loc d) (m (a3Loc d))) $$ H3
  icases X3 with ⟨R3, T3⟩
  ihave Xp := (rd_tiles (F := F) (pLoc d) fp) $$ Hp
  icases Xp with ⟨-, Tp⟩
  ihave Xo := (Entails.of_eq (oPts_tiles (F := F) d fo)) $$ Ho
  isplitl [R0 R1 R2 R3]
  · isplitl [R0]; · iexact R0
    isplitl [R1]; · iexact R1
    isplitl [R2]; · iexact R2
    iexact R3
  isplitl [T0]; · iexact T0
  isplitl [T1]; · iexact T1
  isplitl [T2]; · iexact T2
  isplitl [T3]; · iexact T3
  isplitl [Tp]
  · iapply (nest_exists (fun (c : Fin ((K (F := F)).nCore 0)) (i : Fin ((K (F := F)).nSub 0)) (x : Buf (Elt F) (pLoc d)) => (pLoc d ↦{qT c.val i.val} x : sProp 𝕄)) fp)
    iexact Tp
  · iapply (nest_exists (fun (c : Fin ((K (F := F)).nCore 0)) (i : Fin ((K (F := F)).nSub 0)) (x : Buf (Elt F) (oLoc d)) => (oLoc d ↦[(outSl (Ltile c i)).view.set]{fullShare} x : sProp 𝕄)) fo)
    iexact Xo

/-- What the two SparseCores hand back is the result whole, at some contents. -/
theorem dn_elim (d : Dev nD) :
    (bigSep Finset.univ fun c : Fin ((K (F := F)).nCore 0) => (P m).dn 0 d c) ⊢ (iprop(∃ f, oLoc d ↦{fullShare} f) : sProp 𝕄) := by
  simp only [P_dn]
  exact oTiles_join d

/-- What @main leaves the claim: each of the eight arguments at its launch contents, at some positive share — the
    four the tiles read at what is left beside their shares, the four only the host operations read whole. -/
abbrev FIN (d : Dev nD) : sProp 𝕄 :=
  iprop((tcLoc d main_arg0 ↦{sd2} m (tcLoc d main_arg0)) ∗ (tcLoc d main_arg1 ↦{sd2} m (tcLoc d main_arg1))
    ∗ (tcLoc d main_arg2 ↦{sd2} m (tcLoc d main_arg2)) ∗ (tcLoc d main_arg3 ↦{sd2} m (tcLoc d main_arg3))
    ∗ (tcLoc d main_arg4 ↦{fullShare} m (tcLoc d main_arg4)) ∗ (tcLoc d main_arg5 ↦{fullShare} m (tcLoc d main_arg5))
    ∗ (tcLoc d main_arg6 ↦{fullShare} m (tcLoc d main_arg6)) ∗ (tcLoc d main_arg7 ↦{fullShare} m (tcLoc d main_arg7)))

/-- @main on device `d`'s TensorCore: the five host operations over its own arrays; the call, which takes the four
    read-only arrays, the packed parameters and the result and gives the result back; the reshape of the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the five host operations
  iapply (wp_hlo_within 𝒱 (SparseCore.T d) none Set.univ (op := op1) (S := B15) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := B15) h2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := B15) h3
    (V := (op2 (F := F)).result ((op1 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := B15) h4
    (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  iapply (wp_hlo_within 𝒱 (SparseCore.T d) none Set.univ (op := op5) (S := B15) h5
    (V := (op4 (F := F)).result ((op3 (F := F)).result ((op2 (F := F)).result ((op1 (F := F)).result (V0 m d)))))) $$ [Hb Hheld]
  · isplitl [Hb]; · iexact Hb
    iexact Hheld
  iintro ⟨Hb, Hheld⟩
  rw [wp_ret]; imodintro
  -- the arrays the rest of @main needs, by name
  ihave Hh := (after_host m d) $$ Hheld
  icases Hh with ⟨H0, H1, H2, H3, H4, H5, H6, H7, Hp, Ho, Hr⟩
  ihave Hs := (st_intro m d (V5 m d (rf main_v3)) (V5 m d (rf main_v4))) $$ [H0 H1 H2 H3 Hp Ho]
  · isplitl [H0]; · iexact H0
    isplitl [H1]; · iexact H1
    isplitl [H2]; · iexact H2
    isplitl [H3]; · iexact H3
    isplitl [Hp]; · iexact Hp
    iexact Ho
  icases Hs with ⟨⟨R0, R1, R2, R3⟩, Hgo⟩
  -- the call
  iapply ((K (F := F)).wp_run (D (F := F)) 𝒱 (EH := EH) (P := P m) κ d 0) $$ [Hst Hgo Hb Hr R0 R1 R2 R3 H4 H5 H6 H7]
  isplitr; · iexact Hctx
  isplitl [Hst]; · iexact Hst
  isplitl [Hgo]; · iexact Hgo
  iintro ⟨Hst, Hdn⟩
  ihave Hdn' := (dn_elim m d) $$ Hdn
  icases Hdn' with ⟨%f, Ho⟩
  -- the reshape of the result
  iapply (wp_hlo_within 𝒱 (SparseCore.T d) none Set.univ (op := op6) (S := B2) h6 (V := V6 m d f)) $$ [Hb Ho Hr]
  · isplitl [Hb]; · iexact Hb
    rw [held_B2, V6_o, V6_r]
    isplitl [Ho]; · iexact Ho
    iexact Hr
  iintro ⟨Hb, -⟩
  rw [wp_ret]; imodintro; imodintro
  isplitl [Hst]; · iexact Hst
  isplitl [R0]; · iexact R0
  isplitl [R1]; · iexact R1
  isplitl [R2]; · iexact R2
  isplitl [R3]; · iexact R3
  isplitl [H4]; · iexact H4
  isplitl [H5]; · iexact H5
  isplitl [H6]; · iexact H6
  iexact H7

/-! ## The final memory -/

/-- An array held at its launch contents, at any share, reads so in the final memory. -/
theorem agree1 (ℓ : Loc nD τ sig) (q : PosShare TreeShare) (s' : Phys nD τ sig (Elt F)) :
    iprop((ℓ ↦{q} m ℓ) ∗ SI s') ⊢ (iprop(⌜s'.mem.mem ℓ = m ℓ⌝ ∗ SI s') : sProp 𝕄) := by
  iintro ⟨H, HSI⟩
  ihave X := (persistent_entails_right (SI_pointsTo_agree (st := s') (ℓ := ℓ) (I := Finset.univ) (q := q) (f := m ℓ))) $$ [HSI H]
  · isplitl [HSI] <;> iassumption
  icases X with ⟨%h1, HSI, -⟩
  isplitr
  · ipureintro; exact funext fun i => h1 i (Finset.mem_univ i)
  · iexact HSI

def fq (d : Dev nD) (s' : Phys nD τ sig (Elt F)) : Prop :=
  s'.mem.mem (tcLoc d main_arg0) = m (tcLoc d main_arg0) ∧ s'.mem.mem (tcLoc d main_arg1) = m (tcLoc d main_arg1)
    ∧ s'.mem.mem (tcLoc d main_arg2) = m (tcLoc d main_arg2) ∧ s'.mem.mem (tcLoc d main_arg3) = m (tcLoc d main_arg3)
    ∧ s'.mem.mem (tcLoc d main_arg4) = m (tcLoc d main_arg4) ∧ s'.mem.mem (tcLoc d main_arg5) = m (tcLoc d main_arg5)
    ∧ s'.mem.mem (tcLoc d main_arg6) = m (tcLoc d main_arg6) ∧ s'.mem.mem (tcLoc d main_arg7) = m (tcLoc d main_arg7)

theorem hfin (d : Dev nD) (s' : Phys nD τ sig (Elt F)) : iprop(FIN m d ∗ SI s') ⊢ (⌜fq m d s'⌝ : sProp 𝕄) := by
  iintro ⟨⟨H0, H1, H2, H3, H4, H5, H6, H7⟩, HSI⟩
  ihave X := (agree1 m (tcLoc d main_arg0) sd2 s') $$ [H0 HSI]
  · isplitl [H0] <;> iassumption
  icases X with ⟨%e0, HSI⟩
  ihave X := (agree1 m (tcLoc d main_arg1) sd2 s') $$ [H1 HSI]
  · isplitl [H1] <;> iassumption
  icases X with ⟨%e1, HSI⟩
  ihave X := (agree1 m (tcLoc d main_arg2) sd2 s') $$ [H2 HSI]
  · isplitl [H2] <;> iassumption
  icases X with ⟨%e2, HSI⟩
  ihave X := (agree1 m (tcLoc d main_arg3) sd2 s') $$ [H3 HSI]
  · isplitl [H3] <;> iassumption
  icases X with ⟨%e3, HSI⟩
  ihave X := (agree1 m (tcLoc d main_arg4) fullShare s') $$ [H4 HSI]
  · isplitl [H4] <;> iassumption
  icases X with ⟨%e4, HSI⟩
  ihave X := (agree1 m (tcLoc d main_arg5) fullShare s') $$ [H5 HSI]
  · isplitl [H5] <;> iassumption
  icases X with ⟨%e5, HSI⟩
  ihave X := (agree1 m (tcLoc d main_arg6) fullShare s') $$ [H6 HSI]
  · isplitl [H6] <;> iassumption
  icases X with ⟨%e6, HSI⟩
  ihave X := (agree1 m (tcLoc d main_arg7) fullShare s') $$ [H7 HSI]
  · isplitl [H7] <;> iassumption
  icases X with ⟨%e7, -⟩
  ipureintro; exact ⟨e0, e1, e2, e3, e4, e5, e6, e7⟩

/-! ## The program's run and the claim -/

def QC : PUnit × MemSt nD τ sig (Elt F) → Prop := fun r => ∀ c : Dev nD,
  r.2.mem (tcLoc c main_arg0) = m (tcLoc c main_arg0) ∧ r.2.mem (tcLoc c main_arg1) = m (tcLoc c main_arg1)
    ∧ r.2.mem (tcLoc c main_arg2) = m (tcLoc c main_arg2) ∧ r.2.mem (tcLoc c main_arg3) = m (tcLoc c main_arg3)
    ∧ r.2.mem (tcLoc c main_arg4) = m (tcLoc c main_arg4) ∧ r.2.mem (tcLoc c main_arg5) = m (tcLoc c main_arg5)
    ∧ r.2.mem (tcLoc c main_arg6) = m (tcLoc c main_arg6) ∧ r.2.mem (tcLoc c main_arg7) = m (tcLoc c main_arg7)

/-- The whole program — @main on the TensorCore, the two sequencers, the thirty-two tiles — runs to the end from the
    launch memory `m`, faulting nowhere, and leaves the eight arguments as they were: given the tile's body once, at
    symbolic coordinates. -/
theorem run_main [∀ e, Nonempty (Elt F e)] (hbody : TileBody m) (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- The precondition gives what the proof asks of the launch memory: every user index names one of the 1000000 rows
    of its table, every item index one of the 100000 of its. -/
theorem ok_of_pre (m : (ℓ : Loc nD τ sig) → Buf (Elt Ideal) ℓ) (h : Cert.Pre_KernelIdeal m) : PreOK (F := Ideal) m := fun d b =>
  ⟨Cert.PreDecode.user_toNat_lt _ _ _ _ _ _ _ _ (h d) b, Cert.PreDecode.item_toNat_lt _ _ _ _ _ _ _ _ (h d) b⟩

/-- The kernel's frame, given the tile's body: the program terminates, faulting nowhere, its arguments unchanged. -/
theorem frame_KI (hbody : ∀ m, TileBody (F := Ideal) m) : Cert.frame_KernelIdeal := fun m ρ hpre =>
  (θ_run Cert.KernelIdeal.defs _ _).mono (fun _ h c => h c) (run_main (F := Ideal) m ρ (hbody m) (ok_of_pre m hpre))

end Cert.Proof.KI

end
-- ==== Proof.KSetupB.lean ====
/-
  The kernel, word for word as printed, as the SparseCore launch theorem reads it: the call's configuration, the body table
  beneath it, the side conditions the launch asks of the four handshake semaphores, and the ghost state — the
  handshakes' rounds beside a copy of the exclusive counters, which is all a kernel needs whose tiles only
  start copies of their own and wait for them.
-/
import proofs.«214512_g89103391522852_cont_sun_m_1157_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Ring
import Idealize.ShloMosaic.Lib.Tactic
import proofs.«214512_g89103391522852_cont_sun_m_1157_25_alg».proof.Proof.Gen.Kernel
import proofs.«214512_g89103391522852_cont_sun_m_1157_25_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the counters are found by instance in the right. -/
abbrev EH : Emb UH (MT nD τ sig (HIx 1) (Elt F) ℕ UU ℕ) := embL

/-! ## A tile, its coordinates and its place in the batch -/

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

end Cert.Proof.KB

end
-- ==== Proof.KPayB.lean ====
/-
  What each tile is handed and what it owes back, stated once for a tile at symbolic coordinates `L`.

  A tile only reads the two index arrays, the two embedding tables and the packed parameters, so it is handed a READ
  SHARE of each of them whole (a share of a share: SparseCore `c`'s token, then tile `i`'s token of that), and it is
  handed outright the 512 entries of the result that it alone writes (entries `1024·s + 512·c …` for tile `(c, s)`).
  The read shares are not asked back: the TensorCore keeps a residual share of every argument, which is enough to read
  the arguments off the final memory unchanged. The 512 result entries do come back, at whatever the tile left in them:
  the host's last operation reads the result whole.
-/
import proofs.«214512_g89103391522852_cont_sun_m_1157_25_alg».proof.Proof.KSetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The arrays the kernel touches, as locations of device `d`: the two index arrays, the two tables, the packed
    parameters, the result. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev pLoc (d : Dev nD) : Loc nD τ sig := (SparseCore.T d).loc main_v3
abbrev oLoc (d : Dev nD) : Loc nD τ sig := (SparseCore.T d).loc main_v4

/-- SparseCore `c`'s read share of an array held whole, and tile `i`'s read share of that. -/
abbrev qC (c : ℕ) : PosShare TreeShare := Transfers.shareTokN fullShare c
abbrev qT (c i : ℕ) : PosShare TreeShare := Transfers.shareTokN (qC c) i

/-- The thread of the tile at coordinates `L`. -/
abbrev thr (d : Dev nD) (L : grid0.Coords) : Thread nD τ := V d (cV L) (jV L)

/-- The 512 entries of the result that the tile at `L` writes, as the kernel slices them. -/
def outSl (L : grid0.Coords) : Memref sig .scVector .hbm S512 .f32 :=
  (Memref.whole main_v4_scv : Memref sig .scVector .hbm S16384 .f32).slice (Rect.unit (s := S16384) (k0_off315 L) S512.size (k0_off315_inb L)) (fun _ => rfl)

/-- What the tile at `L` is handed. -/
def goRes (d : Dev nD) (L : grid0.Coords) : sProp 𝕄 :=
  iprop((a0Loc d ↦{qT (L 0).val (L 1).val} m (a0Loc d)) ∗ (a1Loc d ↦{qT (L 0).val (L 1).val} m (a1Loc d))
    ∗ (a2Loc d ↦{qT (L 0).val (L 1).val} m (a2Loc d)) ∗ (a3Loc d ↦{qT (L 0).val (L 1).val} m (a3Loc d))
    ∗ (∃ fp, pLoc d ↦{qT (L 0).val (L 1).val} fp) ∗ (∃ fo, oLoc d ↦[(outSl L).view.set]{fullShare} fo))

/-- What the tile at `L` hands back: its 512 entries of the result, at whatever it left in them. -/
def tdRes (d : Dev nD) (L : grid0.Coords) : sProp 𝕄 := iprop(∃ fo, oLoc d ↦[(outSl L).view.set]{fullShare} fo)

/-- The coordinates of task `i` of SparseCore `c` of the call's grid. -/
abbrev Ltile (c : Fin ((K (F := F)).nCore 0)) (i : Fin ((K (F := F)).nSub 0)) : grid0.Coords := coordsV ⟨c.val, c.isLt⟩ ⟨i.val, i.isLt⟩

/-- What the proof asks of the launch memory: every word of the two index arrays names a row of its table. -/
def PreOK : Prop := ∀ (d : Dev nD) (b : S16384.Idx), (m (a0Loc d) b).toNat < 1000000 ∧ (m (a1Loc d) b).toNat < 100000

/-- The one call: a SparseCore is handed its sixteen tiles' shares, a tile its own; the result entries come back. -/
def P : (K (F := F)).Pay (nD := nD) (Val := Elt F) (Name := ℕ) (U := UU) where
  st := fun q d c => match q with | 0 => bigSep Finset.univ fun i : Fin ((K (F := F)).nSub 0) => goRes m d (Ltile c i)
  dn := fun q d c => match q with | 0 => bigSep Finset.univ fun i : Fin ((K (F := F)).nSub 0) => tdRes (F := F) d (Ltile c i)
  go := fun q d c i => match q with | 0 => goRes m d (Ltile c i)
  td := fun q d c i => match q with | 0 => tdRes (F := F) d (Ltile c i)
  x := fun _ _ => iprop(emp)

variable [FloatOps F]

/-- The kernel's function on the tile at `L`, over the whole arrays and the tile's own scratch, as the body table
    applies it. -/
abbrev tileProg (L : grid0.Coords) : Prog (TpuEff nD τ sig (Elt F) Λ₀ (.scVector ((L 0).castLE hcore0) ((L 1).castLE hsub0))) PUnit :=
  cc0__fwd L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3

/-- The tile's task, once, at symbolic coordinates: from its share, its own scratch and semaphores (all at zero) and
    what it owes the launch, the kernel's function runs to the end, faulting nowhere, and leaves its result entries, the
    scratch and the semaphores as a later call would need them, and the debts untouched. -/
def TileBody : Prop :=
  PreOK m → ∀ (d : Dev nD) (L : grid0.Coords) (O : CellTallies nD τ sig (HIx 1)) (W : Waits sig (HIx 1)), (∀ g, O g none = 0) →
    (iprop(levAts (K (F := F)).L (K (F := F)).lev ∗ goRes m d L ∗ scopedBufs (thr d L) ∗ scopedSems0 (thr d L) ∗ owes (thr d L) O W) : sProp 𝕄)
      ⊢ wp frame (wpE (defs₀ (F := F)) 𝒱₀ (thr d L) none) Set.univ (tileProg (F := F) L)
          fun _ => iprop(tdRes d L ∗ scopedBufs (thr d L) ∗ scopedSems0 (thr d L) ∗ ∃ W', ⌜∀ p ∈ W', p ∈ W ∨ p.2 = none⌝ ∗ owes (thr d L) O W')

end Cert.Proof.KB

end
-- ==== Proof.KLaunchB.lean ====
/-
  The launch side of the frame of the kernel as printed. Given the tile's body once, at symbolic coordinates, the whole
  program — @main on the TensorCore, the two sequencers, the thirty-two tiles — runs to the end from any launch memory
  whose two index arrays name rows of their tables, faulting nowhere, and leaves the eight arguments as they were.

  In order: the payloads may be kept in the handshake cells' invariants; a tile's task is the body at that tile's
  coordinates; what a SparseCore is handed is what its sixteen tiles are handed, and what they hand back is what it
  hands back; the launch element needs only the handshakes' rounds; then @main — five host operations, the call, a
  reshape. For the call each of the four read-only arrays and the packed parameters splits into a read share per tile
  (a residual share stays on the TensorCore), and the result, held whole, into the thirty-two slices of 512 entries
  that the tiles write — tile (c, s) from entry 1024·s + 512·c on: pairwise disjoint, and together all 16384 entries.
  The tiles hand their slices back, so the reshape after the call finds the result whole again. The arguments are read
  off the final memory from the shares @main still holds.
-/
import proofs.«214512_g89103391522852_cont_sun_m_1157_25_alg».proof.Proof.KPayB
import proofs.«214512_g89103391522852_cont_sun_m_1157_25_alg».proof.Proof.PreDecode
import proofs.«214512_g89103391522852_cont_sun_m_1157_25_alg».proof.Proof.Gen.Pre_input_domain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The payloads, as equations -/

omit [FloatOps F] in
theorem P_st (d : Dev nD) (c : Fin ((K (F := F)).nCore 0)) :
    (P (F := F) m).st 0 d c = bigSep Finset.univ fun i : Fin ((K (F := F)).nSub 0) => goRes m d (Ltile c i) := rfl
omit [FloatOps F] in
theorem P_dn (d : Dev nD) (c : Fin ((K (F := F)).nCore 0)) :
    (P (F := F) m).dn 0 d c = bigSep Finset.univ fun i : Fin ((K (F := F)).nSub 0) => tdRes (F := F) d (Ltile c i) := rfl
omit [FloatOps F] in
theorem P_go (d : Dev nD) (c : Fin ((K (F := F)).nCore 0)) (i : Fin ((K (F := F)).nSub 0)) :
    (P (F := F) m).go 0 d c i = goRes m d (Ltile c i) := rfl
omit [FloatOps F] in
theorem P_td (d : Dev nD) (c : Fin ((K (F := F)).nCore 0)) (i : Fin ((K (F := F)).nSub 0)) :
    (P (F := F) m).td 0 d c i = tdRes (F := F) d (Ltile c i) := rfl

/-- A points-to on any set of an array's entries may be kept in an invariant. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

instance goRes_storable (d : Dev nD) (L : grid0.Coords) : BI.Storable (upEmb : UEmb _ 𝕄) (goRes m d L) := by
  unfold goRes
  haveI : ∀ fo : Buf (Elt F) (oLoc d), BI.Storable (upEmb : UEmb _ 𝕄) (oLoc d ↦[(outSl L).view.set]{fullShare} fo : sProp 𝕄) :=
    fun fo => pts_storable (oLoc d) _ fullShare fo
  infer_instance
instance tdRes_storable (d : Dev nD) (L : grid0.Coords) : BI.Storable (upEmb : UEmb _ 𝕄) (tdRes (F := F) d L) := by
  unfold tdRes
  haveI : ∀ fo : Buf (Elt F) (oLoc d), BI.Storable (upEmb : UEmb _ 𝕄) (oLoc d ↦[(outSl L).view.set]{fullShare} fo : sProp 𝕄) :=
    fun fo => pts_storable (oLoc d) _ fullShare fo
  infer_instance

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The launch theorem's obligations -/

theorem defs₀_vector (c : Fin τ.nSC) (s : Fin τ.nSub) :
    defs₀ (F := F) (.scVector c s) 0 () = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem obl_pre {A X G B C O : sProp 𝕄} : iprop(A ∗ X ∗ G ∗ B ∗ C ∗ O) ⊢ iprop(A ∗ G ∗ B ∗ C ∗ O) := by
  iintro ⟨HA, -, HG, HB, HC, HO⟩
  isplitl [HA]; · iexact HA
  isplitl [HG]; · iexact HG
  isplitl [HB]; · iexact HB
  isplitl [HC]; · iexact HC
  iexact HO

theorem tileObl (hbody : TileBody m) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_pre.trans ((hbody hpre d (coordsV ⟨_, hc.1⟩ ⟨_, hc.2⟩) O W hO).trans (wp_mono frame _ _ fun _ => obl_post))

omit [FloatOps F] in
theorem vecSplit : (K (F := F)).VecSplit' (P m) 0 := by
  intro d c
  rw [P_st, P_dn]
  simp only [P_go, P_td]
  iintro H; imodintro
  isplitl [H]; · iexact H
  iintro H; iexact H

/-! ## The launch element: the handshakes' rounds; the kernel's transfers need only the counters -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The result's thirty-two slices -/

/-- The entries of the result that the tile at `L` writes: the 512 from entry `1024·(L 1) + 512·(L 0)` on. -/
theorem mem_outSet (L : grid0.Coords) (x : S16384.Idx) :
    x ∈ (outSl L).view.set
      ↔ 1024 * (L 1).val + 512 * (L 0).val ≤ (x 0).val ∧ (x 0).val < 1024 * (L 1).val + 512 * (L 0).val + 512 := by
  show x ∈ ((View.whole (main_v4_scv : Ref sig .scVector)).slice (Rect.unit (s := S16384) (k0_off315 L) S512.size (k0_off315_inb L))).set ↔ _
  rw [View.set_slice_whole, Rect.mem_set_unit, k0_off315_eq]
  constructor
  · intro h
    exact (h 0 : 1024 * (L 1).val + 512 * (L 0).val ≤ (x 0).val ∧ (x 0).val < 1024 * (L 1).val + 512 * (L 0).val + 512)
  · intro h a
    have ha : a = 0 := Fin.fin_one_eq_zero a
    subst ha
    exact h

/-- The slice of task `p.2` of SparseCore `p.1`. -/
abbrev tset (p : Fin ((K (F := F)).nCore 0) × Fin ((K (F := F)).nSub 0)) : Finset S16384.Idx := (outSl (Ltile p.1 p.2)).view.set

theorem mem_tset (p : Fin ((K (F := F)).nCore 0) × Fin ((K (F := F)).nSub 0)) (x : S16384.Idx) :
    x ∈ tset (F := F) p ↔ 1024 * p.2.val + 512 * p.1.val ≤ (x 0).val ∧ (x 0).val < 1024 * p.2.val + 512 * p.1.val + 512 :=
  mem_outSet (Ltile p.1 p.2) x

/-- Two different tiles write disjoint slices, -/
theorem tset_disjoint : ∀ p ∈ (Finset.univ ×ˢ Finset.univ : Finset (Fin ((K (F := F)).nCore 0) × Fin ((K (F := F)).nSub 0))),
    ∀ p' ∈ (Finset.univ ×ˢ Finset.univ : Finset (Fin ((K (F := F)).nCore 0) × Fin ((K (F := F)).nSub 0))), p ≠ p' →
      Disjoint (tset (F := F) p) (tset (F := F) p') := by
  intro p _ p' _ hne
  rw [Finset.disjoint_left]
  intro x hx hx'
  rw [mem_tset] at hx hx'
  have h1 : p.1.val < 2 := p.1.isLt
  have h1' : p'.1.val < 2 := p'.1.isLt
  exact hne (Prod.ext (Fin.ext (by omega)) (Fin.ext (by omega)))

/-- and every entry of the result lies in some tile's. -/
theorem tset_cover :
    (Finset.univ ×ˢ Finset.univ : Finset (Fin ((K (F := F)).nCore 0) × Fin ((K (F := F)).nSub 0))).biUnion (tset (F := F)) = Finset.univ := by
  ext x
  simp only [Finset.mem_biUnion, Finset.mem_univ, iff_true]
  have hx : (x 0).val < 16384 := (x 0).isLt
  refine ⟨(⟨(x 0).val % 1024 / 512, show _ < 2 by omega⟩, ⟨(x 0).val / 1024, show _ < 16 by omega⟩), Finset.mem_product.mpr ⟨Finset.mem_univ _, Finset.mem_univ _⟩, ?_⟩
  rw [mem_tset]
  show 1024 * ((x 0).val / 1024) + 512 * ((x 0).val % 1024 / 512) ≤ (x 0).val ∧ (x 0).val < 1024 * ((x 0).val / 1024) + 512 * ((x 0).val % 1024 / 512) + 512
  omega

/-- The result held whole is its thirty-two slices held, one per tile. -/
theorem oPts_tiles (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oLoc d ↦[(outSl (Ltile c i)).view.set]{fullShare} f := by
  rw [← SparseCore.bigSep_product Finset.univ Finset.univ
      (fun p : Fin ((K (F := F)).nCore 0) × Fin ((K (F := F)).nSub 0) => (oLoc d ↦[tset (F := F) p]{fullShare} f : sProp 𝕄)),
    ← pointsTo_biUnion (Finset.univ ×ˢ Finset.univ) (ℓ := oLoc d) (tset (F := F)) tset_disjoint, tset_cover]; try rfl

/-- The slices the tiles hand back, each at whatever its tile left, are the result whole at some contents. -/
theorem oTiles_join (d : Dev nD) :
    (bigSep Finset.univ fun c : Fin ((K (F := F)).nCore 0) => bigSep Finset.univ fun i : Fin ((K (F := F)).nSub 0) => tdRes (F := F) d (Ltile c i))
      ⊢ (iprop(∃ f, oLoc d ↦{fullShare} f) : sProp 𝕄) := by
  rw [← SparseCore.bigSep_product Finset.univ Finset.univ
      (fun p : Fin ((K (F := F)).nCore 0) × Fin ((K (F := F)).nSub 0) => tdRes (F := F) d (Ltile p.1 p.2))]
  unfold tdRes
  refine (bigSep_exists_pi (Finset.univ ×ˢ Finset.univ)
    (fun (p : Fin ((K (F := F)).nCore 0) × Fin ((K (F := F)).nSub 0)) (fo : Buf (Elt F) (oLoc d)) => (oLoc d ↦[tset (F := F) p]{fullShare} fo : sProp 𝕄))).trans ?_
  iintro ⟨%fs, H⟩
  ihave H' := (pointsTo_biUnion_join (Finset.univ ×ˢ Finset.univ) (tset (F := F)) fs (fs (⟨0, (by decide : 0 < 2)⟩, ⟨0, (by decide : 0 < 16)⟩)) tset_disjoint) $$ H
  icases H' with ⟨%g, -, Hg⟩
  rw [tset_cover]
  iexists g; iexact Hg

/-! ## Read shares of an array for the two SparseCores' sixteen tiles each -/

/-- An array held whole splits into a residual share and one read share per tile: SparseCore `c`'s token of the
    full share, then tile `i`'s token of that. -/
theorem rd_tiles (ℓ : Loc nD τ sig) (f : Buf (Elt F) ℓ) :
    (ℓ ↦{fullShare} f : sProp 𝕄)
      ⊢ iprop((ℓ ↦{Transfers.shareDrop fullShare 2} f)
          ∗ bigSep Finset.univ fun c : Fin ((K (F := F)).nCore 0) => bigSep Finset.univ fun i : Fin ((K (F := F)).nSub 0) => ℓ ↦{qT c.val i.val} f) :=
  (Transfers.pointsTo_toks_split fullShare 2).trans
    (sep_mono_right (bigSep_mono fun c _ => (Transfers.pointsTo_toks_split (qC c.val) 16).trans sep_elim_right))

/-- A separating conjunction under the two big conjunctions over SparseCores and tiles comes out of both. -/
theorem nest_sep {n k : ℕ} (A B : Fin n → Fin k → sProp 𝕄) :
    (bigSep Finset.univ fun c : Fin n => bigSep Finset.univ fun i : Fin k => iprop(A c i ∗ B c i))
      = iprop((bigSep Finset.univ fun c : Fin n => bigSep Finset.univ fun i : Fin k => A c i)
          ∗ bigSep Finset.univ fun c : Fin n => bigSep Finset.univ fun i : Fin k => B c i) := by
  rw [← bigSep_sep']
  exact bigSep_congr fun c _ => bigSep_sep' _ _ _

/-- A family of existentials under the two big conjunctions is had from one witness for all. -/
theorem nest_exists {n k : ℕ} {α : Type} (Φ : Fin n → Fin k → α → sProp 𝕄) (a : α) :
    (bigSep Finset.univ fun c : Fin n => bigSep Finset.univ fun i : Fin k => Φ c i a)
      ⊢ bigSep Finset.univ fun c : Fin n => bigSep Finset.univ fun i : Fin k => iprop(∃ x, Φ c i x) :=
  bigSep_mono fun c _ => bigSep_mono fun i _ => exists_intro (Φ := Φ c i) a

/-! ## @main on the TensorCore -/

/-- A TensorCore array as a buffer of its device, and as a location of device `d`. -/
abbrev rf (b : Ref sig .tc) : DevRef τ sig := Proc.devRef .tc b
abbrev tcLoc (d : Dev nD) (b : Ref sig .tc) : Loc nD τ sig := (SparseCore.T d).loc b

/-- The TensorCore's arrays, all unscoped: the eight arguments, the host operations' five values, the kernel's
    result and its reshape. -/
abbrev B15 : Finset (DevRef τ sig) :=
  {rf main_arg0, rf main_arg1, rf main_arg2, rf main_arg3, rf main_arg4, rf main_arg5, rf main_arg6, rf main_arg7,
    rf main_v0, rf main_v1, rf main_cst, rf main_v2, rf main_v3, rf main_v4, rf main_v5}
/-- Those followed by name once the host operations have run: the arguments, the packed parameters, the result and
    its reshape. -/
abbrev B11 : Finset (DevRef τ sig) :=
  {rf main_arg0, rf main_arg1, rf main_arg2, rf main_arg3, rf main_arg4, rf main_arg5, rf main_arg6, rf main_arg7,
    rf main_v3, rf main_v4, rf main_v5}
/-- The last reshape's two. -/
abbrev B2 : Finset (DevRef τ sig) := {rf main_v4, rf main_v5}

/-- The host operations, in order: the two reshapes, the zero constant and its broadcast, the concatenation that
    packs the parameters; and the reshape of the result. -/
abbrev op1 : HloOp τ sig (Elt F) := StableHlo.reshape main_arg4 main_v0 rfl Facts₀.shapeCasts_S128x10_S1280
abbrev op2 : HloOp τ sig (Elt F) := StableHlo.reshape main_arg6 main_v1 rfl Facts₀.shapeCasts_S10x1_S10
abbrev op3 : HloOp τ sig (Elt F) := StableHlo.nullary main_cst (constant S_ .f32 0x00000000#32)
abbrev op4 : HloOp τ sig (Elt F) :=
  StableHlo.unary main_cst main_v2 (broadcastInDim S11 ![] Facts₀.bcast_S_S11 : (⟨S_, .f32⟩ : BufTy).Contents (Elt F) → (⟨S11, .f32⟩ : BufTy).Contents (Elt F))
abbrev op5 : HloOp τ sig (Elt F) :=
  StableHlo.nary ![main_v0, main_arg5, main_v1, main_arg7, main_v2] main_v3
    (fun u => concatenate S1312 0 [⟨S1280, u 0⟩, ⟨S10, u 1⟩, ⟨S10, u 2⟩, ⟨S1, u 3⟩, ⟨S11, u 4⟩] Facts₀.concatenates_S1280_S10_S10_S1_S11_S1312_d0)
abbrev op6 : HloOp τ sig (Elt F) := StableHlo.reshape main_v4 main_v5 rfl Facts₀.shapeCasts_S16384_S16384x1

theorem h1 : (op1 (F := F)).bufs ⊆ B15 := show ({rf main_arg4, rf main_v0} : Finset (DevRef τ sig)) ⊆ B15 by decide
theorem h2 : (op2 (F := F)).bufs ⊆ B15 := show ({rf main_arg6, rf main_v1} : Finset (DevRef τ sig)) ⊆ B15 by decide
theorem h3 : (op3 (F := F)).bufs ⊆ B15 := show ({rf main_cst} : Finset (DevRef τ sig)) ⊆ B15 by decide
theorem h4 : (op4 (F := F)).bufs ⊆ B15 := show ({rf main_cst, rf main_v2} : Finset (DevRef τ sig)) ⊆ B15 by decide
theorem h5 : (op5 (F := F)).bufs ⊆ B15 :=
  show insert (rf main_v3) (Finset.univ.image fun k : Fin 5 => rf ((![main_v0, main_arg5, main_v1, main_arg7, main_v2] : Fin 5 → Ref sig .tc) k)) ⊆ B15 by decide
theorem h6 : (op6 (F := F)).bufs ⊆ B2 := show ({rf main_v4, rf main_v5} : Finset (DevRef τ sig)) ⊆ B2 by decide

/-- The launch contents; what the five host operations leave; and that with the result at `f`. -/
def V0 (d : Dev nD) : Valuation τ sig (Elt F) := fun b => m (d, b)
abbrev V5 (d : Dev nD) : Valuation τ sig (Elt F) :=
  (op5 (F := F)).result ((op4 (F := F)).result ((op3 (F := F)).result ((op2 (F := F)).result ((op1 (F := F)).result (V0 m d)))))
def V6 (d : Dev nD) (f : Buf (Elt F) (oLoc d)) : Valuation τ sig (Elt F) := Function.update (V5 m d) (rf main_v4) f

theorem unscoped_held (d : Dev nD) :
    (unscopedBufs d (fun b => m ((SparseCore.T d).loc b)) : sProp 𝕄) = held (T d) B15 (V0 m d) := by
  unfold unscopedBufs held
  rw [show (B15 : Finset (DevRef τ sig))
      = (Finset.univ.filter fun b : Ref sig .tc => ¬ b.isScoped).map ⟨Proc.devRef (sig := sig) (.tc : Proc τ), Proc.devRef_injective _⟩ by decide,
    bigSep_map]
  rfl

/-- The host operations write their own five values only: every other array is as at the launch. -/
theorem V5_arg (d : Dev nD) (b : Ref sig .tc) (e0 : rf b ≠ rf main_v0) (e1 : rf b ≠ rf main_v1) (e2 : rf b ≠ rf main_cst)
    (e3 : rf b ≠ rf main_v2) (e4 : rf b ≠ rf main_v3) : V5 m d (rf b) = m (tcLoc d b) := by
  unfold V5
  rw [(op5 (F := F)).result_of_not_mem _ (show rf b ∉ ({rf main_v3} : Finset (DevRef τ sig)) from fun h => e4 (Finset.mem_singleton.mp h)),
    (op4 (F := F)).result_of_not_mem _ (show rf b ∉ ({rf main_v2} : Finset (DevRef τ sig)) from fun h => e3 (Finset.mem_singleton.mp h)),
    (op3 (F := F)).result_of_not_mem _ (show rf b ∉ ({rf main_cst} : Finset (DevRef τ sig)) from fun h => e2 (Finset.mem_singleton.mp h)),
    (op2 (F := F)).result_of_not_mem _ (show rf b ∉ ({rf main_v1} : Finset (DevRef τ sig)) from fun h => e1 (Finset.mem_singleton.mp h)),
    (op1 (F := F)).result_of_not_mem _ (show rf b ∉ ({rf main_v0} : Finset (DevRef τ sig)) from fun h => e0 (Finset.mem_singleton.mp h))]
  rfl

theorem V6_o (d : Dev nD) (f : Buf (Elt F) (oLoc d)) : V6 m d f (rf main_v4) = f := Function.update_self _ _ _
theorem V6_r (d : Dev nD) (f : Buf (Elt F) (oLoc d)) : V6 m d f (rf main_v5) = V5 m d (rf main_v5) :=
  Function.update_of_ne (show rf main_v5 ≠ rf main_v4 by decide) _ _

theorem held_B11 (d : Dev nD) (W : Valuation τ sig (Elt F)) :
    (held (T d) B11 W : sProp 𝕄)
      = iprop((tcLoc d main_arg0 ↦{fullShare} W (rf main_arg0)) ∗ (tcLoc d main_arg1 ↦{fullShare} W (rf main_arg1))
          ∗ (tcLoc d main_arg2 ↦{fullShare} W (rf main_arg2)) ∗ (tcLoc d main_arg3 ↦{fullShare} W (rf main_arg3))
          ∗ (tcLoc d main_arg4 ↦{fullShare} W (rf main_arg4)) ∗ (tcLoc d main_arg5 ↦{fullShare} W (rf main_arg5))
          ∗ (tcLoc d main_arg6 ↦{fullShare} W (rf main_arg6)) ∗ (tcLoc d main_arg7 ↦{fullShare} W (rf main_arg7))
          ∗ (tcLoc d main_v3 ↦{fullShare} W (rf main_v3)) ∗ (tcLoc d main_v4 ↦{fullShare} W (rf main_v4))
          ∗ (tcLoc d main_v5 ↦{fullShare} W (rf main_v5))) := by
  unfold held B11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem held_B2 (d : Dev nD) (W : Valuation τ sig (Elt F)) :
    (held (T d) B2 W : sProp 𝕄) = iprop((tcLoc d main_v4 ↦{fullShare} W (rf main_v4)) ∗ (tcLoc d main_v5 ↦{fullShare} W (rf main_v5))) := by
  unfold held B2
  rw [SparseCore.bigSep_insert' (by decide), bigSep_singleton]

/-- What the host operations leave of the arrays followed by name: the arguments as at the launch, the packed
    parameters, the result and its reshape at some contents. -/
theorem after_host (d : Dev nD) :
    (held (T d) B15 (V5 m d) : sProp 𝕄)
      ⊢ iprop((tcLoc d main_arg0 ↦{fullShare} m (tcLoc d main_arg0)) ∗ (tcLoc d main_arg1 ↦{fullShare} m (tcLoc d main_arg1))
          ∗ (tcLoc d main_arg2 ↦{fullShare} m (tcLoc d main_arg2)) ∗ (tcLoc d main_arg3 ↦{fullShare} m (tcLoc d main_arg3))
          ∗ (tcLoc d main_arg4 ↦{fullShare} m (tcLoc d main_arg4)) ∗ (tcLoc d main_arg5 ↦{fullShare} m (tcLoc d main_arg5))
          ∗ (tcLoc d main_arg6 ↦{fullShare} m (tcLoc d main_arg6)) ∗ (tcLoc d main_arg7 ↦{fullShare} m (tcLoc d main_arg7))
          ∗ (tcLoc d main_v3 ↦{fullShare} V5 m d (rf main_v3)) ∗ (tcLoc d main_v4 ↦{fullShare} V5 m d (rf main_v4))
          ∗ (tcLoc d main_v5 ↦{fullShare} V5 m d (rf main_v5))) := by
  rw [held_sub_split (T d) (show B11 ⊆ B15 by decide) (V5 m d), held_B11,
    V5_arg m d main_arg0 (by decide) (by decide) (by decide) (by decide) (by decide),
    V5_arg m d main_arg1 (by decide) (by decide) (by decide) (by decide) (by decide),
    V5_arg m d main_arg2 (by decide) (by decide) (by decide) (by decide) (by decide),
    V5_arg m d main_arg3 (by decide) (by decide) (by decide) (by decide) (by decide),
    V5_arg m d main_arg4 (by decide) (by decide) (by decide) (by decide) (by decide),
    V5_arg m d main_arg5 (by decide) (by decide) (by decide) (by decide) (by decide),
    V5_arg m d main_arg6 (by decide) (by decide) (by decide) (by decide) (by decide),
    V5_arg m d main_arg7 (by decide) (by decide) (by decide) (by decide) (by decide)]
  exact sep_elim_left

/-! ### What the call takes and gives back -/

theorem goRes_tile (d : Dev nD) (c : Fin ((K (F := F)).nCore 0)) (i : Fin ((K (F := F)).nSub 0)) :
    goRes m d (Ltile c i)
      = iprop((a0Loc d ↦{qT c.val i.val} m (a0Loc d)) ∗ (a1Loc d ↦{qT c.val i.val} m (a1Loc d))
          ∗ (a2Loc d ↦{qT c.val i.val} m (a2Loc d)) ∗ (a3Loc d ↦{qT c.val i.val} m (a3Loc d))
          ∗ (∃ fp, pLoc d ↦{qT c.val i.val} fp) ∗ (∃ fo, oLoc d ↦[(outSl (Ltile c i)).view.set]{fullShare} fo)) := rfl

/-- What is left of a read-only array on the TensorCore once the tiles have their shares. -/
abbrev sd2 : PosShare TreeShare := Transfers.shareDrop fullShare 2

/-- The four arrays the tiles only read, the packed parameters and the result, all held whole, are what the call
    hands the two SparseCores, and a residual share of each of the four. -/
theorem st_intro (d : Dev nD) (fp : Buf (Elt F) (pLoc d)) (fo : Buf (Elt F) (oLoc d)) :
    iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (pLoc d ↦{fullShare} fp) ∗ (oLoc d ↦{fullShare} fo))
      ⊢ iprop(((a0Loc d ↦{sd2} m (a0Loc d)) ∗ (a1Loc d ↦{sd2} m (a1Loc d)) ∗ (a2Loc d ↦{sd2} m (a2Loc d)) ∗ (a3Loc d ↦{sd2} m (a3Loc d)))
          ∗ bigSep Finset.univ fun c : Fin ((K (F := F)).nCore 0) => (P m).st 0 d c) := by
  simp only [P_st, goRes_tile]
  rw [nest_sep, nest_sep, nest_sep, nest_sep, nest_sep]
  iintro ⟨H0, H1, H2, H3, Hp, Ho⟩
  ihave X0 := (rd_tiles (F := F) (a0Loc d) (m (a0Loc d))) $$ H0
  icases X0 with ⟨R0, T0⟩
  ihave X1 := (rd_tiles (F := F) (a1Loc d) (m (a1Loc d))) $$ H1
  icases X1 with ⟨R1, T1⟩
  ihave X2 := (rd_tiles (F := F) (a2Loc d) (m (a2Loc d))) $$ H2
  icases X2 with ⟨R2, T2⟩
  ihave X3 := (rd_tiles (F := F) (a3Loc d) (m (a3Loc d))) $$ H3
  icases X3 with ⟨R3, T3⟩
  ihave Xp := (rd_tiles (F := F) (pLoc d) fp) $$ Hp
  icases Xp with ⟨-, Tp⟩
  ihave Xo := (Entails.of_eq (oPts_tiles (F := F) d fo)) $$ Ho
  isplitl [R0 R1 R2 R3]
  · isplitl [R0]; · iexact R0
    isplitl [R1]; · iexact R1
    isplitl [R2]; · iexact R2
    iexact R3
  isplitl [T0]; · iexact T0
  isplitl [T1]; · iexact T1
  isplitl [T2]; · iexact T2
  isplitl [T3]; · iexact T3
  isplitl [Tp]
  · iapply (nest_exists (fun (c : Fin ((K (F := F)).nCore 0)) (i : Fin ((K (F := F)).nSub 0)) (x : Buf (Elt F) (pLoc d)) => (pLoc d ↦{qT c.val i.val} x : sProp 𝕄)) fp)
    iexact Tp
  · iapply (nest_exists (fun (c : Fin ((K (F := F)).nCore 0)) (i : Fin ((K (F := F)).nSub 0)) (x : Buf (Elt F) (oLoc d)) => (oLoc d ↦[(outSl (Ltile c i)).view.set]{fullShare} x : sProp 𝕄)) fo)
    iexact Xo

/-- What the two SparseCores hand back is the result whole, at some contents. -/
theorem dn_elim (d : Dev nD) :
    (bigSep Finset.univ fun c : Fin ((K (F := F)).nCore 0) => (P m).dn 0 d c) ⊢ (iprop(∃ f, oLoc d ↦{fullShare} f) : sProp 𝕄) := by
  simp only [P_dn]
  exact oTiles_join d

/-- What @main leaves the claim: each of the eight arguments at its launch contents, at some positive share — the
    four the tiles read at what is left beside their shares, the four only the host operations read whole. -/
abbrev FIN (d : Dev nD) : sProp 𝕄 :=
  iprop((tcLoc d main_arg0 ↦{sd2} m (tcLoc d main_arg0)) ∗ (tcLoc d main_arg1 ↦{sd2} m (tcLoc d main_arg1))
    ∗ (tcLoc d main_arg2 ↦{sd2} m (tcLoc d main_arg2)) ∗ (tcLoc d main_arg3 ↦{sd2} m (tcLoc d main_arg3))
    ∗ (tcLoc d main_arg4 ↦{fullShare} m (tcLoc d main_arg4)) ∗ (tcLoc d main_arg5 ↦{fullShare} m (tcLoc d main_arg5))
    ∗ (tcLoc d main_arg6 ↦{fullShare} m (tcLoc d main_arg6)) ∗ (tcLoc d main_arg7 ↦{fullShare} m (tcLoc d main_arg7)))

/-- @main on device `d`'s TensorCore: the five host operations over its own arrays; the call, which takes the four
    read-only arrays, the packed parameters and the result and gives the result back; the reshape of the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the five host operations
  iapply (wp_hlo_within 𝒱 (SparseCore.T d) none Set.univ (op := op1) (S := B15) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := B15) h2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := B15) h3
    (V := (op2 (F := F)).result ((op1 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := B15) h4
    (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  iapply (wp_hlo_within 𝒱 (SparseCore.T d) none Set.univ (op := op5) (S := B15) h5
    (V := (op4 (F := F)).result ((op3 (F := F)).result ((op2 (F := F)).result ((op1 (F := F)).result (V0 m d)))))) $$ [Hb Hheld]
  · isplitl [Hb]; · iexact Hb
    iexact Hheld
  iintro ⟨Hb, Hheld⟩
  rw [wp_ret]; imodintro
  -- the arrays the rest of @main needs, by name
  ihave Hh := (after_host m d) $$ Hheld
  icases Hh with ⟨H0, H1, H2, H3, H4, H5, H6, H7, Hp, Ho, Hr⟩
  ihave Hs := (st_intro m d (V5 m d (rf main_v3)) (V5 m d (rf main_v4))) $$ [H0 H1 H2 H3 Hp Ho]
  · isplitl [H0]; · iexact H0
    isplitl [H1]; · iexact H1
    isplitl [H2]; · iexact H2
    isplitl [H3]; · iexact H3
    isplitl [Hp]; · iexact Hp
    iexact Ho
  icases Hs with ⟨⟨R0, R1, R2, R3⟩, Hgo⟩
  -- the call
  iapply ((K (F := F)).wp_run (D (F := F)) 𝒱 (EH := EH) (P := P m) κ d 0) $$ [Hst Hgo Hb Hr R0 R1 R2 R3 H4 H5 H6 H7]
  isplitr; · iexact Hctx
  isplitl [Hst]; · iexact Hst
  isplitl [Hgo]; · iexact Hgo
  iintro ⟨Hst, Hdn⟩
  ihave Hdn' := (dn_elim m d) $$ Hdn
  icases Hdn' with ⟨%f, Ho⟩
  -- the reshape of the result
  iapply (wp_hlo_within 𝒱 (SparseCore.T d) none Set.univ (op := op6) (S := B2) h6 (V := V6 m d f)) $$ [Hb Ho Hr]
  · isplitl [Hb]; · iexact Hb
    rw [held_B2, V6_o, V6_r]
    isplitl [Ho]; · iexact Ho
    iexact Hr
  iintro ⟨Hb, -⟩
  rw [wp_ret]; imodintro; imodintro
  isplitl [Hst]; · iexact Hst
  isplitl [R0]; · iexact R0
  isplitl [R1]; · iexact R1
  isplitl [R2]; · iexact R2
  isplitl [R3]; · iexact R3
  isplitl [H4]; · iexact H4
  isplitl [H5]; · iexact H5
  isplitl [H6]; · iexact H6
  iexact H7

/-! ## The final memory -/

/-- An array held at its launch contents, at any share, reads so in the final memory. -/
theorem agree1 (ℓ : Loc nD τ sig) (q : PosShare TreeShare) (s' : Phys nD τ sig (Elt F)) :
    iprop((ℓ ↦{q} m ℓ) ∗ SI s') ⊢ (iprop(⌜s'.mem.mem ℓ = m ℓ⌝ ∗ SI s') : sProp 𝕄) := by
  iintro ⟨H, HSI⟩
  ihave X := (persistent_entails_right (SI_pointsTo_agree (st := s') (ℓ := ℓ) (I := Finset.univ) (q := q) (f := m ℓ))) $$ [HSI H]
  · isplitl [HSI] <;> iassumption
  icases X with ⟨%h1, HSI, -⟩
  isplitr
  · ipureintro; exact funext fun i => h1 i (Finset.mem_univ i)
  · iexact HSI

def fq (d : Dev nD) (s' : Phys nD τ sig (Elt F)) : Prop :=
  s'.mem.mem (tcLoc d main_arg0) = m (tcLoc d main_arg0) ∧ s'.mem.mem (tcLoc d main_arg1) = m (tcLoc d main_arg1)
    ∧ s'.mem.mem (tcLoc d main_arg2) = m (tcLoc d main_arg2) ∧ s'.mem.mem (tcLoc d main_arg3) = m (tcLoc d main_arg3)
    ∧ s'.mem.mem (tcLoc d main_arg4) = m (tcLoc d main_arg4) ∧ s'.mem.mem (tcLoc d main_arg5) = m (tcLoc d main_arg5)
    ∧ s'.mem.mem (tcLoc d main_arg6) = m (tcLoc d main_arg6) ∧ s'.mem.mem (tcLoc d main_arg7) = m (tcLoc d main_arg7)

theorem hfin (d : Dev nD) (s' : Phys nD τ sig (Elt F)) : iprop(FIN m d ∗ SI s') ⊢ (⌜fq m d s'⌝ : sProp 𝕄) := by
  iintro ⟨⟨H0, H1, H2, H3, H4, H5, H6, H7⟩, HSI⟩
  ihave X := (agree1 m (tcLoc d main_arg0) sd2 s') $$ [H0 HSI]
  · isplitl [H0] <;> iassumption
  icases X with ⟨%e0, HSI⟩
  ihave X := (agree1 m (tcLoc d main_arg1) sd2 s') $$ [H1 HSI]
  · isplitl [H1] <;> iassumption
  icases X with ⟨%e1, HSI⟩
  ihave X := (agree1 m (tcLoc d main_arg2) sd2 s') $$ [H2 HSI]
  · isplitl [H2] <;> iassumption
  icases X with ⟨%e2, HSI⟩
  ihave X := (agree1 m (tcLoc d main_arg3) sd2 s') $$ [H3 HSI]
  · isplitl [H3] <;> iassumption
  icases X with ⟨%e3, HSI⟩
  ihave X := (agree1 m (tcLoc d main_arg4) fullShare s') $$ [H4 HSI]
  · isplitl [H4] <;> iassumption
  icases X with ⟨%e4, HSI⟩
  ihave X := (agree1 m (tcLoc d main_arg5) fullShare s') $$ [H5 HSI]
  · isplitl [H5] <;> iassumption
  icases X with ⟨%e5, HSI⟩
  ihave X := (agree1 m (tcLoc d main_arg6) fullShare s') $$ [H6 HSI]
  · isplitl [H6] <;> iassumption
  icases X with ⟨%e6, HSI⟩
  ihave X := (agree1 m (tcLoc d main_arg7) fullShare s') $$ [H7 HSI]
  · isplitl [H7] <;> iassumption
  icases X with ⟨%e7, -⟩
  ipureintro; exact ⟨e0, e1, e2, e3, e4, e5, e6, e7⟩

/-! ## The program's run and the claim -/

def QC : PUnit × MemSt nD τ sig (Elt F) → Prop := fun r => ∀ c : Dev nD,
  r.2.mem (tcLoc c main_arg0) = m (tcLoc c main_arg0) ∧ r.2.mem (tcLoc c main_arg1) = m (tcLoc c main_arg1)
    ∧ r.2.mem (tcLoc c main_arg2) = m (tcLoc c main_arg2) ∧ r.2.mem (tcLoc c main_arg3) = m (tcLoc c main_arg3)
    ∧ r.2.mem (tcLoc c main_arg4) = m (tcLoc c main_arg4) ∧ r.2.mem (tcLoc c main_arg5) = m (tcLoc c main_arg5)
    ∧ r.2.mem (tcLoc c main_arg6) = m (tcLoc c main_arg6) ∧ r.2.mem (tcLoc c main_arg7) = m (tcLoc c main_arg7)

/-- The whole program — @main on the TensorCore, the two sequencers, the thirty-two tiles — runs to the end from the
    launch memory `m`, faulting nowhere, and leaves the eight arguments as they were: given the tile's body once, at
    symbolic coordinates. -/
theorem run_main [∀ e, Nonempty (Elt F e)] (hbody : TileBody m) (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- The precondition gives what the proof asks of the launch memory: every user index names one of the 1000000 rows
    of its table, every item index one of the 100000 of its. -/
theorem ok_of_pre (m : (ℓ : Loc nD τ sig) → Buf (Elt Bits) ℓ) (h : Cert.Pre_Kernel m) : PreOK (F := Bits) m := fun d b =>
  ⟨Cert.PreDecode.user_toNat_lt _ _ _ _ _ _ _ _ (h d) b, Cert.PreDecode.item_toNat_lt _ _ _ _ _ _ _ _ (h d) b⟩

/-- The kernel's frame, given the tile's body: the program terminates, faulting nowhere, its arguments unchanged. -/
theorem frame_KB (hbody : ∀ m, TileBody (F := Bits) m) : Cert.frame_Kernel := fun m ρ hpre =>
  (θ_run Cert.Kernel.defs _ _).mono (fun _ h c => h c) (run_main (F := Bits) m ρ (hbody m) (ok_of_pre m hpre))

end Cert.Proof.KB

end
-- ==== Proof.KOwn.lean ====
/-
  A tile's own storage and its share of the arrays, in the two spellings the proof uses.

  Between tasks a vector subcore's storage is stated as one assertion over everything the launch deals it: each of its
  own buffers whole at some contents, each of its own semaphore cells at zero. The kernel's function touches seven of
  those buffers (the two index lists, the two row buffers, the parameters, the accumulator, the result block) and eight
  of those cells (the DMA semaphores of its copies); opening the two big conjunctions at those fifteen members gives
  them by name beside the untouched rest, and closing puts them back. Likewise what a tile is handed — a read share of
  each argument array whole and its own 512 entries of the result — is the same assertion whether the arrays are
  named as the launch names them or through the kernel function's own references to them.
-/
import proofs.«214512_g89103391522852_cont_sun_m_1157_25_alg».proof.Proof.KPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-! ## Distinct names are distinct buffers and cells -/

theorem ref_ne (L : grid0.Coords) {a b : Ref sig .scVector} (h : a ≠ b) :
    ((Proc.scVector (cV L) (jV L)).devRef a : DevRef τ sig) ≠ (Proc.scVector (cV L) (jV L)).devRef b :=
  fun e => h (Proc.devRef_injective _ e)

theorem cell_ne (d : Dev nD) (L : grid0.Coords) {a b : DmaSem sig} (h : a ≠ b) :
    ((thr d L, SemLoc.dma a) : GSem nD τ sig) ≠ (thr d L, SemLoc.dma b) :=
  fun e => h (SemLoc.dma.inj (Prod.mk.inj e).2)

/-! ## The tile's own storage by name -/

/-- The tile's own buffers other than the seven the kernel's function is given. -/
def bufRest (L : grid0.Coords) : Finset (DevRef τ sig) :=
  ((((((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))

/-- The tile's own semaphore cells other than the eight the kernel's function is given. -/
def semRest (d : Dev nD) (L : grid0.Coords) : Finset (GSem nD τ sig) :=
  (((((((((ownCells (sig := sig) (thr d L)).erase ((thr d L, SemLoc.dma cc0_scratch7.sem) : GSem nD τ sig)).erase ((thr d L, SemLoc.dma cc0_scratch8.sem) : GSem nD τ sig)).erase ((thr d L, SemLoc.dma cc0_scratch9.sem) : GSem nD τ sig)).erase ((thr d L, SemLoc.dma cc0_scratch10.sem) : GSem nD τ sig)).erase ((thr d L, SemLoc.dma cc0_scoped0.sem) : GSem nD τ sig)).erase ((thr d L, SemLoc.dma cc0_scoped1.sem) : GSem nD τ sig)).erase ((thr d L, SemLoc.dma cc0_scoped2.sem) : GSem nD τ sig)).erase ((thr d L, SemLoc.dma cc0_scoped3.sem) : GSem nD τ sig))

/-- The seven scratch buffers whole at some contents and the eight DMA semaphores at zero. -/
def tileOwn (d : Dev nD) (L : grid0.Coords) : sProp 𝕄 :=
  iprop((∃ f, (uidxS).view.loc (thr d L) ↦{fullShare} f) ∗ (∃ f, (iidxS).view.loc (thr d L) ↦{fullShare} f) ∗ (∃ f, (urowS).view.loc (thr d L) ↦{fullShare} f) ∗ (∃ f, (irowS).view.loc (thr d L) ↦{fullShare} f) ∗ (∃ f, (parS).view.loc (thr d L) ↦{fullShare} f) ∗ (∃ f, (accS).view.loc (thr d L) ↦{fullShare} f) ∗ (∃ f, (outS).view.loc (thr d L) ↦{fullShare} f)
    ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0)

/-- The rest of the tile's own storage: its other buffers whole at some contents, its other cells at zero. -/
def tileRestOwn (d : Dev nD) (L : grid0.Coords) : sProp 𝕄 :=
  iprop((bigSep (bufRest L) fun b => iprop(∃ f, (((thr d L).1, b) : Loc nD τ sig) ↦{fullShare} f))
    ∗ bigSep (semRest d L) fun g => semVal g 0)

/-- The tile's own cells at zero: the eight by name, and the rest. -/
theorem ownSems0_open (d : Dev nD) (L : grid0.Coords) :
    (ownSems0 (thr d L) : sProp 𝕄)
      = iprop(semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
          ∗ bigSep (semRest d L) fun g => semVal g 0) := by
  unfold SparseCore.Cfg.ownSems0 semRest
  rw [SparseCore.bigSep_erase' ((mem_ownCells (g := ((thr d L, SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨cell_ne d L (show (cc0_scratch8.sem : DmaSem sig) ≠ cc0_scratch7.sem by decide), (mem_ownCells (g := ((thr d L, SemLoc.dma cc0_scratch8.sem) : GSem nD τ sig))).mpr ⟨rfl, by show (SemLoc.dma cc0_scratch8.sem : SemLoc sig).isScoped .scVector = true; decide⟩⟩),
    SparseCore.bigSep_erase' (Finset.mem_erase.mpr ⟨cell_ne d L (show (cc0_scratch9.sem : DmaSem sig) ≠ cc0_scratch8.sem by decide), Finset.mem_erase.mpr ⟨cell_ne d L (show (cc0_scratch9.sem : DmaSem sig) ≠ cc0_scratch7.sem by decide), (mem_ownCells (g := ((thr d L, SemLoc.dma cc0_scratch9.sem) : GSem nD τ sig))).mpr ⟨rfl, by show (SemLoc.dma cc0_scratch9.sem : SemLoc sig).isScoped .scVector = true; decide⟩⟩⟩),
    SparseCore.bigSep_erase' (Finset.mem_erase.mpr ⟨cell_ne d L (show (cc0_scratch10.sem : DmaSem sig) ≠ cc0_scratch9.sem by decide), Finset.mem_erase.mpr ⟨cell_ne d L (show (cc0_scratch10.sem : DmaSem sig) ≠ cc0_scratch8.sem by decide), Finset.mem_erase.mpr ⟨cell_ne d L (show (cc0_scratch10.sem : DmaSem sig) ≠ cc0_scratch7.sem by decide), (mem_ownCells (g := ((thr d L, SemLoc.dma cc0_scratch10.sem) : GSem nD τ sig))).mpr ⟨rfl, by show (SemLoc.dma cc0_scratch10.sem : SemLoc sig).isScoped .scVector = true; decide⟩⟩⟩⟩),
    SparseCore.bigSep_erase' (Finset.mem_erase.mpr ⟨cell_ne d L (show (cc0_scoped0.sem : DmaSem sig) ≠ cc0_scratch10.sem by decide), Finset.mem_erase.mpr ⟨cell_ne d L (show (cc0_scoped0.sem : DmaSem sig) ≠ cc0_scratch9.sem by decide), Finset.mem_erase.mpr ⟨cell_ne d L (show (cc0_scoped0.sem : DmaSem sig) ≠ cc0_scratch8.sem by decide), Finset.mem_erase.mpr ⟨cell_ne d L (show (cc0_scoped0.sem : DmaSem sig) ≠ cc0_scratch7.sem by decide), (mem_ownCells (g := ((thr d L, SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch10.sem by decide), Finset.mem_erase.mpr ⟨cell_ne d L (show (cc0_scoped1.sem : DmaSem sig) ≠ cc0_scratch9.sem by decide), Finset.mem_erase.mpr ⟨cell_ne d L (show (cc0_scoped1.sem : DmaSem sig) ≠ cc0_scratch8.sem by decide), Finset.mem_erase.mpr ⟨cell_ne d L (show (cc0_scoped1.sem : DmaSem sig) ≠ cc0_scratch7.sem by decide), (mem_ownCells (g := ((thr d L, SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨cell_ne d L (show (cc0_scoped2.sem : DmaSem sig) ≠ cc0_scoped1.sem by decide), Finset.mem_erase.mpr ⟨cell_ne d L (show (cc0_scoped2.sem : DmaSem sig) ≠ cc0_scoped0.sem by decide), Finset.mem_erase.mpr ⟨cell_ne d L (show (cc0_scoped2.sem : DmaSem sig) ≠ cc0_scratch10.sem by decide), Finset.mem_erase.mpr ⟨cell_ne d L (show (cc0_scoped2.sem : DmaSem sig) ≠ cc0_scratch9.sem by decide), Finset.mem_erase.mpr ⟨cell_ne d L (show (cc0_scoped2.sem : DmaSem sig) ≠ cc0_scratch8.sem by decide), Finset.mem_erase.mpr ⟨cell_ne d L (show (cc0_scoped2.sem : DmaSem sig) ≠ cc0_scratch7.sem by decide), (mem_ownCells (g := ((thr d L, SemLoc.dma cc0_scoped2.sem) : GSem nD τ sig))).mpr ⟨rfl, by show (SemLoc.dma cc0_scoped2.sem : SemLoc sig).isScoped .scVector = true; decide⟩⟩⟩⟩⟩⟩⟩),
    SparseCore.bigSep_erase' (Finset.mem_erase.mpr ⟨cell_ne d L (show (cc0_scoped3.sem : DmaSem sig) ≠ cc0_scoped2.sem by decide), Finset.mem_erase.mpr ⟨cell_ne d L (show (cc0_scoped3.sem : DmaSem sig) ≠ cc0_scoped1.sem by decide), Finset.mem_erase.mpr ⟨cell_ne d L (show (cc0_scoped3.sem : DmaSem sig) ≠ cc0_scoped0.sem by decide), Finset.mem_erase.mpr ⟨cell_ne d L (show (cc0_scoped3.sem : DmaSem sig) ≠ cc0_scratch10.sem by decide), Finset.mem_erase.mpr ⟨cell_ne d L (show (cc0_scoped3.sem : DmaSem sig) ≠ cc0_scratch9.sem by decide), Finset.mem_erase.mpr ⟨cell_ne d L (show (cc0_scoped3.sem : DmaSem sig) ≠ cc0_scratch8.sem by decide), Finset.mem_erase.mpr ⟨cell_ne d L (show (cc0_scoped3.sem : DmaSem sig) ≠ cc0_scratch7.sem by decide), (mem_ownCells (g := ((thr d L, SemLoc.dma cc0_scoped3.sem) : GSem nD τ sig))).mpr ⟨rfl, by show (SemLoc.dma cc0_scoped3.sem : SemLoc sig).isScoped .scVector = true; decide⟩⟩⟩⟩⟩⟩⟩⟩)]

/-- The tile's own buffers at some contents: the seven by name, and the rest. -/
theorem ownBufs_open (d : Dev nD) (L : grid0.Coords) :
    (ownBufs (thr d L) : sProp 𝕄)
      = iprop((∃ f, (uidxS).view.loc (thr d L) ↦{fullShare} f) ∗ (∃ f, (iidxS).view.loc (thr d L) ↦{fullShare} f) ∗ (∃ f, (urowS).view.loc (thr d L) ↦{fullShare} f) ∗ (∃ f, (irowS).view.loc (thr d L) ↦{fullShare} f) ∗ (∃ f, (parS).view.loc (thr d L) ↦{fullShare} f) ∗ (∃ f, (accS).view.loc (thr d L) ↦{fullShare} f) ∗ (∃ f, (outS).view.loc (thr d L) ↦{fullShare} f)
          ∗ bigSep (bufRest L) fun b => iprop(∃ f, (((thr d L).1, b) : Loc nD τ sig) ↦{fullShare} f)) := by
  unfold SparseCore.Cfg.ownBufs bufRest
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨ref_ne L (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨ref_ne L (show (cc0_scratch2 : Ref sig .scVector) ≠ cc0_scratch1 by decide), Finset.mem_erase.mpr ⟨ref_ne L (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨ref_ne L (show (cc0_scratch3 : Ref sig .scVector) ≠ cc0_scratch2 by decide), Finset.mem_erase.mpr ⟨ref_ne L (show (cc0_scratch3 : Ref sig .scVector) ≠ cc0_scratch1 by decide), Finset.mem_erase.mpr ⟨ref_ne L (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨ref_ne L (show (cc0_scratch4 : Ref sig .scVector) ≠ cc0_scratch3 by decide), Finset.mem_erase.mpr ⟨ref_ne L (show (cc0_scratch4 : Ref sig .scVector) ≠ cc0_scratch2 by decide), Finset.mem_erase.mpr ⟨ref_ne L (show (cc0_scratch4 : Ref sig .scVector) ≠ cc0_scratch1 by decide), Finset.mem_erase.mpr ⟨ref_ne L (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨ref_ne L (show (cc0_scratch5 : Ref sig .scVector) ≠ cc0_scratch4 by decide), Finset.mem_erase.mpr ⟨ref_ne L (show (cc0_scratch5 : Ref sig .scVector) ≠ cc0_scratch3 by decide), Finset.mem_erase.mpr ⟨ref_ne L (show (cc0_scratch5 : Ref sig .scVector) ≠ cc0_scratch2 by decide), Finset.mem_erase.mpr ⟨ref_ne L (show (cc0_scratch5 : Ref sig .scVector) ≠ cc0_scratch1 by decide), Finset.mem_erase.mpr ⟨ref_ne L (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨ref_ne L (show (cc0_scratch6 : Ref sig .scVector) ≠ cc0_scratch5 by decide), Finset.mem_erase.mpr ⟨ref_ne L (show (cc0_scratch6 : Ref sig .scVector) ≠ cc0_scratch4 by decide), Finset.mem_erase.mpr ⟨ref_ne L (show (cc0_scratch6 : Ref sig .scVector) ≠ cc0_scratch3 by decide), Finset.mem_erase.mpr ⟨ref_ne L (show (cc0_scratch6 : Ref sig .scVector) ≠ cc0_scratch2 by decide), Finset.mem_erase.mpr ⟨ref_ne L (show (cc0_scratch6 : Ref sig .scVector) ≠ cc0_scratch1 by decide), Finset.mem_erase.mpr ⟨ref_ne L (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩)]

/-- A tile's storage between tasks, opened at the fifteen members the kernel's function is given. -/
theorem scoped_open (d : Dev nD) (L : grid0.Coords) :
    iprop(scopedBufs (thr d L) ∗ scopedSems0 (thr d L)) ⊢ (iprop(tileOwn d L ∗ tileRestOwn d L) : sProp 𝕄) := by
  rw [(K (F := F)).scopedBufs_V facts d (cV L) (jV L), SparseCore.Cfg.scopedSems0_V (Val := Elt F) d (cV L) (jV L),
    ownSems0_open, ownBufs_open]
  unfold tileOwn tileRestOwn
  iintro ⟨⟨H0, H1, H2, H3, H4, H5, H6, Hbr⟩, S7, S8, S9, S10, C0, C1, C2, C3, Hsr⟩
  isplitl [H0 H1 H2 H3 H4 H5 H6 S7 S8 S9 S10 C0 C1 C2 C3]
  · iframe
  · iframe

/-- The fifteen members and the rest put back together. -/
theorem scoped_close (d : Dev nD) (L : grid0.Coords) :
    (iprop(tileOwn d L ∗ tileRestOwn d L) : sProp 𝕄) ⊢ iprop(scopedBufs (thr d L) ∗ scopedSems0 (thr d L)) := by
  rw [(K (F := F)).scopedBufs_V facts d (cV L) (jV L), SparseCore.Cfg.scopedSems0_V (Val := Elt F) d (cV L) (jV L),
    ownSems0_open, ownBufs_open]
  unfold tileOwn tileRestOwn
  iintro ⟨⟨H0, H1, H2, H3, H4, H5, H6, S7, S8, S9, S10, C0, C1, C2, C3⟩, Hbr, Hsr⟩
  isplitl [H0 H1 H2 H3 H4 H5 H6 Hbr]
  · iframe
  · iframe

/-! ## What a tile is handed, through the kernel function's own references -/

variable (m : (ℓ : Loc nD τ sig) → Buf (Elt F) ℓ)

/-- What the tile is handed, with each array named as the kernel's function names it. -/
theorem go_open (d : Dev nD) (L : grid0.Coords) :
    goRes m d L ⊢ (iprop(((userW).view.loc (thr d L) ↦{qT (L 0).val (L 1).val} m (a0Loc d))
      ∗ ((itemW).view.loc (thr d L) ↦{qT (L 0).val (L 1).val} m (a1Loc d))
      ∗ ((uembW).view.loc (thr d L) ↦{qT (L 0).val (L 1).val} m (a2Loc d))
      ∗ ((iembW).view.loc (thr d L) ↦{qT (L 0).val (L 1).val} m (a3Loc d))
      ∗ (∃ fp, (parW).view.loc (thr d L) ↦{qT (L 0).val (L 1).val} fp)
      ∗ (∃ fo, (outSl L).view.loc (thr d L) ↦[(outSl L).view.set]{fullShare} fo)) : sProp 𝕄) := by
  unfold goRes
  exact Entails.rfl

/-- The tile's 512 result entries, named through the kernel function's slice, are what it hands back. -/
theorem td_close (d : Dev nD) (L : grid0.Coords) :
    (iprop(∃ fo, (outSl L).view.loc (thr d L) ↦[(outSl L).view.set]{fullShare} fo) : sProp 𝕄) ⊢ tdRes d L := by
  unfold tdRes
  exact Entails.rfl

end Cert.Proof.KI

end
-- ==== Proof.KFacts.lean ====
/-
  Words the tile reads back out of its index scratch are words of the index array.

  The tile fills its 512-word index scratch, whole, from a slice of an index array, and later loads sixteen words of it
  at a time and takes single lanes of what it loaded. Each such lane is one word of the array; so a bound that holds of
  every word of the array holds of the lane, and the row of the table that the lane names exists.
-/
import proofs.«214512_g89103391522852_cont_sun_m_1157_25_alg».proof.Proof.KPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-- A word of a slice of the first index array, as a copy out of it carries it, is a word of the array. -/
theorem pay0_lt {N : ℕ} (fu : S16384.Idx → BitVec 32) (hfu : ∀ b, (fu b).toNat < N)
    (off : Fin 1 → Nat) (hin : ∀ a, off a + S512.size a ≤ S16384.size a) (x : S512.Idx) :
    ((ReadAs.same.apply (View.read (Elt F) ((userW).slice (Rect.unit (s := S16384) off S512.size hin) (fun _ => rfl)).view fu)) x).toNat < N := by
  show (View.read (Elt F) ((userW).slice (Rect.unit (s := S16384) off S512.size hin) (fun _ => rfl)).view fu x).toNat < N
  rw [View.read_apply]
  exact hfu _

/-- The same for the second index array. -/
theorem pay1_lt {N : ℕ} (fi : S16384.Idx → BitVec 32) (hfi : ∀ b, (fi b).toNat < N)
    (off : Fin 1 → Nat) (hin : ∀ a, off a + S512.size a ≤ S16384.size a) (x : S512.Idx) :
    ((ReadAs.same.apply (View.read (Elt F) ((itemW).slice (Rect.unit (s := S16384) off S512.size hin) (fun _ => rfl)).view fi)) x).toNat < N := by
  show (View.read (Elt F) ((itemW).slice (Rect.unit (s := S16384) off S512.size hin) (fun _ => rfl)).view fi x).toNat < N
  rw [View.read_apply]
  exact hfi _

/-- A lane of a load from the first index scratch, once the scratch has been overwritten whole by `pay`, is a word of `pay`. -/
theorem lane0_lt {N : ℕ} (pay : S512.Idx → BitVec 32) (hpay : ∀ x, (pay x).toNat < N)
    (g : (uidxS).view.ty.Contents (Elt F)) (off : Fin 1 → Nat) (hin : ∀ a, off a + S16.size a ≤ S512.size a)
    (o : Fin 1 → Nat) (hs : (Rect.unit (s := S512) off S16.size hin).shape.Slices o S1) (hp : ∀ a, (![0] : Fin 1 → Nat) a < S1.size a) :
    (extractAt ![0] (extractStridedSlice S1 o (View.readAt (Elt F) (uidxS).view (Rect.unit (s := S512) off S16.size hin).toLoadRect (View.write (Elt F) (uidxS).view g pay Finset.univ)) hs) hp).toNat < N := by
  show ((View.write (Elt F) (uidxS).view g pay Finset.univ) _).toNat < N
  rw [show View.write (Elt F) (uidxS).view g pay Finset.univ = pay from View.write_whole_univ _ _ _]
  exact hpay _

/-- A lane of a load from the second index scratch, once the scratch has been overwritten whole by `pay`, is a word of `pay`. -/
theorem lane1_lt {N : ℕ} (pay : S512.Idx → BitVec 32) (hpay : ∀ x, (pay x).toNat < N)
    (g : (iidxS).view.ty.Contents (Elt F)) (off : Fin 1 → Nat) (hin : ∀ a, off a + S16.size a ≤ S512.size a)
    (o : Fin 1 → Nat) (hs : (Rect.unit (s := S512) off S16.size hin).shape.Slices o S1) (hp : ∀ a, (![0] : Fin 1 → Nat) a < S1.size a) :
    (extractAt ![0] (extractStridedSlice S1 o (View.readAt (Elt F) (iidxS).view (Rect.unit (s := S512) off S16.size hin).toLoadRect (View.write (Elt F) (iidxS).view g pay Finset.univ)) hs) hp).toNat < N := by
  show ((View.write (Elt F) (iidxS).view g pay Finset.univ) _).toNat < N
  rw [show View.write (Elt F) (iidxS).view g pay Finset.univ = pay from View.write_whole_univ _ _ _]
  exact hpay _

end Cert.Proof.KI

end
-- ==== Proof.KRows.lean ====
/-
  Rows, read tokens and batches: the vocabulary in which the tile's double-buffered gather is stated.

  Each of the two rows scratches is two halves of 128 rows of 64 entries. A chunk's 128 row copies from a table land one
  row each in one half and all signal ONE semaphore, so they are a batch on that cell: copy `t` delivers row `t` of the
  half, held again by its own 64 entries at whatever landed. Every copy reads one row of a table; the tile holds a read
  share of the table whole, cut into as many read tokens as there are copies, one consumed per copy — so two samples
  naming the same row never meet. The two index scratches hold, from the start, the tile's 512 words of each index array.
-/
import proofs.«214512_g89103391522852_cont_sun_m_1157_25_alg».proof.Proof.KFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

theorem row_inb (b : Fin 2) (r : Fin 128) : ∀ a, (![b.val, r.val, 0] : Fin 3 → Nat) a + S1x1x64.size a ≤ S2x128x64.size a := by
  have hb := b.isLt; have hr := r.isLt; intro a; fin_cases a
  · show b.val + 1 ≤ 2; omega
  · show r.val + 1 ≤ 128; omega
  · show 0 + 64 ≤ 64; omega

theorem inb_of {off : Fin 3 → Nat} {b r : ℕ} (e : off = ![b, r, 0]) (hb : b < 2) (hr : r < 128) :
    ∀ a, off a + S1x1x64.size a ≤ S2x128x64.size a := e ▸ row_inb ⟨b, hb⟩ ⟨r, hr⟩

/-- The 64 entries at offsets `off` of a rows scratch `M`, as the kernel slices a copy's destination. -/
def rowAt (M : Memref sig .scVector .vmem S2x128x64 .f32) (off : Fin 3 → Nat) (h : ∀ a, off a + S1x1x64.size a ≤ S2x128x64.size a) :
    Memref sig .scVector .vmem S64 .f32 :=
  (M.slice (Rect.unit (s := S2x128x64) off S1x1x64.size h) (fun _ => rfl)).squeeze S64 Facts₀.squeezes_S1x1x64_S64

section Res

variable (d : Dev nD) (L : grid0.Coords)

/-- A row owned: held by its own 64 elements at some contents. -/
abbrev ownAt (M : Memref sig .scVector .vmem S2x128x64 .f32) (off : Fin 3 → Nat) (h : ∀ a, off a + S1x1x64.size a ≤ S2x128x64.size a) : sProp 𝕄 :=
  iprop(∃ g, (rowAt M off h).view.loc (thr d L) ↦[(rowAt M off h).view.set]{fullShare} g)
/-- Row `r` of half `b` of the user-rows scratch, and of the item-rows scratch, owned. -/
abbrev ownU (b : Fin 2) (r : Fin 128) : sProp 𝕄 := ownAt (F := F) d L (urowS) ![b.val, r.val, 0] (row_inb b r)
abbrev ownI (b : Fin 2) (r : Fin 128) : sProp 𝕄 := ownAt (F := F) d L (irowS) ![b.val, r.val, 0] (row_inb b r)

omit [FloatOps F] in
theorem ownAt_congr {M : Memref sig .scVector .vmem S2x128x64 .f32} {off off' : Fin 3 → Nat} (e : off = off') (h) (h') :
    ownAt (F := F) d L M off h = ownAt (F := F) d L M off' h' := by subst e; rfl

omit [FloatOps F] in
/-- A row held at the offsets the program computes is the row the batch promised, once the offsets are identified. -/
theorem deliver {M : Memref sig .scVector .vmem S2x128x64 .f32} {off : Fin 3 → Nat} {h} {g} (b r : ℕ) (h') (e : off = ![b, r, 0]) :
    ((rowAt M off h).view.loc (thr d L) ↦[(rowAt M off h).view.set]{fullShare} g : sProp 𝕄) ⊢ ownAt (F := F) d L M ![b, r, 0] h' := by
  subst e; iintro H; iexists _; iexact H

/-- Read token `t` of the tile's share `q` of a table held whole. -/
abbrev tokU (q : PosShare TreeShare) (fue : S1000000x64.Idx → Elt F .f32) (t : ℕ) : sProp 𝕄 :=
  (uembW).view.loc (thr d L) ↦[(uembW).view.set]{Transfers.shareTokN q t} fue
abbrev tokI (q : PosShare TreeShare) (fie : S100000x64.Idx → Elt F .f32) (t : ℕ) : sProp 𝕄 :=
  (iembW).view.loc (thr d L) ↦[(iembW).view.set]{Transfers.shareTokN q t} fie
/-- The batch of 128 row copies into half `b` on cell `sm`: `j` issued, `u` units consumed; copy `t` delivers row `t`. -/
abbrev batchU (b : Fin 2) (sm : SemLoc sig) (j u : ℕ) : sProp 𝕄 :=
  Transfers.Batch (countersEmb (U := UU)) (thr d L) sm (none : HIx 1) 2048 (ownU (F := F) d L b) j u
abbrev batchI (b : Fin 2) (sm : SemLoc sig) (j u : ℕ) : sProp 𝕄 :=
  Transfers.Batch (countersEmb (U := UU)) (thr d L) sm (none : HIx 1) 2048 (ownI (F := F) d L b) j u
/-- The index scratches once filled from the tile's 512 words of each index array. -/
abbrev idxU (fu : S16384.Idx → BitVec 32) (f0 : (uidxS).view.ty.Contents (Elt F)) : sProp 𝕄 :=
  (uidxS).view.loc (thr d L) ↦{fullShare} View.write (Elt F) (uidxS).view f0
    (ReadAs.same.apply (View.read (Elt F) ((userW).slice (Rect.unit (s := S16384) (k0_off1 L) S512.size (k0_off1_inb L)) (fun _ => rfl)).view fu)) Finset.univ
abbrev idxI (fi : S16384.Idx → BitVec 32) (f1 : (iidxS).view.ty.Contents (Elt F)) : sProp 𝕄 :=
  (iidxS).view.loc (thr d L) ↦{fullShare} View.write (Elt F) (iidxS).view f1
    (ReadAs.same.apply (View.read (Elt F) ((itemW).slice (Rect.unit (s := S16384) (k0_off1 L) S512.size (k0_off1_inb L)) (fun _ => rfl)).view fi)) Finset.univ

end Res

end Cert.Proof.KI

end
-- ==== Proof.KBodyPre.lean ====
/-
  Before the first chunk is issued: each table's read share is cut into the four chunks' runs of 128 read tokens.
-/
import proofs.«214512_g89103391522852_cont_sun_m_1157_25_alg».proof.Proof.KRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Toks

variable (d : Dev nD) (L : grid0.Coords)

omit [FloatOps F] in
/-- The tile's read share of the user table cut into the four chunks' runs of 128 read tokens (what is left of the share
    after the 512 tokens is let go). -/
theorem toksU_split (q : PosShare TreeShare) (fue : S1000000x64.Idx → Elt F .f32) :
    ((uembW).view.loc (thr d L) ↦{q} fue : sProp 𝕄)
      ⊢ iprop(bigSep (Ring.rangeSet 512 0 128) (fun t => tokU d L q fue t.val) ∗ bigSep (Ring.rangeSet 512 128 256) (fun t => tokU d L q fue t.val)
          ∗ bigSep (Ring.rangeSet 512 256 384) (fun t => tokU d L q fue t.val) ∗ bigSep (Ring.rangeSet 512 384 512) (fun t => tokU d L q fue t.val)) := by
  have e : ((uembW).view.loc (thr d L) ↦{q} fue : sProp 𝕄) = ((uembW).view.loc (thr d L) ↦[(uembW).view.set]{q} fue) := by
    simp only [Memref.view_whole, View.set_whole]
  rw [e]
  refine (Transfers.pointsTo_toks_range q 512).1.trans ?_
  iintro ⟨-, Ht⟩
  ihave Ht' := (Entails.of_eq (Ring.bigSep_rangeSet_eq_range (NB := 512) (lo := 0) (hi := 512)
    (Φ := fun t => tokU d L q fue t.val) le_rfl (fun t => tokU d L q fue t) (fun k hk => by show tokU d L q fue k = tokU d L q fue (0 + k); rw [Nat.zero_add])).symm) $$ Ht
  ihave Hs := (Entails.of_eq ((Ring.bigSep_rangeSet_split (NB := 512) (Φ := fun t => tokU d L q fue t.val) (a := 0) (b := 128) (d := 512) (by omega) (by omega)).trans
    (by rw [Ring.bigSep_rangeSet_split (NB := 512) (Φ := fun t => tokU d L q fue t.val) (a := 128) (b := 256) (d := 512) (by omega) (by omega),
          Ring.bigSep_rangeSet_split (NB := 512) (Φ := fun t => tokU d L q fue t.val) (a := 256) (b := 384) (d := 512) (by omega) (by omega)]))) $$ Ht'
  iexact Hs

omit [FloatOps F] in
/-- The tile's read share of the item table cut into the four chunks' runs of 128 read tokens (what is left of the share
    after the 512 tokens is let go). -/
theorem toksI_split (q : PosShare TreeShare) (fie : S100000x64.Idx → Elt F .f32) :
    ((iembW).view.loc (thr d L) ↦{q} fie : sProp 𝕄)
      ⊢ iprop(bigSep (Ring.rangeSet 512 0 128) (fun t => tokI d L q fie t.val) ∗ bigSep (Ring.rangeSet 512 128 256) (fun t => tokI d L q fie t.val)
          ∗ bigSep (Ring.rangeSet 512 256 384) (fun t => tokI d L q fie t.val) ∗ bigSep (Ring.rangeSet 512 384 512) (fun t => tokI d L q fie t.val)) := by
  have e : ((iembW).view.loc (thr d L) ↦{q} fie : sProp 𝕄) = ((iembW).view.loc (thr d L) ↦[(iembW).view.set]{q} fie) := by
    simp only [Memref.view_whole, View.set_whole]
  rw [e]
  refine (Transfers.pointsTo_toks_range q 512).1.trans ?_
  iintro ⟨-, Ht⟩
  ihave Ht' := (Entails.of_eq (Ring.bigSep_rangeSet_eq_range (NB := 512) (lo := 0) (hi := 512)
    (Φ := fun t => tokI d L q fie t.val) le_rfl (fun t => tokI d L q fie t) (fun k hk => by show tokI d L q fie k = tokI d L q fie (0 + k); rw [Nat.zero_add])).symm) $$ Ht
  ihave Hs := (Entails.of_eq ((Ring.bigSep_rangeSet_split (NB := 512) (Φ := fun t => tokI d L q fie t.val) (a := 0) (b := 128) (d := 512) (by omega) (by omega)).trans
    (by rw [Ring.bigSep_rangeSet_split (NB := 512) (Φ := fun t => tokI d L q fie t.val) (a := 128) (b := 256) (d := 512) (by omega) (by omega),
          Ring.bigSep_rangeSet_split (NB := 512) (Φ := fun t => tokI d L q fie t.val) (a := 256) (b := 384) (d := 512) (by omega) (by omega)]))) $$ Ht'
  iexact Hs

end Toks

end Cert.Proof.KI

end
-- ==== Proof.KLoopInit.lean ====
/-
  The bias-initialisation loop of a tile, as a loop invariant of constant resources.

  Each of its 32 trips stores ten 16-lane vectors into the accumulator scratch and touches nothing else, so the loop
  is framed by the accumulator held whole at some contents: the invariant says nothing of values.
-/
import proofs.«214512_g89103391522852_cont_sun_m_1157_25_alg».proof.Proof.KPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- The accumulator scratch of the tile, held whole at some contents. -/
def accAny : sProp 𝕄 := iprop(∃ f, (accS).view.loc (thr d L) ↦{fullShare} f)

/-- One trip of the bias-initialisation loop keeps the accumulator held whole. -/
theorem t1_step (v3 : IVec S16 32) (v7 v11 v15 v19 v23 : Vec F S16 .f32) (v24 : IVec S16 32) (c1285_i32 : BitVec 32) (v27 v31 v35 v39 v43 : Vec F S16 .f32) (k : Fin k0_t1_loop.trips) (acc : Unit) :
    accAny (F := F) d L ⊢ wp frame (wpE (defs₀ (F := F)) 𝒱₀ (thr d L) none) Set.univ (k0_t1_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 v27 v31 v35 v39 v43 k acc) (fun _ => accAny (F := F) d L) := by
  unfold accAny
  iintro ⟨%f, H5⟩
  repeat (sl_exec; unfold SparseCore.vectorLoadIdx)
  sl_exec
  sl_step
  iexists _; iexact H5

set_option warn.classDefReducibility false in
/-- The bias-initialisation loop's invariant: the accumulator held whole, before every trip. -/
@[sl_loop] def invT1 (v3 : IVec S16 32) (v7 v11 v15 v19 v23 : Vec F S16 .f32) (v24 : IVec S16 32) (c1285_i32 : BitVec 32) (v27 v31 v35 v39 v43 : Vec F S16 .f32) :
    LoopInv (M := 𝕄) frame (wpE (defs₀ (F := F)) 𝒱₀ (thr d L) none) Set.univ k0_t1_loop.lb k0_t1_loop.ub k0_t1_loop.st k0_t1_ok ⟨⟩ (k0_t1_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 v27 v31 v35 v39 v43) where
  inv := fun _ _ => accAny (F := F) d L
  step := t1_step d L v3 v7 v11 v15 v19 v23 v24 c1285_i32 v27 v31 v35 v39 v43

end Tile

end Cert.Proof.KI

end
-- ==== Proof.KLoopOut.lean ====
/-
  The output loop of a tile, as a loop invariant of constant resources.

  Each of its 32 trips reads ten 16-lane vectors of the accumulator scratch and stores one 16-lane vector into the
  output scratch; it touches nothing else. The loop is framed by the two scratch arrays held whole at some contents:
  the invariant says nothing of values.
-/
import proofs.«214512_g89103391522852_cont_sun_m_1157_25_alg».proof.Proof.KLoopInit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- The output scratch of the tile, held whole at some contents. -/
def outAny : sProp 𝕄 := iprop(∃ f, (outS).view.loc (thr d L) ↦{fullShare} f)

/-- What the output loop holds before every trip: the accumulator and the output scratch, whole. -/
def outRes : sProp 𝕄 := iprop(accAny (F := F) d L ∗ outAny (F := F) d L)

/-- One trip of the output loop keeps both scratch arrays held whole. -/
theorem t13_step (v51 v55 v59 v63 v67 v71 v75 v79 v83 v87 v91 : Vec F S16 .f32) (k : Fin k0_t13_loop.trips) (acc : Unit) :
    outRes (F := F) d L ⊢ wp frame (wpE (defs₀ (F := F)) 𝒱₀ (thr d L) none) Set.univ (k0_t13_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v51 v55 v59 v63 v67 v71 v75 v79 v83 v87 v91 k acc) (fun _ => outRes (F := F) d L) := by
  unfold outRes accAny outAny
  iintro ⟨⟨%f5, H5⟩, ⟨%f6, H6⟩⟩
  repeat (sl_exec; unfold SparseCore.vectorLoadIdx)
  sl_exec
  sl_step
  isplitl [H5]
  · iexists _; iexact H5
  · iexists _; iexact H6

set_option warn.classDefReducibility false in
/-- The output loop's invariant: the accumulator and the output scratch held whole, before every trip. -/
@[sl_loop] def invT13 (v51 v55 v59 v63 v67 v71 v75 v79 v83 v87 v91 : Vec F S16 .f32) :
    LoopInv (M := 𝕄) frame (wpE (defs₀ (F := F)) 𝒱₀ (thr d L) none) Set.univ k0_t13_loop.lb k0_t13_loop.ub k0_t13_loop.st k0_t13_ok ⟨⟩ (k0_t13_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v51 v55 v59 v63 v67 v71 v75 v79 v83 v87 v91) where
  inv := fun _ _ => outRes (F := F) d L
  step := t13_step d L v51 v55 v59 v63 v67 v71 v75 v79 v83 v87 v91

end Tile

end Cert.Proof.KI

end
-- ==== Proof.KLoopL1U.lean ====
/-
  The first-layer loops of a tile on the user half, as loop invariants of constant resources.

  Chunk `k4` of the tile's 512 rows computes on one half of the user-row scratch (128 gathered rows of 64 features).
  The outer loop runs over the 16 groups of four features: each trip reads forty weights out of the parameter scratch
  as lane-constant vectors and runs the inner loop over the 8 groups of 16 rows, whose trip gathers four feature
  columns of the half and adds their products with the weights into the 10 × 16 accumulator entries of those rows.
  So both loops only read the parameters and the half, and read and write the accumulator: they are framed by the
  parameter scratch held whole at fixed contents, the half held by exactly its own elements at fixed contents, and the
  accumulator held whole at some contents. Nothing is said of values.

  The gathers' indices are the row numbers `16·k8 + lane` and the feature numbers `4·k7 + {0,1,2,3}`; that they are
  inside the 128 × 64 half is asked as hypotheses, for all trips at once, over the lane numbers `v3` the kernel
  computed before the loops (they hold by evaluation once `v3` is the lane numbers 0 … 15).
-/
import proofs.«214512_g89103391522852_cont_sun_m_1157_25_alg».proof.Proof.KLoopInit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- The half of the user-row scratch that chunk `k4` computes on, as the kernel slices it: 128 rows of 64 features. -/
def halfU (k4 : Fin k0_t4_loop.trips) : Memref sig .scVector .vmem S128x64 .f32 :=
  ((urowS).slice (Rect.unit (s := S2x128x64) (k0_off144 k4) S1x128x64.size (k0_off144_inb k4)) (fun _ => rfl)).squeeze S128x64 squeezes_S1x128x64_S128x64

/-- What the inner loop holds before every trip: the half by its own elements at contents `g`, the accumulator whole. -/
def l1uIn (k4 : Fin k0_t4_loop.trips) (g : Buf (Elt F) ((halfU k4).view.loc (thr d L))) : sProp 𝕄 :=
  iprop(((halfU k4).view.loc (thr d L) ↦[(halfU k4).view.set]{fullShare} g) ∗ (∃ f, (accS).view.loc (thr d L) ↦{fullShare} f))

/-- What the outer loop holds before every trip: the parameters whole at contents `fp`, and what the inner loop holds. -/
def l1uRes (k4 : Fin k0_t4_loop.trips) (fp : S1312.Idx → Elt F .f32) (g : Buf (Elt F) ((halfU k4).view.loc (thr d L))) : sProp 𝕄 :=
  iprop(((parS).view.loc (thr d L) ↦{fullShare} fp) ∗ ((halfU k4).view.loc (thr d L) ↦[(halfU k4).view.set]{fullShare} g)
    ∗ (∃ f, (accS).view.loc (thr d L) ↦{fullShare} f))

/-- One trip of the inner loop: four gathers out of the half, ten read-modify-writes of the accumulator. -/
theorem t8_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h115 : ∀ k8 : Fin k0_t8_loop.trips, k0_chk115 (k0_pay66 v3 0#32 1#32 k8) (k0_pay67 v114))
    (h116 : ∀ k8 : Fin k0_t8_loop.trips, k0_chk116 (k0_pay66 v3 0#32 1#32 k8) (k0_pay69 v114))
    (h117 : ∀ k8 : Fin k0_t8_loop.trips, k0_chk117 (k0_pay66 v3 0#32 1#32 k8) (k0_pay71 v114))
    (h118 : ∀ k8 : Fin k0_t8_loop.trips, k0_chk118 (k0_pay66 v3 0#32 1#32 k8) (k0_pay73 v114))
    (g : Buf (Elt F) ((halfU k0_t4).view.loc (thr d L))) (k : Fin k0_t8_loop.trips) (acc : Unit) :
    l1uIn (F := F) d L k0_t4 g ⊢ wp frame (wpE (defs₀ (F := F)) 𝒱₀ (thr d L) none) Set.univ (k0_t8_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 k acc) (fun _ => l1uIn (F := F) d L k0_t4 g) := by
  unfold l1uIn
  iintro ⟨Hh, ⟨%f5, H5⟩⟩
  have c115 := h115 k
  have c116 := h116 k
  have c117 := h117 k
  have c118 := h118 k
  repeat (sl_exec; unfold SparseCore.vectorLoadIdx)
  sl_exec
  sl_step
  isplitl [Hh]
  · iexact Hh
  · iexists _; iexact H5

set_option warn.classDefReducibility false in
/-- The inner loop's invariant: the half at its contents and the accumulator, before every trip. -/
@[sl_loop] def invT8 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h115 : ∀ k8 : Fin k0_t8_loop.trips, k0_chk115 (k0_pay66 v3 0#32 1#32 k8) (k0_pay67 v114))
    (h116 : ∀ k8 : Fin k0_t8_loop.trips, k0_chk116 (k0_pay66 v3 0#32 1#32 k8) (k0_pay69 v114))
    (h117 : ∀ k8 : Fin k0_t8_loop.trips, k0_chk117 (k0_pay66 v3 0#32 1#32 k8) (k0_pay71 v114))
    (h118 : ∀ k8 : Fin k0_t8_loop.trips, k0_chk118 (k0_pay66 v3 0#32 1#32 k8) (k0_pay73 v114))
    (g : Buf (Elt F) ((halfU k0_t4).view.loc (thr d L))) :
    LoopInv (M := 𝕄) frame (wpE (defs₀ (F := F)) 𝒱₀ (thr d L) none) Set.univ k0_t8_loop.lb k0_t8_loop.ub k0_t8_loop.st k0_t8_ok ⟨⟩ (k0_t8_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434) where
  inv := fun _ _ => l1uIn (F := F) d L k0_t4 g
  step := t8_step d L v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 h115 h116 h117 h118 g

/-- One trip of the outer loop: forty lane-constant reads of the parameters, then the inner loop. -/
theorem t7_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (fp : S1312.Idx → Elt F .f32) (g : Buf (Elt F) ((halfU k0_t4).view.loc (thr d L))) (k : Fin k0_t7_loop.trips) (acc : Unit) :
    l1uRes (F := F) d L k0_t4 fp g ⊢ wp frame (wpE (defs₀ (F := F)) 𝒱₀ (thr d L) none) Set.univ (k0_t7_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 k acc) (fun _ => l1uRes (F := F) d L k0_t4 fp g) := by
  unfold l1uRes
  iintro ⟨Hp, Hh, ⟨%f5, H5⟩⟩
  have h115 := H115 k
  have h116 := H116 k
  have h117 := H117 k
  have h118 := H118 k
  repeat (sl_exec (disch := (clear * - k; decide +kernel +revert)); unfold SparseCore.vectorLoadIdx)
  sl_exec (disch := (clear * - k; decide +kernel +revert))
  sl_step
  isplitl [Hp]
  · iexact Hp
  isplitl [Hh]
  · iexact Hh
  · iexists _; iexact H5

set_option warn.classDefReducibility false in
/-- The outer loop's invariant: the parameters and the half at their contents and the accumulator, before every trip. -/
@[sl_loop] def invT7 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (fp : S1312.Idx → Elt F .f32) (g : Buf (Elt F) ((halfU k0_t4).view.loc (thr d L))) :
    LoopInv (M := 𝕄) frame (wpE (defs₀ (F := F)) 𝒱₀ (thr d L) none) Set.univ k0_t7_loop.lb k0_t7_loop.ub k0_t7_loop.st k0_t7_ok ⟨⟩ (k0_t7_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun _ _ => l1uRes (F := F) d L k0_t4 fp g
  step := t7_step d L v3 v7 v11 v15 v19 v23 v24 c1285_i32 k0_t4 arg19 H115 H116 H117 H118 fp g

end Tile

end Cert.Proof.KI

end
-- ==== Proof.KLoopL1I.lean ====
/-
  The first-layer loops of a tile on the item half, as loop invariants of constant resources.

  Chunk `k4` of the tile's 512 rows computes on one half of the item-row scratch (128 gathered rows of 64 features).
  The outer loop runs over the 16 groups of four features: each trip reads forty weights out of the parameter scratch
  as lane-constant vectors and runs the inner loop over the 8 groups of 16 rows, whose trip gathers four feature
  columns of the half and adds their products with the weights into the 10 × 16 accumulator entries of those rows.
  So both loops only read the parameters and the half, and read and write the accumulator: they are framed by the
  parameter scratch held whole at fixed contents, the half held by exactly its own elements at fixed contents, and the
  accumulator held whole at some contents. Nothing is said of values.

  The gathers' indices are the row numbers `16·k8 + lane` and the feature numbers `4·k7 + {0,1,2,3}`; that they are
  inside the 128 × 64 half is asked as hypotheses, for all trips at once, over the lane numbers `v3` the kernel
  computed before the loops (they hold by evaluation once `v3` is the lane numbers 0 … 15).
-/
import proofs.«214512_g89103391522852_cont_sun_m_1157_25_alg».proof.Proof.KLoopInit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- The half of the item-row scratch that chunk `k4` computes on, as the kernel slices it: 128 rows of 64 features. -/
def halfI (k4 : Fin k0_t4_loop.trips) : Memref sig .scVector .vmem S128x64 .f32 :=
  ((irowS).slice (Rect.unit (s := S2x128x64) (k0_off158 k4) S1x128x64.size (k0_off158_inb k4)) (fun _ => rfl)).squeeze S128x64 squeezes_S1x128x64_S128x64

/-- What the inner loop holds before every trip: the half by its own elements at contents `g`, the accumulator whole. -/
def l1iIn (k4 : Fin k0_t4_loop.trips) (g : Buf (Elt F) ((halfI k4).view.loc (thr d L))) : sProp 𝕄 :=
  iprop(((halfI k4).view.loc (thr d L) ↦[(halfI k4).view.set]{fullShare} g) ∗ (∃ f, (accS).view.loc (thr d L) ↦{fullShare} f))

/-- What the outer loop holds before every trip: the parameters whole at contents `fp`, and what the inner loop holds. -/
def l1iRes (k4 : Fin k0_t4_loop.trips) (fp : S1312.Idx → Elt F .f32) (g : Buf (Elt F) ((halfI k4).view.loc (thr d L))) : sProp 𝕄 :=
  iprop(((parS).view.loc (thr d L) ↦{fullShare} fp) ∗ ((halfI k4).view.loc (thr d L) ↦[(halfI k4).view.set]{fullShare} g)
    ∗ (∃ f, (accS).view.loc (thr d L) ↦{fullShare} f))

/-- One trip of the inner loop: four gathers out of the half, ten read-modify-writes of the accumulator. -/
theorem t10_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h159 : ∀ k8 : Fin k0_t10_loop.trips, k0_chk159 (k0_pay124 v3 0#32 1#32 k8) (k0_pay125 v114))
    (h160 : ∀ k8 : Fin k0_t10_loop.trips, k0_chk160 (k0_pay124 v3 0#32 1#32 k8) (k0_pay127 v114))
    (h161 : ∀ k8 : Fin k0_t10_loop.trips, k0_chk161 (k0_pay124 v3 0#32 1#32 k8) (k0_pay129 v114))
    (h162 : ∀ k8 : Fin k0_t10_loop.trips, k0_chk162 (k0_pay124 v3 0#32 1#32 k8) (k0_pay131 v114))
    (g : Buf (Elt F) ((halfI k0_t4).view.loc (thr d L))) (k : Fin k0_t10_loop.trips) (acc : Unit) :
    l1iIn (F := F) d L k0_t4 g ⊢ wp frame (wpE (defs₀ (F := F)) 𝒱₀ (thr d L) none) Set.univ (k0_t10_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 k acc) (fun _ => l1iIn (F := F) d L k0_t4 g) := by
  unfold l1iIn
  iintro ⟨Hh, ⟨%f5, H5⟩⟩
  have c159 := h159 k
  have c160 := h160 k
  have c161 := h161 k
  have c162 := h162 k
  repeat (sl_exec; unfold SparseCore.vectorLoadIdx)
  sl_exec
  sl_step
  isplitl [Hh]
  · iexact Hh
  · iexists _; iexact H5

set_option warn.classDefReducibility false in
/-- The inner loop's invariant: the half at its contents and the accumulator, before every trip. -/
@[sl_loop] def invT10 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h159 : ∀ k8 : Fin k0_t10_loop.trips, k0_chk159 (k0_pay124 v3 0#32 1#32 k8) (k0_pay125 v114))
    (h160 : ∀ k8 : Fin k0_t10_loop.trips, k0_chk160 (k0_pay124 v3 0#32 1#32 k8) (k0_pay127 v114))
    (h161 : ∀ k8 : Fin k0_t10_loop.trips, k0_chk161 (k0_pay124 v3 0#32 1#32 k8) (k0_pay129 v114))
    (h162 : ∀ k8 : Fin k0_t10_loop.trips, k0_chk162 (k0_pay124 v3 0#32 1#32 k8) (k0_pay131 v114))
    (g : Buf (Elt F) ((halfI k0_t4).view.loc (thr d L))) :
    LoopInv (M := 𝕄) frame (wpE (defs₀ (F := F)) 𝒱₀ (thr d L) none) Set.univ k0_t10_loop.lb k0_t10_loop.ub k0_t10_loop.st k0_t10_ok ⟨⟩ (k0_t10_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434) where
  inv := fun _ _ => l1iIn (F := F) d L k0_t4 g
  step := t10_step d L v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 h159 h160 h161 h162 g

/-- One trip of the outer loop: forty lane-constant reads of the parameters, then the inner loop. -/
theorem t9_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (fp : S1312.Idx → Elt F .f32) (g : Buf (Elt F) ((halfI k0_t4).view.loc (thr d L))) (k : Fin k0_t9_loop.trips) (acc : Unit) :
    l1iRes (F := F) d L k0_t4 fp g ⊢ wp frame (wpE (defs₀ (F := F)) 𝒱₀ (thr d L) none) Set.univ (k0_t9_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 k acc) (fun _ => l1iRes (F := F) d L k0_t4 fp g) := by
  unfold l1iRes
  iintro ⟨Hp, Hh, ⟨%f5, H5⟩⟩
  have h159 := H159 k
  have h160 := H160 k
  have h161 := H161 k
  have h162 := H162 k
  repeat (sl_exec (disch := (clear * - k; decide +kernel +revert)); unfold SparseCore.vectorLoadIdx)
  sl_exec (disch := (clear * - k; decide +kernel +revert))
  sl_step
  isplitl [Hp]
  · iexact Hp
  isplitl [Hh]
  · iexact Hh
  · iexists _; iexact H5

set_option warn.classDefReducibility false in
/-- The outer loop's invariant: the parameters and the half at their contents and the accumulator, before every trip. -/
@[sl_loop] def invT9 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (fp : S1312.Idx → Elt F .f32) (g : Buf (Elt F) ((halfI k0_t4).view.loc (thr d L))) :
    LoopInv (M := 𝕄) frame (wpE (defs₀ (F := F)) 𝒱₀ (thr d L) none) Set.univ k0_t9_loop.lb k0_t9_loop.ub k0_t9_loop.st k0_t9_ok ⟨⟩ (k0_t9_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun _ _ => l1iRes (F := F) d L k0_t4 fp g
  step := t9_step d L v3 v7 v11 v15 v19 v23 v24 c1285_i32 k0_t4 arg19 H159 H160 H161 H162 fp g

end Tile

end Cert.Proof.KI

end
-- ==== Proof.KLoopFacts.lean ====
/-
  The index facts the first-layer loops ask for, at the lane numbers the kernel computes.

  With `v3` the lane numbers 0 … 15, the row indices `16·k8 + lane` (`k8 < 8`) stay below 128 and the feature indices
  `4·k7 + j` (`k7 < 16`, `j < 4`) below 64: decided by evaluation over all trips and lanes.
-/
import proofs.«214512_g89103391522852_cont_sun_m_1157_25_alg».proof.Proof.KSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-- Gather 0 of the user half reads inside the half: rows `16·k8 + lane < 128`, feature `4·k7 + 0 < 64`. -/
theorem chk115_all : ∀ (k7 : Fin k0_t7_loop.trips) (k8 : Fin k0_t8_loop.trips),
    k0_chk115 (k0_pay66 (iota .scVector S16 32 [0] iota_S16_d0_w32_scVector) 0#32 1#32 k8) (k0_pay67 (Scalar.muli (Scf.iv 0#32 1#32 k7) 4#32)) := by
  decide +kernel

/-- Gather 1 of the user half reads inside the half: rows `16·k8 + lane < 128`, feature `4·k7 + 1 < 64`. -/
theorem chk116_all : ∀ (k7 : Fin k0_t7_loop.trips) (k8 : Fin k0_t8_loop.trips),
    k0_chk116 (k0_pay66 (iota .scVector S16 32 [0] iota_S16_d0_w32_scVector) 0#32 1#32 k8) (k0_pay69 (Scalar.muli (Scf.iv 0#32 1#32 k7) 4#32)) := by
  decide +kernel

/-- Gather 2 of the user half reads inside the half: rows `16·k8 + lane < 128`, feature `4·k7 + 2 < 64`. -/
theorem chk117_all : ∀ (k7 : Fin k0_t7_loop.trips) (k8 : Fin k0_t8_loop.trips),
    k0_chk117 (k0_pay66 (iota .scVector S16 32 [0] iota_S16_d0_w32_scVector) 0#32 1#32 k8) (k0_pay71 (Scalar.muli (Scf.iv 0#32 1#32 k7) 4#32)) := by
  decide +kernel

/-- Gather 3 of the user half reads inside the half: rows `16·k8 + lane < 128`, feature `4·k7 + 3 < 64`. -/
theorem chk118_all : ∀ (k7 : Fin k0_t7_loop.trips) (k8 : Fin k0_t8_loop.trips),
    k0_chk118 (k0_pay66 (iota .scVector S16 32 [0] iota_S16_d0_w32_scVector) 0#32 1#32 k8) (k0_pay73 (Scalar.muli (Scf.iv 0#32 1#32 k7) 4#32)) := by
  decide +kernel

/-- Gather 0 of the item half reads inside the half: rows `16·k8 + lane < 128`, feature `4·k7 + 0 < 64`. -/
theorem chk159_all : ∀ (k7 : Fin k0_t9_loop.trips) (k8 : Fin k0_t10_loop.trips),
    k0_chk159 (k0_pay124 (iota .scVector S16 32 [0] iota_S16_d0_w32_scVector) 0#32 1#32 k8) (k0_pay125 (Scalar.muli (Scf.iv 0#32 1#32 k7) 4#32)) := by
  decide +kernel

/-- Gather 1 of the item half reads inside the half: rows `16·k8 + lane < 128`, feature `4·k7 + 1 < 64`. -/
theorem chk160_all : ∀ (k7 : Fin k0_t9_loop.trips) (k8 : Fin k0_t10_loop.trips),
    k0_chk160 (k0_pay124 (iota .scVector S16 32 [0] iota_S16_d0_w32_scVector) 0#32 1#32 k8) (k0_pay127 (Scalar.muli (Scf.iv 0#32 1#32 k7) 4#32)) := by
  decide +kernel

/-- Gather 2 of the item half reads inside the half: rows `16·k8 + lane < 128`, feature `4·k7 + 2 < 64`. -/
theorem chk161_all : ∀ (k7 : Fin k0_t9_loop.trips) (k8 : Fin k0_t10_loop.trips),
    k0_chk161 (k0_pay124 (iota .scVector S16 32 [0] iota_S16_d0_w32_scVector) 0#32 1#32 k8) (k0_pay129 (Scalar.muli (Scf.iv 0#32 1#32 k7) 4#32)) := by
  decide +kernel

/-- Gather 3 of the item half reads inside the half: rows `16·k8 + lane < 128`, feature `4·k7 + 3 < 64`. -/
theorem chk162_all : ∀ (k7 : Fin k0_t9_loop.trips) (k8 : Fin k0_t10_loop.trips),
    k0_chk162 (k0_pay124 (iota .scVector S16 32 [0] iota_S16_d0_w32_scVector) 0#32 1#32 k8) (k0_pay131 (Scalar.muli (Scf.iv 0#32 1#32 k7) 4#32)) := by
  decide +kernel

end Cert.Proof.KI

end
-- ==== Proof.KLoops.lean ====
/-
  The compute loops of a tile, together, and the two first-layer outer loops once more with `v3` known to be the lane
  numbers 0 … 15, where the index facts hold by evaluation.
-/
import proofs.«214512_g89103391522852_cont_sun_m_1157_25_alg».proof.Proof.KLoopInit
import proofs.«214512_g89103391522852_cont_sun_m_1157_25_alg».proof.Proof.KLoopOut
import proofs.«214512_g89103391522852_cont_sun_m_1157_25_alg».proof.Proof.KLoopL1U
import proofs.«214512_g89103391522852_cont_sun_m_1157_25_alg».proof.Proof.KLoopL1I
import proofs.«214512_g89103391522852_cont_sun_m_1157_25_alg».proof.Proof.KLoopFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

set_option warn.classDefReducibility false in
/-- The user-half outer loop's invariant again, with `v3` equal to the lane numbers: the index
    facts are then the evaluated ones, and no hypothesis about them is left. -/
@[sl_loop] def invT7iota (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (hv3 : v3 = (iota .scVector S16 32 [0] iota_S16_d0_w32_scVector))
    (fp : S1312.Idx → Elt F .f32) (g : Buf (Elt F) ((halfU k0_t4).view.loc (thr d L))) :
    LoopInv (M := 𝕄) frame (wpE (defs₀ (F := F)) 𝒱₀ (thr d L) none) Set.univ k0_t7_loop.lb k0_t7_loop.ub k0_t7_loop.st k0_t7_ok ⟨⟩ (k0_t7_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun _ _ => l1uRes (F := F) d L k0_t4 fp g
  step := t7_step d L v3 v7 v11 v15 v19 v23 v24 c1285_i32 k0_t4 arg19 (hv3 ▸ chk115_all) (hv3 ▸ chk116_all) (hv3 ▸ chk117_all) (hv3 ▸ chk118_all) fp g

set_option warn.classDefReducibility false in
/-- The item-half outer loop's invariant again, with `v3` equal to the lane numbers: the index
    facts are then the evaluated ones, and no hypothesis about them is left. -/
@[sl_loop] def invT9iota (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (hv3 : v3 = (iota .scVector S16 32 [0] iota_S16_d0_w32_scVector))
    (fp : S1312.Idx → Elt F .f32) (g : Buf (Elt F) ((halfI k0_t4).view.loc (thr d L))) :
    LoopInv (M := 𝕄) frame (wpE (defs₀ (F := F)) 𝒱₀ (thr d L) none) Set.univ k0_t9_loop.lb k0_t9_loop.ub k0_t9_loop.st k0_t9_ok ⟨⟩ (k0_t9_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun _ _ => l1iRes (F := F) d L k0_t4 fp g
  step := t9_step d L v3 v7 v11 v15 v19 v23 v24 c1285_i32 k0_t4 arg19 (hv3 ▸ chk159_all) (hv3 ▸ chk160_all) (hv3 ▸ chk161_all) (hv3 ▸ chk162_all) fp g

end Tile

end Cert.Proof.KI

end
-- ==== Proof.KHalf.lean ====
/-
  A rows scratch, its two halves and their rows. Each of the two rows scratches is two halves of 128 rows of 64 entries;
  the copies of a chunk deliver the rows of one half one by one, each owned by its own 64 entries, while the compute
  loops read that half as one buffer of 128 × 64, and the tile is handed each scratch whole. Here the three views are
  identified: the half a chunk computes on is the half of the chunk's parity; its entries are those whose leading index
  is that parity; the rows of a half are pairwise disjoint and together the half, the two halves disjoint and together
  the scratch; so the rows of a half, each owned, are the half owned, and the rows of both halves the scratch held
  whole, in both directions.
-/
import proofs.«214512_g89103391522852_cont_sun_m_1157_25_alg».proof.Proof.KRows
import proofs.«214512_g89103391522852_cont_sun_m_1157_25_alg».proof.Proof.KLoopL1U
import proofs.«214512_g89103391522852_cont_sun_m_1157_25_alg».proof.Proof.KLoopL1I

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)

/-! ## Which half a chunk computes on: the chunk's parity -/

/-- The parity of chunk `k4`, as a half of a rows scratch. -/
abbrev parity (k4 : Fin k0_t4_loop.trips) : Fin 2 := ⟨k4.val % 2, Nat.mod_lt _ Nat.two_pos⟩

theorem off144_parity (k4 : Fin k0_t4_loop.trips) : k0_off144 k4 = ![(parity k4).val, 0, 0] := k0_off144_eq k4
theorem off158_parity (k4 : Fin k0_t4_loop.trips) : k0_off158 k4 = ![(parity k4).val, 0, 0] := k0_off158_eq k4

theorem off144_0 (h : 0 < k0_t4_loop.trips) : k0_off144 ⟨0, h⟩ = ![0, 0, 0] := k0_off144_eq ⟨0, h⟩
theorem off144_1 (h : 1 < k0_t4_loop.trips) : k0_off144 ⟨1, h⟩ = ![1, 0, 0] := k0_off144_eq ⟨1, h⟩
theorem off144_2 (h : 2 < k0_t4_loop.trips) : k0_off144 ⟨2, h⟩ = ![0, 0, 0] := by rw [k0_off144_eq]; simp
theorem off144_3 (h : 3 < k0_t4_loop.trips) : k0_off144 ⟨3, h⟩ = ![1, 0, 0] := by rw [k0_off144_eq]; simp
theorem off158_0 (h : 0 < k0_t4_loop.trips) : k0_off158 ⟨0, h⟩ = ![0, 0, 0] := k0_off158_eq ⟨0, h⟩
theorem off158_1 (h : 1 < k0_t4_loop.trips) : k0_off158 ⟨1, h⟩ = ![1, 0, 0] := k0_off158_eq ⟨1, h⟩
theorem off158_2 (h : 2 < k0_t4_loop.trips) : k0_off158 ⟨2, h⟩ = ![0, 0, 0] := by rw [k0_off158_eq]; simp
theorem off158_3 (h : 3 < k0_t4_loop.trips) : k0_off158 ⟨3, h⟩ = ![1, 0, 0] := by rw [k0_off158_eq]; simp

/-! ## A half of a rows scratch and its 128 rows, as sets of entries -/

theorem half_inb (b : Fin 2) : ∀ a, (![b.val, 0, 0] : Fin 3 → Nat) a + S1x128x64.size a ≤ S2x128x64.size a := by
  have hb := b.isLt; intro a; fin_cases a
  · show b.val + 1 ≤ 2; omega
  · show 0 + 128 ≤ 128; omega
  · show 0 + 64 ≤ 64; omega

/-- The entries of row `r` of half `b`; the entries of half `b`. -/
abbrev rset (b : Fin 2) (r : Fin 128) : Finset S2x128x64.Idx := (Rect.unit (s := S2x128x64) ![b.val, r.val, 0] S1x1x64.size (row_inb b r)).set
abbrev hset (b : Fin 2) : Finset S2x128x64.Idx := (Rect.unit (s := S2x128x64) ![b.val, 0, 0] S1x128x64.size (half_inb b)).set

theorem mem_rset (b : Fin 2) (r : Fin 128) (y : S2x128x64.Idx) : y ∈ rset b r ↔ (y 0).val = b.val ∧ (y 1).val = r.val := by
  rw [Rect.mem_set_unit]
  have h2 : (y 2).val < 64 := (y 2).isLt
  constructor
  · intro H
    have a0 : b.val ≤ (y 0).val ∧ (y 0).val < b.val + 1 := H 0
    have a1 : r.val ≤ (y 1).val ∧ (y 1).val < r.val + 1 := H 1
    omega
  · intro H a; fin_cases a
    · show b.val ≤ (y 0).val ∧ (y 0).val < b.val + 1; omega
    · show r.val ≤ (y 1).val ∧ (y 1).val < r.val + 1; omega
    · show 0 ≤ (y 2).val ∧ (y 2).val < 0 + 64; omega

theorem mem_hset (b : Fin 2) (y : S2x128x64.Idx) : y ∈ hset b ↔ (y 0).val = b.val := by
  rw [Rect.mem_set_unit]
  have h1 : (y 1).val < 128 := (y 1).isLt
  have h2 : (y 2).val < 64 := (y 2).isLt
  constructor
  · intro H
    have a0 : b.val ≤ (y 0).val ∧ (y 0).val < b.val + 1 := H 0
    omega
  · intro H a; fin_cases a
    · show b.val ≤ (y 0).val ∧ (y 0).val < b.val + 1; omega
    · show 0 ≤ (y 1).val ∧ (y 1).val < 0 + 128; omega
    · show 0 ≤ (y 2).val ∧ (y 2).val < 0 + 64; omega

/-- Different rows of a half share no entry, -/
theorem rset_disjoint (b : Fin 2) :
    ∀ r ∈ (Finset.univ : Finset (Fin 128)), ∀ r' ∈ (Finset.univ : Finset (Fin 128)), r ≠ r' → Disjoint (rset b r) (rset b r') := by
  intro r _ r' _ hne
  rw [Finset.disjoint_left]; intro y hy hy'; rw [mem_rset] at hy hy'
  exact hne (Fin.ext (by omega))

/-- and together they are the half. -/
theorem rset_cover (b : Fin 2) : (Finset.univ : Finset (Fin 128)).biUnion (rset b) = hset b := by
  ext y
  simp only [Finset.mem_biUnion, Finset.mem_univ, true_and]
  rw [mem_hset]
  constructor
  · rintro ⟨r, hr⟩; exact ((mem_rset b r y).mp hr).1
  · intro h; exact ⟨y 1, (mem_rset b (y 1) y).mpr ⟨h, rfl⟩⟩

/-- A row, as the kernel slices a copy's destination, is those entries of its scratch; -/
theorem rowU_set (b : Fin 2) (r : Fin 128) : (rowAt (urowS) ![b.val, r.val, 0] (row_inb b r)).view.set = rset b r := by
  unfold rowAt; exact (View.set_reshape _ _).trans (View.set_slice_whole _ _)
theorem rowI_set (b : Fin 2) (r : Fin 128) : (rowAt (irowS) ![b.val, r.val, 0] (row_inb b r)).view.set = rset b r := by
  unfold rowAt; exact (View.set_reshape _ _).trans (View.set_slice_whole _ _)

/-- a half, as the kernel slices what a chunk computes on, is those of its parity. -/
theorem halfU_set (k4 : Fin k0_t4_loop.trips) (b : Fin 2) (hb : k0_off144 k4 = ![b.val, 0, 0]) : (halfU k4).view.set = hset b := by
  unfold halfU
  exact ((View.set_reshape _ _).trans (View.set_slice_whole _ _)).trans (congrArg (fun R : Rect S2x128x64 => R.set) (Rect.unit_congr hb _ _))
theorem halfI_set (k4 : Fin k0_t4_loop.trips) (b : Fin 2) (hb : k0_off158 k4 = ![b.val, 0, 0]) : (halfI k4).view.set = hset b := by
  unfold halfI
  exact ((View.set_reshape _ _).trans (View.set_slice_whole _ _)).trans (congrArg (fun R : Rect S2x128x64 => R.set) (Rect.unit_congr hb _ _))

/-- The two halves share no entry and together are the scratch. -/
theorem hset_disjoint : Disjoint (hset 0) (hset 1) := by
  rw [Finset.disjoint_left]; intro y h0 h1; rw [mem_hset] at h0 h1
  have e0 : ((0 : Fin 2) : ℕ) = 0 := rfl
  have e1 : ((1 : Fin 2) : ℕ) = 1 := rfl
  omega
theorem hset_union : hset 0 ∪ hset 1 = (Finset.univ : Finset S2x128x64.Idx) := by
  ext y
  simp only [Finset.mem_union, Finset.mem_univ, iff_true]
  rw [mem_hset, mem_hset]
  have hy : (y 0).val < 2 := (y 0).isLt
  have e0 : ((0 : Fin 2) : ℕ) = 0 := rfl
  have e1 : ((1 : Fin 2) : ℕ) = 1 := rfl
  omega

/-! ## The rows of a half, each owned, are the half owned; the two halves' rows are the scratch -/

section Res

variable (d : Dev nD) (L : grid0.Coords)

/-- Half `b` of the user-rows scratch held by its own entries is each of its rows owned, -/
theorem hsetU_to_rows (b : Fin 2) (g : Buf (Elt F) ((urowS).view.loc (thr d L))) :
    ((urowS).view.loc (thr d L) ↦[hset b]{fullShare} g : sProp 𝕄) ⊢ bigSep Finset.univ (ownU (F := F) d L b) := by
  rw [← rset_cover b]
  refine (Entails.of_eq (pointsTo_biUnion (ℓ := (urowS).view.loc (thr d L)) (q := fullShare) (f := g) Finset.univ (rset b) (rset_disjoint b))).trans
    (BI.bigSep_mono fun r _ => ?_)
  show ((urowS).view.loc (thr d L) ↦[rset b r]{fullShare} g : sProp 𝕄) ⊢ ownU (F := F) d L b r
  unfold ownU ownAt; rw [rowU_set]; iintro H; iexists g; iexact H

/-- and its rows, each owned at whatever it holds, are the half held at some contents. -/
theorem rows_to_hsetU (b : Fin 2) :
    (bigSep Finset.univ (ownU (F := F) d L b) : sProp 𝕄) ⊢ iprop(∃ g, (urowS).view.loc (thr d L) ↦[hset b]{fullShare} g) := by
  have h1 : (bigSep Finset.univ (ownU (F := F) d L b) : sProp 𝕄)
      ⊢ bigSep Finset.univ fun r : Fin 128 => iprop(∃ g, (urowS).view.loc (thr d L) ↦[rset b r]{fullShare} g) :=
    BI.bigSep_mono fun r _ => by
      show ownU (F := F) d L b r ⊢ (iprop(∃ g, (urowS).view.loc (thr d L) ↦[rset b r]{fullShare} g) : sProp 𝕄)
      unfold ownU ownAt; rw [rowU_set]; exact .rfl
  refine h1.trans ((bigSep_exists_pi Finset.univ
    (fun (r : Fin 128) (g : Buf (Elt F) ((urowS).view.loc (thr d L))) => ((urowS).view.loc (thr d L) ↦[rset b r]{fullShare} g : sProp 𝕄))).trans ?_)
  iintro ⟨%fs, H⟩
  ihave H' := (pointsTo_biUnion_join Finset.univ (rset b) fs (fs 0) (rset_disjoint b)) $$ H
  icases H' with ⟨%g, -, Hg⟩
  rw [rset_cover]
  iexists g; iexact Hg

/-- The half a chunk computes on, held by its own entries, is the 128 rows of the chunk's parity, each owned: -/
theorem halfU_to_rows (b : Fin 2) (k4 : Fin k0_t4_loop.trips) (hb : k0_off144 k4 = ![b.val, 0, 0])
    (g : Buf (Elt F) ((halfU k4).view.loc (thr d L))) :
    ((halfU k4).view.loc (thr d L) ↦[(halfU k4).view.set]{fullShare} g : sProp 𝕄) ⊢ bigSep Finset.univ (ownU (F := F) d L b) := by
  rw [halfU_set k4 b hb]
  exact hsetU_to_rows d L b g

/-- and back, at some contents. -/
theorem rows_to_halfU (b : Fin 2) (k4 : Fin k0_t4_loop.trips) (hb : k0_off144 k4 = ![b.val, 0, 0]) :
    (bigSep Finset.univ (ownU (F := F) d L b) : sProp 𝕄)
      ⊢ iprop(∃ g, (halfU k4).view.loc (thr d L) ↦[(halfU k4).view.set]{fullShare} g) := by
  rw [halfU_set k4 b hb]
  exact rows_to_hsetU d L b

/-- The scratch held whole is the rows of its two halves, each owned: -/
theorem urowS_to_rows (f : Buf (Elt F) ((urowS).view.loc (thr d L))) :
    ((urowS).view.loc (thr d L) ↦{fullShare} f : sProp 𝕄)
      ⊢ iprop(bigSep Finset.univ (ownU (F := F) d L 0) ∗ bigSep Finset.univ (ownU (F := F) d L 1)) := by
  have h : ((urowS).view.loc (thr d L) ↦[hset 0 ∪ hset 1]{fullShare} f : sProp 𝕄)
      ⊢ iprop(((urowS).view.loc (thr d L) ↦[hset 0]{fullShare} f) ∗ ((urowS).view.loc (thr d L) ↦[hset 1]{fullShare} f)) :=
    (pointsTo_union hset_disjoint).1
  rw [hset_union] at h
  exact h.trans (BIClass.sep_mono (hsetU_to_rows d L 0 f) (hsetU_to_rows d L 1 f))

/-- and back, at some contents. -/
theorem rows_to_urowS :
    (iprop(bigSep Finset.univ (ownU (F := F) d L 0) ∗ bigSep Finset.univ (ownU (F := F) d L 1)) : sProp 𝕄)
      ⊢ iprop(∃ f, (urowS).view.loc (thr d L) ↦{fullShare} f) := by
  iintro ⟨H0, H1⟩
  ihave X0 := (rows_to_hsetU d L 0) $$ H0
  icases X0 with ⟨%g0, G0⟩
  ihave X1 := (rows_to_hsetU d L 1) $$ H1
  icases X1 with ⟨%g1, G1⟩
  have h : (iprop(((urowS).view.loc (thr d L) ↦[hset 0]{fullShare} g0) ∗ ((urowS).view.loc (thr d L) ↦[hset 1]{fullShare} g1)) : sProp 𝕄)
      ⊢ ((urowS).view.loc (thr d L) ↦[hset 0 ∪ hset 1]{fullShare} (hset 1).piecewise g1 g0) :=
    pointsTo_join hset_disjoint
  rw [hset_union] at h
  ihave J := h $$ [G0 G1]
  · isplitl [G0] <;> iassumption
  iexists _; iexact J

/-- Half `b` of the item-rows scratch held by its own entries is each of its rows owned, -/
theorem hsetI_to_rows (b : Fin 2) (g : Buf (Elt F) ((irowS).view.loc (thr d L))) :
    ((irowS).view.loc (thr d L) ↦[hset b]{fullShare} g : sProp 𝕄) ⊢ bigSep Finset.univ (ownI (F := F) d L b) := by
  rw [← rset_cover b]
  refine (Entails.of_eq (pointsTo_biUnion (ℓ := (irowS).view.loc (thr d L)) (q := fullShare) (f := g) Finset.univ (rset b) (rset_disjoint b))).trans
    (BI.bigSep_mono fun r _ => ?_)
  show ((irowS).view.loc (thr d L) ↦[rset b r]{fullShare} g : sProp 𝕄) ⊢ ownI (F := F) d L b r
  unfold ownI ownAt; rw [rowI_set]; iintro H; iexists g; iexact H

/-- and its rows, each owned at whatever it holds, are the half held at some contents. -/
theorem rows_to_hsetI (b : Fin 2) :
    (bigSep Finset.univ (ownI (F := F) d L b) : sProp 𝕄) ⊢ iprop(∃ g, (irowS).view.loc (thr d L) ↦[hset b]{fullShare} g) := by
  have h1 : (bigSep Finset.univ (ownI (F := F) d L b) : sProp 𝕄)
      ⊢ bigSep Finset.univ fun r : Fin 128 => iprop(∃ g, (irowS).view.loc (thr d L) ↦[rset b r]{fullShare} g) :=
    BI.bigSep_mono fun r _ => by
      show ownI (F := F) d L b r ⊢ (iprop(∃ g, (irowS).view.loc (thr d L) ↦[rset b r]{fullShare} g) : sProp 𝕄)
      unfold ownI ownAt; rw [rowI_set]; exact .rfl
  refine h1.trans ((bigSep_exists_pi Finset.univ
    (fun (r : Fin 128) (g : Buf (Elt F) ((irowS).view.loc (thr d L))) => ((irowS).view.loc (thr d L) ↦[rset b r]{fullShare} g : sProp 𝕄))).trans ?_)
  iintro ⟨%fs, H⟩
  ihave H' := (pointsTo_biUnion_join Finset.univ (rset b) fs (fs 0) (rset_disjoint b)) $$ H
  icases H' with ⟨%g, -, Hg⟩
  rw [rset_cover]
  iexists g; iexact Hg

/-- The half a chunk computes on, held by its own entries, is the 128 rows of the chunk's parity, each owned: -/
theorem halfI_to_rows (b : Fin 2) (k4 : Fin k0_t4_loop.trips) (hb : k0_off158 k4 = ![b.val, 0, 0])
    (g : Buf (Elt F) ((halfI k4).view.loc (thr d L))) :
    ((halfI k4).view.loc (thr d L) ↦[(halfI k4).view.set]{fullShare} g : sProp 𝕄) ⊢ bigSep Finset.univ (ownI (F := F) d L b) := by
  rw [halfI_set k4 b hb]
  exact hsetI_to_rows d L b g

/-- and back, at some contents. -/
theorem rows_to_halfI (b : Fin 2) (k4 : Fin k0_t4_loop.trips) (hb : k0_off158 k4 = ![b.val, 0, 0]) :
    (bigSep Finset.univ (ownI (F := F) d L b) : sProp 𝕄)
      ⊢ iprop(∃ g, (halfI k4).view.loc (thr d L) ↦[(halfI k4).view.set]{fullShare} g) := by
  rw [halfI_set k4 b hb]
  exact rows_to_hsetI d L b

/-- The scratch held whole is the rows of its two halves, each owned: -/
theorem irowS_to_rows (f : Buf (Elt F) ((irowS).view.loc (thr d L))) :
    ((irowS).view.loc (thr d L) ↦{fullShare} f : sProp 𝕄)
      ⊢ iprop(bigSep Finset.univ (ownI (F := F) d L 0) ∗ bigSep Finset.univ (ownI (F := F) d L 1)) := by
  have h : ((irowS).view.loc (thr d L) ↦[hset 0 ∪ hset 1]{fullShare} f : sProp 𝕄)
      ⊢ iprop(((irowS).view.loc (thr d L) ↦[hset 0]{fullShare} f) ∗ ((irowS).view.loc (thr d L) ↦[hset 1]{fullShare} f)) :=
    (pointsTo_union hset_disjoint).1
  rw [hset_union] at h
  exact h.trans (BIClass.sep_mono (hsetI_to_rows d L 0 f) (hsetI_to_rows d L 1 f))

/-- and back, at some contents. -/
theorem rows_to_irowS :
    (iprop(bigSep Finset.univ (ownI (F := F) d L 0) ∗ bigSep Finset.univ (ownI (F := F) d L 1)) : sProp 𝕄)
      ⊢ iprop(∃ f, (irowS).view.loc (thr d L) ↦{fullShare} f) := by
  iintro ⟨H0, H1⟩
  ihave X0 := (rows_to_hsetI d L 0) $$ H0
  icases X0 with ⟨%g0, G0⟩
  ihave X1 := (rows_to_hsetI d L 1) $$ H1
  icases X1 with ⟨%g1, G1⟩
  have h : (iprop(((irowS).view.loc (thr d L) ↦[hset 0]{fullShare} g0) ∗ ((irowS).view.loc (thr d L) ↦[hset 1]{fullShare} g1)) : sProp 𝕄)
      ⊢ ((irowS).view.loc (thr d L) ↦[hset 0 ∪ hset 1]{fullShare} (hset 1).piecewise g1 g0) :=
    pointsTo_join hset_disjoint
  rw [hset_union] at h
  ihave J := h $$ [G0 G1]
  · isplitl [G0] <;> iassumption
  iexists _; iexact J

end Res

end Cert.Proof.KI

end
-- ==== Proof.KDrain.lean ====
/-
  The two drains of the chunk loop. A chunk whose parity is 0 ends by draining half 0: 128 trips, each a wait on the
  user rows' cell and a wait on the item rows' cell for the units of one copy of 64 entries; a chunk of parity 1 drains
  half 1 on the other two cells. The 128 copies into a half are a batch on their cell, so every wait but the last only
  consumes units, and the last wait of each batch hands the cell back at zero and every row of the half, owned. The
  invariant therefore goes by cases on the trip: the two batches while a trip is still to come, the cells and the rows
  after the last. The waits are recorded beside what the tile had waited on at entry, all at the index where it owes
  nothing.
-/
import proofs.«214512_g89103391522852_cont_sun_m_1157_25_alg».proof.Proof.KRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- Before trip `k` of the drain of half `b` — 128 trips, each a wait on the user rows' cell `su` and a wait on the
    item rows' cell `si` for one copy's units —: the tile may wait at index `none` under what it owes; what it has
    waited on so far is what it had on entry (`W`) and waits at `none`; and either (a trip is still to come) the two
    batches, all 128 copies issued and `k` copies' units consumed of each, or (after the last) both cells back at zero
    and every row of the half owned in either scratch. -/
def drainInv (b : Fin 2) (su si : SemLoc sig) (O : CellTallies nD τ sig (HIx 1)) (W : Waits sig (HIx 1)) (k : ℕ) (_ : Unit) : sProp 𝕄 :=
  iprop(⌜k ≤ 128⌝ ∗ Transfers.MayWaits (thr d L) (none : HIx 1) O
    ∗ (∃ W', ⌜∀ p ∈ W', p ∈ W ∨ p.2 = none⌝ ∗ owes (thr d L) O W')
    ∗ (if k < 128 then iprop(batchU (F := F) d L b su 128 (k * 2048) ∗ batchI (F := F) d L b si 128 (k * 2048))
       else iprop(semVal (thr d L, su) 0 ∗ bigSep Finset.univ (ownU (F := F) d L b)
          ∗ semVal (thr d L, si) 0 ∗ bigSep Finset.univ (ownI (F := F) d L b))))

/-- One trip of the drain of half 0: a wait on the user rows' cell, a wait on the item rows' cell, each for one
    copy's units. Before the last trip the two batches go on with one more copy's units consumed; the last trip's two
    waits are the batches' last, and hand the cells back at zero and every row of the half, owned. -/
theorem t5_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1)
    (O : CellTallies nD τ sig (HIx 1)) (W : Waits sig (HIx 1)) (k : Fin k0_t5_loop.trips) (acc : Unit) :
    drainInv (F := F) d L 0 (SemLoc.dma cc0_scratch7.sem) (SemLoc.dma cc0_scratch9.sem) O W k.val acc
      ⊢ wp frame (wpE (defs₀ (F := F)) 𝒱₀ (thr d L) none) Set.univ
          (k0_t5_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1 k acc)
          (drainInv (F := F) d L 0 (SemLoc.dma cc0_scratch7.sem) (SemLoc.dma cc0_scratch9.sem) O W (k.val + 1)) := by
  have hk : k.val < 128 := lt_of_lt_of_le k.isLt k0_t5_abs.2.1
  unfold drainInv
  simp only [if_pos hk]
  rcases Nat.lt_or_ge (k.val + 1) 128 with h1 | h1
  · simp only [if_pos h1]
    iintro ⟨-, #Hmw, ⟨%W', %hW', HO⟩, HBu, HBi⟩
    unfold k0_t5_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    rw [show (k.val + 1) * 2048 = k.val * 2048 + 2048 by omega]
    isplitl [HBu]; · iexact HBu
    iexact HBi
  · simp only [if_neg (Nat.not_lt.mpr h1)]
    iintro ⟨-, #Hmw, ⟨%W', %hW', HO⟩, HBu, HBi⟩
    unfold k0_t5_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    isplitl [HBu]; · iexact HBu
    isplitl [HBu_all]; · iexact HBu_all
    isplitl [HBi]; · iexact HBi
    iexact HBi_all

/-- One trip of the drain of half 1: a wait on the user rows' cell, a wait on the item rows' cell, each for one
    copy's units. Before the last trip the two batches go on with one more copy's units consumed; the last trip's two
    waits are the batches' last, and hand the cells back at zero and every row of the half, owned. -/
theorem t6_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1)
    (O : CellTallies nD τ sig (HIx 1)) (W : Waits sig (HIx 1)) (k : Fin k0_t6_loop.trips) (acc : Unit) :
    drainInv (F := F) d L 1 (SemLoc.dma cc0_scratch8.sem) (SemLoc.dma cc0_scratch10.sem) O W k.val acc
      ⊢ wp frame (wpE (defs₀ (F := F)) 𝒱₀ (thr d L) none) Set.univ
          (k0_t6_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2 k acc)
          (drainInv (F := F) d L 1 (SemLoc.dma cc0_scratch8.sem) (SemLoc.dma cc0_scratch10.sem) O W (k.val + 1)) := by
  have hk : k.val < 128 := lt_of_lt_of_le k.isLt k0_t6_abs.2.1
  unfold drainInv
  simp only [if_pos hk]
  rcases Nat.lt_or_ge (k.val + 1) 128 with h1 | h1
  · simp only [if_pos h1]
    iintro ⟨-, #Hmw, ⟨%W', %hW', HO⟩, HBu, HBi⟩
    unfold k0_t6_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    rw [show (k.val + 1) * 2048 = k.val * 2048 + 2048 by omega]
    isplitl [HBu]; · iexact HBu
    iexact HBi
  · simp only [if_neg (Nat.not_lt.mpr h1)]
    iintro ⟨-, #Hmw, ⟨%W', %hW', HO⟩, HBu, HBi⟩
    unfold k0_t6_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    isplitl [HBu]; · iexact HBu
    isplitl [HBu_all]; · iexact HBu_all
    isplitl [HBi]; · iexact HBi
    iexact HBi_all

end Tile

section Tile2

variable [∀ e, Nonempty (Elt F e)] (d : Dev nD) (L : grid0.Coords)

theorem k0_t5_trips : k0_t5_loop.trips = 128 := by decide
theorem k0_t6_trips : k0_t6_loop.trips = 128 := by decide

/-- On entry to a drain: the two batches with every copy issued and nothing consumed are the invariant before trip 0. -/
theorem drain_entry (b : Fin 2) (su si : SemLoc sig) (O : CellTallies nD τ sig (HIx 1)) (W : Waits sig (HIx 1)) (acc : Unit) :
    iprop(Transfers.MayWaits (thr d L) (none : HIx 1) O ∗ (∃ W', ⌜∀ p ∈ W', p ∈ W ∨ p.2 = none⌝ ∗ owes (thr d L) O W')
        ∗ batchU (F := F) d L b su 128 0 ∗ batchI (F := F) d L b si 128 0)
      ⊢ drainInv (F := F) d L b su si O W 0 acc := by
  unfold drainInv
  simp only [if_pos (show 0 < 128 by decide), Nat.zero_mul]
  iintro ⟨Hmw, HO, HBu, HBi⟩
  isplitr; · ipureintro; omega
  isplitl [Hmw]; · iexact Hmw
  isplitl [HO]; · iexact HO
  isplitl [HBu]; · iexact HBu
  iexact HBi

/-- After the 128 trips of a drain: both cells at zero and every row of the half owned in either scratch. -/
theorem drain_exit (b : Fin 2) (su si : SemLoc sig) (O : CellTallies nD τ sig (HIx 1)) (W : Waits sig (HIx 1)) (acc : Unit) :
    drainInv (F := F) d L b su si O W 128 acc
      ⊢ iprop(Transfers.MayWaits (thr d L) (none : HIx 1) O ∗ (∃ W', ⌜∀ p ∈ W', p ∈ W ∨ p.2 = none⌝ ∗ owes (thr d L) O W')
          ∗ semVal (thr d L, su) 0 ∗ bigSep Finset.univ (ownU (F := F) d L b)
          ∗ semVal (thr d L, si) 0 ∗ bigSep Finset.univ (ownI (F := F) d L b)) := by
  unfold drainInv
  simp only [if_neg (Nat.lt_irrefl 128)]
  iintro ⟨-, Hmw, HO, Hr⟩
  isplitl [Hmw]; · iexact Hmw
  isplitl [HO]; · iexact HO
  iexact Hr

set_option warn.classDefReducibility false in
/-- The drain of half 0 as a counted loop's invariant, the waits `W` at entry a parameter. -/
def invT5 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1) (O : CellTallies nD τ sig (HIx 1)) (W : Waits sig (HIx 1)) :
    LoopInv (M := 𝕄) frame (wpE (defs₀ (F := F)) 𝒱₀ (thr d L) none) Set.univ k0_t5_loop.lb k0_t5_loop.ub k0_t5_loop.st (k0_t5_ok k0_t4 k0_h1) ⟨⟩
      (k0_t5_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1) where
  inv := drainInv (F := F) d L 0 (SemLoc.dma cc0_scratch7.sem) (SemLoc.dma cc0_scratch9.sem) O W
  step := t5_step d L v3 v7 v11 v15 v19 v23 v24 c1285_i32 k0_t4 k0_h1 O W

set_option warn.classDefReducibility false in
/-- The drain of half 1 likewise. -/
def invT6 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1) (O : CellTallies nD τ sig (HIx 1)) (W : Waits sig (HIx 1)) :
    LoopInv (M := 𝕄) frame (wpE (defs₀ (F := F)) 𝒱₀ (thr d L) none) Set.univ k0_t6_loop.lb k0_t6_loop.ub k0_t6_loop.st (k0_t6_ok k0_t4 k0_h2) ⟨⟩
      (k0_t6_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2) where
  inv := drainInv (F := F) d L 1 (SemLoc.dma cc0_scratch8.sem) (SemLoc.dma cc0_scratch10.sem) O W
  step := t6_step d L v3 v7 v11 v15 v19 v23 v24 c1285_i32 k0_t4 k0_h2 O W

end Tile2

/-! ## The same with the recorded waits explicit

Before trip `k` the tile has waited on `W` and, from the first trip on, on the half's two cells; before trip 0 that is
the state at entry. -/

section TileW

variable [∀ e, Nonempty (Elt F e)] (d : Dev nD) (L : grid0.Coords)

/-- What the tile has waited on before trip `k` of a drain entered at `W`: from the first trip on, the two cells too. -/
def wDrain (su si : SemLoc sig) (W : Waits sig (HIx 1)) : ℕ → Waits sig (HIx 1)
  | 0 => W
  | _ + 1 => insert (si, (none : HIx 1)) (insert (su, (none : HIx 1)) W)

omit [FloatOps F] [∀ e, Nonempty (Elt F e)] in
theorem wDrain_step (su si : SemLoc sig) (W : Waits sig (HIx 1)) (k : ℕ) :
    insert (si, (none : HIx 1)) (insert (su, (none : HIx 1)) (wDrain su si W k)) = wDrain su si W (k + 1) := by
  cases k with
  | zero => rfl
  | succ n =>
    show insert (si, (none : HIx 1)) (insert (su, (none : HIx 1)) (insert (si, (none : HIx 1)) (insert (su, (none : HIx 1)) W))) = _
    ext x; simp only [wDrain, Finset.mem_insert]; tauto

def drainInvW (b : Fin 2) (su si : SemLoc sig) (O : CellTallies nD τ sig (HIx 1)) (W : Waits sig (HIx 1)) (k : ℕ) (_ : Unit) : sProp 𝕄 :=
  iprop(⌜k ≤ 128⌝ ∗ Transfers.MayWaits (thr d L) (none : HIx 1) O ∗ owes (thr d L) O (wDrain su si W k)
    ∗ (if k < 128 then iprop(batchU (F := F) d L b su 128 (k * 2048) ∗ batchI (F := F) d L b si 128 (k * 2048))
       else iprop(semVal (thr d L, su) 0 ∗ bigSep Finset.univ (ownU (F := F) d L b)
          ∗ semVal (thr d L, si) 0 ∗ bigSep Finset.univ (ownI (F := F) d L b))))

/-- One trip of the drain of half 0, the waits recorded outright. -/
theorem t5W_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1)
    (O : CellTallies nD τ sig (HIx 1)) (W : Waits sig (HIx 1)) (k : Fin k0_t5_loop.trips) (acc : Unit) :
    drainInvW (F := F) d L 0 (SemLoc.dma cc0_scratch7.sem) (SemLoc.dma cc0_scratch9.sem) O W k.val acc
      ⊢ wp frame (wpE (defs₀ (F := F)) 𝒱₀ (thr d L) none) Set.univ
          (k0_t5_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1 k acc)
          (drainInvW (F := F) d L 0 (SemLoc.dma cc0_scratch7.sem) (SemLoc.dma cc0_scratch9.sem) O W (k.val + 1)) := by
  have hk : k.val < 128 := lt_of_lt_of_le k.isLt k0_t5_abs.2.1
  unfold drainInvW
  simp only [if_pos hk]
  rcases Nat.lt_or_ge (k.val + 1) 128 with h1 | h1
  · simp only [if_pos h1]
    iintro ⟨-, #Hmw, HO, HBu, HBi⟩
    unfold k0_t5_body
    sl_exec
    sl_step
    isplitr; · ipureintro; omega
    isplitr; · iexact Hmw
    isplitl [HO]
    · rw [← wDrain_step]; iexact HO
    rw [show (k.val + 1) * 2048 = k.val * 2048 + 2048 by omega]
    isplitl [HBu]; · iexact HBu
    iexact HBi
  · simp only [if_neg (Nat.not_lt.mpr h1)]
    iintro ⟨-, #Hmw, HO, HBu, HBi⟩
    unfold k0_t5_body
    sl_exec
    sl_step
    isplitr; · ipureintro; omega
    isplitr; · iexact Hmw
    isplitl [HO]
    · rw [← wDrain_step]; iexact HO
    isplitl [HBu]; · iexact HBu
    isplitl [HBu_all]; · iexact HBu_all
    isplitl [HBi]; · iexact HBi
    iexact HBi_all

/-- One trip of the drain of half 1, the waits recorded outright. -/
theorem t6W_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1)
    (O : CellTallies nD τ sig (HIx 1)) (W : Waits sig (HIx 1)) (k : Fin k0_t6_loop.trips) (acc : Unit) :
    drainInvW (F := F) d L 1 (SemLoc.dma cc0_scratch8.sem) (SemLoc.dma cc0_scratch10.sem) O W k.val acc
      ⊢ wp frame (wpE (defs₀ (F := F)) 𝒱₀ (thr d L) none) Set.univ
          (k0_t6_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2 k acc)
          (drainInvW (F := F) d L 1 (SemLoc.dma cc0_scratch8.sem) (SemLoc.dma cc0_scratch10.sem) O W (k.val + 1)) := by
  have hk : k.val < 128 := lt_of_lt_of_le k.isLt k0_t6_abs.2.1
  unfold drainInvW
  simp only [if_pos hk]
  rcases Nat.lt_or_ge (k.val + 1) 128 with h1 | h1
  · simp only [if_pos h1]
    iintro ⟨-, #Hmw, HO, HBu, HBi⟩
    unfold k0_t6_body
    sl_exec
    sl_step
    isplitr; · ipureintro; omega
    isplitr; · iexact Hmw
    isplitl [HO]
    · rw [← wDrain_step]; iexact HO
    rw [show (k.val + 1) * 2048 = k.val * 2048 + 2048 by omega]
    isplitl [HBu]; · iexact HBu
    iexact HBi
  · simp only [if_neg (Nat.not_lt.mpr h1)]
    iintro ⟨-, #Hmw, HO, HBu, HBi⟩
    unfold k0_t6_body
    sl_exec
    sl_step
    isplitr; · ipureintro; omega
    isplitr; · iexact Hmw
    isplitl [HO]
    · rw [← wDrain_step]; iexact HO
    isplitl [HBu]; · iexact HBu
    isplitl [HBu_all]; · iexact HBu_all
    isplitl [HBi]; · iexact HBi
    iexact HBi_all

/-- What a drain entered at `W` leaves: the tile may still wait, has waited on the two cells besides `W`, holds both
    cells at zero and every row of the half in either scratch. -/
def drainPostW (b : Fin 2) (su si : SemLoc sig) (O : CellTallies nD τ sig (HIx 1)) (W : Waits sig (HIx 1)) : sProp 𝕄 :=
  iprop(Transfers.MayWaits (thr d L) (none : HIx 1) O ∗ owes (thr d L) O (insert (si, (none : HIx 1)) (insert (su, (none : HIx 1)) W))
    ∗ semVal (thr d L, su) 0 ∗ bigSep Finset.univ (ownU (F := F) d L b)
    ∗ semVal (thr d L, si) 0 ∗ bigSep Finset.univ (ownI (F := F) d L b))

theorem drainW_exit (b : Fin 2) (su si : SemLoc sig) (O : CellTallies nD τ sig (HIx 1)) (W : Waits sig (HIx 1)) (acc : Unit) :
    drainInvW (F := F) d L b su si O W 128 acc ⊢ drainPostW (F := F) d L b su si O W := by
  unfold drainInvW drainPostW
  simp only [if_neg (Nat.lt_irrefl 128)]
  iintro ⟨-, Hmw, HO, Hr⟩
  isplitl [Hmw]; · iexact Hmw
  isplitl [HO]; · iexact HO
  iexact Hr

set_option warn.classDefReducibility false in
@[sl_loop] def invT5W (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1) (O : CellTallies nD τ sig (HIx 1)) (W : Waits sig (HIx 1)) :
    LoopInv (M := 𝕄) frame (wpE (defs₀ (F := F)) 𝒱₀ (thr d L) none) Set.univ k0_t5_loop.lb k0_t5_loop.ub k0_t5_loop.st (k0_t5_ok k0_t4 k0_h1) ⟨⟩
      (k0_t5_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1) where
  inv := drainInvW (F := F) d L 0 (SemLoc.dma cc0_scratch7.sem) (SemLoc.dma cc0_scratch9.sem) O W
  step := t5W_step d L v3 v7 v11 v15 v19 v23 v24 c1285_i32 k0_t4 k0_h1 O W

set_option warn.classDefReducibility false in
@[sl_loop] def invT6W (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1) (O : CellTallies nD τ sig (HIx 1)) (W : Waits sig (HIx 1)) :
    LoopInv (M := 𝕄) frame (wpE (defs₀ (F := F)) 𝒱₀ (thr d L) none) Set.univ k0_t6_loop.lb k0_t6_loop.ub k0_t6_loop.st (k0_t6_ok k0_t4 k0_h2) ⟨⟩
      (k0_t6_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2) where
  inv := drainInvW (F := F) d L 1 (SemLoc.dma cc0_scratch8.sem) (SemLoc.dma cc0_scratch10.sem) O W
  step := t6W_step d L v3 v7 v11 v15 v19 v23 v24 c1285_i32 k0_t4 k0_h2 O W

/-- What either drain leaves, stated explicitly: the state from which the rest of the chunk proceeds. -/
instance exitT5W (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1) (O : CellTallies nD τ sig (HIx 1)) (W : Waits sig (HIx 1)) :
    LoopExit (invT5W (F := F) d L v3 v7 v11 v15 v19 v23 v24 c1285_i32 k0_t4 k0_h1 O W) where
  post _ := drainPostW (F := F) d L 0 (SemLoc.dma cc0_scratch7.sem) (SemLoc.dma cc0_scratch9.sem) O W
  exit acc := by
    show drainInvW (F := F) d L 0 (SemLoc.dma cc0_scratch7.sem) (SemLoc.dma cc0_scratch9.sem) O W k0_t5_loop.trips acc ⊢ _
    rw [k0_t5_trips]; exact drainW_exit d L 0 _ _ O W acc

instance exitT6W (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1) (O : CellTallies nD τ sig (HIx 1)) (W : Waits sig (HIx 1)) :
    LoopExit (invT6W (F := F) d L v3 v7 v11 v15 v19 v23 v24 c1285_i32 k0_t4 k0_h2 O W) where
  post _ := drainPostW (F := F) d L 1 (SemLoc.dma cc0_scratch8.sem) (SemLoc.dma cc0_scratch10.sem) O W
  exit acc := by
    show drainInvW (F := F) d L 1 (SemLoc.dma cc0_scratch8.sem) (SemLoc.dma cc0_scratch10.sem) O W k0_t6_loop.trips acc ⊢ _
    rw [k0_t6_trips]; exact drainW_exit d L 1 _ _ O W acc

end TileW

end Cert.Proof.KI

end
-- ==== Proof.KIssueT2.lean ====
/-
  One trip of an issue loop at a symbolic trip `k`: the sixteen row copies from each table of that trip are the
  copies number `16 k … 16 k + 15` of the two batches on the half's two semaphores. Each copy's row index is a lane of
  the index scratch, hence a word of the index array, hence (by the precondition) a row of its table; its destination
  is row `16 k + j` of the half, which the batch promised to deliver; it consumes one read token of its table.
-/
import proofs.«214512_g89103391522852_cont_sun_m_1157_25_alg».proof.Proof.KRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-! The destination offsets the program computes, in closed form. -/
theorem offU_t2_0 : ∀ k : Fin k0_t2_loop.trips, k0_off15 k = ![0, 16 * k.val, 0] := by decide +kernel
theorem offU_t2_1 : ∀ k : Fin k0_t2_loop.trips, k0_off19 k = ![0, 16 * k.val + 1, 0] := by decide +kernel
theorem offU_t2_2 : ∀ k : Fin k0_t2_loop.trips, k0_off23 k = ![0, 16 * k.val + 2, 0] := by decide +kernel
theorem offU_t2_3 : ∀ k : Fin k0_t2_loop.trips, k0_off27 k = ![0, 16 * k.val + 3, 0] := by decide +kernel
theorem offU_t2_4 : ∀ k : Fin k0_t2_loop.trips, k0_off31 k = ![0, 16 * k.val + 4, 0] := by decide +kernel
theorem offU_t2_5 : ∀ k : Fin k0_t2_loop.trips, k0_off35 k = ![0, 16 * k.val + 5, 0] := by decide +kernel
theorem offU_t2_6 : ∀ k : Fin k0_t2_loop.trips, k0_off39 k = ![0, 16 * k.val + 6, 0] := by decide +kernel
theorem offU_t2_7 : ∀ k : Fin k0_t2_loop.trips, k0_off43 k = ![0, 16 * k.val + 7, 0] := by decide +kernel
theorem offU_t2_8 : ∀ k : Fin k0_t2_loop.trips, k0_off47 k = ![0, 16 * k.val + 8, 0] := by decide +kernel
theorem offU_t2_9 : ∀ k : Fin k0_t2_loop.trips, k0_off51 k = ![0, 16 * k.val + 9, 0] := by decide +kernel
theorem offU_t2_10 : ∀ k : Fin k0_t2_loop.trips, k0_off55 k = ![0, 16 * k.val + 10, 0] := by decide +kernel
theorem offU_t2_11 : ∀ k : Fin k0_t2_loop.trips, k0_off59 k = ![0, 16 * k.val + 11, 0] := by decide +kernel
theorem offU_t2_12 : ∀ k : Fin k0_t2_loop.trips, k0_off63 k = ![0, 16 * k.val + 12, 0] := by decide +kernel
theorem offU_t2_13 : ∀ k : Fin k0_t2_loop.trips, k0_off67 k = ![0, 16 * k.val + 13, 0] := by decide +kernel
theorem offU_t2_14 : ∀ k : Fin k0_t2_loop.trips, k0_off71 k = ![0, 16 * k.val + 14, 0] := by decide +kernel
theorem offU_t2_15 : ∀ k : Fin k0_t2_loop.trips, k0_off75 k = ![0, 16 * k.val + 15, 0] := by decide +kernel
theorem offI_t2_0 : ∀ k : Fin k0_t2_loop.trips, k0_off17 k 0#32 = ![0, 16 * k.val, 0] := by decide +kernel
theorem offI_t2_1 : ∀ k : Fin k0_t2_loop.trips, k0_off21 k 1#32 = ![0, 16 * k.val + 1, 0] := by decide +kernel
theorem offI_t2_2 : ∀ k : Fin k0_t2_loop.trips, k0_off25 k 2#32 = ![0, 16 * k.val + 2, 0] := by decide +kernel
theorem offI_t2_3 : ∀ k : Fin k0_t2_loop.trips, k0_off29 k 3#32 = ![0, 16 * k.val + 3, 0] := by decide +kernel
theorem offI_t2_4 : ∀ k : Fin k0_t2_loop.trips, k0_off33 k 4#32 = ![0, 16 * k.val + 4, 0] := by decide +kernel
theorem offI_t2_5 : ∀ k : Fin k0_t2_loop.trips, k0_off37 k 5#32 = ![0, 16 * k.val + 5, 0] := by decide +kernel
theorem offI_t2_6 : ∀ k : Fin k0_t2_loop.trips, k0_off41 k 6#32 = ![0, 16 * k.val + 6, 0] := by decide +kernel
theorem offI_t2_7 : ∀ k : Fin k0_t2_loop.trips, k0_off45 k 7#32 = ![0, 16 * k.val + 7, 0] := by decide +kernel
theorem offI_t2_8 : ∀ k : Fin k0_t2_loop.trips, k0_off49 k 8#32 = ![0, 16 * k.val + 8, 0] := by decide +kernel
theorem offI_t2_9 : ∀ k : Fin k0_t2_loop.trips, k0_off53 k 9#32 = ![0, 16 * k.val + 9, 0] := by decide +kernel
theorem offI_t2_10 : ∀ k : Fin k0_t2_loop.trips, k0_off57 k 10#32 = ![0, 16 * k.val + 10, 0] := by decide +kernel
theorem offI_t2_11 : ∀ k : Fin k0_t2_loop.trips, k0_off61 k 11#32 = ![0, 16 * k.val + 11, 0] := by decide +kernel
theorem offI_t2_12 : ∀ k : Fin k0_t2_loop.trips, k0_off65 k 12#32 = ![0, 16 * k.val + 12, 0] := by decide +kernel
theorem offI_t2_13 : ∀ k : Fin k0_t2_loop.trips, k0_off69 k 13#32 = ![0, 16 * k.val + 13, 0] := by decide +kernel
theorem offI_t2_14 : ∀ k : Fin k0_t2_loop.trips, k0_off73 k 14#32 = ![0, 16 * k.val + 14, 0] := by decide +kernel
theorem offI_t2_15 : ∀ k : Fin k0_t2_loop.trips, k0_off77 k = ![0, 16 * k.val + 15, 0] := by decide +kernel

/-! The rows by number are the rows as the program slices them. -/
omit [FloatOps F] in
theorem EU_t2_0 (d : Dev nD) (L : grid0.Coords) (k : Fin k0_t2_loop.trips) (h) :
    ownU (F := F) d L 0 ⟨16 * k.val, h⟩
      = ownAt (F := F) d L (urowS) (k0_off15 k) (inb_of (offU_t2_0 k) (by decide) (by have := k.isLt; have := k0_t2_abs.2.1; omega)) :=
  ownAt_congr d L (offU_t2_0 k).symm _ _
omit [FloatOps F] in
theorem EU_t2_1 (d : Dev nD) (L : grid0.Coords) (k : Fin k0_t2_loop.trips) (h) :
    ownU (F := F) d L 0 ⟨16 * k.val + 1, h⟩
      = ownAt (F := F) d L (urowS) (k0_off19 k) (inb_of (offU_t2_1 k) (by decide) (by have := k.isLt; have := k0_t2_abs.2.1; omega)) :=
  ownAt_congr d L (offU_t2_1 k).symm _ _
omit [FloatOps F] in
theorem EU_t2_2 (d : Dev nD) (L : grid0.Coords) (k : Fin k0_t2_loop.trips) (h) :
    ownU (F := F) d L 0 ⟨16 * k.val + 2, h⟩
      = ownAt (F := F) d L (urowS) (k0_off23 k) (inb_of (offU_t2_2 k) (by decide) (by have := k.isLt; have := k0_t2_abs.2.1; omega)) :=
  ownAt_congr d L (offU_t2_2 k).symm _ _
omit [FloatOps F] in
theorem EU_t2_3 (d : Dev nD) (L : grid0.Coords) (k : Fin k0_t2_loop.trips) (h) :
    ownU (F := F) d L 0 ⟨16 * k.val + 3, h⟩
      = ownAt (F := F) d L (urowS) (k0_off27 k) (inb_of (offU_t2_3 k) (by decide) (by have := k.isLt; have := k0_t2_abs.2.1; omega)) :=
  ownAt_congr d L (offU_t2_3 k).symm _ _
omit [FloatOps F] in
theorem EU_t2_4 (d : Dev nD) (L : grid0.Coords) (k : Fin k0_t2_loop.trips) (h) :
    ownU (F := F) d L 0 ⟨16 * k.val + 4, h⟩
      = ownAt (F := F) d L (urowS) (k0_off31 k) (inb_of (offU_t2_4 k) (by decide) (by have := k.isLt; have := k0_t2_abs.2.1; omega)) :=
  ownAt_congr d L (offU_t2_4 k).symm _ _
omit [FloatOps F] in
theorem EU_t2_5 (d : Dev nD) (L : grid0.Coords) (k : Fin k0_t2_loop.trips) (h) :
    ownU (F := F) d L 0 ⟨16 * k.val + 5, h⟩
      = ownAt (F := F) d L (urowS) (k0_off35 k) (inb_of (offU_t2_5 k) (by decide) (by have := k.isLt; have := k0_t2_abs.2.1; omega)) :=
  ownAt_congr d L (offU_t2_5 k).symm _ _
omit [FloatOps F] in
theorem EU_t2_6 (d : Dev nD) (L : grid0.Coords) (k : Fin k0_t2_loop.trips) (h) :
    ownU (F := F) d L 0 ⟨16 * k.val + 6, h⟩
      = ownAt (F := F) d L (urowS) (k0_off39 k) (inb_of (offU_t2_6 k) (by decide) (by have := k.isLt; have := k0_t2_abs.2.1; omega)) :=
  ownAt_congr d L (offU_t2_6 k).symm _ _
omit [FloatOps F] in
theorem EU_t2_7 (d : Dev nD) (L : grid0.Coords) (k : Fin k0_t2_loop.trips) (h) :
    ownU (F := F) d L 0 ⟨16 * k.val + 7, h⟩
      = ownAt (F := F) d L (urowS) (k0_off43 k) (inb_of (offU_t2_7 k) (by decide) (by have := k.isLt; have := k0_t2_abs.2.1; omega)) :=
  ownAt_congr d L (offU_t2_7 k).symm _ _
omit [FloatOps F] in
theorem EU_t2_8 (d : Dev nD) (L : grid0.Coords) (k : Fin k0_t2_loop.trips) (h) :
    ownU (F := F) d L 0 ⟨16 * k.val + 8, h⟩
      = ownAt (F := F) d L (urowS) (k0_off47 k) (inb_of (offU_t2_8 k) (by decide) (by have := k.isLt; have := k0_t2_abs.2.1; omega)) :=
  ownAt_congr d L (offU_t2_8 k).symm _ _
omit [FloatOps F] in
theorem EU_t2_9 (d : Dev nD) (L : grid0.Coords) (k : Fin k0_t2_loop.trips) (h) :
    ownU (F := F) d L 0 ⟨16 * k.val + 9, h⟩
      = ownAt (F := F) d L (urowS) (k0_off51 k) (inb_of (offU_t2_9 k) (by decide) (by have := k.isLt; have := k0_t2_abs.2.1; omega)) :=
  ownAt_congr d L (offU_t2_9 k).symm _ _
omit [FloatOps F] in
theorem EU_t2_10 (d : Dev nD) (L : grid0.Coords) (k : Fin k0_t2_loop.trips) (h) :
    ownU (F := F) d L 0 ⟨16 * k.val + 10, h⟩
      = ownAt (F := F) d L (urowS) (k0_off55 k) (inb_of (offU_t2_10 k) (by decide) (by have := k.isLt; have := k0_t2_abs.2.1; omega)) :=
  ownAt_congr d L (offU_t2_10 k).symm _ _
omit [FloatOps F] in
theorem EU_t2_11 (d : Dev nD) (L : grid0.Coords) (k : Fin k0_t2_loop.trips) (h) :
    ownU (F := F) d L 0 ⟨16 * k.val + 11, h⟩
      = ownAt (F := F) d L (urowS) (k0_off59 k) (inb_of (offU_t2_11 k) (by decide) (by have := k.isLt; have := k0_t2_abs.2.1; omega)) :=
  ownAt_congr d L (offU_t2_11 k).symm _ _
omit [FloatOps F] in
theorem EU_t2_12 (d : Dev nD) (L : grid0.Coords) (k : Fin k0_t2_loop.trips) (h) :
    ownU (F := F) d L 0 ⟨16 * k.val + 12, h⟩
      = ownAt (F := F) d L (urowS) (k0_off63 k) (inb_of (offU_t2_12 k) (by decide) (by have := k.isLt; have := k0_t2_abs.2.1; omega)) :=
  ownAt_congr d L (offU_t2_12 k).symm _ _
omit [FloatOps F] in
theorem EU_t2_13 (d : Dev nD) (L : grid0.Coords) (k : Fin k0_t2_loop.trips) (h) :
    ownU (F := F) d L 0 ⟨16 * k.val + 13, h⟩
      = ownAt (F := F) d L (urowS) (k0_off67 k) (inb_of (offU_t2_13 k) (by decide) (by have := k.isLt; have := k0_t2_abs.2.1; omega)) :=
  ownAt_congr d L (offU_t2_13 k).symm _ _
omit [FloatOps F] in
theorem EU_t2_14 (d : Dev nD) (L : grid0.Coords) (k : Fin k0_t2_loop.trips) (h) :
    ownU (F := F) d L 0 ⟨16 * k.val + 14, h⟩
      = ownAt (F := F) d L (urowS) (k0_off71 k) (inb_of (offU_t2_14 k) (by decide) (by have := k.isLt; have := k0_t2_abs.2.1; omega)) :=
  ownAt_congr d L (offU_t2_14 k).symm _ _
omit [FloatOps F] in
theorem EU_t2_15 (d : Dev nD) (L : grid0.Coords) (k : Fin k0_t2_loop.trips) (h) :
    ownU (F := F) d L 0 ⟨16 * k.val + 15, h⟩
      = ownAt (F := F) d L (urowS) (k0_off75 k) (inb_of (offU_t2_15 k) (by decide) (by have := k.isLt; have := k0_t2_abs.2.1; omega)) :=
  ownAt_congr d L (offU_t2_15 k).symm _ _
omit [FloatOps F] in
theorem EI_t2_0 (d : Dev nD) (L : grid0.Coords) (k : Fin k0_t2_loop.trips) (h) :
    ownI (F := F) d L 0 ⟨16 * k.val, h⟩
      = ownAt (F := F) d L (irowS) (k0_off17 k 0#32) (inb_of (offI_t2_0 k) (by decide) (by have := k.isLt; have := k0_t2_abs.2.1; omega)) :=
  ownAt_congr d L (offI_t2_0 k).symm _ _
omit [FloatOps F] in
theorem EI_t2_1 (d : Dev nD) (L : grid0.Coords) (k : Fin k0_t2_loop.trips) (h) :
    ownI (F := F) d L 0 ⟨16 * k.val + 1, h⟩
      = ownAt (F := F) d L (irowS) (k0_off21 k 1#32) (inb_of (offI_t2_1 k) (by decide) (by have := k.isLt; have := k0_t2_abs.2.1; omega)) :=
  ownAt_congr d L (offI_t2_1 k).symm _ _
omit [FloatOps F] in
theorem EI_t2_2 (d : Dev nD) (L : grid0.Coords) (k : Fin k0_t2_loop.trips) (h) :
    ownI (F := F) d L 0 ⟨16 * k.val + 2, h⟩
      = ownAt (F := F) d L (irowS) (k0_off25 k 2#32) (inb_of (offI_t2_2 k) (by decide) (by have := k.isLt; have := k0_t2_abs.2.1; omega)) :=
  ownAt_congr d L (offI_t2_2 k).symm _ _
omit [FloatOps F] in
theorem EI_t2_3 (d : Dev nD) (L : grid0.Coords) (k : Fin k0_t2_loop.trips) (h) :
    ownI (F := F) d L 0 ⟨16 * k.val + 3, h⟩
      = ownAt (F := F) d L (irowS) (k0_off29 k 3#32) (inb_of (offI_t2_3 k) (by decide) (by have := k.isLt; have := k0_t2_abs.2.1; omega)) :=
  ownAt_congr d L (offI_t2_3 k).symm _ _
omit [FloatOps F] in
theorem EI_t2_4 (d : Dev nD) (L : grid0.Coords) (k : Fin k0_t2_loop.trips) (h) :
    ownI (F := F) d L 0 ⟨16 * k.val + 4, h⟩
      = ownAt (F := F) d L (irowS) (k0_off33 k 4#32) (inb_of (offI_t2_4 k) (by decide) (by have := k.isLt; have := k0_t2_abs.2.1; omega)) :=
  ownAt_congr d L (offI_t2_4 k).symm _ _
omit [FloatOps F] in
theorem EI_t2_5 (d : Dev nD) (L : grid0.Coords) (k : Fin k0_t2_loop.trips) (h) :
    ownI (F := F) d L 0 ⟨16 * k.val + 5, h⟩
      = ownAt (F := F) d L (irowS) (k0_off37 k 5#32) (inb_of (offI_t2_5 k) (by decide) (by have := k.isLt; have := k0_t2_abs.2.1; omega)) :=
  ownAt_congr d L (offI_t2_5 k).symm _ _
omit [FloatOps F] in
theorem EI_t2_6 (d : Dev nD) (L : grid0.Coords) (k : Fin k0_t2_loop.trips) (h) :
    ownI (F := F) d L 0 ⟨16 * k.val + 6, h⟩
      = ownAt (F := F) d L (irowS) (k0_off41 k 6#32) (inb_of (offI_t2_6 k) (by decide) (by have := k.isLt; have := k0_t2_abs.2.1; omega)) :=
  ownAt_congr d L (offI_t2_6 k).symm _ _
omit [FloatOps F] in
theorem EI_t2_7 (d : Dev nD) (L : grid0.Coords) (k : Fin k0_t2_loop.trips) (h) :
    ownI (F := F) d L 0 ⟨16 * k.val + 7, h⟩
      = ownAt (F := F) d L (irowS) (k0_off45 k 7#32) (inb_of (offI_t2_7 k) (by decide) (by have := k.isLt; have := k0_t2_abs.2.1; omega)) :=
  ownAt_congr d L (offI_t2_7 k).symm _ _
omit [FloatOps F] in
theorem EI_t2_8 (d : Dev nD) (L : grid0.Coords) (k : Fin k0_t2_loop.trips) (h) :
    ownI (F := F) d L 0 ⟨16 * k.val + 8, h⟩
      = ownAt (F := F) d L (irowS) (k0_off49 k 8#32) (inb_of (offI_t2_8 k) (by decide) (by have := k.isLt; have := k0_t2_abs.2.1; omega)) :=
  ownAt_congr d L (offI_t2_8 k).symm _ _
omit [FloatOps F] in
theorem EI_t2_9 (d : Dev nD) (L : grid0.Coords) (k : Fin k0_t2_loop.trips) (h) :
    ownI (F := F) d L 0 ⟨16 * k.val + 9, h⟩
      = ownAt (F := F) d L (irowS) (k0_off53 k 9#32) (inb_of (offI_t2_9 k) (by decide) (by have := k.isLt; have := k0_t2_abs.2.1; omega)) :=
  ownAt_congr d L (offI_t2_9 k).symm _ _
omit [FloatOps F] in
theorem EI_t2_10 (d : Dev nD) (L : grid0.Coords) (k : Fin k0_t2_loop.trips) (h) :
    ownI (F := F) d L 0 ⟨16 * k.val + 10, h⟩
      = ownAt (F := F) d L (irowS) (k0_off57 k 10#32) (inb_of (offI_t2_10 k) (by decide) (by have := k.isLt; have := k0_t2_abs.2.1; omega)) :=
  ownAt_congr d L (offI_t2_10 k).symm _ _
omit [FloatOps F] in
theorem EI_t2_11 (d : Dev nD) (L : grid0.Coords) (k : Fin k0_t2_loop.trips) (h) :
    ownI (F := F) d L 0 ⟨16 * k.val + 11, h⟩
      = ownAt (F := F) d L (irowS) (k0_off61 k 11#32) (inb_of (offI_t2_11 k) (by decide) (by have := k.isLt; have := k0_t2_abs.2.1; omega)) :=
  ownAt_congr d L (offI_t2_11 k).symm _ _
omit [FloatOps F] in
theorem EI_t2_12 (d : Dev nD) (L : grid0.Coords) (k : Fin k0_t2_loop.trips) (h) :
    ownI (F := F) d L 0 ⟨16 * k.val + 12, h⟩
      = ownAt (F := F) d L (irowS) (k0_off65 k 12#32) (inb_of (offI_t2_12 k) (by decide) (by have := k.isLt; have := k0_t2_abs.2.1; omega)) :=
  ownAt_congr d L (offI_t2_12 k).symm _ _
omit [FloatOps F] in
theorem EI_t2_13 (d : Dev nD) (L : grid0.Coords) (k : Fin k0_t2_loop.trips) (h) :
    ownI (F := F) d L 0 ⟨16 * k.val + 13, h⟩
      = ownAt (F := F) d L (irowS) (k0_off69 k 13#32) (inb_of (offI_t2_13 k) (by decide) (by have := k.isLt; have := k0_t2_abs.2.1; omega)) :=
  ownAt_congr d L (offI_t2_13 k).symm _ _
omit [FloatOps F] in
theorem EI_t2_14 (d : Dev nD) (L : grid0.Coords) (k : Fin k0_t2_loop.trips) (h) :
    ownI (F := F) d L 0 ⟨16 * k.val + 14, h⟩
      = ownAt (F := F) d L (irowS) (k0_off73 k 14#32) (inb_of (offI_t2_14 k) (by decide) (by have := k.isLt; have := k0_t2_abs.2.1; omega)) :=
  ownAt_congr d L (offI_t2_14 k).symm _ _
omit [FloatOps F] in
theorem EI_t2_15 (d : Dev nD) (L : grid0.Coords) (k : Fin k0_t2_loop.trips) (h) :
    ownI (F := F) d L 0 ⟨16 * k.val + 15, h⟩
      = ownAt (F := F) d L (irowS) (k0_off77 k) (inb_of (offI_t2_15 k) (by decide) (by have := k.isLt; have := k0_t2_abs.2.1; omega)) :=
  ownAt_congr d L (offI_t2_15 k).symm _ _

section Issue

variable (d : Dev nD) (L : grid0.Coords)

/-- Before trip `k`: `16 k` copies of each table issued, nothing consumed; the rows and read tokens from there on in hand;
    the two index scratches as filled. -/
def issueAt_t2 (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchU d L 0 (SemLoc.dma cc0_scratch7.sem) (16 * k) 0 ∗ batchI d L 0 (SemLoc.dma cc0_scratch9.sem) (16 * k) 0
    ∗ bigSep (Ring.rangeSet 128 (16 * k) 128) (ownU d L 0) ∗ bigSep (Ring.rangeSet 128 (16 * k) 128) (ownI d L 0)
    ∗ bigSep (Ring.rangeSet 512 (16 * k) 128) (fun t => tokU d L q fue t.val) ∗ bigSep (Ring.rangeSet 512 (16 * k) 128) (fun t => tokI d L q fie t.val)
    ∗ idxU d L fu f0 ∗ idxI d L fi f1)

set_option maxHeartbeats 4000000 in
theorem issue_step_t2 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32)
    (k : Fin k0_t2_loop.trips) (acc : Unit) :
    issueAt_t2 d L q fu fi f0 f1 fue fie k acc
      ⊢ wp frame (wpE (defs₀ (F := F)) 𝒱₀ (thr d L) none) Set.univ
          (k0_t2_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k acc)
          (issueAt_t2 d L q fu fi f0 f1 fue fie (k.val + 1)) := by
  have hk := k.isLt; have h8 := k0_t2_abs.2.1
  unfold issueAt_t2
  rw [Ring.bigSep_rangeSet_head (Φ := ownU d L 0) (lo := 16 * k.val) (by omega) (by omega),
    Ring.bigSep_rangeSet_head (Φ := ownU d L 0) (lo := 16 * k.val + 1) (by omega) (by omega),
    Ring.bigSep_rangeSet_head (Φ := ownU d L 0) (lo := 16 * k.val + 2) (by omega) (by omega),
    Ring.bigSep_rangeSet_head (Φ := ownU d L 0) (lo := 16 * k.val + 3) (by omega) (by omega),
    Ring.bigSep_rangeSet_head (Φ := ownU d L 0) (lo := 16 * k.val + 4) (by omega) (by omega),
    Ring.bigSep_rangeSet_head (Φ := ownU d L 0) (lo := 16 * k.val + 5) (by omega) (by omega),
    Ring.bigSep_rangeSet_head (Φ := ownU d L 0) (lo := 16 * k.val + 6) (by omega) (by omega),
    Ring.bigSep_rangeSet_head (Φ := ownU d L 0) (lo := 16 * k.val + 7) (by omega) (by omega),
    Ring.bigSep_rangeSet_head (Φ := ownU d L 0) (lo := 16 * k.val + 8) (by omega) (by omega),
    Ring.bigSep_rangeSet_head (Φ := ownU d L 0) (lo := 16 * k.val + 9) (by omega) (by omega),
    Ring.bigSep_rangeSet_head (Φ := ownU d L 0) (lo := 16 * k.val + 10) (by omega) (by omega),
    Ring.bigSep_rangeSet_head (Φ := ownU d L 0) (lo := 16 * k.val + 11) (by omega) (by omega),
    Ring.bigSep_rangeSet_head (Φ := ownU d L 0) (lo := 16 * k.val + 12) (by omega) (by omega),
    Ring.bigSep_rangeSet_head (Φ := ownU d L 0) (lo := 16 * k.val + 13) (by omega) (by omega),
    Ring.bigSep_rangeSet_head (Φ := ownU d L 0) (lo := 16 * k.val + 14) (by omega) (by omega),
    Ring.bigSep_rangeSet_head (Φ := ownU d L 0) (lo := 16 * k.val + 15) (by omega) (by omega),
    Ring.bigSep_rangeSet_head (Φ := ownI d L 0) (lo := 16 * k.val) (by omega) (by omega),
    Ring.bigSep_rangeSet_head (Φ := ownI d L 0) (lo := 16 * k.val + 1) (by omega) (by omega),
    Ring.bigSep_rangeSet_head (Φ := ownI d L 0) (lo := 16 * k.val + 2) (by omega) (by omega),
    Ring.bigSep_rangeSet_head (Φ := ownI d L 0) (lo := 16 * k.val + 3) (by omega) (by omega),
    Ring.bigSep_rangeSet_head (Φ := ownI d L 0) (lo := 16 * k.val + 4) (by omega) (by omega),
    Ring.bigSep_rangeSet_head (Φ := ownI d L 0) (lo := 16 * k.val + 5) (by omega) (by omega),
    Ring.bigSep_rangeSet_head (Φ := ownI d L 0) (lo := 16 * k.val + 6) (by omega) (by omega),
    Ring.bigSep_rangeSet_head (Φ := ownI d L 0) (lo := 16 * k.val + 7) (by omega) (by omega),
    Ring.bigSep_rangeSet_head (Φ := ownI d L 0) (lo := 16 * k.val + 8) (by omega) (by omega),
    Ring.bigSep_rangeSet_head (Φ := ownI d L 0) (lo := 16 * k.val + 9) (by omega) (by omega),
    Ring.bigSep_rangeSet_head (Φ := ownI d L 0) (lo := 16 * k.val + 10) (by omega) (by omega),
    Ring.bigSep_rangeSet_head (Φ := ownI d L 0) (lo := 16 * k.val + 11) (by omega) (by omega),
    Ring.bigSep_rangeSet_head (Φ := ownI d L 0) (lo := 16 * k.val + 12) (by omega) (by omega),
    Ring.bigSep_rangeSet_head (Φ := ownI d L 0) (lo := 16 * k.val + 13) (by omega) (by omega),
    Ring.bigSep_rangeSet_head (Φ := ownI d L 0) (lo := 16 * k.val + 14) (by omega) (by omega),
    Ring.bigSep_rangeSet_head (Φ := ownI d L 0) (lo := 16 * k.val + 15) (by omega) (by omega),
    Ring.bigSep_rangeSet_head (Φ := fun t => tokU d L q fue t.val) (lo := 16 * k.val) (by omega) (by omega),
    Ring.bigSep_rangeSet_head (Φ := fun t => tokU d L q fue t.val) (lo := 16 * k.val + 1) (by omega) (by omega),
    Ring.bigSep_rangeSet_head (Φ := fun t => tokU d L q fue t.val) (lo := 16 * k.val + 2) (by omega) (by omega),
    Ring.bigSep_rangeSet_head (Φ := fun t => tokU d L q fue t.val) (lo := 16 * k.val + 3) (by omega) (by omega),
    Ring.bigSep_rangeSet_head (Φ := fun t => tokU d L q fue t.val) (lo := 16 * k.val + 4) (by omega) (by omega),
    Ring.bigSep_rangeSet_head (Φ := fun t => tokU d L q fue t.val) (lo := 16 * k.val + 5) (by omega) (by omega),
    Ring.bigSep_rangeSet_head (Φ := fun t => tokU d L q fue t.val) (lo := 16 * k.val + 6) (by omega) (by omega),
    Ring.bigSep_rangeSet_head (Φ := fun t => tokU d L q fue t.val) (lo := 16 * k.val + 7) (by omega) (by omega),
    Ring.bigSep_rangeSet_head (Φ := fun t => tokU d L q fue t.val) (lo := 16 * k.val + 8) (by omega) (by omega),
    Ring.bigSep_rangeSet_head (Φ := fun t => tokU d L q fue t.val) (lo := 16 * k.val + 9) (by omega) (by omega),
    Ring.bigSep_rangeSet_head (Φ := fun t => tokU d L q fue t.val) (lo := 16 * k.val + 10) (by omega) (by omega),
    Ring.bigSep_rangeSet_head (Φ := fun t => tokU d L q fue t.val) (lo := 16 * k.val + 11) (by omega) (by omega),
    Ring.bigSep_rangeSet_head (Φ := fun t => tokU d L q fue t.val) (lo := 16 * k.val + 12) (by omega) (by omega),
    Ring.bigSep_rangeSet_head (Φ := fun t => tokU d L q fue t.val) (lo := 16 * k.val + 13) (by omega) (by omega),
    Ring.bigSep_rangeSet_head (Φ := fun t => tokU d L q fue t.val) (lo := 16 * k.val + 14) (by omega) (by omega),
    Ring.bigSep_rangeSet_head (Φ := fun t => tokU d L q fue t.val) (lo := 16 * k.val + 15) (by omega) (by omega),
    Ring.bigSep_rangeSet_head (Φ := fun t => tokI d L q fie t.val) (lo := 16 * k.val) (by omega) (by omega),
    Ring.bigSep_rangeSet_head (Φ := fun t => tokI d L q fie t.val) (lo := 16 * k.val + 1) (by omega) (by omega),
    Ring.bigSep_rangeSet_head (Φ := fun t => tokI d L q fie t.val) (lo := 16 * k.val + 2) (by omega) (by omega),
    Ring.bigSep_rangeSet_head (Φ := fun t => tokI d L q fie t.val) (lo := 16 * k.val + 3) (by omega) (by omega),
    Ring.bigSep_rangeSet_head (Φ := fun t => tokI d L q fie t.val) (lo := 16 * k.val + 4) (by omega) (by omega),
    Ring.bigSep_rangeSet_head (Φ := fun t => tokI d L q fie t.val) (lo := 16 * k.val + 5) (by omega) (by omega),
    Ring.bigSep_rangeSet_head (Φ := fun t => tokI d L q fie t.val) (lo := 16 * k.val + 6) (by omega) (by omega),
    Ring.bigSep_rangeSet_head (Φ := fun t => tokI d L q fie t.val) (lo := 16 * k.val + 7) (by omega) (by omega),
    Ring.bigSep_rangeSet_head (Φ := fun t => tokI d L q fie t.val) (lo := 16 * k.val + 8) (by omega) (by omega),
    Ring.bigSep_rangeSet_head (Φ := fun t => tokI d L q fie t.val) (lo := 16 * k.val + 9) (by omega) (by omega),
    Ring.bigSep_rangeSet_head (Φ := fun t => tokI d L q fie t.val) (lo := 16 * k.val + 10) (by omega) (by omega),
    Ring.bigSep_rangeSet_head (Φ := fun t => tokI d L q fie t.val) (lo := 16 * k.val + 11) (by omega) (by omega),
    Ring.bigSep_rangeSet_head (Φ := fun t => tokI d L q fie t.val) (lo := 16 * k.val + 12) (by omega) (by omega),
    Ring.bigSep_rangeSet_head (Φ := fun t => tokI d L q fie t.val) (lo := 16 * k.val + 13) (by omega) (by omega),
    Ring.bigSep_rangeSet_head (Φ := fun t => tokI d L q fie t.val) (lo := 16 * k.val + 14) (by omega) (by omega),
    Ring.bigSep_rangeSet_head (Φ := fun t => tokI d L q fie t.val) (lo := 16 * k.val + 15) (by omega) (by omega),
    show 16 * k.val + 15 + 1 = 16 * (k.val + 1) by omega]
  rw [EU_t2_0 d L k, EU_t2_1 d L k, EU_t2_2 d L k, EU_t2_3 d L k, EU_t2_4 d L k, EU_t2_5 d L k, EU_t2_6 d L k, EU_t2_7 d L k, EU_t2_8 d L k, EU_t2_9 d L k, EU_t2_10 d L k, EU_t2_11 d L k, EU_t2_12 d L k, EU_t2_13 d L k, EU_t2_14 d L k, EU_t2_15 d L k, EI_t2_0 d L k, EI_t2_1 d L k, EI_t2_2 d L k, EI_t2_3 d L k, EI_t2_4 d L k, EI_t2_5 d L k, EI_t2_6 d L k, EI_t2_7 d L k, EI_t2_8 d L k, EI_t2_9 d L k, EI_t2_10 d L k, EI_t2_11 d L k, EI_t2_12 d L k, EI_t2_13 d L k, EI_t2_14 d L k, EI_t2_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t2_body
  sl_exec (disch := first
      | exact sep_elim_left.trans (deliver d L _ _ _ (by simp only [offU_t2_0, offU_t2_1, offU_t2_2, offU_t2_3, offU_t2_4, offU_t2_5, offU_t2_6, offU_t2_7, offU_t2_8, offU_t2_9, offU_t2_10, offU_t2_11, offU_t2_12, offU_t2_13, offU_t2_14, offU_t2_15, offI_t2_0, offI_t2_1, offI_t2_2, offI_t2_3, offI_t2_4, offI_t2_5, offI_t2_6, offI_t2_7, offI_t2_8, offI_t2_9, offI_t2_10, offI_t2_11, offI_t2_12, offI_t2_13, offI_t2_14, offI_t2_15]; rfl))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t2 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) :
    LoopInv (M := 𝕄) frame (wpE (defs₀ (F := F)) 𝒱₀ (thr d L) none) Set.univ k0_t2_loop.lb k0_t2_loop.ub k0_t2_loop.st k0_t2_ok ()
      (k0_t2_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285) where
  inv := issueAt_t2 d L q fu fi f0 f1 fue fie
  step := issue_step_t2 d L q fu fi hfu hfi f0 f1 fue fie v3 v7 v11 v15 v19 v23 v24 c1285

end Issue

end Cert.Proof.KI

end
-- ==== Proof.KIssueT3.lean ====
/-
  One trip of an issue loop at a symbolic trip `k`: the sixteen row copies from each table of that trip are the
  copies number `16 k … 16 k + 15` of the two batches on the half's two semaphores. Each copy's row index is a lane of
  the index scratch, hence a word of the index array, hence (by the precondition) a row of its table; its destination
  is row `16 k + j` of the half, which the batch promised to deliver; it consumes one read token of its table.
-/
import proofs.«214512_g89103391522852_cont_sun_m_1157_25_alg».proof.Proof.KRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-! The destination offsets the program computes, in closed form. -/
theorem offU_t3_0 : ∀ k : Fin k0_t3_loop.trips, k0_off81 k = ![1, 16 * k.val, 0] := by decide +kernel
theorem offU_t3_1 : ∀ k : Fin k0_t3_loop.trips, k0_off85 k = ![1, 16 * k.val + 1, 0] := by decide +kernel
theorem offU_t3_2 : ∀ k : Fin k0_t3_loop.trips, k0_off89 k = ![1, 16 * k.val + 2, 0] := by decide +kernel
theorem offU_t3_3 : ∀ k : Fin k0_t3_loop.trips, k0_off93 k = ![1, 16 * k.val + 3, 0] := by decide +kernel
theorem offU_t3_4 : ∀ k : Fin k0_t3_loop.trips, k0_off97 k = ![1, 16 * k.val + 4, 0] := by decide +kernel
theorem offU_t3_5 : ∀ k : Fin k0_t3_loop.trips, k0_off101 k = ![1, 16 * k.val + 5, 0] := by decide +kernel
theorem offU_t3_6 : ∀ k : Fin k0_t3_loop.trips, k0_off105 k = ![1, 16 * k.val + 6, 0] := by decide +kernel
theorem offU_t3_7 : ∀ k : Fin k0_t3_loop.trips, k0_off109 k = ![1, 16 * k.val + 7, 0] := by decide +kernel
theorem offU_t3_8 : ∀ k : Fin k0_t3_loop.trips, k0_off113 k = ![1, 16 * k.val + 8, 0] := by decide +kernel
theorem offU_t3_9 : ∀ k : Fin k0_t3_loop.trips, k0_off117 k = ![1, 16 * k.val + 9, 0] := by decide +kernel
theorem offU_t3_10 : ∀ k : Fin k0_t3_loop.trips, k0_off121 k = ![1, 16 * k.val + 10, 0] := by decide +kernel
theorem offU_t3_11 : ∀ k : Fin k0_t3_loop.trips, k0_off125 k = ![1, 16 * k.val + 11, 0] := by decide +kernel
theorem offU_t3_12 : ∀ k : Fin k0_t3_loop.trips, k0_off129 k = ![1, 16 * k.val + 12, 0] := by decide +kernel
theorem offU_t3_13 : ∀ k : Fin k0_t3_loop.trips, k0_off133 k = ![1, 16 * k.val + 13, 0] := by decide +kernel
theorem offU_t3_14 : ∀ k : Fin k0_t3_loop.trips, k0_off137 k = ![1, 16 * k.val + 14, 0] := by decide +kernel
theorem offU_t3_15 : ∀ k : Fin k0_t3_loop.trips, k0_off141 k = ![1, 16 * k.val + 15, 0] := by decide +kernel
theorem offI_t3_0 : ∀ k : Fin k0_t3_loop.trips, k0_off83 k 0#32 = ![1, 16 * k.val, 0] := by decide +kernel
theorem offI_t3_1 : ∀ k : Fin k0_t3_loop.trips, k0_off87 k 1#32 = ![1, 16 * k.val + 1, 0] := by decide +kernel
theorem offI_t3_2 : ∀ k : Fin k0_t3_loop.trips, k0_off91 k 2#32 = ![1, 16 * k.val + 2, 0] := by decide +kernel
theorem offI_t3_3 : ∀ k : Fin k0_t3_loop.trips, k0_off95 k 3#32 = ![1, 16 * k.val + 3, 0] := by decide +kernel
theorem offI_t3_4 : ∀ k : Fin k0_t3_loop.trips, k0_off99 k 4#32 = ![1, 16 * k.val + 4, 0] := by decide +kernel
theorem offI_t3_5 : ∀ k : Fin k0_t3_loop.trips, k0_off103 k 5#32 = ![1, 16 * k.val + 5, 0] := by decide +kernel
theorem offI_t3_6 : ∀ k : Fin k0_t3_loop.trips, k0_off107 k 6#32 = ![1, 16 * k.val + 6, 0] := by decide +kernel
theorem offI_t3_7 : ∀ k : Fin k0_t3_loop.trips, k0_off111 k 7#32 = ![1, 16 * k.val + 7, 0] := by decide +kernel
theorem offI_t3_8 : ∀ k : Fin k0_t3_loop.trips, k0_off115 k 8#32 = ![1, 16 * k.val + 8, 0] := by decide +kernel
theorem offI_t3_9 : ∀ k : Fin k0_t3_loop.trips, k0_off119 k 9#32 = ![1, 16 * k.val + 9, 0] := by decide +kernel
theorem offI_t3_10 : ∀ k : Fin k0_t3_loop.trips, k0_off123 k 10#32 = ![1, 16 * k.val + 10, 0] := by decide +kernel
theorem offI_t3_11 : ∀ k : Fin k0_t3_loop.trips, k0_off127 k 11#32 = ![1, 16 * k.val + 11, 0] := by decide +kernel
theorem offI_t3_12 : ∀ k : Fin k0_t3_loop.trips, k0_off131 k 12#32 = ![1, 16 * k.val + 12, 0] := by decide +kernel
theorem offI_t3_13 : ∀ k : Fin k0_t3_loop.trips, k0_off135 k 13#32 = ![1, 16 * k.val + 13, 0] := by decide +kernel
theorem offI_t3_14 : ∀ k : Fin k0_t3_loop.trips, k0_off139 k 14#32 = ![1, 16 * k.val + 14, 0] := by decide +kernel
theorem offI_t3_15 : ∀ k : Fin k0_t3_loop.trips, k0_off143 k = ![1, 16 * k.val + 15, 0] := by decide +kernel

/-! The rows by number are the rows as the program slices them. -/
omit [FloatOps F] in
theorem EU_t3_0 (d : Dev nD) (L : grid0.Coords) (k : Fin k0_t3_loop.trips) (h) :
    ownU (F := F) d L 1 ⟨16 * k.val, h⟩
      = ownAt (F := F) d L (urowS) (k0_off81 k) (inb_of (offU_t3_0 k) (by decide) (by have := k.isLt; have := k0_t3_abs.2.1; omega)) :=
  ownAt_congr d L (offU_t3_0 k).symm _ _
omit [FloatOps F] in
theorem EU_t3_1 (d : Dev nD) (L : grid0.Coords) (k : Fin k0_t3_loop.trips) (h) :
    ownU (F := F) d L 1 ⟨16 * k.val + 1, h⟩
      = ownAt (F := F) d L (urowS) (k0_off85 k) (inb_of (offU_t3_1 k) (by decide) (by have := k.isLt; have := k0_t3_abs.2.1; omega)) :=
  ownAt_congr d L (offU_t3_1 k).symm _ _
omit [FloatOps F] in
theorem EU_t3_2 (d : Dev nD) (L : grid0.Coords) (k : Fin k0_t3_loop.trips) (h) :
    ownU (F := F) d L 1 ⟨16 * k.val + 2, h⟩
      = ownAt (F := F) d L (urowS) (k0_off89 k) (inb_of (offU_t3_2 k) (by decide) (by have := k.isLt; have := k0_t3_abs.2.1; omega)) :=
  ownAt_congr d L (offU_t3_2 k).symm _ _
omit [FloatOps F] in
theorem EU_t3_3 (d : Dev nD) (L : grid0.Coords) (k : Fin k0_t3_loop.trips) (h) :
    ownU (F := F) d L 1 ⟨16 * k.val + 3, h⟩
      = ownAt (F := F) d L (urowS) (k0_off93 k) (inb_of (offU_t3_3 k) (by decide) (by have := k.isLt; have := k0_t3_abs.2.1; omega)) :=
  ownAt_congr d L (offU_t3_3 k).symm _ _
omit [FloatOps F] in
theorem EU_t3_4 (d : Dev nD) (L : grid0.Coords) (k : Fin k0_t3_loop.trips) (h) :
    ownU (F := F) d L 1 ⟨16 * k.val + 4, h⟩
      = ownAt (F := F) d L (urowS) (k0_off97 k) (inb_of (offU_t3_4 k) (by decide) (by have := k.isLt; have := k0_t3_abs.2.1; omega)) :=
  ownAt_congr d L (offU_t3_4 k).symm _ _
omit [FloatOps F] in
theorem EU_t3_5 (d : Dev nD) (L : grid0.Coords) (k : Fin k0_t3_loop.trips) (h) :
    ownU (F := F) d L 1 ⟨16 * k.val + 5, h⟩
      = ownAt (F := F) d L (urowS) (k0_off101 k) (inb_of (offU_t3_5 k) (by decide) (by have := k.isLt; have := k0_t3_abs.2.1; omega)) :=
  ownAt_congr d L (offU_t3_5 k).symm _ _
omit [FloatOps F] in
theorem EU_t3_6 (d : Dev nD) (L : grid0.Coords) (k : Fin k0_t3_loop.trips) (h) :
    ownU (F := F) d L 1 ⟨16 * k.val + 6, h⟩
      = ownAt (F := F) d L (urowS) (k0_off105 k) (inb_of (offU_t3_6 k) (by decide) (by have := k.isLt; have := k0_t3_abs.2.1; omega)) :=
  ownAt_congr d L (offU_t3_6 k).symm _ _
omit [FloatOps F] in
theorem EU_t3_7 (d : Dev nD) (L : grid0.Coords) (k : Fin k0_t3_loop.trips) (h) :
    ownU (F := F) d L 1 ⟨16 * k.val + 7, h⟩
      = ownAt (F := F) d L (urowS) (k0_off109 k) (inb_of (offU_t3_7 k) (by decide) (by have := k.isLt; have := k0_t3_abs.2.1; omega)) :=
  ownAt_congr d L (offU_t3_7 k).symm _ _
omit [FloatOps F] in
theorem EU_t3_8 (d : Dev nD) (L : grid0.Coords) (k : Fin k0_t3_loop.trips) (h) :
    ownU (F := F) d L 1 ⟨16 * k.val + 8, h⟩
      = ownAt (F := F) d L (urowS) (k0_off113 k) (inb_of (offU_t3_8 k) (by decide) (by have := k.isLt; have := k0_t3_abs.2.1; omega)) :=
  ownAt_congr d L (offU_t3_8 k).symm _ _
omit [FloatOps F] in
theorem EU_t3_9 (d : Dev nD) (L : grid0.Coords) (k : Fin k0_t3_loop.trips) (h) :
    ownU (F := F) d L 1 ⟨16 * k.val + 9, h⟩
      = ownAt (F := F) d L (urowS) (k0_off117 k) (inb_of (offU_t3_9 k) (by decide) (by have := k.isLt; have := k0_t3_abs.2.1; omega)) :=
  ownAt_congr d L (offU_t3_9 k).symm _ _
omit [FloatOps F] in
theorem EU_t3_10 (d : Dev nD) (L : grid0.Coords) (k : Fin k0_t3_loop.trips) (h) :
    ownU (F := F) d L 1 ⟨16 * k.val + 10, h⟩
      = ownAt (F := F) d L (urowS) (k0_off121 k) (inb_of (offU_t3_10 k) (by decide) (by have := k.isLt; have := k0_t3_abs.2.1; omega)) :=
  ownAt_congr d L (offU_t3_10 k).symm _ _
omit [FloatOps F] in
theorem EU_t3_11 (d : Dev nD) (L : grid0.Coords) (k : Fin k0_t3_loop.trips) (h) :
    ownU (F := F) d L 1 ⟨16 * k.val + 11, h⟩
      = ownAt (F := F) d L (urowS) (k0_off125 k) (inb_of (offU_t3_11 k) (by decide) (by have := k.isLt; have := k0_t3_abs.2.1; omega)) :=
  ownAt_congr d L (offU_t3_11 k).symm _ _
omit [FloatOps F] in
theorem EU_t3_12 (d : Dev nD) (L : grid0.Coords) (k : Fin k0_t3_loop.trips) (h) :
    ownU (F := F) d L 1 ⟨16 * k.val + 12, h⟩
      = ownAt (F := F) d L (urowS) (k0_off129 k) (inb_of (offU_t3_12 k) (by decide) (by have := k.isLt; have := k0_t3_abs.2.1; omega)) :=
  ownAt_congr d L (offU_t3_12 k).symm _ _
omit [FloatOps F] in
theorem EU_t3_13 (d : Dev nD) (L : grid0.Coords) (k : Fin k0_t3_loop.trips) (h) :
    ownU (F := F) d L 1 ⟨16 * k.val + 13, h⟩
      = ownAt (F := F) d L (urowS) (k0_off133 k) (inb_of (offU_t3_13 k) (by decide) (by have := k.isLt; have := k0_t3_abs.2.1; omega)) :=
  ownAt_congr d L (offU_t3_13 k).symm _ _
omit [FloatOps F] in
theorem EU_t3_14 (d : Dev nD) (L : grid0.Coords) (k : Fin k0_t3_loop.trips) (h) :
    ownU (F := F) d L 1 ⟨16 * k.val + 14, h⟩
      = ownAt (F := F) d L (urowS) (k0_off137 k) (inb_of (offU_t3_14 k) (by decide) (by have := k.isLt; have := k0_t3_abs.2.1; omega)) :=
  ownAt_congr d L (offU_t3_14 k).symm _ _
omit [FloatOps F] in
theorem EU_t3_15 (d : Dev nD) (L : grid0.Coords) (k : Fin k0_t3_loop.trips) (h) :
    ownU (F := F) d L 1 ⟨16 * k.val + 15, h⟩
      = ownAt (F := F) d L (urowS) (k0_off141 k) (inb_of (offU_t3_15 k) (by decide) (by have := k.isLt; have := k0_t3_abs.2.1; omega)) :=
  ownAt_congr d L (offU_t3_15 k).symm _ _
omit [FloatOps F] in
theorem EI_t3_0 (d : Dev nD) (L : grid0.Coords) (k : Fin k0_t3_loop.trips) (h) :
    ownI (F := F) d L 1 ⟨16 * k.val, h⟩
      = ownAt (F := F) d L (irowS) (k0_off83 k 0#32) (inb_of (offI_t3_0 k) (by decide) (by have := k.isLt; have := k0_t3_abs.2.1; omega)) :=
  ownAt_congr d L (offI_t3_0 k).symm _ _
omit [FloatOps F] in
theorem EI_t3_1 (d : Dev nD) (L : grid0.Coords) (k : Fin k0_t3_loop.trips) (h) :
    ownI (F := F) d L 1 ⟨16 * k.val + 1, h⟩
      = ownAt (F := F) d L (irowS) (k0_off87 k 1#32) (inb_of (offI_t3_1 k) (by decide) (by have := k.isLt; have := k0_t3_abs.2.1; omega)) :=
  ownAt_congr d L (offI_t3_1 k).symm _ _
omit [FloatOps F] in
theorem EI_t3_2 (d : Dev nD) (L : grid0.Coords) (k : Fin k0_t3_loop.trips) (h) :
    ownI (F := F) d L 1 ⟨16 * k.val + 2, h⟩
      = ownAt (F := F) d L (irowS) (k0_off91 k 2#32) (inb_of (offI_t3_2 k) (by decide) (by have := k.isLt; have := k0_t3_abs.2.1; omega)) :=
  ownAt_congr d L (offI_t3_2 k).symm _ _
omit [FloatOps F] in
theorem EI_t3_3 (d : Dev nD) (L : grid0.Coords) (k : Fin k0_t3_loop.trips) (h) :
    ownI (F := F) d L 1 ⟨16 * k.val + 3, h⟩
      = ownAt (F := F) d L (irowS) (k0_off95 k 3#32) (inb_of (offI_t3_3 k) (by decide) (by have := k.isLt; have := k0_t3_abs.2.1; omega)) :=
  ownAt_congr d L (offI_t3_3 k).symm _ _
omit [FloatOps F] in
theorem EI_t3_4 (d : Dev nD) (L : grid0.Coords) (k : Fin k0_t3_loop.trips) (h) :
    ownI (F := F) d L 1 ⟨16 * k.val + 4, h⟩
      = ownAt (F := F) d L (irowS) (k0_off99 k 4#32) (inb_of (offI_t3_4 k) (by decide) (by have := k.isLt; have := k0_t3_abs.2.1; omega)) :=
  ownAt_congr d L (offI_t3_4 k).symm _ _
omit [FloatOps F] in
theorem EI_t3_5 (d : Dev nD) (L : grid0.Coords) (k : Fin k0_t3_loop.trips) (h) :
    ownI (F := F) d L 1 ⟨16 * k.val + 5, h⟩
      = ownAt (F := F) d L (irowS) (k0_off103 k 5#32) (inb_of (offI_t3_5 k) (by decide) (by have := k.isLt; have := k0_t3_abs.2.1; omega)) :=
  ownAt_congr d L (offI_t3_5 k).symm _ _
omit [FloatOps F] in
theorem EI_t3_6 (d : Dev nD) (L : grid0.Coords) (k : Fin k0_t3_loop.trips) (h) :
    ownI (F := F) d L 1 ⟨16 * k.val + 6, h⟩
      = ownAt (F := F) d L (irowS) (k0_off107 k 6#32) (inb_of (offI_t3_6 k) (by decide) (by have := k.isLt; have := k0_t3_abs.2.1; omega)) :=
  ownAt_congr d L (offI_t3_6 k).symm _ _
omit [FloatOps F] in
theorem EI_t3_7 (d : Dev nD) (L : grid0.Coords) (k : Fin k0_t3_loop.trips) (h) :
    ownI (F := F) d L 1 ⟨16 * k.val + 7, h⟩
      = ownAt (F := F) d L (irowS) (k0_off111 k 7#32) (inb_of (offI_t3_7 k) (by decide) (by have := k.isLt; have := k0_t3_abs.2.1; omega)) :=
  ownAt_congr d L (offI_t3_7 k).symm _ _
omit [FloatOps F] in
theorem EI_t3_8 (d : Dev nD) (L : grid0.Coords) (k : Fin k0_t3_loop.trips) (h) :
    ownI (F := F) d L 1 ⟨16 * k.val + 8, h⟩
      = ownAt (F := F) d L (irowS) (k0_off115 k 8#32) (inb_of (offI_t3_8 k) (by decide) (by have := k.isLt; have := k0_t3_abs.2.1; omega)) :=
  ownAt_congr d L (offI_t3_8 k).symm _ _
omit [FloatOps F] in
theorem EI_t3_9 (d : Dev nD) (L : grid0.Coords) (k : Fin k0_t3_loop.trips) (h) :
    ownI (F := F) d L 1 ⟨16 * k.val + 9, h⟩
      = ownAt (F := F) d L (irowS) (k0_off119 k 9#32) (inb_of (offI_t3_9 k) (by decide) (by have := k.isLt; have := k0_t3_abs.2.1; omega)) :=
  ownAt_congr d L (offI_t3_9 k).symm _ _
omit [FloatOps F] in
theorem EI_t3_10 (d : Dev nD) (L : grid0.Coords) (k : Fin k0_t3_loop.trips) (h) :
    ownI (F := F) d L 1 ⟨16 * k.val + 10, h⟩
      = ownAt (F := F) d L (irowS) (k0_off123 k 10#32) (inb_of (offI_t3_10 k) (by decide) (by have := k.isLt; have := k0_t3_abs.2.1; omega)) :=
  ownAt_congr d L (offI_t3_10 k).symm _ _
omit [FloatOps F] in
theorem EI_t3_11 (d : Dev nD) (L : grid0.Coords) (k : Fin k0_t3_loop.trips) (h) :
    ownI (F := F) d L 1 ⟨16 * k.val + 11, h⟩
      = ownAt (F := F) d L (irowS) (k0_off127 k 11#32) (inb_of (offI_t3_11 k) (by decide) (by have := k.isLt; have := k0_t3_abs.2.1; omega)) :=
  ownAt_congr d L (offI_t3_11 k).symm _ _
omit [FloatOps F] in
theorem EI_t3_12 (d : Dev nD) (L : grid0.Coords) (k : Fin k0_t3_loop.trips) (h) :
    ownI (F := F) d L 1 ⟨16 * k.val + 12, h⟩
      = ownAt (F := F) d L (irowS) (k0_off131 k 12#32) (inb_of (offI_t3_12 k) (by decide) (by have := k.isLt; have := k0_t3_abs.2.1; omega)) :=
  ownAt_congr d L (offI_t3_12 k).symm _ _
omit [FloatOps F] in
theorem EI_t3_13 (d : Dev nD) (L : grid0.Coords) (k : Fin k0_t3_loop.trips) (h) :
    ownI (F := F) d L 1 ⟨16 * k.val + 13, h⟩
      = ownAt (F := F) d L (irowS) (k0_off135 k 13#32) (inb_of (offI_t3_13 k) (by decide) (by have := k.isLt; have := k0_t3_abs.2.1; omega)) :=
  ownAt_congr d L (offI_t3_13 k).symm _ _
omit [FloatOps F] in
theorem EI_t3_14 (d : Dev nD) (L : grid0.Coords) (k : Fin k0_t3_loop.trips) (h) :
    ownI (F := F) d L 1 ⟨16 * k.val + 14, h⟩
      = ownAt (F := F) d L (irowS) (k0_off139 k 14#32) (inb_of (offI_t3_14 k) (by decide) (by have := k.isLt; have := k0_t3_abs.2.1; omega)) :=
  ownAt_congr d L (offI_t3_14 k).symm _ _
omit [FloatOps F] in
theorem EI_t3_15 (d : Dev nD) (L : grid0.Coords) (k : Fin k0_t3_loop.trips) (h) :
    ownI (F := F) d L 1 ⟨16 * k.val + 15, h⟩
      = ownAt (F := F) d L (irowS) (k0_off143 k) (inb_of (offI_t3_15 k) (by decide) (by have := k.isLt; have := k0_t3_abs.2.1; omega)) :=
  ownAt_congr d L (offI_t3_15 k).symm _ _

section Issue

variable (d : Dev nD) (L : grid0.Coords)

/-- Before trip `k`: `16 k` copies of each table issued, nothing consumed; the rows and read tokens from there on in hand;
    the two index scratches as filled. -/
def issueAt_t3 (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchU d L 1 (SemLoc.dma cc0_scratch8.sem) (16 * k) 0 ∗ batchI d L 1 (SemLoc.dma cc0_scratch10.sem) (16 * k) 0
    ∗ bigSep (Ring.rangeSet 128 (16 * k) 128) (ownU d L 1) ∗ bigSep (Ring.rangeSet 128 (16 * k) 128) (ownI d L 1)
    ∗ bigSep (Ring.rangeSet 512 (128 + 16 * k) 256) (fun t => tokU d L q fue t.val) ∗ bigSep (Ring.rangeSet 512 (128 + 16 * k) 256) (fun t => tokI d L q fie t.val)
    ∗ idxU d L fu f0 ∗ idxI d L fi f1)

set_option maxHeartbeats 4000000 in
theorem issue_step_t3 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32)
    (k : Fin k0_t3_loop.trips) (acc : Unit) :
    issueAt_t3 d L q fu fi f0 f1 fue fie k acc
      ⊢ wp frame (wpE (defs₀ (F := F)) 𝒱₀ (thr d L) none) Set.univ
          (k0_t3_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k acc)
          (issueAt_t3 d L q fu fi f0 f1 fue fie (k.val + 1)) := by
  have hk := k.isLt; have h8 := k0_t3_abs.2.1
  unfold issueAt_t3
  rw [Ring.bigSep_rangeSet_head (Φ := ownU d L 1) (lo := 16 * k.val) (by omega) (by omega),
    Ring.bigSep_rangeSet_head (Φ := ownU d L 1) (lo := 16 * k.val + 1) (by omega) (by omega),
    Ring.bigSep_rangeSet_head (Φ := ownU d L 1) (lo := 16 * k.val + 2) (by omega) (by omega),
    Ring.bigSep_rangeSet_head (Φ := ownU d L 1) (lo := 16 * k.val + 3) (by omega) (by omega),
    Ring.bigSep_rangeSet_head (Φ := ownU d L 1) (lo := 16 * k.val + 4) (by omega) (by omega),
    Ring.bigSep_rangeSet_head (Φ := ownU d L 1) (lo := 16 * k.val + 5) (by omega) (by omega),
    Ring.bigSep_rangeSet_head (Φ := ownU d L 1) (lo := 16 * k.val + 6) (by omega) (by omega),
    Ring.bigSep_rangeSet_head (Φ := ownU d L 1) (lo := 16 * k.val + 7) (by omega) (by omega),
    Ring.bigSep_rangeSet_head (Φ := ownU d L 1) (lo := 16 * k.val + 8) (by omega) (by omega),
    Ring.bigSep_rangeSet_head (Φ := ownU d L 1) (lo := 16 * k.val + 9) (by omega) (by omega),
    Ring.bigSep_rangeSet_head (Φ := ownU d L 1) (lo := 16 * k.val + 10) (by omega) (by omega),
    Ring.bigSep_rangeSet_head (Φ := ownU d L 1) (lo := 16 * k.val + 11) (by omega) (by omega),
    Ring.bigSep_rangeSet_head (Φ := ownU d L 1) (lo := 16 * k.val + 12) (by omega) (by omega),
    Ring.bigSep_rangeSet_head (Φ := ownU d L 1) (lo := 16 * k.val + 13) (by omega) (by omega),
    Ring.bigSep_rangeSet_head (Φ := ownU d L 1) (lo := 16 * k.val + 14) (by omega) (by omega),
    Ring.bigSep_rangeSet_head (Φ := ownU d L 1) (lo := 16 * k.val + 15) (by omega) (by omega),
    Ring.bigSep_rangeSet_head (Φ := ownI d L 1) (lo := 16 * k.val) (by omega) (by omega),
    Ring.bigSep_rangeSet_head (Φ := ownI d L 1) (lo := 16 * k.val + 1) (by omega) (by omega),
    Ring.bigSep_rangeSet_head (Φ := ownI d L 1) (lo := 16 * k.val + 2) (by omega) (by omega),
    Ring.bigSep_rangeSet_head (Φ := ownI d L 1) (lo := 16 * k.val + 3) (by omega) (by omega),
    Ring.bigSep_rangeSet_head (Φ := ownI d L 1) (lo := 16 * k.val + 4) (by omega) (by omega),
    Ring.bigSep_rangeSet_head (Φ := ownI d L 1) (lo := 16 * k.val + 5) (by omega) (by omega),
    Ring.bigSep_rangeSet_head (Φ := ownI d L 1) (lo := 16 * k.val + 6) (by omega) (by omega),
    Ring.bigSep_rangeSet_head (Φ := ownI d L 1) (lo := 16 * k.val + 7) (by omega) (by omega),
    Ring.bigSep_rangeSet_head (Φ := ownI d L 1) (lo := 16 * k.val + 8) (by omega) (by omega),
    Ring.bigSep_rangeSet_head (Φ := ownI d L 1) (lo := 16 * k.val + 9) (by omega) (by omega),
    Ring.bigSep_rangeSet_head (Φ := ownI d L 1) (lo := 16 * k.val + 10) (by omega) (by omega),
    Ring.bigSep_rangeSet_head (Φ := ownI d L 1) (lo := 16 * k.val + 11) (by omega) (by omega),
    Ring.bigSep_rangeSet_head (Φ := ownI d L 1) (lo := 16 * k.val + 12) (by omega) (by omega),
    Ring.bigSep_rangeSet_head (Φ := ownI d L 1) (lo := 16 * k.val + 13) (by omega) (by omega),
    Ring.bigSep_rangeSet_head (Φ := ownI d L 1) (lo := 16 * k.val + 14) (by omega) (by omega),
    Ring.bigSep_rangeSet_head (Φ := ownI d L 1) (lo := 16 * k.val + 15) (by omega) (by omega),
    Ring.bigSep_rangeSet_head (Φ := fun t => tokU d L q fue t.val) (lo := 128 + 16 * k.val) (by omega) (by omega),
    Ring.bigSep_rangeSet_head (Φ := fun t => tokU d L q fue t.val) (lo := 128 + 16 * k.val + 1) (by omega) (by omega),
    Ring.bigSep_rangeSet_head (Φ := fun t => tokU d L q fue t.val) (lo := 128 + 16 * k.val + 2) (by omega) (by omega),
    Ring.bigSep_rangeSet_head (Φ := fun t => tokU d L q fue t.val) (lo := 128 + 16 * k.val + 3) (by omega) (by omega),
    Ring.bigSep_rangeSet_head (Φ := fun t => tokU d L q fue t.val) (lo := 128 + 16 * k.val + 4) (by omega) (by omega),
    Ring.bigSep_rangeSet_head (Φ := fun t => tokU d L q fue t.val) (lo := 128 + 16 * k.val + 5) (by omega) (by omega),
    Ring.bigSep_rangeSet_head (Φ := fun t => tokU d L q fue t.val) (lo := 128 + 16 * k.val + 6) (by omega) (by omega),
    Ring.bigSep_rangeSet_head (Φ := fun t => tokU d L q fue t.val) (lo := 128 + 16 * k.val + 7) (by omega) (by omega),
    Ring.bigSep_rangeSet_head (Φ := fun t => tokU d L q fue t.val) (lo := 128 + 16 * k.val + 8) (by omega) (by omega),
    Ring.bigSep_rangeSet_head (Φ := fun t => tokU d L q fue t.val) (lo := 128 + 16 * k.val + 9) (by omega) (by omega),
    Ring.bigSep_rangeSet_head (Φ := fun t => tokU d L q fue t.val) (lo := 128 + 16 * k.val + 10) (by omega) (by omega),
    Ring.bigSep_rangeSet_head (Φ := fun t => tokU d L q fue t.val) (lo := 128 + 16 * k.val + 11) (by omega) (by omega),
    Ring.bigSep_rangeSet_head (Φ := fun t => tokU d L q fue t.val) (lo := 128 + 16 * k.val + 12) (by omega) (by omega),
    Ring.bigSep_rangeSet_head (Φ := fun t => tokU d L q fue t.val) (lo := 128 + 16 * k.val + 13) (by omega) (by omega),
    Ring.bigSep_rangeSet_head (Φ := fun t => tokU d L q fue t.val) (lo := 128 + 16 * k.val + 14) (by omega) (by omega),
    Ring.bigSep_rangeSet_head (Φ := fun t => tokU d L q fue t.val) (lo := 128 + 16 * k.val + 15) (by omega) (by omega),
    Ring.bigSep_rangeSet_head (Φ := fun t => tokI d L q fie t.val) (lo := 128 + 16 * k.val) (by omega) (by omega),
    Ring.bigSep_rangeSet_head (Φ := fun t => tokI d L q fie t.val) (lo := 128 + 16 * k.val + 1) (by omega) (by omega),
    Ring.bigSep_rangeSet_head (Φ := fun t => tokI d L q fie t.val) (lo := 128 + 16 * k.val + 2) (by omega) (by omega),
    Ring.bigSep_rangeSet_head (Φ := fun t => tokI d L q fie t.val) (lo := 128 + 16 * k.val + 3) (by omega) (by omega),
    Ring.bigSep_rangeSet_head (Φ := fun t => tokI d L q fie t.val) (lo := 128 + 16 * k.val + 4) (by omega) (by omega),
    Ring.bigSep_rangeSet_head (Φ := fun t => tokI d L q fie t.val) (lo := 128 + 16 * k.val + 5) (by omega) (by omega),
    Ring.bigSep_rangeSet_head (Φ := fun t => tokI d L q fie t.val) (lo := 128 + 16 * k.val + 6) (by omega) (by omega),
    Ring.bigSep_rangeSet_head (Φ := fun t => tokI d L q fie t.val) (lo := 128 + 16 * k.val + 7) (by omega) (by omega),
    Ring.bigSep_rangeSet_head (Φ := fun t => tokI d L q fie t.val) (lo := 128 + 16 * k.val + 8) (by omega) (by omega),
    Ring.bigSep_rangeSet_head (Φ := fun t => tokI d L q fie t.val) (lo := 128 + 16 * k.val + 9) (by omega) (by omega),
    Ring.bigSep_rangeSet_head (Φ := fun t => tokI d L q fie t.val) (lo := 128 + 16 * k.val + 10) (by omega) (by omega),
    Ring.bigSep_rangeSet_head (Φ := fun t => tokI d L q fie t.val) (lo := 128 + 16 * k.val + 11) (by omega) (by omega),
    Ring.bigSep_rangeSet_head (Φ := fun t => tokI d L q fie t.val) (lo := 128 + 16 * k.val + 12) (by omega) (by omega),
    Ring.bigSep_rangeSet_head (Φ := fun t => tokI d L q fie t.val) (lo := 128 + 16 * k.val + 13) (by omega) (by omega),
    Ring.bigSep_rangeSet_head (Φ := fun t => tokI d L q fie t.val) (lo := 128 + 16 * k.val + 14) (by omega) (by omega),
    Ring.bigSep_rangeSet_head (Φ := fun t => tokI d L q fie t.val) (lo := 128 + 16 * k.val + 15) (by omega) (by omega),
    show 128 + 16 * k.val + 15 + 1 = 128 + 16 * (k.val + 1) by omega,
    show 16 * k.val + 15 + 1 = 16 * (k.val + 1) by omega]
  rw [EU_t3_0 d L k, EU_t3_1 d L k, EU_t3_2 d L k, EU_t3_3 d L k, EU_t3_4 d L k, EU_t3_5 d L k, EU_t3_6 d L k, EU_t3_7 d L k, EU_t3_8 d L k, EU_t3_9 d L k, EU_t3_10 d L k, EU_t3_11 d L k, EU_t3_12 d L k, EU_t3_13 d L k, EU_t3_14 d L k, EU_t3_15 d L k, EI_t3_0 d L k, EI_t3_1 d L k, EI_t3_2 d L k, EI_t3_3 d L k, EI_t3_4 d L k, EI_t3_5 d L k, EI_t3_6 d L k, EI_t3_7 d L k, EI_t3_8 d L k, EI_t3_9 d L k, EI_t3_10 d L k, EI_t3_11 d L k, EI_t3_12 d L k, EI_t3_13 d L k, EI_t3_14 d L k, EI_t3_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t3_body
  sl_exec (disch := first
      | exact sep_elim_left.trans (deliver d L _ _ _ (by simp only [offU_t3_0, offU_t3_1, offU_t3_2, offU_t3_3, offU_t3_4, offU_t3_5, offU_t3_6, offU_t3_7, offU_t3_8, offU_t3_9, offU_t3_10, offU_t3_11, offU_t3_12, offU_t3_13, offU_t3_14, offU_t3_15, offI_t3_0, offI_t3_1, offI_t3_2, offI_t3_3, offI_t3_4, offI_t3_5, offI_t3_6, offI_t3_7, offI_t3_8, offI_t3_9, offI_t3_10, offI_t3_11, offI_t3_12, offI_t3_13, offI_t3_14, offI_t3_15]; rfl))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t3 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) :
    LoopInv (M := 𝕄) frame (wpE (defs₀ (F := F)) 𝒱₀ (thr d L) none) Set.univ k0_t3_loop.lb k0_t3_loop.ub k0_t3_loop.st k0_t3_ok ()
      (k0_t3_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285) where
  inv := issueAt_t3 d L q fu fi f0 f1 fue fie
  step := issue_step_t3 d L q fu fi hfu hfi f0 f1 fue fie v3 v7 v11 v15 v19 v23 v24 c1285

end Issue

end Cert.Proof.KI

end
-- ==== Proof.KIssueT11.lean ====
/-
  One trip of an issue loop at a symbolic trip `k`: the sixteen row copies from each table of that trip are the
  copies number `16 k … 16 k + 15` of the two batches on the half's two semaphores. Each copy's row index is a lane of
  the index scratch, hence a word of the index array, hence (by the precondition) a row of its table; its destination
  is row `16 k + j` of the half, which the batch promised to deliver; it consumes one read token of its table.
-/
import proofs.«214512_g89103391522852_cont_sun_m_1157_25_alg».proof.Proof.KRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-! The destination offsets the program computes, in closed form. -/
theorem offU_t11_0 : ∀ k : Fin k0_t11_loop.trips, k0_off175 k = ![0, 16 * k.val, 0] := by decide +kernel
theorem offU_t11_1 : ∀ k : Fin k0_t11_loop.trips, k0_off179 k = ![0, 16 * k.val + 1, 0] := by decide +kernel
theorem offU_t11_2 : ∀ k : Fin k0_t11_loop.trips, k0_off183 k = ![0, 16 * k.val + 2, 0] := by decide +kernel
theorem offU_t11_3 : ∀ k : Fin k0_t11_loop.trips, k0_off187 k = ![0, 16 * k.val + 3, 0] := by decide +kernel
theorem offU_t11_4 : ∀ k : Fin k0_t11_loop.trips, k0_off191 k = ![0, 16 * k.val + 4, 0] := by decide +kernel
theorem offU_t11_5 : ∀ k : Fin k0_t11_loop.trips, k0_off195 k = ![0, 16 * k.val + 5, 0] := by decide +kernel
theorem offU_t11_6 : ∀ k : Fin k0_t11_loop.trips, k0_off199 k = ![0, 16 * k.val + 6, 0] := by decide +kernel
theorem offU_t11_7 : ∀ k : Fin k0_t11_loop.trips, k0_off203 k = ![0, 16 * k.val + 7, 0] := by decide +kernel
theorem offU_t11_8 : ∀ k : Fin k0_t11_loop.trips, k0_off207 k = ![0, 16 * k.val + 8, 0] := by decide +kernel
theorem offU_t11_9 : ∀ k : Fin k0_t11_loop.trips, k0_off211 k = ![0, 16 * k.val + 9, 0] := by decide +kernel
theorem offU_t11_10 : ∀ k : Fin k0_t11_loop.trips, k0_off215 k = ![0, 16 * k.val + 10, 0] := by decide +kernel
theorem offU_t11_11 : ∀ k : Fin k0_t11_loop.trips, k0_off219 k = ![0, 16 * k.val + 11, 0] := by decide +kernel
theorem offU_t11_12 : ∀ k : Fin k0_t11_loop.trips, k0_off223 k = ![0, 16 * k.val + 12, 0] := by decide +kernel
theorem offU_t11_13 : ∀ k : Fin k0_t11_loop.trips, k0_off227 k = ![0, 16 * k.val + 13, 0] := by decide +kernel
theorem offU_t11_14 : ∀ k : Fin k0_t11_loop.trips, k0_off231 k = ![0, 16 * k.val + 14, 0] := by decide +kernel
theorem offU_t11_15 : ∀ k : Fin k0_t11_loop.trips, k0_off235 k = ![0, 16 * k.val + 15, 0] := by decide +kernel
theorem offI_t11_0 : ∀ k : Fin k0_t11_loop.trips, k0_off177 k 0#32 = ![0, 16 * k.val, 0] := by decide +kernel
theorem offI_t11_1 : ∀ k : Fin k0_t11_loop.trips, k0_off181 k 1#32 = ![0, 16 * k.val + 1, 0] := by decide +kernel
theorem offI_t11_2 : ∀ k : Fin k0_t11_loop.trips, k0_off185 k 2#32 = ![0, 16 * k.val + 2, 0] := by decide +kernel
theorem offI_t11_3 : ∀ k : Fin k0_t11_loop.trips, k0_off189 k 3#32 = ![0, 16 * k.val + 3, 0] := by decide +kernel
theorem offI_t11_4 : ∀ k : Fin k0_t11_loop.trips, k0_off193 k 4#32 = ![0, 16 * k.val + 4, 0] := by decide +kernel
theorem offI_t11_5 : ∀ k : Fin k0_t11_loop.trips, k0_off197 k 5#32 = ![0, 16 * k.val + 5, 0] := by decide +kernel
theorem offI_t11_6 : ∀ k : Fin k0_t11_loop.trips, k0_off201 k 6#32 = ![0, 16 * k.val + 6, 0] := by decide +kernel
theorem offI_t11_7 : ∀ k : Fin k0_t11_loop.trips, k0_off205 k 7#32 = ![0, 16 * k.val + 7, 0] := by decide +kernel
theorem offI_t11_8 : ∀ k : Fin k0_t11_loop.trips, k0_off209 k 8#32 = ![0, 16 * k.val + 8, 0] := by decide +kernel
theorem offI_t11_9 : ∀ k : Fin k0_t11_loop.trips, k0_off213 k 9#32 = ![0, 16 * k.val + 9, 0] := by decide +kernel
theorem offI_t11_10 : ∀ k : Fin k0_t11_loop.trips, k0_off217 k 10#32 = ![0, 16 * k.val + 10, 0] := by decide +kernel
theorem offI_t11_11 : ∀ k : Fin k0_t11_loop.trips, k0_off221 k 11#32 = ![0, 16 * k.val + 11, 0] := by decide +kernel
theorem offI_t11_12 : ∀ k : Fin k0_t11_loop.trips, k0_off225 k 12#32 = ![0, 16 * k.val + 12, 0] := by decide +kernel
theorem offI_t11_13 : ∀ k : Fin k0_t11_loop.trips, k0_off229 k 13#32 = ![0, 16 * k.val + 13, 0] := by decide +kernel
theorem offI_t11_14 : ∀ k : Fin k0_t11_loop.trips, k0_off233 k 14#32 = ![0, 16 * k.val + 14, 0] := by decide +kernel
theorem offI_t11_15 : ∀ k : Fin k0_t11_loop.trips, k0_off237 k = ![0, 16 * k.val + 15, 0] := by decide +kernel

/-! The rows by number are the rows as the program slices them. -/
omit [FloatOps F] in
theorem EU_t11_0 (d : Dev nD) (L : grid0.Coords) (k : Fin k0_t11_loop.trips) (h) :
    ownU (F := F) d L 0 ⟨16 * k.val, h⟩
      = ownAt (F := F) d L (urowS) (k0_off175 k) (inb_of (offU_t11_0 k) (by decide) (by have := k.isLt; have := k0_t11_abs.2.1; omega)) :=
  ownAt_congr d L (offU_t11_0 k).symm _ _
omit [FloatOps F] in
theorem EU_t11_1 (d : Dev nD) (L : grid0.Coords) (k : Fin k0_t11_loop.trips) (h) :
    ownU (F := F) d L 0 ⟨16 * k.val + 1, h⟩
      = ownAt (F := F) d L (urowS) (k0_off179 k) (inb_of (offU_t11_1 k) (by decide) (by have := k.isLt; have := k0_t11_abs.2.1; omega)) :=
  ownAt_congr d L (offU_t11_1 k).symm _ _
omit [FloatOps F] in
theorem EU_t11_2 (d : Dev nD) (L : grid0.Coords) (k : Fin k0_t11_loop.trips) (h) :
    ownU (F := F) d L 0 ⟨16 * k.val + 2, h⟩
      = ownAt (F := F) d L (urowS) (k0_off183 k) (inb_of (offU_t11_2 k) (by decide) (by have := k.isLt; have := k0_t11_abs.2.1; omega)) :=
  ownAt_congr d L (offU_t11_2 k).symm _ _
omit [FloatOps F] in
theorem EU_t11_3 (d : Dev nD) (L : grid0.Coords) (k : Fin k0_t11_loop.trips) (h) :
    ownU (F := F) d L 0 ⟨16 * k.val + 3, h⟩
      = ownAt (F := F) d L (urowS) (k0_off187 k) (inb_of (offU_t11_3 k) (by decide) (by have := k.isLt; have := k0_t11_abs.2.1; omega)) :=
  ownAt_congr d L (offU_t11_3 k).symm _ _
omit [FloatOps F] in
theorem EU_t11_4 (d : Dev nD) (L : grid0.Coords) (k : Fin k0_t11_loop.trips) (h) :
    ownU (F := F) d L 0 ⟨16 * k.val + 4, h⟩
      = ownAt (F := F) d L (urowS) (k0_off191 k) (inb_of (offU_t11_4 k) (by decide) (by have := k.isLt; have := k0_t11_abs.2.1; omega)) :=
  ownAt_congr d L (offU_t11_4 k).symm _ _
omit [FloatOps F] in
theorem EU_t11_5 (d : Dev nD) (L : grid0.Coords) (k : Fin k0_t11_loop.trips) (h) :
    ownU (F := F) d L 0 ⟨16 * k.val + 5, h⟩
      = ownAt (F := F) d L (urowS) (k0_off195 k) (inb_of (offU_t11_5 k) (by decide) (by have := k.isLt; have := k0_t11_abs.2.1; omega)) :=
  ownAt_congr d L (offU_t11_5 k).symm _ _
omit [FloatOps F] in
theorem EU_t11_6 (d : Dev nD) (L : grid0.Coords) (k : Fin k0_t11_loop.trips) (h) :
    ownU (F := F) d L 0 ⟨16 * k.val + 6, h⟩
      = ownAt (F := F) d L (urowS) (k0_off199 k) (inb_of (offU_t11_6 k) (by decide) (by have := k.isLt; have := k0_t11_abs.2.1; omega)) :=
  ownAt_congr d L (offU_t11_6 k).symm _ _
omit [FloatOps F] in
theorem EU_t11_7 (d : Dev nD) (L : grid0.Coords) (k : Fin k0_t11_loop.trips) (h) :
    ownU (F := F) d L 0 ⟨16 * k.val + 7, h⟩
      = ownAt (F := F) d L (urowS) (k0_off203 k) (inb_of (offU_t11_7 k) (by decide) (by have := k.isLt; have := k0_t11_abs.2.1; omega)) :=
  ownAt_congr d L (offU_t11_7 k).symm _ _
omit [FloatOps F] in
theorem EU_t11_8 (d : Dev nD) (L : grid0.Coords) (k : Fin k0_t11_loop.trips) (h) :
    ownU (F := F) d L 0 ⟨16 * k.val + 8, h⟩
      = ownAt (F := F) d L (urowS) (k0_off207 k) (inb_of (offU_t11_8 k) (by decide) (by have := k.isLt; have := k0_t11_abs.2.1; omega)) :=
  ownAt_congr d L (offU_t11_8 k).symm _ _
omit [FloatOps F] in
theorem EU_t11_9 (d : Dev nD) (L : grid0.Coords) (k : Fin k0_t11_loop.trips) (h) :
    ownU (F := F) d L 0 ⟨16 * k.val + 9, h⟩
      = ownAt (F := F) d L (urowS) (k0_off211 k) (inb_of (offU_t11_9 k) (by decide) (by have := k.isLt; have := k0_t11_abs.2.1; omega)) :=
  ownAt_congr d L (offU_t11_9 k).symm _ _
omit [FloatOps F] in
theorem EU_t11_10 (d : Dev nD) (L : grid0.Coords) (k : Fin k0_t11_loop.trips) (h) :
    ownU (F := F) d L 0 ⟨16 * k.val + 10, h⟩
      = ownAt (F := F) d L (urowS) (k0_off215 k) (inb_of (offU_t11_10 k) (by decide) (by have := k.isLt; have := k0_t11_abs.2.1; omega)) :=
  ownAt_congr d L (offU_t11_10 k).symm _ _
omit [FloatOps F] in
theorem EU_t11_11 (d : Dev nD) (L : grid0.Coords) (k : Fin k0_t11_loop.trips) (h) :
    ownU (F := F) d L 0 ⟨16 * k.val + 11, h⟩
      = ownAt (F := F) d L (urowS) (k0_off219 k) (inb_of (offU_t11_11 k) (by decide) (by have := k.isLt; have := k0_t11_abs.2.1; omega)) :=
  ownAt_congr d L (offU_t11_11 k).symm _ _
omit [FloatOps F] in
theorem EU_t11_12 (d : Dev nD) (L : grid0.Coords) (k : Fin k0_t11_loop.trips) (h) :
    ownU (F := F) d L 0 ⟨16 * k.val + 12, h⟩
      = ownAt (F := F) d L (urowS) (k0_off223 k) (inb_of (offU_t11_12 k) (by decide) (by have := k.isLt; have := k0_t11_abs.2.1; omega)) :=
  ownAt_congr d L (offU_t11_12 k).symm _ _
omit [FloatOps F] in
theorem EU_t11_13 (d : Dev nD) (L : grid0.Coords) (k : Fin k0_t11_loop.trips) (h) :
    ownU (F := F) d L 0 ⟨16 * k.val + 13, h⟩
      = ownAt (F := F) d L (urowS) (k0_off227 k) (inb_of (offU_t11_13 k) (by decide) (by have := k.isLt; have := k0_t11_abs.2.1; omega)) :=
  ownAt_congr d L (offU_t11_13 k).symm _ _
omit [FloatOps F] in
theorem EU_t11_14 (d : Dev nD) (L : grid0.Coords) (k : Fin k0_t11_loop.trips) (h) :
    ownU (F := F) d L 0 ⟨16 * k.val + 14, h⟩
      = ownAt (F := F) d L (urowS) (k0_off231 k) (inb_of (offU_t11_14 k) (by decide) (by have := k.isLt; have := k0_t11_abs.2.1; omega)) :=
  ownAt_congr d L (offU_t11_14 k).symm _ _
omit [FloatOps F] in
theorem EU_t11_15 (d : Dev nD) (L : grid0.Coords) (k : Fin k0_t11_loop.trips) (h) :
    ownU (F := F) d L 0 ⟨16 * k.val + 15, h⟩
      = ownAt (F := F) d L (urowS) (k0_off235 k) (inb_of (offU_t11_15 k) (by decide) (by have := k.isLt; have := k0_t11_abs.2.1; omega)) :=
  ownAt_congr d L (offU_t11_15 k).symm _ _
omit [FloatOps F] in
theorem EI_t11_0 (d : Dev nD) (L : grid0.Coords) (k : Fin k0_t11_loop.trips) (h) :
    ownI (F := F) d L 0 ⟨16 * k.val, h⟩
      = ownAt (F := F) d L (irowS) (k0_off177 k 0#32) (inb_of (offI_t11_0 k) (by decide) (by have := k.isLt; have := k0_t11_abs.2.1; omega)) :=
  ownAt_congr d L (offI_t11_0 k).symm _ _
omit [FloatOps F] in
theorem EI_t11_1 (d : Dev nD) (L : grid0.Coords) (k : Fin k0_t11_loop.trips) (h) :
    ownI (F := F) d L 0 ⟨16 * k.val + 1, h⟩
      = ownAt (F := F) d L (irowS) (k0_off181 k 1#32) (inb_of (offI_t11_1 k) (by decide) (by have := k.isLt; have := k0_t11_abs.2.1; omega)) :=
  ownAt_congr d L (offI_t11_1 k).symm _ _
omit [FloatOps F] in
theorem EI_t11_2 (d : Dev nD) (L : grid0.Coords) (k : Fin k0_t11_loop.trips) (h) :
    ownI (F := F) d L 0 ⟨16 * k.val + 2, h⟩
      = ownAt (F := F) d L (irowS) (k0_off185 k 2#32) (inb_of (offI_t11_2 k) (by decide) (by have := k.isLt; have := k0_t11_abs.2.1; omega)) :=
  ownAt_congr d L (offI_t11_2 k).symm _ _
omit [FloatOps F] in
theorem EI_t11_3 (d : Dev nD) (L : grid0.Coords) (k : Fin k0_t11_loop.trips) (h) :
    ownI (F := F) d L 0 ⟨16 * k.val + 3, h⟩
      = ownAt (F := F) d L (irowS) (k0_off189 k 3#32) (inb_of (offI_t11_3 k) (by decide) (by have := k.isLt; have := k0_t11_abs.2.1; omega)) :=
  ownAt_congr d L (offI_t11_3 k).symm _ _
omit [FloatOps F] in
theorem EI_t11_4 (d : Dev nD) (L : grid0.Coords) (k : Fin k0_t11_loop.trips) (h) :
    ownI (F := F) d L 0 ⟨16 * k.val + 4, h⟩
      = ownAt (F := F) d L (irowS) (k0_off193 k 4#32) (inb_of (offI_t11_4 k) (by decide) (by have := k.isLt; have := k0_t11_abs.2.1; omega)) :=
  ownAt_congr d L (offI_t11_4 k).symm _ _
omit [FloatOps F] in
theorem EI_t11_5 (d : Dev nD) (L : grid0.Coords) (k : Fin k0_t11_loop.trips) (h) :
    ownI (F := F) d L 0 ⟨16 * k.val + 5, h⟩
      = ownAt (F := F) d L (irowS) (k0_off197 k 5#32) (inb_of (offI_t11_5 k) (by decide) (by have := k.isLt; have := k0_t11_abs.2.1; omega)) :=
  ownAt_congr d L (offI_t11_5 k).symm _ _
omit [FloatOps F] in
theorem EI_t11_6 (d : Dev nD) (L : grid0.Coords) (k : Fin k0_t11_loop.trips) (h) :
    ownI (F := F) d L 0 ⟨16 * k.val + 6, h⟩
      = ownAt (F := F) d L (irowS) (k0_off201 k 6#32) (inb_of (offI_t11_6 k) (by decide) (by have := k.isLt; have := k0_t11_abs.2.1; omega)) :=
  ownAt_congr d L (offI_t11_6 k).symm _ _
omit [FloatOps F] in
theorem EI_t11_7 (d : Dev nD) (L : grid0.Coords) (k : Fin k0_t11_loop.trips) (h) :
    ownI (F := F) d L 0 ⟨16 * k.val + 7, h⟩
      = ownAt (F := F) d L (irowS) (k0_off205 k 7#32) (inb_of (offI_t11_7 k) (by decide) (by have := k.isLt; have := k0_t11_abs.2.1; omega)) :=
  ownAt_congr d L (offI_t11_7 k).symm _ _
omit [FloatOps F] in
theorem EI_t11_8 (d : Dev nD) (L : grid0.Coords) (k : Fin k0_t11_loop.trips) (h) :
    ownI (F := F) d L 0 ⟨16 * k.val + 8, h⟩
      = ownAt (F := F) d L (irowS) (k0_off209 k 8#32) (inb_of (offI_t11_8 k) (by decide) (by have := k.isLt; have := k0_t11_abs.2.1; omega)) :=
  ownAt_congr d L (offI_t11_8 k).symm _ _
omit [FloatOps F] in
theorem EI_t11_9 (d : Dev nD) (L : grid0.Coords) (k : Fin k0_t11_loop.trips) (h) :
    ownI (F := F) d L 0 ⟨16 * k.val + 9, h⟩
      = ownAt (F := F) d L (irowS) (k0_off213 k 9#32) (inb_of (offI_t11_9 k) (by decide) (by have := k.isLt; have := k0_t11_abs.2.1; omega)) :=
  ownAt_congr d L (offI_t11_9 k).symm _ _
omit [FloatOps F] in
theorem EI_t11_10 (d : Dev nD) (L : grid0.Coords) (k : Fin k0_t11_loop.trips) (h) :
    ownI (F := F) d L 0 ⟨16 * k.val + 10, h⟩
      = ownAt (F := F) d L (irowS) (k0_off217 k 10#32) (inb_of (offI_t11_10 k) (by decide) (by have := k.isLt; have := k0_t11_abs.2.1; omega)) :=
  ownAt_congr d L (offI_t11_10 k).symm _ _
omit [FloatOps F] in
theorem EI_t11_11 (d : Dev nD) (L : grid0.Coords) (k : Fin k0_t11_loop.trips) (h) :
    ownI (F := F) d L 0 ⟨16 * k.val + 11, h⟩
      = ownAt (F := F) d L (irowS) (k0_off221 k 11#32) (inb_of (offI_t11_11 k) (by decide) (by have := k.isLt; have := k0_t11_abs.2.1; omega)) :=
  ownAt_congr d L (offI_t11_11 k).symm _ _
omit [FloatOps F] in
theorem EI_t11_12 (d : Dev nD) (L : grid0.Coords) (k : Fin k0_t11_loop.trips) (h) :
    ownI (F := F) d L 0 ⟨16 * k.val + 12, h⟩
      = ownAt (F := F) d L (irowS) (k0_off225 k 12#32) (inb_of (offI_t11_12 k) (by decide) (by have := k.isLt; have := k0_t11_abs.2.1; omega)) :=
  ownAt_congr d L (offI_t11_12 k).symm _ _
omit [FloatOps F] in
theorem EI_t11_13 (d : Dev nD) (L : grid0.Coords) (k : Fin k0_t11_loop.trips) (h) :
    ownI (F := F) d L 0 ⟨16 * k.val + 13, h⟩
      = ownAt (F := F) d L (irowS) (k0_off229 k 13#32) (inb_of (offI_t11_13 k) (by decide) (by have := k.isLt; have := k0_t11_abs.2.1; omega)) :=
  ownAt_congr d L (offI_t11_13 k).symm _ _
omit [FloatOps F] in
theorem EI_t11_14 (d : Dev nD) (L : grid0.Coords) (k : Fin k0_t11_loop.trips) (h) :
    ownI (F := F) d L 0 ⟨16 * k.val + 14, h⟩
      = ownAt (F := F) d L (irowS) (k0_off233 k 14#32) (inb_of (offI_t11_14 k) (by decide) (by have := k.isLt; have := k0_t11_abs.2.1; omega)) :=
  ownAt_congr d L (offI_t11_14 k).symm _ _
omit [FloatOps F] in
theorem EI_t11_15 (d : Dev nD) (L : grid0.Coords) (k : Fin k0_t11_loop.trips) (h) :
    ownI (F := F) d L 0 ⟨16 * k.val + 15, h⟩
      = ownAt (F := F) d L (irowS) (k0_off237 k) (inb_of (offI_t11_15 k) (by decide) (by have := k.isLt; have := k0_t11_abs.2.1; omega)) :=
  ownAt_congr d L (offI_t11_15 k).symm _ _

section Issue

variable (d : Dev nD) (L : grid0.Coords)

/-- Before trip `k`: `16 k` copies of each table issued, nothing consumed; the rows and read tokens from there on in hand;
    the two index scratches as filled. -/
def issueAt_t11 (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchU d L 0 (SemLoc.dma cc0_scratch7.sem) (16 * k) 0 ∗ batchI d L 0 (SemLoc.dma cc0_scratch9.sem) (16 * k) 0
    ∗ bigSep (Ring.rangeSet 128 (16 * k) 128) (ownU d L 0) ∗ bigSep (Ring.rangeSet 128 (16 * k) 128) (ownI d L 0)
    ∗ bigSep (Ring.rangeSet 512 (256 + 16 * k) 384) (fun t => tokU d L q fue t.val) ∗ bigSep (Ring.rangeSet 512 (256 + 16 * k) 384) (fun t => tokI d L q fie t.val)
    ∗ idxU d L fu f0 ∗ idxI d L fi f1)

set_option maxHeartbeats 4000000 in
theorem issue_step_t11 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h3 : k0_cond3 k0_t4 = 1#1) (v114 : BitVec 32)
    (k : Fin k0_t11_loop.trips) (acc : Unit) :
    issueAt_t11 d L q fu fi f0 f1 fue fie k acc
      ⊢ wp frame (wpE (defs₀ (F := F)) 𝒱₀ (thr d L) none) Set.univ
          (k0_t11_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h3 v114 k acc)
          (issueAt_t11 d L q fu fi f0 f1 fue fie (k.val + 1)) := by
  have hk := k.isLt; have h8 := k0_t11_abs.2.1
  unfold issueAt_t11
  rw [Ring.bigSep_rangeSet_head (Φ := ownU d L 0) (lo := 16 * k.val) (by omega) (by omega),
    Ring.bigSep_rangeSet_head (Φ := ownU d L 0) (lo := 16 * k.val + 1) (by omega) (by omega),
    Ring.bigSep_rangeSet_head (Φ := ownU d L 0) (lo := 16 * k.val + 2) (by omega) (by omega),
    Ring.bigSep_rangeSet_head (Φ := ownU d L 0) (lo := 16 * k.val + 3) (by omega) (by omega),
    Ring.bigSep_rangeSet_head (Φ := ownU d L 0) (lo := 16 * k.val + 4) (by omega) (by omega),
    Ring.bigSep_rangeSet_head (Φ := ownU d L 0) (lo := 16 * k.val + 5) (by omega) (by omega),
    Ring.bigSep_rangeSet_head (Φ := ownU d L 0) (lo := 16 * k.val + 6) (by omega) (by omega),
    Ring.bigSep_rangeSet_head (Φ := ownU d L 0) (lo := 16 * k.val + 7) (by omega) (by omega),
    Ring.bigSep_rangeSet_head (Φ := ownU d L 0) (lo := 16 * k.val + 8) (by omega) (by omega),
    Ring.bigSep_rangeSet_head (Φ := ownU d L 0) (lo := 16 * k.val + 9) (by omega) (by omega),
    Ring.bigSep_rangeSet_head (Φ := ownU d L 0) (lo := 16 * k.val + 10) (by omega) (by omega),
    Ring.bigSep_rangeSet_head (Φ := ownU d L 0) (lo := 16 * k.val + 11) (by omega) (by omega),
    Ring.bigSep_rangeSet_head (Φ := ownU d L 0) (lo := 16 * k.val + 12) (by omega) (by omega),
    Ring.bigSep_rangeSet_head (Φ := ownU d L 0) (lo := 16 * k.val + 13) (by omega) (by omega),
    Ring.bigSep_rangeSet_head (Φ := ownU d L 0) (lo := 16 * k.val + 14) (by omega) (by omega),
    Ring.bigSep_rangeSet_head (Φ := ownU d L 0) (lo := 16 * k.val + 15) (by omega) (by omega),
    Ring.bigSep_rangeSet_head (Φ := ownI d L 0) (lo := 16 * k.val) (by omega) (by omega),
    Ring.bigSep_rangeSet_head (Φ := ownI d L 0) (lo := 16 * k.val + 1) (by omega) (by omega),
    Ring.bigSep_rangeSet_head (Φ := ownI d L 0) (lo := 16 * k.val + 2) (by omega) (by omega),
    Ring.bigSep_rangeSet_head (Φ := ownI d L 0) (lo := 16 * k.val + 3) (by omega) (by omega),
    Ring.bigSep_rangeSet_head (Φ := ownI d L 0) (lo := 16 * k.val + 4) (by omega) (by omega),
    Ring.bigSep_rangeSet_head (Φ := ownI d L 0) (lo := 16 * k.val + 5) (by omega) (by omega),
    Ring.bigSep_rangeSet_head (Φ := ownI d L 0) (lo := 16 * k.val + 6) (by omega) (by omega),
    Ring.bigSep_rangeSet_head (Φ := ownI d L 0) (lo := 16 * k.val + 7) (by omega) (by omega),
    Ring.bigSep_rangeSet_head (Φ := ownI d L 0) (lo := 16 * k.val + 8) (by omega) (by omega),
    Ring.bigSep_rangeSet_head (Φ := ownI d L 0) (lo := 16 * k.val + 9) (by omega) (by omega),
    Ring.bigSep_rangeSet_head (Φ := ownI d L 0) (lo := 16 * k.val + 10) (by omega) (by omega),
    Ring.bigSep_rangeSet_head (Φ := ownI d L 0) (lo := 16 * k.val + 11) (by omega) (by omega),
    Ring.bigSep_rangeSet_head (Φ := ownI d L 0) (lo := 16 * k.val + 12) (by omega) (by omega),
    Ring.bigSep_rangeSet_head (Φ := ownI d L 0) (lo := 16 * k.val + 13) (by omega) (by omega),
    Ring.bigSep_rangeSet_head (Φ := ownI d L 0) (lo := 16 * k.val + 14) (by omega) (by omega),
    Ring.bigSep_rangeSet_head (Φ := ownI d L 0) (lo := 16 * k.val + 15) (by omega) (by omega),
    Ring.bigSep_rangeSet_head (Φ := fun t => tokU d L q fue t.val) (lo := 256 + 16 * k.val) (by omega) (by omega),
    Ring.bigSep_rangeSet_head (Φ := fun t => tokU d L q fue t.val) (lo := 256 + 16 * k.val + 1) (by omega) (by omega),
    Ring.bigSep_rangeSet_head (Φ := fun t => tokU d L q fue t.val) (lo := 256 + 16 * k.val + 2) (by omega) (by omega),
    Ring.bigSep_rangeSet_head (Φ := fun t => tokU d L q fue t.val) (lo := 256 + 16 * k.val + 3) (by omega) (by omega),
    Ring.bigSep_rangeSet_head (Φ := fun t => tokU d L q fue t.val) (lo := 256 + 16 * k.val + 4) (by omega) (by omega),
    Ring.bigSep_rangeSet_head (Φ := fun t => tokU d L q fue t.val) (lo := 256 + 16 * k.val + 5) (by omega) (by omega),
    Ring.bigSep_rangeSet_head (Φ := fun t => tokU d L q fue t.val) (lo := 256 + 16 * k.val + 6) (by omega) (by omega),
    Ring.bigSep_rangeSet_head (Φ := fun t => tokU d L q fue t.val) (lo := 256 + 16 * k.val + 7) (by omega) (by omega),
    Ring.bigSep_rangeSet_head (Φ := fun t => tokU d L q fue t.val) (lo := 256 + 16 * k.val + 8) (by omega) (by omega),
    Ring.bigSep_rangeSet_head (Φ := fun t => tokU d L q fue t.val) (lo := 256 + 16 * k.val + 9) (by omega) (by omega),
    Ring.bigSep_rangeSet_head (Φ := fun t => tokU d L q fue t.val) (lo := 256 + 16 * k.val + 10) (by omega) (by omega),
    Ring.bigSep_rangeSet_head (Φ := fun t => tokU d L q fue t.val) (lo := 256 + 16 * k.val + 11) (by omega) (by omega),
    Ring.bigSep_rangeSet_head (Φ := fun t => tokU d L q fue t.val) (lo := 256 + 16 * k.val + 12) (by omega) (by omega),
    Ring.bigSep_rangeSet_head (Φ := fun t => tokU d L q fue t.val) (lo := 256 + 16 * k.val + 13) (by omega) (by omega),
    Ring.bigSep_rangeSet_head (Φ := fun t => tokU d L q fue t.val) (lo := 256 + 16 * k.val + 14) (by omega) (by omega),
    Ring.bigSep_rangeSet_head (Φ := fun t => tokU d L q fue t.val) (lo := 256 + 16 * k.val + 15) (by omega) (by omega),
    Ring.bigSep_rangeSet_head (Φ := fun t => tokI d L q fie t.val) (lo := 256 + 16 * k.val) (by omega) (by omega),
    Ring.bigSep_rangeSet_head (Φ := fun t => tokI d L q fie t.val) (lo := 256 + 16 * k.val + 1) (by omega) (by omega),
    Ring.bigSep_rangeSet_head (Φ := fun t => tokI d L q fie t.val) (lo := 256 + 16 * k.val + 2) (by omega) (by omega),
    Ring.bigSep_rangeSet_head (Φ := fun t => tokI d L q fie t.val) (lo := 256 + 16 * k.val + 3) (by omega) (by omega),
    Ring.bigSep_rangeSet_head (Φ := fun t => tokI d L q fie t.val) (lo := 256 + 16 * k.val + 4) (by omega) (by omega),
    Ring.bigSep_rangeSet_head (Φ := fun t => tokI d L q fie t.val) (lo := 256 + 16 * k.val + 5) (by omega) (by omega),
    Ring.bigSep_rangeSet_head (Φ := fun t => tokI d L q fie t.val) (lo := 256 + 16 * k.val + 6) (by omega) (by omega),
    Ring.bigSep_rangeSet_head (Φ := fun t => tokI d L q fie t.val) (lo := 256 + 16 * k.val + 7) (by omega) (by omega),
    Ring.bigSep_rangeSet_head (Φ := fun t => tokI d L q fie t.val) (lo := 256 + 16 * k.val + 8) (by omega) (by omega),
    Ring.bigSep_rangeSet_head (Φ := fun t => tokI d L q fie t.val) (lo := 256 + 16 * k.val + 9) (by omega) (by omega),
    Ring.bigSep_rangeSet_head (Φ := fun t => tokI d L q fie t.val) (lo := 256 + 16 * k.val + 10) (by omega) (by omega),
    Ring.bigSep_rangeSet_head (Φ := fun t => tokI d L q fie t.val) (lo := 256 + 16 * k.val + 11) (by omega) (by omega),
    Ring.bigSep_rangeSet_head (Φ := fun t => tokI d L q fie t.val) (lo := 256 + 16 * k.val + 12) (by omega) (by omega),
    Ring.bigSep_rangeSet_head (Φ := fun t => tokI d L q fie t.val) (lo := 256 + 16 * k.val + 13) (by omega) (by omega),
    Ring.bigSep_rangeSet_head (Φ := fun t => tokI d L q fie t.val) (lo := 256 + 16 * k.val + 14) (by omega) (by omega),
    Ring.bigSep_rangeSet_head (Φ := fun t => tokI d L q fie t.val) (lo := 256 + 16 * k.val + 15) (by omega) (by omega),
    show 256 + 16 * k.val + 15 + 1 = 256 + 16 * (k.val + 1) by omega,
    show 16 * k.val + 15 + 1 = 16 * (k.val + 1) by omega]
  rw [EU_t11_0 d L k, EU_t11_1 d L k, EU_t11_2 d L k, EU_t11_3 d L k, EU_t11_4 d L k, EU_t11_5 d L k, EU_t11_6 d L k, EU_t11_7 d L k, EU_t11_8 d L k, EU_t11_9 d L k, EU_t11_10 d L k, EU_t11_11 d L k, EU_t11_12 d L k, EU_t11_13 d L k, EU_t11_14 d L k, EU_t11_15 d L k, EI_t11_0 d L k, EI_t11_1 d L k, EI_t11_2 d L k, EI_t11_3 d L k, EI_t11_4 d L k, EI_t11_5 d L k, EI_t11_6 d L k, EI_t11_7 d L k, EI_t11_8 d L k, EI_t11_9 d L k, EI_t11_10 d L k, EI_t11_11 d L k, EI_t11_12 d L k, EI_t11_13 d L k, EI_t11_14 d L k, EI_t11_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t11_body
  sl_exec (disch := first
      | exact sep_elim_left.trans (deliver d L _ _ _ (by simp only [offU_t11_0, offU_t11_1, offU_t11_2, offU_t11_3, offU_t11_4, offU_t11_5, offU_t11_6, offU_t11_7, offU_t11_8, offU_t11_9, offU_t11_10, offU_t11_11, offU_t11_12, offU_t11_13, offU_t11_14, offU_t11_15, offI_t11_0, offI_t11_1, offI_t11_2, offI_t11_3, offI_t11_4, offI_t11_5, offI_t11_6, offI_t11_7, offI_t11_8, offI_t11_9, offI_t11_10, offI_t11_11, offI_t11_12, offI_t11_13, offI_t11_14, offI_t11_15]; rfl))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega)
      | (intro _ a; fin_cases a
         · show (_ : ℕ) + 1 ≤ 1000000
           exact Nat.succ_le_of_lt (lane0_lt (N := 1000000) _ (pay0_lt fu hfu _ _) _ _ _ _ _ _)
         · show 0 + 64 ≤ 64; omega)
      | (intro _ a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t11 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h3 : k0_cond3 k0_t4 = 1#1) (v114 : BitVec 32) :
    LoopInv (M := 𝕄) frame (wpE (defs₀ (F := F)) 𝒱₀ (thr d L) none) Set.univ k0_t11_loop.lb k0_t11_loop.ub k0_t11_loop.st (k0_t11_ok k0_t4 k0_h3) ()
      (k0_t11_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h3 v114) where
  inv := issueAt_t11 d L q fu fi f0 f1 fue fie
  step := issue_step_t11 d L q fu fi hfu hfi f0 f1 fue fie v3 v7 v11 v15 v19 v23 v24 c1285 k0_t4 k0_h3 v114

end Issue

end Cert.Proof.KI

end
-- ==== Proof.KIssueT12.lean ====
/-
  One trip of an issue loop at a symbolic trip `k`: the sixteen row copies from each table of that trip are the
  copies number `16 k … 16 k + 15` of the two batches on the half's two semaphores. Each copy's row index is a lane of
  the index scratch, hence a word of the index array, hence (by the precondition) a row of its table; its destination
  is row `16 k + j` of the half, which the batch promised to deliver; it consumes one read token of its table.
-/
import proofs.«214512_g89103391522852_cont_sun_m_1157_25_alg».proof.Proof.KRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-! The destination offsets the program computes, in closed form. -/
theorem offU_t12_0 : ∀ k : Fin k0_t12_loop.trips, k0_off241 k = ![1, 16 * k.val, 0] := by decide +kernel
theorem offU_t12_1 : ∀ k : Fin k0_t12_loop.trips, k0_off245 k = ![1, 16 * k.val + 1, 0] := by decide +kernel
theorem offU_t12_2 : ∀ k : Fin k0_t12_loop.trips, k0_off249 k = ![1, 16 * k.val + 2, 0] := by decide +kernel
theorem offU_t12_3 : ∀ k : Fin k0_t12_loop.trips, k0_off253 k = ![1, 16 * k.val + 3, 0] := by decide +kernel
theorem offU_t12_4 : ∀ k : Fin k0_t12_loop.trips, k0_off257 k = ![1, 16 * k.val + 4, 0] := by decide +kernel
theorem offU_t12_5 : ∀ k : Fin k0_t12_loop.trips, k0_off261 k = ![1, 16 * k.val + 5, 0] := by decide +kernel
theorem offU_t12_6 : ∀ k : Fin k0_t12_loop.trips, k0_off265 k = ![1, 16 * k.val + 6, 0] := by decide +kernel
theorem offU_t12_7 : ∀ k : Fin k0_t12_loop.trips, k0_off269 k = ![1, 16 * k.val + 7, 0] := by decide +kernel
theorem offU_t12_8 : ∀ k : Fin k0_t12_loop.trips, k0_off273 k = ![1, 16 * k.val + 8, 0] := by decide +kernel
theorem offU_t12_9 : ∀ k : Fin k0_t12_loop.trips, k0_off277 k = ![1, 16 * k.val + 9, 0] := by decide +kernel
theorem offU_t12_10 : ∀ k : Fin k0_t12_loop.trips, k0_off281 k = ![1, 16 * k.val + 10, 0] := by decide +kernel
theorem offU_t12_11 : ∀ k : Fin k0_t12_loop.trips, k0_off285 k = ![1, 16 * k.val + 11, 0] := by decide +kernel
theorem offU_t12_12 : ∀ k : Fin k0_t12_loop.trips, k0_off289 k = ![1, 16 * k.val + 12, 0] := by decide +kernel
theorem offU_t12_13 : ∀ k : Fin k0_t12_loop.trips, k0_off293 k = ![1, 16 * k.val + 13, 0] := by decide +kernel
theorem offU_t12_14 : ∀ k : Fin k0_t12_loop.trips, k0_off297 k = ![1, 16 * k.val + 14, 0] := by decide +kernel
theorem offU_t12_15 : ∀ k : Fin k0_t12_loop.trips, k0_off301 k = ![1, 16 * k.val + 15, 0] := by decide +kernel
theorem offI_t12_0 : ∀ k : Fin k0_t12_loop.trips, k0_off243 k 0#32 = ![1, 16 * k.val, 0] := by decide +kernel
theorem offI_t12_1 : ∀ k : Fin k0_t12_loop.trips, k0_off247 k 1#32 = ![1, 16 * k.val + 1, 0] := by decide +kernel
theorem offI_t12_2 : ∀ k : Fin k0_t12_loop.trips, k0_off251 k 2#32 = ![1, 16 * k.val + 2, 0] := by decide +kernel
theorem offI_t12_3 : ∀ k : Fin k0_t12_loop.trips, k0_off255 k 3#32 = ![1, 16 * k.val + 3, 0] := by decide +kernel
theorem offI_t12_4 : ∀ k : Fin k0_t12_loop.trips, k0_off259 k 4#32 = ![1, 16 * k.val + 4, 0] := by decide +kernel
theorem offI_t12_5 : ∀ k : Fin k0_t12_loop.trips, k0_off263 k 5#32 = ![1, 16 * k.val + 5, 0] := by decide +kernel
theorem offI_t12_6 : ∀ k : Fin k0_t12_loop.trips, k0_off267 k 6#32 = ![1, 16 * k.val + 6, 0] := by decide +kernel
theorem offI_t12_7 : ∀ k : Fin k0_t12_loop.trips, k0_off271 k 7#32 = ![1, 16 * k.val + 7, 0] := by decide +kernel
theorem offI_t12_8 : ∀ k : Fin k0_t12_loop.trips, k0_off275 k 8#32 = ![1, 16 * k.val + 8, 0] := by decide +kernel
theorem offI_t12_9 : ∀ k : Fin k0_t12_loop.trips, k0_off279 k 9#32 = ![1, 16 * k.val + 9, 0] := by decide +kernel
theorem offI_t12_10 : ∀ k : Fin k0_t12_loop.trips, k0_off283 k 10#32 = ![1, 16 * k.val + 10, 0] := by decide +kernel
theorem offI_t12_11 : ∀ k : Fin k0_t12_loop.trips, k0_off287 k 11#32 = ![1, 16 * k.val + 11, 0] := by decide +kernel
theorem offI_t12_12 : ∀ k : Fin k0_t12_loop.trips, k0_off291 k 12#32 = ![1, 16 * k.val + 12, 0] := by decide +kernel
theorem offI_t12_13 : ∀ k : Fin k0_t12_loop.trips, k0_off295 k 13#32 = ![1, 16 * k.val + 13, 0] := by decide +kernel
theorem offI_t12_14 : ∀ k : Fin k0_t12_loop.trips, k0_off299 k 14#32 = ![1, 16 * k.val + 14, 0] := by decide +kernel
theorem offI_t12_15 : ∀ k : Fin k0_t12_loop.trips, k0_off303 k = ![1, 16 * k.val + 15, 0] := by decide +kernel

/-! The rows by number are the rows as the program slices them. -/
omit [FloatOps F] in
theorem EU_t12_0 (d : Dev nD) (L : grid0.Coords) (k : Fin k0_t12_loop.trips) (h) :
    ownU (F := F) d L 1 ⟨16 * k.val, h⟩
      = ownAt (F := F) d L (urowS) (k0_off241 k) (inb_of (offU_t12_0 k) (by decide) (by have := k.isLt; have := k0_t12_abs.2.1; omega)) :=
  ownAt_congr d L (offU_t12_0 k).symm _ _
omit [FloatOps F] in
theorem EU_t12_1 (d : Dev nD) (L : grid0.Coords) (k : Fin k0_t12_loop.trips) (h) :
    ownU (F := F) d L 1 ⟨16 * k.val + 1, h⟩
      = ownAt (F := F) d L (urowS) (k0_off245 k) (inb_of (offU_t12_1 k) (by decide) (by have := k.isLt; have := k0_t12_abs.2.1; omega)) :=
  ownAt_congr d L (offU_t12_1 k).symm _ _
omit [FloatOps F] in
theorem EU_t12_2 (d : Dev nD) (L : grid0.Coords) (k : Fin k0_t12_loop.trips) (h) :
    ownU (F := F) d L 1 ⟨16 * k.val + 2, h⟩
      = ownAt (F := F) d L (urowS) (k0_off249 k) (inb_of (offU_t12_2 k) (by decide) (by have := k.isLt; have := k0_t12_abs.2.1; omega)) :=
  ownAt_congr d L (offU_t12_2 k).symm _ _
omit [FloatOps F] in
theorem EU_t12_3 (d : Dev nD) (L : grid0.Coords) (k : Fin k0_t12_loop.trips) (h) :
    ownU (F := F) d L 1 ⟨16 * k.val + 3, h⟩
      = ownAt (F := F) d L (urowS) (k0_off253 k) (inb_of (offU_t12_3 k) (by decide) (by have := k.isLt; have := k0_t12_abs.2.1; omega)) :=
  ownAt_congr d L (offU_t12_3 k).symm _ _
omit [FloatOps F] in
theorem EU_t12_4 (d : Dev nD) (L : grid0.Coords) (k : Fin k0_t12_loop.trips) (h) :
    ownU (F := F) d L 1 ⟨16 * k.val + 4, h⟩
      = ownAt (F := F) d L (urowS) (k0_off257 k) (inb_of (offU_t12_4 k) (by decide) (by have := k.isLt; have := k0_t12_abs.2.1; omega)) :=
  ownAt_congr d L (offU_t12_4 k).symm _ _
omit [FloatOps F] in
theorem EU_t12_5 (d : Dev nD) (L : grid0.Coords) (k : Fin k0_t12_loop.trips) (h) :
    ownU (F := F) d L 1 ⟨16 * k.val + 5, h⟩
      = ownAt (F := F) d L (urowS) (k0_off261 k) (inb_of (offU_t12_5 k) (by decide) (by have := k.isLt; have := k0_t12_abs.2.1; omega)) :=
  ownAt_congr d L (offU_t12_5 k).symm _ _
omit [FloatOps F] in
theorem EU_t12_6 (d : Dev nD) (L : grid0.Coords) (k : Fin k0_t12_loop.trips) (h) :
    ownU (F := F) d L 1 ⟨16 * k.val + 6, h⟩
      = ownAt (F := F) d L (urowS) (k0_off265 k) (inb_of (offU_t12_6 k) (by decide) (by have := k.isLt; have := k0_t12_abs.2.1; omega)) :=
  ownAt_congr d L (offU_t12_6 k).symm _ _
omit [FloatOps F] in
theorem EU_t12_7 (d : Dev nD) (L : grid0.Coords) (k : Fin k0_t12_loop.trips) (h) :
    ownU (F := F) d L 1 ⟨16 * k.val + 7, h⟩
      = ownAt (F := F) d L (urowS) (k0_off269 k) (inb_of (offU_t12_7 k) (by decide) (by have := k.isLt; have := k0_t12_abs.2.1; omega)) :=
  ownAt_congr d L (offU_t12_7 k).symm _ _
omit [FloatOps F] in
theorem EU_t12_8 (d : Dev nD) (L : grid0.Coords) (k : Fin k0_t12_loop.trips) (h) :
    ownU (F := F) d L 1 ⟨16 * k.val + 8, h⟩
      = ownAt (F := F) d L (urowS) (k0_off273 k) (inb_of (offU_t12_8 k) (by decide) (by have := k.isLt; have := k0_t12_abs.2.1; omega)) :=
  ownAt_congr d L (offU_t12_8 k).symm _ _
omit [FloatOps F] in
theorem EU_t12_9 (d : Dev nD) (L : grid0.Coords) (k : Fin k0_t12_loop.trips) (h) :
    ownU (F := F) d L 1 ⟨16 * k.val + 9, h⟩
      = ownAt (F := F) d L (urowS) (k0_off277 k) (inb_of (offU_t12_9 k) (by decide) (by have := k.isLt; have := k0_t12_abs.2.1; omega)) :=
  ownAt_congr d L (offU_t12_9 k).symm _ _
omit [FloatOps F] in
theorem EU_t12_10 (d : Dev nD) (L : grid0.Coords) (k : Fin k0_t12_loop.trips) (h) :
    ownU (F := F) d L 1 ⟨16 * k.val + 10, h⟩
      = ownAt (F := F) d L (urowS) (k0_off281 k) (inb_of (offU_t12_10 k) (by decide) (by have := k.isLt; have := k0_t12_abs.2.1; omega)) :=
  ownAt_congr d L (offU_t12_10 k).symm _ _
omit [FloatOps F] in
theorem EU_t12_11 (d : Dev nD) (L : grid0.Coords) (k : Fin k0_t12_loop.trips) (h) :
    ownU (F := F) d L 1 ⟨16 * k.val + 11, h⟩
      = ownAt (F := F) d L (urowS) (k0_off285 k) (inb_of (offU_t12_11 k) (by decide) (by have := k.isLt; have := k0_t12_abs.2.1; omega)) :=
  ownAt_congr d L (offU_t12_11 k).symm _ _
omit [FloatOps F] in
theorem EU_t12_12 (d : Dev nD) (L : grid0.Coords) (k : Fin k0_t12_loop.trips) (h) :
    ownU (F := F) d L 1 ⟨16 * k.val + 12, h⟩
      = ownAt (F := F) d L (urowS) (k0_off289 k) (inb_of (offU_t12_12 k) (by decide) (by have := k.isLt; have := k0_t12_abs.2.1; omega)) :=
  ownAt_congr d L (offU_t12_12 k).symm _ _
omit [FloatOps F] in
theorem EU_t12_13 (d : Dev nD) (L : grid0.Coords) (k : Fin k0_t12_loop.trips) (h) :
    ownU (F := F) d L 1 ⟨16 * k.val + 13, h⟩
      = ownAt (F := F) d L (urowS) (k0_off293 k) (inb_of (offU_t12_13 k) (by decide) (by have := k.isLt; have := k0_t12_abs.2.1; omega)) :=
  ownAt_congr d L (offU_t12_13 k).symm _ _
omit [FloatOps F] in
theorem EU_t12_14 (d : Dev nD) (L : grid0.Coords) (k : Fin k0_t12_loop.trips) (h) :
    ownU (F := F) d L 1 ⟨16 * k.val + 14, h⟩
      = ownAt (F := F) d L (urowS) (k0_off297 k) (inb_of (offU_t12_14 k) (by decide) (by have := k.isLt; have := k0_t12_abs.2.1; omega)) :=
  ownAt_congr d L (offU_t12_14 k).symm _ _
omit [FloatOps F] in
theorem EU_t12_15 (d : Dev nD) (L : grid0.Coords) (k : Fin k0_t12_loop.trips) (h) :
    ownU (F := F) d L 1 ⟨16 * k.val + 15, h⟩
      = ownAt (F := F) d L (urowS) (k0_off301 k) (inb_of (offU_t12_15 k) (by decide) (by have := k.isLt; have := k0_t12_abs.2.1; omega)) :=
  ownAt_congr d L (offU_t12_15 k).symm _ _
omit [FloatOps F] in
theorem EI_t12_0 (d : Dev nD) (L : grid0.Coords) (k : Fin k0_t12_loop.trips) (h) :
    ownI (F := F) d L 1 ⟨16 * k.val, h⟩
      = ownAt (F := F) d L (irowS) (k0_off243 k 0#32) (inb_of (offI_t12_0 k) (by decide) (by have := k.isLt; have := k0_t12_abs.2.1; omega)) :=
  ownAt_congr d L (offI_t12_0 k).symm _ _
omit [FloatOps F] in
theorem EI_t12_1 (d : Dev nD) (L : grid0.Coords) (k : Fin k0_t12_loop.trips) (h) :
    ownI (F := F) d L 1 ⟨16 * k.val + 1, h⟩
      = ownAt (F := F) d L (irowS) (k0_off247 k 1#32) (inb_of (offI_t12_1 k) (by decide) (by have := k.isLt; have := k0_t12_abs.2.1; omega)) :=
  ownAt_congr d L (offI_t12_1 k).symm _ _
omit [FloatOps F] in
theorem EI_t12_2 (d : Dev nD) (L : grid0.Coords) (k : Fin k0_t12_loop.trips) (h) :
    ownI (F := F) d L 1 ⟨16 * k.val + 2, h⟩
      = ownAt (F := F) d L (irowS) (k0_off251 k 2#32) (inb_of (offI_t12_2 k) (by decide) (by have := k.isLt; have := k0_t12_abs.2.1; omega)) :=
  ownAt_congr d L (offI_t12_2 k).symm _ _
omit [FloatOps F] in
theorem EI_t12_3 (d : Dev nD) (L : grid0.Coords) (k : Fin k0_t12_loop.trips) (h) :
    ownI (F := F) d L 1 ⟨16 * k.val + 3, h⟩
      = ownAt (F := F) d L (irowS) (k0_off255 k 3#32) (inb_of (offI_t12_3 k) (by decide) (by have := k.isLt; have := k0_t12_abs.2.1; omega)) :=
  ownAt_congr d L (offI_t12_3 k).symm _ _
omit [FloatOps F] in
theorem EI_t12_4 (d : Dev nD) (L : grid0.Coords) (k : Fin k0_t12_loop.trips) (h) :
    ownI (F := F) d L 1 ⟨16 * k.val + 4, h⟩
      = ownAt (F := F) d L (irowS) (k0_off259 k 4#32) (inb_of (offI_t12_4 k) (by decide) (by have := k.isLt; have := k0_t12_abs.2.1; omega)) :=
  ownAt_congr d L (offI_t12_4 k).symm _ _
omit [FloatOps F] in
theorem EI_t12_5 (d : Dev nD) (L : grid0.Coords) (k : Fin k0_t12_loop.trips) (h) :
    ownI (F := F) d L 1 ⟨16 * k.val + 5, h⟩
      = ownAt (F := F) d L (irowS) (k0_off263 k 5#32) (inb_of (offI_t12_5 k) (by decide) (by have := k.isLt; have := k0_t12_abs.2.1; omega)) :=
  ownAt_congr d L (offI_t12_5 k).symm _ _
omit [FloatOps F] in
theorem EI_t12_6 (d : Dev nD) (L : grid0.Coords) (k : Fin k0_t12_loop.trips) (h) :
    ownI (F := F) d L 1 ⟨16 * k.val + 6, h⟩
      = ownAt (F := F) d L (irowS) (k0_off267 k 6#32) (inb_of (offI_t12_6 k) (by decide) (by have := k.isLt; have := k0_t12_abs.2.1; omega)) :=
  ownAt_congr d L (offI_t12_6 k).symm _ _
omit [FloatOps F] in
theorem EI_t12_7 (d : Dev nD) (L : grid0.Coords) (k : Fin k0_t12_loop.trips) (h) :
    ownI (F := F) d L 1 ⟨16 * k.val + 7, h⟩
      = ownAt (F := F) d L (irowS) (k0_off271 k 7#32) (inb_of (offI_t12_7 k) (by decide) (by have := k.isLt; have := k0_t12_abs.2.1; omega)) :=
  ownAt_congr d L (offI_t12_7 k).symm _ _
omit [FloatOps F] in
theorem EI_t12_8 (d : Dev nD) (L : grid0.Coords) (k : Fin k0_t12_loop.trips) (h) :
    ownI (F := F) d L 1 ⟨16 * k.val + 8, h⟩
      = ownAt (F := F) d L (irowS) (k0_off275 k 8#32) (inb_of (offI_t12_8 k) (by decide) (by have := k.isLt; have := k0_t12_abs.2.1; omega)) :=
  ownAt_congr d L (offI_t12_8 k).symm _ _
omit [FloatOps F] in
theorem EI_t12_9 (d : Dev nD) (L : grid0.Coords) (k : Fin k0_t12_loop.trips) (h) :
    ownI (F := F) d L 1 ⟨16 * k.val + 9, h⟩
      = ownAt (F := F) d L (irowS) (k0_off279 k 9#32) (inb_of (offI_t12_9 k) (by decide) (by have := k.isLt; have := k0_t12_abs.2.1; omega)) :=
  ownAt_congr d L (offI_t12_9 k).symm _ _
omit [FloatOps F] in
theorem EI_t12_10 (d : Dev nD) (L : grid0.Coords) (k : Fin k0_t12_loop.trips) (h) :
    ownI (F := F) d L 1 ⟨16 * k.val + 10, h⟩
      = ownAt (F := F) d L (irowS) (k0_off283 k 10#32) (inb_of (offI_t12_10 k) (by decide) (by have := k.isLt; have := k0_t12_abs.2.1; omega)) :=
  ownAt_congr d L (offI_t12_10 k).symm _ _
omit [FloatOps F] in
theorem EI_t12_11 (d : Dev nD) (L : grid0.Coords) (k : Fin k0_t12_loop.trips) (h) :
    ownI (F := F) d L 1 ⟨16 * k.val + 11, h⟩
      = ownAt (F := F) d L (irowS) (k0_off287 k 11#32) (inb_of (offI_t12_11 k) (by decide) (by have := k.isLt; have := k0_t12_abs.2.1; omega)) :=
  ownAt_congr d L (offI_t12_11 k).symm _ _
omit [FloatOps F] in
theorem EI_t12_12 (d : Dev nD) (L : grid0.Coords) (k : Fin k0_t12_loop.trips) (h) :
    ownI (F := F) d L 1 ⟨16 * k.val + 12, h⟩
      = ownAt (F := F) d L (irowS) (k0_off291 k 12#32) (inb_of (offI_t12_12 k) (by decide) (by have := k.isLt; have := k0_t12_abs.2.1; omega)) :=
  ownAt_congr d L (offI_t12_12 k).symm _ _
omit [FloatOps F] in
theorem EI_t12_13 (d : Dev nD) (L : grid0.Coords) (k : Fin k0_t12_loop.trips) (h) :
    ownI (F := F) d L 1 ⟨16 * k.val + 13, h⟩
      = ownAt (F := F) d L (irowS) (k0_off295 k 13#32) (inb_of (offI_t12_13 k) (by decide) (by have := k.isLt; have := k0_t12_abs.2.1; omega)) :=
  ownAt_congr d L (offI_t12_13 k).symm _ _
omit [FloatOps F] in
theorem EI_t12_14 (d : Dev nD) (L : grid0.Coords) (k : Fin k0_t12_loop.trips) (h) :
    ownI (F := F) d L 1 ⟨16 * k.val + 14, h⟩
      = ownAt (F := F) d L (irowS) (k0_off299 k 14#32) (inb_of (offI_t12_14 k) (by decide) (by have := k.isLt; have := k0_t12_abs.2.1; omega)) :=
  ownAt_congr d L (offI_t12_14 k).symm _ _
omit [FloatOps F] in
theorem EI_t12_15 (d : Dev nD) (L : grid0.Coords) (k : Fin k0_t12_loop.trips) (h) :
    ownI (F := F) d L 1 ⟨16 * k.val + 15, h⟩
      = ownAt (F := F) d L (irowS) (k0_off303 k) (inb_of (offI_t12_15 k) (by decide) (by have := k.isLt; have := k0_t12_abs.2.1; omega)) :=
  ownAt_congr d L (offI_t12_15 k).symm _ _

section Issue

variable (d : Dev nD) (L : grid0.Coords)

/-- Before trip `k`: `16 k` copies of each table issued, nothing consumed; the rows and read tokens from there on in hand;
    the two index scratches as filled. -/
def issueAt_t12 (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchU d L 1 (SemLoc.dma cc0_scratch8.sem) (16 * k) 0 ∗ batchI d L 1 (SemLoc.dma cc0_scratch10.sem) (16 * k) 0
    ∗ bigSep (Ring.rangeSet 128 (16 * k) 128) (ownU d L 1) ∗ bigSep (Ring.rangeSet 128 (16 * k) 128) (ownI d L 1)
    ∗ bigSep (Ring.rangeSet 512 (384 + 16 * k) 512) (fun t => tokU d L q fue t.val) ∗ bigSep (Ring.rangeSet 512 (384 + 16 * k) 512) (fun t => tokI d L q fie t.val)
    ∗ idxU d L fu f0 ∗ idxI d L fi f1)

set_option maxHeartbeats 4000000 in
theorem issue_step_t12 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h4 : k0_cond4 k0_t4 = 1#1) (v114 : BitVec 32)
    (k : Fin k0_t12_loop.trips) (acc : Unit) :
    issueAt_t12 d L q fu fi f0 f1 fue fie k acc
      ⊢ wp frame (wpE (defs₀ (F := F)) 𝒱₀ (thr d L) none) Set.univ
          (k0_t12_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h4 v114 k acc)
          (issueAt_t12 d L q fu fi f0 f1 fue fie (k.val + 1)) := by
  have hk := k.isLt; have h8 := k0_t12_abs.2.1
  unfold issueAt_t12
  rw [Ring.bigSep_rangeSet_head (Φ := ownU d L 1) (lo := 16 * k.val) (by omega) (by omega),
    Ring.bigSep_rangeSet_head (Φ := ownU d L 1) (lo := 16 * k.val + 1) (by omega) (by omega),
    Ring.bigSep_rangeSet_head (Φ := ownU d L 1) (lo := 16 * k.val + 2) (by omega) (by omega),
    Ring.bigSep_rangeSet_head (Φ := ownU d L 1) (lo := 16 * k.val + 3) (by omega) (by omega),
    Ring.bigSep_rangeSet_head (Φ := ownU d L 1) (lo := 16 * k.val + 4) (by omega) (by omega),
    Ring.bigSep_rangeSet_head (Φ := ownU d L 1) (lo := 16 * k.val + 5) (by omega) (by omega),
    Ring.bigSep_rangeSet_head (Φ := ownU d L 1) (lo := 16 * k.val + 6) (by omega) (by omega),
    Ring.bigSep_rangeSet_head (Φ := ownU d L 1) (lo := 16 * k.val + 7) (by omega) (by omega),
    Ring.bigSep_rangeSet_head (Φ := ownU d L 1) (lo := 16 * k.val + 8) (by omega) (by omega),
    Ring.bigSep_rangeSet_head (Φ := ownU d L 1) (lo := 16 * k.val + 9) (by omega) (by omega),
    Ring.bigSep_rangeSet_head (Φ := ownU d L 1) (lo := 16 * k.val + 10) (by omega) (by omega),
    Ring.bigSep_rangeSet_head (Φ := ownU d L 1) (lo := 16 * k.val + 11) (by omega) (by omega),
    Ring.bigSep_rangeSet_head (Φ := ownU d L 1) (lo := 16 * k.val + 12) (by omega) (by omega),
    Ring.bigSep_rangeSet_head (Φ := ownU d L 1) (lo := 16 * k.val + 13) (by omega) (by omega),
    Ring.bigSep_rangeSet_head (Φ := ownU d L 1) (lo := 16 * k.val + 14) (by omega) (by omega),
    Ring.bigSep_rangeSet_head (Φ := ownU d L 1) (lo := 16 * k.val + 15) (by omega) (by omega),
    Ring.bigSep_rangeSet_head (Φ := ownI d L 1) (lo := 16 * k.val) (by omega) (by omega),
    Ring.bigSep_rangeSet_head (Φ := ownI d L 1) (lo := 16 * k.val + 1) (by omega) (by omega),
    Ring.bigSep_rangeSet_head (Φ := ownI d L 1) (lo := 16 * k.val + 2) (by omega) (by omega),
    Ring.bigSep_rangeSet_head (Φ := ownI d L 1) (lo := 16 * k.val + 3) (by omega) (by omega),
    Ring.bigSep_rangeSet_head (Φ := ownI d L 1) (lo := 16 * k.val + 4) (by omega) (by omega),
    Ring.bigSep_rangeSet_head (Φ := ownI d L 1) (lo := 16 * k.val + 5) (by omega) (by omega),
    Ring.bigSep_rangeSet_head (Φ := ownI d L 1) (lo := 16 * k.val + 6) (by omega) (by omega),
    Ring.bigSep_rangeSet_head (Φ := ownI d L 1) (lo := 16 * k.val + 7) (by omega) (by omega),
    Ring.bigSep_rangeSet_head (Φ := ownI d L 1) (lo := 16 * k.val + 8) (by omega) (by omega),
    Ring.bigSep_rangeSet_head (Φ := ownI d L 1) (lo := 16 * k.val + 9) (by omega) (by omega),
    Ring.bigSep_rangeSet_head (Φ := ownI d L 1) (lo := 16 * k.val + 10) (by omega) (by omega),
    Ring.bigSep_rangeSet_head (Φ := ownI d L 1) (lo := 16 * k.val + 11) (by omega) (by omega),
    Ring.bigSep_rangeSet_head (Φ := ownI d L 1) (lo := 16 * k.val + 12) (by omega) (by omega),
    Ring.bigSep_rangeSet_head (Φ := ownI d L 1) (lo := 16 * k.val + 13) (by omega) (by omega),
    Ring.bigSep_rangeSet_head (Φ := ownI d L 1) (lo := 16 * k.val + 14) (by omega) (by omega),
    Ring.bigSep_rangeSet_head (Φ := ownI d L 1) (lo := 16 * k.val + 15) (by omega) (by omega),
    Ring.bigSep_rangeSet_head (Φ := fun t => tokU d L q fue t.val) (lo := 384 + 16 * k.val) (by omega) (by omega),
    Ring.bigSep_rangeSet_head (Φ := fun t => tokU d L q fue t.val) (lo := 384 + 16 * k.val + 1) (by omega) (by omega),
    Ring.bigSep_rangeSet_head (Φ := fun t => tokU d L q fue t.val) (lo := 384 + 16 * k.val + 2) (by omega) (by omega),
    Ring.bigSep_rangeSet_head (Φ := fun t => tokU d L q fue t.val) (lo := 384 + 16 * k.val + 3) (by omega) (by omega),
    Ring.bigSep_rangeSet_head (Φ := fun t => tokU d L q fue t.val) (lo := 384 + 16 * k.val + 4) (by omega) (by omega),
    Ring.bigSep_rangeSet_head (Φ := fun t => tokU d L q fue t.val) (lo := 384 + 16 * k.val + 5) (by omega) (by omega),
    Ring.bigSep_rangeSet_head (Φ := fun t => tokU d L q fue t.val) (lo := 384 + 16 * k.val + 6) (by omega) (by omega),
    Ring.bigSep_rangeSet_head (Φ := fun t => tokU d L q fue t.val) (lo := 384 + 16 * k.val + 7) (by omega) (by omega),
    Ring.bigSep_rangeSet_head (Φ := fun t => tokU d L q fue t.val) (lo := 384 + 16 * k.val + 8) (by omega) (by omega),
    Ring.bigSep_rangeSet_head (Φ := fun t => tokU d L q fue t.val) (lo := 384 + 16 * k.val + 9) (by omega) (by omega),
    Ring.bigSep_rangeSet_head (Φ := fun t => tokU d L q fue t.val) (lo := 384 + 16 * k.val + 10) (by omega) (by omega),
    Ring.bigSep_rangeSet_head (Φ := fun t => tokU d L q fue t.val) (lo := 384 + 16 * k.val + 11) (by omega) (by omega),
    Ring.bigSep_rangeSet_head (Φ := fun t => tokU d L q fue t.val) (lo := 384 + 16 * k.val + 12) (by omega) (by omega),
    Ring.bigSep_rangeSet_head (Φ := fun t => tokU d L q fue t.val) (lo := 384 + 16 * k.val + 13) (by omega) (by omega),
    Ring.bigSep_rangeSet_head (Φ := fun t => tokU d L q fue t.val) (lo := 384 + 16 * k.val + 14) (by omega) (by omega),
    Ring.bigSep_rangeSet_head (Φ := fun t => tokU d L q fue t.val) (lo := 384 + 16 * k.val + 15) (by omega) (by omega),
    Ring.bigSep_rangeSet_head (Φ := fun t => tokI d L q fie t.val) (lo := 384 + 16 * k.val) (by omega) (by omega),
    Ring.bigSep_rangeSet_head (Φ := fun t => tokI d L q fie t.val) (lo := 384 + 16 * k.val + 1) (by omega) (by omega),
    Ring.bigSep_rangeSet_head (Φ := fun t => tokI d L q fie t.val) (lo := 384 + 16 * k.val + 2) (by omega) (by omega),
    Ring.bigSep_rangeSet_head (Φ := fun t => tokI d L q fie t.val) (lo := 384 + 16 * k.val + 3) (by omega) (by omega),
    Ring.bigSep_rangeSet_head (Φ := fun t => tokI d L q fie t.val) (lo := 384 + 16 * k.val + 4) (by omega) (by omega),
    Ring.bigSep_rangeSet_head (Φ := fun t => tokI d L q fie t.val) (lo := 384 + 16 * k.val + 5) (by omega) (by omega),
    Ring.bigSep_rangeSet_head (Φ := fun t => tokI d L q fie t.val) (lo := 384 + 16 * k.val + 6) (by omega) (by omega),
    Ring.bigSep_rangeSet_head (Φ := fun t => tokI d L q fie t.val) (lo := 384 + 16 * k.val + 7) (by omega) (by omega),
    Ring.bigSep_rangeSet_head (Φ := fun t => tokI d L q fie t.val) (lo := 384 + 16 * k.val + 8) (by omega) (by omega),
    Ring.bigSep_rangeSet_head (Φ := fun t => tokI d L q fie t.val) (lo := 384 + 16 * k.val + 9) (by omega) (by omega),
    Ring.bigSep_rangeSet_head (Φ := fun t => tokI d L q fie t.val) (lo := 384 + 16 * k.val + 10) (by omega) (by omega),
    Ring.bigSep_rangeSet_head (Φ := fun t => tokI d L q fie t.val) (lo := 384 + 16 * k.val + 11) (by omega) (by omega),
    Ring.bigSep_rangeSet_head (Φ := fun t => tokI d L q fie t.val) (lo := 384 + 16 * k.val + 12) (by omega) (by omega),
    Ring.bigSep_rangeSet_head (Φ := fun t => tokI d L q fie t.val) (lo := 384 + 16 * k.val + 13) (by omega) (by omega),
    Ring.bigSep_rangeSet_head (Φ := fun t => tokI d L q fie t.val) (lo := 384 + 16 * k.val + 14) (by omega) (by omega),
    Ring.bigSep_rangeSet_head (Φ := fun t => tokI d L q fie t.val) (lo := 384 + 16 * k.val + 15) (by omega) (by omega),
    show 384 + 16 * k.val + 15 + 1 = 384 + 16 * (k.val + 1) by omega,
    show 16 * k.val + 15 + 1 = 16 * (k.val + 1) by omega]
  rw [EU_t12_0 d L k, EU_t12_1 d L k, EU_t12_2 d L k, EU_t12_3 d L k, EU_t12_4 d L k, EU_t12_5 d L k, EU_t12_6 d L k, EU_t12_7 d L k, EU_t12_8 d L k, EU_t12_9 d L k, EU_t12_10 d L k, EU_t12_11 d L k, EU_t12_12 d L k, EU_t12_13 d L k, EU_t12_14 d L k, EU_t12_15 d L k, EI_t12_0 d L k, EI_t12_1 d L k, EI_t12_2 d L k, EI_t12_3 d L k, EI_t12_4 d L k, EI_t12_5 d L k, EI_t12_6 d L k, EI_t12_7 d L k, EI_t12_8 d L k, EI_t12_9 d L k, EI_t12_10 d L k, EI_t12_11 d L k, EI_t12_12 d L k, EI_t12_13 d L k, EI_t12_14 d L k, EI_t12_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t12_body
  sl_exec (disch := first
      | exact sep_elim_left.trans (deliver d L _ _ _ (by simp only [offU_t12_0, offU_t12_1, offU_t12_2, offU_t12_3, offU_t12_4, offU_t12_5, offU_t12_6, offU_t12_7, offU_t12_8, offU_t12_9, offU_t12_10, offU_t12_11, offU_t12_12, offU_t12_13, offU_t12_14, offU_t12_15, offI_t12_0, offI_t12_1, offI_t12_2, offI_t12_3, offI_t12_4, offI_t12_5, offI_t12_6, offI_t12_7, offI_t12_8, offI_t12_9, offI_t12_10, offI_t12_11, offI_t12_12, offI_t12_13, offI_t12_14, offI_t12_15]; rfl))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega)
      | (intro _ a; fin_cases a
         · show (_ : ℕ) + 1 ≤ 1000000
           exact Nat.succ_le_of_lt (lane0_lt (N := 1000000) _ (pay0_lt fu hfu _ _) _ _ _ _ _ _)
         · show 0 + 64 ≤ 64; omega)
      | (intro _ a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t12 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h4 : k0_cond4 k0_t4 = 1#1) (v114 : BitVec 32) :
    LoopInv (M := 𝕄) frame (wpE (defs₀ (F := F)) 𝒱₀ (thr d L) none) Set.univ k0_t12_loop.lb k0_t12_loop.ub k0_t12_loop.st (k0_t12_ok k0_t4 k0_h4) ()
      (k0_t12_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h4 v114) where
  inv := issueAt_t12 d L q fu fi f0 f1 fue fie
  step := issue_step_t12 d L q fu fi hfu hfi f0 f1 fue fie v3 v7 v11 v15 v19 v23 v24 c1285 k0_t4 k0_h4 v114

end Issue

end Cert.Proof.KI

end
-- ==== Proof.KBody.lean ====
/-
  The tile's task, once, at symbolic coordinates.

  The tile copies its 512 words of each index array and the packed parameters into its scratch, initialises the ten
  accumulator rows with the first layer's bias, issues the row copies of chunks 0 and 1 (one batch per table and half),
  and then, chunk by chunk: waits for the half's two batches (the last wait of each hands every row back), reads the
  half as one buffer through the two first-layer loops, and — while two more chunks remain — allocates the half's two
  batches afresh and issues the chunk after next into it. Which half is in flight before which chunk is the loop's
  invariant, by cases on the chunk. The second layer then runs over the accumulators and the 512 results are copied
  out to the tile's own entries of the result. Every copy's row index is a word of an index array, so names a row of
  its table by the precondition; every wait is on a cell of the tile's own, below everything the tile owes the launch.
-/
import proofs.«214512_g89103391522852_cont_sun_m_1157_25_alg».proof.Proof.KOwn
import proofs.«214512_g89103391522852_cont_sun_m_1157_25_alg».proof.Proof.KBodyPre
import proofs.«214512_g89103391522852_cont_sun_m_1157_25_alg».proof.Proof.KLoops
import proofs.«214512_g89103391522852_cont_sun_m_1157_25_alg».proof.Proof.KHalf
import proofs.«214512_g89103391522852_cont_sun_m_1157_25_alg».proof.Proof.KDrain
import proofs.«214512_g89103391522852_cont_sun_m_1157_25_alg».proof.Proof.KIssueT2
import proofs.«214512_g89103391522852_cont_sun_m_1157_25_alg».proof.Proof.KIssueT3
import proofs.«214512_g89103391522852_cont_sun_m_1157_25_alg».proof.Proof.KIssueT11
import proofs.«214512_g89103391522852_cont_sun_m_1157_25_alg».proof.Proof.KIssueT12

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable (d : Dev nD) (L : grid0.Coords)

/-- Half `b` at rest: its two cells at zero in hand and its rows of both scratches owned. -/
abbrev idleHalf (b : Fin 2) (su si : SemLoc sig) : sProp 𝕄 :=
  iprop(semVal (thr d L, su) 0 ∗ semVal (thr d L, si) 0 ∗ bigSep Finset.univ (ownU (F := F) d L b) ∗ bigSep Finset.univ (ownI (F := F) d L b))

/-- Before chunk `c` is consumed: half 0 is in flight (its 128 + 128 copies all issued, none waited for) while a chunk of
    its parity is still to come, that is before chunks 0, 1, 2, and at rest afterwards; half 1 likewise before chunks
    0 … 3; the read tokens of chunks 2 and 3 are in hand until those chunks are issued (in trips 0 and 1). -/
def chunkAt (O : CellTallies nD τ sig (HIx 1)) (W : Waits sig (HIx 1)) (q : PosShare TreeShare) (fu fi : S16384.Idx → BitVec 32)
    (f0 : (uidxS).view.ty.Contents (Elt F)) (f1 : (iidxS).view.ty.Contents (Elt F))
    (fue : S1000000x64.Idx → Elt F .f32) (fie : S100000x64.Idx → Elt F .f32) (c : ℕ) (_ : Unit) : sProp 𝕄 :=
  iprop(Transfers.MayWaits (thr d L) (none : HIx 1) O
    ∗ (∃ W', ⌜∀ p ∈ W', p ∈ W ∨ p.2 = none⌝ ∗ owes (thr d L) O W')
    ∗ idxU d L fu f0 ∗ idxI d L fi f1
    ∗ (∃ f, (parS).view.loc (thr d L) ↦{fullShare} f) ∗ (∃ f, (accS).view.loc (thr d L) ↦{fullShare} f)
    ∗ (if c ≤ 2 then iprop(batchU d L 0 (SemLoc.dma cc0_scratch7.sem) 128 0 ∗ batchI d L 0 (SemLoc.dma cc0_scratch9.sem) 128 0) else idleHalf (F := F) d L 0 (SemLoc.dma cc0_scratch7.sem) (SemLoc.dma cc0_scratch9.sem))
    ∗ (if c ≤ 3 then iprop(batchU d L 1 (SemLoc.dma cc0_scratch8.sem) 128 0 ∗ batchI d L 1 (SemLoc.dma cc0_scratch10.sem) 128 0) else idleHalf (F := F) d L 1 (SemLoc.dma cc0_scratch8.sem) (SemLoc.dma cc0_scratch10.sem))
    ∗ (if c = 0 then iprop(bigSep (Ring.rangeSet 512 256 384) (fun t => tokU d L q fue t.val) ∗ bigSep (Ring.rangeSet 512 256 384) (fun t => tokI d L q fie t.val)) else iprop(emp))
    ∗ (if c ≤ 1 then iprop(bigSep (Ring.rangeSet 512 384 512) (fun t => tokU d L q fue t.val) ∗ bigSep (Ring.rangeSet 512 384 512) (fun t => tokI d L q fie t.val)) else iprop(emp)))

/-- What the tile's task starts from, buffer by buffer: the tile's read shares, its entries of the result, its own scratch
    and cells (`tileOwn`), what is left of its scoped storage (untouched), and its debts. -/
def tilePre (O : CellTallies nD τ sig (HIx 1)) (W : Waits sig (HIx 1)) (q : PosShare TreeShare)
    (fu fi : S16384.Idx → BitVec 32) (fue : S1000000x64.Idx → Elt F .f32) (fie : S100000x64.Idx → Elt F .f32) : sProp 𝕄 :=
  iprop(Transfers.MayWaits (thr d L) (none : HIx 1) O
    ∗ ((userW).view.loc (thr d L) ↦{q} fu) ∗ ((itemW).view.loc (thr d L) ↦{q} fi)
    ∗ ((uembW).view.loc (thr d L) ↦{q} fue) ∗ ((iembW).view.loc (thr d L) ↦{q} fie) ∗ (∃ fp, (parW).view.loc (thr d L) ↦{q} fp)
    ∗ (∃ fo, (outSl L).view.loc (thr d L) ↦[(outSl L).view.set]{fullShare} fo)
    ∗ tileOwn (F := F) d L ∗ tileRestOwn (F := F) d L ∗ owes (thr d L) O W)

/-- What it ends with. -/
def tilePost (O : CellTallies nD τ sig (HIx 1)) (W : Waits sig (HIx 1)) : sProp 𝕄 :=
  iprop((∃ fo, (outSl L).view.loc (thr d L) ↦[(outSl L).view.set]{fullShare} fo)
    ∗ tileOwn (F := F) d L ∗ tileRestOwn (F := F) d L ∗ ∃ W', ⌜∀ p ∈ W', p ∈ W ∨ p.2 = none⌝ ∗ owes (thr d L) O W')

set_option maxHeartbeats 8000000 in
theorem tile_run [∀ e, Nonempty (Elt F e)] (O : CellTallies nD τ sig (HIx 1)) (W : Waits sig (HIx 1)) (q : PosShare TreeShare)
    (fu fi : S16384.Idx → BitVec 32) (hfu : ∀ b, (fu b).toNat < 1000000) (hfi : ∀ b, (fi b).toNat < 100000)
    (fue : S1000000x64.Idx → Elt F .f32) (fie : S100000x64.Idx → Elt F .f32) :
    tilePre d L O W q fu fi fue fie
      ⊢ wp frame (wpE (defs₀ (F := F)) 𝒱₀ (thr d L) none) Set.univ
          (cc0__fwd L userW (Memref.isWhole_whole _) itemW (Memref.isWhole_whole _) uembW (Memref.isWhole_whole _) iembW (Memref.isWhole_whole _) parW (Memref.isWhole_whole _) outW (Memref.isWhole_whole _)
            uidxS (Memref.isWhole_whole _) iidxS (Memref.isWhole_whole _) urowS (Memref.isWhole_whole _) irowS (Memref.isWhole_whole _) parS (Memref.isWhole_whole _) accS (Memref.isWhole_whole _) outS (Memref.isWhole_whole _)
            cc0_scratch7 cc0_scratch8 cc0_scratch9 cc0_scratch10 cc0_scoped0 cc0_scoped1 cc0_scoped2 cc0_scoped3)
          fun _ => tilePost (F := F) d L O W := by
  simp only [cc0__fwd_eq_skeleton]; unfold cc0__fwd_skel
  unfold tilePre tileOwn
  iintro ⟨Hmw, Hu, Hi, Hue, Hie, ⟨%fp, Hp⟩, ⟨%fo, Ho⟩, ⟨⟨%f0, H0⟩, ⟨%f1, H1⟩, ⟨%f2, H2⟩, ⟨%f3, H3⟩, ⟨%f4, H4⟩, ⟨%f5, H5⟩, ⟨%f6, H6⟩,
    Hs7, Hs8, Hs9, Hs10, Hc0, Hc1, Hc2, Hc3⟩, Hrest, HO⟩
  ihave HRU := (urowS_to_rows (F := F) d L f2) $$ H2
  icases HRU with ⟨RU0, RU1⟩
  ihave HRI := (irowS_to_rows (F := F) d L f3) $$ H3
  icases HRI with ⟨RI0, RI1⟩
  ihave RU0 := (Entails.of_eq (show bigSep Finset.univ (ownU (F := F) d L 0) = bigSep (Ring.rangeSet 128 0 128) (ownU (F := F) d L 0) by rw [Ring.rangeSet_univ])) $$ RU0
  ihave RU1 := (Entails.of_eq (show bigSep Finset.univ (ownU (F := F) d L 1) = bigSep (Ring.rangeSet 128 0 128) (ownU (F := F) d L 1) by rw [Ring.rangeSet_univ])) $$ RU1
  ihave RI0 := (Entails.of_eq (show bigSep Finset.univ (ownI (F := F) d L 0) = bigSep (Ring.rangeSet 128 0 128) (ownI (F := F) d L 0) by rw [Ring.rangeSet_univ])) $$ RI0
  ihave RI1 := (Entails.of_eq (show bigSep Finset.univ (ownI (F := F) d L 1) = bigSep (Ring.rangeSet 128 0 128) (ownI (F := F) d L 1) by rw [Ring.rangeSet_univ])) $$ RI1
  ihave HtU := (toksU_split d L q fue) $$ Hue
  icases HtU with ⟨TUa, TUb, TUc, TUd⟩
  ihave HtI := (toksI_split d L q fie) $$ Hie
  icases HtI with ⟨TIa, TIb, TIc, TId⟩
  imod (Transfers.batch_alloc' (Lvl := ℕ) (countersEmb (U := UU)) (thr d L) (none : HIx 1) 2048 (ownU (F := F) d L 0) (sm := SemLoc.dma cc0_scratch7.sem) (E := Set.univ)) $$ Hs7 with HB7
  imod (Transfers.batch_alloc' (Lvl := ℕ) (countersEmb (U := UU)) (thr d L) (none : HIx 1) 2048 (ownI (F := F) d L 0) (sm := SemLoc.dma cc0_scratch9.sem) (E := Set.univ)) $$ Hs9 with HB9
  imod (Transfers.batch_alloc' (Lvl := ℕ) (countersEmb (U := UU)) (thr d L) (none : HIx 1) 2048 (ownU (F := F) d L 1) (sm := SemLoc.dma cc0_scratch8.sem) (E := Set.univ)) $$ Hs8 with HB8
  imod (Transfers.batch_alloc' (Lvl := ℕ) (countersEmb (U := UU)) (thr d L) (none : HIx 1) 2048 (ownI (F := F) d L 1) (sm := SemLoc.dma cc0_scratch10.sem) (E := Set.univ)) $$ Hs10 with HB10
  repeat (sl_exec; unfold SparseCore.vectorLoadIdx)
  sl_exec
  have e2 : Scf.trips k0_t2_loop.lb k0_t2_loop.ub k0_t2_loop.st = 8 := by decide
  have e3 : Scf.trips k0_t3_loop.lb k0_t3_loop.ub k0_t3_loop.st = 8 := by decide
  rw [e2]
  try rw [e3]
  iclear RU0 RI0 TUa TIa RU1 RI1 TUb TIb Hu Hi Hp
  sl_for (chunkAt d L O W q fu fi f0 f1 fue fie) $$ [Hmw HO H0 H1 H4 H5 HB7 HB9 HB8 HB10 TUc TIc TUd TId]
  case region =>
    intro k acc
    obtain ⟨kv, hkv⟩ := k
    have e4 : Scf.trips k0_t4_loop.lb k0_t4_loop.ub k0_t4_loop.st = 4 := by decide
    match kv, hkv with
    | 0, hkv =>
      show chunkAt (F := F) d L O W q fu fi f0 f1 fue fie 0 () ⊢ wp _ _ _ _ (chunkAt (F := F) d L O W q fu fi f0 f1 fue fie 1)
      unfold chunkAt
      rw [if_pos (by decide : ((0 : ℕ) ≤ 2)), if_pos (by decide : ((0 : ℕ) ≤ 3)), if_pos (rfl : (0 : ℕ) = 0), if_pos (by decide : ((0 : ℕ) ≤ 1)), if_pos (by decide : ((1 : ℕ) ≤ 2)), if_pos (by decide : ((1 : ℕ) ≤ 3)), if_neg (by decide : ¬ ((1 : ℕ) = 0)), if_pos (by decide : ((1 : ℕ) ≤ 1))]
      iintro ⟨#Hmw, ⟨%W0, %hW0, HO⟩, H0, H1, ⟨%f4, H4⟩, ⟨%f5, H5⟩, ⟨HB7, HB9⟩, ⟨HB8, HB10⟩, ⟨TUc, TIc⟩, ⟨TUd, TId⟩⟩
      have k0_h1 : k0_cond1 ⟨0, hkv⟩ = 1#1 := by decide +revert
      have k0_h2 : ¬ k0_cond2 ⟨0, hkv⟩ = 1#1 := by decide +revert
      have k0_h3 : k0_cond3 ⟨0, hkv⟩ = 1#1 := by decide +revert
      have k0_h4 : ¬ k0_cond4 ⟨0, hkv⟩ = 1#1 := by decide +revert
      sl_exec
      sl_for (drainInv (F := F) d L 0 (SemLoc.dma cc0_scratch7.sem) (SemLoc.dma cc0_scratch9.sem) O W) $$ [HO HB7 HB9]
      case region =>
        intro k acc
        exact t5_step (F := F) d L _ _ _ _ _ _ _ _ _ _ O W k acc
      · iapply (drain_entry (F := F) d L 0 (SemLoc.dma cc0_scratch7.sem) (SemLoc.dma cc0_scratch9.sem) O W _)
        isplitr; · iexact Hmw
        isplitl [HO]
        · iexists W0; isplitr; · ipureintro; exact hW0
          iexact HO
        isplitl [HB7]; · iexact HB7
        iexact HB9
      iintro %acc' HI
      rw [show Scf.trips k0_t5_loop.lb k0_t5_loop.ub k0_t5_loop.st = 128 from k0_t5_trips]
      ihave HX := (drain_exit (F := F) d L 0 (SemLoc.dma cc0_scratch7.sem) (SemLoc.dma cc0_scratch9.sem) O W acc') $$ HI
      icases HX with ⟨-, ⟨%W1, %hW1, HO⟩, Hs7, RU0, Hs9, RI0⟩
      ihave HhU := (rows_to_halfU (F := F) d L 0 ⟨0, hkv⟩ (off144_0 hkv)) $$ RU0
      icases HhU with ⟨%gU, HhU⟩
      ihave HhI := (rows_to_halfI (F := F) d L 0 ⟨0, hkv⟩ (off158_0 hkv)) $$ RI0
      icases HhI with ⟨%gI, HhI⟩
      sl_exec
      ihave RU0 := (halfU_to_rows (F := F) d L 0 ⟨0, hkv⟩ (off144_0 hkv) _) $$ HhU
      ihave RI0 := (halfI_to_rows (F := F) d L 0 ⟨0, hkv⟩ (off158_0 hkv) _) $$ HhI
      ihave RU0 := (Entails.of_eq (show bigSep Finset.univ (ownU (F := F) d L 0) = bigSep (Ring.rangeSet 128 0 128) (ownU (F := F) d L 0) by rw [Ring.rangeSet_univ])) $$ RU0
      ihave RI0 := (Entails.of_eq (show bigSep Finset.univ (ownI (F := F) d L 0) = bigSep (Ring.rangeSet 128 0 128) (ownI (F := F) d L 0) by rw [Ring.rangeSet_univ])) $$ RI0
      imod (Transfers.batch_alloc' (Lvl := ℕ) (countersEmb (U := UU)) (thr d L) (none : HIx 1) 2048 (ownU (F := F) d L 0) (sm := SemLoc.dma cc0_scratch7.sem) (E := Set.univ)) $$ Hs7 with HB7
      imod (Transfers.batch_alloc' (Lvl := ℕ) (countersEmb (U := UU)) (thr d L) (none : HIx 1) 2048 (ownI (F := F) d L 0) (sm := SemLoc.dma cc0_scratch9.sem) (E := Set.univ)) $$ Hs9 with HB9
      sl_exec
      rw [show Scf.trips k0_t11_loop.lb k0_t11_loop.ub k0_t11_loop.st = 8 by decide]
      iclear RU0 RI0 TUc TIc
      sl_step
      isplitr; · iexact Hmw
      isplitl [HO]
      · iexists W1; isplitr; · ipureintro; exact hW1
        iexact HO
      isplitl [H0]; · iexact H0
      isplitl [H1]; · iexact H1
      isplitl [H4]; · iexists _; iexact H4
      isplitl [H5]; · iexists _; iexact H5
      isplitl [HB7 HB9]
      · isplitl [HB7]; · iexact HB7
        iexact HB9
      isplitl [HB8 HB10]
      · isplitl [HB8]; · iexact HB8
        iexact HB10
      isplitr; · iempintro
      isplitl [TUd]; · iexact TUd
      iexact TId
    | 1, hkv =>
      show chunkAt (F := F) d L O W q fu fi f0 f1 fue fie 1 () ⊢ wp _ _ _ _ (chunkAt (F := F) d L O W q fu fi f0 f1 fue fie 2)
      unfold chunkAt
      rw [if_pos (by decide : ((1 : ℕ) ≤ 2)), if_pos (by decide : ((1 : ℕ) ≤ 3)), if_neg (by decide : ¬ ((1 : ℕ) = 0)), if_pos (by decide : ((1 : ℕ) ≤ 1)), if_pos (by decide : ((2 : ℕ) ≤ 2)), if_pos (by decide : ((2 : ℕ) ≤ 3)), if_neg (by decide : ¬ ((2 : ℕ) = 0)), if_neg (by decide : ¬ ((2 : ℕ) ≤ 1))]
      iintro ⟨#Hmw, ⟨%W0, %hW0, HO⟩, H0, H1, ⟨%f4, H4⟩, ⟨%f5, H5⟩, ⟨HB7, HB9⟩, ⟨HB8, HB10⟩, -, ⟨TUd, TId⟩⟩
      have k0_h1 : ¬ k0_cond1 ⟨1, hkv⟩ = 1#1 := by decide +revert
      have k0_h2 : k0_cond2 ⟨1, hkv⟩ = 1#1 := by decide +revert
      have k0_h3 : ¬ k0_cond3 ⟨1, hkv⟩ = 1#1 := by decide +revert
      have k0_h4 : k0_cond4 ⟨1, hkv⟩ = 1#1 := by decide +revert
      sl_exec
      sl_for (drainInv (F := F) d L 1 (SemLoc.dma cc0_scratch8.sem) (SemLoc.dma cc0_scratch10.sem) O W) $$ [HO HB8 HB10]
      case region =>
        intro k acc
        exact t6_step (F := F) d L _ _ _ _ _ _ _ _ _ _ O W k acc
      · iapply (drain_entry (F := F) d L 1 (SemLoc.dma cc0_scratch8.sem) (SemLoc.dma cc0_scratch10.sem) O W _)
        isplitr; · iexact Hmw
        isplitl [HO]
        · iexists W0; isplitr; · ipureintro; exact hW0
          iexact HO
        isplitl [HB8]; · iexact HB8
        iexact HB10
      iintro %acc' HI
      rw [show Scf.trips k0_t6_loop.lb k0_t6_loop.ub k0_t6_loop.st = 128 from k0_t6_trips]
      ihave HX := (drain_exit (F := F) d L 1 (SemLoc.dma cc0_scratch8.sem) (SemLoc.dma cc0_scratch10.sem) O W acc') $$ HI
      icases HX with ⟨-, ⟨%W1, %hW1, HO⟩, Hs8, RU1, Hs10, RI1⟩
      ihave HhU := (rows_to_halfU (F := F) d L 1 ⟨1, hkv⟩ (off144_1 hkv)) $$ RU1
      icases HhU with ⟨%gU, HhU⟩
      ihave HhI := (rows_to_halfI (F := F) d L 1 ⟨1, hkv⟩ (off158_1 hkv)) $$ RI1
      icases HhI with ⟨%gI, HhI⟩
      sl_exec
      ihave RU1 := (halfU_to_rows (F := F) d L 1 ⟨1, hkv⟩ (off144_1 hkv) _) $$ HhU
      ihave RI1 := (halfI_to_rows (F := F) d L 1 ⟨1, hkv⟩ (off158_1 hkv) _) $$ HhI
      ihave RU1 := (Entails.of_eq (show bigSep Finset.univ (ownU (F := F) d L 1) = bigSep (Ring.rangeSet 128 0 128) (ownU (F := F) d L 1) by rw [Ring.rangeSet_univ])) $$ RU1
      ihave RI1 := (Entails.of_eq (show bigSep Finset.univ (ownI (F := F) d L 1) = bigSep (Ring.rangeSet 128 0 128) (ownI (F := F) d L 1) by rw [Ring.rangeSet_univ])) $$ RI1
      imod (Transfers.batch_alloc' (Lvl := ℕ) (countersEmb (U := UU)) (thr d L) (none : HIx 1) 2048 (ownU (F := F) d L 1) (sm := SemLoc.dma cc0_scratch8.sem) (E := Set.univ)) $$ Hs8 with HB8
      imod (Transfers.batch_alloc' (Lvl := ℕ) (countersEmb (U := UU)) (thr d L) (none : HIx 1) 2048 (ownI (F := F) d L 1) (sm := SemLoc.dma cc0_scratch10.sem) (E := Set.univ)) $$ Hs10 with HB10
      sl_exec
      rw [show Scf.trips k0_t12_loop.lb k0_t12_loop.ub k0_t12_loop.st = 8 by decide]
      iclear RU1 RI1 TUd TId
      sl_step
      isplitr; · iexact Hmw
      isplitl [HO]
      · iexists W1; isplitr; · ipureintro; exact hW1
        iexact HO
      isplitl [H0]; · iexact H0
      isplitl [H1]; · iexact H1
      isplitl [H4]; · iexists _; iexact H4
      isplitl [H5]; · iexists _; iexact H5
      isplitl [HB7 HB9]
      · isplitl [HB7]; · iexact HB7
        iexact HB9
      isplitl [HB8 HB10]
      · isplitl [HB8]; · iexact HB8
        iexact HB10
      isplitr; · iempintro
      iempintro
    | 2, hkv =>
      show chunkAt (F := F) d L O W q fu fi f0 f1 fue fie 2 () ⊢ wp _ _ _ _ (chunkAt (F := F) d L O W q fu fi f0 f1 fue fie 3)
      unfold chunkAt
      rw [if_pos (by decide : ((2 : ℕ) ≤ 2)), if_pos (by decide : ((2 : ℕ) ≤ 3)), if_neg (by decide : ¬ ((2 : ℕ) = 0)), if_neg (by decide : ¬ ((2 : ℕ) ≤ 1)), if_neg (by decide : ¬ ((3 : ℕ) ≤ 2)), if_pos (by decide : ((3 : ℕ) ≤ 3)), if_neg (by decide : ¬ ((3 : ℕ) = 0)), if_neg (by decide : ¬ ((3 : ℕ) ≤ 1))]
      iintro ⟨#Hmw, ⟨%W0, %hW0, HO⟩, H0, H1, ⟨%f4, H4⟩, ⟨%f5, H5⟩, ⟨HB7, HB9⟩, ⟨HB8, HB10⟩, -, -⟩
      have k0_h1 : k0_cond1 ⟨2, hkv⟩ = 1#1 := by decide +revert
      have k0_h2 : ¬ k0_cond2 ⟨2, hkv⟩ = 1#1 := by decide +revert
      have k0_h3 : ¬ k0_cond3 ⟨2, hkv⟩ = 1#1 := by decide +revert
      have k0_h4 : ¬ k0_cond4 ⟨2, hkv⟩ = 1#1 := by decide +revert
      sl_exec
      sl_for (drainInv (F := F) d L 0 (SemLoc.dma cc0_scratch7.sem) (SemLoc.dma cc0_scratch9.sem) O W) $$ [HO HB7 HB9]
      case region =>
        intro k acc
        exact t5_step (F := F) d L _ _ _ _ _ _ _ _ _ _ O W k acc
      · iapply (drain_entry (F := F) d L 0 (SemLoc.dma cc0_scratch7.sem) (SemLoc.dma cc0_scratch9.sem) O W _)
        isplitr; · iexact Hmw
        isplitl [HO]
        · iexists W0; isplitr; · ipureintro; exact hW0
          iexact HO
        isplitl [HB7]; · iexact HB7
        iexact HB9
      iintro %acc' HI
      rw [show Scf.trips k0_t5_loop.lb k0_t5_loop.ub k0_t5_loop.st = 128 from k0_t5_trips]
      ihave HX := (drain_exit (F := F) d L 0 (SemLoc.dma cc0_scratch7.sem) (SemLoc.dma cc0_scratch9.sem) O W acc') $$ HI
      icases HX with ⟨-, ⟨%W1, %hW1, HO⟩, Hs7, RU0, Hs9, RI0⟩
      ihave HhU := (rows_to_halfU (F := F) d L 0 ⟨2, hkv⟩ (off144_2 hkv)) $$ RU0
      icases HhU with ⟨%gU, HhU⟩
      ihave HhI := (rows_to_halfI (F := F) d L 0 ⟨2, hkv⟩ (off158_2 hkv)) $$ RI0
      icases HhI with ⟨%gI, HhI⟩
      sl_exec
      ihave RU0 := (halfU_to_rows (F := F) d L 0 ⟨2, hkv⟩ (off144_2 hkv) _) $$ HhU
      ihave RI0 := (halfI_to_rows (F := F) d L 0 ⟨2, hkv⟩ (off158_2 hkv) _) $$ HhI
      sl_step
      isplitr; · iexact Hmw
      isplitl [HO]
      · iexists W1; isplitr; · ipureintro; exact hW1
        iexact HO
      isplitl [H0]; · iexact H0
      isplitl [H1]; · iexact H1
      isplitl [H4]; · iexists _; iexact H4
      isplitl [H5]; · iexists _; iexact H5
      isplitl [Hs7 Hs9 RU0 RI0]
      · isplitl [Hs7]; · iexact Hs7
        isplitl [Hs9]; · iexact Hs9
        isplitl [RU0]; · iexact RU0
        iexact RI0
      isplitl [HB8 HB10]
      · isplitl [HB8]; · iexact HB8
        iexact HB10
      isplitr; · iempintro
      iempintro
    | 3, hkv =>
      show chunkAt (F := F) d L O W q fu fi f0 f1 fue fie 3 () ⊢ wp _ _ _ _ (chunkAt (F := F) d L O W q fu fi f0 f1 fue fie 4)
      unfold chunkAt
      rw [if_neg (by decide : ¬ ((3 : ℕ) ≤ 2)), if_pos (by decide : ((3 : ℕ) ≤ 3)), if_neg (by decide : ¬ ((3 : ℕ) = 0)), if_neg (by decide : ¬ ((3 : ℕ) ≤ 1)), if_neg (by decide : ¬ ((4 : ℕ) ≤ 2)), if_neg (by decide : ¬ ((4 : ℕ) ≤ 3)), if_neg (by decide : ¬ ((4 : ℕ) = 0)), if_neg (by decide : ¬ ((4 : ℕ) ≤ 1))]
      iintro ⟨#Hmw, ⟨%W0, %hW0, HO⟩, H0, H1, ⟨%f4, H4⟩, ⟨%f5, H5⟩, ⟨Hs7, Hs9, RU0, RI0⟩, ⟨HB8, HB10⟩, -, -⟩
      have k0_h1 : ¬ k0_cond1 ⟨3, hkv⟩ = 1#1 := by decide +revert
      have k0_h2 : k0_cond2 ⟨3, hkv⟩ = 1#1 := by decide +revert
      have k0_h3 : ¬ k0_cond3 ⟨3, hkv⟩ = 1#1 := by decide +revert
      have k0_h4 : ¬ k0_cond4 ⟨3, hkv⟩ = 1#1 := by decide +revert
      sl_exec
      sl_for (drainInv (F := F) d L 1 (SemLoc.dma cc0_scratch8.sem) (SemLoc.dma cc0_scratch10.sem) O W) $$ [HO HB8 HB10]
      case region =>
        intro k acc
        exact t6_step (F := F) d L _ _ _ _ _ _ _ _ _ _ O W k acc
      · iapply (drain_entry (F := F) d L 1 (SemLoc.dma cc0_scratch8.sem) (SemLoc.dma cc0_scratch10.sem) O W _)
        isplitr; · iexact Hmw
        isplitl [HO]
        · iexists W0; isplitr; · ipureintro; exact hW0
          iexact HO
        isplitl [HB8]; · iexact HB8
        iexact HB10
      iintro %acc' HI
      rw [show Scf.trips k0_t6_loop.lb k0_t6_loop.ub k0_t6_loop.st = 128 from k0_t6_trips]
      ihave HX := (drain_exit (F := F) d L 1 (SemLoc.dma cc0_scratch8.sem) (SemLoc.dma cc0_scratch10.sem) O W acc') $$ HI
      icases HX with ⟨-, ⟨%W1, %hW1, HO⟩, Hs8, RU1, Hs10, RI1⟩
      ihave HhU := (rows_to_halfU (F := F) d L 1 ⟨3, hkv⟩ (off144_3 hkv)) $$ RU1
      icases HhU with ⟨%gU, HhU⟩
      ihave HhI := (rows_to_halfI (F := F) d L 1 ⟨3, hkv⟩ (off158_3 hkv)) $$ RI1
      icases HhI with ⟨%gI, HhI⟩
      sl_exec
      ihave RU1 := (halfU_to_rows (F := F) d L 1 ⟨3, hkv⟩ (off144_3 hkv) _) $$ HhU
      ihave RI1 := (halfI_to_rows (F := F) d L 1 ⟨3, hkv⟩ (off158_3 hkv) _) $$ HhI
      sl_step
      isplitr; · iexact Hmw
      isplitl [HO]
      · iexists W1; isplitr; · ipureintro; exact hW1
        iexact HO
      isplitl [H0]; · iexact H0
      isplitl [H1]; · iexact H1
      isplitl [H4]; · iexists _; iexact H4
      isplitl [H5]; · iexists _; iexact H5
      isplitl [Hs7 Hs9 RU0 RI0]
      · isplitl [Hs7]; · iexact Hs7
        isplitl [Hs9]; · iexact Hs9
        isplitl [RU0]; · iexact RU0
        iexact RI0
      isplitl [Hs8 Hs10 RU1 RI1]
      · isplitl [Hs8]; · iexact Hs8
        isplitl [Hs10]; · iexact Hs10
        isplitl [RU1]; · iexact RU1
        iexact RI1
      isplitr; · iempintro
      iempintro
    | n + 4, hkv => exact absurd hkv (by rw [e4]; omega)
  · unfold chunkAt
    rw [if_pos (by decide : (0 : ℕ) ≤ 2), if_pos (by decide : (0 : ℕ) ≤ 3), if_pos rfl, if_pos (by decide : (0 : ℕ) ≤ 1)]
    isplitl [Hmw]; · iexact Hmw
    isplitl [HO]
    · iexists _; isplitr
      rotate_left
      · iexact HO
      · ipureintro; intro p hp
        rcases Finset.mem_insert.mp hp with hp | hp; · exact Or.inr (by rw [hp]; rfl)
        rcases Finset.mem_insert.mp hp with hp | hp; · exact Or.inr (by rw [hp]; rfl)
        rcases Finset.mem_insert.mp hp with hp | hp; · exact Or.inr (by rw [hp]; rfl)
        exact .inl hp
    isplitl [H0]; · iexact H0
    isplitl [H1]; · iexact H1
    isplitl [H4]; · iexists _; iexact H4
    isplitl [H5]; · iexists _; iexact H5
    isplitl [HB7 HB9]; · isplitl [HB7]; · iexact HB7
                         iexact HB9
    isplitl [HB8 HB10]; · isplitl [HB8]; · iexact HB8
                          iexact HB10
    isplitl [TUc TIc]; · isplitl [TUc]; · iexact TUc
                         iexact TIc
    isplitl [TUd]; · iexact TUd
    iexact TId
  iintro %_ HI
  have e4 : Scf.trips k0_t4_loop.lb k0_t4_loop.ub k0_t4_loop.st = 4 := by decide
  rw [e4]
  unfold chunkAt
  rw [if_neg (by decide : ¬ (4 : ℕ) ≤ 2), if_neg (by decide : ¬ (4 : ℕ) ≤ 3), if_neg (by decide : ¬ (4 : ℕ) = 0), if_neg (by decide : ¬ (4 : ℕ) ≤ 1)]
  icases HI with ⟨Hmw, ⟨%W', %hW', HO⟩, H0, H1, ⟨%f4', H4⟩, ⟨%f5', H5⟩, ⟨Hs7, Hs9, RU0, RI0⟩, ⟨Hs8, Hs10, RU1, RI1⟩, -, -⟩
  repeat (sl_exec; unfold SparseCore.vectorLoadIdx)
  sl_exec
  sl_step
  iclear Hmw
  unfold tilePost tileOwn
  isplitl [Ho]; · iexists _; iexact Ho
  isplitl [H0 H1 RU0 RU1 RI0 RI1 H4 H5 H6 Hs7 Hs8 Hs9 Hs10 Hc0 Hc1 Hc2 Hc3]
  · isplitl [H0]; · iexists _; iexact H0
    isplitl [H1]; · iexists _; iexact H1
    isplitl [RU0 RU1]
    · iapply (rows_to_urowS (F := F) d L)
      isplitl [RU0]; · iexact RU0
      iexact RU1
    isplitl [RI0 RI1]
    · iapply (rows_to_irowS (F := F) d L)
      isplitl [RI0]; · iexact RI0
      iexact RI1
    isplitl [H4]; · iexists _; iexact H4
    isplitl [H5]; · iexists _; iexact H5
    isplitl [H6]; · iexists _; iexact H6
    isplitl [Hs7]; · iexact Hs7
    isplitl [Hs8]; · iexact Hs8
    isplitl [Hs9]; · iexact Hs9
    isplitl [Hs10]; · iexact Hs10
    isplitl [Hc0]; · iexact Hc0
    isplitl [Hc1]; · iexact Hc1
    isplitl [Hc2]; · iexact Hc2
    iexact Hc3
  isplitl [Hrest]; · iexact Hrest
  iexists _; isplitr
  rotate_left
  · iexact HO
  · ipureintro; intro p hp
    rcases Finset.mem_insert.mp hp with hp | hp; · exact Or.inr (by rw [hp]; rfl)
    exact hW' p hp

end Tile

/-! ## The tile obligation -/

section Obl

variable (m : (ℓ : Loc nD τ sig) → Buf (Elt F) ℓ)

theorem tile_body [∀ e, Nonempty (Elt F e)] : TileBody (F := F) m := by
  intro hpre d L O W hO
  have hfu : ∀ b, ((m (a0Loc d) : S16384.Idx → BitVec 32) b).toNat < 1000000 := fun b => (hpre d b).1
  have hfi : ∀ b, ((m (a1Loc d) : S16384.Idx → BitVec 32) b).toNat < 100000 := fun b => (hpre d b).2
  refine BIBase.Entails.trans ?_ ((tile_run (F := F) d L O W (qT (L 0).val (L 1).val) (m (a0Loc d)) (m (a1Loc d)) hfu hfi (m (a2Loc d)) (m (a3Loc d))).trans
    (wp_mono frame _ _ fun _ => ?_))
  · unfold tilePre
    iintro ⟨#Hlv, Hgo, Hsb, Hss, HO⟩
    ihave Hmw := ((K (F := F)).mayWaits_none (thr := thr d L) hO) $$ Hlv
    ihave Hg := (go_open m d L) $$ Hgo
    icases Hg with ⟨Hu, Hi, Hue, Hie, Hp, Ho⟩
    ihave Hs := (scoped_open (F := F) d L) $$ [Hsb Hss]
    · isplitl [Hsb]; · iexact Hsb
      iexact Hss
    icases Hs with ⟨Hown, Hrest⟩
    isplitl [Hmw]; · iexact Hmw
    isplitl [Hu]; · iexact Hu
    isplitl [Hi]; · iexact Hi
    isplitl [Hue]; · iexact Hue
    isplitl [Hie]; · iexact Hie
    isplitl [Hp]; · iexact Hp
    isplitl [Ho]; · iexact Ho
    isplitl [Hown]; · iexact Hown
    isplitl [Hrest]; · iexact Hrest
    iexact HO
  · unfold tilePost
    iintro ⟨Ho, Hown, Hrest, HO⟩
    ihave Hs := (scoped_close (F := F) d L) $$ [Hown Hrest]
    · isplitl [Hown]; · iexact Hown
      iexact Hrest
    icases Hs with ⟨Hsb, Hss⟩
    isplitl [Ho]; · iapply (td_close (F := F) d L); iexact Ho
    isplitl [Hsb]; · iexact Hsb
    isplitl [Hss]; · iexact Hss
    iexact HO

end Obl

end Cert.Proof.KI

end
-- ==== Proof.KOwnB.lean ====
/-
  A tile's own storage and its share of the arrays, in the two spellings the proof uses.

  Between tasks a vector subcore's storage is stated as one assertion over everything the launch deals it: each of its
  own buffers whole at some contents, each of its own semaphore cells at zero. The kernel's function touches seven of
  those buffers (the two index lists, the two row buffers, the parameters, the accumulator, the result block) and eight
  of those cells (the DMA semaphores of its copies); opening the two big conjunctions at those fifteen members gives
  them by name beside the untouched rest, and closing puts them back. Likewise what a tile is handed — a read share of
  each argument array whole and its own 512 entries of the result — is the same assertion whether the arrays are
  named as the launch names them or through the kernel function's own references to them.
-/
import proofs.«214512_g89103391522852_cont_sun_m_1157_25_alg».proof.Proof.KPayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

/-! ## Distinct names are distinct buffers and cells -/

theorem ref_ne (L : grid0.Coords) {a b : Ref sig .scVector} (h : a ≠ b) :
    ((Proc.scVector (cV L) (jV L)).devRef a : DevRef τ sig) ≠ (Proc.scVector (cV L) (jV L)).devRef b :=
  fun e => h (Proc.devRef_injective _ e)

theorem cell_ne (d : Dev nD) (L : grid0.Coords) {a b : DmaSem sig} (h : a ≠ b) :
    ((thr d L, SemLoc.dma a) : GSem nD τ sig) ≠ (thr d L, SemLoc.dma b) :=
  fun e => h (SemLoc.dma.inj (Prod.mk.inj e).2)

/-! ## The tile's own storage by name -/

/-- The tile's own buffers other than the seven the kernel's function is given. -/
def bufRest (L : grid0.Coords) : Finset (DevRef τ sig) :=
  ((((((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))

/-- The tile's own semaphore cells other than the eight the kernel's function is given. -/
def semRest (d : Dev nD) (L : grid0.Coords) : Finset (GSem nD τ sig) :=
  (((((((((ownCells (sig := sig) (thr d L)).erase ((thr d L, SemLoc.dma cc0_scratch7.sem) : GSem nD τ sig)).erase ((thr d L, SemLoc.dma cc0_scratch8.sem) : GSem nD τ sig)).erase ((thr d L, SemLoc.dma cc0_scratch9.sem) : GSem nD τ sig)).erase ((thr d L, SemLoc.dma cc0_scratch10.sem) : GSem nD τ sig)).erase ((thr d L, SemLoc.dma cc0_scoped0.sem) : GSem nD τ sig)).erase ((thr d L, SemLoc.dma cc0_scoped1.sem) : GSem nD τ sig)).erase ((thr d L, SemLoc.dma cc0_scoped2.sem) : GSem nD τ sig)).erase ((thr d L, SemLoc.dma cc0_scoped3.sem) : GSem nD τ sig))

/-- The seven scratch buffers whole at some contents and the eight DMA semaphores at zero. -/
def tileOwn (d : Dev nD) (L : grid0.Coords) : sProp 𝕄 :=
  iprop((∃ f, (uidxS).view.loc (thr d L) ↦{fullShare} f) ∗ (∃ f, (iidxS).view.loc (thr d L) ↦{fullShare} f) ∗ (∃ f, (urowS).view.loc (thr d L) ↦{fullShare} f) ∗ (∃ f, (irowS).view.loc (thr d L) ↦{fullShare} f) ∗ (∃ f, (parS).view.loc (thr d L) ↦{fullShare} f) ∗ (∃ f, (accS).view.loc (thr d L) ↦{fullShare} f) ∗ (∃ f, (outS).view.loc (thr d L) ↦{fullShare} f)
    ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0)

/-- The rest of the tile's own storage: its other buffers whole at some contents, its other cells at zero. -/
def tileRestOwn (d : Dev nD) (L : grid0.Coords) : sProp 𝕄 :=
  iprop((bigSep (bufRest L) fun b => iprop(∃ f, (((thr d L).1, b) : Loc nD τ sig) ↦{fullShare} f))
    ∗ bigSep (semRest d L) fun g => semVal g 0)

/-- The tile's own cells at zero: the eight by name, and the rest. -/
theorem ownSems0_open (d : Dev nD) (L : grid0.Coords) :
    (ownSems0 (thr d L) : sProp 𝕄)
      = iprop(semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
          ∗ bigSep (semRest d L) fun g => semVal g 0) := by
  unfold SparseCore.Cfg.ownSems0 semRest
  rw [SparseCore.bigSep_erase' ((mem_ownCells (g := ((thr d L, SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨cell_ne d L (show (cc0_scratch8.sem : DmaSem sig) ≠ cc0_scratch7.sem by decide), (mem_ownCells (g := ((thr d L, SemLoc.dma cc0_scratch8.sem) : GSem nD τ sig))).mpr ⟨rfl, by show (SemLoc.dma cc0_scratch8.sem : SemLoc sig).isScoped .scVector = true; decide⟩⟩),
    SparseCore.bigSep_erase' (Finset.mem_erase.mpr ⟨cell_ne d L (show (cc0_scratch9.sem : DmaSem sig) ≠ cc0_scratch8.sem by decide), Finset.mem_erase.mpr ⟨cell_ne d L (show (cc0_scratch9.sem : DmaSem sig) ≠ cc0_scratch7.sem by decide), (mem_ownCells (g := ((thr d L, SemLoc.dma cc0_scratch9.sem) : GSem nD τ sig))).mpr ⟨rfl, by show (SemLoc.dma cc0_scratch9.sem : SemLoc sig).isScoped .scVector = true; decide⟩⟩⟩),
    SparseCore.bigSep_erase' (Finset.mem_erase.mpr ⟨cell_ne d L (show (cc0_scratch10.sem : DmaSem sig) ≠ cc0_scratch9.sem by decide), Finset.mem_erase.mpr ⟨cell_ne d L (show (cc0_scratch10.sem : DmaSem sig) ≠ cc0_scratch8.sem by decide), Finset.mem_erase.mpr ⟨cell_ne d L (show (cc0_scratch10.sem : DmaSem sig) ≠ cc0_scratch7.sem by decide), (mem_ownCells (g := ((thr d L, SemLoc.dma cc0_scratch10.sem) : GSem nD τ sig))).mpr ⟨rfl, by show (SemLoc.dma cc0_scratch10.sem : SemLoc sig).isScoped .scVector = true; decide⟩⟩⟩⟩),
    SparseCore.bigSep_erase' (Finset.mem_erase.mpr ⟨cell_ne d L (show (cc0_scoped0.sem : DmaSem sig) ≠ cc0_scratch10.sem by decide), Finset.mem_erase.mpr ⟨cell_ne d L (show (cc0_scoped0.sem : DmaSem sig) ≠ cc0_scratch9.sem by decide), Finset.mem_erase.mpr ⟨cell_ne d L (show (cc0_scoped0.sem : DmaSem sig) ≠ cc0_scratch8.sem by decide), Finset.mem_erase.mpr ⟨cell_ne d L (show (cc0_scoped0.sem : DmaSem sig) ≠ cc0_scratch7.sem by decide), (mem_ownCells (g := ((thr d L, SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch10.sem by decide), Finset.mem_erase.mpr ⟨cell_ne d L (show (cc0_scoped1.sem : DmaSem sig) ≠ cc0_scratch9.sem by decide), Finset.mem_erase.mpr ⟨cell_ne d L (show (cc0_scoped1.sem : DmaSem sig) ≠ cc0_scratch8.sem by decide), Finset.mem_erase.mpr ⟨cell_ne d L (show (cc0_scoped1.sem : DmaSem sig) ≠ cc0_scratch7.sem by decide), (mem_ownCells (g := ((thr d L, SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨cell_ne d L (show (cc0_scoped2.sem : DmaSem sig) ≠ cc0_scoped1.sem by decide), Finset.mem_erase.mpr ⟨cell_ne d L (show (cc0_scoped2.sem : DmaSem sig) ≠ cc0_scoped0.sem by decide), Finset.mem_erase.mpr ⟨cell_ne d L (show (cc0_scoped2.sem : DmaSem sig) ≠ cc0_scratch10.sem by decide), Finset.mem_erase.mpr ⟨cell_ne d L (show (cc0_scoped2.sem : DmaSem sig) ≠ cc0_scratch9.sem by decide), Finset.mem_erase.mpr ⟨cell_ne d L (show (cc0_scoped2.sem : DmaSem sig) ≠ cc0_scratch8.sem by decide), Finset.mem_erase.mpr ⟨cell_ne d L (show (cc0_scoped2.sem : DmaSem sig) ≠ cc0_scratch7.sem by decide), (mem_ownCells (g := ((thr d L, SemLoc.dma cc0_scoped2.sem) : GSem nD τ sig))).mpr ⟨rfl, by show (SemLoc.dma cc0_scoped2.sem : SemLoc sig).isScoped .scVector = true; decide⟩⟩⟩⟩⟩⟩⟩),
    SparseCore.bigSep_erase' (Finset.mem_erase.mpr ⟨cell_ne d L (show (cc0_scoped3.sem : DmaSem sig) ≠ cc0_scoped2.sem by decide), Finset.mem_erase.mpr ⟨cell_ne d L (show (cc0_scoped3.sem : DmaSem sig) ≠ cc0_scoped1.sem by decide), Finset.mem_erase.mpr ⟨cell_ne d L (show (cc0_scoped3.sem : DmaSem sig) ≠ cc0_scoped0.sem by decide), Finset.mem_erase.mpr ⟨cell_ne d L (show (cc0_scoped3.sem : DmaSem sig) ≠ cc0_scratch10.sem by decide), Finset.mem_erase.mpr ⟨cell_ne d L (show (cc0_scoped3.sem : DmaSem sig) ≠ cc0_scratch9.sem by decide), Finset.mem_erase.mpr ⟨cell_ne d L (show (cc0_scoped3.sem : DmaSem sig) ≠ cc0_scratch8.sem by decide), Finset.mem_erase.mpr ⟨cell_ne d L (show (cc0_scoped3.sem : DmaSem sig) ≠ cc0_scratch7.sem by decide), (mem_ownCells (g := ((thr d L, SemLoc.dma cc0_scoped3.sem) : GSem nD τ sig))).mpr ⟨rfl, by show (SemLoc.dma cc0_scoped3.sem : SemLoc sig).isScoped .scVector = true; decide⟩⟩⟩⟩⟩⟩⟩⟩)]

/-- The tile's own buffers at some contents: the seven by name, and the rest. -/
theorem ownBufs_open (d : Dev nD) (L : grid0.Coords) :
    (ownBufs (thr d L) : sProp 𝕄)
      = iprop((∃ f, (uidxS).view.loc (thr d L) ↦{fullShare} f) ∗ (∃ f, (iidxS).view.loc (thr d L) ↦{fullShare} f) ∗ (∃ f, (urowS).view.loc (thr d L) ↦{fullShare} f) ∗ (∃ f, (irowS).view.loc (thr d L) ↦{fullShare} f) ∗ (∃ f, (parS).view.loc (thr d L) ↦{fullShare} f) ∗ (∃ f, (accS).view.loc (thr d L) ↦{fullShare} f) ∗ (∃ f, (outS).view.loc (thr d L) ↦{fullShare} f)
          ∗ bigSep (bufRest L) fun b => iprop(∃ f, (((thr d L).1, b) : Loc nD τ sig) ↦{fullShare} f)) := by
  unfold SparseCore.Cfg.ownBufs bufRest
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨ref_ne L (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨ref_ne L (show (cc0_scratch2 : Ref sig .scVector) ≠ cc0_scratch1 by decide), Finset.mem_erase.mpr ⟨ref_ne L (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨ref_ne L (show (cc0_scratch3 : Ref sig .scVector) ≠ cc0_scratch2 by decide), Finset.mem_erase.mpr ⟨ref_ne L (show (cc0_scratch3 : Ref sig .scVector) ≠ cc0_scratch1 by decide), Finset.mem_erase.mpr ⟨ref_ne L (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨ref_ne L (show (cc0_scratch4 : Ref sig .scVector) ≠ cc0_scratch3 by decide), Finset.mem_erase.mpr ⟨ref_ne L (show (cc0_scratch4 : Ref sig .scVector) ≠ cc0_scratch2 by decide), Finset.mem_erase.mpr ⟨ref_ne L (show (cc0_scratch4 : Ref sig .scVector) ≠ cc0_scratch1 by decide), Finset.mem_erase.mpr ⟨ref_ne L (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨ref_ne L (show (cc0_scratch5 : Ref sig .scVector) ≠ cc0_scratch4 by decide), Finset.mem_erase.mpr ⟨ref_ne L (show (cc0_scratch5 : Ref sig .scVector) ≠ cc0_scratch3 by decide), Finset.mem_erase.mpr ⟨ref_ne L (show (cc0_scratch5 : Ref sig .scVector) ≠ cc0_scratch2 by decide), Finset.mem_erase.mpr ⟨ref_ne L (show (cc0_scratch5 : Ref sig .scVector) ≠ cc0_scratch1 by decide), Finset.mem_erase.mpr ⟨ref_ne L (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨ref_ne L (show (cc0_scratch6 : Ref sig .scVector) ≠ cc0_scratch5 by decide), Finset.mem_erase.mpr ⟨ref_ne L (show (cc0_scratch6 : Ref sig .scVector) ≠ cc0_scratch4 by decide), Finset.mem_erase.mpr ⟨ref_ne L (show (cc0_scratch6 : Ref sig .scVector) ≠ cc0_scratch3 by decide), Finset.mem_erase.mpr ⟨ref_ne L (show (cc0_scratch6 : Ref sig .scVector) ≠ cc0_scratch2 by decide), Finset.mem_erase.mpr ⟨ref_ne L (show (cc0_scratch6 : Ref sig .scVector) ≠ cc0_scratch1 by decide), Finset.mem_erase.mpr ⟨ref_ne L (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩)]

/-- A tile's storage between tasks, opened at the fifteen members the kernel's function is given. -/
theorem scoped_open (d : Dev nD) (L : grid0.Coords) :
    iprop(scopedBufs (thr d L) ∗ scopedSems0 (thr d L)) ⊢ (iprop(tileOwn d L ∗ tileRestOwn d L) : sProp 𝕄) := by
  rw [(K (F := F)).scopedBufs_V facts d (cV L) (jV L), SparseCore.Cfg.scopedSems0_V (Val := Elt F) d (cV L) (jV L),
    ownSems0_open, ownBufs_open]
  unfold tileOwn tileRestOwn
  iintro ⟨⟨H0, H1, H2, H3, H4, H5, H6, Hbr⟩, S7, S8, S9, S10, C0, C1, C2, C3, Hsr⟩
  isplitl [H0 H1 H2 H3 H4 H5 H6 S7 S8 S9 S10 C0 C1 C2 C3]
  · iframe
  · iframe

/-- The fifteen members and the rest put back together. -/
theorem scoped_close (d : Dev nD) (L : grid0.Coords) :
    (iprop(tileOwn d L ∗ tileRestOwn d L) : sProp 𝕄) ⊢ iprop(scopedBufs (thr d L) ∗ scopedSems0 (thr d L)) := by
  rw [(K (F := F)).scopedBufs_V facts d (cV L) (jV L), SparseCore.Cfg.scopedSems0_V (Val := Elt F) d (cV L) (jV L),
    ownSems0_open, ownBufs_open]
  unfold tileOwn tileRestOwn
  iintro ⟨⟨H0, H1, H2, H3, H4, H5, H6, S7, S8, S9, S10, C0, C1, C2, C3⟩, Hbr, Hsr⟩
  isplitl [H0 H1 H2 H3 H4 H5 H6 Hbr]
  · iframe
  · iframe

/-! ## What a tile is handed, through the kernel function's own references -/

variable (m : (ℓ : Loc nD τ sig) → Buf (Elt F) ℓ)

/-- What the tile is handed, with each array named as the kernel's function names it. -/
theorem go_open (d : Dev nD) (L : grid0.Coords) :
    goRes m d L ⊢ (iprop(((userW).view.loc (thr d L) ↦{qT (L 0).val (L 1).val} m (a0Loc d))
      ∗ ((itemW).view.loc (thr d L) ↦{qT (L 0).val (L 1).val} m (a1Loc d))
      ∗ ((uembW).view.loc (thr d L) ↦{qT (L 0).val (L 1).val} m (a2Loc d))
      ∗ ((iembW).view.loc (thr d L) ↦{qT (L 0).val (L 1).val} m (a3Loc d))
      ∗ (∃ fp, (parW).view.loc (thr d L) ↦{qT (L 0).val (L 1).val} fp)
      ∗ (∃ fo, (outSl L).view.loc (thr d L) ↦[(outSl L).view.set]{fullShare} fo)) : sProp 𝕄) := by
  unfold goRes
  exact Entails.rfl

/-- The tile's 512 result entries, named through the kernel function's slice, are what it hands back. -/
theorem td_close (d : Dev nD) (L : grid0.Coords) :
    (iprop(∃ fo, (outSl L).view.loc (thr d L) ↦[(outSl L).view.set]{fullShare} fo) : sProp 𝕄) ⊢ tdRes d L := by
  unfold tdRes
  exact Entails.rfl

end Cert.Proof.KB

end
-- ==== Proof.KFactsB.lean ====
/-
  Words the tile reads back out of its index scratch are words of the index array.

  The tile fills its 512-word index scratch, whole, from a slice of an index array, and later loads sixteen words of it
  at a time and takes single lanes of what it loaded. Each such lane is one word of the array; so a bound that holds of
  every word of the array holds of the lane, and the row of the table that the lane names exists.
-/
import proofs.«214512_g89103391522852_cont_sun_m_1157_25_alg».proof.Proof.KPayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

/-- A word of a slice of the first index array, as a copy out of it carries it, is a word of the array. -/
theorem pay0_lt {N : ℕ} (fu : S16384.Idx → BitVec 32) (hfu : ∀ b, (fu b).toNat < N)
    (off : Fin 1 → Nat) (hin : ∀ a, off a + S512.size a ≤ S16384.size a) (x : S512.Idx) :
    ((ReadAs.same.apply (View.read (Elt F) ((userW).slice (Rect.unit (s := S16384) off S512.size hin) (fun _ => rfl)).view fu)) x).toNat < N := by
  show (View.read (Elt F) ((userW).slice (Rect.unit (s := S16384) off S512.size hin) (fun _ => rfl)).view fu x).toNat < N
  rw [View.read_apply]
  exact hfu _

/-- The same for the second index array. -/
theorem pay1_lt {N : ℕ} (fi : S16384.Idx → BitVec 32) (hfi : ∀ b, (fi b).toNat < N)
    (off : Fin 1 → Nat) (hin : ∀ a, off a + S512.size a ≤ S16384.size a) (x : S512.Idx) :
    ((ReadAs.same.apply (View.read (Elt F) ((itemW).slice (Rect.unit (s := S16384) off S512.size hin) (fun _ => rfl)).view fi)) x).toNat < N := by
  show (View.read (Elt F) ((itemW).slice (Rect.unit (s := S16384) off S512.size hin) (fun _ => rfl)).view fi x).toNat < N
  rw [View.read_apply]
  exact hfi _

/-- A lane of a load from the first index scratch, once the scratch has been overwritten whole by `pay`, is a word of `pay`. -/
theorem lane0_lt {N : ℕ} (pay : S512.Idx → BitVec 32) (hpay : ∀ x, (pay x).toNat < N)
    (g : (uidxS).view.ty.Contents (Elt F)) (off : Fin 1 → Nat) (hin : ∀ a, off a + S16.size a ≤ S512.size a)
    (o : Fin 1 → Nat) (hs : (Rect.unit (s := S512) off S16.size hin).shape.Slices o S1) (hp : ∀ a, (![0] : Fin 1 → Nat) a < S1.size a) :
    (extractAt ![0] (extractStridedSlice S1 o (View.readAt (Elt F) (uidxS).view (Rect.unit (s := S512) off S16.size hin).toLoadRect (View.write (Elt F) (uidxS).view g pay Finset.univ)) hs) hp).toNat < N := by
  show ((View.write (Elt F) (uidxS).view g pay Finset.univ) _).toNat < N
  rw [show View.write (Elt F) (uidxS).view g pay Finset.univ = pay from View.write_whole_univ _ _ _]
  exact hpay _

/-- A lane of a load from the second index scratch, once the scratch has been overwritten whole by `pay`, is a word of `pay`. -/
theorem lane1_lt {N : ℕ} (pay : S512.Idx → BitVec 32) (hpay : ∀ x, (pay x).toNat < N)
    (g : (iidxS).view.ty.Contents (Elt F)) (off : Fin 1 → Nat) (hin : ∀ a, off a + S16.size a ≤ S512.size a)
    (o : Fin 1 → Nat) (hs : (Rect.unit (s := S512) off S16.size hin).shape.Slices o S1) (hp : ∀ a, (![0] : Fin 1 → Nat) a < S1.size a) :
    (extractAt ![0] (extractStridedSlice S1 o (View.readAt (Elt F) (iidxS).view (Rect.unit (s := S512) off S16.size hin).toLoadRect (View.write (Elt F) (iidxS).view g pay Finset.univ)) hs) hp).toNat < N := by
  show ((View.write (Elt F) (iidxS).view g pay Finset.univ) _).toNat < N
  rw [show View.write (Elt F) (iidxS).view g pay Finset.univ = pay from View.write_whole_univ _ _ _]
  exact hpay _

end Cert.Proof.KB

end
-- ==== Proof.KRowsB.lean ====
/-
  Rows, read tokens and batches: the vocabulary in which the tile's double-buffered gather is stated.

  Each of the two rows scratches is two halves of 128 rows of 64 entries. A chunk's 128 row copies from a table land one
  row each in one half and all signal ONE semaphore, so they are a batch on that cell: copy `t` delivers row `t` of the
  half, held again by its own 64 entries at whatever landed. Every copy reads one row of a table; the tile holds a read
  share of the table whole, cut into as many read tokens as there are copies, one consumed per copy — so two samples
  naming the same row never meet. The two index scratches hold, from the start, the tile's 512 words of each index array.
-/
import proofs.«214512_g89103391522852_cont_sun_m_1157_25_alg».proof.Proof.KFactsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

theorem row_inb (b : Fin 2) (r : Fin 128) : ∀ a, (![b.val, r.val, 0] : Fin 3 → Nat) a + S1x1x64.size a ≤ S2x128x64.size a := by
  have hb := b.isLt; have hr := r.isLt; intro a; fin_cases a
  · show b.val + 1 ≤ 2; omega
  · show r.val + 1 ≤ 128; omega
  · show 0 + 64 ≤ 64; omega

theorem inb_of {off : Fin 3 → Nat} {b r : ℕ} (e : off = ![b, r, 0]) (hb : b < 2) (hr : r < 128) :
    ∀ a, off a + S1x1x64.size a ≤ S2x128x64.size a := e ▸ row_inb ⟨b, hb⟩ ⟨r, hr⟩

/-- The 64 entries at offsets `off` of a rows scratch `M`, as the kernel slices a copy's destination. -/
def rowAt (M : Memref sig .scVector .vmem S2x128x64 .f32) (off : Fin 3 → Nat) (h : ∀ a, off a + S1x1x64.size a ≤ S2x128x64.size a) :
    Memref sig .scVector .vmem S64 .f32 :=
  (M.slice (Rect.unit (s := S2x128x64) off S1x1x64.size h) (fun _ => rfl)).squeeze S64 Facts₀.squeezes_S1x1x64_S64

section Res

variable (d : Dev nD) (L : grid0.Coords)

/-- A row owned: held by its own 64 elements at some contents. -/
abbrev ownAt (M : Memref sig .scVector .vmem S2x128x64 .f32) (off : Fin 3 → Nat) (h : ∀ a, off a + S1x1x64.size a ≤ S2x128x64.size a) : sProp 𝕄 :=
  iprop(∃ g, (rowAt M off h).view.loc (thr d L) ↦[(rowAt M off h).view.set]{fullShare} g)
/-- Row `r` of half `b` of the user-rows scratch, and of the item-rows scratch, owned. -/
abbrev ownU (b : Fin 2) (r : Fin 128) : sProp 𝕄 := ownAt (F := F) d L (urowS) ![b.val, r.val, 0] (row_inb b r)
abbrev ownI (b : Fin 2) (r : Fin 128) : sProp 𝕄 := ownAt (F := F) d L (irowS) ![b.val, r.val, 0] (row_inb b r)

omit [FloatOps F] in
theorem ownAt_congr {M : Memref sig .scVector .vmem S2x128x64 .f32} {off off' : Fin 3 → Nat} (e : off = off') (h) (h') :
    ownAt (F := F) d L M off h = ownAt (F := F) d L M off' h' := by subst e; rfl

omit [FloatOps F] in
/-- A row held at the offsets the program computes is the row the batch promised, once the offsets are identified. -/
theorem deliver {M : Memref sig .scVector .vmem S2x128x64 .f32} {off : Fin 3 → Nat} {h} {g} (b r : ℕ) (h') (e : off = ![b, r, 0]) :
    ((rowAt M off h).view.loc (thr d L) ↦[(rowAt M off h).view.set]{fullShare} g : sProp 𝕄) ⊢ ownAt (F := F) d L M ![b, r, 0] h' := by
  subst e; iintro H; iexists _; iexact H

/-- Read token `t` of the tile's share `q` of a table held whole. -/
abbrev tokU (q : PosShare TreeShare) (fue : S1000000x64.Idx → Elt F .f32) (t : ℕ) : sProp 𝕄 :=
  (uembW).view.loc (thr d L) ↦[(uembW).view.set]{Transfers.shareTokN q t} fue
abbrev tokI (q : PosShare TreeShare) (fie : S100000x64.Idx → Elt F .f32) (t : ℕ) : sProp 𝕄 :=
  (iembW).view.loc (thr d L) ↦[(iembW).view.set]{Transfers.shareTokN q t} fie
/-- The batch of 128 row copies into half `b` on cell `sm`: `j` issued, `u` units consumed; copy `t` delivers row `t`. -/
abbrev batchU (b : Fin 2) (sm : SemLoc sig) (j u : ℕ) : sProp 𝕄 :=
  Transfers.Batch (countersEmb (U := UU)) (thr d L) sm (none : HIx 1) 2048 (ownU (F := F) d L b) j u
abbrev batchI (b : Fin 2) (sm : SemLoc sig) (j u : ℕ) : sProp 𝕄 :=
  Transfers.Batch (countersEmb (U := UU)) (thr d L) sm (none : HIx 1) 2048 (ownI (F := F) d L b) j u
/-- The index scratches once filled from the tile's 512 words of each index array. -/
abbrev idxU (fu : S16384.Idx → BitVec 32) (f0 : (uidxS).view.ty.Contents (Elt F)) : sProp 𝕄 :=
  (uidxS).view.loc (thr d L) ↦{fullShare} View.write (Elt F) (uidxS).view f0
    (ReadAs.same.apply (View.read (Elt F) ((userW).slice (Rect.unit (s := S16384) (k0_off1 L) S512.size (k0_off1_inb L)) (fun _ => rfl)).view fu)) Finset.univ
abbrev idxI (fi : S16384.Idx → BitVec 32) (f1 : (iidxS).view.ty.Contents (Elt F)) : sProp 𝕄 :=
  (iidxS).view.loc (thr d L) ↦{fullShare} View.write (Elt F) (iidxS).view f1
    (ReadAs.same.apply (View.read (Elt F) ((itemW).slice (Rect.unit (s := S16384) (k0_off1 L) S512.size (k0_off1_inb L)) (fun _ => rfl)).view fi)) Finset.univ

end Res

end Cert.Proof.KB

end
-- ==== Proof.KBodyPreB.lean ====
/-
  Before the first chunk is issued: each table's read share is cut into the four chunks' runs of 128 read tokens.
-/
import proofs.«214512_g89103391522852_cont_sun_m_1157_25_alg».proof.Proof.KRowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

section Toks

variable (d : Dev nD) (L : grid0.Coords)

omit [FloatOps F] in
/-- The tile's read share of the user table cut into the four chunks' runs of 128 read tokens (what is left of the share
    after the 512 tokens is let go). -/
theorem toksU_split (q : PosShare TreeShare) (fue : S1000000x64.Idx → Elt F .f32) :
    ((uembW).view.loc (thr d L) ↦{q} fue : sProp 𝕄)
      ⊢ iprop(bigSep (Ring.rangeSet 512 0 128) (fun t => tokU d L q fue t.val) ∗ bigSep (Ring.rangeSet 512 128 256) (fun t => tokU d L q fue t.val)
          ∗ bigSep (Ring.rangeSet 512 256 384) (fun t => tokU d L q fue t.val) ∗ bigSep (Ring.rangeSet 512 384 512) (fun t => tokU d L q fue t.val)) := by
  have e : ((uembW).view.loc (thr d L) ↦{q} fue : sProp 𝕄) = ((uembW).view.loc (thr d L) ↦[(uembW).view.set]{q} fue) := by
    simp only [Memref.view_whole, View.set_whole]
  rw [e]
  refine (Transfers.pointsTo_toks_range q 512).1.trans ?_
  iintro ⟨-, Ht⟩
  ihave Ht' := (Entails.of_eq (Ring.bigSep_rangeSet_eq_range (NB := 512) (lo := 0) (hi := 512)
    (Φ := fun t => tokU d L q fue t.val) le_rfl (fun t => tokU d L q fue t) (fun k hk => by show tokU d L q fue k = tokU d L q fue (0 + k); rw [Nat.zero_add])).symm) $$ Ht
  ihave Hs := (Entails.of_eq ((Ring.bigSep_rangeSet_split (NB := 512) (Φ := fun t => tokU d L q fue t.val) (a := 0) (b := 128) (d := 512) (by omega) (by omega)).trans
    (by rw [Ring.bigSep_rangeSet_split (NB := 512) (Φ := fun t => tokU d L q fue t.val) (a := 128) (b := 256) (d := 512) (by omega) (by omega),
          Ring.bigSep_rangeSet_split (NB := 512) (Φ := fun t => tokU d L q fue t.val) (a := 256) (b := 384) (d := 512) (by omega) (by omega)]))) $$ Ht'
  iexact Hs

omit [FloatOps F] in
/-- The tile's read share of the item table cut into the four chunks' runs of 128 read tokens (what is left of the share
    after the 512 tokens is let go). -/
theorem toksI_split (q : PosShare TreeShare) (fie : S100000x64.Idx → Elt F .f32) :
    ((iembW).view.loc (thr d L) ↦{q} fie : sProp 𝕄)
      ⊢ iprop(bigSep (Ring.rangeSet 512 0 128) (fun t => tokI d L q fie t.val) ∗ bigSep (Ring.rangeSet 512 128 256) (fun t => tokI d L q fie t.val)
          ∗ bigSep (Ring.rangeSet 512 256 384) (fun t => tokI d L q fie t.val) ∗ bigSep (Ring.rangeSet 512 384 512) (fun t => tokI d L q fie t.val)) := by
  have e : ((iembW).view.loc (thr d L) ↦{q} fie : sProp 𝕄) = ((iembW).view.loc (thr d L) ↦[(iembW).view.set]{q} fie) := by
    simp only [Memref.view_whole, View.set_whole]
  rw [e]
  refine (Transfers.pointsTo_toks_range q 512).1.trans ?_
  iintro ⟨-, Ht⟩
  ihave Ht' := (Entails.of_eq (Ring.bigSep_rangeSet_eq_range (NB := 512) (lo := 0) (hi := 512)
    (Φ := fun t => tokI d L q fie t.val) le_rfl (fun t => tokI d L q fie t) (fun k hk => by show tokI d L q fie k = tokI d L q fie (0 + k); rw [Nat.zero_add])).symm) $$ Ht
  ihave Hs := (Entails.of_eq ((Ring.bigSep_rangeSet_split (NB := 512) (Φ := fun t => tokI d L q fie t.val) (a := 0) (b := 128) (d := 512) (by omega) (by omega)).trans
    (by rw [Ring.bigSep_rangeSet_split (NB := 512) (Φ := fun t => tokI d L q fie t.val) (a := 128) (b := 256) (d := 512) (by omega) (by omega),
          Ring.bigSep_rangeSet_split (NB := 512) (Φ := fun t => tokI d L q fie t.val) (a := 256) (b := 384) (d := 512) (by omega) (by omega)]))) $$ Ht'
  iexact Hs

end Toks

end Cert.Proof.KB

end
-- ==== Proof.KLoopInitB.lean ====
/-
  The bias-initialisation loop of a tile, as a loop invariant of constant resources.

  Each of its 32 trips stores ten 16-lane vectors into the accumulator scratch and touches nothing else, so the loop
  is framed by the accumulator held whole at some contents: the invariant says nothing of values.
-/
import proofs.«214512_g89103391522852_cont_sun_m_1157_25_alg».proof.Proof.KPayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

section Tile

variable [∀ e, Nonempty (Elt F e)] (d : Dev nD) (L : grid0.Coords)

/-- The accumulator scratch of the tile, held whole at some contents. -/
def accAny : sProp 𝕄 := iprop(∃ f, (accS).view.loc (thr d L) ↦{fullShare} f)

/-- One trip of the bias-initialisation loop keeps the accumulator held whole. -/
theorem t1_step (v3 : IVec S16 32) (v7 v11 v15 v19 v23 : Vec F S16 .f32) (v24 : IVec S16 32) (c1285_i32 : BitVec 32) (v27 v31 v35 v39 v43 : Vec F S16 .f32) (k : Fin k0_t1_loop.trips) (acc : Unit) :
    accAny (F := F) d L ⊢ wp frame (wpE (defs₀ (F := F)) 𝒱₀ (thr d L) none) Set.univ (k0_t1_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 v27 v31 v35 v39 v43 k acc) (fun _ => accAny (F := F) d L) := by
  unfold accAny
  iintro ⟨%f, H5⟩
  repeat (sl_exec; unfold SparseCore.vectorLoadIdx)
  sl_exec
  sl_step
  iexists _; iexact H5

set_option warn.classDefReducibility false in
/-- The bias-initialisation loop's invariant: the accumulator held whole, before every trip. -/
@[sl_loop] def invT1 (v3 : IVec S16 32) (v7 v11 v15 v19 v23 : Vec F S16 .f32) (v24 : IVec S16 32) (c1285_i32 : BitVec 32) (v27 v31 v35 v39 v43 : Vec F S16 .f32) :
    LoopInv (M := 𝕄) frame (wpE (defs₀ (F := F)) 𝒱₀ (thr d L) none) Set.univ k0_t1_loop.lb k0_t1_loop.ub k0_t1_loop.st k0_t1_ok ⟨⟩ (k0_t1_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 v27 v31 v35 v39 v43) where
  inv := fun _ _ => accAny (F := F) d L
  step := t1_step d L v3 v7 v11 v15 v19 v23 v24 c1285_i32 v27 v31 v35 v39 v43

end Tile

end Cert.Proof.KB

end
-- ==== Proof.KLoopOutB.lean ====
/-
  The output loop of a tile, as a loop invariant of constant resources.

  Each of its 32 trips reads ten 16-lane vectors of the accumulator scratch and stores one 16-lane vector into the
  output scratch; it touches nothing else. The loop is framed by the two scratch arrays held whole at some contents:
  the invariant says nothing of values.
-/
import proofs.«214512_g89103391522852_cont_sun_m_1157_25_alg».proof.Proof.KLoopInitB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

section Tile

variable [∀ e, Nonempty (Elt F e)] (d : Dev nD) (L : grid0.Coords)

/-- The output scratch of the tile, held whole at some contents. -/
def outAny : sProp 𝕄 := iprop(∃ f, (outS).view.loc (thr d L) ↦{fullShare} f)

/-- What the output loop holds before every trip: the accumulator and the output scratch, whole. -/
def outRes : sProp 𝕄 := iprop(accAny (F := F) d L ∗ outAny (F := F) d L)

/-- One trip of the output loop keeps both scratch arrays held whole. -/
theorem t13_step (v51 v55 v59 v63 v67 v71 v75 v79 v83 v87 v91 : Vec F S16 .f32) (k : Fin k0_t13_loop.trips) (acc : Unit) :
    outRes (F := F) d L ⊢ wp frame (wpE (defs₀ (F := F)) 𝒱₀ (thr d L) none) Set.univ (k0_t13_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v51 v55 v59 v63 v67 v71 v75 v79 v83 v87 v91 k acc) (fun _ => outRes (F := F) d L) := by
  unfold outRes accAny outAny
  iintro ⟨⟨%f5, H5⟩, ⟨%f6, H6⟩⟩
  repeat (sl_exec; unfold SparseCore.vectorLoadIdx)
  sl_exec
  sl_step
  isplitl [H5]
  · iexists _; iexact H5
  · iexists _; iexact H6

set_option warn.classDefReducibility false in
/-- The output loop's invariant: the accumulator and the output scratch held whole, before every trip. -/
@[sl_loop] def invT13 (v51 v55 v59 v63 v67 v71 v75 v79 v83 v87 v91 : Vec F S16 .f32) :
    LoopInv (M := 𝕄) frame (wpE (defs₀ (F := F)) 𝒱₀ (thr d L) none) Set.univ k0_t13_loop.lb k0_t13_loop.ub k0_t13_loop.st k0_t13_ok ⟨⟩ (k0_t13_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v51 v55 v59 v63 v67 v71 v75 v79 v83 v87 v91) where
  inv := fun _ _ => outRes (F := F) d L
  step := t13_step d L v51 v55 v59 v63 v67 v71 v75 v79 v83 v87 v91

end Tile

end Cert.Proof.KB

end
-- ==== Proof.KLoopL1UB.lean ====
/-
  The first-layer loops of a tile on the user half, as loop invariants of constant resources.

  Chunk `k4` of the tile's 512 rows computes on one half of the user-row scratch (128 gathered rows of 64 features).
  The outer loop runs over the 16 groups of four features: each trip reads forty weights out of the parameter scratch
  as lane-constant vectors and runs the inner loop over the 8 groups of 16 rows, whose trip gathers four feature
  columns of the half and adds their products with the weights into the 10 × 16 accumulator entries of those rows.
  So both loops only read the parameters and the half, and read and write the accumulator: they are framed by the
  parameter scratch held whole at fixed contents, the half held by exactly its own elements at fixed contents, and the
  accumulator held whole at some contents. Nothing is said of values.

  The gathers' indices are the row numbers `16·k8 + lane` and the feature numbers `4·k7 + {0,1,2,3}`; that they are
  inside the 128 × 64 half is asked as hypotheses, for all trips at once, over the lane numbers `v3` the kernel
  computed before the loops (they hold by evaluation once `v3` is the lane numbers 0 … 15).
-/
import proofs.«214512_g89103391522852_cont_sun_m_1157_25_alg».proof.Proof.KLoopInitB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

section Tile

variable [∀ e, Nonempty (Elt F e)] (d : Dev nD) (L : grid0.Coords)

/-- The half of the user-row scratch that chunk `k4` computes on, as the kernel slices it: 128 rows of 64 features. -/
def halfU (k4 : Fin k0_t4_loop.trips) : Memref sig .scVector .vmem S128x64 .f32 :=
  ((urowS).slice (Rect.unit (s := S2x128x64) (k0_off144 k4) S1x128x64.size (k0_off144_inb k4)) (fun _ => rfl)).squeeze S128x64 squeezes_S1x128x64_S128x64

/-- What the inner loop holds before every trip: the half by its own elements at contents `g`, the accumulator whole. -/
def l1uIn (k4 : Fin k0_t4_loop.trips) (g : Buf (Elt F) ((halfU k4).view.loc (thr d L))) : sProp 𝕄 :=
  iprop(((halfU k4).view.loc (thr d L) ↦[(halfU k4).view.set]{fullShare} g) ∗ (∃ f, (accS).view.loc (thr d L) ↦{fullShare} f))

/-- What the outer loop holds before every trip: the parameters whole at contents `fp`, and what the inner loop holds. -/
def l1uRes (k4 : Fin k0_t4_loop.trips) (fp : S1312.Idx → Elt F .f32) (g : Buf (Elt F) ((halfU k4).view.loc (thr d L))) : sProp 𝕄 :=
  iprop(((parS).view.loc (thr d L) ↦{fullShare} fp) ∗ ((halfU k4).view.loc (thr d L) ↦[(halfU k4).view.set]{fullShare} g)
    ∗ (∃ f, (accS).view.loc (thr d L) ↦{fullShare} f))

/-- One trip of the inner loop: four gathers out of the half, ten read-modify-writes of the accumulator. -/
theorem t8_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h115 : ∀ k8 : Fin k0_t8_loop.trips, k0_chk115 (k0_pay66 v3 0#32 1#32 k8) (k0_pay67 v114))
    (h116 : ∀ k8 : Fin k0_t8_loop.trips, k0_chk116 (k0_pay66 v3 0#32 1#32 k8) (k0_pay69 v114))
    (h117 : ∀ k8 : Fin k0_t8_loop.trips, k0_chk117 (k0_pay66 v3 0#32 1#32 k8) (k0_pay71 v114))
    (h118 : ∀ k8 : Fin k0_t8_loop.trips, k0_chk118 (k0_pay66 v3 0#32 1#32 k8) (k0_pay73 v114))
    (g : Buf (Elt F) ((halfU k0_t4).view.loc (thr d L))) (k : Fin k0_t8_loop.trips) (acc : Unit) :
    l1uIn (F := F) d L k0_t4 g ⊢ wp frame (wpE (defs₀ (F := F)) 𝒱₀ (thr d L) none) Set.univ (k0_t8_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 k acc) (fun _ => l1uIn (F := F) d L k0_t4 g) := by
  unfold l1uIn
  iintro ⟨Hh, ⟨%f5, H5⟩⟩
  have c115 := h115 k
  have c116 := h116 k
  have c117 := h117 k
  have c118 := h118 k
  repeat (sl_exec; unfold SparseCore.vectorLoadIdx)
  sl_exec
  sl_step
  isplitl [Hh]
  · iexact Hh
  · iexists _; iexact H5

set_option warn.classDefReducibility false in
/-- The inner loop's invariant: the half at its contents and the accumulator, before every trip. -/
@[sl_loop] def invT8 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h115 : ∀ k8 : Fin k0_t8_loop.trips, k0_chk115 (k0_pay66 v3 0#32 1#32 k8) (k0_pay67 v114))
    (h116 : ∀ k8 : Fin k0_t8_loop.trips, k0_chk116 (k0_pay66 v3 0#32 1#32 k8) (k0_pay69 v114))
    (h117 : ∀ k8 : Fin k0_t8_loop.trips, k0_chk117 (k0_pay66 v3 0#32 1#32 k8) (k0_pay71 v114))
    (h118 : ∀ k8 : Fin k0_t8_loop.trips, k0_chk118 (k0_pay66 v3 0#32 1#32 k8) (k0_pay73 v114))
    (g : Buf (Elt F) ((halfU k0_t4).view.loc (thr d L))) :
    LoopInv (M := 𝕄) frame (wpE (defs₀ (F := F)) 𝒱₀ (thr d L) none) Set.univ k0_t8_loop.lb k0_t8_loop.ub k0_t8_loop.st k0_t8_ok ⟨⟩ (k0_t8_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434) where
  inv := fun _ _ => l1uIn (F := F) d L k0_t4 g
  step := t8_step d L v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 h115 h116 h117 h118 g

/-- One trip of the outer loop: forty lane-constant reads of the parameters, then the inner loop. -/
theorem t7_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (fp : S1312.Idx → Elt F .f32) (g : Buf (Elt F) ((halfU k0_t4).view.loc (thr d L))) (k : Fin k0_t7_loop.trips) (acc : Unit) :
    l1uRes (F := F) d L k0_t4 fp g ⊢ wp frame (wpE (defs₀ (F := F)) 𝒱₀ (thr d L) none) Set.univ (k0_t7_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 k acc) (fun _ => l1uRes (F := F) d L k0_t4 fp g) := by
  unfold l1uRes
  iintro ⟨Hp, Hh, ⟨%f5, H5⟩⟩
  have h115 := H115 k
  have h116 := H116 k
  have h117 := H117 k
  have h118 := H118 k
  repeat (sl_exec (disch := (clear * - k; decide +kernel +revert)); unfold SparseCore.vectorLoadIdx)
  sl_exec (disch := (clear * - k; decide +kernel +revert))
  sl_step
  isplitl [Hp]
  · iexact Hp
  isplitl [Hh]
  · iexact Hh
  · iexists _; iexact H5

set_option warn.classDefReducibility false in
/-- The outer loop's invariant: the parameters and the half at their contents and the accumulator, before every trip. -/
@[sl_loop] def invT7 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (fp : S1312.Idx → Elt F .f32) (g : Buf (Elt F) ((halfU k0_t4).view.loc (thr d L))) :
    LoopInv (M := 𝕄) frame (wpE (defs₀ (F := F)) 𝒱₀ (thr d L) none) Set.univ k0_t7_loop.lb k0_t7_loop.ub k0_t7_loop.st k0_t7_ok ⟨⟩ (k0_t7_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun _ _ => l1uRes (F := F) d L k0_t4 fp g
  step := t7_step d L v3 v7 v11 v15 v19 v23 v24 c1285_i32 k0_t4 arg19 H115 H116 H117 H118 fp g

end Tile

end Cert.Proof.KB

end
-- ==== Proof.KLoopL1IB.lean ====
/-
  The first-layer loops of a tile on the item half, as loop invariants of constant resources.

  Chunk `k4` of the tile's 512 rows computes on one half of the item-row scratch (128 gathered rows of 64 features).
  The outer loop runs over the 16 groups of four features: each trip reads forty weights out of the parameter scratch
  as lane-constant vectors and runs the inner loop over the 8 groups of 16 rows, whose trip gathers four feature
  columns of the half and adds their products with the weights into the 10 × 16 accumulator entries of those rows.
  So both loops only read the parameters and the half, and read and write the accumulator: they are framed by the
  parameter scratch held whole at fixed contents, the half held by exactly its own elements at fixed contents, and the
  accumulator held whole at some contents. Nothing is said of values.

  The gathers' indices are the row numbers `16·k8 + lane` and the feature numbers `4·k7 + {0,1,2,3}`; that they are
  inside the 128 × 64 half is asked as hypotheses, for all trips at once, over the lane numbers `v3` the kernel
  computed before the loops (they hold by evaluation once `v3` is the lane numbers 0 … 15).
-/
import proofs.«214512_g89103391522852_cont_sun_m_1157_25_alg».proof.Proof.KLoopInitB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

section Tile

variable [∀ e, Nonempty (Elt F e)] (d : Dev nD) (L : grid0.Coords)

/-- The half of the item-row scratch that chunk `k4` computes on, as the kernel slices it: 128 rows of 64 features. -/
def halfI (k4 : Fin k0_t4_loop.trips) : Memref sig .scVector .vmem S128x64 .f32 :=
  ((irowS).slice (Rect.unit (s := S2x128x64) (k0_off158 k4) S1x128x64.size (k0_off158_inb k4)) (fun _ => rfl)).squeeze S128x64 squeezes_S1x128x64_S128x64

/-- What the inner loop holds before every trip: the half by its own elements at contents `g`, the accumulator whole. -/
def l1iIn (k4 : Fin k0_t4_loop.trips) (g : Buf (Elt F) ((halfI k4).view.loc (thr d L))) : sProp 𝕄 :=
  iprop(((halfI k4).view.loc (thr d L) ↦[(halfI k4).view.set]{fullShare} g) ∗ (∃ f, (accS).view.loc (thr d L) ↦{fullShare} f))

/-- What the outer loop holds before every trip: the parameters whole at contents `fp`, and what the inner loop holds. -/
def l1iRes (k4 : Fin k0_t4_loop.trips) (fp : S1312.Idx → Elt F .f32) (g : Buf (Elt F) ((halfI k4).view.loc (thr d L))) : sProp 𝕄 :=
  iprop(((parS).view.loc (thr d L) ↦{fullShare} fp) ∗ ((halfI k4).view.loc (thr d L) ↦[(halfI k4).view.set]{fullShare} g)
    ∗ (∃ f, (accS).view.loc (thr d L) ↦{fullShare} f))

/-- One trip of the inner loop: four gathers out of the half, ten read-modify-writes of the accumulator. -/
theorem t10_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h159 : ∀ k8 : Fin k0_t10_loop.trips, k0_chk159 (k0_pay124 v3 0#32 1#32 k8) (k0_pay125 v114))
    (h160 : ∀ k8 : Fin k0_t10_loop.trips, k0_chk160 (k0_pay124 v3 0#32 1#32 k8) (k0_pay127 v114))
    (h161 : ∀ k8 : Fin k0_t10_loop.trips, k0_chk161 (k0_pay124 v3 0#32 1#32 k8) (k0_pay129 v114))
    (h162 : ∀ k8 : Fin k0_t10_loop.trips, k0_chk162 (k0_pay124 v3 0#32 1#32 k8) (k0_pay131 v114))
    (g : Buf (Elt F) ((halfI k0_t4).view.loc (thr d L))) (k : Fin k0_t10_loop.trips) (acc : Unit) :
    l1iIn (F := F) d L k0_t4 g ⊢ wp frame (wpE (defs₀ (F := F)) 𝒱₀ (thr d L) none) Set.univ (k0_t10_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 k acc) (fun _ => l1iIn (F := F) d L k0_t4 g) := by
  unfold l1iIn
  iintro ⟨Hh, ⟨%f5, H5⟩⟩
  have c159 := h159 k
  have c160 := h160 k
  have c161 := h161 k
  have c162 := h162 k
  repeat (sl_exec; unfold SparseCore.vectorLoadIdx)
  sl_exec
  sl_step
  isplitl [Hh]
  · iexact Hh
  · iexists _; iexact H5

set_option warn.classDefReducibility false in
/-- The inner loop's invariant: the half at its contents and the accumulator, before every trip. -/
@[sl_loop] def invT10 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h159 : ∀ k8 : Fin k0_t10_loop.trips, k0_chk159 (k0_pay124 v3 0#32 1#32 k8) (k0_pay125 v114))
    (h160 : ∀ k8 : Fin k0_t10_loop.trips, k0_chk160 (k0_pay124 v3 0#32 1#32 k8) (k0_pay127 v114))
    (h161 : ∀ k8 : Fin k0_t10_loop.trips, k0_chk161 (k0_pay124 v3 0#32 1#32 k8) (k0_pay129 v114))
    (h162 : ∀ k8 : Fin k0_t10_loop.trips, k0_chk162 (k0_pay124 v3 0#32 1#32 k8) (k0_pay131 v114))
    (g : Buf (Elt F) ((halfI k0_t4).view.loc (thr d L))) :
    LoopInv (M := 𝕄) frame (wpE (defs₀ (F := F)) 𝒱₀ (thr d L) none) Set.univ k0_t10_loop.lb k0_t10_loop.ub k0_t10_loop.st k0_t10_ok ⟨⟩ (k0_t10_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434) where
  inv := fun _ _ => l1iIn (F := F) d L k0_t4 g
  step := t10_step d L v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 h159 h160 h161 h162 g

/-- One trip of the outer loop: forty lane-constant reads of the parameters, then the inner loop. -/
theorem t9_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (fp : S1312.Idx → Elt F .f32) (g : Buf (Elt F) ((halfI k0_t4).view.loc (thr d L))) (k : Fin k0_t9_loop.trips) (acc : Unit) :
    l1iRes (F := F) d L k0_t4 fp g ⊢ wp frame (wpE (defs₀ (F := F)) 𝒱₀ (thr d L) none) Set.univ (k0_t9_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 k acc) (fun _ => l1iRes (F := F) d L k0_t4 fp g) := by
  unfold l1iRes
  iintro ⟨Hp, Hh, ⟨%f5, H5⟩⟩
  have h159 := H159 k
  have h160 := H160 k
  have h161 := H161 k
  have h162 := H162 k
  repeat (sl_exec (disch := (clear * - k; decide +kernel +revert)); unfold SparseCore.vectorLoadIdx)
  sl_exec (disch := (clear * - k; decide +kernel +revert))
  sl_step
  isplitl [Hp]
  · iexact Hp
  isplitl [Hh]
  · iexact Hh
  · iexists _; iexact H5

set_option warn.classDefReducibility false in
/-- The outer loop's invariant: the parameters and the half at their contents and the accumulator, before every trip. -/
@[sl_loop] def invT9 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (fp : S1312.Idx → Elt F .f32) (g : Buf (Elt F) ((halfI k0_t4).view.loc (thr d L))) :
    LoopInv (M := 𝕄) frame (wpE (defs₀ (F := F)) 𝒱₀ (thr d L) none) Set.univ k0_t9_loop.lb k0_t9_loop.ub k0_t9_loop.st k0_t9_ok ⟨⟩ (k0_t9_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun _ _ => l1iRes (F := F) d L k0_t4 fp g
  step := t9_step d L v3 v7 v11 v15 v19 v23 v24 c1285_i32 k0_t4 arg19 H159 H160 H161 H162 fp g

end Tile

end Cert.Proof.KB

end
-- ==== Proof.KLoopFactsB.lean ====
/-
  The index facts the first-layer loops ask for, at the lane numbers the kernel computes.

  With `v3` the lane numbers 0 … 15, the row indices `16·k8 + lane` (`k8 < 8`) stay below 128 and the feature indices
  `4·k7 + j` (`k7 < 16`, `j < 4`) below 64: decided by evaluation over all trips and lanes.
-/
import proofs.«214512_g89103391522852_cont_sun_m_1157_25_alg».proof.Proof.KSetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

/-- Gather 0 of the user half reads inside the half: rows `16·k8 + lane < 128`, feature `4·k7 + 0 < 64`. -/
theorem chk115_all : ∀ (k7 : Fin k0_t7_loop.trips) (k8 : Fin k0_t8_loop.trips),
    k0_chk115 (k0_pay66 (iota .scVector S16 32 [0] iota_S16_d0_w32_scVector) 0#32 1#32 k8) (k0_pay67 (Scalar.muli (Scf.iv 0#32 1#32 k7) 4#32)) := by
  decide +kernel

/-- Gather 1 of the user half reads inside the half: rows `16·k8 + lane < 128`, feature `4·k7 + 1 < 64`. -/
theorem chk116_all : ∀ (k7 : Fin k0_t7_loop.trips) (k8 : Fin k0_t8_loop.trips),
    k0_chk116 (k0_pay66 (iota .scVector S16 32 [0] iota_S16_d0_w32_scVector) 0#32 1#32 k8) (k0_pay69 (Scalar.muli (Scf.iv 0#32 1#32 k7) 4#32)) := by
  decide +kernel

/-- Gather 2 of the user half reads inside the half: rows `16·k8 + lane < 128`, feature `4·k7 + 2 < 64`. -/
theorem chk117_all : ∀ (k7 : Fin k0_t7_loop.trips) (k8 : Fin k0_t8_loop.trips),
    k0_chk117 (k0_pay66 (iota .scVector S16 32 [0] iota_S16_d0_w32_scVector) 0#32 1#32 k8) (k0_pay71 (Scalar.muli (Scf.iv 0#32 1#32 k7) 4#32)) := by
  decide +kernel

/-- Gather 3 of the user half reads inside the half: rows `16·k8 + lane < 128`, feature `4·k7 + 3 < 64`. -/
theorem chk118_all : ∀ (k7 : Fin k0_t7_loop.trips) (k8 : Fin k0_t8_loop.trips),
    k0_chk118 (k0_pay66 (iota .scVector S16 32 [0] iota_S16_d0_w32_scVector) 0#32 1#32 k8) (k0_pay73 (Scalar.muli (Scf.iv 0#32 1#32 k7) 4#32)) := by
  decide +kernel

/-- Gather 0 of the item half reads inside the half: rows `16·k8 + lane < 128`, feature `4·k7 + 0 < 64`. -/
theorem chk159_all : ∀ (k7 : Fin k0_t9_loop.trips) (k8 : Fin k0_t10_loop.trips),
    k0_chk159 (k0_pay124 (iota .scVector S16 32 [0] iota_S16_d0_w32_scVector) 0#32 1#32 k8) (k0_pay125 (Scalar.muli (Scf.iv 0#32 1#32 k7) 4#32)) := by
  decide +kernel

/-- Gather 1 of the item half reads inside the half: rows `16·k8 + lane < 128`, feature `4·k7 + 1 < 64`. -/
theorem chk160_all : ∀ (k7 : Fin k0_t9_loop.trips) (k8 : Fin k0_t10_loop.trips),
    k0_chk160 (k0_pay124 (iota .scVector S16 32 [0] iota_S16_d0_w32_scVector) 0#32 1#32 k8) (k0_pay127 (Scalar.muli (Scf.iv 0#32 1#32 k7) 4#32)) := by
  decide +kernel

/-- Gather 2 of the item half reads inside the half: rows `16·k8 + lane < 128`, feature `4·k7 + 2 < 64`. -/
theorem chk161_all : ∀ (k7 : Fin k0_t9_loop.trips) (k8 : Fin k0_t10_loop.trips),
    k0_chk161 (k0_pay124 (iota .scVector S16 32 [0] iota_S16_d0_w32_scVector) 0#32 1#32 k8) (k0_pay129 (Scalar.muli (Scf.iv 0#32 1#32 k7) 4#32)) := by
  decide +kernel

/-- Gather 3 of the item half reads inside the half: rows `16·k8 + lane < 128`, feature `4·k7 + 3 < 64`. -/
theorem chk162_all : ∀ (k7 : Fin k0_t9_loop.trips) (k8 : Fin k0_t10_loop.trips),
    k0_chk162 (k0_pay124 (iota .scVector S16 32 [0] iota_S16_d0_w32_scVector) 0#32 1#32 k8) (k0_pay131 (Scalar.muli (Scf.iv 0#32 1#32 k7) 4#32)) := by
  decide +kernel

end Cert.Proof.KB

end
-- ==== Proof.KLoopsB.lean ====
/-
  The compute loops of a tile, together, and the two first-layer outer loops once more with `v3` known to be the lane
  numbers 0 … 15, where the index facts hold by evaluation.
-/
import proofs.«214512_g89103391522852_cont_sun_m_1157_25_alg».proof.Proof.KLoopInitB
import proofs.«214512_g89103391522852_cont_sun_m_1157_25_alg».proof.Proof.KLoopOutB
import proofs.«214512_g89103391522852_cont_sun_m_1157_25_alg».proof.Proof.KLoopL1UB
import proofs.«214512_g89103391522852_cont_sun_m_1157_25_alg».proof.Proof.KLoopL1IB
import proofs.«214512_g89103391522852_cont_sun_m_1157_25_alg».proof.Proof.KLoopFactsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

section Tile

variable [∀ e, Nonempty (Elt F e)] (d : Dev nD) (L : grid0.Coords)

set_option warn.classDefReducibility false in
/-- The user-half outer loop's invariant again, with `v3` equal to the lane numbers: the index
    facts are then the evaluated ones, and no hypothesis about them is left. -/
@[sl_loop] def invT7iota (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (hv3 : v3 = (iota .scVector S16 32 [0] iota_S16_d0_w32_scVector))
    (fp : S1312.Idx → Elt F .f32) (g : Buf (Elt F) ((halfU k0_t4).view.loc (thr d L))) :
    LoopInv (M := 𝕄) frame (wpE (defs₀ (F := F)) 𝒱₀ (thr d L) none) Set.univ k0_t7_loop.lb k0_t7_loop.ub k0_t7_loop.st k0_t7_ok ⟨⟩ (k0_t7_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun _ _ => l1uRes (F := F) d L k0_t4 fp g
  step := t7_step d L v3 v7 v11 v15 v19 v23 v24 c1285_i32 k0_t4 arg19 (hv3 ▸ chk115_all) (hv3 ▸ chk116_all) (hv3 ▸ chk117_all) (hv3 ▸ chk118_all) fp g

set_option warn.classDefReducibility false in
/-- The item-half outer loop's invariant again, with `v3` equal to the lane numbers: the index
    facts are then the evaluated ones, and no hypothesis about them is left. -/
@[sl_loop] def invT9iota (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (hv3 : v3 = (iota .scVector S16 32 [0] iota_S16_d0_w32_scVector))
    (fp : S1312.Idx → Elt F .f32) (g : Buf (Elt F) ((halfI k0_t4).view.loc (thr d L))) :
    LoopInv (M := 𝕄) frame (wpE (defs₀ (F := F)) 𝒱₀ (thr d L) none) Set.univ k0_t9_loop.lb k0_t9_loop.ub k0_t9_loop.st k0_t9_ok ⟨⟩ (k0_t9_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun _ _ => l1iRes (F := F) d L k0_t4 fp g
  step := t9_step d L v3 v7 v11 v15 v19 v23 v24 c1285_i32 k0_t4 arg19 (hv3 ▸ chk159_all) (hv3 ▸ chk160_all) (hv3 ▸ chk161_all) (hv3 ▸ chk162_all) fp g

end Tile

end Cert.Proof.KB

end
-- ==== Proof.KHalfB.lean ====
/-
  A rows scratch, its two halves and their rows. Each of the two rows scratches is two halves of 128 rows of 64 entries;
  the copies of a chunk deliver the rows of one half one by one, each owned by its own 64 entries, while the compute
  loops read that half as one buffer of 128 × 64, and the tile is handed each scratch whole. Here the three views are
  identified: the half a chunk computes on is the half of the chunk's parity; its entries are those whose leading index
  is that parity; the rows of a half are pairwise disjoint and together the half, the two halves disjoint and together
  the scratch; so the rows of a half, each owned, are the half owned, and the rows of both halves the scratch held
  whole, in both directions.
-/
import proofs.«214512_g89103391522852_cont_sun_m_1157_25_alg».proof.Proof.KRowsB
import proofs.«214512_g89103391522852_cont_sun_m_1157_25_alg».proof.Proof.KLoopL1UB
import proofs.«214512_g89103391522852_cont_sun_m_1157_25_alg».proof.Proof.KLoopL1IB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)

/-! ## Which half a chunk computes on: the chunk's parity -/

/-- The parity of chunk `k4`, as a half of a rows scratch. -/
abbrev parity (k4 : Fin k0_t4_loop.trips) : Fin 2 := ⟨k4.val % 2, Nat.mod_lt _ Nat.two_pos⟩

theorem off144_parity (k4 : Fin k0_t4_loop.trips) : k0_off144 k4 = ![(parity k4).val, 0, 0] := k0_off144_eq k4
theorem off158_parity (k4 : Fin k0_t4_loop.trips) : k0_off158 k4 = ![(parity k4).val, 0, 0] := k0_off158_eq k4

theorem off144_0 (h : 0 < k0_t4_loop.trips) : k0_off144 ⟨0, h⟩ = ![0, 0, 0] := k0_off144_eq ⟨0, h⟩
theorem off144_1 (h : 1 < k0_t4_loop.trips) : k0_off144 ⟨1, h⟩ = ![1, 0, 0] := k0_off144_eq ⟨1, h⟩
theorem off144_2 (h : 2 < k0_t4_loop.trips) : k0_off144 ⟨2, h⟩ = ![0, 0, 0] := by rw [k0_off144_eq]; simp
theorem off144_3 (h : 3 < k0_t4_loop.trips) : k0_off144 ⟨3, h⟩ = ![1, 0, 0] := by rw [k0_off144_eq]; simp
theorem off158_0 (h : 0 < k0_t4_loop.trips) : k0_off158 ⟨0, h⟩ = ![0, 0, 0] := k0_off158_eq ⟨0, h⟩
theorem off158_1 (h : 1 < k0_t4_loop.trips) : k0_off158 ⟨1, h⟩ = ![1, 0, 0] := k0_off158_eq ⟨1, h⟩
theorem off158_2 (h : 2 < k0_t4_loop.trips) : k0_off158 ⟨2, h⟩ = ![0, 0, 0] := by rw [k0_off158_eq]; simp
theorem off158_3 (h : 3 < k0_t4_loop.trips) : k0_off158 ⟨3, h⟩ = ![1, 0, 0] := by rw [k0_off158_eq]; simp

/-! ## A half of a rows scratch and its 128 rows, as sets of entries -/

theorem half_inb (b : Fin 2) : ∀ a, (![b.val, 0, 0] : Fin 3 → Nat) a + S1x128x64.size a ≤ S2x128x64.size a := by
  have hb := b.isLt; intro a; fin_cases a
  · show b.val + 1 ≤ 2; omega
  · show 0 + 128 ≤ 128; omega
  · show 0 + 64 ≤ 64; omega

/-- The entries of row `r` of half `b`; the entries of half `b`. -/
abbrev rset (b : Fin 2) (r : Fin 128) : Finset S2x128x64.Idx := (Rect.unit (s := S2x128x64) ![b.val, r.val, 0] S1x1x64.size (row_inb b r)).set
abbrev hset (b : Fin 2) : Finset S2x128x64.Idx := (Rect.unit (s := S2x128x64) ![b.val, 0, 0] S1x128x64.size (half_inb b)).set

theorem mem_rset (b : Fin 2) (r : Fin 128) (y : S2x128x64.Idx) : y ∈ rset b r ↔ (y 0).val = b.val ∧ (y 1).val = r.val := by
  rw [Rect.mem_set_unit]
  have h2 : (y 2).val < 64 := (y 2).isLt
  constructor
  · intro H
    have a0 : b.val ≤ (y 0).val ∧ (y 0).val < b.val + 1 := H 0
    have a1 : r.val ≤ (y 1).val ∧ (y 1).val < r.val + 1 := H 1
    omega
  · intro H a; fin_cases a
    · show b.val ≤ (y 0).val ∧ (y 0).val < b.val + 1; omega
    · show r.val ≤ (y 1).val ∧ (y 1).val < r.val + 1; omega
    · show 0 ≤ (y 2).val ∧ (y 2).val < 0 + 64; omega

theorem mem_hset (b : Fin 2) (y : S2x128x64.Idx) : y ∈ hset b ↔ (y 0).val = b.val := by
  rw [Rect.mem_set_unit]
  have h1 : (y 1).val < 128 := (y 1).isLt
  have h2 : (y 2).val < 64 := (y 2).isLt
  constructor
  · intro H
    have a0 : b.val ≤ (y 0).val ∧ (y 0).val < b.val + 1 := H 0
    omega
  · intro H a; fin_cases a
    · show b.val ≤ (y 0).val ∧ (y 0).val < b.val + 1; omega
    · show 0 ≤ (y 1).val ∧ (y 1).val < 0 + 128; omega
    · show 0 ≤ (y 2).val ∧ (y 2).val < 0 + 64; omega

/-- Different rows of a half share no entry, -/
theorem rset_disjoint (b : Fin 2) :
    ∀ r ∈ (Finset.univ : Finset (Fin 128)), ∀ r' ∈ (Finset.univ : Finset (Fin 128)), r ≠ r' → Disjoint (rset b r) (rset b r') := by
  intro r _ r' _ hne
  rw [Finset.disjoint_left]; intro y hy hy'; rw [mem_rset] at hy hy'
  exact hne (Fin.ext (by omega))

/-- and together they are the half. -/
theorem rset_cover (b : Fin 2) : (Finset.univ : Finset (Fin 128)).biUnion (rset b) = hset b := by
  ext y
  simp only [Finset.mem_biUnion, Finset.mem_univ, true_and]
  rw [mem_hset]
  constructor
  · rintro ⟨r, hr⟩; exact ((mem_rset b r y).mp hr).1
  · intro h; exact ⟨y 1, (mem_rset b (y 1) y).mpr ⟨h, rfl⟩⟩

/-- A row, as the kernel slices a copy's destination, is those entries of its scratch; -/
theorem rowU_set (b : Fin 2) (r : Fin 128) : (rowAt (urowS) ![b.val, r.val, 0] (row_inb b r)).view.set = rset b r := by
  unfold rowAt; exact (View.set_reshape _ _).trans (View.set_slice_whole _ _)
theorem rowI_set (b : Fin 2) (r : Fin 128) : (rowAt (irowS) ![b.val, r.val, 0] (row_inb b r)).view.set = rset b r := by
  unfold rowAt; exact (View.set_reshape _ _).trans (View.set_slice_whole _ _)

/-- a half, as the kernel slices what a chunk computes on, is those of its parity. -/
theorem halfU_set (k4 : Fin k0_t4_loop.trips) (b : Fin 2) (hb : k0_off144 k4 = ![b.val, 0, 0]) : (halfU k4).view.set = hset b := by
  unfold halfU
  exact ((View.set_reshape _ _).trans (View.set_slice_whole _ _)).trans (congrArg (fun R : Rect S2x128x64 => R.set) (Rect.unit_congr hb _ _))
theorem halfI_set (k4 : Fin k0_t4_loop.trips) (b : Fin 2) (hb : k0_off158 k4 = ![b.val, 0, 0]) : (halfI k4).view.set = hset b := by
  unfold halfI
  exact ((View.set_reshape _ _).trans (View.set_slice_whole _ _)).trans (congrArg (fun R : Rect S2x128x64 => R.set) (Rect.unit_congr hb _ _))

/-- The two halves share no entry and together are the scratch. -/
theorem hset_disjoint : Disjoint (hset 0) (hset 1) := by
  rw [Finset.disjoint_left]; intro y h0 h1; rw [mem_hset] at h0 h1
  have e0 : ((0 : Fin 2) : ℕ) = 0 := rfl
  have e1 : ((1 : Fin 2) : ℕ) = 1 := rfl
  omega
theorem hset_union : hset 0 ∪ hset 1 = (Finset.univ : Finset S2x128x64.Idx) := by
  ext y
  simp only [Finset.mem_union, Finset.mem_univ, iff_true]
  rw [mem_hset, mem_hset]
  have hy : (y 0).val < 2 := (y 0).isLt
  have e0 : ((0 : Fin 2) : ℕ) = 0 := rfl
  have e1 : ((1 : Fin 2) : ℕ) = 1 := rfl
  omega

/-! ## The rows of a half, each owned, are the half owned; the two halves' rows are the scratch -/

section Res

variable (d : Dev nD) (L : grid0.Coords)

/-- Half `b` of the user-rows scratch held by its own entries is each of its rows owned, -/
theorem hsetU_to_rows (b : Fin 2) (g : Buf (Elt F) ((urowS).view.loc (thr d L))) :
    ((urowS).view.loc (thr d L) ↦[hset b]{fullShare} g : sProp 𝕄) ⊢ bigSep Finset.univ (ownU (F := F) d L b) := by
  rw [← rset_cover b]
  refine (Entails.of_eq (pointsTo_biUnion (ℓ := (urowS).view.loc (thr d L)) (q := fullShare) (f := g) Finset.univ (rset b) (rset_disjoint b))).trans
    (BI.bigSep_mono fun r _ => ?_)
  show ((urowS).view.loc (thr d L) ↦[rset b r]{fullShare} g : sProp 𝕄) ⊢ ownU (F := F) d L b r
  unfold ownU ownAt; rw [rowU_set]; iintro H; iexists g; iexact H

/-- and its rows, each owned at whatever it holds, are the half held at some contents. -/
theorem rows_to_hsetU (b : Fin 2) :
    (bigSep Finset.univ (ownU (F := F) d L b) : sProp 𝕄) ⊢ iprop(∃ g, (urowS).view.loc (thr d L) ↦[hset b]{fullShare} g) := by
  have h1 : (bigSep Finset.univ (ownU (F := F) d L b) : sProp 𝕄)
      ⊢ bigSep Finset.univ fun r : Fin 128 => iprop(∃ g, (urowS).view.loc (thr d L) ↦[rset b r]{fullShare} g) :=
    BI.bigSep_mono fun r _ => by
      show ownU (F := F) d L b r ⊢ (iprop(∃ g, (urowS).view.loc (thr d L) ↦[rset b r]{fullShare} g) : sProp 𝕄)
      unfold ownU ownAt; rw [rowU_set]; exact .rfl
  refine h1.trans ((bigSep_exists_pi Finset.univ
    (fun (r : Fin 128) (g : Buf (Elt F) ((urowS).view.loc (thr d L))) => ((urowS).view.loc (thr d L) ↦[rset b r]{fullShare} g : sProp 𝕄))).trans ?_)
  iintro ⟨%fs, H⟩
  ihave H' := (pointsTo_biUnion_join Finset.univ (rset b) fs (fs 0) (rset_disjoint b)) $$ H
  icases H' with ⟨%g, -, Hg⟩
  rw [rset_cover]
  iexists g; iexact Hg

/-- The half a chunk computes on, held by its own entries, is the 128 rows of the chunk's parity, each owned: -/
theorem halfU_to_rows (b : Fin 2) (k4 : Fin k0_t4_loop.trips) (hb : k0_off144 k4 = ![b.val, 0, 0])
    (g : Buf (Elt F) ((halfU k4).view.loc (thr d L))) :
    ((halfU k4).view.loc (thr d L) ↦[(halfU k4).view.set]{fullShare} g : sProp 𝕄) ⊢ bigSep Finset.univ (ownU (F := F) d L b) := by
  rw [halfU_set k4 b hb]
  exact hsetU_to_rows d L b g

/-- and back, at some contents. -/
theorem rows_to_halfU (b : Fin 2) (k4 : Fin k0_t4_loop.trips) (hb : k0_off144 k4 = ![b.val, 0, 0]) :
    (bigSep Finset.univ (ownU (F := F) d L b) : sProp 𝕄)
      ⊢ iprop(∃ g, (halfU k4).view.loc (thr d L) ↦[(halfU k4).view.set]{fullShare} g) := by
  rw [halfU_set k4 b hb]
  exact rows_to_hsetU d L b

/-- The scratch held whole is the rows of its two halves, each owned: -/
theorem urowS_to_rows (f : Buf (Elt F) ((urowS).view.loc (thr d L))) :
    ((urowS).view.loc (thr d L) ↦{fullShare} f : sProp 𝕄)
      ⊢ iprop(bigSep Finset.univ (ownU (F := F) d L 0) ∗ bigSep Finset.univ (ownU (F := F) d L 1)) := by
  have h : ((urowS).view.loc (thr d L) ↦[hset 0 ∪ hset 1]{fullShare} f : sProp 𝕄)
      ⊢ iprop(((urowS).view.loc (thr d L) ↦[hset 0]{fullShare} f) ∗ ((urowS).view.loc (thr d L) ↦[hset 1]{fullShare} f)) :=
    (pointsTo_union hset_disjoint).1
  rw [hset_union] at h
  exact h.trans (BIClass.sep_mono (hsetU_to_rows d L 0 f) (hsetU_to_rows d L 1 f))

/-- and back, at some contents. -/
theorem rows_to_urowS :
    (iprop(bigSep Finset.univ (ownU (F := F) d L 0) ∗ bigSep Finset.univ (ownU (F := F) d L 1)) : sProp 𝕄)
      ⊢ iprop(∃ f, (urowS).view.loc (thr d L) ↦{fullShare} f) := by
  iintro ⟨H0, H1⟩
  ihave X0 := (rows_to_hsetU d L 0) $$ H0
  icases X0 with ⟨%g0, G0⟩
  ihave X1 := (rows_to_hsetU d L 1) $$ H1
  icases X1 with ⟨%g1, G1⟩
  have h : (iprop(((urowS).view.loc (thr d L) ↦[hset 0]{fullShare} g0) ∗ ((urowS).view.loc (thr d L) ↦[hset 1]{fullShare} g1)) : sProp 𝕄)
      ⊢ ((urowS).view.loc (thr d L) ↦[hset 0 ∪ hset 1]{fullShare} (hset 1).piecewise g1 g0) :=
    pointsTo_join hset_disjoint
  rw [hset_union] at h
  ihave J := h $$ [G0 G1]
  · isplitl [G0] <;> iassumption
  iexists _; iexact J

/-- Half `b` of the item-rows scratch held by its own entries is each of its rows owned, -/
theorem hsetI_to_rows (b : Fin 2) (g : Buf (Elt F) ((irowS).view.loc (thr d L))) :
    ((irowS).view.loc (thr d L) ↦[hset b]{fullShare} g : sProp 𝕄) ⊢ bigSep Finset.univ (ownI (F := F) d L b) := by
  rw [← rset_cover b]
  refine (Entails.of_eq (pointsTo_biUnion (ℓ := (irowS).view.loc (thr d L)) (q := fullShare) (f := g) Finset.univ (rset b) (rset_disjoint b))).trans
    (BI.bigSep_mono fun r _ => ?_)
  show ((irowS).view.loc (thr d L) ↦[rset b r]{fullShare} g : sProp 𝕄) ⊢ ownI (F := F) d L b r
  unfold ownI ownAt; rw [rowI_set]; iintro H; iexists g; iexact H

/-- and its rows, each owned at whatever it holds, are the half held at some contents. -/
theorem rows_to_hsetI (b : Fin 2) :
    (bigSep Finset.univ (ownI (F := F) d L b) : sProp 𝕄) ⊢ iprop(∃ g, (irowS).view.loc (thr d L) ↦[hset b]{fullShare} g) := by
  have h1 : (bigSep Finset.univ (ownI (F := F) d L b) : sProp 𝕄)
      ⊢ bigSep Finset.univ fun r : Fin 128 => iprop(∃ g, (irowS).view.loc (thr d L) ↦[rset b r]{fullShare} g) :=
    BI.bigSep_mono fun r _ => by
      show ownI (F := F) d L b r ⊢ (iprop(∃ g, (irowS).view.loc (thr d L) ↦[rset b r]{fullShare} g) : sProp 𝕄)
      unfold ownI ownAt; rw [rowI_set]; exact .rfl
  refine h1.trans ((bigSep_exists_pi Finset.univ
    (fun (r : Fin 128) (g : Buf (Elt F) ((irowS).view.loc (thr d L))) => ((irowS).view.loc (thr d L) ↦[rset b r]{fullShare} g : sProp 𝕄))).trans ?_)
  iintro ⟨%fs, H⟩
  ihave H' := (pointsTo_biUnion_join Finset.univ (rset b) fs (fs 0) (rset_disjoint b)) $$ H
  icases H' with ⟨%g, -, Hg⟩
  rw [rset_cover]
  iexists g; iexact Hg

/-- The half a chunk computes on, held by its own entries, is the 128 rows of the chunk's parity, each owned: -/
theorem halfI_to_rows (b : Fin 2) (k4 : Fin k0_t4_loop.trips) (hb : k0_off158 k4 = ![b.val, 0, 0])
    (g : Buf (Elt F) ((halfI k4).view.loc (thr d L))) :
    ((halfI k4).view.loc (thr d L) ↦[(halfI k4).view.set]{fullShare} g : sProp 𝕄) ⊢ bigSep Finset.univ (ownI (F := F) d L b) := by
  rw [halfI_set k4 b hb]
  exact hsetI_to_rows d L b g

/-- and back, at some contents. -/
theorem rows_to_halfI (b : Fin 2) (k4 : Fin k0_t4_loop.trips) (hb : k0_off158 k4 = ![b.val, 0, 0]) :
    (bigSep Finset.univ (ownI (F := F) d L b) : sProp 𝕄)
      ⊢ iprop(∃ g, (halfI k4).view.loc (thr d L) ↦[(halfI k4).view.set]{fullShare} g) := by
  rw [halfI_set k4 b hb]
  exact rows_to_hsetI d L b

/-- The scratch held whole is the rows of its two halves, each owned: -/
theorem irowS_to_rows (f : Buf (Elt F) ((irowS).view.loc (thr d L))) :
    ((irowS).view.loc (thr d L) ↦{fullShare} f : sProp 𝕄)
      ⊢ iprop(bigSep Finset.univ (ownI (F := F) d L 0) ∗ bigSep Finset.univ (ownI (F := F) d L 1)) := by
  have h : ((irowS).view.loc (thr d L) ↦[hset 0 ∪ hset 1]{fullShare} f : sProp 𝕄)
      ⊢ iprop(((irowS).view.loc (thr d L) ↦[hset 0]{fullShare} f) ∗ ((irowS).view.loc (thr d L) ↦[hset 1]{fullShare} f)) :=
    (pointsTo_union hset_disjoint).1
  rw [hset_union] at h
  exact h.trans (BIClass.sep_mono (hsetI_to_rows d L 0 f) (hsetI_to_rows d L 1 f))

/-- and back, at some contents. -/
theorem rows_to_irowS :
    (iprop(bigSep Finset.univ (ownI (F := F) d L 0) ∗ bigSep Finset.univ (ownI (F := F) d L 1)) : sProp 𝕄)
      ⊢ iprop(∃ f, (irowS).view.loc (thr d L) ↦{fullShare} f) := by
  iintro ⟨H0, H1⟩
  ihave X0 := (rows_to_hsetI d L 0) $$ H0
  icases X0 with ⟨%g0, G0⟩
  ihave X1 := (rows_to_hsetI d L 1) $$ H1
  icases X1 with ⟨%g1, G1⟩
  have h : (iprop(((irowS).view.loc (thr d L) ↦[hset 0]{fullShare} g0) ∗ ((irowS).view.loc (thr d L) ↦[hset 1]{fullShare} g1)) : sProp 𝕄)
      ⊢ ((irowS).view.loc (thr d L) ↦[hset 0 ∪ hset 1]{fullShare} (hset 1).piecewise g1 g0) :=
    pointsTo_join hset_disjoint
  rw [hset_union] at h
  ihave J := h $$ [G0 G1]
  · isplitl [G0] <;> iassumption
  iexists _; iexact J

end Res

end Cert.Proof.KB

end
-- ==== Proof.KDrainB.lean ====
/-
  The two drains of the chunk loop. A chunk whose parity is 0 ends by draining half 0: 128 trips, each a wait on the
  user rows' cell and a wait on the item rows' cell for the units of one copy of 64 entries; a chunk of parity 1 drains
  half 1 on the other two cells. The 128 copies into a half are a batch on their cell, so every wait but the last only
  consumes units, and the last wait of each batch hands the cell back at zero and every row of the half, owned. The
  invariant therefore goes by cases on the trip: the two batches while a trip is still to come, the cells and the rows
  after the last. The waits are recorded beside what the tile had waited on at entry, all at the index where it owes
  nothing.
-/
import proofs.«214512_g89103391522852_cont_sun_m_1157_25_alg».proof.Proof.KRowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

section Tile

variable [∀ e, Nonempty (Elt F e)] (d : Dev nD) (L : grid0.Coords)

/-- Before trip `k` of the drain of half `b` — 128 trips, each a wait on the user rows' cell `su` and a wait on the
    item rows' cell `si` for one copy's units —: the tile may wait at index `none` under what it owes; what it has
    waited on so far is what it had on entry (`W`) and waits at `none`; and either (a trip is still to come) the two
    batches, all 128 copies issued and `k` copies' units consumed of each, or (after the last) both cells back at zero
    and every row of the half owned in either scratch. -/
def drainInv (b : Fin 2) (su si : SemLoc sig) (O : CellTallies nD τ sig (HIx 1)) (W : Waits sig (HIx 1)) (k : ℕ) (_ : Unit) : sProp 𝕄 :=
  iprop(⌜k ≤ 128⌝ ∗ Transfers.MayWaits (thr d L) (none : HIx 1) O
    ∗ (∃ W', ⌜∀ p ∈ W', p ∈ W ∨ p.2 = none⌝ ∗ owes (thr d L) O W')
    ∗ (if k < 128 then iprop(batchU (F := F) d L b su 128 (k * 2048) ∗ batchI (F := F) d L b si 128 (k * 2048))
       else iprop(semVal (thr d L, su) 0 ∗ bigSep Finset.univ (ownU (F := F) d L b)
          ∗ semVal (thr d L, si) 0 ∗ bigSep Finset.univ (ownI (F := F) d L b))))

/-- One trip of the drain of half 0: a wait on the user rows' cell, a wait on the item rows' cell, each for one
    copy's units. Before the last trip the two batches go on with one more copy's units consumed; the last trip's two
    waits are the batches' last, and hand the cells back at zero and every row of the half, owned. -/
theorem t5_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1)
    (O : CellTallies nD τ sig (HIx 1)) (W : Waits sig (HIx 1)) (k : Fin k0_t5_loop.trips) (acc : Unit) :
    drainInv (F := F) d L 0 (SemLoc.dma cc0_scratch7.sem) (SemLoc.dma cc0_scratch9.sem) O W k.val acc
      ⊢ wp frame (wpE (defs₀ (F := F)) 𝒱₀ (thr d L) none) Set.univ
          (k0_t5_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1 k acc)
          (drainInv (F := F) d L 0 (SemLoc.dma cc0_scratch7.sem) (SemLoc.dma cc0_scratch9.sem) O W (k.val + 1)) := by
  have hk : k.val < 128 := lt_of_lt_of_le k.isLt k0_t5_abs.2.1
  unfold drainInv
  simp only [if_pos hk]
  rcases Nat.lt_or_ge (k.val + 1) 128 with h1 | h1
  · simp only [if_pos h1]
    iintro ⟨-, #Hmw, ⟨%W', %hW', HO⟩, HBu, HBi⟩
    unfold k0_t5_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    rw [show (k.val + 1) * 2048 = k.val * 2048 + 2048 by omega]
    isplitl [HBu]; · iexact HBu
    iexact HBi
  · simp only [if_neg (Nat.not_lt.mpr h1)]
    iintro ⟨-, #Hmw, ⟨%W', %hW', HO⟩, HBu, HBi⟩
    unfold k0_t5_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    isplitl [HBu]; · iexact HBu
    isplitl [HBu_all]; · iexact HBu_all
    isplitl [HBi]; · iexact HBi
    iexact HBi_all

/-- One trip of the drain of half 1: a wait on the user rows' cell, a wait on the item rows' cell, each for one
    copy's units. Before the last trip the two batches go on with one more copy's units consumed; the last trip's two
    waits are the batches' last, and hand the cells back at zero and every row of the half, owned. -/
theorem t6_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1)
    (O : CellTallies nD τ sig (HIx 1)) (W : Waits sig (HIx 1)) (k : Fin k0_t6_loop.trips) (acc : Unit) :
    drainInv (F := F) d L 1 (SemLoc.dma cc0_scratch8.sem) (SemLoc.dma cc0_scratch10.sem) O W k.val acc
      ⊢ wp frame (wpE (defs₀ (F := F)) 𝒱₀ (thr d L) none) Set.univ
          (k0_t6_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2 k acc)
          (drainInv (F := F) d L 1 (SemLoc.dma cc0_scratch8.sem) (SemLoc.dma cc0_scratch10.sem) O W (k.val + 1)) := by
  have hk : k.val < 128 := lt_of_lt_of_le k.isLt k0_t6_abs.2.1
  unfold drainInv
  simp only [if_pos hk]
  rcases Nat.lt_or_ge (k.val + 1) 128 with h1 | h1
  · simp only [if_pos h1]
    iintro ⟨-, #Hmw, ⟨%W', %hW', HO⟩, HBu, HBi⟩
    unfold k0_t6_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    rw [show (k.val + 1) * 2048 = k.val * 2048 + 2048 by omega]
    isplitl [HBu]; · iexact HBu
    iexact HBi
  · simp only [if_neg (Nat.not_lt.mpr h1)]
    iintro ⟨-, #Hmw, ⟨%W', %hW', HO⟩, HBu, HBi⟩
    unfold k0_t6_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    isplitl [HBu]; · iexact HBu
    isplitl [HBu_all]; · iexact HBu_all
    isplitl [HBi]; · iexact HBi
    iexact HBi_all

end Tile

section Tile2

variable [∀ e, Nonempty (Elt F e)] (d : Dev nD) (L : grid0.Coords)

theorem k0_t5_trips : k0_t5_loop.trips = 128 := by decide
theorem k0_t6_trips : k0_t6_loop.trips = 128 := by decide

/-- On entry to a drain: the two batches with every copy issued and nothing consumed are the invariant before trip 0. -/
theorem drain_entry (b : Fin 2) (su si : SemLoc sig) (O : CellTallies nD τ sig (HIx 1)) (W : Waits sig (HIx 1)) (acc : Unit) :
    iprop(Transfers.MayWaits (thr d L) (none : HIx 1) O ∗ (∃ W', ⌜∀ p ∈ W', p ∈ W ∨ p.2 = none⌝ ∗ owes (thr d L) O W')
        ∗ batchU (F := F) d L b su 128 0 ∗ batchI (F := F) d L b si 128 0)
      ⊢ drainInv (F := F) d L b su si O W 0 acc := by
  unfold drainInv
  simp only [if_pos (show 0 < 128 by decide), Nat.zero_mul]
  iintro ⟨Hmw, HO, HBu, HBi⟩
  isplitr; · ipureintro; omega
  isplitl [Hmw]; · iexact Hmw
  isplitl [HO]; · iexact HO
  isplitl [HBu]; · iexact HBu
  iexact HBi

/-- After the 128 trips of a drain: both cells at zero and every row of the half owned in either scratch. -/
theorem drain_exit (b : Fin 2) (su si : SemLoc sig) (O : CellTallies nD τ sig (HIx 1)) (W : Waits sig (HIx 1)) (acc : Unit) :
    drainInv (F := F) d L b su si O W 128 acc
      ⊢ iprop(Transfers.MayWaits (thr d L) (none : HIx 1) O ∗ (∃ W', ⌜∀ p ∈ W', p ∈ W ∨ p.2 = none⌝ ∗ owes (thr d L) O W')
          ∗ semVal (thr d L, su) 0 ∗ bigSep Finset.univ (ownU (F := F) d L b)
          ∗ semVal (thr d L, si) 0 ∗ bigSep Finset.univ (ownI (F := F) d L b)) := by
  unfold drainInv
  simp only [if_neg (Nat.lt_irrefl 128)]
  iintro ⟨-, Hmw, HO, Hr⟩
  isplitl [Hmw]; · iexact Hmw
  isplitl [HO]; · iexact HO
  iexact Hr

set_option warn.classDefReducibility false in
/-- The drain of half 0 as a counted loop's invariant, the waits `W` at entry a parameter. -/
def invT5 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1) (O : CellTallies nD τ sig (HIx 1)) (W : Waits sig (HIx 1)) :
    LoopInv (M := 𝕄) frame (wpE (defs₀ (F := F)) 𝒱₀ (thr d L) none) Set.univ k0_t5_loop.lb k0_t5_loop.ub k0_t5_loop.st (k0_t5_ok k0_t4 k0_h1) ⟨⟩
      (k0_t5_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1) where
  inv := drainInv (F := F) d L 0 (SemLoc.dma cc0_scratch7.sem) (SemLoc.dma cc0_scratch9.sem) O W
  step := t5_step d L v3 v7 v11 v15 v19 v23 v24 c1285_i32 k0_t4 k0_h1 O W

set_option warn.classDefReducibility false in
/-- The drain of half 1 likewise. -/
def invT6 (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1) (O : CellTallies nD τ sig (HIx 1)) (W : Waits sig (HIx 1)) :
    LoopInv (M := 𝕄) frame (wpE (defs₀ (F := F)) 𝒱₀ (thr d L) none) Set.univ k0_t6_loop.lb k0_t6_loop.ub k0_t6_loop.st (k0_t6_ok k0_t4 k0_h2) ⟨⟩
      (k0_t6_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2) where
  inv := drainInv (F := F) d L 1 (SemLoc.dma cc0_scratch8.sem) (SemLoc.dma cc0_scratch10.sem) O W
  step := t6_step d L v3 v7 v11 v15 v19 v23 v24 c1285_i32 k0_t4 k0_h2 O W

end Tile2

/-! ## The same with the recorded waits explicit

Before trip `k` the tile has waited on `W` and, from the first trip on, on the half's two cells; before trip 0 that is
the state at entry. -/

section TileW

variable [∀ e, Nonempty (Elt F e)] (d : Dev nD) (L : grid0.Coords)

/-- What the tile has waited on before trip `k` of a drain entered at `W`: from the first trip on, the two cells too. -/
def wDrain (su si : SemLoc sig) (W : Waits sig (HIx 1)) : ℕ → Waits sig (HIx 1)
  | 0 => W
  | _ + 1 => insert (si, (none : HIx 1)) (insert (su, (none : HIx 1)) W)

omit [FloatOps F] [∀ e, Nonempty (Elt F e)] in
theorem wDrain_step (su si : SemLoc sig) (W : Waits sig (HIx 1)) (k : ℕ) :
    insert (si, (none : HIx 1)) (insert (su, (none : HIx 1)) (wDrain su si W k)) = wDrain su si W (k + 1) := by
  cases k with
  | zero => rfl
  | succ n =>
    show insert (si, (none : HIx 1)) (insert (su, (none : HIx 1)) (insert (si, (none : HIx 1)) (insert (su, (none : HIx 1)) W))) = _
    ext x; simp only [wDrain, Finset.mem_insert]; tauto

def drainInvW (b : Fin 2) (su si : SemLoc sig) (O : CellTallies nD τ sig (HIx 1)) (W : Waits sig (HIx 1)) (k : ℕ) (_ : Unit) : sProp 𝕄 :=
  iprop(⌜k ≤ 128⌝ ∗ Transfers.MayWaits (thr d L) (none : HIx 1) O ∗ owes (thr d L) O (wDrain su si W k)
    ∗ (if k < 128 then iprop(batchU (F := F) d L b su 128 (k * 2048) ∗ batchI (F := F) d L b si 128 (k * 2048))
       else iprop(semVal (thr d L, su) 0 ∗ bigSep Finset.univ (ownU (F := F) d L b)
          ∗ semVal (thr d L, si) 0 ∗ bigSep Finset.univ (ownI (F := F) d L b))))

/-- One trip of the drain of half 0, the waits recorded outright. -/
theorem t5W_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1)
    (O : CellTallies nD τ sig (HIx 1)) (W : Waits sig (HIx 1)) (k : Fin k0_t5_loop.trips) (acc : Unit) :
    drainInvW (F := F) d L 0 (SemLoc.dma cc0_scratch7.sem) (SemLoc.dma cc0_scratch9.sem) O W k.val acc
      ⊢ wp frame (wpE (defs₀ (F := F)) 𝒱₀ (thr d L) none) Set.univ
          (k0_t5_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1 k acc)
          (drainInvW (F := F) d L 0 (SemLoc.dma cc0_scratch7.sem) (SemLoc.dma cc0_scratch9.sem) O W (k.val + 1)) := by
  have hk : k.val < 128 := lt_of_lt_of_le k.isLt k0_t5_abs.2.1
  unfold drainInvW
  simp only [if_pos hk]
  rcases Nat.lt_or_ge (k.val + 1) 128 with h1 | h1
  · simp only [if_pos h1]
    iintro ⟨-, #Hmw, HO, HBu, HBi⟩
    unfold k0_t5_body
    sl_exec
    sl_step
    isplitr; · ipureintro; omega
    isplitr; · iexact Hmw
    isplitl [HO]
    · rw [← wDrain_step]; iexact HO
    rw [show (k.val + 1) * 2048 = k.val * 2048 + 2048 by omega]
    isplitl [HBu]; · iexact HBu
    iexact HBi
  · simp only [if_neg (Nat.not_lt.mpr h1)]
    iintro ⟨-, #Hmw, HO, HBu, HBi⟩
    unfold k0_t5_body
    sl_exec
    sl_step
    isplitr; · ipureintro; omega
    isplitr; · iexact Hmw
    isplitl [HO]
    · rw [← wDrain_step]; iexact HO
    isplitl [HBu]; · iexact HBu
    isplitl [HBu_all]; · iexact HBu_all
    isplitl [HBi]; · iexact HBi
    iexact HBi_all

/-- One trip of the drain of half 1, the waits recorded outright. -/
theorem t6W_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1)
    (O : CellTallies nD τ sig (HIx 1)) (W : Waits sig (HIx 1)) (k : Fin k0_t6_loop.trips) (acc : Unit) :
    drainInvW (F := F) d L 1 (SemLoc.dma cc0_scratch8.sem) (SemLoc.dma cc0_scratch10.sem) O W k.val acc
      ⊢ wp frame (wpE (defs₀ (F := F)) 𝒱₀ (thr d L) none) Set.univ
          (k0_t6_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2 k acc)
          (drainInvW (F := F) d L 1 (SemLoc.dma cc0_scratch8.sem) (SemLoc.dma cc0_scratch10.sem) O W (k.val + 1)) := by
  have hk : k.val < 128 := lt_of_lt_of_le k.isLt k0_t6_abs.2.1
  unfold drainInvW
  simp only [if_pos hk]
  rcases Nat.lt_or_ge (k.val + 1) 128 with h1 | h1
  · simp only [if_pos h1]
    iintro ⟨-, #Hmw, HO, HBu, HBi⟩
    unfold k0_t6_body
    sl_exec
    sl_step
    isplitr; · ipureintro; omega
    isplitr; · iexact Hmw
    isplitl [HO]
    · rw [← wDrain_step]; iexact HO
    rw [show (k.val + 1) * 2048 = k.val * 2048 + 2048 by omega]
    isplitl [HBu]; · iexact HBu
    iexact HBi
  · simp only [if_neg (Nat.not_lt.mpr h1)]
    iintro ⟨-, #Hmw, HO, HBu, HBi⟩
    unfold k0_t6_body
    sl_exec
    sl_step
    isplitr; · ipureintro; omega
    isplitr; · iexact Hmw
    isplitl [HO]
    · rw [← wDrain_step]; iexact HO
    isplitl [HBu]; · iexact HBu
    isplitl [HBu_all]; · iexact HBu_all
    isplitl [HBi]; · iexact HBi
    iexact HBi_all

/-- What a drain entered at `W` leaves: the tile may still wait, has waited on the two cells besides `W`, holds both
    cells at zero and every row of the half in either scratch. -/
def drainPostW (b : Fin 2) (su si : SemLoc sig) (O : CellTallies nD τ sig (HIx 1)) (W : Waits sig (HIx 1)) : sProp 𝕄 :=
  iprop(Transfers.MayWaits (thr d L) (none : HIx 1) O ∗ owes (thr d L) O (insert (si, (none : HIx 1)) (insert (su, (none : HIx 1)) W))
    ∗ semVal (thr d L, su) 0 ∗ bigSep Finset.univ (ownU (F := F) d L b)
    ∗ semVal (thr d L, si) 0 ∗ bigSep Finset.univ (ownI (F := F) d L b))

theorem drainW_exit (b : Fin 2) (su si : SemLoc sig) (O : CellTallies nD τ sig (HIx 1)) (W : Waits sig (HIx 1)) (acc : Unit) :
    drainInvW (F := F) d L b su si O W 128 acc ⊢ drainPostW (F := F) d L b su si O W := by
  unfold drainInvW drainPostW
  simp only [if_neg (Nat.lt_irrefl 128)]
  iintro ⟨-, Hmw, HO, Hr⟩
  isplitl [Hmw]; · iexact Hmw
  isplitl [HO]; · iexact HO
  iexact Hr

set_option warn.classDefReducibility false in
@[sl_loop] def invT5W (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1) (O : CellTallies nD τ sig (HIx 1)) (W : Waits sig (HIx 1)) :
    LoopInv (M := 𝕄) frame (wpE (defs₀ (F := F)) 𝒱₀ (thr d L) none) Set.univ k0_t5_loop.lb k0_t5_loop.ub k0_t5_loop.st (k0_t5_ok k0_t4 k0_h1) ⟨⟩
      (k0_t5_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1) where
  inv := drainInvW (F := F) d L 0 (SemLoc.dma cc0_scratch7.sem) (SemLoc.dma cc0_scratch9.sem) O W
  step := t5W_step d L v3 v7 v11 v15 v19 v23 v24 c1285_i32 k0_t4 k0_h1 O W

set_option warn.classDefReducibility false in
@[sl_loop] def invT6W (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1) (O : CellTallies nD τ sig (HIx 1)) (W : Waits sig (HIx 1)) :
    LoopInv (M := 𝕄) frame (wpE (defs₀ (F := F)) 𝒱₀ (thr d L) none) Set.univ k0_t6_loop.lb k0_t6_loop.ub k0_t6_loop.st (k0_t6_ok k0_t4 k0_h2) ⟨⟩
      (k0_t6_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2) where
  inv := drainInvW (F := F) d L 1 (SemLoc.dma cc0_scratch8.sem) (SemLoc.dma cc0_scratch10.sem) O W
  step := t6W_step d L v3 v7 v11 v15 v19 v23 v24 c1285_i32 k0_t4 k0_h2 O W

/-- What either drain leaves, stated explicitly: the state from which the rest of the chunk proceeds. -/
instance exitT5W (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1) (O : CellTallies nD τ sig (HIx 1)) (W : Waits sig (HIx 1)) :
    LoopExit (invT5W (F := F) d L v3 v7 v11 v15 v19 v23 v24 c1285_i32 k0_t4 k0_h1 O W) where
  post _ := drainPostW (F := F) d L 0 (SemLoc.dma cc0_scratch7.sem) (SemLoc.dma cc0_scratch9.sem) O W
  exit acc := by
    show drainInvW (F := F) d L 0 (SemLoc.dma cc0_scratch7.sem) (SemLoc.dma cc0_scratch9.sem) O W k0_t5_loop.trips acc ⊢ _
    rw [k0_t5_trips]; exact drainW_exit d L 0 _ _ O W acc

instance exitT6W (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1) (O : CellTallies nD τ sig (HIx 1)) (W : Waits sig (HIx 1)) :
    LoopExit (invT6W (F := F) d L v3 v7 v11 v15 v19 v23 v24 c1285_i32 k0_t4 k0_h2 O W) where
  post _ := drainPostW (F := F) d L 1 (SemLoc.dma cc0_scratch8.sem) (SemLoc.dma cc0_scratch10.sem) O W
  exit acc := by
    show drainInvW (F := F) d L 1 (SemLoc.dma cc0_scratch8.sem) (SemLoc.dma cc0_scratch10.sem) O W k0_t6_loop.trips acc ⊢ _
    rw [k0_t6_trips]; exact drainW_exit d L 1 _ _ O W acc

end TileW

end Cert.Proof.KB

end
-- ==== Proof.KIssueT2B.lean ====
/-
  One trip of an issue loop at a symbolic trip `k`: the sixteen row copies from each table of that trip are the
  copies number `16 k … 16 k + 15` of the two batches on the half's two semaphores. Each copy's row index is a lane of
  the index scratch, hence a word of the index array, hence (by the precondition) a row of its table; its destination
  is row `16 k + j` of the half, which the batch promised to deliver; it consumes one read token of its table.
-/
import proofs.«214512_g89103391522852_cont_sun_m_1157_25_alg».proof.Proof.KRowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

/-! The destination offsets the program computes, in closed form. -/
theorem offU_t2_0 : ∀ k : Fin k0_t2_loop.trips, k0_off15 k = ![0, 16 * k.val, 0] := by decide +kernel
theorem offU_t2_1 : ∀ k : Fin k0_t2_loop.trips, k0_off19 k = ![0, 16 * k.val + 1, 0] := by decide +kernel
theorem offU_t2_2 : ∀ k : Fin k0_t2_loop.trips, k0_off23 k = ![0, 16 * k.val + 2, 0] := by decide +kernel
theorem offU_t2_3 : ∀ k : Fin k0_t2_loop.trips, k0_off27 k = ![0, 16 * k.val + 3, 0] := by decide +kernel
theorem offU_t2_4 : ∀ k : Fin k0_t2_loop.trips, k0_off31 k = ![0, 16 * k.val + 4, 0] := by decide +kernel
theorem offU_t2_5 : ∀ k : Fin k0_t2_loop.trips, k0_off35 k = ![0, 16 * k.val + 5, 0] := by decide +kernel
theorem offU_t2_6 : ∀ k : Fin k0_t2_loop.trips, k0_off39 k = ![0, 16 * k.val + 6, 0] := by decide +kernel
theorem offU_t2_7 : ∀ k : Fin k0_t2_loop.trips, k0_off43 k = ![0, 16 * k.val + 7, 0] := by decide +kernel
theorem offU_t2_8 : ∀ k : Fin k0_t2_loop.trips, k0_off47 k = ![0, 16 * k.val + 8, 0] := by decide +kernel
theorem offU_t2_9 : ∀ k : Fin k0_t2_loop.trips, k0_off51 k = ![0, 16 * k.val + 9, 0] := by decide +kernel
theorem offU_t2_10 : ∀ k : Fin k0_t2_loop.trips, k0_off55 k = ![0, 16 * k.val + 10, 0] := by decide +kernel
theorem offU_t2_11 : ∀ k : Fin k0_t2_loop.trips, k0_off59 k = ![0, 16 * k.val + 11, 0] := by decide +kernel
theorem offU_t2_12 : ∀ k : Fin k0_t2_loop.trips, k0_off63 k = ![0, 16 * k.val + 12, 0] := by decide +kernel
theorem offU_t2_13 : ∀ k : Fin k0_t2_loop.trips, k0_off67 k = ![0, 16 * k.val + 13, 0] := by decide +kernel
theorem offU_t2_14 : ∀ k : Fin k0_t2_loop.trips, k0_off71 k = ![0, 16 * k.val + 14, 0] := by decide +kernel
theorem offU_t2_15 : ∀ k : Fin k0_t2_loop.trips, k0_off75 k = ![0, 16 * k.val + 15, 0] := by decide +kernel
theorem offI_t2_0 : ∀ k : Fin k0_t2_loop.trips, k0_off17 k 0#32 = ![0, 16 * k.val, 0] := by decide +kernel
theorem offI_t2_1 : ∀ k : Fin k0_t2_loop.trips, k0_off21 k 1#32 = ![0, 16 * k.val + 1, 0] := by decide +kernel
theorem offI_t2_2 : ∀ k : Fin k0_t2_loop.trips, k0_off25 k 2#32 = ![0, 16 * k.val + 2, 0] := by decide +kernel
theorem offI_t2_3 : ∀ k : Fin k0_t2_loop.trips, k0_off29 k 3#32 = ![0, 16 * k.val + 3, 0] := by decide +kernel
theorem offI_t2_4 : ∀ k : Fin k0_t2_loop.trips, k0_off33 k 4#32 = ![0, 16 * k.val + 4, 0] := by decide +kernel
theorem offI_t2_5 : ∀ k : Fin k0_t2_loop.trips, k0_off37 k 5#32 = ![0, 16 * k.val + 5, 0] := by decide +kernel
theorem offI_t2_6 : ∀ k : Fin k0_t2_loop.trips, k0_off41 k 6#32 = ![0, 16 * k.val + 6, 0] := by decide +kernel
theorem offI_t2_7 : ∀ k : Fin k0_t2_loop.trips, k0_off45 k 7#32 = ![0, 16 * k.val + 7, 0] := by decide +kernel
theorem offI_t2_8 : ∀ k : Fin k0_t2_loop.trips, k0_off49 k 8#32 = ![0, 16 * k.val + 8, 0] := by decide +kernel
theorem offI_t2_9 : ∀ k : Fin k0_t2_loop.trips, k0_off53 k 9#32 = ![0, 16 * k.val + 9, 0] := by decide +kernel
theorem offI_t2_10 : ∀ k : Fin k0_t2_loop.trips, k0_off57 k 10#32 = ![0, 16 * k.val + 10, 0] := by decide +kernel
theorem offI_t2_11 : ∀ k : Fin k0_t2_loop.trips, k0_off61 k 11#32 = ![0, 16 * k.val + 11, 0] := by decide +kernel
theorem offI_t2_12 : ∀ k : Fin k0_t2_loop.trips, k0_off65 k 12#32 = ![0, 16 * k.val + 12, 0] := by decide +kernel
theorem offI_t2_13 : ∀ k : Fin k0_t2_loop.trips, k0_off69 k 13#32 = ![0, 16 * k.val + 13, 0] := by decide +kernel
theorem offI_t2_14 : ∀ k : Fin k0_t2_loop.trips, k0_off73 k 14#32 = ![0, 16 * k.val + 14, 0] := by decide +kernel
theorem offI_t2_15 : ∀ k : Fin k0_t2_loop.trips, k0_off77 k = ![0, 16 * k.val + 15, 0] := by decide +kernel

/-! The rows by number are the rows as the program slices them. -/
omit [FloatOps F] in
theorem EU_t2_0 (d : Dev nD) (L : grid0.Coords) (k : Fin k0_t2_loop.trips) (h) :
    ownU (F := F) d L 0 ⟨16 * k.val, h⟩
      = ownAt (F := F) d L (urowS) (k0_off15 k) (inb_of (offU_t2_0 k) (by decide) (by have := k.isLt; have := k0_t2_abs.2.1; omega)) :=
  ownAt_congr d L (offU_t2_0 k).symm _ _
omit [FloatOps F] in
theorem EU_t2_1 (d : Dev nD) (L : grid0.Coords) (k : Fin k0_t2_loop.trips) (h) :
    ownU (F := F) d L 0 ⟨16 * k.val + 1, h⟩
      = ownAt (F := F) d L (urowS) (k0_off19 k) (inb_of (offU_t2_1 k) (by decide) (by have := k.isLt; have := k0_t2_abs.2.1; omega)) :=
  ownAt_congr d L (offU_t2_1 k).symm _ _
omit [FloatOps F] in
theorem EU_t2_2 (d : Dev nD) (L : grid0.Coords) (k : Fin k0_t2_loop.trips) (h) :
    ownU (F := F) d L 0 ⟨16 * k.val + 2, h⟩
      = ownAt (F := F) d L (urowS) (k0_off23 k) (inb_of (offU_t2_2 k) (by decide) (by have := k.isLt; have := k0_t2_abs.2.1; omega)) :=
  ownAt_congr d L (offU_t2_2 k).symm _ _
omit [FloatOps F] in
theorem EU_t2_3 (d : Dev nD) (L : grid0.Coords) (k : Fin k0_t2_loop.trips) (h) :
    ownU (F := F) d L 0 ⟨16 * k.val + 3, h⟩
      = ownAt (F := F) d L (urowS) (k0_off27 k) (inb_of (offU_t2_3 k) (by decide) (by have := k.isLt; have := k0_t2_abs.2.1; omega)) :=
  ownAt_congr d L (offU_t2_3 k).symm _ _
omit [FloatOps F] in
theorem EU_t2_4 (d : Dev nD) (L : grid0.Coords) (k : Fin k0_t2_loop.trips) (h) :
    ownU (F := F) d L 0 ⟨16 * k.val + 4, h⟩
      = ownAt (F := F) d L (urowS) (k0_off31 k) (inb_of (offU_t2_4 k) (by decide) (by have := k.isLt; have := k0_t2_abs.2.1; omega)) :=
  ownAt_congr d L (offU_t2_4 k).symm _ _
omit [FloatOps F] in
theorem EU_t2_5 (d : Dev nD) (L : grid0.Coords) (k : Fin k0_t2_loop.trips) (h) :
    ownU (F := F) d L 0 ⟨16 * k.val + 5, h⟩
      = ownAt (F := F) d L (urowS) (k0_off35 k) (inb_of (offU_t2_5 k) (by decide) (by have := k.isLt; have := k0_t2_abs.2.1; omega)) :=
  ownAt_congr d L (offU_t2_5 k).symm _ _
omit [FloatOps F] in
theorem EU_t2_6 (d : Dev nD) (L : grid0.Coords) (k : Fin k0_t2_loop.trips) (h) :
    ownU (F := F) d L 0 ⟨16 * k.val + 6, h⟩
      = ownAt (F := F) d L (urowS) (k0_off39 k) (inb_of (offU_t2_6 k) (by decide) (by have := k.isLt; have := k0_t2_abs.2.1; omega)) :=
  ownAt_congr d L (offU_t2_6 k).symm _ _
omit [FloatOps F] in
theorem EU_t2_7 (d : Dev nD) (L : grid0.Coords) (k : Fin k0_t2_loop.trips) (h) :
    ownU (F := F) d L 0 ⟨16 * k.val + 7, h⟩
      = ownAt (F := F) d L (urowS) (k0_off43 k) (inb_of (offU_t2_7 k) (by decide) (by have := k.isLt; have := k0_t2_abs.2.1; omega)) :=
  ownAt_congr d L (offU_t2_7 k).symm _ _
omit [FloatOps F] in
theorem EU_t2_8 (d : Dev nD) (L : grid0.Coords) (k : Fin k0_t2_loop.trips) (h) :
    ownU (F := F) d L 0 ⟨16 * k.val + 8, h⟩
      = ownAt (F := F) d L (urowS) (k0_off47 k) (inb_of (offU_t2_8 k) (by decide) (by have := k.isLt; have := k0_t2_abs.2.1; omega)) :=
  ownAt_congr d L (offU_t2_8 k).symm _ _
omit [FloatOps F] in
theorem EU_t2_9 (d : Dev nD) (L : grid0.Coords) (k : Fin k0_t2_loop.trips) (h) :
    ownU (F := F) d L 0 ⟨16 * k.val + 9, h⟩
      = ownAt (F := F) d L (urowS) (k0_off51 k) (inb_of (offU_t2_9 k) (by decide) (by have := k.isLt; have := k0_t2_abs.2.1; omega)) :=
  ownAt_congr d L (offU_t2_9 k).symm _ _
omit [FloatOps F] in
theorem EU_t2_10 (d : Dev nD) (L : grid0.Coords) (k : Fin k0_t2_loop.trips) (h) :
    ownU (F := F) d L 0 ⟨16 * k.val + 10, h⟩
      = ownAt (F := F) d L (urowS) (k0_off55 k) (inb_of (offU_t2_10 k) (by decide) (by have := k.isLt; have := k0_t2_abs.2.1; omega)) :=
  ownAt_congr d L (offU_t2_10 k).symm _ _
omit [FloatOps F] in
theorem EU_t2_11 (d : Dev nD) (L : grid0.Coords) (k : Fin k0_t2_loop.trips) (h) :
    ownU (F := F) d L 0 ⟨16 * k.val + 11, h⟩
      = ownAt (F := F) d L (urowS) (k0_off59 k) (inb_of (offU_t2_11 k) (by decide) (by have := k.isLt; have := k0_t2_abs.2.1; omega)) :=
  ownAt_congr d L (offU_t2_11 k).symm _ _
omit [FloatOps F] in
theorem EU_t2_12 (d : Dev nD) (L : grid0.Coords) (k : Fin k0_t2_loop.trips) (h) :
    ownU (F := F) d L 0 ⟨16 * k.val + 12, h⟩
      = ownAt (F := F) d L (urowS) (k0_off63 k) (inb_of (offU_t2_12 k) (by decide) (by have := k.isLt; have := k0_t2_abs.2.1; omega)) :=
  ownAt_congr d L (offU_t2_12 k).symm _ _
omit [FloatOps F] in
theorem EU_t2_13 (d : Dev nD) (L : grid0.Coords) (k : Fin k0_t2_loop.trips) (h) :
    ownU (F := F) d L 0 ⟨16 * k.val + 13, h⟩
      = ownAt (F := F) d L (urowS) (k0_off67 k) (inb_of (offU_t2_13 k) (by decide) (by have := k.isLt; have := k0_t2_abs.2.1; omega)) :=
  ownAt_congr d L (offU_t2_13 k).symm _ _
omit [FloatOps F] in
theorem EU_t2_14 (d : Dev nD) (L : grid0.Coords) (k : Fin k0_t2_loop.trips) (h) :
    ownU (F := F) d L 0 ⟨16 * k.val + 14, h⟩
      = ownAt (F := F) d L (urowS) (k0_off71 k) (inb_of (offU_t2_14 k) (by decide) (by have := k.isLt; have := k0_t2_abs.2.1; omega)) :=
  ownAt_congr d L (offU_t2_14 k).symm _ _
omit [FloatOps F] in
theorem EU_t2_15 (d : Dev nD) (L : grid0.Coords) (k : Fin k0_t2_loop.trips) (h) :
    ownU (F := F) d L 0 ⟨16 * k.val + 15, h⟩
      = ownAt (F := F) d L (urowS) (k0_off75 k) (inb_of (offU_t2_15 k) (by decide) (by have := k.isLt; have := k0_t2_abs.2.1; omega)) :=
  ownAt_congr d L (offU_t2_15 k).symm _ _
omit [FloatOps F] in
theorem EI_t2_0 (d : Dev nD) (L : grid0.Coords) (k : Fin k0_t2_loop.trips) (h) :
    ownI (F := F) d L 0 ⟨16 * k.val, h⟩
      = ownAt (F := F) d L (irowS) (k0_off17 k 0#32) (inb_of (offI_t2_0 k) (by decide) (by have := k.isLt; have := k0_t2_abs.2.1; omega)) :=
  ownAt_congr d L (offI_t2_0 k).symm _ _
omit [FloatOps F] in
theorem EI_t2_1 (d : Dev nD) (L : grid0.Coords) (k : Fin k0_t2_loop.trips) (h) :
    ownI (F := F) d L 0 ⟨16 * k.val + 1, h⟩
      = ownAt (F := F) d L (irowS) (k0_off21 k 1#32) (inb_of (offI_t2_1 k) (by decide) (by have := k.isLt; have := k0_t2_abs.2.1; omega)) :=
  ownAt_congr d L (offI_t2_1 k).symm _ _
omit [FloatOps F] in
theorem EI_t2_2 (d : Dev nD) (L : grid0.Coords) (k : Fin k0_t2_loop.trips) (h) :
    ownI (F := F) d L 0 ⟨16 * k.val + 2, h⟩
      = ownAt (F := F) d L (irowS) (k0_off25 k 2#32) (inb_of (offI_t2_2 k) (by decide) (by have := k.isLt; have := k0_t2_abs.2.1; omega)) :=
  ownAt_congr d L (offI_t2_2 k).symm _ _
omit [FloatOps F] in
theorem EI_t2_3 (d : Dev nD) (L : grid0.Coords) (k : Fin k0_t2_loop.trips) (h) :
    ownI (F := F) d L 0 ⟨16 * k.val + 3, h⟩
      = ownAt (F := F) d L (irowS) (k0_off29 k 3#32) (inb_of (offI_t2_3 k) (by decide) (by have := k.isLt; have := k0_t2_abs.2.1; omega)) :=
  ownAt_congr d L (offI_t2_3 k).symm _ _
omit [FloatOps F] in
theorem EI_t2_4 (d : Dev nD) (L : grid0.Coords) (k : Fin k0_t2_loop.trips) (h) :
    ownI (F := F) d L 0 ⟨16 * k.val + 4, h⟩
      = ownAt (F := F) d L (irowS) (k0_off33 k 4#32) (inb_of (offI_t2_4 k) (by decide) (by have := k.isLt; have := k0_t2_abs.2.1; omega)) :=
  ownAt_congr d L (offI_t2_4 k).symm _ _
omit [FloatOps F] in
theorem EI_t2_5 (d : Dev nD) (L : grid0.Coords) (k : Fin k0_t2_loop.trips) (h) :
    ownI (F := F) d L 0 ⟨16 * k.val + 5, h⟩
      = ownAt (F := F) d L (irowS) (k0_off37 k 5#32) (inb_of (offI_t2_5 k) (by decide) (by have := k.isLt; have := k0_t2_abs.2.1; omega)) :=
  ownAt_congr d L (offI_t2_5 k).symm _ _
omit [FloatOps F] in
theorem EI_t2_6 (d : Dev nD) (L : grid0.Coords) (k : Fin k0_t2_loop.trips) (h) :
    ownI (F := F) d L 0 ⟨16 * k.val + 6, h⟩
      = ownAt (F := F) d L (irowS) (k0_off41 k 6#32) (inb_of (offI_t2_6 k) (by decide) (by have := k.isLt; have := k0_t2_abs.2.1; omega)) :=
  ownAt_congr d L (offI_t2_6 k).symm _ _
omit [FloatOps F] in
theorem EI_t2_7 (d : Dev nD) (L : grid0.Coords) (k : Fin k0_t2_loop.trips) (h) :
    ownI (F := F) d L 0 ⟨16 * k.val + 7, h⟩
      = ownAt (F := F) d L (irowS) (k0_off45 k 7#32) (inb_of (offI_t2_7 k) (by decide) (by have := k.isLt; have := k0_t2_abs.2.1; omega)) :=
  ownAt_congr d L (offI_t2_7 k).symm _ _
omit [FloatOps F] in
theorem EI_t2_8 (d : Dev nD) (L : grid0.Coords) (k : Fin k0_t2_loop.trips) (h) :
    ownI (F := F) d L 0 ⟨16 * k.val + 8, h⟩
      = ownAt (F := F) d L (irowS) (k0_off49 k 8#32) (inb_of (offI_t2_8 k) (by decide) (by have := k.isLt; have := k0_t2_abs.2.1; omega)) :=
  ownAt_congr d L (offI_t2_8 k).symm _ _
omit [FloatOps F] in
theorem EI_t2_9 (d : Dev nD) (L : grid0.Coords) (k : Fin k0_t2_loop.trips) (h) :
    ownI (F := F) d L 0 ⟨16 * k.val + 9, h⟩
      = ownAt (F := F) d L (irowS) (k0_off53 k 9#32) (inb_of (offI_t2_9 k) (by decide) (by have := k.isLt; have := k0_t2_abs.2.1; omega)) :=
  ownAt_congr d L (offI_t2_9 k).symm _ _
omit [FloatOps F] in
theorem EI_t2_10 (d : Dev nD) (L : grid0.Coords) (k : Fin k0_t2_loop.trips) (h) :
    ownI (F := F) d L 0 ⟨16 * k.val + 10, h⟩
      = ownAt (F := F) d L (irowS) (k0_off57 k 10#32) (inb_of (offI_t2_10 k) (by decide) (by have := k.isLt; have := k0_t2_abs.2.1; omega)) :=
  ownAt_congr d L (offI_t2_10 k).symm _ _
omit [FloatOps F] in
theorem EI_t2_11 (d : Dev nD) (L : grid0.Coords) (k : Fin k0_t2_loop.trips) (h) :
    ownI (F := F) d L 0 ⟨16 * k.val + 11, h⟩
      = ownAt (F := F) d L (irowS) (k0_off61 k 11#32) (inb_of (offI_t2_11 k) (by decide) (by have := k.isLt; have := k0_t2_abs.2.1; omega)) :=
  ownAt_congr d L (offI_t2_11 k).symm _ _
omit [FloatOps F] in
theorem EI_t2_12 (d : Dev nD) (L : grid0.Coords) (k : Fin k0_t2_loop.trips) (h) :
    ownI (F := F) d L 0 ⟨16 * k.val + 12, h⟩
      = ownAt (F := F) d L (irowS) (k0_off65 k 12#32) (inb_of (offI_t2_12 k) (by decide) (by have := k.isLt; have := k0_t2_abs.2.1; omega)) :=
  ownAt_congr d L (offI_t2_12 k).symm _ _
omit [FloatOps F] in
theorem EI_t2_13 (d : Dev nD) (L : grid0.Coords) (k : Fin k0_t2_loop.trips) (h) :
    ownI (F := F) d L 0 ⟨16 * k.val + 13, h⟩
      = ownAt (F := F) d L (irowS) (k0_off69 k 13#32) (inb_of (offI_t2_13 k) (by decide) (by have := k.isLt; have := k0_t2_abs.2.1; omega)) :=
  ownAt_congr d L (offI_t2_13 k).symm _ _
omit [FloatOps F] in
theorem EI_t2_14 (d : Dev nD) (L : grid0.Coords) (k : Fin k0_t2_loop.trips) (h) :
    ownI (F := F) d L 0 ⟨16 * k.val + 14, h⟩
      = ownAt (F := F) d L (irowS) (k0_off73 k 14#32) (inb_of (offI_t2_14 k) (by decide) (by have := k.isLt; have := k0_t2_abs.2.1; omega)) :=
  ownAt_congr d L (offI_t2_14 k).symm _ _
omit [FloatOps F] in
theorem EI_t2_15 (d : Dev nD) (L : grid0.Coords) (k : Fin k0_t2_loop.trips) (h) :
    ownI (F := F) d L 0 ⟨16 * k.val + 15, h⟩
      = ownAt (F := F) d L (irowS) (k0_off77 k) (inb_of (offI_t2_15 k) (by decide) (by have := k.isLt; have := k0_t2_abs.2.1; omega)) :=
  ownAt_congr d L (offI_t2_15 k).symm _ _

section Issue

variable (d : Dev nD) (L : grid0.Coords)

/-- Before trip `k`: `16 k` copies of each table issued, nothing consumed; the rows and read tokens from there on in hand;
    the two index scratches as filled. -/
def issueAt_t2 (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchU d L 0 (SemLoc.dma cc0_scratch7.sem) (16 * k) 0 ∗ batchI d L 0 (SemLoc.dma cc0_scratch9.sem) (16 * k) 0
    ∗ bigSep (Ring.rangeSet 128 (16 * k) 128) (ownU d L 0) ∗ bigSep (Ring.rangeSet 128 (16 * k) 128) (ownI d L 0)
    ∗ bigSep (Ring.rangeSet 512 (16 * k) 128) (fun t => tokU d L q fue t.val) ∗ bigSep (Ring.rangeSet 512 (16 * k) 128) (fun t => tokI d L q fie t.val)
    ∗ idxU d L fu f0 ∗ idxI d L fi f1)

set_option maxHeartbeats 4000000 in
theorem issue_step_t2 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32)
    (k : Fin k0_t2_loop.trips) (acc : Unit) :
    issueAt_t2 d L q fu fi f0 f1 fue fie k acc
      ⊢ wp frame (wpE (defs₀ (F := F)) 𝒱₀ (thr d L) none) Set.univ
          (k0_t2_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k acc)
          (issueAt_t2 d L q fu fi f0 f1 fue fie (k.val + 1)) := by
  have hk := k.isLt; have h8 := k0_t2_abs.2.1
  unfold issueAt_t2
  rw [Ring.bigSep_rangeSet_head (Φ := ownU d L 0) (lo := 16 * k.val) (by omega) (by omega),
    Ring.bigSep_rangeSet_head (Φ := ownU d L 0) (lo := 16 * k.val + 1) (by omega) (by omega),
    Ring.bigSep_rangeSet_head (Φ := ownU d L 0) (lo := 16 * k.val + 2) (by omega) (by omega),
    Ring.bigSep_rangeSet_head (Φ := ownU d L 0) (lo := 16 * k.val + 3) (by omega) (by omega),
    Ring.bigSep_rangeSet_head (Φ := ownU d L 0) (lo := 16 * k.val + 4) (by omega) (by omega),
    Ring.bigSep_rangeSet_head (Φ := ownU d L 0) (lo := 16 * k.val + 5) (by omega) (by omega),
    Ring.bigSep_rangeSet_head (Φ := ownU d L 0) (lo := 16 * k.val + 6) (by omega) (by omega),
    Ring.bigSep_rangeSet_head (Φ := ownU d L 0) (lo := 16 * k.val + 7) (by omega) (by omega),
    Ring.bigSep_rangeSet_head (Φ := ownU d L 0) (lo := 16 * k.val + 8) (by omega) (by omega),
    Ring.bigSep_rangeSet_head (Φ := ownU d L 0) (lo := 16 * k.val + 9) (by omega) (by omega),
    Ring.bigSep_rangeSet_head (Φ := ownU d L 0) (lo := 16 * k.val + 10) (by omega) (by omega),
    Ring.bigSep_rangeSet_head (Φ := ownU d L 0) (lo := 16 * k.val + 11) (by omega) (by omega),
    Ring.bigSep_rangeSet_head (Φ := ownU d L 0) (lo := 16 * k.val + 12) (by omega) (by omega),
    Ring.bigSep_rangeSet_head (Φ := ownU d L 0) (lo := 16 * k.val + 13) (by omega) (by omega),
    Ring.bigSep_rangeSet_head (Φ := ownU d L 0) (lo := 16 * k.val + 14) (by omega) (by omega),
    Ring.bigSep_rangeSet_head (Φ := ownU d L 0) (lo := 16 * k.val + 15) (by omega) (by omega),
    Ring.bigSep_rangeSet_head (Φ := ownI d L 0) (lo := 16 * k.val) (by omega) (by omega),
    Ring.bigSep_rangeSet_head (Φ := ownI d L 0) (lo := 16 * k.val + 1) (by omega) (by omega),
    Ring.bigSep_rangeSet_head (Φ := ownI d L 0) (lo := 16 * k.val + 2) (by omega) (by omega),
    Ring.bigSep_rangeSet_head (Φ := ownI d L 0) (lo := 16 * k.val + 3) (by omega) (by omega),
    Ring.bigSep_rangeSet_head (Φ := ownI d L 0) (lo := 16 * k.val + 4) (by omega) (by omega),
    Ring.bigSep_rangeSet_head (Φ := ownI d L 0) (lo := 16 * k.val + 5) (by omega) (by omega),
    Ring.bigSep_rangeSet_head (Φ := ownI d L 0) (lo := 16 * k.val + 6) (by omega) (by omega),
    Ring.bigSep_rangeSet_head (Φ := ownI d L 0) (lo := 16 * k.val + 7) (by omega) (by omega),
    Ring.bigSep_rangeSet_head (Φ := ownI d L 0) (lo := 16 * k.val + 8) (by omega) (by omega),
    Ring.bigSep_rangeSet_head (Φ := ownI d L 0) (lo := 16 * k.val + 9) (by omega) (by omega),
    Ring.bigSep_rangeSet_head (Φ := ownI d L 0) (lo := 16 * k.val + 10) (by omega) (by omega),
    Ring.bigSep_rangeSet_head (Φ := ownI d L 0) (lo := 16 * k.val + 11) (by omega) (by omega),
    Ring.bigSep_rangeSet_head (Φ := ownI d L 0) (lo := 16 * k.val + 12) (by omega) (by omega),
    Ring.bigSep_rangeSet_head (Φ := ownI d L 0) (lo := 16 * k.val + 13) (by omega) (by omega),
    Ring.bigSep_rangeSet_head (Φ := ownI d L 0) (lo := 16 * k.val + 14) (by omega) (by omega),
    Ring.bigSep_rangeSet_head (Φ := ownI d L 0) (lo := 16 * k.val + 15) (by omega) (by omega),
    Ring.bigSep_rangeSet_head (Φ := fun t => tokU d L q fue t.val) (lo := 16 * k.val) (by omega) (by omega),
    Ring.bigSep_rangeSet_head (Φ := fun t => tokU d L q fue t.val) (lo := 16 * k.val + 1) (by omega) (by omega),
    Ring.bigSep_rangeSet_head (Φ := fun t => tokU d L q fue t.val) (lo := 16 * k.val + 2) (by omega) (by omega),
    Ring.bigSep_rangeSet_head (Φ := fun t => tokU d L q fue t.val) (lo := 16 * k.val + 3) (by omega) (by omega),
    Ring.bigSep_rangeSet_head (Φ := fun t => tokU d L q fue t.val) (lo := 16 * k.val + 4) (by omega) (by omega),
    Ring.bigSep_rangeSet_head (Φ := fun t => tokU d L q fue t.val) (lo := 16 * k.val + 5) (by omega) (by omega),
    Ring.bigSep_rangeSet_head (Φ := fun t => tokU d L q fue t.val) (lo := 16 * k.val + 6) (by omega) (by omega),
    Ring.bigSep_rangeSet_head (Φ := fun t => tokU d L q fue t.val) (lo := 16 * k.val + 7) (by omega) (by omega),
    Ring.bigSep_rangeSet_head (Φ := fun t => tokU d L q fue t.val) (lo := 16 * k.val + 8) (by omega) (by omega),
    Ring.bigSep_rangeSet_head (Φ := fun t => tokU d L q fue t.val) (lo := 16 * k.val + 9) (by omega) (by omega),
    Ring.bigSep_rangeSet_head (Φ := fun t => tokU d L q fue t.val) (lo := 16 * k.val + 10) (by omega) (by omega),
    Ring.bigSep_rangeSet_head (Φ := fun t => tokU d L q fue t.val) (lo := 16 * k.val + 11) (by omega) (by omega),
    Ring.bigSep_rangeSet_head (Φ := fun t => tokU d L q fue t.val) (lo := 16 * k.val + 12) (by omega) (by omega),
    Ring.bigSep_rangeSet_head (Φ := fun t => tokU d L q fue t.val) (lo := 16 * k.val + 13) (by omega) (by omega),
    Ring.bigSep_rangeSet_head (Φ := fun t => tokU d L q fue t.val) (lo := 16 * k.val + 14) (by omega) (by omega),
    Ring.bigSep_rangeSet_head (Φ := fun t => tokU d L q fue t.val) (lo := 16 * k.val + 15) (by omega) (by omega),
    Ring.bigSep_rangeSet_head (Φ := fun t => tokI d L q fie t.val) (lo := 16 * k.val) (by omega) (by omega),
    Ring.bigSep_rangeSet_head (Φ := fun t => tokI d L q fie t.val) (lo := 16 * k.val + 1) (by omega) (by omega),
    Ring.bigSep_rangeSet_head (Φ := fun t => tokI d L q fie t.val) (lo := 16 * k.val + 2) (by omega) (by omega),
    Ring.bigSep_rangeSet_head (Φ := fun t => tokI d L q fie t.val) (lo := 16 * k.val + 3) (by omega) (by omega),
    Ring.bigSep_rangeSet_head (Φ := fun t => tokI d L q fie t.val) (lo := 16 * k.val + 4) (by omega) (by omega),
    Ring.bigSep_rangeSet_head (Φ := fun t => tokI d L q fie t.val) (lo := 16 * k.val + 5) (by omega) (by omega),
    Ring.bigSep_rangeSet_head (Φ := fun t => tokI d L q fie t.val) (lo := 16 * k.val + 6) (by omega) (by omega),
    Ring.bigSep_rangeSet_head (Φ := fun t => tokI d L q fie t.val) (lo := 16 * k.val + 7) (by omega) (by omega),
    Ring.bigSep_rangeSet_head (Φ := fun t => tokI d L q fie t.val) (lo := 16 * k.val + 8) (by omega) (by omega),
    Ring.bigSep_rangeSet_head (Φ := fun t => tokI d L q fie t.val) (lo := 16 * k.val + 9) (by omega) (by omega),
    Ring.bigSep_rangeSet_head (Φ := fun t => tokI d L q fie t.val) (lo := 16 * k.val + 10) (by omega) (by omega),
    Ring.bigSep_rangeSet_head (Φ := fun t => tokI d L q fie t.val) (lo := 16 * k.val + 11) (by omega) (by omega),
    Ring.bigSep_rangeSet_head (Φ := fun t => tokI d L q fie t.val) (lo := 16 * k.val + 12) (by omega) (by omega),
    Ring.bigSep_rangeSet_head (Φ := fun t => tokI d L q fie t.val) (lo := 16 * k.val + 13) (by omega) (by omega),
    Ring.bigSep_rangeSet_head (Φ := fun t => tokI d L q fie t.val) (lo := 16 * k.val + 14) (by omega) (by omega),
    Ring.bigSep_rangeSet_head (Φ := fun t => tokI d L q fie t.val) (lo := 16 * k.val + 15) (by omega) (by omega),
    show 16 * k.val + 15 + 1 = 16 * (k.val + 1) by omega]
  rw [EU_t2_0 d L k, EU_t2_1 d L k, EU_t2_2 d L k, EU_t2_3 d L k, EU_t2_4 d L k, EU_t2_5 d L k, EU_t2_6 d L k, EU_t2_7 d L k, EU_t2_8 d L k, EU_t2_9 d L k, EU_t2_10 d L k, EU_t2_11 d L k, EU_t2_12 d L k, EU_t2_13 d L k, EU_t2_14 d L k, EU_t2_15 d L k, EI_t2_0 d L k, EI_t2_1 d L k, EI_t2_2 d L k, EI_t2_3 d L k, EI_t2_4 d L k, EI_t2_5 d L k, EI_t2_6 d L k, EI_t2_7 d L k, EI_t2_8 d L k, EI_t2_9 d L k, EI_t2_10 d L k, EI_t2_11 d L k, EI_t2_12 d L k, EI_t2_13 d L k, EI_t2_14 d L k, EI_t2_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t2_body
  sl_exec (disch := first
      | exact sep_elim_left.trans (deliver d L _ _ _ (by simp only [offU_t2_0, offU_t2_1, offU_t2_2, offU_t2_3, offU_t2_4, offU_t2_5, offU_t2_6, offU_t2_7, offU_t2_8, offU_t2_9, offU_t2_10, offU_t2_11, offU_t2_12, offU_t2_13, offU_t2_14, offU_t2_15, offI_t2_0, offI_t2_1, offI_t2_2, offI_t2_3, offI_t2_4, offI_t2_5, offI_t2_6, offI_t2_7, offI_t2_8, offI_t2_9, offI_t2_10, offI_t2_11, offI_t2_12, offI_t2_13, offI_t2_14, offI_t2_15]; rfl))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t2 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) :
    LoopInv (M := 𝕄) frame (wpE (defs₀ (F := F)) 𝒱₀ (thr d L) none) Set.univ k0_t2_loop.lb k0_t2_loop.ub k0_t2_loop.st k0_t2_ok ()
      (k0_t2_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285) where
  inv := issueAt_t2 d L q fu fi f0 f1 fue fie
  step := issue_step_t2 d L q fu fi hfu hfi f0 f1 fue fie v3 v7 v11 v15 v19 v23 v24 c1285

end Issue

end Cert.Proof.KB

end
-- ==== Proof.KIssueT3B.lean ====
/-
  One trip of an issue loop at a symbolic trip `k`: the sixteen row copies from each table of that trip are the
  copies number `16 k … 16 k + 15` of the two batches on the half's two semaphores. Each copy's row index is a lane of
  the index scratch, hence a word of the index array, hence (by the precondition) a row of its table; its destination
  is row `16 k + j` of the half, which the batch promised to deliver; it consumes one read token of its table.
-/
import proofs.«214512_g89103391522852_cont_sun_m_1157_25_alg».proof.Proof.KRowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

/-! The destination offsets the program computes, in closed form. -/
theorem offU_t3_0 : ∀ k : Fin k0_t3_loop.trips, k0_off81 k = ![1, 16 * k.val, 0] := by decide +kernel
theorem offU_t3_1 : ∀ k : Fin k0_t3_loop.trips, k0_off85 k = ![1, 16 * k.val + 1, 0] := by decide +kernel
theorem offU_t3_2 : ∀ k : Fin k0_t3_loop.trips, k0_off89 k = ![1, 16 * k.val + 2, 0] := by decide +kernel
theorem offU_t3_3 : ∀ k : Fin k0_t3_loop.trips, k0_off93 k = ![1, 16 * k.val + 3, 0] := by decide +kernel
theorem offU_t3_4 : ∀ k : Fin k0_t3_loop.trips, k0_off97 k = ![1, 16 * k.val + 4, 0] := by decide +kernel
theorem offU_t3_5 : ∀ k : Fin k0_t3_loop.trips, k0_off101 k = ![1, 16 * k.val + 5, 0] := by decide +kernel
theorem offU_t3_6 : ∀ k : Fin k0_t3_loop.trips, k0_off105 k = ![1, 16 * k.val + 6, 0] := by decide +kernel
theorem offU_t3_7 : ∀ k : Fin k0_t3_loop.trips, k0_off109 k = ![1, 16 * k.val + 7, 0] := by decide +kernel
theorem offU_t3_8 : ∀ k : Fin k0_t3_loop.trips, k0_off113 k = ![1, 16 * k.val + 8, 0] := by decide +kernel
theorem offU_t3_9 : ∀ k : Fin k0_t3_loop.trips, k0_off117 k = ![1, 16 * k.val + 9, 0] := by decide +kernel
theorem offU_t3_10 : ∀ k : Fin k0_t3_loop.trips, k0_off121 k = ![1, 16 * k.val + 10, 0] := by decide +kernel
theorem offU_t3_11 : ∀ k : Fin k0_t3_loop.trips, k0_off125 k = ![1, 16 * k.val + 11, 0] := by decide +kernel
theorem offU_t3_12 : ∀ k : Fin k0_t3_loop.trips, k0_off129 k = ![1, 16 * k.val + 12, 0] := by decide +kernel
theorem offU_t3_13 : ∀ k : Fin k0_t3_loop.trips, k0_off133 k = ![1, 16 * k.val + 13, 0] := by decide +kernel
theorem offU_t3_14 : ∀ k : Fin k0_t3_loop.trips, k0_off137 k = ![1, 16 * k.val + 14, 0] := by decide +kernel
theorem offU_t3_15 : ∀ k : Fin k0_t3_loop.trips, k0_off141 k = ![1, 16 * k.val + 15, 0] := by decide +kernel
theorem offI_t3_0 : ∀ k : Fin k0_t3_loop.trips, k0_off83 k 0#32 = ![1, 16 * k.val, 0] := by decide +kernel
theorem offI_t3_1 : ∀ k : Fin k0_t3_loop.trips, k0_off87 k 1#32 = ![1, 16 * k.val + 1, 0] := by decide +kernel
theorem offI_t3_2 : ∀ k : Fin k0_t3_loop.trips, k0_off91 k 2#32 = ![1, 16 * k.val + 2, 0] := by decide +kernel
theorem offI_t3_3 : ∀ k : Fin k0_t3_loop.trips, k0_off95 k 3#32 = ![1, 16 * k.val + 3, 0] := by decide +kernel
theorem offI_t3_4 : ∀ k : Fin k0_t3_loop.trips, k0_off99 k 4#32 = ![1, 16 * k.val + 4, 0] := by decide +kernel
theorem offI_t3_5 : ∀ k : Fin k0_t3_loop.trips, k0_off103 k 5#32 = ![1, 16 * k.val + 5, 0] := by decide +kernel
theorem offI_t3_6 : ∀ k : Fin k0_t3_loop.trips, k0_off107 k 6#32 = ![1, 16 * k.val + 6, 0] := by decide +kernel
theorem offI_t3_7 : ∀ k : Fin k0_t3_loop.trips, k0_off111 k 7#32 = ![1, 16 * k.val + 7, 0] := by decide +kernel
theorem offI_t3_8 : ∀ k : Fin k0_t3_loop.trips, k0_off115 k 8#32 = ![1, 16 * k.val + 8, 0] := by decide +kernel
theorem offI_t3_9 : ∀ k : Fin k0_t3_loop.trips, k0_off119 k 9#32 = ![1, 16 * k.val + 9, 0] := by decide +kernel
theorem offI_t3_10 : ∀ k : Fin k0_t3_loop.trips, k0_off123 k 10#32 = ![1, 16 * k.val + 10, 0] := by decide +kernel
theorem offI_t3_11 : ∀ k : Fin k0_t3_loop.trips, k0_off127 k 11#32 = ![1, 16 * k.val + 11, 0] := by decide +kernel
theorem offI_t3_12 : ∀ k : Fin k0_t3_loop.trips, k0_off131 k 12#32 = ![1, 16 * k.val + 12, 0] := by decide +kernel
theorem offI_t3_13 : ∀ k : Fin k0_t3_loop.trips, k0_off135 k 13#32 = ![1, 16 * k.val + 13, 0] := by decide +kernel
theorem offI_t3_14 : ∀ k : Fin k0_t3_loop.trips, k0_off139 k 14#32 = ![1, 16 * k.val + 14, 0] := by decide +kernel
theorem offI_t3_15 : ∀ k : Fin k0_t3_loop.trips, k0_off143 k = ![1, 16 * k.val + 15, 0] := by decide +kernel

/-! The rows by number are the rows as the program slices them. -/
omit [FloatOps F] in
theorem EU_t3_0 (d : Dev nD) (L : grid0.Coords) (k : Fin k0_t3_loop.trips) (h) :
    ownU (F := F) d L 1 ⟨16 * k.val, h⟩
      = ownAt (F := F) d L (urowS) (k0_off81 k) (inb_of (offU_t3_0 k) (by decide) (by have := k.isLt; have := k0_t3_abs.2.1; omega)) :=
  ownAt_congr d L (offU_t3_0 k).symm _ _
omit [FloatOps F] in
theorem EU_t3_1 (d : Dev nD) (L : grid0.Coords) (k : Fin k0_t3_loop.trips) (h) :
    ownU (F := F) d L 1 ⟨16 * k.val + 1, h⟩
      = ownAt (F := F) d L (urowS) (k0_off85 k) (inb_of (offU_t3_1 k) (by decide) (by have := k.isLt; have := k0_t3_abs.2.1; omega)) :=
  ownAt_congr d L (offU_t3_1 k).symm _ _
omit [FloatOps F] in
theorem EU_t3_2 (d : Dev nD) (L : grid0.Coords) (k : Fin k0_t3_loop.trips) (h) :
    ownU (F := F) d L 1 ⟨16 * k.val + 2, h⟩
      = ownAt (F := F) d L (urowS) (k0_off89 k) (inb_of (offU_t3_2 k) (by decide) (by have := k.isLt; have := k0_t3_abs.2.1; omega)) :=
  ownAt_congr d L (offU_t3_2 k).symm _ _
omit [FloatOps F] in
theorem EU_t3_3 (d : Dev nD) (L : grid0.Coords) (k : Fin k0_t3_loop.trips) (h) :
    ownU (F := F) d L 1 ⟨16 * k.val + 3, h⟩
      = ownAt (F := F) d L (urowS) (k0_off93 k) (inb_of (offU_t3_3 k) (by decide) (by have := k.isLt; have := k0_t3_abs.2.1; omega)) :=
  ownAt_congr d L (offU_t3_3 k).symm _ _
omit [FloatOps F] in
theorem EU_t3_4 (d : Dev nD) (L : grid0.Coords) (k : Fin k0_t3_loop.trips) (h) :
    ownU (F := F) d L 1 ⟨16 * k.val + 4, h⟩
      = ownAt (F := F) d L (urowS) (k0_off97 k) (inb_of (offU_t3_4 k) (by decide) (by have := k.isLt; have := k0_t3_abs.2.1; omega)) :=
  ownAt_congr d L (offU_t3_4 k).symm _ _
omit [FloatOps F] in
theorem EU_t3_5 (d : Dev nD) (L : grid0.Coords) (k : Fin k0_t3_loop.trips) (h) :
    ownU (F := F) d L 1 ⟨16 * k.val + 5, h⟩
      = ownAt (F := F) d L (urowS) (k0_off101 k) (inb_of (offU_t3_5 k) (by decide) (by have := k.isLt; have := k0_t3_abs.2.1; omega)) :=
  ownAt_congr d L (offU_t3_5 k).symm _ _
omit [FloatOps F] in
theorem EU_t3_6 (d : Dev nD) (L : grid0.Coords) (k : Fin k0_t3_loop.trips) (h) :
    ownU (F := F) d L 1 ⟨16 * k.val + 6, h⟩
      = ownAt (F := F) d L (urowS) (k0_off105 k) (inb_of (offU_t3_6 k) (by decide) (by have := k.isLt; have := k0_t3_abs.2.1; omega)) :=
  ownAt_congr d L (offU_t3_6 k).symm _ _
omit [FloatOps F] in
theorem EU_t3_7 (d : Dev nD) (L : grid0.Coords) (k : Fin k0_t3_loop.trips) (h) :
    ownU (F := F) d L 1 ⟨16 * k.val + 7, h⟩
      = ownAt (F := F) d L (urowS) (k0_off109 k) (inb_of (offU_t3_7 k) (by decide) (by have := k.isLt; have := k0_t3_abs.2.1; omega)) :=
  ownAt_congr d L (offU_t3_7 k).symm _ _
omit [FloatOps F] in
theorem EU_t3_8 (d : Dev nD) (L : grid0.Coords) (k : Fin k0_t3_loop.trips) (h) :
    ownU (F := F) d L 1 ⟨16 * k.val + 8, h⟩
      = ownAt (F := F) d L (urowS) (k0_off113 k) (inb_of (offU_t3_8 k) (by decide) (by have := k.isLt; have := k0_t3_abs.2.1; omega)) :=
  ownAt_congr d L (offU_t3_8 k).symm _ _
omit [FloatOps F] in
theorem EU_t3_9 (d : Dev nD) (L : grid0.Coords) (k : Fin k0_t3_loop.trips) (h) :
    ownU (F := F) d L 1 ⟨16 * k.val + 9, h⟩
      = ownAt (F := F) d L (urowS) (k0_off117 k) (inb_of (offU_t3_9 k) (by decide) (by have := k.isLt; have := k0_t3_abs.2.1; omega)) :=
  ownAt_congr d L (offU_t3_9 k).symm _ _
omit [FloatOps F] in
theorem EU_t3_10 (d : Dev nD) (L : grid0.Coords) (k : Fin k0_t3_loop.trips) (h) :
    ownU (F := F) d L 1 ⟨16 * k.val + 10, h⟩
      = ownAt (F := F) d L (urowS) (k0_off121 k) (inb_of (offU_t3_10 k) (by decide) (by have := k.isLt; have := k0_t3_abs.2.1; omega)) :=
  ownAt_congr d L (offU_t3_10 k).symm _ _
omit [FloatOps F] in
theorem EU_t3_11 (d : Dev nD) (L : grid0.Coords) (k : Fin k0_t3_loop.trips) (h) :
    ownU (F := F) d L 1 ⟨16 * k.val + 11, h⟩
      = ownAt (F := F) d L (urowS) (k0_off125 k) (inb_of (offU_t3_11 k) (by decide) (by have := k.isLt; have := k0_t3_abs.2.1; omega)) :=
  ownAt_congr d L (offU_t3_11 k).symm _ _
omit [FloatOps F] in
theorem EU_t3_12 (d : Dev nD) (L : grid0.Coords) (k : Fin k0_t3_loop.trips) (h) :
    ownU (F := F) d L 1 ⟨16 * k.val + 12, h⟩
      = ownAt (F := F) d L (urowS) (k0_off129 k) (inb_of (offU_t3_12 k) (by decide) (by have := k.isLt; have := k0_t3_abs.2.1; omega)) :=
  ownAt_congr d L (offU_t3_12 k).symm _ _
omit [FloatOps F] in
theorem EU_t3_13 (d : Dev nD) (L : grid0.Coords) (k : Fin k0_t3_loop.trips) (h) :
    ownU (F := F) d L 1 ⟨16 * k.val + 13, h⟩
      = ownAt (F := F) d L (urowS) (k0_off133 k) (inb_of (offU_t3_13 k) (by decide) (by have := k.isLt; have := k0_t3_abs.2.1; omega)) :=
  ownAt_congr d L (offU_t3_13 k).symm _ _
omit [FloatOps F] in
theorem EU_t3_14 (d : Dev nD) (L : grid0.Coords) (k : Fin k0_t3_loop.trips) (h) :
    ownU (F := F) d L 1 ⟨16 * k.val + 14, h⟩
      = ownAt (F := F) d L (urowS) (k0_off137 k) (inb_of (offU_t3_14 k) (by decide) (by have := k.isLt; have := k0_t3_abs.2.1; omega)) :=
  ownAt_congr d L (offU_t3_14 k).symm _ _
omit [FloatOps F] in
theorem EU_t3_15 (d : Dev nD) (L : grid0.Coords) (k : Fin k0_t3_loop.trips) (h) :
    ownU (F := F) d L 1 ⟨16 * k.val + 15, h⟩
      = ownAt (F := F) d L (urowS) (k0_off141 k) (inb_of (offU_t3_15 k) (by decide) (by have := k.isLt; have := k0_t3_abs.2.1; omega)) :=
  ownAt_congr d L (offU_t3_15 k).symm _ _
omit [FloatOps F] in
theorem EI_t3_0 (d : Dev nD) (L : grid0.Coords) (k : Fin k0_t3_loop.trips) (h) :
    ownI (F := F) d L 1 ⟨16 * k.val, h⟩
      = ownAt (F := F) d L (irowS) (k0_off83 k 0#32) (inb_of (offI_t3_0 k) (by decide) (by have := k.isLt; have := k0_t3_abs.2.1; omega)) :=
  ownAt_congr d L (offI_t3_0 k).symm _ _
omit [FloatOps F] in
theorem EI_t3_1 (d : Dev nD) (L : grid0.Coords) (k : Fin k0_t3_loop.trips) (h) :
    ownI (F := F) d L 1 ⟨16 * k.val + 1, h⟩
      = ownAt (F := F) d L (irowS) (k0_off87 k 1#32) (inb_of (offI_t3_1 k) (by decide) (by have := k.isLt; have := k0_t3_abs.2.1; omega)) :=
  ownAt_congr d L (offI_t3_1 k).symm _ _
omit [FloatOps F] in
theorem EI_t3_2 (d : Dev nD) (L : grid0.Coords) (k : Fin k0_t3_loop.trips) (h) :
    ownI (F := F) d L 1 ⟨16 * k.val + 2, h⟩
      = ownAt (F := F) d L (irowS) (k0_off91 k 2#32) (inb_of (offI_t3_2 k) (by decide) (by have := k.isLt; have := k0_t3_abs.2.1; omega)) :=
  ownAt_congr d L (offI_t3_2 k).symm _ _
omit [FloatOps F] in
theorem EI_t3_3 (d : Dev nD) (L : grid0.Coords) (k : Fin k0_t3_loop.trips) (h) :
    ownI (F := F) d L 1 ⟨16 * k.val + 3, h⟩
      = ownAt (F := F) d L (irowS) (k0_off95 k 3#32) (inb_of (offI_t3_3 k) (by decide) (by have := k.isLt; have := k0_t3_abs.2.1; omega)) :=
  ownAt_congr d L (offI_t3_3 k).symm _ _
omit [FloatOps F] in
theorem EI_t3_4 (d : Dev nD) (L : grid0.Coords) (k : Fin k0_t3_loop.trips) (h) :
    ownI (F := F) d L 1 ⟨16 * k.val + 4, h⟩
      = ownAt (F := F) d L (irowS) (k0_off99 k 4#32) (inb_of (offI_t3_4 k) (by decide) (by have := k.isLt; have := k0_t3_abs.2.1; omega)) :=
  ownAt_congr d L (offI_t3_4 k).symm _ _
omit [FloatOps F] in
theorem EI_t3_5 (d : Dev nD) (L : grid0.Coords) (k : Fin k0_t3_loop.trips) (h) :
    ownI (F := F) d L 1 ⟨16 * k.val + 5, h⟩
      = ownAt (F := F) d L (irowS) (k0_off103 k 5#32) (inb_of (offI_t3_5 k) (by decide) (by have := k.isLt; have := k0_t3_abs.2.1; omega)) :=
  ownAt_congr d L (offI_t3_5 k).symm _ _
omit [FloatOps F] in
theorem EI_t3_6 (d : Dev nD) (L : grid0.Coords) (k : Fin k0_t3_loop.trips) (h) :
    ownI (F := F) d L 1 ⟨16 * k.val + 6, h⟩
      = ownAt (F := F) d L (irowS) (k0_off107 k 6#32) (inb_of (offI_t3_6 k) (by decide) (by have := k.isLt; have := k0_t3_abs.2.1; omega)) :=
  ownAt_congr d L (offI_t3_6 k).symm _ _
omit [FloatOps F] in
theorem EI_t3_7 (d : Dev nD) (L : grid0.Coords) (k : Fin k0_t3_loop.trips) (h) :
    ownI (F := F) d L 1 ⟨16 * k.val + 7, h⟩
      = ownAt (F := F) d L (irowS) (k0_off111 k 7#32) (inb_of (offI_t3_7 k) (by decide) (by have := k.isLt; have := k0_t3_abs.2.1; omega)) :=
  ownAt_congr d L (offI_t3_7 k).symm _ _
omit [FloatOps F] in
theorem EI_t3_8 (d : Dev nD) (L : grid0.Coords) (k : Fin k0_t3_loop.trips) (h) :
    ownI (F := F) d L 1 ⟨16 * k.val + 8, h⟩
      = ownAt (F := F) d L (irowS) (k0_off115 k 8#32) (inb_of (offI_t3_8 k) (by decide) (by have := k.isLt; have := k0_t3_abs.2.1; omega)) :=
  ownAt_congr d L (offI_t3_8 k).symm _ _
omit [FloatOps F] in
theorem EI_t3_9 (d : Dev nD) (L : grid0.Coords) (k : Fin k0_t3_loop.trips) (h) :
    ownI (F := F) d L 1 ⟨16 * k.val + 9, h⟩
      = ownAt (F := F) d L (irowS) (k0_off119 k 9#32) (inb_of (offI_t3_9 k) (by decide) (by have := k.isLt; have := k0_t3_abs.2.1; omega)) :=
  ownAt_congr d L (offI_t3_9 k).symm _ _
omit [FloatOps F] in
theorem EI_t3_10 (d : Dev nD) (L : grid0.Coords) (k : Fin k0_t3_loop.trips) (h) :
    ownI (F := F) d L 1 ⟨16 * k.val + 10, h⟩
      = ownAt (F := F) d L (irowS) (k0_off123 k 10#32) (inb_of (offI_t3_10 k) (by decide) (by have := k.isLt; have := k0_t3_abs.2.1; omega)) :=
  ownAt_congr d L (offI_t3_10 k).symm _ _
omit [FloatOps F] in
theorem EI_t3_11 (d : Dev nD) (L : grid0.Coords) (k : Fin k0_t3_loop.trips) (h) :
    ownI (F := F) d L 1 ⟨16 * k.val + 11, h⟩
      = ownAt (F := F) d L (irowS) (k0_off127 k 11#32) (inb_of (offI_t3_11 k) (by decide) (by have := k.isLt; have := k0_t3_abs.2.1; omega)) :=
  ownAt_congr d L (offI_t3_11 k).symm _ _
omit [FloatOps F] in
theorem EI_t3_12 (d : Dev nD) (L : grid0.Coords) (k : Fin k0_t3_loop.trips) (h) :
    ownI (F := F) d L 1 ⟨16 * k.val + 12, h⟩
      = ownAt (F := F) d L (irowS) (k0_off131 k 12#32) (inb_of (offI_t3_12 k) (by decide) (by have := k.isLt; have := k0_t3_abs.2.1; omega)) :=
  ownAt_congr d L (offI_t3_12 k).symm _ _
omit [FloatOps F] in
theorem EI_t3_13 (d : Dev nD) (L : grid0.Coords) (k : Fin k0_t3_loop.trips) (h) :
    ownI (F := F) d L 1 ⟨16 * k.val + 13, h⟩
      = ownAt (F := F) d L (irowS) (k0_off135 k 13#32) (inb_of (offI_t3_13 k) (by decide) (by have := k.isLt; have := k0_t3_abs.2.1; omega)) :=
  ownAt_congr d L (offI_t3_13 k).symm _ _
omit [FloatOps F] in
theorem EI_t3_14 (d : Dev nD) (L : grid0.Coords) (k : Fin k0_t3_loop.trips) (h) :
    ownI (F := F) d L 1 ⟨16 * k.val + 14, h⟩
      = ownAt (F := F) d L (irowS) (k0_off139 k 14#32) (inb_of (offI_t3_14 k) (by decide) (by have := k.isLt; have := k0_t3_abs.2.1; omega)) :=
  ownAt_congr d L (offI_t3_14 k).symm _ _
omit [FloatOps F] in
theorem EI_t3_15 (d : Dev nD) (L : grid0.Coords) (k : Fin k0_t3_loop.trips) (h) :
    ownI (F := F) d L 1 ⟨16 * k.val + 15, h⟩
      = ownAt (F := F) d L (irowS) (k0_off143 k) (inb_of (offI_t3_15 k) (by decide) (by have := k.isLt; have := k0_t3_abs.2.1; omega)) :=
  ownAt_congr d L (offI_t3_15 k).symm _ _

section Issue

variable (d : Dev nD) (L : grid0.Coords)

/-- Before trip `k`: `16 k` copies of each table issued, nothing consumed; the rows and read tokens from there on in hand;
    the two index scratches as filled. -/
def issueAt_t3 (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchU d L 1 (SemLoc.dma cc0_scratch8.sem) (16 * k) 0 ∗ batchI d L 1 (SemLoc.dma cc0_scratch10.sem) (16 * k) 0
    ∗ bigSep (Ring.rangeSet 128 (16 * k) 128) (ownU d L 1) ∗ bigSep (Ring.rangeSet 128 (16 * k) 128) (ownI d L 1)
    ∗ bigSep (Ring.rangeSet 512 (128 + 16 * k) 256) (fun t => tokU d L q fue t.val) ∗ bigSep (Ring.rangeSet 512 (128 + 16 * k) 256) (fun t => tokI d L q fie t.val)
    ∗ idxU d L fu f0 ∗ idxI d L fi f1)

set_option maxHeartbeats 4000000 in
theorem issue_step_t3 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32)
    (k : Fin k0_t3_loop.trips) (acc : Unit) :
    issueAt_t3 d L q fu fi f0 f1 fue fie k acc
      ⊢ wp frame (wpE (defs₀ (F := F)) 𝒱₀ (thr d L) none) Set.univ
          (k0_t3_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k acc)
          (issueAt_t3 d L q fu fi f0 f1 fue fie (k.val + 1)) := by
  have hk := k.isLt; have h8 := k0_t3_abs.2.1
  unfold issueAt_t3
  rw [Ring.bigSep_rangeSet_head (Φ := ownU d L 1) (lo := 16 * k.val) (by omega) (by omega),
    Ring.bigSep_rangeSet_head (Φ := ownU d L 1) (lo := 16 * k.val + 1) (by omega) (by omega),
    Ring.bigSep_rangeSet_head (Φ := ownU d L 1) (lo := 16 * k.val + 2) (by omega) (by omega),
    Ring.bigSep_rangeSet_head (Φ := ownU d L 1) (lo := 16 * k.val + 3) (by omega) (by omega),
    Ring.bigSep_rangeSet_head (Φ := ownU d L 1) (lo := 16 * k.val + 4) (by omega) (by omega),
    Ring.bigSep_rangeSet_head (Φ := ownU d L 1) (lo := 16 * k.val + 5) (by omega) (by omega),
    Ring.bigSep_rangeSet_head (Φ := ownU d L 1) (lo := 16 * k.val + 6) (by omega) (by omega),
    Ring.bigSep_rangeSet_head (Φ := ownU d L 1) (lo := 16 * k.val + 7) (by omega) (by omega),
    Ring.bigSep_rangeSet_head (Φ := ownU d L 1) (lo := 16 * k.val + 8) (by omega) (by omega),
    Ring.bigSep_rangeSet_head (Φ := ownU d L 1) (lo := 16 * k.val + 9) (by omega) (by omega),
    Ring.bigSep_rangeSet_head (Φ := ownU d L 1) (lo := 16 * k.val + 10) (by omega) (by omega),
    Ring.bigSep_rangeSet_head (Φ := ownU d L 1) (lo := 16 * k.val + 11) (by omega) (by omega),
    Ring.bigSep_rangeSet_head (Φ := ownU d L 1) (lo := 16 * k.val + 12) (by omega) (by omega),
    Ring.bigSep_rangeSet_head (Φ := ownU d L 1) (lo := 16 * k.val + 13) (by omega) (by omega),
    Ring.bigSep_rangeSet_head (Φ := ownU d L 1) (lo := 16 * k.val + 14) (by omega) (by omega),
    Ring.bigSep_rangeSet_head (Φ := ownU d L 1) (lo := 16 * k.val + 15) (by omega) (by omega),
    Ring.bigSep_rangeSet_head (Φ := ownI d L 1) (lo := 16 * k.val) (by omega) (by omega),
    Ring.bigSep_rangeSet_head (Φ := ownI d L 1) (lo := 16 * k.val + 1) (by omega) (by omega),
    Ring.bigSep_rangeSet_head (Φ := ownI d L 1) (lo := 16 * k.val + 2) (by omega) (by omega),
    Ring.bigSep_rangeSet_head (Φ := ownI d L 1) (lo := 16 * k.val + 3) (by omega) (by omega),
    Ring.bigSep_rangeSet_head (Φ := ownI d L 1) (lo := 16 * k.val + 4) (by omega) (by omega),
    Ring.bigSep_rangeSet_head (Φ := ownI d L 1) (lo := 16 * k.val + 5) (by omega) (by omega),
    Ring.bigSep_rangeSet_head (Φ := ownI d L 1) (lo := 16 * k.val + 6) (by omega) (by omega),
    Ring.bigSep_rangeSet_head (Φ := ownI d L 1) (lo := 16 * k.val + 7) (by omega) (by omega),
    Ring.bigSep_rangeSet_head (Φ := ownI d L 1) (lo := 16 * k.val + 8) (by omega) (by omega),
    Ring.bigSep_rangeSet_head (Φ := ownI d L 1) (lo := 16 * k.val + 9) (by omega) (by omega),
    Ring.bigSep_rangeSet_head (Φ := ownI d L 1) (lo := 16 * k.val + 10) (by omega) (by omega),
    Ring.bigSep_rangeSet_head (Φ := ownI d L 1) (lo := 16 * k.val + 11) (by omega) (by omega),
    Ring.bigSep_rangeSet_head (Φ := ownI d L 1) (lo := 16 * k.val + 12) (by omega) (by omega),
    Ring.bigSep_rangeSet_head (Φ := ownI d L 1) (lo := 16 * k.val + 13) (by omega) (by omega),
    Ring.bigSep_rangeSet_head (Φ := ownI d L 1) (lo := 16 * k.val + 14) (by omega) (by omega),
    Ring.bigSep_rangeSet_head (Φ := ownI d L 1) (lo := 16 * k.val + 15) (by omega) (by omega),
    Ring.bigSep_rangeSet_head (Φ := fun t => tokU d L q fue t.val) (lo := 128 + 16 * k.val) (by omega) (by omega),
    Ring.bigSep_rangeSet_head (Φ := fun t => tokU d L q fue t.val) (lo := 128 + 16 * k.val + 1) (by omega) (by omega),
    Ring.bigSep_rangeSet_head (Φ := fun t => tokU d L q fue t.val) (lo := 128 + 16 * k.val + 2) (by omega) (by omega),
    Ring.bigSep_rangeSet_head (Φ := fun t => tokU d L q fue t.val) (lo := 128 + 16 * k.val + 3) (by omega) (by omega),
    Ring.bigSep_rangeSet_head (Φ := fun t => tokU d L q fue t.val) (lo := 128 + 16 * k.val + 4) (by omega) (by omega),
    Ring.bigSep_rangeSet_head (Φ := fun t => tokU d L q fue t.val) (lo := 128 + 16 * k.val + 5) (by omega) (by omega),
    Ring.bigSep_rangeSet_head (Φ := fun t => tokU d L q fue t.val) (lo := 128 + 16 * k.val + 6) (by omega) (by omega),
    Ring.bigSep_rangeSet_head (Φ := fun t => tokU d L q fue t.val) (lo := 128 + 16 * k.val + 7) (by omega) (by omega),
    Ring.bigSep_rangeSet_head (Φ := fun t => tokU d L q fue t.val) (lo := 128 + 16 * k.val + 8) (by omega) (by omega),
    Ring.bigSep_rangeSet_head (Φ := fun t => tokU d L q fue t.val) (lo := 128 + 16 * k.val + 9) (by omega) (by omega),
    Ring.bigSep_rangeSet_head (Φ := fun t => tokU d L q fue t.val) (lo := 128 + 16 * k.val + 10) (by omega) (by omega),
    Ring.bigSep_rangeSet_head (Φ := fun t => tokU d L q fue t.val) (lo := 128 + 16 * k.val + 11) (by omega) (by omega),
    Ring.bigSep_rangeSet_head (Φ := fun t => tokU d L q fue t.val) (lo := 128 + 16 * k.val + 12) (by omega) (by omega),
    Ring.bigSep_rangeSet_head (Φ := fun t => tokU d L q fue t.val) (lo := 128 + 16 * k.val + 13) (by omega) (by omega),
    Ring.bigSep_rangeSet_head (Φ := fun t => tokU d L q fue t.val) (lo := 128 + 16 * k.val + 14) (by omega) (by omega),
    Ring.bigSep_rangeSet_head (Φ := fun t => tokU d L q fue t.val) (lo := 128 + 16 * k.val + 15) (by omega) (by omega),
    Ring.bigSep_rangeSet_head (Φ := fun t => tokI d L q fie t.val) (lo := 128 + 16 * k.val) (by omega) (by omega),
    Ring.bigSep_rangeSet_head (Φ := fun t => tokI d L q fie t.val) (lo := 128 + 16 * k.val + 1) (by omega) (by omega),
    Ring.bigSep_rangeSet_head (Φ := fun t => tokI d L q fie t.val) (lo := 128 + 16 * k.val + 2) (by omega) (by omega),
    Ring.bigSep_rangeSet_head (Φ := fun t => tokI d L q fie t.val) (lo := 128 + 16 * k.val + 3) (by omega) (by omega),
    Ring.bigSep_rangeSet_head (Φ := fun t => tokI d L q fie t.val) (lo := 128 + 16 * k.val + 4) (by omega) (by omega),
    Ring.bigSep_rangeSet_head (Φ := fun t => tokI d L q fie t.val) (lo := 128 + 16 * k.val + 5) (by omega) (by omega),
    Ring.bigSep_rangeSet_head (Φ := fun t => tokI d L q fie t.val) (lo := 128 + 16 * k.val + 6) (by omega) (by omega),
    Ring.bigSep_rangeSet_head (Φ := fun t => tokI d L q fie t.val) (lo := 128 + 16 * k.val + 7) (by omega) (by omega),
    Ring.bigSep_rangeSet_head (Φ := fun t => tokI d L q fie t.val) (lo := 128 + 16 * k.val + 8) (by omega) (by omega),
    Ring.bigSep_rangeSet_head (Φ := fun t => tokI d L q fie t.val) (lo := 128 + 16 * k.val + 9) (by omega) (by omega),
    Ring.bigSep_rangeSet_head (Φ := fun t => tokI d L q fie t.val) (lo := 128 + 16 * k.val + 10) (by omega) (by omega),
    Ring.bigSep_rangeSet_head (Φ := fun t => tokI d L q fie t.val) (lo := 128 + 16 * k.val + 11) (by omega) (by omega),
    Ring.bigSep_rangeSet_head (Φ := fun t => tokI d L q fie t.val) (lo := 128 + 16 * k.val + 12) (by omega) (by omega),
    Ring.bigSep_rangeSet_head (Φ := fun t => tokI d L q fie t.val) (lo := 128 + 16 * k.val + 13) (by omega) (by omega),
    Ring.bigSep_rangeSet_head (Φ := fun t => tokI d L q fie t.val) (lo := 128 + 16 * k.val + 14) (by omega) (by omega),
    Ring.bigSep_rangeSet_head (Φ := fun t => tokI d L q fie t.val) (lo := 128 + 16 * k.val + 15) (by omega) (by omega),
    show 128 + 16 * k.val + 15 + 1 = 128 + 16 * (k.val + 1) by omega,
    show 16 * k.val + 15 + 1 = 16 * (k.val + 1) by omega]
  rw [EU_t3_0 d L k, EU_t3_1 d L k, EU_t3_2 d L k, EU_t3_3 d L k, EU_t3_4 d L k, EU_t3_5 d L k, EU_t3_6 d L k, EU_t3_7 d L k, EU_t3_8 d L k, EU_t3_9 d L k, EU_t3_10 d L k, EU_t3_11 d L k, EU_t3_12 d L k, EU_t3_13 d L k, EU_t3_14 d L k, EU_t3_15 d L k, EI_t3_0 d L k, EI_t3_1 d L k, EI_t3_2 d L k, EI_t3_3 d L k, EI_t3_4 d L k, EI_t3_5 d L k, EI_t3_6 d L k, EI_t3_7 d L k, EI_t3_8 d L k, EI_t3_9 d L k, EI_t3_10 d L k, EI_t3_11 d L k, EI_t3_12 d L k, EI_t3_13 d L k, EI_t3_14 d L k, EI_t3_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t3_body
  sl_exec (disch := first
      | exact sep_elim_left.trans (deliver d L _ _ _ (by simp only [offU_t3_0, offU_t3_1, offU_t3_2, offU_t3_3, offU_t3_4, offU_t3_5, offU_t3_6, offU_t3_7, offU_t3_8, offU_t3_9, offU_t3_10, offU_t3_11, offU_t3_12, offU_t3_13, offU_t3_14, offU_t3_15, offI_t3_0, offI_t3_1, offI_t3_2, offI_t3_3, offI_t3_4, offI_t3_5, offI_t3_6, offI_t3_7, offI_t3_8, offI_t3_9, offI_t3_10, offI_t3_11, offI_t3_12, offI_t3_13, offI_t3_14, offI_t3_15]; rfl))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t3 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) :
    LoopInv (M := 𝕄) frame (wpE (defs₀ (F := F)) 𝒱₀ (thr d L) none) Set.univ k0_t3_loop.lb k0_t3_loop.ub k0_t3_loop.st k0_t3_ok ()
      (k0_t3_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285) where
  inv := issueAt_t3 d L q fu fi f0 f1 fue fie
  step := issue_step_t3 d L q fu fi hfu hfi f0 f1 fue fie v3 v7 v11 v15 v19 v23 v24 c1285

end Issue

end Cert.Proof.KB

end
-- ==== Proof.KIssueT11B.lean ====
/-
  One trip of an issue loop at a symbolic trip `k`: the sixteen row copies from each table of that trip are the
  copies number `16 k … 16 k + 15` of the two batches on the half's two semaphores. Each copy's row index is a lane of
  the index scratch, hence a word of the index array, hence (by the precondition) a row of its table; its destination
  is row `16 k + j` of the half, which the batch promised to deliver; it consumes one read token of its table.
-/
import proofs.«214512_g89103391522852_cont_sun_m_1157_25_alg».proof.Proof.KRowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

/-! The destination offsets the program computes, in closed form. -/
theorem offU_t11_0 : ∀ k : Fin k0_t11_loop.trips, k0_off175 k = ![0, 16 * k.val, 0] := by decide +kernel
theorem offU_t11_1 : ∀ k : Fin k0_t11_loop.trips, k0_off179 k = ![0, 16 * k.val + 1, 0] := by decide +kernel
theorem offU_t11_2 : ∀ k : Fin k0_t11_loop.trips, k0_off183 k = ![0, 16 * k.val + 2, 0] := by decide +kernel
theorem offU_t11_3 : ∀ k : Fin k0_t11_loop.trips, k0_off187 k = ![0, 16 * k.val + 3, 0] := by decide +kernel
theorem offU_t11_4 : ∀ k : Fin k0_t11_loop.trips, k0_off191 k = ![0, 16 * k.val + 4, 0] := by decide +kernel
theorem offU_t11_5 : ∀ k : Fin k0_t11_loop.trips, k0_off195 k = ![0, 16 * k.val + 5, 0] := by decide +kernel
theorem offU_t11_6 : ∀ k : Fin k0_t11_loop.trips, k0_off199 k = ![0, 16 * k.val + 6, 0] := by decide +kernel
theorem offU_t11_7 : ∀ k : Fin k0_t11_loop.trips, k0_off203 k = ![0, 16 * k.val + 7, 0] := by decide +kernel
theorem offU_t11_8 : ∀ k : Fin k0_t11_loop.trips, k0_off207 k = ![0, 16 * k.val + 8, 0] := by decide +kernel
theorem offU_t11_9 : ∀ k : Fin k0_t11_loop.trips, k0_off211 k = ![0, 16 * k.val + 9, 0] := by decide +kernel
theorem offU_t11_10 : ∀ k : Fin k0_t11_loop.trips, k0_off215 k = ![0, 16 * k.val + 10, 0] := by decide +kernel
theorem offU_t11_11 : ∀ k : Fin k0_t11_loop.trips, k0_off219 k = ![0, 16 * k.val + 11, 0] := by decide +kernel
theorem offU_t11_12 : ∀ k : Fin k0_t11_loop.trips, k0_off223 k = ![0, 16 * k.val + 12, 0] := by decide +kernel
theorem offU_t11_13 : ∀ k : Fin k0_t11_loop.trips, k0_off227 k = ![0, 16 * k.val + 13, 0] := by decide +kernel
theorem offU_t11_14 : ∀ k : Fin k0_t11_loop.trips, k0_off231 k = ![0, 16 * k.val + 14, 0] := by decide +kernel
theorem offU_t11_15 : ∀ k : Fin k0_t11_loop.trips, k0_off235 k = ![0, 16 * k.val + 15, 0] := by decide +kernel
theorem offI_t11_0 : ∀ k : Fin k0_t11_loop.trips, k0_off177 k 0#32 = ![0, 16 * k.val, 0] := by decide +kernel
theorem offI_t11_1 : ∀ k : Fin k0_t11_loop.trips, k0_off181 k 1#32 = ![0, 16 * k.val + 1, 0] := by decide +kernel
theorem offI_t11_2 : ∀ k : Fin k0_t11_loop.trips, k0_off185 k 2#32 = ![0, 16 * k.val + 2, 0] := by decide +kernel
theorem offI_t11_3 : ∀ k : Fin k0_t11_loop.trips, k0_off189 k 3#32 = ![0, 16 * k.val + 3, 0] := by decide +kernel
theorem offI_t11_4 : ∀ k : Fin k0_t11_loop.trips, k0_off193 k 4#32 = ![0, 16 * k.val + 4, 0] := by decide +kernel
theorem offI_t11_5 : ∀ k : Fin k0_t11_loop.trips, k0_off197 k 5#32 = ![0, 16 * k.val + 5, 0] := by decide +kernel
theorem offI_t11_6 : ∀ k : Fin k0_t11_loop.trips, k0_off201 k 6#32 = ![0, 16 * k.val + 6, 0] := by decide +kernel
theorem offI_t11_7 : ∀ k : Fin k0_t11_loop.trips, k0_off205 k 7#32 = ![0, 16 * k.val + 7, 0] := by decide +kernel
theorem offI_t11_8 : ∀ k : Fin k0_t11_loop.trips, k0_off209 k 8#32 = ![0, 16 * k.val + 8, 0] := by decide +kernel
theorem offI_t11_9 : ∀ k : Fin k0_t11_loop.trips, k0_off213 k 9#32 = ![0, 16 * k.val + 9, 0] := by decide +kernel
theorem offI_t11_10 : ∀ k : Fin k0_t11_loop.trips, k0_off217 k 10#32 = ![0, 16 * k.val + 10, 0] := by decide +kernel
theorem offI_t11_11 : ∀ k : Fin k0_t11_loop.trips, k0_off221 k 11#32 = ![0, 16 * k.val + 11, 0] := by decide +kernel
theorem offI_t11_12 : ∀ k : Fin k0_t11_loop.trips, k0_off225 k 12#32 = ![0, 16 * k.val + 12, 0] := by decide +kernel
theorem offI_t11_13 : ∀ k : Fin k0_t11_loop.trips, k0_off229 k 13#32 = ![0, 16 * k.val + 13, 0] := by decide +kernel
theorem offI_t11_14 : ∀ k : Fin k0_t11_loop.trips, k0_off233 k 14#32 = ![0, 16 * k.val + 14, 0] := by decide +kernel
theorem offI_t11_15 : ∀ k : Fin k0_t11_loop.trips, k0_off237 k = ![0, 16 * k.val + 15, 0] := by decide +kernel

/-! The rows by number are the rows as the program slices them. -/
omit [FloatOps F] in
theorem EU_t11_0 (d : Dev nD) (L : grid0.Coords) (k : Fin k0_t11_loop.trips) (h) :
    ownU (F := F) d L 0 ⟨16 * k.val, h⟩
      = ownAt (F := F) d L (urowS) (k0_off175 k) (inb_of (offU_t11_0 k) (by decide) (by have := k.isLt; have := k0_t11_abs.2.1; omega)) :=
  ownAt_congr d L (offU_t11_0 k).symm _ _
omit [FloatOps F] in
theorem EU_t11_1 (d : Dev nD) (L : grid0.Coords) (k : Fin k0_t11_loop.trips) (h) :
    ownU (F := F) d L 0 ⟨16 * k.val + 1, h⟩
      = ownAt (F := F) d L (urowS) (k0_off179 k) (inb_of (offU_t11_1 k) (by decide) (by have := k.isLt; have := k0_t11_abs.2.1; omega)) :=
  ownAt_congr d L (offU_t11_1 k).symm _ _
omit [FloatOps F] in
theorem EU_t11_2 (d : Dev nD) (L : grid0.Coords) (k : Fin k0_t11_loop.trips) (h) :
    ownU (F := F) d L 0 ⟨16 * k.val + 2, h⟩
      = ownAt (F := F) d L (urowS) (k0_off183 k) (inb_of (offU_t11_2 k) (by decide) (by have := k.isLt; have := k0_t11_abs.2.1; omega)) :=
  ownAt_congr d L (offU_t11_2 k).symm _ _
omit [FloatOps F] in
theorem EU_t11_3 (d : Dev nD) (L : grid0.Coords) (k : Fin k0_t11_loop.trips) (h) :
    ownU (F := F) d L 0 ⟨16 * k.val + 3, h⟩
      = ownAt (F := F) d L (urowS) (k0_off187 k) (inb_of (offU_t11_3 k) (by decide) (by have := k.isLt; have := k0_t11_abs.2.1; omega)) :=
  ownAt_congr d L (offU_t11_3 k).symm _ _
omit [FloatOps F] in
theorem EU_t11_4 (d : Dev nD) (L : grid0.Coords) (k : Fin k0_t11_loop.trips) (h) :
    ownU (F := F) d L 0 ⟨16 * k.val + 4, h⟩
      = ownAt (F := F) d L (urowS) (k0_off191 k) (inb_of (offU_t11_4 k) (by decide) (by have := k.isLt; have := k0_t11_abs.2.1; omega)) :=
  ownAt_congr d L (offU_t11_4 k).symm _ _
omit [FloatOps F] in
theorem EU_t11_5 (d : Dev nD) (L : grid0.Coords) (k : Fin k0_t11_loop.trips) (h) :
    ownU (F := F) d L 0 ⟨16 * k.val + 5, h⟩
      = ownAt (F := F) d L (urowS) (k0_off195 k) (inb_of (offU_t11_5 k) (by decide) (by have := k.isLt; have := k0_t11_abs.2.1; omega)) :=
  ownAt_congr d L (offU_t11_5 k).symm _ _
omit [FloatOps F] in
theorem EU_t11_6 (d : Dev nD) (L : grid0.Coords) (k : Fin k0_t11_loop.trips) (h) :
    ownU (F := F) d L 0 ⟨16 * k.val + 6, h⟩
      = ownAt (F := F) d L (urowS) (k0_off199 k) (inb_of (offU_t11_6 k) (by decide) (by have := k.isLt; have := k0_t11_abs.2.1; omega)) :=
  ownAt_congr d L (offU_t11_6 k).symm _ _
omit [FloatOps F] in
theorem EU_t11_7 (d : Dev nD) (L : grid0.Coords) (k : Fin k0_t11_loop.trips) (h) :
    ownU (F := F) d L 0 ⟨16 * k.val + 7, h⟩
      = ownAt (F := F) d L (urowS) (k0_off203 k) (inb_of (offU_t11_7 k) (by decide) (by have := k.isLt; have := k0_t11_abs.2.1; omega)) :=
  ownAt_congr d L (offU_t11_7 k).symm _ _
omit [FloatOps F] in
theorem EU_t11_8 (d : Dev nD) (L : grid0.Coords) (k : Fin k0_t11_loop.trips) (h) :
    ownU (F := F) d L 0 ⟨16 * k.val + 8, h⟩
      = ownAt (F := F) d L (urowS) (k0_off207 k) (inb_of (offU_t11_8 k) (by decide) (by have := k.isLt; have := k0_t11_abs.2.1; omega)) :=
  ownAt_congr d L (offU_t11_8 k).symm _ _
omit [FloatOps F] in
theorem EU_t11_9 (d : Dev nD) (L : grid0.Coords) (k : Fin k0_t11_loop.trips) (h) :
    ownU (F := F) d L 0 ⟨16 * k.val + 9, h⟩
      = ownAt (F := F) d L (urowS) (k0_off211 k) (inb_of (offU_t11_9 k) (by decide) (by have := k.isLt; have := k0_t11_abs.2.1; omega)) :=
  ownAt_congr d L (offU_t11_9 k).symm _ _
omit [FloatOps F] in
theorem EU_t11_10 (d : Dev nD) (L : grid0.Coords) (k : Fin k0_t11_loop.trips) (h) :
    ownU (F := F) d L 0 ⟨16 * k.val + 10, h⟩
      = ownAt (F := F) d L (urowS) (k0_off215 k) (inb_of (offU_t11_10 k) (by decide) (by have := k.isLt; have := k0_t11_abs.2.1; omega)) :=
  ownAt_congr d L (offU_t11_10 k).symm _ _
omit [FloatOps F] in
theorem EU_t11_11 (d : Dev nD) (L : grid0.Coords) (k : Fin k0_t11_loop.trips) (h) :
    ownU (F := F) d L 0 ⟨16 * k.val + 11, h⟩
      = ownAt (F := F) d L (urowS) (k0_off219 k) (inb_of (offU_t11_11 k) (by decide) (by have := k.isLt; have := k0_t11_abs.2.1; omega)) :=
  ownAt_congr d L (offU_t11_11 k).symm _ _
omit [FloatOps F] in
theorem EU_t11_12 (d : Dev nD) (L : grid0.Coords) (k : Fin k0_t11_loop.trips) (h) :
    ownU (F := F) d L 0 ⟨16 * k.val + 12, h⟩
      = ownAt (F := F) d L (urowS) (k0_off223 k) (inb_of (offU_t11_12 k) (by decide) (by have := k.isLt; have := k0_t11_abs.2.1; omega)) :=
  ownAt_congr d L (offU_t11_12 k).symm _ _
omit [FloatOps F] in
theorem EU_t11_13 (d : Dev nD) (L : grid0.Coords) (k : Fin k0_t11_loop.trips) (h) :
    ownU (F := F) d L 0 ⟨16 * k.val + 13, h⟩
      = ownAt (F := F) d L (urowS) (k0_off227 k) (inb_of (offU_t11_13 k) (by decide) (by have := k.isLt; have := k0_t11_abs.2.1; omega)) :=
  ownAt_congr d L (offU_t11_13 k).symm _ _
omit [FloatOps F] in
theorem EU_t11_14 (d : Dev nD) (L : grid0.Coords) (k : Fin k0_t11_loop.trips) (h) :
    ownU (F := F) d L 0 ⟨16 * k.val + 14, h⟩
      = ownAt (F := F) d L (urowS) (k0_off231 k) (inb_of (offU_t11_14 k) (by decide) (by have := k.isLt; have := k0_t11_abs.2.1; omega)) :=
  ownAt_congr d L (offU_t11_14 k).symm _ _
omit [FloatOps F] in
theorem EU_t11_15 (d : Dev nD) (L : grid0.Coords) (k : Fin k0_t11_loop.trips) (h) :
    ownU (F := F) d L 0 ⟨16 * k.val + 15, h⟩
      = ownAt (F := F) d L (urowS) (k0_off235 k) (inb_of (offU_t11_15 k) (by decide) (by have := k.isLt; have := k0_t11_abs.2.1; omega)) :=
  ownAt_congr d L (offU_t11_15 k).symm _ _
omit [FloatOps F] in
theorem EI_t11_0 (d : Dev nD) (L : grid0.Coords) (k : Fin k0_t11_loop.trips) (h) :
    ownI (F := F) d L 0 ⟨16 * k.val, h⟩
      = ownAt (F := F) d L (irowS) (k0_off177 k 0#32) (inb_of (offI_t11_0 k) (by decide) (by have := k.isLt; have := k0_t11_abs.2.1; omega)) :=
  ownAt_congr d L (offI_t11_0 k).symm _ _
omit [FloatOps F] in
theorem EI_t11_1 (d : Dev nD) (L : grid0.Coords) (k : Fin k0_t11_loop.trips) (h) :
    ownI (F := F) d L 0 ⟨16 * k.val + 1, h⟩
      = ownAt (F := F) d L (irowS) (k0_off181 k 1#32) (inb_of (offI_t11_1 k) (by decide) (by have := k.isLt; have := k0_t11_abs.2.1; omega)) :=
  ownAt_congr d L (offI_t11_1 k).symm _ _
omit [FloatOps F] in
theorem EI_t11_2 (d : Dev nD) (L : grid0.Coords) (k : Fin k0_t11_loop.trips) (h) :
    ownI (F := F) d L 0 ⟨16 * k.val + 2, h⟩
      = ownAt (F := F) d L (irowS) (k0_off185 k 2#32) (inb_of (offI_t11_2 k) (by decide) (by have := k.isLt; have := k0_t11_abs.2.1; omega)) :=
  ownAt_congr d L (offI_t11_2 k).symm _ _
omit [FloatOps F] in
theorem EI_t11_3 (d : Dev nD) (L : grid0.Coords) (k : Fin k0_t11_loop.trips) (h) :
    ownI (F := F) d L 0 ⟨16 * k.val + 3, h⟩
      = ownAt (F := F) d L (irowS) (k0_off189 k 3#32) (inb_of (offI_t11_3 k) (by decide) (by have := k.isLt; have := k0_t11_abs.2.1; omega)) :=
  ownAt_congr d L (offI_t11_3 k).symm _ _
omit [FloatOps F] in
theorem EI_t11_4 (d : Dev nD) (L : grid0.Coords) (k : Fin k0_t11_loop.trips) (h) :
    ownI (F := F) d L 0 ⟨16 * k.val + 4, h⟩
      = ownAt (F := F) d L (irowS) (k0_off193 k 4#32) (inb_of (offI_t11_4 k) (by decide) (by have := k.isLt; have := k0_t11_abs.2.1; omega)) :=
  ownAt_congr d L (offI_t11_4 k).symm _ _
omit [FloatOps F] in
theorem EI_t11_5 (d : Dev nD) (L : grid0.Coords) (k : Fin k0_t11_loop.trips) (h) :
    ownI (F := F) d L 0 ⟨16 * k.val + 5, h⟩
      = ownAt (F := F) d L (irowS) (k0_off197 k 5#32) (inb_of (offI_t11_5 k) (by decide) (by have := k.isLt; have := k0_t11_abs.2.1; omega)) :=
  ownAt_congr d L (offI_t11_5 k).symm _ _
omit [FloatOps F] in
theorem EI_t11_6 (d : Dev nD) (L : grid0.Coords) (k : Fin k0_t11_loop.trips) (h) :
    ownI (F := F) d L 0 ⟨16 * k.val + 6, h⟩
      = ownAt (F := F) d L (irowS) (k0_off201 k 6#32) (inb_of (offI_t11_6 k) (by decide) (by have := k.isLt; have := k0_t11_abs.2.1; omega)) :=
  ownAt_congr d L (offI_t11_6 k).symm _ _
omit [FloatOps F] in
theorem EI_t11_7 (d : Dev nD) (L : grid0.Coords) (k : Fin k0_t11_loop.trips) (h) :
    ownI (F := F) d L 0 ⟨16 * k.val + 7, h⟩
      = ownAt (F := F) d L (irowS) (k0_off205 k 7#32) (inb_of (offI_t11_7 k) (by decide) (by have := k.isLt; have := k0_t11_abs.2.1; omega)) :=
  ownAt_congr d L (offI_t11_7 k).symm _ _
omit [FloatOps F] in
theorem EI_t11_8 (d : Dev nD) (L : grid0.Coords) (k : Fin k0_t11_loop.trips) (h) :
    ownI (F := F) d L 0 ⟨16 * k.val + 8, h⟩
      = ownAt (F := F) d L (irowS) (k0_off209 k 8#32) (inb_of (offI_t11_8 k) (by decide) (by have := k.isLt; have := k0_t11_abs.2.1; omega)) :=
  ownAt_congr d L (offI_t11_8 k).symm _ _
omit [FloatOps F] in
theorem EI_t11_9 (d : Dev nD) (L : grid0.Coords) (k : Fin k0_t11_loop.trips) (h) :
    ownI (F := F) d L 0 ⟨16 * k.val + 9, h⟩
      = ownAt (F := F) d L (irowS) (k0_off213 k 9#32) (inb_of (offI_t11_9 k) (by decide) (by have := k.isLt; have := k0_t11_abs.2.1; omega)) :=
  ownAt_congr d L (offI_t11_9 k).symm _ _
omit [FloatOps F] in
theorem EI_t11_10 (d : Dev nD) (L : grid0.Coords) (k : Fin k0_t11_loop.trips) (h) :
    ownI (F := F) d L 0 ⟨16 * k.val + 10, h⟩
      = ownAt (F := F) d L (irowS) (k0_off217 k 10#32) (inb_of (offI_t11_10 k) (by decide) (by have := k.isLt; have := k0_t11_abs.2.1; omega)) :=
  ownAt_congr d L (offI_t11_10 k).symm _ _
omit [FloatOps F] in
theorem EI_t11_11 (d : Dev nD) (L : grid0.Coords) (k : Fin k0_t11_loop.trips) (h) :
    ownI (F := F) d L 0 ⟨16 * k.val + 11, h⟩
      = ownAt (F := F) d L (irowS) (k0_off221 k 11#32) (inb_of (offI_t11_11 k) (by decide) (by have := k.isLt; have := k0_t11_abs.2.1; omega)) :=
  ownAt_congr d L (offI_t11_11 k).symm _ _
omit [FloatOps F] in
theorem EI_t11_12 (d : Dev nD) (L : grid0.Coords) (k : Fin k0_t11_loop.trips) (h) :
    ownI (F := F) d L 0 ⟨16 * k.val + 12, h⟩
      = ownAt (F := F) d L (irowS) (k0_off225 k 12#32) (inb_of (offI_t11_12 k) (by decide) (by have := k.isLt; have := k0_t11_abs.2.1; omega)) :=
  ownAt_congr d L (offI_t11_12 k).symm _ _
omit [FloatOps F] in
theorem EI_t11_13 (d : Dev nD) (L : grid0.Coords) (k : Fin k0_t11_loop.trips) (h) :
    ownI (F := F) d L 0 ⟨16 * k.val + 13, h⟩
      = ownAt (F := F) d L (irowS) (k0_off229 k 13#32) (inb_of (offI_t11_13 k) (by decide) (by have := k.isLt; have := k0_t11_abs.2.1; omega)) :=
  ownAt_congr d L (offI_t11_13 k).symm _ _
omit [FloatOps F] in
theorem EI_t11_14 (d : Dev nD) (L : grid0.Coords) (k : Fin k0_t11_loop.trips) (h) :
    ownI (F := F) d L 0 ⟨16 * k.val + 14, h⟩
      = ownAt (F := F) d L (irowS) (k0_off233 k 14#32) (inb_of (offI_t11_14 k) (by decide) (by have := k.isLt; have := k0_t11_abs.2.1; omega)) :=
  ownAt_congr d L (offI_t11_14 k).symm _ _
omit [FloatOps F] in
theorem EI_t11_15 (d : Dev nD) (L : grid0.Coords) (k : Fin k0_t11_loop.trips) (h) :
    ownI (F := F) d L 0 ⟨16 * k.val + 15, h⟩
      = ownAt (F := F) d L (irowS) (k0_off237 k) (inb_of (offI_t11_15 k) (by decide) (by have := k.isLt; have := k0_t11_abs.2.1; omega)) :=
  ownAt_congr d L (offI_t11_15 k).symm _ _

section Issue

variable (d : Dev nD) (L : grid0.Coords)

/-- Before trip `k`: `16 k` copies of each table issued, nothing consumed; the rows and read tokens from there on in hand;
    the two index scratches as filled. -/
def issueAt_t11 (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchU d L 0 (SemLoc.dma cc0_scratch7.sem) (16 * k) 0 ∗ batchI d L 0 (SemLoc.dma cc0_scratch9.sem) (16 * k) 0
    ∗ bigSep (Ring.rangeSet 128 (16 * k) 128) (ownU d L 0) ∗ bigSep (Ring.rangeSet 128 (16 * k) 128) (ownI d L 0)
    ∗ bigSep (Ring.rangeSet 512 (256 + 16 * k) 384) (fun t => tokU d L q fue t.val) ∗ bigSep (Ring.rangeSet 512 (256 + 16 * k) 384) (fun t => tokI d L q fie t.val)
    ∗ idxU d L fu f0 ∗ idxI d L fi f1)

set_option maxHeartbeats 4000000 in
theorem issue_step_t11 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h3 : k0_cond3 k0_t4 = 1#1) (v114 : BitVec 32)
    (k : Fin k0_t11_loop.trips) (acc : Unit) :
    issueAt_t11 d L q fu fi f0 f1 fue fie k acc
      ⊢ wp frame (wpE (defs₀ (F := F)) 𝒱₀ (thr d L) none) Set.univ
          (k0_t11_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h3 v114 k acc)
          (issueAt_t11 d L q fu fi f0 f1 fue fie (k.val + 1)) := by
  have hk := k.isLt; have h8 := k0_t11_abs.2.1
  unfold issueAt_t11
  rw [Ring.bigSep_rangeSet_head (Φ := ownU d L 0) (lo := 16 * k.val) (by omega) (by omega),
    Ring.bigSep_rangeSet_head (Φ := ownU d L 0) (lo := 16 * k.val + 1) (by omega) (by omega),
    Ring.bigSep_rangeSet_head (Φ := ownU d L 0) (lo := 16 * k.val + 2) (by omega) (by omega),
    Ring.bigSep_rangeSet_head (Φ := ownU d L 0) (lo := 16 * k.val + 3) (by omega) (by omega),
    Ring.bigSep_rangeSet_head (Φ := ownU d L 0) (lo := 16 * k.val + 4) (by omega) (by omega),
    Ring.bigSep_rangeSet_head (Φ := ownU d L 0) (lo := 16 * k.val + 5) (by omega) (by omega),
    Ring.bigSep_rangeSet_head (Φ := ownU d L 0) (lo := 16 * k.val + 6) (by omega) (by omega),
    Ring.bigSep_rangeSet_head (Φ := ownU d L 0) (lo := 16 * k.val + 7) (by omega) (by omega),
    Ring.bigSep_rangeSet_head (Φ := ownU d L 0) (lo := 16 * k.val + 8) (by omega) (by omega),
    Ring.bigSep_rangeSet_head (Φ := ownU d L 0) (lo := 16 * k.val + 9) (by omega) (by omega),
    Ring.bigSep_rangeSet_head (Φ := ownU d L 0) (lo := 16 * k.val + 10) (by omega) (by omega),
    Ring.bigSep_rangeSet_head (Φ := ownU d L 0) (lo := 16 * k.val + 11) (by omega) (by omega),
    Ring.bigSep_rangeSet_head (Φ := ownU d L 0) (lo := 16 * k.val + 12) (by omega) (by omega),
    Ring.bigSep_rangeSet_head (Φ := ownU d L 0) (lo := 16 * k.val + 13) (by omega) (by omega),
    Ring.bigSep_rangeSet_head (Φ := ownU d L 0) (lo := 16 * k.val + 14) (by omega) (by omega),
    Ring.bigSep_rangeSet_head (Φ := ownU d L 0) (lo := 16 * k.val + 15) (by omega) (by omega),
    Ring.bigSep_rangeSet_head (Φ := ownI d L 0) (lo := 16 * k.val) (by omega) (by omega),
    Ring.bigSep_rangeSet_head (Φ := ownI d L 0) (lo := 16 * k.val + 1) (by omega) (by omega),
    Ring.bigSep_rangeSet_head (Φ := ownI d L 0) (lo := 16 * k.val + 2) (by omega) (by omega),
    Ring.bigSep_rangeSet_head (Φ := ownI d L 0) (lo := 16 * k.val + 3) (by omega) (by omega),
    Ring.bigSep_rangeSet_head (Φ := ownI d L 0) (lo := 16 * k.val + 4) (by omega) (by omega),
    Ring.bigSep_rangeSet_head (Φ := ownI d L 0) (lo := 16 * k.val + 5) (by omega) (by omega),
    Ring.bigSep_rangeSet_head (Φ := ownI d L 0) (lo := 16 * k.val + 6) (by omega) (by omega),
    Ring.bigSep_rangeSet_head (Φ := ownI d L 0) (lo := 16 * k.val + 7) (by omega) (by omega),
    Ring.bigSep_rangeSet_head (Φ := ownI d L 0) (lo := 16 * k.val + 8) (by omega) (by omega),
    Ring.bigSep_rangeSet_head (Φ := ownI d L 0) (lo := 16 * k.val + 9) (by omega) (by omega),
    Ring.bigSep_rangeSet_head (Φ := ownI d L 0) (lo := 16 * k.val + 10) (by omega) (by omega),
    Ring.bigSep_rangeSet_head (Φ := ownI d L 0) (lo := 16 * k.val + 11) (by omega) (by omega),
    Ring.bigSep_rangeSet_head (Φ := ownI d L 0) (lo := 16 * k.val + 12) (by omega) (by omega),
    Ring.bigSep_rangeSet_head (Φ := ownI d L 0) (lo := 16 * k.val + 13) (by omega) (by omega),
    Ring.bigSep_rangeSet_head (Φ := ownI d L 0) (lo := 16 * k.val + 14) (by omega) (by omega),
    Ring.bigSep_rangeSet_head (Φ := ownI d L 0) (lo := 16 * k.val + 15) (by omega) (by omega),
    Ring.bigSep_rangeSet_head (Φ := fun t => tokU d L q fue t.val) (lo := 256 + 16 * k.val) (by omega) (by omega),
    Ring.bigSep_rangeSet_head (Φ := fun t => tokU d L q fue t.val) (lo := 256 + 16 * k.val + 1) (by omega) (by omega),
    Ring.bigSep_rangeSet_head (Φ := fun t => tokU d L q fue t.val) (lo := 256 + 16 * k.val + 2) (by omega) (by omega),
    Ring.bigSep_rangeSet_head (Φ := fun t => tokU d L q fue t.val) (lo := 256 + 16 * k.val + 3) (by omega) (by omega),
    Ring.bigSep_rangeSet_head (Φ := fun t => tokU d L q fue t.val) (lo := 256 + 16 * k.val + 4) (by omega) (by omega),
    Ring.bigSep_rangeSet_head (Φ := fun t => tokU d L q fue t.val) (lo := 256 + 16 * k.val + 5) (by omega) (by omega),
    Ring.bigSep_rangeSet_head (Φ := fun t => tokU d L q fue t.val) (lo := 256 + 16 * k.val + 6) (by omega) (by omega),
    Ring.bigSep_rangeSet_head (Φ := fun t => tokU d L q fue t.val) (lo := 256 + 16 * k.val + 7) (by omega) (by omega),
    Ring.bigSep_rangeSet_head (Φ := fun t => tokU d L q fue t.val) (lo := 256 + 16 * k.val + 8) (by omega) (by omega),
    Ring.bigSep_rangeSet_head (Φ := fun t => tokU d L q fue t.val) (lo := 256 + 16 * k.val + 9) (by omega) (by omega),
    Ring.bigSep_rangeSet_head (Φ := fun t => tokU d L q fue t.val) (lo := 256 + 16 * k.val + 10) (by omega) (by omega),
    Ring.bigSep_rangeSet_head (Φ := fun t => tokU d L q fue t.val) (lo := 256 + 16 * k.val + 11) (by omega) (by omega),
    Ring.bigSep_rangeSet_head (Φ := fun t => tokU d L q fue t.val) (lo := 256 + 16 * k.val + 12) (by omega) (by omega),
    Ring.bigSep_rangeSet_head (Φ := fun t => tokU d L q fue t.val) (lo := 256 + 16 * k.val + 13) (by omega) (by omega),
    Ring.bigSep_rangeSet_head (Φ := fun t => tokU d L q fue t.val) (lo := 256 + 16 * k.val + 14) (by omega) (by omega),
    Ring.bigSep_rangeSet_head (Φ := fun t => tokU d L q fue t.val) (lo := 256 + 16 * k.val + 15) (by omega) (by omega),
    Ring.bigSep_rangeSet_head (Φ := fun t => tokI d L q fie t.val) (lo := 256 + 16 * k.val) (by omega) (by omega),
    Ring.bigSep_rangeSet_head (Φ := fun t => tokI d L q fie t.val) (lo := 256 + 16 * k.val + 1) (by omega) (by omega),
    Ring.bigSep_rangeSet_head (Φ := fun t => tokI d L q fie t.val) (lo := 256 + 16 * k.val + 2) (by omega) (by omega),
    Ring.bigSep_rangeSet_head (Φ := fun t => tokI d L q fie t.val) (lo := 256 + 16 * k.val + 3) (by omega) (by omega),
    Ring.bigSep_rangeSet_head (Φ := fun t => tokI d L q fie t.val) (lo := 256 + 16 * k.val + 4) (by omega) (by omega),
    Ring.bigSep_rangeSet_head (Φ := fun t => tokI d L q fie t.val) (lo := 256 + 16 * k.val + 5) (by omega) (by omega),
    Ring.bigSep_rangeSet_head (Φ := fun t => tokI d L q fie t.val) (lo := 256 + 16 * k.val + 6) (by omega) (by omega),
    Ring.bigSep_rangeSet_head (Φ := fun t => tokI d L q fie t.val) (lo := 256 + 16 * k.val + 7) (by omega) (by omega),
    Ring.bigSep_rangeSet_head (Φ := fun t => tokI d L q fie t.val) (lo := 256 + 16 * k.val + 8) (by omega) (by omega),
    Ring.bigSep_rangeSet_head (Φ := fun t => tokI d L q fie t.val) (lo := 256 + 16 * k.val + 9) (by omega) (by omega),
    Ring.bigSep_rangeSet_head (Φ := fun t => tokI d L q fie t.val) (lo := 256 + 16 * k.val + 10) (by omega) (by omega),
    Ring.bigSep_rangeSet_head (Φ := fun t => tokI d L q fie t.val) (lo := 256 + 16 * k.val + 11) (by omega) (by omega),
    Ring.bigSep_rangeSet_head (Φ := fun t => tokI d L q fie t.val) (lo := 256 + 16 * k.val + 12) (by omega) (by omega),
    Ring.bigSep_rangeSet_head (Φ := fun t => tokI d L q fie t.val) (lo := 256 + 16 * k.val + 13) (by omega) (by omega),
    Ring.bigSep_rangeSet_head (Φ := fun t => tokI d L q fie t.val) (lo := 256 + 16 * k.val + 14) (by omega) (by omega),
    Ring.bigSep_rangeSet_head (Φ := fun t => tokI d L q fie t.val) (lo := 256 + 16 * k.val + 15) (by omega) (by omega),
    show 256 + 16 * k.val + 15 + 1 = 256 + 16 * (k.val + 1) by omega,
    show 16 * k.val + 15 + 1 = 16 * (k.val + 1) by omega]
  rw [EU_t11_0 d L k, EU_t11_1 d L k, EU_t11_2 d L k, EU_t11_3 d L k, EU_t11_4 d L k, EU_t11_5 d L k, EU_t11_6 d L k, EU_t11_7 d L k, EU_t11_8 d L k, EU_t11_9 d L k, EU_t11_10 d L k, EU_t11_11 d L k, EU_t11_12 d L k, EU_t11_13 d L k, EU_t11_14 d L k, EU_t11_15 d L k, EI_t11_0 d L k, EI_t11_1 d L k, EI_t11_2 d L k, EI_t11_3 d L k, EI_t11_4 d L k, EI_t11_5 d L k, EI_t11_6 d L k, EI_t11_7 d L k, EI_t11_8 d L k, EI_t11_9 d L k, EI_t11_10 d L k, EI_t11_11 d L k, EI_t11_12 d L k, EI_t11_13 d L k, EI_t11_14 d L k, EI_t11_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t11_body
  sl_exec (disch := first
      | exact sep_elim_left.trans (deliver d L _ _ _ (by simp only [offU_t11_0, offU_t11_1, offU_t11_2, offU_t11_3, offU_t11_4, offU_t11_5, offU_t11_6, offU_t11_7, offU_t11_8, offU_t11_9, offU_t11_10, offU_t11_11, offU_t11_12, offU_t11_13, offU_t11_14, offU_t11_15, offI_t11_0, offI_t11_1, offI_t11_2, offI_t11_3, offI_t11_4, offI_t11_5, offI_t11_6, offI_t11_7, offI_t11_8, offI_t11_9, offI_t11_10, offI_t11_11, offI_t11_12, offI_t11_13, offI_t11_14, offI_t11_15]; rfl))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega)
      | (intro _ a; fin_cases a
         · show (_ : ℕ) + 1 ≤ 1000000
           exact Nat.succ_le_of_lt (lane0_lt (N := 1000000) _ (pay0_lt fu hfu _ _) _ _ _ _ _ _)
         · show 0 + 64 ≤ 64; omega)
      | (intro _ a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t11 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h3 : k0_cond3 k0_t4 = 1#1) (v114 : BitVec 32) :
    LoopInv (M := 𝕄) frame (wpE (defs₀ (F := F)) 𝒱₀ (thr d L) none) Set.univ k0_t11_loop.lb k0_t11_loop.ub k0_t11_loop.st (k0_t11_ok k0_t4 k0_h3) ()
      (k0_t11_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h3 v114) where
  inv := issueAt_t11 d L q fu fi f0 f1 fue fie
  step := issue_step_t11 d L q fu fi hfu hfi f0 f1 fue fie v3 v7 v11 v15 v19 v23 v24 c1285 k0_t4 k0_h3 v114

end Issue

end Cert.Proof.KB

end
-- ==== Proof.KIssueT12B.lean ====
/-
  One trip of an issue loop at a symbolic trip `k`: the sixteen row copies from each table of that trip are the
  copies number `16 k … 16 k + 15` of the two batches on the half's two semaphores. Each copy's row index is a lane of
  the index scratch, hence a word of the index array, hence (by the precondition) a row of its table; its destination
  is row `16 k + j` of the half, which the batch promised to deliver; it consumes one read token of its table.
-/
import proofs.«214512_g89103391522852_cont_sun_m_1157_25_alg».proof.Proof.KRowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

/-! The destination offsets the program computes, in closed form. -/
theorem offU_t12_0 : ∀ k : Fin k0_t12_loop.trips, k0_off241 k = ![1, 16 * k.val, 0] := by decide +kernel
theorem offU_t12_1 : ∀ k : Fin k0_t12_loop.trips, k0_off245 k = ![1, 16 * k.val + 1, 0] := by decide +kernel
theorem offU_t12_2 : ∀ k : Fin k0_t12_loop.trips, k0_off249 k = ![1, 16 * k.val + 2, 0] := by decide +kernel
theorem offU_t12_3 : ∀ k : Fin k0_t12_loop.trips, k0_off253 k = ![1, 16 * k.val + 3, 0] := by decide +kernel
theorem offU_t12_4 : ∀ k : Fin k0_t12_loop.trips, k0_off257 k = ![1, 16 * k.val + 4, 0] := by decide +kernel
theorem offU_t12_5 : ∀ k : Fin k0_t12_loop.trips, k0_off261 k = ![1, 16 * k.val + 5, 0] := by decide +kernel
theorem offU_t12_6 : ∀ k : Fin k0_t12_loop.trips, k0_off265 k = ![1, 16 * k.val + 6, 0] := by decide +kernel
theorem offU_t12_7 : ∀ k : Fin k0_t12_loop.trips, k0_off269 k = ![1, 16 * k.val + 7, 0] := by decide +kernel
theorem offU_t12_8 : ∀ k : Fin k0_t12_loop.trips, k0_off273 k = ![1, 16 * k.val + 8, 0] := by decide +kernel
theorem offU_t12_9 : ∀ k : Fin k0_t12_loop.trips, k0_off277 k = ![1, 16 * k.val + 9, 0] := by decide +kernel
theorem offU_t12_10 : ∀ k : Fin k0_t12_loop.trips, k0_off281 k = ![1, 16 * k.val + 10, 0] := by decide +kernel
theorem offU_t12_11 : ∀ k : Fin k0_t12_loop.trips, k0_off285 k = ![1, 16 * k.val + 11, 0] := by decide +kernel
theorem offU_t12_12 : ∀ k : Fin k0_t12_loop.trips, k0_off289 k = ![1, 16 * k.val + 12, 0] := by decide +kernel
theorem offU_t12_13 : ∀ k : Fin k0_t12_loop.trips, k0_off293 k = ![1, 16 * k.val + 13, 0] := by decide +kernel
theorem offU_t12_14 : ∀ k : Fin k0_t12_loop.trips, k0_off297 k = ![1, 16 * k.val + 14, 0] := by decide +kernel
theorem offU_t12_15 : ∀ k : Fin k0_t12_loop.trips, k0_off301 k = ![1, 16 * k.val + 15, 0] := by decide +kernel
theorem offI_t12_0 : ∀ k : Fin k0_t12_loop.trips, k0_off243 k 0#32 = ![1, 16 * k.val, 0] := by decide +kernel
theorem offI_t12_1 : ∀ k : Fin k0_t12_loop.trips, k0_off247 k 1#32 = ![1, 16 * k.val + 1, 0] := by decide +kernel
theorem offI_t12_2 : ∀ k : Fin k0_t12_loop.trips, k0_off251 k 2#32 = ![1, 16 * k.val + 2, 0] := by decide +kernel
theorem offI_t12_3 : ∀ k : Fin k0_t12_loop.trips, k0_off255 k 3#32 = ![1, 16 * k.val + 3, 0] := by decide +kernel
theorem offI_t12_4 : ∀ k : Fin k0_t12_loop.trips, k0_off259 k 4#32 = ![1, 16 * k.val + 4, 0] := by decide +kernel
theorem offI_t12_5 : ∀ k : Fin k0_t12_loop.trips, k0_off263 k 5#32 = ![1, 16 * k.val + 5, 0] := by decide +kernel
theorem offI_t12_6 : ∀ k : Fin k0_t12_loop.trips, k0_off267 k 6#32 = ![1, 16 * k.val + 6, 0] := by decide +kernel
theorem offI_t12_7 : ∀ k : Fin k0_t12_loop.trips, k0_off271 k 7#32 = ![1, 16 * k.val + 7, 0] := by decide +kernel
theorem offI_t12_8 : ∀ k : Fin k0_t12_loop.trips, k0_off275 k 8#32 = ![1, 16 * k.val + 8, 0] := by decide +kernel
theorem offI_t12_9 : ∀ k : Fin k0_t12_loop.trips, k0_off279 k 9#32 = ![1, 16 * k.val + 9, 0] := by decide +kernel
theorem offI_t12_10 : ∀ k : Fin k0_t12_loop.trips, k0_off283 k 10#32 = ![1, 16 * k.val + 10, 0] := by decide +kernel
theorem offI_t12_11 : ∀ k : Fin k0_t12_loop.trips, k0_off287 k 11#32 = ![1, 16 * k.val + 11, 0] := by decide +kernel
theorem offI_t12_12 : ∀ k : Fin k0_t12_loop.trips, k0_off291 k 12#32 = ![1, 16 * k.val + 12, 0] := by decide +kernel
theorem offI_t12_13 : ∀ k : Fin k0_t12_loop.trips, k0_off295 k 13#32 = ![1, 16 * k.val + 13, 0] := by decide +kernel
theorem offI_t12_14 : ∀ k : Fin k0_t12_loop.trips, k0_off299 k 14#32 = ![1, 16 * k.val + 14, 0] := by decide +kernel
theorem offI_t12_15 : ∀ k : Fin k0_t12_loop.trips, k0_off303 k = ![1, 16 * k.val + 15, 0] := by decide +kernel

/-! The rows by number are the rows as the program slices them. -/
omit [FloatOps F] in
theorem EU_t12_0 (d : Dev nD) (L : grid0.Coords) (k : Fin k0_t12_loop.trips) (h) :
    ownU (F := F) d L 1 ⟨16 * k.val, h⟩
      = ownAt (F := F) d L (urowS) (k0_off241 k) (inb_of (offU_t12_0 k) (by decide) (by have := k.isLt; have := k0_t12_abs.2.1; omega)) :=
  ownAt_congr d L (offU_t12_0 k).symm _ _
omit [FloatOps F] in
theorem EU_t12_1 (d : Dev nD) (L : grid0.Coords) (k : Fin k0_t12_loop.trips) (h) :
    ownU (F := F) d L 1 ⟨16 * k.val + 1, h⟩
      = ownAt (F := F) d L (urowS) (k0_off245 k) (inb_of (offU_t12_1 k) (by decide) (by have := k.isLt; have := k0_t12_abs.2.1; omega)) :=
  ownAt_congr d L (offU_t12_1 k).symm _ _
omit [FloatOps F] in
theorem EU_t12_2 (d : Dev nD) (L : grid0.Coords) (k : Fin k0_t12_loop.trips) (h) :
    ownU (F := F) d L 1 ⟨16 * k.val + 2, h⟩
      = ownAt (F := F) d L (urowS) (k0_off249 k) (inb_of (offU_t12_2 k) (by decide) (by have := k.isLt; have := k0_t12_abs.2.1; omega)) :=
  ownAt_congr d L (offU_t12_2 k).symm _ _
omit [FloatOps F] in
theorem EU_t12_3 (d : Dev nD) (L : grid0.Coords) (k : Fin k0_t12_loop.trips) (h) :
    ownU (F := F) d L 1 ⟨16 * k.val + 3, h⟩
      = ownAt (F := F) d L (urowS) (k0_off253 k) (inb_of (offU_t12_3 k) (by decide) (by have := k.isLt; have := k0_t12_abs.2.1; omega)) :=
  ownAt_congr d L (offU_t12_3 k).symm _ _
omit [FloatOps F] in
theorem EU_t12_4 (d : Dev nD) (L : grid0.Coords) (k : Fin k0_t12_loop.trips) (h) :
    ownU (F := F) d L 1 ⟨16 * k.val + 4, h⟩
      = ownAt (F := F) d L (urowS) (k0_off257 k) (inb_of (offU_t12_4 k) (by decide) (by have := k.isLt; have := k0_t12_abs.2.1; omega)) :=
  ownAt_congr d L (offU_t12_4 k).symm _ _
omit [FloatOps F] in
theorem EU_t12_5 (d : Dev nD) (L : grid0.Coords) (k : Fin k0_t12_loop.trips) (h) :
    ownU (F := F) d L 1 ⟨16 * k.val + 5, h⟩
      = ownAt (F := F) d L (urowS) (k0_off261 k) (inb_of (offU_t12_5 k) (by decide) (by have := k.isLt; have := k0_t12_abs.2.1; omega)) :=
  ownAt_congr d L (offU_t12_5 k).symm _ _
omit [FloatOps F] in
theorem EU_t12_6 (d : Dev nD) (L : grid0.Coords) (k : Fin k0_t12_loop.trips) (h) :
    ownU (F := F) d L 1 ⟨16 * k.val + 6, h⟩
      = ownAt (F := F) d L (urowS) (k0_off265 k) (inb_of (offU_t12_6 k) (by decide) (by have := k.isLt; have := k0_t12_abs.2.1; omega)) :=
  ownAt_congr d L (offU_t12_6 k).symm _ _
omit [FloatOps F] in
theorem EU_t12_7 (d : Dev nD) (L : grid0.Coords) (k : Fin k0_t12_loop.trips) (h) :
    ownU (F := F) d L 1 ⟨16 * k.val + 7, h⟩
      = ownAt (F := F) d L (urowS) (k0_off269 k) (inb_of (offU_t12_7 k) (by decide) (by have := k.isLt; have := k0_t12_abs.2.1; omega)) :=
  ownAt_congr d L (offU_t12_7 k).symm _ _
omit [FloatOps F] in
theorem EU_t12_8 (d : Dev nD) (L : grid0.Coords) (k : Fin k0_t12_loop.trips) (h) :
    ownU (F := F) d L 1 ⟨16 * k.val + 8, h⟩
      = ownAt (F := F) d L (urowS) (k0_off273 k) (inb_of (offU_t12_8 k) (by decide) (by have := k.isLt; have := k0_t12_abs.2.1; omega)) :=
  ownAt_congr d L (offU_t12_8 k).symm _ _
omit [FloatOps F] in
theorem EU_t12_9 (d : Dev nD) (L : grid0.Coords) (k : Fin k0_t12_loop.trips) (h) :
    ownU (F := F) d L 1 ⟨16 * k.val + 9, h⟩
      = ownAt (F := F) d L (urowS) (k0_off277 k) (inb_of (offU_t12_9 k) (by decide) (by have := k.isLt; have := k0_t12_abs.2.1; omega)) :=
  ownAt_congr d L (offU_t12_9 k).symm _ _
omit [FloatOps F] in
theorem EU_t12_10 (d : Dev nD) (L : grid0.Coords) (k : Fin k0_t12_loop.trips) (h) :
    ownU (F := F) d L 1 ⟨16 * k.val + 10, h⟩
      = ownAt (F := F) d L (urowS) (k0_off281 k) (inb_of (offU_t12_10 k) (by decide) (by have := k.isLt; have := k0_t12_abs.2.1; omega)) :=
  ownAt_congr d L (offU_t12_10 k).symm _ _
omit [FloatOps F] in
theorem EU_t12_11 (d : Dev nD) (L : grid0.Coords) (k : Fin k0_t12_loop.trips) (h) :
    ownU (F := F) d L 1 ⟨16 * k.val + 11, h⟩
      = ownAt (F := F) d L (urowS) (k0_off285 k) (inb_of (offU_t12_11 k) (by decide) (by have := k.isLt; have := k0_t12_abs.2.1; omega)) :=
  ownAt_congr d L (offU_t12_11 k).symm _ _
omit [FloatOps F] in
theorem EU_t12_12 (d : Dev nD) (L : grid0.Coords) (k : Fin k0_t12_loop.trips) (h) :
    ownU (F := F) d L 1 ⟨16 * k.val + 12, h⟩
      = ownAt (F := F) d L (urowS) (k0_off289 k) (inb_of (offU_t12_12 k) (by decide) (by have := k.isLt; have := k0_t12_abs.2.1; omega)) :=
  ownAt_congr d L (offU_t12_12 k).symm _ _
omit [FloatOps F] in
theorem EU_t12_13 (d : Dev nD) (L : grid0.Coords) (k : Fin k0_t12_loop.trips) (h) :
    ownU (F := F) d L 1 ⟨16 * k.val + 13, h⟩
      = ownAt (F := F) d L (urowS) (k0_off293 k) (inb_of (offU_t12_13 k) (by decide) (by have := k.isLt; have := k0_t12_abs.2.1; omega)) :=
  ownAt_congr d L (offU_t12_13 k).symm _ _
omit [FloatOps F] in
theorem EU_t12_14 (d : Dev nD) (L : grid0.Coords) (k : Fin k0_t12_loop.trips) (h) :
    ownU (F := F) d L 1 ⟨16 * k.val + 14, h⟩
      = ownAt (F := F) d L (urowS) (k0_off297 k) (inb_of (offU_t12_14 k) (by decide) (by have := k.isLt; have := k0_t12_abs.2.1; omega)) :=
  ownAt_congr d L (offU_t12_14 k).symm _ _
omit [FloatOps F] in
theorem EU_t12_15 (d : Dev nD) (L : grid0.Coords) (k : Fin k0_t12_loop.trips) (h) :
    ownU (F := F) d L 1 ⟨16 * k.val + 15, h⟩
      = ownAt (F := F) d L (urowS) (k0_off301 k) (inb_of (offU_t12_15 k) (by decide) (by have := k.isLt; have := k0_t12_abs.2.1; omega)) :=
  ownAt_congr d L (offU_t12_15 k).symm _ _
omit [FloatOps F] in
theorem EI_t12_0 (d : Dev nD) (L : grid0.Coords) (k : Fin k0_t12_loop.trips) (h) :
    ownI (F := F) d L 1 ⟨16 * k.val, h⟩
      = ownAt (F := F) d L (irowS) (k0_off243 k 0#32) (inb_of (offI_t12_0 k) (by decide) (by have := k.isLt; have := k0_t12_abs.2.1; omega)) :=
  ownAt_congr d L (offI_t12_0 k).symm _ _
omit [FloatOps F] in
theorem EI_t12_1 (d : Dev nD) (L : grid0.Coords) (k : Fin k0_t12_loop.trips) (h) :
    ownI (F := F) d L 1 ⟨16 * k.val + 1, h⟩
      = ownAt (F := F) d L (irowS) (k0_off247 k 1#32) (inb_of (offI_t12_1 k) (by decide) (by have := k.isLt; have := k0_t12_abs.2.1; omega)) :=
  ownAt_congr d L (offI_t12_1 k).symm _ _
omit [FloatOps F] in
theorem EI_t12_2 (d : Dev nD) (L : grid0.Coords) (k : Fin k0_t12_loop.trips) (h) :
    ownI (F := F) d L 1 ⟨16 * k.val + 2, h⟩
      = ownAt (F := F) d L (irowS) (k0_off251 k 2#32) (inb_of (offI_t12_2 k) (by decide) (by have := k.isLt; have := k0_t12_abs.2.1; omega)) :=
  ownAt_congr d L (offI_t12_2 k).symm _ _
omit [FloatOps F] in
theorem EI_t12_3 (d : Dev nD) (L : grid0.Coords) (k : Fin k0_t12_loop.trips) (h) :
    ownI (F := F) d L 1 ⟨16 * k.val + 3, h⟩
      = ownAt (F := F) d L (irowS) (k0_off255 k 3#32) (inb_of (offI_t12_3 k) (by decide) (by have := k.isLt; have := k0_t12_abs.2.1; omega)) :=
  ownAt_congr d L (offI_t12_3 k).symm _ _
omit [FloatOps F] in
theorem EI_t12_4 (d : Dev nD) (L : grid0.Coords) (k : Fin k0_t12_loop.trips) (h) :
    ownI (F := F) d L 1 ⟨16 * k.val + 4, h⟩
      = ownAt (F := F) d L (irowS) (k0_off259 k 4#32) (inb_of (offI_t12_4 k) (by decide) (by have := k.isLt; have := k0_t12_abs.2.1; omega)) :=
  ownAt_congr d L (offI_t12_4 k).symm _ _
omit [FloatOps F] in
theorem EI_t12_5 (d : Dev nD) (L : grid0.Coords) (k : Fin k0_t12_loop.trips) (h) :
    ownI (F := F) d L 1 ⟨16 * k.val + 5, h⟩
      = ownAt (F := F) d L (irowS) (k0_off263 k 5#32) (inb_of (offI_t12_5 k) (by decide) (by have := k.isLt; have := k0_t12_abs.2.1; omega)) :=
  ownAt_congr d L (offI_t12_5 k).symm _ _
omit [FloatOps F] in
theorem EI_t12_6 (d : Dev nD) (L : grid0.Coords) (k : Fin k0_t12_loop.trips) (h) :
    ownI (F := F) d L 1 ⟨16 * k.val + 6, h⟩
      = ownAt (F := F) d L (irowS) (k0_off267 k 6#32) (inb_of (offI_t12_6 k) (by decide) (by have := k.isLt; have := k0_t12_abs.2.1; omega)) :=
  ownAt_congr d L (offI_t12_6 k).symm _ _
omit [FloatOps F] in
theorem EI_t12_7 (d : Dev nD) (L : grid0.Coords) (k : Fin k0_t12_loop.trips) (h) :
    ownI (F := F) d L 1 ⟨16 * k.val + 7, h⟩
      = ownAt (F := F) d L (irowS) (k0_off271 k 7#32) (inb_of (offI_t12_7 k) (by decide) (by have := k.isLt; have := k0_t12_abs.2.1; omega)) :=
  ownAt_congr d L (offI_t12_7 k).symm _ _
omit [FloatOps F] in
theorem EI_t12_8 (d : Dev nD) (L : grid0.Coords) (k : Fin k0_t12_loop.trips) (h) :
    ownI (F := F) d L 1 ⟨16 * k.val + 8, h⟩
      = ownAt (F := F) d L (irowS) (k0_off275 k 8#32) (inb_of (offI_t12_8 k) (by decide) (by have := k.isLt; have := k0_t12_abs.2.1; omega)) :=
  ownAt_congr d L (offI_t12_8 k).symm _ _
omit [FloatOps F] in
theorem EI_t12_9 (d : Dev nD) (L : grid0.Coords) (k : Fin k0_t12_loop.trips) (h) :
    ownI (F := F) d L 1 ⟨16 * k.val + 9, h⟩
      = ownAt (F := F) d L (irowS) (k0_off279 k 9#32) (inb_of (offI_t12_9 k) (by decide) (by have := k.isLt; have := k0_t12_abs.2.1; omega)) :=
  ownAt_congr d L (offI_t12_9 k).symm _ _
omit [FloatOps F] in
theorem EI_t12_10 (d : Dev nD) (L : grid0.Coords) (k : Fin k0_t12_loop.trips) (h) :
    ownI (F := F) d L 1 ⟨16 * k.val + 10, h⟩
      = ownAt (F := F) d L (irowS) (k0_off283 k 10#32) (inb_of (offI_t12_10 k) (by decide) (by have := k.isLt; have := k0_t12_abs.2.1; omega)) :=
  ownAt_congr d L (offI_t12_10 k).symm _ _
omit [FloatOps F] in
theorem EI_t12_11 (d : Dev nD) (L : grid0.Coords) (k : Fin k0_t12_loop.trips) (h) :
    ownI (F := F) d L 1 ⟨16 * k.val + 11, h⟩
      = ownAt (F := F) d L (irowS) (k0_off287 k 11#32) (inb_of (offI_t12_11 k) (by decide) (by have := k.isLt; have := k0_t12_abs.2.1; omega)) :=
  ownAt_congr d L (offI_t12_11 k).symm _ _
omit [FloatOps F] in
theorem EI_t12_12 (d : Dev nD) (L : grid0.Coords) (k : Fin k0_t12_loop.trips) (h) :
    ownI (F := F) d L 1 ⟨16 * k.val + 12, h⟩
      = ownAt (F := F) d L (irowS) (k0_off291 k 12#32) (inb_of (offI_t12_12 k) (by decide) (by have := k.isLt; have := k0_t12_abs.2.1; omega)) :=
  ownAt_congr d L (offI_t12_12 k).symm _ _
omit [FloatOps F] in
theorem EI_t12_13 (d : Dev nD) (L : grid0.Coords) (k : Fin k0_t12_loop.trips) (h) :
    ownI (F := F) d L 1 ⟨16 * k.val + 13, h⟩
      = ownAt (F := F) d L (irowS) (k0_off295 k 13#32) (inb_of (offI_t12_13 k) (by decide) (by have := k.isLt; have := k0_t12_abs.2.1; omega)) :=
  ownAt_congr d L (offI_t12_13 k).symm _ _
omit [FloatOps F] in
theorem EI_t12_14 (d : Dev nD) (L : grid0.Coords) (k : Fin k0_t12_loop.trips) (h) :
    ownI (F := F) d L 1 ⟨16 * k.val + 14, h⟩
      = ownAt (F := F) d L (irowS) (k0_off299 k 14#32) (inb_of (offI_t12_14 k) (by decide) (by have := k.isLt; have := k0_t12_abs.2.1; omega)) :=
  ownAt_congr d L (offI_t12_14 k).symm _ _
omit [FloatOps F] in
theorem EI_t12_15 (d : Dev nD) (L : grid0.Coords) (k : Fin k0_t12_loop.trips) (h) :
    ownI (F := F) d L 1 ⟨16 * k.val + 15, h⟩
      = ownAt (F := F) d L (irowS) (k0_off303 k) (inb_of (offI_t12_15 k) (by decide) (by have := k.isLt; have := k0_t12_abs.2.1; omega)) :=
  ownAt_congr d L (offI_t12_15 k).symm _ _

section Issue

variable (d : Dev nD) (L : grid0.Coords)

/-- Before trip `k`: `16 k` copies of each table issued, nothing consumed; the rows and read tokens from there on in hand;
    the two index scratches as filled. -/
def issueAt_t12 (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchU d L 1 (SemLoc.dma cc0_scratch8.sem) (16 * k) 0 ∗ batchI d L 1 (SemLoc.dma cc0_scratch10.sem) (16 * k) 0
    ∗ bigSep (Ring.rangeSet 128 (16 * k) 128) (ownU d L 1) ∗ bigSep (Ring.rangeSet 128 (16 * k) 128) (ownI d L 1)
    ∗ bigSep (Ring.rangeSet 512 (384 + 16 * k) 512) (fun t => tokU d L q fue t.val) ∗ bigSep (Ring.rangeSet 512 (384 + 16 * k) 512) (fun t => tokI d L q fie t.val)
    ∗ idxU d L fu f0 ∗ idxI d L fi f1)

set_option maxHeartbeats 4000000 in
theorem issue_step_t12 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h4 : k0_cond4 k0_t4 = 1#1) (v114 : BitVec 32)
    (k : Fin k0_t12_loop.trips) (acc : Unit) :
    issueAt_t12 d L q fu fi f0 f1 fue fie k acc
      ⊢ wp frame (wpE (defs₀ (F := F)) 𝒱₀ (thr d L) none) Set.univ
          (k0_t12_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h4 v114 k acc)
          (issueAt_t12 d L q fu fi f0 f1 fue fie (k.val + 1)) := by
  have hk := k.isLt; have h8 := k0_t12_abs.2.1
  unfold issueAt_t12
  rw [Ring.bigSep_rangeSet_head (Φ := ownU d L 1) (lo := 16 * k.val) (by omega) (by omega),
    Ring.bigSep_rangeSet_head (Φ := ownU d L 1) (lo := 16 * k.val + 1) (by omega) (by omega),
    Ring.bigSep_rangeSet_head (Φ := ownU d L 1) (lo := 16 * k.val + 2) (by omega) (by omega),
    Ring.bigSep_rangeSet_head (Φ := ownU d L 1) (lo := 16 * k.val + 3) (by omega) (by omega),
    Ring.bigSep_rangeSet_head (Φ := ownU d L 1) (lo := 16 * k.val + 4) (by omega) (by omega),
    Ring.bigSep_rangeSet_head (Φ := ownU d L 1) (lo := 16 * k.val + 5) (by omega) (by omega),
    Ring.bigSep_rangeSet_head (Φ := ownU d L 1) (lo := 16 * k.val + 6) (by omega) (by omega),
    Ring.bigSep_rangeSet_head (Φ := ownU d L 1) (lo := 16 * k.val + 7) (by omega) (by omega),
    Ring.bigSep_rangeSet_head (Φ := ownU d L 1) (lo := 16 * k.val + 8) (by omega) (by omega),
    Ring.bigSep_rangeSet_head (Φ := ownU d L 1) (lo := 16 * k.val + 9) (by omega) (by omega),
    Ring.bigSep_rangeSet_head (Φ := ownU d L 1) (lo := 16 * k.val + 10) (by omega) (by omega),
    Ring.bigSep_rangeSet_head (Φ := ownU d L 1) (lo := 16 * k.val + 11) (by omega) (by omega),
    Ring.bigSep_rangeSet_head (Φ := ownU d L 1) (lo := 16 * k.val + 12) (by omega) (by omega),
    Ring.bigSep_rangeSet_head (Φ := ownU d L 1) (lo := 16 * k.val + 13) (by omega) (by omega),
    Ring.bigSep_rangeSet_head (Φ := ownU d L 1) (lo := 16 * k.val + 14) (by omega) (by omega),
    Ring.bigSep_rangeSet_head (Φ := ownU d L 1) (lo := 16 * k.val + 15) (by omega) (by omega),
    Ring.bigSep_rangeSet_head (Φ := ownI d L 1) (lo := 16 * k.val) (by omega) (by omega),
    Ring.bigSep_rangeSet_head (Φ := ownI d L 1) (lo := 16 * k.val + 1) (by omega) (by omega),
    Ring.bigSep_rangeSet_head (Φ := ownI d L 1) (lo := 16 * k.val + 2) (by omega) (by omega),
    Ring.bigSep_rangeSet_head (Φ := ownI d L 1) (lo := 16 * k.val + 3) (by omega) (by omega),
    Ring.bigSep_rangeSet_head (Φ := ownI d L 1) (lo := 16 * k.val + 4) (by omega) (by omega),
    Ring.bigSep_rangeSet_head (Φ := ownI d L 1) (lo := 16 * k.val + 5) (by omega) (by omega),
    Ring.bigSep_rangeSet_head (Φ := ownI d L 1) (lo := 16 * k.val + 6) (by omega) (by omega),
    Ring.bigSep_rangeSet_head (Φ := ownI d L 1) (lo := 16 * k.val + 7) (by omega) (by omega),
    Ring.bigSep_rangeSet_head (Φ := ownI d L 1) (lo := 16 * k.val + 8) (by omega) (by omega),
    Ring.bigSep_rangeSet_head (Φ := ownI d L 1) (lo := 16 * k.val + 9) (by omega) (by omega),
    Ring.bigSep_rangeSet_head (Φ := ownI d L 1) (lo := 16 * k.val + 10) (by omega) (by omega),
    Ring.bigSep_rangeSet_head (Φ := ownI d L 1) (lo := 16 * k.val + 11) (by omega) (by omega),
    Ring.bigSep_rangeSet_head (Φ := ownI d L 1) (lo := 16 * k.val + 12) (by omega) (by omega),
    Ring.bigSep_rangeSet_head (Φ := ownI d L 1) (lo := 16 * k.val + 13) (by omega) (by omega),
    Ring.bigSep_rangeSet_head (Φ := ownI d L 1) (lo := 16 * k.val + 14) (by omega) (by omega),
    Ring.bigSep_rangeSet_head (Φ := ownI d L 1) (lo := 16 * k.val + 15) (by omega) (by omega),
    Ring.bigSep_rangeSet_head (Φ := fun t => tokU d L q fue t.val) (lo := 384 + 16 * k.val) (by omega) (by omega),
    Ring.bigSep_rangeSet_head (Φ := fun t => tokU d L q fue t.val) (lo := 384 + 16 * k.val + 1) (by omega) (by omega),
    Ring.bigSep_rangeSet_head (Φ := fun t => tokU d L q fue t.val) (lo := 384 + 16 * k.val + 2) (by omega) (by omega),
    Ring.bigSep_rangeSet_head (Φ := fun t => tokU d L q fue t.val) (lo := 384 + 16 * k.val + 3) (by omega) (by omega),
    Ring.bigSep_rangeSet_head (Φ := fun t => tokU d L q fue t.val) (lo := 384 + 16 * k.val + 4) (by omega) (by omega),
    Ring.bigSep_rangeSet_head (Φ := fun t => tokU d L q fue t.val) (lo := 384 + 16 * k.val + 5) (by omega) (by omega),
    Ring.bigSep_rangeSet_head (Φ := fun t => tokU d L q fue t.val) (lo := 384 + 16 * k.val + 6) (by omega) (by omega),
    Ring.bigSep_rangeSet_head (Φ := fun t => tokU d L q fue t.val) (lo := 384 + 16 * k.val + 7) (by omega) (by omega),
    Ring.bigSep_rangeSet_head (Φ := fun t => tokU d L q fue t.val) (lo := 384 + 16 * k.val + 8) (by omega) (by omega),
    Ring.bigSep_rangeSet_head (Φ := fun t => tokU d L q fue t.val) (lo := 384 + 16 * k.val + 9) (by omega) (by omega),
    Ring.bigSep_rangeSet_head (Φ := fun t => tokU d L q fue t.val) (lo := 384 + 16 * k.val + 10) (by omega) (by omega),
    Ring.bigSep_rangeSet_head (Φ := fun t => tokU d L q fue t.val) (lo := 384 + 16 * k.val + 11) (by omega) (by omega),
    Ring.bigSep_rangeSet_head (Φ := fun t => tokU d L q fue t.val) (lo := 384 + 16 * k.val + 12) (by omega) (by omega),
    Ring.bigSep_rangeSet_head (Φ := fun t => tokU d L q fue t.val) (lo := 384 + 16 * k.val + 13) (by omega) (by omega),
    Ring.bigSep_rangeSet_head (Φ := fun t => tokU d L q fue t.val) (lo := 384 + 16 * k.val + 14) (by omega) (by omega),
    Ring.bigSep_rangeSet_head (Φ := fun t => tokU d L q fue t.val) (lo := 384 + 16 * k.val + 15) (by omega) (by omega),
    Ring.bigSep_rangeSet_head (Φ := fun t => tokI d L q fie t.val) (lo := 384 + 16 * k.val) (by omega) (by omega),
    Ring.bigSep_rangeSet_head (Φ := fun t => tokI d L q fie t.val) (lo := 384 + 16 * k.val + 1) (by omega) (by omega),
    Ring.bigSep_rangeSet_head (Φ := fun t => tokI d L q fie t.val) (lo := 384 + 16 * k.val + 2) (by omega) (by omega),
    Ring.bigSep_rangeSet_head (Φ := fun t => tokI d L q fie t.val) (lo := 384 + 16 * k.val + 3) (by omega) (by omega),
    Ring.bigSep_rangeSet_head (Φ := fun t => tokI d L q fie t.val) (lo := 384 + 16 * k.val + 4) (by omega) (by omega),
    Ring.bigSep_rangeSet_head (Φ := fun t => tokI d L q fie t.val) (lo := 384 + 16 * k.val + 5) (by omega) (by omega),
    Ring.bigSep_rangeSet_head (Φ := fun t => tokI d L q fie t.val) (lo := 384 + 16 * k.val + 6) (by omega) (by omega),
    Ring.bigSep_rangeSet_head (Φ := fun t => tokI d L q fie t.val) (lo := 384 + 16 * k.val + 7) (by omega) (by omega),
    Ring.bigSep_rangeSet_head (Φ := fun t => tokI d L q fie t.val) (lo := 384 + 16 * k.val + 8) (by omega) (by omega),
    Ring.bigSep_rangeSet_head (Φ := fun t => tokI d L q fie t.val) (lo := 384 + 16 * k.val + 9) (by omega) (by omega),
    Ring.bigSep_rangeSet_head (Φ := fun t => tokI d L q fie t.val) (lo := 384 + 16 * k.val + 10) (by omega) (by omega),
    Ring.bigSep_rangeSet_head (Φ := fun t => tokI d L q fie t.val) (lo := 384 + 16 * k.val + 11) (by omega) (by omega),
    Ring.bigSep_rangeSet_head (Φ := fun t => tokI d L q fie t.val) (lo := 384 + 16 * k.val + 12) (by omega) (by omega),
    Ring.bigSep_rangeSet_head (Φ := fun t => tokI d L q fie t.val) (lo := 384 + 16 * k.val + 13) (by omega) (by omega),
    Ring.bigSep_rangeSet_head (Φ := fun t => tokI d L q fie t.val) (lo := 384 + 16 * k.val + 14) (by omega) (by omega),
    Ring.bigSep_rangeSet_head (Φ := fun t => tokI d L q fie t.val) (lo := 384 + 16 * k.val + 15) (by omega) (by omega),
    show 384 + 16 * k.val + 15 + 1 = 384 + 16 * (k.val + 1) by omega,
    show 16 * k.val + 15 + 1 = 16 * (k.val + 1) by omega]
  rw [EU_t12_0 d L k, EU_t12_1 d L k, EU_t12_2 d L k, EU_t12_3 d L k, EU_t12_4 d L k, EU_t12_5 d L k, EU_t12_6 d L k, EU_t12_7 d L k, EU_t12_8 d L k, EU_t12_9 d L k, EU_t12_10 d L k, EU_t12_11 d L k, EU_t12_12 d L k, EU_t12_13 d L k, EU_t12_14 d L k, EU_t12_15 d L k, EI_t12_0 d L k, EI_t12_1 d L k, EI_t12_2 d L k, EI_t12_3 d L k, EI_t12_4 d L k, EI_t12_5 d L k, EI_t12_6 d L k, EI_t12_7 d L k, EI_t12_8 d L k, EI_t12_9 d L k, EI_t12_10 d L k, EI_t12_11 d L k, EI_t12_12 d L k, EI_t12_13 d L k, EI_t12_14 d L k, EI_t12_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t12_body
  sl_exec (disch := first
      | exact sep_elim_left.trans (deliver d L _ _ _ (by simp only [offU_t12_0, offU_t12_1, offU_t12_2, offU_t12_3, offU_t12_4, offU_t12_5, offU_t12_6, offU_t12_7, offU_t12_8, offU_t12_9, offU_t12_10, offU_t12_11, offU_t12_12, offU_t12_13, offU_t12_14, offU_t12_15, offI_t12_0, offI_t12_1, offI_t12_2, offI_t12_3, offI_t12_4, offI_t12_5, offI_t12_6, offI_t12_7, offI_t12_8, offI_t12_9, offI_t12_10, offI_t12_11, offI_t12_12, offI_t12_13, offI_t12_14, offI_t12_15]; rfl))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega)
      | (intro _ a; fin_cases a
         · show (_ : ℕ) + 1 ≤ 1000000
           exact Nat.succ_le_of_lt (lane0_lt (N := 1000000) _ (pay0_lt fu hfu _ _) _ _ _ _ _ _)
         · show 0 + 64 ≤ 64; omega)
      | (intro _ a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t12 [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h4 : k0_cond4 k0_t4 = 1#1) (v114 : BitVec 32) :
    LoopInv (M := 𝕄) frame (wpE (defs₀ (F := F)) 𝒱₀ (thr d L) none) Set.univ k0_t12_loop.lb k0_t12_loop.ub k0_t12_loop.st (k0_t12_ok k0_t4 k0_h4) ()
      (k0_t12_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h4 v114) where
  inv := issueAt_t12 d L q fu fi f0 f1 fue fie
  step := issue_step_t12 d L q fu fi hfu hfi f0 f1 fue fie v3 v7 v11 v15 v19 v23 v24 c1285 k0_t4 k0_h4 v114

end Issue

end Cert.Proof.KB

end
-- ==== Proof.KBodyB.lean ====
/-
  The tile's task, once, at symbolic coordinates.

  The tile copies its 512 words of each index array and the packed parameters into its scratch, initialises the ten
  accumulator rows with the first layer's bias, issues the row copies of chunks 0 and 1 (one batch per table and half),
  and then, chunk by chunk: waits for the half's two batches (the last wait of each hands every row back), reads the
  half as one buffer through the two first-layer loops, and — while two more chunks remain — allocates the half's two
  batches afresh and issues the chunk after next into it. Which half is in flight before which chunk is the loop's
  invariant, by cases on the chunk. The second layer then runs over the accumulators and the 512 results are copied
  out to the tile's own entries of the result. Every copy's row index is a word of an index array, so names a row of
  its table by the precondition; every wait is on a cell of the tile's own, below everything the tile owes the launch.
-/
import proofs.«214512_g89103391522852_cont_sun_m_1157_25_alg».proof.Proof.KOwnB
import proofs.«214512_g89103391522852_cont_sun_m_1157_25_alg».proof.Proof.KBodyPreB
import proofs.«214512_g89103391522852_cont_sun_m_1157_25_alg».proof.Proof.KLoopsB
import proofs.«214512_g89103391522852_cont_sun_m_1157_25_alg».proof.Proof.KHalfB
import proofs.«214512_g89103391522852_cont_sun_m_1157_25_alg».proof.Proof.KDrainB
import proofs.«214512_g89103391522852_cont_sun_m_1157_25_alg».proof.Proof.KIssueT2B
import proofs.«214512_g89103391522852_cont_sun_m_1157_25_alg».proof.Proof.KIssueT3B
import proofs.«214512_g89103391522852_cont_sun_m_1157_25_alg».proof.Proof.KIssueT11B
import proofs.«214512_g89103391522852_cont_sun_m_1157_25_alg».proof.Proof.KIssueT12B

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.Kernel.main_arg0_scv : Memref Cert.Kernel.sig Kind.scVector Space.hbm Cert.Kernel.S16384 EltTy.i32)
local notation "itemW" => (Memref.whole Cert.Kernel.main_arg1_scv : Memref Cert.Kernel.sig Kind.scVector Space.hbm Cert.Kernel.S16384 EltTy.i32)
local notation "uembW" => (Memref.whole Cert.Kernel.main_arg2_scv : Memref Cert.Kernel.sig Kind.scVector Space.hbm Cert.Kernel.S1000000x64 EltTy.f32)
local notation "iembW" => (Memref.whole Cert.Kernel.main_arg3_scv : Memref Cert.Kernel.sig Kind.scVector Space.hbm Cert.Kernel.S100000x64 EltTy.f32)
local notation "parW" => (Memref.whole Cert.Kernel.main_v3_scv : Memref Cert.Kernel.sig Kind.scVector Space.hbm Cert.Kernel.S1312 EltTy.f32)
local notation "outW" => (Memref.whole Cert.Kernel.main_v4_scv : Memref Cert.Kernel.sig Kind.scVector Space.hbm Cert.Kernel.S16384 EltTy.f32)
local notation "uidxS" => (Memref.whole Cert.Kernel.cc0_scratch0 : Memref Cert.Kernel.sig Kind.scVector Space.vmem Cert.Kernel.S512 EltTy.i32)
local notation "iidxS" => (Memref.whole Cert.Kernel.cc0_scratch1 : Memref Cert.Kernel.sig Kind.scVector Space.vmem Cert.Kernel.S512 EltTy.i32)
local notation "urowS" => (Memref.whole Cert.Kernel.cc0_scratch2 : Memref Cert.Kernel.sig Kind.scVector Space.vmem Cert.Kernel.S2x128x64 EltTy.f32)
local notation "irowS" => (Memref.whole Cert.Kernel.cc0_scratch3 : Memref Cert.Kernel.sig Kind.scVector Space.vmem Cert.Kernel.S2x128x64 EltTy.f32)
local notation "parS" => (Memref.whole Cert.Kernel.cc0_scratch4 : Memref Cert.Kernel.sig Kind.scVector Space.vmem Cert.Kernel.S1312 EltTy.f32)
local notation "accS" => (Memref.whole Cert.Kernel.cc0_scratch5 : Memref Cert.Kernel.sig Kind.scVector Space.vmem Cert.Kernel.S10x512 EltTy.f32)
local notation "outS" => (Memref.whole Cert.Kernel.cc0_scratch6 : Memref Cert.Kernel.sig Kind.scVector Space.vmem Cert.Kernel.S512 EltTy.f32)

section Tile

variable (d : Dev nD) (L : grid0.Coords)

/-- Half `b` at rest: its two cells at zero in hand and its rows of both scratches owned. -/
abbrev idleHalf (b : Fin 2) (su si : SemLoc sig) : sProp 𝕄 :=
  iprop(semVal (thr d L, su) 0 ∗ semVal (thr d L, si) 0 ∗ bigSep Finset.univ (ownU (F := F) d L b) ∗ bigSep Finset.univ (ownI (F := F) d L b))

/-- Before chunk `c` is consumed: half 0 is in flight (its 128 + 128 copies all issued, none waited for) while a chunk of
    its parity is still to come, that is before chunks 0, 1, 2, and at rest afterwards; half 1 likewise before chunks
    0 … 3; the read tokens of chunks 2 and 3 are in hand until those chunks are issued (in trips 0 and 1). -/
def chunkAt (O : CellTallies nD τ sig (HIx 1)) (W : Waits sig (HIx 1)) (q : PosShare TreeShare) (fu fi : S16384.Idx → BitVec 32)
    (f0 : (uidxS).view.ty.Contents (Elt F)) (f1 : (iidxS).view.ty.Contents (Elt F))
    (fue : S1000000x64.Idx → Elt F .f32) (fie : S100000x64.Idx → Elt F .f32) (c : ℕ) (_ : Unit) : sProp 𝕄 :=
  iprop(Transfers.MayWaits (thr d L) (none : HIx 1) O
    ∗ (∃ W', ⌜∀ p ∈ W', p ∈ W ∨ p.2 = none⌝ ∗ owes (thr d L) O W')
    ∗ idxU d L fu f0 ∗ idxI d L fi f1
    ∗ (∃ f, (parS).view.loc (thr d L) ↦{fullShare} f) ∗ (∃ f, (accS).view.loc (thr d L) ↦{fullShare} f)
    ∗ (if c ≤ 2 then iprop(batchU d L 0 (SemLoc.dma cc0_scratch7.sem) 128 0 ∗ batchI d L 0 (SemLoc.dma cc0_scratch9.sem) 128 0) else idleHalf (F := F) d L 0 (SemLoc.dma cc0_scratch7.sem) (SemLoc.dma cc0_scratch9.sem))
    ∗ (if c ≤ 3 then iprop(batchU d L 1 (SemLoc.dma cc0_scratch8.sem) 128 0 ∗ batchI d L 1 (SemLoc.dma cc0_scratch10.sem) 128 0) else idleHalf (F := F) d L 1 (SemLoc.dma cc0_scratch8.sem) (SemLoc.dma cc0_scratch10.sem))
    ∗ (if c = 0 then iprop(bigSep (Ring.rangeSet 512 256 384) (fun t => tokU d L q fue t.val) ∗ bigSep (Ring.rangeSet 512 256 384) (fun t => tokI d L q fie t.val)) else iprop(emp))
    ∗ (if c ≤ 1 then iprop(bigSep (Ring.rangeSet 512 384 512) (fun t => tokU d L q fue t.val) ∗ bigSep (Ring.rangeSet 512 384 512) (fun t => tokI d L q fie t.val)) else iprop(emp)))

/-- What the tile's task starts from, buffer by buffer: the tile's read shares, its entries of the result, its own scratch
    and cells (`tileOwn`), what is left of its scoped storage (untouched), and its debts. -/
def tilePre (O : CellTallies nD τ sig (HIx 1)) (W : Waits sig (HIx 1)) (q : PosShare TreeShare)
    (fu fi : S16384.Idx → BitVec 32) (fue : S1000000x64.Idx → Elt F .f32) (fie : S100000x64.Idx → Elt F .f32) : sProp 𝕄 :=
  iprop(Transfers.MayWaits (thr d L) (none : HIx 1) O
    ∗ ((userW).view.loc (thr d L) ↦{q} fu) ∗ ((itemW).view.loc (thr d L) ↦{q} fi)
    ∗ ((uembW).view.loc (thr d L) ↦{q} fue) ∗ ((iembW).view.loc (thr d L) ↦{q} fie) ∗ (∃ fp, (parW).view.loc (thr d L) ↦{q} fp)
    ∗ (∃ fo, (outSl L).view.loc (thr d L) ↦[(outSl L).view.set]{fullShare} fo)
    ∗ tileOwn (F := F) d L ∗ tileRestOwn (F := F) d L ∗ owes (thr d L) O W)

/-- What it ends with. -/
def tilePost (O : CellTallies nD τ sig (HIx 1)) (W : Waits sig (HIx 1)) : sProp 𝕄 :=
  iprop((∃ fo, (outSl L).view.loc (thr d L) ↦[(outSl L).view.set]{fullShare} fo)
    ∗ tileOwn (F := F) d L ∗ tileRestOwn (F := F) d L ∗ ∃ W', ⌜∀ p ∈ W', p ∈ W ∨ p.2 = none⌝ ∗ owes (thr d L) O W')

set_option maxHeartbeats 8000000 in
theorem tile_run [∀ e, Nonempty (Elt F e)] (O : CellTallies nD τ sig (HIx 1)) (W : Waits sig (HIx 1)) (q : PosShare TreeShare)
    (fu fi : S16384.Idx → BitVec 32) (hfu : ∀ b, (fu b).toNat < 1000000) (hfi : ∀ b, (fi b).toNat < 100000)
    (fue : S1000000x64.Idx → Elt F .f32) (fie : S100000x64.Idx → Elt F .f32) :
    tilePre d L O W q fu fi fue fie
      ⊢ wp frame (wpE (defs₀ (F := F)) 𝒱₀ (thr d L) none) Set.univ
          (cc0__fwd L userW (Memref.isWhole_whole _) itemW (Memref.isWhole_whole _) uembW (Memref.isWhole_whole _) iembW (Memref.isWhole_whole _) parW (Memref.isWhole_whole _) outW (Memref.isWhole_whole _)
            uidxS (Memref.isWhole_whole _) iidxS (Memref.isWhole_whole _) urowS (Memref.isWhole_whole _) irowS (Memref.isWhole_whole _) parS (Memref.isWhole_whole _) accS (Memref.isWhole_whole _) outS (Memref.isWhole_whole _)
            cc0_scratch7 cc0_scratch8 cc0_scratch9 cc0_scratch10 cc0_scoped0 cc0_scoped1 cc0_scoped2 cc0_scoped3)
          fun _ => tilePost (F := F) d L O W := by
  simp only [cc0__fwd_eq_skeleton]; unfold cc0__fwd_skel
  unfold tilePre tileOwn
  iintro ⟨Hmw, Hu, Hi, Hue, Hie, ⟨%fp, Hp⟩, ⟨%fo, Ho⟩, ⟨⟨%f0, H0⟩, ⟨%f1, H1⟩, ⟨%f2, H2⟩, ⟨%f3, H3⟩, ⟨%f4, H4⟩, ⟨%f5, H5⟩, ⟨%f6, H6⟩,
    Hs7, Hs8, Hs9, Hs10, Hc0, Hc1, Hc2, Hc3⟩, Hrest, HO⟩
  ihave HRU := (urowS_to_rows (F := F) d L f2) $$ H2
  icases HRU with ⟨RU0, RU1⟩
  ihave HRI := (irowS_to_rows (F := F) d L f3) $$ H3
  icases HRI with ⟨RI0, RI1⟩
  ihave RU0 := (Entails.of_eq (show bigSep Finset.univ (ownU (F := F) d L 0) = bigSep (Ring.rangeSet 128 0 128) (ownU (F := F) d L 0) by rw [Ring.rangeSet_univ])) $$ RU0
  ihave RU1 := (Entails.of_eq (show bigSep Finset.univ (ownU (F := F) d L 1) = bigSep (Ring.rangeSet 128 0 128) (ownU (F := F) d L 1) by rw [Ring.rangeSet_univ])) $$ RU1
  ihave RI0 := (Entails.of_eq (show bigSep Finset.univ (ownI (F := F) d L 0) = bigSep (Ring.rangeSet 128 0 128) (ownI (F := F) d L 0) by rw [Ring.rangeSet_univ])) $$ RI0
  ihave RI1 := (Entails.of_eq (show bigSep Finset.univ (ownI (F := F) d L 1) = bigSep (Ring.rangeSet 128 0 128) (ownI (F := F) d L 1) by rw [Ring.rangeSet_univ])) $$ RI1
  ihave HtU := (toksU_split d L q fue) $$ Hue
  icases HtU with ⟨TUa, TUb, TUc, TUd⟩
  ihave HtI := (toksI_split d L q fie) $$ Hie
  icases HtI with ⟨TIa, TIb, TIc, TId⟩
  imod (Transfers.batch_alloc' (Lvl := ℕ) (countersEmb (U := UU)) (thr d L) (none : HIx 1) 2048 (ownU (F := F) d L 0) (sm := SemLoc.dma cc0_scratch7.sem) (E := Set.univ)) $$ Hs7 with HB7
  imod (Transfers.batch_alloc' (Lvl := ℕ) (countersEmb (U := UU)) (thr d L) (none : HIx 1) 2048 (ownI (F := F) d L 0) (sm := SemLoc.dma cc0_scratch9.sem) (E := Set.univ)) $$ Hs9 with HB9
  imod (Transfers.batch_alloc' (Lvl := ℕ) (countersEmb (U := UU)) (thr d L) (none : HIx 1) 2048 (ownU (F := F) d L 1) (sm := SemLoc.dma cc0_scratch8.sem) (E := Set.univ)) $$ Hs8 with HB8
  imod (Transfers.batch_alloc' (Lvl := ℕ) (countersEmb (U := UU)) (thr d L) (none : HIx 1) 2048 (ownI (F := F) d L 1) (sm := SemLoc.dma cc0_scratch10.sem) (E := Set.univ)) $$ Hs10 with HB10
  repeat (sl_exec; unfold SparseCore.vectorLoadIdx)
  sl_exec
  have e2 : Scf.trips k0_t2_loop.lb k0_t2_loop.ub k0_t2_loop.st = 8 := by decide
  have e3 : Scf.trips k0_t3_loop.lb k0_t3_loop.ub k0_t3_loop.st = 8 := by decide
  rw [e2]
  try rw [e3]
  iclear RU0 RI0 TUa TIa RU1 RI1 TUb TIb Hu Hi Hp
  sl_for (chunkAt d L O W q fu fi f0 f1 fue fie) $$ [Hmw HO H0 H1 H4 H5 HB7 HB9 HB8 HB10 TUc TIc TUd TId]
  case region =>
    intro k acc
    obtain ⟨kv, hkv⟩ := k
    have e4 : Scf.trips k0_t4_loop.lb k0_t4_loop.ub k0_t4_loop.st = 4 := by decide
    match kv, hkv with
    | 0, hkv =>
      show chunkAt (F := F) d L O W q fu fi f0 f1 fue fie 0 () ⊢ wp _ _ _ _ (chunkAt (F := F) d L O W q fu fi f0 f1 fue fie 1)
      unfold chunkAt
      rw [if_pos (by decide : ((0 : ℕ) ≤ 2)), if_pos (by decide : ((0 : ℕ) ≤ 3)), if_pos (rfl : (0 : ℕ) = 0), if_pos (by decide : ((0 : ℕ) ≤ 1)), if_pos (by decide : ((1 : ℕ) ≤ 2)), if_pos (by decide : ((1 : ℕ) ≤ 3)), if_neg (by decide : ¬ ((1 : ℕ) = 0)), if_pos (by decide : ((1 : ℕ) ≤ 1))]
      iintro ⟨#Hmw, ⟨%W0, %hW0, HO⟩, H0, H1, ⟨%f4, H4⟩, ⟨%f5, H5⟩, ⟨HB7, HB9⟩, ⟨HB8, HB10⟩, ⟨TUc, TIc⟩, ⟨TUd, TId⟩⟩
      have k0_h1 : k0_cond1 ⟨0, hkv⟩ = 1#1 := by decide +revert
      have k0_h2 : ¬ k0_cond2 ⟨0, hkv⟩ = 1#1 := by decide +revert
      have k0_h3 : k0_cond3 ⟨0, hkv⟩ = 1#1 := by decide +revert
      have k0_h4 : ¬ k0_cond4 ⟨0, hkv⟩ = 1#1 := by decide +revert
      sl_exec
      sl_for (drainInv (F := F) d L 0 (SemLoc.dma cc0_scratch7.sem) (SemLoc.dma cc0_scratch9.sem) O W) $$ [HO HB7 HB9]
      case region =>
        intro k acc
        exact t5_step (F := F) d L _ _ _ _ _ _ _ _ _ _ O W k acc
      · iapply (drain_entry (F := F) d L 0 (SemLoc.dma cc0_scratch7.sem) (SemLoc.dma cc0_scratch9.sem) O W _)
        isplitr; · iexact Hmw
        isplitl [HO]
        · iexists W0; isplitr; · ipureintro; exact hW0
          iexact HO
        isplitl [HB7]; · iexact HB7
        iexact HB9
      iintro %acc' HI
      rw [show Scf.trips k0_t5_loop.lb k0_t5_loop.ub k0_t5_loop.st = 128 from k0_t5_trips]
      ihave HX := (drain_exit (F := F) d L 0 (SemLoc.dma cc0_scratch7.sem) (SemLoc.dma cc0_scratch9.sem) O W acc') $$ HI
      icases HX with ⟨-, ⟨%W1, %hW1, HO⟩, Hs7, RU0, Hs9, RI0⟩
      ihave HhU := (rows_to_halfU (F := F) d L 0 ⟨0, hkv⟩ (off144_0 hkv)) $$ RU0
      icases HhU with ⟨%gU, HhU⟩
      ihave HhI := (rows_to_halfI (F := F) d L 0 ⟨0, hkv⟩ (off158_0 hkv)) $$ RI0
      icases HhI with ⟨%gI, HhI⟩
      sl_exec
      ihave RU0 := (halfU_to_rows (F := F) d L 0 ⟨0, hkv⟩ (off144_0 hkv) _) $$ HhU
      ihave RI0 := (halfI_to_rows (F := F) d L 0 ⟨0, hkv⟩ (off158_0 hkv) _) $$ HhI
      ihave RU0 := (Entails.of_eq (show bigSep Finset.univ (ownU (F := F) d L 0) = bigSep (Ring.rangeSet 128 0 128) (ownU (F := F) d L 0) by rw [Ring.rangeSet_univ])) $$ RU0
      ihave RI0 := (Entails.of_eq (show bigSep Finset.univ (ownI (F := F) d L 0) = bigSep (Ring.rangeSet 128 0 128) (ownI (F := F) d L 0) by rw [Ring.rangeSet_univ])) $$ RI0
      imod (Transfers.batch_alloc' (Lvl := ℕ) (countersEmb (U := UU)) (thr d L) (none : HIx 1) 2048 (ownU (F := F) d L 0) (sm := SemLoc.dma cc0_scratch7.sem) (E := Set.univ)) $$ Hs7 with HB7
      imod (Transfers.batch_alloc' (Lvl := ℕ) (countersEmb (U := UU)) (thr d L) (none : HIx 1) 2048 (ownI (F := F) d L 0) (sm := SemLoc.dma cc0_scratch9.sem) (E := Set.univ)) $$ Hs9 with HB9
      sl_exec
      rw [show Scf.trips k0_t11_loop.lb k0_t11_loop.ub k0_t11_loop.st = 8 by decide]
      iclear RU0 RI0 TUc TIc
      sl_step
      isplitr; · iexact Hmw
      isplitl [HO]
      · iexists W1; isplitr; · ipureintro; exact hW1
        iexact HO
      isplitl [H0]; · iexact H0
      isplitl [H1]; · iexact H1
      isplitl [H4]; · iexists _; iexact H4
      isplitl [H5]; · iexists _; iexact H5
      isplitl [HB7 HB9]
      · isplitl [HB7]; · iexact HB7
        iexact HB9
      isplitl [HB8 HB10]
      · isplitl [HB8]; · iexact HB8
        iexact HB10
      isplitr; · iempintro
      isplitl [TUd]; · iexact TUd
      iexact TId
    | 1, hkv =>
      show chunkAt (F := F) d L O W q fu fi f0 f1 fue fie 1 () ⊢ wp _ _ _ _ (chunkAt (F := F) d L O W q fu fi f0 f1 fue fie 2)
      unfold chunkAt
      rw [if_pos (by decide : ((1 : ℕ) ≤ 2)), if_pos (by decide : ((1 : ℕ) ≤ 3)), if_neg (by decide : ¬ ((1 : ℕ) = 0)), if_pos (by decide : ((1 : ℕ) ≤ 1)), if_pos (by decide : ((2 : ℕ) ≤ 2)), if_pos (by decide : ((2 : ℕ) ≤ 3)), if_neg (by decide : ¬ ((2 : ℕ) = 0)), if_neg (by decide : ¬ ((2 : ℕ) ≤ 1))]
      iintro ⟨#Hmw, ⟨%W0, %hW0, HO⟩, H0, H1, ⟨%f4, H4⟩, ⟨%f5, H5⟩, ⟨HB7, HB9⟩, ⟨HB8, HB10⟩, -, ⟨TUd, TId⟩⟩
      have k0_h1 : ¬ k0_cond1 ⟨1, hkv⟩ = 1#1 := by decide +revert
      have k0_h2 : k0_cond2 ⟨1, hkv⟩ = 1#1 := by decide +revert
      have k0_h3 : ¬ k0_cond3 ⟨1, hkv⟩ = 1#1 := by decide +revert
      have k0_h4 : k0_cond4 ⟨1, hkv⟩ = 1#1 := by decide +revert
      sl_exec
      sl_for (drainInv (F := F) d L 1 (SemLoc.dma cc0_scratch8.sem) (SemLoc.dma cc0_scratch10.sem) O W) $$ [HO HB8 HB10]
      case region =>
        intro k acc
        exact t6_step (F := F) d L _ _ _ _ _ _ _ _ _ _ O W k acc
      · iapply (drain_entry (F := F) d L 1 (SemLoc.dma cc0_scratch8.sem) (SemLoc.dma cc0_scratch10.sem) O W _)
        isplitr; · iexact Hmw
        isplitl [HO]
        · iexists W0; isplitr; · ipureintro; exact hW0
          iexact HO
        isplitl [HB8]; · iexact HB8
        iexact HB10
      iintro %acc' HI
      rw [show Scf.trips k0_t6_loop.lb k0_t6_loop.ub k0_t6_loop.st = 128 from k0_t6_trips]
      ihave HX := (drain_exit (F := F) d L 1 (SemLoc.dma cc0_scratch8.sem) (SemLoc.dma cc0_scratch10.sem) O W acc') $$ HI
      icases HX with ⟨-, ⟨%W1, %hW1, HO⟩, Hs8, RU1, Hs10, RI1⟩
      ihave HhU := (rows_to_halfU (F := F) d L 1 ⟨1, hkv⟩ (off144_1 hkv)) $$ RU1
      icases HhU with ⟨%gU, HhU⟩
      ihave HhI := (rows_to_halfI (F := F) d L 1 ⟨1, hkv⟩ (off158_1 hkv)) $$ RI1
      icases HhI with ⟨%gI, HhI⟩
      sl_exec
      ihave RU1 := (halfU_to_rows (F := F) d L 1 ⟨1, hkv⟩ (off144_1 hkv) _) $$ HhU
      ihave RI1 := (halfI_to_rows (F := F) d L 1 ⟨1, hkv⟩ (off158_1 hkv) _) $$ HhI
      ihave RU1 := (Entails.of_eq (show bigSep Finset.univ (ownU (F := F) d L 1) = bigSep (Ring.rangeSet 128 0 128) (ownU (F := F) d L 1) by rw [Ring.rangeSet_univ])) $$ RU1
      ihave RI1 := (Entails.of_eq (show bigSep Finset.univ (ownI (F := F) d L 1) = bigSep (Ring.rangeSet 128 0 128) (ownI (F := F) d L 1) by rw [Ring.rangeSet_univ])) $$ RI1
      imod (Transfers.batch_alloc' (Lvl := ℕ) (countersEmb (U := UU)) (thr d L) (none : HIx 1) 2048 (ownU (F := F) d L 1) (sm := SemLoc.dma cc0_scratch8.sem) (E := Set.univ)) $$ Hs8 with HB8
      imod (Transfers.batch_alloc' (Lvl := ℕ) (countersEmb (U := UU)) (thr d L) (none : HIx 1) 2048 (ownI (F := F) d L 1) (sm := SemLoc.dma cc0_scratch10.sem) (E := Set.univ)) $$ Hs10 with HB10
      sl_exec
      rw [show Scf.trips k0_t12_loop.lb k0_t12_loop.ub k0_t12_loop.st = 8 by decide]
      iclear RU1 RI1 TUd TId
      sl_step
      isplitr; · iexact Hmw
      isplitl [HO]
      · iexists W1; isplitr; · ipureintro; exact hW1
        iexact HO
      isplitl [H0]; · iexact H0
      isplitl [H1]; · iexact H1
      isplitl [H4]; · iexists _; iexact H4
      isplitl [H5]; · iexists _; iexact H5
      isplitl [HB7 HB9]
      · isplitl [HB7]; · iexact HB7
        iexact HB9
      isplitl [HB8 HB10]
      · isplitl [HB8]; · iexact HB8
        iexact HB10
      isplitr; · iempintro
      iempintro
    | 2, hkv =>
      show chunkAt (F := F) d L O W q fu fi f0 f1 fue fie 2 () ⊢ wp _ _ _ _ (chunkAt (F := F) d L O W q fu fi f0 f1 fue fie 3)
      unfold chunkAt
      rw [if_pos (by decide : ((2 : ℕ) ≤ 2)), if_pos (by decide : ((2 : ℕ) ≤ 3)), if_neg (by decide : ¬ ((2 : ℕ) = 0)), if_neg (by decide : ¬ ((2 : ℕ) ≤ 1)), if_neg (by decide : ¬ ((3 : ℕ) ≤ 2)), if_pos (by decide : ((3 : ℕ) ≤ 3)), if_neg (by decide : ¬ ((3 : ℕ) = 0)), if_neg (by decide : ¬ ((3 : ℕ) ≤ 1))]
      iintro ⟨#Hmw, ⟨%W0, %hW0, HO⟩, H0, H1, ⟨%f4, H4⟩, ⟨%f5, H5⟩, ⟨HB7, HB9⟩, ⟨HB8, HB10⟩, -, -⟩
      have k0_h1 : k0_cond1 ⟨2, hkv⟩ = 1#1 := by decide +revert
      have k0_h2 : ¬ k0_cond2 ⟨2, hkv⟩ = 1#1 := by decide +revert
      have k0_h3 : ¬ k0_cond3 ⟨2, hkv⟩ = 1#1 := by decide +revert
      have k0_h4 : ¬ k0_cond4 ⟨2, hkv⟩ = 1#1 := by decide +revert
      sl_exec
      sl_for (drainInv (F := F) d L 0 (SemLoc.dma cc0_scratch7.sem) (SemLoc.dma cc0_scratch9.sem) O W) $$ [HO HB7 HB9]
      case region =>
        intro k acc
        exact t5_step (F := F) d L _ _ _ _ _ _ _ _ _ _ O W k acc
      · iapply (drain_entry (F := F) d L 0 (SemLoc.dma cc0_scratch7.sem) (SemLoc.dma cc0_scratch9.sem) O W _)
        isplitr; · iexact Hmw
        isplitl [HO]
        · iexists W0; isplitr; · ipureintro; exact hW0
          iexact HO
        isplitl [HB7]; · iexact HB7
        iexact HB9
      iintro %acc' HI
      rw [show Scf.trips k0_t5_loop.lb k0_t5_loop.ub k0_t5_loop.st = 128 from k0_t5_trips]
      ihave HX := (drain_exit (F := F) d L 0 (SemLoc.dma cc0_scratch7.sem) (SemLoc.dma cc0_scratch9.sem) O W acc') $$ HI
      icases HX with ⟨-, ⟨%W1, %hW1, HO⟩, Hs7, RU0, Hs9, RI0⟩
      ihave HhU := (rows_to_halfU (F := F) d L 0 ⟨2, hkv⟩ (off144_2 hkv)) $$ RU0
      icases HhU with ⟨%gU, HhU⟩
      ihave HhI := (rows_to_halfI (F := F) d L 0 ⟨2, hkv⟩ (off158_2 hkv)) $$ RI0
      icases HhI with ⟨%gI, HhI⟩
      sl_exec
      ihave RU0 := (halfU_to_rows (F := F) d L 0 ⟨2, hkv⟩ (off144_2 hkv) _) $$ HhU
      ihave RI0 := (halfI_to_rows (F := F) d L 0 ⟨2, hkv⟩ (off158_2 hkv) _) $$ HhI
      sl_step
      isplitr; · iexact Hmw
      isplitl [HO]
      · iexists W1; isplitr; · ipureintro; exact hW1
        iexact HO
      isplitl [H0]; · iexact H0
      isplitl [H1]; · iexact H1
      isplitl [H4]; · iexists _; iexact H4
      isplitl [H5]; · iexists _; iexact H5
      isplitl [Hs7 Hs9 RU0 RI0]
      · isplitl [Hs7]; · iexact Hs7
        isplitl [Hs9]; · iexact Hs9
        isplitl [RU0]; · iexact RU0
        iexact RI0
      isplitl [HB8 HB10]
      · isplitl [HB8]; · iexact HB8
        iexact HB10
      isplitr; · iempintro
      iempintro
    | 3, hkv =>
      show chunkAt (F := F) d L O W q fu fi f0 f1 fue fie 3 () ⊢ wp _ _ _ _ (chunkAt (F := F) d L O W q fu fi f0 f1 fue fie 4)
      unfold chunkAt
      rw [if_neg (by decide : ¬ ((3 : ℕ) ≤ 2)), if_pos (by decide : ((3 : ℕ) ≤ 3)), if_neg (by decide : ¬ ((3 : ℕ) = 0)), if_neg (by decide : ¬ ((3 : ℕ) ≤ 1)), if_neg (by decide : ¬ ((4 : ℕ) ≤ 2)), if_neg (by decide : ¬ ((4 : ℕ) ≤ 3)), if_neg (by decide : ¬ ((4 : ℕ) = 0)), if_neg (by decide : ¬ ((4 : ℕ) ≤ 1))]
      iintro ⟨#Hmw, ⟨%W0, %hW0, HO⟩, H0, H1, ⟨%f4, H4⟩, ⟨%f5, H5⟩, ⟨Hs7, Hs9, RU0, RI0⟩, ⟨HB8, HB10⟩, -, -⟩
      have k0_h1 : ¬ k0_cond1 ⟨3, hkv⟩ = 1#1 := by decide +revert
      have k0_h2 : k0_cond2 ⟨3, hkv⟩ = 1#1 := by decide +revert
      have k0_h3 : ¬ k0_cond3 ⟨3, hkv⟩ = 1#1 := by decide +revert
      have k0_h4 : ¬ k0_cond4 ⟨3, hkv⟩ = 1#1 := by decide +revert
      sl_exec
      sl_for (drainInv (F := F) d L 1 (SemLoc.dma cc0_scratch8.sem) (SemLoc.dma cc0_scratch10.sem) O W) $$ [HO HB8 HB10]
      case region =>
        intro k acc
        exact t6_step (F := F) d L _ _ _ _ _ _ _ _ _ _ O W k acc
      · iapply (drain_entry (F := F) d L 1 (SemLoc.dma cc0_scratch8.sem) (SemLoc.dma cc0_scratch10.sem) O W _)
        isplitr; · iexact Hmw
        isplitl [HO]
        · iexists W0; isplitr; · ipureintro; exact hW0
          iexact HO
        isplitl [HB8]; · iexact HB8
        iexact HB10
      iintro %acc' HI
      rw [show Scf.trips k0_t6_loop.lb k0_t6_loop.ub k0_t6_loop.st = 128 from k0_t6_trips]
      ihave HX := (drain_exit (F := F) d L 1 (SemLoc.dma cc0_scratch8.sem) (SemLoc.dma cc0_scratch10.sem) O W acc') $$ HI
      icases HX with ⟨-, ⟨%W1, %hW1, HO⟩, Hs8, RU1, Hs10, RI1⟩
      ihave HhU := (rows_to_halfU (F := F) d L 1 ⟨3, hkv⟩ (off144_3 hkv)) $$ RU1
      icases HhU with ⟨%gU, HhU⟩
      ihave HhI := (rows_to_halfI (F := F) d L 1 ⟨3, hkv⟩ (off158_3 hkv)) $$ RI1
      icases HhI with ⟨%gI, HhI⟩
      sl_exec
      ihave RU1 := (halfU_to_rows (F := F) d L 1 ⟨3, hkv⟩ (off144_3 hkv) _) $$ HhU
      ihave RI1 := (halfI_to_rows (F := F) d L 1 ⟨3, hkv⟩ (off158_3 hkv) _) $$ HhI
      sl_step
      isplitr; · iexact Hmw
      isplitl [HO]
      · iexists W1; isplitr; · ipureintro; exact hW1
        iexact HO
      isplitl [H0]; · iexact H0
      isplitl [H1]; · iexact H1
      isplitl [H4]; · iexists _; iexact H4
      isplitl [H5]; · iexists _; iexact H5
      isplitl [Hs7 Hs9 RU0 RI0]
      · isplitl [Hs7]; · iexact Hs7
        isplitl [Hs9]; · iexact Hs9
        isplitl [RU0]; · iexact RU0
        iexact RI0
      isplitl [Hs8 Hs10 RU1 RI1]
      · isplitl [Hs8]; · iexact Hs8
        isplitl [Hs10]; · iexact Hs10
        isplitl [RU1]; · iexact RU1
        iexact RI1
      isplitr; · iempintro
      iempintro
    | n + 4, hkv => exact absurd hkv (by rw [e4]; omega)
  · unfold chunkAt
    rw [if_pos (by decide : (0 : ℕ) ≤ 2), if_pos (by decide : (0 : ℕ) ≤ 3), if_pos rfl, if_pos (by decide : (0 : ℕ) ≤ 1)]
    isplitl [Hmw]; · iexact Hmw
    isplitl [HO]
    · iexists _; isplitr
      rotate_left
      · iexact HO
      · ipureintro; intro p hp
        rcases Finset.mem_insert.mp hp with hp | hp; · exact Or.inr (by rw [hp]; rfl)
        rcases Finset.mem_insert.mp hp with hp | hp; · exact Or.inr (by rw [hp]; rfl)
        rcases Finset.mem_insert.mp hp with hp | hp; · exact Or.inr (by rw [hp]; rfl)
        exact .inl hp
    isplitl [H0]; · iexact H0
    isplitl [H1]; · iexact H1
    isplitl [H4]; · iexists _; iexact H4
    isplitl [H5]; · iexists _; iexact H5
    isplitl [HB7 HB9]; · isplitl [HB7]; · iexact HB7
                         iexact HB9
    isplitl [HB8 HB10]; · isplitl [HB8]; · iexact HB8
                          iexact HB10
    isplitl [TUc TIc]; · isplitl [TUc]; · iexact TUc
                         iexact TIc
    isplitl [TUd]; · iexact TUd
    iexact TId
  iintro %_ HI
  have e4 : Scf.trips k0_t4_loop.lb k0_t4_loop.ub k0_t4_loop.st = 4 := by decide
  rw [e4]
  unfold chunkAt
  rw [if_neg (by decide : ¬ (4 : ℕ) ≤ 2), if_neg (by decide : ¬ (4 : ℕ) ≤ 3), if_neg (by decide : ¬ (4 : ℕ) = 0), if_neg (by decide : ¬ (4 : ℕ) ≤ 1)]
  icases HI with ⟨Hmw, ⟨%W', %hW', HO⟩, H0, H1, ⟨%f4', H4⟩, ⟨%f5', H5⟩, ⟨Hs7, Hs9, RU0, RI0⟩, ⟨Hs8, Hs10, RU1, RI1⟩, -, -⟩
  repeat (sl_exec; unfold SparseCore.vectorLoadIdx)
  sl_exec
  sl_step
  iclear Hmw
  unfold tilePost tileOwn
  isplitl [Ho]; · iexists _; iexact Ho
  isplitl [H0 H1 RU0 RU1 RI0 RI1 H4 H5 H6 Hs7 Hs8 Hs9 Hs10 Hc0 Hc1 Hc2 Hc3]
  · isplitl [H0]; · iexists _; iexact H0
    isplitl [H1]; · iexists _; iexact H1
    isplitl [RU0 RU1]
    · iapply (rows_to_urowS (F := F) d L)
      isplitl [RU0]; · iexact RU0
      iexact RU1
    isplitl [RI0 RI1]
    · iapply (rows_to_irowS (F := F) d L)
      isplitl [RI0]; · iexact RI0
      iexact RI1
    isplitl [H4]; · iexists _; iexact H4
    isplitl [H5]; · iexists _; iexact H5
    isplitl [H6]; · iexists _; iexact H6
    isplitl [Hs7]; · iexact Hs7
    isplitl [Hs8]; · iexact Hs8
    isplitl [Hs9]; · iexact Hs9
    isplitl [Hs10]; · iexact Hs10
    isplitl [Hc0]; · iexact Hc0
    isplitl [Hc1]; · iexact Hc1
    isplitl [Hc2]; · iexact Hc2
    iexact Hc3
  isplitl [Hrest]; · iexact Hrest
  iexists _; isplitr
  rotate_left
  · iexact HO
  · ipureintro; intro p hp
    rcases Finset.mem_insert.mp hp with hp | hp; · exact Or.inr (by rw [hp]; rfl)
    exact hW' p hp

end Tile

/-! ## The tile obligation -/

section Obl

variable (m : (ℓ : Loc nD τ sig) → Buf (Elt F) ℓ)

theorem tile_body [∀ e, Nonempty (Elt F e)] : TileBody (F := F) m := by
  intro hpre d L O W hO
  have hfu : ∀ b, ((m (a0Loc d) : S16384.Idx → BitVec 32) b).toNat < 1000000 := fun b => (hpre d b).1
  have hfi : ∀ b, ((m (a1Loc d) : S16384.Idx → BitVec 32) b).toNat < 100000 := fun b => (hpre d b).2
  refine BIBase.Entails.trans ?_ ((tile_run (F := F) d L O W (qT (L 0).val (L 1).val) (m (a0Loc d)) (m (a1Loc d)) hfu hfi (m (a2Loc d)) (m (a3Loc d))).trans
    (wp_mono frame _ _ fun _ => ?_))
  · unfold tilePre
    iintro ⟨#Hlv, Hgo, Hsb, Hss, HO⟩
    ihave Hmw := ((K (F := F)).mayWaits_none (thr := thr d L) hO) $$ Hlv
    ihave Hg := (go_open m d L) $$ Hgo
    icases Hg with ⟨Hu, Hi, Hue, Hie, Hp, Ho⟩
    ihave Hs := (scoped_open (F := F) d L) $$ [Hsb Hss]
    · isplitl [Hsb]; · iexact Hsb
      iexact Hss
    icases Hs with ⟨Hown, Hrest⟩
    isplitl [Hmw]; · iexact Hmw
    isplitl [Hu]; · iexact Hu
    isplitl [Hi]; · iexact Hi
    isplitl [Hue]; · iexact Hue
    isplitl [Hie]; · iexact Hie
    isplitl [Hp]; · iexact Hp
    isplitl [Ho]; · iexact Ho
    isplitl [Hown]; · iexact Hown
    isplitl [Hrest]; · iexact Hrest
    iexact HO
  · unfold tilePost
    iintro ⟨Ho, Hown, Hrest, HO⟩
    ihave Hs := (scoped_close (F := F) d L) $$ [Hown Hrest]
    · isplitl [Hown]; · iexact Hown
      iexact Hrest
    icases Hs with ⟨Hsb, Hss⟩
    isplitl [Ho]; · iapply (td_close (F := F) d L); iexact Ho
    isplitl [Hsb]; · iexact Hsb
    isplitl [Hss]; · iexact Hss
    iexact HO

end Obl

end Cert.Proof.KB

end
-- ==== Proof.KPayV.lean ====
/-
  The call's payloads with the values. The launch side of the frame hands a tile the packed parameters at some
  contents and takes its slice of the result back at some contents; here the parameters are handed at the contents
  @main's host operations leave them, and the slice comes back with every entry the score of its sample — the function
  both programs compute, read at that sample. The tile's body is restated with these.
-/
import proofs.«214512_g89103391522852_cont_sun_m_1157_25_alg».proof.Proof.KLaunch
import proofs.«214512_g89103391522852_cont_sun_m_1157_25_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_split held_sdiff_result wp_hlo_within)
open Idealize.ShloMosaic.Tactic

local notation "𝕄" => MT nD τ sig (HIx 1) (Elt Ideal) ℕ UU ℕ

variable (m : (ℓ : Loc nD τ sig) → Buf (Elt Ideal) ℓ) (ρ : Dev nD → PrngReg)

/-! ## What the kernel computes and what it reads the parameters from -/

/-- The result as the tiles write it, one entry per sample: the score of sample `i`. -/
def flatG (d : Dev nD) : Buf (Elt Ideal) (oLoc d) := fun i =>
  Cert.Spec.score (m (a0Loc d)) (m (a1Loc d)) (m (a2Loc d)) (m (a3Loc d))
    (m (tcLoc d main_arg4)) (m (tcLoc d main_arg5)) (m (tcLoc d main_arg6)) (m (tcLoc d main_arg7)) (i 0)

/-- The packed parameters as @main's five host operations leave them. -/
def parV (d : Dev nD) : Buf (Elt Ideal) (pLoc d) := V5 (F := Ideal) m d (rf main_v3)

/-- What the tile at `L` is handed: as before, the packed parameters now at their contents. -/
def goResV (d : Dev nD) (L : grid0.Coords) : sProp 𝕄 :=
  iprop((a0Loc d ↦{qT (L 0).val (L 1).val} m (a0Loc d)) ∗ (a1Loc d ↦{qT (L 0).val (L 1).val} m (a1Loc d))
    ∗ (a2Loc d ↦{qT (L 0).val (L 1).val} m (a2Loc d)) ∗ (a3Loc d ↦{qT (L 0).val (L 1).val} m (a3Loc d))
    ∗ (pLoc d ↦{qT (L 0).val (L 1).val} parV m d) ∗ (∃ fo, oLoc d ↦[(outSl L).view.set]{fullShare} fo))

/-- What the tile at `L` hands back: its 512 entries of the result, each the score of its sample. -/
def tdResV (d : Dev nD) (L : grid0.Coords) : sProp 𝕄 := oLoc d ↦[(outSl L).view.set]{fullShare} flatG m d

/-- The one call, with the values: a SparseCore is handed its sixteen tiles' shares, a tile its own; the tiles hand
    their slices of the result back at the scores. -/
def PV : (K (F := Ideal)).Pay (nD := nD) (Val := Elt Ideal) (Name := ℕ) (U := UU) where
  st := fun q d c => match q with | 0 => bigSep Finset.univ fun i : Fin ((K (F := Ideal)).nSub 0) => goResV m d (Ltile c i)
  dn := fun q d c => match q with | 0 => bigSep Finset.univ fun i : Fin ((K (F := Ideal)).nSub 0) => tdResV m d (Ltile c i)
  go := fun q d c i => match q with | 0 => goResV m d (Ltile c i)
  td := fun q d c i => match q with | 0 => tdResV m d (Ltile c i)
  x := fun _ _ => iprop(emp)

/-- The tile's task with the values: from its share — the parameters at their packed contents — the kernel's function
    runs to the end and leaves the tile's 512 entries of the result at the scores of their samples. -/
def TileBodyV : Prop :=
  PreOK m → ∀ (d : Dev nD) (L : grid0.Coords) (O : CellTallies nD τ sig (HIx 1)) (W : Waits sig (HIx 1)), (∀ g, O g none = 0) →
    (iprop(levAts (K (F := Ideal)).L (K (F := Ideal)).lev ∗ goResV m d L ∗ scopedBufs (thr d L) ∗ scopedSems0 (thr d L) ∗ owes (thr d L) O W) : sProp 𝕄)
      ⊢ wp frame (wpE (defs₀ (F := Ideal)) 𝒱₀ (thr d L) none) Set.univ (tileProg (F := Ideal) L)
          fun _ => iprop(tdResV m d L ∗ scopedBufs (thr d L) ∗ scopedSems0 (thr d L) ∗ ∃ W', ⌜∀ p ∈ W', p ∈ W ∨ p.2 = none⌝ ∗ owes (thr d L) O W')

end Cert.Proof.KI

end
-- ==== Proof.KLaunchV.lean ====
/-
  The launch side with the values: given the tile's body with its values — a tile, handed the packed parameters at the
  contents @main's host operations leave them, writes into each of its 512 entries of the result the score of that
  entry's sample — the whole program runs to the end, faulting nowhere, leaves the eight arguments as they were and
  the result the function of the arguments that both programs compute. The launch is the frame's, with two changes:
  the slices the tiles hand back are joined at the scores into the result held whole at the scores, and the last host
  operation, which recasts the 16384 scores as one column, leaves in the reshaped result the column whose row `b` is
  the score of sample `b`.
-/
import proofs.«214512_g89103391522852_cont_sun_m_1157_25_alg».proof.Proof.KPayV
import proofs.«214512_g89103391522852_cont_sun_m_1157_25_alg».proof.Proof.KAlg

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_split held_sdiff_result wp_hlo_within)
open Idealize.ShloMosaic.Tactic

local notation "𝕄" => MT nD τ sig (HIx 1) (Elt Ideal) ℕ UU ℕ

variable (m : (ℓ : Loc nD τ sig) → Buf (Elt Ideal) ℓ) (ρ : Dev nD → PrngReg)

/-! ## The payloads, as equations, and that they may be kept in invariants -/

theorem PV_st (d : Dev nD) (c : Fin ((K (F := Ideal)).nCore 0)) :
    (PV m).st 0 d c = bigSep Finset.univ fun i : Fin ((K (F := Ideal)).nSub 0) => goResV m d (Ltile c i) := rfl
theorem PV_dn (d : Dev nD) (c : Fin ((K (F := Ideal)).nCore 0)) :
    (PV m).dn 0 d c = bigSep Finset.univ fun i : Fin ((K (F := Ideal)).nSub 0) => tdResV m d (Ltile c i) := rfl
theorem PV_go (d : Dev nD) (c : Fin ((K (F := Ideal)).nCore 0)) (i : Fin ((K (F := Ideal)).nSub 0)) :
    (PV m).go 0 d c i = goResV m d (Ltile c i) := rfl
theorem PV_td (d : Dev nD) (c : Fin ((K (F := Ideal)).nCore 0)) (i : Fin ((K (F := Ideal)).nSub 0)) :
    (PV m).td 0 d c i = tdResV m d (Ltile c i) := rfl

instance goResV_storable (d : Dev nD) (L : grid0.Coords) : BI.Storable (upEmb : UEmb _ 𝕄) (goResV m d L) := by
  unfold goResV
  haveI : ∀ fo : Buf (Elt Ideal) (oLoc d), BI.Storable (upEmb : UEmb _ 𝕄) (oLoc d ↦[(outSl L).view.set]{fullShare} fo : sProp 𝕄) :=
    fun fo => pts_storable (oLoc d) _ fullShare fo
  infer_instance
instance tdResV_storable (d : Dev nD) (L : grid0.Coords) : BI.Storable (upEmb : UEmb _ 𝕄) (tdResV m d L) := by
  unfold tdResV; exact pts_storable (oLoc d) _ fullShare _

instance PV_storable : (PV m).IsStorable where
  st q d c := match q with | 0 => by rw [PV_st]; infer_instance
  dn q d c := match q with | 0 => by rw [PV_dn]; infer_instance
  go q d c i := match q with | 0 => by rw [PV_go]; infer_instance
  td q d c i := match q with | 0 => by rw [PV_td]; infer_instance

/-! ## The launch theorem's obligations -/

theorem tileOblV (hbody : TileBodyV m) (hpre : PreOK m) : (K (F := Ideal)).TileObl (D (F := Ideal)) 𝒱 (PV m) v₀ 0 := by
  intro d c i O W hO _ _
  simp only [show (PV m).ox = fun _ _ => 0 from rfl, add_zero]
  change _ ⊢ wp _ _ _ (Pipeline.liftProg (defs₀ (F := Ideal) (.scVector ((K (F := Ideal)).core 0 c) ((K (F := Ideal)).sub 0 i)) 0 ())) _
  refine BI.Entails.trans ?_ (Pipeline.wp_liftProg (D (F := Ideal)) (Pipeline.defs_kernel pcfgs defs₀) 𝒱₀ _ Set.univ none _ _)
  have hc : ((K (F := Ideal)).core 0 c).val < grid0.bound 0 ∧ ((K (F := Ideal)).sub 0 i).val < grid0.bound 1 := ⟨c.isLt, i.isLt⟩
  rw [defs₀_vector]; simp only [SparseCore.onTile, hc, and_self, ↓reduceDIte]
  exact obl_pre.trans ((hbody hpre d (coordsV ⟨_, hc.1⟩ ⟨_, hc.2⟩) O W hO).trans (wp_mono frame _ _ fun _ => obl_post))

theorem vecSplitV : (K (F := Ideal)).VecSplit' (PV m) 0 := by
  intro d c
  rw [PV_st, PV_dn]
  simp only [PV_go, PV_td]
  iintro H; imodintro
  isplitl [H]; · iexact H
  iintro H; iexact H

theorem hu₀V : (ownU (u₀ (F := Ideal)) : sProp 𝕄)
    ⊢ |={Set.univ}=> iprop(BI.own (EH (initOf (K (F := Ideal)).hsCells (K (F := Ideal)).hsToks)) ∗ (bigSep Finset.univ fun _ : Dev nD => iprop(emp))
        ∗ bigSep Finset.univ fun thr : Thread nD τ => bigSep Finset.univ fun q : Fin 1 => (PV m).x q thr) := by
  unfold u₀
  iintro Hu
  ihave H := (ownU_pair _ _) $$ Hu
  icases H with ⟨HH, -⟩
  imodintro
  isplitl [HH]; · iexact HH
  isplitr; · rw [bigSep_emp']; iempintro
  unfold PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main with the values -/

theorem goResV_tile (d : Dev nD) (c : Fin ((K (F := Ideal)).nCore 0)) (i : Fin ((K (F := Ideal)).nSub 0)) :
    goResV m d (Ltile c i)
      = iprop((a0Loc d ↦{qT c.val i.val} m (a0Loc d)) ∗ (a1Loc d ↦{qT c.val i.val} m (a1Loc d))
          ∗ (a2Loc d ↦{qT c.val i.val} m (a2Loc d)) ∗ (a3Loc d ↦{qT c.val i.val} m (a3Loc d))
          ∗ (pLoc d ↦{qT c.val i.val} parV m d) ∗ (∃ fo, oLoc d ↦[(outSl (Ltile c i)).view.set]{fullShare} fo)) := rfl

/-- The four read-only arrays, the packed parameters at their contents and the result, all held whole, are what the
    call hands the two SparseCores, and a residual share of each of the four. -/
theorem st_introV (d : Dev nD) (fo : Buf (Elt Ideal) (oLoc d)) :
    iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (pLoc d ↦{fullShare} parV m d) ∗ (oLoc d ↦{fullShare} fo))
      ⊢ iprop(((a0Loc d ↦{sd2} m (a0Loc d)) ∗ (a1Loc d ↦{sd2} m (a1Loc d)) ∗ (a2Loc d ↦{sd2} m (a2Loc d)) ∗ (a3Loc d ↦{sd2} m (a3Loc d)))
          ∗ bigSep Finset.univ fun c : Fin ((K (F := Ideal)).nCore 0) => (PV m).st 0 d c) := by
  simp only [PV_st, goResV_tile]
  rw [nest_sep, nest_sep, nest_sep, nest_sep, nest_sep]
  iintro ⟨H0, H1, H2, H3, Hp, Ho⟩
  ihave X0 := (rd_tiles (F := Ideal) (a0Loc d) (m (a0Loc d))) $$ H0
  icases X0 with ⟨R0, T0⟩
  ihave X1 := (rd_tiles (F := Ideal) (a1Loc d) (m (a1Loc d))) $$ H1
  icases X1 with ⟨R1, T1⟩
  ihave X2 := (rd_tiles (F := Ideal) (a2Loc d) (m (a2Loc d))) $$ H2
  icases X2 with ⟨R2, T2⟩
  ihave X3 := (rd_tiles (F := Ideal) (a3Loc d) (m (a3Loc d))) $$ H3
  icases X3 with ⟨R3, T3⟩
  ihave Xp := (rd_tiles (F := Ideal) (pLoc d) (parV m d)) $$ Hp
  icases Xp with ⟨-, Tp⟩
  ihave Xo := (Entails.of_eq (oPts_tiles (F := Ideal) d fo)) $$ Ho
  isplitl [R0 R1 R2 R3]
  · isplitl [R0]; · iexact R0
    isplitl [R1]; · iexact R1
    isplitl [R2]; · iexact R2
    iexact R3
  isplitl [T0]; · iexact T0
  isplitl [T1]; · iexact T1
  isplitl [T2]; · iexact T2
  isplitl [T3]; · iexact T3
  isplitl [Tp]; · iexact Tp
  iapply (nest_exists (fun (c : Fin ((K (F := Ideal)).nCore 0)) (i : Fin ((K (F := Ideal)).nSub 0)) (x : Buf (Elt Ideal) (oLoc d)) => (oLoc d ↦[(outSl (Ltile c i)).view.set]{fullShare} x : sProp 𝕄)) fo)
  iexact Xo

/-- What the two SparseCores hand back is the result whole, every entry the score of its sample. -/
theorem dn_elimV (d : Dev nD) :
    (bigSep Finset.univ fun c : Fin ((K (F := Ideal)).nCore 0) => (PV m).dn 0 d c) ⊢ (oLoc d ↦{fullShare} flatG m d : sProp 𝕄) := by
  simp only [PV_dn]
  unfold tdResV
  exact Entails.of_eq (oPts_tiles (F := Ideal) d (flatG m d)).symm

/-- The reshaped result: what the last host operation leaves in `main_v5` when the result is at the scores. -/
def outV (d : Dev nD) : Buf (Elt Ideal) (tcLoc d main_v5) := (op6 (F := Ideal)).result (V6 (F := Ideal) m d (flatG m d)) (rf main_v5)

/-- A vector of 16384 entries recast as one column, read at an index: the entry of the index's row. -/
theorem shapeCast_col {α : Type} (f : S16384.Idx → α) (h : S16384.ShapeCasts S16384x1) (j : S16384x1.Idx) :
    shapeCast S16384x1 f h j = f (ValueIdx.ix1 (j 0)) := by
  refine shapeCast_apply f h j (ValueIdx.ix1 (j 0)) ?_
  have e1 := Shape.rowMajor_val_one (d := ![16384]) (ValueIdx.ix1 (j 0))
  have e2 := Shape.rowMajor_val_two (d := ![16384, 1]) j
  have h1 : (j 1).val < 1 := (j 1).isLt
  refine e1.trans (Eq.trans ?_ e2.symm)
  show (j 0).val = (j 0).val * 1 + (j 1).val
  omega

/-- It is the function both programs compute, of the eight arguments. -/
theorem outV_eq (d : Dev nD) :
    outV m d = Cert.Spec.G (m (a0Loc d)) (m (a1Loc d)) (m (a2Loc d)) (m (a3Loc d))
      (m (tcLoc d main_arg4)) (m (tcLoc d main_arg5)) (m (tcLoc d main_arg6)) (m (tcLoc d main_arg7)) := by
  unfold outV
  rw [StableHlo.reshape_result']
  funext j
  show shapeCast S16384x1 (V6 (F := Ideal) m d (flatG m d) (rf main_v4)) Facts₀.shapeCasts_S16384_S16384x1 j = _
  rw [V6_o]
  exact (shapeCast_col (flatG m d) Facts₀.shapeCasts_S16384_S16384x1 j).trans rfl

/-- What @main leaves the claim: the arguments as in the frame, and the reshaped result at its contents. -/
abbrev FINV (d : Dev nD) : sProp 𝕄 := iprop(FIN m d ∗ (tcLoc d main_v5 ↦{fullShare} outV m d))

theorem hmainV (κ : GSem nD τ sig → ℕ) (d : Dev nD) :
    iprop((K (F := Ideal)).ctx EH (PV m) κ ∗ (K (F := Ideal)).tcSt EH d 0 ∗ (K (F := Ideal)).tcRes m ρ d ∗ emp)
      ⊢ wp frame (wpE ((K (F := Ideal)).defs (D (F := Ideal))) 𝒱 (SparseCore.T d) none) Set.univ (main d)
          fun _ => iprop((K (F := Ideal)).tcSt EH d 1 ∗ FINV m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op1) (S := B15) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := B15) h2 (V := (op1 (F := Ideal)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := B15) h3
    (V := (op2 (F := Ideal)).result ((op1 (F := Ideal)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := B15) h4
    (V := (op3 (F := Ideal)).result ((op2 (F := Ideal)).result ((op1 (F := Ideal)).result (V0 m d))))) $$ [Hb Hheld]
  · isplitl [Hb]; · iexact Hb
    iexact Hheld
  iintro ⟨Hb, Hheld⟩
  rw [wp_ret]; imodintro
  iapply (wp_hlo_within 𝒱 (SparseCore.T d) none Set.univ (op := op5) (S := B15) h5
    (V := (op4 (F := Ideal)).result ((op3 (F := Ideal)).result ((op2 (F := Ideal)).result ((op1 (F := Ideal)).result (V0 m d)))))) $$ [Hb Hheld]
  · isplitl [Hb]; · iexact Hb
    iexact Hheld
  iintro ⟨Hb, Hheld⟩
  rw [wp_ret]; imodintro
  ihave Hh := (after_host m d) $$ Hheld
  icases Hh with ⟨H0, H1, H2, H3, H4, H5, H6, H7, Hp, Ho, Hr⟩
  ihave Hs := (st_introV m d (V5 m d (rf main_v4))) $$ [H0 H1 H2 H3 Hp Ho]
  · isplitl [H0]; · iexact H0
    isplitl [H1]; · iexact H1
    isplitl [H2]; · iexact H2
    isplitl [H3]; · iexact H3
    isplitl [Hp]; · iexact Hp
    iexact Ho
  icases Hs with ⟨⟨R0, R1, R2, R3⟩, Hgo⟩
  iapply ((K (F := Ideal)).wp_run (D (F := Ideal)) 𝒱 (EH := EH) (P := PV m) κ d 0) $$ [Hst Hgo Hb Hr R0 R1 R2 R3 H4 H5 H6 H7]
  isplitr; · iexact Hctx
  isplitl [Hst]; · iexact Hst
  isplitl [Hgo]; · iexact Hgo
  iintro ⟨Hst, Hdn⟩
  ihave Ho := (dn_elimV m d) $$ Hdn
  iapply (wp_hlo_within 𝒱 (SparseCore.T d) none Set.univ (op := op6) (S := B2) h6 (V := V6 m d (flatG m d))) $$ [Hb Ho Hr]
  · isplitl [Hb]; · iexact Hb
    rw [held_B2, V6_o, V6_r]
    isplitl [Ho]; · iexact Ho
    iexact Hr
  iintro ⟨Hb, Hheld⟩
  ihave Hh := (Entails.of_eq (held_B2 (F := Ideal) d _)) $$ Hheld
  icases Hh with ⟨-, Hv5⟩
  rw [wp_ret]; imodintro; imodintro
  isplitl [Hst]; · iexact Hst
  isplitr [Hv5]
  · isplitl [R0]; · iexact R0
    isplitl [R1]; · iexact R1
    isplitl [R2]; · iexact R2
    isplitl [R3]; · iexact R3
    isplitl [H4]; · iexact H4
    isplitl [H5]; · iexact H5
    isplitl [H6]; · iexact H6
    iexact H7
  · iexact Hv5

/-! ## The final memory, the run, the claim -/

def fqV (d : Dev nD) (s' : Phys nD τ sig (Elt Ideal)) : Prop :=
  s'.mem.mem (tcLoc d main_v5) = outV m d ∧ fq m d s'

theorem hfinV (d : Dev nD) (s' : Phys nD τ sig (Elt Ideal)) : iprop(FINV m d ∗ SI s') ⊢ (⌜fqV m d s'⌝ : sProp 𝕄) := by
  iintro ⟨⟨HF, Hv⟩, HSI⟩
  ihave X := (persistent_entails_right (SI_pointsTo_agree (st := s') (ℓ := tcLoc d main_v5) (I := Finset.univ) (q := fullShare) (f := outV m d))) $$ [HSI Hv]
  · isplitl [HSI] <;> iassumption
  icases X with ⟨%e5, HSI, -⟩
  ihave Y := (hfin m d s') $$ [HF HSI]
  · isplitl [HF] <;> iassumption
  icases Y with %ef
  ipureintro; exact ⟨funext fun i => e5 i (Finset.mem_univ i), ef⟩

/-- The post of the kernel's run with its result named. -/
def QV : PUnit × MemSt nD τ sig (Elt Ideal) → Prop := fun r => ∀ c : Dev nD,
  r.2.mem (tcLoc c main_v5) = Cert.Spec.G (m (tcLoc c main_arg0)) (m (tcLoc c main_arg1)) (m (tcLoc c main_arg2)) (m (tcLoc c main_arg3))
      (m (tcLoc c main_arg4)) (m (tcLoc c main_arg5)) (m (tcLoc c main_arg6)) (m (tcLoc c main_arg7))
    ∧ r.2.mem (tcLoc c main_arg0) = m (tcLoc c main_arg0) ∧ r.2.mem (tcLoc c main_arg1) = m (tcLoc c main_arg1)
    ∧ r.2.mem (tcLoc c main_arg2) = m (tcLoc c main_arg2) ∧ r.2.mem (tcLoc c main_arg3) = m (tcLoc c main_arg3)
    ∧ r.2.mem (tcLoc c main_arg4) = m (tcLoc c main_arg4) ∧ r.2.mem (tcLoc c main_arg5) = m (tcLoc c main_arg5)
    ∧ r.2.mem (tcLoc c main_arg6) = m (tcLoc c main_arg6) ∧ r.2.mem (tcLoc c main_arg7) = m (tcLoc c main_arg7)

/-- The whole program runs to the end from the launch memory `m`, faulting nowhere, leaves the arguments as they were
    and the result the function of the arguments that both programs compute: given the tile's body with its values. -/
theorem run_mainV (hbody : TileBodyV m) (hpre : PreOK m) :
    θ_run (Cert.KernelIdeal.defs (F := Ideal)) (Cert.KernelIdeal.threads (F := Ideal)) ⟨m, fun _ => 0, ρ⟩ (QV m) :=
  SparseCore.Cfg.θ_run_sc (K := K (F := Ideal)) (D := D (F := Ideal)) (𝒱 := 𝒱) (EH := EH) (P := PV m) facts v₀
    (fun q hq => match q with | 0 => nomatch hq)
    (fun q _ => match q with | 0 => tileOblV m hbody hpre)
    (fun q _ => match q with | 0 => SparseCore.Cfg.VecSplit.of_plain (vecSplitV m))
    m ρ main (fun _ => iprop(emp)) (FINV m) (u₀ (F := Ideal)) (sep_elim_left.trans (hu₀V m)) (hmainV m ρ) (fqV m) (hfinV m) (QV m)
    (fun s' h c => ⟨(h c).1.trans (outV_eq m c), (h c).2⟩)

/-- The kernel's run with its result named, given the tile's body with its values. -/
theorem kernelValue_of_body (hbody : ∀ m, TileBodyV m) : Cert.Proof.KernelValue := fun m ρ hpre =>
  (θ_run Cert.KernelIdeal.defs _ _).mono (fun _ h c => h c) (run_mainV m ρ (hbody m) (ok_of_pre m hpre))

end Cert.Proof.KI

end
-- ==== Proof.KValInitOut.lean ====
/-
  The bias-initialisation loop and the output loop of a tile, with contents stated as the stores leave them.

  Trip `k` of the initialisation loop stores the ten bias vectors `v7 … v43` into the sixteen accumulator entries
  `acc[h, 16·k + lane]`, `h < 10` (`upd1`); `acc1 n` is the accumulator after the first `n` trips.
  Trip `k` of the output loop reads the ten accumulator rows at the sixteen samples `16·k + lane` and stores, into the
  sixteen output entries `out[16·k + lane]`, the value the kernel computes from them, the second-layer weights
  `v51 … v87` and the bias `v91` (`upd13`, the kernel's own term); `out13 n` is the output scratch after the first `n`
  trips. The accumulator is only read there and stays at its contents `fa`.
-/
import proofs.«214512_g89103391522852_cont_sun_m_1157_25_alg».proof.Proof.KLoopOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- The accumulator after trip `k` of the initialisation loop, over its contents `f` before the trip. -/
def upd1 (v7 v11 v15 v19 v23 v27 v31 v35 v39 v43 : Vec F S16 .f32) (k : Fin k0_t1_loop.trips) (f : S10x512.Idx → Elt F .f32) : S10x512.Idx → Elt F .f32 :=
  (accS).view.writes (Elt F) f
    [⟨Rect.unit (s := S10x512) (k0_off11 k) S1x16.size (k0_off11_inb k), shapeCast S1x16 v43 shapeCasts_S16_S1x16⟩,
      ⟨Rect.unit (s := S10x512) (k0_off10 k) S1x16.size (k0_off10_inb k), shapeCast S1x16 v39 shapeCasts_S16_S1x16⟩,
      ⟨Rect.unit (s := S10x512) (k0_off9 k) S1x16.size (k0_off9_inb k), shapeCast S1x16 v35 shapeCasts_S16_S1x16⟩,
      ⟨Rect.unit (s := S10x512) (k0_off8 k) S1x16.size (k0_off8_inb k), shapeCast S1x16 v31 shapeCasts_S16_S1x16⟩,
      ⟨Rect.unit (s := S10x512) (k0_off7 k) S1x16.size (k0_off7_inb k), shapeCast S1x16 v27 shapeCasts_S16_S1x16⟩,
      ⟨Rect.unit (s := S10x512) (k0_off6 k) S1x16.size (k0_off6_inb k), shapeCast S1x16 v23 shapeCasts_S16_S1x16⟩,
      ⟨Rect.unit (s := S10x512) (k0_off5 k) S1x16.size (k0_off5_inb k), shapeCast S1x16 v19 shapeCasts_S16_S1x16⟩,
      ⟨Rect.unit (s := S10x512) (k0_off4 k) S1x16.size (k0_off4_inb k), shapeCast S1x16 v15 shapeCasts_S16_S1x16⟩,
      ⟨Rect.unit (s := S10x512) (k0_off3 k) S1x16.size (k0_off3_inb k), shapeCast S1x16 v11 shapeCasts_S16_S1x16⟩,
      ⟨Rect.unit (s := S10x512) (k0_off2 k) S1x16.size (k0_off2_inb k), shapeCast S1x16 v7 shapeCasts_S16_S1x16⟩]

/-- The accumulator after the first `n` trips of the initialisation loop, from contents `f0`. -/
@[reducible] def acc1 (v7 v11 v15 v19 v23 v27 v31 v35 v39 v43 : Vec F S16 .f32) (f0 : S10x512.Idx → Elt F .f32) (n : Nat) : S10x512.Idx → Elt F .f32 :=
  Nat.rec (motive := fun _ => S10x512.Idx → Elt F .f32) f0
    (fun i prev => if hi : i < k0_t1_loop.trips then upd1 (F := F) v7 v11 v15 v19 v23 v27 v31 v35 v39 v43 ⟨i, hi⟩ prev else prev) n

theorem acc1_succ (v7 v11 v15 v19 v23 v27 v31 v35 v39 v43 : Vec F S16 .f32) (f0 : S10x512.Idx → Elt F .f32) (k : Fin k0_t1_loop.trips) :
    acc1 (F := F) v7 v11 v15 v19 v23 v27 v31 v35 v39 v43 f0 (k.val + 1) = upd1 (F := F) v7 v11 v15 v19 v23 v27 v31 v35 v39 v43 k (acc1 (F := F) v7 v11 v15 v19 v23 v27 v31 v35 v39 v43 f0 k.val) := by
  show (if hi : k.val < k0_t1_loop.trips then _ else _) = _
  rw [dif_pos k.isLt]

/-- One trip of the initialisation loop takes the accumulator from `acc1 k` to `acc1 (k + 1)`. -/
theorem t1_val_step (v3 : IVec S16 32) (v7 v11 v15 v19 v23 : Vec F S16 .f32) (v24 : IVec S16 32) (c1285_i32 : BitVec 32) (v27 v31 v35 v39 v43 : Vec F S16 .f32) (f0 : S10x512.Idx → Elt F .f32) (k : Fin k0_t1_loop.trips) (acc : Unit) :
    ((accS).view.loc (thr d L) ↦{fullShare} acc1 (F := F) v7 v11 v15 v19 v23 v27 v31 v35 v39 v43 f0 k.val : sProp 𝕄)
      ⊢ wp frame (wpE (defs₀ (F := F)) 𝒱₀ (thr d L) none) Set.univ (k0_t1_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 v27 v31 v35 v39 v43 k acc)
          (fun _ => ((accS).view.loc (thr d L) ↦{fullShare} acc1 (F := F) v7 v11 v15 v19 v23 v27 v31 v35 v39 v43 f0 (k.val + 1) : sProp 𝕄)) := by
  rw [acc1_succ]
  generalize acc1 (F := F) v7 v11 v15 v19 v23 v27 v31 v35 v39 v43 f0 k.val = f5
  iintro H5
  repeat (sl_exec; unfold SparseCore.vectorLoadIdx)
  sl_exec
  sl_step
  sl_unfold_run_names
  unfold upd1
  iexact H5

set_option warn.classDefReducibility false in
/-- The initialisation loop's invariant with values: the accumulator at `acc1 n` from its contents `f0` at entry. -/
@[sl_loop] def invT1val (v3 : IVec S16 32) (v7 v11 v15 v19 v23 : Vec F S16 .f32) (v24 : IVec S16 32) (c1285_i32 : BitVec 32) (v27 v31 v35 v39 v43 : Vec F S16 .f32) (f0 : S10x512.Idx → Elt F .f32) :
    LoopInv (M := 𝕄) frame (wpE (defs₀ (F := F)) 𝒱₀ (thr d L) none) Set.univ k0_t1_loop.lb k0_t1_loop.ub k0_t1_loop.st k0_t1_ok ⟨⟩ (k0_t1_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 v27 v31 v35 v39 v43) where
  inv := fun n _ => ((accS).view.loc (thr d L) ↦{fullShare} acc1 (F := F) v7 v11 v15 v19 v23 v27 v31 v35 v39 v43 f0 n : sProp 𝕄)
  step := t1_val_step d L v3 v7 v11 v15 v19 v23 v24 c1285_i32 v27 v31 v35 v39 v43 f0

/-- The output scratch after trip `k` of the output loop, over its contents `f` before the trip; `fa` the accumulator. -/
def upd13 (v51 v55 v59 v63 v67 v71 v75 v79 v83 v87 v91 : Vec F S16 .f32) (fa : S10x512.Idx → Elt F .f32) (k : Fin k0_t13_loop.trips) (f : S512.Idx → Elt F .f32) : S512.Idx → Elt F .f32 :=
  (outS).view.writes (Elt F) f
    [⟨Rect.unit (s := S512) (k0_off314 k) S16.size (k0_off314_inb k), k0_pay3 (k0_pay246 v71 v75 v79 v83 (k0_pay244 v51 v55 v59 v63 v91 (View.readAt (Elt F) (Memref.whole cc0_scratch5).view (Rect.unit (s := S10x512) (k0_off304 k) S1x16.size (k0_off304_inb k)).toLoadRect fa) (View.readAt (Elt F) (Memref.whole cc0_scratch5).view (Rect.unit (s := S10x512) (k0_off305 k) S1x16.size (k0_off305_inb k)).toLoadRect fa) (View.readAt (Elt F) (Memref.whole cc0_scratch5).view (Rect.unit (s := S10x512) (k0_off306 k) S1x16.size (k0_off306_inb k)).toLoadRect fa) (View.readAt (Elt F) (Memref.whole cc0_scratch5).view (Rect.unit (s := S10x512) (k0_off307 k) S1x16.size (k0_off307_inb k)).toLoadRect fa)) (k0_pay245 v67 (View.readAt (Elt F) (Memref.whole cc0_scratch5).view (Rect.unit (s := S10x512) (k0_off308 k) S1x16.size (k0_off308_inb k)).toLoadRect fa)) (View.readAt (Elt F) (Memref.whole cc0_scratch5).view (Rect.unit (s := S10x512) (k0_off309 k) S1x16.size (k0_off309_inb k)).toLoadRect fa) (View.readAt (Elt F) (Memref.whole cc0_scratch5).view (Rect.unit (s := S10x512) (k0_off310 k) S1x16.size (k0_off310_inb k)).toLoadRect fa) (View.readAt (Elt F) (Memref.whole cc0_scratch5).view (Rect.unit (s := S10x512) (k0_off311 k) S1x16.size (k0_off311_inb k)).toLoadRect fa) (View.readAt (Elt F) (Memref.whole cc0_scratch5).view (Rect.unit (s := S10x512) (k0_off312 k) S1x16.size (k0_off312_inb k)).toLoadRect fa)) (k0_pay247 v87 (View.readAt (Elt F) (Memref.whole cc0_scratch5).view (Rect.unit (s := S10x512) (k0_off313 k) S1x16.size (k0_off313_inb k)).toLoadRect fa))⟩]

/-- The output scratch after the first `n` trips of the output loop, from contents `f0`. -/
@[reducible] def out13 (v51 v55 v59 v63 v67 v71 v75 v79 v83 v87 v91 : Vec F S16 .f32) (fa : S10x512.Idx → Elt F .f32) (f0 : S512.Idx → Elt F .f32) (n : Nat) : S512.Idx → Elt F .f32 :=
  Nat.rec (motive := fun _ => S512.Idx → Elt F .f32) f0
    (fun i prev => if hi : i < k0_t13_loop.trips then upd13 (F := F) v51 v55 v59 v63 v67 v71 v75 v79 v83 v87 v91 fa ⟨i, hi⟩ prev else prev) n

theorem out13_succ (v51 v55 v59 v63 v67 v71 v75 v79 v83 v87 v91 : Vec F S16 .f32) (fa : S10x512.Idx → Elt F .f32) (f0 : S512.Idx → Elt F .f32) (k : Fin k0_t13_loop.trips) :
    out13 (F := F) v51 v55 v59 v63 v67 v71 v75 v79 v83 v87 v91 fa f0 (k.val + 1) = upd13 (F := F) v51 v55 v59 v63 v67 v71 v75 v79 v83 v87 v91 fa k (out13 (F := F) v51 v55 v59 v63 v67 v71 v75 v79 v83 v87 v91 fa f0 k.val) := by
  show (if hi : k.val < k0_t13_loop.trips then _ else _) = _
  rw [dif_pos k.isLt]

/-- What the output loop holds before trip `n`: the accumulator at `fa`, the output scratch at `out13 n`. -/
def outVal (v51 v55 v59 v63 v67 v71 v75 v79 v83 v87 v91 : Vec F S16 .f32) (fa : S10x512.Idx → Elt F .f32) (f0 : S512.Idx → Elt F .f32) (n : Nat) : sProp 𝕄 :=
  iprop(((accS).view.loc (thr d L) ↦{fullShare} fa) ∗ ((outS).view.loc (thr d L) ↦{fullShare} out13 (F := F) v51 v55 v59 v63 v67 v71 v75 v79 v83 v87 v91 fa f0 n))

/-- One trip of the output loop takes the output scratch from `out13 k` to `out13 (k + 1)`. -/
theorem t13_val_step (v51 v55 v59 v63 v67 v71 v75 v79 v83 v87 v91 : Vec F S16 .f32) (fa : S10x512.Idx → Elt F .f32) (f0 : S512.Idx → Elt F .f32) (k : Fin k0_t13_loop.trips) (acc : Unit) :
    outVal (F := F) d L v51 v55 v59 v63 v67 v71 v75 v79 v83 v87 v91 fa f0 k.val
      ⊢ wp frame (wpE (defs₀ (F := F)) 𝒱₀ (thr d L) none) Set.univ (k0_t13_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v51 v55 v59 v63 v67 v71 v75 v79 v83 v87 v91 k acc) (fun _ => outVal (F := F) d L v51 v55 v59 v63 v67 v71 v75 v79 v83 v87 v91 fa f0 (k.val + 1)) := by
  unfold outVal
  rw [out13_succ]
  generalize out13 (F := F) v51 v55 v59 v63 v67 v71 v75 v79 v83 v87 v91 fa f0 k.val = f6
  iintro ⟨H5, H6⟩
  repeat (sl_exec; unfold SparseCore.vectorLoadIdx)
  sl_exec
  sl_step
  isplitl [H5]
  · iexact H5
  · sl_unfold_run_names
    unfold upd13
    iexact H6

set_option warn.classDefReducibility false in
/-- The output loop's invariant with values. -/
@[sl_loop] def invT13val (v51 v55 v59 v63 v67 v71 v75 v79 v83 v87 v91 : Vec F S16 .f32) (fa : S10x512.Idx → Elt F .f32) (f0 : S512.Idx → Elt F .f32) :
    LoopInv (M := 𝕄) frame (wpE (defs₀ (F := F)) 𝒱₀ (thr d L) none) Set.univ k0_t13_loop.lb k0_t13_loop.ub k0_t13_loop.st k0_t13_ok ⟨⟩ (k0_t13_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v51 v55 v59 v63 v67 v71 v75 v79 v83 v87 v91) where
  inv := fun n _ => outVal (F := F) d L v51 v55 v59 v63 v67 v71 v75 v79 v83 v87 v91 fa f0 n
  step := t13_val_step d L v51 v55 v59 v63 v67 v71 v75 v79 v83 v87 v91 fa f0

end Tile

end Cert.Proof.KI

end
-- ==== Proof.KValL1U.lean ====
/-
  The inner first-layer loop on the user half, with the accumulator's contents stated as the stores leave them.

  One trip `k` of the inner loop gathers, for its sixteen rows `16·k + lane` of the half, the four features
  `4·k7 + 0 … 3`, rectifies them (`xU0 … xU3`), and for each of the ten hidden units `h` replaces the sixteen
  accumulator entries `acc[h, 128·k4 + 16·k + lane]` by
      (((acc + x0·w0h) + x1·w1h) + x2·w2h) + x3·w3h        (lane by lane, in this order of additions),
  `w·h` the forty weight vectors the outer trip read. `upd8` is the accumulator after that trip, as a list of ten
  writes over the contents before it; `acc8 n` is the accumulator after the first `n` trips. The loop's invariant
  holds the half at its contents and the accumulator at `acc8 n`.
-/
import proofs.«214512_g89103391522852_cont_sun_m_1157_25_alg».proof.Proof.KLoopL1U

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- Feature `4·k7 + 0` of the sixteen rows of inner trip `k`, rectified: lane `l` is `max (g[16·k + v3 l, v114 + 0]) 0`. -/
def xU0 (v3 : IVec S16 32) (v114 : BitVec 32) (k0_t4 : Fin k0_t4_loop.trips) (g : Buf (Elt F) ((halfU k0_t4).view.loc (thr d L)))
    (k : Fin k0_t8_loop.trips) (c115 : k0_chk115 (k0_pay66 v3 0#32 1#32 k) (k0_pay67 v114)) : FVec F S16 .f32 :=
  k0_pay68 (loadIdx (View.readAt (Elt F) (halfU k0_t4).view (LoadRect.whole S128x64) g) ![k0_pay66 v3 (0#32) (1#32) k, k0_pay67 v114] (k0_idx51_inb _ _ c115))

/-- Feature `4·k7 + 1` of the sixteen rows of inner trip `k`, rectified: lane `l` is `max (g[16·k + v3 l, v114 + 1]) 0`. -/
def xU1 (v3 : IVec S16 32) (v114 : BitVec 32) (k0_t4 : Fin k0_t4_loop.trips) (g : Buf (Elt F) ((halfU k0_t4).view.loc (thr d L)))
    (k : Fin k0_t8_loop.trips) (c116 : k0_chk116 (k0_pay66 v3 0#32 1#32 k) (k0_pay69 v114)) : FVec F S16 .f32 :=
  k0_pay70 (loadIdx (View.readAt (Elt F) (halfU k0_t4).view (LoadRect.whole S128x64) g) ![k0_pay66 v3 (0#32) (1#32) k, k0_pay69 v114] (k0_idx52_inb _ _ c116))

/-- Feature `4·k7 + 2` of the sixteen rows of inner trip `k`, rectified: lane `l` is `max (g[16·k + v3 l, v114 + 2]) 0`. -/
def xU2 (v3 : IVec S16 32) (v114 : BitVec 32) (k0_t4 : Fin k0_t4_loop.trips) (g : Buf (Elt F) ((halfU k0_t4).view.loc (thr d L)))
    (k : Fin k0_t8_loop.trips) (c117 : k0_chk117 (k0_pay66 v3 0#32 1#32 k) (k0_pay71 v114)) : FVec F S16 .f32 :=
  k0_pay72 (loadIdx (View.readAt (Elt F) (halfU k0_t4).view (LoadRect.whole S128x64) g) ![k0_pay66 v3 (0#32) (1#32) k, k0_pay71 v114] (k0_idx53_inb _ _ c117))

/-- Feature `4·k7 + 3` of the sixteen rows of inner trip `k`, rectified: lane `l` is `max (g[16·k + v3 l, v114 + 3]) 0`. -/
def xU3 (v3 : IVec S16 32) (v114 : BitVec 32) (k0_t4 : Fin k0_t4_loop.trips) (g : Buf (Elt F) ((halfU k0_t4).view.loc (thr d L)))
    (k : Fin k0_t8_loop.trips) (c118 : k0_chk118 (k0_pay66 v3 0#32 1#32 k) (k0_pay73 v114)) : FVec F S16 .f32 :=
  k0_pay74 (loadIdx (View.readAt (Elt F) (halfU k0_t4).view (LoadRect.whole S128x64) g) ![k0_pay66 v3 (0#32) (1#32) k, k0_pay73 v114] (k0_idx54_inb _ _ c118))

/-- The accumulator after inner trip `k`, over its contents `f` before the trip: ten writes, the last store first. -/
def upd8 (v3 : IVec S16 32) (v114 : BitVec 32) (k0_t4 : Fin k0_t4_loop.trips) (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
    (g : Buf (Elt F) ((halfU k0_t4).view.loc (thr d L))) (k : Fin k0_t8_loop.trips)
    (c115 : k0_chk115 (k0_pay66 v3 0#32 1#32 k) (k0_pay67 v114)) (c116 : k0_chk116 (k0_pay66 v3 0#32 1#32 k) (k0_pay69 v114)) (c117 : k0_chk117 (k0_pay66 v3 0#32 1#32 k) (k0_pay71 v114)) (c118 : k0_chk118 (k0_pay66 v3 0#32 1#32 k) (k0_pay73 v114))
    (f : S10x512.Idx → Elt F .f32) : S10x512.Idx → Elt F .f32 :=
  (accS).view.writes (Elt F) f
    [⟨Rect.unit (s := S10x512) (k0_off157 k0_t4 k) S1x16.size (k0_off157_inb k0_t4 k), shapeCast S1x16 (k0_pay264 v194 v274 v354 v434 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off157 k0_t4 k) S1x16.size (k0_off157_inb k0_t4 k)).toLoadRect f)) shapeCasts_S16_S1x16⟩,
      ⟨Rect.unit (s := S10x512) (k0_off156 k0_t4 k) S1x16.size (k0_off156_inb k0_t4 k), shapeCast S1x16 (k0_pay263 v266 v346 v426 (xU1 (F := F) d L v3 v114 k0_t4 g k c116) (xU2 (F := F) d L v3 v114 k0_t4 g k c117) (xU3 (F := F) d L v3 v114 k0_t4 g k c118) (k0_pay83 (View.readAt (Elt F) (Memref.whole cc0_scratch5).view (Rect.unit (s := S10x512) (k0_off156 k0_t4 k) S1x16.size (k0_off156_inb k0_t4 k)).toLoadRect f)) (k0_pay84 v186 (xU0 (F := F) d L v3 v114 k0_t4 g k c115))) shapeCasts_S16_S1x16⟩,
      ⟨Rect.unit (s := S10x512) (k0_off155 k0_t4 k) S1x16.size (k0_off155_inb k0_t4 k), shapeCast S1x16 (k0_pay82 v178 v258 v338 v418 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off155 k0_t4 k) S1x16.size (k0_off155_inb k0_t4 k)).toLoadRect f)) shapeCasts_S16_S1x16⟩,
      ⟨Rect.unit (s := S10x512) (k0_off154 k0_t4 k) S1x16.size (k0_off154_inb k0_t4 k), shapeCast S1x16 (k0_pay81 v170 v250 v330 v410 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off154 k0_t4 k) S1x16.size (k0_off154_inb k0_t4 k)).toLoadRect f)) shapeCasts_S16_S1x16⟩,
      ⟨Rect.unit (s := S10x512) (k0_off153 k0_t4 k) S1x16.size (k0_off153_inb k0_t4 k), shapeCast S1x16 (k0_pay80 v162 v242 v322 v402 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off153 k0_t4 k) S1x16.size (k0_off153_inb k0_t4 k)).toLoadRect f)) shapeCasts_S16_S1x16⟩,
      ⟨Rect.unit (s := S10x512) (k0_off152 k0_t4 k) S1x16.size (k0_off152_inb k0_t4 k), shapeCast S1x16 (k0_pay79 v154 v234 v314 v394 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off152 k0_t4 k) S1x16.size (k0_off152_inb k0_t4 k)).toLoadRect f)) shapeCasts_S16_S1x16⟩,
      ⟨Rect.unit (s := S10x512) (k0_off151 k0_t4 k) S1x16.size (k0_off151_inb k0_t4 k), shapeCast S1x16 (k0_pay78 v146 v226 v306 v386 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off151 k0_t4 k) S1x16.size (k0_off151_inb k0_t4 k)).toLoadRect f)) shapeCasts_S16_S1x16⟩,
      ⟨Rect.unit (s := S10x512) (k0_off150 k0_t4 k) S1x16.size (k0_off150_inb k0_t4 k), shapeCast S1x16 (k0_pay77 v138 v218 v298 v378 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off150 k0_t4 k) S1x16.size (k0_off150_inb k0_t4 k)).toLoadRect f)) shapeCasts_S16_S1x16⟩,
      ⟨Rect.unit (s := S10x512) (k0_off149 k0_t4 k) S1x16.size (k0_off149_inb k0_t4 k), shapeCast S1x16 (k0_pay76 v130 v210 v290 v370 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off149 k0_t4 k) S1x16.size (k0_off149_inb k0_t4 k)).toLoadRect f)) shapeCasts_S16_S1x16⟩,
      ⟨Rect.unit (s := S10x512) (k0_off148 k0_t4 k) S1x16.size (k0_off148_inb k0_t4 k), shapeCast S1x16 (k0_pay75 v122 v202 v282 v362 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off148 k0_t4 k) S1x16.size (k0_off148_inb k0_t4 k)).toLoadRect f)) shapeCasts_S16_S1x16⟩]

/-- The accumulator after the first `n` inner trips, from contents `f0`. -/
@[reducible] def acc8 (v3 : IVec S16 32) (v114 : BitVec 32) (k0_t4 : Fin k0_t4_loop.trips) (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
    (g : Buf (Elt F) ((halfU k0_t4).view.loc (thr d L)))
    (h115 : ∀ k8 : Fin k0_t8_loop.trips, k0_chk115 (k0_pay66 v3 0#32 1#32 k8) (k0_pay67 v114))
    (h116 : ∀ k8 : Fin k0_t8_loop.trips, k0_chk116 (k0_pay66 v3 0#32 1#32 k8) (k0_pay69 v114))
    (h117 : ∀ k8 : Fin k0_t8_loop.trips, k0_chk117 (k0_pay66 v3 0#32 1#32 k8) (k0_pay71 v114))
    (h118 : ∀ k8 : Fin k0_t8_loop.trips, k0_chk118 (k0_pay66 v3 0#32 1#32 k8) (k0_pay73 v114))
    (f0 : S10x512.Idx → Elt F .f32) (n : Nat) : S10x512.Idx → Elt F .f32 :=
  Nat.rec (motive := fun _ => S10x512.Idx → Elt F .f32) f0
    (fun i prev => if hi : i < k0_t8_loop.trips then
      upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g ⟨i, hi⟩ (h115 ⟨i, hi⟩) (h116 ⟨i, hi⟩) (h117 ⟨i, hi⟩) (h118 ⟨i, hi⟩) prev else prev) n

theorem acc8_succ (v3 : IVec S16 32) (v114 : BitVec 32) (k0_t4 : Fin k0_t4_loop.trips) (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
    (g : Buf (Elt F) ((halfU k0_t4).view.loc (thr d L)))
    (h115 : ∀ k8 : Fin k0_t8_loop.trips, k0_chk115 (k0_pay66 v3 0#32 1#32 k8) (k0_pay67 v114))
    (h116 : ∀ k8 : Fin k0_t8_loop.trips, k0_chk116 (k0_pay66 v3 0#32 1#32 k8) (k0_pay69 v114))
    (h117 : ∀ k8 : Fin k0_t8_loop.trips, k0_chk117 (k0_pay66 v3 0#32 1#32 k8) (k0_pay71 v114))
    (h118 : ∀ k8 : Fin k0_t8_loop.trips, k0_chk118 (k0_pay66 v3 0#32 1#32 k8) (k0_pay73 v114))
    (f0 : S10x512.Idx → Elt F .f32) (k : Fin k0_t8_loop.trips) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 (k.val + 1)
      = upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k (h115 k) (h116 k) (h117 k) (h118 k) (acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val) := by
  show (if hi : k.val < k0_t8_loop.trips then _ else _) = _
  rw [dif_pos k.isLt]

/-- What the inner loop holds before trip `n`: the half at `g`, the accumulator at `acc8 n`. -/
def l1uVal (v3 : IVec S16 32) (v114 : BitVec 32) (k0_t4 : Fin k0_t4_loop.trips) (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
    (g : Buf (Elt F) ((halfU k0_t4).view.loc (thr d L)))
    (h115 : ∀ k8 : Fin k0_t8_loop.trips, k0_chk115 (k0_pay66 v3 0#32 1#32 k8) (k0_pay67 v114))
    (h116 : ∀ k8 : Fin k0_t8_loop.trips, k0_chk116 (k0_pay66 v3 0#32 1#32 k8) (k0_pay69 v114))
    (h117 : ∀ k8 : Fin k0_t8_loop.trips, k0_chk117 (k0_pay66 v3 0#32 1#32 k8) (k0_pay71 v114))
    (h118 : ∀ k8 : Fin k0_t8_loop.trips, k0_chk118 (k0_pay66 v3 0#32 1#32 k8) (k0_pay73 v114))
    (f0 : S10x512.Idx → Elt F .f32) (n : Nat) : sProp 𝕄 :=
  iprop(((halfU k0_t4).view.loc (thr d L) ↦[(halfU k0_t4).view.set]{fullShare} g)
    ∗ ((accS).view.loc (thr d L) ↦{fullShare} acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n))

/-- One trip of the inner loop takes the accumulator from `acc8 k` to `acc8 (k + 1)`. -/
theorem t8_val_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h115 : ∀ k8 : Fin k0_t8_loop.trips, k0_chk115 (k0_pay66 v3 0#32 1#32 k8) (k0_pay67 v114))
    (h116 : ∀ k8 : Fin k0_t8_loop.trips, k0_chk116 (k0_pay66 v3 0#32 1#32 k8) (k0_pay69 v114))
    (h117 : ∀ k8 : Fin k0_t8_loop.trips, k0_chk117 (k0_pay66 v3 0#32 1#32 k8) (k0_pay71 v114))
    (h118 : ∀ k8 : Fin k0_t8_loop.trips, k0_chk118 (k0_pay66 v3 0#32 1#32 k8) (k0_pay73 v114))
    (g : Buf (Elt F) ((halfU k0_t4).view.loc (thr d L))) (f0 : S10x512.Idx → Elt F .f32) (k : Fin k0_t8_loop.trips) (acc : Unit) :
    l1uVal (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val
      ⊢ wp frame (wpE (defs₀ (F := F)) 𝒱₀ (thr d L) none) Set.univ (k0_t8_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 k acc)
          (fun _ => l1uVal (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 (k.val + 1)) := by
  unfold l1uVal
  rw [acc8_succ]
  generalize acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val = f5
  iintro ⟨Hh, H5⟩
  have c115 := h115 k
  have c116 := h116 k
  have c117 := h117 k
  have c118 := h118 k
  repeat (sl_exec; unfold SparseCore.vectorLoadIdx)
  sl_exec
  sl_step
  isplitl [Hh]
  · iexact Hh
  · sl_unfold_run_names
    unfold upd8 xU0 xU1 xU2 xU3
    iexact H5

set_option warn.classDefReducibility false in
/-- The inner loop's invariant with values: the half at `g`, the accumulator at `acc8 n` from its contents `f0` at entry. -/
@[sl_loop] def invT8val (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h115 : ∀ k8 : Fin k0_t8_loop.trips, k0_chk115 (k0_pay66 v3 0#32 1#32 k8) (k0_pay67 v114))
    (h116 : ∀ k8 : Fin k0_t8_loop.trips, k0_chk116 (k0_pay66 v3 0#32 1#32 k8) (k0_pay69 v114))
    (h117 : ∀ k8 : Fin k0_t8_loop.trips, k0_chk117 (k0_pay66 v3 0#32 1#32 k8) (k0_pay71 v114))
    (h118 : ∀ k8 : Fin k0_t8_loop.trips, k0_chk118 (k0_pay66 v3 0#32 1#32 k8) (k0_pay73 v114))
    (g : Buf (Elt F) ((halfU k0_t4).view.loc (thr d L))) (f0 : S10x512.Idx → Elt F .f32) :
    LoopInv (M := 𝕄) frame (wpE (defs₀ (F := F)) 𝒱₀ (thr d L) none) Set.univ k0_t8_loop.lb k0_t8_loop.ub k0_t8_loop.st k0_t8_ok ⟨⟩ (k0_t8_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434) where
  inv := fun n _ => l1uVal (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n
  step := t8_val_step d L v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 h115 h116 h117 h118 g f0

end Tile

end Cert.Proof.KI

end
-- ==== Proof.KValL1U7.lean ====
/-
  The outer first-layer loop on the user half, with the accumulator's contents stated as the stores leave them.

  Outer trip `k7` reads forty weights out of the parameter scratch as lane-constant vectors — weight `(kk, h)`,
  `kk < 4`, `h < 10`, is entry `(4·k7 + kk)·10 + h` of the parameters, read at all sixteen lanes (`wU`) — and runs the
  inner loop with them on the features `4·k7 + kk`. `acc7 n` is the accumulator after the first `n` outer trips: each
  trip is the inner loop's eight trips (`acc8 … 8`) at that trip's weights. The loop's invariant holds the parameters
  and the half at their contents and the accumulator at `acc7 n`.
-/
import proofs.«214512_g89103391522852_cont_sun_m_1157_25_alg».proof.Proof.KValL1U

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- The sixteen-lane index vector of weight `(kk, h)` at outer trip `k7`: every lane is `(4·k7 + kk)·10 + h`. -/
def wIdx (k7 : Fin k0_t7_loop.trips) (kk h : BitVec 32) : IVec S16 32 :=
  muli (broadcast S16 1#32) (broadcast S16 (Scalar.addi (Scalar.addi (0#32) (Scalar.muli (Scalar.addi (Scalar.muli (Scf.iv 0#32 1#32 k7) 4#32) kk) 10#32)) h))

theorem wIdx_inb_fin : ∀ (k7 : Fin k0_t7_loop.trips) (kk : Fin 4) (h : Fin 10), ∀ a x,
    ((![wIdx k7 (BitVec.ofNat 32 kk.val) (BitVec.ofNat 32 h.val)] : Fin 1 → IVec S16 32) a x).toNat < S1312.size a := by
  decide +kernel

theorem wIdx_inb (k7 : Fin k0_t7_loop.trips) (kk h : BitVec 32) (hkk : kk.toNat < 4) (hh : h.toNat < 10) : ∀ a x,
    ((![wIdx k7 kk h] : Fin 1 → IVec S16 32) a x).toNat < S1312.size a := by
  have e1 : BitVec.ofNat 32 kk.toNat = kk := by simp
  have e2 : BitVec.ofNat 32 h.toNat = h := by simp
  have := wIdx_inb_fin k7 ⟨kk.toNat, hkk⟩ ⟨h.toNat, hh⟩
  rwa [e1, e2] at this

theorem w38_inb : ∀ (k7 : Fin k0_t7_loop.trips), ∀ a x,
    ((![k0_pay261 (Scalar.muli (Scalar.addi (Scalar.muli (Scf.iv 0#32 1#32 k7) 4#32) 3#32) 10#32) 0#32] : Fin 1 → IVec S16 32) a x).toNat < S1312.size a := by
  decide +kernel

theorem w39_inb : ∀ (k7 : Fin k0_t7_loop.trips), ∀ a x,
    ((![k0_pay262 (Scalar.muli (Scf.iv 0#32 1#32 k7) 4#32)] : Fin 1 → IVec S16 32) a x).toNat < S1312.size a := by
  decide +kernel

/-- Weight `(kk, h)` of outer trip `k7`, as the sixteen-lane vector the kernel reads out of the parameters `fp`. -/
def wU (fp : S1312.Idx → Elt F .f32) (k7 : Fin k0_t7_loop.trips) (kk h : BitVec 32) (hkk : kk.toNat < 4) (hh : h.toNat < 10) : Vec F S16 .f32 :=
  loadIdx (View.readAt (Elt F) (parS).view (LoadRect.whole S1312) fp) ![wIdx k7 kk h] (wIdx_inb k7 kk h hkk hh)

/-- Weights `(3, 8)` and `(3, 9)`, whose index vectors the kernel computes after the others. -/
def wU38 (fp : S1312.Idx → Elt F .f32) (k7 : Fin k0_t7_loop.trips) : Vec F S16 .f32 :=
  loadIdx (View.readAt (Elt F) (parS).view (LoadRect.whole S1312) fp) ![k0_pay261 (Scalar.muli (Scalar.addi (Scalar.muli (Scf.iv 0#32 1#32 k7) 4#32) 3#32) 10#32) 0#32] (w38_inb k7)
def wU39 (fp : S1312.Idx → Elt F .f32) (k7 : Fin k0_t7_loop.trips) : Vec F S16 .f32 :=
  loadIdx (View.readAt (Elt F) (parS).view (LoadRect.whole S1312) fp) ![k0_pay262 (Scalar.muli (Scf.iv 0#32 1#32 k7) 4#32)] (w39_inb k7)

/-- The accumulator after outer trip `k7` (its eight inner trips), over its contents `f` before the trip. -/
def upd7 (v3 : IVec S16 32) (k0_t4 : Fin k0_t4_loop.trips) (fp : S1312.Idx → Elt F .f32)
    (g : Buf (Elt F) ((halfU k0_t4).view.loc (thr d L)))
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (k7 : Fin k0_t7_loop.trips) (f : S10x512.Idx → Elt F .f32) : S10x512.Idx → Elt F .f32 :=
  acc8 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) f k0_t8_loop.trips

/-- The accumulator after the first `n` outer trips, from contents `f0`. -/
@[reducible] def acc7 (v3 : IVec S16 32) (k0_t4 : Fin k0_t4_loop.trips) (fp : S1312.Idx → Elt F .f32)
    (g : Buf (Elt F) ((halfU k0_t4).view.loc (thr d L)))
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (f0 : S10x512.Idx → Elt F .f32) (n : Nat) : S10x512.Idx → Elt F .f32 :=
  Nat.rec (motive := fun _ => S10x512.Idx → Elt F .f32) f0
    (fun i prev => if hi : i < k0_t7_loop.trips then upd7 (F := F) d L v3 k0_t4 fp g H115 H116 H117 H118 ⟨i, hi⟩ prev else prev) n

theorem acc7_succ (v3 : IVec S16 32) (k0_t4 : Fin k0_t4_loop.trips) (fp : S1312.Idx → Elt F .f32)
    (g : Buf (Elt F) ((halfU k0_t4).view.loc (thr d L)))
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (f0 : S10x512.Idx → Elt F .f32) (k : Fin k0_t7_loop.trips) :
    acc7 (F := F) d L v3 k0_t4 fp g H115 H116 H117 H118 f0 (k.val + 1) = upd7 (F := F) d L v3 k0_t4 fp g H115 H116 H117 H118 k (acc7 (F := F) d L v3 k0_t4 fp g H115 H116 H117 H118 f0 k.val) := by
  show (if hi : k.val < k0_t7_loop.trips then _ else _) = _
  rw [dif_pos k.isLt]

/-- What the outer loop holds before trip `n`: the parameters at `fp`, the half at `g`, the accumulator at `acc7 n`. -/
def l1uVal7 (v3 : IVec S16 32) (k0_t4 : Fin k0_t4_loop.trips) (fp : S1312.Idx → Elt F .f32)
    (g : Buf (Elt F) ((halfU k0_t4).view.loc (thr d L)))
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (f0 : S10x512.Idx → Elt F .f32) (n : Nat) : sProp 𝕄 :=
  iprop(((parS).view.loc (thr d L) ↦{fullShare} fp) ∗ ((halfU k0_t4).view.loc (thr d L) ↦[(halfU k0_t4).view.set]{fullShare} g)
    ∗ ((accS).view.loc (thr d L) ↦{fullShare} acc7 (F := F) d L v3 k0_t4 fp g H115 H116 H117 H118 f0 n))

/-- One trip of the outer loop takes the accumulator from `acc7 k` to `acc7 (k + 1)`. -/
theorem t7_val_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (fp : S1312.Idx → Elt F .f32) (g : Buf (Elt F) ((halfU k0_t4).view.loc (thr d L))) (f0 : S10x512.Idx → Elt F .f32)
    (k : Fin k0_t7_loop.trips) (acc : Unit) :
    l1uVal7 (F := F) d L v3 k0_t4 fp g H115 H116 H117 H118 f0 k.val
      ⊢ wp frame (wpE (defs₀ (F := F)) 𝒱₀ (thr d L) none) Set.univ (k0_t7_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 k acc)
          (fun _ => l1uVal7 (F := F) d L v3 k0_t4 fp g H115 H116 H117 H118 f0 (k.val + 1)) := by
  unfold l1uVal7
  rw [acc7_succ]
  generalize acc7 (F := F) d L v3 k0_t4 fp g H115 H116 H117 H118 f0 k.val = f5
  iintro ⟨Hp, Hh, H5⟩
  have h115 := H115 k
  have h116 := H116 k
  have h117 := H117 k
  have h118 := H118 k
  repeat (sl_exec (disch := (clear * - k; decide +kernel +revert)); unfold SparseCore.vectorLoadIdx)
  sl_exec (disch := (clear * - k; decide +kernel +revert))
  sl_step
  isplitl [Hp]
  · iexact Hp
  isplitl [Hh]
  · iexact Hh
  · sl_unfold_run_names
    unfold upd7 wU wU38 wU39 wIdx
    iexact H5

set_option warn.classDefReducibility false in
/-- The outer loop's invariant with values. -/
@[sl_loop] def invT7val (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (fp : S1312.Idx → Elt F .f32) (g : Buf (Elt F) ((halfU k0_t4).view.loc (thr d L))) (f0 : S10x512.Idx → Elt F .f32) :
    LoopInv (M := 𝕄) frame (wpE (defs₀ (F := F)) 𝒱₀ (thr d L) none) Set.univ k0_t7_loop.lb k0_t7_loop.ub k0_t7_loop.st k0_t7_ok ⟨⟩ (k0_t7_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun n _ => l1uVal7 (F := F) d L v3 k0_t4 fp g H115 H116 H117 H118 f0 n
  step := t7_val_step d L v3 v7 v11 v15 v19 v23 v24 c1285_i32 k0_t4 arg19 H115 H116 H117 H118 fp g f0

end Tile

end Cert.Proof.KI

end
-- ==== Proof.KValL1I.lean ====
/-
  The inner first-layer loop on the item half, with the accumulator's contents stated as the stores leave them.

  One trip `k` of the inner loop gathers, for its sixteen rows `16·k + lane` of the half, the four features
  `4·k7 + 0 … 3`, rectifies them (`xI0 … xI3`), and for each of the ten hidden units `h` replaces the sixteen
  accumulator entries `acc[h, 128·k4 + 16·k + lane]` by
      (((acc + x0·w0h) + x1·w1h) + x2·w2h) + x3·w3h        (lane by lane, in this order of additions),
  `w·h` the forty weight vectors the outer trip read. `upd10` is the accumulator after that trip, as a list of ten
  writes over the contents before it; `acc10 n` is the accumulator after the first `n` trips. The loop's invariant
  holds the half at its contents and the accumulator at `acc10 n`.
-/
import proofs.«214512_g89103391522852_cont_sun_m_1157_25_alg».proof.Proof.KLoopL1I

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- Feature `4·k7 + 0` of the sixteen rows of inner trip `k`, rectified: lane `l` is `max (g[16·k + v3 l, v114 + 0]) 0`. -/
def xI0 (v3 : IVec S16 32) (v114 : BitVec 32) (k0_t4 : Fin k0_t4_loop.trips) (g : Buf (Elt F) ((halfI k0_t4).view.loc (thr d L)))
    (k : Fin k0_t10_loop.trips) (c159 : k0_chk159 (k0_pay124 v3 0#32 1#32 k) (k0_pay125 v114)) : FVec F S16 .f32 :=
  k0_pay126 (loadIdx (View.readAt (Elt F) (halfI k0_t4).view (LoadRect.whole S128x64) g) ![k0_pay124 v3 (0#32) (1#32) k, k0_pay125 v114] (k0_idx95_inb _ _ c159))

/-- Feature `4·k7 + 1` of the sixteen rows of inner trip `k`, rectified: lane `l` is `max (g[16·k + v3 l, v114 + 1]) 0`. -/
def xI1 (v3 : IVec S16 32) (v114 : BitVec 32) (k0_t4 : Fin k0_t4_loop.trips) (g : Buf (Elt F) ((halfI k0_t4).view.loc (thr d L)))
    (k : Fin k0_t10_loop.trips) (c160 : k0_chk160 (k0_pay124 v3 0#32 1#32 k) (k0_pay127 v114)) : FVec F S16 .f32 :=
  k0_pay128 (loadIdx (View.readAt (Elt F) (halfI k0_t4).view (LoadRect.whole S128x64) g) ![k0_pay124 v3 (0#32) (1#32) k, k0_pay127 v114] (k0_idx96_inb _ _ c160))

/-- Feature `4·k7 + 2` of the sixteen rows of inner trip `k`, rectified: lane `l` is `max (g[16·k + v3 l, v114 + 2]) 0`. -/
def xI2 (v3 : IVec S16 32) (v114 : BitVec 32) (k0_t4 : Fin k0_t4_loop.trips) (g : Buf (Elt F) ((halfI k0_t4).view.loc (thr d L)))
    (k : Fin k0_t10_loop.trips) (c161 : k0_chk161 (k0_pay124 v3 0#32 1#32 k) (k0_pay129 v114)) : FVec F S16 .f32 :=
  k0_pay130 (loadIdx (View.readAt (Elt F) (halfI k0_t4).view (LoadRect.whole S128x64) g) ![k0_pay124 v3 (0#32) (1#32) k, k0_pay129 v114] (k0_idx97_inb _ _ c161))

/-- Feature `4·k7 + 3` of the sixteen rows of inner trip `k`, rectified: lane `l` is `max (g[16·k + v3 l, v114 + 3]) 0`. -/
def xI3 (v3 : IVec S16 32) (v114 : BitVec 32) (k0_t4 : Fin k0_t4_loop.trips) (g : Buf (Elt F) ((halfI k0_t4).view.loc (thr d L)))
    (k : Fin k0_t10_loop.trips) (c162 : k0_chk162 (k0_pay124 v3 0#32 1#32 k) (k0_pay131 v114)) : FVec F S16 .f32 :=
  k0_pay132 (loadIdx (View.readAt (Elt F) (halfI k0_t4).view (LoadRect.whole S128x64) g) ![k0_pay124 v3 (0#32) (1#32) k, k0_pay131 v114] (k0_idx98_inb _ _ c162))

/-- The accumulator after inner trip `k`, over its contents `f` before the trip: ten writes, the last store first. -/
def upd10 (v3 : IVec S16 32) (v114 : BitVec 32) (k0_t4 : Fin k0_t4_loop.trips) (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
    (g : Buf (Elt F) ((halfI k0_t4).view.loc (thr d L))) (k : Fin k0_t10_loop.trips)
    (c159 : k0_chk159 (k0_pay124 v3 0#32 1#32 k) (k0_pay125 v114)) (c160 : k0_chk160 (k0_pay124 v3 0#32 1#32 k) (k0_pay127 v114)) (c161 : k0_chk161 (k0_pay124 v3 0#32 1#32 k) (k0_pay129 v114)) (c162 : k0_chk162 (k0_pay124 v3 0#32 1#32 k) (k0_pay131 v114))
    (f : S10x512.Idx → Elt F .f32) : S10x512.Idx → Elt F .f32 :=
  (accS).view.writes (Elt F) f
    [⟨Rect.unit (s := S10x512) (k0_off171 k0_t4 k) S1x16.size (k0_off171_inb k0_t4 k), shapeCast S1x16 (k0_pay268 v194 v274 v354 v434 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off171 k0_t4 k) S1x16.size (k0_off171_inb k0_t4 k)).toLoadRect f)) shapeCasts_S16_S1x16⟩,
      ⟨Rect.unit (s := S10x512) (k0_off170 k0_t4 k) S1x16.size (k0_off170_inb k0_t4 k), shapeCast S1x16 (k0_pay267 v266 v346 v426 (xI1 (F := F) d L v3 v114 k0_t4 g k c160) (xI2 (F := F) d L v3 v114 k0_t4 g k c161) (xI3 (F := F) d L v3 v114 k0_t4 g k c162) (k0_pay141 (View.readAt (Elt F) (Memref.whole cc0_scratch5).view (Rect.unit (s := S10x512) (k0_off170 k0_t4 k) S1x16.size (k0_off170_inb k0_t4 k)).toLoadRect f)) (k0_pay142 v186 (xI0 (F := F) d L v3 v114 k0_t4 g k c159))) shapeCasts_S16_S1x16⟩,
      ⟨Rect.unit (s := S10x512) (k0_off169 k0_t4 k) S1x16.size (k0_off169_inb k0_t4 k), shapeCast S1x16 (k0_pay140 v178 v258 v338 v418 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off169 k0_t4 k) S1x16.size (k0_off169_inb k0_t4 k)).toLoadRect f)) shapeCasts_S16_S1x16⟩,
      ⟨Rect.unit (s := S10x512) (k0_off168 k0_t4 k) S1x16.size (k0_off168_inb k0_t4 k), shapeCast S1x16 (k0_pay139 v170 v250 v330 v410 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off168 k0_t4 k) S1x16.size (k0_off168_inb k0_t4 k)).toLoadRect f)) shapeCasts_S16_S1x16⟩,
      ⟨Rect.unit (s := S10x512) (k0_off167 k0_t4 k) S1x16.size (k0_off167_inb k0_t4 k), shapeCast S1x16 (k0_pay138 v162 v242 v322 v402 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off167 k0_t4 k) S1x16.size (k0_off167_inb k0_t4 k)).toLoadRect f)) shapeCasts_S16_S1x16⟩,
      ⟨Rect.unit (s := S10x512) (k0_off166 k0_t4 k) S1x16.size (k0_off166_inb k0_t4 k), shapeCast S1x16 (k0_pay137 v154 v234 v314 v394 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off166 k0_t4 k) S1x16.size (k0_off166_inb k0_t4 k)).toLoadRect f)) shapeCasts_S16_S1x16⟩,
      ⟨Rect.unit (s := S10x512) (k0_off165 k0_t4 k) S1x16.size (k0_off165_inb k0_t4 k), shapeCast S1x16 (k0_pay136 v146 v226 v306 v386 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off165 k0_t4 k) S1x16.size (k0_off165_inb k0_t4 k)).toLoadRect f)) shapeCasts_S16_S1x16⟩,
      ⟨Rect.unit (s := S10x512) (k0_off164 k0_t4 k) S1x16.size (k0_off164_inb k0_t4 k), shapeCast S1x16 (k0_pay135 v138 v218 v298 v378 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off164 k0_t4 k) S1x16.size (k0_off164_inb k0_t4 k)).toLoadRect f)) shapeCasts_S16_S1x16⟩,
      ⟨Rect.unit (s := S10x512) (k0_off163 k0_t4 k) S1x16.size (k0_off163_inb k0_t4 k), shapeCast S1x16 (k0_pay134 v130 v210 v290 v370 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off163 k0_t4 k) S1x16.size (k0_off163_inb k0_t4 k)).toLoadRect f)) shapeCasts_S16_S1x16⟩,
      ⟨Rect.unit (s := S10x512) (k0_off162 k0_t4 k) S1x16.size (k0_off162_inb k0_t4 k), shapeCast S1x16 (k0_pay133 v122 v202 v282 v362 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off162 k0_t4 k) S1x16.size (k0_off162_inb k0_t4 k)).toLoadRect f)) shapeCasts_S16_S1x16⟩]

/-- The accumulator after the first `n` inner trips, from contents `f0`. -/
@[reducible] def acc10 (v3 : IVec S16 32) (v114 : BitVec 32) (k0_t4 : Fin k0_t4_loop.trips) (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
    (g : Buf (Elt F) ((halfI k0_t4).view.loc (thr d L)))
    (h159 : ∀ k8 : Fin k0_t10_loop.trips, k0_chk159 (k0_pay124 v3 0#32 1#32 k8) (k0_pay125 v114))
    (h160 : ∀ k8 : Fin k0_t10_loop.trips, k0_chk160 (k0_pay124 v3 0#32 1#32 k8) (k0_pay127 v114))
    (h161 : ∀ k8 : Fin k0_t10_loop.trips, k0_chk161 (k0_pay124 v3 0#32 1#32 k8) (k0_pay129 v114))
    (h162 : ∀ k8 : Fin k0_t10_loop.trips, k0_chk162 (k0_pay124 v3 0#32 1#32 k8) (k0_pay131 v114))
    (f0 : S10x512.Idx → Elt F .f32) (n : Nat) : S10x512.Idx → Elt F .f32 :=
  Nat.rec (motive := fun _ => S10x512.Idx → Elt F .f32) f0
    (fun i prev => if hi : i < k0_t10_loop.trips then
      upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g ⟨i, hi⟩ (h159 ⟨i, hi⟩) (h160 ⟨i, hi⟩) (h161 ⟨i, hi⟩) (h162 ⟨i, hi⟩) prev else prev) n

theorem acc10_succ (v3 : IVec S16 32) (v114 : BitVec 32) (k0_t4 : Fin k0_t4_loop.trips) (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
    (g : Buf (Elt F) ((halfI k0_t4).view.loc (thr d L)))
    (h159 : ∀ k8 : Fin k0_t10_loop.trips, k0_chk159 (k0_pay124 v3 0#32 1#32 k8) (k0_pay125 v114))
    (h160 : ∀ k8 : Fin k0_t10_loop.trips, k0_chk160 (k0_pay124 v3 0#32 1#32 k8) (k0_pay127 v114))
    (h161 : ∀ k8 : Fin k0_t10_loop.trips, k0_chk161 (k0_pay124 v3 0#32 1#32 k8) (k0_pay129 v114))
    (h162 : ∀ k8 : Fin k0_t10_loop.trips, k0_chk162 (k0_pay124 v3 0#32 1#32 k8) (k0_pay131 v114))
    (f0 : S10x512.Idx → Elt F .f32) (k : Fin k0_t10_loop.trips) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 (k.val + 1)
      = upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k (h159 k) (h160 k) (h161 k) (h162 k) (acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val) := by
  show (if hi : k.val < k0_t10_loop.trips then _ else _) = _
  rw [dif_pos k.isLt]

/-- What the inner loop holds before trip `n`: the half at `g`, the accumulator at `acc10 n`. -/
def l1iVal (v3 : IVec S16 32) (v114 : BitVec 32) (k0_t4 : Fin k0_t4_loop.trips) (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
    (g : Buf (Elt F) ((halfI k0_t4).view.loc (thr d L)))
    (h159 : ∀ k8 : Fin k0_t10_loop.trips, k0_chk159 (k0_pay124 v3 0#32 1#32 k8) (k0_pay125 v114))
    (h160 : ∀ k8 : Fin k0_t10_loop.trips, k0_chk160 (k0_pay124 v3 0#32 1#32 k8) (k0_pay127 v114))
    (h161 : ∀ k8 : Fin k0_t10_loop.trips, k0_chk161 (k0_pay124 v3 0#32 1#32 k8) (k0_pay129 v114))
    (h162 : ∀ k8 : Fin k0_t10_loop.trips, k0_chk162 (k0_pay124 v3 0#32 1#32 k8) (k0_pay131 v114))
    (f0 : S10x512.Idx → Elt F .f32) (n : Nat) : sProp 𝕄 :=
  iprop(((halfI k0_t4).view.loc (thr d L) ↦[(halfI k0_t4).view.set]{fullShare} g)
    ∗ ((accS).view.loc (thr d L) ↦{fullShare} acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n))

/-- One trip of the inner loop takes the accumulator from `acc10 k` to `acc10 (k + 1)`. -/
theorem t10_val_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h159 : ∀ k8 : Fin k0_t10_loop.trips, k0_chk159 (k0_pay124 v3 0#32 1#32 k8) (k0_pay125 v114))
    (h160 : ∀ k8 : Fin k0_t10_loop.trips, k0_chk160 (k0_pay124 v3 0#32 1#32 k8) (k0_pay127 v114))
    (h161 : ∀ k8 : Fin k0_t10_loop.trips, k0_chk161 (k0_pay124 v3 0#32 1#32 k8) (k0_pay129 v114))
    (h162 : ∀ k8 : Fin k0_t10_loop.trips, k0_chk162 (k0_pay124 v3 0#32 1#32 k8) (k0_pay131 v114))
    (g : Buf (Elt F) ((halfI k0_t4).view.loc (thr d L))) (f0 : S10x512.Idx → Elt F .f32) (k : Fin k0_t10_loop.trips) (acc : Unit) :
    l1iVal (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val
      ⊢ wp frame (wpE (defs₀ (F := F)) 𝒱₀ (thr d L) none) Set.univ (k0_t10_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 k acc)
          (fun _ => l1iVal (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 (k.val + 1)) := by
  unfold l1iVal
  rw [acc10_succ]
  generalize acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val = f5
  iintro ⟨Hh, H5⟩
  have c159 := h159 k
  have c160 := h160 k
  have c161 := h161 k
  have c162 := h162 k
  repeat (sl_exec; unfold SparseCore.vectorLoadIdx)
  sl_exec
  sl_step
  isplitl [Hh]
  · iexact Hh
  · sl_unfold_run_names
    unfold upd10 xI0 xI1 xI2 xI3
    iexact H5

set_option warn.classDefReducibility false in
/-- The inner loop's invariant with values: the half at `g`, the accumulator at `acc10 n` from its contents `f0` at entry. -/
@[sl_loop] def invT10val (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32) (v114 : BitVec 32) (v122 : Vec F S16 .f32) (v130 : Vec F S16 .f32) (v138 : Vec F S16 .f32) (v146 : Vec F S16 .f32) (v154 : Vec F S16 .f32) (v162 : Vec F S16 .f32) (v170 : Vec F S16 .f32) (v178 : Vec F S16 .f32) (v186 : Vec F S16 .f32) (v194 : Vec F S16 .f32) (v202 : Vec F S16 .f32) (v210 : Vec F S16 .f32) (v218 : Vec F S16 .f32) (v226 : Vec F S16 .f32) (v234 : Vec F S16 .f32) (v242 : Vec F S16 .f32) (v250 : Vec F S16 .f32) (v258 : Vec F S16 .f32) (v266 : Vec F S16 .f32) (v274 : Vec F S16 .f32) (v282 : Vec F S16 .f32) (v290 : Vec F S16 .f32) (v298 : Vec F S16 .f32) (v306 : Vec F S16 .f32) (v314 : Vec F S16 .f32) (v322 : Vec F S16 .f32) (v330 : Vec F S16 .f32) (v338 : Vec F S16 .f32) (v346 : Vec F S16 .f32) (v354 : Vec F S16 .f32) (v362 : Vec F S16 .f32) (v370 : Vec F S16 .f32) (v378 : Vec F S16 .f32) (v386 : Vec F S16 .f32) (v394 : Vec F S16 .f32) (v402 : Vec F S16 .f32) (v410 : Vec F S16 .f32) (v418 : Vec F S16 .f32) (v426 : Vec F S16 .f32) (v434 : Vec F S16 .f32)
    (h159 : ∀ k8 : Fin k0_t10_loop.trips, k0_chk159 (k0_pay124 v3 0#32 1#32 k8) (k0_pay125 v114))
    (h160 : ∀ k8 : Fin k0_t10_loop.trips, k0_chk160 (k0_pay124 v3 0#32 1#32 k8) (k0_pay127 v114))
    (h161 : ∀ k8 : Fin k0_t10_loop.trips, k0_chk161 (k0_pay124 v3 0#32 1#32 k8) (k0_pay129 v114))
    (h162 : ∀ k8 : Fin k0_t10_loop.trips, k0_chk162 (k0_pay124 v3 0#32 1#32 k8) (k0_pay131 v114))
    (g : Buf (Elt F) ((halfI k0_t4).view.loc (thr d L))) (f0 : S10x512.Idx → Elt F .f32) :
    LoopInv (M := 𝕄) frame (wpE (defs₀ (F := F)) 𝒱₀ (thr d L) none) Set.univ k0_t10_loop.lb k0_t10_loop.ub k0_t10_loop.st k0_t10_ok ⟨⟩ (k0_t10_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434) where
  inv := fun n _ => l1iVal (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n
  step := t10_val_step d L v3 v7 v11 v15 v19 v23 v24 c1285_i32 k0_t4 arg19 v114 v122 v130 v138 v146 v154 v162 v170 v178 v186 v194 v202 v210 v218 v226 v234 v242 v250 v258 v266 v274 v282 v290 v298 v306 v314 v322 v330 v338 v346 v354 v362 v370 v378 v386 v394 v402 v410 v418 v426 v434 h159 h160 h161 h162 g f0

end Tile

end Cert.Proof.KI

end
-- ==== Proof.KValL1I9.lean ====
/-
  The outer first-layer loop on the item half, with the accumulator's contents stated as the stores leave them.

  Outer trip `k7` reads forty weights out of the parameter scratch as lane-constant vectors — weight `(kk, h)`,
  `kk < 4`, `h < 10`, is entry `640 + (4·k7 + kk)·10 + h` of the parameters, read at all sixteen lanes (`wI`) — and runs the
  inner loop with them on the features `4·k7 + kk`. `acc9 n` is the accumulator after the first `n` outer trips: each
  trip is the inner loop's eight trips (`acc10 … 8`) at that trip's weights. The loop's invariant holds the parameters
  and the half at their contents and the accumulator at `acc9 n`.
-/
import proofs.«214512_g89103391522852_cont_sun_m_1157_25_alg».proof.Proof.KValL1I

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- The sixteen-lane index vector of weight `(kk, h)` at outer trip `k7`: every lane is `640 + (4·k7 + kk)·10 + h`. -/
def wIdxI (k7 : Fin k0_t9_loop.trips) (kk h : BitVec 32) : IVec S16 32 :=
  muli (broadcast S16 1#32) (broadcast S16 (Scalar.addi (Scalar.addi (640#32) (Scalar.muli (Scalar.addi (Scalar.muli (Scf.iv 0#32 1#32 k7) 4#32) kk) 10#32)) h))

theorem wIdxI_inb_fin : ∀ (k7 : Fin k0_t9_loop.trips) (kk : Fin 4) (h : Fin 10), ∀ a x,
    ((![wIdxI k7 (BitVec.ofNat 32 kk.val) (BitVec.ofNat 32 h.val)] : Fin 1 → IVec S16 32) a x).toNat < S1312.size a := by
  decide +kernel

theorem wIdxI_inb (k7 : Fin k0_t9_loop.trips) (kk h : BitVec 32) (hkk : kk.toNat < 4) (hh : h.toNat < 10) : ∀ a x,
    ((![wIdxI k7 kk h] : Fin 1 → IVec S16 32) a x).toNat < S1312.size a := by
  have e1 : BitVec.ofNat 32 kk.toNat = kk := by simp
  have e2 : BitVec.ofNat 32 h.toNat = h := by simp
  have := wIdxI_inb_fin k7 ⟨kk.toNat, hkk⟩ ⟨h.toNat, hh⟩
  rwa [e1, e2] at this

theorem wI38_inb : ∀ (k7 : Fin k0_t9_loop.trips), ∀ a x,
    ((![k0_pay265 (Scalar.muli (Scalar.addi (Scalar.muli (Scf.iv 0#32 1#32 k7) 4#32) 3#32) 10#32) 640#32] : Fin 1 → IVec S16 32) a x).toNat < S1312.size a := by
  decide +kernel

theorem wI39_inb : ∀ (k7 : Fin k0_t9_loop.trips), ∀ a x,
    ((![k0_pay266 (Scalar.muli (Scf.iv 0#32 1#32 k7) 4#32)] : Fin 1 → IVec S16 32) a x).toNat < S1312.size a := by
  decide +kernel

/-- Weight `(kk, h)` of outer trip `k7`, as the sixteen-lane vector the kernel reads out of the parameters `fp`. -/
def wI (fp : S1312.Idx → Elt F .f32) (k7 : Fin k0_t9_loop.trips) (kk h : BitVec 32) (hkk : kk.toNat < 4) (hh : h.toNat < 10) : Vec F S16 .f32 :=
  loadIdx (View.readAt (Elt F) (parS).view (LoadRect.whole S1312) fp) ![wIdxI k7 kk h] (wIdxI_inb k7 kk h hkk hh)

/-- Weights `(3, 8)` and `(3, 9)`, whose index vectors the kernel computes after the others. -/
def wI38 (fp : S1312.Idx → Elt F .f32) (k7 : Fin k0_t9_loop.trips) : Vec F S16 .f32 :=
  loadIdx (View.readAt (Elt F) (parS).view (LoadRect.whole S1312) fp) ![k0_pay265 (Scalar.muli (Scalar.addi (Scalar.muli (Scf.iv 0#32 1#32 k7) 4#32) 3#32) 10#32) 640#32] (wI38_inb k7)
def wI39 (fp : S1312.Idx → Elt F .f32) (k7 : Fin k0_t9_loop.trips) : Vec F S16 .f32 :=
  loadIdx (View.readAt (Elt F) (parS).view (LoadRect.whole S1312) fp) ![k0_pay266 (Scalar.muli (Scf.iv 0#32 1#32 k7) 4#32)] (wI39_inb k7)

/-- The accumulator after outer trip `k7` (its eight inner trips), over its contents `f` before the trip. -/
def upd9 (v3 : IVec S16 32) (k0_t4 : Fin k0_t4_loop.trips) (fp : S1312.Idx → Elt F .f32)
    (g : Buf (Elt F) ((halfI k0_t4).view.loc (thr d L)))
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (k7 : Fin k0_t9_loop.trips) (f : S10x512.Idx → Elt F .f32) : S10x512.Idx → Elt F .f32 :=
  acc10 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) f k0_t10_loop.trips

/-- The accumulator after the first `n` outer trips, from contents `f0`. -/
@[reducible] def acc9 (v3 : IVec S16 32) (k0_t4 : Fin k0_t4_loop.trips) (fp : S1312.Idx → Elt F .f32)
    (g : Buf (Elt F) ((halfI k0_t4).view.loc (thr d L)))
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (f0 : S10x512.Idx → Elt F .f32) (n : Nat) : S10x512.Idx → Elt F .f32 :=
  Nat.rec (motive := fun _ => S10x512.Idx → Elt F .f32) f0
    (fun i prev => if hi : i < k0_t9_loop.trips then upd9 (F := F) d L v3 k0_t4 fp g H159 H160 H161 H162 ⟨i, hi⟩ prev else prev) n

theorem acc9_succ (v3 : IVec S16 32) (k0_t4 : Fin k0_t4_loop.trips) (fp : S1312.Idx → Elt F .f32)
    (g : Buf (Elt F) ((halfI k0_t4).view.loc (thr d L)))
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (f0 : S10x512.Idx → Elt F .f32) (k : Fin k0_t9_loop.trips) :
    acc9 (F := F) d L v3 k0_t4 fp g H159 H160 H161 H162 f0 (k.val + 1) = upd9 (F := F) d L v3 k0_t4 fp g H159 H160 H161 H162 k (acc9 (F := F) d L v3 k0_t4 fp g H159 H160 H161 H162 f0 k.val) := by
  show (if hi : k.val < k0_t9_loop.trips then _ else _) = _
  rw [dif_pos k.isLt]

/-- What the outer loop holds before trip `n`: the parameters at `fp`, the half at `g`, the accumulator at `acc9 n`. -/
def l1iVal9 (v3 : IVec S16 32) (k0_t4 : Fin k0_t4_loop.trips) (fp : S1312.Idx → Elt F .f32)
    (g : Buf (Elt F) ((halfI k0_t4).view.loc (thr d L)))
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (f0 : S10x512.Idx → Elt F .f32) (n : Nat) : sProp 𝕄 :=
  iprop(((parS).view.loc (thr d L) ↦{fullShare} fp) ∗ ((halfI k0_t4).view.loc (thr d L) ↦[(halfI k0_t4).view.set]{fullShare} g)
    ∗ ((accS).view.loc (thr d L) ↦{fullShare} acc9 (F := F) d L v3 k0_t4 fp g H159 H160 H161 H162 f0 n))

/-- One trip of the outer loop takes the accumulator from `acc9 k` to `acc9 (k + 1)`. -/
theorem t9_val_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (fp : S1312.Idx → Elt F .f32) (g : Buf (Elt F) ((halfI k0_t4).view.loc (thr d L))) (f0 : S10x512.Idx → Elt F .f32)
    (k : Fin k0_t9_loop.trips) (acc : Unit) :
    l1iVal9 (F := F) d L v3 k0_t4 fp g H159 H160 H161 H162 f0 k.val
      ⊢ wp frame (wpE (defs₀ (F := F)) 𝒱₀ (thr d L) none) Set.univ (k0_t9_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19 k acc)
          (fun _ => l1iVal9 (F := F) d L v3 k0_t4 fp g H159 H160 H161 H162 f0 (k.val + 1)) := by
  unfold l1iVal9
  rw [acc9_succ]
  generalize acc9 (F := F) d L v3 k0_t4 fp g H159 H160 H161 H162 f0 k.val = f5
  iintro ⟨Hp, Hh, H5⟩
  have h159 := H159 k
  have h160 := H160 k
  have h161 := H161 k
  have h162 := H162 k
  repeat (sl_exec (disch := (clear * - k; decide +kernel +revert)); unfold SparseCore.vectorLoadIdx)
  sl_exec (disch := (clear * - k; decide +kernel +revert))
  sl_step
  isplitl [Hp]
  · iexact Hp
  isplitl [Hh]
  · iexact Hh
  · sl_unfold_run_names
    unfold upd9 wI wI38 wI39 wIdxI
    iexact H5

set_option warn.classDefReducibility false in
/-- The outer loop's invariant with values. -/
@[sl_loop] def invT9val (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (fp : S1312.Idx → Elt F .f32) (g : Buf (Elt F) ((halfI k0_t4).view.loc (thr d L))) (f0 : S10x512.Idx → Elt F .f32) :
    LoopInv (M := 𝕄) frame (wpE (defs₀ (F := F)) 𝒱₀ (thr d L) none) Set.univ k0_t9_loop.lb k0_t9_loop.ub k0_t9_loop.st k0_t9_ok ⟨⟩ (k0_t9_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun n _ => l1iVal9 (F := F) d L v3 k0_t4 fp g H159 H160 H161 H162 f0 n
  step := t9_val_step d L v3 v7 v11 v15 v19 v23 v24 c1285_i32 k0_t4 arg19 H159 H160 H161 H162 fp g f0

end Tile

end Cert.Proof.KI

end
-- ==== Proof.KVals.lean ====
/-
  The compute loops of a tile with contents stated, together: every module of value invariants, and the two
  first-layer outer loops once more with `v3` known to be the lane numbers 0 … 15.
-/
import proofs.«214512_g89103391522852_cont_sun_m_1157_25_alg».proof.Proof.KValInitOut
import proofs.«214512_g89103391522852_cont_sun_m_1157_25_alg».proof.Proof.KValL1U7
import proofs.«214512_g89103391522852_cont_sun_m_1157_25_alg».proof.Proof.KValL1I9
import proofs.«214512_g89103391522852_cont_sun_m_1157_25_alg».proof.Proof.KLoopFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

set_option warn.classDefReducibility false in
/-- The user-half outer loop's invariant with values, with `v3` equal to the lane numbers: the index facts are the evaluated ones. -/
@[sl_loop] def invT7valIota (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (hv3 : v3 = (iota .scVector S16 32 [0] iota_S16_d0_w32_scVector))
    (fp : S1312.Idx → Elt F .f32) (g : Buf (Elt F) ((halfU k0_t4).view.loc (thr d L))) (f0 : S10x512.Idx → Elt F .f32) :
    LoopInv (M := 𝕄) frame (wpE (defs₀ (F := F)) 𝒱₀ (thr d L) none) Set.univ k0_t7_loop.lb k0_t7_loop.ub k0_t7_loop.st k0_t7_ok ⟨⟩ (k0_t7_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun n _ => l1uVal7 (F := F) d L v3 k0_t4 fp g (hv3 ▸ chk115_all) (hv3 ▸ chk116_all) (hv3 ▸ chk117_all) (hv3 ▸ chk118_all) f0 n
  step := t7_val_step d L v3 v7 v11 v15 v19 v23 v24 c1285_i32 k0_t4 arg19 (hv3 ▸ chk115_all) (hv3 ▸ chk116_all) (hv3 ▸ chk117_all) (hv3 ▸ chk118_all) fp g f0

set_option warn.classDefReducibility false in
/-- The item-half outer loop's invariant with values, with `v3` equal to the lane numbers: the index facts are the evaluated ones. -/
@[sl_loop] def invT9valIota (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (arg19 : BitVec 32)
    (hv3 : v3 = (iota .scVector S16 32 [0] iota_S16_d0_w32_scVector))
    (fp : S1312.Idx → Elt F .f32) (g : Buf (Elt F) ((halfI k0_t4).view.loc (thr d L))) (f0 : S10x512.Idx → Elt F .f32) :
    LoopInv (M := 𝕄) frame (wpE (defs₀ (F := F)) 𝒱₀ (thr d L) none) Set.univ k0_t9_loop.lb k0_t9_loop.ub k0_t9_loop.st k0_t9_ok ⟨⟩ (k0_t9_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 arg19) where
  inv := fun n _ => l1iVal9 (F := F) d L v3 k0_t4 fp g (hv3 ▸ chk159_all) (hv3 ▸ chk160_all) (hv3 ▸ chk161_all) (hv3 ▸ chk162_all) f0 n
  step := t9_val_step d L v3 v7 v11 v15 v19 v23 v24 c1285_i32 k0_t4 arg19 (hv3 ▸ chk159_all) (hv3 ▸ chk160_all) (hv3 ▸ chk161_all) (hv3 ▸ chk162_all) fp g f0

end Tile

end Cert.Proof.KI

end
-- ==== Proof.KHalfIdx.lean ====
/-
  Which element of the row scratch an element of a half, and an element of a row, is.

  Chunk `k4`'s half of the row scratch is buffer `b = k4 mod 2`, read as 128 rows of 64; a landed row is row `r` of
  buffer `b`, read as 64 entries. Entry `(r, x)` of the half and entry `x` of row `r` are the same element `(b, r, x)` of
  the scratch.
-/
import proofs.«214512_g89103391522852_cont_sun_m_1157_25_alg».proof.Proof.KHalf
import Idealize.ShloMosaic.Lib.ValueIdx

noncomputable section

namespace Cert.Proof.KI

open Cert.KernelIdeal Cert.KernelIdeal.Gen

open Idealize.ShloMosaic
open Idealize.ShloMosaic.ValueIdx

local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)

/-- Entry `(r, x)` of 128 rows of 64, matched with one buffer of 128 rows of 64, is entry `(0, r, x)`. -/
theorem halfIdx_reshape2 (h : S128x64.numel = S1x128x64.numel) (r : Fin 128) (x : Fin 64) :
    Shape.reshapeEquiv (s := S1x128x64) (s' := S128x64) h (ix2 r x) = ix3 (0 : Fin 1) r x :=
  Shape.reshapeEquiv_eq_of_rowMajor h (by
    rw [Shape.rowMajor_val_three, Shape.rowMajor_val_two]
    show ((0 : ℕ) * 128 + r.val) * 64 + x.val = r.val * 64 + x.val
    omega)

/-- Entry `x` of 64, matched with one row of one buffer, is entry `(0, 0, x)`. -/
theorem halfIdx_reshape1 (h : S64.numel = S1x1x64.numel) (x : Fin 64) :
    Shape.reshapeEquiv (s := S1x1x64) (s' := S64) h (ix1 x) = ix3 (0 : Fin 1) (0 : Fin 1) x :=
  Shape.reshapeEquiv_eq_of_rowMajor h (by
    rw [Shape.rowMajor_val_three, Shape.rowMajor_val_one]
    show ((0 : ℕ) * 1 + 0) * 64 + x.val = x.val
    omega)

/-- The element of the scratch under index `(i, r, x)` of a unit-stride rectangle at offsets `(b, r0, 0)`. -/
theorem halfIdx_emb3 {off size : Fin 3 → ℕ} (inb : ∀ a, off a + size a ≤ S2x128x64.size a) (b r0 : ℕ) (e : off = ![b, r0, 0])
    (y : (Rect.unit (s := S2x128x64) off size inb).shape.Idx) (a : Fin 3) :
    ((Rect.unit (s := S2x128x64) off size inb).emb y a).val = ![b + (y 0).val, r0 + (y 1).val, (y 2).val] a := by
  subst e
  rw [Rect.emb_apply]
  fin_cases a
  · show b + 1 * (y 0).val = b + (y 0).val; omega
  · show r0 + 1 * (y 1).val = r0 + (y 1).val; omega
  · show 0 + 1 * (y 2).val = (y 2).val; omega

/-- Entry `(r, x)` of chunk `k4`'s user half is element `(b, r, x)` of the scratch. -/
theorem halfIdx_halfU (b : Fin 2) (k4 : Fin k0_t4_loop.trips) (hb : k0_off144 k4 = ![b.val, 0, 0]) (r : Fin 128) (x : Fin 64) (a : Fin 3) :
    ((halfU k4).view.emb (ix2 r x) a).val = ![b.val, r.val, x.val] a := by
  show ((Rect.unit (s := S2x128x64) (k0_off144 k4) S1x128x64.size (k0_off144_inb k4)).emb (Shape.reshapeEquiv (s := S1x128x64) (s' := S128x64) _ (ix2 r x)) a).val = _
  rw [halfIdx_reshape2, halfIdx_emb3 _ b.val 0 hb]
  fin_cases a
  · show b.val + 0 = b.val; omega
  · show 0 + r.val = r.val; omega
  · rfl

/-- Entry `x` of row `r` of buffer `b` of the user-row scratch is element `(b, r, x)` of the scratch. -/
theorem halfIdx_rowU (b : Fin 2) (r : Fin 128) (x : Fin 64) (a : Fin 3) :
    ((rowAt (urowS) ![b.val, r.val, 0] (row_inb b r)).view.emb (ix1 x) a).val = ![b.val, r.val, x.val] a := by
  show ((Rect.unit (s := S2x128x64) ![b.val, r.val, 0] S1x1x64.size (row_inb b r)).emb (Shape.reshapeEquiv (s := S1x1x64) (s' := S64) _ (ix1 x)) a).val = _
  rw [halfIdx_reshape1, halfIdx_emb3 _ b.val r.val rfl]
  fin_cases a
  · show b.val + 0 = b.val; omega
  · show r.val + 0 = r.val; omega
  · rfl

/-- Entry `(r, x)` of the half IS entry `x` of row `r`: the same element of the scratch. -/
theorem halfIdx_U (b : Fin 2) (k4 : Fin k0_t4_loop.trips) (hb : k0_off144 k4 = ![b.val, 0, 0]) (r : Fin 128) (x : Fin 64) :
    (halfU k4).view.emb (ix2 r x) = (rowAt (urowS) ![b.val, r.val, 0] (row_inb b r)).view.emb (ix1 x) := by
  funext a
  exact Fin.ext ((halfIdx_halfU b k4 hb r x a).trans (halfIdx_rowU b r x a).symm)

/-- Entry `(r, x)` of chunk `k4`'s item half is element `(b, r, x)` of the scratch. -/
theorem halfIdx_halfI (b : Fin 2) (k4 : Fin k0_t4_loop.trips) (hb : k0_off158 k4 = ![b.val, 0, 0]) (r : Fin 128) (x : Fin 64) (a : Fin 3) :
    ((halfI k4).view.emb (ix2 r x) a).val = ![b.val, r.val, x.val] a := by
  show ((Rect.unit (s := S2x128x64) (k0_off158 k4) S1x128x64.size (k0_off158_inb k4)).emb (Shape.reshapeEquiv (s := S1x128x64) (s' := S128x64) _ (ix2 r x)) a).val = _
  rw [halfIdx_reshape2, halfIdx_emb3 _ b.val 0 hb]
  fin_cases a
  · show b.val + 0 = b.val; omega
  · show 0 + r.val = r.val; omega
  · rfl

/-- Entry `x` of row `r` of buffer `b` of the item-row scratch is element `(b, r, x)` of the scratch. -/
theorem halfIdx_rowI (b : Fin 2) (r : Fin 128) (x : Fin 64) (a : Fin 3) :
    ((rowAt (irowS) ![b.val, r.val, 0] (row_inb b r)).view.emb (ix1 x) a).val = ![b.val, r.val, x.val] a := by
  show ((Rect.unit (s := S2x128x64) ![b.val, r.val, 0] S1x1x64.size (row_inb b r)).emb (Shape.reshapeEquiv (s := S1x1x64) (s' := S64) _ (ix1 x)) a).val = _
  rw [halfIdx_reshape1, halfIdx_emb3 _ b.val r.val rfl]
  fin_cases a
  · show b.val + 0 = b.val; omega
  · show r.val + 0 = r.val; omega
  · rfl

/-- Entry `(r, x)` of the half IS entry `x` of row `r`: the same element of the scratch. -/
theorem halfIdx_I (b : Fin 2) (k4 : Fin k0_t4_loop.trips) (hb : k0_off158 k4 = ![b.val, 0, 0]) (r : Fin 128) (x : Fin 64) :
    (halfI k4).view.emb (ix2 r x) = (rowAt (irowS) ![b.val, r.val, 0] (row_inb b r)).view.emb (ix1 x) := by
  funext a
  exact Fin.ext ((halfIdx_halfI b k4 hb r x a).trans (halfIdx_rowI b r x a).symm)

end Cert.Proof.KI

end
-- ==== Proof.KValRowsPure.lean ====
/-
  Copies with their contents: four facts about what a copy carries and what it leaves.

  A lane of the index scratch is a word of what filled the scratch; a word carried out of a 512-word slice of an index
  array is the array's word at the slice's offset plus its own; a row of a rows scratch overwritten whole reads back
  exactly what was written; and the 64 entries a copy takes from a table at row `w` are the table's row `w`, column by
  column. Together they say that a row copy lands, in its row of the scratch, the table's row named by the index word
  the tile read.
-/
import proofs.«214512_g89103391522852_cont_sun_m_1157_25_alg».proof.Proof.KRows
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-! ## Bounds of the indices below -/

/-- A lane taken out of sixteen loaded words lies inside the 512-word scratch. -/
theorem lane_bound (off o : Fin 1 → Nat) (hin : ∀ a, off a + S16.size a ≤ S512.size a)
    (hs : (Rect.unit (s := S512) off S16.size hin).shape.Slices o S1) (a : Fin 1) : off a + o a < S512.size a := by
  have h1 := hs.2 a
  have h2 := hin a
  match a with
  | ⟨0, _⟩ =>
    have h1' : o 0 + 1 ≤ 16 := h1
    have h2' : off 0 + 16 ≤ 512 := h2
    show off 0 + o 0 < 512
    omega

/-- A word of a 512-word slice lies inside the index array. -/
theorem pay_bound (off : Fin 1 → Nat) (hin : ∀ a, off a + S512.size a ≤ S16384.size a) (x : S512.Idx) (a : Fin 1) :
    off a + (x a).val < S16384.size a := by
  have h1 := (x a).isLt
  have h2 := hin a
  omega

/-! ## A lane of the index scratch is a word of what filled it -/

/-- A lane of a load from the first index scratch, once the scratch has been overwritten whole by `pay`, is the word of
    `pay` at the load's offset plus the lane's. -/
theorem lane0_eq (pay : S512.Idx → BitVec 32)
    (g : (uidxS).view.ty.Contents (Elt F)) (off : Fin 1 → Nat) (hin : ∀ a, off a + S16.size a ≤ S512.size a)
    (o : Fin 1 → Nat) (hs : (Rect.unit (s := S512) off S16.size hin).shape.Slices o S1) (hp : ∀ a, (![0] : Fin 1 → Nat) a < S1.size a) :
    extractAt ![0] (extractStridedSlice S1 o (View.readAt (Elt F) (uidxS).view (Rect.unit (s := S512) off S16.size hin).toLoadRect (View.write (Elt F) (uidxS).view g pay Finset.univ)) hs) hp
      = pay (fun a => ⟨off a + o a, lane_bound off o hin hs a⟩) := by
  show (View.write (Elt F) (uidxS).view g pay Finset.univ) _ = _
  rw [show View.write (Elt F) (uidxS).view g pay Finset.univ = pay from View.write_whole_univ _ _ _]
  refine congrArg pay (funext fun a => Fin.ext ?_)
  match a with
  | ⟨0, _⟩ =>
    show off 0 + 1 * (o 0 + 0) = off 0 + o 0
    omega

/-- The same for the second index scratch. -/
theorem lane1_eq (pay : S512.Idx → BitVec 32)
    (g : (iidxS).view.ty.Contents (Elt F)) (off : Fin 1 → Nat) (hin : ∀ a, off a + S16.size a ≤ S512.size a)
    (o : Fin 1 → Nat) (hs : (Rect.unit (s := S512) off S16.size hin).shape.Slices o S1) (hp : ∀ a, (![0] : Fin 1 → Nat) a < S1.size a) :
    extractAt ![0] (extractStridedSlice S1 o (View.readAt (Elt F) (iidxS).view (Rect.unit (s := S512) off S16.size hin).toLoadRect (View.write (Elt F) (iidxS).view g pay Finset.univ)) hs) hp
      = pay (fun a => ⟨off a + o a, lane_bound off o hin hs a⟩) := by
  show (View.write (Elt F) (iidxS).view g pay Finset.univ) _ = _
  rw [show View.write (Elt F) (iidxS).view g pay Finset.univ = pay from View.write_whole_univ _ _ _]
  refine congrArg pay (funext fun a => Fin.ext ?_)
  match a with
  | ⟨0, _⟩ =>
    show off 0 + 1 * (o 0 + 0) = off 0 + o 0
    omega

/-! ## A word carried out of an index array is the array's word at the slice's offset plus its own -/

theorem pay0_eq (fu : S16384.Idx → BitVec 32)
    (off : Fin 1 → Nat) (hin : ∀ a, off a + S512.size a ≤ S16384.size a) (x : S512.Idx) :
    (ReadAs.same.apply (View.read (Elt F) ((userW).slice (Rect.unit (s := S16384) off S512.size hin) (fun _ => rfl)).view fu)) x
      = fu (fun a => ⟨off a + (x a).val, pay_bound off hin x a⟩) := by
  show View.read (Elt F) ((userW).slice (Rect.unit (s := S16384) off S512.size hin) (fun _ => rfl)).view fu x = _
  rw [View.read_apply]
  refine (cast_eq _ _).trans (congrArg fu (funext fun a => Fin.ext ?_))
  match a with
  | ⟨0, _⟩ =>
    show off 0 + 1 * (x 0).val = off 0 + (x 0).val
    omega

theorem pay1_eq (fi : S16384.Idx → BitVec 32)
    (off : Fin 1 → Nat) (hin : ∀ a, off a + S512.size a ≤ S16384.size a) (x : S512.Idx) :
    (ReadAs.same.apply (View.read (Elt F) ((itemW).slice (Rect.unit (s := S16384) off S512.size hin) (fun _ => rfl)).view fi)) x
      = fi (fun a => ⟨off a + (x a).val, pay_bound off hin x a⟩) := by
  show View.read (Elt F) ((itemW).slice (Rect.unit (s := S16384) off S512.size hin) (fun _ => rfl)).view fi x = _
  rw [View.read_apply]
  refine (cast_eq _ _).trans (congrArg fi (funext fun a => Fin.ext ?_))
  match a with
  | ⟨0, _⟩ =>
    show off 0 + 1 * (x 0).val = off 0 + (x 0).val
    omega

/-! ## A row overwritten whole reads back what was written -/

theorem row_read_back (M : Memref sig .scVector .vmem S2x128x64 .f32) (off : Fin 3 → Nat)
    (h : ∀ a, off a + S1x1x64.size a ≤ S2x128x64.size a) (g : (rowAt M off h).view.ty.Contents (Elt F))
    (p : S64.Idx → Elt F .f32) :
    View.read (Elt F) (rowAt M off h).view ((rowAt M off h).view.writes (Elt F) g [⟨Rect.whole S64, p⟩]) = p := by
  funext x
  have e := View.read_writes_cons_emb (rowAt M off h).view g (Rect.whole S64) p [] x
  rwa [Rect.emb_whole_apply] at e

/-! ## A copy's source row is the table's row -/

/-- The one-row index matched with a 64-entry index: row 0, the same column. -/
theorem reshape_row (x : S64.Idx) :
    Shape.reshapeEquiv (Facts₀.squeezes_S1x64_S64 : S1x64.Squeezes S64).numel_eq x
      = (ValueIdx.ix2 (0 : Fin 1) (⟨(x 0).val, (x 0).isLt⟩ : Fin 64) : S1x64.Idx) :=
  Shape.reshapeEquiv_eq_of_rowMajor _ (by
    rw [Shape.rowMajor_val_two, Shape.rowMajor_val_one]
    show 0 * 64 + (x 0).val = (x 0).val
    omega)

theorem srcU_eq (fue : S1000000x64.Idx → Elt F .f32) (w : BitVec 32)
    (hw : ∀ a, (![w.toNat, 0] : Fin 2 → Nat) a + S1x64.size a ≤ S1000000x64.size a) (x : S64.Idx) :
    ReadAs.same.apply (View.read (Elt F) (((uembW).slice (Rect.unit (s := S1000000x64) ![w.toNat, 0] S1x64.size hw) (fun _ => rfl)).squeeze S64 Facts₀.squeezes_S1x64_S64).view fue) x
      = fue (ValueIdx.ix2 (⟨w.toNat, Nat.lt_of_succ_le (hw 0)⟩ : Fin 1000000) (⟨(x 0).val, (x 0).isLt⟩ : Fin 64)) := by
  show View.read (Elt F) (((uembW).slice (Rect.unit (s := S1000000x64) ![w.toNat, 0] S1x64.size hw) (fun _ => rfl)).squeeze S64 Facts₀.squeezes_S1x64_S64).view fue x = _
  rw [View.read_apply]
  refine (cast_eq _ _).trans (congrArg fue ?_)
  show (Rect.unit (s := S1000000x64) ![w.toNat, 0] S1x64.size hw).emb (Shape.reshapeEquiv _ x) = _
  rw [reshape_row]
  funext a; apply Fin.ext
  match a with
  | ⟨0, _⟩ => show w.toNat + 1 * 0 = w.toNat; omega
  | ⟨1, _⟩ => show 0 + 1 * (x 0).val = (x 0).val; omega

theorem srcI_eq (fie : S100000x64.Idx → Elt F .f32) (w : BitVec 32)
    (hw : ∀ a, (![w.toNat, 0] : Fin 2 → Nat) a + S1x64.size a ≤ S100000x64.size a) (x : S64.Idx) :
    ReadAs.same.apply (View.read (Elt F) (((iembW).slice (Rect.unit (s := S100000x64) ![w.toNat, 0] S1x64.size hw) (fun _ => rfl)).squeeze S64 Facts₀.squeezes_S1x64_S64).view fie) x
      = fie (ValueIdx.ix2 (⟨w.toNat, Nat.lt_of_succ_le (hw 0)⟩ : Fin 100000) (⟨(x 0).val, (x 0).isLt⟩ : Fin 64)) := by
  show View.read (Elt F) (((iembW).slice (Rect.unit (s := S100000x64) ![w.toNat, 0] S1x64.size hw) (fun _ => rfl)).squeeze S64 Facts₀.squeezes_S1x64_S64).view fie x = _
  rw [View.read_apply]
  refine (cast_eq _ _).trans (congrArg fie ?_)
  show (Rect.unit (s := S100000x64) ![w.toNat, 0] S1x64.size hw).emb (Shape.reshapeEquiv _ x) = _
  rw [reshape_row]
  funext a; apply Fin.ext
  match a with
  | ⟨0, _⟩ => show w.toNat + 1 * 0 = w.toNat; omega
  | ⟨1, _⟩ => show 0 + 1 * (x 0).val = (x 0).val; omega

/-- The same at column `k`. -/
theorem srcU_eq_ix1 (fue : S1000000x64.Idx → Elt F .f32) (w : BitVec 32)
    (hw : ∀ a, (![w.toNat, 0] : Fin 2 → Nat) a + S1x64.size a ≤ S1000000x64.size a) (k : Fin 64) :
    ReadAs.same.apply (View.read (Elt F) (((uembW).slice (Rect.unit (s := S1000000x64) ![w.toNat, 0] S1x64.size hw) (fun _ => rfl)).squeeze S64 Facts₀.squeezes_S1x64_S64).view fue) (ValueIdx.ix1 k)
      = fue (ValueIdx.ix2 (⟨w.toNat, Nat.lt_of_succ_le (hw 0)⟩ : Fin 1000000) k) :=
  srcU_eq fue w hw (ValueIdx.ix1 k)

theorem srcI_eq_ix1 (fie : S100000x64.Idx → Elt F .f32) (w : BitVec 32)
    (hw : ∀ a, (![w.toNat, 0] : Fin 2 → Nat) a + S1x64.size a ≤ S100000x64.size a) (k : Fin 64) :
    ReadAs.same.apply (View.read (Elt F) (((iembW).slice (Rect.unit (s := S100000x64) ![w.toNat, 0] S1x64.size hw) (fun _ => rfl)).squeeze S64 Facts₀.squeezes_S1x64_S64).view fie) (ValueIdx.ix1 k)
      = fie (ValueIdx.ix2 (⟨w.toNat, Nat.lt_of_succ_le (hw 0)⟩ : Fin 100000) k) :=
  srcI_eq fie w hw (ValueIdx.ix1 k)

end Cert.Proof.KI

end
-- ==== Proof.KRowsV.lean ====
/-
  Rows with their contents. A row copy of chunk `c` into row `r` of a half carries the table's row named by the index
  word of the tile's sample `128 c + r`; here the row families and batches of the gather are restated with that
  content: a row is owned together with the fact that it reads as the table's row of its sample. The table row is taken
  at the index word's natural number modulo the table's row count, which keeps it defined for every word (the
  precondition makes every index word a row number, so the remainder is the word itself wherever it is used).
-/
import proofs.«214512_g89103391522852_cont_sun_m_1157_25_alg».proof.Proof.KValRowsPure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-! ## What the index scratches hold, and the table row a word names -/

/-- The tile's 512 words of the first index array: what its first index scratch holds once filled. -/
def idxValU (L : grid0.Coords) (fu : S16384.Idx → BitVec 32) : S512.Idx → BitVec 32 :=
  ReadAs.same.apply (View.read (Elt F) ((userW).slice (Rect.unit (s := S16384) (k0_off1 L) S512.size (k0_off1_inb L)) (fun _ => rfl)).view fu)
/-- The tile's 512 words of the second index array. -/
def idxValI (L : grid0.Coords) (fi : S16384.Idx → BitVec 32) : S512.Idx → BitVec 32 :=
  ReadAs.same.apply (View.read (Elt F) ((itemW).slice (Rect.unit (s := S16384) (k0_off1 L) S512.size (k0_off1_inb L)) (fun _ => rfl)).view fi)

/-- The user table's row named by the word `w`, as 64 entries. -/
def rowValU (fue : S1000000x64.Idx → Elt F .f32) (w : BitVec 32) : S64.Idx → Elt F .f32 :=
  fun x => fue (ValueIdx.ix2 (⟨w.toNat % 1000000, Nat.mod_lt _ (by decide)⟩ : Fin 1000000) (⟨(x 0).val, (x 0).isLt⟩ : Fin 64))
/-- The item table's row named by the word `w`. -/
def rowValI (fie : S100000x64.Idx → Elt F .f32) (w : BitVec 32) : S64.Idx → Elt F .f32 :=
  fun x => fie (ValueIdx.ix2 (⟨w.toNat % 100000, Nat.mod_lt _ (by decide)⟩ : Fin 100000) (⟨(x 0).val, (x 0).isLt⟩ : Fin 64))

/-- Sample `128 c + r` of the tile's 512, as an index of its index scratch. -/
def sampleIdx (c : Fin 4) (r : Fin 128) : S512.Idx :=
  ValueIdx.ix1 (⟨128 * c.val + r.val, by have := c.isLt; have := r.isLt; omega⟩ : Fin 512)

theorem sampleIdx_val (c : Fin 4) (r : Fin 128) : (sampleIdx c r 0).val = 128 * c.val + r.val := rfl

/-! ## What a row copy lands -/

/-- A lane of a load of sixteen words of the first index scratch filled with the tile's words. -/
abbrev laneU (L : grid0.Coords) (fu : S16384.Idx → BitVec 32) (f0 : (uidxS).view.ty.Contents (Elt F)) (off : Fin 1 → Nat)
    (hin : ∀ a, off a + S16.size a ≤ S512.size a) (o : Fin 1 → Nat)
    (hs : (Rect.unit (s := S512) off S16.size hin).shape.Slices o S1) (hp : ∀ a, (![0] : Fin 1 → Nat) a < S1.size a) : BitVec 32 :=
  extractAt ![0] (extractStridedSlice S1 o (View.readAt (Elt F) (uidxS).view (Rect.unit (s := S512) off S16.size hin).toLoadRect
    (View.write (Elt F) (uidxS).view f0 (idxValU (F := F) L fu) Finset.univ)) hs) hp
abbrev laneI (L : grid0.Coords) (fi : S16384.Idx → BitVec 32) (f1 : (iidxS).view.ty.Contents (Elt F)) (off : Fin 1 → Nat)
    (hin : ∀ a, off a + S16.size a ≤ S512.size a) (o : Fin 1 → Nat)
    (hs : (Rect.unit (s := S512) off S16.size hin).shape.Slices o S1) (hp : ∀ a, (![0] : Fin 1 → Nat) a < S1.size a) : BitVec 32 :=
  extractAt ![0] (extractStridedSlice S1 o (View.readAt (Elt F) (iidxS).view (Rect.unit (s := S512) off S16.size hin).toLoadRect
    (View.write (Elt F) (iidxS).view f1 (idxValI (F := F) L fi) Finset.univ)) hs) hp

/-- The lane at offset `off + o` is the index word of that sample. -/
theorem laneU_eq (L : grid0.Coords) (fu : S16384.Idx → BitVec 32) (f0 : (uidxS).view.ty.Contents (Elt F)) (off : Fin 1 → Nat)
    (hin : ∀ a, off a + S16.size a ≤ S512.size a) (o : Fin 1 → Nat)
    (hs : (Rect.unit (s := S512) off S16.size hin).shape.Slices o S1) (hp : ∀ a, (![0] : Fin 1 → Nat) a < S1.size a)
    (c : Fin 4) (r : Fin 128) (hidx : off 0 + o 0 = 128 * c.val + r.val) :
    laneU (F := F) L fu f0 off hin o hs hp = idxValU (F := F) L fu (sampleIdx c r) :=
  (lane0_eq (idxValU (F := F) L fu) f0 off hin o hs hp).trans
    (congrArg (idxValU (F := F) L fu) (funext fun a => Fin.ext (match a with | ⟨0, _⟩ => hidx)))
theorem laneI_eq (L : grid0.Coords) (fi : S16384.Idx → BitVec 32) (f1 : (iidxS).view.ty.Contents (Elt F)) (off : Fin 1 → Nat)
    (hin : ∀ a, off a + S16.size a ≤ S512.size a) (o : Fin 1 → Nat)
    (hs : (Rect.unit (s := S512) off S16.size hin).shape.Slices o S1) (hp : ∀ a, (![0] : Fin 1 → Nat) a < S1.size a)
    (c : Fin 4) (r : Fin 128) (hidx : off 0 + o 0 = 128 * c.val + r.val) :
    laneI (F := F) L fi f1 off hin o hs hp = idxValI (F := F) L fi (sampleIdx c r) :=
  (lane1_eq (idxValI (F := F) L fi) f1 off hin o hs hp).trans
    (congrArg (idxValI (F := F) L fi) (funext fun a => Fin.ext (match a with | ⟨0, _⟩ => hidx)))

/-- A row of a rows scratch overwritten by the 64 entries a copy takes from the user table at the row the word `W`
    names, `W` the index word of sample `128 c + r`, reads as that sample's table row. -/
theorem contentsU (L : grid0.Coords) (fu : S16384.Idx → BitVec 32) (hfu : ∀ b, (fu b).toNat < 1000000)
    (fue : S1000000x64.Idx → Elt F .f32)
    (M : Memref sig .scVector .vmem S2x128x64 .f32) (offd : Fin 3 → Nat) (hd : ∀ a, offd a + S1x1x64.size a ≤ S2x128x64.size a)
    (gOld : (rowAt M offd hd).view.ty.Contents (Elt F))
    (srcOff : Fin 2 → Nat) (hWb : ∀ a, srcOff a + S1x64.size a ≤ S1000000x64.size a)
    (W : BitVec 32) (hsrc : srcOff = ![W.toNat, 0])
    (c : Fin 4) (r : Fin 128) (hW : W = idxValU (F := F) L fu (sampleIdx c r)) :
    View.read (Elt F) (rowAt M offd hd).view ((rowAt M offd hd).view.writes (Elt F) gOld
        [⟨Rect.whole S64, ReadAs.same.apply (View.read (Elt F) (((uembW).slice (Rect.unit (s := S1000000x64) srcOff S1x64.size hWb) (fun _ => rfl)).squeeze S64 Facts₀.squeezes_S1x64_S64).view fue)⟩])
      = rowValU fue (idxValU (F := F) L fu (sampleIdx c r)) := by
  subst hsrc
  rw [row_read_back]
  funext x
  rw [srcU_eq]
  have hlt : (idxValU (F := F) L fu (sampleIdx c r)).toNat < 1000000 := pay0_lt (F := F) fu hfu _ _ _
  show fue _ = fue _
  refine congrArg fue (congrArg (fun i => ValueIdx.ix2 i (⟨(x 0).val, (x 0).isLt⟩ : Fin 64)) (Fin.ext ?_))
  show W.toNat = (idxValU (F := F) L fu (sampleIdx c r)).toNat % 1000000
  rw [← hW, Nat.mod_eq_of_lt (hW ▸ hlt)]

theorem contentsI (L : grid0.Coords) (fi : S16384.Idx → BitVec 32) (hfi : ∀ b, (fi b).toNat < 100000)
    (fie : S100000x64.Idx → Elt F .f32)
    (M : Memref sig .scVector .vmem S2x128x64 .f32) (offd : Fin 3 → Nat) (hd : ∀ a, offd a + S1x1x64.size a ≤ S2x128x64.size a)
    (gOld : (rowAt M offd hd).view.ty.Contents (Elt F))
    (srcOff : Fin 2 → Nat) (hWb : ∀ a, srcOff a + S1x64.size a ≤ S100000x64.size a)
    (W : BitVec 32) (hsrc : srcOff = ![W.toNat, 0])
    (c : Fin 4) (r : Fin 128) (hW : W = idxValI (F := F) L fi (sampleIdx c r)) :
    View.read (Elt F) (rowAt M offd hd).view ((rowAt M offd hd).view.writes (Elt F) gOld
        [⟨Rect.whole S64, ReadAs.same.apply (View.read (Elt F) (((iembW).slice (Rect.unit (s := S100000x64) srcOff S1x64.size hWb) (fun _ => rfl)).squeeze S64 Facts₀.squeezes_S1x64_S64).view fie)⟩])
      = rowValI fie (idxValI (F := F) L fi (sampleIdx c r)) := by
  subst hsrc
  rw [row_read_back]
  funext x
  rw [srcI_eq]
  have hlt : (idxValI (F := F) L fi (sampleIdx c r)).toNat < 100000 := pay1_lt (F := F) fi hfi _ _ _
  show fie _ = fie _
  refine congrArg fie (congrArg (fun i => ValueIdx.ix2 i (⟨(x 0).val, (x 0).isLt⟩ : Fin 64)) (Fin.ext ?_))
  show W.toNat = (idxValI (F := F) L fi (sampleIdx c r)).toNat % 100000
  rw [← hW, Nat.mod_eq_of_lt (hW ▸ hlt)]

section Res

variable (d : Dev nD) (L : grid0.Coords)

/-- A row owned at contents that read as `val`. -/
abbrev ownAtV (M : Memref sig .scVector .vmem S2x128x64 .f32) (off : Fin 3 → Nat) (h : ∀ a, off a + S1x1x64.size a ≤ S2x128x64.size a)
    (val : S64.Idx → Elt F .f32) : sProp 𝕄 :=
  iprop(∃ g, ((rowAt M off h).view.loc (thr d L) ↦[(rowAt M off h).view.set]{fullShare} g) ∗ ⌜View.read (Elt F) (rowAt M off h).view g = val⌝)

/-- Row `r` of half `b` of the user-rows scratch holding the user table's row of sample `128 c + r`; the item rows likewise. -/
abbrev ownUV (fu : S16384.Idx → BitVec 32) (fue : S1000000x64.Idx → Elt F .f32) (b : Fin 2) (c : Fin 4) (r : Fin 128) : sProp 𝕄 :=
  ownAtV (F := F) d L (urowS) ![b.val, r.val, 0] (row_inb b r) (rowValU fue (idxValU (F := F) L fu (sampleIdx c r)))
abbrev ownIV (fi : S16384.Idx → BitVec 32) (fie : S100000x64.Idx → Elt F .f32) (b : Fin 2) (c : Fin 4) (r : Fin 128) : sProp 𝕄 :=
  ownAtV (F := F) d L (irowS) ![b.val, r.val, 0] (row_inb b r) (rowValI fie (idxValI (F := F) L fi (sampleIdx c r)))

omit [FloatOps F] in
theorem ownAtV_congr {M : Memref sig .scVector .vmem S2x128x64 .f32} {off off' : Fin 3 → Nat} (e : off = off') (h) (h')
    (val : S64.Idx → Elt F .f32) : ownAtV (F := F) d L M off h val = ownAtV (F := F) d L M off' h' val := by subst e; rfl

omit [FloatOps F] in
/-- A row held at the offsets the program computes, at contents that read as `val`, is the row with contents the batch
    promised, once the offsets are identified. -/
theorem deliverV {M : Memref sig .scVector .vmem S2x128x64 .f32} {off : Fin 3 → Nat} {h} {g} (b r : ℕ) (h') (e : off = ![b, r, 0])
    (val : S64.Idx → Elt F .f32) (hval : View.read (Elt F) (rowAt M off h).view g = val) :
    ((rowAt M off h).view.loc (thr d L) ↦[(rowAt M off h).view.set]{fullShare} g : sProp 𝕄) ⊢ ownAtV (F := F) d L M ![b, r, 0] h' val := by
  subst e; iintro H; iexists _; isplitl [H]
  · iexact H
  · ipureintro; exact hval

/-- The batch of 128 row copies of chunk `c` into half `b` on cell `sm`: copy `t` delivers row `t` holding its sample's table row. -/
abbrev batchUV (fu : S16384.Idx → BitVec 32) (fue : S1000000x64.Idx → Elt F .f32) (b : Fin 2) (c : Fin 4) (sm : SemLoc sig) (j u : ℕ) : sProp 𝕄 :=
  Transfers.Batch (countersEmb (U := UU)) (thr d L) sm (none : HIx 1) 2048 (ownUV (F := F) d L fu fue b c) j u
abbrev batchIV (fi : S16384.Idx → BitVec 32) (fie : S100000x64.Idx → Elt F .f32) (b : Fin 2) (c : Fin 4) (sm : SemLoc sig) (j u : ℕ) : sProp 𝕄 :=
  Transfers.Batch (countersEmb (U := UU)) (thr d L) sm (none : HIx 1) 2048 (ownIV (F := F) d L fi fie b c) j u

end Res

end Cert.Proof.KI

end
-- ==== Proof.KValSpec.lean ====
/-
  What the tile's buffers must hold, as predicates on contents, at the idealized program.

  Tile `L` owns samples `smp L j`, j < 512, of the batch. Its accumulator scratch (10 × 512) holds, after the chunks
  before `c` have been consumed, the first layer's pre-activation of every sample of those chunks and the first layer's
  bias everywhere else (`AccOK c`); a half buffer of chunk `c` holds the table rows its 128 samples name (`HalfUOK`,
  `HalfIOK`); the parameter scratch holds the packed parameters (`ParOK`); and the output scratch at the end holds the
  512 scores (`OutOK`).
-/
import proofs.«214512_g89103391522852_cont_sun_m_1157_25_alg».proof.Proof.KRowsV
import proofs.«214512_g89103391522852_cont_sun_m_1157_25_alg».proof.Proof.KPayV
import proofs.«214512_g89103391522852_cont_sun_m_1157_25_alg».proof.Proof.KLoopL1U
import proofs.«214512_g89103391522852_cont_sun_m_1157_25_alg».proof.Proof.KLoopL1I

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

variable (m : (ℓ : Loc nD τ sig) → Buf (Elt Ideal) ℓ) (d : Dev nD) (L : grid0.Coords)

/-- The batch position of the tile's `j`-th sample. -/
def smp (j : Fin 512) : Fin 16384 := ⟨1024 * (L 1).val + 512 * (L 0).val + j.val, by
  have h0 : (L 0).val < 2 := (L 0).isLt; have h1 : (L 1).val < 16 := (L 1).isLt; have := j.isLt; omega⟩

/-- The first layer's pre-activation of batch position `b`, hidden unit `h` (Spec.hidden before its rectifier). -/
def hidPre (b : Fin 16384) (h : Fin 10) : EReal :=
  (∑ k : Fin 128, Cert.Spec.feat (m (a0Loc d)) (m (a1Loc d)) (m (a2Loc d)) (m (a3Loc d)) b k * m (tcLoc d main_arg4) (ix2 k h)) + m (tcLoc d main_arg5) (ix1 h)

/-- The hidden unit of Spec.lean is the rectifier of that. -/
theorem hidden_eq (b : Fin 16384) (h : Fin 10) :
    Cert.Spec.hidden (m (a0Loc d)) (m (a1Loc d)) (m (a2Loc d)) (m (a3Loc d)) (m (tcLoc d main_arg4)) (m (tcLoc d main_arg5)) b h = max (hidPre m d b h) 0 := rfl

/-- The accumulator before chunk `c`: pre-activations for the samples of chunks < c, the bias elsewhere. -/
def AccOK (c : ℕ) (f : S10x512.Idx → EReal) : Prop :=
  ∀ (h : Fin 10) (j : Fin 512), f (ix2 h j) = if j.val < 128 * c then hidPre m d (smp L j) h else m (tcLoc d main_arg5) (ix1 h)

/-- The output scratch at the end: the 512 scores. -/
def OutOK (f : S512.Idx → EReal) : Prop :=
  ∀ j : Fin 512, f (ix1 j) = Cert.Spec.score (m (a0Loc d)) (m (a1Loc d)) (m (a2Loc d)) (m (a3Loc d)) (m (tcLoc d main_arg4)) (m (tcLoc d main_arg5)) (m (tcLoc d main_arg6)) (m (tcLoc d main_arg7)) (smp L j)

/-- The parameter scratch: the packed parameters. -/
def ParOK (fp : S1312.Idx → EReal) : Prop := ∀ j, fp j = parV m d j

/-- A half buffer of chunk `c`: row `r` is the table row that sample 128 c + r of the tile names. -/
def HalfUOK (k4 : Fin k0_t4_loop.trips) (c : Fin 4) (g : (halfU k4).view.ty.Contents (Elt Ideal)) : Prop :=
  ∀ (r : Fin 128) (x : Fin 64), View.read (Elt Ideal) (halfU k4).view g (ix2 r x)
    = rowValU (F := Ideal) (m (a2Loc d)) (idxValU (F := Ideal) L (m (a0Loc d)) (sampleIdx c r)) (ix1 x)
def HalfIOK (k4 : Fin k0_t4_loop.trips) (c : Fin 4) (g : (halfI k4).view.ty.Contents (Elt Ideal)) : Prop :=
  ∀ (r : Fin 128) (x : Fin 64), View.read (Elt Ideal) (halfI k4).view g (ix2 r x)
    = rowValI (F := Ideal) (m (a3Loc d)) (idxValI (F := Ideal) L (m (a1Loc d)) (sampleIdx c r)) (ix1 x)

end Cert.Proof.KI

end
-- ==== Proof.KHalfV.lean ====
/-
  A half buffer's 128 landed rows, each known to read a given row of values, ARE the half buffer held at contents whose
  entry (r, x) is that row's entry x: the rows' pure facts come out of the separating conjunction, the rows' contents
  join into one (agreeing with each row on its own entries), and the half's element (r, x) is row r's element x.
-/
import proofs.«214512_g89103391522852_cont_sun_m_1157_25_alg».proof.Proof.KHalfIdx
import proofs.«214512_g89103391522852_cont_sun_m_1157_25_alg».proof.Proof.KValSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Join

variable (d : Dev nD) (L : grid0.Coords)

theorem rows_to_halfUV_of (b : Fin 2) (k4 : Fin k0_t4_loop.trips) (hb : k0_off144 k4 = ![b.val, 0, 0])
    (hemb : ∀ (r : Fin 128) (x : Fin 64), (halfU k4).view.emb (ix2 r x) = (rowAt (urowS) ![b.val, r.val, 0] (row_inb b r)).view.emb (ix1 x))
    (val : Fin 128 → S64.Idx → Elt F .f32) :
    (bigSep Finset.univ (fun r : Fin 128 => ownAtV (F := F) d L (urowS) ![b.val, r.val, 0] (row_inb b r) (val r)) : sProp 𝕄)
      ⊢ iprop(∃ g, ((halfU k4).view.loc (thr d L) ↦[(halfU k4).view.set]{fullShare} g)
          ∗ ⌜∀ (r : Fin 128) (x : Fin 64), View.read (Elt F) (halfU k4).view g (ix2 r x) = val r (ix1 x)⌝) := by
  -- the rows' own element sets, pairwise disjoint, together the half's
  let K : Fin 128 → Finset (Idx ((urowS).view.loc (thr d L))) := fun r => (rowAt (urowS) ![b.val, r.val, 0] (row_inb b r)).view.set
  have hK : ∀ r, K r = rset b r := fun r => rowU_set b r
  have hdisj : ∀ r ∈ (Finset.univ : Finset (Fin 128)), ∀ r' ∈ (Finset.univ : Finset (Fin 128)), r ≠ r' → Disjoint (K r) (K r') := by
    intro r hr r' hr' hne; rw [hK, hK]; exact rset_disjoint b r hr r' hr' hne
  have hcover : (Finset.univ : Finset (Fin 128)).biUnion K = (halfU k4).view.set := by
    rw [halfU_set k4 b hb, ← rset_cover b]; exact Finset.biUnion_congr rfl fun r _ => hK r
  have h1 : (bigSep Finset.univ (fun r : Fin 128 => ownAtV (F := F) d L (urowS) ![b.val, r.val, 0] (row_inb b r) (val r)) : sProp 𝕄)
      ⊢ bigSep Finset.univ fun r : Fin 128 => iprop(∃ g : Buf (Elt F) ((urowS).view.loc (thr d L)),
          ⌜View.read (Elt F) (rowAt (urowS) ![b.val, r.val, 0] (row_inb b r)).view g = val r⌝ ∗ ((urowS).view.loc (thr d L) ↦[K r]{fullShare} g)) :=
    BI.bigSep_mono fun r _ => by
      show (ownAtV (F := F) d L (urowS) ![b.val, r.val, 0] (row_inb b r) (val r) : sProp 𝕄)
        ⊢ (iprop(∃ g : Buf (Elt F) ((urowS).view.loc (thr d L)),
          ⌜View.read (Elt F) (rowAt (urowS) ![b.val, r.val, 0] (row_inb b r)).view g = val r⌝ ∗ ((urowS).view.loc (thr d L) ↦[K r]{fullShare} g)) : sProp 𝕄)
      unfold ownAtV
      iintro ⟨%g, H, %hg⟩
      iexists g
      isplitr; · ipureintro; exact hg
      iexact H
  refine h1.trans ((bigSep_exists_pi Finset.univ
    (fun (r : Fin 128) (g : Buf (Elt F) ((urowS).view.loc (thr d L))) =>
      (iprop(⌜View.read (Elt F) (rowAt (urowS) ![b.val, r.val, 0] (row_inb b r)).view g = val r⌝ ∗ ((urowS).view.loc (thr d L) ↦[K r]{fullShare} g)) : sProp 𝕄))).trans ?_)
  iintro ⟨%fs, H⟩
  ihave H1 := (bigSep_pure_sep Finset.univ (fun r : Fin 128 => View.read (Elt F) (rowAt (urowS) ![b.val, r.val, 0] (row_inb b r)).view (fs r) = val r)
    (fun r : Fin 128 => ((urowS).view.loc (thr d L) ↦[K r]{fullShare} fs r : sProp 𝕄))) $$ H
  icases H1 with ⟨%hval, H⟩
  ihave H' := (pointsTo_biUnion_join Finset.univ K fs (fs 0) hdisj) $$ H
  icases H' with ⟨%g, %hagree, Hg⟩
  rw [hcover]
  iexists g
  isplitl [Hg]; · iexact Hg
  ipureintro
  intro r x
  have e2 := congrFun (hval r (Finset.mem_univ r)) (ix1 x)
  have hm : (rowAt (urowS) ![b.val, r.val, 0] (row_inb b r)).view.emb (ix1 x) ∈ K r :=
    View.emb_mem_set (rowAt (urowS) ![b.val, r.val, 0] (row_inb b r)).view (ix1 x)
  have h3 : g ((halfU k4).view.emb (ix2 r x)) = fs r ((rowAt (urowS) ![b.val, r.val, 0] (row_inb b r)).view.emb (ix1 x)) := by
    rw [hemb r x]; exact hagree r (Finset.mem_univ r) _ hm
  have e3 := (View.read_apply (v := (rowAt (urowS) ![b.val, r.val, 0] (row_inb b r)).view) (Val := Elt F) (fs r) (ix1 x)).symm.trans e2
  refine (View.read_apply (v := (halfU k4).view) (Val := Elt F) g (ix2 r x)).trans ?_
  rw [h3]; exact e3

theorem rows_to_halfIV_of (b : Fin 2) (k4 : Fin k0_t4_loop.trips) (hb : k0_off158 k4 = ![b.val, 0, 0])
    (hemb : ∀ (r : Fin 128) (x : Fin 64), (halfI k4).view.emb (ix2 r x) = (rowAt (irowS) ![b.val, r.val, 0] (row_inb b r)).view.emb (ix1 x))
    (val : Fin 128 → S64.Idx → Elt F .f32) :
    (bigSep Finset.univ (fun r : Fin 128 => ownAtV (F := F) d L (irowS) ![b.val, r.val, 0] (row_inb b r) (val r)) : sProp 𝕄)
      ⊢ iprop(∃ g, ((halfI k4).view.loc (thr d L) ↦[(halfI k4).view.set]{fullShare} g)
          ∗ ⌜∀ (r : Fin 128) (x : Fin 64), View.read (Elt F) (halfI k4).view g (ix2 r x) = val r (ix1 x)⌝) := by
  -- the rows' own element sets, pairwise disjoint, together the half's
  let K : Fin 128 → Finset (Idx ((irowS).view.loc (thr d L))) := fun r => (rowAt (irowS) ![b.val, r.val, 0] (row_inb b r)).view.set
  have hK : ∀ r, K r = rset b r := fun r => rowI_set b r
  have hdisj : ∀ r ∈ (Finset.univ : Finset (Fin 128)), ∀ r' ∈ (Finset.univ : Finset (Fin 128)), r ≠ r' → Disjoint (K r) (K r') := by
    intro r hr r' hr' hne; rw [hK, hK]; exact rset_disjoint b r hr r' hr' hne
  have hcover : (Finset.univ : Finset (Fin 128)).biUnion K = (halfI k4).view.set := by
    rw [halfI_set k4 b hb, ← rset_cover b]; exact Finset.biUnion_congr rfl fun r _ => hK r
  have h1 : (bigSep Finset.univ (fun r : Fin 128 => ownAtV (F := F) d L (irowS) ![b.val, r.val, 0] (row_inb b r) (val r)) : sProp 𝕄)
      ⊢ bigSep Finset.univ fun r : Fin 128 => iprop(∃ g : Buf (Elt F) ((irowS).view.loc (thr d L)),
          ⌜View.read (Elt F) (rowAt (irowS) ![b.val, r.val, 0] (row_inb b r)).view g = val r⌝ ∗ ((irowS).view.loc (thr d L) ↦[K r]{fullShare} g)) :=
    BI.bigSep_mono fun r _ => by
      show (ownAtV (F := F) d L (irowS) ![b.val, r.val, 0] (row_inb b r) (val r) : sProp 𝕄)
        ⊢ (iprop(∃ g : Buf (Elt F) ((irowS).view.loc (thr d L)),
          ⌜View.read (Elt F) (rowAt (irowS) ![b.val, r.val, 0] (row_inb b r)).view g = val r⌝ ∗ ((irowS).view.loc (thr d L) ↦[K r]{fullShare} g)) : sProp 𝕄)
      unfold ownAtV
      iintro ⟨%g, H, %hg⟩
      iexists g
      isplitr; · ipureintro; exact hg
      iexact H
  refine h1.trans ((bigSep_exists_pi Finset.univ
    (fun (r : Fin 128) (g : Buf (Elt F) ((irowS).view.loc (thr d L))) =>
      (iprop(⌜View.read (Elt F) (rowAt (irowS) ![b.val, r.val, 0] (row_inb b r)).view g = val r⌝ ∗ ((irowS).view.loc (thr d L) ↦[K r]{fullShare} g)) : sProp 𝕄))).trans ?_)
  iintro ⟨%fs, H⟩
  ihave H1 := (bigSep_pure_sep Finset.univ (fun r : Fin 128 => View.read (Elt F) (rowAt (irowS) ![b.val, r.val, 0] (row_inb b r)).view (fs r) = val r)
    (fun r : Fin 128 => ((irowS).view.loc (thr d L) ↦[K r]{fullShare} fs r : sProp 𝕄))) $$ H
  icases H1 with ⟨%hval, H⟩
  ihave H' := (pointsTo_biUnion_join Finset.univ K fs (fs 0) hdisj) $$ H
  icases H' with ⟨%g, %hagree, Hg⟩
  rw [hcover]
  iexists g
  isplitl [Hg]; · iexact Hg
  ipureintro
  intro r x
  have e2 := congrFun (hval r (Finset.mem_univ r)) (ix1 x)
  have hm : (rowAt (irowS) ![b.val, r.val, 0] (row_inb b r)).view.emb (ix1 x) ∈ K r :=
    View.emb_mem_set (rowAt (irowS) ![b.val, r.val, 0] (row_inb b r)).view (ix1 x)
  have h3 : g ((halfI k4).view.emb (ix2 r x)) = fs r ((rowAt (irowS) ![b.val, r.val, 0] (row_inb b r)).view.emb (ix1 x)) := by
    rw [hemb r x]; exact hagree r (Finset.mem_univ r) _ hm
  have e3 := (View.read_apply (v := (rowAt (irowS) ![b.val, r.val, 0] (row_inb b r)).view) (Val := Elt F) (fs r) (ix1 x)).symm.trans e2
  refine (View.read_apply (v := (halfI k4).view) (Val := Elt F) g (ix2 r x)).trans ?_
  rw [h3]; exact e3

/-- With the identity of elements in hand: -/
theorem rows_to_halfUV (b : Fin 2) (k4 : Fin k0_t4_loop.trips) (hb : k0_off144 k4 = ![b.val, 0, 0]) (val : Fin 128 → S64.Idx → Elt F .f32) :
    (bigSep Finset.univ (fun r : Fin 128 => ownAtV (F := F) d L (urowS) ![b.val, r.val, 0] (row_inb b r) (val r)) : sProp 𝕄)
      ⊢ iprop(∃ g, ((halfU k4).view.loc (thr d L) ↦[(halfU k4).view.set]{fullShare} g)
          ∗ ⌜∀ (r : Fin 128) (x : Fin 64), View.read (Elt F) (halfU k4).view g (ix2 r x) = val r (ix1 x)⌝) :=
  rows_to_halfUV_of d L b k4 hb (halfIdx_U b k4 hb) val

theorem rows_to_halfIV (b : Fin 2) (k4 : Fin k0_t4_loop.trips) (hb : k0_off158 k4 = ![b.val, 0, 0]) (val : Fin 128 → S64.Idx → Elt F .f32) :
    (bigSep Finset.univ (fun r : Fin 128 => ownAtV (F := F) d L (irowS) ![b.val, r.val, 0] (row_inb b r) (val r)) : sProp 𝕄)
      ⊢ iprop(∃ g, ((halfI k4).view.loc (thr d L) ↦[(halfI k4).view.set]{fullShare} g)
          ∗ ⌜∀ (r : Fin 128) (x : Fin 64), View.read (Elt F) (halfI k4).view g (ix2 r x) = val r (ix1 x)⌝) :=
  rows_to_halfIV_of d L b k4 hb (halfIdx_I b k4 hb) val

end Join

/-! At the idealized program, in the shape the accumulator's step asks for. -/

section Ideal

local notation "𝕄ᵢ" => MT nD τ sig (HIx 1) (Elt Ideal) ℕ UU ℕ

variable (m : (ℓ : Loc nD τ sig) → Buf (Elt Ideal) ℓ) (d : Dev nD) (L : grid0.Coords)

theorem rows_to_halfUOK (b : Fin 2) (k4 : Fin k0_t4_loop.trips) (hb : k0_off144 k4 = ![b.val, 0, 0]) (c : Fin 4) :
    (bigSep Finset.univ (ownUV (F := Ideal) d L (m (a0Loc d)) (m (a2Loc d)) b c) : sProp 𝕄ᵢ)
      ⊢ iprop(∃ g, ((halfU k4).view.loc (thr d L) ↦[(halfU k4).view.set]{fullShare} g) ∗ ⌜HalfUOK m d L k4 c g⌝) :=
  rows_to_halfUV (F := Ideal) d L b k4 hb _

theorem rows_to_halfIOK (b : Fin 2) (k4 : Fin k0_t4_loop.trips) (hb : k0_off158 k4 = ![b.val, 0, 0]) (c : Fin 4) :
    (bigSep Finset.univ (ownIV (F := Ideal) d L (m (a1Loc d)) (m (a3Loc d)) b c) : sProp 𝕄ᵢ)
      ⊢ iprop(∃ g, ((halfI k4).view.loc (thr d L) ↦[(halfI k4).view.set]{fullShare} g) ∗ ⌜HalfIOK m d L k4 c g⌝) :=
  rows_to_halfIV (F := Ideal) d L b k4 hb _

end Ideal

end Cert.Proof.KI

end
-- ==== Proof.KDrainG.lean ====
/-
  The two drains of the chunk loop over arbitrary deliveries. The drains do not look at what the 128 copies of a batch
  deliver, only that they are a batch of 128 copies of one row's units on their cell: so the invariant and the trip's
  step are stated for any two families of deliveries, one per cell, and the last wait of each batch hands back that
  family whole.
-/
import proofs.«214512_g89103391522852_cont_sun_m_1157_25_alg».proof.Proof.KDrain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Tile

variable [∀ e, Nonempty (Elt F e)] (d : Dev nD) (L : grid0.Coords)

/-- Before trip `k` of the drain of half `b` — 128 trips, each a wait on the user rows' cell `su` and a wait on the
    item rows' cell `si` for one copy's units —: the tile may wait at index `none` under what it owes; what it has
    waited on so far is what it had on entry (`W`) and waits at `none`; and either (a trip is still to come) the two
    batches, all 128 copies issued and `k` copies' units consumed of each, or (after the last) both cells back at zero
    and every row of the half owned in either scratch. -/
def drainInvG (DU DI : Fin 128 → sProp 𝕄) (su si : SemLoc sig) (O : CellTallies nD τ sig (HIx 1)) (W : Waits sig (HIx 1)) (k : ℕ) (_ : Unit) : sProp 𝕄 :=
  iprop(⌜k ≤ 128⌝ ∗ Transfers.MayWaits (thr d L) (none : HIx 1) O
    ∗ (∃ W', ⌜∀ p ∈ W', p ∈ W ∨ p.2 = none⌝ ∗ owes (thr d L) O W')
    ∗ (if k < 128 then iprop(Transfers.Batch (countersEmb (U := UU)) (thr d L) su (none : HIx 1) 2048 DU 128 (k * 2048) ∗ Transfers.Batch (countersEmb (U := UU)) (thr d L) si (none : HIx 1) 2048 DI 128 (k * 2048))
       else iprop(semVal (thr d L, su) 0 ∗ bigSep Finset.univ DU
          ∗ semVal (thr d L, si) 0 ∗ bigSep Finset.univ DI)))

/-- One trip of the drain of half 0: a wait on the user rows' cell, a wait on the item rows' cell, each for one
    copy's units. Before the last trip the two batches go on with one more copy's units consumed; the last trip's two
    waits are the batches' last, and hand the cells back at zero and every row of the half, owned. -/
theorem t5G_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1)
    (DU DI : Fin 128 → sProp 𝕄) (O : CellTallies nD τ sig (HIx 1)) (W : Waits sig (HIx 1)) (k : Fin k0_t5_loop.trips) (acc : Unit) :
    drainInvG (F := F) d L DU DI (SemLoc.dma cc0_scratch7.sem) (SemLoc.dma cc0_scratch9.sem) O W k.val acc
      ⊢ wp frame (wpE (defs₀ (F := F)) 𝒱₀ (thr d L) none) Set.univ
          (k0_t5_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1 k acc)
          (drainInvG (F := F) d L DU DI (SemLoc.dma cc0_scratch7.sem) (SemLoc.dma cc0_scratch9.sem) O W (k.val + 1)) := by
  have hk : k.val < 128 := lt_of_lt_of_le k.isLt k0_t5_abs.2.1
  unfold drainInvG
  simp only [if_pos hk]
  rcases Nat.lt_or_ge (k.val + 1) 128 with h1 | h1
  · simp only [if_pos h1]
    iintro ⟨-, #Hmw, ⟨%W', %hW', HO⟩, HBu, HBi⟩
    unfold k0_t5_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    rw [show (k.val + 1) * 2048 = k.val * 2048 + 2048 by omega]
    isplitl [HBu]; · iexact HBu
    iexact HBi
  · simp only [if_neg (Nat.not_lt.mpr h1)]
    iintro ⟨-, #Hmw, ⟨%W', %hW', HO⟩, HBu, HBi⟩
    unfold k0_t5_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    isplitl [HBu]; · iexact HBu
    isplitl [HBu_all]; · iexact HBu_all
    isplitl [HBi]; · iexact HBi
    iexact HBi_all

/-- One trip of the drain of half 1: a wait on the user rows' cell, a wait on the item rows' cell, each for one
    copy's units. Before the last trip the two batches go on with one more copy's units consumed; the last trip's two
    waits are the batches' last, and hand the cells back at zero and every row of the half, owned. -/
theorem t6G_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1)
    (DU DI : Fin 128 → sProp 𝕄) (O : CellTallies nD τ sig (HIx 1)) (W : Waits sig (HIx 1)) (k : Fin k0_t6_loop.trips) (acc : Unit) :
    drainInvG (F := F) d L DU DI (SemLoc.dma cc0_scratch8.sem) (SemLoc.dma cc0_scratch10.sem) O W k.val acc
      ⊢ wp frame (wpE (defs₀ (F := F)) 𝒱₀ (thr d L) none) Set.univ
          (k0_t6_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2 k acc)
          (drainInvG (F := F) d L DU DI (SemLoc.dma cc0_scratch8.sem) (SemLoc.dma cc0_scratch10.sem) O W (k.val + 1)) := by
  have hk : k.val < 128 := lt_of_lt_of_le k.isLt k0_t6_abs.2.1
  unfold drainInvG
  simp only [if_pos hk]
  rcases Nat.lt_or_ge (k.val + 1) 128 with h1 | h1
  · simp only [if_pos h1]
    iintro ⟨-, #Hmw, ⟨%W', %hW', HO⟩, HBu, HBi⟩
    unfold k0_t6_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    rw [show (k.val + 1) * 2048 = k.val * 2048 + 2048 by omega]
    isplitl [HBu]; · iexact HBu
    iexact HBi
  · simp only [if_neg (Nat.not_lt.mpr h1)]
    iintro ⟨-, #Hmw, ⟨%W', %hW', HO⟩, HBu, HBi⟩
    unfold k0_t6_body
    sl_exec
    sl_step
    isplitr; · ipureintro; omega
    isplitr; · iexact Hmw
    isplitl [HO]
    · iexists _
      isplitr
      swap
      · iexact HO
      · ipureintro; intro p hp
        rcases Finset.mem_insert.mp hp with hp | hp
        · exact .inr (hp ▸ rfl)
        rcases Finset.mem_insert.mp hp with hp | hp
        · exact .inr (hp ▸ rfl)
        · exact hW' p hp
    isplitl [HBu]; · iexact HBu
    isplitl [HBu_all]; · iexact HBu_all
    isplitl [HBi]; · iexact HBi
    iexact HBi_all

end Tile

section Tile2

variable [∀ e, Nonempty (Elt F e)] (d : Dev nD) (L : grid0.Coords)

/-- On entry to a drain: the two batches with every copy issued and nothing consumed are the invariant before trip 0. -/
theorem drainG_entry (DU DI : Fin 128 → sProp 𝕄) (su si : SemLoc sig) (O : CellTallies nD τ sig (HIx 1)) (W : Waits sig (HIx 1)) (acc : Unit) :
    iprop(Transfers.MayWaits (thr d L) (none : HIx 1) O ∗ (∃ W', ⌜∀ p ∈ W', p ∈ W ∨ p.2 = none⌝ ∗ owes (thr d L) O W')
        ∗ Transfers.Batch (countersEmb (U := UU)) (thr d L) su (none : HIx 1) 2048 DU 128 0 ∗ Transfers.Batch (countersEmb (U := UU)) (thr d L) si (none : HIx 1) 2048 DI 128 0)
      ⊢ drainInvG (F := F) d L DU DI su si O W 0 acc := by
  unfold drainInvG
  simp only [if_pos (show 0 < 128 by decide), Nat.zero_mul]
  iintro ⟨Hmw, HO, HBu, HBi⟩
  isplitr; · ipureintro; omega
  isplitl [Hmw]; · iexact Hmw
  isplitl [HO]; · iexact HO
  isplitl [HBu]; · iexact HBu
  iexact HBi

/-- After the 128 trips of a drain: both cells at zero and every row of the half owned in either scratch. -/
theorem drainG_exit (DU DI : Fin 128 → sProp 𝕄) (su si : SemLoc sig) (O : CellTallies nD τ sig (HIx 1)) (W : Waits sig (HIx 1)) (acc : Unit) :
    drainInvG (F := F) d L DU DI su si O W 128 acc
      ⊢ iprop(Transfers.MayWaits (thr d L) (none : HIx 1) O ∗ (∃ W', ⌜∀ p ∈ W', p ∈ W ∨ p.2 = none⌝ ∗ owes (thr d L) O W')
          ∗ semVal (thr d L, su) 0 ∗ bigSep Finset.univ DU
          ∗ semVal (thr d L, si) 0 ∗ bigSep Finset.univ DI) := by
  unfold drainInvG
  simp only [if_neg (Nat.lt_irrefl 128)]
  iintro ⟨-, Hmw, HO, Hr⟩
  isplitl [Hmw]; · iexact Hmw
  isplitl [HO]; · iexact HO
  iexact Hr

set_option warn.classDefReducibility false in
/-- The drain of half 0 as a counted loop's invariant, the waits `W` at entry a parameter. -/
def invT5G (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1) (DU DI : Fin 128 → sProp 𝕄) (O : CellTallies nD τ sig (HIx 1)) (W : Waits sig (HIx 1)) :
    LoopInv (M := 𝕄) frame (wpE (defs₀ (F := F)) 𝒱₀ (thr d L) none) Set.univ k0_t5_loop.lb k0_t5_loop.ub k0_t5_loop.st (k0_t5_ok k0_t4 k0_h1) ⟨⟩
      (k0_t5_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1) where
  inv := drainInvG (F := F) d L DU DI (SemLoc.dma cc0_scratch7.sem) (SemLoc.dma cc0_scratch9.sem) O W
  step := t5G_step d L v3 v7 v11 v15 v19 v23 v24 c1285_i32 k0_t4 k0_h1 DU DI O W

set_option warn.classDefReducibility false in
/-- The drain of half 1 likewise. -/
def invT6G (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1) (DU DI : Fin 128 → sProp 𝕄) (O : CellTallies nD τ sig (HIx 1)) (W : Waits sig (HIx 1)) :
    LoopInv (M := 𝕄) frame (wpE (defs₀ (F := F)) 𝒱₀ (thr d L) none) Set.univ k0_t6_loop.lb k0_t6_loop.ub k0_t6_loop.st (k0_t6_ok k0_t4 k0_h2) ⟨⟩
      (k0_t6_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2) where
  inv := drainInvG (F := F) d L DU DI (SemLoc.dma cc0_scratch8.sem) (SemLoc.dma cc0_scratch10.sem) O W
  step := t6G_step d L v3 v7 v11 v15 v19 v23 v24 c1285_i32 k0_t4 k0_h2 DU DI O W

end Tile2

/-! ## The same with the recorded waits explicit

Before trip `k` the tile has waited on `W` and, from the first trip on, on the half's two cells; before trip 0 that is
the state at entry. -/

section TileW

variable [∀ e, Nonempty (Elt F e)] (d : Dev nD) (L : grid0.Coords)

def drainInvWG (DU DI : Fin 128 → sProp 𝕄) (su si : SemLoc sig) (O : CellTallies nD τ sig (HIx 1)) (W : Waits sig (HIx 1)) (k : ℕ) (_ : Unit) : sProp 𝕄 :=
  iprop(⌜k ≤ 128⌝ ∗ Transfers.MayWaits (thr d L) (none : HIx 1) O ∗ owes (thr d L) O (wDrain su si W k)
    ∗ (if k < 128 then iprop(Transfers.Batch (countersEmb (U := UU)) (thr d L) su (none : HIx 1) 2048 DU 128 (k * 2048) ∗ Transfers.Batch (countersEmb (U := UU)) (thr d L) si (none : HIx 1) 2048 DI 128 (k * 2048))
       else iprop(semVal (thr d L, su) 0 ∗ bigSep Finset.univ DU
          ∗ semVal (thr d L, si) 0 ∗ bigSep Finset.univ DI)))

/-- One trip of the drain of half 0, the waits recorded outright. -/
theorem t5WG_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1)
    (DU DI : Fin 128 → sProp 𝕄) (O : CellTallies nD τ sig (HIx 1)) (W : Waits sig (HIx 1)) (k : Fin k0_t5_loop.trips) (acc : Unit) :
    drainInvWG (F := F) d L DU DI (SemLoc.dma cc0_scratch7.sem) (SemLoc.dma cc0_scratch9.sem) O W k.val acc
      ⊢ wp frame (wpE (defs₀ (F := F)) 𝒱₀ (thr d L) none) Set.univ
          (k0_t5_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1 k acc)
          (drainInvWG (F := F) d L DU DI (SemLoc.dma cc0_scratch7.sem) (SemLoc.dma cc0_scratch9.sem) O W (k.val + 1)) := by
  have hk : k.val < 128 := lt_of_lt_of_le k.isLt k0_t5_abs.2.1
  unfold drainInvWG
  simp only [if_pos hk]
  rcases Nat.lt_or_ge (k.val + 1) 128 with h1 | h1
  · simp only [if_pos h1]
    iintro ⟨-, #Hmw, HO, HBu, HBi⟩
    unfold k0_t5_body
    sl_exec
    sl_step
    isplitr; · ipureintro; omega
    isplitr; · iexact Hmw
    isplitl [HO]
    · rw [← wDrain_step]; iexact HO
    rw [show (k.val + 1) * 2048 = k.val * 2048 + 2048 by omega]
    isplitl [HBu]; · iexact HBu
    iexact HBi
  · simp only [if_neg (Nat.not_lt.mpr h1)]
    iintro ⟨-, #Hmw, HO, HBu, HBi⟩
    unfold k0_t5_body
    sl_exec
    sl_step
    isplitr; · ipureintro; omega
    isplitr; · iexact Hmw
    isplitl [HO]
    · rw [← wDrain_step]; iexact HO
    isplitl [HBu]; · iexact HBu
    isplitl [HBu_all]; · iexact HBu_all
    isplitl [HBi]; · iexact HBi
    iexact HBi_all

/-- One trip of the drain of half 1, the waits recorded outright. -/
theorem t6WG_step (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1)
    (DU DI : Fin 128 → sProp 𝕄) (O : CellTallies nD τ sig (HIx 1)) (W : Waits sig (HIx 1)) (k : Fin k0_t6_loop.trips) (acc : Unit) :
    drainInvWG (F := F) d L DU DI (SemLoc.dma cc0_scratch8.sem) (SemLoc.dma cc0_scratch10.sem) O W k.val acc
      ⊢ wp frame (wpE (defs₀ (F := F)) 𝒱₀ (thr d L) none) Set.univ
          (k0_t6_body L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2 k acc)
          (drainInvWG (F := F) d L DU DI (SemLoc.dma cc0_scratch8.sem) (SemLoc.dma cc0_scratch10.sem) O W (k.val + 1)) := by
  have hk : k.val < 128 := lt_of_lt_of_le k.isLt k0_t6_abs.2.1
  unfold drainInvWG
  simp only [if_pos hk]
  rcases Nat.lt_or_ge (k.val + 1) 128 with h1 | h1
  · simp only [if_pos h1]
    iintro ⟨-, #Hmw, HO, HBu, HBi⟩
    unfold k0_t6_body
    sl_exec
    sl_step
    isplitr; · ipureintro; omega
    isplitr; · iexact Hmw
    isplitl [HO]
    · rw [← wDrain_step]; iexact HO
    rw [show (k.val + 1) * 2048 = k.val * 2048 + 2048 by omega]
    isplitl [HBu]; · iexact HBu
    iexact HBi
  · simp only [if_neg (Nat.not_lt.mpr h1)]
    iintro ⟨-, #Hmw, HO, HBu, HBi⟩
    unfold k0_t6_body
    sl_exec
    sl_step
    isplitr; · ipureintro; omega
    isplitr; · iexact Hmw
    isplitl [HO]
    · rw [← wDrain_step]; iexact HO
    isplitl [HBu]; · iexact HBu
    isplitl [HBu_all]; · iexact HBu_all
    isplitl [HBi]; · iexact HBi
    iexact HBi_all

/-- What a drain entered at `W` leaves: the tile may still wait, has waited on the two cells besides `W`, holds both
    cells at zero and every row of the half in either scratch. -/
def drainPostWG (DU DI : Fin 128 → sProp 𝕄) (su si : SemLoc sig) (O : CellTallies nD τ sig (HIx 1)) (W : Waits sig (HIx 1)) : sProp 𝕄 :=
  iprop(Transfers.MayWaits (thr d L) (none : HIx 1) O ∗ owes (thr d L) O (insert (si, (none : HIx 1)) (insert (su, (none : HIx 1)) W))
    ∗ semVal (thr d L, su) 0 ∗ bigSep Finset.univ DU
    ∗ semVal (thr d L, si) 0 ∗ bigSep Finset.univ DI)

theorem drainWG_exit (DU DI : Fin 128 → sProp 𝕄) (su si : SemLoc sig) (O : CellTallies nD τ sig (HIx 1)) (W : Waits sig (HIx 1)) (acc : Unit) :
    drainInvWG (F := F) d L DU DI su si O W 128 acc ⊢ drainPostWG (F := F) d L DU DI su si O W := by
  unfold drainInvWG drainPostWG
  simp only [if_neg (Nat.lt_irrefl 128)]
  iintro ⟨-, Hmw, HO, Hr⟩
  isplitl [Hmw]; · iexact Hmw
  isplitl [HO]; · iexact HO
  iexact Hr

set_option warn.classDefReducibility false in
def invT5WG (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1) (DU DI : Fin 128 → sProp 𝕄) (O : CellTallies nD τ sig (HIx 1)) (W : Waits sig (HIx 1)) :
    LoopInv (M := 𝕄) frame (wpE (defs₀ (F := F)) 𝒱₀ (thr d L) none) Set.univ k0_t5_loop.lb k0_t5_loop.ub k0_t5_loop.st (k0_t5_ok k0_t4 k0_h1) ⟨⟩
      (k0_t5_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h1) where
  inv := drainInvWG (F := F) d L DU DI (SemLoc.dma cc0_scratch7.sem) (SemLoc.dma cc0_scratch9.sem) O W
  step := t5WG_step d L v3 v7 v11 v15 v19 v23 v24 c1285_i32 k0_t4 k0_h1 DU DI O W

set_option warn.classDefReducibility false in
def invT6WG (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1) (DU DI : Fin 128 → sProp 𝕄) (O : CellTallies nD τ sig (HIx 1)) (W : Waits sig (HIx 1)) :
    LoopInv (M := 𝕄) frame (wpE (defs₀ (F := F)) 𝒱₀ (thr d L) none) Set.univ k0_t6_loop.lb k0_t6_loop.ub k0_t6_loop.st (k0_t6_ok k0_t4 k0_h2) ⟨⟩
      (k0_t6_body (F := F) L userW (Memref.isWhole_whole _) itemW (Memref.isWhole_whole _) uembW (Memref.isWhole_whole _) iembW (Memref.isWhole_whole _) parW (Memref.isWhole_whole _) outW (Memref.isWhole_whole _) uidxS (Memref.isWhole_whole _) iidxS (Memref.isWhole_whole _) urowS (Memref.isWhole_whole _) irowS (Memref.isWhole_whole _) parS (Memref.isWhole_whole _) accS (Memref.isWhole_whole _) outS (Memref.isWhole_whole _) cc0_scratch7 cc0_scratch8 cc0_scratch9 cc0_scratch10 cc0_scoped0 cc0_scoped1 cc0_scoped2 cc0_scoped3 v3 v7 v11 v15 v19 v23 v24 c1285_i32 k0_t4 k0_h2) where
  inv := drainInvWG (F := F) d L DU DI (SemLoc.dma cc0_scratch8.sem) (SemLoc.dma cc0_scratch10.sem) O W
  step := t6WG_step d L v3 v7 v11 v15 v19 v23 v24 c1285_i32 k0_t4 k0_h2 DU DI O W

/-- What either drain leaves, stated explicitly: the state from which the rest of the chunk proceeds. -/
instance exitT5WG (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h1 : k0_cond1 k0_t4 = 1#1) (DU DI : Fin 128 → sProp 𝕄) (O : CellTallies nD τ sig (HIx 1)) (W : Waits sig (HIx 1)) :
    LoopExit (invT5WG (F := F) d L v3 v7 v11 v15 v19 v23 v24 c1285_i32 k0_t4 k0_h1 DU DI O W) where
  post _ := drainPostWG (F := F) d L DU DI (SemLoc.dma cc0_scratch7.sem) (SemLoc.dma cc0_scratch9.sem) O W
  exit acc := by
    show drainInvWG (F := F) d L DU DI (SemLoc.dma cc0_scratch7.sem) (SemLoc.dma cc0_scratch9.sem) O W k0_t5_loop.trips acc ⊢ _
    rw [k0_t5_trips]; exact drainWG_exit d L DU DI _ _ O W acc

instance exitT6WG (v3 : IVec S16 32) (v7 : Vec F S16 .f32) (v11 : Vec F S16 .f32) (v15 : Vec F S16 .f32) (v19 : Vec F S16 .f32) (v23 : Vec F S16 .f32) (v24 : IVec S16 32) (c1285_i32 : BitVec 32) (k0_t4 : Fin k0_t4_loop.trips) (k0_h2 : k0_cond2 k0_t4 = 1#1) (DU DI : Fin 128 → sProp 𝕄) (O : CellTallies nD τ sig (HIx 1)) (W : Waits sig (HIx 1)) :
    LoopExit (invT6WG (F := F) d L v3 v7 v11 v15 v19 v23 v24 c1285_i32 k0_t4 k0_h2 DU DI O W) where
  post _ := drainPostWG (F := F) d L DU DI (SemLoc.dma cc0_scratch8.sem) (SemLoc.dma cc0_scratch10.sem) O W
  exit acc := by
    show drainInvWG (F := F) d L DU DI (SemLoc.dma cc0_scratch8.sem) (SemLoc.dma cc0_scratch10.sem) O W k0_t6_loop.trips acc ⊢ _
    rw [k0_t6_trips]; exact drainWG_exit d L DU DI _ _ O W acc

end TileW

end Cert.Proof.KI

end
-- ==== Proof.KIssueVT2.lean ====
/-
  One trip of the first issue loop with the contents of what its copies land: copy number `16 k + j` of the batch on
  the user rows' cell delivers row `16 k + j` of half 0 holding the user table's row named by the index word of the
  tile's sample `0 + 16 k + j` (chunk 0), and likewise for the item rows. The rows not yet issued are held as before,
  at whatever they hold; only what a batch promises to deliver carries contents. The word a copy's source row is sliced
  at is a lane of the index scratch, which holds the tile's 512 index words, so it is the sample's index word; the 64
  entries taken from the table at that row are the table's row; and the destination row, overwritten whole, reads back
  exactly those entries.
-/
import proofs.«214512_g89103391522852_cont_sun_m_1157_25_alg».proof.Proof.KIssueT2
import proofs.«214512_g89103391522852_cont_sun_m_1157_25_alg».proof.Proof.KRowsV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-- The offsets of a lane: a load at `b0` and lane `j0` name sample `128 c + r` when `b0 + j0 = 128 c + r`. -/
private theorem idx_arith (off o : Fin 1 → ℕ) (b0 j0 : ℕ) (hoff : off = ![b0]) (ho : o = ![j0]) (c : Fin 4) (r : Fin 128)
    (h : b0 + j0 = 128 * c.val + r.val) (a : Fin 1) : off a + o a = (sampleIdx c r a).val := by
  subst hoff; subst ho
  match a with
  | ⟨0, _⟩ => exact h

private theorem fin_congr {n a b : ℕ} (ha : a < n) (hb : b < n) (e : a = b) : (⟨a, ha⟩ : Fin n) = ⟨b, hb⟩ := by subst e; rfl

section Issue

variable (d : Dev nD) (L : grid0.Coords)

/-- Before trip `k`: `16 k` copies of each table issued, nothing consumed; the rows and read tokens from there on in hand;
    the two index scratches as filled. -/
def issueAt_t2V (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchUV d L fu fue 0 0 (SemLoc.dma cc0_scratch7.sem) (16 * k) 0 ∗ batchIV d L fi fie 0 0 (SemLoc.dma cc0_scratch9.sem) (16 * k) 0
    ∗ bigSep (Ring.rangeSet 128 (16 * k) 128) (ownU d L 0) ∗ bigSep (Ring.rangeSet 128 (16 * k) 128) (ownI d L 0)
    ∗ bigSep (Ring.rangeSet 512 (16 * k) 128) (fun t => tokU d L q fue t.val) ∗ bigSep (Ring.rangeSet 512 (16 * k) 128) (fun t => tokI d L q fie t.val)
    ∗ idxU d L fu f0 ∗ idxI d L fi f1)

set_option maxHeartbeats 4000000 in
theorem issue_step_t2V [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32)
    (k : Fin k0_t2_loop.trips) (acc : Unit) :
    issueAt_t2V d L q fu fi f0 f1 fue fie k acc
      ⊢ wp frame (wpE (defs₀ (F := F)) 𝒱₀ (thr d L) none) Set.univ
          (k0_t2_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k acc)
          (issueAt_t2V d L q fu fi f0 f1 fue fie (k.val + 1)) := by
  have hk := k.isLt; have h8 := k0_t2_abs.2.1
  unfold issueAt_t2V
  rw [Ring.bigSep_rangeSet_head (Φ := ownU d L 0) (lo := 16 * k.val) (by omega) (by omega),
    Ring.bigSep_rangeSet_head (Φ := ownU d L 0) (lo := 16 * k.val + 1) (by omega) (by omega),
    Ring.bigSep_rangeSet_head (Φ := ownU d L 0) (lo := 16 * k.val + 2) (by omega) (by omega),
    Ring.bigSep_rangeSet_head (Φ := ownU d L 0) (lo := 16 * k.val + 3) (by omega) (by omega),
    Ring.bigSep_rangeSet_head (Φ := ownU d L 0) (lo := 16 * k.val + 4) (by omega) (by omega),
    Ring.bigSep_rangeSet_head (Φ := ownU d L 0) (lo := 16 * k.val + 5) (by omega) (by omega),
    Ring.bigSep_rangeSet_head (Φ := ownU d L 0) (lo := 16 * k.val + 6) (by omega) (by omega),
    Ring.bigSep_rangeSet_head (Φ := ownU d L 0) (lo := 16 * k.val + 7) (by omega) (by omega),
    Ring.bigSep_rangeSet_head (Φ := ownU d L 0) (lo := 16 * k.val + 8) (by omega) (by omega),
    Ring.bigSep_rangeSet_head (Φ := ownU d L 0) (lo := 16 * k.val + 9) (by omega) (by omega),
    Ring.bigSep_rangeSet_head (Φ := ownU d L 0) (lo := 16 * k.val + 10) (by omega) (by omega),
    Ring.bigSep_rangeSet_head (Φ := ownU d L 0) (lo := 16 * k.val + 11) (by omega) (by omega),
    Ring.bigSep_rangeSet_head (Φ := ownU d L 0) (lo := 16 * k.val + 12) (by omega) (by omega),
    Ring.bigSep_rangeSet_head (Φ := ownU d L 0) (lo := 16 * k.val + 13) (by omega) (by omega),
    Ring.bigSep_rangeSet_head (Φ := ownU d L 0) (lo := 16 * k.val + 14) (by omega) (by omega),
    Ring.bigSep_rangeSet_head (Φ := ownU d L 0) (lo := 16 * k.val + 15) (by omega) (by omega),
    Ring.bigSep_rangeSet_head (Φ := ownI d L 0) (lo := 16 * k.val) (by omega) (by omega),
    Ring.bigSep_rangeSet_head (Φ := ownI d L 0) (lo := 16 * k.val + 1) (by omega) (by omega),
    Ring.bigSep_rangeSet_head (Φ := ownI d L 0) (lo := 16 * k.val + 2) (by omega) (by omega),
    Ring.bigSep_rangeSet_head (Φ := ownI d L 0) (lo := 16 * k.val + 3) (by omega) (by omega),
    Ring.bigSep_rangeSet_head (Φ := ownI d L 0) (lo := 16 * k.val + 4) (by omega) (by omega),
    Ring.bigSep_rangeSet_head (Φ := ownI d L 0) (lo := 16 * k.val + 5) (by omega) (by omega),
    Ring.bigSep_rangeSet_head (Φ := ownI d L 0) (lo := 16 * k.val + 6) (by omega) (by omega),
    Ring.bigSep_rangeSet_head (Φ := ownI d L 0) (lo := 16 * k.val + 7) (by omega) (by omega),
    Ring.bigSep_rangeSet_head (Φ := ownI d L 0) (lo := 16 * k.val + 8) (by omega) (by omega),
    Ring.bigSep_rangeSet_head (Φ := ownI d L 0) (lo := 16 * k.val + 9) (by omega) (by omega),
    Ring.bigSep_rangeSet_head (Φ := ownI d L 0) (lo := 16 * k.val + 10) (by omega) (by omega),
    Ring.bigSep_rangeSet_head (Φ := ownI d L 0) (lo := 16 * k.val + 11) (by omega) (by omega),
    Ring.bigSep_rangeSet_head (Φ := ownI d L 0) (lo := 16 * k.val + 12) (by omega) (by omega),
    Ring.bigSep_rangeSet_head (Φ := ownI d L 0) (lo := 16 * k.val + 13) (by omega) (by omega),
    Ring.bigSep_rangeSet_head (Φ := ownI d L 0) (lo := 16 * k.val + 14) (by omega) (by omega),
    Ring.bigSep_rangeSet_head (Φ := ownI d L 0) (lo := 16 * k.val + 15) (by omega) (by omega),
    Ring.bigSep_rangeSet_head (Φ := fun t => tokU d L q fue t.val) (lo := 16 * k.val) (by omega) (by omega),
    Ring.bigSep_rangeSet_head (Φ := fun t => tokU d L q fue t.val) (lo := 16 * k.val + 1) (by omega) (by omega),
    Ring.bigSep_rangeSet_head (Φ := fun t => tokU d L q fue t.val) (lo := 16 * k.val + 2) (by omega) (by omega),
    Ring.bigSep_rangeSet_head (Φ := fun t => tokU d L q fue t.val) (lo := 16 * k.val + 3) (by omega) (by omega),
    Ring.bigSep_rangeSet_head (Φ := fun t => tokU d L q fue t.val) (lo := 16 * k.val + 4) (by omega) (by omega),
    Ring.bigSep_rangeSet_head (Φ := fun t => tokU d L q fue t.val) (lo := 16 * k.val + 5) (by omega) (by omega),
    Ring.bigSep_rangeSet_head (Φ := fun t => tokU d L q fue t.val) (lo := 16 * k.val + 6) (by omega) (by omega),
    Ring.bigSep_rangeSet_head (Φ := fun t => tokU d L q fue t.val) (lo := 16 * k.val + 7) (by omega) (by omega),
    Ring.bigSep_rangeSet_head (Φ := fun t => tokU d L q fue t.val) (lo := 16 * k.val + 8) (by omega) (by omega),
    Ring.bigSep_rangeSet_head (Φ := fun t => tokU d L q fue t.val) (lo := 16 * k.val + 9) (by omega) (by omega),
    Ring.bigSep_rangeSet_head (Φ := fun t => tokU d L q fue t.val) (lo := 16 * k.val + 10) (by omega) (by omega),
    Ring.bigSep_rangeSet_head (Φ := fun t => tokU d L q fue t.val) (lo := 16 * k.val + 11) (by omega) (by omega),
    Ring.bigSep_rangeSet_head (Φ := fun t => tokU d L q fue t.val) (lo := 16 * k.val + 12) (by omega) (by omega),
    Ring.bigSep_rangeSet_head (Φ := fun t => tokU d L q fue t.val) (lo := 16 * k.val + 13) (by omega) (by omega),
    Ring.bigSep_rangeSet_head (Φ := fun t => tokU d L q fue t.val) (lo := 16 * k.val + 14) (by omega) (by omega),
    Ring.bigSep_rangeSet_head (Φ := fun t => tokU d L q fue t.val) (lo := 16 * k.val + 15) (by omega) (by omega),
    Ring.bigSep_rangeSet_head (Φ := fun t => tokI d L q fie t.val) (lo := 16 * k.val) (by omega) (by omega),
    Ring.bigSep_rangeSet_head (Φ := fun t => tokI d L q fie t.val) (lo := 16 * k.val + 1) (by omega) (by omega),
    Ring.bigSep_rangeSet_head (Φ := fun t => tokI d L q fie t.val) (lo := 16 * k.val + 2) (by omega) (by omega),
    Ring.bigSep_rangeSet_head (Φ := fun t => tokI d L q fie t.val) (lo := 16 * k.val + 3) (by omega) (by omega),
    Ring.bigSep_rangeSet_head (Φ := fun t => tokI d L q fie t.val) (lo := 16 * k.val + 4) (by omega) (by omega),
    Ring.bigSep_rangeSet_head (Φ := fun t => tokI d L q fie t.val) (lo := 16 * k.val + 5) (by omega) (by omega),
    Ring.bigSep_rangeSet_head (Φ := fun t => tokI d L q fie t.val) (lo := 16 * k.val + 6) (by omega) (by omega),
    Ring.bigSep_rangeSet_head (Φ := fun t => tokI d L q fie t.val) (lo := 16 * k.val + 7) (by omega) (by omega),
    Ring.bigSep_rangeSet_head (Φ := fun t => tokI d L q fie t.val) (lo := 16 * k.val + 8) (by omega) (by omega),
    Ring.bigSep_rangeSet_head (Φ := fun t => tokI d L q fie t.val) (lo := 16 * k.val + 9) (by omega) (by omega),
    Ring.bigSep_rangeSet_head (Φ := fun t => tokI d L q fie t.val) (lo := 16 * k.val + 10) (by omega) (by omega),
    Ring.bigSep_rangeSet_head (Φ := fun t => tokI d L q fie t.val) (lo := 16 * k.val + 11) (by omega) (by omega),
    Ring.bigSep_rangeSet_head (Φ := fun t => tokI d L q fie t.val) (lo := 16 * k.val + 12) (by omega) (by omega),
    Ring.bigSep_rangeSet_head (Φ := fun t => tokI d L q fie t.val) (lo := 16 * k.val + 13) (by omega) (by omega),
    Ring.bigSep_rangeSet_head (Φ := fun t => tokI d L q fie t.val) (lo := 16 * k.val + 14) (by omega) (by omega),
    Ring.bigSep_rangeSet_head (Φ := fun t => tokI d L q fie t.val) (lo := 16 * k.val + 15) (by omega) (by omega),
    show 16 * k.val + 15 + 1 = 16 * (k.val + 1) by omega]
  rw [EU_t2_0 d L k, EU_t2_1 d L k, EU_t2_2 d L k, EU_t2_3 d L k, EU_t2_4 d L k, EU_t2_5 d L k, EU_t2_6 d L k, EU_t2_7 d L k, EU_t2_8 d L k, EU_t2_9 d L k, EU_t2_10 d L k, EU_t2_11 d L k, EU_t2_12 d L k, EU_t2_13 d L k, EU_t2_14 d L k, EU_t2_15 d L k, EI_t2_0 d L k, EI_t2_1 d L k, EI_t2_2 d L k, EI_t2_3 d L k, EI_t2_4 d L k, EI_t2_5 d L k, EI_t2_6 d L k, EI_t2_7 d L k, EI_t2_8 d L k, EI_t2_9 d L k, EI_t2_10 d L k, EI_t2_11 d L k, EI_t2_12 d L k, EI_t2_13 d L k, EI_t2_14 d L k, EI_t2_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t2_body
  sl_exec (disch := first
      | (refine sep_elim_left.trans (deliverV d L _ _ _ (by simp only [offU_t2_0, offU_t2_1, offU_t2_2, offU_t2_3, offU_t2_4, offU_t2_5, offU_t2_6, offU_t2_7, offU_t2_8, offU_t2_9, offU_t2_10, offU_t2_11, offU_t2_12, offU_t2_13, offU_t2_14, offU_t2_15, offI_t2_0, offI_t2_1, offI_t2_2, offI_t2_3, offI_t2_4, offI_t2_5, offI_t2_6, offI_t2_7, offI_t2_8, offI_t2_9, offI_t2_10, offI_t2_11, offI_t2_12, offI_t2_13, offI_t2_14, offI_t2_15]; rfl) _ ?_)
         rw [row_read_back]
         sl_unfold_run_names
         funext x
         first
          | (unfold rowValU
             first | refine (srcU_eq (F := F) fue _ _ x).trans ?_ | (trace_state; fail "step-src")
             first | refine congrArg fue (congrArg (fun i => ValueIdx.ix2 i (⟨(x 0).val, (x 0).isLt⟩ : Fin 64)) (fin_congr _ _ ?_)) | (trace_state; fail "step-congr")
             first | rw [lane0_eq] | (simp only [k0_pay259, k0_pay260, k0_pay269, k0_pay270]; first | rw [lane0_eq] | refine (congrArg BitVec.toNat (lane0_eq (F := F) _ _ _ _ _ _ _)).trans ?_) | (trace_state; fail "step-lane")
             unfold idxValU
             first | rw [Nat.mod_eq_of_lt (pay0_lt (F := F) fu hfu _ _ _)] | (trace_state; fail "step-mod")
             first | refine congrArg BitVec.toNat (congrArg _ (funext fun a => Fin.ext ?_)) | (trace_state; fail "step-congr2")
             first | exact idx_arith _ _ _ _ (k0_off12_eq k) rfl _ _ (by first | omega | (simp only [Fin.val_mk]; omega)) a | (trace_state; fail "step-arith"))
          | (unfold rowValI
             first | refine (srcI_eq (F := F) fie _ _ x).trans ?_ | (trace_state; fail "step-src")
             first | refine congrArg fie (congrArg (fun i => ValueIdx.ix2 i (⟨(x 0).val, (x 0).isLt⟩ : Fin 64)) (fin_congr _ _ ?_)) | (trace_state; fail "step-congr")
             first | rw [lane1_eq] | (simp only [k0_pay259, k0_pay260, k0_pay269, k0_pay270]; first | rw [lane1_eq] | refine (congrArg BitVec.toNat (lane1_eq (F := F) _ _ _ _ _ _ _)).trans ?_) | (trace_state; fail "step-lane")
             unfold idxValI
             first | rw [Nat.mod_eq_of_lt (pay1_lt (F := F) fi hfi _ _ _)] | (trace_state; fail "step-mod")
             first | refine congrArg BitVec.toNat (congrArg _ (funext fun a => Fin.ext ?_)) | (trace_state; fail "step-congr2")
             first | exact idx_arith _ _ _ _ (k0_off12_eq k) rfl _ _ (by first | omega | (simp only [Fin.val_mk]; omega)) a | (trace_state; fail "step-arith")))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t2V [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) :
    LoopInv (M := 𝕄) frame (wpE (defs₀ (F := F)) 𝒱₀ (thr d L) none) Set.univ k0_t2_loop.lb k0_t2_loop.ub k0_t2_loop.st k0_t2_ok ()
      (k0_t2_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285) where
  inv := issueAt_t2V d L q fu fi f0 f1 fue fie
  step := issue_step_t2V d L q fu fi hfu hfi f0 f1 fue fie v3 v7 v11 v15 v19 v23 v24 c1285

end Issue

end Cert.Proof.KI

end
-- ==== Proof.KIssueVT3.lean ====
/-
  One trip of the second issue loop with the contents of what its copies land: copy number `16 k + j` of the batch on
  the user rows' cell delivers row `16 k + j` of half 1 holding the user table's row named by the index word of the
  tile's sample `128 + 16 k + j` (chunk 1), and likewise for the item rows. The rows not yet issued are held as before,
  at whatever they hold; only what a batch promises to deliver carries contents. The word a copy's source row is sliced
  at is a lane of the index scratch, which holds the tile's 512 index words, so it is the sample's index word; the 64
  entries taken from the table at that row are the table's row; and the destination row, overwritten whole, reads back
  exactly those entries.
-/
import proofs.«214512_g89103391522852_cont_sun_m_1157_25_alg».proof.Proof.KIssueT3
import proofs.«214512_g89103391522852_cont_sun_m_1157_25_alg».proof.Proof.KRowsV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-- The offsets of a lane: a load at `b0` and lane `j0` name sample `128 c + r` when `b0 + j0 = 128 c + r`. -/
private theorem idx_arith (off o : Fin 1 → ℕ) (b0 j0 : ℕ) (hoff : off = ![b0]) (ho : o = ![j0]) (c : Fin 4) (r : Fin 128)
    (h : b0 + j0 = 128 * c.val + r.val) (a : Fin 1) : off a + o a = (sampleIdx c r a).val := by
  subst hoff; subst ho
  match a with
  | ⟨0, _⟩ => exact h

private theorem fin_congr {n a b : ℕ} (ha : a < n) (hb : b < n) (e : a = b) : (⟨a, ha⟩ : Fin n) = ⟨b, hb⟩ := by subst e; rfl

section Issue

variable (d : Dev nD) (L : grid0.Coords)

/-- Before trip `k`: `16 k` copies of each table issued, nothing consumed; the rows and read tokens from there on in hand;
    the two index scratches as filled. -/
def issueAt_t3V (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchUV d L fu fue 1 1 (SemLoc.dma cc0_scratch8.sem) (16 * k) 0 ∗ batchIV d L fi fie 1 1 (SemLoc.dma cc0_scratch10.sem) (16 * k) 0
    ∗ bigSep (Ring.rangeSet 128 (16 * k) 128) (ownU d L 1) ∗ bigSep (Ring.rangeSet 128 (16 * k) 128) (ownI d L 1)
    ∗ bigSep (Ring.rangeSet 512 (128 + 16 * k) 256) (fun t => tokU d L q fue t.val) ∗ bigSep (Ring.rangeSet 512 (128 + 16 * k) 256) (fun t => tokI d L q fie t.val)
    ∗ idxU d L fu f0 ∗ idxI d L fi f1)

set_option maxHeartbeats 4000000 in
theorem issue_step_t3V [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32)
    (k : Fin k0_t3_loop.trips) (acc : Unit) :
    issueAt_t3V d L q fu fi f0 f1 fue fie k acc
      ⊢ wp frame (wpE (defs₀ (F := F)) 𝒱₀ (thr d L) none) Set.univ
          (k0_t3_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k acc)
          (issueAt_t3V d L q fu fi f0 f1 fue fie (k.val + 1)) := by
  have hk := k.isLt; have h8 := k0_t3_abs.2.1
  unfold issueAt_t3V
  rw [Ring.bigSep_rangeSet_head (Φ := ownU d L 1) (lo := 16 * k.val) (by omega) (by omega),
    Ring.bigSep_rangeSet_head (Φ := ownU d L 1) (lo := 16 * k.val + 1) (by omega) (by omega),
    Ring.bigSep_rangeSet_head (Φ := ownU d L 1) (lo := 16 * k.val + 2) (by omega) (by omega),
    Ring.bigSep_rangeSet_head (Φ := ownU d L 1) (lo := 16 * k.val + 3) (by omega) (by omega),
    Ring.bigSep_rangeSet_head (Φ := ownU d L 1) (lo := 16 * k.val + 4) (by omega) (by omega),
    Ring.bigSep_rangeSet_head (Φ := ownU d L 1) (lo := 16 * k.val + 5) (by omega) (by omega),
    Ring.bigSep_rangeSet_head (Φ := ownU d L 1) (lo := 16 * k.val + 6) (by omega) (by omega),
    Ring.bigSep_rangeSet_head (Φ := ownU d L 1) (lo := 16 * k.val + 7) (by omega) (by omega),
    Ring.bigSep_rangeSet_head (Φ := ownU d L 1) (lo := 16 * k.val + 8) (by omega) (by omega),
    Ring.bigSep_rangeSet_head (Φ := ownU d L 1) (lo := 16 * k.val + 9) (by omega) (by omega),
    Ring.bigSep_rangeSet_head (Φ := ownU d L 1) (lo := 16 * k.val + 10) (by omega) (by omega),
    Ring.bigSep_rangeSet_head (Φ := ownU d L 1) (lo := 16 * k.val + 11) (by omega) (by omega),
    Ring.bigSep_rangeSet_head (Φ := ownU d L 1) (lo := 16 * k.val + 12) (by omega) (by omega),
    Ring.bigSep_rangeSet_head (Φ := ownU d L 1) (lo := 16 * k.val + 13) (by omega) (by omega),
    Ring.bigSep_rangeSet_head (Φ := ownU d L 1) (lo := 16 * k.val + 14) (by omega) (by omega),
    Ring.bigSep_rangeSet_head (Φ := ownU d L 1) (lo := 16 * k.val + 15) (by omega) (by omega),
    Ring.bigSep_rangeSet_head (Φ := ownI d L 1) (lo := 16 * k.val) (by omega) (by omega),
    Ring.bigSep_rangeSet_head (Φ := ownI d L 1) (lo := 16 * k.val + 1) (by omega) (by omega),
    Ring.bigSep_rangeSet_head (Φ := ownI d L 1) (lo := 16 * k.val + 2) (by omega) (by omega),
    Ring.bigSep_rangeSet_head (Φ := ownI d L 1) (lo := 16 * k.val + 3) (by omega) (by omega),
    Ring.bigSep_rangeSet_head (Φ := ownI d L 1) (lo := 16 * k.val + 4) (by omega) (by omega),
    Ring.bigSep_rangeSet_head (Φ := ownI d L 1) (lo := 16 * k.val + 5) (by omega) (by omega),
    Ring.bigSep_rangeSet_head (Φ := ownI d L 1) (lo := 16 * k.val + 6) (by omega) (by omega),
    Ring.bigSep_rangeSet_head (Φ := ownI d L 1) (lo := 16 * k.val + 7) (by omega) (by omega),
    Ring.bigSep_rangeSet_head (Φ := ownI d L 1) (lo := 16 * k.val + 8) (by omega) (by omega),
    Ring.bigSep_rangeSet_head (Φ := ownI d L 1) (lo := 16 * k.val + 9) (by omega) (by omega),
    Ring.bigSep_rangeSet_head (Φ := ownI d L 1) (lo := 16 * k.val + 10) (by omega) (by omega),
    Ring.bigSep_rangeSet_head (Φ := ownI d L 1) (lo := 16 * k.val + 11) (by omega) (by omega),
    Ring.bigSep_rangeSet_head (Φ := ownI d L 1) (lo := 16 * k.val + 12) (by omega) (by omega),
    Ring.bigSep_rangeSet_head (Φ := ownI d L 1) (lo := 16 * k.val + 13) (by omega) (by omega),
    Ring.bigSep_rangeSet_head (Φ := ownI d L 1) (lo := 16 * k.val + 14) (by omega) (by omega),
    Ring.bigSep_rangeSet_head (Φ := ownI d L 1) (lo := 16 * k.val + 15) (by omega) (by omega),
    Ring.bigSep_rangeSet_head (Φ := fun t => tokU d L q fue t.val) (lo := 128 + 16 * k.val) (by omega) (by omega),
    Ring.bigSep_rangeSet_head (Φ := fun t => tokU d L q fue t.val) (lo := 128 + 16 * k.val + 1) (by omega) (by omega),
    Ring.bigSep_rangeSet_head (Φ := fun t => tokU d L q fue t.val) (lo := 128 + 16 * k.val + 2) (by omega) (by omega),
    Ring.bigSep_rangeSet_head (Φ := fun t => tokU d L q fue t.val) (lo := 128 + 16 * k.val + 3) (by omega) (by omega),
    Ring.bigSep_rangeSet_head (Φ := fun t => tokU d L q fue t.val) (lo := 128 + 16 * k.val + 4) (by omega) (by omega),
    Ring.bigSep_rangeSet_head (Φ := fun t => tokU d L q fue t.val) (lo := 128 + 16 * k.val + 5) (by omega) (by omega),
    Ring.bigSep_rangeSet_head (Φ := fun t => tokU d L q fue t.val) (lo := 128 + 16 * k.val + 6) (by omega) (by omega),
    Ring.bigSep_rangeSet_head (Φ := fun t => tokU d L q fue t.val) (lo := 128 + 16 * k.val + 7) (by omega) (by omega),
    Ring.bigSep_rangeSet_head (Φ := fun t => tokU d L q fue t.val) (lo := 128 + 16 * k.val + 8) (by omega) (by omega),
    Ring.bigSep_rangeSet_head (Φ := fun t => tokU d L q fue t.val) (lo := 128 + 16 * k.val + 9) (by omega) (by omega),
    Ring.bigSep_rangeSet_head (Φ := fun t => tokU d L q fue t.val) (lo := 128 + 16 * k.val + 10) (by omega) (by omega),
    Ring.bigSep_rangeSet_head (Φ := fun t => tokU d L q fue t.val) (lo := 128 + 16 * k.val + 11) (by omega) (by omega),
    Ring.bigSep_rangeSet_head (Φ := fun t => tokU d L q fue t.val) (lo := 128 + 16 * k.val + 12) (by omega) (by omega),
    Ring.bigSep_rangeSet_head (Φ := fun t => tokU d L q fue t.val) (lo := 128 + 16 * k.val + 13) (by omega) (by omega),
    Ring.bigSep_rangeSet_head (Φ := fun t => tokU d L q fue t.val) (lo := 128 + 16 * k.val + 14) (by omega) (by omega),
    Ring.bigSep_rangeSet_head (Φ := fun t => tokU d L q fue t.val) (lo := 128 + 16 * k.val + 15) (by omega) (by omega),
    Ring.bigSep_rangeSet_head (Φ := fun t => tokI d L q fie t.val) (lo := 128 + 16 * k.val) (by omega) (by omega),
    Ring.bigSep_rangeSet_head (Φ := fun t => tokI d L q fie t.val) (lo := 128 + 16 * k.val + 1) (by omega) (by omega),
    Ring.bigSep_rangeSet_head (Φ := fun t => tokI d L q fie t.val) (lo := 128 + 16 * k.val + 2) (by omega) (by omega),
    Ring.bigSep_rangeSet_head (Φ := fun t => tokI d L q fie t.val) (lo := 128 + 16 * k.val + 3) (by omega) (by omega),
    Ring.bigSep_rangeSet_head (Φ := fun t => tokI d L q fie t.val) (lo := 128 + 16 * k.val + 4) (by omega) (by omega),
    Ring.bigSep_rangeSet_head (Φ := fun t => tokI d L q fie t.val) (lo := 128 + 16 * k.val + 5) (by omega) (by omega),
    Ring.bigSep_rangeSet_head (Φ := fun t => tokI d L q fie t.val) (lo := 128 + 16 * k.val + 6) (by omega) (by omega),
    Ring.bigSep_rangeSet_head (Φ := fun t => tokI d L q fie t.val) (lo := 128 + 16 * k.val + 7) (by omega) (by omega),
    Ring.bigSep_rangeSet_head (Φ := fun t => tokI d L q fie t.val) (lo := 128 + 16 * k.val + 8) (by omega) (by omega),
    Ring.bigSep_rangeSet_head (Φ := fun t => tokI d L q fie t.val) (lo := 128 + 16 * k.val + 9) (by omega) (by omega),
    Ring.bigSep_rangeSet_head (Φ := fun t => tokI d L q fie t.val) (lo := 128 + 16 * k.val + 10) (by omega) (by omega),
    Ring.bigSep_rangeSet_head (Φ := fun t => tokI d L q fie t.val) (lo := 128 + 16 * k.val + 11) (by omega) (by omega),
    Ring.bigSep_rangeSet_head (Φ := fun t => tokI d L q fie t.val) (lo := 128 + 16 * k.val + 12) (by omega) (by omega),
    Ring.bigSep_rangeSet_head (Φ := fun t => tokI d L q fie t.val) (lo := 128 + 16 * k.val + 13) (by omega) (by omega),
    Ring.bigSep_rangeSet_head (Φ := fun t => tokI d L q fie t.val) (lo := 128 + 16 * k.val + 14) (by omega) (by omega),
    Ring.bigSep_rangeSet_head (Φ := fun t => tokI d L q fie t.val) (lo := 128 + 16 * k.val + 15) (by omega) (by omega),
    show 128 + 16 * k.val + 15 + 1 = 128 + 16 * (k.val + 1) by omega,
    show 16 * k.val + 15 + 1 = 16 * (k.val + 1) by omega]
  rw [EU_t3_0 d L k, EU_t3_1 d L k, EU_t3_2 d L k, EU_t3_3 d L k, EU_t3_4 d L k, EU_t3_5 d L k, EU_t3_6 d L k, EU_t3_7 d L k, EU_t3_8 d L k, EU_t3_9 d L k, EU_t3_10 d L k, EU_t3_11 d L k, EU_t3_12 d L k, EU_t3_13 d L k, EU_t3_14 d L k, EU_t3_15 d L k, EI_t3_0 d L k, EI_t3_1 d L k, EI_t3_2 d L k, EI_t3_3 d L k, EI_t3_4 d L k, EI_t3_5 d L k, EI_t3_6 d L k, EI_t3_7 d L k, EI_t3_8 d L k, EI_t3_9 d L k, EI_t3_10 d L k, EI_t3_11 d L k, EI_t3_12 d L k, EI_t3_13 d L k, EI_t3_14 d L k, EI_t3_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t3_body
  sl_exec (disch := first
      | (refine sep_elim_left.trans (deliverV d L _ _ _ (by simp only [offU_t3_0, offU_t3_1, offU_t3_2, offU_t3_3, offU_t3_4, offU_t3_5, offU_t3_6, offU_t3_7, offU_t3_8, offU_t3_9, offU_t3_10, offU_t3_11, offU_t3_12, offU_t3_13, offU_t3_14, offU_t3_15, offI_t3_0, offI_t3_1, offI_t3_2, offI_t3_3, offI_t3_4, offI_t3_5, offI_t3_6, offI_t3_7, offI_t3_8, offI_t3_9, offI_t3_10, offI_t3_11, offI_t3_12, offI_t3_13, offI_t3_14, offI_t3_15]; rfl) _ ?_)
         rw [row_read_back]
         sl_unfold_run_names
         funext x
         first
          | (unfold rowValU
             first | refine (srcU_eq (F := F) fue _ _ x).trans ?_ | (trace_state; fail "step-src")
             first | refine congrArg fue (congrArg (fun i => ValueIdx.ix2 i (⟨(x 0).val, (x 0).isLt⟩ : Fin 64)) (fin_congr _ _ ?_)) | (trace_state; fail "step-congr")
             first | rw [lane0_eq] | (simp only [k0_pay259, k0_pay260, k0_pay269, k0_pay270]; first | rw [lane0_eq] | refine (congrArg BitVec.toNat (lane0_eq (F := F) _ _ _ _ _ _ _)).trans ?_) | (trace_state; fail "step-lane")
             unfold idxValU
             first | rw [Nat.mod_eq_of_lt (pay0_lt (F := F) fu hfu _ _ _)] | (trace_state; fail "step-mod")
             first | refine congrArg BitVec.toNat (congrArg _ (funext fun a => Fin.ext ?_)) | (trace_state; fail "step-congr2")
             first | exact idx_arith _ _ _ _ (k0_off78_eq k) rfl _ _ (by first | omega | (simp only [Fin.val_mk]; omega)) a | (trace_state; fail "step-arith"))
          | (unfold rowValI
             first | refine (srcI_eq (F := F) fie _ _ x).trans ?_ | (trace_state; fail "step-src")
             first | refine congrArg fie (congrArg (fun i => ValueIdx.ix2 i (⟨(x 0).val, (x 0).isLt⟩ : Fin 64)) (fin_congr _ _ ?_)) | (trace_state; fail "step-congr")
             first | rw [lane1_eq] | (simp only [k0_pay259, k0_pay260, k0_pay269, k0_pay270]; first | rw [lane1_eq] | refine (congrArg BitVec.toNat (lane1_eq (F := F) _ _ _ _ _ _ _)).trans ?_) | (trace_state; fail "step-lane")
             unfold idxValI
             first | rw [Nat.mod_eq_of_lt (pay1_lt (F := F) fi hfi _ _ _)] | (trace_state; fail "step-mod")
             first | refine congrArg BitVec.toNat (congrArg _ (funext fun a => Fin.ext ?_)) | (trace_state; fail "step-congr2")
             first | exact idx_arith _ _ _ _ (k0_off78_eq k) rfl _ _ (by first | omega | (simp only [Fin.val_mk]; omega)) a | (trace_state; fail "step-arith")))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t3V [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) :
    LoopInv (M := 𝕄) frame (wpE (defs₀ (F := F)) 𝒱₀ (thr d L) none) Set.univ k0_t3_loop.lb k0_t3_loop.ub k0_t3_loop.st k0_t3_ok ()
      (k0_t3_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285) where
  inv := issueAt_t3V d L q fu fi f0 f1 fue fie
  step := issue_step_t3V d L q fu fi hfu hfi f0 f1 fue fie v3 v7 v11 v15 v19 v23 v24 c1285

end Issue

end Cert.Proof.KI

end
-- ==== Proof.KIssueVT11.lean ====
/-
  One trip of the third (chunk loop, first guard) issue loop with the contents of what its copies land: copy number `16 k + j` of the batch on
  the user rows' cell delivers row `16 k + j` of half 0 holding the user table's row named by the index word of the
  tile's sample `256 + 16 k + j` (chunk 2), and likewise for the item rows. The rows not yet issued are held as before,
  at whatever they hold; only what a batch promises to deliver carries contents. The word a copy's source row is sliced
  at is a lane of the index scratch, which holds the tile's 512 index words, so it is the sample's index word; the 64
  entries taken from the table at that row are the table's row; and the destination row, overwritten whole, reads back
  exactly those entries.
-/
import proofs.«214512_g89103391522852_cont_sun_m_1157_25_alg».proof.Proof.KIssueT11
import proofs.«214512_g89103391522852_cont_sun_m_1157_25_alg».proof.Proof.KRowsV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-- The offsets of a lane: a load at `b0` and lane `j0` name sample `128 c + r` when `b0 + j0 = 128 c + r`. -/
private theorem idx_arith (off o : Fin 1 → ℕ) (b0 j0 : ℕ) (hoff : off = ![b0]) (ho : o = ![j0]) (c : Fin 4) (r : Fin 128)
    (h : b0 + j0 = 128 * c.val + r.val) (a : Fin 1) : off a + o a = (sampleIdx c r a).val := by
  subst hoff; subst ho
  match a with
  | ⟨0, _⟩ => exact h

private theorem fin_congr {n a b : ℕ} (ha : a < n) (hb : b < n) (e : a = b) : (⟨a, ha⟩ : Fin n) = ⟨b, hb⟩ := by subst e; rfl

theorem t4_of_cond3 : ∀ k0_t4 : Fin k0_t4_loop.trips, k0_cond3 k0_t4 = 1#1 → k0_t4.val = 0 := by decide +kernel

section Issue

variable (d : Dev nD) (L : grid0.Coords)

/-- Before trip `k`: `16 k` copies of each table issued, nothing consumed; the rows and read tokens from there on in hand;
    the two index scratches as filled. -/
def issueAt_t11V (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchUV d L fu fue 0 2 (SemLoc.dma cc0_scratch7.sem) (16 * k) 0 ∗ batchIV d L fi fie 0 2 (SemLoc.dma cc0_scratch9.sem) (16 * k) 0
    ∗ bigSep (Ring.rangeSet 128 (16 * k) 128) (ownU d L 0) ∗ bigSep (Ring.rangeSet 128 (16 * k) 128) (ownI d L 0)
    ∗ bigSep (Ring.rangeSet 512 (256 + 16 * k) 384) (fun t => tokU d L q fue t.val) ∗ bigSep (Ring.rangeSet 512 (256 + 16 * k) 384) (fun t => tokI d L q fie t.val)
    ∗ idxU d L fu f0 ∗ idxI d L fi f1)

set_option maxHeartbeats 4000000 in
theorem issue_step_t11V [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h3 : k0_cond3 k0_t4 = 1#1) (v114 : BitVec 32)
    (k : Fin k0_t11_loop.trips) (acc : Unit) :
    issueAt_t11V d L q fu fi f0 f1 fue fie k acc
      ⊢ wp frame (wpE (defs₀ (F := F)) 𝒱₀ (thr d L) none) Set.univ
          (k0_t11_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h3 v114 k acc)
          (issueAt_t11V d L q fu fi f0 f1 fue fie (k.val + 1)) := by
  have hk := k.isLt; have h8 := k0_t11_abs.2.1
  have h4 : k0_t4.val = 0 := t4_of_cond3 k0_t4 k0_h3
  unfold issueAt_t11V
  rw [Ring.bigSep_rangeSet_head (Φ := ownU d L 0) (lo := 16 * k.val) (by omega) (by omega),
    Ring.bigSep_rangeSet_head (Φ := ownU d L 0) (lo := 16 * k.val + 1) (by omega) (by omega),
    Ring.bigSep_rangeSet_head (Φ := ownU d L 0) (lo := 16 * k.val + 2) (by omega) (by omega),
    Ring.bigSep_rangeSet_head (Φ := ownU d L 0) (lo := 16 * k.val + 3) (by omega) (by omega),
    Ring.bigSep_rangeSet_head (Φ := ownU d L 0) (lo := 16 * k.val + 4) (by omega) (by omega),
    Ring.bigSep_rangeSet_head (Φ := ownU d L 0) (lo := 16 * k.val + 5) (by omega) (by omega),
    Ring.bigSep_rangeSet_head (Φ := ownU d L 0) (lo := 16 * k.val + 6) (by omega) (by omega),
    Ring.bigSep_rangeSet_head (Φ := ownU d L 0) (lo := 16 * k.val + 7) (by omega) (by omega),
    Ring.bigSep_rangeSet_head (Φ := ownU d L 0) (lo := 16 * k.val + 8) (by omega) (by omega),
    Ring.bigSep_rangeSet_head (Φ := ownU d L 0) (lo := 16 * k.val + 9) (by omega) (by omega),
    Ring.bigSep_rangeSet_head (Φ := ownU d L 0) (lo := 16 * k.val + 10) (by omega) (by omega),
    Ring.bigSep_rangeSet_head (Φ := ownU d L 0) (lo := 16 * k.val + 11) (by omega) (by omega),
    Ring.bigSep_rangeSet_head (Φ := ownU d L 0) (lo := 16 * k.val + 12) (by omega) (by omega),
    Ring.bigSep_rangeSet_head (Φ := ownU d L 0) (lo := 16 * k.val + 13) (by omega) (by omega),
    Ring.bigSep_rangeSet_head (Φ := ownU d L 0) (lo := 16 * k.val + 14) (by omega) (by omega),
    Ring.bigSep_rangeSet_head (Φ := ownU d L 0) (lo := 16 * k.val + 15) (by omega) (by omega),
    Ring.bigSep_rangeSet_head (Φ := ownI d L 0) (lo := 16 * k.val) (by omega) (by omega),
    Ring.bigSep_rangeSet_head (Φ := ownI d L 0) (lo := 16 * k.val + 1) (by omega) (by omega),
    Ring.bigSep_rangeSet_head (Φ := ownI d L 0) (lo := 16 * k.val + 2) (by omega) (by omega),
    Ring.bigSep_rangeSet_head (Φ := ownI d L 0) (lo := 16 * k.val + 3) (by omega) (by omega),
    Ring.bigSep_rangeSet_head (Φ := ownI d L 0) (lo := 16 * k.val + 4) (by omega) (by omega),
    Ring.bigSep_rangeSet_head (Φ := ownI d L 0) (lo := 16 * k.val + 5) (by omega) (by omega),
    Ring.bigSep_rangeSet_head (Φ := ownI d L 0) (lo := 16 * k.val + 6) (by omega) (by omega),
    Ring.bigSep_rangeSet_head (Φ := ownI d L 0) (lo := 16 * k.val + 7) (by omega) (by omega),
    Ring.bigSep_rangeSet_head (Φ := ownI d L 0) (lo := 16 * k.val + 8) (by omega) (by omega),
    Ring.bigSep_rangeSet_head (Φ := ownI d L 0) (lo := 16 * k.val + 9) (by omega) (by omega),
    Ring.bigSep_rangeSet_head (Φ := ownI d L 0) (lo := 16 * k.val + 10) (by omega) (by omega),
    Ring.bigSep_rangeSet_head (Φ := ownI d L 0) (lo := 16 * k.val + 11) (by omega) (by omega),
    Ring.bigSep_rangeSet_head (Φ := ownI d L 0) (lo := 16 * k.val + 12) (by omega) (by omega),
    Ring.bigSep_rangeSet_head (Φ := ownI d L 0) (lo := 16 * k.val + 13) (by omega) (by omega),
    Ring.bigSep_rangeSet_head (Φ := ownI d L 0) (lo := 16 * k.val + 14) (by omega) (by omega),
    Ring.bigSep_rangeSet_head (Φ := ownI d L 0) (lo := 16 * k.val + 15) (by omega) (by omega),
    Ring.bigSep_rangeSet_head (Φ := fun t => tokU d L q fue t.val) (lo := 256 + 16 * k.val) (by omega) (by omega),
    Ring.bigSep_rangeSet_head (Φ := fun t => tokU d L q fue t.val) (lo := 256 + 16 * k.val + 1) (by omega) (by omega),
    Ring.bigSep_rangeSet_head (Φ := fun t => tokU d L q fue t.val) (lo := 256 + 16 * k.val + 2) (by omega) (by omega),
    Ring.bigSep_rangeSet_head (Φ := fun t => tokU d L q fue t.val) (lo := 256 + 16 * k.val + 3) (by omega) (by omega),
    Ring.bigSep_rangeSet_head (Φ := fun t => tokU d L q fue t.val) (lo := 256 + 16 * k.val + 4) (by omega) (by omega),
    Ring.bigSep_rangeSet_head (Φ := fun t => tokU d L q fue t.val) (lo := 256 + 16 * k.val + 5) (by omega) (by omega),
    Ring.bigSep_rangeSet_head (Φ := fun t => tokU d L q fue t.val) (lo := 256 + 16 * k.val + 6) (by omega) (by omega),
    Ring.bigSep_rangeSet_head (Φ := fun t => tokU d L q fue t.val) (lo := 256 + 16 * k.val + 7) (by omega) (by omega),
    Ring.bigSep_rangeSet_head (Φ := fun t => tokU d L q fue t.val) (lo := 256 + 16 * k.val + 8) (by omega) (by omega),
    Ring.bigSep_rangeSet_head (Φ := fun t => tokU d L q fue t.val) (lo := 256 + 16 * k.val + 9) (by omega) (by omega),
    Ring.bigSep_rangeSet_head (Φ := fun t => tokU d L q fue t.val) (lo := 256 + 16 * k.val + 10) (by omega) (by omega),
    Ring.bigSep_rangeSet_head (Φ := fun t => tokU d L q fue t.val) (lo := 256 + 16 * k.val + 11) (by omega) (by omega),
    Ring.bigSep_rangeSet_head (Φ := fun t => tokU d L q fue t.val) (lo := 256 + 16 * k.val + 12) (by omega) (by omega),
    Ring.bigSep_rangeSet_head (Φ := fun t => tokU d L q fue t.val) (lo := 256 + 16 * k.val + 13) (by omega) (by omega),
    Ring.bigSep_rangeSet_head (Φ := fun t => tokU d L q fue t.val) (lo := 256 + 16 * k.val + 14) (by omega) (by omega),
    Ring.bigSep_rangeSet_head (Φ := fun t => tokU d L q fue t.val) (lo := 256 + 16 * k.val + 15) (by omega) (by omega),
    Ring.bigSep_rangeSet_head (Φ := fun t => tokI d L q fie t.val) (lo := 256 + 16 * k.val) (by omega) (by omega),
    Ring.bigSep_rangeSet_head (Φ := fun t => tokI d L q fie t.val) (lo := 256 + 16 * k.val + 1) (by omega) (by omega),
    Ring.bigSep_rangeSet_head (Φ := fun t => tokI d L q fie t.val) (lo := 256 + 16 * k.val + 2) (by omega) (by omega),
    Ring.bigSep_rangeSet_head (Φ := fun t => tokI d L q fie t.val) (lo := 256 + 16 * k.val + 3) (by omega) (by omega),
    Ring.bigSep_rangeSet_head (Φ := fun t => tokI d L q fie t.val) (lo := 256 + 16 * k.val + 4) (by omega) (by omega),
    Ring.bigSep_rangeSet_head (Φ := fun t => tokI d L q fie t.val) (lo := 256 + 16 * k.val + 5) (by omega) (by omega),
    Ring.bigSep_rangeSet_head (Φ := fun t => tokI d L q fie t.val) (lo := 256 + 16 * k.val + 6) (by omega) (by omega),
    Ring.bigSep_rangeSet_head (Φ := fun t => tokI d L q fie t.val) (lo := 256 + 16 * k.val + 7) (by omega) (by omega),
    Ring.bigSep_rangeSet_head (Φ := fun t => tokI d L q fie t.val) (lo := 256 + 16 * k.val + 8) (by omega) (by omega),
    Ring.bigSep_rangeSet_head (Φ := fun t => tokI d L q fie t.val) (lo := 256 + 16 * k.val + 9) (by omega) (by omega),
    Ring.bigSep_rangeSet_head (Φ := fun t => tokI d L q fie t.val) (lo := 256 + 16 * k.val + 10) (by omega) (by omega),
    Ring.bigSep_rangeSet_head (Φ := fun t => tokI d L q fie t.val) (lo := 256 + 16 * k.val + 11) (by omega) (by omega),
    Ring.bigSep_rangeSet_head (Φ := fun t => tokI d L q fie t.val) (lo := 256 + 16 * k.val + 12) (by omega) (by omega),
    Ring.bigSep_rangeSet_head (Φ := fun t => tokI d L q fie t.val) (lo := 256 + 16 * k.val + 13) (by omega) (by omega),
    Ring.bigSep_rangeSet_head (Φ := fun t => tokI d L q fie t.val) (lo := 256 + 16 * k.val + 14) (by omega) (by omega),
    Ring.bigSep_rangeSet_head (Φ := fun t => tokI d L q fie t.val) (lo := 256 + 16 * k.val + 15) (by omega) (by omega),
    show 256 + 16 * k.val + 15 + 1 = 256 + 16 * (k.val + 1) by omega,
    show 16 * k.val + 15 + 1 = 16 * (k.val + 1) by omega]
  rw [EU_t11_0 d L k, EU_t11_1 d L k, EU_t11_2 d L k, EU_t11_3 d L k, EU_t11_4 d L k, EU_t11_5 d L k, EU_t11_6 d L k, EU_t11_7 d L k, EU_t11_8 d L k, EU_t11_9 d L k, EU_t11_10 d L k, EU_t11_11 d L k, EU_t11_12 d L k, EU_t11_13 d L k, EU_t11_14 d L k, EU_t11_15 d L k, EI_t11_0 d L k, EI_t11_1 d L k, EI_t11_2 d L k, EI_t11_3 d L k, EI_t11_4 d L k, EI_t11_5 d L k, EI_t11_6 d L k, EI_t11_7 d L k, EI_t11_8 d L k, EI_t11_9 d L k, EI_t11_10 d L k, EI_t11_11 d L k, EI_t11_12 d L k, EI_t11_13 d L k, EI_t11_14 d L k, EI_t11_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t11_body
  sl_exec (disch := first
      | (refine sep_elim_left.trans (deliverV d L _ _ _ (by simp only [offU_t11_0, offU_t11_1, offU_t11_2, offU_t11_3, offU_t11_4, offU_t11_5, offU_t11_6, offU_t11_7, offU_t11_8, offU_t11_9, offU_t11_10, offU_t11_11, offU_t11_12, offU_t11_13, offU_t11_14, offU_t11_15, offI_t11_0, offI_t11_1, offI_t11_2, offI_t11_3, offI_t11_4, offI_t11_5, offI_t11_6, offI_t11_7, offI_t11_8, offI_t11_9, offI_t11_10, offI_t11_11, offI_t11_12, offI_t11_13, offI_t11_14, offI_t11_15]; rfl) _ ?_)
         rw [row_read_back]
         sl_unfold_run_names
         funext x
         first
          | (unfold rowValU
             first | refine (srcU_eq (F := F) fue _ _ x).trans ?_ | (trace_state; fail "step-src")
             first | refine congrArg fue (congrArg (fun i => ValueIdx.ix2 i (⟨(x 0).val, (x 0).isLt⟩ : Fin 64)) (fin_congr _ _ ?_)) | (trace_state; fail "step-congr")
             first | rw [lane0_eq] | (simp only [k0_pay259, k0_pay260, k0_pay269, k0_pay270]; first | rw [lane0_eq] | refine (congrArg BitVec.toNat (lane0_eq (F := F) _ _ _ _ _ _ _)).trans ?_) | (trace_state; fail "step-lane")
             unfold idxValU
             first | rw [Nat.mod_eq_of_lt (pay0_lt (F := F) fu hfu _ _ _)] | (trace_state; fail "step-mod")
             first | refine congrArg BitVec.toNat (congrArg _ (funext fun a => Fin.ext ?_)) | (trace_state; fail "step-congr2")
             first | exact idx_arith _ _ _ _ (k0_off172_eq k0_t4 k) rfl _ _ (by first | omega | (simp only [Fin.val_mk]; omega)) a | (trace_state; fail "step-arith"))
          | (unfold rowValI
             first | refine (srcI_eq (F := F) fie _ _ x).trans ?_ | (trace_state; fail "step-src")
             first | refine congrArg fie (congrArg (fun i => ValueIdx.ix2 i (⟨(x 0).val, (x 0).isLt⟩ : Fin 64)) (fin_congr _ _ ?_)) | (trace_state; fail "step-congr")
             first | rw [lane1_eq] | (simp only [k0_pay259, k0_pay260, k0_pay269, k0_pay270]; first | rw [lane1_eq] | refine (congrArg BitVec.toNat (lane1_eq (F := F) _ _ _ _ _ _ _)).trans ?_) | (trace_state; fail "step-lane")
             unfold idxValI
             first | rw [Nat.mod_eq_of_lt (pay1_lt (F := F) fi hfi _ _ _)] | (trace_state; fail "step-mod")
             first | refine congrArg BitVec.toNat (congrArg _ (funext fun a => Fin.ext ?_)) | (trace_state; fail "step-congr2")
             first | exact idx_arith _ _ _ _ (k0_off172_eq k0_t4 k) rfl _ _ (by first | omega | (simp only [Fin.val_mk]; omega)) a | (trace_state; fail "step-arith")))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega)
      | (intro _ a; fin_cases a
         · show (_ : ℕ) + 1 ≤ 1000000
           exact Nat.succ_le_of_lt (lane0_lt (N := 1000000) _ (pay0_lt fu hfu _ _) _ _ _ _ _ _)
         · show 0 + 64 ≤ 64; omega)
      | (intro _ a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t11V [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h3 : k0_cond3 k0_t4 = 1#1) (v114 : BitVec 32) :
    LoopInv (M := 𝕄) frame (wpE (defs₀ (F := F)) 𝒱₀ (thr d L) none) Set.univ k0_t11_loop.lb k0_t11_loop.ub k0_t11_loop.st (k0_t11_ok k0_t4 k0_h3) ()
      (k0_t11_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h3 v114) where
  inv := issueAt_t11V d L q fu fi f0 f1 fue fie
  step := issue_step_t11V d L q fu fi hfu hfi f0 f1 fue fie v3 v7 v11 v15 v19 v23 v24 c1285 k0_t4 k0_h3 v114

end Issue

end Cert.Proof.KI

end
-- ==== Proof.KIssueVT12.lean ====
/-
  One trip of the fourth (chunk loop, second guard) issue loop with the contents of what its copies land: copy number `16 k + j` of the batch on
  the user rows' cell delivers row `16 k + j` of half 1 holding the user table's row named by the index word of the
  tile's sample `384 + 16 k + j` (chunk 3), and likewise for the item rows. The rows not yet issued are held as before,
  at whatever they hold; only what a batch promises to deliver carries contents. The word a copy's source row is sliced
  at is a lane of the index scratch, which holds the tile's 512 index words, so it is the sample's index word; the 64
  entries taken from the table at that row are the table's row; and the destination row, overwritten whole, reads back
  exactly those entries.
-/
import proofs.«214512_g89103391522852_cont_sun_m_1157_25_alg».proof.Proof.KIssueT12
import proofs.«214512_g89103391522852_cont_sun_m_1157_25_alg».proof.Proof.KRowsV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

/-- The offsets of a lane: a load at `b0` and lane `j0` name sample `128 c + r` when `b0 + j0 = 128 c + r`. -/
private theorem idx_arith (off o : Fin 1 → ℕ) (b0 j0 : ℕ) (hoff : off = ![b0]) (ho : o = ![j0]) (c : Fin 4) (r : Fin 128)
    (h : b0 + j0 = 128 * c.val + r.val) (a : Fin 1) : off a + o a = (sampleIdx c r a).val := by
  subst hoff; subst ho
  match a with
  | ⟨0, _⟩ => exact h

private theorem fin_congr {n a b : ℕ} (ha : a < n) (hb : b < n) (e : a = b) : (⟨a, ha⟩ : Fin n) = ⟨b, hb⟩ := by subst e; rfl

theorem t4_of_cond4 : ∀ k0_t4 : Fin k0_t4_loop.trips, k0_cond4 k0_t4 = 1#1 → k0_t4.val = 1 := by decide +kernel

section Issue

variable (d : Dev nD) (L : grid0.Coords)

/-- Before trip `k`: `16 k` copies of each table issued, nothing consumed; the rows and read tokens from there on in hand;
    the two index scratches as filled. -/
def issueAt_t12V (q : PosShare TreeShare) (fu fi : S16384.Idx → BitVec 32) (f0 : (uidxS).view.ty.Contents (Elt F)) (f1 : (iidxS).view.ty.Contents (Elt F))
    (fue : S1000000x64.Idx → Elt F .f32) (fie : S100000x64.Idx → Elt F .f32) (k : ℕ) (_ : Unit) : sProp 𝕄 :=
  iprop(batchUV d L fu fue 1 3 (SemLoc.dma cc0_scratch8.sem) (16 * k) 0 ∗ batchIV d L fi fie 1 3 (SemLoc.dma cc0_scratch10.sem) (16 * k) 0
    ∗ bigSep (Ring.rangeSet 128 (16 * k) 128) (ownU d L 1) ∗ bigSep (Ring.rangeSet 128 (16 * k) 128) (ownI d L 1)
    ∗ bigSep (Ring.rangeSet 512 (384 + 16 * k) 512) (fun t => tokU d L q fue t.val) ∗ bigSep (Ring.rangeSet 512 (384 + 16 * k) 512) (fun t => tokI d L q fie t.val)
    ∗ idxU d L fu f0 ∗ idxI d L fi f1)

set_option maxHeartbeats 4000000 in
theorem issue_step_t12V [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h4 : k0_cond4 k0_t4 = 1#1) (v114 : BitVec 32)
    (k : Fin k0_t12_loop.trips) (acc : Unit) :
    issueAt_t12V d L q fu fi f0 f1 fue fie k acc
      ⊢ wp frame (wpE (defs₀ (F := F)) 𝒱₀ (thr d L) none) Set.univ
          (k0_t12_body L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h4 v114 k acc)
          (issueAt_t12V d L q fu fi f0 f1 fue fie (k.val + 1)) := by
  have hk := k.isLt; have h8 := k0_t12_abs.2.1
  have h4 : k0_t4.val = 1 := t4_of_cond4 k0_t4 k0_h4
  unfold issueAt_t12V
  rw [Ring.bigSep_rangeSet_head (Φ := ownU d L 1) (lo := 16 * k.val) (by omega) (by omega),
    Ring.bigSep_rangeSet_head (Φ := ownU d L 1) (lo := 16 * k.val + 1) (by omega) (by omega),
    Ring.bigSep_rangeSet_head (Φ := ownU d L 1) (lo := 16 * k.val + 2) (by omega) (by omega),
    Ring.bigSep_rangeSet_head (Φ := ownU d L 1) (lo := 16 * k.val + 3) (by omega) (by omega),
    Ring.bigSep_rangeSet_head (Φ := ownU d L 1) (lo := 16 * k.val + 4) (by omega) (by omega),
    Ring.bigSep_rangeSet_head (Φ := ownU d L 1) (lo := 16 * k.val + 5) (by omega) (by omega),
    Ring.bigSep_rangeSet_head (Φ := ownU d L 1) (lo := 16 * k.val + 6) (by omega) (by omega),
    Ring.bigSep_rangeSet_head (Φ := ownU d L 1) (lo := 16 * k.val + 7) (by omega) (by omega),
    Ring.bigSep_rangeSet_head (Φ := ownU d L 1) (lo := 16 * k.val + 8) (by omega) (by omega),
    Ring.bigSep_rangeSet_head (Φ := ownU d L 1) (lo := 16 * k.val + 9) (by omega) (by omega),
    Ring.bigSep_rangeSet_head (Φ := ownU d L 1) (lo := 16 * k.val + 10) (by omega) (by omega),
    Ring.bigSep_rangeSet_head (Φ := ownU d L 1) (lo := 16 * k.val + 11) (by omega) (by omega),
    Ring.bigSep_rangeSet_head (Φ := ownU d L 1) (lo := 16 * k.val + 12) (by omega) (by omega),
    Ring.bigSep_rangeSet_head (Φ := ownU d L 1) (lo := 16 * k.val + 13) (by omega) (by omega),
    Ring.bigSep_rangeSet_head (Φ := ownU d L 1) (lo := 16 * k.val + 14) (by omega) (by omega),
    Ring.bigSep_rangeSet_head (Φ := ownU d L 1) (lo := 16 * k.val + 15) (by omega) (by omega),
    Ring.bigSep_rangeSet_head (Φ := ownI d L 1) (lo := 16 * k.val) (by omega) (by omega),
    Ring.bigSep_rangeSet_head (Φ := ownI d L 1) (lo := 16 * k.val + 1) (by omega) (by omega),
    Ring.bigSep_rangeSet_head (Φ := ownI d L 1) (lo := 16 * k.val + 2) (by omega) (by omega),
    Ring.bigSep_rangeSet_head (Φ := ownI d L 1) (lo := 16 * k.val + 3) (by omega) (by omega),
    Ring.bigSep_rangeSet_head (Φ := ownI d L 1) (lo := 16 * k.val + 4) (by omega) (by omega),
    Ring.bigSep_rangeSet_head (Φ := ownI d L 1) (lo := 16 * k.val + 5) (by omega) (by omega),
    Ring.bigSep_rangeSet_head (Φ := ownI d L 1) (lo := 16 * k.val + 6) (by omega) (by omega),
    Ring.bigSep_rangeSet_head (Φ := ownI d L 1) (lo := 16 * k.val + 7) (by omega) (by omega),
    Ring.bigSep_rangeSet_head (Φ := ownI d L 1) (lo := 16 * k.val + 8) (by omega) (by omega),
    Ring.bigSep_rangeSet_head (Φ := ownI d L 1) (lo := 16 * k.val + 9) (by omega) (by omega),
    Ring.bigSep_rangeSet_head (Φ := ownI d L 1) (lo := 16 * k.val + 10) (by omega) (by omega),
    Ring.bigSep_rangeSet_head (Φ := ownI d L 1) (lo := 16 * k.val + 11) (by omega) (by omega),
    Ring.bigSep_rangeSet_head (Φ := ownI d L 1) (lo := 16 * k.val + 12) (by omega) (by omega),
    Ring.bigSep_rangeSet_head (Φ := ownI d L 1) (lo := 16 * k.val + 13) (by omega) (by omega),
    Ring.bigSep_rangeSet_head (Φ := ownI d L 1) (lo := 16 * k.val + 14) (by omega) (by omega),
    Ring.bigSep_rangeSet_head (Φ := ownI d L 1) (lo := 16 * k.val + 15) (by omega) (by omega),
    Ring.bigSep_rangeSet_head (Φ := fun t => tokU d L q fue t.val) (lo := 384 + 16 * k.val) (by omega) (by omega),
    Ring.bigSep_rangeSet_head (Φ := fun t => tokU d L q fue t.val) (lo := 384 + 16 * k.val + 1) (by omega) (by omega),
    Ring.bigSep_rangeSet_head (Φ := fun t => tokU d L q fue t.val) (lo := 384 + 16 * k.val + 2) (by omega) (by omega),
    Ring.bigSep_rangeSet_head (Φ := fun t => tokU d L q fue t.val) (lo := 384 + 16 * k.val + 3) (by omega) (by omega),
    Ring.bigSep_rangeSet_head (Φ := fun t => tokU d L q fue t.val) (lo := 384 + 16 * k.val + 4) (by omega) (by omega),
    Ring.bigSep_rangeSet_head (Φ := fun t => tokU d L q fue t.val) (lo := 384 + 16 * k.val + 5) (by omega) (by omega),
    Ring.bigSep_rangeSet_head (Φ := fun t => tokU d L q fue t.val) (lo := 384 + 16 * k.val + 6) (by omega) (by omega),
    Ring.bigSep_rangeSet_head (Φ := fun t => tokU d L q fue t.val) (lo := 384 + 16 * k.val + 7) (by omega) (by omega),
    Ring.bigSep_rangeSet_head (Φ := fun t => tokU d L q fue t.val) (lo := 384 + 16 * k.val + 8) (by omega) (by omega),
    Ring.bigSep_rangeSet_head (Φ := fun t => tokU d L q fue t.val) (lo := 384 + 16 * k.val + 9) (by omega) (by omega),
    Ring.bigSep_rangeSet_head (Φ := fun t => tokU d L q fue t.val) (lo := 384 + 16 * k.val + 10) (by omega) (by omega),
    Ring.bigSep_rangeSet_head (Φ := fun t => tokU d L q fue t.val) (lo := 384 + 16 * k.val + 11) (by omega) (by omega),
    Ring.bigSep_rangeSet_head (Φ := fun t => tokU d L q fue t.val) (lo := 384 + 16 * k.val + 12) (by omega) (by omega),
    Ring.bigSep_rangeSet_head (Φ := fun t => tokU d L q fue t.val) (lo := 384 + 16 * k.val + 13) (by omega) (by omega),
    Ring.bigSep_rangeSet_head (Φ := fun t => tokU d L q fue t.val) (lo := 384 + 16 * k.val + 14) (by omega) (by omega),
    Ring.bigSep_rangeSet_head (Φ := fun t => tokU d L q fue t.val) (lo := 384 + 16 * k.val + 15) (by omega) (by omega),
    Ring.bigSep_rangeSet_head (Φ := fun t => tokI d L q fie t.val) (lo := 384 + 16 * k.val) (by omega) (by omega),
    Ring.bigSep_rangeSet_head (Φ := fun t => tokI d L q fie t.val) (lo := 384 + 16 * k.val + 1) (by omega) (by omega),
    Ring.bigSep_rangeSet_head (Φ := fun t => tokI d L q fie t.val) (lo := 384 + 16 * k.val + 2) (by omega) (by omega),
    Ring.bigSep_rangeSet_head (Φ := fun t => tokI d L q fie t.val) (lo := 384 + 16 * k.val + 3) (by omega) (by omega),
    Ring.bigSep_rangeSet_head (Φ := fun t => tokI d L q fie t.val) (lo := 384 + 16 * k.val + 4) (by omega) (by omega),
    Ring.bigSep_rangeSet_head (Φ := fun t => tokI d L q fie t.val) (lo := 384 + 16 * k.val + 5) (by omega) (by omega),
    Ring.bigSep_rangeSet_head (Φ := fun t => tokI d L q fie t.val) (lo := 384 + 16 * k.val + 6) (by omega) (by omega),
    Ring.bigSep_rangeSet_head (Φ := fun t => tokI d L q fie t.val) (lo := 384 + 16 * k.val + 7) (by omega) (by omega),
    Ring.bigSep_rangeSet_head (Φ := fun t => tokI d L q fie t.val) (lo := 384 + 16 * k.val + 8) (by omega) (by omega),
    Ring.bigSep_rangeSet_head (Φ := fun t => tokI d L q fie t.val) (lo := 384 + 16 * k.val + 9) (by omega) (by omega),
    Ring.bigSep_rangeSet_head (Φ := fun t => tokI d L q fie t.val) (lo := 384 + 16 * k.val + 10) (by omega) (by omega),
    Ring.bigSep_rangeSet_head (Φ := fun t => tokI d L q fie t.val) (lo := 384 + 16 * k.val + 11) (by omega) (by omega),
    Ring.bigSep_rangeSet_head (Φ := fun t => tokI d L q fie t.val) (lo := 384 + 16 * k.val + 12) (by omega) (by omega),
    Ring.bigSep_rangeSet_head (Φ := fun t => tokI d L q fie t.val) (lo := 384 + 16 * k.val + 13) (by omega) (by omega),
    Ring.bigSep_rangeSet_head (Φ := fun t => tokI d L q fie t.val) (lo := 384 + 16 * k.val + 14) (by omega) (by omega),
    Ring.bigSep_rangeSet_head (Φ := fun t => tokI d L q fie t.val) (lo := 384 + 16 * k.val + 15) (by omega) (by omega),
    show 384 + 16 * k.val + 15 + 1 = 384 + 16 * (k.val + 1) by omega,
    show 16 * k.val + 15 + 1 = 16 * (k.val + 1) by omega]
  rw [EU_t12_0 d L k, EU_t12_1 d L k, EU_t12_2 d L k, EU_t12_3 d L k, EU_t12_4 d L k, EU_t12_5 d L k, EU_t12_6 d L k, EU_t12_7 d L k, EU_t12_8 d L k, EU_t12_9 d L k, EU_t12_10 d L k, EU_t12_11 d L k, EU_t12_12 d L k, EU_t12_13 d L k, EU_t12_14 d L k, EU_t12_15 d L k, EI_t12_0 d L k, EI_t12_1 d L k, EI_t12_2 d L k, EI_t12_3 d L k, EI_t12_4 d L k, EI_t12_5 d L k, EI_t12_6 d L k, EI_t12_7 d L k, EI_t12_8 d L k, EI_t12_9 d L k, EI_t12_10 d L k, EI_t12_11 d L k, EI_t12_12 d L k, EI_t12_13 d L k, EI_t12_14 d L k, EI_t12_15 d L k]
  unfold ownAt
  iintro ⟨HBU, HBI, ⟨⟨%gHU0, HU0⟩, ⟨⟨%gHU1, HU1⟩, ⟨⟨%gHU2, HU2⟩, ⟨⟨%gHU3, HU3⟩, ⟨⟨%gHU4, HU4⟩, ⟨⟨%gHU5, HU5⟩, ⟨⟨%gHU6, HU6⟩, ⟨⟨%gHU7, HU7⟩, ⟨⟨%gHU8, HU8⟩, ⟨⟨%gHU9, HU9⟩, ⟨⟨%gHU10, HU10⟩, ⟨⟨%gHU11, HU11⟩, ⟨⟨%gHU12, HU12⟩, ⟨⟨%gHU13, HU13⟩, ⟨⟨%gHU14, HU14⟩, ⟨⟨%gHU15, HU15⟩, HUs⟩⟩⟩⟩⟩⟩⟩⟩⟩⟩⟩⟩⟩⟩⟩⟩, ⟨⟨%gHI0, HI0⟩, ⟨⟨%gHI1, HI1⟩, ⟨⟨%gHI2, HI2⟩, ⟨⟨%gHI3, HI3⟩, ⟨⟨%gHI4, HI4⟩, ⟨⟨%gHI5, HI5⟩, ⟨⟨%gHI6, HI6⟩, ⟨⟨%gHI7, HI7⟩, ⟨⟨%gHI8, HI8⟩, ⟨⟨%gHI9, HI9⟩, ⟨⟨%gHI10, HI10⟩, ⟨⟨%gHI11, HI11⟩, ⟨⟨%gHI12, HI12⟩, ⟨⟨%gHI13, HI13⟩, ⟨⟨%gHI14, HI14⟩, ⟨⟨%gHI15, HI15⟩, HIs⟩⟩⟩⟩⟩⟩⟩⟩⟩⟩⟩⟩⟩⟩⟩⟩, ⟨TU0, ⟨TU1, ⟨TU2, ⟨TU3, ⟨TU4, ⟨TU5, ⟨TU6, ⟨TU7, ⟨TU8, ⟨TU9, ⟨TU10, ⟨TU11, ⟨TU12, ⟨TU13, ⟨TU14, ⟨TU15, TUs⟩⟩⟩⟩⟩⟩⟩⟩⟩⟩⟩⟩⟩⟩⟩⟩, ⟨TI0, ⟨TI1, ⟨TI2, ⟨TI3, ⟨TI4, ⟨TI5, ⟨TI6, ⟨TI7, ⟨TI8, ⟨TI9, ⟨TI10, ⟨TI11, ⟨TI12, ⟨TI13, ⟨TI14, ⟨TI15, TIs⟩⟩⟩⟩⟩⟩⟩⟩⟩⟩⟩⟩⟩⟩⟩⟩, H0, H1⟩
  unfold k0_t12_body
  sl_exec (disch := first
      | (refine sep_elim_left.trans (deliverV d L _ _ _ (by simp only [offU_t12_0, offU_t12_1, offU_t12_2, offU_t12_3, offU_t12_4, offU_t12_5, offU_t12_6, offU_t12_7, offU_t12_8, offU_t12_9, offU_t12_10, offU_t12_11, offU_t12_12, offU_t12_13, offU_t12_14, offU_t12_15, offI_t12_0, offI_t12_1, offI_t12_2, offI_t12_3, offI_t12_4, offI_t12_5, offI_t12_6, offI_t12_7, offI_t12_8, offI_t12_9, offI_t12_10, offI_t12_11, offI_t12_12, offI_t12_13, offI_t12_14, offI_t12_15]; rfl) _ ?_)
         rw [row_read_back]
         sl_unfold_run_names
         funext x
         first
          | (unfold rowValU
             first | refine (srcU_eq (F := F) fue _ _ x).trans ?_ | (trace_state; fail "step-src")
             first | refine congrArg fue (congrArg (fun i => ValueIdx.ix2 i (⟨(x 0).val, (x 0).isLt⟩ : Fin 64)) (fin_congr _ _ ?_)) | (trace_state; fail "step-congr")
             first | rw [lane0_eq] | (simp only [k0_pay259, k0_pay260, k0_pay269, k0_pay270]; first | rw [lane0_eq] | refine (congrArg BitVec.toNat (lane0_eq (F := F) _ _ _ _ _ _ _)).trans ?_) | (trace_state; fail "step-lane")
             unfold idxValU
             first | rw [Nat.mod_eq_of_lt (pay0_lt (F := F) fu hfu _ _ _)] | (trace_state; fail "step-mod")
             first | refine congrArg BitVec.toNat (congrArg _ (funext fun a => Fin.ext ?_)) | (trace_state; fail "step-congr2")
             first | exact idx_arith _ _ _ _ (k0_off238_eq k0_t4 k) rfl _ _ (by first | omega | (simp only [Fin.val_mk]; omega)) a | (trace_state; fail "step-arith"))
          | (unfold rowValI
             first | refine (srcI_eq (F := F) fie _ _ x).trans ?_ | (trace_state; fail "step-src")
             first | refine congrArg fie (congrArg (fun i => ValueIdx.ix2 i (⟨(x 0).val, (x 0).isLt⟩ : Fin 64)) (fin_congr _ _ ?_)) | (trace_state; fail "step-congr")
             first | rw [lane1_eq] | (simp only [k0_pay259, k0_pay260, k0_pay269, k0_pay270]; first | rw [lane1_eq] | refine (congrArg BitVec.toNat (lane1_eq (F := F) _ _ _ _ _ _ _)).trans ?_) | (trace_state; fail "step-lane")
             unfold idxValI
             first | rw [Nat.mod_eq_of_lt (pay1_lt (F := F) fi hfi _ _ _)] | (trace_state; fail "step-mod")
             first | refine congrArg BitVec.toNat (congrArg _ (funext fun a => Fin.ext ?_)) | (trace_state; fail "step-congr2")
             first | exact idx_arith _ _ _ _ (k0_off238_eq k0_t4 k) rfl _ _ (by first | omega | (simp only [Fin.val_mk]; omega)) a | (trace_state; fail "step-arith")))
      | (intro a; fin_cases a
         · show (_ : ℕ) + 1 ≤ 1000000
           exact Nat.succ_le_of_lt (lane0_lt (N := 1000000) _ (pay0_lt fu hfu _ _) _ _ _ _ _ _)
         · show 0 + 64 ≤ 64; omega)
      | (intro a; fin_cases a
         · show (_ : ℕ) + 1 ≤ 100000
           exact Nat.succ_le_of_lt (lane1_lt (N := 100000) _ (pay1_lt fi hfi _ _) _ _ _ _ _ _)
         · show 0 + 64 ≤ 64; omega)
      | (intro _ a; fin_cases a
         · show (_ : ℕ) + 1 ≤ 1000000
           exact Nat.succ_le_of_lt (lane0_lt (N := 1000000) _ (pay0_lt fu hfu _ _) _ _ _ _ _ _)
         · show 0 + 64 ≤ 64; omega)
      | (intro _ a; fin_cases a
         · show (_ : ℕ) + 1 ≤ 100000
           exact Nat.succ_le_of_lt (lane1_lt (N := 100000) _ (pay1_lt fi hfi _ _) _ _ _ _ _ _)
         · show 0 + 64 ≤ 64; omega))
  sl_step
  rw [show 16 * k.val + 1 + 1 + 1 + 1 + 1 + 1 + 1 + 1 + 1 + 1 + 1 + 1 + 1 + 1 + 1 + 1 = 16 * (k.val + 1) by omega]
  iclear TU0 TU1 TU2 TU3 TU4 TU5 TU6 TU7 TU8 TU9 TU10 TU11 TU12 TU13 TU14 TU15 TI0 TI1 TI2 TI3 TI4 TI5 TI6 TI7 TI8 TI9 TI10 TI11 TI12 TI13 TI14 TI15
  isplitl [HBU]; · iexact HBU
  isplitl [HBI]; · iexact HBI
  isplitl [HUs]; · iexact HUs
  isplitl [HIs]; · iexact HIs
  isplitl [TUs]; · iexact TUs
  isplitl [TIs]; · iexact TIs
  isplitl [H0]; · iexact H0
  iexact H1

set_option warn.classDefReducibility false in
/-- The issue loop's invariant: the state before trip `k`, for every `k`. -/
@[sl_loop] def issueInv_t12V [∀ e, Nonempty (Elt F e)] (q : PosShare TreeShare) (fu fi : S16384.Idx → BitVec 32) (hfu : ∀ b, (fu b).toNat < 1000000) (hfi : ∀ b, (fi b).toNat < 100000)
    (f0 : (uidxS).view.ty.Contents (Elt F)) (f1 : (iidxS).view.ty.Contents (Elt F))
    (fue : S1000000x64.Idx → Elt F .f32) (fie : S100000x64.Idx → Elt F .f32)
    (v3 : IVec S16 32) (v7 v11 v15 v19 v23 : Vec F S16 .f32) (v24 : IVec S16 32) (c1285 : BitVec 32) (k0_t4 : Fin k0_t4_loop.trips) (k0_h4 : k0_cond4 k0_t4 = 1#1) (v114 : BitVec 32) :
    LoopInv (M := 𝕄) frame (wpE (defs₀ (F := F)) 𝒱₀ (thr d L) none) Set.univ k0_t12_loop.lb k0_t12_loop.ub k0_t12_loop.st (k0_t12_ok k0_t4 k0_h4) ()
      (k0_t12_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v3_scv) (Memref.isWhole_whole _) (Memref.whole main_v4_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scoped0 cc0_scoped1 cc0_scoped2 cc0_scoped3 v3 v7 v11 v15 v19 v23 v24 c1285 k0_t4 k0_h4 v114) where
  inv := issueAt_t12V d L q fu fi f0 f1 fue fie
  step := issue_step_t12V d L q fu fi hfu hfi f0 f1 fue fie v3 v7 v11 v15 v19 v23 v24 c1285 k0_t4 k0_h4 v114

end Issue

end Cert.Proof.KI

end
-- ==== Proof.KValL1UPure.lean ====
/-
  The first-layer nest on the user half, read at an index. One inner trip writes ten row pieces of the accumulator —
  row `h`, the sixteen columns `128·c + 16·k …` of chunk `c` and trip `k` — each lane the entry it held plus the four
  rectified features times that hidden unit's four weights, added in the kernel's order; every other entry it leaves.
  So after `n` inner trips an entry in trip `k`'s columns, `k < n`, is that one update of the entry it held at the
  start, and an entry outside the first `n` trips' columns is as at the start. An outer trip is the eight inner trips at
  that trip's weights and features, so it updates every entry of the chunk's 128 columns once; at the exact instance,
  where the additions may be regrouped, the sixteen outer trips leave each such entry at its start value plus the sum
  over the trips of the four products.
-/
import proofs.«214512_g89103391522852_cont_sun_m_1157_25_alg».proof.Proof.KValL1U7
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx)

variable {F : FTy → Type} [FloatOps F]

local notation "accS" => (Memref.whole Cert.KernelIdeal.cc0_scratch5 : Memref Cert.KernelIdeal.sig Kind.scVector Space.vmem Cert.KernelIdeal.S10x512 EltTy.f32)

/-! ## One row piece of one inner trip, lane by lane -/

/-- What a trip leaves in one lane of one row piece: the entry it held, and the four rectified features times that
    hidden unit's four weights, added in the kernel's order. -/
def rowNew (w0 w1 w2 w3 x0 x1 x2 x3 : Vec F S16 .f32) (a : Elt F .f32) (l : S16.Idx) : Elt F .f32 :=
  FloatOps.addf (FloatOps.addf (FloatOps.addf (FloatOps.addf a (FloatOps.mulf (x0 l) (w0 l))) (FloatOps.mulf (x1 l) (w1 l)))
    (FloatOps.mulf (x2 l) (w2 l))) (FloatOps.mulf (x3 l) (w3 l))

theorem pay75_apply (w0 w1 w2 w3 x0 x1 x2 x3 : Vec F S16 .f32) (ld : Vec F S1x16 .f32) (l : S16.Idx) :
    k0_pay75 w0 w1 w2 w3 x0 x1 x2 x3 ld l = rowNew w0 w1 w2 w3 x0 x1 x2 x3 (shapeCast S16 ld Facts₀.shapeCasts_S1x16_S16 l) l := rfl
theorem pay76_apply (w0 w1 w2 w3 x0 x1 x2 x3 : Vec F S16 .f32) (ld : Vec F S1x16 .f32) (l : S16.Idx) :
    k0_pay76 w0 w1 w2 w3 x0 x1 x2 x3 ld l = rowNew w0 w1 w2 w3 x0 x1 x2 x3 (shapeCast S16 ld Facts₀.shapeCasts_S1x16_S16 l) l := rfl
theorem pay77_apply (w0 w1 w2 w3 x0 x1 x2 x3 : Vec F S16 .f32) (ld : Vec F S1x16 .f32) (l : S16.Idx) :
    k0_pay77 w0 w1 w2 w3 x0 x1 x2 x3 ld l = rowNew w0 w1 w2 w3 x0 x1 x2 x3 (shapeCast S16 ld Facts₀.shapeCasts_S1x16_S16 l) l := rfl
theorem pay78_apply (w0 w1 w2 w3 x0 x1 x2 x3 : Vec F S16 .f32) (ld : Vec F S1x16 .f32) (l : S16.Idx) :
    k0_pay78 w0 w1 w2 w3 x0 x1 x2 x3 ld l = rowNew w0 w1 w2 w3 x0 x1 x2 x3 (shapeCast S16 ld Facts₀.shapeCasts_S1x16_S16 l) l := rfl
theorem pay79_apply (w0 w1 w2 w3 x0 x1 x2 x3 : Vec F S16 .f32) (ld : Vec F S1x16 .f32) (l : S16.Idx) :
    k0_pay79 w0 w1 w2 w3 x0 x1 x2 x3 ld l = rowNew w0 w1 w2 w3 x0 x1 x2 x3 (shapeCast S16 ld Facts₀.shapeCasts_S1x16_S16 l) l := rfl
theorem pay80_apply (w0 w1 w2 w3 x0 x1 x2 x3 : Vec F S16 .f32) (ld : Vec F S1x16 .f32) (l : S16.Idx) :
    k0_pay80 w0 w1 w2 w3 x0 x1 x2 x3 ld l = rowNew w0 w1 w2 w3 x0 x1 x2 x3 (shapeCast S16 ld Facts₀.shapeCasts_S1x16_S16 l) l := rfl
theorem pay81_apply (w0 w1 w2 w3 x0 x1 x2 x3 : Vec F S16 .f32) (ld : Vec F S1x16 .f32) (l : S16.Idx) :
    k0_pay81 w0 w1 w2 w3 x0 x1 x2 x3 ld l = rowNew w0 w1 w2 w3 x0 x1 x2 x3 (shapeCast S16 ld Facts₀.shapeCasts_S1x16_S16 l) l := rfl
theorem pay82_apply (w0 w1 w2 w3 x0 x1 x2 x3 : Vec F S16 .f32) (ld : Vec F S1x16 .f32) (l : S16.Idx) :
    k0_pay82 w0 w1 w2 w3 x0 x1 x2 x3 ld l = rowNew w0 w1 w2 w3 x0 x1 x2 x3 (shapeCast S16 ld Facts₀.shapeCasts_S1x16_S16 l) l := rfl
theorem pay263_apply (w0 w1 w2 w3 x0 x1 x2 x3 : Vec F S16 .f32) (ld : Vec F S1x16 .f32) (l : S16.Idx) :
    k0_pay263 w1 w2 w3 x1 x2 x3 (k0_pay83 ld) (k0_pay84 w0 x0) l = rowNew w0 w1 w2 w3 x0 x1 x2 x3 (shapeCast S16 ld Facts₀.shapeCasts_S1x16_S16 l) l := rfl
theorem pay264_apply (w0 w1 w2 w3 x0 x1 x2 x3 : Vec F S16 .f32) (ld : Vec F S1x16 .f32) (l : S16.Idx) :
    k0_pay264 w0 w1 w2 w3 x0 x1 x2 x3 ld l = rowNew w0 w1 w2 w3 x0 x1 x2 x3 (shapeCast S16 ld Facts₀.shapeCasts_S1x16_S16 l) l := rfl

/-! ## A list of writes read at an element of one of its pieces -/

/-- An element of piece `j` that no later write (an earlier entry of the list) covers reads piece `j`'s payload. -/
theorem read_writes_pick {sig : RefSig} {κ : Kind} {sp : Space} {s : Shape} {e : EltTy} {Val : EltTy → Type}
    (v : View sig κ sp s e) (f : v.ty.Contents Val) :
    ∀ (Ls : List (View.Piece Val s e)) (j : ℕ) (hj : j < Ls.length) (x : (Ls[j]).1.shape.Idx),
      (∀ i (hi : i < j), (Ls[j]).1.emb x ∉ (Ls[i]'(lt_trans hi hj)).1.set) →
      v.read Val (v.writes Val f Ls) ((Ls[j]).1.emb x) = (Ls[j]).2 x
  | [], j, hj, _, _ => absurd hj (Nat.not_lt_zero _)
  | p :: Ls, 0, _, x, _ => by
    obtain ⟨r, w⟩ := p
    exact View.read_writes_cons_emb v f r w Ls x
  | p :: Ls, j + 1, hj, x, hb => by
    have h0 : ((p :: Ls)[j + 1]).1.emb x ∉ p.1.set := hb 0 (Nat.succ_pos j)
    rw [View.writes_cons, View.read_slice_write_of_not_mem p.1 _ _ _ (by rw [Rect.map_emb_univ]; exact h0)]
    exact read_writes_pick v f Ls j (Nat.lt_of_succ_lt_succ hj) x (fun i hi => hb (i + 1) (Nat.succ_lt_succ hi))

/-! ## The row pieces of the accumulator -/

/-- A row piece at row `h` misses every element of a row piece at another row. -/
theorem row_piece_miss {off off' : Fin 2 → ℕ} (inb : ∀ a, off a + S1x16.size a ≤ S10x512.size a) (inb' : ∀ a, off' a + S1x16.size a ≤ S10x512.size a)
    (h h' c c' : ℕ) (e : off = ![h, c]) (e' : off' = ![h', c']) (hne : h ≠ h') (x : S1x16.Idx) :
    (Rect.unit (s := S10x512) off S1x16.size inb).emb x ∉ (Rect.unit (s := S10x512) off' S1x16.size inb').set := by
  subst e; subst e'
  rw [Rect.mem_set_unit]
  intro H
  have H0 := H 0
  have hx : (x 0).val < 1 := (x 0).isLt
  have e0 : (((Rect.unit (s := S10x512) ![h, c] S1x16.size inb).emb x) 0 : ℕ) = h + 1 * (x 0).val := rfl
  rw [e0] at H0
  have H0' : h' ≤ h + 1 * (x 0).val ∧ h + 1 * (x 0).val < h' + 1 := H0
  omega

/-- The lane of an element of a row piece. -/
def lane (x : S1x16.Idx) : S16.Idx := fun a => x a.succ

/-- A row piece's new payload read at an element: the lane's new value over the entry the accumulator held there. -/
theorem piece_apply {off : Fin 2 → ℕ} (inb : ∀ a, off a + S1x16.size a ≤ S10x512.size a) (f : S10x512.Idx → Elt F .f32)
    (payf : Vec F S1x16 .f32 → Vec F S16 .f32) (Wf : Elt F .f32 → S16.Idx → Elt F .f32)
    (hpay : ∀ ld l, payf ld l = Wf (shapeCast S16 ld Facts₀.shapeCasts_S1x16_S16 l) l) (x : S1x16.Idx) :
    shapeCast S1x16 (payf (View.readAt (Elt F) (accS).view (Rect.unit (s := S10x512) off S1x16.size inb).toLoadRect f)) Facts₀.shapeCasts_S16_S1x16 x
      = Wf (f ((Rect.unit (s := S10x512) off S1x16.size inb).emb x)) (lane x) := by
  refine (show shapeCast S1x16 (payf (View.readAt (Elt F) (accS).view (Rect.unit (s := S10x512) off S1x16.size inb).toLoadRect f)) Facts₀.shapeCasts_S16_S1x16 x
      = payf (View.readAt (Elt F) (accS).view (Rect.unit (s := S10x512) off S1x16.size inb).toLoadRect f) (lane x) from
    shapeCast_addUnit_apply (![16] : Fin 1 → ℕ) _ _ x).trans ((hpay _ _).trans ?_)
  congr 1
  refine (shapeCast_dropUnit_apply (![16] : Fin 1 → ℕ) _ _ (lane x)).trans ?_
  show f ((Rect.unit (s := S10x512) off S1x16.size inb).toLoadRect.idx (Fin.cons ⟨0, Nat.one_pos⟩ (lane x))) = _
  congr 1
  funext a
  apply Fin.ext
  have hx : (x 0).val < 1 := (x 0).isLt
  fin_cases a
  · show off 0 + 1 * 0 = off 0 + 1 * (x 0).val; omega
  · rfl

/-! ## One inner trip, read at an index -/

section Trip

variable [∀ e, Nonempty (Elt F e)] (d : Dev nD) (L : grid0.Coords)
variable (v3 : IVec S16 32) (v114 : BitVec 32) (k0_t4 : Fin k0_t4_loop.trips)
variable (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
variable (g : Buf (Elt F) ((halfU k0_t4).view.loc (thr d L))) (k : Fin k0_t8_loop.trips)
variable (c115 : k0_chk115 (k0_pay66 v3 0#32 1#32 k) (k0_pay67 v114)) (c116 : k0_chk116 (k0_pay66 v3 0#32 1#32 k) (k0_pay69 v114))
variable (c117 : k0_chk117 (k0_pay66 v3 0#32 1#32 k) (k0_pay71 v114)) (c118 : k0_chk118 (k0_pay66 v3 0#32 1#32 k) (k0_pay73 v114))

/-- The trip's ten writes, the last store first. -/
abbrev upd8List (f : S10x512.Idx → Elt F .f32) : List (View.Piece (Elt F) S10x512 .f32) :=
  [⟨Rect.unit (s := S10x512) (k0_off157 k0_t4 k) S1x16.size (k0_off157_inb k0_t4 k), shapeCast S1x16 (k0_pay264 v194 v274 v354 v434 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off157 k0_t4 k) S1x16.size (k0_off157_inb k0_t4 k)).toLoadRect f)) shapeCasts_S16_S1x16⟩,
      ⟨Rect.unit (s := S10x512) (k0_off156 k0_t4 k) S1x16.size (k0_off156_inb k0_t4 k), shapeCast S1x16 (k0_pay263 v266 v346 v426 (xU1 (F := F) d L v3 v114 k0_t4 g k c116) (xU2 (F := F) d L v3 v114 k0_t4 g k c117) (xU3 (F := F) d L v3 v114 k0_t4 g k c118) (k0_pay83 (View.readAt (Elt F) (Memref.whole cc0_scratch5).view (Rect.unit (s := S10x512) (k0_off156 k0_t4 k) S1x16.size (k0_off156_inb k0_t4 k)).toLoadRect f)) (k0_pay84 v186 (xU0 (F := F) d L v3 v114 k0_t4 g k c115))) shapeCasts_S16_S1x16⟩,
      ⟨Rect.unit (s := S10x512) (k0_off155 k0_t4 k) S1x16.size (k0_off155_inb k0_t4 k), shapeCast S1x16 (k0_pay82 v178 v258 v338 v418 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off155 k0_t4 k) S1x16.size (k0_off155_inb k0_t4 k)).toLoadRect f)) shapeCasts_S16_S1x16⟩,
      ⟨Rect.unit (s := S10x512) (k0_off154 k0_t4 k) S1x16.size (k0_off154_inb k0_t4 k), shapeCast S1x16 (k0_pay81 v170 v250 v330 v410 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off154 k0_t4 k) S1x16.size (k0_off154_inb k0_t4 k)).toLoadRect f)) shapeCasts_S16_S1x16⟩,
      ⟨Rect.unit (s := S10x512) (k0_off153 k0_t4 k) S1x16.size (k0_off153_inb k0_t4 k), shapeCast S1x16 (k0_pay80 v162 v242 v322 v402 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off153 k0_t4 k) S1x16.size (k0_off153_inb k0_t4 k)).toLoadRect f)) shapeCasts_S16_S1x16⟩,
      ⟨Rect.unit (s := S10x512) (k0_off152 k0_t4 k) S1x16.size (k0_off152_inb k0_t4 k), shapeCast S1x16 (k0_pay79 v154 v234 v314 v394 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off152 k0_t4 k) S1x16.size (k0_off152_inb k0_t4 k)).toLoadRect f)) shapeCasts_S16_S1x16⟩,
      ⟨Rect.unit (s := S10x512) (k0_off151 k0_t4 k) S1x16.size (k0_off151_inb k0_t4 k), shapeCast S1x16 (k0_pay78 v146 v226 v306 v386 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off151 k0_t4 k) S1x16.size (k0_off151_inb k0_t4 k)).toLoadRect f)) shapeCasts_S16_S1x16⟩,
      ⟨Rect.unit (s := S10x512) (k0_off150 k0_t4 k) S1x16.size (k0_off150_inb k0_t4 k), shapeCast S1x16 (k0_pay77 v138 v218 v298 v378 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off150 k0_t4 k) S1x16.size (k0_off150_inb k0_t4 k)).toLoadRect f)) shapeCasts_S16_S1x16⟩,
      ⟨Rect.unit (s := S10x512) (k0_off149 k0_t4 k) S1x16.size (k0_off149_inb k0_t4 k), shapeCast S1x16 (k0_pay76 v130 v210 v290 v370 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off149 k0_t4 k) S1x16.size (k0_off149_inb k0_t4 k)).toLoadRect f)) shapeCasts_S16_S1x16⟩,
      ⟨Rect.unit (s := S10x512) (k0_off148 k0_t4 k) S1x16.size (k0_off148_inb k0_t4 k), shapeCast S1x16 (k0_pay75 v122 v202 v282 v362 (xU0 (F := F) d L v3 v114 k0_t4 g k c115) (xU1 (F := F) d L v3 v114 k0_t4 g k c116) (xU2 (F := F) d L v3 v114 k0_t4 g k c117) (xU3 (F := F) d L v3 v114 k0_t4 g k c118) (View.readAt (Elt F) (Memref.whole cc0_scratch5).view (Rect.unit (s := S10x512) (k0_off148 k0_t4 k) S1x16.size (k0_off148_inb k0_t4 k)).toLoadRect f)) shapeCasts_S16_S1x16⟩]

theorem upd8_eq (f : S10x512.Idx → Elt F .f32) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f = (accS).view.writes (Elt F) f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) := rfl

/-- Row 0 of the accumulator after the trip, at the trip's sixteen columns. -/
theorem upd8_row0 (f : S10x512.Idx → Elt F .f32) (x : S1x16.Idx) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f ((Rect.unit (s := S10x512) (k0_off148 k0_t4 k) S1x16.size (k0_off148_inb k0_t4 k)).emb x)
      = rowNew v122 v202 v282 v362 (xU0 (F := F) d L v3 v114 k0_t4 g k c115) (xU1 (F := F) d L v3 v114 k0_t4 g k c116) (xU2 (F := F) d L v3 v114 k0_t4 g k c117) (xU3 (F := F) d L v3 v114 k0_t4 g k c118) (f ((Rect.unit (s := S10x512) (k0_off148 k0_t4 k) S1x16.size (k0_off148_inb k0_t4 k)).emb x)) (lane x) := by
  rw [upd8_eq]
  refine (read_writes_pick (accS).view f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) 9 (show 9 < 10 by decide) x ?_).trans ?_
  · intro i hi
    interval_cases i
    · exact row_piece_miss (k0_off148_inb k0_t4 k) (k0_off157_inb k0_t4 k) 0 9 _ _ (k0_off148_eq k0_t4 k) (k0_off157_eq k0_t4 k) (by decide) x
    · exact row_piece_miss (k0_off148_inb k0_t4 k) (k0_off156_inb k0_t4 k) 0 8 _ _ (k0_off148_eq k0_t4 k) (k0_off156_eq k0_t4 k) (by decide) x
    · exact row_piece_miss (k0_off148_inb k0_t4 k) (k0_off155_inb k0_t4 k) 0 7 _ _ (k0_off148_eq k0_t4 k) (k0_off155_eq k0_t4 k) (by decide) x
    · exact row_piece_miss (k0_off148_inb k0_t4 k) (k0_off154_inb k0_t4 k) 0 6 _ _ (k0_off148_eq k0_t4 k) (k0_off154_eq k0_t4 k) (by decide) x
    · exact row_piece_miss (k0_off148_inb k0_t4 k) (k0_off153_inb k0_t4 k) 0 5 _ _ (k0_off148_eq k0_t4 k) (k0_off153_eq k0_t4 k) (by decide) x
    · exact row_piece_miss (k0_off148_inb k0_t4 k) (k0_off152_inb k0_t4 k) 0 4 _ _ (k0_off148_eq k0_t4 k) (k0_off152_eq k0_t4 k) (by decide) x
    · exact row_piece_miss (k0_off148_inb k0_t4 k) (k0_off151_inb k0_t4 k) 0 3 _ _ (k0_off148_eq k0_t4 k) (k0_off151_eq k0_t4 k) (by decide) x
    · exact row_piece_miss (k0_off148_inb k0_t4 k) (k0_off150_inb k0_t4 k) 0 2 _ _ (k0_off148_eq k0_t4 k) (k0_off150_eq k0_t4 k) (by decide) x
    · exact row_piece_miss (k0_off148_inb k0_t4 k) (k0_off149_inb k0_t4 k) 0 1 _ _ (k0_off148_eq k0_t4 k) (k0_off149_eq k0_t4 k) (by decide) x
  · exact piece_apply _ f (k0_pay75 v122 v202 v282 v362 (xU0 (F := F) d L v3 v114 k0_t4 g k c115) (xU1 (F := F) d L v3 v114 k0_t4 g k c116) (xU2 (F := F) d L v3 v114 k0_t4 g k c117) (xU3 (F := F) d L v3 v114 k0_t4 g k c118)) (rowNew v122 v202 v282 v362 (xU0 (F := F) d L v3 v114 k0_t4 g k c115) (xU1 (F := F) d L v3 v114 k0_t4 g k c116) (xU2 (F := F) d L v3 v114 k0_t4 g k c117) (xU3 (F := F) d L v3 v114 k0_t4 g k c118)) (fun ld l => pay75_apply v122 v202 v282 v362 (xU0 (F := F) d L v3 v114 k0_t4 g k c115) (xU1 (F := F) d L v3 v114 k0_t4 g k c116) (xU2 (F := F) d L v3 v114 k0_t4 g k c117) (xU3 (F := F) d L v3 v114 k0_t4 g k c118) ld l) x

/-- Row 1 of the accumulator after the trip, at the trip's sixteen columns. -/
theorem upd8_row1 (f : S10x512.Idx → Elt F .f32) (x : S1x16.Idx) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f ((Rect.unit (s := S10x512) (k0_off149 k0_t4 k) S1x16.size (k0_off149_inb k0_t4 k)).emb x)
      = rowNew v130 v210 v290 v370 (xU0 (F := F) d L v3 v114 k0_t4 g k c115) (xU1 (F := F) d L v3 v114 k0_t4 g k c116) (xU2 (F := F) d L v3 v114 k0_t4 g k c117) (xU3 (F := F) d L v3 v114 k0_t4 g k c118) (f ((Rect.unit (s := S10x512) (k0_off149 k0_t4 k) S1x16.size (k0_off149_inb k0_t4 k)).emb x)) (lane x) := by
  rw [upd8_eq]
  refine (read_writes_pick (accS).view f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) 8 (show 8 < 10 by decide) x ?_).trans ?_
  · intro i hi
    interval_cases i
    · exact row_piece_miss (k0_off149_inb k0_t4 k) (k0_off157_inb k0_t4 k) 1 9 _ _ (k0_off149_eq k0_t4 k) (k0_off157_eq k0_t4 k) (by decide) x
    · exact row_piece_miss (k0_off149_inb k0_t4 k) (k0_off156_inb k0_t4 k) 1 8 _ _ (k0_off149_eq k0_t4 k) (k0_off156_eq k0_t4 k) (by decide) x
    · exact row_piece_miss (k0_off149_inb k0_t4 k) (k0_off155_inb k0_t4 k) 1 7 _ _ (k0_off149_eq k0_t4 k) (k0_off155_eq k0_t4 k) (by decide) x
    · exact row_piece_miss (k0_off149_inb k0_t4 k) (k0_off154_inb k0_t4 k) 1 6 _ _ (k0_off149_eq k0_t4 k) (k0_off154_eq k0_t4 k) (by decide) x
    · exact row_piece_miss (k0_off149_inb k0_t4 k) (k0_off153_inb k0_t4 k) 1 5 _ _ (k0_off149_eq k0_t4 k) (k0_off153_eq k0_t4 k) (by decide) x
    · exact row_piece_miss (k0_off149_inb k0_t4 k) (k0_off152_inb k0_t4 k) 1 4 _ _ (k0_off149_eq k0_t4 k) (k0_off152_eq k0_t4 k) (by decide) x
    · exact row_piece_miss (k0_off149_inb k0_t4 k) (k0_off151_inb k0_t4 k) 1 3 _ _ (k0_off149_eq k0_t4 k) (k0_off151_eq k0_t4 k) (by decide) x
    · exact row_piece_miss (k0_off149_inb k0_t4 k) (k0_off150_inb k0_t4 k) 1 2 _ _ (k0_off149_eq k0_t4 k) (k0_off150_eq k0_t4 k) (by decide) x
  · exact piece_apply _ f (k0_pay76 v130 v210 v290 v370 (xU0 (F := F) d L v3 v114 k0_t4 g k c115) (xU1 (F := F) d L v3 v114 k0_t4 g k c116) (xU2 (F := F) d L v3 v114 k0_t4 g k c117) (xU3 (F := F) d L v3 v114 k0_t4 g k c118)) (rowNew v130 v210 v290 v370 (xU0 (F := F) d L v3 v114 k0_t4 g k c115) (xU1 (F := F) d L v3 v114 k0_t4 g k c116) (xU2 (F := F) d L v3 v114 k0_t4 g k c117) (xU3 (F := F) d L v3 v114 k0_t4 g k c118)) (fun ld l => pay76_apply v130 v210 v290 v370 (xU0 (F := F) d L v3 v114 k0_t4 g k c115) (xU1 (F := F) d L v3 v114 k0_t4 g k c116) (xU2 (F := F) d L v3 v114 k0_t4 g k c117) (xU3 (F := F) d L v3 v114 k0_t4 g k c118) ld l) x

/-- Row 2 of the accumulator after the trip, at the trip's sixteen columns. -/
theorem upd8_row2 (f : S10x512.Idx → Elt F .f32) (x : S1x16.Idx) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f ((Rect.unit (s := S10x512) (k0_off150 k0_t4 k) S1x16.size (k0_off150_inb k0_t4 k)).emb x)
      = rowNew v138 v218 v298 v378 (xU0 (F := F) d L v3 v114 k0_t4 g k c115) (xU1 (F := F) d L v3 v114 k0_t4 g k c116) (xU2 (F := F) d L v3 v114 k0_t4 g k c117) (xU3 (F := F) d L v3 v114 k0_t4 g k c118) (f ((Rect.unit (s := S10x512) (k0_off150 k0_t4 k) S1x16.size (k0_off150_inb k0_t4 k)).emb x)) (lane x) := by
  rw [upd8_eq]
  refine (read_writes_pick (accS).view f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) 7 (show 7 < 10 by decide) x ?_).trans ?_
  · intro i hi
    interval_cases i
    · exact row_piece_miss (k0_off150_inb k0_t4 k) (k0_off157_inb k0_t4 k) 2 9 _ _ (k0_off150_eq k0_t4 k) (k0_off157_eq k0_t4 k) (by decide) x
    · exact row_piece_miss (k0_off150_inb k0_t4 k) (k0_off156_inb k0_t4 k) 2 8 _ _ (k0_off150_eq k0_t4 k) (k0_off156_eq k0_t4 k) (by decide) x
    · exact row_piece_miss (k0_off150_inb k0_t4 k) (k0_off155_inb k0_t4 k) 2 7 _ _ (k0_off150_eq k0_t4 k) (k0_off155_eq k0_t4 k) (by decide) x
    · exact row_piece_miss (k0_off150_inb k0_t4 k) (k0_off154_inb k0_t4 k) 2 6 _ _ (k0_off150_eq k0_t4 k) (k0_off154_eq k0_t4 k) (by decide) x
    · exact row_piece_miss (k0_off150_inb k0_t4 k) (k0_off153_inb k0_t4 k) 2 5 _ _ (k0_off150_eq k0_t4 k) (k0_off153_eq k0_t4 k) (by decide) x
    · exact row_piece_miss (k0_off150_inb k0_t4 k) (k0_off152_inb k0_t4 k) 2 4 _ _ (k0_off150_eq k0_t4 k) (k0_off152_eq k0_t4 k) (by decide) x
    · exact row_piece_miss (k0_off150_inb k0_t4 k) (k0_off151_inb k0_t4 k) 2 3 _ _ (k0_off150_eq k0_t4 k) (k0_off151_eq k0_t4 k) (by decide) x
  · exact piece_apply _ f (k0_pay77 v138 v218 v298 v378 (xU0 (F := F) d L v3 v114 k0_t4 g k c115) (xU1 (F := F) d L v3 v114 k0_t4 g k c116) (xU2 (F := F) d L v3 v114 k0_t4 g k c117) (xU3 (F := F) d L v3 v114 k0_t4 g k c118)) (rowNew v138 v218 v298 v378 (xU0 (F := F) d L v3 v114 k0_t4 g k c115) (xU1 (F := F) d L v3 v114 k0_t4 g k c116) (xU2 (F := F) d L v3 v114 k0_t4 g k c117) (xU3 (F := F) d L v3 v114 k0_t4 g k c118)) (fun ld l => pay77_apply v138 v218 v298 v378 (xU0 (F := F) d L v3 v114 k0_t4 g k c115) (xU1 (F := F) d L v3 v114 k0_t4 g k c116) (xU2 (F := F) d L v3 v114 k0_t4 g k c117) (xU3 (F := F) d L v3 v114 k0_t4 g k c118) ld l) x

/-- Row 3 of the accumulator after the trip, at the trip's sixteen columns. -/
theorem upd8_row3 (f : S10x512.Idx → Elt F .f32) (x : S1x16.Idx) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f ((Rect.unit (s := S10x512) (k0_off151 k0_t4 k) S1x16.size (k0_off151_inb k0_t4 k)).emb x)
      = rowNew v146 v226 v306 v386 (xU0 (F := F) d L v3 v114 k0_t4 g k c115) (xU1 (F := F) d L v3 v114 k0_t4 g k c116) (xU2 (F := F) d L v3 v114 k0_t4 g k c117) (xU3 (F := F) d L v3 v114 k0_t4 g k c118) (f ((Rect.unit (s := S10x512) (k0_off151 k0_t4 k) S1x16.size (k0_off151_inb k0_t4 k)).emb x)) (lane x) := by
  rw [upd8_eq]
  refine (read_writes_pick (accS).view f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) 6 (show 6 < 10 by decide) x ?_).trans ?_
  · intro i hi
    interval_cases i
    · exact row_piece_miss (k0_off151_inb k0_t4 k) (k0_off157_inb k0_t4 k) 3 9 _ _ (k0_off151_eq k0_t4 k) (k0_off157_eq k0_t4 k) (by decide) x
    · exact row_piece_miss (k0_off151_inb k0_t4 k) (k0_off156_inb k0_t4 k) 3 8 _ _ (k0_off151_eq k0_t4 k) (k0_off156_eq k0_t4 k) (by decide) x
    · exact row_piece_miss (k0_off151_inb k0_t4 k) (k0_off155_inb k0_t4 k) 3 7 _ _ (k0_off151_eq k0_t4 k) (k0_off155_eq k0_t4 k) (by decide) x
    · exact row_piece_miss (k0_off151_inb k0_t4 k) (k0_off154_inb k0_t4 k) 3 6 _ _ (k0_off151_eq k0_t4 k) (k0_off154_eq k0_t4 k) (by decide) x
    · exact row_piece_miss (k0_off151_inb k0_t4 k) (k0_off153_inb k0_t4 k) 3 5 _ _ (k0_off151_eq k0_t4 k) (k0_off153_eq k0_t4 k) (by decide) x
    · exact row_piece_miss (k0_off151_inb k0_t4 k) (k0_off152_inb k0_t4 k) 3 4 _ _ (k0_off151_eq k0_t4 k) (k0_off152_eq k0_t4 k) (by decide) x
  · exact piece_apply _ f (k0_pay78 v146 v226 v306 v386 (xU0 (F := F) d L v3 v114 k0_t4 g k c115) (xU1 (F := F) d L v3 v114 k0_t4 g k c116) (xU2 (F := F) d L v3 v114 k0_t4 g k c117) (xU3 (F := F) d L v3 v114 k0_t4 g k c118)) (rowNew v146 v226 v306 v386 (xU0 (F := F) d L v3 v114 k0_t4 g k c115) (xU1 (F := F) d L v3 v114 k0_t4 g k c116) (xU2 (F := F) d L v3 v114 k0_t4 g k c117) (xU3 (F := F) d L v3 v114 k0_t4 g k c118)) (fun ld l => pay78_apply v146 v226 v306 v386 (xU0 (F := F) d L v3 v114 k0_t4 g k c115) (xU1 (F := F) d L v3 v114 k0_t4 g k c116) (xU2 (F := F) d L v3 v114 k0_t4 g k c117) (xU3 (F := F) d L v3 v114 k0_t4 g k c118) ld l) x

/-- Row 4 of the accumulator after the trip, at the trip's sixteen columns. -/
theorem upd8_row4 (f : S10x512.Idx → Elt F .f32) (x : S1x16.Idx) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f ((Rect.unit (s := S10x512) (k0_off152 k0_t4 k) S1x16.size (k0_off152_inb k0_t4 k)).emb x)
      = rowNew v154 v234 v314 v394 (xU0 (F := F) d L v3 v114 k0_t4 g k c115) (xU1 (F := F) d L v3 v114 k0_t4 g k c116) (xU2 (F := F) d L v3 v114 k0_t4 g k c117) (xU3 (F := F) d L v3 v114 k0_t4 g k c118) (f ((Rect.unit (s := S10x512) (k0_off152 k0_t4 k) S1x16.size (k0_off152_inb k0_t4 k)).emb x)) (lane x) := by
  rw [upd8_eq]
  refine (read_writes_pick (accS).view f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) 5 (show 5 < 10 by decide) x ?_).trans ?_
  · intro i hi
    interval_cases i
    · exact row_piece_miss (k0_off152_inb k0_t4 k) (k0_off157_inb k0_t4 k) 4 9 _ _ (k0_off152_eq k0_t4 k) (k0_off157_eq k0_t4 k) (by decide) x
    · exact row_piece_miss (k0_off152_inb k0_t4 k) (k0_off156_inb k0_t4 k) 4 8 _ _ (k0_off152_eq k0_t4 k) (k0_off156_eq k0_t4 k) (by decide) x
    · exact row_piece_miss (k0_off152_inb k0_t4 k) (k0_off155_inb k0_t4 k) 4 7 _ _ (k0_off152_eq k0_t4 k) (k0_off155_eq k0_t4 k) (by decide) x
    · exact row_piece_miss (k0_off152_inb k0_t4 k) (k0_off154_inb k0_t4 k) 4 6 _ _ (k0_off152_eq k0_t4 k) (k0_off154_eq k0_t4 k) (by decide) x
    · exact row_piece_miss (k0_off152_inb k0_t4 k) (k0_off153_inb k0_t4 k) 4 5 _ _ (k0_off152_eq k0_t4 k) (k0_off153_eq k0_t4 k) (by decide) x
  · exact piece_apply _ f (k0_pay79 v154 v234 v314 v394 (xU0 (F := F) d L v3 v114 k0_t4 g k c115) (xU1 (F := F) d L v3 v114 k0_t4 g k c116) (xU2 (F := F) d L v3 v114 k0_t4 g k c117) (xU3 (F := F) d L v3 v114 k0_t4 g k c118)) (rowNew v154 v234 v314 v394 (xU0 (F := F) d L v3 v114 k0_t4 g k c115) (xU1 (F := F) d L v3 v114 k0_t4 g k c116) (xU2 (F := F) d L v3 v114 k0_t4 g k c117) (xU3 (F := F) d L v3 v114 k0_t4 g k c118)) (fun ld l => pay79_apply v154 v234 v314 v394 (xU0 (F := F) d L v3 v114 k0_t4 g k c115) (xU1 (F := F) d L v3 v114 k0_t4 g k c116) (xU2 (F := F) d L v3 v114 k0_t4 g k c117) (xU3 (F := F) d L v3 v114 k0_t4 g k c118) ld l) x

/-- Row 5 of the accumulator after the trip, at the trip's sixteen columns. -/
theorem upd8_row5 (f : S10x512.Idx → Elt F .f32) (x : S1x16.Idx) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f ((Rect.unit (s := S10x512) (k0_off153 k0_t4 k) S1x16.size (k0_off153_inb k0_t4 k)).emb x)
      = rowNew v162 v242 v322 v402 (xU0 (F := F) d L v3 v114 k0_t4 g k c115) (xU1 (F := F) d L v3 v114 k0_t4 g k c116) (xU2 (F := F) d L v3 v114 k0_t4 g k c117) (xU3 (F := F) d L v3 v114 k0_t4 g k c118) (f ((Rect.unit (s := S10x512) (k0_off153 k0_t4 k) S1x16.size (k0_off153_inb k0_t4 k)).emb x)) (lane x) := by
  rw [upd8_eq]
  refine (read_writes_pick (accS).view f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) 4 (show 4 < 10 by decide) x ?_).trans ?_
  · intro i hi
    interval_cases i
    · exact row_piece_miss (k0_off153_inb k0_t4 k) (k0_off157_inb k0_t4 k) 5 9 _ _ (k0_off153_eq k0_t4 k) (k0_off157_eq k0_t4 k) (by decide) x
    · exact row_piece_miss (k0_off153_inb k0_t4 k) (k0_off156_inb k0_t4 k) 5 8 _ _ (k0_off153_eq k0_t4 k) (k0_off156_eq k0_t4 k) (by decide) x
    · exact row_piece_miss (k0_off153_inb k0_t4 k) (k0_off155_inb k0_t4 k) 5 7 _ _ (k0_off153_eq k0_t4 k) (k0_off155_eq k0_t4 k) (by decide) x
    · exact row_piece_miss (k0_off153_inb k0_t4 k) (k0_off154_inb k0_t4 k) 5 6 _ _ (k0_off153_eq k0_t4 k) (k0_off154_eq k0_t4 k) (by decide) x
  · exact piece_apply _ f (k0_pay80 v162 v242 v322 v402 (xU0 (F := F) d L v3 v114 k0_t4 g k c115) (xU1 (F := F) d L v3 v114 k0_t4 g k c116) (xU2 (F := F) d L v3 v114 k0_t4 g k c117) (xU3 (F := F) d L v3 v114 k0_t4 g k c118)) (rowNew v162 v242 v322 v402 (xU0 (F := F) d L v3 v114 k0_t4 g k c115) (xU1 (F := F) d L v3 v114 k0_t4 g k c116) (xU2 (F := F) d L v3 v114 k0_t4 g k c117) (xU3 (F := F) d L v3 v114 k0_t4 g k c118)) (fun ld l => pay80_apply v162 v242 v322 v402 (xU0 (F := F) d L v3 v114 k0_t4 g k c115) (xU1 (F := F) d L v3 v114 k0_t4 g k c116) (xU2 (F := F) d L v3 v114 k0_t4 g k c117) (xU3 (F := F) d L v3 v114 k0_t4 g k c118) ld l) x

/-- Row 6 of the accumulator after the trip, at the trip's sixteen columns. -/
theorem upd8_row6 (f : S10x512.Idx → Elt F .f32) (x : S1x16.Idx) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f ((Rect.unit (s := S10x512) (k0_off154 k0_t4 k) S1x16.size (k0_off154_inb k0_t4 k)).emb x)
      = rowNew v170 v250 v330 v410 (xU0 (F := F) d L v3 v114 k0_t4 g k c115) (xU1 (F := F) d L v3 v114 k0_t4 g k c116) (xU2 (F := F) d L v3 v114 k0_t4 g k c117) (xU3 (F := F) d L v3 v114 k0_t4 g k c118) (f ((Rect.unit (s := S10x512) (k0_off154 k0_t4 k) S1x16.size (k0_off154_inb k0_t4 k)).emb x)) (lane x) := by
  rw [upd8_eq]
  refine (read_writes_pick (accS).view f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) 3 (show 3 < 10 by decide) x ?_).trans ?_
  · intro i hi
    interval_cases i
    · exact row_piece_miss (k0_off154_inb k0_t4 k) (k0_off157_inb k0_t4 k) 6 9 _ _ (k0_off154_eq k0_t4 k) (k0_off157_eq k0_t4 k) (by decide) x
    · exact row_piece_miss (k0_off154_inb k0_t4 k) (k0_off156_inb k0_t4 k) 6 8 _ _ (k0_off154_eq k0_t4 k) (k0_off156_eq k0_t4 k) (by decide) x
    · exact row_piece_miss (k0_off154_inb k0_t4 k) (k0_off155_inb k0_t4 k) 6 7 _ _ (k0_off154_eq k0_t4 k) (k0_off155_eq k0_t4 k) (by decide) x
  · exact piece_apply _ f (k0_pay81 v170 v250 v330 v410 (xU0 (F := F) d L v3 v114 k0_t4 g k c115) (xU1 (F := F) d L v3 v114 k0_t4 g k c116) (xU2 (F := F) d L v3 v114 k0_t4 g k c117) (xU3 (F := F) d L v3 v114 k0_t4 g k c118)) (rowNew v170 v250 v330 v410 (xU0 (F := F) d L v3 v114 k0_t4 g k c115) (xU1 (F := F) d L v3 v114 k0_t4 g k c116) (xU2 (F := F) d L v3 v114 k0_t4 g k c117) (xU3 (F := F) d L v3 v114 k0_t4 g k c118)) (fun ld l => pay81_apply v170 v250 v330 v410 (xU0 (F := F) d L v3 v114 k0_t4 g k c115) (xU1 (F := F) d L v3 v114 k0_t4 g k c116) (xU2 (F := F) d L v3 v114 k0_t4 g k c117) (xU3 (F := F) d L v3 v114 k0_t4 g k c118) ld l) x

/-- Row 7 of the accumulator after the trip, at the trip's sixteen columns. -/
theorem upd8_row7 (f : S10x512.Idx → Elt F .f32) (x : S1x16.Idx) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f ((Rect.unit (s := S10x512) (k0_off155 k0_t4 k) S1x16.size (k0_off155_inb k0_t4 k)).emb x)
      = rowNew v178 v258 v338 v418 (xU0 (F := F) d L v3 v114 k0_t4 g k c115) (xU1 (F := F) d L v3 v114 k0_t4 g k c116) (xU2 (F := F) d L v3 v114 k0_t4 g k c117) (xU3 (F := F) d L v3 v114 k0_t4 g k c118) (f ((Rect.unit (s := S10x512) (k0_off155 k0_t4 k) S1x16.size (k0_off155_inb k0_t4 k)).emb x)) (lane x) := by
  rw [upd8_eq]
  refine (read_writes_pick (accS).view f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) 2 (show 2 < 10 by decide) x ?_).trans ?_
  · intro i hi
    interval_cases i
    · exact row_piece_miss (k0_off155_inb k0_t4 k) (k0_off157_inb k0_t4 k) 7 9 _ _ (k0_off155_eq k0_t4 k) (k0_off157_eq k0_t4 k) (by decide) x
    · exact row_piece_miss (k0_off155_inb k0_t4 k) (k0_off156_inb k0_t4 k) 7 8 _ _ (k0_off155_eq k0_t4 k) (k0_off156_eq k0_t4 k) (by decide) x
  · exact piece_apply _ f (k0_pay82 v178 v258 v338 v418 (xU0 (F := F) d L v3 v114 k0_t4 g k c115) (xU1 (F := F) d L v3 v114 k0_t4 g k c116) (xU2 (F := F) d L v3 v114 k0_t4 g k c117) (xU3 (F := F) d L v3 v114 k0_t4 g k c118)) (rowNew v178 v258 v338 v418 (xU0 (F := F) d L v3 v114 k0_t4 g k c115) (xU1 (F := F) d L v3 v114 k0_t4 g k c116) (xU2 (F := F) d L v3 v114 k0_t4 g k c117) (xU3 (F := F) d L v3 v114 k0_t4 g k c118)) (fun ld l => pay82_apply v178 v258 v338 v418 (xU0 (F := F) d L v3 v114 k0_t4 g k c115) (xU1 (F := F) d L v3 v114 k0_t4 g k c116) (xU2 (F := F) d L v3 v114 k0_t4 g k c117) (xU3 (F := F) d L v3 v114 k0_t4 g k c118) ld l) x

/-- Row 8 of the accumulator after the trip, at the trip's sixteen columns. -/
theorem upd8_row8 (f : S10x512.Idx → Elt F .f32) (x : S1x16.Idx) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f ((Rect.unit (s := S10x512) (k0_off156 k0_t4 k) S1x16.size (k0_off156_inb k0_t4 k)).emb x)
      = rowNew v186 v266 v346 v426 (xU0 (F := F) d L v3 v114 k0_t4 g k c115) (xU1 (F := F) d L v3 v114 k0_t4 g k c116) (xU2 (F := F) d L v3 v114 k0_t4 g k c117) (xU3 (F := F) d L v3 v114 k0_t4 g k c118) (f ((Rect.unit (s := S10x512) (k0_off156 k0_t4 k) S1x16.size (k0_off156_inb k0_t4 k)).emb x)) (lane x) := by
  rw [upd8_eq]
  refine (read_writes_pick (accS).view f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) 1 (show 1 < 10 by decide) x ?_).trans ?_
  · intro i hi
    interval_cases i
    · exact row_piece_miss (k0_off156_inb k0_t4 k) (k0_off157_inb k0_t4 k) 8 9 _ _ (k0_off156_eq k0_t4 k) (k0_off157_eq k0_t4 k) (by decide) x
  · exact piece_apply _ f (fun ld => k0_pay263 v266 v346 v426 (xU1 (F := F) d L v3 v114 k0_t4 g k c116) (xU2 (F := F) d L v3 v114 k0_t4 g k c117) (xU3 (F := F) d L v3 v114 k0_t4 g k c118) (k0_pay83 ld) (k0_pay84 v186 (xU0 (F := F) d L v3 v114 k0_t4 g k c115))) (rowNew v186 v266 v346 v426 (xU0 (F := F) d L v3 v114 k0_t4 g k c115) (xU1 (F := F) d L v3 v114 k0_t4 g k c116) (xU2 (F := F) d L v3 v114 k0_t4 g k c117) (xU3 (F := F) d L v3 v114 k0_t4 g k c118)) (fun ld l => pay263_apply v186 v266 v346 v426 (xU0 (F := F) d L v3 v114 k0_t4 g k c115) (xU1 (F := F) d L v3 v114 k0_t4 g k c116) (xU2 (F := F) d L v3 v114 k0_t4 g k c117) (xU3 (F := F) d L v3 v114 k0_t4 g k c118) ld l) x

/-- Row 9 of the accumulator after the trip, at the trip's sixteen columns. -/
theorem upd8_row9 (f : S10x512.Idx → Elt F .f32) (x : S1x16.Idx) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f ((Rect.unit (s := S10x512) (k0_off157 k0_t4 k) S1x16.size (k0_off157_inb k0_t4 k)).emb x)
      = rowNew v194 v274 v354 v434 (xU0 (F := F) d L v3 v114 k0_t4 g k c115) (xU1 (F := F) d L v3 v114 k0_t4 g k c116) (xU2 (F := F) d L v3 v114 k0_t4 g k c117) (xU3 (F := F) d L v3 v114 k0_t4 g k c118) (f ((Rect.unit (s := S10x512) (k0_off157 k0_t4 k) S1x16.size (k0_off157_inb k0_t4 k)).emb x)) (lane x) := by
  rw [upd8_eq]
  refine (read_writes_pick (accS).view f (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) 0 (show 0 < 10 by decide) x ?_).trans ?_
  · intro i hi; exact absurd hi (Nat.not_lt_zero _)
  · exact piece_apply _ f (k0_pay264 v194 v274 v354 v434 (xU0 (F := F) d L v3 v114 k0_t4 g k c115) (xU1 (F := F) d L v3 v114 k0_t4 g k c116) (xU2 (F := F) d L v3 v114 k0_t4 g k c117) (xU3 (F := F) d L v3 v114 k0_t4 g k c118)) (rowNew v194 v274 v354 v434 (xU0 (F := F) d L v3 v114 k0_t4 g k c115) (xU1 (F := F) d L v3 v114 k0_t4 g k c116) (xU2 (F := F) d L v3 v114 k0_t4 g k c117) (xU3 (F := F) d L v3 v114 k0_t4 g k c118)) (fun ld l => pay264_apply v194 v274 v354 v434 (xU0 (F := F) d L v3 v114 k0_t4 g k c115) (xU1 (F := F) d L v3 v114 k0_t4 g k c116) (xU2 (F := F) d L v3 v114 k0_t4 g k c117) (xU3 (F := F) d L v3 v114 k0_t4 g k c118) ld l) x

/-- Outside the trip's sixteen columns the accumulator is as before. -/
theorem upd8_outside (f : S10x512.Idx → Elt F .f32) (y : S10x512.Idx)
    (hy : (y 1).val < 128 * k0_t4.val + 16 * k.val ∨ 128 * k0_t4.val + 16 * k.val + 16 ≤ (y 1).val) :
    upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f y = f y := by
  rw [upd8_eq]
  refine View.read_writes_apply_of_forall_not_mem (accS).view f y (upd8List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c115 c116 c117 c118 f) ?_
  intro p hp
  simp only [List.mem_cons, List.not_mem_nil, or_false] at hp
  rcases hp with rfl | rfl | rfl | rfl | rfl | rfl | rfl | rfl | rfl | rfl
  · intro hm; rw [Rect.mem_set_unit, k0_off157_eq] at hm
    have H1 : 128 * k0_t4.val + 16 * k.val ≤ (y 1).val ∧ (y 1).val < 128 * k0_t4.val + 16 * k.val + 16 := hm 1
    omega
  · intro hm; rw [Rect.mem_set_unit, k0_off156_eq] at hm
    have H1 : 128 * k0_t4.val + 16 * k.val ≤ (y 1).val ∧ (y 1).val < 128 * k0_t4.val + 16 * k.val + 16 := hm 1
    omega
  · intro hm; rw [Rect.mem_set_unit, k0_off155_eq] at hm
    have H1 : 128 * k0_t4.val + 16 * k.val ≤ (y 1).val ∧ (y 1).val < 128 * k0_t4.val + 16 * k.val + 16 := hm 1
    omega
  · intro hm; rw [Rect.mem_set_unit, k0_off154_eq] at hm
    have H1 : 128 * k0_t4.val + 16 * k.val ≤ (y 1).val ∧ (y 1).val < 128 * k0_t4.val + 16 * k.val + 16 := hm 1
    omega
  · intro hm; rw [Rect.mem_set_unit, k0_off153_eq] at hm
    have H1 : 128 * k0_t4.val + 16 * k.val ≤ (y 1).val ∧ (y 1).val < 128 * k0_t4.val + 16 * k.val + 16 := hm 1
    omega
  · intro hm; rw [Rect.mem_set_unit, k0_off152_eq] at hm
    have H1 : 128 * k0_t4.val + 16 * k.val ≤ (y 1).val ∧ (y 1).val < 128 * k0_t4.val + 16 * k.val + 16 := hm 1
    omega
  · intro hm; rw [Rect.mem_set_unit, k0_off151_eq] at hm
    have H1 : 128 * k0_t4.val + 16 * k.val ≤ (y 1).val ∧ (y 1).val < 128 * k0_t4.val + 16 * k.val + 16 := hm 1
    omega
  · intro hm; rw [Rect.mem_set_unit, k0_off150_eq] at hm
    have H1 : 128 * k0_t4.val + 16 * k.val ≤ (y 1).val ∧ (y 1).val < 128 * k0_t4.val + 16 * k.val + 16 := hm 1
    omega
  · intro hm; rw [Rect.mem_set_unit, k0_off149_eq] at hm
    have H1 : 128 * k0_t4.val + 16 * k.val ≤ (y 1).val ∧ (y 1).val < 128 * k0_t4.val + 16 * k.val + 16 := hm 1
    omega
  · intro hm; rw [Rect.mem_set_unit, k0_off148_eq] at hm
    have H1 : 128 * k0_t4.val + 16 * k.val ≤ (y 1).val ∧ (y 1).val < 128 * k0_t4.val + 16 * k.val + 16 := hm 1
    omega

end Trip

/-! ## The inner loop's trips, read at an index -/

section Fold

variable [∀ e, Nonempty (Elt F e)] (d : Dev nD) (L : grid0.Coords)
variable (v3 : IVec S16 32) (v114 : BitVec 32) (k0_t4 : Fin k0_t4_loop.trips)
variable (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
variable (g : Buf (Elt F) ((halfU k0_t4).view.loc (thr d L)))
variable (h115 : ∀ k8 : Fin k0_t8_loop.trips, k0_chk115 (k0_pay66 v3 0#32 1#32 k8) (k0_pay67 v114))
variable (h116 : ∀ k8 : Fin k0_t8_loop.trips, k0_chk116 (k0_pay66 v3 0#32 1#32 k8) (k0_pay69 v114))
variable (h117 : ∀ k8 : Fin k0_t8_loop.trips, k0_chk117 (k0_pay66 v3 0#32 1#32 k8) (k0_pay71 v114))
variable (h118 : ∀ k8 : Fin k0_t8_loop.trips, k0_chk118 (k0_pay66 v3 0#32 1#32 k8) (k0_pay73 v114))

omit [FloatOps F] [∀ e, Nonempty (Elt F e)] in
theorem k0_t8_trips : k0_t8_loop.trips = 8 := by decide

omit [FloatOps F] [∀ e, Nonempty (Elt F e)] in
/-- The column of an element of a row piece at offsets `(h, c)`. -/
theorem col_emb {off : Fin 2 → ℕ} (inb : ∀ a, off a + S1x16.size a ≤ S10x512.size a) (h c : ℕ) (e : off = ![h, c]) (x : S1x16.Idx) :
    (((Rect.unit (s := S10x512) off S1x16.size inb).emb x) 1).val = c + (x 1).val := by
  subst e
  show c + 1 * (x 1).val = c + (x 1).val
  omega

/-- Outside the first `n` trips' columns the accumulator is as at the start. -/
theorem acc8_outside (f0 : S10x512.Idx → Elt F .f32) (n : ℕ) (hn : n ≤ 8) (y : S10x512.Idx)
    (hy : (y 1).val < 128 * k0_t4.val ∨ 128 * k0_t4.val + 16 * n ≤ (y 1).val) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n y = f0 y := by
  induction n with
  | zero => rfl
  | succ n ih =>
    have hlt : n < k0_t8_loop.trips := by rw [k0_t8_trips]; omega
    rw [show n + 1 = (⟨n, hlt⟩ : Fin k0_t8_loop.trips).val + 1 from rfl, acc8_succ,
      upd8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g ⟨n, hlt⟩ (h115 ⟨n, hlt⟩) (h116 ⟨n, hlt⟩) (h117 ⟨n, hlt⟩) (h118 ⟨n, hlt⟩) _ y
        (by show (y 1).val < 128 * k0_t4.val + 16 * n ∨ 128 * k0_t4.val + 16 * n + 16 ≤ (y 1).val; omega)]
    exact ih (by omega) (by omega)

/-- In the columns of trip `k < n` only trip `k` has written. -/
theorem acc8_block (f0 : S10x512.Idx → Elt F .f32) (n : ℕ) (hn : n ≤ 8) (k : Fin k0_t8_loop.trips) (hk : k.val < n) (y : S10x512.Idx)
    (hy : 128 * k0_t4.val + 16 * k.val ≤ (y 1).val ∧ (y 1).val < 128 * k0_t4.val + 16 * k.val + 16) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n y = upd8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k (h115 k) (h116 k) (h117 k) (h118 k) (acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val) y := by
  induction n with
  | zero => exact absurd hk (Nat.not_lt_zero _)
  | succ n ih =>
    have hlt : n < k0_t8_loop.trips := by rw [k0_t8_trips]; omega
    rcases Nat.lt_or_ge k.val n with h1 | h1
    · rw [show n + 1 = (⟨n, hlt⟩ : Fin k0_t8_loop.trips).val + 1 from rfl, acc8_succ,
        upd8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g ⟨n, hlt⟩ (h115 ⟨n, hlt⟩) (h116 ⟨n, hlt⟩) (h117 ⟨n, hlt⟩) (h118 ⟨n, hlt⟩) _ y
          (by show (y 1).val < 128 * k0_t4.val + 16 * n ∨ 128 * k0_t4.val + 16 * n + 16 ≤ (y 1).val; omega)]
      exact ih (by omega) h1
    · have e : k = ⟨n, hlt⟩ := Fin.ext (by show k.val = n; omega)
      subst e
      exact congrFun (acc8_succ (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 ⟨n, hlt⟩) y

/-- Row 0 after `n` trips, at the columns of a trip `k < n`. -/
theorem acc8_row0 (f0 : S10x512.Idx → Elt F .f32) (n : ℕ) (hn : n ≤ 8) (k : Fin k0_t8_loop.trips) (hk : k.val < n) (x : S1x16.Idx) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n ((Rect.unit (s := S10x512) (k0_off148 k0_t4 k) S1x16.size (k0_off148_inb k0_t4 k)).emb x)
      = rowNew v122 v202 v282 v362 (xU0 (F := F) d L v3 v114 k0_t4 g k (h115 k)) (xU1 (F := F) d L v3 v114 k0_t4 g k (h116 k)) (xU2 (F := F) d L v3 v114 k0_t4 g k (h117 k)) (xU3 (F := F) d L v3 v114 k0_t4 g k (h118 k)) (f0 ((Rect.unit (s := S10x512) (k0_off148 k0_t4 k) S1x16.size (k0_off148_inb k0_t4 k)).emb x)) (lane x) := by
  have hc := col_emb (k0_off148_inb k0_t4 k) 0 (128 * k0_t4.val + 16 * k.val) (k0_off148_eq k0_t4 k) x
  have hx : (x 1).val < 16 := (x 1).isLt
  rw [acc8_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n hn k hk _ (by omega),
    upd8_row0,
    acc8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val (by omega) _ (Or.inr (by omega))]

/-- Row 1 after `n` trips, at the columns of a trip `k < n`. -/
theorem acc8_row1 (f0 : S10x512.Idx → Elt F .f32) (n : ℕ) (hn : n ≤ 8) (k : Fin k0_t8_loop.trips) (hk : k.val < n) (x : S1x16.Idx) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n ((Rect.unit (s := S10x512) (k0_off149 k0_t4 k) S1x16.size (k0_off149_inb k0_t4 k)).emb x)
      = rowNew v130 v210 v290 v370 (xU0 (F := F) d L v3 v114 k0_t4 g k (h115 k)) (xU1 (F := F) d L v3 v114 k0_t4 g k (h116 k)) (xU2 (F := F) d L v3 v114 k0_t4 g k (h117 k)) (xU3 (F := F) d L v3 v114 k0_t4 g k (h118 k)) (f0 ((Rect.unit (s := S10x512) (k0_off149 k0_t4 k) S1x16.size (k0_off149_inb k0_t4 k)).emb x)) (lane x) := by
  have hc := col_emb (k0_off149_inb k0_t4 k) 1 (128 * k0_t4.val + 16 * k.val) (k0_off149_eq k0_t4 k) x
  have hx : (x 1).val < 16 := (x 1).isLt
  rw [acc8_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n hn k hk _ (by omega),
    upd8_row1,
    acc8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val (by omega) _ (Or.inr (by omega))]

/-- Row 2 after `n` trips, at the columns of a trip `k < n`. -/
theorem acc8_row2 (f0 : S10x512.Idx → Elt F .f32) (n : ℕ) (hn : n ≤ 8) (k : Fin k0_t8_loop.trips) (hk : k.val < n) (x : S1x16.Idx) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n ((Rect.unit (s := S10x512) (k0_off150 k0_t4 k) S1x16.size (k0_off150_inb k0_t4 k)).emb x)
      = rowNew v138 v218 v298 v378 (xU0 (F := F) d L v3 v114 k0_t4 g k (h115 k)) (xU1 (F := F) d L v3 v114 k0_t4 g k (h116 k)) (xU2 (F := F) d L v3 v114 k0_t4 g k (h117 k)) (xU3 (F := F) d L v3 v114 k0_t4 g k (h118 k)) (f0 ((Rect.unit (s := S10x512) (k0_off150 k0_t4 k) S1x16.size (k0_off150_inb k0_t4 k)).emb x)) (lane x) := by
  have hc := col_emb (k0_off150_inb k0_t4 k) 2 (128 * k0_t4.val + 16 * k.val) (k0_off150_eq k0_t4 k) x
  have hx : (x 1).val < 16 := (x 1).isLt
  rw [acc8_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n hn k hk _ (by omega),
    upd8_row2,
    acc8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val (by omega) _ (Or.inr (by omega))]

/-- Row 3 after `n` trips, at the columns of a trip `k < n`. -/
theorem acc8_row3 (f0 : S10x512.Idx → Elt F .f32) (n : ℕ) (hn : n ≤ 8) (k : Fin k0_t8_loop.trips) (hk : k.val < n) (x : S1x16.Idx) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n ((Rect.unit (s := S10x512) (k0_off151 k0_t4 k) S1x16.size (k0_off151_inb k0_t4 k)).emb x)
      = rowNew v146 v226 v306 v386 (xU0 (F := F) d L v3 v114 k0_t4 g k (h115 k)) (xU1 (F := F) d L v3 v114 k0_t4 g k (h116 k)) (xU2 (F := F) d L v3 v114 k0_t4 g k (h117 k)) (xU3 (F := F) d L v3 v114 k0_t4 g k (h118 k)) (f0 ((Rect.unit (s := S10x512) (k0_off151 k0_t4 k) S1x16.size (k0_off151_inb k0_t4 k)).emb x)) (lane x) := by
  have hc := col_emb (k0_off151_inb k0_t4 k) 3 (128 * k0_t4.val + 16 * k.val) (k0_off151_eq k0_t4 k) x
  have hx : (x 1).val < 16 := (x 1).isLt
  rw [acc8_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n hn k hk _ (by omega),
    upd8_row3,
    acc8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val (by omega) _ (Or.inr (by omega))]

/-- Row 4 after `n` trips, at the columns of a trip `k < n`. -/
theorem acc8_row4 (f0 : S10x512.Idx → Elt F .f32) (n : ℕ) (hn : n ≤ 8) (k : Fin k0_t8_loop.trips) (hk : k.val < n) (x : S1x16.Idx) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n ((Rect.unit (s := S10x512) (k0_off152 k0_t4 k) S1x16.size (k0_off152_inb k0_t4 k)).emb x)
      = rowNew v154 v234 v314 v394 (xU0 (F := F) d L v3 v114 k0_t4 g k (h115 k)) (xU1 (F := F) d L v3 v114 k0_t4 g k (h116 k)) (xU2 (F := F) d L v3 v114 k0_t4 g k (h117 k)) (xU3 (F := F) d L v3 v114 k0_t4 g k (h118 k)) (f0 ((Rect.unit (s := S10x512) (k0_off152 k0_t4 k) S1x16.size (k0_off152_inb k0_t4 k)).emb x)) (lane x) := by
  have hc := col_emb (k0_off152_inb k0_t4 k) 4 (128 * k0_t4.val + 16 * k.val) (k0_off152_eq k0_t4 k) x
  have hx : (x 1).val < 16 := (x 1).isLt
  rw [acc8_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n hn k hk _ (by omega),
    upd8_row4,
    acc8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val (by omega) _ (Or.inr (by omega))]

/-- Row 5 after `n` trips, at the columns of a trip `k < n`. -/
theorem acc8_row5 (f0 : S10x512.Idx → Elt F .f32) (n : ℕ) (hn : n ≤ 8) (k : Fin k0_t8_loop.trips) (hk : k.val < n) (x : S1x16.Idx) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n ((Rect.unit (s := S10x512) (k0_off153 k0_t4 k) S1x16.size (k0_off153_inb k0_t4 k)).emb x)
      = rowNew v162 v242 v322 v402 (xU0 (F := F) d L v3 v114 k0_t4 g k (h115 k)) (xU1 (F := F) d L v3 v114 k0_t4 g k (h116 k)) (xU2 (F := F) d L v3 v114 k0_t4 g k (h117 k)) (xU3 (F := F) d L v3 v114 k0_t4 g k (h118 k)) (f0 ((Rect.unit (s := S10x512) (k0_off153 k0_t4 k) S1x16.size (k0_off153_inb k0_t4 k)).emb x)) (lane x) := by
  have hc := col_emb (k0_off153_inb k0_t4 k) 5 (128 * k0_t4.val + 16 * k.val) (k0_off153_eq k0_t4 k) x
  have hx : (x 1).val < 16 := (x 1).isLt
  rw [acc8_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n hn k hk _ (by omega),
    upd8_row5,
    acc8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val (by omega) _ (Or.inr (by omega))]

/-- Row 6 after `n` trips, at the columns of a trip `k < n`. -/
theorem acc8_row6 (f0 : S10x512.Idx → Elt F .f32) (n : ℕ) (hn : n ≤ 8) (k : Fin k0_t8_loop.trips) (hk : k.val < n) (x : S1x16.Idx) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n ((Rect.unit (s := S10x512) (k0_off154 k0_t4 k) S1x16.size (k0_off154_inb k0_t4 k)).emb x)
      = rowNew v170 v250 v330 v410 (xU0 (F := F) d L v3 v114 k0_t4 g k (h115 k)) (xU1 (F := F) d L v3 v114 k0_t4 g k (h116 k)) (xU2 (F := F) d L v3 v114 k0_t4 g k (h117 k)) (xU3 (F := F) d L v3 v114 k0_t4 g k (h118 k)) (f0 ((Rect.unit (s := S10x512) (k0_off154 k0_t4 k) S1x16.size (k0_off154_inb k0_t4 k)).emb x)) (lane x) := by
  have hc := col_emb (k0_off154_inb k0_t4 k) 6 (128 * k0_t4.val + 16 * k.val) (k0_off154_eq k0_t4 k) x
  have hx : (x 1).val < 16 := (x 1).isLt
  rw [acc8_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n hn k hk _ (by omega),
    upd8_row6,
    acc8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val (by omega) _ (Or.inr (by omega))]

/-- Row 7 after `n` trips, at the columns of a trip `k < n`. -/
theorem acc8_row7 (f0 : S10x512.Idx → Elt F .f32) (n : ℕ) (hn : n ≤ 8) (k : Fin k0_t8_loop.trips) (hk : k.val < n) (x : S1x16.Idx) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n ((Rect.unit (s := S10x512) (k0_off155 k0_t4 k) S1x16.size (k0_off155_inb k0_t4 k)).emb x)
      = rowNew v178 v258 v338 v418 (xU0 (F := F) d L v3 v114 k0_t4 g k (h115 k)) (xU1 (F := F) d L v3 v114 k0_t4 g k (h116 k)) (xU2 (F := F) d L v3 v114 k0_t4 g k (h117 k)) (xU3 (F := F) d L v3 v114 k0_t4 g k (h118 k)) (f0 ((Rect.unit (s := S10x512) (k0_off155 k0_t4 k) S1x16.size (k0_off155_inb k0_t4 k)).emb x)) (lane x) := by
  have hc := col_emb (k0_off155_inb k0_t4 k) 7 (128 * k0_t4.val + 16 * k.val) (k0_off155_eq k0_t4 k) x
  have hx : (x 1).val < 16 := (x 1).isLt
  rw [acc8_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n hn k hk _ (by omega),
    upd8_row7,
    acc8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val (by omega) _ (Or.inr (by omega))]

/-- Row 8 after `n` trips, at the columns of a trip `k < n`. -/
theorem acc8_row8 (f0 : S10x512.Idx → Elt F .f32) (n : ℕ) (hn : n ≤ 8) (k : Fin k0_t8_loop.trips) (hk : k.val < n) (x : S1x16.Idx) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n ((Rect.unit (s := S10x512) (k0_off156 k0_t4 k) S1x16.size (k0_off156_inb k0_t4 k)).emb x)
      = rowNew v186 v266 v346 v426 (xU0 (F := F) d L v3 v114 k0_t4 g k (h115 k)) (xU1 (F := F) d L v3 v114 k0_t4 g k (h116 k)) (xU2 (F := F) d L v3 v114 k0_t4 g k (h117 k)) (xU3 (F := F) d L v3 v114 k0_t4 g k (h118 k)) (f0 ((Rect.unit (s := S10x512) (k0_off156 k0_t4 k) S1x16.size (k0_off156_inb k0_t4 k)).emb x)) (lane x) := by
  have hc := col_emb (k0_off156_inb k0_t4 k) 8 (128 * k0_t4.val + 16 * k.val) (k0_off156_eq k0_t4 k) x
  have hx : (x 1).val < 16 := (x 1).isLt
  rw [acc8_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n hn k hk _ (by omega),
    upd8_row8,
    acc8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val (by omega) _ (Or.inr (by omega))]

/-- Row 9 after `n` trips, at the columns of a trip `k < n`. -/
theorem acc8_row9 (f0 : S10x512.Idx → Elt F .f32) (n : ℕ) (hn : n ≤ 8) (k : Fin k0_t8_loop.trips) (hk : k.val < n) (x : S1x16.Idx) :
    acc8 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n ((Rect.unit (s := S10x512) (k0_off157 k0_t4 k) S1x16.size (k0_off157_inb k0_t4 k)).emb x)
      = rowNew v194 v274 v354 v434 (xU0 (F := F) d L v3 v114 k0_t4 g k (h115 k)) (xU1 (F := F) d L v3 v114 k0_t4 g k (h116 k)) (xU2 (F := F) d L v3 v114 k0_t4 g k (h117 k)) (xU3 (F := F) d L v3 v114 k0_t4 g k (h118 k)) (f0 ((Rect.unit (s := S10x512) (k0_off157 k0_t4 k) S1x16.size (k0_off157_inb k0_t4 k)).emb x)) (lane x) := by
  have hc := col_emb (k0_off157_inb k0_t4 k) 9 (128 * k0_t4.val + 16 * k.val) (k0_off157_eq k0_t4 k) x
  have hx : (x 1).val < 16 := (x 1).isLt
  rw [acc8_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 n hn k hk _ (by omega),
    upd8_row9,
    acc8_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h115 h116 h117 h118 f0 k.val (by omega) _ (Or.inr (by omega))]

end Fold

/-! ## The outer loop's trips, read at an index -/

section Fold7

variable [∀ e, Nonempty (Elt F e)] (d : Dev nD) (L : grid0.Coords)
variable (v3 : IVec S16 32) (k0_t4 : Fin k0_t4_loop.trips) (fp : S1312.Idx → Elt F .f32)
variable (g : Buf (Elt F) ((halfU k0_t4).view.loc (thr d L)))
variable (H115 : ∀ (k7 : Fin k0_t7_loop.trips) (k8 : Fin k0_t8_loop.trips), k0_chk115 (k0_pay66 v3 0#32 1#32 k8) (k0_pay67 (Scalar.muli (Scf.iv 0#32 1#32 k7) 4#32)))
variable (H116 : ∀ (k7 : Fin k0_t7_loop.trips) (k8 : Fin k0_t8_loop.trips), k0_chk116 (k0_pay66 v3 0#32 1#32 k8) (k0_pay69 (Scalar.muli (Scf.iv 0#32 1#32 k7) 4#32)))
variable (H117 : ∀ (k7 : Fin k0_t7_loop.trips) (k8 : Fin k0_t8_loop.trips), k0_chk117 (k0_pay66 v3 0#32 1#32 k8) (k0_pay71 (Scalar.muli (Scf.iv 0#32 1#32 k7) 4#32)))
variable (H118 : ∀ (k7 : Fin k0_t7_loop.trips) (k8 : Fin k0_t8_loop.trips), k0_chk118 (k0_pay66 v3 0#32 1#32 k8) (k0_pay73 (Scalar.muli (Scf.iv 0#32 1#32 k7) 4#32)))

omit [FloatOps F] [∀ e, Nonempty (Elt F e)] in
theorem k0_t7_trips : k0_t7_loop.trips = 16 := by decide

/-- Outside the chunk's 128 columns the accumulator is as at the start, after any number of outer trips. -/
theorem acc7_outside (f0 : S10x512.Idx → Elt F .f32) (n : ℕ) (hn : n ≤ 16) (y : S10x512.Idx)
    (hy : (y 1).val < 128 * k0_t4.val ∨ 128 * k0_t4.val + 128 ≤ (y 1).val) :
    acc7 (F := F) d L v3 k0_t4 fp g H115 H116 H117 H118 f0 n y = f0 y := by
  induction n with
  | zero => rfl
  | succ n ih =>
    have hlt : n < k0_t7_loop.trips := by rw [k0_t7_trips]; omega
    rw [show n + 1 = (⟨n, hlt⟩ : Fin k0_t7_loop.trips).val + 1 from rfl, acc7_succ]
    refine Eq.trans ?_ (ih (by omega))
    unfold upd7
    refine acc8_outside (F := F) d L v3 _ k0_t4 _ _ _ _ _ _ _ _ _ _ _ _ _ _ _ _ _ _ _ _ _ _ _ _ _ _ _ _ _ _ _ _ _ _ _ _ _ _ _ _ g _ _ _ _ _ k0_t8_loop.trips k0_t8_trips.le y ?_
    rw [k0_t8_trips]; omega

/-- Row 0 after one more outer trip, at the columns of inner trip `k`: one update of the entry the trips before left. -/
theorem acc7_row0_succ (f0 : S10x512.Idx → Elt F .f32) (k7 : Fin k0_t7_loop.trips) (k : Fin k0_t8_loop.trips) (x : S1x16.Idx) :
    acc7 (F := F) d L v3 k0_t4 fp g H115 H116 H117 H118 f0 (k7.val + 1) ((Rect.unit (s := S10x512) (k0_off148 k0_t4 k) S1x16.size (k0_off148_inb k0_t4 k)).emb x)
      = rowNew (wU (F := F) fp k7 0#32 0#32 (by decide) (by decide)) (wU (F := F) fp k7 1#32 0#32 (by decide) (by decide)) (wU (F := F) fp k7 2#32 0#32 (by decide) (by decide)) (wU (F := F) fp k7 3#32 0#32 (by decide) (by decide)) (xU0 (F := F) d L v3 (Scalar.muli (Scf.iv 0#32 1#32 k7) 4#32) k0_t4 g k (H115 k7 k)) (xU1 (F := F) d L v3 (Scalar.muli (Scf.iv 0#32 1#32 k7) 4#32) k0_t4 g k (H116 k7 k)) (xU2 (F := F) d L v3 (Scalar.muli (Scf.iv 0#32 1#32 k7) 4#32) k0_t4 g k (H117 k7 k)) (xU3 (F := F) d L v3 (Scalar.muli (Scf.iv 0#32 1#32 k7) 4#32) k0_t4 g k (H118 k7 k))
          (acc7 (F := F) d L v3 k0_t4 fp g H115 H116 H117 H118 f0 k7.val ((Rect.unit (s := S10x512) (k0_off148 k0_t4 k) S1x16.size (k0_off148_inb k0_t4 k)).emb x)) (lane x) := by
  rw [acc7_succ]
  exact acc8_row0 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) _ k0_t8_loop.trips k0_t8_trips.le k k.isLt x

/-- Row 1 after one more outer trip, at the columns of inner trip `k`: one update of the entry the trips before left. -/
theorem acc7_row1_succ (f0 : S10x512.Idx → Elt F .f32) (k7 : Fin k0_t7_loop.trips) (k : Fin k0_t8_loop.trips) (x : S1x16.Idx) :
    acc7 (F := F) d L v3 k0_t4 fp g H115 H116 H117 H118 f0 (k7.val + 1) ((Rect.unit (s := S10x512) (k0_off149 k0_t4 k) S1x16.size (k0_off149_inb k0_t4 k)).emb x)
      = rowNew (wU (F := F) fp k7 0#32 1#32 (by decide) (by decide)) (wU (F := F) fp k7 1#32 1#32 (by decide) (by decide)) (wU (F := F) fp k7 2#32 1#32 (by decide) (by decide)) (wU (F := F) fp k7 3#32 1#32 (by decide) (by decide)) (xU0 (F := F) d L v3 (Scalar.muli (Scf.iv 0#32 1#32 k7) 4#32) k0_t4 g k (H115 k7 k)) (xU1 (F := F) d L v3 (Scalar.muli (Scf.iv 0#32 1#32 k7) 4#32) k0_t4 g k (H116 k7 k)) (xU2 (F := F) d L v3 (Scalar.muli (Scf.iv 0#32 1#32 k7) 4#32) k0_t4 g k (H117 k7 k)) (xU3 (F := F) d L v3 (Scalar.muli (Scf.iv 0#32 1#32 k7) 4#32) k0_t4 g k (H118 k7 k))
          (acc7 (F := F) d L v3 k0_t4 fp g H115 H116 H117 H118 f0 k7.val ((Rect.unit (s := S10x512) (k0_off149 k0_t4 k) S1x16.size (k0_off149_inb k0_t4 k)).emb x)) (lane x) := by
  rw [acc7_succ]
  exact acc8_row1 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) _ k0_t8_loop.trips k0_t8_trips.le k k.isLt x

/-- Row 2 after one more outer trip, at the columns of inner trip `k`: one update of the entry the trips before left. -/
theorem acc7_row2_succ (f0 : S10x512.Idx → Elt F .f32) (k7 : Fin k0_t7_loop.trips) (k : Fin k0_t8_loop.trips) (x : S1x16.Idx) :
    acc7 (F := F) d L v3 k0_t4 fp g H115 H116 H117 H118 f0 (k7.val + 1) ((Rect.unit (s := S10x512) (k0_off150 k0_t4 k) S1x16.size (k0_off150_inb k0_t4 k)).emb x)
      = rowNew (wU (F := F) fp k7 0#32 2#32 (by decide) (by decide)) (wU (F := F) fp k7 1#32 2#32 (by decide) (by decide)) (wU (F := F) fp k7 2#32 2#32 (by decide) (by decide)) (wU (F := F) fp k7 3#32 2#32 (by decide) (by decide)) (xU0 (F := F) d L v3 (Scalar.muli (Scf.iv 0#32 1#32 k7) 4#32) k0_t4 g k (H115 k7 k)) (xU1 (F := F) d L v3 (Scalar.muli (Scf.iv 0#32 1#32 k7) 4#32) k0_t4 g k (H116 k7 k)) (xU2 (F := F) d L v3 (Scalar.muli (Scf.iv 0#32 1#32 k7) 4#32) k0_t4 g k (H117 k7 k)) (xU3 (F := F) d L v3 (Scalar.muli (Scf.iv 0#32 1#32 k7) 4#32) k0_t4 g k (H118 k7 k))
          (acc7 (F := F) d L v3 k0_t4 fp g H115 H116 H117 H118 f0 k7.val ((Rect.unit (s := S10x512) (k0_off150 k0_t4 k) S1x16.size (k0_off150_inb k0_t4 k)).emb x)) (lane x) := by
  rw [acc7_succ]
  exact acc8_row2 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) _ k0_t8_loop.trips k0_t8_trips.le k k.isLt x

/-- Row 3 after one more outer trip, at the columns of inner trip `k`: one update of the entry the trips before left. -/
theorem acc7_row3_succ (f0 : S10x512.Idx → Elt F .f32) (k7 : Fin k0_t7_loop.trips) (k : Fin k0_t8_loop.trips) (x : S1x16.Idx) :
    acc7 (F := F) d L v3 k0_t4 fp g H115 H116 H117 H118 f0 (k7.val + 1) ((Rect.unit (s := S10x512) (k0_off151 k0_t4 k) S1x16.size (k0_off151_inb k0_t4 k)).emb x)
      = rowNew (wU (F := F) fp k7 0#32 3#32 (by decide) (by decide)) (wU (F := F) fp k7 1#32 3#32 (by decide) (by decide)) (wU (F := F) fp k7 2#32 3#32 (by decide) (by decide)) (wU (F := F) fp k7 3#32 3#32 (by decide) (by decide)) (xU0 (F := F) d L v3 (Scalar.muli (Scf.iv 0#32 1#32 k7) 4#32) k0_t4 g k (H115 k7 k)) (xU1 (F := F) d L v3 (Scalar.muli (Scf.iv 0#32 1#32 k7) 4#32) k0_t4 g k (H116 k7 k)) (xU2 (F := F) d L v3 (Scalar.muli (Scf.iv 0#32 1#32 k7) 4#32) k0_t4 g k (H117 k7 k)) (xU3 (F := F) d L v3 (Scalar.muli (Scf.iv 0#32 1#32 k7) 4#32) k0_t4 g k (H118 k7 k))
          (acc7 (F := F) d L v3 k0_t4 fp g H115 H116 H117 H118 f0 k7.val ((Rect.unit (s := S10x512) (k0_off151 k0_t4 k) S1x16.size (k0_off151_inb k0_t4 k)).emb x)) (lane x) := by
  rw [acc7_succ]
  exact acc8_row3 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) _ k0_t8_loop.trips k0_t8_trips.le k k.isLt x

/-- Row 4 after one more outer trip, at the columns of inner trip `k`: one update of the entry the trips before left. -/
theorem acc7_row4_succ (f0 : S10x512.Idx → Elt F .f32) (k7 : Fin k0_t7_loop.trips) (k : Fin k0_t8_loop.trips) (x : S1x16.Idx) :
    acc7 (F := F) d L v3 k0_t4 fp g H115 H116 H117 H118 f0 (k7.val + 1) ((Rect.unit (s := S10x512) (k0_off152 k0_t4 k) S1x16.size (k0_off152_inb k0_t4 k)).emb x)
      = rowNew (wU (F := F) fp k7 0#32 4#32 (by decide) (by decide)) (wU (F := F) fp k7 1#32 4#32 (by decide) (by decide)) (wU (F := F) fp k7 2#32 4#32 (by decide) (by decide)) (wU (F := F) fp k7 3#32 4#32 (by decide) (by decide)) (xU0 (F := F) d L v3 (Scalar.muli (Scf.iv 0#32 1#32 k7) 4#32) k0_t4 g k (H115 k7 k)) (xU1 (F := F) d L v3 (Scalar.muli (Scf.iv 0#32 1#32 k7) 4#32) k0_t4 g k (H116 k7 k)) (xU2 (F := F) d L v3 (Scalar.muli (Scf.iv 0#32 1#32 k7) 4#32) k0_t4 g k (H117 k7 k)) (xU3 (F := F) d L v3 (Scalar.muli (Scf.iv 0#32 1#32 k7) 4#32) k0_t4 g k (H118 k7 k))
          (acc7 (F := F) d L v3 k0_t4 fp g H115 H116 H117 H118 f0 k7.val ((Rect.unit (s := S10x512) (k0_off152 k0_t4 k) S1x16.size (k0_off152_inb k0_t4 k)).emb x)) (lane x) := by
  rw [acc7_succ]
  exact acc8_row4 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) _ k0_t8_loop.trips k0_t8_trips.le k k.isLt x

/-- Row 5 after one more outer trip, at the columns of inner trip `k`: one update of the entry the trips before left. -/
theorem acc7_row5_succ (f0 : S10x512.Idx → Elt F .f32) (k7 : Fin k0_t7_loop.trips) (k : Fin k0_t8_loop.trips) (x : S1x16.Idx) :
    acc7 (F := F) d L v3 k0_t4 fp g H115 H116 H117 H118 f0 (k7.val + 1) ((Rect.unit (s := S10x512) (k0_off153 k0_t4 k) S1x16.size (k0_off153_inb k0_t4 k)).emb x)
      = rowNew (wU (F := F) fp k7 0#32 5#32 (by decide) (by decide)) (wU (F := F) fp k7 1#32 5#32 (by decide) (by decide)) (wU (F := F) fp k7 2#32 5#32 (by decide) (by decide)) (wU (F := F) fp k7 3#32 5#32 (by decide) (by decide)) (xU0 (F := F) d L v3 (Scalar.muli (Scf.iv 0#32 1#32 k7) 4#32) k0_t4 g k (H115 k7 k)) (xU1 (F := F) d L v3 (Scalar.muli (Scf.iv 0#32 1#32 k7) 4#32) k0_t4 g k (H116 k7 k)) (xU2 (F := F) d L v3 (Scalar.muli (Scf.iv 0#32 1#32 k7) 4#32) k0_t4 g k (H117 k7 k)) (xU3 (F := F) d L v3 (Scalar.muli (Scf.iv 0#32 1#32 k7) 4#32) k0_t4 g k (H118 k7 k))
          (acc7 (F := F) d L v3 k0_t4 fp g H115 H116 H117 H118 f0 k7.val ((Rect.unit (s := S10x512) (k0_off153 k0_t4 k) S1x16.size (k0_off153_inb k0_t4 k)).emb x)) (lane x) := by
  rw [acc7_succ]
  exact acc8_row5 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) _ k0_t8_loop.trips k0_t8_trips.le k k.isLt x

/-- Row 6 after one more outer trip, at the columns of inner trip `k`: one update of the entry the trips before left. -/
theorem acc7_row6_succ (f0 : S10x512.Idx → Elt F .f32) (k7 : Fin k0_t7_loop.trips) (k : Fin k0_t8_loop.trips) (x : S1x16.Idx) :
    acc7 (F := F) d L v3 k0_t4 fp g H115 H116 H117 H118 f0 (k7.val + 1) ((Rect.unit (s := S10x512) (k0_off154 k0_t4 k) S1x16.size (k0_off154_inb k0_t4 k)).emb x)
      = rowNew (wU (F := F) fp k7 0#32 6#32 (by decide) (by decide)) (wU (F := F) fp k7 1#32 6#32 (by decide) (by decide)) (wU (F := F) fp k7 2#32 6#32 (by decide) (by decide)) (wU (F := F) fp k7 3#32 6#32 (by decide) (by decide)) (xU0 (F := F) d L v3 (Scalar.muli (Scf.iv 0#32 1#32 k7) 4#32) k0_t4 g k (H115 k7 k)) (xU1 (F := F) d L v3 (Scalar.muli (Scf.iv 0#32 1#32 k7) 4#32) k0_t4 g k (H116 k7 k)) (xU2 (F := F) d L v3 (Scalar.muli (Scf.iv 0#32 1#32 k7) 4#32) k0_t4 g k (H117 k7 k)) (xU3 (F := F) d L v3 (Scalar.muli (Scf.iv 0#32 1#32 k7) 4#32) k0_t4 g k (H118 k7 k))
          (acc7 (F := F) d L v3 k0_t4 fp g H115 H116 H117 H118 f0 k7.val ((Rect.unit (s := S10x512) (k0_off154 k0_t4 k) S1x16.size (k0_off154_inb k0_t4 k)).emb x)) (lane x) := by
  rw [acc7_succ]
  exact acc8_row6 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) _ k0_t8_loop.trips k0_t8_trips.le k k.isLt x

/-- Row 7 after one more outer trip, at the columns of inner trip `k`: one update of the entry the trips before left. -/
theorem acc7_row7_succ (f0 : S10x512.Idx → Elt F .f32) (k7 : Fin k0_t7_loop.trips) (k : Fin k0_t8_loop.trips) (x : S1x16.Idx) :
    acc7 (F := F) d L v3 k0_t4 fp g H115 H116 H117 H118 f0 (k7.val + 1) ((Rect.unit (s := S10x512) (k0_off155 k0_t4 k) S1x16.size (k0_off155_inb k0_t4 k)).emb x)
      = rowNew (wU (F := F) fp k7 0#32 7#32 (by decide) (by decide)) (wU (F := F) fp k7 1#32 7#32 (by decide) (by decide)) (wU (F := F) fp k7 2#32 7#32 (by decide) (by decide)) (wU (F := F) fp k7 3#32 7#32 (by decide) (by decide)) (xU0 (F := F) d L v3 (Scalar.muli (Scf.iv 0#32 1#32 k7) 4#32) k0_t4 g k (H115 k7 k)) (xU1 (F := F) d L v3 (Scalar.muli (Scf.iv 0#32 1#32 k7) 4#32) k0_t4 g k (H116 k7 k)) (xU2 (F := F) d L v3 (Scalar.muli (Scf.iv 0#32 1#32 k7) 4#32) k0_t4 g k (H117 k7 k)) (xU3 (F := F) d L v3 (Scalar.muli (Scf.iv 0#32 1#32 k7) 4#32) k0_t4 g k (H118 k7 k))
          (acc7 (F := F) d L v3 k0_t4 fp g H115 H116 H117 H118 f0 k7.val ((Rect.unit (s := S10x512) (k0_off155 k0_t4 k) S1x16.size (k0_off155_inb k0_t4 k)).emb x)) (lane x) := by
  rw [acc7_succ]
  exact acc8_row7 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) _ k0_t8_loop.trips k0_t8_trips.le k k.isLt x

/-- Row 8 after one more outer trip, at the columns of inner trip `k`: one update of the entry the trips before left. -/
theorem acc7_row8_succ (f0 : S10x512.Idx → Elt F .f32) (k7 : Fin k0_t7_loop.trips) (k : Fin k0_t8_loop.trips) (x : S1x16.Idx) :
    acc7 (F := F) d L v3 k0_t4 fp g H115 H116 H117 H118 f0 (k7.val + 1) ((Rect.unit (s := S10x512) (k0_off156 k0_t4 k) S1x16.size (k0_off156_inb k0_t4 k)).emb x)
      = rowNew (wU (F := F) fp k7 0#32 8#32 (by decide) (by decide)) (wU (F := F) fp k7 1#32 8#32 (by decide) (by decide)) (wU (F := F) fp k7 2#32 8#32 (by decide) (by decide)) (wU38 (F := F) fp k7) (xU0 (F := F) d L v3 (Scalar.muli (Scf.iv 0#32 1#32 k7) 4#32) k0_t4 g k (H115 k7 k)) (xU1 (F := F) d L v3 (Scalar.muli (Scf.iv 0#32 1#32 k7) 4#32) k0_t4 g k (H116 k7 k)) (xU2 (F := F) d L v3 (Scalar.muli (Scf.iv 0#32 1#32 k7) 4#32) k0_t4 g k (H117 k7 k)) (xU3 (F := F) d L v3 (Scalar.muli (Scf.iv 0#32 1#32 k7) 4#32) k0_t4 g k (H118 k7 k))
          (acc7 (F := F) d L v3 k0_t4 fp g H115 H116 H117 H118 f0 k7.val ((Rect.unit (s := S10x512) (k0_off156 k0_t4 k) S1x16.size (k0_off156_inb k0_t4 k)).emb x)) (lane x) := by
  rw [acc7_succ]
  exact acc8_row8 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) _ k0_t8_loop.trips k0_t8_trips.le k k.isLt x

/-- Row 9 after one more outer trip, at the columns of inner trip `k`: one update of the entry the trips before left. -/
theorem acc7_row9_succ (f0 : S10x512.Idx → Elt F .f32) (k7 : Fin k0_t7_loop.trips) (k : Fin k0_t8_loop.trips) (x : S1x16.Idx) :
    acc7 (F := F) d L v3 k0_t4 fp g H115 H116 H117 H118 f0 (k7.val + 1) ((Rect.unit (s := S10x512) (k0_off157 k0_t4 k) S1x16.size (k0_off157_inb k0_t4 k)).emb x)
      = rowNew (wU (F := F) fp k7 0#32 9#32 (by decide) (by decide)) (wU (F := F) fp k7 1#32 9#32 (by decide) (by decide)) (wU (F := F) fp k7 2#32 9#32 (by decide) (by decide)) (wU39 (F := F) fp k7) (xU0 (F := F) d L v3 (Scalar.muli (Scf.iv 0#32 1#32 k7) 4#32) k0_t4 g k (H115 k7 k)) (xU1 (F := F) d L v3 (Scalar.muli (Scf.iv 0#32 1#32 k7) 4#32) k0_t4 g k (H116 k7 k)) (xU2 (F := F) d L v3 (Scalar.muli (Scf.iv 0#32 1#32 k7) 4#32) k0_t4 g k (H117 k7 k)) (xU3 (F := F) d L v3 (Scalar.muli (Scf.iv 0#32 1#32 k7) 4#32) k0_t4 g k (H118 k7 k))
          (acc7 (F := F) d L v3 k0_t4 fp g H115 H116 H117 H118 f0 k7.val ((Rect.unit (s := S10x512) (k0_off157 k0_t4 k) S1x16.size (k0_off157_inb k0_t4 k)).emb x)) (lane x) := by
  rw [acc7_succ]
  exact acc8_row9 (F := F) d L v3 (Scalar.muli (Scf.iv 0#32 1#32 k7) 4#32) k0_t4 (wU (F := F) fp k7 0#32 0#32 (by decide) (by decide)) (wU (F := F) fp k7 0#32 1#32 (by decide) (by decide)) (wU (F := F) fp k7 0#32 2#32 (by decide) (by decide)) (wU (F := F) fp k7 0#32 3#32 (by decide) (by decide)) (wU (F := F) fp k7 0#32 4#32 (by decide) (by decide)) (wU (F := F) fp k7 0#32 5#32 (by decide) (by decide)) (wU (F := F) fp k7 0#32 6#32 (by decide) (by decide)) (wU (F := F) fp k7 0#32 7#32 (by decide) (by decide)) (wU (F := F) fp k7 0#32 8#32 (by decide) (by decide)) (wU (F := F) fp k7 0#32 9#32 (by decide) (by decide)) (wU (F := F) fp k7 1#32 0#32 (by decide) (by decide)) (wU (F := F) fp k7 1#32 1#32 (by decide) (by decide)) (wU (F := F) fp k7 1#32 2#32 (by decide) (by decide)) (wU (F := F) fp k7 1#32 3#32 (by decide) (by decide)) (wU (F := F) fp k7 1#32 4#32 (by decide) (by decide)) (wU (F := F) fp k7 1#32 5#32 (by decide) (by decide)) (wU (F := F) fp k7 1#32 6#32 (by decide) (by decide)) (wU (F := F) fp k7 1#32 7#32 (by decide) (by decide)) (wU (F := F) fp k7 1#32 8#32 (by decide) (by decide)) (wU (F := F) fp k7 1#32 9#32 (by decide) (by decide)) (wU (F := F) fp k7 2#32 0#32 (by decide) (by decide)) (wU (F := F) fp k7 2#32 1#32 (by decide) (by decide)) (wU (F := F) fp k7 2#32 2#32 (by decide) (by decide)) (wU (F := F) fp k7 2#32 3#32 (by decide) (by decide)) (wU (F := F) fp k7 2#32 4#32 (by decide) (by decide)) (wU (F := F) fp k7 2#32 5#32 (by decide) (by decide)) (wU (F := F) fp k7 2#32 6#32 (by decide) (by decide)) (wU (F := F) fp k7 2#32 7#32 (by decide) (by decide)) (wU (F := F) fp k7 2#32 8#32 (by decide) (by decide)) (wU (F := F) fp k7 2#32 9#32 (by decide) (by decide)) (wU (F := F) fp k7 3#32 0#32 (by decide) (by decide)) (wU (F := F) fp k7 3#32 1#32 (by decide) (by decide)) (wU (F := F) fp k7 3#32 2#32 (by decide) (by decide)) (wU (F := F) fp k7 3#32 3#32 (by decide) (by decide)) (wU (F := F) fp k7 3#32 4#32 (by decide) (by decide)) (wU (F := F) fp k7 3#32 5#32 (by decide) (by decide)) (wU (F := F) fp k7 3#32 6#32 (by decide) (by decide)) (wU (F := F) fp k7 3#32 7#32 (by decide) (by decide)) (wU38 (F := F) fp k7) (wU39 (F := F) fp k7) g (H115 k7) (H116 k7) (H117 k7) (H118 k7) _ k0_t8_loop.trips k0_t8_trips.le k k.isLt x

end Fold7

/-! ## At the exact instance: the sum -/

section IdealSum

open scoped BigOperators

/-- One update of an entry, at the exact instance: the entry plus the four products. -/
theorem rowNew_ideal (w0 w1 w2 w3 x0 x1 x2 x3 : Vec Ideal S16 .f32) (a : Elt Ideal .f32) (l : S16.Idx) :
    (rowNew (F := Ideal) w0 w1 w2 w3 x0 x1 x2 x3 a l : EReal) = a + (x0 l * w0 l + x1 l * w1 l + x2 l * w2 l + x3 l * w3 l : EReal) := by
  show ((((a : EReal) + x0 l * w0 l) + x1 l * w1 l) + x2 l * w2 l) + x3 l * w3 l = _
  simp only [add_assoc]

/-- A value that each of `N` steps increases by that step's term ends at its start plus the sum of the terms. -/
theorem fold_sum_fin : ∀ (N : ℕ) (a : ℕ → EReal) (p : Fin N → EReal), (∀ n : Fin N, a (n.val + 1) = a n.val + p n) →
    a N = a 0 + ∑ n : Fin N, p n
  | 0, a, p, _ => by simp
  | N + 1, a, p, h => by
    rw [Fin.sum_univ_castSucc, ← add_assoc,
      ← fold_sum_fin N a (fun n => p n.castSucc) (fun n => h n.castSucc)]
    exact h (Fin.last N)

variable (d : Dev nD) (L : grid0.Coords)
variable (v3 : IVec S16 32) (k0_t4 : Fin k0_t4_loop.trips) (fp : S1312.Idx → Elt Ideal .f32)
variable (g : Buf (Elt Ideal) ((halfU k0_t4).view.loc (thr d L)))
variable (H115 : ∀ (k7 : Fin k0_t7_loop.trips) (k8 : Fin k0_t8_loop.trips), k0_chk115 (k0_pay66 v3 0#32 1#32 k8) (k0_pay67 (Scalar.muli (Scf.iv 0#32 1#32 k7) 4#32)))
variable (H116 : ∀ (k7 : Fin k0_t7_loop.trips) (k8 : Fin k0_t8_loop.trips), k0_chk116 (k0_pay66 v3 0#32 1#32 k8) (k0_pay69 (Scalar.muli (Scf.iv 0#32 1#32 k7) 4#32)))
variable (H117 : ∀ (k7 : Fin k0_t7_loop.trips) (k8 : Fin k0_t8_loop.trips), k0_chk117 (k0_pay66 v3 0#32 1#32 k8) (k0_pay71 (Scalar.muli (Scf.iv 0#32 1#32 k7) 4#32)))
variable (H118 : ∀ (k7 : Fin k0_t7_loop.trips) (k8 : Fin k0_t8_loop.trips), k0_chk118 (k0_pay66 v3 0#32 1#32 k8) (k0_pay73 (Scalar.muli (Scf.iv 0#32 1#32 k7) 4#32)))

/-- Row 0 after all the outer trips, at the columns of inner trip `k`: the entry at the start plus, over the sixteen
    outer trips, the four rectified features of the trip times this hidden unit's four weights. -/
theorem acc7_row0_closed (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off148 k0_t4 k) S1x16.size (k0_off148_inb k0_t4 k)).emb x) : EReal)
      = f0 ((Rect.unit (s := S10x512) (k0_off148 k0_t4 k) S1x16.size (k0_off148_inb k0_t4 k)).emb x) + ∑ k7 : Fin k0_t7_loop.trips, ((xU0 (F := Ideal) d L v3 (Scalar.muli (Scf.iv 0#32 1#32 k7) 4#32) k0_t4 g k (H115 k7 k)) (lane x) * (wU (F := Ideal) fp k7 0#32 0#32 (by decide) (by decide)) (lane x) + (xU1 (F := Ideal) d L v3 (Scalar.muli (Scf.iv 0#32 1#32 k7) 4#32) k0_t4 g k (H116 k7 k)) (lane x) * (wU (F := Ideal) fp k7 1#32 0#32 (by decide) (by decide)) (lane x) + (xU2 (F := Ideal) d L v3 (Scalar.muli (Scf.iv 0#32 1#32 k7) 4#32) k0_t4 g k (H117 k7 k)) (lane x) * (wU (F := Ideal) fp k7 2#32 0#32 (by decide) (by decide)) (lane x) + (xU3 (F := Ideal) d L v3 (Scalar.muli (Scf.iv 0#32 1#32 k7) 4#32) k0_t4 g k (H118 k7 k)) (lane x) * (wU (F := Ideal) fp k7 3#32 0#32 (by decide) (by decide)) (lane x) : EReal) := by
  refine fold_sum_fin k0_t7_loop.trips (fun n => (acc7 (F := Ideal) d L v3 k0_t4 fp g H115 H116 H117 H118 f0 n ((Rect.unit (s := S10x512) (k0_off148 k0_t4 k) S1x16.size (k0_off148_inb k0_t4 k)).emb x) : EReal)) _ (fun k7 => ?_)
  show (acc7 (F := Ideal) d L v3 k0_t4 fp g H115 H116 H117 H118 f0 (k7.val + 1) ((Rect.unit (s := S10x512) (k0_off148 k0_t4 k) S1x16.size (k0_off148_inb k0_t4 k)).emb x) : EReal) = _
  rw [acc7_row0_succ]
  exact rowNew_ideal _ _ _ _ _ _ _ _ _ _

/-- Row 1 after all the outer trips, at the columns of inner trip `k`: the entry at the start plus, over the sixteen
    outer trips, the four rectified features of the trip times this hidden unit's four weights. -/
theorem acc7_row1_closed (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off149 k0_t4 k) S1x16.size (k0_off149_inb k0_t4 k)).emb x) : EReal)
      = f0 ((Rect.unit (s := S10x512) (k0_off149 k0_t4 k) S1x16.size (k0_off149_inb k0_t4 k)).emb x) + ∑ k7 : Fin k0_t7_loop.trips, ((xU0 (F := Ideal) d L v3 (Scalar.muli (Scf.iv 0#32 1#32 k7) 4#32) k0_t4 g k (H115 k7 k)) (lane x) * (wU (F := Ideal) fp k7 0#32 1#32 (by decide) (by decide)) (lane x) + (xU1 (F := Ideal) d L v3 (Scalar.muli (Scf.iv 0#32 1#32 k7) 4#32) k0_t4 g k (H116 k7 k)) (lane x) * (wU (F := Ideal) fp k7 1#32 1#32 (by decide) (by decide)) (lane x) + (xU2 (F := Ideal) d L v3 (Scalar.muli (Scf.iv 0#32 1#32 k7) 4#32) k0_t4 g k (H117 k7 k)) (lane x) * (wU (F := Ideal) fp k7 2#32 1#32 (by decide) (by decide)) (lane x) + (xU3 (F := Ideal) d L v3 (Scalar.muli (Scf.iv 0#32 1#32 k7) 4#32) k0_t4 g k (H118 k7 k)) (lane x) * (wU (F := Ideal) fp k7 3#32 1#32 (by decide) (by decide)) (lane x) : EReal) := by
  refine fold_sum_fin k0_t7_loop.trips (fun n => (acc7 (F := Ideal) d L v3 k0_t4 fp g H115 H116 H117 H118 f0 n ((Rect.unit (s := S10x512) (k0_off149 k0_t4 k) S1x16.size (k0_off149_inb k0_t4 k)).emb x) : EReal)) _ (fun k7 => ?_)
  show (acc7 (F := Ideal) d L v3 k0_t4 fp g H115 H116 H117 H118 f0 (k7.val + 1) ((Rect.unit (s := S10x512) (k0_off149 k0_t4 k) S1x16.size (k0_off149_inb k0_t4 k)).emb x) : EReal) = _
  rw [acc7_row1_succ]
  exact rowNew_ideal _ _ _ _ _ _ _ _ _ _

/-- Row 2 after all the outer trips, at the columns of inner trip `k`: the entry at the start plus, over the sixteen
    outer trips, the four rectified features of the trip times this hidden unit's four weights. -/
theorem acc7_row2_closed (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off150 k0_t4 k) S1x16.size (k0_off150_inb k0_t4 k)).emb x) : EReal)
      = f0 ((Rect.unit (s := S10x512) (k0_off150 k0_t4 k) S1x16.size (k0_off150_inb k0_t4 k)).emb x) + ∑ k7 : Fin k0_t7_loop.trips, ((xU0 (F := Ideal) d L v3 (Scalar.muli (Scf.iv 0#32 1#32 k7) 4#32) k0_t4 g k (H115 k7 k)) (lane x) * (wU (F := Ideal) fp k7 0#32 2#32 (by decide) (by decide)) (lane x) + (xU1 (F := Ideal) d L v3 (Scalar.muli (Scf.iv 0#32 1#32 k7) 4#32) k0_t4 g k (H116 k7 k)) (lane x) * (wU (F := Ideal) fp k7 1#32 2#32 (by decide) (by decide)) (lane x) + (xU2 (F := Ideal) d L v3 (Scalar.muli (Scf.iv 0#32 1#32 k7) 4#32) k0_t4 g k (H117 k7 k)) (lane x) * (wU (F := Ideal) fp k7 2#32 2#32 (by decide) (by decide)) (lane x) + (xU3 (F := Ideal) d L v3 (Scalar.muli (Scf.iv 0#32 1#32 k7) 4#32) k0_t4 g k (H118 k7 k)) (lane x) * (wU (F := Ideal) fp k7 3#32 2#32 (by decide) (by decide)) (lane x) : EReal) := by
  refine fold_sum_fin k0_t7_loop.trips (fun n => (acc7 (F := Ideal) d L v3 k0_t4 fp g H115 H116 H117 H118 f0 n ((Rect.unit (s := S10x512) (k0_off150 k0_t4 k) S1x16.size (k0_off150_inb k0_t4 k)).emb x) : EReal)) _ (fun k7 => ?_)
  show (acc7 (F := Ideal) d L v3 k0_t4 fp g H115 H116 H117 H118 f0 (k7.val + 1) ((Rect.unit (s := S10x512) (k0_off150 k0_t4 k) S1x16.size (k0_off150_inb k0_t4 k)).emb x) : EReal) = _
  rw [acc7_row2_succ]
  exact rowNew_ideal _ _ _ _ _ _ _ _ _ _

/-- Row 3 after all the outer trips, at the columns of inner trip `k`: the entry at the start plus, over the sixteen
    outer trips, the four rectified features of the trip times this hidden unit's four weights. -/
theorem acc7_row3_closed (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off151 k0_t4 k) S1x16.size (k0_off151_inb k0_t4 k)).emb x) : EReal)
      = f0 ((Rect.unit (s := S10x512) (k0_off151 k0_t4 k) S1x16.size (k0_off151_inb k0_t4 k)).emb x) + ∑ k7 : Fin k0_t7_loop.trips, ((xU0 (F := Ideal) d L v3 (Scalar.muli (Scf.iv 0#32 1#32 k7) 4#32) k0_t4 g k (H115 k7 k)) (lane x) * (wU (F := Ideal) fp k7 0#32 3#32 (by decide) (by decide)) (lane x) + (xU1 (F := Ideal) d L v3 (Scalar.muli (Scf.iv 0#32 1#32 k7) 4#32) k0_t4 g k (H116 k7 k)) (lane x) * (wU (F := Ideal) fp k7 1#32 3#32 (by decide) (by decide)) (lane x) + (xU2 (F := Ideal) d L v3 (Scalar.muli (Scf.iv 0#32 1#32 k7) 4#32) k0_t4 g k (H117 k7 k)) (lane x) * (wU (F := Ideal) fp k7 2#32 3#32 (by decide) (by decide)) (lane x) + (xU3 (F := Ideal) d L v3 (Scalar.muli (Scf.iv 0#32 1#32 k7) 4#32) k0_t4 g k (H118 k7 k)) (lane x) * (wU (F := Ideal) fp k7 3#32 3#32 (by decide) (by decide)) (lane x) : EReal) := by
  refine fold_sum_fin k0_t7_loop.trips (fun n => (acc7 (F := Ideal) d L v3 k0_t4 fp g H115 H116 H117 H118 f0 n ((Rect.unit (s := S10x512) (k0_off151 k0_t4 k) S1x16.size (k0_off151_inb k0_t4 k)).emb x) : EReal)) _ (fun k7 => ?_)
  show (acc7 (F := Ideal) d L v3 k0_t4 fp g H115 H116 H117 H118 f0 (k7.val + 1) ((Rect.unit (s := S10x512) (k0_off151 k0_t4 k) S1x16.size (k0_off151_inb k0_t4 k)).emb x) : EReal) = _
  rw [acc7_row3_succ]
  exact rowNew_ideal _ _ _ _ _ _ _ _ _ _

/-- Row 4 after all the outer trips, at the columns of inner trip `k`: the entry at the start plus, over the sixteen
    outer trips, the four rectified features of the trip times this hidden unit's four weights. -/
theorem acc7_row4_closed (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off152 k0_t4 k) S1x16.size (k0_off152_inb k0_t4 k)).emb x) : EReal)
      = f0 ((Rect.unit (s := S10x512) (k0_off152 k0_t4 k) S1x16.size (k0_off152_inb k0_t4 k)).emb x) + ∑ k7 : Fin k0_t7_loop.trips, ((xU0 (F := Ideal) d L v3 (Scalar.muli (Scf.iv 0#32 1#32 k7) 4#32) k0_t4 g k (H115 k7 k)) (lane x) * (wU (F := Ideal) fp k7 0#32 4#32 (by decide) (by decide)) (lane x) + (xU1 (F := Ideal) d L v3 (Scalar.muli (Scf.iv 0#32 1#32 k7) 4#32) k0_t4 g k (H116 k7 k)) (lane x) * (wU (F := Ideal) fp k7 1#32 4#32 (by decide) (by decide)) (lane x) + (xU2 (F := Ideal) d L v3 (Scalar.muli (Scf.iv 0#32 1#32 k7) 4#32) k0_t4 g k (H117 k7 k)) (lane x) * (wU (F := Ideal) fp k7 2#32 4#32 (by decide) (by decide)) (lane x) + (xU3 (F := Ideal) d L v3 (Scalar.muli (Scf.iv 0#32 1#32 k7) 4#32) k0_t4 g k (H118 k7 k)) (lane x) * (wU (F := Ideal) fp k7 3#32 4#32 (by decide) (by decide)) (lane x) : EReal) := by
  refine fold_sum_fin k0_t7_loop.trips (fun n => (acc7 (F := Ideal) d L v3 k0_t4 fp g H115 H116 H117 H118 f0 n ((Rect.unit (s := S10x512) (k0_off152 k0_t4 k) S1x16.size (k0_off152_inb k0_t4 k)).emb x) : EReal)) _ (fun k7 => ?_)
  show (acc7 (F := Ideal) d L v3 k0_t4 fp g H115 H116 H117 H118 f0 (k7.val + 1) ((Rect.unit (s := S10x512) (k0_off152 k0_t4 k) S1x16.size (k0_off152_inb k0_t4 k)).emb x) : EReal) = _
  rw [acc7_row4_succ]
  exact rowNew_ideal _ _ _ _ _ _ _ _ _ _

/-- Row 5 after all the outer trips, at the columns of inner trip `k`: the entry at the start plus, over the sixteen
    outer trips, the four rectified features of the trip times this hidden unit's four weights. -/
theorem acc7_row5_closed (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off153 k0_t4 k) S1x16.size (k0_off153_inb k0_t4 k)).emb x) : EReal)
      = f0 ((Rect.unit (s := S10x512) (k0_off153 k0_t4 k) S1x16.size (k0_off153_inb k0_t4 k)).emb x) + ∑ k7 : Fin k0_t7_loop.trips, ((xU0 (F := Ideal) d L v3 (Scalar.muli (Scf.iv 0#32 1#32 k7) 4#32) k0_t4 g k (H115 k7 k)) (lane x) * (wU (F := Ideal) fp k7 0#32 5#32 (by decide) (by decide)) (lane x) + (xU1 (F := Ideal) d L v3 (Scalar.muli (Scf.iv 0#32 1#32 k7) 4#32) k0_t4 g k (H116 k7 k)) (lane x) * (wU (F := Ideal) fp k7 1#32 5#32 (by decide) (by decide)) (lane x) + (xU2 (F := Ideal) d L v3 (Scalar.muli (Scf.iv 0#32 1#32 k7) 4#32) k0_t4 g k (H117 k7 k)) (lane x) * (wU (F := Ideal) fp k7 2#32 5#32 (by decide) (by decide)) (lane x) + (xU3 (F := Ideal) d L v3 (Scalar.muli (Scf.iv 0#32 1#32 k7) 4#32) k0_t4 g k (H118 k7 k)) (lane x) * (wU (F := Ideal) fp k7 3#32 5#32 (by decide) (by decide)) (lane x) : EReal) := by
  refine fold_sum_fin k0_t7_loop.trips (fun n => (acc7 (F := Ideal) d L v3 k0_t4 fp g H115 H116 H117 H118 f0 n ((Rect.unit (s := S10x512) (k0_off153 k0_t4 k) S1x16.size (k0_off153_inb k0_t4 k)).emb x) : EReal)) _ (fun k7 => ?_)
  show (acc7 (F := Ideal) d L v3 k0_t4 fp g H115 H116 H117 H118 f0 (k7.val + 1) ((Rect.unit (s := S10x512) (k0_off153 k0_t4 k) S1x16.size (k0_off153_inb k0_t4 k)).emb x) : EReal) = _
  rw [acc7_row5_succ]
  exact rowNew_ideal _ _ _ _ _ _ _ _ _ _

/-- Row 6 after all the outer trips, at the columns of inner trip `k`: the entry at the start plus, over the sixteen
    outer trips, the four rectified features of the trip times this hidden unit's four weights. -/
theorem acc7_row6_closed (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off154 k0_t4 k) S1x16.size (k0_off154_inb k0_t4 k)).emb x) : EReal)
      = f0 ((Rect.unit (s := S10x512) (k0_off154 k0_t4 k) S1x16.size (k0_off154_inb k0_t4 k)).emb x) + ∑ k7 : Fin k0_t7_loop.trips, ((xU0 (F := Ideal) d L v3 (Scalar.muli (Scf.iv 0#32 1#32 k7) 4#32) k0_t4 g k (H115 k7 k)) (lane x) * (wU (F := Ideal) fp k7 0#32 6#32 (by decide) (by decide)) (lane x) + (xU1 (F := Ideal) d L v3 (Scalar.muli (Scf.iv 0#32 1#32 k7) 4#32) k0_t4 g k (H116 k7 k)) (lane x) * (wU (F := Ideal) fp k7 1#32 6#32 (by decide) (by decide)) (lane x) + (xU2 (F := Ideal) d L v3 (Scalar.muli (Scf.iv 0#32 1#32 k7) 4#32) k0_t4 g k (H117 k7 k)) (lane x) * (wU (F := Ideal) fp k7 2#32 6#32 (by decide) (by decide)) (lane x) + (xU3 (F := Ideal) d L v3 (Scalar.muli (Scf.iv 0#32 1#32 k7) 4#32) k0_t4 g k (H118 k7 k)) (lane x) * (wU (F := Ideal) fp k7 3#32 6#32 (by decide) (by decide)) (lane x) : EReal) := by
  refine fold_sum_fin k0_t7_loop.trips (fun n => (acc7 (F := Ideal) d L v3 k0_t4 fp g H115 H116 H117 H118 f0 n ((Rect.unit (s := S10x512) (k0_off154 k0_t4 k) S1x16.size (k0_off154_inb k0_t4 k)).emb x) : EReal)) _ (fun k7 => ?_)
  show (acc7 (F := Ideal) d L v3 k0_t4 fp g H115 H116 H117 H118 f0 (k7.val + 1) ((Rect.unit (s := S10x512) (k0_off154 k0_t4 k) S1x16.size (k0_off154_inb k0_t4 k)).emb x) : EReal) = _
  rw [acc7_row6_succ]
  exact rowNew_ideal _ _ _ _ _ _ _ _ _ _

/-- Row 7 after all the outer trips, at the columns of inner trip `k`: the entry at the start plus, over the sixteen
    outer trips, the four rectified features of the trip times this hidden unit's four weights. -/
theorem acc7_row7_closed (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off155 k0_t4 k) S1x16.size (k0_off155_inb k0_t4 k)).emb x) : EReal)
      = f0 ((Rect.unit (s := S10x512) (k0_off155 k0_t4 k) S1x16.size (k0_off155_inb k0_t4 k)).emb x) + ∑ k7 : Fin k0_t7_loop.trips, ((xU0 (F := Ideal) d L v3 (Scalar.muli (Scf.iv 0#32 1#32 k7) 4#32) k0_t4 g k (H115 k7 k)) (lane x) * (wU (F := Ideal) fp k7 0#32 7#32 (by decide) (by decide)) (lane x) + (xU1 (F := Ideal) d L v3 (Scalar.muli (Scf.iv 0#32 1#32 k7) 4#32) k0_t4 g k (H116 k7 k)) (lane x) * (wU (F := Ideal) fp k7 1#32 7#32 (by decide) (by decide)) (lane x) + (xU2 (F := Ideal) d L v3 (Scalar.muli (Scf.iv 0#32 1#32 k7) 4#32) k0_t4 g k (H117 k7 k)) (lane x) * (wU (F := Ideal) fp k7 2#32 7#32 (by decide) (by decide)) (lane x) + (xU3 (F := Ideal) d L v3 (Scalar.muli (Scf.iv 0#32 1#32 k7) 4#32) k0_t4 g k (H118 k7 k)) (lane x) * (wU (F := Ideal) fp k7 3#32 7#32 (by decide) (by decide)) (lane x) : EReal) := by
  refine fold_sum_fin k0_t7_loop.trips (fun n => (acc7 (F := Ideal) d L v3 k0_t4 fp g H115 H116 H117 H118 f0 n ((Rect.unit (s := S10x512) (k0_off155 k0_t4 k) S1x16.size (k0_off155_inb k0_t4 k)).emb x) : EReal)) _ (fun k7 => ?_)
  show (acc7 (F := Ideal) d L v3 k0_t4 fp g H115 H116 H117 H118 f0 (k7.val + 1) ((Rect.unit (s := S10x512) (k0_off155 k0_t4 k) S1x16.size (k0_off155_inb k0_t4 k)).emb x) : EReal) = _
  rw [acc7_row7_succ]
  exact rowNew_ideal _ _ _ _ _ _ _ _ _ _

/-- Row 8 after all the outer trips, at the columns of inner trip `k`: the entry at the start plus, over the sixteen
    outer trips, the four rectified features of the trip times this hidden unit's four weights. -/
theorem acc7_row8_closed (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off156 k0_t4 k) S1x16.size (k0_off156_inb k0_t4 k)).emb x) : EReal)
      = f0 ((Rect.unit (s := S10x512) (k0_off156 k0_t4 k) S1x16.size (k0_off156_inb k0_t4 k)).emb x) + ∑ k7 : Fin k0_t7_loop.trips, ((xU0 (F := Ideal) d L v3 (Scalar.muli (Scf.iv 0#32 1#32 k7) 4#32) k0_t4 g k (H115 k7 k)) (lane x) * (wU (F := Ideal) fp k7 0#32 8#32 (by decide) (by decide)) (lane x) + (xU1 (F := Ideal) d L v3 (Scalar.muli (Scf.iv 0#32 1#32 k7) 4#32) k0_t4 g k (H116 k7 k)) (lane x) * (wU (F := Ideal) fp k7 1#32 8#32 (by decide) (by decide)) (lane x) + (xU2 (F := Ideal) d L v3 (Scalar.muli (Scf.iv 0#32 1#32 k7) 4#32) k0_t4 g k (H117 k7 k)) (lane x) * (wU (F := Ideal) fp k7 2#32 8#32 (by decide) (by decide)) (lane x) + (xU3 (F := Ideal) d L v3 (Scalar.muli (Scf.iv 0#32 1#32 k7) 4#32) k0_t4 g k (H118 k7 k)) (lane x) * (wU38 (F := Ideal) fp k7) (lane x) : EReal) := by
  refine fold_sum_fin k0_t7_loop.trips (fun n => (acc7 (F := Ideal) d L v3 k0_t4 fp g H115 H116 H117 H118 f0 n ((Rect.unit (s := S10x512) (k0_off156 k0_t4 k) S1x16.size (k0_off156_inb k0_t4 k)).emb x) : EReal)) _ (fun k7 => ?_)
  show (acc7 (F := Ideal) d L v3 k0_t4 fp g H115 H116 H117 H118 f0 (k7.val + 1) ((Rect.unit (s := S10x512) (k0_off156 k0_t4 k) S1x16.size (k0_off156_inb k0_t4 k)).emb x) : EReal) = _
  rw [acc7_row8_succ]
  exact rowNew_ideal _ _ _ _ _ _ _ _ _ _

/-- Row 9 after all the outer trips, at the columns of inner trip `k`: the entry at the start plus, over the sixteen
    outer trips, the four rectified features of the trip times this hidden unit's four weights. -/
theorem acc7_row9_closed (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off157 k0_t4 k) S1x16.size (k0_off157_inb k0_t4 k)).emb x) : EReal)
      = f0 ((Rect.unit (s := S10x512) (k0_off157 k0_t4 k) S1x16.size (k0_off157_inb k0_t4 k)).emb x) + ∑ k7 : Fin k0_t7_loop.trips, ((xU0 (F := Ideal) d L v3 (Scalar.muli (Scf.iv 0#32 1#32 k7) 4#32) k0_t4 g k (H115 k7 k)) (lane x) * (wU (F := Ideal) fp k7 0#32 9#32 (by decide) (by decide)) (lane x) + (xU1 (F := Ideal) d L v3 (Scalar.muli (Scf.iv 0#32 1#32 k7) 4#32) k0_t4 g k (H116 k7 k)) (lane x) * (wU (F := Ideal) fp k7 1#32 9#32 (by decide) (by decide)) (lane x) + (xU2 (F := Ideal) d L v3 (Scalar.muli (Scf.iv 0#32 1#32 k7) 4#32) k0_t4 g k (H117 k7 k)) (lane x) * (wU (F := Ideal) fp k7 2#32 9#32 (by decide) (by decide)) (lane x) + (xU3 (F := Ideal) d L v3 (Scalar.muli (Scf.iv 0#32 1#32 k7) 4#32) k0_t4 g k (H118 k7 k)) (lane x) * (wU39 (F := Ideal) fp k7) (lane x) : EReal) := by
  refine fold_sum_fin k0_t7_loop.trips (fun n => (acc7 (F := Ideal) d L v3 k0_t4 fp g H115 H116 H117 H118 f0 n ((Rect.unit (s := S10x512) (k0_off157 k0_t4 k) S1x16.size (k0_off157_inb k0_t4 k)).emb x) : EReal)) _ (fun k7 => ?_)
  show (acc7 (F := Ideal) d L v3 k0_t4 fp g H115 H116 H117 H118 f0 (k7.val + 1) ((Rect.unit (s := S10x512) (k0_off157 k0_t4 k) S1x16.size (k0_off157_inb k0_t4 k)).emb x) : EReal) = _
  rw [acc7_row9_succ]
  exact rowNew_ideal _ _ _ _ _ _ _ _ _ _

end IdealSum

end Cert.Proof.KI

end
-- ==== Proof.KValL1ULanes.lean ====
/-
  The weight and feature vectors of the first-layer nest, lane by lane. Every lane of the weight vector `(kk, h)` of
  outer trip `k7` is entry `(4·k7 + kk)·10 + h` of the packed parameters; lane `l` of inner trip `k` gathers from row
  `16·k + l` of the half — the lane numbers being the iota — at the columns `4·k7 + 0 … 3`.
-/
import proofs.«214512_g89103391522852_cont_sun_m_1157_25_alg».proof.Proof.KValL1UPure

noncomputable section

namespace Cert.Proof.KI

open Cert.KernelIdeal Cert.KernelIdeal.Gen

open Idealize.ShloMosaic
open Idealize.ShloMosaic.SparseCore (S V T)
open Idealize.ShloMosaic.SparseCore.Cfg (HIx)

variable {F : FTy → Type} [FloatOps F]

local notation "parS" => (Memref.whole Cert.KernelIdeal.cc0_scratch4 : Memref Cert.KernelIdeal.sig Kind.scVector Space.vmem Cert.KernelIdeal.S1312 EltTy.f32)

/-! ## The weight vectors, lane by lane -/

/-- The index every lane of weight `(kk, h)` of outer trip `k7` reads the parameters at. -/
theorem wIdx_toNat : ∀ (k7 : Fin k0_t7_loop.trips) (kk : Fin 4) (h : Fin 10) (x : S16.Idx),
    (wIdx k7 (BitVec.ofNat 32 kk.val) (BitVec.ofNat 32 h.val) x).toNat = (4 * k7.val + kk.val) * 10 + h.val := by
  decide +kernel

theorem w38_toNat : ∀ (k7 : Fin k0_t7_loop.trips) (x : S16.Idx),
    (k0_pay261 (Scalar.muli (Scalar.addi (Scalar.muli (Scf.iv 0#32 1#32 k7) 4#32) 3#32) 10#32) 0#32 x).toNat = (4 * k7.val + 3) * 10 + 8 := by
  decide +kernel

theorem w39_toNat : ∀ (k7 : Fin k0_t7_loop.trips) (x : S16.Idx),
    (k0_pay262 (Scalar.muli (Scf.iv 0#32 1#32 k7) 4#32) x).toNat = (4 * k7.val + 3) * 10 + 9 := by
  decide +kernel

/-- Every lane of weight `(kk, h)` of outer trip `k7` is entry `(4·k7 + kk)·10 + h` of the parameters. -/
theorem wU_lane (fp : S1312.Idx → Elt F .f32) (k7 : Fin k0_t7_loop.trips) (kk : Fin 4) (h : Fin 10)
    (hkk : (BitVec.ofNat 32 kk.val).toNat < 4) (hh : (BitVec.ofNat 32 h.val).toNat < 10) (l : S16.Idx) (j : S1312.Idx)
    (hj : (j 0).val = (4 * k7.val + kk.val) * 10 + h.val) :
    wU (F := F) fp k7 (BitVec.ofNat 32 kk.val) (BitVec.ofNat 32 h.val) hkk hh l = fp j := by
  unfold wU loadIdx
  refine (congrFun (Memref.readAt_whole (Elt F) Cert.KernelIdeal.cc0_scratch4 fp) _).trans ?_
  congr 1
  funext a
  apply Fin.ext
  have ha : a = 0 := Fin.fin_one_eq_zero a
  subst ha
  show (wIdx k7 (BitVec.ofNat 32 kk.val) (BitVec.ofNat 32 h.val) l).toNat = (j 0).val
  rw [wIdx_toNat, hj]

theorem wU38_lane (fp : S1312.Idx → Elt F .f32) (k7 : Fin k0_t7_loop.trips) (l : S16.Idx) (j : S1312.Idx)
    (hj : (j 0).val = (4 * k7.val + 3) * 10 + 8) : wU38 (F := F) fp k7 l = fp j := by
  unfold wU38 loadIdx
  refine (congrFun (Memref.readAt_whole (Elt F) Cert.KernelIdeal.cc0_scratch4 fp) _).trans ?_
  congr 1
  funext a
  apply Fin.ext
  have ha : a = 0 := Fin.fin_one_eq_zero a
  subst ha
  show (k0_pay261 (Scalar.muli (Scalar.addi (Scalar.muli (Scf.iv 0#32 1#32 k7) 4#32) 3#32) 10#32) 0#32 l).toNat = (j 0).val
  rw [w38_toNat, hj]

theorem wU39_lane (fp : S1312.Idx → Elt F .f32) (k7 : Fin k0_t7_loop.trips) (l : S16.Idx) (j : S1312.Idx)
    (hj : (j 0).val = (4 * k7.val + 3) * 10 + 9) : wU39 (F := F) fp k7 l = fp j := by
  unfold wU39 loadIdx
  refine (congrFun (Memref.readAt_whole (Elt F) Cert.KernelIdeal.cc0_scratch4 fp) _).trans ?_
  congr 1
  funext a
  apply Fin.ext
  have ha : a = 0 := Fin.fin_one_eq_zero a
  subst ha
  show (k0_pay262 (Scalar.muli (Scf.iv 0#32 1#32 k7) 4#32) l).toNat = (j 0).val
  rw [w39_toNat, hj]

/-! ## The feature vectors, lane by lane, when the lane numbers are the iota -/

/-- The rows a trip's gathers read: lane `l` of inner trip `k` reads row `16·k + l` of the half. -/
theorem row_toNat : ∀ (k : Fin k0_t8_loop.trips) (l : S16.Idx),
    (k0_pay66 (iota .scVector S16 32 [0] Facts₀.iota_S16_d0_w32_scVector) 0#32 1#32 k l).toNat = 16 * k.val + (l 0).val := by
  decide +kernel

/-- The columns: the four features `4·k7 + 0 … 3` of outer trip `k7`. -/
theorem col0_toNat : ∀ (k7 : Fin k0_t7_loop.trips) (l : S16.Idx), (k0_pay67 (Scalar.muli (Scf.iv 0#32 1#32 k7) 4#32) l).toNat = 4 * k7.val := by decide +kernel
theorem col1_toNat : ∀ (k7 : Fin k0_t7_loop.trips) (l : S16.Idx), (k0_pay69 (Scalar.muli (Scf.iv 0#32 1#32 k7) 4#32) l).toNat = 4 * k7.val + 1 := by decide +kernel
theorem col2_toNat : ∀ (k7 : Fin k0_t7_loop.trips) (l : S16.Idx), (k0_pay71 (Scalar.muli (Scf.iv 0#32 1#32 k7) 4#32) l).toNat = 4 * k7.val + 2 := by decide +kernel
theorem col3_toNat : ∀ (k7 : Fin k0_t7_loop.trips) (l : S16.Idx), (k0_pay73 (Scalar.muli (Scf.iv 0#32 1#32 k7) 4#32) l).toNat = 4 * k7.val + 3 := by decide +kernel

end Cert.Proof.KI

end
-- ==== Proof.KValL1UValue.lean ====
/-
  The first-layer nest on the user half, in closed form at the exact instance. When the lane numbers are the iota, lane
  `l` of inner trip `k` gathers row `16·k + l` of the half at the four columns `4·k7 + 0 … 3` of outer trip `k7` and
  rectifies them, and the weights it multiplies them by are entries `(4·k7 + kk)·10 + h` of the packed parameters. So
  after the sixteen outer trips the accumulator's entry for hidden unit `h` and the sample in that row is what it held
  at the start plus the sum, over the outer trips and their four features, of the rectified entry times the weight.
-/
import Idealize.ShloMosaic.Lib.ValueIdx
import proofs.«214512_g89103391522852_cont_sun_m_1157_25_alg».proof.Proof.KValL1ULanes

noncomputable section

namespace Cert.Proof.KI

open Cert.KernelIdeal Cert.KernelIdeal.Gen

open Idealize.ShloMosaic
open Idealize.ShloMosaic.SparseCore (S V T)
open Idealize.ShloMosaic.SparseCore.Cfg (HIx)

variable {F : FTy → Type} [FloatOps F]

local notation "parS" => (Memref.whole Cert.KernelIdeal.cc0_scratch4 : Memref Cert.KernelIdeal.sig Kind.scVector Space.vmem Cert.KernelIdeal.S1312 EltTy.f32)

/-! ## A rectified feature, at a lane, at the exact instance -/

section XLane

variable (d : Dev nD) (L : grid0.Coords) (k0_t4 : Fin k0_t4_loop.trips) (g : Buf (Elt Ideal) ((halfU k0_t4).view.loc (thr d L)))

/-- The half a chunk computes on, as the 128 × 64 matrix the gathers read. -/
abbrev halfM : S128x64.Idx → Elt Ideal .f32 := View.readAt (Elt Ideal) (halfU k0_t4).view (LoadRect.whole S128x64) g

theorem zero_bits : (Scalar.ofBits (F := Ideal) .f32 0x00000000#32 : EReal) = 0 := by
  show Ideal.ofBits .f32 0x00000000#32 = 0
  simp [Ideal.ofBits, Ideal.ieee]

theorem xU0_lane (v3 : IVec S16 32) (hv3 : v3 = iota .scVector S16 32 [0] Facts₀.iota_S16_d0_w32_scVector)
    (k7 : Fin k0_t7_loop.trips) (k : Fin k0_t8_loop.trips)
    (c115 : k0_chk115 (k0_pay66 v3 0#32 1#32 k) (k0_pay67 (Scalar.muli (Scf.iv 0#32 1#32 k7) 4#32)))
    (l : S16.Idx) (r : S128x64.Idx) (hr0 : (r 0).val = 16 * k.val + (l 0).val) (hr1 : (r 1).val = 4 * k7.val) :
    (xU0 (F := Ideal) d L v3 (Scalar.muli (Scf.iv 0#32 1#32 k7) 4#32) k0_t4 g k c115 l : EReal) = max (halfM d L k0_t4 g r) 0 := by
  subst hv3
  unfold xU0 k0_pay68 loadIdx
  show max (halfM d L k0_t4 g _) (Scalar.ofBits (F := Ideal) .f32 0x00000000#32 : EReal) = _
  rw [zero_bits]
  congr 2
  funext a
  apply Fin.ext
  fin_cases a
  · show (k0_pay66 (iota .scVector S16 32 [0] Facts₀.iota_S16_d0_w32_scVector) 0#32 1#32 k l).toNat = (r 0).val
    rw [row_toNat, hr0]
  · show (k0_pay67 (Scalar.muli (Scf.iv 0#32 1#32 k7) 4#32) l).toNat = (r 1).val
    rw [col0_toNat, hr1]

theorem xU1_lane (v3 : IVec S16 32) (hv3 : v3 = iota .scVector S16 32 [0] Facts₀.iota_S16_d0_w32_scVector)
    (k7 : Fin k0_t7_loop.trips) (k : Fin k0_t8_loop.trips)
    (c : k0_chk116 (k0_pay66 v3 0#32 1#32 k) (k0_pay69 (Scalar.muli (Scf.iv 0#32 1#32 k7) 4#32)))
    (l : S16.Idx) (r : S128x64.Idx) (hr0 : (r 0).val = 16 * k.val + (l 0).val) (hr1 : (r 1).val = 4 * k7.val + 1) :
    (xU1 (F := Ideal) d L v3 (Scalar.muli (Scf.iv 0#32 1#32 k7) 4#32) k0_t4 g k c l : EReal) = max (halfM d L k0_t4 g r) 0 := by
  subst hv3
  unfold xU1 k0_pay70 loadIdx
  show max (halfM d L k0_t4 g _) (Scalar.ofBits (F := Ideal) .f32 0x00000000#32 : EReal) = _
  rw [zero_bits]
  congr 2
  funext a
  apply Fin.ext
  fin_cases a
  · show (k0_pay66 (iota .scVector S16 32 [0] Facts₀.iota_S16_d0_w32_scVector) 0#32 1#32 k l).toNat = (r 0).val
    rw [row_toNat, hr0]
  · show (k0_pay69 (Scalar.muli (Scf.iv 0#32 1#32 k7) 4#32) l).toNat = (r 1).val
    rw [col1_toNat, hr1]

theorem xU2_lane (v3 : IVec S16 32) (hv3 : v3 = iota .scVector S16 32 [0] Facts₀.iota_S16_d0_w32_scVector)
    (k7 : Fin k0_t7_loop.trips) (k : Fin k0_t8_loop.trips)
    (c : k0_chk117 (k0_pay66 v3 0#32 1#32 k) (k0_pay71 (Scalar.muli (Scf.iv 0#32 1#32 k7) 4#32)))
    (l : S16.Idx) (r : S128x64.Idx) (hr0 : (r 0).val = 16 * k.val + (l 0).val) (hr1 : (r 1).val = 4 * k7.val + 2) :
    (xU2 (F := Ideal) d L v3 (Scalar.muli (Scf.iv 0#32 1#32 k7) 4#32) k0_t4 g k c l : EReal) = max (halfM d L k0_t4 g r) 0 := by
  subst hv3
  unfold xU2 k0_pay72 loadIdx
  show max (halfM d L k0_t4 g _) (Scalar.ofBits (F := Ideal) .f32 0x00000000#32 : EReal) = _
  rw [zero_bits]
  congr 2
  funext a
  apply Fin.ext
  fin_cases a
  · show (k0_pay66 (iota .scVector S16 32 [0] Facts₀.iota_S16_d0_w32_scVector) 0#32 1#32 k l).toNat = (r 0).val
    rw [row_toNat, hr0]
  · show (k0_pay71 (Scalar.muli (Scf.iv 0#32 1#32 k7) 4#32) l).toNat = (r 1).val
    rw [col2_toNat, hr1]

theorem xU3_lane (v3 : IVec S16 32) (hv3 : v3 = iota .scVector S16 32 [0] Facts₀.iota_S16_d0_w32_scVector)
    (k7 : Fin k0_t7_loop.trips) (k : Fin k0_t8_loop.trips)
    (c : k0_chk118 (k0_pay66 v3 0#32 1#32 k) (k0_pay73 (Scalar.muli (Scf.iv 0#32 1#32 k7) 4#32)))
    (l : S16.Idx) (r : S128x64.Idx) (hr0 : (r 0).val = 16 * k.val + (l 0).val) (hr1 : (r 1).val = 4 * k7.val + 3) :
    (xU3 (F := Ideal) d L v3 (Scalar.muli (Scf.iv 0#32 1#32 k7) 4#32) k0_t4 g k c l : EReal) = max (halfM d L k0_t4 g r) 0 := by
  subst hv3
  unfold xU3 k0_pay74 loadIdx
  show max (halfM d L k0_t4 g _) (Scalar.ofBits (F := Ideal) .f32 0x00000000#32 : EReal) = _
  rw [zero_bits]
  congr 2
  funext a
  apply Fin.ext
  fin_cases a
  · show (k0_pay66 (iota .scVector S16 32 [0] Facts₀.iota_S16_d0_w32_scVector) 0#32 1#32 k l).toNat = (r 0).val
    rw [row_toNat, hr0]
  · show (k0_pay73 (Scalar.muli (Scf.iv 0#32 1#32 k7) 4#32) l).toNat = (r 1).val
    rw [col3_toNat, hr1]

omit d L k0_t4 g in
/-- Row `16·k + l`, column `4·k7 + kk` of the half; entry `(4·k7 + kk)·10 + h` of the parameters. -/
def rIdx (k : Fin k0_t8_loop.trips) (l : S16.Idx) (k7 : Fin k0_t7_loop.trips) (kk : Fin 4) : S128x64.Idx :=
  ValueIdx.ix2 (⟨16 * k.val + (l 0).val, by
      have h1 : k.val < 8 := lt_of_lt_of_eq k.isLt k0_t8_trips
      have h2 : (l 0).val < 16 := (l 0).isLt
      omega⟩ : Fin 128)
    (⟨4 * k7.val + kk.val, by
      have h1 : k7.val < 16 := lt_of_lt_of_eq k7.isLt k0_t7_trips
      have h2 := kk.isLt
      omega⟩ : Fin 64)
omit d L k0_t4 g in
def pIdx (k7 : Fin k0_t7_loop.trips) (kk : Fin 4) (h : Fin 10) : S1312.Idx :=
  ValueIdx.ix1 (⟨(4 * k7.val + kk.val) * 10 + h.val, by
      have h1 : k7.val < 16 := lt_of_lt_of_eq k7.isLt k0_t7_trips
      have h2 := kk.isLt; have h3 := h.isLt
      omega⟩ : Fin 1312)

open scoped BigOperators

variable (v3 : IVec S16 32) (fp : S1312.Idx → Elt Ideal .f32)
variable (H115 : ∀ (k7 : Fin k0_t7_loop.trips) (k8 : Fin k0_t8_loop.trips), k0_chk115 (k0_pay66 v3 0#32 1#32 k8) (k0_pay67 (Scalar.muli (Scf.iv 0#32 1#32 k7) 4#32)))
variable (H116 : ∀ (k7 : Fin k0_t7_loop.trips) (k8 : Fin k0_t8_loop.trips), k0_chk116 (k0_pay66 v3 0#32 1#32 k8) (k0_pay69 (Scalar.muli (Scf.iv 0#32 1#32 k7) 4#32)))
variable (H117 : ∀ (k7 : Fin k0_t7_loop.trips) (k8 : Fin k0_t8_loop.trips), k0_chk117 (k0_pay66 v3 0#32 1#32 k8) (k0_pay71 (Scalar.muli (Scf.iv 0#32 1#32 k7) 4#32)))
variable (H118 : ∀ (k7 : Fin k0_t7_loop.trips) (k8 : Fin k0_t8_loop.trips), k0_chk118 (k0_pay66 v3 0#32 1#32 k8) (k0_pay73 (Scalar.muli (Scf.iv 0#32 1#32 k7) 4#32)))

/-- Row 0 after the sixteen outer trips, at the columns of inner trip `k`, the lanes read: the entry at the start
    plus, over the outer trips and their four features, the rectified entry of the half times the packed weight. -/
theorem acc7_row0_value (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off148 k0_t4 k) S1x16.size (k0_off148_inb k0_t4 k)).emb x) : EReal)
      = f0 ((Rect.unit (s := S10x512) (k0_off148 k0_t4 k) S1x16.size (k0_off148_inb k0_t4 k)).emb x) + ∑ k7 : Fin k0_t7_loop.trips,
          (max (halfM d L k0_t4 g (rIdx k (lane x) k7 0)) 0 * fp (pIdx k7 0 0) + max (halfM d L k0_t4 g (rIdx k (lane x) k7 1)) 0 * fp (pIdx k7 1 0)
            + max (halfM d L k0_t4 g (rIdx k (lane x) k7 2)) 0 * fp (pIdx k7 2 0) + max (halfM d L k0_t4 g (rIdx k (lane x) k7 3)) 0 * fp (pIdx k7 3 0) : EReal) := by
  rw [acc7_row0_closed]
  refine congrArg (HAdd.hAdd _) (Finset.sum_congr rfl fun k7 _ => ?_)
  have ex0 := xU0_lane d L k0_t4 g v3 hv3 k7 k (H115 k7 k) (lane x) (rIdx k (lane x) k7 0) rfl rfl
  have ew0 : (wU (F := Ideal) fp k7 0#32 0#32 (by decide) (by decide) (lane x) : EReal) = fp (pIdx k7 0 0) := wU_lane (F := Ideal) fp k7 (0 : Fin 4) (0 : Fin 10) (by decide) (by decide) (lane x) (pIdx k7 0 0) rfl
  have ex1 := xU1_lane d L k0_t4 g v3 hv3 k7 k (H116 k7 k) (lane x) (rIdx k (lane x) k7 1) rfl rfl
  have ew1 : (wU (F := Ideal) fp k7 1#32 0#32 (by decide) (by decide) (lane x) : EReal) = fp (pIdx k7 1 0) := wU_lane (F := Ideal) fp k7 (1 : Fin 4) (0 : Fin 10) (by decide) (by decide) (lane x) (pIdx k7 1 0) rfl
  have ex2 := xU2_lane d L k0_t4 g v3 hv3 k7 k (H117 k7 k) (lane x) (rIdx k (lane x) k7 2) rfl rfl
  have ew2 : (wU (F := Ideal) fp k7 2#32 0#32 (by decide) (by decide) (lane x) : EReal) = fp (pIdx k7 2 0) := wU_lane (F := Ideal) fp k7 (2 : Fin 4) (0 : Fin 10) (by decide) (by decide) (lane x) (pIdx k7 2 0) rfl
  have ex3 := xU3_lane d L k0_t4 g v3 hv3 k7 k (H118 k7 k) (lane x) (rIdx k (lane x) k7 3) rfl rfl
  have ew3 : (wU (F := Ideal) fp k7 3#32 0#32 (by decide) (by decide) (lane x) : EReal) = fp (pIdx k7 3 0) := wU_lane (F := Ideal) fp k7 (3 : Fin 4) (0 : Fin 10) (by decide) (by decide) (lane x) (pIdx k7 3 0) rfl
  rw [ex0, ex1, ex2, ex3, ew0, ew1, ew2, ew3]

/-- Row 1 after the sixteen outer trips, at the columns of inner trip `k`, the lanes read: the entry at the start
    plus, over the outer trips and their four features, the rectified entry of the half times the packed weight. -/
theorem acc7_row1_value (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off149 k0_t4 k) S1x16.size (k0_off149_inb k0_t4 k)).emb x) : EReal)
      = f0 ((Rect.unit (s := S10x512) (k0_off149 k0_t4 k) S1x16.size (k0_off149_inb k0_t4 k)).emb x) + ∑ k7 : Fin k0_t7_loop.trips,
          (max (halfM d L k0_t4 g (rIdx k (lane x) k7 0)) 0 * fp (pIdx k7 0 1) + max (halfM d L k0_t4 g (rIdx k (lane x) k7 1)) 0 * fp (pIdx k7 1 1)
            + max (halfM d L k0_t4 g (rIdx k (lane x) k7 2)) 0 * fp (pIdx k7 2 1) + max (halfM d L k0_t4 g (rIdx k (lane x) k7 3)) 0 * fp (pIdx k7 3 1) : EReal) := by
  rw [acc7_row1_closed]
  refine congrArg (HAdd.hAdd _) (Finset.sum_congr rfl fun k7 _ => ?_)
  have ex0 := xU0_lane d L k0_t4 g v3 hv3 k7 k (H115 k7 k) (lane x) (rIdx k (lane x) k7 0) rfl rfl
  have ew0 : (wU (F := Ideal) fp k7 0#32 1#32 (by decide) (by decide) (lane x) : EReal) = fp (pIdx k7 0 1) := wU_lane (F := Ideal) fp k7 (0 : Fin 4) (1 : Fin 10) (by decide) (by decide) (lane x) (pIdx k7 0 1) rfl
  have ex1 := xU1_lane d L k0_t4 g v3 hv3 k7 k (H116 k7 k) (lane x) (rIdx k (lane x) k7 1) rfl rfl
  have ew1 : (wU (F := Ideal) fp k7 1#32 1#32 (by decide) (by decide) (lane x) : EReal) = fp (pIdx k7 1 1) := wU_lane (F := Ideal) fp k7 (1 : Fin 4) (1 : Fin 10) (by decide) (by decide) (lane x) (pIdx k7 1 1) rfl
  have ex2 := xU2_lane d L k0_t4 g v3 hv3 k7 k (H117 k7 k) (lane x) (rIdx k (lane x) k7 2) rfl rfl
  have ew2 : (wU (F := Ideal) fp k7 2#32 1#32 (by decide) (by decide) (lane x) : EReal) = fp (pIdx k7 2 1) := wU_lane (F := Ideal) fp k7 (2 : Fin 4) (1 : Fin 10) (by decide) (by decide) (lane x) (pIdx k7 2 1) rfl
  have ex3 := xU3_lane d L k0_t4 g v3 hv3 k7 k (H118 k7 k) (lane x) (rIdx k (lane x) k7 3) rfl rfl
  have ew3 : (wU (F := Ideal) fp k7 3#32 1#32 (by decide) (by decide) (lane x) : EReal) = fp (pIdx k7 3 1) := wU_lane (F := Ideal) fp k7 (3 : Fin 4) (1 : Fin 10) (by decide) (by decide) (lane x) (pIdx k7 3 1) rfl
  rw [ex0, ex1, ex2, ex3, ew0, ew1, ew2, ew3]

/-- Row 2 after the sixteen outer trips, at the columns of inner trip `k`, the lanes read: the entry at the start
    plus, over the outer trips and their four features, the rectified entry of the half times the packed weight. -/
theorem acc7_row2_value (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off150 k0_t4 k) S1x16.size (k0_off150_inb k0_t4 k)).emb x) : EReal)
      = f0 ((Rect.unit (s := S10x512) (k0_off150 k0_t4 k) S1x16.size (k0_off150_inb k0_t4 k)).emb x) + ∑ k7 : Fin k0_t7_loop.trips,
          (max (halfM d L k0_t4 g (rIdx k (lane x) k7 0)) 0 * fp (pIdx k7 0 2) + max (halfM d L k0_t4 g (rIdx k (lane x) k7 1)) 0 * fp (pIdx k7 1 2)
            + max (halfM d L k0_t4 g (rIdx k (lane x) k7 2)) 0 * fp (pIdx k7 2 2) + max (halfM d L k0_t4 g (rIdx k (lane x) k7 3)) 0 * fp (pIdx k7 3 2) : EReal) := by
  rw [acc7_row2_closed]
  refine congrArg (HAdd.hAdd _) (Finset.sum_congr rfl fun k7 _ => ?_)
  have ex0 := xU0_lane d L k0_t4 g v3 hv3 k7 k (H115 k7 k) (lane x) (rIdx k (lane x) k7 0) rfl rfl
  have ew0 : (wU (F := Ideal) fp k7 0#32 2#32 (by decide) (by decide) (lane x) : EReal) = fp (pIdx k7 0 2) := wU_lane (F := Ideal) fp k7 (0 : Fin 4) (2 : Fin 10) (by decide) (by decide) (lane x) (pIdx k7 0 2) rfl
  have ex1 := xU1_lane d L k0_t4 g v3 hv3 k7 k (H116 k7 k) (lane x) (rIdx k (lane x) k7 1) rfl rfl
  have ew1 : (wU (F := Ideal) fp k7 1#32 2#32 (by decide) (by decide) (lane x) : EReal) = fp (pIdx k7 1 2) := wU_lane (F := Ideal) fp k7 (1 : Fin 4) (2 : Fin 10) (by decide) (by decide) (lane x) (pIdx k7 1 2) rfl
  have ex2 := xU2_lane d L k0_t4 g v3 hv3 k7 k (H117 k7 k) (lane x) (rIdx k (lane x) k7 2) rfl rfl
  have ew2 : (wU (F := Ideal) fp k7 2#32 2#32 (by decide) (by decide) (lane x) : EReal) = fp (pIdx k7 2 2) := wU_lane (F := Ideal) fp k7 (2 : Fin 4) (2 : Fin 10) (by decide) (by decide) (lane x) (pIdx k7 2 2) rfl
  have ex3 := xU3_lane d L k0_t4 g v3 hv3 k7 k (H118 k7 k) (lane x) (rIdx k (lane x) k7 3) rfl rfl
  have ew3 : (wU (F := Ideal) fp k7 3#32 2#32 (by decide) (by decide) (lane x) : EReal) = fp (pIdx k7 3 2) := wU_lane (F := Ideal) fp k7 (3 : Fin 4) (2 : Fin 10) (by decide) (by decide) (lane x) (pIdx k7 3 2) rfl
  rw [ex0, ex1, ex2, ex3, ew0, ew1, ew2, ew3]

/-- Row 3 after the sixteen outer trips, at the columns of inner trip `k`, the lanes read: the entry at the start
    plus, over the outer trips and their four features, the rectified entry of the half times the packed weight. -/
theorem acc7_row3_value (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off151 k0_t4 k) S1x16.size (k0_off151_inb k0_t4 k)).emb x) : EReal)
      = f0 ((Rect.unit (s := S10x512) (k0_off151 k0_t4 k) S1x16.size (k0_off151_inb k0_t4 k)).emb x) + ∑ k7 : Fin k0_t7_loop.trips,
          (max (halfM d L k0_t4 g (rIdx k (lane x) k7 0)) 0 * fp (pIdx k7 0 3) + max (halfM d L k0_t4 g (rIdx k (lane x) k7 1)) 0 * fp (pIdx k7 1 3)
            + max (halfM d L k0_t4 g (rIdx k (lane x) k7 2)) 0 * fp (pIdx k7 2 3) + max (halfM d L k0_t4 g (rIdx k (lane x) k7 3)) 0 * fp (pIdx k7 3 3) : EReal) := by
  rw [acc7_row3_closed]
  refine congrArg (HAdd.hAdd _) (Finset.sum_congr rfl fun k7 _ => ?_)
  have ex0 := xU0_lane d L k0_t4 g v3 hv3 k7 k (H115 k7 k) (lane x) (rIdx k (lane x) k7 0) rfl rfl
  have ew0 : (wU (F := Ideal) fp k7 0#32 3#32 (by decide) (by decide) (lane x) : EReal) = fp (pIdx k7 0 3) := wU_lane (F := Ideal) fp k7 (0 : Fin 4) (3 : Fin 10) (by decide) (by decide) (lane x) (pIdx k7 0 3) rfl
  have ex1 := xU1_lane d L k0_t4 g v3 hv3 k7 k (H116 k7 k) (lane x) (rIdx k (lane x) k7 1) rfl rfl
  have ew1 : (wU (F := Ideal) fp k7 1#32 3#32 (by decide) (by decide) (lane x) : EReal) = fp (pIdx k7 1 3) := wU_lane (F := Ideal) fp k7 (1 : Fin 4) (3 : Fin 10) (by decide) (by decide) (lane x) (pIdx k7 1 3) rfl
  have ex2 := xU2_lane d L k0_t4 g v3 hv3 k7 k (H117 k7 k) (lane x) (rIdx k (lane x) k7 2) rfl rfl
  have ew2 : (wU (F := Ideal) fp k7 2#32 3#32 (by decide) (by decide) (lane x) : EReal) = fp (pIdx k7 2 3) := wU_lane (F := Ideal) fp k7 (2 : Fin 4) (3 : Fin 10) (by decide) (by decide) (lane x) (pIdx k7 2 3) rfl
  have ex3 := xU3_lane d L k0_t4 g v3 hv3 k7 k (H118 k7 k) (lane x) (rIdx k (lane x) k7 3) rfl rfl
  have ew3 : (wU (F := Ideal) fp k7 3#32 3#32 (by decide) (by decide) (lane x) : EReal) = fp (pIdx k7 3 3) := wU_lane (F := Ideal) fp k7 (3 : Fin 4) (3 : Fin 10) (by decide) (by decide) (lane x) (pIdx k7 3 3) rfl
  rw [ex0, ex1, ex2, ex3, ew0, ew1, ew2, ew3]

/-- Row 4 after the sixteen outer trips, at the columns of inner trip `k`, the lanes read: the entry at the start
    plus, over the outer trips and their four features, the rectified entry of the half times the packed weight. -/
theorem acc7_row4_value (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off152 k0_t4 k) S1x16.size (k0_off152_inb k0_t4 k)).emb x) : EReal)
      = f0 ((Rect.unit (s := S10x512) (k0_off152 k0_t4 k) S1x16.size (k0_off152_inb k0_t4 k)).emb x) + ∑ k7 : Fin k0_t7_loop.trips,
          (max (halfM d L k0_t4 g (rIdx k (lane x) k7 0)) 0 * fp (pIdx k7 0 4) + max (halfM d L k0_t4 g (rIdx k (lane x) k7 1)) 0 * fp (pIdx k7 1 4)
            + max (halfM d L k0_t4 g (rIdx k (lane x) k7 2)) 0 * fp (pIdx k7 2 4) + max (halfM d L k0_t4 g (rIdx k (lane x) k7 3)) 0 * fp (pIdx k7 3 4) : EReal) := by
  rw [acc7_row4_closed]
  refine congrArg (HAdd.hAdd _) (Finset.sum_congr rfl fun k7 _ => ?_)
  have ex0 := xU0_lane d L k0_t4 g v3 hv3 k7 k (H115 k7 k) (lane x) (rIdx k (lane x) k7 0) rfl rfl
  have ew0 : (wU (F := Ideal) fp k7 0#32 4#32 (by decide) (by decide) (lane x) : EReal) = fp (pIdx k7 0 4) := wU_lane (F := Ideal) fp k7 (0 : Fin 4) (4 : Fin 10) (by decide) (by decide) (lane x) (pIdx k7 0 4) rfl
  have ex1 := xU1_lane d L k0_t4 g v3 hv3 k7 k (H116 k7 k) (lane x) (rIdx k (lane x) k7 1) rfl rfl
  have ew1 : (wU (F := Ideal) fp k7 1#32 4#32 (by decide) (by decide) (lane x) : EReal) = fp (pIdx k7 1 4) := wU_lane (F := Ideal) fp k7 (1 : Fin 4) (4 : Fin 10) (by decide) (by decide) (lane x) (pIdx k7 1 4) rfl
  have ex2 := xU2_lane d L k0_t4 g v3 hv3 k7 k (H117 k7 k) (lane x) (rIdx k (lane x) k7 2) rfl rfl
  have ew2 : (wU (F := Ideal) fp k7 2#32 4#32 (by decide) (by decide) (lane x) : EReal) = fp (pIdx k7 2 4) := wU_lane (F := Ideal) fp k7 (2 : Fin 4) (4 : Fin 10) (by decide) (by decide) (lane x) (pIdx k7 2 4) rfl
  have ex3 := xU3_lane d L k0_t4 g v3 hv3 k7 k (H118 k7 k) (lane x) (rIdx k (lane x) k7 3) rfl rfl
  have ew3 : (wU (F := Ideal) fp k7 3#32 4#32 (by decide) (by decide) (lane x) : EReal) = fp (pIdx k7 3 4) := wU_lane (F := Ideal) fp k7 (3 : Fin 4) (4 : Fin 10) (by decide) (by decide) (lane x) (pIdx k7 3 4) rfl
  rw [ex0, ex1, ex2, ex3, ew0, ew1, ew2, ew3]

/-- Row 5 after the sixteen outer trips, at the columns of inner trip `k`, the lanes read: the entry at the start
    plus, over the outer trips and their four features, the rectified entry of the half times the packed weight. -/
theorem acc7_row5_value (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off153 k0_t4 k) S1x16.size (k0_off153_inb k0_t4 k)).emb x) : EReal)
      = f0 ((Rect.unit (s := S10x512) (k0_off153 k0_t4 k) S1x16.size (k0_off153_inb k0_t4 k)).emb x) + ∑ k7 : Fin k0_t7_loop.trips,
          (max (halfM d L k0_t4 g (rIdx k (lane x) k7 0)) 0 * fp (pIdx k7 0 5) + max (halfM d L k0_t4 g (rIdx k (lane x) k7 1)) 0 * fp (pIdx k7 1 5)
            + max (halfM d L k0_t4 g (rIdx k (lane x) k7 2)) 0 * fp (pIdx k7 2 5) + max (halfM d L k0_t4 g (rIdx k (lane x) k7 3)) 0 * fp (pIdx k7 3 5) : EReal) := by
  rw [acc7_row5_closed]
  refine congrArg (HAdd.hAdd _) (Finset.sum_congr rfl fun k7 _ => ?_)
  have ex0 := xU0_lane d L k0_t4 g v3 hv3 k7 k (H115 k7 k) (lane x) (rIdx k (lane x) k7 0) rfl rfl
  have ew0 : (wU (F := Ideal) fp k7 0#32 5#32 (by decide) (by decide) (lane x) : EReal) = fp (pIdx k7 0 5) := wU_lane (F := Ideal) fp k7 (0 : Fin 4) (5 : Fin 10) (by decide) (by decide) (lane x) (pIdx k7 0 5) rfl
  have ex1 := xU1_lane d L k0_t4 g v3 hv3 k7 k (H116 k7 k) (lane x) (rIdx k (lane x) k7 1) rfl rfl
  have ew1 : (wU (F := Ideal) fp k7 1#32 5#32 (by decide) (by decide) (lane x) : EReal) = fp (pIdx k7 1 5) := wU_lane (F := Ideal) fp k7 (1 : Fin 4) (5 : Fin 10) (by decide) (by decide) (lane x) (pIdx k7 1 5) rfl
  have ex2 := xU2_lane d L k0_t4 g v3 hv3 k7 k (H117 k7 k) (lane x) (rIdx k (lane x) k7 2) rfl rfl
  have ew2 : (wU (F := Ideal) fp k7 2#32 5#32 (by decide) (by decide) (lane x) : EReal) = fp (pIdx k7 2 5) := wU_lane (F := Ideal) fp k7 (2 : Fin 4) (5 : Fin 10) (by decide) (by decide) (lane x) (pIdx k7 2 5) rfl
  have ex3 := xU3_lane d L k0_t4 g v3 hv3 k7 k (H118 k7 k) (lane x) (rIdx k (lane x) k7 3) rfl rfl
  have ew3 : (wU (F := Ideal) fp k7 3#32 5#32 (by decide) (by decide) (lane x) : EReal) = fp (pIdx k7 3 5) := wU_lane (F := Ideal) fp k7 (3 : Fin 4) (5 : Fin 10) (by decide) (by decide) (lane x) (pIdx k7 3 5) rfl
  rw [ex0, ex1, ex2, ex3, ew0, ew1, ew2, ew3]

/-- Row 6 after the sixteen outer trips, at the columns of inner trip `k`, the lanes read: the entry at the start
    plus, over the outer trips and their four features, the rectified entry of the half times the packed weight. -/
theorem acc7_row6_value (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off154 k0_t4 k) S1x16.size (k0_off154_inb k0_t4 k)).emb x) : EReal)
      = f0 ((Rect.unit (s := S10x512) (k0_off154 k0_t4 k) S1x16.size (k0_off154_inb k0_t4 k)).emb x) + ∑ k7 : Fin k0_t7_loop.trips,
          (max (halfM d L k0_t4 g (rIdx k (lane x) k7 0)) 0 * fp (pIdx k7 0 6) + max (halfM d L k0_t4 g (rIdx k (lane x) k7 1)) 0 * fp (pIdx k7 1 6)
            + max (halfM d L k0_t4 g (rIdx k (lane x) k7 2)) 0 * fp (pIdx k7 2 6) + max (halfM d L k0_t4 g (rIdx k (lane x) k7 3)) 0 * fp (pIdx k7 3 6) : EReal) := by
  rw [acc7_row6_closed]
  refine congrArg (HAdd.hAdd _) (Finset.sum_congr rfl fun k7 _ => ?_)
  have ex0 := xU0_lane d L k0_t4 g v3 hv3 k7 k (H115 k7 k) (lane x) (rIdx k (lane x) k7 0) rfl rfl
  have ew0 : (wU (F := Ideal) fp k7 0#32 6#32 (by decide) (by decide) (lane x) : EReal) = fp (pIdx k7 0 6) := wU_lane (F := Ideal) fp k7 (0 : Fin 4) (6 : Fin 10) (by decide) (by decide) (lane x) (pIdx k7 0 6) rfl
  have ex1 := xU1_lane d L k0_t4 g v3 hv3 k7 k (H116 k7 k) (lane x) (rIdx k (lane x) k7 1) rfl rfl
  have ew1 : (wU (F := Ideal) fp k7 1#32 6#32 (by decide) (by decide) (lane x) : EReal) = fp (pIdx k7 1 6) := wU_lane (F := Ideal) fp k7 (1 : Fin 4) (6 : Fin 10) (by decide) (by decide) (lane x) (pIdx k7 1 6) rfl
  have ex2 := xU2_lane d L k0_t4 g v3 hv3 k7 k (H117 k7 k) (lane x) (rIdx k (lane x) k7 2) rfl rfl
  have ew2 : (wU (F := Ideal) fp k7 2#32 6#32 (by decide) (by decide) (lane x) : EReal) = fp (pIdx k7 2 6) := wU_lane (F := Ideal) fp k7 (2 : Fin 4) (6 : Fin 10) (by decide) (by decide) (lane x) (pIdx k7 2 6) rfl
  have ex3 := xU3_lane d L k0_t4 g v3 hv3 k7 k (H118 k7 k) (lane x) (rIdx k (lane x) k7 3) rfl rfl
  have ew3 : (wU (F := Ideal) fp k7 3#32 6#32 (by decide) (by decide) (lane x) : EReal) = fp (pIdx k7 3 6) := wU_lane (F := Ideal) fp k7 (3 : Fin 4) (6 : Fin 10) (by decide) (by decide) (lane x) (pIdx k7 3 6) rfl
  rw [ex0, ex1, ex2, ex3, ew0, ew1, ew2, ew3]

/-- Row 7 after the sixteen outer trips, at the columns of inner trip `k`, the lanes read: the entry at the start
    plus, over the outer trips and their four features, the rectified entry of the half times the packed weight. -/
theorem acc7_row7_value (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off155 k0_t4 k) S1x16.size (k0_off155_inb k0_t4 k)).emb x) : EReal)
      = f0 ((Rect.unit (s := S10x512) (k0_off155 k0_t4 k) S1x16.size (k0_off155_inb k0_t4 k)).emb x) + ∑ k7 : Fin k0_t7_loop.trips,
          (max (halfM d L k0_t4 g (rIdx k (lane x) k7 0)) 0 * fp (pIdx k7 0 7) + max (halfM d L k0_t4 g (rIdx k (lane x) k7 1)) 0 * fp (pIdx k7 1 7)
            + max (halfM d L k0_t4 g (rIdx k (lane x) k7 2)) 0 * fp (pIdx k7 2 7) + max (halfM d L k0_t4 g (rIdx k (lane x) k7 3)) 0 * fp (pIdx k7 3 7) : EReal) := by
  rw [acc7_row7_closed]
  refine congrArg (HAdd.hAdd _) (Finset.sum_congr rfl fun k7 _ => ?_)
  have ex0 := xU0_lane d L k0_t4 g v3 hv3 k7 k (H115 k7 k) (lane x) (rIdx k (lane x) k7 0) rfl rfl
  have ew0 : (wU (F := Ideal) fp k7 0#32 7#32 (by decide) (by decide) (lane x) : EReal) = fp (pIdx k7 0 7) := wU_lane (F := Ideal) fp k7 (0 : Fin 4) (7 : Fin 10) (by decide) (by decide) (lane x) (pIdx k7 0 7) rfl
  have ex1 := xU1_lane d L k0_t4 g v3 hv3 k7 k (H116 k7 k) (lane x) (rIdx k (lane x) k7 1) rfl rfl
  have ew1 : (wU (F := Ideal) fp k7 1#32 7#32 (by decide) (by decide) (lane x) : EReal) = fp (pIdx k7 1 7) := wU_lane (F := Ideal) fp k7 (1 : Fin 4) (7 : Fin 10) (by decide) (by decide) (lane x) (pIdx k7 1 7) rfl
  have ex2 := xU2_lane d L k0_t4 g v3 hv3 k7 k (H117 k7 k) (lane x) (rIdx k (lane x) k7 2) rfl rfl
  have ew2 : (wU (F := Ideal) fp k7 2#32 7#32 (by decide) (by decide) (lane x) : EReal) = fp (pIdx k7 2 7) := wU_lane (F := Ideal) fp k7 (2 : Fin 4) (7 : Fin 10) (by decide) (by decide) (lane x) (pIdx k7 2 7) rfl
  have ex3 := xU3_lane d L k0_t4 g v3 hv3 k7 k (H118 k7 k) (lane x) (rIdx k (lane x) k7 3) rfl rfl
  have ew3 : (wU (F := Ideal) fp k7 3#32 7#32 (by decide) (by decide) (lane x) : EReal) = fp (pIdx k7 3 7) := wU_lane (F := Ideal) fp k7 (3 : Fin 4) (7 : Fin 10) (by decide) (by decide) (lane x) (pIdx k7 3 7) rfl
  rw [ex0, ex1, ex2, ex3, ew0, ew1, ew2, ew3]

/-- Row 8 after the sixteen outer trips, at the columns of inner trip `k`, the lanes read: the entry at the start
    plus, over the outer trips and their four features, the rectified entry of the half times the packed weight. -/
theorem acc7_row8_value (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off156 k0_t4 k) S1x16.size (k0_off156_inb k0_t4 k)).emb x) : EReal)
      = f0 ((Rect.unit (s := S10x512) (k0_off156 k0_t4 k) S1x16.size (k0_off156_inb k0_t4 k)).emb x) + ∑ k7 : Fin k0_t7_loop.trips,
          (max (halfM d L k0_t4 g (rIdx k (lane x) k7 0)) 0 * fp (pIdx k7 0 8) + max (halfM d L k0_t4 g (rIdx k (lane x) k7 1)) 0 * fp (pIdx k7 1 8)
            + max (halfM d L k0_t4 g (rIdx k (lane x) k7 2)) 0 * fp (pIdx k7 2 8) + max (halfM d L k0_t4 g (rIdx k (lane x) k7 3)) 0 * fp (pIdx k7 3 8) : EReal) := by
  rw [acc7_row8_closed]
  refine congrArg (HAdd.hAdd _) (Finset.sum_congr rfl fun k7 _ => ?_)
  have ex0 := xU0_lane d L k0_t4 g v3 hv3 k7 k (H115 k7 k) (lane x) (rIdx k (lane x) k7 0) rfl rfl
  have ew0 : (wU (F := Ideal) fp k7 0#32 8#32 (by decide) (by decide) (lane x) : EReal) = fp (pIdx k7 0 8) := wU_lane (F := Ideal) fp k7 (0 : Fin 4) (8 : Fin 10) (by decide) (by decide) (lane x) (pIdx k7 0 8) rfl
  have ex1 := xU1_lane d L k0_t4 g v3 hv3 k7 k (H116 k7 k) (lane x) (rIdx k (lane x) k7 1) rfl rfl
  have ew1 : (wU (F := Ideal) fp k7 1#32 8#32 (by decide) (by decide) (lane x) : EReal) = fp (pIdx k7 1 8) := wU_lane (F := Ideal) fp k7 (1 : Fin 4) (8 : Fin 10) (by decide) (by decide) (lane x) (pIdx k7 1 8) rfl
  have ex2 := xU2_lane d L k0_t4 g v3 hv3 k7 k (H117 k7 k) (lane x) (rIdx k (lane x) k7 2) rfl rfl
  have ew2 : (wU (F := Ideal) fp k7 2#32 8#32 (by decide) (by decide) (lane x) : EReal) = fp (pIdx k7 2 8) := wU_lane (F := Ideal) fp k7 (2 : Fin 4) (8 : Fin 10) (by decide) (by decide) (lane x) (pIdx k7 2 8) rfl
  have ex3 := xU3_lane d L k0_t4 g v3 hv3 k7 k (H118 k7 k) (lane x) (rIdx k (lane x) k7 3) rfl rfl
  have ew3 : (wU38 (F := Ideal) fp k7 (lane x) : EReal) = fp (pIdx k7 3 8) := wU38_lane (F := Ideal) fp k7 (lane x) (pIdx k7 3 8) rfl
  rw [ex0, ex1, ex2, ex3, ew0, ew1, ew2, ew3]

/-- Row 9 after the sixteen outer trips, at the columns of inner trip `k`, the lanes read: the entry at the start
    plus, over the outer trips and their four features, the rectified entry of the half times the packed weight. -/
theorem acc7_row9_value (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off157 k0_t4 k) S1x16.size (k0_off157_inb k0_t4 k)).emb x) : EReal)
      = f0 ((Rect.unit (s := S10x512) (k0_off157 k0_t4 k) S1x16.size (k0_off157_inb k0_t4 k)).emb x) + ∑ k7 : Fin k0_t7_loop.trips,
          (max (halfM d L k0_t4 g (rIdx k (lane x) k7 0)) 0 * fp (pIdx k7 0 9) + max (halfM d L k0_t4 g (rIdx k (lane x) k7 1)) 0 * fp (pIdx k7 1 9)
            + max (halfM d L k0_t4 g (rIdx k (lane x) k7 2)) 0 * fp (pIdx k7 2 9) + max (halfM d L k0_t4 g (rIdx k (lane x) k7 3)) 0 * fp (pIdx k7 3 9) : EReal) := by
  rw [acc7_row9_closed]
  refine congrArg (HAdd.hAdd _) (Finset.sum_congr rfl fun k7 _ => ?_)
  have ex0 := xU0_lane d L k0_t4 g v3 hv3 k7 k (H115 k7 k) (lane x) (rIdx k (lane x) k7 0) rfl rfl
  have ew0 : (wU (F := Ideal) fp k7 0#32 9#32 (by decide) (by decide) (lane x) : EReal) = fp (pIdx k7 0 9) := wU_lane (F := Ideal) fp k7 (0 : Fin 4) (9 : Fin 10) (by decide) (by decide) (lane x) (pIdx k7 0 9) rfl
  have ex1 := xU1_lane d L k0_t4 g v3 hv3 k7 k (H116 k7 k) (lane x) (rIdx k (lane x) k7 1) rfl rfl
  have ew1 : (wU (F := Ideal) fp k7 1#32 9#32 (by decide) (by decide) (lane x) : EReal) = fp (pIdx k7 1 9) := wU_lane (F := Ideal) fp k7 (1 : Fin 4) (9 : Fin 10) (by decide) (by decide) (lane x) (pIdx k7 1 9) rfl
  have ex2 := xU2_lane d L k0_t4 g v3 hv3 k7 k (H117 k7 k) (lane x) (rIdx k (lane x) k7 2) rfl rfl
  have ew2 : (wU (F := Ideal) fp k7 2#32 9#32 (by decide) (by decide) (lane x) : EReal) = fp (pIdx k7 2 9) := wU_lane (F := Ideal) fp k7 (2 : Fin 4) (9 : Fin 10) (by decide) (by decide) (lane x) (pIdx k7 2 9) rfl
  have ex3 := xU3_lane d L k0_t4 g v3 hv3 k7 k (H118 k7 k) (lane x) (rIdx k (lane x) k7 3) rfl rfl
  have ew3 : (wU39 (F := Ideal) fp k7 (lane x) : EReal) = fp (pIdx k7 3 9) := wU39_lane (F := Ideal) fp k7 (lane x) (pIdx k7 3 9) rfl
  rw [ex0, ex1, ex2, ex3, ew0, ew1, ew2, ew3]

end XLane

end Cert.Proof.KI

end
-- ==== Proof.KValL1UCols.lean ====
/-
  The first-layer nest on the user half as one sum over the half's columns. The sixteen outer trips read four columns
  each, 64 in all, so the accumulator's entry for hidden unit `h` and the sample in row `16·k + l` of the half ends at
  what it held at the start plus the sum over the 64 columns `c` of the rectified entry `(16·k + l, c)` of the half times
  entry `c·10 + h` of the packed parameters — the first layer's weight `W1[c, h]`.
-/
import Idealize.ShloMosaic.Lib.ValueIdx
import proofs.«214512_g89103391522852_cont_sun_m_1157_25_alg».proof.Proof.KValL1UValue

noncomputable section

namespace Cert.Proof.KI

open Cert.KernelIdeal Cert.KernelIdeal.Gen

open Idealize.ShloMosaic
open Idealize.ShloMosaic.SparseCore (S V T)
open Idealize.ShloMosaic.SparseCore.Cfg (HIx)

variable {F : FTy → Type} [FloatOps F]

local notation "parS" => (Memref.whole Cert.KernelIdeal.cc0_scratch4 : Memref Cert.KernelIdeal.sig Kind.scVector Space.vmem Cert.KernelIdeal.S1312 EltTy.f32)

/-! ## The sixteen outer trips' four features each are the half's sixty-four columns -/

section Reindex

open scoped BigOperators

theorem sum_blocks4 (t : ℕ → EReal) (n : ℕ) :
    ∑ i ∈ Finset.range n, (t (4 * i) + t (4 * i + 1) + t (4 * i + 2) + t (4 * i + 3)) = ∑ c ∈ Finset.range (4 * n), t c := by
  induction n with
  | zero => simp
  | succ n ih =>
    rw [Finset.sum_range_succ, ih, show 4 * (n + 1) = 4 * n + 1 + 1 + 1 + 1 by ring, Finset.sum_range_succ, Finset.sum_range_succ,
      Finset.sum_range_succ, Finset.sum_range_succ]
    simp only [add_assoc]

/-- A sum over the sixteen outer trips of four terms, one per feature of the trip, is the sum over the 64 columns. -/
theorem sum_trips_cols (A : Fin 64 → EReal) :
    ∑ k7 : Fin k0_t7_loop.trips,
        (A ⟨4 * k7.val + 0, by have := lt_of_lt_of_eq k7.isLt k0_t7_trips; omega⟩ + A ⟨4 * k7.val + 1, by have := lt_of_lt_of_eq k7.isLt k0_t7_trips; omega⟩
          + A ⟨4 * k7.val + 2, by have := lt_of_lt_of_eq k7.isLt k0_t7_trips; omega⟩ + A ⟨4 * k7.val + 3, by have := lt_of_lt_of_eq k7.isLt k0_t7_trips; omega⟩)
      = ∑ c : Fin 64, A c := by
  let A' : ℕ → EReal := fun c => if hc : c < 64 then A ⟨c, hc⟩ else 0
  have hA : ∀ c : Fin 64, A c = A' c.val := fun c => by simp only [A', dif_pos c.isLt]
  have hL : ∀ k7 : Fin k0_t7_loop.trips,
      (A ⟨4 * k7.val + 0, by have := lt_of_lt_of_eq k7.isLt k0_t7_trips; omega⟩ + A ⟨4 * k7.val + 1, by have := lt_of_lt_of_eq k7.isLt k0_t7_trips; omega⟩
          + A ⟨4 * k7.val + 2, by have := lt_of_lt_of_eq k7.isLt k0_t7_trips; omega⟩ + A ⟨4 * k7.val + 3, by have := lt_of_lt_of_eq k7.isLt k0_t7_trips; omega⟩)
        = (fun i : ℕ => A' (4 * i) + A' (4 * i + 1) + A' (4 * i + 2) + A' (4 * i + 3)) k7.val := fun k7 => by
    have h16 := lt_of_lt_of_eq k7.isLt k0_t7_trips
    simp only [A', Nat.add_zero]
    rw [dif_pos (show 4 * k7.val < 64 by omega), dif_pos (show 4 * k7.val + 1 < 64 by omega), dif_pos (show 4 * k7.val + 2 < 64 by omega),
      dif_pos (show 4 * k7.val + 3 < 64 by omega)]
  rw [Finset.sum_congr rfl (fun k7 _ => hL k7), Fin.sum_univ_eq_sum_range (fun i : ℕ => A' (4 * i) + A' (4 * i + 1) + A' (4 * i + 2) + A' (4 * i + 3)),
    k0_t7_trips, sum_blocks4 A' 16, Finset.sum_congr rfl (fun c _ => hA c), Fin.sum_univ_eq_sum_range A' 64]

end Reindex

section Cols

open scoped BigOperators

/-- Row `16·k + l` of the half at column `c`; entry `c·10 + h` of the parameters. -/
def rowIdx (k : Fin k0_t8_loop.trips) (l : S16.Idx) (c : Fin 64) : S128x64.Idx :=
  ValueIdx.ix2 (⟨16 * k.val + (l 0).val, by
      have h1 : k.val < 8 := lt_of_lt_of_eq k.isLt k0_t8_trips
      have h2 : (l 0).val < 16 := (l 0).isLt
      omega⟩ : Fin 128) c
def colP (c : Fin 64) (h : Fin 10) : S1312.Idx :=
  ValueIdx.ix1 (⟨c.val * 10 + h.val, by have h1 := c.isLt; have h2 := h.isLt; omega⟩ : Fin 1312)

variable (d : Dev nD) (L : grid0.Coords) (k0_t4 : Fin k0_t4_loop.trips) (g : Buf (Elt Ideal) ((halfU k0_t4).view.loc (thr d L)))
variable (v3 : IVec S16 32) (fp : S1312.Idx → Elt Ideal .f32)
variable (H115 : ∀ (k7 : Fin k0_t7_loop.trips) (k8 : Fin k0_t8_loop.trips), k0_chk115 (k0_pay66 v3 0#32 1#32 k8) (k0_pay67 (Scalar.muli (Scf.iv 0#32 1#32 k7) 4#32)))
variable (H116 : ∀ (k7 : Fin k0_t7_loop.trips) (k8 : Fin k0_t8_loop.trips), k0_chk116 (k0_pay66 v3 0#32 1#32 k8) (k0_pay69 (Scalar.muli (Scf.iv 0#32 1#32 k7) 4#32)))
variable (H117 : ∀ (k7 : Fin k0_t7_loop.trips) (k8 : Fin k0_t8_loop.trips), k0_chk117 (k0_pay66 v3 0#32 1#32 k8) (k0_pay71 (Scalar.muli (Scf.iv 0#32 1#32 k7) 4#32)))
variable (H118 : ∀ (k7 : Fin k0_t7_loop.trips) (k8 : Fin k0_t8_loop.trips), k0_chk118 (k0_pay66 v3 0#32 1#32 k8) (k0_pay73 (Scalar.muli (Scf.iv 0#32 1#32 k7) 4#32)))

/-- Row 0: the entry at the start plus, over the half's 64 columns, the rectified entry of the sample's row times
    the first layer's weight for this hidden unit. -/
theorem acc7_row0_cols (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off148 k0_t4 k) S1x16.size (k0_off148_inb k0_t4 k)).emb x) : EReal)
      = f0 ((Rect.unit (s := S10x512) (k0_off148 k0_t4 k) S1x16.size (k0_off148_inb k0_t4 k)).emb x) + ∑ c : Fin 64, (max (halfM d L k0_t4 g (rowIdx k (lane x) c)) 0 * fp (colP c 0) : EReal) := by
  rw [acc7_row0_value d L k0_t4 g v3 fp H115 H116 H117 H118 hv3 f0 k x,
    ← sum_trips_cols (fun c : Fin 64 => (max (halfM d L k0_t4 g (rowIdx k (lane x) c)) 0 * fp (colP c 0) : EReal))]
  rfl

/-- Row 1: the entry at the start plus, over the half's 64 columns, the rectified entry of the sample's row times
    the first layer's weight for this hidden unit. -/
theorem acc7_row1_cols (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off149 k0_t4 k) S1x16.size (k0_off149_inb k0_t4 k)).emb x) : EReal)
      = f0 ((Rect.unit (s := S10x512) (k0_off149 k0_t4 k) S1x16.size (k0_off149_inb k0_t4 k)).emb x) + ∑ c : Fin 64, (max (halfM d L k0_t4 g (rowIdx k (lane x) c)) 0 * fp (colP c 1) : EReal) := by
  rw [acc7_row1_value d L k0_t4 g v3 fp H115 H116 H117 H118 hv3 f0 k x,
    ← sum_trips_cols (fun c : Fin 64 => (max (halfM d L k0_t4 g (rowIdx k (lane x) c)) 0 * fp (colP c 1) : EReal))]
  rfl

/-- Row 2: the entry at the start plus, over the half's 64 columns, the rectified entry of the sample's row times
    the first layer's weight for this hidden unit. -/
theorem acc7_row2_cols (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off150 k0_t4 k) S1x16.size (k0_off150_inb k0_t4 k)).emb x) : EReal)
      = f0 ((Rect.unit (s := S10x512) (k0_off150 k0_t4 k) S1x16.size (k0_off150_inb k0_t4 k)).emb x) + ∑ c : Fin 64, (max (halfM d L k0_t4 g (rowIdx k (lane x) c)) 0 * fp (colP c 2) : EReal) := by
  rw [acc7_row2_value d L k0_t4 g v3 fp H115 H116 H117 H118 hv3 f0 k x,
    ← sum_trips_cols (fun c : Fin 64 => (max (halfM d L k0_t4 g (rowIdx k (lane x) c)) 0 * fp (colP c 2) : EReal))]
  rfl

/-- Row 3: the entry at the start plus, over the half's 64 columns, the rectified entry of the sample's row times
    the first layer's weight for this hidden unit. -/
theorem acc7_row3_cols (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off151 k0_t4 k) S1x16.size (k0_off151_inb k0_t4 k)).emb x) : EReal)
      = f0 ((Rect.unit (s := S10x512) (k0_off151 k0_t4 k) S1x16.size (k0_off151_inb k0_t4 k)).emb x) + ∑ c : Fin 64, (max (halfM d L k0_t4 g (rowIdx k (lane x) c)) 0 * fp (colP c 3) : EReal) := by
  rw [acc7_row3_value d L k0_t4 g v3 fp H115 H116 H117 H118 hv3 f0 k x,
    ← sum_trips_cols (fun c : Fin 64 => (max (halfM d L k0_t4 g (rowIdx k (lane x) c)) 0 * fp (colP c 3) : EReal))]
  rfl

/-- Row 4: the entry at the start plus, over the half's 64 columns, the rectified entry of the sample's row times
    the first layer's weight for this hidden unit. -/
theorem acc7_row4_cols (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off152 k0_t4 k) S1x16.size (k0_off152_inb k0_t4 k)).emb x) : EReal)
      = f0 ((Rect.unit (s := S10x512) (k0_off152 k0_t4 k) S1x16.size (k0_off152_inb k0_t4 k)).emb x) + ∑ c : Fin 64, (max (halfM d L k0_t4 g (rowIdx k (lane x) c)) 0 * fp (colP c 4) : EReal) := by
  rw [acc7_row4_value d L k0_t4 g v3 fp H115 H116 H117 H118 hv3 f0 k x,
    ← sum_trips_cols (fun c : Fin 64 => (max (halfM d L k0_t4 g (rowIdx k (lane x) c)) 0 * fp (colP c 4) : EReal))]
  rfl

/-- Row 5: the entry at the start plus, over the half's 64 columns, the rectified entry of the sample's row times
    the first layer's weight for this hidden unit. -/
theorem acc7_row5_cols (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off153 k0_t4 k) S1x16.size (k0_off153_inb k0_t4 k)).emb x) : EReal)
      = f0 ((Rect.unit (s := S10x512) (k0_off153 k0_t4 k) S1x16.size (k0_off153_inb k0_t4 k)).emb x) + ∑ c : Fin 64, (max (halfM d L k0_t4 g (rowIdx k (lane x) c)) 0 * fp (colP c 5) : EReal) := by
  rw [acc7_row5_value d L k0_t4 g v3 fp H115 H116 H117 H118 hv3 f0 k x,
    ← sum_trips_cols (fun c : Fin 64 => (max (halfM d L k0_t4 g (rowIdx k (lane x) c)) 0 * fp (colP c 5) : EReal))]
  rfl

/-- Row 6: the entry at the start plus, over the half's 64 columns, the rectified entry of the sample's row times
    the first layer's weight for this hidden unit. -/
theorem acc7_row6_cols (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off154 k0_t4 k) S1x16.size (k0_off154_inb k0_t4 k)).emb x) : EReal)
      = f0 ((Rect.unit (s := S10x512) (k0_off154 k0_t4 k) S1x16.size (k0_off154_inb k0_t4 k)).emb x) + ∑ c : Fin 64, (max (halfM d L k0_t4 g (rowIdx k (lane x) c)) 0 * fp (colP c 6) : EReal) := by
  rw [acc7_row6_value d L k0_t4 g v3 fp H115 H116 H117 H118 hv3 f0 k x,
    ← sum_trips_cols (fun c : Fin 64 => (max (halfM d L k0_t4 g (rowIdx k (lane x) c)) 0 * fp (colP c 6) : EReal))]
  rfl

/-- Row 7: the entry at the start plus, over the half's 64 columns, the rectified entry of the sample's row times
    the first layer's weight for this hidden unit. -/
theorem acc7_row7_cols (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off155 k0_t4 k) S1x16.size (k0_off155_inb k0_t4 k)).emb x) : EReal)
      = f0 ((Rect.unit (s := S10x512) (k0_off155 k0_t4 k) S1x16.size (k0_off155_inb k0_t4 k)).emb x) + ∑ c : Fin 64, (max (halfM d L k0_t4 g (rowIdx k (lane x) c)) 0 * fp (colP c 7) : EReal) := by
  rw [acc7_row7_value d L k0_t4 g v3 fp H115 H116 H117 H118 hv3 f0 k x,
    ← sum_trips_cols (fun c : Fin 64 => (max (halfM d L k0_t4 g (rowIdx k (lane x) c)) 0 * fp (colP c 7) : EReal))]
  rfl

/-- Row 8: the entry at the start plus, over the half's 64 columns, the rectified entry of the sample's row times
    the first layer's weight for this hidden unit. -/
theorem acc7_row8_cols (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off156 k0_t4 k) S1x16.size (k0_off156_inb k0_t4 k)).emb x) : EReal)
      = f0 ((Rect.unit (s := S10x512) (k0_off156 k0_t4 k) S1x16.size (k0_off156_inb k0_t4 k)).emb x) + ∑ c : Fin 64, (max (halfM d L k0_t4 g (rowIdx k (lane x) c)) 0 * fp (colP c 8) : EReal) := by
  rw [acc7_row8_value d L k0_t4 g v3 fp H115 H116 H117 H118 hv3 f0 k x,
    ← sum_trips_cols (fun c : Fin 64 => (max (halfM d L k0_t4 g (rowIdx k (lane x) c)) 0 * fp (colP c 8) : EReal))]
  rfl

/-- Row 9: the entry at the start plus, over the half's 64 columns, the rectified entry of the sample's row times
    the first layer's weight for this hidden unit. -/
theorem acc7_row9_cols (hv3 : v3 = iota .scVector S16 32 [0] Facts₀.iota_S16_d0_w32_scVector)
    (f0 : S10x512.Idx → Elt Ideal .f32) (k : Fin k0_t8_loop.trips) (x : S1x16.Idx) :
    (acc7 (F := Ideal) d L v3 k0_t4 fp g H115 H116 H117 H118 f0 k0_t7_loop.trips ((Rect.unit (s := S10x512) (k0_off157 k0_t4 k) S1x16.size (k0_off157_inb k0_t4 k)).emb x) : EReal)
      = f0 ((Rect.unit (s := S10x512) (k0_off157 k0_t4 k) S1x16.size (k0_off157_inb k0_t4 k)).emb x) + ∑ c : Fin 64, (max (halfM d L k0_t4 g (rowIdx k (lane x) c)) 0 * fp (colP c 9) : EReal) := by
  rw [acc7_row9_value d L k0_t4 g v3 fp H115 H116 H117 H118 hv3 f0 k x,
    ← sum_trips_cols (fun c : Fin 64 => (max (halfM d L k0_t4 g (rowIdx k (lane x) c)) 0 * fp (colP c 9) : EReal))]
  rfl

end Cols

end Cert.Proof.KI

end
-- ==== Proof.KValL1UApply.lean ====
/-
  The user half of the first layer, entry by entry. For hidden unit `h` and column `j` of the accumulator inside the
  chunk's 128 columns, the sixteen outer trips leave the entry at what it held at the start plus the sum over the half's
  64 columns `c` of the rectified entry `(j - 128·chunk, c)` of the half times entry `c·10 + h` of the packed parameters;
  outside the chunk's columns they leave every entry as it was.
-/
import Idealize.ShloMosaic.Lib.ValueIdx
import proofs.«214512_g89103391522852_cont_sun_m_1157_25_alg».proof.Proof.KValL1UCols

noncomputable section

namespace Cert.Proof.KI

open Cert.KernelIdeal Cert.KernelIdeal.Gen

open Idealize.ShloMosaic
open Idealize.ShloMosaic.SparseCore (S V T)
open Idealize.ShloMosaic.SparseCore.Cfg (HIx)

variable {F : FTy → Type} [FloatOps F]

local notation "parS" => (Memref.whole Cert.KernelIdeal.cc0_scratch4 : Memref Cert.KernelIdeal.sig Kind.scVector Space.vmem Cert.KernelIdeal.S1312 EltTy.f32)

section Apply

open scoped BigOperators

variable (d : Dev nD) (L : grid0.Coords) (k0_t4 : Fin k0_t4_loop.trips) (g : Buf (Elt Ideal) ((halfU k0_t4).view.loc (thr d L)))
variable (v3 : IVec S16 32) (fp : S1312.Idx → Elt Ideal .f32)
variable (H115 : ∀ (k7 : Fin k0_t7_loop.trips) (k8 : Fin k0_t8_loop.trips), k0_chk115 (k0_pay66 v3 0#32 1#32 k8) (k0_pay67 (Scalar.muli (Scf.iv 0#32 1#32 k7) 4#32)))
variable (H116 : ∀ (k7 : Fin k0_t7_loop.trips) (k8 : Fin k0_t8_loop.trips), k0_chk116 (k0_pay66 v3 0#32 1#32 k8) (k0_pay69 (Scalar.muli (Scf.iv 0#32 1#32 k7) 4#32)))
variable (H117 : ∀ (k7 : Fin k0_t7_loop.trips) (k8 : Fin k0_t8_loop.trips), k0_chk117 (k0_pay66 v3 0#32 1#32 k8) (k0_pay71 (Scalar.muli (Scf.iv 0#32 1#32 k7) 4#32)))
variable (H118 : ∀ (k7 : Fin k0_t7_loop.trips) (k8 : Fin k0_t8_loop.trips), k0_chk118 (k0_pay66 v3 0#32 1#32 k8) (k0_pay73 (Scalar.muli (Scf.iv 0#32 1#32 k7) 4#32)))

/-- The user half of the first layer, at an entry of the chunk's columns: hidden unit `h`, column `j` of the
    accumulator with `128·c ≤ j < 128·c + 128` for the chunk `c`, that is the sample in row `j - 128·c` of the half. -/
theorem acc7_inside (hv3 : v3 = iota .scVector S16 32 [0] Facts₀.iota_S16_d0_w32_scVector)
    (f0 : S10x512.Idx → Elt Ideal .f32) (h : Fin 10) (j : Fin 512)
    (hlo : 128 * k0_t4.val ≤ j.val) (hhi : j.val < 128 * k0_t4.val + 128) :
    (acc7 (F := Ideal) d L v3 k0_t4 fp g H115 H116 H117 H118 f0 k0_t7_loop.trips (ValueIdx.ix2 h j) : EReal)
      = f0 (ValueIdx.ix2 h j) + ∑ c : Fin 64,
          (max (halfM d L k0_t4 g (ValueIdx.ix2 (⟨j.val - 128 * k0_t4.val, by omega⟩ : Fin 128) c)) 0 * fp (colP c h) : EReal) := by
  -- the inner trip and the lane of the column
  have h8 : (j.val - 128 * k0_t4.val) / 16 < k0_t8_loop.trips := by rw [k0_t8_trips]; omega
  let kq : Fin k0_t8_loop.trips := ⟨(j.val - 128 * k0_t4.val) / 16, h8⟩
  let xq : S1x16.Idx := ValueIdx.ix2 (0 : Fin 1) (⟨(j.val - 128 * k0_t4.val) % 16, Nat.mod_lt _ (by decide)⟩ : Fin 16)
  have hrow : ∀ c : Fin 64, rowIdx kq (lane xq) c = ValueIdx.ix2 (⟨j.val - 128 * k0_t4.val, by omega⟩ : Fin 128) c := fun c => by
    unfold rowIdx
    congr 1
    apply Fin.ext
    show 16 * ((j.val - 128 * k0_t4.val) / 16) + (j.val - 128 * k0_t4.val) % 16 = j.val - 128 * k0_t4.val
    omega
  fin_cases h
  · -- hidden unit 0
    show (acc7 (F := Ideal) d L v3 k0_t4 fp g H115 H116 H117 H118 f0 k0_t7_loop.trips (ValueIdx.ix2 (0 : Fin 10) j) : EReal)
      = f0 (ValueIdx.ix2 (0 : Fin 10) j) + ∑ c : Fin 64,
          (max (halfM d L k0_t4 g (ValueIdx.ix2 (⟨j.val - 128 * k0_t4.val, by omega⟩ : Fin 128) c)) 0 * fp (colP c (0 : Fin 10)) : EReal)
    have e : (ValueIdx.ix2 (0 : Fin 10) j : S10x512.Idx) = (Rect.unit (s := S10x512) (k0_off148 k0_t4 kq) S1x16.size (k0_off148_inb k0_t4 kq)).emb xq := by
      funext a
      apply Fin.ext
      fin_cases a
      · show 0 = (k0_off148 k0_t4 kq) 0 + 1 * 0
        rw [k0_off148_eq]; rfl
      · show j.val = (k0_off148 k0_t4 kq) 1 + 1 * ((j.val - 128 * k0_t4.val) % 16)
        rw [k0_off148_eq]
        show j.val = (128 * k0_t4.val + 16 * ((j.val - 128 * k0_t4.val) / 16)) + 1 * ((j.val - 128 * k0_t4.val) % 16)
        omega
    rw [e, acc7_row0_cols d L k0_t4 g v3 fp H115 H116 H117 H118 hv3 f0 kq xq]
    refine congrArg (HAdd.hAdd _) (Finset.sum_congr rfl fun c _ => ?_)
    rw [hrow c]
  · -- hidden unit 1
    show (acc7 (F := Ideal) d L v3 k0_t4 fp g H115 H116 H117 H118 f0 k0_t7_loop.trips (ValueIdx.ix2 (1 : Fin 10) j) : EReal)
      = f0 (ValueIdx.ix2 (1 : Fin 10) j) + ∑ c : Fin 64,
          (max (halfM d L k0_t4 g (ValueIdx.ix2 (⟨j.val - 128 * k0_t4.val, by omega⟩ : Fin 128) c)) 0 * fp (colP c (1 : Fin 10)) : EReal)
    have e : (ValueIdx.ix2 (1 : Fin 10) j : S10x512.Idx) = (Rect.unit (s := S10x512) (k0_off149 k0_t4 kq) S1x16.size (k0_off149_inb k0_t4 kq)).emb xq := by
      funext a
      apply Fin.ext
      fin_cases a
      · show 1 = (k0_off149 k0_t4 kq) 0 + 1 * 0
        rw [k0_off149_eq]; rfl
      · show j.val = (k0_off149 k0_t4 kq) 1 + 1 * ((j.val - 128 * k0_t4.val) % 16)
        rw [k0_off149_eq]
        show j.val = (128 * k0_t4.val + 16 * ((j.val - 128 * k0_t4.val) / 16)) + 1 * ((j.val - 128 * k0_t4.val) % 16)
        omega
    rw [e, acc7_row1_cols d L k0_t4 g v3 fp H115 H116 H117 H118 hv3 f0 kq xq]
    refine congrArg (HAdd.hAdd _) (Finset.sum_congr rfl fun c _ => ?_)
    rw [hrow c]
  · -- hidden unit 2
    show (acc7 (F := Ideal) d L v3 k0_t4 fp g H115 H116 H117 H118 f0 k0_t7_loop.trips (ValueIdx.ix2 (2 : Fin 10) j) : EReal)
      = f0 (ValueIdx.ix2 (2 : Fin 10) j) + ∑ c : Fin 64,
          (max (halfM d L k0_t4 g (ValueIdx.ix2 (⟨j.val - 128 * k0_t4.val, by omega⟩ : Fin 128) c)) 0 * fp (colP c (2 : Fin 10)) : EReal)
    have e : (ValueIdx.ix2 (2 : Fin 10) j : S10x512.Idx) = (Rect.unit (s := S10x512) (k0_off150 k0_t4 kq) S1x16.size (k0_off150_inb k0_t4 kq)).emb xq := by
      funext a
      apply Fin.ext
      fin_cases a
      · show 2 = (k0_off150 k0_t4 kq) 0 + 1 * 0
        rw [k0_off150_eq]; rfl
      · show j.val = (k0_off150 k0_t4 kq) 1 + 1 * ((j.val - 128 * k0_t4.val) % 16)
        rw [k0_off150_eq]
        show j.val = (128 * k0_t4.val + 16 * ((j.val - 128 * k0_t4.val) / 16)) + 1 * ((j.val - 128 * k0_t4.val) % 16)
        omega
    rw [e, acc7_row2_cols d L k0_t4 g v3 fp H115 H116 H117 H118 hv3 f0 kq xq]
    refine congrArg (HAdd.hAdd _) (Finset.sum_congr rfl fun c _ => ?_)
    rw [hrow c]
  · -- hidden unit 3
    show (acc7 (F := Ideal) d L v3 k0_t4 fp g H115 H116 H117 H118 f0 k0_t7_loop.trips (ValueIdx.ix2 (3 : Fin 10) j) : EReal)
      = f0 (ValueIdx.ix2 (3 : Fin 10) j) + ∑ c : Fin 64,
          (max (halfM d L k0_t4 g (ValueIdx.ix2 (⟨j.val - 128 * k0_t4.val, by omega⟩ : Fin 128) c)) 0 * fp (colP c (3 : Fin 10)) : EReal)
    have e : (ValueIdx.ix2 (3 : Fin 10) j : S10x512.Idx) = (Rect.unit (s := S10x512) (k0_off151 k0_t4 kq) S1x16.size (k0_off151_inb k0_t4 kq)).emb xq := by
      funext a
      apply Fin.ext
      fin_cases a
      · show 3 = (k0_off151 k0_t4 kq) 0 + 1 * 0
        rw [k0_off151_eq]; rfl
      · show j.val = (k0_off151 k0_t4 kq) 1 + 1 * ((j.val - 128 * k0_t4.val) % 16)
        rw [k0_off151_eq]
        show j.val = (128 * k0_t4.val + 16 * ((j.val - 128 * k0_t4.val) / 16)) + 1 * ((j.val - 128 * k0_t4.val) % 16)
        omega
    rw [e, acc7_row3_cols d L k0_t4 g v3 fp H115 H116 H117 H118 hv3 f0 kq xq]
    refine congrArg (HAdd.hAdd _) (Finset.sum_congr rfl fun c _ => ?_)
    rw [hrow c]
  · -- hidden unit 4
    show (acc7 (F := Ideal) d L v3 k0_t4 fp g H115 H116 H117 H118 f0 k0_t7_loop.trips (ValueIdx.ix2 (4 : Fin 10) j) : EReal)
      = f0 (ValueIdx.ix2 (4 : Fin 10) j) + ∑ c : Fin 64,
          (max (halfM d L k0_t4 g (ValueIdx.ix2 (⟨j.val - 128 * k0_t4.val, by omega⟩ : Fin 128) c)) 0 * fp (colP c (4 : Fin 10)) : EReal)
    have e : (ValueIdx.ix2 (4 : Fin 10) j : S10x512.Idx) = (Rect.unit (s := S10x512) (k0_off152 k0_t4 kq) S1x16.size (k0_off152_inb k0_t4 kq)).emb xq := by
      funext a
      apply Fin.ext
      fin_cases a
      · show 4 = (k0_off152 k0_t4 kq) 0 + 1 * 0
        rw [k0_off152_eq]; rfl
      · show j.val = (k0_off152 k0_t4 kq) 1 + 1 * ((j.val - 128 * k0_t4.val) % 16)
        rw [k0_off152_eq]
        show j.val = (128 * k0_t4.val + 16 * ((j.val - 128 * k0_t4.val) / 16)) + 1 * ((j.val - 128 * k0_t4.val) % 16)
        omega
    rw [e, acc7_row4_cols d L k0_t4 g v3 fp H115 H116 H117 H118 hv3 f0 kq xq]
    refine congrArg (HAdd.hAdd _) (Finset.sum_congr rfl fun c _ => ?_)
    rw [hrow c]
  · -- hidden unit 5
    show (acc7 (F := Ideal) d L v3 k0_t4 fp g H115 H116 H117 H118 f0 k0_t7_loop.trips (ValueIdx.ix2 (5 : Fin 10) j) : EReal)
      = f0 (ValueIdx.ix2 (5 : Fin 10) j) + ∑ c : Fin 64,
          (max (halfM d L k0_t4 g (ValueIdx.ix2 (⟨j.val - 128 * k0_t4.val, by omega⟩ : Fin 128) c)) 0 * fp (colP c (5 : Fin 10)) : EReal)
    have e : (ValueIdx.ix2 (5 : Fin 10) j : S10x512.Idx) = (Rect.unit (s := S10x512) (k0_off153 k0_t4 kq) S1x16.size (k0_off153_inb k0_t4 kq)).emb xq := by
      funext a
      apply Fin.ext
      fin_cases a
      · show 5 = (k0_off153 k0_t4 kq) 0 + 1 * 0
        rw [k0_off153_eq]; rfl
      · show j.val = (k0_off153 k0_t4 kq) 1 + 1 * ((j.val - 128 * k0_t4.val) % 16)
        rw [k0_off153_eq]
        show j.val = (128 * k0_t4.val + 16 * ((j.val - 128 * k0_t4.val) / 16)) + 1 * ((j.val - 128 * k0_t4.val) % 16)
        omega
    rw [e, acc7_row5_cols d L k0_t4 g v3 fp H115 H116 H117 H118 hv3 f0 kq xq]
    refine congrArg (HAdd.hAdd _) (Finset.sum_congr rfl fun c _ => ?_)
    rw [hrow c]
  · -- hidden unit 6
    show (acc7 (F := Ideal) d L v3 k0_t4 fp g H115 H116 H117 H118 f0 k0_t7_loop.trips (ValueIdx.ix2 (6 : Fin 10) j) : EReal)
      = f0 (ValueIdx.ix2 (6 : Fin 10) j) + ∑ c : Fin 64,
          (max (halfM d L k0_t4 g (ValueIdx.ix2 (⟨j.val - 128 * k0_t4.val, by omega⟩ : Fin 128) c)) 0 * fp (colP c (6 : Fin 10)) : EReal)
    have e : (ValueIdx.ix2 (6 : Fin 10) j : S10x512.Idx) = (Rect.unit (s := S10x512) (k0_off154 k0_t4 kq) S1x16.size (k0_off154_inb k0_t4 kq)).emb xq := by
      funext a
      apply Fin.ext
      fin_cases a
      · show 6 = (k0_off154 k0_t4 kq) 0 + 1 * 0
        rw [k0_off154_eq]; rfl
      · show j.val = (k0_off154 k0_t4 kq) 1 + 1 * ((j.val - 128 * k0_t4.val) % 16)
        rw [k0_off154_eq]
        show j.val = (128 * k0_t4.val + 16 * ((j.val - 128 * k0_t4.val) / 16)) + 1 * ((j.val - 128 * k0_t4.val) % 16)
        omega
    rw [e, acc7_row6_cols d L k0_t4 g v3 fp H115 H116 H117 H118 hv3 f0 kq xq]
    refine congrArg (HAdd.hAdd _) (Finset.sum_congr rfl fun c _ => ?_)
    rw [hrow c]
  · -- hidden unit 7
    show (acc7 (F := Ideal) d L v3 k0_t4 fp g H115 H116 H117 H118 f0 k0_t7_loop.trips (ValueIdx.ix2 (7 : Fin 10) j) : EReal)
      = f0 (ValueIdx.ix2 (7 : Fin 10) j) + ∑ c : Fin 64,
          (max (halfM d L k0_t4 g (ValueIdx.ix2 (⟨j.val - 128 * k0_t4.val, by omega⟩ : Fin 128) c)) 0 * fp (colP c (7 : Fin 10)) : EReal)
    have e : (ValueIdx.ix2 (7 : Fin 10) j : S10x512.Idx) = (Rect.unit (s := S10x512) (k0_off155 k0_t4 kq) S1x16.size (k0_off155_inb k0_t4 kq)).emb xq := by
      funext a
      apply Fin.ext
      fin_cases a
      · show 7 = (k0_off155 k0_t4 kq) 0 + 1 * 0
        rw [k0_off155_eq]; rfl
      · show j.val = (k0_off155 k0_t4 kq) 1 + 1 * ((j.val - 128 * k0_t4.val) % 16)
        rw [k0_off155_eq]
        show j.val = (128 * k0_t4.val + 16 * ((j.val - 128 * k0_t4.val) / 16)) + 1 * ((j.val - 128 * k0_t4.val) % 16)
        omega
    rw [e, acc7_row7_cols d L k0_t4 g v3 fp H115 H116 H117 H118 hv3 f0 kq xq]
    refine congrArg (HAdd.hAdd _) (Finset.sum_congr rfl fun c _ => ?_)
    rw [hrow c]
  · -- hidden unit 8
    show (acc7 (F := Ideal) d L v3 k0_t4 fp g H115 H116 H117 H118 f0 k0_t7_loop.trips (ValueIdx.ix2 (8 : Fin 10) j) : EReal)
      = f0 (ValueIdx.ix2 (8 : Fin 10) j) + ∑ c : Fin 64,
          (max (halfM d L k0_t4 g (ValueIdx.ix2 (⟨j.val - 128 * k0_t4.val, by omega⟩ : Fin 128) c)) 0 * fp (colP c (8 : Fin 10)) : EReal)
    have e : (ValueIdx.ix2 (8 : Fin 10) j : S10x512.Idx) = (Rect.unit (s := S10x512) (k0_off156 k0_t4 kq) S1x16.size (k0_off156_inb k0_t4 kq)).emb xq := by
      funext a
      apply Fin.ext
      fin_cases a
      · show 8 = (k0_off156 k0_t4 kq) 0 + 1 * 0
        rw [k0_off156_eq]; rfl
      · show j.val = (k0_off156 k0_t4 kq) 1 + 1 * ((j.val - 128 * k0_t4.val) % 16)
        rw [k0_off156_eq]
        show j.val = (128 * k0_t4.val + 16 * ((j.val - 128 * k0_t4.val) / 16)) + 1 * ((j.val - 128 * k0_t4.val) % 16)
        omega
    rw [e, acc7_row8_cols d L k0_t4 g v3 fp H115 H116 H117 H118 hv3 f0 kq xq]
    refine congrArg (HAdd.hAdd _) (Finset.sum_congr rfl fun c _ => ?_)
    rw [hrow c]
  · -- hidden unit 9
    show (acc7 (F := Ideal) d L v3 k0_t4 fp g H115 H116 H117 H118 f0 k0_t7_loop.trips (ValueIdx.ix2 (9 : Fin 10) j) : EReal)
      = f0 (ValueIdx.ix2 (9 : Fin 10) j) + ∑ c : Fin 64,
          (max (halfM d L k0_t4 g (ValueIdx.ix2 (⟨j.val - 128 * k0_t4.val, by omega⟩ : Fin 128) c)) 0 * fp (colP c (9 : Fin 10)) : EReal)
    have e : (ValueIdx.ix2 (9 : Fin 10) j : S10x512.Idx) = (Rect.unit (s := S10x512) (k0_off157 k0_t4 kq) S1x16.size (k0_off157_inb k0_t4 kq)).emb xq := by
      funext a
      apply Fin.ext
      fin_cases a
      · show 9 = (k0_off157 k0_t4 kq) 0 + 1 * 0
        rw [k0_off157_eq]; rfl
      · show j.val = (k0_off157 k0_t4 kq) 1 + 1 * ((j.val - 128 * k0_t4.val) % 16)
        rw [k0_off157_eq]
        show j.val = (128 * k0_t4.val + 16 * ((j.val - 128 * k0_t4.val) / 16)) + 1 * ((j.val - 128 * k0_t4.val) % 16)
        omega
    rw [e, acc7_row9_cols d L k0_t4 g v3 fp H115 H116 H117 H118 hv3 f0 kq xq]
    refine congrArg (HAdd.hAdd _) (Finset.sum_congr rfl fun c _ => ?_)
    rw [hrow c]

/-- Outside the chunk's columns nothing has changed. -/
theorem acc7_outside_ix (f0 : S10x512.Idx → Elt Ideal .f32) (h : Fin 10) (j : Fin 512)
    (hj : j.val < 128 * k0_t4.val ∨ 128 * k0_t4.val + 128 ≤ j.val) :
    acc7 (F := Ideal) d L v3 k0_t4 fp g H115 H116 H117 H118 f0 k0_t7_loop.trips (ValueIdx.ix2 h j) = f0 (ValueIdx.ix2 h j) :=
  acc7_outside (F := Ideal) d L v3 k0_t4 fp g H115 H116 H117 H118 f0 k0_t7_loop.trips k0_t7_trips.le (ValueIdx.ix2 h j) hj

end Apply

end Cert.Proof.KI

end
-- ==== Proof.KValL1IApply.lean ====
/-
  The item half of the first layer, entry by entry: the same nest as the user half on the other rows scratch, its
  weights the second 64 rows of the first layer's matrix. One inner trip writes ten row pieces of the accumulator, each
  lane the entry it held plus the four rectified features times that hidden unit's four weights; the trips of the two
  loops touch each entry of the chunk's 128 columns once per outer trip; at the exact instance, the lane numbers being
  the iota, the sixteen outer trips leave the entry for hidden unit `h` and column `j` at what it held at the start plus
  the sum over the half's 64 columns `c` of the rectified entry `(j - 128·chunk, c)` of the half times entry
  `640 + c·10 + h` of the packed parameters; outside the chunk's columns they leave every entry as it was.
-/
import proofs.«214512_g89103391522852_cont_sun_m_1157_25_alg».proof.Proof.KValL1UApply
import proofs.«214512_g89103391522852_cont_sun_m_1157_25_alg».proof.Proof.KValL1I9

noncomputable section

namespace Cert.Proof.KI

open Cert.KernelIdeal Cert.KernelIdeal.Gen

open Idealize.ShloMosaic
open Idealize.ShloMosaic.SparseCore (S V T)
open Idealize.ShloMosaic.SparseCore.Cfg (HIx)

variable {F : FTy → Type} [FloatOps F]

local notation "accS" => (Memref.whole Cert.KernelIdeal.cc0_scratch5 : Memref Cert.KernelIdeal.sig Kind.scVector Space.vmem Cert.KernelIdeal.S10x512 EltTy.f32)
local notation "parS" => (Memref.whole Cert.KernelIdeal.cc0_scratch4 : Memref Cert.KernelIdeal.sig Kind.scVector Space.vmem Cert.KernelIdeal.S1312 EltTy.f32)
theorem pay133_apply (w0 w1 w2 w3 x0 x1 x2 x3 : Vec F S16 .f32) (ld : Vec F S1x16 .f32) (l : S16.Idx) :
    k0_pay133 w0 w1 w2 w3 x0 x1 x2 x3 ld l = rowNew w0 w1 w2 w3 x0 x1 x2 x3 (shapeCast S16 ld Facts₀.shapeCasts_S1x16_S16 l) l := rfl
theorem pay134_apply (w0 w1 w2 w3 x0 x1 x2 x3 : Vec F S16 .f32) (ld : Vec F S1x16 .f32) (l : S16.Idx) :
    k0_pay134 w0 w1 w2 w3 x0 x1 x2 x3 ld l = rowNew w0 w1 w2 w3 x0 x1 x2 x3 (shapeCast S16 ld Facts₀.shapeCasts_S1x16_S16 l) l := rfl
theorem pay135_apply (w0 w1 w2 w3 x0 x1 x2 x3 : Vec F S16 .f32) (ld : Vec F S1x16 .f32) (l : S16.Idx) :
    k0_pay135 w0 w1 w2 w3 x0 x1 x2 x3 ld l = rowNew w0 w1 w2 w3 x0 x1 x2 x3 (shapeCast S16 ld Facts₀.shapeCasts_S1x16_S16 l) l := rfl
theorem pay136_apply (w0 w1 w2 w3 x0 x1 x2 x3 : Vec F S16 .f32) (ld : Vec F S1x16 .f32) (l : S16.Idx) :
    k0_pay136 w0 w1 w2 w3 x0 x1 x2 x3 ld l = rowNew w0 w1 w2 w3 x0 x1 x2 x3 (shapeCast S16 ld Facts₀.shapeCasts_S1x16_S16 l) l := rfl
theorem pay137_apply (w0 w1 w2 w3 x0 x1 x2 x3 : Vec F S16 .f32) (ld : Vec F S1x16 .f32) (l : S16.Idx) :
    k0_pay137 w0 w1 w2 w3 x0 x1 x2 x3 ld l = rowNew w0 w1 w2 w3 x0 x1 x2 x3 (shapeCast S16 ld Facts₀.shapeCasts_S1x16_S16 l) l := rfl
theorem pay138_apply (w0 w1 w2 w3 x0 x1 x2 x3 : Vec F S16 .f32) (ld : Vec F S1x16 .f32) (l : S16.Idx) :
    k0_pay138 w0 w1 w2 w3 x0 x1 x2 x3 ld l = rowNew w0 w1 w2 w3 x0 x1 x2 x3 (shapeCast S16 ld Facts₀.shapeCasts_S1x16_S16 l) l := rfl
theorem pay139_apply (w0 w1 w2 w3 x0 x1 x2 x3 : Vec F S16 .f32) (ld : Vec F S1x16 .f32) (l : S16.Idx) :
    k0_pay139 w0 w1 w2 w3 x0 x1 x2 x3 ld l = rowNew w0 w1 w2 w3 x0 x1 x2 x3 (shapeCast S16 ld Facts₀.shapeCasts_S1x16_S16 l) l := rfl
theorem pay140_apply (w0 w1 w2 w3 x0 x1 x2 x3 : Vec F S16 .f32) (ld : Vec F S1x16 .f32) (l : S16.Idx) :
    k0_pay140 w0 w1 w2 w3 x0 x1 x2 x3 ld l = rowNew w0 w1 w2 w3 x0 x1 x2 x3 (shapeCast S16 ld Facts₀.shapeCasts_S1x16_S16 l) l := rfl
theorem pay267_apply (w0 w1 w2 w3 x0 x1 x2 x3 : Vec F S16 .f32) (ld : Vec F S1x16 .f32) (l : S16.Idx) :
    k0_pay267 w1 w2 w3 x1 x2 x3 (k0_pay141 ld) (k0_pay142 w0 x0) l = rowNew w0 w1 w2 w3 x0 x1 x2 x3 (shapeCast S16 ld Facts₀.shapeCasts_S1x16_S16 l) l := rfl
theorem pay268_apply (w0 w1 w2 w3 x0 x1 x2 x3 : Vec F S16 .f32) (ld : Vec F S1x16 .f32) (l : S16.Idx) :
    k0_pay268 w0 w1 w2 w3 x0 x1 x2 x3 ld l = rowNew w0 w1 w2 w3 x0 x1 x2 x3 (shapeCast S16 ld Facts₀.shapeCasts_S1x16_S16 l) l := rfl

/-! ## One inner trip, read at an index -/

section Trip

variable [∀ e, Nonempty (Elt F e)] (d : Dev nD) (L : grid0.Coords)
variable (v3 : IVec S16 32) (v114 : BitVec 32) (k0_t4 : Fin k0_t4_loop.trips)
variable (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
variable (g : Buf (Elt F) ((halfI k0_t4).view.loc (thr d L))) (k : Fin k0_t10_loop.trips)
variable (c159 : k0_chk159 (k0_pay124 v3 0#32 1#32 k) (k0_pay125 v114)) (c160 : k0_chk160 (k0_pay124 v3 0#32 1#32 k) (k0_pay127 v114))
variable (c161 : k0_chk161 (k0_pay124 v3 0#32 1#32 k) (k0_pay129 v114)) (c162 : k0_chk162 (k0_pay124 v3 0#32 1#32 k) (k0_pay131 v114))

/-- The trip's ten writes, the last store first. -/
abbrev upd10List (f : S10x512.Idx → Elt F .f32) : List (View.Piece (Elt F) S10x512 .f32) :=
  [⟨Rect.unit (s := S10x512) (k0_off171 k0_t4 k) S1x16.size (k0_off171_inb k0_t4 k), shapeCast S1x16 (k0_pay268 v194 v274 v354 v434 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off171 k0_t4 k) S1x16.size (k0_off171_inb k0_t4 k)).toLoadRect f)) shapeCasts_S16_S1x16⟩,
      ⟨Rect.unit (s := S10x512) (k0_off170 k0_t4 k) S1x16.size (k0_off170_inb k0_t4 k), shapeCast S1x16 (k0_pay267 v266 v346 v426 (xI1 (F := F) d L v3 v114 k0_t4 g k c160) (xI2 (F := F) d L v3 v114 k0_t4 g k c161) (xI3 (F := F) d L v3 v114 k0_t4 g k c162) (k0_pay141 (View.readAt (Elt F) (Memref.whole cc0_scratch5).view (Rect.unit (s := S10x512) (k0_off170 k0_t4 k) S1x16.size (k0_off170_inb k0_t4 k)).toLoadRect f)) (k0_pay142 v186 (xI0 (F := F) d L v3 v114 k0_t4 g k c159))) shapeCasts_S16_S1x16⟩,
      ⟨Rect.unit (s := S10x512) (k0_off169 k0_t4 k) S1x16.size (k0_off169_inb k0_t4 k), shapeCast S1x16 (k0_pay140 v178 v258 v338 v418 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off169 k0_t4 k) S1x16.size (k0_off169_inb k0_t4 k)).toLoadRect f)) shapeCasts_S16_S1x16⟩,
      ⟨Rect.unit (s := S10x512) (k0_off168 k0_t4 k) S1x16.size (k0_off168_inb k0_t4 k), shapeCast S1x16 (k0_pay139 v170 v250 v330 v410 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off168 k0_t4 k) S1x16.size (k0_off168_inb k0_t4 k)).toLoadRect f)) shapeCasts_S16_S1x16⟩,
      ⟨Rect.unit (s := S10x512) (k0_off167 k0_t4 k) S1x16.size (k0_off167_inb k0_t4 k), shapeCast S1x16 (k0_pay138 v162 v242 v322 v402 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off167 k0_t4 k) S1x16.size (k0_off167_inb k0_t4 k)).toLoadRect f)) shapeCasts_S16_S1x16⟩,
      ⟨Rect.unit (s := S10x512) (k0_off166 k0_t4 k) S1x16.size (k0_off166_inb k0_t4 k), shapeCast S1x16 (k0_pay137 v154 v234 v314 v394 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off166 k0_t4 k) S1x16.size (k0_off166_inb k0_t4 k)).toLoadRect f)) shapeCasts_S16_S1x16⟩,
      ⟨Rect.unit (s := S10x512) (k0_off165 k0_t4 k) S1x16.size (k0_off165_inb k0_t4 k), shapeCast S1x16 (k0_pay136 v146 v226 v306 v386 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off165 k0_t4 k) S1x16.size (k0_off165_inb k0_t4 k)).toLoadRect f)) shapeCasts_S16_S1x16⟩,
      ⟨Rect.unit (s := S10x512) (k0_off164 k0_t4 k) S1x16.size (k0_off164_inb k0_t4 k), shapeCast S1x16 (k0_pay135 v138 v218 v298 v378 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off164 k0_t4 k) S1x16.size (k0_off164_inb k0_t4 k)).toLoadRect f)) shapeCasts_S16_S1x16⟩,
      ⟨Rect.unit (s := S10x512) (k0_off163 k0_t4 k) S1x16.size (k0_off163_inb k0_t4 k), shapeCast S1x16 (k0_pay134 v130 v210 v290 v370 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off163 k0_t4 k) S1x16.size (k0_off163_inb k0_t4 k)).toLoadRect f)) shapeCasts_S16_S1x16⟩,
      ⟨Rect.unit (s := S10x512) (k0_off162 k0_t4 k) S1x16.size (k0_off162_inb k0_t4 k), shapeCast S1x16 (k0_pay133 v122 v202 v282 v362 (xI0 (F := F) d L v3 v114 k0_t4 g k c159) (xI1 (F := F) d L v3 v114 k0_t4 g k c160) (xI2 (F := F) d L v3 v114 k0_t4 g k c161) (xI3 (F := F) d L v3 v114 k0_t4 g k c162) (View.readAt (Elt F) (Memref.whole cc0_scratch5).view (Rect.unit (s := S10x512) (k0_off162 k0_t4 k) S1x16.size (k0_off162_inb k0_t4 k)).toLoadRect f)) shapeCasts_S16_S1x16⟩]

theorem upd10_eq (f : S10x512.Idx → Elt F .f32) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f = (accS).view.writes (Elt F) f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) := rfl

/-- Row 0 of the accumulator after the trip, at the trip's sixteen columns. -/
theorem upd10_row0 (f : S10x512.Idx → Elt F .f32) (x : S1x16.Idx) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f ((Rect.unit (s := S10x512) (k0_off162 k0_t4 k) S1x16.size (k0_off162_inb k0_t4 k)).emb x)
      = rowNew v122 v202 v282 v362 (xI0 (F := F) d L v3 v114 k0_t4 g k c159) (xI1 (F := F) d L v3 v114 k0_t4 g k c160) (xI2 (F := F) d L v3 v114 k0_t4 g k c161) (xI3 (F := F) d L v3 v114 k0_t4 g k c162) (f ((Rect.unit (s := S10x512) (k0_off162 k0_t4 k) S1x16.size (k0_off162_inb k0_t4 k)).emb x)) (lane x) := by
  rw [upd10_eq]
  refine (read_writes_pick (accS).view f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) 9 (show 9 < 10 by decide) x ?_).trans ?_
  · intro i hi
    interval_cases i
    · exact row_piece_miss (k0_off162_inb k0_t4 k) (k0_off171_inb k0_t4 k) 0 9 _ _ (k0_off162_eq k0_t4 k) (k0_off171_eq k0_t4 k) (by decide) x
    · exact row_piece_miss (k0_off162_inb k0_t4 k) (k0_off170_inb k0_t4 k) 0 8 _ _ (k0_off162_eq k0_t4 k) (k0_off170_eq k0_t4 k) (by decide) x
    · exact row_piece_miss (k0_off162_inb k0_t4 k) (k0_off169_inb k0_t4 k) 0 7 _ _ (k0_off162_eq k0_t4 k) (k0_off169_eq k0_t4 k) (by decide) x
    · exact row_piece_miss (k0_off162_inb k0_t4 k) (k0_off168_inb k0_t4 k) 0 6 _ _ (k0_off162_eq k0_t4 k) (k0_off168_eq k0_t4 k) (by decide) x
    · exact row_piece_miss (k0_off162_inb k0_t4 k) (k0_off167_inb k0_t4 k) 0 5 _ _ (k0_off162_eq k0_t4 k) (k0_off167_eq k0_t4 k) (by decide) x
    · exact row_piece_miss (k0_off162_inb k0_t4 k) (k0_off166_inb k0_t4 k) 0 4 _ _ (k0_off162_eq k0_t4 k) (k0_off166_eq k0_t4 k) (by decide) x
    · exact row_piece_miss (k0_off162_inb k0_t4 k) (k0_off165_inb k0_t4 k) 0 3 _ _ (k0_off162_eq k0_t4 k) (k0_off165_eq k0_t4 k) (by decide) x
    · exact row_piece_miss (k0_off162_inb k0_t4 k) (k0_off164_inb k0_t4 k) 0 2 _ _ (k0_off162_eq k0_t4 k) (k0_off164_eq k0_t4 k) (by decide) x
    · exact row_piece_miss (k0_off162_inb k0_t4 k) (k0_off163_inb k0_t4 k) 0 1 _ _ (k0_off162_eq k0_t4 k) (k0_off163_eq k0_t4 k) (by decide) x
  · exact piece_apply _ f (k0_pay133 v122 v202 v282 v362 (xI0 (F := F) d L v3 v114 k0_t4 g k c159) (xI1 (F := F) d L v3 v114 k0_t4 g k c160) (xI2 (F := F) d L v3 v114 k0_t4 g k c161) (xI3 (F := F) d L v3 v114 k0_t4 g k c162)) (rowNew v122 v202 v282 v362 (xI0 (F := F) d L v3 v114 k0_t4 g k c159) (xI1 (F := F) d L v3 v114 k0_t4 g k c160) (xI2 (F := F) d L v3 v114 k0_t4 g k c161) (xI3 (F := F) d L v3 v114 k0_t4 g k c162)) (fun ld l => pay133_apply v122 v202 v282 v362 (xI0 (F := F) d L v3 v114 k0_t4 g k c159) (xI1 (F := F) d L v3 v114 k0_t4 g k c160) (xI2 (F := F) d L v3 v114 k0_t4 g k c161) (xI3 (F := F) d L v3 v114 k0_t4 g k c162) ld l) x

/-- Row 1 of the accumulator after the trip, at the trip's sixteen columns. -/
theorem upd10_row1 (f : S10x512.Idx → Elt F .f32) (x : S1x16.Idx) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f ((Rect.unit (s := S10x512) (k0_off163 k0_t4 k) S1x16.size (k0_off163_inb k0_t4 k)).emb x)
      = rowNew v130 v210 v290 v370 (xI0 (F := F) d L v3 v114 k0_t4 g k c159) (xI1 (F := F) d L v3 v114 k0_t4 g k c160) (xI2 (F := F) d L v3 v114 k0_t4 g k c161) (xI3 (F := F) d L v3 v114 k0_t4 g k c162) (f ((Rect.unit (s := S10x512) (k0_off163 k0_t4 k) S1x16.size (k0_off163_inb k0_t4 k)).emb x)) (lane x) := by
  rw [upd10_eq]
  refine (read_writes_pick (accS).view f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) 8 (show 8 < 10 by decide) x ?_).trans ?_
  · intro i hi
    interval_cases i
    · exact row_piece_miss (k0_off163_inb k0_t4 k) (k0_off171_inb k0_t4 k) 1 9 _ _ (k0_off163_eq k0_t4 k) (k0_off171_eq k0_t4 k) (by decide) x
    · exact row_piece_miss (k0_off163_inb k0_t4 k) (k0_off170_inb k0_t4 k) 1 8 _ _ (k0_off163_eq k0_t4 k) (k0_off170_eq k0_t4 k) (by decide) x
    · exact row_piece_miss (k0_off163_inb k0_t4 k) (k0_off169_inb k0_t4 k) 1 7 _ _ (k0_off163_eq k0_t4 k) (k0_off169_eq k0_t4 k) (by decide) x
    · exact row_piece_miss (k0_off163_inb k0_t4 k) (k0_off168_inb k0_t4 k) 1 6 _ _ (k0_off163_eq k0_t4 k) (k0_off168_eq k0_t4 k) (by decide) x
    · exact row_piece_miss (k0_off163_inb k0_t4 k) (k0_off167_inb k0_t4 k) 1 5 _ _ (k0_off163_eq k0_t4 k) (k0_off167_eq k0_t4 k) (by decide) x
    · exact row_piece_miss (k0_off163_inb k0_t4 k) (k0_off166_inb k0_t4 k) 1 4 _ _ (k0_off163_eq k0_t4 k) (k0_off166_eq k0_t4 k) (by decide) x
    · exact row_piece_miss (k0_off163_inb k0_t4 k) (k0_off165_inb k0_t4 k) 1 3 _ _ (k0_off163_eq k0_t4 k) (k0_off165_eq k0_t4 k) (by decide) x
    · exact row_piece_miss (k0_off163_inb k0_t4 k) (k0_off164_inb k0_t4 k) 1 2 _ _ (k0_off163_eq k0_t4 k) (k0_off164_eq k0_t4 k) (by decide) x
  · exact piece_apply _ f (k0_pay134 v130 v210 v290 v370 (xI0 (F := F) d L v3 v114 k0_t4 g k c159) (xI1 (F := F) d L v3 v114 k0_t4 g k c160) (xI2 (F := F) d L v3 v114 k0_t4 g k c161) (xI3 (F := F) d L v3 v114 k0_t4 g k c162)) (rowNew v130 v210 v290 v370 (xI0 (F := F) d L v3 v114 k0_t4 g k c159) (xI1 (F := F) d L v3 v114 k0_t4 g k c160) (xI2 (F := F) d L v3 v114 k0_t4 g k c161) (xI3 (F := F) d L v3 v114 k0_t4 g k c162)) (fun ld l => pay134_apply v130 v210 v290 v370 (xI0 (F := F) d L v3 v114 k0_t4 g k c159) (xI1 (F := F) d L v3 v114 k0_t4 g k c160) (xI2 (F := F) d L v3 v114 k0_t4 g k c161) (xI3 (F := F) d L v3 v114 k0_t4 g k c162) ld l) x

/-- Row 2 of the accumulator after the trip, at the trip's sixteen columns. -/
theorem upd10_row2 (f : S10x512.Idx → Elt F .f32) (x : S1x16.Idx) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f ((Rect.unit (s := S10x512) (k0_off164 k0_t4 k) S1x16.size (k0_off164_inb k0_t4 k)).emb x)
      = rowNew v138 v218 v298 v378 (xI0 (F := F) d L v3 v114 k0_t4 g k c159) (xI1 (F := F) d L v3 v114 k0_t4 g k c160) (xI2 (F := F) d L v3 v114 k0_t4 g k c161) (xI3 (F := F) d L v3 v114 k0_t4 g k c162) (f ((Rect.unit (s := S10x512) (k0_off164 k0_t4 k) S1x16.size (k0_off164_inb k0_t4 k)).emb x)) (lane x) := by
  rw [upd10_eq]
  refine (read_writes_pick (accS).view f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) 7 (show 7 < 10 by decide) x ?_).trans ?_
  · intro i hi
    interval_cases i
    · exact row_piece_miss (k0_off164_inb k0_t4 k) (k0_off171_inb k0_t4 k) 2 9 _ _ (k0_off164_eq k0_t4 k) (k0_off171_eq k0_t4 k) (by decide) x
    · exact row_piece_miss (k0_off164_inb k0_t4 k) (k0_off170_inb k0_t4 k) 2 8 _ _ (k0_off164_eq k0_t4 k) (k0_off170_eq k0_t4 k) (by decide) x
    · exact row_piece_miss (k0_off164_inb k0_t4 k) (k0_off169_inb k0_t4 k) 2 7 _ _ (k0_off164_eq k0_t4 k) (k0_off169_eq k0_t4 k) (by decide) x
    · exact row_piece_miss (k0_off164_inb k0_t4 k) (k0_off168_inb k0_t4 k) 2 6 _ _ (k0_off164_eq k0_t4 k) (k0_off168_eq k0_t4 k) (by decide) x
    · exact row_piece_miss (k0_off164_inb k0_t4 k) (k0_off167_inb k0_t4 k) 2 5 _ _ (k0_off164_eq k0_t4 k) (k0_off167_eq k0_t4 k) (by decide) x
    · exact row_piece_miss (k0_off164_inb k0_t4 k) (k0_off166_inb k0_t4 k) 2 4 _ _ (k0_off164_eq k0_t4 k) (k0_off166_eq k0_t4 k) (by decide) x
    · exact row_piece_miss (k0_off164_inb k0_t4 k) (k0_off165_inb k0_t4 k) 2 3 _ _ (k0_off164_eq k0_t4 k) (k0_off165_eq k0_t4 k) (by decide) x
  · exact piece_apply _ f (k0_pay135 v138 v218 v298 v378 (xI0 (F := F) d L v3 v114 k0_t4 g k c159) (xI1 (F := F) d L v3 v114 k0_t4 g k c160) (xI2 (F := F) d L v3 v114 k0_t4 g k c161) (xI3 (F := F) d L v3 v114 k0_t4 g k c162)) (rowNew v138 v218 v298 v378 (xI0 (F := F) d L v3 v114 k0_t4 g k c159) (xI1 (F := F) d L v3 v114 k0_t4 g k c160) (xI2 (F := F) d L v3 v114 k0_t4 g k c161) (xI3 (F := F) d L v3 v114 k0_t4 g k c162)) (fun ld l => pay135_apply v138 v218 v298 v378 (xI0 (F := F) d L v3 v114 k0_t4 g k c159) (xI1 (F := F) d L v3 v114 k0_t4 g k c160) (xI2 (F := F) d L v3 v114 k0_t4 g k c161) (xI3 (F := F) d L v3 v114 k0_t4 g k c162) ld l) x

/-- Row 3 of the accumulator after the trip, at the trip's sixteen columns. -/
theorem upd10_row3 (f : S10x512.Idx → Elt F .f32) (x : S1x16.Idx) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f ((Rect.unit (s := S10x512) (k0_off165 k0_t4 k) S1x16.size (k0_off165_inb k0_t4 k)).emb x)
      = rowNew v146 v226 v306 v386 (xI0 (F := F) d L v3 v114 k0_t4 g k c159) (xI1 (F := F) d L v3 v114 k0_t4 g k c160) (xI2 (F := F) d L v3 v114 k0_t4 g k c161) (xI3 (F := F) d L v3 v114 k0_t4 g k c162) (f ((Rect.unit (s := S10x512) (k0_off165 k0_t4 k) S1x16.size (k0_off165_inb k0_t4 k)).emb x)) (lane x) := by
  rw [upd10_eq]
  refine (read_writes_pick (accS).view f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) 6 (show 6 < 10 by decide) x ?_).trans ?_
  · intro i hi
    interval_cases i
    · exact row_piece_miss (k0_off165_inb k0_t4 k) (k0_off171_inb k0_t4 k) 3 9 _ _ (k0_off165_eq k0_t4 k) (k0_off171_eq k0_t4 k) (by decide) x
    · exact row_piece_miss (k0_off165_inb k0_t4 k) (k0_off170_inb k0_t4 k) 3 8 _ _ (k0_off165_eq k0_t4 k) (k0_off170_eq k0_t4 k) (by decide) x
    · exact row_piece_miss (k0_off165_inb k0_t4 k) (k0_off169_inb k0_t4 k) 3 7 _ _ (k0_off165_eq k0_t4 k) (k0_off169_eq k0_t4 k) (by decide) x
    · exact row_piece_miss (k0_off165_inb k0_t4 k) (k0_off168_inb k0_t4 k) 3 6 _ _ (k0_off165_eq k0_t4 k) (k0_off168_eq k0_t4 k) (by decide) x
    · exact row_piece_miss (k0_off165_inb k0_t4 k) (k0_off167_inb k0_t4 k) 3 5 _ _ (k0_off165_eq k0_t4 k) (k0_off167_eq k0_t4 k) (by decide) x
    · exact row_piece_miss (k0_off165_inb k0_t4 k) (k0_off166_inb k0_t4 k) 3 4 _ _ (k0_off165_eq k0_t4 k) (k0_off166_eq k0_t4 k) (by decide) x
  · exact piece_apply _ f (k0_pay136 v146 v226 v306 v386 (xI0 (F := F) d L v3 v114 k0_t4 g k c159) (xI1 (F := F) d L v3 v114 k0_t4 g k c160) (xI2 (F := F) d L v3 v114 k0_t4 g k c161) (xI3 (F := F) d L v3 v114 k0_t4 g k c162)) (rowNew v146 v226 v306 v386 (xI0 (F := F) d L v3 v114 k0_t4 g k c159) (xI1 (F := F) d L v3 v114 k0_t4 g k c160) (xI2 (F := F) d L v3 v114 k0_t4 g k c161) (xI3 (F := F) d L v3 v114 k0_t4 g k c162)) (fun ld l => pay136_apply v146 v226 v306 v386 (xI0 (F := F) d L v3 v114 k0_t4 g k c159) (xI1 (F := F) d L v3 v114 k0_t4 g k c160) (xI2 (F := F) d L v3 v114 k0_t4 g k c161) (xI3 (F := F) d L v3 v114 k0_t4 g k c162) ld l) x

/-- Row 4 of the accumulator after the trip, at the trip's sixteen columns. -/
theorem upd10_row4 (f : S10x512.Idx → Elt F .f32) (x : S1x16.Idx) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f ((Rect.unit (s := S10x512) (k0_off166 k0_t4 k) S1x16.size (k0_off166_inb k0_t4 k)).emb x)
      = rowNew v154 v234 v314 v394 (xI0 (F := F) d L v3 v114 k0_t4 g k c159) (xI1 (F := F) d L v3 v114 k0_t4 g k c160) (xI2 (F := F) d L v3 v114 k0_t4 g k c161) (xI3 (F := F) d L v3 v114 k0_t4 g k c162) (f ((Rect.unit (s := S10x512) (k0_off166 k0_t4 k) S1x16.size (k0_off166_inb k0_t4 k)).emb x)) (lane x) := by
  rw [upd10_eq]
  refine (read_writes_pick (accS).view f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) 5 (show 5 < 10 by decide) x ?_).trans ?_
  · intro i hi
    interval_cases i
    · exact row_piece_miss (k0_off166_inb k0_t4 k) (k0_off171_inb k0_t4 k) 4 9 _ _ (k0_off166_eq k0_t4 k) (k0_off171_eq k0_t4 k) (by decide) x
    · exact row_piece_miss (k0_off166_inb k0_t4 k) (k0_off170_inb k0_t4 k) 4 8 _ _ (k0_off166_eq k0_t4 k) (k0_off170_eq k0_t4 k) (by decide) x
    · exact row_piece_miss (k0_off166_inb k0_t4 k) (k0_off169_inb k0_t4 k) 4 7 _ _ (k0_off166_eq k0_t4 k) (k0_off169_eq k0_t4 k) (by decide) x
    · exact row_piece_miss (k0_off166_inb k0_t4 k) (k0_off168_inb k0_t4 k) 4 6 _ _ (k0_off166_eq k0_t4 k) (k0_off168_eq k0_t4 k) (by decide) x
    · exact row_piece_miss (k0_off166_inb k0_t4 k) (k0_off167_inb k0_t4 k) 4 5 _ _ (k0_off166_eq k0_t4 k) (k0_off167_eq k0_t4 k) (by decide) x
  · exact piece_apply _ f (k0_pay137 v154 v234 v314 v394 (xI0 (F := F) d L v3 v114 k0_t4 g k c159) (xI1 (F := F) d L v3 v114 k0_t4 g k c160) (xI2 (F := F) d L v3 v114 k0_t4 g k c161) (xI3 (F := F) d L v3 v114 k0_t4 g k c162)) (rowNew v154 v234 v314 v394 (xI0 (F := F) d L v3 v114 k0_t4 g k c159) (xI1 (F := F) d L v3 v114 k0_t4 g k c160) (xI2 (F := F) d L v3 v114 k0_t4 g k c161) (xI3 (F := F) d L v3 v114 k0_t4 g k c162)) (fun ld l => pay137_apply v154 v234 v314 v394 (xI0 (F := F) d L v3 v114 k0_t4 g k c159) (xI1 (F := F) d L v3 v114 k0_t4 g k c160) (xI2 (F := F) d L v3 v114 k0_t4 g k c161) (xI3 (F := F) d L v3 v114 k0_t4 g k c162) ld l) x

/-- Row 5 of the accumulator after the trip, at the trip's sixteen columns. -/
theorem upd10_row5 (f : S10x512.Idx → Elt F .f32) (x : S1x16.Idx) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f ((Rect.unit (s := S10x512) (k0_off167 k0_t4 k) S1x16.size (k0_off167_inb k0_t4 k)).emb x)
      = rowNew v162 v242 v322 v402 (xI0 (F := F) d L v3 v114 k0_t4 g k c159) (xI1 (F := F) d L v3 v114 k0_t4 g k c160) (xI2 (F := F) d L v3 v114 k0_t4 g k c161) (xI3 (F := F) d L v3 v114 k0_t4 g k c162) (f ((Rect.unit (s := S10x512) (k0_off167 k0_t4 k) S1x16.size (k0_off167_inb k0_t4 k)).emb x)) (lane x) := by
  rw [upd10_eq]
  refine (read_writes_pick (accS).view f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) 4 (show 4 < 10 by decide) x ?_).trans ?_
  · intro i hi
    interval_cases i
    · exact row_piece_miss (k0_off167_inb k0_t4 k) (k0_off171_inb k0_t4 k) 5 9 _ _ (k0_off167_eq k0_t4 k) (k0_off171_eq k0_t4 k) (by decide) x
    · exact row_piece_miss (k0_off167_inb k0_t4 k) (k0_off170_inb k0_t4 k) 5 8 _ _ (k0_off167_eq k0_t4 k) (k0_off170_eq k0_t4 k) (by decide) x
    · exact row_piece_miss (k0_off167_inb k0_t4 k) (k0_off169_inb k0_t4 k) 5 7 _ _ (k0_off167_eq k0_t4 k) (k0_off169_eq k0_t4 k) (by decide) x
    · exact row_piece_miss (k0_off167_inb k0_t4 k) (k0_off168_inb k0_t4 k) 5 6 _ _ (k0_off167_eq k0_t4 k) (k0_off168_eq k0_t4 k) (by decide) x
  · exact piece_apply _ f (k0_pay138 v162 v242 v322 v402 (xI0 (F := F) d L v3 v114 k0_t4 g k c159) (xI1 (F := F) d L v3 v114 k0_t4 g k c160) (xI2 (F := F) d L v3 v114 k0_t4 g k c161) (xI3 (F := F) d L v3 v114 k0_t4 g k c162)) (rowNew v162 v242 v322 v402 (xI0 (F := F) d L v3 v114 k0_t4 g k c159) (xI1 (F := F) d L v3 v114 k0_t4 g k c160) (xI2 (F := F) d L v3 v114 k0_t4 g k c161) (xI3 (F := F) d L v3 v114 k0_t4 g k c162)) (fun ld l => pay138_apply v162 v242 v322 v402 (xI0 (F := F) d L v3 v114 k0_t4 g k c159) (xI1 (F := F) d L v3 v114 k0_t4 g k c160) (xI2 (F := F) d L v3 v114 k0_t4 g k c161) (xI3 (F := F) d L v3 v114 k0_t4 g k c162) ld l) x

/-- Row 6 of the accumulator after the trip, at the trip's sixteen columns. -/
theorem upd10_row6 (f : S10x512.Idx → Elt F .f32) (x : S1x16.Idx) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f ((Rect.unit (s := S10x512) (k0_off168 k0_t4 k) S1x16.size (k0_off168_inb k0_t4 k)).emb x)
      = rowNew v170 v250 v330 v410 (xI0 (F := F) d L v3 v114 k0_t4 g k c159) (xI1 (F := F) d L v3 v114 k0_t4 g k c160) (xI2 (F := F) d L v3 v114 k0_t4 g k c161) (xI3 (F := F) d L v3 v114 k0_t4 g k c162) (f ((Rect.unit (s := S10x512) (k0_off168 k0_t4 k) S1x16.size (k0_off168_inb k0_t4 k)).emb x)) (lane x) := by
  rw [upd10_eq]
  refine (read_writes_pick (accS).view f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) 3 (show 3 < 10 by decide) x ?_).trans ?_
  · intro i hi
    interval_cases i
    · exact row_piece_miss (k0_off168_inb k0_t4 k) (k0_off171_inb k0_t4 k) 6 9 _ _ (k0_off168_eq k0_t4 k) (k0_off171_eq k0_t4 k) (by decide) x
    · exact row_piece_miss (k0_off168_inb k0_t4 k) (k0_off170_inb k0_t4 k) 6 8 _ _ (k0_off168_eq k0_t4 k) (k0_off170_eq k0_t4 k) (by decide) x
    · exact row_piece_miss (k0_off168_inb k0_t4 k) (k0_off169_inb k0_t4 k) 6 7 _ _ (k0_off168_eq k0_t4 k) (k0_off169_eq k0_t4 k) (by decide) x
  · exact piece_apply _ f (k0_pay139 v170 v250 v330 v410 (xI0 (F := F) d L v3 v114 k0_t4 g k c159) (xI1 (F := F) d L v3 v114 k0_t4 g k c160) (xI2 (F := F) d L v3 v114 k0_t4 g k c161) (xI3 (F := F) d L v3 v114 k0_t4 g k c162)) (rowNew v170 v250 v330 v410 (xI0 (F := F) d L v3 v114 k0_t4 g k c159) (xI1 (F := F) d L v3 v114 k0_t4 g k c160) (xI2 (F := F) d L v3 v114 k0_t4 g k c161) (xI3 (F := F) d L v3 v114 k0_t4 g k c162)) (fun ld l => pay139_apply v170 v250 v330 v410 (xI0 (F := F) d L v3 v114 k0_t4 g k c159) (xI1 (F := F) d L v3 v114 k0_t4 g k c160) (xI2 (F := F) d L v3 v114 k0_t4 g k c161) (xI3 (F := F) d L v3 v114 k0_t4 g k c162) ld l) x

/-- Row 7 of the accumulator after the trip, at the trip's sixteen columns. -/
theorem upd10_row7 (f : S10x512.Idx → Elt F .f32) (x : S1x16.Idx) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f ((Rect.unit (s := S10x512) (k0_off169 k0_t4 k) S1x16.size (k0_off169_inb k0_t4 k)).emb x)
      = rowNew v178 v258 v338 v418 (xI0 (F := F) d L v3 v114 k0_t4 g k c159) (xI1 (F := F) d L v3 v114 k0_t4 g k c160) (xI2 (F := F) d L v3 v114 k0_t4 g k c161) (xI3 (F := F) d L v3 v114 k0_t4 g k c162) (f ((Rect.unit (s := S10x512) (k0_off169 k0_t4 k) S1x16.size (k0_off169_inb k0_t4 k)).emb x)) (lane x) := by
  rw [upd10_eq]
  refine (read_writes_pick (accS).view f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) 2 (show 2 < 10 by decide) x ?_).trans ?_
  · intro i hi
    interval_cases i
    · exact row_piece_miss (k0_off169_inb k0_t4 k) (k0_off171_inb k0_t4 k) 7 9 _ _ (k0_off169_eq k0_t4 k) (k0_off171_eq k0_t4 k) (by decide) x
    · exact row_piece_miss (k0_off169_inb k0_t4 k) (k0_off170_inb k0_t4 k) 7 8 _ _ (k0_off169_eq k0_t4 k) (k0_off170_eq k0_t4 k) (by decide) x
  · exact piece_apply _ f (k0_pay140 v178 v258 v338 v418 (xI0 (F := F) d L v3 v114 k0_t4 g k c159) (xI1 (F := F) d L v3 v114 k0_t4 g k c160) (xI2 (F := F) d L v3 v114 k0_t4 g k c161) (xI3 (F := F) d L v3 v114 k0_t4 g k c162)) (rowNew v178 v258 v338 v418 (xI0 (F := F) d L v3 v114 k0_t4 g k c159) (xI1 (F := F) d L v3 v114 k0_t4 g k c160) (xI2 (F := F) d L v3 v114 k0_t4 g k c161) (xI3 (F := F) d L v3 v114 k0_t4 g k c162)) (fun ld l => pay140_apply v178 v258 v338 v418 (xI0 (F := F) d L v3 v114 k0_t4 g k c159) (xI1 (F := F) d L v3 v114 k0_t4 g k c160) (xI2 (F := F) d L v3 v114 k0_t4 g k c161) (xI3 (F := F) d L v3 v114 k0_t4 g k c162) ld l) x

/-- Row 8 of the accumulator after the trip, at the trip's sixteen columns. -/
theorem upd10_row8 (f : S10x512.Idx → Elt F .f32) (x : S1x16.Idx) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f ((Rect.unit (s := S10x512) (k0_off170 k0_t4 k) S1x16.size (k0_off170_inb k0_t4 k)).emb x)
      = rowNew v186 v266 v346 v426 (xI0 (F := F) d L v3 v114 k0_t4 g k c159) (xI1 (F := F) d L v3 v114 k0_t4 g k c160) (xI2 (F := F) d L v3 v114 k0_t4 g k c161) (xI3 (F := F) d L v3 v114 k0_t4 g k c162) (f ((Rect.unit (s := S10x512) (k0_off170 k0_t4 k) S1x16.size (k0_off170_inb k0_t4 k)).emb x)) (lane x) := by
  rw [upd10_eq]
  refine (read_writes_pick (accS).view f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) 1 (show 1 < 10 by decide) x ?_).trans ?_
  · intro i hi
    interval_cases i
    · exact row_piece_miss (k0_off170_inb k0_t4 k) (k0_off171_inb k0_t4 k) 8 9 _ _ (k0_off170_eq k0_t4 k) (k0_off171_eq k0_t4 k) (by decide) x
  · exact piece_apply _ f (fun ld => k0_pay267 v266 v346 v426 (xI1 (F := F) d L v3 v114 k0_t4 g k c160) (xI2 (F := F) d L v3 v114 k0_t4 g k c161) (xI3 (F := F) d L v3 v114 k0_t4 g k c162) (k0_pay141 ld) (k0_pay142 v186 (xI0 (F := F) d L v3 v114 k0_t4 g k c159))) (rowNew v186 v266 v346 v426 (xI0 (F := F) d L v3 v114 k0_t4 g k c159) (xI1 (F := F) d L v3 v114 k0_t4 g k c160) (xI2 (F := F) d L v3 v114 k0_t4 g k c161) (xI3 (F := F) d L v3 v114 k0_t4 g k c162)) (fun ld l => pay267_apply v186 v266 v346 v426 (xI0 (F := F) d L v3 v114 k0_t4 g k c159) (xI1 (F := F) d L v3 v114 k0_t4 g k c160) (xI2 (F := F) d L v3 v114 k0_t4 g k c161) (xI3 (F := F) d L v3 v114 k0_t4 g k c162) ld l) x

/-- Row 9 of the accumulator after the trip, at the trip's sixteen columns. -/
theorem upd10_row9 (f : S10x512.Idx → Elt F .f32) (x : S1x16.Idx) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f ((Rect.unit (s := S10x512) (k0_off171 k0_t4 k) S1x16.size (k0_off171_inb k0_t4 k)).emb x)
      = rowNew v194 v274 v354 v434 (xI0 (F := F) d L v3 v114 k0_t4 g k c159) (xI1 (F := F) d L v3 v114 k0_t4 g k c160) (xI2 (F := F) d L v3 v114 k0_t4 g k c161) (xI3 (F := F) d L v3 v114 k0_t4 g k c162) (f ((Rect.unit (s := S10x512) (k0_off171 k0_t4 k) S1x16.size (k0_off171_inb k0_t4 k)).emb x)) (lane x) := by
  rw [upd10_eq]
  refine (read_writes_pick (accS).view f (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) 0 (show 0 < 10 by decide) x ?_).trans ?_
  · intro i hi; exact absurd hi (Nat.not_lt_zero _)
  · exact piece_apply _ f (k0_pay268 v194 v274 v354 v434 (xI0 (F := F) d L v3 v114 k0_t4 g k c159) (xI1 (F := F) d L v3 v114 k0_t4 g k c160) (xI2 (F := F) d L v3 v114 k0_t4 g k c161) (xI3 (F := F) d L v3 v114 k0_t4 g k c162)) (rowNew v194 v274 v354 v434 (xI0 (F := F) d L v3 v114 k0_t4 g k c159) (xI1 (F := F) d L v3 v114 k0_t4 g k c160) (xI2 (F := F) d L v3 v114 k0_t4 g k c161) (xI3 (F := F) d L v3 v114 k0_t4 g k c162)) (fun ld l => pay268_apply v194 v274 v354 v434 (xI0 (F := F) d L v3 v114 k0_t4 g k c159) (xI1 (F := F) d L v3 v114 k0_t4 g k c160) (xI2 (F := F) d L v3 v114 k0_t4 g k c161) (xI3 (F := F) d L v3 v114 k0_t4 g k c162) ld l) x

/-- Outside the trip's sixteen columns the accumulator is as before. -/
theorem upd10_outside (f : S10x512.Idx → Elt F .f32) (y : S10x512.Idx)
    (hy : (y 1).val < 128 * k0_t4.val + 16 * k.val ∨ 128 * k0_t4.val + 16 * k.val + 16 ≤ (y 1).val) :
    upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f y = f y := by
  rw [upd10_eq]
  refine View.read_writes_apply_of_forall_not_mem (accS).view f y (upd10List (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k c159 c160 c161 c162 f) ?_
  intro p hp
  simp only [List.mem_cons, List.not_mem_nil, or_false] at hp
  rcases hp with rfl | rfl | rfl | rfl | rfl | rfl | rfl | rfl | rfl | rfl
  · intro hm; rw [Rect.mem_set_unit, k0_off171_eq] at hm
    have H1 : 128 * k0_t4.val + 16 * k.val ≤ (y 1).val ∧ (y 1).val < 128 * k0_t4.val + 16 * k.val + 16 := hm 1
    omega
  · intro hm; rw [Rect.mem_set_unit, k0_off170_eq] at hm
    have H1 : 128 * k0_t4.val + 16 * k.val ≤ (y 1).val ∧ (y 1).val < 128 * k0_t4.val + 16 * k.val + 16 := hm 1
    omega
  · intro hm; rw [Rect.mem_set_unit, k0_off169_eq] at hm
    have H1 : 128 * k0_t4.val + 16 * k.val ≤ (y 1).val ∧ (y 1).val < 128 * k0_t4.val + 16 * k.val + 16 := hm 1
    omega
  · intro hm; rw [Rect.mem_set_unit, k0_off168_eq] at hm
    have H1 : 128 * k0_t4.val + 16 * k.val ≤ (y 1).val ∧ (y 1).val < 128 * k0_t4.val + 16 * k.val + 16 := hm 1
    omega
  · intro hm; rw [Rect.mem_set_unit, k0_off167_eq] at hm
    have H1 : 128 * k0_t4.val + 16 * k.val ≤ (y 1).val ∧ (y 1).val < 128 * k0_t4.val + 16 * k.val + 16 := hm 1
    omega
  · intro hm; rw [Rect.mem_set_unit, k0_off166_eq] at hm
    have H1 : 128 * k0_t4.val + 16 * k.val ≤ (y 1).val ∧ (y 1).val < 128 * k0_t4.val + 16 * k.val + 16 := hm 1
    omega
  · intro hm; rw [Rect.mem_set_unit, k0_off165_eq] at hm
    have H1 : 128 * k0_t4.val + 16 * k.val ≤ (y 1).val ∧ (y 1).val < 128 * k0_t4.val + 16 * k.val + 16 := hm 1
    omega
  · intro hm; rw [Rect.mem_set_unit, k0_off164_eq] at hm
    have H1 : 128 * k0_t4.val + 16 * k.val ≤ (y 1).val ∧ (y 1).val < 128 * k0_t4.val + 16 * k.val + 16 := hm 1
    omega
  · intro hm; rw [Rect.mem_set_unit, k0_off163_eq] at hm
    have H1 : 128 * k0_t4.val + 16 * k.val ≤ (y 1).val ∧ (y 1).val < 128 * k0_t4.val + 16 * k.val + 16 := hm 1
    omega
  · intro hm; rw [Rect.mem_set_unit, k0_off162_eq] at hm
    have H1 : 128 * k0_t4.val + 16 * k.val ≤ (y 1).val ∧ (y 1).val < 128 * k0_t4.val + 16 * k.val + 16 := hm 1
    omega

end Trip

/-! ## The inner loop's trips, read at an index -/

section Fold

variable [∀ e, Nonempty (Elt F e)] (d : Dev nD) (L : grid0.Coords)
variable (v3 : IVec S16 32) (v114 : BitVec 32) (k0_t4 : Fin k0_t4_loop.trips)
variable (v122 v130 v138 v146 v154 v162 v170 v178 v186 v194 v202 v210 v218 v226 v234 v242 v250 v258 v266 v274 v282 v290 v298 v306 v314 v322 v330 v338 v346 v354 v362 v370 v378 v386 v394 v402 v410 v418 v426 v434 : Vec F S16 .f32)
variable (g : Buf (Elt F) ((halfI k0_t4).view.loc (thr d L)))
variable (h159 : ∀ k8 : Fin k0_t10_loop.trips, k0_chk159 (k0_pay124 v3 0#32 1#32 k8) (k0_pay125 v114))
variable (h160 : ∀ k8 : Fin k0_t10_loop.trips, k0_chk160 (k0_pay124 v3 0#32 1#32 k8) (k0_pay127 v114))
variable (h161 : ∀ k8 : Fin k0_t10_loop.trips, k0_chk161 (k0_pay124 v3 0#32 1#32 k8) (k0_pay129 v114))
variable (h162 : ∀ k8 : Fin k0_t10_loop.trips, k0_chk162 (k0_pay124 v3 0#32 1#32 k8) (k0_pay131 v114))

omit [FloatOps F] [∀ e, Nonempty (Elt F e)] in
theorem k0_t10_trips : k0_t10_loop.trips = 8 := by decide

/-- Outside the first `n` trips' columns the accumulator is as at the start. -/
theorem acc10_outside (f0 : S10x512.Idx → Elt F .f32) (n : ℕ) (hn : n ≤ 8) (y : S10x512.Idx)
    (hy : (y 1).val < 128 * k0_t4.val ∨ 128 * k0_t4.val + 16 * n ≤ (y 1).val) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n y = f0 y := by
  induction n with
  | zero => rfl
  | succ n ih =>
    have hlt : n < k0_t10_loop.trips := by rw [k0_t10_trips]; omega
    rw [show n + 1 = (⟨n, hlt⟩ : Fin k0_t10_loop.trips).val + 1 from rfl, acc10_succ,
      upd10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g ⟨n, hlt⟩ (h159 ⟨n, hlt⟩) (h160 ⟨n, hlt⟩) (h161 ⟨n, hlt⟩) (h162 ⟨n, hlt⟩) _ y
        (by show (y 1).val < 128 * k0_t4.val + 16 * n ∨ 128 * k0_t4.val + 16 * n + 16 ≤ (y 1).val; omega)]
    exact ih (by omega) (by omega)

/-- In the columns of trip `k < n` only trip `k` has written. -/
theorem acc10_block (f0 : S10x512.Idx → Elt F .f32) (n : ℕ) (hn : n ≤ 8) (k : Fin k0_t10_loop.trips) (hk : k.val < n) (y : S10x512.Idx)
    (hy : 128 * k0_t4.val + 16 * k.val ≤ (y 1).val ∧ (y 1).val < 128 * k0_t4.val + 16 * k.val + 16) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n y = upd10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g k (h159 k) (h160 k) (h161 k) (h162 k) (acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val) y := by
  induction n with
  | zero => exact absurd hk (Nat.not_lt_zero _)
  | succ n ih =>
    have hlt : n < k0_t10_loop.trips := by rw [k0_t10_trips]; omega
    rcases Nat.lt_or_ge k.val n with h1 | h1
    · rw [show n + 1 = (⟨n, hlt⟩ : Fin k0_t10_loop.trips).val + 1 from rfl, acc10_succ,
        upd10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g ⟨n, hlt⟩ (h159 ⟨n, hlt⟩) (h160 ⟨n, hlt⟩) (h161 ⟨n, hlt⟩) (h162 ⟨n, hlt⟩) _ y
          (by show (y 1).val < 128 * k0_t4.val + 16 * n ∨ 128 * k0_t4.val + 16 * n + 16 ≤ (y 1).val; omega)]
      exact ih (by omega) h1
    · have e : k = ⟨n, hlt⟩ := Fin.ext (by show k.val = n; omega)
      subst e
      exact congrFun (acc10_succ (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 ⟨n, hlt⟩) y

/-- Row 0 after `n` trips, at the columns of a trip `k < n`. -/
theorem acc10_row0 (f0 : S10x512.Idx → Elt F .f32) (n : ℕ) (hn : n ≤ 8) (k : Fin k0_t10_loop.trips) (hk : k.val < n) (x : S1x16.Idx) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n ((Rect.unit (s := S10x512) (k0_off162 k0_t4 k) S1x16.size (k0_off162_inb k0_t4 k)).emb x)
      = rowNew v122 v202 v282 v362 (xI0 (F := F) d L v3 v114 k0_t4 g k (h159 k)) (xI1 (F := F) d L v3 v114 k0_t4 g k (h160 k)) (xI2 (F := F) d L v3 v114 k0_t4 g k (h161 k)) (xI3 (F := F) d L v3 v114 k0_t4 g k (h162 k)) (f0 ((Rect.unit (s := S10x512) (k0_off162 k0_t4 k) S1x16.size (k0_off162_inb k0_t4 k)).emb x)) (lane x) := by
  have hc := col_emb (k0_off162_inb k0_t4 k) 0 (128 * k0_t4.val + 16 * k.val) (k0_off162_eq k0_t4 k) x
  have hx : (x 1).val < 16 := (x 1).isLt
  rw [acc10_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n hn k hk _ (by omega),
    upd10_row0,
    acc10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val (by omega) _ (Or.inr (by omega))]

/-- Row 1 after `n` trips, at the columns of a trip `k < n`. -/
theorem acc10_row1 (f0 : S10x512.Idx → Elt F .f32) (n : ℕ) (hn : n ≤ 8) (k : Fin k0_t10_loop.trips) (hk : k.val < n) (x : S1x16.Idx) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n ((Rect.unit (s := S10x512) (k0_off163 k0_t4 k) S1x16.size (k0_off163_inb k0_t4 k)).emb x)
      = rowNew v130 v210 v290 v370 (xI0 (F := F) d L v3 v114 k0_t4 g k (h159 k)) (xI1 (F := F) d L v3 v114 k0_t4 g k (h160 k)) (xI2 (F := F) d L v3 v114 k0_t4 g k (h161 k)) (xI3 (F := F) d L v3 v114 k0_t4 g k (h162 k)) (f0 ((Rect.unit (s := S10x512) (k0_off163 k0_t4 k) S1x16.size (k0_off163_inb k0_t4 k)).emb x)) (lane x) := by
  have hc := col_emb (k0_off163_inb k0_t4 k) 1 (128 * k0_t4.val + 16 * k.val) (k0_off163_eq k0_t4 k) x
  have hx : (x 1).val < 16 := (x 1).isLt
  rw [acc10_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n hn k hk _ (by omega),
    upd10_row1,
    acc10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val (by omega) _ (Or.inr (by omega))]

/-- Row 2 after `n` trips, at the columns of a trip `k < n`. -/
theorem acc10_row2 (f0 : S10x512.Idx → Elt F .f32) (n : ℕ) (hn : n ≤ 8) (k : Fin k0_t10_loop.trips) (hk : k.val < n) (x : S1x16.Idx) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n ((Rect.unit (s := S10x512) (k0_off164 k0_t4 k) S1x16.size (k0_off164_inb k0_t4 k)).emb x)
      = rowNew v138 v218 v298 v378 (xI0 (F := F) d L v3 v114 k0_t4 g k (h159 k)) (xI1 (F := F) d L v3 v114 k0_t4 g k (h160 k)) (xI2 (F := F) d L v3 v114 k0_t4 g k (h161 k)) (xI3 (F := F) d L v3 v114 k0_t4 g k (h162 k)) (f0 ((Rect.unit (s := S10x512) (k0_off164 k0_t4 k) S1x16.size (k0_off164_inb k0_t4 k)).emb x)) (lane x) := by
  have hc := col_emb (k0_off164_inb k0_t4 k) 2 (128 * k0_t4.val + 16 * k.val) (k0_off164_eq k0_t4 k) x
  have hx : (x 1).val < 16 := (x 1).isLt
  rw [acc10_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n hn k hk _ (by omega),
    upd10_row2,
    acc10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val (by omega) _ (Or.inr (by omega))]

/-- Row 3 after `n` trips, at the columns of a trip `k < n`. -/
theorem acc10_row3 (f0 : S10x512.Idx → Elt F .f32) (n : ℕ) (hn : n ≤ 8) (k : Fin k0_t10_loop.trips) (hk : k.val < n) (x : S1x16.Idx) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n ((Rect.unit (s := S10x512) (k0_off165 k0_t4 k) S1x16.size (k0_off165_inb k0_t4 k)).emb x)
      = rowNew v146 v226 v306 v386 (xI0 (F := F) d L v3 v114 k0_t4 g k (h159 k)) (xI1 (F := F) d L v3 v114 k0_t4 g k (h160 k)) (xI2 (F := F) d L v3 v114 k0_t4 g k (h161 k)) (xI3 (F := F) d L v3 v114 k0_t4 g k (h162 k)) (f0 ((Rect.unit (s := S10x512) (k0_off165 k0_t4 k) S1x16.size (k0_off165_inb k0_t4 k)).emb x)) (lane x) := by
  have hc := col_emb (k0_off165_inb k0_t4 k) 3 (128 * k0_t4.val + 16 * k.val) (k0_off165_eq k0_t4 k) x
  have hx : (x 1).val < 16 := (x 1).isLt
  rw [acc10_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n hn k hk _ (by omega),
    upd10_row3,
    acc10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val (by omega) _ (Or.inr (by omega))]

/-- Row 4 after `n` trips, at the columns of a trip `k < n`. -/
theorem acc10_row4 (f0 : S10x512.Idx → Elt F .f32) (n : ℕ) (hn : n ≤ 8) (k : Fin k0_t10_loop.trips) (hk : k.val < n) (x : S1x16.Idx) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n ((Rect.unit (s := S10x512) (k0_off166 k0_t4 k) S1x16.size (k0_off166_inb k0_t4 k)).emb x)
      = rowNew v154 v234 v314 v394 (xI0 (F := F) d L v3 v114 k0_t4 g k (h159 k)) (xI1 (F := F) d L v3 v114 k0_t4 g k (h160 k)) (xI2 (F := F) d L v3 v114 k0_t4 g k (h161 k)) (xI3 (F := F) d L v3 v114 k0_t4 g k (h162 k)) (f0 ((Rect.unit (s := S10x512) (k0_off166 k0_t4 k) S1x16.size (k0_off166_inb k0_t4 k)).emb x)) (lane x) := by
  have hc := col_emb (k0_off166_inb k0_t4 k) 4 (128 * k0_t4.val + 16 * k.val) (k0_off166_eq k0_t4 k) x
  have hx : (x 1).val < 16 := (x 1).isLt
  rw [acc10_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n hn k hk _ (by omega),
    upd10_row4,
    acc10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val (by omega) _ (Or.inr (by omega))]

/-- Row 5 after `n` trips, at the columns of a trip `k < n`. -/
theorem acc10_row5 (f0 : S10x512.Idx → Elt F .f32) (n : ℕ) (hn : n ≤ 8) (k : Fin k0_t10_loop.trips) (hk : k.val < n) (x : S1x16.Idx) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n ((Rect.unit (s := S10x512) (k0_off167 k0_t4 k) S1x16.size (k0_off167_inb k0_t4 k)).emb x)
      = rowNew v162 v242 v322 v402 (xI0 (F := F) d L v3 v114 k0_t4 g k (h159 k)) (xI1 (F := F) d L v3 v114 k0_t4 g k (h160 k)) (xI2 (F := F) d L v3 v114 k0_t4 g k (h161 k)) (xI3 (F := F) d L v3 v114 k0_t4 g k (h162 k)) (f0 ((Rect.unit (s := S10x512) (k0_off167 k0_t4 k) S1x16.size (k0_off167_inb k0_t4 k)).emb x)) (lane x) := by
  have hc := col_emb (k0_off167_inb k0_t4 k) 5 (128 * k0_t4.val + 16 * k.val) (k0_off167_eq k0_t4 k) x
  have hx : (x 1).val < 16 := (x 1).isLt
  rw [acc10_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n hn k hk _ (by omega),
    upd10_row5,
    acc10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val (by omega) _ (Or.inr (by omega))]

/-- Row 6 after `n` trips, at the columns of a trip `k < n`. -/
theorem acc10_row6 (f0 : S10x512.Idx → Elt F .f32) (n : ℕ) (hn : n ≤ 8) (k : Fin k0_t10_loop.trips) (hk : k.val < n) (x : S1x16.Idx) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n ((Rect.unit (s := S10x512) (k0_off168 k0_t4 k) S1x16.size (k0_off168_inb k0_t4 k)).emb x)
      = rowNew v170 v250 v330 v410 (xI0 (F := F) d L v3 v114 k0_t4 g k (h159 k)) (xI1 (F := F) d L v3 v114 k0_t4 g k (h160 k)) (xI2 (F := F) d L v3 v114 k0_t4 g k (h161 k)) (xI3 (F := F) d L v3 v114 k0_t4 g k (h162 k)) (f0 ((Rect.unit (s := S10x512) (k0_off168 k0_t4 k) S1x16.size (k0_off168_inb k0_t4 k)).emb x)) (lane x) := by
  have hc := col_emb (k0_off168_inb k0_t4 k) 6 (128 * k0_t4.val + 16 * k.val) (k0_off168_eq k0_t4 k) x
  have hx : (x 1).val < 16 := (x 1).isLt
  rw [acc10_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n hn k hk _ (by omega),
    upd10_row6,
    acc10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val (by omega) _ (Or.inr (by omega))]

/-- Row 7 after `n` trips, at the columns of a trip `k < n`. -/
theorem acc10_row7 (f0 : S10x512.Idx → Elt F .f32) (n : ℕ) (hn : n ≤ 8) (k : Fin k0_t10_loop.trips) (hk : k.val < n) (x : S1x16.Idx) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n ((Rect.unit (s := S10x512) (k0_off169 k0_t4 k) S1x16.size (k0_off169_inb k0_t4 k)).emb x)
      = rowNew v178 v258 v338 v418 (xI0 (F := F) d L v3 v114 k0_t4 g k (h159 k)) (xI1 (F := F) d L v3 v114 k0_t4 g k (h160 k)) (xI2 (F := F) d L v3 v114 k0_t4 g k (h161 k)) (xI3 (F := F) d L v3 v114 k0_t4 g k (h162 k)) (f0 ((Rect.unit (s := S10x512) (k0_off169 k0_t4 k) S1x16.size (k0_off169_inb k0_t4 k)).emb x)) (lane x) := by
  have hc := col_emb (k0_off169_inb k0_t4 k) 7 (128 * k0_t4.val + 16 * k.val) (k0_off169_eq k0_t4 k) x
  have hx : (x 1).val < 16 := (x 1).isLt
  rw [acc10_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n hn k hk _ (by omega),
    upd10_row7,
    acc10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val (by omega) _ (Or.inr (by omega))]

/-- Row 8 after `n` trips, at the columns of a trip `k < n`. -/
theorem acc10_row8 (f0 : S10x512.Idx → Elt F .f32) (n : ℕ) (hn : n ≤ 8) (k : Fin k0_t10_loop.trips) (hk : k.val < n) (x : S1x16.Idx) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n ((Rect.unit (s := S10x512) (k0_off170 k0_t4 k) S1x16.size (k0_off170_inb k0_t4 k)).emb x)
      = rowNew v186 v266 v346 v426 (xI0 (F := F) d L v3 v114 k0_t4 g k (h159 k)) (xI1 (F := F) d L v3 v114 k0_t4 g k (h160 k)) (xI2 (F := F) d L v3 v114 k0_t4 g k (h161 k)) (xI3 (F := F) d L v3 v114 k0_t4 g k (h162 k)) (f0 ((Rect.unit (s := S10x512) (k0_off170 k0_t4 k) S1x16.size (k0_off170_inb k0_t4 k)).emb x)) (lane x) := by
  have hc := col_emb (k0_off170_inb k0_t4 k) 8 (128 * k0_t4.val + 16 * k.val) (k0_off170_eq k0_t4 k) x
  have hx : (x 1).val < 16 := (x 1).isLt
  rw [acc10_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n hn k hk _ (by omega),
    upd10_row8,
    acc10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val (by omega) _ (Or.inr (by omega))]

/-- Row 9 after `n` trips, at the columns of a trip `k < n`. -/
theorem acc10_row9 (f0 : S10x512.Idx → Elt F .f32) (n : ℕ) (hn : n ≤ 8) (k : Fin k0_t10_loop.trips) (hk : k.val < n) (x : S1x16.Idx) :
    acc10 (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n ((Rect.unit (s := S10x512) (k0_off171 k0_t4 k) S1x16.size (k0_off171_inb k0_t4 k)).emb x)
      = rowNew v194 v274 v354 v434 (xI0 (F := F) d L v3 v114 k0_t4 g k (h159 k)) (xI1 (F := F) d L v3 v114 k0_t4 g k (h160 k)) (xI2 (F := F) d L v3 v114 k0_t4 g k (h161 k)) (xI3 (F := F) d L v3 v114 k0_t4 g k (h162 k)) (f0 ((Rect.unit (s := S10x512) (k0_off171 k0_t4 k) S1x16.size (k0_off171_inb k0_t4 k)).emb x)) (lane x) := by
  have hc := col_emb (k0_off171_inb k0_t4 k) 9 (128 * k0_t4.val + 16 * k.val) (k0_off171_eq k0_t4 k) x
  have hx : (x 1).val < 16 := (x 1).isLt
  rw [acc10_block (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 n hn k hk _ (by omega),
    upd10_row9,
    acc10_outside (F := F) d L v3 v114 k0_t4 v122 v130 v138 v146 v154 v162 v170 v178 v186 v194 v202 v210 v218 v226 v234 v242 v250 v258 v266 v274 v282 v290 v298 v306 v314 v322 v330 v338 v346 v354 v362 v370 v378 v386 v394 v402 v410 v418 v426 v434 g h159 h160 h161 h162 f0 k.val (by omega) _ (Or.inr (by omega))]

end Fold

/-! ## The outer loop's trips, read at an index -/

section Fold7

variable [∀ e, Nonempty (Elt F e)] (d : Dev nD) (L : grid0.Coords)
variable (v3 : IVec S16 32) (k0_t4 : Fin k0_t4_loop.trips) (fp : S1312.Idx → Elt F .f32)
variable (g : Buf (Elt F) ((halfI k0_t4).view.loc (thr d L)))
variable (H159 : ∀ (k7 : Fin k0_t9_loop.trips) (k8 : Fin k0_t10_loop.trips), k0_chk159 (k0_pay124 v3 0#32 1#32 k8) (k0_pay125 (Scalar.muli (Scf.iv 0#32 1#32 k7) 4#32)))
variable (H160 : ∀ (k7 : Fin k0_t9_loop.trips) (k8 : Fin k0_t10_loop.trips), k0_chk160 (k0_pay124 v3 0#32 1#32 k8) (k0_pay127 (Scalar.muli (Scf.iv 0#32 1#32 k7) 4#32)))
variable (H161 : ∀ (k7 : Fin k0_t9_loop.trips) (k8 : Fin k0_t10_loop.trips), k0_chk161 (k0_pay124 v3 0#32 1#32 k8) (k0_pay129 (Scalar.muli (Scf.iv 0#32 1#32 k7) 4#32)))
variable (H162 : ∀ (k7 : Fin k0_t9_loop.trips) (k8 : Fin k0_t10_loop.trips), k0_chk162 (k0_pay124 v3 0#32 1#32 k8) (k0_pay131 (Scalar.muli (Scf.iv 0#32 1#32 k7) 4#32)))

omit [FloatOps F] [∀ e, Nonempty (Elt F e)] in
theorem k0_t9_trips : k0_t9_loop.trips = 16 := by decide

/-- Outside the chunk's 128 columns the accumulator is as at the start, after any number of outer trips. -/
theorem acc9_outside (f0 : S10x512.Idx → Elt F .f32) (n : ℕ) (hn : n ≤ 16) (y : S10x512.Idx)
    (hy : (y 1).val < 128 * k0_t4.val ∨ 128 * k0_t4.val + 128 ≤ (y 1).val) :
    acc9 (F := F) d L v3 k0_t4 fp g H159 H160 H161 H162 f0 n y = f0 y := by
  induction n with
  | zero => rfl
  | succ n ih =>
    have hlt : n < k0_t9_loop.trips := by rw [k0_t9_trips]; omega
    rw [show n + 1 = (⟨n, hlt⟩ : Fin k0_t9_loop.trips).val + 1 from rfl, acc9_succ]
    refine Eq.trans ?_ (ih (by omega))
    unfold upd9
    refine acc10_outside (F := F) d L v3 _ k0_t4 _ _ _ _ _ _ _ _ _ _ _ _ _ _ _ _ _ _ _ _ _ _ _ _ _ _ _ _ _ _ _ _ _ _ _ _ _ _ _ _ g _ _ _ _ _ k0_t10_loop.trips k0_t10_trips.le y ?_
    rw [k0_t10_trips]; omega

/-- Row 0 after one more outer trip, at the columns of inner trip `k`: one update of the entry the trips before left. -/
theorem acc9_row0_succ (f0 : S10x512.Idx → Elt F .f32) (k7 : Fin k0_t9_loop.trips) (k : Fin k0_t10_loop.trips) (x : S1x16.Idx) :
    acc9 (F := F) d L v3 k0_t4 fp g H159 H160 H161 H162 f0 (k7.val + 1) ((Rect.unit (s := S10x512) (k0_off162 k0_t4 k) S1x16.size (k0_off162_inb k0_t4 k)).emb x)
      = rowNew (wI (F := F) fp k7 0#32 0#32 (by decide) (by decide)) (wI (F := F) fp k7 1#32 0#32 (by decide) (by decide)) (wI (F := F) fp k7 2#32 0#32 (by decide) (by decide)) (wI (F := F) fp k7 3#32 0#32 (by decide) (by decide)) (xI0 (F := F) d L v3 (Scalar.muli (Scf.iv 0#32 1#32 k7) 4#32) k0_t4 g k (H159 k7 k)) (xI1 (F := F) d L v3 (Scalar.muli (Scf.iv 0#32 1#32 k7) 4#32) k0_t4 g k (H160 k7 k)) (xI2 (F := F) d L v3 (Scalar.muli (Scf.iv 0#32 1#32 k7) 4#32) k0_t4 g k (H161 k7 k)) (xI3 (F := F) d L v3 (Scalar.muli (Scf.iv 0#32 1#32 k7) 4#32) k0_t4 g k (H162 k7 k))
          (acc9 (F := F) d L v3 k0_t4 fp g H159 H160 H161 H162 f0 k7.val ((Rect.unit (s := S10x512) (k0_off162 k0_t4 k) S1x16.size (k0_off162_inb k0_t4 k)).emb x)) (lane x) := by
  rw [acc9_succ]
  exact acc10_row0 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) _ k0_t10_loop.trips k0_t10_trips.le k k.isLt x

/-- Row 1 after one more outer trip, at the columns of inner trip `k`: one update of the entry the trips before left. -/
theorem acc9_row1_succ (f0 : S10x512.Idx → Elt F .f32) (k7 : Fin k0_t9_loop.trips) (k : Fin k0_t10_loop.trips) (x : S1x16.Idx) :
    acc9 (F := F) d L v3 k0_t4 fp g H159 H160 H161 H162 f0 (k7.val + 1) ((Rect.unit (s := S10x512) (k0_off163 k0_t4 k) S1x16.size (k0_off163_inb k0_t4 k)).emb x)
      = rowNew (wI (F := F) fp k7 0#32 1#32 (by decide) (by decide)) (wI (F := F) fp k7 1#32 1#32 (by decide) (by decide)) (wI (F := F) fp k7 2#32 1#32 (by decide) (by decide)) (wI (F := F) fp k7 3#32 1#32 (by decide) (by decide)) (xI0 (F := F) d L v3 (Scalar.muli (Scf.iv 0#32 1#32 k7) 4#32) k0_t4 g k (H159 k7 k)) (xI1 (F := F) d L v3 (Scalar.muli (Scf.iv 0#32 1#32 k7) 4#32) k0_t4 g k (H160 k7 k)) (xI2 (F := F) d L v3 (Scalar.muli (Scf.iv 0#32 1#32 k7) 4#32) k0_t4 g k (H161 k7 k)) (xI3 (F := F) d L v3 (Scalar.muli (Scf.iv 0#32 1#32 k7) 4#32) k0_t4 g k (H162 k7 k))
          (acc9 (F := F) d L v3 k0_t4 fp g H159 H160 H161 H162 f0 k7.val ((Rect.unit (s := S10x512) (k0_off163 k0_t4 k) S1x16.size (k0_off163_inb k0_t4 k)).emb x)) (lane x) := by
  rw [acc9_succ]
  exact acc10_row1 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) _ k0_t10_loop.trips k0_t10_trips.le k k.isLt x

/-- Row 2 after one more outer trip, at the columns of inner trip `k`: one update of the entry the trips before left. -/
theorem acc9_row2_succ (f0 : S10x512.Idx → Elt F .f32) (k7 : Fin k0_t9_loop.trips) (k : Fin k0_t10_loop.trips) (x : S1x16.Idx) :
    acc9 (F := F) d L v3 k0_t4 fp g H159 H160 H161 H162 f0 (k7.val + 1) ((Rect.unit (s := S10x512) (k0_off164 k0_t4 k) S1x16.size (k0_off164_inb k0_t4 k)).emb x)
      = rowNew (wI (F := F) fp k7 0#32 2#32 (by decide) (by decide)) (wI (F := F) fp k7 1#32 2#32 (by decide) (by decide)) (wI (F := F) fp k7 2#32 2#32 (by decide) (by decide)) (wI (F := F) fp k7 3#32 2#32 (by decide) (by decide)) (xI0 (F := F) d L v3 (Scalar.muli (Scf.iv 0#32 1#32 k7) 4#32) k0_t4 g k (H159 k7 k)) (xI1 (F := F) d L v3 (Scalar.muli (Scf.iv 0#32 1#32 k7) 4#32) k0_t4 g k (H160 k7 k)) (xI2 (F := F) d L v3 (Scalar.muli (Scf.iv 0#32 1#32 k7) 4#32) k0_t4 g k (H161 k7 k)) (xI3 (F := F) d L v3 (Scalar.muli (Scf.iv 0#32 1#32 k7) 4#32) k0_t4 g k (H162 k7 k))
          (acc9 (F := F) d L v3 k0_t4 fp g H159 H160 H161 H162 f0 k7.val ((Rect.unit (s := S10x512) (k0_off164 k0_t4 k) S1x16.size (k0_off164_inb k0_t4 k)).emb x)) (lane x) := by
  rw [acc9_succ]
  exact acc10_row2 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) _ k0_t10_loop.trips k0_t10_trips.le k k.isLt x

/-- Row 3 after one more outer trip, at the columns of inner trip `k`: one update of the entry the trips before left. -/
theorem acc9_row3_succ (f0 : S10x512.Idx → Elt F .f32) (k7 : Fin k0_t9_loop.trips) (k : Fin k0_t10_loop.trips) (x : S1x16.Idx) :
    acc9 (F := F) d L v3 k0_t4 fp g H159 H160 H161 H162 f0 (k7.val + 1) ((Rect.unit (s := S10x512) (k0_off165 k0_t4 k) S1x16.size (k0_off165_inb k0_t4 k)).emb x)
      = rowNew (wI (F := F) fp k7 0#32 3#32 (by decide) (by decide)) (wI (F := F) fp k7 1#32 3#32 (by decide) (by decide)) (wI (F := F) fp k7 2#32 3#32 (by decide) (by decide)) (wI (F := F) fp k7 3#32 3#32 (by decide) (by decide)) (xI0 (F := F) d L v3 (Scalar.muli (Scf.iv 0#32 1#32 k7) 4#32) k0_t4 g k (H159 k7 k)) (xI1 (F := F) d L v3 (Scalar.muli (Scf.iv 0#32 1#32 k7) 4#32) k0_t4 g k (H160 k7 k)) (xI2 (F := F) d L v3 (Scalar.muli (Scf.iv 0#32 1#32 k7) 4#32) k0_t4 g k (H161 k7 k)) (xI3 (F := F) d L v3 (Scalar.muli (Scf.iv 0#32 1#32 k7) 4#32) k0_t4 g k (H162 k7 k))
          (acc9 (F := F) d L v3 k0_t4 fp g H159 H160 H161 H162 f0 k7.val ((Rect.unit (s := S10x512) (k0_off165 k0_t4 k) S1x16.size (k0_off165_inb k0_t4 k)).emb x)) (lane x) := by
  rw [acc9_succ]
  exact acc10_row3 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) _ k0_t10_loop.trips k0_t10_trips.le k k.isLt x

/-- Row 4 after one more outer trip, at the columns of inner trip `k`: one update of the entry the trips before left. -/
theorem acc9_row4_succ (f0 : S10x512.Idx → Elt F .f32) (k7 : Fin k0_t9_loop.trips) (k : Fin k0_t10_loop.trips) (x : S1x16.Idx) :
    acc9 (F := F) d L v3 k0_t4 fp g H159 H160 H161 H162 f0 (k7.val + 1) ((Rect.unit (s := S10x512) (k0_off166 k0_t4 k) S1x16.size (k0_off166_inb k0_t4 k)).emb x)
      = rowNew (wI (F := F) fp k7 0#32 4#32 (by decide) (by decide)) (wI (F := F) fp k7 1#32 4#32 (by decide) (by decide)) (wI (F := F) fp k7 2#32 4#32 (by decide) (by decide)) (wI (F := F) fp k7 3#32 4#32 (by decide) (by decide)) (xI0 (F := F) d L v3 (Scalar.muli (Scf.iv 0#32 1#32 k7) 4#32) k0_t4 g k (H159 k7 k)) (xI1 (F := F) d L v3 (Scalar.muli (Scf.iv 0#32 1#32 k7) 4#32) k0_t4 g k (H160 k7 k)) (xI2 (F := F) d L v3 (Scalar.muli (Scf.iv 0#32 1#32 k7) 4#32) k0_t4 g k (H161 k7 k)) (xI3 (F := F) d L v3 (Scalar.muli (Scf.iv 0#32 1#32 k7) 4#32) k0_t4 g k (H162 k7 k))
          (acc9 (F := F) d L v3 k0_t4 fp g H159 H160 H161 H162 f0 k7.val ((Rect.unit (s := S10x512) (k0_off166 k0_t4 k) S1x16.size (k0_off166_inb k0_t4 k)).emb x)) (lane x) := by
  rw [acc9_succ]
  exact acc10_row4 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) _ k0_t10_loop.trips k0_t10_trips.le k k.isLt x

/-- Row 5 after one more outer trip, at the columns of inner trip `k`: one update of the entry the trips before left. -/
theorem acc9_row5_succ (f0 : S10x512.Idx → Elt F .f32) (k7 : Fin k0_t9_loop.trips) (k : Fin k0_t10_loop.trips) (x : S1x16.Idx) :
    acc9 (F := F) d L v3 k0_t4 fp g H159 H160 H161 H162 f0 (k7.val + 1) ((Rect.unit (s := S10x512) (k0_off167 k0_t4 k) S1x16.size (k0_off167_inb k0_t4 k)).emb x)
      = rowNew (wI (F := F) fp k7 0#32 5#32 (by decide) (by decide)) (wI (F := F) fp k7 1#32 5#32 (by decide) (by decide)) (wI (F := F) fp k7 2#32 5#32 (by decide) (by decide)) (wI (F := F) fp k7 3#32 5#32 (by decide) (by decide)) (xI0 (F := F) d L v3 (Scalar.muli (Scf.iv 0#32 1#32 k7) 4#32) k0_t4 g k (H159 k7 k)) (xI1 (F := F) d L v3 (Scalar.muli (Scf.iv 0#32 1#32 k7) 4#32) k0_t4 g k (H160 k7 k)) (xI2 (F := F) d L v3 (Scalar.muli (Scf.iv 0#32 1#32 k7) 4#32) k0_t4 g k (H161 k7 k)) (xI3 (F := F) d L v3 (Scalar.muli (Scf.iv 0#32 1#32 k7) 4#32) k0_t4 g k (H162 k7 k))
          (acc9 (F := F) d L v3 k0_t4 fp g H159 H160 H161 H162 f0 k7.val ((Rect.unit (s := S10x512) (k0_off167 k0_t4 k) S1x16.size (k0_off167_inb k0_t4 k)).emb x)) (lane x) := by
  rw [acc9_succ]
  exact acc10_row5 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) _ k0_t10_loop.trips k0_t10_trips.le k k.isLt x

/-- Row 6 after one more outer trip, at the columns of inner trip `k`: one update of the entry the trips before left. -/
theorem acc9_row6_succ (f0 : S10x512.Idx → Elt F .f32) (k7 : Fin k0_t9_loop.trips) (k : Fin k0_t10_loop.trips) (x : S1x16.Idx) :
    acc9 (F := F) d L v3 k0_t4 fp g H159 H160 H161 H162 f0 (k7.val + 1) ((Rect.unit (s := S10x512) (k0_off168 k0_t4 k) S1x16.size (k0_off168_inb k0_t4 k)).emb x)
      = rowNew (wI (F := F) fp k7 0#32 6#32 (by decide) (by decide)) (wI (F := F) fp k7 1#32 6#32 (by decide) (by decide)) (wI (F := F) fp k7 2#32 6#32 (by decide) (by decide)) (wI (F := F) fp k7 3#32 6#32 (by decide) (by decide)) (xI0 (F := F) d L v3 (Scalar.muli (Scf.iv 0#32 1#32 k7) 4#32) k0_t4 g k (H159 k7 k)) (xI1 (F := F) d L v3 (Scalar.muli (Scf.iv 0#32 1#32 k7) 4#32) k0_t4 g k (H160 k7 k)) (xI2 (F := F) d L v3 (Scalar.muli (Scf.iv 0#32 1#32 k7) 4#32) k0_t4 g k (H161 k7 k)) (xI3 (F := F) d L v3 (Scalar.muli (Scf.iv 0#32 1#32 k7) 4#32) k0_t4 g k (H162 k7 k))
          (acc9 (F := F) d L v3 k0_t4 fp g H159 H160 H161 H162 f0 k7.val ((Rect.unit (s := S10x512) (k0_off168 k0_t4 k) S1x16.size (k0_off168_inb k0_t4 k)).emb x)) (lane x) := by
  rw [acc9_succ]
  exact acc10_row6 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) _ k0_t10_loop.trips k0_t10_trips.le k k.isLt x

/-- Row 7 after one more outer trip, at the columns of inner trip `k`: one update of the entry the trips before left. -/
theorem acc9_row7_succ (f0 : S10x512.Idx → Elt F .f32) (k7 : Fin k0_t9_loop.trips) (k : Fin k0_t10_loop.trips) (x : S1x16.Idx) :
    acc9 (F := F) d L v3 k0_t4 fp g H159 H160 H161 H162 f0 (k7.val + 1) ((Rect.unit (s := S10x512) (k0_off169 k0_t4 k) S1x16.size (k0_off169_inb k0_t4 k)).emb x)
      = rowNew (wI (F := F) fp k7 0#32 7#32 (by decide) (by decide)) (wI (F := F) fp k7 1#32 7#32 (by decide) (by decide)) (wI (F := F) fp k7 2#32 7#32 (by decide) (by decide)) (wI (F := F) fp k7 3#32 7#32 (by decide) (by decide)) (xI0 (F := F) d L v3 (Scalar.muli (Scf.iv 0#32 1#32 k7) 4#32) k0_t4 g k (H159 k7 k)) (xI1 (F := F) d L v3 (Scalar.muli (Scf.iv 0#32 1#32 k7) 4#32) k0_t4 g k (H160 k7 k)) (xI2 (F := F) d L v3 (Scalar.muli (Scf.iv 0#32 1#32 k7) 4#32) k0_t4 g k (H161 k7 k)) (xI3 (F := F) d L v3 (Scalar.muli (Scf.iv 0#32 1#32 k7) 4#32) k0_t4 g k (H162 k7 k))
          (acc9 (F := F) d L v3 k0_t4 fp g H159 H160 H161 H162 f0 k7.val ((Rect.unit (s := S10x512) (k0_off169 k0_t4 k) S1x16.size (k0_off169_inb k0_t4 k)).emb x)) (lane x) := by
  rw [acc9_succ]
  exact acc10_row7 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) _ k0_t10_loop.trips k0_t10_trips.le k k.isLt x

/-- Row 8 after one more outer trip, at the columns of inner trip `k`: one update of the entry the trips before left. -/
theorem acc9_row8_succ (f0 : S10x512.Idx → Elt F .f32) (k7 : Fin k0_t9_loop.trips) (k : Fin k0_t10_loop.trips) (x : S1x16.Idx) :
    acc9 (F := F) d L v3 k0_t4 fp g H159 H160 H161 H162 f0 (k7.val + 1) ((Rect.unit (s := S10x512) (k0_off170 k0_t4 k) S1x16.size (k0_off170_inb k0_t4 k)).emb x)
      = rowNew (wI (F := F) fp k7 0#32 8#32 (by decide) (by decide)) (wI (F := F) fp k7 1#32 8#32 (by decide) (by decide)) (wI (F := F) fp k7 2#32 8#32 (by decide) (by decide)) (wI38 (F := F) fp k7) (xI0 (F := F) d L v3 (Scalar.muli (Scf.iv 0#32 1#32 k7) 4#32) k0_t4 g k (H159 k7 k)) (xI1 (F := F) d L v3 (Scalar.muli (Scf.iv 0#32 1#32 k7) 4#32) k0_t4 g k (H160 k7 k)) (xI2 (F := F) d L v3 (Scalar.muli (Scf.iv 0#32 1#32 k7) 4#32) k0_t4 g k (H161 k7 k)) (xI3 (F := F) d L v3 (Scalar.muli (Scf.iv 0#32 1#32 k7) 4#32) k0_t4 g k (H162 k7 k))
          (acc9 (F := F) d L v3 k0_t4 fp g H159 H160 H161 H162 f0 k7.val ((Rect.unit (s := S10x512) (k0_off170 k0_t4 k) S1x16.size (k0_off170_inb k0_t4 k)).emb x)) (lane x) := by
  rw [acc9_succ]
  exact acc10_row8 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) _ k0_t10_loop.trips k0_t10_trips.le k k.isLt x

/-- Row 9 after one more outer trip, at the columns of inner trip `k`: one update of the entry the trips before left. -/
theorem acc9_row9_succ (f0 : S10x512.Idx → Elt F .f32) (k7 : Fin k0_t9_loop.trips) (k : Fin k0_t10_loop.trips) (x : S1x16.Idx) :
    acc9 (F := F) d L v3 k0_t4 fp g H159 H160 H161 H162 f0 (k7.val + 1) ((Rect.unit (s := S10x512) (k0_off171 k0_t4 k) S1x16.size (k0_off171_inb k0_t4 k)).emb x)
      = rowNew (wI (F := F) fp k7 0#32 9#32 (by decide) (by decide)) (wI (F := F) fp k7 1#32 9#32 (by decide) (by decide)) (wI (F := F) fp k7 2#32 9#32 (by decide) (by decide)) (wI39 (F := F) fp k7) (xI0 (F := F) d L v3 (Scalar.muli (Scf.iv 0#32 1#32 k7) 4#32) k0_t4 g k (H159 k7 k)) (xI1 (F := F) d L v3 (Scalar.muli (Scf.iv 0#32 1#32 k7) 4#32) k0_t4 g k (H160 k7 k)) (xI2 (F := F) d L v3 (Scalar.muli (Scf.iv 0#32 1#32 k7) 4#32) k0_t4 g k (H161 k7 k)) (xI3 (F := F) d L v3 (Scalar.muli (Scf.iv 0#32 1#32 k7) 4#32) k0_t4 g k (H162 k7 k))
          (acc9 (F := F) d L v3 k0_t4 fp g H159 H160 H161 H162 f0 k7.val ((Rect.unit (s := S10x512) (k0_off171 k0_t4 k) S1x16.size (k0_off171_inb k0_t4 k)).emb x)) (lane x) := by
  rw [acc9_succ]
  exact acc10_row9 (F := F) d L v3 (Scalar.muli (Scf.iv 0#32 1#32 k7) 4#32) k0_t4 (wI (F := F) fp k7 0#32 0#32 (by decide) (by decide)) (wI (F := F) fp k7 0#32 1#32 (by decide) (by decide)) (wI (F := F) fp k7 0#32 2#32 (by decide) (by decide)) (wI (F := F) fp k7 0#32 3#32 (by decide) (by decide)) (wI (F := F) fp k7 0#32 4#32 (by decide) (by decide)) (wI (F := F) fp k7 0#32 5#32 (by decide) (by decide)) (wI (F := F) fp k7 0#32 6#32 (by decide) (by decide)) (wI (F := F) fp k7 0#32 7#32 (by decide) (by decide)) (wI (F := F) fp k7 0#32 8#32 (by decide) (by decide)) (wI (F := F) fp k7 0#32 9#32 (by decide) (by decide)) (wI (F := F) fp k7 1#32 0#32 (by decide) (by decide)) (wI (F := F) fp k7 1#32 1#32 (by decide) (by decide)) (wI (F := F) fp k7 1#32 2#32 (by decide) (by decide)) (wI (F := F) fp k7 1#32 3#32 (by decide) (by decide)) (wI (F := F) fp k7 1#32 4#32 (by decide) (by decide)) (wI (F := F) fp k7 1#32 5#32 (by decide) (by decide)) (wI (F := F) fp k7 1#32 6#32 (by decide) (by decide)) (wI (F := F) fp k7 1#32 7#32 (by decide) (by decide)) (wI (F := F) fp k7 1#32 8#32 (by decide) (by decide)) (wI (F := F) fp k7 1#32 9#32 (by decide) (by decide)) (wI (F := F) fp k7 2#32 0#32 (by decide) (by decide)) (wI (F := F) fp k7 2#32 1#32 (by decide) (by decide)) (wI (F := F) fp k7 2#32 2#32 (by decide) (by decide)) (wI (F := F) fp k7 2#32 3#32 (by decide) (by decide)) (wI (F := F) fp k7 2#32 4#32 (by decide) (by decide)) (wI (F := F) fp k7 2#32 5#32 (by decide) (by decide)) (wI (F := F) fp k7 2#32 6#32 (by decide) (by decide)) (wI (F := F) fp k7 2#32 7#32 (by decide) (by decide)) (wI (F := F) fp k7 2#32 8#32 (by decide) (by decide)) (wI (F := F) fp k7 2#32 9#32 (by decide) (by decide)) (wI (F := F) fp k7 3#32 0#32 (by decide) (by decide)) (wI (F := F) fp k7 3#32 1#32 (by decide) (by decide)) (wI (F := F) fp k7 3#32 2#32 (by decide) (by decide)) (wI (F := F) fp k7 3#32 3#32 (by decide) (by decide)) (wI (F := F) fp k7 3#32 4#32 (by decide) (by decide)) (wI (F := F) fp k7 3#32 5#32 (by decide) (by decide)) (wI (F := F) fp k7 3#32 6#32 (by decide) (by decide)) (wI (F := F) fp k7 3#32 7#32 (by decide) (by decide)) (wI38 (F := F) fp k7) (wI39 (F := F) fp k7) g (H159 k7) (H160 k7) (H161 k7) (H162 k7) _ k0_t10_loop.trips k0_t10_trips.le k k.isLt x

end Fold7

/-! ## At the exact instance: the sum -/

section IdealSum

open scoped BigOperators

variable (d : Dev nD) (L : grid0.Coords)
variable (v3 : IVec S16 32) (k0_t4 : Fin k0_t4_loop.trips) (fp : S1312.Idx → Elt Ideal .f32)
variable (g : Buf (Elt Ideal) ((halfI k0_t4).view.loc (thr d L)))
variable (H159 : ∀ (k7 : Fin k0_t9_loop.trips) (k8 : Fin k0_t10_loop.trips), k0_chk159 (k0_pay124 v3 0#32 1#32 k8) (k0_pay125 (Scalar.muli (Scf.iv 0#32 1#32 k7) 4#32)))
variable (H160 : ∀ (k7 : Fin k0_t9_loop.trips) (k8 : Fin k0_t10_loop.trips), k0_chk160 (k0_pay124 v3 0#32 1#32 k8) (k0_pay127 (Scalar.muli (Scf.iv 0#32 1#32 k7) 4#32)))
variable (H161 : ∀ (k7 : Fin k0_t9_loop.trips) (k8 : Fin k0_t10_loop.trips), k0_chk161 (k0_pay124 v3 0#32 1#32 k8) (k0_pay129 (Scalar.muli (Scf.iv 0#32 1#32 k7) 4#32)))
variable (H162 : ∀ (k7 : Fin k0_t9_loop.trips) (k8 : Fin k0_t10_loop.trips), k0_chk162 (k0_pay124 v3 0#32 1#32 k8) (k0_pay131 (Scalar.muli (Scf.iv 0#32 1#32 k7) 4#32)))

/-- Row 0 after all the outer trips, at the columns of inner trip `k`: the entry at the start plus, over the sixteen
    outer trips, the four rectified features of the trip times this hidden unit's four weights. -/
theorem acc9_row0_closed (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off162 k0_t4 k) S1x16.size (k0_off162_inb k0_t4 k)).emb x) : EReal)
      = f0 ((Rect.unit (s := S10x512) (k0_off162 k0_t4 k) S1x16.size (k0_off162_inb k0_t4 k)).emb x) + ∑ k7 : Fin k0_t9_loop.trips, ((xI0 (F := Ideal) d L v3 (Scalar.muli (Scf.iv 0#32 1#32 k7) 4#32) k0_t4 g k (H159 k7 k)) (lane x) * (wI (F := Ideal) fp k7 0#32 0#32 (by decide) (by decide)) (lane x) + (xI1 (F := Ideal) d L v3 (Scalar.muli (Scf.iv 0#32 1#32 k7) 4#32) k0_t4 g k (H160 k7 k)) (lane x) * (wI (F := Ideal) fp k7 1#32 0#32 (by decide) (by decide)) (lane x) + (xI2 (F := Ideal) d L v3 (Scalar.muli (Scf.iv 0#32 1#32 k7) 4#32) k0_t4 g k (H161 k7 k)) (lane x) * (wI (F := Ideal) fp k7 2#32 0#32 (by decide) (by decide)) (lane x) + (xI3 (F := Ideal) d L v3 (Scalar.muli (Scf.iv 0#32 1#32 k7) 4#32) k0_t4 g k (H162 k7 k)) (lane x) * (wI (F := Ideal) fp k7 3#32 0#32 (by decide) (by decide)) (lane x) : EReal) := by
  refine fold_sum_fin k0_t9_loop.trips (fun n => (acc9 (F := Ideal) d L v3 k0_t4 fp g H159 H160 H161 H162 f0 n ((Rect.unit (s := S10x512) (k0_off162 k0_t4 k) S1x16.size (k0_off162_inb k0_t4 k)).emb x) : EReal)) _ (fun k7 => ?_)
  show (acc9 (F := Ideal) d L v3 k0_t4 fp g H159 H160 H161 H162 f0 (k7.val + 1) ((Rect.unit (s := S10x512) (k0_off162 k0_t4 k) S1x16.size (k0_off162_inb k0_t4 k)).emb x) : EReal) = _
  rw [acc9_row0_succ]
  exact rowNew_ideal _ _ _ _ _ _ _ _ _ _

/-- Row 1 after all the outer trips, at the columns of inner trip `k`: the entry at the start plus, over the sixteen
    outer trips, the four rectified features of the trip times this hidden unit's four weights. -/
theorem acc9_row1_closed (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off163 k0_t4 k) S1x16.size (k0_off163_inb k0_t4 k)).emb x) : EReal)
      = f0 ((Rect.unit (s := S10x512) (k0_off163 k0_t4 k) S1x16.size (k0_off163_inb k0_t4 k)).emb x) + ∑ k7 : Fin k0_t9_loop.trips, ((xI0 (F := Ideal) d L v3 (Scalar.muli (Scf.iv 0#32 1#32 k7) 4#32) k0_t4 g k (H159 k7 k)) (lane x) * (wI (F := Ideal) fp k7 0#32 1#32 (by decide) (by decide)) (lane x) + (xI1 (F := Ideal) d L v3 (Scalar.muli (Scf.iv 0#32 1#32 k7) 4#32) k0_t4 g k (H160 k7 k)) (lane x) * (wI (F := Ideal) fp k7 1#32 1#32 (by decide) (by decide)) (lane x) + (xI2 (F := Ideal) d L v3 (Scalar.muli (Scf.iv 0#32 1#32 k7) 4#32) k0_t4 g k (H161 k7 k)) (lane x) * (wI (F := Ideal) fp k7 2#32 1#32 (by decide) (by decide)) (lane x) + (xI3 (F := Ideal) d L v3 (Scalar.muli (Scf.iv 0#32 1#32 k7) 4#32) k0_t4 g k (H162 k7 k)) (lane x) * (wI (F := Ideal) fp k7 3#32 1#32 (by decide) (by decide)) (lane x) : EReal) := by
  refine fold_sum_fin k0_t9_loop.trips (fun n => (acc9 (F := Ideal) d L v3 k0_t4 fp g H159 H160 H161 H162 f0 n ((Rect.unit (s := S10x512) (k0_off163 k0_t4 k) S1x16.size (k0_off163_inb k0_t4 k)).emb x) : EReal)) _ (fun k7 => ?_)
  show (acc9 (F := Ideal) d L v3 k0_t4 fp g H159 H160 H161 H162 f0 (k7.val + 1) ((Rect.unit (s := S10x512) (k0_off163 k0_t4 k) S1x16.size (k0_off163_inb k0_t4 k)).emb x) : EReal) = _
  rw [acc9_row1_succ]
  exact rowNew_ideal _ _ _ _ _ _ _ _ _ _

/-- Row 2 after all the outer trips, at the columns of inner trip `k`: the entry at the start plus, over the sixteen
    outer trips, the four rectified features of the trip times this hidden unit's four weights. -/
theorem acc9_row2_closed (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off164 k0_t4 k) S1x16.size (k0_off164_inb k0_t4 k)).emb x) : EReal)
      = f0 ((Rect.unit (s := S10x512) (k0_off164 k0_t4 k) S1x16.size (k0_off164_inb k0_t4 k)).emb x) + ∑ k7 : Fin k0_t9_loop.trips, ((xI0 (F := Ideal) d L v3 (Scalar.muli (Scf.iv 0#32 1#32 k7) 4#32) k0_t4 g k (H159 k7 k)) (lane x) * (wI (F := Ideal) fp k7 0#32 2#32 (by decide) (by decide)) (lane x) + (xI1 (F := Ideal) d L v3 (Scalar.muli (Scf.iv 0#32 1#32 k7) 4#32) k0_t4 g k (H160 k7 k)) (lane x) * (wI (F := Ideal) fp k7 1#32 2#32 (by decide) (by decide)) (lane x) + (xI2 (F := Ideal) d L v3 (Scalar.muli (Scf.iv 0#32 1#32 k7) 4#32) k0_t4 g k (H161 k7 k)) (lane x) * (wI (F := Ideal) fp k7 2#32 2#32 (by decide) (by decide)) (lane x) + (xI3 (F := Ideal) d L v3 (Scalar.muli (Scf.iv 0#32 1#32 k7) 4#32) k0_t4 g k (H162 k7 k)) (lane x) * (wI (F := Ideal) fp k7 3#32 2#32 (by decide) (by decide)) (lane x) : EReal) := by
  refine fold_sum_fin k0_t9_loop.trips (fun n => (acc9 (F := Ideal) d L v3 k0_t4 fp g H159 H160 H161 H162 f0 n ((Rect.unit (s := S10x512) (k0_off164 k0_t4 k) S1x16.size (k0_off164_inb k0_t4 k)).emb x) : EReal)) _ (fun k7 => ?_)
  show (acc9 (F := Ideal) d L v3 k0_t4 fp g H159 H160 H161 H162 f0 (k7.val + 1) ((Rect.unit (s := S10x512) (k0_off164 k0_t4 k) S1x16.size (k0_off164_inb k0_t4 k)).emb x) : EReal) = _
  rw [acc9_row2_succ]
  exact rowNew_ideal _ _ _ _ _ _ _ _ _ _

/-- Row 3 after all the outer trips, at the columns of inner trip `k`: the entry at the start plus, over the sixteen
    outer trips, the four rectified features of the trip times this hidden unit's four weights. -/
theorem acc9_row3_closed (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off165 k0_t4 k) S1x16.size (k0_off165_inb k0_t4 k)).emb x) : EReal)
      = f0 ((Rect.unit (s := S10x512) (k0_off165 k0_t4 k) S1x16.size (k0_off165_inb k0_t4 k)).emb x) + ∑ k7 : Fin k0_t9_loop.trips, ((xI0 (F := Ideal) d L v3 (Scalar.muli (Scf.iv 0#32 1#32 k7) 4#32) k0_t4 g k (H159 k7 k)) (lane x) * (wI (F := Ideal) fp k7 0#32 3#32 (by decide) (by decide)) (lane x) + (xI1 (F := Ideal) d L v3 (Scalar.muli (Scf.iv 0#32 1#32 k7) 4#32) k0_t4 g k (H160 k7 k)) (lane x) * (wI (F := Ideal) fp k7 1#32 3#32 (by decide) (by decide)) (lane x) + (xI2 (F := Ideal) d L v3 (Scalar.muli (Scf.iv 0#32 1#32 k7) 4#32) k0_t4 g k (H161 k7 k)) (lane x) * (wI (F := Ideal) fp k7 2#32 3#32 (by decide) (by decide)) (lane x) + (xI3 (F := Ideal) d L v3 (Scalar.muli (Scf.iv 0#32 1#32 k7) 4#32) k0_t4 g k (H162 k7 k)) (lane x) * (wI (F := Ideal) fp k7 3#32 3#32 (by decide) (by decide)) (lane x) : EReal) := by
  refine fold_sum_fin k0_t9_loop.trips (fun n => (acc9 (F := Ideal) d L v3 k0_t4 fp g H159 H160 H161 H162 f0 n ((Rect.unit (s := S10x512) (k0_off165 k0_t4 k) S1x16.size (k0_off165_inb k0_t4 k)).emb x) : EReal)) _ (fun k7 => ?_)
  show (acc9 (F := Ideal) d L v3 k0_t4 fp g H159 H160 H161 H162 f0 (k7.val + 1) ((Rect.unit (s := S10x512) (k0_off165 k0_t4 k) S1x16.size (k0_off165_inb k0_t4 k)).emb x) : EReal) = _
  rw [acc9_row3_succ]
  exact rowNew_ideal _ _ _ _ _ _ _ _ _ _

/-- Row 4 after all the outer trips, at the columns of inner trip `k`: the entry at the start plus, over the sixteen
    outer trips, the four rectified features of the trip times this hidden unit's four weights. -/
theorem acc9_row4_closed (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off166 k0_t4 k) S1x16.size (k0_off166_inb k0_t4 k)).emb x) : EReal)
      = f0 ((Rect.unit (s := S10x512) (k0_off166 k0_t4 k) S1x16.size (k0_off166_inb k0_t4 k)).emb x) + ∑ k7 : Fin k0_t9_loop.trips, ((xI0 (F := Ideal) d L v3 (Scalar.muli (Scf.iv 0#32 1#32 k7) 4#32) k0_t4 g k (H159 k7 k)) (lane x) * (wI (F := Ideal) fp k7 0#32 4#32 (by decide) (by decide)) (lane x) + (xI1 (F := Ideal) d L v3 (Scalar.muli (Scf.iv 0#32 1#32 k7) 4#32) k0_t4 g k (H160 k7 k)) (lane x) * (wI (F := Ideal) fp k7 1#32 4#32 (by decide) (by decide)) (lane x) + (xI2 (F := Ideal) d L v3 (Scalar.muli (Scf.iv 0#32 1#32 k7) 4#32) k0_t4 g k (H161 k7 k)) (lane x) * (wI (F := Ideal) fp k7 2#32 4#32 (by decide) (by decide)) (lane x) + (xI3 (F := Ideal) d L v3 (Scalar.muli (Scf.iv 0#32 1#32 k7) 4#32) k0_t4 g k (H162 k7 k)) (lane x) * (wI (F := Ideal) fp k7 3#32 4#32 (by decide) (by decide)) (lane x) : EReal) := by
  refine fold_sum_fin k0_t9_loop.trips (fun n => (acc9 (F := Ideal) d L v3 k0_t4 fp g H159 H160 H161 H162 f0 n ((Rect.unit (s := S10x512) (k0_off166 k0_t4 k) S1x16.size (k0_off166_inb k0_t4 k)).emb x) : EReal)) _ (fun k7 => ?_)
  show (acc9 (F := Ideal) d L v3 k0_t4 fp g H159 H160 H161 H162 f0 (k7.val + 1) ((Rect.unit (s := S10x512) (k0_off166 k0_t4 k) S1x16.size (k0_off166_inb k0_t4 k)).emb x) : EReal) = _
  rw [acc9_row4_succ]
  exact rowNew_ideal _ _ _ _ _ _ _ _ _ _

/-- Row 5 after all the outer trips, at the columns of inner trip `k`: the entry at the start plus, over the sixteen
    outer trips, the four rectified features of the trip times this hidden unit's four weights. -/
theorem acc9_row5_closed (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off167 k0_t4 k) S1x16.size (k0_off167_inb k0_t4 k)).emb x) : EReal)
      = f0 ((Rect.unit (s := S10x512) (k0_off167 k0_t4 k) S1x16.size (k0_off167_inb k0_t4 k)).emb x) + ∑ k7 : Fin k0_t9_loop.trips, ((xI0 (F := Ideal) d L v3 (Scalar.muli (Scf.iv 0#32 1#32 k7) 4#32) k0_t4 g k (H159 k7 k)) (lane x) * (wI (F := Ideal) fp k7 0#32 5#32 (by decide) (by decide)) (lane x) + (xI1 (F := Ideal) d L v3 (Scalar.muli (Scf.iv 0#32 1#32 k7) 4#32) k0_t4 g k (H160 k7 k)) (lane x) * (wI (F := Ideal) fp k7 1#32 5#32 (by decide) (by decide)) (lane x) + (xI2 (F := Ideal) d L v3 (Scalar.muli (Scf.iv 0#32 1#32 k7) 4#32) k0_t4 g k (H161 k7 k)) (lane x) * (wI (F := Ideal) fp k7 2#32 5#32 (by decide) (by decide)) (lane x) + (xI3 (F := Ideal) d L v3 (Scalar.muli (Scf.iv 0#32 1#32 k7) 4#32) k0_t4 g k (H162 k7 k)) (lane x) * (wI (F := Ideal) fp k7 3#32 5#32 (by decide) (by decide)) (lane x) : EReal) := by
  refine fold_sum_fin k0_t9_loop.trips (fun n => (acc9 (F := Ideal) d L v3 k0_t4 fp g H159 H160 H161 H162 f0 n ((Rect.unit (s := S10x512) (k0_off167 k0_t4 k) S1x16.size (k0_off167_inb k0_t4 k)).emb x) : EReal)) _ (fun k7 => ?_)
  show (acc9 (F := Ideal) d L v3 k0_t4 fp g H159 H160 H161 H162 f0 (k7.val + 1) ((Rect.unit (s := S10x512) (k0_off167 k0_t4 k) S1x16.size (k0_off167_inb k0_t4 k)).emb x) : EReal) = _
  rw [acc9_row5_succ]
  exact rowNew_ideal _ _ _ _ _ _ _ _ _ _

/-- Row 6 after all the outer trips, at the columns of inner trip `k`: the entry at the start plus, over the sixteen
    outer trips, the four rectified features of the trip times this hidden unit's four weights. -/
theorem acc9_row6_closed (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off168 k0_t4 k) S1x16.size (k0_off168_inb k0_t4 k)).emb x) : EReal)
      = f0 ((Rect.unit (s := S10x512) (k0_off168 k0_t4 k) S1x16.size (k0_off168_inb k0_t4 k)).emb x) + ∑ k7 : Fin k0_t9_loop.trips, ((xI0 (F := Ideal) d L v3 (Scalar.muli (Scf.iv 0#32 1#32 k7) 4#32) k0_t4 g k (H159 k7 k)) (lane x) * (wI (F := Ideal) fp k7 0#32 6#32 (by decide) (by decide)) (lane x) + (xI1 (F := Ideal) d L v3 (Scalar.muli (Scf.iv 0#32 1#32 k7) 4#32) k0_t4 g k (H160 k7 k)) (lane x) * (wI (F := Ideal) fp k7 1#32 6#32 (by decide) (by decide)) (lane x) + (xI2 (F := Ideal) d L v3 (Scalar.muli (Scf.iv 0#32 1#32 k7) 4#32) k0_t4 g k (H161 k7 k)) (lane x) * (wI (F := Ideal) fp k7 2#32 6#32 (by decide) (by decide)) (lane x) + (xI3 (F := Ideal) d L v3 (Scalar.muli (Scf.iv 0#32 1#32 k7) 4#32) k0_t4 g k (H162 k7 k)) (lane x) * (wI (F := Ideal) fp k7 3#32 6#32 (by decide) (by decide)) (lane x) : EReal) := by
  refine fold_sum_fin k0_t9_loop.trips (fun n => (acc9 (F := Ideal) d L v3 k0_t4 fp g H159 H160 H161 H162 f0 n ((Rect.unit (s := S10x512) (k0_off168 k0_t4 k) S1x16.size (k0_off168_inb k0_t4 k)).emb x) : EReal)) _ (fun k7 => ?_)
  show (acc9 (F := Ideal) d L v3 k0_t4 fp g H159 H160 H161 H162 f0 (k7.val + 1) ((Rect.unit (s := S10x512) (k0_off168 k0_t4 k) S1x16.size (k0_off168_inb k0_t4 k)).emb x) : EReal) = _
  rw [acc9_row6_succ]
  exact rowNew_ideal _ _ _ _ _ _ _ _ _ _

/-- Row 7 after all the outer trips, at the columns of inner trip `k`: the entry at the start plus, over the sixteen
    outer trips, the four rectified features of the trip times this hidden unit's four weights. -/
theorem acc9_row7_closed (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off169 k0_t4 k) S1x16.size (k0_off169_inb k0_t4 k)).emb x) : EReal)
      = f0 ((Rect.unit (s := S10x512) (k0_off169 k0_t4 k) S1x16.size (k0_off169_inb k0_t4 k)).emb x) + ∑ k7 : Fin k0_t9_loop.trips, ((xI0 (F := Ideal) d L v3 (Scalar.muli (Scf.iv 0#32 1#32 k7) 4#32) k0_t4 g k (H159 k7 k)) (lane x) * (wI (F := Ideal) fp k7 0#32 7#32 (by decide) (by decide)) (lane x) + (xI1 (F := Ideal) d L v3 (Scalar.muli (Scf.iv 0#32 1#32 k7) 4#32) k0_t4 g k (H160 k7 k)) (lane x) * (wI (F := Ideal) fp k7 1#32 7#32 (by decide) (by decide)) (lane x) + (xI2 (F := Ideal) d L v3 (Scalar.muli (Scf.iv 0#32 1#32 k7) 4#32) k0_t4 g k (H161 k7 k)) (lane x) * (wI (F := Ideal) fp k7 2#32 7#32 (by decide) (by decide)) (lane x) + (xI3 (F := Ideal) d L v3 (Scalar.muli (Scf.iv 0#32 1#32 k7) 4#32) k0_t4 g k (H162 k7 k)) (lane x) * (wI (F := Ideal) fp k7 3#32 7#32 (by decide) (by decide)) (lane x) : EReal) := by
  refine fold_sum_fin k0_t9_loop.trips (fun n => (acc9 (F := Ideal) d L v3 k0_t4 fp g H159 H160 H161 H162 f0 n ((Rect.unit (s := S10x512) (k0_off169 k0_t4 k) S1x16.size (k0_off169_inb k0_t4 k)).emb x) : EReal)) _ (fun k7 => ?_)
  show (acc9 (F := Ideal) d L v3 k0_t4 fp g H159 H160 H161 H162 f0 (k7.val + 1) ((Rect.unit (s := S10x512) (k0_off169 k0_t4 k) S1x16.size (k0_off169_inb k0_t4 k)).emb x) : EReal) = _
  rw [acc9_row7_succ]
  exact rowNew_ideal _ _ _ _ _ _ _ _ _ _

/-- Row 8 after all the outer trips, at the columns of inner trip `k`: the entry at the start plus, over the sixteen
    outer trips, the four rectified features of the trip times this hidden unit's four weights. -/
theorem acc9_row8_closed (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off170 k0_t4 k) S1x16.size (k0_off170_inb k0_t4 k)).emb x) : EReal)
      = f0 ((Rect.unit (s := S10x512) (k0_off170 k0_t4 k) S1x16.size (k0_off170_inb k0_t4 k)).emb x) + ∑ k7 : Fin k0_t9_loop.trips, ((xI0 (F := Ideal) d L v3 (Scalar.muli (Scf.iv 0#32 1#32 k7) 4#32) k0_t4 g k (H159 k7 k)) (lane x) * (wI (F := Ideal) fp k7 0#32 8#32 (by decide) (by decide)) (lane x) + (xI1 (F := Ideal) d L v3 (Scalar.muli (Scf.iv 0#32 1#32 k7) 4#32) k0_t4 g k (H160 k7 k)) (lane x) * (wI (F := Ideal) fp k7 1#32 8#32 (by decide) (by decide)) (lane x) + (xI2 (F := Ideal) d L v3 (Scalar.muli (Scf.iv 0#32 1#32 k7) 4#32) k0_t4 g k (H161 k7 k)) (lane x) * (wI (F := Ideal) fp k7 2#32 8#32 (by decide) (by decide)) (lane x) + (xI3 (F := Ideal) d L v3 (Scalar.muli (Scf.iv 0#32 1#32 k7) 4#32) k0_t4 g k (H162 k7 k)) (lane x) * (wI38 (F := Ideal) fp k7) (lane x) : EReal) := by
  refine fold_sum_fin k0_t9_loop.trips (fun n => (acc9 (F := Ideal) d L v3 k0_t4 fp g H159 H160 H161 H162 f0 n ((Rect.unit (s := S10x512) (k0_off170 k0_t4 k) S1x16.size (k0_off170_inb k0_t4 k)).emb x) : EReal)) _ (fun k7 => ?_)
  show (acc9 (F := Ideal) d L v3 k0_t4 fp g H159 H160 H161 H162 f0 (k7.val + 1) ((Rect.unit (s := S10x512) (k0_off170 k0_t4 k) S1x16.size (k0_off170_inb k0_t4 k)).emb x) : EReal) = _
  rw [acc9_row8_succ]
  exact rowNew_ideal _ _ _ _ _ _ _ _ _ _

/-- Row 9 after all the outer trips, at the columns of inner trip `k`: the entry at the start plus, over the sixteen
    outer trips, the four rectified features of the trip times this hidden unit's four weights. -/
theorem acc9_row9_closed (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off171 k0_t4 k) S1x16.size (k0_off171_inb k0_t4 k)).emb x) : EReal)
      = f0 ((Rect.unit (s := S10x512) (k0_off171 k0_t4 k) S1x16.size (k0_off171_inb k0_t4 k)).emb x) + ∑ k7 : Fin k0_t9_loop.trips, ((xI0 (F := Ideal) d L v3 (Scalar.muli (Scf.iv 0#32 1#32 k7) 4#32) k0_t4 g k (H159 k7 k)) (lane x) * (wI (F := Ideal) fp k7 0#32 9#32 (by decide) (by decide)) (lane x) + (xI1 (F := Ideal) d L v3 (Scalar.muli (Scf.iv 0#32 1#32 k7) 4#32) k0_t4 g k (H160 k7 k)) (lane x) * (wI (F := Ideal) fp k7 1#32 9#32 (by decide) (by decide)) (lane x) + (xI2 (F := Ideal) d L v3 (Scalar.muli (Scf.iv 0#32 1#32 k7) 4#32) k0_t4 g k (H161 k7 k)) (lane x) * (wI (F := Ideal) fp k7 2#32 9#32 (by decide) (by decide)) (lane x) + (xI3 (F := Ideal) d L v3 (Scalar.muli (Scf.iv 0#32 1#32 k7) 4#32) k0_t4 g k (H162 k7 k)) (lane x) * (wI39 (F := Ideal) fp k7) (lane x) : EReal) := by
  refine fold_sum_fin k0_t9_loop.trips (fun n => (acc9 (F := Ideal) d L v3 k0_t4 fp g H159 H160 H161 H162 f0 n ((Rect.unit (s := S10x512) (k0_off171 k0_t4 k) S1x16.size (k0_off171_inb k0_t4 k)).emb x) : EReal)) _ (fun k7 => ?_)
  show (acc9 (F := Ideal) d L v3 k0_t4 fp g H159 H160 H161 H162 f0 (k7.val + 1) ((Rect.unit (s := S10x512) (k0_off171 k0_t4 k) S1x16.size (k0_off171_inb k0_t4 k)).emb x) : EReal) = _
  rw [acc9_row9_succ]
  exact rowNew_ideal _ _ _ _ _ _ _ _ _ _

end IdealSum

/-! ## The weight vectors, lane by lane -/

/-- The index every lane of weight `(kk, h)` of outer trip `k7` reads the parameters at. -/
theorem wIdxI_toNat : ∀ (k7 : Fin k0_t9_loop.trips) (kk : Fin 4) (h : Fin 10) (x : S16.Idx),
    (wIdxI k7 (BitVec.ofNat 32 kk.val) (BitVec.ofNat 32 h.val) x).toNat = 640 + (4 * k7.val + kk.val) * 10 + h.val := by
  decide +kernel

theorem wI38_toNat : ∀ (k7 : Fin k0_t9_loop.trips) (x : S16.Idx),
    (k0_pay265 (Scalar.muli (Scalar.addi (Scalar.muli (Scf.iv 0#32 1#32 k7) 4#32) 3#32) 10#32) 640#32 x).toNat = 640 + (4 * k7.val + 3) * 10 + 8 := by
  decide +kernel

theorem wI39_toNat : ∀ (k7 : Fin k0_t9_loop.trips) (x : S16.Idx),
    (k0_pay266 (Scalar.muli (Scf.iv 0#32 1#32 k7) 4#32) x).toNat = 640 + (4 * k7.val + 3) * 10 + 9 := by
  decide +kernel

/-- Every lane of weight `(kk, h)` of outer trip `k7` is entry `640 + (4·k7 + kk)·10 + h` of the parameters. -/
theorem wI_lane (fp : S1312.Idx → Elt F .f32) (k7 : Fin k0_t9_loop.trips) (kk : Fin 4) (h : Fin 10)
    (hkk : (BitVec.ofNat 32 kk.val).toNat < 4) (hh : (BitVec.ofNat 32 h.val).toNat < 10) (l : S16.Idx) (j : S1312.Idx)
    (hj : (j 0).val = 640 + (4 * k7.val + kk.val) * 10 + h.val) :
    wI (F := F) fp k7 (BitVec.ofNat 32 kk.val) (BitVec.ofNat 32 h.val) hkk hh l = fp j := by
  unfold wI loadIdx
  refine (congrFun (Memref.readAt_whole (Elt F) Cert.KernelIdeal.cc0_scratch4 fp) _).trans ?_
  congr 1
  funext a
  apply Fin.ext
  have ha : a = 0 := Fin.fin_one_eq_zero a
  subst ha
  show (wIdxI k7 (BitVec.ofNat 32 kk.val) (BitVec.ofNat 32 h.val) l).toNat = (j 0).val
  rw [wIdxI_toNat, hj]

theorem wI38_lane (fp : S1312.Idx → Elt F .f32) (k7 : Fin k0_t9_loop.trips) (l : S16.Idx) (j : S1312.Idx)
    (hj : (j 0).val = 640 + (4 * k7.val + 3) * 10 + 8) : wI38 (F := F) fp k7 l = fp j := by
  unfold wI38 loadIdx
  refine (congrFun (Memref.readAt_whole (Elt F) Cert.KernelIdeal.cc0_scratch4 fp) _).trans ?_
  congr 1
  funext a
  apply Fin.ext
  have ha : a = 0 := Fin.fin_one_eq_zero a
  subst ha
  show (k0_pay265 (Scalar.muli (Scalar.addi (Scalar.muli (Scf.iv 0#32 1#32 k7) 4#32) 3#32) 10#32) 640#32 l).toNat = (j 0).val
  rw [wI38_toNat, hj]

theorem wI39_lane (fp : S1312.Idx → Elt F .f32) (k7 : Fin k0_t9_loop.trips) (l : S16.Idx) (j : S1312.Idx)
    (hj : (j 0).val = 640 + (4 * k7.val + 3) * 10 + 9) : wI39 (F := F) fp k7 l = fp j := by
  unfold wI39 loadIdx
  refine (congrFun (Memref.readAt_whole (Elt F) Cert.KernelIdeal.cc0_scratch4 fp) _).trans ?_
  congr 1
  funext a
  apply Fin.ext
  have ha : a = 0 := Fin.fin_one_eq_zero a
  subst ha
  show (k0_pay266 (Scalar.muli (Scf.iv 0#32 1#32 k7) 4#32) l).toNat = (j 0).val
  rw [wI39_toNat, hj]

/-! ## The feature vectors, lane by lane, when the lane numbers are the iota -/

/-- The rows a trip's gathers read: lane `l` of inner trip `k` reads row `16·k + l` of the half. -/
theorem rowI_toNat : ∀ (k : Fin k0_t10_loop.trips) (l : S16.Idx),
    (k0_pay124 (iota .scVector S16 32 [0] Facts₀.iota_S16_d0_w32_scVector) 0#32 1#32 k l).toNat = 16 * k.val + (l 0).val := by
  decide +kernel

/-- The columns: the four features `4·k7 + 0 … 3` of outer trip `k7`. -/
theorem colI0_toNat : ∀ (k7 : Fin k0_t9_loop.trips) (l : S16.Idx), (k0_pay125 (Scalar.muli (Scf.iv 0#32 1#32 k7) 4#32) l).toNat = 4 * k7.val := by decide +kernel
theorem colI1_toNat : ∀ (k7 : Fin k0_t9_loop.trips) (l : S16.Idx), (k0_pay127 (Scalar.muli (Scf.iv 0#32 1#32 k7) 4#32) l).toNat = 4 * k7.val + 1 := by decide +kernel
theorem colI2_toNat : ∀ (k7 : Fin k0_t9_loop.trips) (l : S16.Idx), (k0_pay129 (Scalar.muli (Scf.iv 0#32 1#32 k7) 4#32) l).toNat = 4 * k7.val + 2 := by decide +kernel
theorem colI3_toNat : ∀ (k7 : Fin k0_t9_loop.trips) (l : S16.Idx), (k0_pay131 (Scalar.muli (Scf.iv 0#32 1#32 k7) 4#32) l).toNat = 4 * k7.val + 3 := by decide +kernel

/-! ## A rectified feature, at a lane, at the exact instance -/

section XLane

variable (d : Dev nD) (L : grid0.Coords) (k0_t4 : Fin k0_t4_loop.trips) (g : Buf (Elt Ideal) ((halfI k0_t4).view.loc (thr d L)))

/-- The half a chunk computes on, as the 128 × 64 matrix the gathers read. -/
abbrev halfMI : S128x64.Idx → Elt Ideal .f32 := View.readAt (Elt Ideal) (halfI k0_t4).view (LoadRect.whole S128x64) g

theorem xI0_lane (v3 : IVec S16 32) (hv3 : v3 = iota .scVector S16 32 [0] Facts₀.iota_S16_d0_w32_scVector)
    (k7 : Fin k0_t9_loop.trips) (k : Fin k0_t10_loop.trips)
    (c159 : k0_chk159 (k0_pay124 v3 0#32 1#32 k) (k0_pay125 (Scalar.muli (Scf.iv 0#32 1#32 k7) 4#32)))
    (l : S16.Idx) (r : S128x64.Idx) (hr0 : (r 0).val = 16 * k.val + (l 0).val) (hr1 : (r 1).val = 4 * k7.val) :
    (xI0 (F := Ideal) d L v3 (Scalar.muli (Scf.iv 0#32 1#32 k7) 4#32) k0_t4 g k c159 l : EReal) = max (halfMI d L k0_t4 g r) 0 := by
  subst hv3
  unfold xI0 k0_pay126 loadIdx
  show max (halfMI d L k0_t4 g _) (Scalar.ofBits (F := Ideal) .f32 0x00000000#32 : EReal) = _
  rw [zero_bits]
  congr 2
  funext a
  apply Fin.ext
  fin_cases a
  · show (k0_pay124 (iota .scVector S16 32 [0] Facts₀.iota_S16_d0_w32_scVector) 0#32 1#32 k l).toNat = (r 0).val
    rw [rowI_toNat, hr0]
  · show (k0_pay125 (Scalar.muli (Scf.iv 0#32 1#32 k7) 4#32) l).toNat = (r 1).val
    rw [colI0_toNat, hr1]

theorem xI1_lane (v3 : IVec S16 32) (hv3 : v3 = iota .scVector S16 32 [0] Facts₀.iota_S16_d0_w32_scVector)
    (k7 : Fin k0_t9_loop.trips) (k : Fin k0_t10_loop.trips)
    (c : k0_chk160 (k0_pay124 v3 0#32 1#32 k) (k0_pay127 (Scalar.muli (Scf.iv 0#32 1#32 k7) 4#32)))
    (l : S16.Idx) (r : S128x64.Idx) (hr0 : (r 0).val = 16 * k.val + (l 0).val) (hr1 : (r 1).val = 4 * k7.val + 1) :
    (xI1 (F := Ideal) d L v3 (Scalar.muli (Scf.iv 0#32 1#32 k7) 4#32) k0_t4 g k c l : EReal) = max (halfMI d L k0_t4 g r) 0 := by
  subst hv3
  unfold xI1 k0_pay128 loadIdx
  show max (halfMI d L k0_t4 g _) (Scalar.ofBits (F := Ideal) .f32 0x00000000#32 : EReal) = _
  rw [zero_bits]
  congr 2
  funext a
  apply Fin.ext
  fin_cases a
  · show (k0_pay124 (iota .scVector S16 32 [0] Facts₀.iota_S16_d0_w32_scVector) 0#32 1#32 k l).toNat = (r 0).val
    rw [rowI_toNat, hr0]
  · show (k0_pay127 (Scalar.muli (Scf.iv 0#32 1#32 k7) 4#32) l).toNat = (r 1).val
    rw [colI1_toNat, hr1]

theorem xI2_lane (v3 : IVec S16 32) (hv3 : v3 = iota .scVector S16 32 [0] Facts₀.iota_S16_d0_w32_scVector)
    (k7 : Fin k0_t9_loop.trips) (k : Fin k0_t10_loop.trips)
    (c : k0_chk161 (k0_pay124 v3 0#32 1#32 k) (k0_pay129 (Scalar.muli (Scf.iv 0#32 1#32 k7) 4#32)))
    (l : S16.Idx) (r : S128x64.Idx) (hr0 : (r 0).val = 16 * k.val + (l 0).val) (hr1 : (r 1).val = 4 * k7.val + 2) :
    (xI2 (F := Ideal) d L v3 (Scalar.muli (Scf.iv 0#32 1#32 k7) 4#32) k0_t4 g k c l : EReal) = max (halfMI d L k0_t4 g r) 0 := by
  subst hv3
  unfold xI2 k0_pay130 loadIdx
  show max (halfMI d L k0_t4 g _) (Scalar.ofBits (F := Ideal) .f32 0x00000000#32 : EReal) = _
  rw [zero_bits]
  congr 2
  funext a
  apply Fin.ext
  fin_cases a
  · show (k0_pay124 (iota .scVector S16 32 [0] Facts₀.iota_S16_d0_w32_scVector) 0#32 1#32 k l).toNat = (r 0).val
    rw [rowI_toNat, hr0]
  · show (k0_pay129 (Scalar.muli (Scf.iv 0#32 1#32 k7) 4#32) l).toNat = (r 1).val
    rw [colI2_toNat, hr1]

theorem xI3_lane (v3 : IVec S16 32) (hv3 : v3 = iota .scVector S16 32 [0] Facts₀.iota_S16_d0_w32_scVector)
    (k7 : Fin k0_t9_loop.trips) (k : Fin k0_t10_loop.trips)
    (c : k0_chk162 (k0_pay124 v3 0#32 1#32 k) (k0_pay131 (Scalar.muli (Scf.iv 0#32 1#32 k7) 4#32)))
    (l : S16.Idx) (r : S128x64.Idx) (hr0 : (r 0).val = 16 * k.val + (l 0).val) (hr1 : (r 1).val = 4 * k7.val + 3) :
    (xI3 (F := Ideal) d L v3 (Scalar.muli (Scf.iv 0#32 1#32 k7) 4#32) k0_t4 g k c l : EReal) = max (halfMI d L k0_t4 g r) 0 := by
  subst hv3
  unfold xI3 k0_pay132 loadIdx
  show max (halfMI d L k0_t4 g _) (Scalar.ofBits (F := Ideal) .f32 0x00000000#32 : EReal) = _
  rw [zero_bits]
  congr 2
  funext a
  apply Fin.ext
  fin_cases a
  · show (k0_pay124 (iota .scVector S16 32 [0] Facts₀.iota_S16_d0_w32_scVector) 0#32 1#32 k l).toNat = (r 0).val
    rw [rowI_toNat, hr0]
  · show (k0_pay131 (Scalar.muli (Scf.iv 0#32 1#32 k7) 4#32) l).toNat = (r 1).val
    rw [colI3_toNat, hr1]

omit d L k0_t4 g in
/-- Row `16·k + l`, column `4·k7 + kk` of the half; entry `640 + (4·k7 + kk)·10 + h` of the parameters. -/
def rIdxI (k : Fin k0_t10_loop.trips) (l : S16.Idx) (k7 : Fin k0_t9_loop.trips) (kk : Fin 4) : S128x64.Idx :=
  ValueIdx.ix2 (⟨16 * k.val + (l 0).val, by
      have h1 : k.val < 8 := lt_of_lt_of_eq k.isLt k0_t10_trips
      have h2 : (l 0).val < 16 := (l 0).isLt
      omega⟩ : Fin 128)
    (⟨4 * k7.val + kk.val, by
      have h1 : k7.val < 16 := lt_of_lt_of_eq k7.isLt k0_t9_trips
      have h2 := kk.isLt
      omega⟩ : Fin 64)
omit d L k0_t4 g in
def pIdxI (k7 : Fin k0_t9_loop.trips) (kk : Fin 4) (h : Fin 10) : S1312.Idx :=
  ValueIdx.ix1 (⟨640 + (4 * k7.val + kk.val) * 10 + h.val, by
      have h1 : k7.val < 16 := lt_of_lt_of_eq k7.isLt k0_t9_trips
      have h2 := kk.isLt; have h3 := h.isLt
      omega⟩ : Fin 1312)

open scoped BigOperators

variable (v3 : IVec S16 32) (fp : S1312.Idx → Elt Ideal .f32)
variable (H159 : ∀ (k7 : Fin k0_t9_loop.trips) (k8 : Fin k0_t10_loop.trips), k0_chk159 (k0_pay124 v3 0#32 1#32 k8) (k0_pay125 (Scalar.muli (Scf.iv 0#32 1#32 k7) 4#32)))
variable (H160 : ∀ (k7 : Fin k0_t9_loop.trips) (k8 : Fin k0_t10_loop.trips), k0_chk160 (k0_pay124 v3 0#32 1#32 k8) (k0_pay127 (Scalar.muli (Scf.iv 0#32 1#32 k7) 4#32)))
variable (H161 : ∀ (k7 : Fin k0_t9_loop.trips) (k8 : Fin k0_t10_loop.trips), k0_chk161 (k0_pay124 v3 0#32 1#32 k8) (k0_pay129 (Scalar.muli (Scf.iv 0#32 1#32 k7) 4#32)))
variable (H162 : ∀ (k7 : Fin k0_t9_loop.trips) (k8 : Fin k0_t10_loop.trips), k0_chk162 (k0_pay124 v3 0#32 1#32 k8) (k0_pay131 (Scalar.muli (Scf.iv 0#32 1#32 k7) 4#32)))

/-- Row 0 after the sixteen outer trips, at the columns of inner trip `k`, the lanes read: the entry at the start
    plus, over the outer trips and their four features, the rectified entry of the half times the packed weight. -/
theorem acc9_row0_value (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off162 k0_t4 k) S1x16.size (k0_off162_inb k0_t4 k)).emb x) : EReal)
      = f0 ((Rect.unit (s := S10x512) (k0_off162 k0_t4 k) S1x16.size (k0_off162_inb k0_t4 k)).emb x) + ∑ k7 : Fin k0_t9_loop.trips,
          (max (halfMI d L k0_t4 g (rIdxI k (lane x) k7 0)) 0 * fp (pIdxI k7 0 0) + max (halfMI d L k0_t4 g (rIdxI k (lane x) k7 1)) 0 * fp (pIdxI k7 1 0)
            + max (halfMI d L k0_t4 g (rIdxI k (lane x) k7 2)) 0 * fp (pIdxI k7 2 0) + max (halfMI d L k0_t4 g (rIdxI k (lane x) k7 3)) 0 * fp (pIdxI k7 3 0) : EReal) := by
  rw [acc9_row0_closed]
  refine congrArg (HAdd.hAdd _) (Finset.sum_congr rfl fun k7 _ => ?_)
  have ex0 := xI0_lane d L k0_t4 g v3 hv3 k7 k (H159 k7 k) (lane x) (rIdxI k (lane x) k7 0) rfl rfl
  have ew0 : (wI (F := Ideal) fp k7 0#32 0#32 (by decide) (by decide) (lane x) : EReal) = fp (pIdxI k7 0 0) := wI_lane (F := Ideal) fp k7 (0 : Fin 4) (0 : Fin 10) (by decide) (by decide) (lane x) (pIdxI k7 0 0) rfl
  have ex1 := xI1_lane d L k0_t4 g v3 hv3 k7 k (H160 k7 k) (lane x) (rIdxI k (lane x) k7 1) rfl rfl
  have ew1 : (wI (F := Ideal) fp k7 1#32 0#32 (by decide) (by decide) (lane x) : EReal) = fp (pIdxI k7 1 0) := wI_lane (F := Ideal) fp k7 (1 : Fin 4) (0 : Fin 10) (by decide) (by decide) (lane x) (pIdxI k7 1 0) rfl
  have ex2 := xI2_lane d L k0_t4 g v3 hv3 k7 k (H161 k7 k) (lane x) (rIdxI k (lane x) k7 2) rfl rfl
  have ew2 : (wI (F := Ideal) fp k7 2#32 0#32 (by decide) (by decide) (lane x) : EReal) = fp (pIdxI k7 2 0) := wI_lane (F := Ideal) fp k7 (2 : Fin 4) (0 : Fin 10) (by decide) (by decide) (lane x) (pIdxI k7 2 0) rfl
  have ex3 := xI3_lane d L k0_t4 g v3 hv3 k7 k (H162 k7 k) (lane x) (rIdxI k (lane x) k7 3) rfl rfl
  have ew3 : (wI (F := Ideal) fp k7 3#32 0#32 (by decide) (by decide) (lane x) : EReal) = fp (pIdxI k7 3 0) := wI_lane (F := Ideal) fp k7 (3 : Fin 4) (0 : Fin 10) (by decide) (by decide) (lane x) (pIdxI k7 3 0) rfl
  rw [ex0, ex1, ex2, ex3, ew0, ew1, ew2, ew3]

/-- Row 1 after the sixteen outer trips, at the columns of inner trip `k`, the lanes read: the entry at the start
    plus, over the outer trips and their four features, the rectified entry of the half times the packed weight. -/
theorem acc9_row1_value (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off163 k0_t4 k) S1x16.size (k0_off163_inb k0_t4 k)).emb x) : EReal)
      = f0 ((Rect.unit (s := S10x512) (k0_off163 k0_t4 k) S1x16.size (k0_off163_inb k0_t4 k)).emb x) + ∑ k7 : Fin k0_t9_loop.trips,
          (max (halfMI d L k0_t4 g (rIdxI k (lane x) k7 0)) 0 * fp (pIdxI k7 0 1) + max (halfMI d L k0_t4 g (rIdxI k (lane x) k7 1)) 0 * fp (pIdxI k7 1 1)
            + max (halfMI d L k0_t4 g (rIdxI k (lane x) k7 2)) 0 * fp (pIdxI k7 2 1) + max (halfMI d L k0_t4 g (rIdxI k (lane x) k7 3)) 0 * fp (pIdxI k7 3 1) : EReal) := by
  rw [acc9_row1_closed]
  refine congrArg (HAdd.hAdd _) (Finset.sum_congr rfl fun k7 _ => ?_)
  have ex0 := xI0_lane d L k0_t4 g v3 hv3 k7 k (H159 k7 k) (lane x) (rIdxI k (lane x) k7 0) rfl rfl
  have ew0 : (wI (F := Ideal) fp k7 0#32 1#32 (by decide) (by decide) (lane x) : EReal) = fp (pIdxI k7 0 1) := wI_lane (F := Ideal) fp k7 (0 : Fin 4) (1 : Fin 10) (by decide) (by decide) (lane x) (pIdxI k7 0 1) rfl
  have ex1 := xI1_lane d L k0_t4 g v3 hv3 k7 k (H160 k7 k) (lane x) (rIdxI k (lane x) k7 1) rfl rfl
  have ew1 : (wI (F := Ideal) fp k7 1#32 1#32 (by decide) (by decide) (lane x) : EReal) = fp (pIdxI k7 1 1) := wI_lane (F := Ideal) fp k7 (1 : Fin 4) (1 : Fin 10) (by decide) (by decide) (lane x) (pIdxI k7 1 1) rfl
  have ex2 := xI2_lane d L k0_t4 g v3 hv3 k7 k (H161 k7 k) (lane x) (rIdxI k (lane x) k7 2) rfl rfl
  have ew2 : (wI (F := Ideal) fp k7 2#32 1#32 (by decide) (by decide) (lane x) : EReal) = fp (pIdxI k7 2 1) := wI_lane (F := Ideal) fp k7 (2 : Fin 4) (1 : Fin 10) (by decide) (by decide) (lane x) (pIdxI k7 2 1) rfl
  have ex3 := xI3_lane d L k0_t4 g v3 hv3 k7 k (H162 k7 k) (lane x) (rIdxI k (lane x) k7 3) rfl rfl
  have ew3 : (wI (F := Ideal) fp k7 3#32 1#32 (by decide) (by decide) (lane x) : EReal) = fp (pIdxI k7 3 1) := wI_lane (F := Ideal) fp k7 (3 : Fin 4) (1 : Fin 10) (by decide) (by decide) (lane x) (pIdxI k7 3 1) rfl
  rw [ex0, ex1, ex2, ex3, ew0, ew1, ew2, ew3]

/-- Row 2 after the sixteen outer trips, at the columns of inner trip `k`, the lanes read: the entry at the start
    plus, over the outer trips and their four features, the rectified entry of the half times the packed weight. -/
theorem acc9_row2_value (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off164 k0_t4 k) S1x16.size (k0_off164_inb k0_t4 k)).emb x) : EReal)
      = f0 ((Rect.unit (s := S10x512) (k0_off164 k0_t4 k) S1x16.size (k0_off164_inb k0_t4 k)).emb x) + ∑ k7 : Fin k0_t9_loop.trips,
          (max (halfMI d L k0_t4 g (rIdxI k (lane x) k7 0)) 0 * fp (pIdxI k7 0 2) + max (halfMI d L k0_t4 g (rIdxI k (lane x) k7 1)) 0 * fp (pIdxI k7 1 2)
            + max (halfMI d L k0_t4 g (rIdxI k (lane x) k7 2)) 0 * fp (pIdxI k7 2 2) + max (halfMI d L k0_t4 g (rIdxI k (lane x) k7 3)) 0 * fp (pIdxI k7 3 2) : EReal) := by
  rw [acc9_row2_closed]
  refine congrArg (HAdd.hAdd _) (Finset.sum_congr rfl fun k7 _ => ?_)
  have ex0 := xI0_lane d L k0_t4 g v3 hv3 k7 k (H159 k7 k) (lane x) (rIdxI k (lane x) k7 0) rfl rfl
  have ew0 : (wI (F := Ideal) fp k7 0#32 2#32 (by decide) (by decide) (lane x) : EReal) = fp (pIdxI k7 0 2) := wI_lane (F := Ideal) fp k7 (0 : Fin 4) (2 : Fin 10) (by decide) (by decide) (lane x) (pIdxI k7 0 2) rfl
  have ex1 := xI1_lane d L k0_t4 g v3 hv3 k7 k (H160 k7 k) (lane x) (rIdxI k (lane x) k7 1) rfl rfl
  have ew1 : (wI (F := Ideal) fp k7 1#32 2#32 (by decide) (by decide) (lane x) : EReal) = fp (pIdxI k7 1 2) := wI_lane (F := Ideal) fp k7 (1 : Fin 4) (2 : Fin 10) (by decide) (by decide) (lane x) (pIdxI k7 1 2) rfl
  have ex2 := xI2_lane d L k0_t4 g v3 hv3 k7 k (H161 k7 k) (lane x) (rIdxI k (lane x) k7 2) rfl rfl
  have ew2 : (wI (F := Ideal) fp k7 2#32 2#32 (by decide) (by decide) (lane x) : EReal) = fp (pIdxI k7 2 2) := wI_lane (F := Ideal) fp k7 (2 : Fin 4) (2 : Fin 10) (by decide) (by decide) (lane x) (pIdxI k7 2 2) rfl
  have ex3 := xI3_lane d L k0_t4 g v3 hv3 k7 k (H162 k7 k) (lane x) (rIdxI k (lane x) k7 3) rfl rfl
  have ew3 : (wI (F := Ideal) fp k7 3#32 2#32 (by decide) (by decide) (lane x) : EReal) = fp (pIdxI k7 3 2) := wI_lane (F := Ideal) fp k7 (3 : Fin 4) (2 : Fin 10) (by decide) (by decide) (lane x) (pIdxI k7 3 2) rfl
  rw [ex0, ex1, ex2, ex3, ew0, ew1, ew2, ew3]

/-- Row 3 after the sixteen outer trips, at the columns of inner trip `k`, the lanes read: the entry at the start
    plus, over the outer trips and their four features, the rectified entry of the half times the packed weight. -/
theorem acc9_row3_value (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off165 k0_t4 k) S1x16.size (k0_off165_inb k0_t4 k)).emb x) : EReal)
      = f0 ((Rect.unit (s := S10x512) (k0_off165 k0_t4 k) S1x16.size (k0_off165_inb k0_t4 k)).emb x) + ∑ k7 : Fin k0_t9_loop.trips,
          (max (halfMI d L k0_t4 g (rIdxI k (lane x) k7 0)) 0 * fp (pIdxI k7 0 3) + max (halfMI d L k0_t4 g (rIdxI k (lane x) k7 1)) 0 * fp (pIdxI k7 1 3)
            + max (halfMI d L k0_t4 g (rIdxI k (lane x) k7 2)) 0 * fp (pIdxI k7 2 3) + max (halfMI d L k0_t4 g (rIdxI k (lane x) k7 3)) 0 * fp (pIdxI k7 3 3) : EReal) := by
  rw [acc9_row3_closed]
  refine congrArg (HAdd.hAdd _) (Finset.sum_congr rfl fun k7 _ => ?_)
  have ex0 := xI0_lane d L k0_t4 g v3 hv3 k7 k (H159 k7 k) (lane x) (rIdxI k (lane x) k7 0) rfl rfl
  have ew0 : (wI (F := Ideal) fp k7 0#32 3#32 (by decide) (by decide) (lane x) : EReal) = fp (pIdxI k7 0 3) := wI_lane (F := Ideal) fp k7 (0 : Fin 4) (3 : Fin 10) (by decide) (by decide) (lane x) (pIdxI k7 0 3) rfl
  have ex1 := xI1_lane d L k0_t4 g v3 hv3 k7 k (H160 k7 k) (lane x) (rIdxI k (lane x) k7 1) rfl rfl
  have ew1 : (wI (F := Ideal) fp k7 1#32 3#32 (by decide) (by decide) (lane x) : EReal) = fp (pIdxI k7 1 3) := wI_lane (F := Ideal) fp k7 (1 : Fin 4) (3 : Fin 10) (by decide) (by decide) (lane x) (pIdxI k7 1 3) rfl
  have ex2 := xI2_lane d L k0_t4 g v3 hv3 k7 k (H161 k7 k) (lane x) (rIdxI k (lane x) k7 2) rfl rfl
  have ew2 : (wI (F := Ideal) fp k7 2#32 3#32 (by decide) (by decide) (lane x) : EReal) = fp (pIdxI k7 2 3) := wI_lane (F := Ideal) fp k7 (2 : Fin 4) (3 : Fin 10) (by decide) (by decide) (lane x) (pIdxI k7 2 3) rfl
  have ex3 := xI3_lane d L k0_t4 g v3 hv3 k7 k (H162 k7 k) (lane x) (rIdxI k (lane x) k7 3) rfl rfl
  have ew3 : (wI (F := Ideal) fp k7 3#32 3#32 (by decide) (by decide) (lane x) : EReal) = fp (pIdxI k7 3 3) := wI_lane (F := Ideal) fp k7 (3 : Fin 4) (3 : Fin 10) (by decide) (by decide) (lane x) (pIdxI k7 3 3) rfl
  rw [ex0, ex1, ex2, ex3, ew0, ew1, ew2, ew3]

/-- Row 4 after the sixteen outer trips, at the columns of inner trip `k`, the lanes read: the entry at the start
    plus, over the outer trips and their four features, the rectified entry of the half times the packed weight. -/
theorem acc9_row4_value (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off166 k0_t4 k) S1x16.size (k0_off166_inb k0_t4 k)).emb x) : EReal)
      = f0 ((Rect.unit (s := S10x512) (k0_off166 k0_t4 k) S1x16.size (k0_off166_inb k0_t4 k)).emb x) + ∑ k7 : Fin k0_t9_loop.trips,
          (max (halfMI d L k0_t4 g (rIdxI k (lane x) k7 0)) 0 * fp (pIdxI k7 0 4) + max (halfMI d L k0_t4 g (rIdxI k (lane x) k7 1)) 0 * fp (pIdxI k7 1 4)
            + max (halfMI d L k0_t4 g (rIdxI k (lane x) k7 2)) 0 * fp (pIdxI k7 2 4) + max (halfMI d L k0_t4 g (rIdxI k (lane x) k7 3)) 0 * fp (pIdxI k7 3 4) : EReal) := by
  rw [acc9_row4_closed]
  refine congrArg (HAdd.hAdd _) (Finset.sum_congr rfl fun k7 _ => ?_)
  have ex0 := xI0_lane d L k0_t4 g v3 hv3 k7 k (H159 k7 k) (lane x) (rIdxI k (lane x) k7 0) rfl rfl
  have ew0 : (wI (F := Ideal) fp k7 0#32 4#32 (by decide) (by decide) (lane x) : EReal) = fp (pIdxI k7 0 4) := wI_lane (F := Ideal) fp k7 (0 : Fin 4) (4 : Fin 10) (by decide) (by decide) (lane x) (pIdxI k7 0 4) rfl
  have ex1 := xI1_lane d L k0_t4 g v3 hv3 k7 k (H160 k7 k) (lane x) (rIdxI k (lane x) k7 1) rfl rfl
  have ew1 : (wI (F := Ideal) fp k7 1#32 4#32 (by decide) (by decide) (lane x) : EReal) = fp (pIdxI k7 1 4) := wI_lane (F := Ideal) fp k7 (1 : Fin 4) (4 : Fin 10) (by decide) (by decide) (lane x) (pIdxI k7 1 4) rfl
  have ex2 := xI2_lane d L k0_t4 g v3 hv3 k7 k (H161 k7 k) (lane x) (rIdxI k (lane x) k7 2) rfl rfl
  have ew2 : (wI (F := Ideal) fp k7 2#32 4#32 (by decide) (by decide) (lane x) : EReal) = fp (pIdxI k7 2 4) := wI_lane (F := Ideal) fp k7 (2 : Fin 4) (4 : Fin 10) (by decide) (by decide) (lane x) (pIdxI k7 2 4) rfl
  have ex3 := xI3_lane d L k0_t4 g v3 hv3 k7 k (H162 k7 k) (lane x) (rIdxI k (lane x) k7 3) rfl rfl
  have ew3 : (wI (F := Ideal) fp k7 3#32 4#32 (by decide) (by decide) (lane x) : EReal) = fp (pIdxI k7 3 4) := wI_lane (F := Ideal) fp k7 (3 : Fin 4) (4 : Fin 10) (by decide) (by decide) (lane x) (pIdxI k7 3 4) rfl
  rw [ex0, ex1, ex2, ex3, ew0, ew1, ew2, ew3]

/-- Row 5 after the sixteen outer trips, at the columns of inner trip `k`, the lanes read: the entry at the start
    plus, over the outer trips and their four features, the rectified entry of the half times the packed weight. -/
theorem acc9_row5_value (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off167 k0_t4 k) S1x16.size (k0_off167_inb k0_t4 k)).emb x) : EReal)
      = f0 ((Rect.unit (s := S10x512) (k0_off167 k0_t4 k) S1x16.size (k0_off167_inb k0_t4 k)).emb x) + ∑ k7 : Fin k0_t9_loop.trips,
          (max (halfMI d L k0_t4 g (rIdxI k (lane x) k7 0)) 0 * fp (pIdxI k7 0 5) + max (halfMI d L k0_t4 g (rIdxI k (lane x) k7 1)) 0 * fp (pIdxI k7 1 5)
            + max (halfMI d L k0_t4 g (rIdxI k (lane x) k7 2)) 0 * fp (pIdxI k7 2 5) + max (halfMI d L k0_t4 g (rIdxI k (lane x) k7 3)) 0 * fp (pIdxI k7 3 5) : EReal) := by
  rw [acc9_row5_closed]
  refine congrArg (HAdd.hAdd _) (Finset.sum_congr rfl fun k7 _ => ?_)
  have ex0 := xI0_lane d L k0_t4 g v3 hv3 k7 k (H159 k7 k) (lane x) (rIdxI k (lane x) k7 0) rfl rfl
  have ew0 : (wI (F := Ideal) fp k7 0#32 5#32 (by decide) (by decide) (lane x) : EReal) = fp (pIdxI k7 0 5) := wI_lane (F := Ideal) fp k7 (0 : Fin 4) (5 : Fin 10) (by decide) (by decide) (lane x) (pIdxI k7 0 5) rfl
  have ex1 := xI1_lane d L k0_t4 g v3 hv3 k7 k (H160 k7 k) (lane x) (rIdxI k (lane x) k7 1) rfl rfl
  have ew1 : (wI (F := Ideal) fp k7 1#32 5#32 (by decide) (by decide) (lane x) : EReal) = fp (pIdxI k7 1 5) := wI_lane (F := Ideal) fp k7 (1 : Fin 4) (5 : Fin 10) (by decide) (by decide) (lane x) (pIdxI k7 1 5) rfl
  have ex2 := xI2_lane d L k0_t4 g v3 hv3 k7 k (H161 k7 k) (lane x) (rIdxI k (lane x) k7 2) rfl rfl
  have ew2 : (wI (F := Ideal) fp k7 2#32 5#32 (by decide) (by decide) (lane x) : EReal) = fp (pIdxI k7 2 5) := wI_lane (F := Ideal) fp k7 (2 : Fin 4) (5 : Fin 10) (by decide) (by decide) (lane x) (pIdxI k7 2 5) rfl
  have ex3 := xI3_lane d L k0_t4 g v3 hv3 k7 k (H162 k7 k) (lane x) (rIdxI k (lane x) k7 3) rfl rfl
  have ew3 : (wI (F := Ideal) fp k7 3#32 5#32 (by decide) (by decide) (lane x) : EReal) = fp (pIdxI k7 3 5) := wI_lane (F := Ideal) fp k7 (3 : Fin 4) (5 : Fin 10) (by decide) (by decide) (lane x) (pIdxI k7 3 5) rfl
  rw [ex0, ex1, ex2, ex3, ew0, ew1, ew2, ew3]

/-- Row 6 after the sixteen outer trips, at the columns of inner trip `k`, the lanes read: the entry at the start
    plus, over the outer trips and their four features, the rectified entry of the half times the packed weight. -/
theorem acc9_row6_value (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off168 k0_t4 k) S1x16.size (k0_off168_inb k0_t4 k)).emb x) : EReal)
      = f0 ((Rect.unit (s := S10x512) (k0_off168 k0_t4 k) S1x16.size (k0_off168_inb k0_t4 k)).emb x) + ∑ k7 : Fin k0_t9_loop.trips,
          (max (halfMI d L k0_t4 g (rIdxI k (lane x) k7 0)) 0 * fp (pIdxI k7 0 6) + max (halfMI d L k0_t4 g (rIdxI k (lane x) k7 1)) 0 * fp (pIdxI k7 1 6)
            + max (halfMI d L k0_t4 g (rIdxI k (lane x) k7 2)) 0 * fp (pIdxI k7 2 6) + max (halfMI d L k0_t4 g (rIdxI k (lane x) k7 3)) 0 * fp (pIdxI k7 3 6) : EReal) := by
  rw [acc9_row6_closed]
  refine congrArg (HAdd.hAdd _) (Finset.sum_congr rfl fun k7 _ => ?_)
  have ex0 := xI0_lane d L k0_t4 g v3 hv3 k7 k (H159 k7 k) (lane x) (rIdxI k (lane x) k7 0) rfl rfl
  have ew0 : (wI (F := Ideal) fp k7 0#32 6#32 (by decide) (by decide) (lane x) : EReal) = fp (pIdxI k7 0 6) := wI_lane (F := Ideal) fp k7 (0 : Fin 4) (6 : Fin 10) (by decide) (by decide) (lane x) (pIdxI k7 0 6) rfl
  have ex1 := xI1_lane d L k0_t4 g v3 hv3 k7 k (H160 k7 k) (lane x) (rIdxI k (lane x) k7 1) rfl rfl
  have ew1 : (wI (F := Ideal) fp k7 1#32 6#32 (by decide) (by decide) (lane x) : EReal) = fp (pIdxI k7 1 6) := wI_lane (F := Ideal) fp k7 (1 : Fin 4) (6 : Fin 10) (by decide) (by decide) (lane x) (pIdxI k7 1 6) rfl
  have ex2 := xI2_lane d L k0_t4 g v3 hv3 k7 k (H161 k7 k) (lane x) (rIdxI k (lane x) k7 2) rfl rfl
  have ew2 : (wI (F := Ideal) fp k7 2#32 6#32 (by decide) (by decide) (lane x) : EReal) = fp (pIdxI k7 2 6) := wI_lane (F := Ideal) fp k7 (2 : Fin 4) (6 : Fin 10) (by decide) (by decide) (lane x) (pIdxI k7 2 6) rfl
  have ex3 := xI3_lane d L k0_t4 g v3 hv3 k7 k (H162 k7 k) (lane x) (rIdxI k (lane x) k7 3) rfl rfl
  have ew3 : (wI (F := Ideal) fp k7 3#32 6#32 (by decide) (by decide) (lane x) : EReal) = fp (pIdxI k7 3 6) := wI_lane (F := Ideal) fp k7 (3 : Fin 4) (6 : Fin 10) (by decide) (by decide) (lane x) (pIdxI k7 3 6) rfl
  rw [ex0, ex1, ex2, ex3, ew0, ew1, ew2, ew3]

/-- Row 7 after the sixteen outer trips, at the columns of inner trip `k`, the lanes read: the entry at the start
    plus, over the outer trips and their four features, the rectified entry of the half times the packed weight. -/
theorem acc9_row7_value (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off169 k0_t4 k) S1x16.size (k0_off169_inb k0_t4 k)).emb x) : EReal)
      = f0 ((Rect.unit (s := S10x512) (k0_off169 k0_t4 k) S1x16.size (k0_off169_inb k0_t4 k)).emb x) + ∑ k7 : Fin k0_t9_loop.trips,
          (max (halfMI d L k0_t4 g (rIdxI k (lane x) k7 0)) 0 * fp (pIdxI k7 0 7) + max (halfMI d L k0_t4 g (rIdxI k (lane x) k7 1)) 0 * fp (pIdxI k7 1 7)
            + max (halfMI d L k0_t4 g (rIdxI k (lane x) k7 2)) 0 * fp (pIdxI k7 2 7) + max (halfMI d L k0_t4 g (rIdxI k (lane x) k7 3)) 0 * fp (pIdxI k7 3 7) : EReal) := by
  rw [acc9_row7_closed]
  refine congrArg (HAdd.hAdd _) (Finset.sum_congr rfl fun k7 _ => ?_)
  have ex0 := xI0_lane d L k0_t4 g v3 hv3 k7 k (H159 k7 k) (lane x) (rIdxI k (lane x) k7 0) rfl rfl
  have ew0 : (wI (F := Ideal) fp k7 0#32 7#32 (by decide) (by decide) (lane x) : EReal) = fp (pIdxI k7 0 7) := wI_lane (F := Ideal) fp k7 (0 : Fin 4) (7 : Fin 10) (by decide) (by decide) (lane x) (pIdxI k7 0 7) rfl
  have ex1 := xI1_lane d L k0_t4 g v3 hv3 k7 k (H160 k7 k) (lane x) (rIdxI k (lane x) k7 1) rfl rfl
  have ew1 : (wI (F := Ideal) fp k7 1#32 7#32 (by decide) (by decide) (lane x) : EReal) = fp (pIdxI k7 1 7) := wI_lane (F := Ideal) fp k7 (1 : Fin 4) (7 : Fin 10) (by decide) (by decide) (lane x) (pIdxI k7 1 7) rfl
  have ex2 := xI2_lane d L k0_t4 g v3 hv3 k7 k (H161 k7 k) (lane x) (rIdxI k (lane x) k7 2) rfl rfl
  have ew2 : (wI (F := Ideal) fp k7 2#32 7#32 (by decide) (by decide) (lane x) : EReal) = fp (pIdxI k7 2 7) := wI_lane (F := Ideal) fp k7 (2 : Fin 4) (7 : Fin 10) (by decide) (by decide) (lane x) (pIdxI k7 2 7) rfl
  have ex3 := xI3_lane d L k0_t4 g v3 hv3 k7 k (H162 k7 k) (lane x) (rIdxI k (lane x) k7 3) rfl rfl
  have ew3 : (wI (F := Ideal) fp k7 3#32 7#32 (by decide) (by decide) (lane x) : EReal) = fp (pIdxI k7 3 7) := wI_lane (F := Ideal) fp k7 (3 : Fin 4) (7 : Fin 10) (by decide) (by decide) (lane x) (pIdxI k7 3 7) rfl
  rw [ex0, ex1, ex2, ex3, ew0, ew1, ew2, ew3]

/-- Row 8 after the sixteen outer trips, at the columns of inner trip `k`, the lanes read: the entry at the start
    plus, over the outer trips and their four features, the rectified entry of the half times the packed weight. -/
theorem acc9_row8_value (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off170 k0_t4 k) S1x16.size (k0_off170_inb k0_t4 k)).emb x) : EReal)
      = f0 ((Rect.unit (s := S10x512) (k0_off170 k0_t4 k) S1x16.size (k0_off170_inb k0_t4 k)).emb x) + ∑ k7 : Fin k0_t9_loop.trips,
          (max (halfMI d L k0_t4 g (rIdxI k (lane x) k7 0)) 0 * fp (pIdxI k7 0 8) + max (halfMI d L k0_t4 g (rIdxI k (lane x) k7 1)) 0 * fp (pIdxI k7 1 8)
            + max (halfMI d L k0_t4 g (rIdxI k (lane x) k7 2)) 0 * fp (pIdxI k7 2 8) + max (halfMI d L k0_t4 g (rIdxI k (lane x) k7 3)) 0 * fp (pIdxI k7 3 8) : EReal) := by
  rw [acc9_row8_closed]
  refine congrArg (HAdd.hAdd _) (Finset.sum_congr rfl fun k7 _ => ?_)
  have ex0 := xI0_lane d L k0_t4 g v3 hv3 k7 k (H159 k7 k) (lane x) (rIdxI k (lane x) k7 0) rfl rfl
  have ew0 : (wI (F := Ideal) fp k7 0#32 8#32 (by decide) (by decide) (lane x) : EReal) = fp (pIdxI k7 0 8) := wI_lane (F := Ideal) fp k7 (0 : Fin 4) (8 : Fin 10) (by decide) (by decide) (lane x) (pIdxI k7 0 8) rfl
  have ex1 := xI1_lane d L k0_t4 g v3 hv3 k7 k (H160 k7 k) (lane x) (rIdxI k (lane x) k7 1) rfl rfl
  have ew1 : (wI (F := Ideal) fp k7 1#32 8#32 (by decide) (by decide) (lane x) : EReal) = fp (pIdxI k7 1 8) := wI_lane (F := Ideal) fp k7 (1 : Fin 4) (8 : Fin 10) (by decide) (by decide) (lane x) (pIdxI k7 1 8) rfl
  have ex2 := xI2_lane d L k0_t4 g v3 hv3 k7 k (H161 k7 k) (lane x) (rIdxI k (lane x) k7 2) rfl rfl
  have ew2 : (wI (F := Ideal) fp k7 2#32 8#32 (by decide) (by decide) (lane x) : EReal) = fp (pIdxI k7 2 8) := wI_lane (F := Ideal) fp k7 (2 : Fin 4) (8 : Fin 10) (by decide) (by decide) (lane x) (pIdxI k7 2 8) rfl
  have ex3 := xI3_lane d L k0_t4 g v3 hv3 k7 k (H162 k7 k) (lane x) (rIdxI k (lane x) k7 3) rfl rfl
  have ew3 : (wI38 (F := Ideal) fp k7 (lane x) : EReal) = fp (pIdxI k7 3 8) := wI38_lane (F := Ideal) fp k7 (lane x) (pIdxI k7 3 8) rfl
  rw [ex0, ex1, ex2, ex3, ew0, ew1, ew2, ew3]

/-- Row 9 after the sixteen outer trips, at the columns of inner trip `k`, the lanes read: the entry at the start
    plus, over the outer trips and their four features, the rectified entry of the half times the packed weight. -/
theorem acc9_row9_value (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off171 k0_t4 k) S1x16.size (k0_off171_inb k0_t4 k)).emb x) : EReal)
      = f0 ((Rect.unit (s := S10x512) (k0_off171 k0_t4 k) S1x16.size (k0_off171_inb k0_t4 k)).emb x) + ∑ k7 : Fin k0_t9_loop.trips,
          (max (halfMI d L k0_t4 g (rIdxI k (lane x) k7 0)) 0 * fp (pIdxI k7 0 9) + max (halfMI d L k0_t4 g (rIdxI k (lane x) k7 1)) 0 * fp (pIdxI k7 1 9)
            + max (halfMI d L k0_t4 g (rIdxI k (lane x) k7 2)) 0 * fp (pIdxI k7 2 9) + max (halfMI d L k0_t4 g (rIdxI k (lane x) k7 3)) 0 * fp (pIdxI k7 3 9) : EReal) := by
  rw [acc9_row9_closed]
  refine congrArg (HAdd.hAdd _) (Finset.sum_congr rfl fun k7 _ => ?_)
  have ex0 := xI0_lane d L k0_t4 g v3 hv3 k7 k (H159 k7 k) (lane x) (rIdxI k (lane x) k7 0) rfl rfl
  have ew0 : (wI (F := Ideal) fp k7 0#32 9#32 (by decide) (by decide) (lane x) : EReal) = fp (pIdxI k7 0 9) := wI_lane (F := Ideal) fp k7 (0 : Fin 4) (9 : Fin 10) (by decide) (by decide) (lane x) (pIdxI k7 0 9) rfl
  have ex1 := xI1_lane d L k0_t4 g v3 hv3 k7 k (H160 k7 k) (lane x) (rIdxI k (lane x) k7 1) rfl rfl
  have ew1 : (wI (F := Ideal) fp k7 1#32 9#32 (by decide) (by decide) (lane x) : EReal) = fp (pIdxI k7 1 9) := wI_lane (F := Ideal) fp k7 (1 : Fin 4) (9 : Fin 10) (by decide) (by decide) (lane x) (pIdxI k7 1 9) rfl
  have ex2 := xI2_lane d L k0_t4 g v3 hv3 k7 k (H161 k7 k) (lane x) (rIdxI k (lane x) k7 2) rfl rfl
  have ew2 : (wI (F := Ideal) fp k7 2#32 9#32 (by decide) (by decide) (lane x) : EReal) = fp (pIdxI k7 2 9) := wI_lane (F := Ideal) fp k7 (2 : Fin 4) (9 : Fin 10) (by decide) (by decide) (lane x) (pIdxI k7 2 9) rfl
  have ex3 := xI3_lane d L k0_t4 g v3 hv3 k7 k (H162 k7 k) (lane x) (rIdxI k (lane x) k7 3) rfl rfl
  have ew3 : (wI39 (F := Ideal) fp k7 (lane x) : EReal) = fp (pIdxI k7 3 9) := wI39_lane (F := Ideal) fp k7 (lane x) (pIdxI k7 3 9) rfl
  rw [ex0, ex1, ex2, ex3, ew0, ew1, ew2, ew3]

end XLane

/-! ## The sixteen outer trips' four features each are the half's sixty-four columns -/

section Reindex

open scoped BigOperators

/-- A sum over the sixteen outer trips of four terms, one per feature of the trip, is the sum over the 64 columns. -/
theorem sum_trips_colsI (A : Fin 64 → EReal) :
    ∑ k7 : Fin k0_t9_loop.trips,
        (A ⟨4 * k7.val + 0, by have := lt_of_lt_of_eq k7.isLt k0_t9_trips; omega⟩ + A ⟨4 * k7.val + 1, by have := lt_of_lt_of_eq k7.isLt k0_t9_trips; omega⟩
          + A ⟨4 * k7.val + 2, by have := lt_of_lt_of_eq k7.isLt k0_t9_trips; omega⟩ + A ⟨4 * k7.val + 3, by have := lt_of_lt_of_eq k7.isLt k0_t9_trips; omega⟩)
      = ∑ c : Fin 64, A c := by
  let A' : ℕ → EReal := fun c => if hc : c < 64 then A ⟨c, hc⟩ else 0
  have hA : ∀ c : Fin 64, A c = A' c.val := fun c => by simp only [A', dif_pos c.isLt]
  have hL : ∀ k7 : Fin k0_t9_loop.trips,
      (A ⟨4 * k7.val + 0, by have := lt_of_lt_of_eq k7.isLt k0_t9_trips; omega⟩ + A ⟨4 * k7.val + 1, by have := lt_of_lt_of_eq k7.isLt k0_t9_trips; omega⟩
          + A ⟨4 * k7.val + 2, by have := lt_of_lt_of_eq k7.isLt k0_t9_trips; omega⟩ + A ⟨4 * k7.val + 3, by have := lt_of_lt_of_eq k7.isLt k0_t9_trips; omega⟩)
        = (fun i : ℕ => A' (4 * i) + A' (4 * i + 1) + A' (4 * i + 2) + A' (4 * i + 3)) k7.val := fun k7 => by
    have h16 := lt_of_lt_of_eq k7.isLt k0_t9_trips
    simp only [A', Nat.add_zero]
    rw [dif_pos (show 4 * k7.val < 64 by omega), dif_pos (show 4 * k7.val + 1 < 64 by omega), dif_pos (show 4 * k7.val + 2 < 64 by omega),
      dif_pos (show 4 * k7.val + 3 < 64 by omega)]
  rw [Finset.sum_congr rfl (fun k7 _ => hL k7), Fin.sum_univ_eq_sum_range (fun i : ℕ => A' (4 * i) + A' (4 * i + 1) + A' (4 * i + 2) + A' (4 * i + 3)),
    k0_t9_trips, sum_blocks4 A' 16, Finset.sum_congr rfl (fun c _ => hA c), Fin.sum_univ_eq_sum_range A' 64]

end Reindex

section Cols

open scoped BigOperators

/-- Row `16·k + l` of the half at column `c`; entry `640 + c·10 + h` of the parameters. -/
def rowIdxI (k : Fin k0_t10_loop.trips) (l : S16.Idx) (c : Fin 64) : S128x64.Idx :=
  ValueIdx.ix2 (⟨16 * k.val + (l 0).val, by
      have h1 : k.val < 8 := lt_of_lt_of_eq k.isLt k0_t10_trips
      have h2 : (l 0).val < 16 := (l 0).isLt
      omega⟩ : Fin 128) c
def colPI (c : Fin 64) (h : Fin 10) : S1312.Idx :=
  ValueIdx.ix1 (⟨640 + c.val * 10 + h.val, by have h1 := c.isLt; have h2 := h.isLt; omega⟩ : Fin 1312)

variable (d : Dev nD) (L : grid0.Coords) (k0_t4 : Fin k0_t4_loop.trips) (g : Buf (Elt Ideal) ((halfI k0_t4).view.loc (thr d L)))
variable (v3 : IVec S16 32) (fp : S1312.Idx → Elt Ideal .f32)
variable (H159 : ∀ (k7 : Fin k0_t9_loop.trips) (k8 : Fin k0_t10_loop.trips), k0_chk159 (k0_pay124 v3 0#32 1#32 k8) (k0_pay125 (Scalar.muli (Scf.iv 0#32 1#32 k7) 4#32)))
variable (H160 : ∀ (k7 : Fin k0_t9_loop.trips) (k8 : Fin k0_t10_loop.trips), k0_chk160 (k0_pay124 v3 0#32 1#32 k8) (k0_pay127 (Scalar.muli (Scf.iv 0#32 1#32 k7) 4#32)))
variable (H161 : ∀ (k7 : Fin k0_t9_loop.trips) (k8 : Fin k0_t10_loop.trips), k0_chk161 (k0_pay124 v3 0#32 1#32 k8) (k0_pay129 (Scalar.muli (Scf.iv 0#32 1#32 k7) 4#32)))
variable (H162 : ∀ (k7 : Fin k0_t9_loop.trips) (k8 : Fin k0_t10_loop.trips), k0_chk162 (k0_pay124 v3 0#32 1#32 k8) (k0_pay131 (Scalar.muli (Scf.iv 0#32 1#32 k7) 4#32)))

/-- Row 0: the entry at the start plus, over the half's 64 columns, the rectified entry of the sample's row times
    the first layer's weight for this hidden unit. -/
theorem acc9_row0_cols (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off162 k0_t4 k) S1x16.size (k0_off162_inb k0_t4 k)).emb x) : EReal)
      = f0 ((Rect.unit (s := S10x512) (k0_off162 k0_t4 k) S1x16.size (k0_off162_inb k0_t4 k)).emb x) + ∑ c : Fin 64, (max (halfMI d L k0_t4 g (rowIdxI k (lane x) c)) 0 * fp (colPI c 0) : EReal) := by
  rw [acc9_row0_value d L k0_t4 g v3 fp H159 H160 H161 H162 hv3 f0 k x,
    ← sum_trips_colsI (fun c : Fin 64 => (max (halfMI d L k0_t4 g (rowIdxI k (lane x) c)) 0 * fp (colPI c 0) : EReal))]
  rfl

/-- Row 1: the entry at the start plus, over the half's 64 columns, the rectified entry of the sample's row times
    the first layer's weight for this hidden unit. -/
theorem acc9_row1_cols (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off163 k0_t4 k) S1x16.size (k0_off163_inb k0_t4 k)).emb x) : EReal)
      = f0 ((Rect.unit (s := S10x512) (k0_off163 k0_t4 k) S1x16.size (k0_off163_inb k0_t4 k)).emb x) + ∑ c : Fin 64, (max (halfMI d L k0_t4 g (rowIdxI k (lane x) c)) 0 * fp (colPI c 1) : EReal) := by
  rw [acc9_row1_value d L k0_t4 g v3 fp H159 H160 H161 H162 hv3 f0 k x,
    ← sum_trips_colsI (fun c : Fin 64 => (max (halfMI d L k0_t4 g (rowIdxI k (lane x) c)) 0 * fp (colPI c 1) : EReal))]
  rfl

/-- Row 2: the entry at the start plus, over the half's 64 columns, the rectified entry of the sample's row times
    the first layer's weight for this hidden unit. -/
theorem acc9_row2_cols (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off164 k0_t4 k) S1x16.size (k0_off164_inb k0_t4 k)).emb x) : EReal)
      = f0 ((Rect.unit (s := S10x512) (k0_off164 k0_t4 k) S1x16.size (k0_off164_inb k0_t4 k)).emb x) + ∑ c : Fin 64, (max (halfMI d L k0_t4 g (rowIdxI k (lane x) c)) 0 * fp (colPI c 2) : EReal) := by
  rw [acc9_row2_value d L k0_t4 g v3 fp H159 H160 H161 H162 hv3 f0 k x,
    ← sum_trips_colsI (fun c : Fin 64 => (max (halfMI d L k0_t4 g (rowIdxI k (lane x) c)) 0 * fp (colPI c 2) : EReal))]
  rfl

/-- Row 3: the entry at the start plus, over the half's 64 columns, the rectified entry of the sample's row times
    the first layer's weight for this hidden unit. -/
theorem acc9_row3_cols (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off165 k0_t4 k) S1x16.size (k0_off165_inb k0_t4 k)).emb x) : EReal)
      = f0 ((Rect.unit (s := S10x512) (k0_off165 k0_t4 k) S1x16.size (k0_off165_inb k0_t4 k)).emb x) + ∑ c : Fin 64, (max (halfMI d L k0_t4 g (rowIdxI k (lane x) c)) 0 * fp (colPI c 3) : EReal) := by
  rw [acc9_row3_value d L k0_t4 g v3 fp H159 H160 H161 H162 hv3 f0 k x,
    ← sum_trips_colsI (fun c : Fin 64 => (max (halfMI d L k0_t4 g (rowIdxI k (lane x) c)) 0 * fp (colPI c 3) : EReal))]
  rfl

/-- Row 4: the entry at the start plus, over the half's 64 columns, the rectified entry of the sample's row times
    the first layer's weight for this hidden unit. -/
theorem acc9_row4_cols (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off166 k0_t4 k) S1x16.size (k0_off166_inb k0_t4 k)).emb x) : EReal)
      = f0 ((Rect.unit (s := S10x512) (k0_off166 k0_t4 k) S1x16.size (k0_off166_inb k0_t4 k)).emb x) + ∑ c : Fin 64, (max (halfMI d L k0_t4 g (rowIdxI k (lane x) c)) 0 * fp (colPI c 4) : EReal) := by
  rw [acc9_row4_value d L k0_t4 g v3 fp H159 H160 H161 H162 hv3 f0 k x,
    ← sum_trips_colsI (fun c : Fin 64 => (max (halfMI d L k0_t4 g (rowIdxI k (lane x) c)) 0 * fp (colPI c 4) : EReal))]
  rfl

/-- Row 5: the entry at the start plus, over the half's 64 columns, the rectified entry of the sample's row times
    the first layer's weight for this hidden unit. -/
theorem acc9_row5_cols (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off167 k0_t4 k) S1x16.size (k0_off167_inb k0_t4 k)).emb x) : EReal)
      = f0 ((Rect.unit (s := S10x512) (k0_off167 k0_t4 k) S1x16.size (k0_off167_inb k0_t4 k)).emb x) + ∑ c : Fin 64, (max (halfMI d L k0_t4 g (rowIdxI k (lane x) c)) 0 * fp (colPI c 5) : EReal) := by
  rw [acc9_row5_value d L k0_t4 g v3 fp H159 H160 H161 H162 hv3 f0 k x,
    ← sum_trips_colsI (fun c : Fin 64 => (max (halfMI d L k0_t4 g (rowIdxI k (lane x) c)) 0 * fp (colPI c 5) : EReal))]
  rfl

/-- Row 6: the entry at the start plus, over the half's 64 columns, the rectified entry of the sample's row times
    the first layer's weight for this hidden unit. -/
theorem acc9_row6_cols (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off168 k0_t4 k) S1x16.size (k0_off168_inb k0_t4 k)).emb x) : EReal)
      = f0 ((Rect.unit (s := S10x512) (k0_off168 k0_t4 k) S1x16.size (k0_off168_inb k0_t4 k)).emb x) + ∑ c : Fin 64, (max (halfMI d L k0_t4 g (rowIdxI k (lane x) c)) 0 * fp (colPI c 6) : EReal) := by
  rw [acc9_row6_value d L k0_t4 g v3 fp H159 H160 H161 H162 hv3 f0 k x,
    ← sum_trips_colsI (fun c : Fin 64 => (max (halfMI d L k0_t4 g (rowIdxI k (lane x) c)) 0 * fp (colPI c 6) : EReal))]
  rfl

/-- Row 7: the entry at the start plus, over the half's 64 columns, the rectified entry of the sample's row times
    the first layer's weight for this hidden unit. -/
theorem acc9_row7_cols (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off169 k0_t4 k) S1x16.size (k0_off169_inb k0_t4 k)).emb x) : EReal)
      = f0 ((Rect.unit (s := S10x512) (k0_off169 k0_t4 k) S1x16.size (k0_off169_inb k0_t4 k)).emb x) + ∑ c : Fin 64, (max (halfMI d L k0_t4 g (rowIdxI k (lane x) c)) 0 * fp (colPI c 7) : EReal) := by
  rw [acc9_row7_value d L k0_t4 g v3 fp H159 H160 H161 H162 hv3 f0 k x,
    ← sum_trips_colsI (fun c : Fin 64 => (max (halfMI d L k0_t4 g (rowIdxI k (lane x) c)) 0 * fp (colPI c 7) : EReal))]
  rfl

/-- Row 8: the entry at the start plus, over the half's 64 columns, the rectified entry of the sample's row times
    the first layer's weight for this hidden unit. -/
theorem acc9_row8_cols (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off170 k0_t4 k) S1x16.size (k0_off170_inb k0_t4 k)).emb x) : EReal)
      = f0 ((Rect.unit (s := S10x512) (k0_off170 k0_t4 k) S1x16.size (k0_off170_inb k0_t4 k)).emb x) + ∑ c : Fin 64, (max (halfMI d L k0_t4 g (rowIdxI k (lane x) c)) 0 * fp (colPI c 8) : EReal) := by
  rw [acc9_row8_value d L k0_t4 g v3 fp H159 H160 H161 H162 hv3 f0 k x,
    ← sum_trips_colsI (fun c : Fin 64 => (max (halfMI d L k0_t4 g (rowIdxI k (lane x) c)) 0 * fp (colPI c 8) : EReal))]
  rfl

/-- Row 9: the entry at the start plus, over the half's 64 columns, the rectified entry of the sample's row times
    the first layer's weight for this hidden unit. -/
theorem acc9_row9_cols (hv3 : v3 = iota .scVector S16 32 [0] Facts₀.iota_S16_d0_w32_scVector)
    (f0 : S10x512.Idx → Elt Ideal .f32) (k : Fin k0_t10_loop.trips) (x : S1x16.Idx) :
    (acc9 (F := Ideal) d L v3 k0_t4 fp g H159 H160 H161 H162 f0 k0_t9_loop.trips ((Rect.unit (s := S10x512) (k0_off171 k0_t4 k) S1x16.size (k0_off171_inb k0_t4 k)).emb x) : EReal)
      = f0 ((Rect.unit (s := S10x512) (k0_off171 k0_t4 k) S1x16.size (k0_off171_inb k0_t4 k)).emb x) + ∑ c : Fin 64, (max (halfMI d L k0_t4 g (rowIdxI k (lane x) c)) 0 * fp (colPI c 9) : EReal) := by
  rw [acc9_row9_value d L k0_t4 g v3 fp H159 H160 H161 H162 hv3 f0 k x,
    ← sum_trips_colsI (fun c : Fin 64 => (max (halfMI d L k0_t4 g (rowIdxI k (lane x) c)) 0 * fp (colPI c 9) : EReal))]
  rfl

end Cols

section Apply

open scoped BigOperators

variable (d : Dev nD) (L : grid0.Coords) (k0_t4 : Fin k0_t4_loop.trips) (g : Buf (Elt Ideal) ((halfI k0_t4).view.loc (thr d L)))
variable (v3 : IVec S16 32) (fp : S1312.Idx → Elt Ideal .f32)
variable (H159 : ∀ (k7 : Fin k0_t9_loop.trips) (k8 : Fin k0_t10_loop.trips), k0_chk159 (k0_pay124 v3 0#32 1#32 k8) (k0_pay125 (Scalar.muli (Scf.iv 0#32 1#32 k7) 4#32)))
variable (H160 : ∀ (k7 : Fin k0_t9_loop.trips) (k8 : Fin k0_t10_loop.trips), k0_chk160 (k0_pay124 v3 0#32 1#32 k8) (k0_pay127 (Scalar.muli (Scf.iv 0#32 1#32 k7) 4#32)))
variable (H161 : ∀ (k7 : Fin k0_t9_loop.trips) (k8 : Fin k0_t10_loop.trips), k0_chk161 (k0_pay124 v3 0#32 1#32 k8) (k0_pay129 (Scalar.muli (Scf.iv 0#32 1#32 k7) 4#32)))
variable (H162 : ∀ (k7 : Fin k0_t9_loop.trips) (k8 : Fin k0_t10_loop.trips), k0_chk162 (k0_pay124 v3 0#32 1#32 k8) (k0_pay131 (Scalar.muli (Scf.iv 0#32 1#32 k7) 4#32)))

/-- The item half of the first layer, at an entry of the chunk's columns: hidden unit `h`, column `j` of the
    accumulator with `128·c ≤ j < 128·c + 128` for the chunk `c`, that is the sample in row `j - 128·c` of the half. -/
theorem acc9_inside (hv3 : v3 = iota .scVector S16 32 [0] Facts₀.iota_S16_d0_w32_scVector)
    (f0 : S10x512.Idx → Elt Ideal .f32) (h : Fin 10) (j : Fin 512)
    (hlo : 128 * k0_t4.val ≤ j.val) (hhi : j.val < 128 * k0_t4.val + 128) :
    (acc9 (F := Ideal) d L v3 k0_t4 fp g H159 H160 H161 H162 f0 k0_t9_loop.trips (ValueIdx.ix2 h j) : EReal)
      = f0 (ValueIdx.ix2 h j) + ∑ c : Fin 64,
          (max (halfMI d L k0_t4 g (ValueIdx.ix2 (⟨j.val - 128 * k0_t4.val, by omega⟩ : Fin 128) c)) 0 * fp (colPI c h) : EReal) := by
  -- the inner trip and the lane of the column
  have h8 : (j.val - 128 * k0_t4.val) / 16 < k0_t10_loop.trips := by rw [k0_t10_trips]; omega
  let kq : Fin k0_t10_loop.trips := ⟨(j.val - 128 * k0_t4.val) / 16, h8⟩
  let xq : S1x16.Idx := ValueIdx.ix2 (0 : Fin 1) (⟨(j.val - 128 * k0_t4.val) % 16, Nat.mod_lt _ (by decide)⟩ : Fin 16)
  have hrow : ∀ c : Fin 64, rowIdxI kq (lane xq) c = ValueIdx.ix2 (⟨j.val - 128 * k0_t4.val, by omega⟩ : Fin 128) c := fun c => by
    unfold rowIdxI
    congr 1
    apply Fin.ext
    show 16 * ((j.val - 128 * k0_t4.val) / 16) + (j.val - 128 * k0_t4.val) % 16 = j.val - 128 * k0_t4.val
    omega
  fin_cases h
  · -- hidden unit 0
    show (acc9 (F := Ideal) d L v3 k0_t4 fp g H159 H160 H161 H162 f0 k0_t9_loop.trips (ValueIdx.ix2 (0 : Fin 10) j) : EReal)
      = f0 (ValueIdx.ix2 (0 : Fin 10) j) + ∑ c : Fin 64,
          (max (halfMI d L k0_t4 g (ValueIdx.ix2 (⟨j.val - 128 * k0_t4.val, by omega⟩ : Fin 128) c)) 0 * fp (colPI c (0 : Fin 10)) : EReal)
    have e : (ValueIdx.ix2 (0 : Fin 10) j : S10x512.Idx) = (Rect.unit (s := S10x512) (k0_off162 k0_t4 kq) S1x16.size (k0_off162_inb k0_t4 kq)).emb xq := by
      funext a
      apply Fin.ext
      fin_cases a
      · show 0 = (k0_off162 k0_t4 kq) 0 + 1 * 0
        rw [k0_off162_eq]; rfl
      · show j.val = (k0_off162 k0_t4 kq) 1 + 1 * ((j.val - 128 * k0_t4.val) % 16)
        rw [k0_off162_eq]
        show j.val = (128 * k0_t4.val + 16 * ((j.val - 128 * k0_t4.val) / 16)) + 1 * ((j.val - 128 * k0_t4.val) % 16)
        omega
    rw [e, acc9_row0_cols d L k0_t4 g v3 fp H159 H160 H161 H162 hv3 f0 kq xq]
    refine congrArg (HAdd.hAdd _) (Finset.sum_congr rfl fun c _ => ?_)
    rw [hrow c]
  · -- hidden unit 1
    show (acc9 (F := Ideal) d L v3 k0_t4 fp g H159 H160 H161 H162 f0 k0_t9_loop.trips (ValueIdx.ix2 (1 : Fin 10) j) : EReal)
      = f0 (ValueIdx.ix2 (1 : Fin 10) j) + ∑ c : Fin 64,
          (max (halfMI d L k0_t4 g (ValueIdx.ix2 (⟨j.val - 128 * k0_t4.val, by omega⟩ : Fin 128) c)) 0 * fp (colPI c (1 : Fin 10)) : EReal)
    have e : (ValueIdx.ix2 (1 : Fin 10) j : S10x512.Idx) = (Rect.unit (s := S10x512) (k0_off163 k0_t4 kq) S1x16.size (k0_off163_inb k0_t4 kq)).emb xq := by
      funext a
      apply Fin.ext
      fin_cases a
      · show 1 = (k0_off163 k0_t4 kq) 0 + 1 * 0
        rw [k0_off163_eq]; rfl
      · show j.val = (k0_off163 k0_t4 kq) 1 + 1 * ((j.val - 128 * k0_t4.val) % 16)
        rw [k0_off163_eq]
        show j.val = (128 * k0_t4.val + 16 * ((j.val - 128 * k0_t4.val) / 16)) + 1 * ((j.val - 128 * k0_t4.val) % 16)
        omega
    rw [e, acc9_row1_cols d L k0_t4 g v3 fp H159 H160 H161 H162 hv3 f0 kq xq]
    refine congrArg (HAdd.hAdd _) (Finset.sum_congr rfl fun c _ => ?_)
    rw [hrow c]
  · -- hidden unit 2
    show (acc9 (F := Ideal) d L v3 k0_t4 fp g H159 H160 H161 H162 f0 k0_t9_loop.trips (ValueIdx.ix2 (2 : Fin 10) j) : EReal)
      = f0 (ValueIdx.ix2 (2 : Fin 10) j) + ∑ c : Fin 64,
          (max (halfMI d L k0_t4 g (ValueIdx.ix2 (⟨j.val - 128 * k0_t4.val, by omega⟩ : Fin 128) c)) 0 * fp (colPI c (2 : Fin 10)) : EReal)
    have e : (ValueIdx.ix2 (2 : Fin 10) j : S10x512.Idx) = (Rect.unit (s := S10x512) (k0_off164 k0_t4 kq) S1x16.size (k0_off164_inb k0_t4 kq)).emb xq := by
      funext a
      apply Fin.ext
      fin_cases a
      · show 2 = (k0_off164 k0_t4 kq) 0 + 1 * 0
        rw [k0_off164_eq]; rfl
      · show j.val = (k0_off164 k0_t4 kq) 1 + 1 * ((j.val - 128 * k0_t4.val) % 16)
        rw [k0_off164_eq]
        show j.val = (128 * k0_t4.val + 16 * ((j.val - 128 * k0_t4.val) / 16)) + 1 * ((j.val - 128 * k0_t4.val) % 16)
        omega
    rw [e, acc9_row2_cols d L k0_t4 g v3 fp H159 H160 H161 H162 hv3 f0 kq xq]
    refine congrArg (HAdd.hAdd _) (Finset.sum_congr rfl fun c _ => ?_)
    rw [hrow c]
  · -- hidden unit 3
    show (acc9 (F := Ideal) d L v3 k0_t4 fp g H159 H160 H161 H162 f0 k0_t9_loop.trips (ValueIdx.ix2 (3 : Fin 10) j) : EReal)
      = f0 (ValueIdx.ix2 (3 : Fin 10) j) + ∑ c : Fin 64,
          (max (halfMI d L k0_t4 g (ValueIdx.ix2 (⟨j.val - 128 * k0_t4.val, by omega⟩ : Fin 128) c)) 0 * fp (colPI c (3 : Fin 10)) : EReal)
    have e : (ValueIdx.ix2 (3 : Fin 10) j : S10x512.Idx) = (Rect.unit (s := S10x512) (k0_off165 k0_t4 kq) S1x16.size (k0_off165_inb k0_t4 kq)).emb xq := by
      funext a
      apply Fin.ext
      fin_cases a
      · show 3 = (k0_off165 k0_t4 kq) 0 + 1 * 0
        rw [k0_off165_eq]; rfl
      · show j.val = (k0_off165 k0_t4 kq) 1 + 1 * ((j.val - 128 * k0_t4.val) % 16)
        rw [k0_off165_eq]
        show j.val = (128 * k0_t4.val + 16 * ((j.val - 128 * k0_t4.val) / 16)) + 1 * ((j.val - 128 * k0_t4.val) % 16)
        omega
    rw [e, acc9_row3_cols d L k0_t4 g v3 fp H159 H160 H161 H162 hv3 f0 kq xq]
    refine congrArg (HAdd.hAdd _) (Finset.sum_congr rfl fun c _ => ?_)
    rw [hrow c]
  · -- hidden unit 4
    show (acc9 (F := Ideal) d L v3 k0_t4 fp g H159 H160 H161 H162 f0 k0_t9_loop.trips (ValueIdx.ix2 (4 : Fin 10) j) : EReal)
      = f0 (ValueIdx.ix2 (4 : Fin 10) j) + ∑ c : Fin 64,
          (max (halfMI d L k0_t4 g (ValueIdx.ix2 (⟨j.val - 128 * k0_t4.val, by omega⟩ : Fin 128) c)) 0 * fp (colPI c (4 : Fin 10)) : EReal)
    have e : (ValueIdx.ix2 (4 : Fin 10) j : S10x512.Idx) = (Rect.unit (s := S10x512) (k0_off166 k0_t4 kq) S1x16.size (k0_off166_inb k0_t4 kq)).emb xq := by
      funext a
      apply Fin.ext
      fin_cases a
      · show 4 = (k0_off166 k0_t4 kq) 0 + 1 * 0
        rw [k0_off166_eq]; rfl
      · show j.val = (k0_off166 k0_t4 kq) 1 + 1 * ((j.val - 128 * k0_t4.val) % 16)
        rw [k0_off166_eq]
        show j.val = (128 * k0_t4.val + 16 * ((j.val - 128 * k0_t4.val) / 16)) + 1 * ((j.val - 128 * k0_t4.val) % 16)
        omega
    rw [e, acc9_row4_cols d L k0_t4 g v3 fp H159 H160 H161 H162 hv3 f0 kq xq]
    refine congrArg (HAdd.hAdd _) (Finset.sum_congr rfl fun c _ => ?_)
    rw [hrow c]
  · -- hidden unit 5
    show (acc9 (F := Ideal) d L v3 k0_t4 fp g H159 H160 H161 H162 f0 k0_t9_loop.trips (ValueIdx.ix2 (5 : Fin 10) j) : EReal)
      = f0 (ValueIdx.ix2 (5 : Fin 10) j) + ∑ c : Fin 64,
          (max (halfMI d L k0_t4 g (ValueIdx.ix2 (⟨j.val - 128 * k0_t4.val, by omega⟩ : Fin 128) c)) 0 * fp (colPI c (5 : Fin 10)) : EReal)
    have e : (ValueIdx.ix2 (5 : Fin 10) j : S10x512.Idx) = (Rect.unit (s := S10x512) (k0_off167 k0_t4 kq) S1x16.size (k0_off167_inb k0_t4 kq)).emb xq := by
      funext a
      apply Fin.ext
      fin_cases a
      · show 5 = (k0_off167 k0_t4 kq) 0 + 1 * 0
        rw [k0_off167_eq]; rfl
      · show j.val = (k0_off167 k0_t4 kq) 1 + 1 * ((j.val - 128 * k0_t4.val) % 16)
        rw [k0_off167_eq]
        show j.val = (128 * k0_t4.val + 16 * ((j.val - 128 * k0_t4.val) / 16)) + 1 * ((j.val - 128 * k0_t4.val) % 16)
        omega
    rw [e, acc9_row5_cols d L k0_t4 g v3 fp H159 H160 H161 H162 hv3 f0 kq xq]
    refine congrArg (HAdd.hAdd _) (Finset.sum_congr rfl fun c _ => ?_)
    rw [hrow c]
  · -- hidden unit 6
    show (acc9 (F := Ideal) d L v3 k0_t4 fp g H159 H160 H161 H162 f0 k0_t9_loop.trips (ValueIdx.ix2 (6 : Fin 10) j) : EReal)
      = f0 (ValueIdx.ix2 (6 : Fin 10) j) + ∑ c : Fin 64,
          (max (halfMI d L k0_t4 g (ValueIdx.ix2 (⟨j.val - 128 * k0_t4.val, by omega⟩ : Fin 128) c)) 0 * fp (colPI c (6 : Fin 10)) : EReal)
    have e : (ValueIdx.ix2 (6 : Fin 10) j : S10x512.Idx) = (Rect.unit (s := S10x512) (k0_off168 k0_t4 kq) S1x16.size (k0_off168_inb k0_t4 kq)).emb xq := by
      funext a
      apply Fin.ext
      fin_cases a
      · show 6 = (k0_off168 k0_t4 kq) 0 + 1 * 0
        rw [k0_off168_eq]; rfl
      · show j.val = (k0_off168 k0_t4 kq) 1 + 1 * ((j.val - 128 * k0_t4.val) % 16)
        rw [k0_off168_eq]
        show j.val = (128 * k0_t4.val + 16 * ((j.val - 128 * k0_t4.val) / 16)) + 1 * ((j.val - 128 * k0_t4.val) % 16)
        omega
    rw [e, acc9_row6_cols d L k0_t4 g v3 fp H159 H160 H161 H162 hv3 f0 kq xq]
    refine congrArg (HAdd.hAdd _) (Finset.sum_congr rfl fun c _ => ?_)
    rw [hrow c]
  · -- hidden unit 7
    show (acc9 (F := Ideal) d L v3 k0_t4 fp g H159 H160 H161 H162 f0 k0_t9_loop.trips (ValueIdx.ix2 (7 : Fin 10) j) : EReal)
      = f0 (ValueIdx.ix2 (7 : Fin 10) j) + ∑ c : Fin 64,
          (max (halfMI d L k0_t4 g (ValueIdx.ix2 (⟨j.val - 128 * k0_t4.val, by omega⟩ : Fin 128) c)) 0 * fp (colPI c (7 : Fin 10)) : EReal)
    have e : (ValueIdx.ix2 (7 : Fin 10) j : S10x512.Idx) = (Rect.unit (s := S10x512) (k0_off169 k0_t4 kq) S1x16.size (k0_off169_inb k0_t4 kq)).emb xq := by
      funext a
      apply Fin.ext
      fin_cases a
      · show 7 = (k0_off169 k0_t4 kq) 0 + 1 * 0
        rw [k0_off169_eq]; rfl
      · show j.val = (k0_off169 k0_t4 kq) 1 + 1 * ((j.val - 128 * k0_t4.val) % 16)
        rw [k0_off169_eq]
        show j.val = (128 * k0_t4.val + 16 * ((j.val - 128 * k0_t4.val) / 16)) + 1 * ((j.val - 128 * k0_t4.val) % 16)
        omega
    rw [e, acc9_row7_cols d L k0_t4 g v3 fp H159 H160 H161 H162 hv3 f0 kq xq]
    refine congrArg (HAdd.hAdd _) (Finset.sum_congr rfl fun c _ => ?_)
    rw [hrow c]
  · -- hidden unit 8
    show (acc9 (F := Ideal) d L v3 k0_t4 fp g H159 H160 H161 H162 f0 k0_t9_loop.trips (ValueIdx.ix2 (8 : Fin 10) j) : EReal)
      = f0 (ValueIdx.ix2 (8 : Fin 10) j) + ∑ c : Fin 64,
          (max (halfMI d L k0_t4 g (ValueIdx.ix2 (⟨j.val - 128 * k0_t4.val, by omega⟩ : Fin 128) c)) 0 * fp (colPI c (8 : Fin 10)) : EReal)
    have e : (ValueIdx.ix2 (8 : Fin 10) j : S10x512.Idx) = (Rect.unit (s := S10x512) (k0_off170 k0_t4 kq) S1x16.size (k0_off170_inb k0_t4 kq)).emb xq := by
      funext a
      apply Fin.ext
      fin_cases a
      · show 8 = (k0_off170 k0_t4 kq) 0 + 1 * 0
        rw [k0_off170_eq]; rfl
      · show j.val = (k0_off170 k0_t4 kq) 1 + 1 * ((j.val - 128 * k0_t4.val) % 16)
        rw [k0_off170_eq]
        show j.val = (128 * k0_t4.val + 16 * ((j.val - 128 * k0_t4.val) / 16)) + 1 * ((j.val - 128 * k0_t4.val) % 16)
        omega
    rw [e, acc9_row8_cols d L k0_t4 g v3 fp H159 H160 H161 H162 hv3 f0 kq xq]
    refine congrArg (HAdd.hAdd _) (Finset.sum_congr rfl fun c _ => ?_)
    rw [hrow c]
  · -- hidden unit 9
    show (acc9 (F := Ideal) d L v3 k0_t4 fp g H159 H160 H161 H162 f0 k0_t9_loop.trips (ValueIdx.ix2 (9 : Fin 10) j) : EReal)
      = f0 (ValueIdx.ix2 (9 : Fin 10) j) + ∑ c : Fin 64,
          (max (halfMI d L k0_t4 g (ValueIdx.ix2 (⟨j.val - 128 * k0_t4.val, by omega⟩ : Fin 128) c)) 0 * fp (colPI c (9 : Fin 10)) : EReal)
    have e : (ValueIdx.ix2 (9 : Fin 10) j : S10x512.Idx) = (Rect.unit (s := S10x512) (k0_off171 k0_t4 kq) S1x16.size (k0_off171_inb k0_t4 kq)).emb xq := by
      funext a
      apply Fin.ext
      fin_cases a
      · show 9 = (k0_off171 k0_t4 kq) 0 + 1 * 0
        rw [k0_off171_eq]; rfl
      · show j.val = (k0_off171 k0_t4 kq) 1 + 1 * ((j.val - 128 * k0_t4.val) % 16)
        rw [k0_off171_eq]
        show j.val = (128 * k0_t4.val + 16 * ((j.val - 128 * k0_t4.val) / 16)) + 1 * ((j.val - 128 * k0_t4.val) % 16)
        omega
    rw [e, acc9_row9_cols d L k0_t4 g v3 fp H159 H160 H161 H162 hv3 f0 kq xq]
    refine congrArg (HAdd.hAdd _) (Finset.sum_congr rfl fun c _ => ?_)
    rw [hrow c]

/-- Outside the chunk's columns nothing has changed. -/
theorem acc9_outside_ix (f0 : S10x512.Idx → Elt Ideal .f32) (h : Fin 10) (j : Fin 512)
    (hj : j.val < 128 * k0_t4.val ∨ 128 * k0_t4.val + 128 ≤ j.val) :
    acc9 (F := Ideal) d L v3 k0_t4 fp g H159 H160 H161 H162 f0 k0_t9_loop.trips (ValueIdx.ix2 h j) = f0 (ValueIdx.ix2 h j) :=
  acc9_outside (F := Ideal) d L v3 k0_t4 fp g H159 H160 H161 H162 f0 k0_t9_loop.trips k0_t9_trips.le (ValueIdx.ix2 h j) hj

end Apply

end Cert.Proof.KI

end
-- ==== Proof.KValL1Both.lean ====
/-
  Both halves of the first layer on one chunk. The item half runs on what the user half left, so an entry of the
  chunk's 128 columns ends at what it held at the start plus the user half's sum over its 64 columns plus the item
  half's over its 64; every entry outside the chunk's columns ends as it began.
-/
import proofs.«214512_g89103391522852_cont_sun_m_1157_25_alg».proof.Proof.KValL1IApply

noncomputable section

namespace Cert.Proof.KI

open Cert.KernelIdeal Cert.KernelIdeal.Gen

open Idealize.ShloMosaic
open Idealize.ShloMosaic.SparseCore (S V T)
open Idealize.ShloMosaic.SparseCore.Cfg (HIx)

variable {F : FTy → Type} [FloatOps F]

local notation "accS" => (Memref.whole Cert.KernelIdeal.cc0_scratch5 : Memref Cert.KernelIdeal.sig Kind.scVector Space.vmem Cert.KernelIdeal.S10x512 EltTy.f32)
local notation "parS" => (Memref.whole Cert.KernelIdeal.cc0_scratch4 : Memref Cert.KernelIdeal.sig Kind.scVector Space.vmem Cert.KernelIdeal.S1312 EltTy.f32)

section Both

open scoped BigOperators

variable (d : Dev nD) (L : grid0.Coords) (k0_t4 : Fin k0_t4_loop.trips)
variable (gU : Buf (Elt Ideal) ((halfU k0_t4).view.loc (thr d L))) (gI : Buf (Elt Ideal) ((halfI k0_t4).view.loc (thr d L)))
variable (v3 : IVec S16 32) (fp : S1312.Idx → Elt Ideal .f32)
variable (H115 : ∀ (k7 : Fin k0_t7_loop.trips) (k8 : Fin k0_t8_loop.trips), k0_chk115 (k0_pay66 v3 0#32 1#32 k8) (k0_pay67 (Scalar.muli (Scf.iv 0#32 1#32 k7) 4#32)))
variable (H116 : ∀ (k7 : Fin k0_t7_loop.trips) (k8 : Fin k0_t8_loop.trips), k0_chk116 (k0_pay66 v3 0#32 1#32 k8) (k0_pay69 (Scalar.muli (Scf.iv 0#32 1#32 k7) 4#32)))
variable (H117 : ∀ (k7 : Fin k0_t7_loop.trips) (k8 : Fin k0_t8_loop.trips), k0_chk117 (k0_pay66 v3 0#32 1#32 k8) (k0_pay71 (Scalar.muli (Scf.iv 0#32 1#32 k7) 4#32)))
variable (H118 : ∀ (k7 : Fin k0_t7_loop.trips) (k8 : Fin k0_t8_loop.trips), k0_chk118 (k0_pay66 v3 0#32 1#32 k8) (k0_pay73 (Scalar.muli (Scf.iv 0#32 1#32 k7) 4#32)))
variable (H159 : ∀ (k7 : Fin k0_t9_loop.trips) (k8 : Fin k0_t10_loop.trips), k0_chk159 (k0_pay124 v3 0#32 1#32 k8) (k0_pay125 (Scalar.muli (Scf.iv 0#32 1#32 k7) 4#32)))
variable (H160 : ∀ (k7 : Fin k0_t9_loop.trips) (k8 : Fin k0_t10_loop.trips), k0_chk160 (k0_pay124 v3 0#32 1#32 k8) (k0_pay127 (Scalar.muli (Scf.iv 0#32 1#32 k7) 4#32)))
variable (H161 : ∀ (k7 : Fin k0_t9_loop.trips) (k8 : Fin k0_t10_loop.trips), k0_chk161 (k0_pay124 v3 0#32 1#32 k8) (k0_pay129 (Scalar.muli (Scf.iv 0#32 1#32 k7) 4#32)))
variable (H162 : ∀ (k7 : Fin k0_t9_loop.trips) (k8 : Fin k0_t10_loop.trips), k0_chk162 (k0_pay124 v3 0#32 1#32 k8) (k0_pay131 (Scalar.muli (Scf.iv 0#32 1#32 k7) 4#32)))

/-- Both halves of the first layer on one chunk, at an entry of the chunk's columns: what the entry held at the start,
    plus the user half's sum over its 64 columns, plus the item half's. -/
theorem acc97_inside (hv3 : v3 = iota .scVector S16 32 [0] Facts₀.iota_S16_d0_w32_scVector)
    (f : S10x512.Idx → Elt Ideal .f32) (h : Fin 10) (j : Fin 512)
    (hlo : 128 * k0_t4.val ≤ j.val) (hhi : j.val < 128 * k0_t4.val + 128) :
    (acc9 (F := Ideal) d L v3 k0_t4 fp gI H159 H160 H161 H162
        (acc7 (F := Ideal) d L v3 k0_t4 fp gU H115 H116 H117 H118 f k0_t7_loop.trips) k0_t9_loop.trips (ValueIdx.ix2 h j) : EReal)
      = (f (ValueIdx.ix2 h j)
          + ∑ c : Fin 64, (max (halfM d L k0_t4 gU (ValueIdx.ix2 (⟨j.val - 128 * k0_t4.val, by omega⟩ : Fin 128) c)) 0 * fp (colP c h) : EReal))
        + ∑ c : Fin 64, (max (halfMI d L k0_t4 gI (ValueIdx.ix2 (⟨j.val - 128 * k0_t4.val, by omega⟩ : Fin 128) c)) 0 * fp (colPI c h) : EReal) := by
  rw [acc9_inside d L k0_t4 gI v3 fp H159 H160 H161 H162 hv3 _ h j hlo hhi,
    acc7_inside d L k0_t4 gU v3 fp H115 H116 H117 H118 hv3 f h j hlo hhi]

/-- Outside the chunk's columns neither half changes anything. -/
theorem acc97_outside (f : S10x512.Idx → Elt Ideal .f32) (h : Fin 10) (j : Fin 512)
    (hj : j.val < 128 * k0_t4.val ∨ 128 * k0_t4.val + 128 ≤ j.val) :
    acc9 (F := Ideal) d L v3 k0_t4 fp gI H159 H160 H161 H162
        (acc7 (F := Ideal) d L v3 k0_t4 fp gU H115 H116 H117 H118 f k0_t7_loop.trips) k0_t9_loop.trips (ValueIdx.ix2 h j)
      = f (ValueIdx.ix2 h j) := by
  rw [acc9_outside_ix d L k0_t4 gI v3 fp H159 H160 H161 H162 _ h j hj, acc7_outside_ix d L k0_t4 gU v3 fp H115 H116 H117 H118 f h j hj]

end Both

end Cert.Proof.KI

end
-- ==== Proof.KParV.lean ====
/-
  The packed parameters, read at an index. @main packs the two layers' weights and biases into one array of 1312
  entries before the call: the first layer's 128 × 10 weights row by row, its 10 biases, the second layer's 10 weights,
  its bias, and eleven zeros. The contents the host operations leave are that concatenation; so entry 10·k + h is
  W1[k, h], entry 1280 + h is b1[h], entry 1290 + h is W2[h, 0] and entry 1300 is b2[0].
-/
import Idealize.ShloMosaic.Lib.Pipeline.Value
import proofs.«214512_g89103391522852_cont_sun_m_1157_25_alg».proof.Proof.KPayV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_split held_sdiff_result wp_hlo_within)
open Idealize.ShloMosaic.Tactic

local notation "𝕄" => MT nD τ sig (HIx 1) (Elt Ideal) ℕ UU ℕ

variable (m : (ℓ : Loc nD τ sig) → Buf (Elt Ideal) ℓ) (ρ : Dev nD → PrngReg)

/-! ## The packed parameters, read at an index -/

/-- The TensorCore's arrays after the first four host operations, before the concatenation. -/
abbrev V4 (d : Dev nD) : Valuation τ sig (Elt Ideal) :=
  (op4 (F := Ideal)).result ((op3 (F := Ideal)).result ((op2 (F := Ideal)).result ((op1 (F := Ideal)).result (V0 m d))))

/-- The first layer's weights recast as 1280 entries, row by row. -/
theorem V4_v0 (d : Dev nD) :
    V4 m d (rf main_v0) = shapeCast S1280 (m (tcLoc d main_arg4)) Facts₀.shapeCasts_S128x10_S1280 := by
  unfold V4
  rw [(op4 (F := Ideal)).result_of_not_mem _ (show rf main_v0 ∉ ({rf main_v2} : Finset (DevRef τ sig)) by decide),
    (op3 (F := Ideal)).result_of_not_mem _ (show rf main_v0 ∉ ({rf main_cst} : Finset (DevRef τ sig)) by decide),
    (op2 (F := Ideal)).result_of_not_mem _ (show rf main_v0 ∉ ({rf main_v1} : Finset (DevRef τ sig)) by decide),
    StableHlo.reshape_result']
  rfl

theorem V4_arg5 (d : Dev nD) : V4 m d (rf main_arg5) = m (tcLoc d main_arg5) := by
  unfold V4
  rw [(op4 (F := Ideal)).result_of_not_mem _ (show rf main_arg5 ∉ ({rf main_v2} : Finset (DevRef τ sig)) by decide),
    (op3 (F := Ideal)).result_of_not_mem _ (show rf main_arg5 ∉ ({rf main_cst} : Finset (DevRef τ sig)) by decide),
    (op2 (F := Ideal)).result_of_not_mem _ (show rf main_arg5 ∉ ({rf main_v1} : Finset (DevRef τ sig)) by decide),
    (op1 (F := Ideal)).result_of_not_mem _ (show rf main_arg5 ∉ ({rf main_v0} : Finset (DevRef τ sig)) by decide)]
  rfl

/-- The second layer's weights recast as 10 entries. -/
theorem V4_v1 (d : Dev nD) :
    V4 m d (rf main_v1) = shapeCast S10 (m (tcLoc d main_arg6)) Facts₀.shapeCasts_S10x1_S10 := by
  unfold V4
  rw [(op4 (F := Ideal)).result_of_not_mem _ (show rf main_v1 ∉ ({rf main_v2} : Finset (DevRef τ sig)) by decide),
    (op3 (F := Ideal)).result_of_not_mem _ (show rf main_v1 ∉ ({rf main_cst} : Finset (DevRef τ sig)) by decide),
    StableHlo.reshape_result',
    (op1 (F := Ideal)).result_of_not_mem _ (show rf main_arg6 ∉ ({rf main_v0} : Finset (DevRef τ sig)) by decide)]
  rfl

theorem V4_arg7 (d : Dev nD) : V4 m d (rf main_arg7) = m (tcLoc d main_arg7) := by
  unfold V4
  rw [(op4 (F := Ideal)).result_of_not_mem _ (show rf main_arg7 ∉ ({rf main_v2} : Finset (DevRef τ sig)) by decide),
    (op3 (F := Ideal)).result_of_not_mem _ (show rf main_arg7 ∉ ({rf main_cst} : Finset (DevRef τ sig)) by decide),
    (op2 (F := Ideal)).result_of_not_mem _ (show rf main_arg7 ∉ ({rf main_v1} : Finset (DevRef τ sig)) by decide),
    (op1 (F := Ideal)).result_of_not_mem _ (show rf main_arg7 ∉ ({rf main_v0} : Finset (DevRef τ sig)) by decide)]
  rfl

/-- The packed parameters are the concatenation of the five pieces. -/
theorem parV_concat (d : Dev nD) :
    parV m d = concatenate S1312 0 [⟨S1280, V4 m d (rf main_v0)⟩, ⟨S10, V4 m d (rf main_arg5)⟩, ⟨S10, V4 m d (rf main_v1)⟩,
      ⟨S1, V4 m d (rf main_arg7)⟩, ⟨S11, V4 m d (rf main_v2)⟩] Facts₀.concatenates_S1280_S10_S10_S1_S11_S1312_d0 := by
  unfold parV
  exact (StableHlo.nary_result' _ _ _ _ (V4 m d)).trans rfl

/-- The five pieces the concatenation packs, in order. -/
abbrev pieces (d : Dev nD) : List ((s : Shape) × (s.Idx → Elt Ideal .f32)) :=
  [⟨S1280, V4 m d (rf main_v0)⟩, ⟨S10, V4 m d (rf main_arg5)⟩, ⟨S10, V4 m d (rf main_v1)⟩, ⟨S1, V4 m d (rf main_arg7)⟩, ⟨S11, V4 m d (rf main_v2)⟩]

/-- Entry `10·k + h` of the packed parameters is the first layer's weight `W1[k, h]`. -/
theorem parV_W1 (d : Dev nD) (k : Fin 128) (h : Fin 10) (j : S1312.Idx) (hj : (j 0).val = 10 * k.val + h.val) :
    parV m d j = m (tcLoc d main_arg4) (ValueIdx.ix2 k h) := by
  rw [parV_concat]
  have hk := k.isLt; have hh := h.isLt
  refine (concatenate_apply_piece (0 : Fin S1312.rank) (pieces m d) Facts₀.concatenates_S1280_S10_S10_S1_S11_S1312_d0 j 0 (show 0 < 5 by decide) S1280
    (V4 m d (rf main_v0)) rfl rfl 0 rfl (ValueIdx.ix1 (⟨10 * k.val + h.val, by omega⟩ : Fin 1280)) ?_ ?_).trans ?_
  · intro b hb; exact absurd (Subsingleton.elim _ _) hb
  · show 0 + (10 * k.val + h.val) = (j 0).val; omega
  · rw [V4_v0]
    refine shapeCast_apply _ _ _ (ValueIdx.ix2 k h) ?_
    have e1 := Shape.rowMajor_val_one (d := ![1280]) (ValueIdx.ix1 (⟨10 * k.val + h.val, by omega⟩ : Fin 1280))
    have e2 := Shape.rowMajor_val_two (d := ![128, 10]) (ValueIdx.ix2 k h)
    refine e2.trans (Eq.trans ?_ e1.symm)
    show k.val * 10 + h.val = 10 * k.val + h.val
    omega

/-- Entry `1280 + h` is the first layer's bias `b1[h]`. -/
theorem parV_b1 (d : Dev nD) (h : Fin 10) (j : S1312.Idx) (hj : (j 0).val = 1280 + h.val) :
    parV m d j = m (tcLoc d main_arg5) (ValueIdx.ix1 h) := by
  rw [parV_concat]
  have hh := h.isLt
  refine (concatenate_apply_piece (0 : Fin S1312.rank) (pieces m d) Facts₀.concatenates_S1280_S10_S10_S1_S11_S1312_d0 j 1 (show 1 < 5 by decide) S10
    (V4 m d (rf main_arg5)) rfl rfl 1280 rfl (ValueIdx.ix1 h) ?_ ?_).trans ?_
  · intro b hb; exact absurd (Subsingleton.elim _ _) hb
  · show 1280 + h.val = (j 0).val; omega
  · rw [V4_arg5]

/-- Entry `1290 + h` is the second layer's weight `W2[h, 0]`. -/
theorem parV_W2 (d : Dev nD) (h : Fin 10) (j : S1312.Idx) (hj : (j 0).val = 1290 + h.val) :
    parV m d j = m (tcLoc d main_arg6) (ValueIdx.ix2 h (0 : Fin 1)) := by
  rw [parV_concat]
  have hh := h.isLt
  refine (concatenate_apply_piece (0 : Fin S1312.rank) (pieces m d) Facts₀.concatenates_S1280_S10_S10_S1_S11_S1312_d0 j 2 (show 2 < 5 by decide) S10
    (V4 m d (rf main_v1)) rfl rfl 1290 rfl (ValueIdx.ix1 h) ?_ ?_).trans ?_
  · intro b hb; exact absurd (Subsingleton.elim _ _) hb
  · show 1290 + h.val = (j 0).val; omega
  · rw [V4_v1]
    refine shapeCast_apply _ _ _ (ValueIdx.ix2 h (0 : Fin 1)) ?_
    have e1 := Shape.rowMajor_val_one (d := ![10]) (ValueIdx.ix1 h)
    have e2 := Shape.rowMajor_val_two (d := ![10, 1]) (ValueIdx.ix2 h (0 : Fin 1))
    refine e2.trans (Eq.trans ?_ e1.symm)
    show h.val * 1 + 0 = h.val
    omega

/-- Entry `1300` is the second layer's bias `b2[0]`. -/
theorem parV_b2 (d : Dev nD) (j : S1312.Idx) (hj : (j 0).val = 1300) :
    parV m d j = m (tcLoc d main_arg7) (ValueIdx.ix1 (0 : Fin 1)) := by
  rw [parV_concat]
  refine (concatenate_apply_piece (0 : Fin S1312.rank) (pieces m d) Facts₀.concatenates_S1280_S10_S10_S1_S11_S1312_d0 j 3 (show 3 < 5 by decide) S1
    (V4 m d (rf main_arg7)) rfl rfl 1300 rfl (ValueIdx.ix1 (0 : Fin 1)) ?_ ?_).trans ?_
  · intro b hb; exact absurd (Subsingleton.elim _ _) hb
  · show 1300 + 0 = (j 0).val; omega
  · rw [V4_arg7]

end Cert.Proof.KI

end
-- ==== Proof.KValStepOfFeat.lean ====
/-
  One chunk of the first layer on the accumulator's contents. Before chunk `c` the accumulator holds the first layer's
  pre-activation for every sample of the earlier chunks and the bias everywhere else. The two halves add, to each entry
  of the chunk's own 128 columns, the sums over their 64 columns of rectified entry times packed weight; the packed
  weights there are rows 0 … 63 and 64 … 127 of the first layer's matrix, so once the rectified entries of the halves
  are the samples' features the two sums are the sample's whole sum over the 128 features, and the accumulator holds
  the same for `c + 1`.
-/
import proofs.«214512_g89103391522852_cont_sun_m_1157_25_alg».proof.Proof.KValL1Both
import proofs.«214512_g89103391522852_cont_sun_m_1157_25_alg».proof.Proof.KValSpec
import proofs.«214512_g89103391522852_cont_sun_m_1157_25_alg».proof.Proof.KParV

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.ShloMosaic.ValueIdx
open scoped BigOperators

section Step

variable (m : (ℓ : Loc nD τ sig) → Buf (Elt Ideal) ℓ) (d : Dev nD) (L : grid0.Coords)

/-- The packed parameters at the entries the two halves read are the first layer's weights: rows 0 … 63 for the user
    half, rows 64 … 127 for the item half. -/
theorem fp_colP (fp : S1312.Idx → Elt Ideal .f32) (hfp : ParOK m d fp) (c : Fin 64) (h : Fin 10) :
    fp (colP c h) = m (tcLoc d main_arg4) (ix2 (⟨c.val, by have := c.isLt; omega⟩ : Fin 128) h) := by
  rw [hfp]
  exact parV_W1 m d ⟨c.val, by have := c.isLt; omega⟩ h (colP c h) (by show c.val * 10 + h.val = 10 * c.val + h.val; omega)

theorem fp_colPI (fp : S1312.Idx → Elt Ideal .f32) (hfp : ParOK m d fp) (c : Fin 64) (h : Fin 10) :
    fp (colPI c h) = m (tcLoc d main_arg4) (ix2 (⟨64 + c.val, by have := c.isLt; omega⟩ : Fin 128) h) := by
  rw [hfp]
  exact parV_W1 m d ⟨64 + c.val, by have := c.isLt; omega⟩ h (colPI c h) (by show 640 + c.val * 10 + h.val = 10 * (64 + c.val) + h.val; omega)

variable (k0_t4 : Fin k0_t4_loop.trips)
variable (gU : Buf (Elt Ideal) ((halfU k0_t4).view.loc (thr d L))) (gI : Buf (Elt Ideal) ((halfI k0_t4).view.loc (thr d L)))
variable (v3 : IVec S16 32) (fp : S1312.Idx → Elt Ideal .f32)
variable (H115 : ∀ (k7 : Fin k0_t7_loop.trips) (k8 : Fin k0_t8_loop.trips), k0_chk115 (k0_pay66 v3 0#32 1#32 k8) (k0_pay67 (Scalar.muli (Scf.iv 0#32 1#32 k7) 4#32)))
variable (H116 : ∀ (k7 : Fin k0_t7_loop.trips) (k8 : Fin k0_t8_loop.trips), k0_chk116 (k0_pay66 v3 0#32 1#32 k8) (k0_pay69 (Scalar.muli (Scf.iv 0#32 1#32 k7) 4#32)))
variable (H117 : ∀ (k7 : Fin k0_t7_loop.trips) (k8 : Fin k0_t8_loop.trips), k0_chk117 (k0_pay66 v3 0#32 1#32 k8) (k0_pay71 (Scalar.muli (Scf.iv 0#32 1#32 k7) 4#32)))
variable (H118 : ∀ (k7 : Fin k0_t7_loop.trips) (k8 : Fin k0_t8_loop.trips), k0_chk118 (k0_pay66 v3 0#32 1#32 k8) (k0_pay73 (Scalar.muli (Scf.iv 0#32 1#32 k7) 4#32)))
variable (H159 : ∀ (k7 : Fin k0_t9_loop.trips) (k8 : Fin k0_t10_loop.trips), k0_chk159 (k0_pay124 v3 0#32 1#32 k8) (k0_pay125 (Scalar.muli (Scf.iv 0#32 1#32 k7) 4#32)))
variable (H160 : ∀ (k7 : Fin k0_t9_loop.trips) (k8 : Fin k0_t10_loop.trips), k0_chk160 (k0_pay124 v3 0#32 1#32 k8) (k0_pay127 (Scalar.muli (Scf.iv 0#32 1#32 k7) 4#32)))
variable (H161 : ∀ (k7 : Fin k0_t9_loop.trips) (k8 : Fin k0_t10_loop.trips), k0_chk161 (k0_pay124 v3 0#32 1#32 k8) (k0_pay129 (Scalar.muli (Scf.iv 0#32 1#32 k7) 4#32)))
variable (H162 : ∀ (k7 : Fin k0_t9_loop.trips) (k8 : Fin k0_t10_loop.trips), k0_chk162 (k0_pay124 v3 0#32 1#32 k8) (k0_pay131 (Scalar.muli (Scf.iv 0#32 1#32 k7) 4#32)))

/-- One chunk of the first layer takes the accumulator from "pre-activations for the chunks before `c`, the bias
    elsewhere" to the same for `c + 1`, once the two halves' rectified entries are the chunk's samples' features. -/
theorem accOK_step_of_feat (c : Fin 4) (hc : c.val = k0_t4.val)
    (hv3 : v3 = iota .scVector S16 32 [0] Facts₀.iota_S16_d0_w32_scVector) (hfp : ParOK m d fp)
    (hU : ∀ (r : Fin 128) (x : Fin 64), (max (halfM d L k0_t4 gU (ix2 r x)) 0 : EReal)
      = Cert.Spec.feat (m (a0Loc d)) (m (a1Loc d)) (m (a2Loc d)) (m (a3Loc d)) (smp L ⟨128 * c.val + r.val, by have := c.isLt; have := r.isLt; omega⟩) ⟨x.val, by have := x.isLt; omega⟩)
    (hI : ∀ (r : Fin 128) (x : Fin 64), (max (halfMI d L k0_t4 gI (ix2 r x)) 0 : EReal)
      = Cert.Spec.feat (m (a0Loc d)) (m (a1Loc d)) (m (a2Loc d)) (m (a3Loc d)) (smp L ⟨128 * c.val + r.val, by have := c.isLt; have := r.isLt; omega⟩) ⟨64 + x.val, by have := x.isLt; omega⟩)
    (f : S10x512.Idx → Elt Ideal .f32) (hf : AccOK m d L c.val f) :
    AccOK m d L (c.val + 1)
      (acc9 (F := Ideal) d L v3 k0_t4 fp gI H159 H160 H161 H162 (acc7 (F := Ideal) d L v3 k0_t4 fp gU H115 H116 H117 H118 f k0_t7_loop.trips) k0_t9_loop.trips) := by
  intro h j
  have hfj := hf h j
  by_cases hin : 128 * k0_t4.val ≤ j.val ∧ j.val < 128 * k0_t4.val + 128
  · -- the chunk's own columns
    have hlt : j.val < 128 * (c.val + 1) := by omega
    have hge : ¬ j.val < 128 * c.val := by omega
    rw [if_pos hlt]
    rw [if_neg hge] at hfj
    rw [acc97_inside d L k0_t4 gU gI v3 fp H115 H116 H117 H118 H159 H160 H161 H162 hv3 f h j hin.1 hin.2, hfj]
    have hj : j = ⟨128 * c.val + (j.val - 128 * k0_t4.val), by omega⟩ := Fin.ext (by show j.val = 128 * c.val + (j.val - 128 * k0_t4.val); omega)
    unfold hidPre
    rw [show (∑ k : Fin 128, Cert.Spec.feat (m (a0Loc d)) (m (a1Loc d)) (m (a2Loc d)) (m (a3Loc d)) (smp L j) k * m (tcLoc d main_arg4) (ix2 k h))
        = (∑ k : Fin 64, Cert.Spec.feat (m (a0Loc d)) (m (a1Loc d)) (m (a2Loc d)) (m (a3Loc d)) (smp L j) (Fin.castAdd 64 k) * m (tcLoc d main_arg4) (ix2 (Fin.castAdd 64 k) h))
          + ∑ k : Fin 64, Cert.Spec.feat (m (a0Loc d)) (m (a1Loc d)) (m (a2Loc d)) (m (a3Loc d)) (smp L j) (Fin.natAdd 64 k) * m (tcLoc d main_arg4) (ix2 (Fin.natAdd 64 k) h)
      from Fin.sum_univ_add (fun k : Fin (64 + 64) => Cert.Spec.feat (m (a0Loc d)) (m (a1Loc d)) (m (a2Loc d)) (m (a3Loc d)) (smp L j) k * m (tcLoc d main_arg4) (ix2 k h))]
    have eU : ∀ x : Fin 64, (max (halfM d L k0_t4 gU (ix2 (⟨j.val - 128 * k0_t4.val, by omega⟩ : Fin 128) x)) 0 * fp (colP x h) : EReal)
        = Cert.Spec.feat (m (a0Loc d)) (m (a1Loc d)) (m (a2Loc d)) (m (a3Loc d)) (smp L j) (Fin.castAdd 64 x) * m (tcLoc d main_arg4) (ix2 (Fin.castAdd 64 x) h) := fun x => by
      rw [hU ⟨j.val - 128 * k0_t4.val, by omega⟩ x, fp_colP m d fp hfp x h]
      congr 2 <;> first | rfl | exact congrArg (smp L) (Fin.ext (by show 128 * c.val + (j.val - 128 * k0_t4.val) = j.val; omega))
    have eI : ∀ x : Fin 64, (max (halfMI d L k0_t4 gI (ix2 (⟨j.val - 128 * k0_t4.val, by omega⟩ : Fin 128) x)) 0 * fp (colPI x h) : EReal)
        = Cert.Spec.feat (m (a0Loc d)) (m (a1Loc d)) (m (a2Loc d)) (m (a3Loc d)) (smp L j) (Fin.natAdd 64 x) * m (tcLoc d main_arg4) (ix2 (Fin.natAdd 64 x) h) := fun x => by
      rw [hI ⟨j.val - 128 * k0_t4.val, by omega⟩ x, fp_colPI m d fp hfp x h]
      congr 2 <;> first | rfl | exact congrArg (smp L) (Fin.ext (by show 128 * c.val + (j.val - 128 * k0_t4.val) = j.val; omega))
    rw [Finset.sum_congr rfl (fun x _ => eU x), Finset.sum_congr rfl (fun x _ => eI x)]
    ac_rfl
  · -- every other column
    rw [acc97_outside d L k0_t4 gU gI v3 fp H115 H116 H117 H118 H159 H160 H161 H162 f h j (by omega), hfj]
    by_cases h1 : j.val < 128 * c.val
    · rw [if_pos h1, if_pos (by omega)]
    · rw [if_neg h1, if_neg (by omega)]

end Step

end Cert.Proof.KI

end
-- ==== Proof.KValStep.lean ====
/-
  One chunk of the first layer, in the shape the tile's run holds its buffers in. A half buffer of chunk `c` holds, in
  row `r`, the table row that sample `128·c + r` of the tile names, so its rectified entry at column `x` is that
  sample's feature `x` (the user half) or `64 + x` (the item half) — the index word names a row of its table by the
  precondition. With the packed weights read as the first layer's matrix, the two nests take the accumulator from the
  pre-activations of the chunks before `c` (the bias elsewhere) to the same for `c + 1`.
-/
import proofs.«214512_g89103391522852_cont_sun_m_1157_25_alg».proof.Proof.KValStepOfFeat

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.ShloMosaic.ValueIdx
open scoped BigOperators

section Feat

variable (m : (ℓ : Loc nD τ sig) → Buf (Elt Ideal) ℓ) (d : Dev nD) (L : grid0.Coords)

/-- The tile's word for sample `128·c + r` of its 512 is the index array's word at that sample's batch position. -/
theorem idxValU_smp (fu : S16384.Idx → BitVec 32) (c : Fin 4) (r : Fin 128) :
    idxValU (F := Ideal) L fu (sampleIdx c r) = fu (ix1 (smp L ⟨128 * c.val + r.val, by have := c.isLt; have := r.isLt; omega⟩)) := by
  unfold idxValU
  show fu _ = fu _
  congr 1
  funext a
  apply Fin.ext
  have ha : a = 0 := Fin.fin_one_eq_zero a
  subst ha
  show (k0_off1 L) 0 + 1 * (128 * c.val + r.val) = 1024 * (L 1).val + 512 * (L 0).val + (128 * c.val + r.val)
  rw [k0_off1_eq]
  show 1024 * (L 1).val + 512 * (L 0).val + 1 * (128 * c.val + r.val) = _
  omega

theorem idxValI_smp (fi : S16384.Idx → BitVec 32) (c : Fin 4) (r : Fin 128) :
    idxValI (F := Ideal) L fi (sampleIdx c r) = fi (ix1 (smp L ⟨128 * c.val + r.val, by have := c.isLt; have := r.isLt; omega⟩)) := by
  unfold idxValI
  show fi _ = fi _
  congr 1
  funext a
  apply Fin.ext
  have ha : a = 0 := Fin.fin_one_eq_zero a
  subst ha
  show (k0_off1 L) 0 + 1 * (128 * c.val + r.val) = 1024 * (L 1).val + 512 * (L 0).val + (128 * c.val + r.val)
  rw [k0_off1_eq]
  show 1024 * (L 1).val + 512 * (L 0).val + 1 * (128 * c.val + r.val) = _
  omega

variable (k0_t4 : Fin k0_t4_loop.trips)

/-- A rectified entry of the user half is the sample's feature of that column. -/
theorem featU_of_half (gU : Buf (Elt Ideal) ((halfU k0_t4).view.loc (thr d L))) (c : Fin 4) (hgU : HalfUOK m d L k0_t4 c gU)
    (hu : ∀ b, (m (a0Loc d) b).toNat < 1000000) (r : Fin 128) (x : Fin 64) :
    (max (halfM d L k0_t4 gU (ix2 r x)) 0 : EReal)
      = Cert.Spec.feat (m (a0Loc d)) (m (a1Loc d)) (m (a2Loc d)) (m (a3Loc d)) (smp L ⟨128 * c.val + r.val, by have := c.isLt; have := r.isLt; omega⟩) ⟨x.val, by have := x.isLt; omega⟩ := by
  have hx := x.isLt
  have e1 : halfM d L k0_t4 gU (ix2 r x) = View.read (Elt Ideal) (halfU k0_t4).view gU (ix2 r x) := by
    show View.read (Elt Ideal) (halfU k0_t4).view gU ((LoadRect.whole S128x64).idx (ix2 r x)) = _
    congr 1
    funext a
    apply Fin.ext
    show 0 + 1 * ((ix2 r x : S128x64.Idx) a).val = _
    omega
  rw [e1, hgU r x, idxValU_smp]
  unfold Cert.Spec.feat Cert.Spec.row rowValU
  rw [dif_pos (show x.val < 64 from hx), dif_pos (hu _)]
  congr 3
  all_goals first | rfl | exact Fin.ext (Nat.mod_eq_of_lt (hu _))

end Feat

section FeatI

variable (m : (ℓ : Loc nD τ sig) → Buf (Elt Ideal) ℓ) (d : Dev nD) (L : grid0.Coords) (k0_t4 : Fin k0_t4_loop.trips)

/-- A rectified entry of the item half is the sample's feature of column `64 +` that column. -/
theorem featI_of_half (gI : Buf (Elt Ideal) ((halfI k0_t4).view.loc (thr d L))) (c : Fin 4) (hgI : HalfIOK m d L k0_t4 c gI)
    (hi : ∀ b, (m (a1Loc d) b).toNat < 100000) (r : Fin 128) (x : Fin 64) :
    (max (halfMI d L k0_t4 gI (ix2 r x)) 0 : EReal)
      = Cert.Spec.feat (m (a0Loc d)) (m (a1Loc d)) (m (a2Loc d)) (m (a3Loc d)) (smp L ⟨128 * c.val + r.val, by have := c.isLt; have := r.isLt; omega⟩) ⟨64 + x.val, by have := x.isLt; omega⟩ := by
  have hx := x.isLt
  have e1 : halfMI d L k0_t4 gI (ix2 r x) = View.read (Elt Ideal) (halfI k0_t4).view gI (ix2 r x) := by
    show View.read (Elt Ideal) (halfI k0_t4).view gI ((LoadRect.whole S128x64).idx (ix2 r x)) = _
    congr 1
    funext a
    apply Fin.ext
    show 0 + 1 * ((ix2 r x : S128x64.Idx) a).val = _
    omega
  rw [e1, hgI r x, idxValI_smp]
  unfold Cert.Spec.feat Cert.Spec.row rowValI
  rw [dif_neg (show ¬ (64 + x.val < 64) by omega), dif_pos (hi _)]
  congr 3
  all_goals first | rfl | exact Fin.ext (Nat.mod_eq_of_lt (hi _)) | (apply Fin.ext; show x.val = 64 + x.val - 64; omega)

end FeatI

section Final

variable (m : (ℓ : Loc nD τ sig) → Buf (Elt Ideal) ℓ) (d : Dev nD) (L : grid0.Coords)

/-- One chunk of the first layer: from the accumulator holding the pre-activations of the chunks before `c` and the
    bias elsewhere, the halves holding the table rows the chunk's 128 samples name, and the parameter scratch the packed
    parameters, the two nests leave the accumulator holding the same for `c + 1`. -/
theorem accOK_step (k4 : Fin k0_t4_loop.trips) (c : Fin 4) (hc : c.val = k4.val) (v3 : IVec S16 32)
    (hv3 : v3 = iota .scVector S16 32 [0] Facts₀.iota_S16_d0_w32_scVector)
    (fp : S1312.Idx → Elt Ideal .f32) (hfp : ParOK m d fp)
    (gU : Buf (Elt Ideal) ((halfU k4).view.loc (thr d L))) (hgU : HalfUOK m d L k4 c gU)
    (gI : Buf (Elt Ideal) ((halfI k4).view.loc (thr d L))) (hgI : HalfIOK m d L k4 c gI)
    (H115 : ∀ (k7 : Fin k0_t7_loop.trips) (k8 : Fin k0_t8_loop.trips), k0_chk115 (k0_pay66 v3 0#32 1#32 k8) (k0_pay67 (Scalar.muli (Scf.iv 0#32 1#32 k7) 4#32)))
    (H116 : ∀ (k7 : Fin k0_t7_loop.trips) (k8 : Fin k0_t8_loop.trips), k0_chk116 (k0_pay66 v3 0#32 1#32 k8) (k0_pay69 (Scalar.muli (Scf.iv 0#32 1#32 k7) 4#32)))
    (H117 : ∀ (k7 : Fin k0_t7_loop.trips) (k8 : Fin k0_t8_loop.trips), k0_chk117 (k0_pay66 v3 0#32 1#32 k8) (k0_pay71 (Scalar.muli (Scf.iv 0#32 1#32 k7) 4#32)))
    (H118 : ∀ (k7 : Fin k0_t7_loop.trips) (k8 : Fin k0_t8_loop.trips), k0_chk118 (k0_pay66 v3 0#32 1#32 k8) (k0_pay73 (Scalar.muli (Scf.iv 0#32 1#32 k7) 4#32)))
    (H159 : ∀ (k7 : Fin k0_t9_loop.trips) (k8 : Fin k0_t10_loop.trips), k0_chk159 (k0_pay124 v3 0#32 1#32 k8) (k0_pay125 (Scalar.muli (Scf.iv 0#32 1#32 k7) 4#32)))
    (H160 : ∀ (k7 : Fin k0_t9_loop.trips) (k8 : Fin k0_t10_loop.trips), k0_chk160 (k0_pay124 v3 0#32 1#32 k8) (k0_pay127 (Scalar.muli (Scf.iv 0#32 1#32 k7) 4#32)))
    (H161 : ∀ (k7 : Fin k0_t9_loop.trips) (k8 : Fin k0_t10_loop.trips), k0_chk161 (k0_pay124 v3 0#32 1#32 k8) (k0_pay129 (Scalar.muli (Scf.iv 0#32 1#32 k7) 4#32)))
    (H162 : ∀ (k7 : Fin k0_t9_loop.trips) (k8 : Fin k0_t10_loop.trips), k0_chk162 (k0_pay124 v3 0#32 1#32 k8) (k0_pay131 (Scalar.muli (Scf.iv 0#32 1#32 k7) 4#32)))
    (f : S10x512.Idx → Elt Ideal .f32) (hf : AccOK m d L c.val f)
    (hu : ∀ b, (m (a0Loc d) b).toNat < 1000000) (hi : ∀ b, (m (a1Loc d) b).toNat < 100000) :
    AccOK m d L (c.val + 1)
      (acc9 (F := Ideal) d L v3 k4 fp gI H159 H160 H161 H162 (acc7 (F := Ideal) d L v3 k4 fp gU H115 H116 H117 H118 f k0_t7_loop.trips) k0_t9_loop.trips) :=
  accOK_step_of_feat m d L k4 gU gI v3 fp H115 H116 H117 H118 H159 H160 H161 H162 c hc hv3 hfp
    (featU_of_half m d L k4 gU c hgU hu) (featI_of_half m d L k4 gI c hgI hi) f hf

end Final

end Cert.Proof.KI

end
-- ==== Proof.KValPure.lean ====
/-
  First pure facts about the contents the compute loops leave (no program is run here).

  A list of writes through pairwise disjoint rectangles reads, under each rectangle, that write's payload, and outside
  all of them the contents before. For one trip of the bias-initialisation loop: the ten stores of trip `k` touch only
  the sixteen columns `16·k … 16·k + 15`, and under row `0` of them the accumulator holds the first bias vector.
-/
import proofs.«214512_g89103391522852_cont_sun_m_1157_25_alg».proof.Proof.KValInitOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Pure

variable [∀ e, Nonempty (Elt F e)]

/-- The accumulator scratch is held whole: reading it through its own view is the contents. -/
theorem read_acc (g : S10x512.Idx → Elt F .f32) : View.read (Elt F) (accS).view g = g := View.read_whole (Val := Elt F) cc0_scratch5 g

/-- Under the rectangle of one of a list of writes, no other write of which covers that element, the buffer reads that
    write's payload. -/
theorem read_writes_of_mem_disjoint {sig : RefSig} {κ : Kind} {sp : Space} {s : Shape} {e : EltTy} {Val : EltTy → Type}
    (v : View sig κ sp s e) (f : v.ty.Contents Val) :
    ∀ (L : List (View.Piece Val s e)) (p : View.Piece Val s e), p ∈ L → ∀ x : p.1.shape.Idx,
      (∀ q ∈ L, q ≠ p → p.1.emb x ∉ q.1.set) → v.read Val (v.writes Val f L) (p.1.emb x) = p.2 x
  | [], _, hp, _, _ => absurd hp List.not_mem_nil
  | q :: L, p, hp, x, hd => by
    by_cases hq : q = p
    · subst hq
      obtain ⟨r, w⟩ := q
      exact View.read_writes_cons_emb v f r w L x
    · have hnot : p.1.emb x ∉ Finset.univ.map q.1.emb := by
        rw [Rect.map_emb_univ]; exact hd q List.mem_cons_self hq
      rw [View.writes_cons, View.read_slice_write_of_not_mem q.1 _ _ _ hnot]
      refine read_writes_of_mem_disjoint v f L p ?_ x fun q' hq' hne => hd q' (List.mem_cons_of_mem _ hq') hne
      rcases List.mem_cons.mp hp with h | h
      · exact absurd h.symm hq
      · exact h

/-- One trip of the bias-initialisation loop leaves every accumulator entry outside its sixteen columns as it was. -/
theorem upd1_miss (v7 v11 v15 v19 v23 v27 v31 v35 v39 v43 : Vec F S16 .f32) (k : Fin k0_t1_loop.trips) (f : S10x512.Idx → Elt F .f32) (y : S10x512.Idx)
    (hy : ¬(16 * k.val ≤ (y 1).val ∧ (y 1).val < 16 * k.val + 16)) : upd1 (F := F) v7 v11 v15 v19 v23 v27 v31 v35 v39 v43 k f y = f y := by
  unfold upd1
  refine Eq.trans (congrFun (read_acc (F := F) _).symm y) (Eq.trans (View.read_writes_apply_of_forall_not_mem _ _ _ _ ?_) (congrFun (read_acc (F := F) f) y))
  simp only [List.mem_cons, List.not_mem_nil, or_false, forall_eq_or_imp, forall_eq]
  simp only [Rect.mem_set_unit, k0_off2_eq, k0_off3_eq, k0_off4_eq, k0_off5_eq, k0_off6_eq, k0_off7_eq, k0_off8_eq, k0_off9_eq, k0_off10_eq, k0_off11_eq]
  refine ⟨?_, ?_, ?_, ?_, ?_, ?_, ?_, ?_, ?_, ?_⟩ <;> exact fun H => hy (H (1 : Fin 2))

/-- Under row 0 of trip `k`'s columns the accumulator holds the first bias vector after the trip. -/
theorem upd1_hit0 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off2 k) S1x16.size (k0_off2_inb k)).emb x)
      = shapeCast S1x16 v7 shapeCasts_S16_S1x16 x := by
  unfold upd1
  refine Eq.trans (congrFun (read_acc (F := F) _).symm _) ?_
  refine read_writes_of_mem_disjoint (accS).view f _ ⟨Rect.unit (s := S10x512) (k0_off2 k) S1x16.size (k0_off2_inb k), shapeCast S1x16 v7 shapeCasts_S16_S1x16⟩ (by simp) x ?_
  simp only [List.mem_cons, List.not_mem_nil, or_false, forall_eq_or_imp, forall_eq]
  have h0 : ((Rect.unit (s := S10x512) (k0_off2 k) S1x16.size (k0_off2_inb k)).emb x (0 : Fin 2)).val = 0 := by
    rw [Rect.emb_apply]; simp only [Rect.off_unit, Rect.stride_unit, k0_off2_eq]
    have := (x (0 : Fin 2)).isLt
    show 0 + 1 * (x (0 : Fin 2)).val = 0
    have hx : (x (0 : Fin 2)).val < 1 := this
    omega
  simp only [Rect.mem_set_unit, k0_off2_eq, k0_off3_eq, k0_off4_eq, k0_off5_eq, k0_off6_eq, k0_off7_eq, k0_off8_eq, k0_off9_eq, k0_off10_eq, k0_off11_eq]
  refine ⟨?_, ?_, ?_, ?_, ?_, ?_, ?_, ?_, ?_, ?_⟩
  all_goals first
    | exact fun hne => absurd rfl hne
    | (intro _ H; have a0 := H (0 : Fin 2); rw [h0] at a0; simp only [Matrix.cons_val_zero] at a0; omega)
end Pure

end Cert.Proof.KI

end
-- ==== Proof.KValInitPure.lean ====
/-
  The bias-initialisation loop, read at an index.

  Trip `k` writes, for each hidden unit `h < 10`, the bias vector of `h` into the sixteen accumulator entries
  `acc[h, 16·k + lane]`; the ten rectangles lie in ten different rows, so each reads back its own vector, and every
  entry outside columns `16·k … 16·k + 15` is as before.
-/
import proofs.«214512_g89103391522852_cont_sun_m_1157_25_alg».proof.Proof.KValPure
import Idealize.ShloMosaic.Lib.ValueIdx
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Pure

variable [∀ e, Nonempty (Elt F e)]

/-- The element of the accumulator under index `x` of a one-row rectangle at row `h`, column `c`: row `h`, column `c + x 1`. -/
theorem emb_row {off : Fin 2 → ℕ} (inb : ∀ a, off a + S1x16.size a ≤ S10x512.size a) (h c : ℕ) (e : off = ![h, c]) (x : S1x16.Idx) :
    ((Rect.unit (s := S10x512) off S1x16.size inb).emb x (0 : Fin 2)).val = h
      ∧ ((Rect.unit (s := S10x512) off S1x16.size inb).emb x (1 : Fin 2)).val = c + (x (1 : Fin 2)).val := by
  subst e
  have hx : (x (0 : Fin 2)).val < 1 := (x (0 : Fin 2)).isLt
  constructor
  · rw [Rect.emb_apply]; show h + 1 * (x (0 : Fin 2)).val = h; omega
  · rw [Rect.emb_apply]; show c + 1 * (x (1 : Fin 2)).val = c + (x (1 : Fin 2)).val; omega

/-- One-row rectangles in different rows share no element. -/
theorem row_not_mem {off off' : Fin 2 → ℕ} (inb : ∀ a, off a + S1x16.size a ≤ S10x512.size a) (inb' : ∀ a, off' a + S1x16.size a ≤ S10x512.size a)
    (h c h' c' : ℕ) (e : off = ![h, c]) (e' : off' = ![h', c']) (hne : h ≠ h') (x : S1x16.Idx) :
    (Rect.unit (s := S10x512) off S1x16.size inb).emb x ∉ (Rect.unit (s := S10x512) off' S1x16.size inb').set := by
  rw [Rect.mem_set_unit]
  intro H
  have a0 := H (0 : Fin 2)
  rw [(emb_row inb h c e x).1] at a0
  subst e'
  have a0' : h' ≤ h ∧ h < h' + 1 := a0
  omega

/-- Row 0 of trip `k`'s columns holds the bias vector `v7` after the trip. -/
theorem upd1_row0 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off2 k) S1x16.size (k0_off2_inb k)).emb x)
      = shapeCast S1x16 v7 shapeCasts_S16_S1x16 x := by
  unfold upd1
  refine Eq.trans (congrFun (read_acc (F := F) _).symm _) ?_
  refine read_writes_of_mem_disjoint (accS).view f _ ⟨Rect.unit (s := S10x512) (k0_off2 k) S1x16.size (k0_off2_inb k), shapeCast S1x16 v7 shapeCasts_S16_S1x16⟩ (by simp) x ?_
  simp only [List.mem_cons, List.not_mem_nil, or_false, forall_eq_or_imp, forall_eq]
  exact ⟨fun _ => row_not_mem _ _ _ _ _ _ (k0_off2_eq k) (k0_off11_eq k) (by decide) x,
    fun _ => row_not_mem _ _ _ _ _ _ (k0_off2_eq k) (k0_off10_eq k) (by decide) x,
    fun _ => row_not_mem _ _ _ _ _ _ (k0_off2_eq k) (k0_off9_eq k) (by decide) x,
    fun _ => row_not_mem _ _ _ _ _ _ (k0_off2_eq k) (k0_off8_eq k) (by decide) x,
    fun _ => row_not_mem _ _ _ _ _ _ (k0_off2_eq k) (k0_off7_eq k) (by decide) x,
    fun _ => row_not_mem _ _ _ _ _ _ (k0_off2_eq k) (k0_off6_eq k) (by decide) x,
    fun _ => row_not_mem _ _ _ _ _ _ (k0_off2_eq k) (k0_off5_eq k) (by decide) x,
    fun _ => row_not_mem _ _ _ _ _ _ (k0_off2_eq k) (k0_off4_eq k) (by decide) x,
    fun _ => row_not_mem _ _ _ _ _ _ (k0_off2_eq k) (k0_off3_eq k) (by decide) x,
    fun hne => absurd rfl hne⟩

/-- Row 1 of trip `k`'s columns holds the bias vector `v11` after the trip. -/
theorem upd1_row1 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off3 k) S1x16.size (k0_off3_inb k)).emb x)
      = shapeCast S1x16 v11 shapeCasts_S16_S1x16 x := by
  unfold upd1
  refine Eq.trans (congrFun (read_acc (F := F) _).symm _) ?_
  refine read_writes_of_mem_disjoint (accS).view f _ ⟨Rect.unit (s := S10x512) (k0_off3 k) S1x16.size (k0_off3_inb k), shapeCast S1x16 v11 shapeCasts_S16_S1x16⟩ (by simp) x ?_
  simp only [List.mem_cons, List.not_mem_nil, or_false, forall_eq_or_imp, forall_eq]
  exact ⟨fun _ => row_not_mem _ _ _ _ _ _ (k0_off3_eq k) (k0_off11_eq k) (by decide) x,
    fun _ => row_not_mem _ _ _ _ _ _ (k0_off3_eq k) (k0_off10_eq k) (by decide) x,
    fun _ => row_not_mem _ _ _ _ _ _ (k0_off3_eq k) (k0_off9_eq k) (by decide) x,
    fun _ => row_not_mem _ _ _ _ _ _ (k0_off3_eq k) (k0_off8_eq k) (by decide) x,
    fun _ => row_not_mem _ _ _ _ _ _ (k0_off3_eq k) (k0_off7_eq k) (by decide) x,
    fun _ => row_not_mem _ _ _ _ _ _ (k0_off3_eq k) (k0_off6_eq k) (by decide) x,
    fun _ => row_not_mem _ _ _ _ _ _ (k0_off3_eq k) (k0_off5_eq k) (by decide) x,
    fun _ => row_not_mem _ _ _ _ _ _ (k0_off3_eq k) (k0_off4_eq k) (by decide) x,
    fun hne => absurd rfl hne,
    fun _ => row_not_mem _ _ _ _ _ _ (k0_off3_eq k) (k0_off2_eq k) (by decide) x⟩

/-- Row 2 of trip `k`'s columns holds the bias vector `v15` after the trip. -/
theorem upd1_row2 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off4 k) S1x16.size (k0_off4_inb k)).emb x)
      = shapeCast S1x16 v15 shapeCasts_S16_S1x16 x := by
  unfold upd1
  refine Eq.trans (congrFun (read_acc (F := F) _).symm _) ?_
  refine read_writes_of_mem_disjoint (accS).view f _ ⟨Rect.unit (s := S10x512) (k0_off4 k) S1x16.size (k0_off4_inb k), shapeCast S1x16 v15 shapeCasts_S16_S1x16⟩ (by simp) x ?_
  simp only [List.mem_cons, List.not_mem_nil, or_false, forall_eq_or_imp, forall_eq]
  exact ⟨fun _ => row_not_mem _ _ _ _ _ _ (k0_off4_eq k) (k0_off11_eq k) (by decide) x,
    fun _ => row_not_mem _ _ _ _ _ _ (k0_off4_eq k) (k0_off10_eq k) (by decide) x,
    fun _ => row_not_mem _ _ _ _ _ _ (k0_off4_eq k) (k0_off9_eq k) (by decide) x,
    fun _ => row_not_mem _ _ _ _ _ _ (k0_off4_eq k) (k0_off8_eq k) (by decide) x,
    fun _ => row_not_mem _ _ _ _ _ _ (k0_off4_eq k) (k0_off7_eq k) (by decide) x,
    fun _ => row_not_mem _ _ _ _ _ _ (k0_off4_eq k) (k0_off6_eq k) (by decide) x,
    fun _ => row_not_mem _ _ _ _ _ _ (k0_off4_eq k) (k0_off5_eq k) (by decide) x,
    fun hne => absurd rfl hne,
    fun _ => row_not_mem _ _ _ _ _ _ (k0_off4_eq k) (k0_off3_eq k) (by decide) x,
    fun _ => row_not_mem _ _ _ _ _ _ (k0_off4_eq k) (k0_off2_eq k) (by decide) x⟩

/-- Row 3 of trip `k`'s columns holds the bias vector `v19` after the trip. -/
theorem upd1_row3 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off5 k) S1x16.size (k0_off5_inb k)).emb x)
      = shapeCast S1x16 v19 shapeCasts_S16_S1x16 x := by
  unfold upd1
  refine Eq.trans (congrFun (read_acc (F := F) _).symm _) ?_
  refine read_writes_of_mem_disjoint (accS).view f _ ⟨Rect.unit (s := S10x512) (k0_off5 k) S1x16.size (k0_off5_inb k), shapeCast S1x16 v19 shapeCasts_S16_S1x16⟩ (by simp) x ?_
  simp only [List.mem_cons, List.not_mem_nil, or_false, forall_eq_or_imp, forall_eq]
  exact ⟨fun _ => row_not_mem _ _ _ _ _ _ (k0_off5_eq k) (k0_off11_eq k) (by decide) x,
    fun _ => row_not_mem _ _ _ _ _ _ (k0_off5_eq k) (k0_off10_eq k) (by decide) x,
    fun _ => row_not_mem _ _ _ _ _ _ (k0_off5_eq k) (k0_off9_eq k) (by decide) x,
    fun _ => row_not_mem _ _ _ _ _ _ (k0_off5_eq k) (k0_off8_eq k) (by decide) x,
    fun _ => row_not_mem _ _ _ _ _ _ (k0_off5_eq k) (k0_off7_eq k) (by decide) x,
    fun _ => row_not_mem _ _ _ _ _ _ (k0_off5_eq k) (k0_off6_eq k) (by decide) x,
    fun hne => absurd rfl hne,
    fun _ => row_not_mem _ _ _ _ _ _ (k0_off5_eq k) (k0_off4_eq k) (by decide) x,
    fun _ => row_not_mem _ _ _ _ _ _ (k0_off5_eq k) (k0_off3_eq k) (by decide) x,
    fun _ => row_not_mem _ _ _ _ _ _ (k0_off5_eq k) (k0_off2_eq k) (by decide) x⟩

/-- Row 4 of trip `k`'s columns holds the bias vector `v23` after the trip. -/
theorem upd1_row4 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off6 k) S1x16.size (k0_off6_inb k)).emb x)
      = shapeCast S1x16 v23 shapeCasts_S16_S1x16 x := by
  unfold upd1
  refine Eq.trans (congrFun (read_acc (F := F) _).symm _) ?_
  refine read_writes_of_mem_disjoint (accS).view f _ ⟨Rect.unit (s := S10x512) (k0_off6 k) S1x16.size (k0_off6_inb k), shapeCast S1x16 v23 shapeCasts_S16_S1x16⟩ (by simp) x ?_
  simp only [List.mem_cons, List.not_mem_nil, or_false, forall_eq_or_imp, forall_eq]
  exact ⟨fun _ => row_not_mem _ _ _ _ _ _ (k0_off6_eq k) (k0_off11_eq k) (by decide) x,
    fun _ => row_not_mem _ _ _ _ _ _ (k0_off6_eq k) (k0_off10_eq k) (by decide) x,
    fun _ => row_not_mem _ _ _ _ _ _ (k0_off6_eq k) (k0_off9_eq k) (by decide) x,
    fun _ => row_not_mem _ _ _ _ _ _ (k0_off6_eq k) (k0_off8_eq k) (by decide) x,
    fun _ => row_not_mem _ _ _ _ _ _ (k0_off6_eq k) (k0_off7_eq k) (by decide) x,
    fun hne => absurd rfl hne,
    fun _ => row_not_mem _ _ _ _ _ _ (k0_off6_eq k) (k0_off5_eq k) (by decide) x,
    fun _ => row_not_mem _ _ _ _ _ _ (k0_off6_eq k) (k0_off4_eq k) (by decide) x,
    fun _ => row_not_mem _ _ _ _ _ _ (k0_off6_eq k) (k0_off3_eq k) (by decide) x,
    fun _ => row_not_mem _ _ _ _ _ _ (k0_off6_eq k) (k0_off2_eq k) (by decide) x⟩

/-- Row 5 of trip `k`'s columns holds the bias vector `v27` after the trip. -/
theorem upd1_row5 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off7 k) S1x16.size (k0_off7_inb k)).emb x)
      = shapeCast S1x16 v27 shapeCasts_S16_S1x16 x := by
  unfold upd1
  refine Eq.trans (congrFun (read_acc (F := F) _).symm _) ?_
  refine read_writes_of_mem_disjoint (accS).view f _ ⟨Rect.unit (s := S10x512) (k0_off7 k) S1x16.size (k0_off7_inb k), shapeCast S1x16 v27 shapeCasts_S16_S1x16⟩ (by simp) x ?_
  simp only [List.mem_cons, List.not_mem_nil, or_false, forall_eq_or_imp, forall_eq]
  exact ⟨fun _ => row_not_mem _ _ _ _ _ _ (k0_off7_eq k) (k0_off11_eq k) (by decide) x,
    fun _ => row_not_mem _ _ _ _ _ _ (k0_off7_eq k) (k0_off10_eq k) (by decide) x,
    fun _ => row_not_mem _ _ _ _ _ _ (k0_off7_eq k) (k0_off9_eq k) (by decide) x,
    fun _ => row_not_mem _ _ _ _ _ _ (k0_off7_eq k) (k0_off8_eq k) (by decide) x,
    fun hne => absurd rfl hne,
    fun _ => row_not_mem _ _ _ _ _ _ (k0_off7_eq k) (k0_off6_eq k) (by decide) x,
    fun _ => row_not_mem _ _ _ _ _ _ (k0_off7_eq k) (k0_off5_eq k) (by decide) x,
    fun _ => row_not_mem _ _ _ _ _ _ (k0_off7_eq k) (k0_off4_eq k) (by decide) x,
    fun _ => row_not_mem _ _ _ _ _ _ (k0_off7_eq k) (k0_off3_eq k) (by decide) x,
    fun _ => row_not_mem _ _ _ _ _ _ (k0_off7_eq k) (k0_off2_eq k) (by decide) x⟩

/-- Row 6 of trip `k`'s columns holds the bias vector `v31` after the trip. -/
theorem upd1_row6 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off8 k) S1x16.size (k0_off8_inb k)).emb x)
      = shapeCast S1x16 v31 shapeCasts_S16_S1x16 x := by
  unfold upd1
  refine Eq.trans (congrFun (read_acc (F := F) _).symm _) ?_
  refine read_writes_of_mem_disjoint (accS).view f _ ⟨Rect.unit (s := S10x512) (k0_off8 k) S1x16.size (k0_off8_inb k), shapeCast S1x16 v31 shapeCasts_S16_S1x16⟩ (by simp) x ?_
  simp only [List.mem_cons, List.not_mem_nil, or_false, forall_eq_or_imp, forall_eq]
  exact ⟨fun _ => row_not_mem _ _ _ _ _ _ (k0_off8_eq k) (k0_off11_eq k) (by decide) x,
    fun _ => row_not_mem _ _ _ _ _ _ (k0_off8_eq k) (k0_off10_eq k) (by decide) x,
    fun _ => row_not_mem _ _ _ _ _ _ (k0_off8_eq k) (k0_off9_eq k) (by decide) x,
    fun hne => absurd rfl hne,
    fun _ => row_not_mem _ _ _ _ _ _ (k0_off8_eq k) (k0_off7_eq k) (by decide) x,
    fun _ => row_not_mem _ _ _ _ _ _ (k0_off8_eq k) (k0_off6_eq k) (by decide) x,
    fun _ => row_not_mem _ _ _ _ _ _ (k0_off8_eq k) (k0_off5_eq k) (by decide) x,
    fun _ => row_not_mem _ _ _ _ _ _ (k0_off8_eq k) (k0_off4_eq k) (by decide) x,
    fun _ => row_not_mem _ _ _ _ _ _ (k0_off8_eq k) (k0_off3_eq k) (by decide) x,
    fun _ => row_not_mem _ _ _ _ _ _ (k0_off8_eq k) (k0_off2_eq k) (by decide) x⟩

/-- Row 7 of trip `k`'s columns holds the bias vector `v35` after the trip. -/
theorem upd1_row7 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off9 k) S1x16.size (k0_off9_inb k)).emb x)
      = shapeCast S1x16 v35 shapeCasts_S16_S1x16 x := by
  unfold upd1
  refine Eq.trans (congrFun (read_acc (F := F) _).symm _) ?_
  refine read_writes_of_mem_disjoint (accS).view f _ ⟨Rect.unit (s := S10x512) (k0_off9 k) S1x16.size (k0_off9_inb k), shapeCast S1x16 v35 shapeCasts_S16_S1x16⟩ (by simp) x ?_
  simp only [List.mem_cons, List.not_mem_nil, or_false, forall_eq_or_imp, forall_eq]
  exact ⟨fun _ => row_not_mem _ _ _ _ _ _ (k0_off9_eq k) (k0_off11_eq k) (by decide) x,
    fun _ => row_not_mem _ _ _ _ _ _ (k0_off9_eq k) (k0_off10_eq k) (by decide) x,
    fun hne => absurd rfl hne,
    fun _ => row_not_mem _ _ _ _ _ _ (k0_off9_eq k) (k0_off8_eq k) (by decide) x,
    fun _ => row_not_mem _ _ _ _ _ _ (k0_off9_eq k) (k0_off7_eq k) (by decide) x,
    fun _ => row_not_mem _ _ _ _ _ _ (k0_off9_eq k) (k0_off6_eq k) (by decide) x,
    fun _ => row_not_mem _ _ _ _ _ _ (k0_off9_eq k) (k0_off5_eq k) (by decide) x,
    fun _ => row_not_mem _ _ _ _ _ _ (k0_off9_eq k) (k0_off4_eq k) (by decide) x,
    fun _ => row_not_mem _ _ _ _ _ _ (k0_off9_eq k) (k0_off3_eq k) (by decide) x,
    fun _ => row_not_mem _ _ _ _ _ _ (k0_off9_eq k) (k0_off2_eq k) (by decide) x⟩

/-- Row 8 of trip `k`'s columns holds the bias vector `v39` after the trip. -/
theorem upd1_row8 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off10 k) S1x16.size (k0_off10_inb k)).emb x)
      = shapeCast S1x16 v39 shapeCasts_S16_S1x16 x := by
  unfold upd1
  refine Eq.trans (congrFun (read_acc (F := F) _).symm _) ?_
  refine read_writes_of_mem_disjoint (accS).view f _ ⟨Rect.unit (s := S10x512) (k0_off10 k) S1x16.size (k0_off10_inb k), shapeCast S1x16 v39 shapeCasts_S16_S1x16⟩ (by simp) x ?_
  simp only [List.mem_cons, List.not_mem_nil, or_false, forall_eq_or_imp, forall_eq]
  exact ⟨fun _ => row_not_mem _ _ _ _ _ _ (k0_off10_eq k) (k0_off11_eq k) (by decide) x,
    fun hne => absurd rfl hne,
    fun _ => row_not_mem _ _ _ _ _ _ (k0_off10_eq k) (k0_off9_eq k) (by decide) x,
    fun _ => row_not_mem _ _ _ _ _ _ (k0_off10_eq k) (k0_off8_eq k) (by decide) x,
    fun _ => row_not_mem _ _ _ _ _ _ (k0_off10_eq k) (k0_off7_eq k) (by decide) x,
    fun _ => row_not_mem _ _ _ _ _ _ (k0_off10_eq k) (k0_off6_eq k) (by decide) x,
    fun _ => row_not_mem _ _ _ _ _ _ (k0_off10_eq k) (k0_off5_eq k) (by decide) x,
    fun _ => row_not_mem _ _ _ _ _ _ (k0_off10_eq k) (k0_off4_eq k) (by decide) x,
    fun _ => row_not_mem _ _ _ _ _ _ (k0_off10_eq k) (k0_off3_eq k) (by decide) x,
    fun _ => row_not_mem _ _ _ _ _ _ (k0_off10_eq k) (k0_off2_eq k) (by decide) x⟩

/-- Row 9 of trip `k`'s columns holds the bias vector `v43` after the trip. -/
theorem upd1_row9 (v7 v11 v15 v19 v23 v27 v31 v35 v39 v43 : Vec F S16 .f32) (k : Fin k0_t1_loop.trips) (f : S10x512.Idx → Elt F .f32) (x : S1x16.Idx) :
    upd1 (F := F) v7 v11 v15 v19 v23 v27 v31 v35 v39 v43 k f ((Rect.unit (s := S10x512) (k0_off11 k) S1x16.size (k0_off11_inb k)).emb x)
      = shapeCast S1x16 v43 shapeCasts_S16_S1x16 x := by
  unfold upd1
  refine Eq.trans (congrFun (read_acc (F := F) _).symm _) ?_
  refine read_writes_of_mem_disjoint (accS).view f _ ⟨Rect.unit (s := S10x512) (k0_off11 k) S1x16.size (k0_off11_inb k), shapeCast S1x16 v43 shapeCasts_S16_S1x16⟩ (by simp) x ?_
  simp only [List.mem_cons, List.not_mem_nil, or_false, forall_eq_or_imp, forall_eq]
  exact ⟨fun hne => absurd rfl hne,
    fun _ => row_not_mem _ _ _ _ _ _ (k0_off11_eq k) (k0_off10_eq k) (by decide) x,
    fun _ => row_not_mem _ _ _ _ _ _ (k0_off11_eq k) (k0_off9_eq k) (by decide) x,
    fun _ => row_not_mem _ _ _ _ _ _ (k0_off11_eq k) (k0_off8_eq k) (by decide) x,
    fun _ => row_not_mem _ _ _ _ _ _ (k0_off11_eq k) (k0_off7_eq k) (by decide) x,
    fun _ => row_not_mem _ _ _ _ _ _ (k0_off11_eq k) (k0_off6_eq k) (by decide) x,
    fun _ => row_not_mem _ _ _ _ _ _ (k0_off11_eq k) (k0_off5_eq k) (by decide) x,
    fun _ => row_not_mem _ _ _ _ _ _ (k0_off11_eq k) (k0_off4_eq k) (by decide) x,
    fun _ => row_not_mem _ _ _ _ _ _ (k0_off11_eq k) (k0_off3_eq k) (by decide) x,
    fun _ => row_not_mem _ _ _ _ _ _ (k0_off11_eq k) (k0_off2_eq k) (by decide) x⟩

/-- The bias vector of hidden unit `h`. -/
def biasRow (v7 v11 v15 v19 v23 v27 v31 v35 v39 v43 : Vec F S16 .f32) (h : Fin 10) : Vec F S16 .f32 := ![v7, v11, v15, v19, v23, v27, v31, v35, v39, v43] h

/-- Column `c` of a one-row rectangle, as its index. -/
def colIdx (c : Fin 16) : S1x16.Idx := Idealize.ShloMosaic.ValueIdx.ix2 (0 : Fin 1) c

/-- An accumulator entry in row `h`, columns `c … c + 15`, is the element of the one-row rectangle at `(h, c)` under its
    column offset. -/
theorem eq_emb_row {off : Fin 2 → ℕ} (inb : ∀ a, off a + S1x16.size a ≤ S10x512.size a) (h c : ℕ) (e : off = ![h, c]) (y : S10x512.Idx)
    (hy0 : (y (0 : Fin 2)).val = h) (hlo : c ≤ (y (1 : Fin 2)).val) (hhi : (y (1 : Fin 2)).val < c + 16) :
    y = (Rect.unit (s := S10x512) off S1x16.size inb).emb (colIdx ⟨(y (1 : Fin 2)).val - c, by omega⟩) := by
  have E := emb_row inb h c e (colIdx ⟨(y (1 : Fin 2)).val - c, by omega⟩)
  funext a
  refine Fin.ext ?_
  revert a
  refine Fin.forall_fin_two.mpr ⟨?_, ?_⟩
  · rw [E.1]; exact hy0
  · rw [E.2]; show (y (1 : Fin 2)).val = c + ((y (1 : Fin 2)).val - c); omega

theorem upd1_at_row0 (v7 v11 v15 v19 v23 v27 v31 v35 v39 v43 : Vec F S16 .f32) (k : Fin k0_t1_loop.trips) (f : S10x512.Idx → Elt F .f32) (y : S10x512.Idx)
    (hy0 : (y (0 : Fin 2)).val = 0) (hlo : 16 * k.val ≤ (y (1 : Fin 2)).val) (hhi : (y (1 : Fin 2)).val < 16 * k.val + 16) :
    upd1 (F := F) v7 v11 v15 v19 v23 v27 v31 v35 v39 v43 k f y = shapeCast S1x16 v7 shapeCasts_S16_S1x16 (colIdx ⟨(y (1 : Fin 2)).val - 16 * k.val, by omega⟩) :=
  (congrArg (upd1 (F := F) v7 v11 v15 v19 v23 v27 v31 v35 v39 v43 k f) (eq_emb_row (k0_off2_inb k) 0 (16 * k.val) (k0_off2_eq k) y hy0 hlo hhi)).trans
    (upd1_row0 v7 v11 v15 v19 v23 v27 v31 v35 v39 v43 k f _)

theorem upd1_at_row1 (v7 v11 v15 v19 v23 v27 v31 v35 v39 v43 : Vec F S16 .f32) (k : Fin k0_t1_loop.trips) (f : S10x512.Idx → Elt F .f32) (y : S10x512.Idx)
    (hy0 : (y (0 : Fin 2)).val = 1) (hlo : 16 * k.val ≤ (y (1 : Fin 2)).val) (hhi : (y (1 : Fin 2)).val < 16 * k.val + 16) :
    upd1 (F := F) v7 v11 v15 v19 v23 v27 v31 v35 v39 v43 k f y = shapeCast S1x16 v11 shapeCasts_S16_S1x16 (colIdx ⟨(y (1 : Fin 2)).val - 16 * k.val, by omega⟩) :=
  (congrArg (upd1 (F := F) v7 v11 v15 v19 v23 v27 v31 v35 v39 v43 k f) (eq_emb_row (k0_off3_inb k) 1 (16 * k.val) (k0_off3_eq k) y hy0 hlo hhi)).trans
    (upd1_row1 v7 v11 v15 v19 v23 v27 v31 v35 v39 v43 k f _)

theorem upd1_at_row2 (v7 v11 v15 v19 v23 v27 v31 v35 v39 v43 : Vec F S16 .f32) (k : Fin k0_t1_loop.trips) (f : S10x512.Idx → Elt F .f32) (y : S10x512.Idx)
    (hy0 : (y (0 : Fin 2)).val = 2) (hlo : 16 * k.val ≤ (y (1 : Fin 2)).val) (hhi : (y (1 : Fin 2)).val < 16 * k.val + 16) :
    upd1 (F := F) v7 v11 v15 v19 v23 v27 v31 v35 v39 v43 k f y = shapeCast S1x16 v15 shapeCasts_S16_S1x16 (colIdx ⟨(y (1 : Fin 2)).val - 16 * k.val, by omega⟩) :=
  (congrArg (upd1 (F := F) v7 v11 v15 v19 v23 v27 v31 v35 v39 v43 k f) (eq_emb_row (k0_off4_inb k) 2 (16 * k.val) (k0_off4_eq k) y hy0 hlo hhi)).trans
    (upd1_row2 v7 v11 v15 v19 v23 v27 v31 v35 v39 v43 k f _)

theorem upd1_at_row3 (v7 v11 v15 v19 v23 v27 v31 v35 v39 v43 : Vec F S16 .f32) (k : Fin k0_t1_loop.trips) (f : S10x512.Idx → Elt F .f32) (y : S10x512.Idx)
    (hy0 : (y (0 : Fin 2)).val = 3) (hlo : 16 * k.val ≤ (y (1 : Fin 2)).val) (hhi : (y (1 : Fin 2)).val < 16 * k.val + 16) :
    upd1 (F := F) v7 v11 v15 v19 v23 v27 v31 v35 v39 v43 k f y = shapeCast S1x16 v19 shapeCasts_S16_S1x16 (colIdx ⟨(y (1 : Fin 2)).val - 16 * k.val, by omega⟩) :=
  (congrArg (upd1 (F := F) v7 v11 v15 v19 v23 v27 v31 v35 v39 v43 k f) (eq_emb_row (k0_off5_inb k) 3 (16 * k.val) (k0_off5_eq k) y hy0 hlo hhi)).trans
    (upd1_row3 v7 v11 v15 v19 v23 v27 v31 v35 v39 v43 k f _)

theorem upd1_at_row4 (v7 v11 v15 v19 v23 v27 v31 v35 v39 v43 : Vec F S16 .f32) (k : Fin k0_t1_loop.trips) (f : S10x512.Idx → Elt F .f32) (y : S10x512.Idx)
    (hy0 : (y (0 : Fin 2)).val = 4) (hlo : 16 * k.val ≤ (y (1 : Fin 2)).val) (hhi : (y (1 : Fin 2)).val < 16 * k.val + 16) :
    upd1 (F := F) v7 v11 v15 v19 v23 v27 v31 v35 v39 v43 k f y = shapeCast S1x16 v23 shapeCasts_S16_S1x16 (colIdx ⟨(y (1 : Fin 2)).val - 16 * k.val, by omega⟩) :=
  (congrArg (upd1 (F := F) v7 v11 v15 v19 v23 v27 v31 v35 v39 v43 k f) (eq_emb_row (k0_off6_inb k) 4 (16 * k.val) (k0_off6_eq k) y hy0 hlo hhi)).trans
    (upd1_row4 v7 v11 v15 v19 v23 v27 v31 v35 v39 v43 k f _)

theorem upd1_at_row5 (v7 v11 v15 v19 v23 v27 v31 v35 v39 v43 : Vec F S16 .f32) (k : Fin k0_t1_loop.trips) (f : S10x512.Idx → Elt F .f32) (y : S10x512.Idx)
    (hy0 : (y (0 : Fin 2)).val = 5) (hlo : 16 * k.val ≤ (y (1 : Fin 2)).val) (hhi : (y (1 : Fin 2)).val < 16 * k.val + 16) :
    upd1 (F := F) v7 v11 v15 v19 v23 v27 v31 v35 v39 v43 k f y = shapeCast S1x16 v27 shapeCasts_S16_S1x16 (colIdx ⟨(y (1 : Fin 2)).val - 16 * k.val, by omega⟩) :=
  (congrArg (upd1 (F := F) v7 v11 v15 v19 v23 v27 v31 v35 v39 v43 k f) (eq_emb_row (k0_off7_inb k) 5 (16 * k.val) (k0_off7_eq k) y hy0 hlo hhi)).trans
    (upd1_row5 v7 v11 v15 v19 v23 v27 v31 v35 v39 v43 k f _)

theorem upd1_at_row6 (v7 v11 v15 v19 v23 v27 v31 v35 v39 v43 : Vec F S16 .f32) (k : Fin k0_t1_loop.trips) (f : S10x512.Idx → Elt F .f32) (y : S10x512.Idx)
    (hy0 : (y (0 : Fin 2)).val = 6) (hlo : 16 * k.val ≤ (y (1 : Fin 2)).val) (hhi : (y (1 : Fin 2)).val < 16 * k.val + 16) :
    upd1 (F := F) v7 v11 v15 v19 v23 v27 v31 v35 v39 v43 k f y = shapeCast S1x16 v31 shapeCasts_S16_S1x16 (colIdx ⟨(y (1 : Fin 2)).val - 16 * k.val, by omega⟩) :=
  (congrArg (upd1 (F := F) v7 v11 v15 v19 v23 v27 v31 v35 v39 v43 k f) (eq_emb_row (k0_off8_inb k) 6 (16 * k.val) (k0_off8_eq k) y hy0 hlo hhi)).trans
    (upd1_row6 v7 v11 v15 v19 v23 v27 v31 v35 v39 v43 k f _)

theorem upd1_at_row7 (v7 v11 v15 v19 v23 v27 v31 v35 v39 v43 : Vec F S16 .f32) (k : Fin k0_t1_loop.trips) (f : S10x512.Idx → Elt F .f32) (y : S10x512.Idx)
    (hy0 : (y (0 : Fin 2)).val = 7) (hlo : 16 * k.val ≤ (y (1 : Fin 2)).val) (hhi : (y (1 : Fin 2)).val < 16 * k.val + 16) :
    upd1 (F := F) v7 v11 v15 v19 v23 v27 v31 v35 v39 v43 k f y = shapeCast S1x16 v35 shapeCasts_S16_S1x16 (colIdx ⟨(y (1 : Fin 2)).val - 16 * k.val, by omega⟩) :=
  (congrArg (upd1 (F := F) v7 v11 v15 v19 v23 v27 v31 v35 v39 v43 k f) (eq_emb_row (k0_off9_inb k) 7 (16 * k.val) (k0_off9_eq k) y hy0 hlo hhi)).trans
    (upd1_row7 v7 v11 v15 v19 v23 v27 v31 v35 v39 v43 k f _)

theorem upd1_at_row8 (v7 v11 v15 v19 v23 v27 v31 v35 v39 v43 : Vec F S16 .f32) (k : Fin k0_t1_loop.trips) (f : S10x512.Idx → Elt F .f32) (y : S10x512.Idx)
    (hy0 : (y (0 : Fin 2)).val = 8) (hlo : 16 * k.val ≤ (y (1 : Fin 2)).val) (hhi : (y (1 : Fin 2)).val < 16 * k.val + 16) :
    upd1 (F := F) v7 v11 v15 v19 v23 v27 v31 v35 v39 v43 k f y = shapeCast S1x16 v39 shapeCasts_S16_S1x16 (colIdx ⟨(y (1 : Fin 2)).val - 16 * k.val, by omega⟩) :=
  (congrArg (upd1 (F := F) v7 v11 v15 v19 v23 v27 v31 v35 v39 v43 k f) (eq_emb_row (k0_off10_inb k) 8 (16 * k.val) (k0_off10_eq k) y hy0 hlo hhi)).trans
    (upd1_row8 v7 v11 v15 v19 v23 v27 v31 v35 v39 v43 k f _)

theorem upd1_at_row9 (v7 v11 v15 v19 v23 v27 v31 v35 v39 v43 : Vec F S16 .f32) (k : Fin k0_t1_loop.trips) (f : S10x512.Idx → Elt F .f32) (y : S10x512.Idx)
    (hy0 : (y (0 : Fin 2)).val = 9) (hlo : 16 * k.val ≤ (y (1 : Fin 2)).val) (hhi : (y (1 : Fin 2)).val < 16 * k.val + 16) :
    upd1 (F := F) v7 v11 v15 v19 v23 v27 v31 v35 v39 v43 k f y = shapeCast S1x16 v43 shapeCasts_S16_S1x16 (colIdx ⟨(y (1 : Fin 2)).val - 16 * k.val, by omega⟩) :=
  (congrArg (upd1 (F := F) v7 v11 v15 v19 v23 v27 v31 v35 v39 v43 k f) (eq_emb_row (k0_off11_inb k) 9 (16 * k.val) (k0_off11_eq k) y hy0 hlo hhi)).trans
    (upd1_row9 v7 v11 v15 v19 v23 v27 v31 v35 v39 v43 k f _)

/-- One trip of the bias-initialisation loop, read at an index: inside the trip's sixteen columns the bias vector of the
    entry's row, at the entry's lane; outside them the entry as it was. -/
theorem upd1_apply (v7 v11 v15 v19 v23 v27 v31 v35 v39 v43 : Vec F S16 .f32) (k : Fin k0_t1_loop.trips) (f : S10x512.Idx → Elt F .f32) (y : S10x512.Idx) :
    upd1 (F := F) v7 v11 v15 v19 v23 v27 v31 v35 v39 v43 k f y
      = if hc : 16 * k.val ≤ (y (1 : Fin 2)).val ∧ (y (1 : Fin 2)).val < 16 * k.val + 16 then
          shapeCast S1x16 (biasRow (F := F) v7 v11 v15 v19 v23 v27 v31 v35 v39 v43 (y (0 : Fin 2))) shapeCasts_S16_S1x16 (colIdx ⟨(y (1 : Fin 2)).val - 16 * k.val, by omega⟩)
        else f y := by
  by_cases hc : 16 * k.val ≤ (y (1 : Fin 2)).val ∧ (y (1 : Fin 2)).val < 16 * k.val + 16
  · rw [dif_pos hc]
    have h10 : (y (0 : Fin 2)).val < 10 := (y (0 : Fin 2)).isLt
    obtain h0 | h1 | h2 | h3 | h4 | h5 | h6 | h7 | h8 | h9 :
        (y (0 : Fin 2)).val = 0 ∨ (y (0 : Fin 2)).val = 1 ∨ (y (0 : Fin 2)).val = 2 ∨ (y (0 : Fin 2)).val = 3 ∨ (y (0 : Fin 2)).val = 4
          ∨ (y (0 : Fin 2)).val = 5 ∨ (y (0 : Fin 2)).val = 6 ∨ (y (0 : Fin 2)).val = 7 ∨ (y (0 : Fin 2)).val = 8 ∨ (y (0 : Fin 2)).val = 9 := by omega
    · rw [upd1_at_row0 v7 v11 v15 v19 v23 v27 v31 v35 v39 v43 k f y h0 hc.1 hc.2]
      have e0 : y (0 : Fin 2) = (⟨0, by decide⟩ : Fin 10) := Fin.ext h0
      rw [e0]; rfl
    · rw [upd1_at_row1 v7 v11 v15 v19 v23 v27 v31 v35 v39 v43 k f y h1 hc.1 hc.2]
      have e0 : y (0 : Fin 2) = (⟨1, by decide⟩ : Fin 10) := Fin.ext h1
      rw [e0]; rfl
    · rw [upd1_at_row2 v7 v11 v15 v19 v23 v27 v31 v35 v39 v43 k f y h2 hc.1 hc.2]
      have e0 : y (0 : Fin 2) = (⟨2, by decide⟩ : Fin 10) := Fin.ext h2
      rw [e0]; rfl
    · rw [upd1_at_row3 v7 v11 v15 v19 v23 v27 v31 v35 v39 v43 k f y h3 hc.1 hc.2]
      have e0 : y (0 : Fin 2) = (⟨3, by decide⟩ : Fin 10) := Fin.ext h3
      rw [e0]; rfl
    · rw [upd1_at_row4 v7 v11 v15 v19 v23 v27 v31 v35 v39 v43 k f y h4 hc.1 hc.2]
      have e0 : y (0 : Fin 2) = (⟨4, by decide⟩ : Fin 10) := Fin.ext h4
      rw [e0]; rfl
    · rw [upd1_at_row5 v7 v11 v15 v19 v23 v27 v31 v35 v39 v43 k f y h5 hc.1 hc.2]
      have e0 : y (0 : Fin 2) = (⟨5, by decide⟩ : Fin 10) := Fin.ext h5
      rw [e0]; rfl
    · rw [upd1_at_row6 v7 v11 v15 v19 v23 v27 v31 v35 v39 v43 k f y h6 hc.1 hc.2]
      have e0 : y (0 : Fin 2) = (⟨6, by decide⟩ : Fin 10) := Fin.ext h6
      rw [e0]; rfl
    · rw [upd1_at_row7 v7 v11 v15 v19 v23 v27 v31 v35 v39 v43 k f y h7 hc.1 hc.2]
      have e0 : y (0 : Fin 2) = (⟨7, by decide⟩ : Fin 10) := Fin.ext h7
      rw [e0]; rfl
    · rw [upd1_at_row8 v7 v11 v15 v19 v23 v27 v31 v35 v39 v43 k f y h8 hc.1 hc.2]
      have e0 : y (0 : Fin 2) = (⟨8, by decide⟩ : Fin 10) := Fin.ext h8
      rw [e0]; rfl
    · rw [upd1_at_row9 v7 v11 v15 v19 v23 v27 v31 v35 v39 v43 k f y h9 hc.1 hc.2]
      have e0 : y (0 : Fin 2) = (⟨9, by decide⟩ : Fin 10) := Fin.ext h9
      rw [e0]; rfl
  · rw [dif_neg hc]; exact upd1_miss v7 v11 v15 v19 v23 v27 v31 v35 v39 v43 k f y hc

theorem k0_t1_trips : k0_t1_loop.trips = 32 := by decide

/-- After `n ≤ 32` trips of the bias-initialisation loop: the first `16·n` columns hold the bias vectors, lane by lane;
    the others are as at the start. -/
theorem acc1_apply (v7 v11 v15 v19 v23 v27 v31 v35 v39 v43 : Vec F S16 .f32) (f0 : S10x512.Idx → Elt F .f32) : ∀ n : ℕ, n ≤ 32 → ∀ y : S10x512.Idx,
    acc1 (F := F) v7 v11 v15 v19 v23 v27 v31 v35 v39 v43 f0 n y
      = if (y (1 : Fin 2)).val < 16 * n then
          shapeCast S1x16 (biasRow (F := F) v7 v11 v15 v19 v23 v27 v31 v35 v39 v43 (y (0 : Fin 2))) shapeCasts_S16_S1x16 (colIdx ⟨(y (1 : Fin 2)).val % 16, Nat.mod_lt _ (by decide)⟩)
        else f0 y
  | 0, _, y => by rw [if_neg (by omega)]; rfl
  | n + 1, hn, y => by
    have hk : n < k0_t1_loop.trips := by rw [k0_t1_trips]; omega
    rw [show acc1 (F := F) v7 v11 v15 v19 v23 v27 v31 v35 v39 v43 f0 (n + 1) = upd1 (F := F) v7 v11 v15 v19 v23 v27 v31 v35 v39 v43 ⟨n, hk⟩ (acc1 (F := F) v7 v11 v15 v19 v23 v27 v31 v35 v39 v43 f0 n) from acc1_succ v7 v11 v15 v19 v23 v27 v31 v35 v39 v43 f0 ⟨n, hk⟩,
      upd1_apply]
    by_cases hc : 16 * n ≤ (y (1 : Fin 2)).val ∧ (y (1 : Fin 2)).val < 16 * n + 16
    · rw [dif_pos hc, if_pos (by omega)]
      exact congrArg (fun c => shapeCast S1x16 (biasRow (F := F) v7 v11 v15 v19 v23 v27 v31 v35 v39 v43 (y (0 : Fin 2))) shapeCasts_S16_S1x16 (colIdx c))
        (Fin.ext (by show (y (1 : Fin 2)).val - 16 * n = (y (1 : Fin 2)).val % 16; omega))
    · rw [dif_neg hc, acc1_apply v7 v11 v15 v19 v23 v27 v31 v35 v39 v43 f0 n (by omega) y]
      by_cases h2 : (y (1 : Fin 2)).val < 16 * n
      · rw [if_pos h2, if_pos (by omega)]
      · rw [if_neg h2, if_neg (by omega)]

/-- After the whole bias-initialisation loop every accumulator entry holds the bias of its row at its lane, whatever the
    accumulator held before. -/
theorem acc1_final (v7 v11 v15 v19 v23 v27 v31 v35 v39 v43 : Vec F S16 .f32) (f0 : S10x512.Idx → Elt F .f32) (y : S10x512.Idx) :
    acc1 (F := F) v7 v11 v15 v19 v23 v27 v31 v35 v39 v43 f0 k0_t1_loop.trips y
      = shapeCast S1x16 (biasRow (F := F) v7 v11 v15 v19 v23 v27 v31 v35 v39 v43 (y (0 : Fin 2))) shapeCasts_S16_S1x16 (colIdx ⟨(y (1 : Fin 2)).val % 16, Nat.mod_lt _ (by decide)⟩) := by
  rw [k0_t1_trips, acc1_apply v7 v11 v15 v19 v23 v27 v31 v35 v39 v43 f0 32 (le_refl _) y, if_pos (by have := (y (1 : Fin 2)).isLt; show (y (1 : Fin 2)).val < 16 * 32; exact this)]

/-- A sixteen-lane vector stored as one row reads, at column `c` of the row, its lane `c`. -/
theorem shapeCast_row_col (v : Vec F S16 .f32) (c : Fin 16) :
    shapeCast S1x16 v shapeCasts_S16_S1x16 (colIdx c) = v (Idealize.ShloMosaic.ValueIdx.ix1 c) :=
  shapeCast_apply v shapeCasts_S16_S1x16 (colIdx c) (Idealize.ShloMosaic.ValueIdx.ix1 c)
    (by rw [Shape.rowMajor_val_one, Shape.rowMajor_val_two]; show c.val = 0 * 16 + c.val; omega)

/-- After the whole bias-initialisation loop: `acc[h, j]` is lane `j mod 16` of the bias vector of `h`. -/
theorem acc1_final_lane (v7 v11 v15 v19 v23 v27 v31 v35 v39 v43 : Vec F S16 .f32) (f0 : S10x512.Idx → Elt F .f32) (y : S10x512.Idx) :
    acc1 (F := F) v7 v11 v15 v19 v23 v27 v31 v35 v39 v43 f0 k0_t1_loop.trips y
      = biasRow (F := F) v7 v11 v15 v19 v23 v27 v31 v35 v39 v43 (y (0 : Fin 2)) (Idealize.ShloMosaic.ValueIdx.ix1 ⟨(y (1 : Fin 2)).val % 16, Nat.mod_lt _ (by decide)⟩) := by
  rw [acc1_final, shapeCast_row_col]

end Pure

end Cert.Proof.KI

end
-- ==== Proof.KValOutPure.lean ====
/-
  The output loop, read at an index.

  Trip `k` writes the sixteen output entries `out[16·k + lane]` with the vector `pay13 k` the kernel computes from the ten
  accumulator rows at those sixteen samples; the trips' rectangles tile the 512 entries, so after `n` trips entry `j`,
  `j < 16·n`, holds lane `j mod 16` of trip `j / 16`'s vector, and the others are as at the start.
-/
import proofs.«214512_g89103391522852_cont_sun_m_1157_25_alg».proof.Proof.KValInitOut
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Pure

variable [∀ e, Nonempty (Elt F e)]

open Idealize.ShloMosaic.ValueIdx

/-- The output scratch is held whole: reading it through its own view is the contents. -/
theorem read_out (g : S512.Idx → Elt F .f32) : View.read (Elt F) (outS).view g = g := View.read_whole (Val := Elt F) cc0_scratch6 g

/-- The sixteen values trip `k` of the output loop stores, from the accumulator `fa`. -/
def pay13 (v51 v55 v59 v63 v67 v71 v75 v79 v83 v87 v91 : Vec F S16 .f32) (fa : S10x512.Idx → Elt F .f32) (k : Fin k0_t13_loop.trips) : S16.Idx → Elt F .f32 :=
  k0_pay3 (k0_pay246 v71 v75 v79 v83 (k0_pay244 v51 v55 v59 v63 v91 (View.readAt (Elt F) (Memref.whole cc0_scratch5).view (Rect.unit (s := S10x512) (k0_off304 k) S1x16.size (k0_off304_inb k)).toLoadRect fa) (View.readAt (Elt F) (Memref.whole cc0_scratch5).view (Rect.unit (s := S10x512) (k0_off305 k) S1x16.size (k0_off305_inb k)).toLoadRect fa) (View.readAt (Elt F) (Memref.whole cc0_scratch5).view (Rect.unit (s := S10x512) (k0_off306 k) S1x16.size (k0_off306_inb k)).toLoadRect fa) (View.readAt (Elt F) (Memref.whole cc0_scratch5).view (Rect.unit (s := S10x512) (k0_off307 k) S1x16.size (k0_off307_inb k)).toLoadRect fa)) (k0_pay245 v67 (View.readAt (Elt F) (Memref.whole cc0_scratch5).view (Rect.unit (s := S10x512) (k0_off308 k) S1x16.size (k0_off308_inb k)).toLoadRect fa)) (View.readAt (Elt F) (Memref.whole cc0_scratch5).view (Rect.unit (s := S10x512) (k0_off309 k) S1x16.size (k0_off309_inb k)).toLoadRect fa) (View.readAt (Elt F) (Memref.whole cc0_scratch5).view (Rect.unit (s := S10x512) (k0_off310 k) S1x16.size (k0_off310_inb k)).toLoadRect fa) (View.readAt (Elt F) (Memref.whole cc0_scratch5).view (Rect.unit (s := S10x512) (k0_off311 k) S1x16.size (k0_off311_inb k)).toLoadRect fa) (View.readAt (Elt F) (Memref.whole cc0_scratch5).view (Rect.unit (s := S10x512) (k0_off312 k) S1x16.size (k0_off312_inb k)).toLoadRect fa)) (k0_pay247 v87 (View.readAt (Elt F) (Memref.whole cc0_scratch5).view (Rect.unit (s := S10x512) (k0_off313 k) S1x16.size (k0_off313_inb k)).toLoadRect fa))

theorem upd13_eq (v51 v55 v59 v63 v67 v71 v75 v79 v83 v87 v91 : Vec F S16 .f32) (fa : S10x512.Idx → Elt F .f32) (k : Fin k0_t13_loop.trips) (f : S512.Idx → Elt F .f32) :
    upd13 (F := F) v51 v55 v59 v63 v67 v71 v75 v79 v83 v87 v91 fa k f
      = (outS).view.writes (Elt F) f [⟨Rect.unit (s := S512) (k0_off314 k) S16.size (k0_off314_inb k), pay13 (F := F) v51 v55 v59 v63 v67 v71 v75 v79 v83 v87 v91 fa k⟩] := rfl

/-- One trip of the output loop, read at an index. -/
theorem upd13_apply (v51 v55 v59 v63 v67 v71 v75 v79 v83 v87 v91 : Vec F S16 .f32) (fa : S10x512.Idx → Elt F .f32) (k : Fin k0_t13_loop.trips) (f : S512.Idx → Elt F .f32) (y : S512.Idx) :
    upd13 (F := F) v51 v55 v59 v63 v67 v71 v75 v79 v83 v87 v91 fa k f y
      = if hc : 16 * k.val ≤ (y (0 : Fin 1)).val ∧ (y (0 : Fin 1)).val < 16 * k.val + 16 then
          pay13 (F := F) v51 v55 v59 v63 v67 v71 v75 v79 v83 v87 v91 fa k (ix1 ⟨(y (0 : Fin 1)).val - 16 * k.val, by omega⟩)
        else f y := by
  rw [upd13_eq]
  by_cases hc : 16 * k.val ≤ (y (0 : Fin 1)).val ∧ (y (0 : Fin 1)).val < 16 * k.val + 16
  · rw [dif_pos hc]
    have e : y = (Rect.unit (s := S512) (k0_off314 k) S16.size (k0_off314_inb k)).emb (ix1 ⟨(y (0 : Fin 1)).val - 16 * k.val, by omega⟩) := by
      funext a
      refine Fin.ext ?_
      revert a
      refine Fin.forall_fin_one.mpr ?_
      rw [Rect.emb_apply]
      simp only [Rect.off_unit, Rect.stride_unit, k0_off314_eq]
      show (y (0 : Fin 1)).val = 16 * k.val + 1 * ((y (0 : Fin 1)).val - 16 * k.val)
      omega
    refine Eq.trans (congrFun (read_out (F := F) _).symm y) ?_
    conv_lhs => rw [e]
    exact View.read_writes_cons_emb (outS).view f _ _ [] _
  · rw [dif_neg hc]
    refine Eq.trans (congrFun (read_out (F := F) _).symm y) (Eq.trans (View.read_writes_apply_of_forall_not_mem _ _ _ _ ?_) (congrFun (read_out (F := F) f) y))
    simp only [List.mem_cons, List.not_mem_nil, or_false, forall_eq]
    simp only [Rect.mem_set_unit, k0_off314_eq]
    exact fun H => hc (H (0 : Fin 1))

theorem k0_t13_trips : k0_t13_loop.trips = 32 := by decide

/-- After `n ≤ 32` trips of the output loop. -/
theorem out13_apply (v51 v55 v59 v63 v67 v71 v75 v79 v83 v87 v91 : Vec F S16 .f32) (fa : S10x512.Idx → Elt F .f32) (f0 : S512.Idx → Elt F .f32) : ∀ (n : ℕ) (hn : n ≤ 32) (y : S512.Idx),
    out13 (F := F) v51 v55 v59 v63 v67 v71 v75 v79 v83 v87 v91 fa f0 n y
      = if hlt : (y (0 : Fin 1)).val < 16 * n then
          pay13 (F := F) v51 v55 v59 v63 v67 v71 v75 v79 v83 v87 v91 fa ⟨(y (0 : Fin 1)).val / 16, by rw [k0_t13_trips]; omega⟩ (ix1 ⟨(y (0 : Fin 1)).val % 16, Nat.mod_lt _ (by decide)⟩)
        else f0 y
  | 0, _, y => by rw [dif_neg (by omega)]; rfl
  | n + 1, hn, y => by
    have hk : n < k0_t13_loop.trips := by rw [k0_t13_trips]; omega
    rw [show out13 (F := F) v51 v55 v59 v63 v67 v71 v75 v79 v83 v87 v91 fa f0 (n + 1) = upd13 (F := F) v51 v55 v59 v63 v67 v71 v75 v79 v83 v87 v91 fa ⟨n, hk⟩ (out13 (F := F) v51 v55 v59 v63 v67 v71 v75 v79 v83 v87 v91 fa f0 n) from out13_succ v51 v55 v59 v63 v67 v71 v75 v79 v83 v87 v91 fa f0 ⟨n, hk⟩,
      upd13_apply]
    by_cases hc : 16 * n ≤ (y (0 : Fin 1)).val ∧ (y (0 : Fin 1)).val < 16 * n + 16
    · rw [dif_pos hc, dif_pos (by omega)]
      have e1 : (⟨n, hk⟩ : Fin k0_t13_loop.trips) = ⟨(y (0 : Fin 1)).val / 16, by rw [k0_t13_trips]; omega⟩ := Fin.ext (by show n = (y (0 : Fin 1)).val / 16; omega)
      have e2 : (⟨(y (0 : Fin 1)).val - 16 * n, by omega⟩ : Fin 16) = ⟨(y (0 : Fin 1)).val % 16, Nat.mod_lt _ (by decide)⟩ := Fin.ext (by show (y (0 : Fin 1)).val - 16 * n = (y (0 : Fin 1)).val % 16; omega)
      have key : ∀ (k k' : Fin k0_t13_loop.trips) (c c' : Fin 16), k = k' → c = c' →
          pay13 (F := F) v51 v55 v59 v63 v67 v71 v75 v79 v83 v87 v91 fa k (ix1 c) = pay13 (F := F) v51 v55 v59 v63 v67 v71 v75 v79 v83 v87 v91 fa k' (ix1 c') := fun _ _ _ _ h1 h2 => by rw [h1, h2]
      exact key _ _ _ _ e1 e2
    · rw [dif_neg hc, out13_apply v51 v55 v59 v63 v67 v71 v75 v79 v83 v87 v91 fa f0 n (by omega) y]
      by_cases h2 : (y (0 : Fin 1)).val < 16 * n
      · rw [dif_pos h2, dif_pos (by omega)]
      · rw [dif_neg h2, dif_neg (by omega)]

/-- After the whole output loop every output entry `j` holds lane `j mod 16` of trip `j / 16`'s vector, whatever the output
    scratch held before. -/
theorem out13_final (v51 v55 v59 v63 v67 v71 v75 v79 v83 v87 v91 : Vec F S16 .f32) (fa : S10x512.Idx → Elt F .f32) (f0 : S512.Idx → Elt F .f32) (y : S512.Idx) :
    out13 (F := F) v51 v55 v59 v63 v67 v71 v75 v79 v83 v87 v91 fa f0 k0_t13_loop.trips y
      = pay13 (F := F) v51 v55 v59 v63 v67 v71 v75 v79 v83 v87 v91 fa ⟨(y (0 : Fin 1)).val / 16, by rw [k0_t13_trips]; have h : (y (0 : Fin 1)).val < 512 := (y (0 : Fin 1)).isLt; omega⟩
          (ix1 ⟨(y (0 : Fin 1)).val % 16, Nat.mod_lt _ (by decide)⟩) := by
  have h : (y (0 : Fin 1)).val < 512 := (y (0 : Fin 1)).isLt
  have e : out13 (F := F) v51 v55 v59 v63 v67 v71 v75 v79 v83 v87 v91 fa f0 k0_t13_loop.trips y = out13 (F := F) v51 v55 v59 v63 v67 v71 v75 v79 v83 v87 v91 fa f0 32 y := by rw [k0_t13_trips]
  rw [e, out13_apply v51 v55 v59 v63 v67 v71 v75 v79 v83 v87 v91 fa f0 32 (le_refl _) y, dif_pos (by omega)]

end Pure

end Cert.Proof.KI

end
-- ==== Proof.KValOutIdeal.lean ====
/-
  The output loop's stored vector at the exact instance, read at a lane.

  Lane `l` of the vector trip `k` stores is the bias `v91 l` plus, for the ten hidden units in order, the rectified
  accumulator entry of that unit at the trip's sample `16·k + l` times the unit's second-layer weight, the sums nested to
  the left as the kernel adds them. The accumulator entry read is the element of the accumulator under column `l` of the
  one-row rectangle at row `h`, column `16·k`.
-/
import proofs.«214512_g89103391522852_cont_sun_m_1157_25_alg».proof.Proof.KValOutPure
import proofs.«214512_g89103391522852_cont_sun_m_1157_25_alg».proof.Proof.KValInitPure
import Idealize.ShloMosaic.Lib.ValueIdx
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Pure

open Idealize.ShloMosaic.ValueIdx

/-- Lane `l` of the vector the output loop's trip `k` stores, at the exact instance. -/
theorem pay13_apply (v51 v55 v59 v63 v67 v71 v75 v79 v83 v87 v91 : Vec Ideal S16 .f32) (fa : S10x512.Idx → Elt Ideal .f32) (k : Fin k0_t13_loop.trips) (l : S16.Idx) :
    (pay13 (F := Ideal) v51 v55 v59 v63 v67 v71 v75 v79 v83 v87 v91 fa k l : Ideal .f32)
      = (((((((((((v91 l : Ideal .f32) + max (shapeCast S16 (View.readAt (Elt Ideal) (accS).view (Rect.unit (s := S10x512) (k0_off304 k) S1x16.size (k0_off304_inb k)).toLoadRect fa) shapeCasts_S1x16_S16 l : Ideal .f32) (Scalar.ofBits .f32 0x00000000#32 : Ideal .f32) * (v51 l : Ideal .f32)) + max (shapeCast S16 (View.readAt (Elt Ideal) (accS).view (Rect.unit (s := S10x512) (k0_off305 k) S1x16.size (k0_off305_inb k)).toLoadRect fa) shapeCasts_S1x16_S16 l : Ideal .f32) (Scalar.ofBits .f32 0x00000000#32 : Ideal .f32) * (v55 l : Ideal .f32)) + max (shapeCast S16 (View.readAt (Elt Ideal) (accS).view (Rect.unit (s := S10x512) (k0_off306 k) S1x16.size (k0_off306_inb k)).toLoadRect fa) shapeCasts_S1x16_S16 l : Ideal .f32) (Scalar.ofBits .f32 0x00000000#32 : Ideal .f32) * (v59 l : Ideal .f32)) + max (shapeCast S16 (View.readAt (Elt Ideal) (accS).view (Rect.unit (s := S10x512) (k0_off307 k) S1x16.size (k0_off307_inb k)).toLoadRect fa) shapeCasts_S1x16_S16 l : Ideal .f32) (Scalar.ofBits .f32 0x00000000#32 : Ideal .f32) * (v63 l : Ideal .f32)) + max (shapeCast S16 (View.readAt (Elt Ideal) (accS).view (Rect.unit (s := S10x512) (k0_off308 k) S1x16.size (k0_off308_inb k)).toLoadRect fa) shapeCasts_S1x16_S16 l : Ideal .f32) (Scalar.ofBits .f32 0x00000000#32 : Ideal .f32) * (v67 l : Ideal .f32)) + max (shapeCast S16 (View.readAt (Elt Ideal) (accS).view (Rect.unit (s := S10x512) (k0_off309 k) S1x16.size (k0_off309_inb k)).toLoadRect fa) shapeCasts_S1x16_S16 l : Ideal .f32) (Scalar.ofBits .f32 0x00000000#32 : Ideal .f32) * (v71 l : Ideal .f32)) + max (shapeCast S16 (View.readAt (Elt Ideal) (accS).view (Rect.unit (s := S10x512) (k0_off310 k) S1x16.size (k0_off310_inb k)).toLoadRect fa) shapeCasts_S1x16_S16 l : Ideal .f32) (Scalar.ofBits .f32 0x00000000#32 : Ideal .f32) * (v75 l : Ideal .f32)) + max (shapeCast S16 (View.readAt (Elt Ideal) (accS).view (Rect.unit (s := S10x512) (k0_off311 k) S1x16.size (k0_off311_inb k)).toLoadRect fa) shapeCasts_S1x16_S16 l : Ideal .f32) (Scalar.ofBits .f32 0x00000000#32 : Ideal .f32) * (v79 l : Ideal .f32)) + max (shapeCast S16 (View.readAt (Elt Ideal) (accS).view (Rect.unit (s := S10x512) (k0_off312 k) S1x16.size (k0_off312_inb k)).toLoadRect fa) shapeCasts_S1x16_S16 l : Ideal .f32) (Scalar.ofBits .f32 0x00000000#32 : Ideal .f32) * (v83 l : Ideal .f32)) + max (shapeCast S16 (View.readAt (Elt Ideal) (accS).view (Rect.unit (s := S10x512) (k0_off313 k) S1x16.size (k0_off313_inb k)).toLoadRect fa) shapeCasts_S1x16_S16 l : Ideal .f32) (Scalar.ofBits .f32 0x00000000#32 : Ideal .f32) * (v87 l : Ideal .f32)) := rfl

/-- A one-row load of the accumulator, read as sixteen lanes, is at lane `l` the accumulator's element under column `l`
    of the row's rectangle. -/
theorem ld_lane {off : Fin 2 → ℕ} (inb : ∀ a, off a + S1x16.size a ≤ S10x512.size a) (fa : S10x512.Idx → Elt F .f32) (l : S16.Idx) :
    shapeCast S16 (View.readAt (Elt F) (accS).view (Rect.unit (s := S10x512) off S1x16.size inb).toLoadRect fa) shapeCasts_S1x16_S16 l
      = fa ((Rect.unit (s := S10x512) off S1x16.size inb).emb (colIdx (l (0 : Fin 1)))) := by
  rw [shapeCast_apply _ shapeCasts_S1x16_S16 l (colIdx (l (0 : Fin 1)))
    (by rw [Shape.rowMajor_val_one, Shape.rowMajor_val_two]; show 0 * 16 + (l (0 : Fin 1)).val = (l (0 : Fin 1)).val; omega)]
  rfl

/-- Lane `l` of the vector the output loop's trip `k` stores, over the accumulator's entries: the bias plus, unit by unit,
    the rectified entry `acc[h, 16·k + l]` times the unit's weight. -/
theorem pay13_entries (v51 v55 v59 v63 v67 v71 v75 v79 v83 v87 v91 : Vec Ideal S16 .f32) (fa : S10x512.Idx → Elt Ideal .f32) (k : Fin k0_t13_loop.trips) (l : S16.Idx) :
    (pay13 (F := Ideal) v51 v55 v59 v63 v67 v71 v75 v79 v83 v87 v91 fa k l : Ideal .f32)
      = (((((((((((v91 l : Ideal .f32) + max (fa ((Rect.unit (s := S10x512) (k0_off304 k) S1x16.size (k0_off304_inb k)).emb (colIdx (l (0 : Fin 1)))) : Ideal .f32) (Scalar.ofBits .f32 0x00000000#32 : Ideal .f32) * (v51 l : Ideal .f32)) + max (fa ((Rect.unit (s := S10x512) (k0_off305 k) S1x16.size (k0_off305_inb k)).emb (colIdx (l (0 : Fin 1)))) : Ideal .f32) (Scalar.ofBits .f32 0x00000000#32 : Ideal .f32) * (v55 l : Ideal .f32)) + max (fa ((Rect.unit (s := S10x512) (k0_off306 k) S1x16.size (k0_off306_inb k)).emb (colIdx (l (0 : Fin 1)))) : Ideal .f32) (Scalar.ofBits .f32 0x00000000#32 : Ideal .f32) * (v59 l : Ideal .f32)) + max (fa ((Rect.unit (s := S10x512) (k0_off307 k) S1x16.size (k0_off307_inb k)).emb (colIdx (l (0 : Fin 1)))) : Ideal .f32) (Scalar.ofBits .f32 0x00000000#32 : Ideal .f32) * (v63 l : Ideal .f32)) + max (fa ((Rect.unit (s := S10x512) (k0_off308 k) S1x16.size (k0_off308_inb k)).emb (colIdx (l (0 : Fin 1)))) : Ideal .f32) (Scalar.ofBits .f32 0x00000000#32 : Ideal .f32) * (v67 l : Ideal .f32)) + max (fa ((Rect.unit (s := S10x512) (k0_off309 k) S1x16.size (k0_off309_inb k)).emb (colIdx (l (0 : Fin 1)))) : Ideal .f32) (Scalar.ofBits .f32 0x00000000#32 : Ideal .f32) * (v71 l : Ideal .f32)) + max (fa ((Rect.unit (s := S10x512) (k0_off310 k) S1x16.size (k0_off310_inb k)).emb (colIdx (l (0 : Fin 1)))) : Ideal .f32) (Scalar.ofBits .f32 0x00000000#32 : Ideal .f32) * (v75 l : Ideal .f32)) + max (fa ((Rect.unit (s := S10x512) (k0_off311 k) S1x16.size (k0_off311_inb k)).emb (colIdx (l (0 : Fin 1)))) : Ideal .f32) (Scalar.ofBits .f32 0x00000000#32 : Ideal .f32) * (v79 l : Ideal .f32)) + max (fa ((Rect.unit (s := S10x512) (k0_off312 k) S1x16.size (k0_off312_inb k)).emb (colIdx (l (0 : Fin 1)))) : Ideal .f32) (Scalar.ofBits .f32 0x00000000#32 : Ideal .f32) * (v83 l : Ideal .f32)) + max (fa ((Rect.unit (s := S10x512) (k0_off313 k) S1x16.size (k0_off313_inb k)).emb (colIdx (l (0 : Fin 1)))) : Ideal .f32) (Scalar.ofBits .f32 0x00000000#32 : Ideal .f32) * (v87 l : Ideal .f32)) := by
  rw [pay13_apply]
  rw [ld_lane (k0_off304_inb k) fa l, ld_lane (k0_off305_inb k) fa l, ld_lane (k0_off306_inb k) fa l, ld_lane (k0_off307_inb k) fa l, ld_lane (k0_off308_inb k) fa l, ld_lane (k0_off309_inb k) fa l, ld_lane (k0_off310_inb k) fa l, ld_lane (k0_off311_inb k) fa l, ld_lane (k0_off312_inb k) fa l, ld_lane (k0_off313_inb k) fa l]

end Pure

end Cert.Proof.KI

end
-- ==== Proof.KValEnds.lean ====
/-
  The two ends of the tile's computation against the specification, at the exact instance.

  After the bias-initialisation loop, if every bias vector is at every lane the first layer's bias of its hidden unit,
  the accumulator is the accumulator "before chunk 0": the bias everywhere. After the output loop, if the accumulator
  holds the first layer's pre-activations of all 512 samples and the second-layer vectors are at every lane the weights
  `W2[h, 0]` and the bias `b2[0]`, every output entry is the score of its sample: the kernel adds the bias first and
  then the ten products in order, which is the specification's sum regrouped.
-/
import proofs.«214512_g89103391522852_cont_sun_m_1157_25_alg».proof.Proof.KValSpec
import proofs.«214512_g89103391522852_cont_sun_m_1157_25_alg».proof.Proof.KValInitPure
import proofs.«214512_g89103391522852_cont_sun_m_1157_25_alg».proof.Proof.KValOutIdeal
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Spec

open Idealize.ShloMosaic.ValueIdx
open scoped BigOperators

variable (m : (ℓ : Loc nD τ sig) → Buf (Elt Ideal) ℓ) (d : Dev nD) (L : grid0.Coords)

/-- After the bias-initialisation loop every accumulator entry is its hidden unit's bias. -/
theorem accOK_init (v7 v11 v15 v19 v23 v27 v31 v35 v39 v43 : Vec Ideal S16 .f32) (f0 : S10x512.Idx → Elt Ideal .f32)
    (hb : ∀ (h : Fin 10) (l : S16.Idx), biasRow (F := Ideal) v7 v11 v15 v19 v23 v27 v31 v35 v39 v43 h l = m (tcLoc d main_arg5) (ix1 h)) :
    AccOK m d L 0 (acc1 (F := Ideal) v7 v11 v15 v19 v23 v27 v31 v35 v39 v43 f0 k0_t1_loop.trips) := by
  intro h j
  rw [if_neg (by omega), acc1_final_lane]
  exact hb h _

/-- Ten terms added one after the other onto `a` are their sum plus `a`. -/
theorem chain10 (a : EReal) (t : Fin 10 → EReal) :
    a + t 0 + t 1 + t 2 + t 3 + t 4 + t 5 + t 6 + t 7 + t 8 + t 9 = (∑ h : Fin 10, t h) + a := by
  have e : (∑ h : Fin 10, t h) = t 0 + (t 1 + (t 2 + (t 3 + (t 4 + (t 5 + (t 6 + (t 7 + (t 8 + (t 9 + 0))))))))) := by
    simp only [Fin.sum_univ_succ, Fin.sum_univ_zero]; rfl
  rw [e, add_zero]
  ac_rfl

/-- The accumulator's element under column `c` of the one-row rectangle at row `h`, column `16·K`, is entry `(h, 16·K + c)`. -/
theorem emb_eq_ix2 {off : Fin 2 → ℕ} (inb : ∀ a, off a + S1x16.size a ≤ S10x512.size a) (h : Fin 10) (j : Fin 512) (K : ℕ) (c : Fin 16)
    (e : off = ![h.val, 16 * K]) (hj : j.val = 16 * K + c.val) :
    (Rect.unit (s := S10x512) off S1x16.size inb).emb (colIdx c) = ix2 h j := by
  have E := emb_row inb h.val (16 * K) e (colIdx c)
  funext a
  refine Fin.ext ?_
  revert a
  refine Fin.forall_fin_two.mpr ⟨?_, ?_⟩
  · rw [E.1]
  · rw [E.2]; show 16 * K + c.val = j.val; omega

/-- The bit pattern zero is the number zero at the exact instance. -/
theorem ofBits_zero_ideal : (Scalar.ofBits .f32 0x00000000#32 : Ideal .f32) = 0 := by
  show Ideal.ofBits .f32 0x00000000#32 = 0
  simp [Ideal.ofBits, Ideal.ieee]

/-- After the output loop every output entry is the score of its sample. -/
theorem outOK_final (v51 v55 v59 v63 v67 v71 v75 v79 v83 v87 v91 : Vec Ideal S16 .f32) (fa : S10x512.Idx → Elt Ideal .f32) (f0 : S512.Idx → Elt Ideal .f32)
    (hfa : AccOK m d L 4 fa)
    (hw : ∀ (h : Fin 10) (l : S16.Idx), (![v51, v55, v59, v63, v67, v71, v75, v79, v83, v87] : Fin 10 → Vec Ideal S16 .f32) h l = m (tcLoc d main_arg6) (ix2 h (0 : Fin 1)))
    (hb2 : ∀ l : S16.Idx, v91 l = m (tcLoc d main_arg7) (ix1 (0 : Fin 1))) :
    OutOK m d L (out13 (F := Ideal) v51 v55 v59 v63 v67 v71 v75 v79 v83 v87 v91 fa f0 k0_t13_loop.trips) := by
  intro j
  have hj : j.val < 512 := j.isLt
  rw [out13_final]
  have hK : (ix1 j : S512.Idx) (0 : Fin 1) = j := rfl
  -- the trip and the lane of entry j
  generalize hk : (⟨((ix1 j : S512.Idx) (0 : Fin 1)).val / 16, _⟩ : Fin k0_t13_loop.trips) = k
  generalize hl : (ix1 (⟨((ix1 j : S512.Idx) (0 : Fin 1)).val % 16, _⟩ : Fin 16) : S16.Idx) = l
  have hkv : k.val = j.val / 16 := by rw [← hk]
  have hlv : (l (0 : Fin 1)).val = j.val % 16 := by rw [← hl]
  have hacc : ∀ (h : Fin 10) (off : Fin 2 → ℕ) (inb : ∀ a, off a + S1x16.size a ≤ S10x512.size a), off = ![h.val, 16 * k.val] →
      fa ((Rect.unit (s := S10x512) off S1x16.size inb).emb (colIdx (l (0 : Fin 1)))) = hidPre m d (smp L j) h := by
    intro h off inb e
    rw [emb_eq_ix2 inb h j k.val (l (0 : Fin 1)) e (by rw [hkv, hlv]; omega), hfa h j, if_pos (by omega)]
  have key := pay13_entries v51 v55 v59 v63 v67 v71 v75 v79 v83 v87 v91 fa k l
  rw [hacc ⟨0, by decide⟩ _ (k0_off304_inb k) (k0_off304_eq k), hacc ⟨1, by decide⟩ _ (k0_off305_inb k) (k0_off305_eq k), hacc ⟨2, by decide⟩ _ (k0_off306_inb k) (k0_off306_eq k), hacc ⟨3, by decide⟩ _ (k0_off307_inb k) (k0_off307_eq k), hacc ⟨4, by decide⟩ _ (k0_off308_inb k) (k0_off308_eq k), hacc ⟨5, by decide⟩ _ (k0_off309_inb k) (k0_off309_eq k), hacc ⟨6, by decide⟩ _ (k0_off310_inb k) (k0_off310_eq k), hacc ⟨7, by decide⟩ _ (k0_off311_inb k) (k0_off311_eq k), hacc ⟨8, by decide⟩ _ (k0_off312_inb k) (k0_off312_eq k), hacc ⟨9, by decide⟩ _ (k0_off313_inb k) (k0_off313_eq k)] at key
  have hz : (FloatOps.ofBits FTy.f32 0#32 : Ideal .f32) = 0 := ofBits_zero_ideal
  have hw0 : v51 l = m (tcLoc d main_arg6) (ix2 (0 : Fin 10) (0 : Fin 1)) := hw 0 l
  have hw1 : v55 l = m (tcLoc d main_arg6) (ix2 (1 : Fin 10) (0 : Fin 1)) := hw 1 l
  have hw2 : v59 l = m (tcLoc d main_arg6) (ix2 (2 : Fin 10) (0 : Fin 1)) := hw 2 l
  have hw3 : v63 l = m (tcLoc d main_arg6) (ix2 (3 : Fin 10) (0 : Fin 1)) := hw 3 l
  have hw4 : v67 l = m (tcLoc d main_arg6) (ix2 (4 : Fin 10) (0 : Fin 1)) := hw 4 l
  have hw5 : v71 l = m (tcLoc d main_arg6) (ix2 (5 : Fin 10) (0 : Fin 1)) := hw 5 l
  have hw6 : v75 l = m (tcLoc d main_arg6) (ix2 (6 : Fin 10) (0 : Fin 1)) := hw 6 l
  have hw7 : v79 l = m (tcLoc d main_arg6) (ix2 (7 : Fin 10) (0 : Fin 1)) := hw 7 l
  have hw8 : v83 l = m (tcLoc d main_arg6) (ix2 (8 : Fin 10) (0 : Fin 1)) := hw 8 l
  have hw9 : v87 l = m (tcLoc d main_arg6) (ix2 (9 : Fin 10) (0 : Fin 1)) := hw 9 l
  rw [hz, hb2 l, hw0, hw1, hw2, hw3, hw4, hw5, hw6, hw7, hw8, hw9] at key
  refine key.trans ?_
  refine Eq.trans ?_ (chain10 (m (tcLoc d main_arg7) (ix1 (0 : Fin 1))) (fun h => max (hidPre m d (smp L j) h) 0 * m (tcLoc d main_arg6) (ix2 h (0 : Fin 1))))
  rfl

end Spec

end Cert.Proof.KI

end
-- ==== Proof.KValSplat.lean ====
/-
  The lanes of a constant splat.

  The kernel reads a single parameter as a sixteen-lane vector by a gather of the parameter scratch at an index vector
  all of whose lanes are one constant `n`: every lane of the result is entry `n` of the parameters. For the ten bias
  splats the constants are `1280 … 1289`, where the packed parameters hold the first layer's bias.
-/
import proofs.«214512_g89103391522852_cont_sun_m_1157_25_alg».proof.Proof.KValSpec
import proofs.«214512_g89103391522852_cont_sun_m_1157_25_alg».proof.Proof.KParV
import proofs.«214512_g89103391522852_cont_sun_m_1157_25_alg».proof.Proof.KValEnds
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Splat

open Idealize.ShloMosaic.ValueIdx

/-- A gather of the parameter scratch, held whole at `fp`, reads at lane `l` the entry the index vector names there. -/
theorem splat_lane (fp : S1312.Idx → Elt F .f32) (idx : IVec S16 32)
    (h : ∀ a x, ((![idx] : Fin 1 → IVec S16 32) a x).toNat < S1312.size a) (l : S16.Idx) :
    loadIdx (View.readAt (Elt F) (parS).view (LoadRect.whole S1312) fp) ![idx] h l = fp (idxAt ![idx] h l) := by
  unfold loadIdx
  exact congrFun (Memref.readAt_whole (Elt F) cc0_scratch4 fp) (idxAt ![idx] h l)

/-- The entry a one-vector gather names at lane `l`. -/
theorem splat_idx (idx : IVec S16 32) (h : ∀ a x, ((![idx] : Fin 1 → IVec S16 32) a x).toNat < S1312.size a) (l : S16.Idx) :
    ((idxAt (s := S1312) ![idx] h l) (0 : Fin 1)).val = (idx l).toNat := rfl

/-- If every lane of the index vector is the constant `n`, every lane of the gather is entry `n` of the parameters. -/
theorem splat_lane_const (fp : S1312.Idx → Elt F .f32) (idx : IVec S16 32)
    (h : ∀ a x, ((![idx] : Fin 1 → IVec S16 32) a x).toNat < S1312.size a) (n : ℕ) (hn : n < 1312)
    (hidx : ∀ l, (idx l).toNat = n) (l : S16.Idx) :
    loadIdx (View.readAt (Elt F) (parS).view (LoadRect.whole S1312) fp) ![idx] h l = fp (ix1 ⟨n, hn⟩) := by
  rw [splat_lane]
  refine congrArg fp (funext fun a => Fin.ext ?_)
  revert a
  refine Fin.forall_fin_one.mpr ?_
  exact hidx l

/-- The index vector the kernel builds for a constant: every lane is the constant. -/
theorem splatIdx_lane (n : BitVec 32) (l : S16.Idx) : ((muli (broadcast S16 1#32) (broadcast S16 n) : IVec S16 32) l).toNat = n.toNat := by
  show ((1#32 : BitVec 32) * n).toNat = n.toNat
  rw [BitVec.one_mul]

theorem biasIdx0_lane : ∀ l : S16.Idx, (k0_pay248 l).toNat = 1280 := by decide +kernel
theorem biasIdx1_lane : ∀ l : S16.Idx, (k0_pay249 l).toNat = 1281 := by decide +kernel
theorem biasIdx2_lane : ∀ l : S16.Idx, (k0_pay250 l).toNat = 1282 := by decide +kernel
theorem biasIdx3_lane : ∀ l : S16.Idx, (k0_pay251 l).toNat = 1283 := by decide +kernel
theorem biasIdx4_lane : ∀ l : S16.Idx, (k0_pay252 l).toNat = 1284 := by decide +kernel
theorem biasIdx5_lane : ∀ l : S16.Idx, ((k0_pay254 k0_pay253 1285#32) l).toNat = 1285 := by decide +kernel
theorem biasIdx6_lane : ∀ l : S16.Idx, (k0_pay255 l).toNat = 1286 := by decide +kernel
theorem biasIdx7_lane : ∀ l : S16.Idx, (k0_pay256 l).toNat = 1287 := by decide +kernel
theorem biasIdx8_lane : ∀ l : S16.Idx, (k0_pay257 l).toNat = 1288 := by decide +kernel
theorem biasIdx9_lane : ∀ l : S16.Idx, (k0_pay258 l).toNat = 1289 := by decide +kernel

variable (m : (ℓ : Loc nD τ sig) → Buf (Elt Ideal) ℓ) (d : Dev nD)

/-- A bias splat at the packed parameters: every lane is the first layer's bias of its hidden unit. -/
theorem bias_splat (fp : S1312.Idx → Elt Ideal .f32) (hfp : ParOK m d fp) (idx : IVec S16 32)
    (hI : ∀ a x, ((![idx] : Fin 1 → IVec S16 32) a x).toNat < S1312.size a) (h : Fin 10)
    (hidx : ∀ l, (idx l).toNat = 1280 + h.val) (l : S16.Idx) :
    loadIdx (View.readAt (Elt Ideal) (parS).view (LoadRect.whole S1312) fp) ![idx] hI l = m (tcLoc d main_arg5) (ix1 h) := by
  rw [splat_lane, hfp]
  exact parV_b1 m d h _ (hidx l)

/-- A second-layer weight splat: every lane is `W2[h, 0]`. -/
theorem w2_splat (fp : S1312.Idx → Elt Ideal .f32) (hfp : ParOK m d fp) (idx : IVec S16 32)
    (hI : ∀ a x, ((![idx] : Fin 1 → IVec S16 32) a x).toNat < S1312.size a) (h : Fin 10)
    (hidx : ∀ l, (idx l).toNat = 1290 + h.val) (l : S16.Idx) :
    loadIdx (View.readAt (Elt Ideal) (parS).view (LoadRect.whole S1312) fp) ![idx] hI l = m (tcLoc d main_arg6) (ix2 h (0 : Fin 1)) := by
  rw [splat_lane, hfp]
  exact parV_W2 m d h _ (hidx l)

/-- The second-layer bias splat: every lane is `b2[0]`. -/
theorem b2_splat (fp : S1312.Idx → Elt Ideal .f32) (hfp : ParOK m d fp) (idx : IVec S16 32)
    (hI : ∀ a x, ((![idx] : Fin 1 → IVec S16 32) a x).toNat < S1312.size a)
    (hidx : ∀ l, (idx l).toNat = 1300) (l : S16.Idx) :
    loadIdx (View.readAt (Elt Ideal) (parS).view (LoadRect.whole S1312) fp) ![idx] hI l = m (tcLoc d main_arg7) (ix1 (0 : Fin 1)) := by
  rw [splat_lane, hfp]
  exact parV_b2 m d _ (hidx l)

/-- After the bias-initialisation loop, with the ten bias vectors the kernel's own splats of the packed parameters: the
    accumulator is the bias everywhere. -/
theorem accOK_init_prog (L : grid0.Coords) (fp : S1312.Idx → Elt Ideal .f32) (hfp : ParOK m d fp) (f0 : S10x512.Idx → Elt Ideal .f32)
    (hI0 : (∀ a x, ((![k0_pay248] : Fin 1 → IVec S16 32) a x).toNat < S1312.size a))
    (hI1 : (∀ a x, ((![k0_pay249] : Fin 1 → IVec S16 32) a x).toNat < S1312.size a))
    (hI2 : (∀ a x, ((![k0_pay250] : Fin 1 → IVec S16 32) a x).toNat < S1312.size a))
    (hI3 : (∀ a x, ((![k0_pay251] : Fin 1 → IVec S16 32) a x).toNat < S1312.size a))
    (hI4 : (∀ a x, ((![k0_pay252] : Fin 1 → IVec S16 32) a x).toNat < S1312.size a))
    (hI5 : (∀ a x, ((![(k0_pay254 k0_pay253 1285#32)] : Fin 1 → IVec S16 32) a x).toNat < S1312.size a))
    (hI6 : (∀ a x, ((![k0_pay255] : Fin 1 → IVec S16 32) a x).toNat < S1312.size a))
    (hI7 : (∀ a x, ((![k0_pay256] : Fin 1 → IVec S16 32) a x).toNat < S1312.size a))
    (hI8 : (∀ a x, ((![k0_pay257] : Fin 1 → IVec S16 32) a x).toNat < S1312.size a))
    (hI9 : (∀ a x, ((![k0_pay258] : Fin 1 → IVec S16 32) a x).toNat < S1312.size a)) :
    AccOK m d L 0 (acc1 (F := Ideal)
      (loadIdx (View.readAt (Elt Ideal) (parS).view (LoadRect.whole S1312) fp) ![k0_pay248] hI0)
      (loadIdx (View.readAt (Elt Ideal) (parS).view (LoadRect.whole S1312) fp) ![k0_pay249] hI1)
      (loadIdx (View.readAt (Elt Ideal) (parS).view (LoadRect.whole S1312) fp) ![k0_pay250] hI2)
      (loadIdx (View.readAt (Elt Ideal) (parS).view (LoadRect.whole S1312) fp) ![k0_pay251] hI3)
      (loadIdx (View.readAt (Elt Ideal) (parS).view (LoadRect.whole S1312) fp) ![k0_pay252] hI4)
      (loadIdx (View.readAt (Elt Ideal) (parS).view (LoadRect.whole S1312) fp) ![(k0_pay254 k0_pay253 1285#32)] hI5)
      (loadIdx (View.readAt (Elt Ideal) (parS).view (LoadRect.whole S1312) fp) ![k0_pay255] hI6)
      (loadIdx (View.readAt (Elt Ideal) (parS).view (LoadRect.whole S1312) fp) ![k0_pay256] hI7)
      (loadIdx (View.readAt (Elt Ideal) (parS).view (LoadRect.whole S1312) fp) ![k0_pay257] hI8)
      (loadIdx (View.readAt (Elt Ideal) (parS).view (LoadRect.whole S1312) fp) ![k0_pay258] hI9)
      f0 k0_t1_loop.trips) := by
  refine accOK_init m d L _ _ _ _ _ _ _ _ _ _ f0 ?_
  intro h l
  fin_cases h
  · exact bias_splat m d fp hfp _ hI0 0 biasIdx0_lane l
  · exact bias_splat m d fp hfp _ hI1 1 biasIdx1_lane l
  · exact bias_splat m d fp hfp _ hI2 2 biasIdx2_lane l
  · exact bias_splat m d fp hfp _ hI3 3 biasIdx3_lane l
  · exact bias_splat m d fp hfp _ hI4 4 biasIdx4_lane l
  · exact bias_splat m d fp hfp _ hI5 5 biasIdx5_lane l
  · exact bias_splat m d fp hfp _ hI6 6 biasIdx6_lane l
  · exact bias_splat m d fp hfp _ hI7 7 biasIdx7_lane l
  · exact bias_splat m d fp hfp _ hI8 8 biasIdx8_lane l
  · exact bias_splat m d fp hfp _ hI9 9 biasIdx9_lane l

end Splat

end Cert.Proof.KI

end
-- ==== Proof.KValSplatOut.lean ====
/-
  The second-layer splats of the kernel against the packed parameters, and the output loop's end with them.

  The ten weight splats read entries `1290 … 1299` of the parameters and the bias splat entry `1300`; with them the output
  loop ends with every output entry the score of its sample.
-/
import proofs.«214512_g89103391522852_cont_sun_m_1157_25_alg».proof.Proof.KValSplat
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Splat

open Idealize.ShloMosaic.ValueIdx

theorem w2Idx0_lane : ∀ l : S16.Idx, ((k0_pay271 : IVec S16 32) l).toNat = 1290 := by decide +kernel
theorem w2Idx1_lane : ∀ l : S16.Idx, ((k0_pay272 : IVec S16 32) l).toNat = 1291 := by decide +kernel
theorem w2Idx2_lane : ∀ l : S16.Idx, ((k0_pay273 : IVec S16 32) l).toNat = 1292 := by decide +kernel
theorem w2Idx3_lane : ∀ l : S16.Idx, ((k0_pay274 : IVec S16 32) l).toNat = 1293 := by decide +kernel
theorem w2Idx4_lane : ∀ l : S16.Idx, ((k0_pay275 : IVec S16 32) l).toNat = 1294 := by decide +kernel
theorem w2Idx5_lane : ∀ l : S16.Idx, ((k0_pay276 : IVec S16 32) l).toNat = 1295 := by decide +kernel
theorem w2Idx6_lane : ∀ l : S16.Idx, ((k0_pay277 : IVec S16 32) l).toNat = 1296 := by decide +kernel
theorem w2Idx7_lane : ∀ l : S16.Idx, ((k0_pay278 : IVec S16 32) l).toNat = 1297 := by decide +kernel
theorem w2Idx8_lane : ∀ l : S16.Idx, (((muli k0_pay279 k0_pay280) : IVec S16 32) l).toNat = 1298 := by decide +kernel
theorem w2Idx9_lane : ∀ l : S16.Idx, ((k0_pay1 : IVec S16 32) l).toNat = 1299 := by decide +kernel
theorem b2Idx_lane : ∀ l : S16.Idx, ((k0_pay2 : IVec S16 32) l).toNat = 1300 := by decide +kernel

variable (m : (ℓ : Loc nD τ sig) → Buf (Elt Ideal) ℓ) (d : Dev nD)

/-- After the output loop, with the second-layer vectors the kernel's own splats of the packed parameters: every output
    entry is the score of its sample. -/
theorem outOK_final_prog (L : grid0.Coords) (fa : S10x512.Idx → Elt Ideal .f32) (hfa : AccOK m d L 4 fa)
    (fp : S1312.Idx → Elt Ideal .f32) (hfp : ParOK m d fp) (f0 : S512.Idx → Elt Ideal .f32)
    (hJ0 : (∀ a x, ((![k0_pay271] : Fin 1 → IVec S16 32) a x).toNat < S1312.size a))
    (hJ1 : (∀ a x, ((![k0_pay272] : Fin 1 → IVec S16 32) a x).toNat < S1312.size a))
    (hJ2 : (∀ a x, ((![k0_pay273] : Fin 1 → IVec S16 32) a x).toNat < S1312.size a))
    (hJ3 : (∀ a x, ((![k0_pay274] : Fin 1 → IVec S16 32) a x).toNat < S1312.size a))
    (hJ4 : (∀ a x, ((![k0_pay275] : Fin 1 → IVec S16 32) a x).toNat < S1312.size a))
    (hJ5 : (∀ a x, ((![k0_pay276] : Fin 1 → IVec S16 32) a x).toNat < S1312.size a))
    (hJ6 : (∀ a x, ((![k0_pay277] : Fin 1 → IVec S16 32) a x).toNat < S1312.size a))
    (hJ7 : (∀ a x, ((![k0_pay278] : Fin 1 → IVec S16 32) a x).toNat < S1312.size a))
    (hJ8 : (∀ a x, ((![(muli k0_pay279 k0_pay280)] : Fin 1 → IVec S16 32) a x).toNat < S1312.size a))
    (hJ9 : (∀ a x, ((![k0_pay1] : Fin 1 → IVec S16 32) a x).toNat < S1312.size a))
    (hJ10 : (∀ a x, ((![k0_pay2] : Fin 1 → IVec S16 32) a x).toNat < S1312.size a)) :
    OutOK m d L (out13 (F := Ideal)
      (loadIdx (View.readAt (Elt Ideal) (parS).view (LoadRect.whole S1312) fp) ![k0_pay271] hJ0)
      (loadIdx (View.readAt (Elt Ideal) (parS).view (LoadRect.whole S1312) fp) ![k0_pay272] hJ1)
      (loadIdx (View.readAt (Elt Ideal) (parS).view (LoadRect.whole S1312) fp) ![k0_pay273] hJ2)
      (loadIdx (View.readAt (Elt Ideal) (parS).view (LoadRect.whole S1312) fp) ![k0_pay274] hJ3)
      (loadIdx (View.readAt (Elt Ideal) (parS).view (LoadRect.whole S1312) fp) ![k0_pay275] hJ4)
      (loadIdx (View.readAt (Elt Ideal) (parS).view (LoadRect.whole S1312) fp) ![k0_pay276] hJ5)
      (loadIdx (View.readAt (Elt Ideal) (parS).view (LoadRect.whole S1312) fp) ![k0_pay277] hJ6)
      (loadIdx (View.readAt (Elt Ideal) (parS).view (LoadRect.whole S1312) fp) ![k0_pay278] hJ7)
      (loadIdx (View.readAt (Elt Ideal) (parS).view (LoadRect.whole S1312) fp) ![(muli k0_pay279 k0_pay280)] hJ8)
      (loadIdx (View.readAt (Elt Ideal) (parS).view (LoadRect.whole S1312) fp) ![k0_pay1] hJ9)
      (loadIdx (View.readAt (Elt Ideal) (parS).view (LoadRect.whole S1312) fp) ![k0_pay2] hJ10)
      fa f0 k0_t13_loop.trips) := by
  refine outOK_final m d L _ _ _ _ _ _ _ _ _ _ _ fa f0 hfa ?_ ?_
  · intro h l
    fin_cases h
    · exact w2_splat m d fp hfp _ hJ0 0 w2Idx0_lane l
    · exact w2_splat m d fp hfp _ hJ1 1 w2Idx1_lane l
    · exact w2_splat m d fp hfp _ hJ2 2 w2Idx2_lane l
    · exact w2_splat m d fp hfp _ hJ3 3 w2Idx3_lane l
    · exact w2_splat m d fp hfp _ hJ4 4 w2Idx4_lane l
    · exact w2_splat m d fp hfp _ hJ5 5 w2Idx5_lane l
    · exact w2_splat m d fp hfp _ hJ6 6 w2Idx6_lane l
    · exact w2_splat m d fp hfp _ hJ7 7 w2Idx7_lane l
    · exact w2_splat m d fp hfp _ hJ8 8 w2Idx8_lane l
    · exact w2_splat m d fp hfp _ hJ9 9 w2Idx9_lane l
  · intro l
    exact b2_splat m d fp hfp _ hJ10 b2Idx_lane l

end Splat

end Cert.Proof.KI

end
-- ==== Proof.KValGlue.lean ====
/-
  The copy of the packed parameters into the parameter scratch is a whole unmasked write of a whole read: the scratch
  then holds the packed parameters.
-/
import proofs.«214512_g89103391522852_cont_sun_m_1157_25_alg».proof.Proof.KValSplat
import proofs.«214512_g89103391522852_cont_sun_m_1157_25_alg».proof.Proof.KValEnds
import proofs.«214512_g89103391522852_cont_sun_m_1157_25_alg».proof.Proof.KPayV

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.ShloMosaic.ValueIdx

local notation "parW" => (Memref.whole Cert.KernelIdeal.main_v3_scv : Memref Cert.KernelIdeal.sig Kind.scVector Space.hbm Cert.KernelIdeal.S1312 EltTy.f32)
local notation "parS" => (Memref.whole Cert.KernelIdeal.cc0_scratch4 : Memref Cert.KernelIdeal.sig Kind.scVector Space.vmem Cert.KernelIdeal.S1312 EltTy.f32)

variable (m : (ℓ : Loc nD τ sig) → Buf (Elt Ideal) ℓ) (d : Dev nD) (L : grid0.Coords)

/-- The parameter scratch after the copy of the packed parameters into it holds the packed parameters. -/
theorem parS_ok (f4 : (parS).view.ty.Contents (Elt Ideal)) :
    ParOK m d (View.write (Elt Ideal) (parS).view f4 (ReadAs.same.apply (View.read (Elt Ideal) (parW).view (parV m d))) Finset.univ) := by
  intro j
  have e : View.write (Elt Ideal) (parS).view f4 (ReadAs.same.apply (View.read (Elt Ideal) (parW).view (parV m d))) Finset.univ = parV m d :=
    (View.write_whole_univ Cert.KernelIdeal.cc0_scratch4 f4 _).trans rfl
  exact congrFun e j

end Cert.Proof.KI

end
-- ==== Proof.KValSlice.lean ====
/-
  The tile's final copy against the specification.

  The tile copies its output scratch onto its 512 entries of the result. Once the output scratch holds the scores of the
  tile's 512 samples, those result entries hold the scores the specification assigns to them: entry `j` of the slice is
  result entry `1024·s + 512·c + j`, the batch position of the tile's sample `j`. A points-to assertion over a set of
  elements depends on the contents only there.
-/
import proofs.«214512_g89103391522852_cont_sun_m_1157_25_alg».proof.Proof.KValSpec
import proofs.«214512_g89103391522852_cont_sun_m_1157_25_alg».proof.Proof.KPayV
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section Slice

open Idealize.ShloMosaic.ValueIdx

local notation "𝕄I" => MT nD τ sig (HIx 1) (Elt Ideal) ℕ UU ℕ

variable (m : (ℓ : Loc nD τ sig) → Buf (Elt Ideal) ℓ) (d : Dev nD) (L : grid0.Coords)

/-- Entry `j` of the tile's slice of the result is result entry `1024·s + 512·c + j`. -/
theorem outSl_emb (j : S512.Idx) : (((outSl L).view.emb j) (0 : Fin 1)).val = 1024 * (L 1).val + 512 * (L 0).val + (j (0 : Fin 1)).val := by
  show ((Rect.unit (s := S16384) (k0_off315 L) S512.size (k0_off315_inb L)).emb j (0 : Fin 1)).val = _
  rw [Rect.emb_apply]
  simp only [Rect.off_unit, Rect.stride_unit, k0_off315_eq]
  show 1024 * (L 1).val + 512 * (L 0).val + 1 * (j (0 : Fin 1)).val = _
  omega

theorem slice_flatG (OUTC : S512.Idx → Elt Ideal .f32) (hout : OutOK m d L OUTC) (fo : Buf (Elt Ideal) ((outSl L).view.loc (thr d L))) :
    ((outSl L).view.loc (thr d L) ↦[(outSl L).view.set]{fullShare}
        (outSl L).view.writes (Elt Ideal) fo [⟨Rect.whole S512, ReadAs.same.apply (View.read (Elt Ideal) (outS).view OUTC)⟩] : sProp 𝕄I)
      ⊢ (oLoc d ↦[(outSl L).view.set]{fullShare} flatG m d) := by
  refine Entails.of_eq (pointsTo_congr ?_)
  intro i hi
  obtain ⟨j, -, rfl⟩ := Finset.mem_map.mp hi
  have hr := View.read_writes_cons_emb (outSl L).view fo (Rect.whole S512) (ReadAs.same.apply (View.read (Elt Ideal) (outS).view OUTC)) [] j
  rw [Rect.emb_whole_apply] at hr
  have hw : (outSl L).view.writes (Elt Ideal) fo [⟨Rect.whole S512, ReadAs.same.apply (View.read (Elt Ideal) (outS).view OUTC)⟩] ((outSl L).view.emb j) = OUTC j := hr
  refine hw.trans ?_
  have hj : OUTC j = OUTC (ix1 (j (0 : Fin 1))) := congrArg OUTC (eq_ix1 j)
  refine hj.trans ((hout (j (0 : Fin 1))).trans ?_)
  have he : smp L (j (0 : Fin 1)) = ((outSl L).view.emb j) (0 : Fin 1) := Fin.ext (by rw [outSl_emb]; rfl)
  rw [he]
  rfl

end Slice

end Cert.Proof.KI

end
-- ==== Proof.KBodyV.lean ====
/-
  The tile's task once more, at the idealized program, with contents: what each landed row reads, what the accumulator
  holds before each chunk, what the output scratch holds at the end, and so what the tile leaves in its 512 entries of
  the result.
-/
import proofs.«214512_g89103391522852_cont_sun_m_1157_25_alg».proof.Proof.KOwn
import proofs.«214512_g89103391522852_cont_sun_m_1157_25_alg».proof.Proof.KBodyPre
import proofs.«214512_g89103391522852_cont_sun_m_1157_25_alg».proof.Proof.KVals
import proofs.«214512_g89103391522852_cont_sun_m_1157_25_alg».proof.Proof.KHalf
import proofs.«214512_g89103391522852_cont_sun_m_1157_25_alg».proof.Proof.KHalfV
import proofs.«214512_g89103391522852_cont_sun_m_1157_25_alg».proof.Proof.KDrainG
import proofs.«214512_g89103391522852_cont_sun_m_1157_25_alg».proof.Proof.KIssueVT2
import proofs.«214512_g89103391522852_cont_sun_m_1157_25_alg».proof.Proof.KIssueVT3
import proofs.«214512_g89103391522852_cont_sun_m_1157_25_alg».proof.Proof.KIssueVT11
import proofs.«214512_g89103391522852_cont_sun_m_1157_25_alg».proof.Proof.KIssueVT12
import proofs.«214512_g89103391522852_cont_sun_m_1157_25_alg».proof.Proof.KValStep
import proofs.«214512_g89103391522852_cont_sun_m_1157_25_alg».proof.Proof.KValSplatOut
import proofs.«214512_g89103391522852_cont_sun_m_1157_25_alg».proof.Proof.KValGlue
import proofs.«214512_g89103391522852_cont_sun_m_1157_25_alg».proof.Proof.KValSlice
import proofs.«214512_g89103391522852_cont_sun_m_1157_25_alg».proof.Proof.KPayV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

local notation "𝕄" => MT nD τ sig (HIx 1) (Elt Ideal) ℕ UU ℕ

local notation "userW" => (Memref.whole Cert.KernelIdeal.main_arg0_scv : Memref Cert.KernelIdeal.sig Kind.scVector Space.hbm Cert.KernelIdeal.S16384 EltTy.i32)
local notation "itemW" => (Memref.whole Cert.KernelIdeal.main_arg1_scv : Memref Cert.KernelIdeal.sig Kind.scVector Space.hbm Cert.KernelIdeal.S16384 EltTy.i32)
local notation "uembW" => (Memref.whole Cert.KernelIdeal.main_arg2_scv : Memref Cert.KernelIdeal.sig Kind.scVector Space.hbm Cert.KernelIdeal.S1000000x64 EltTy.f32)
local notation "iembW" => (Memref.whole Cert.KernelIdeal.main_arg3_scv : Memref Cert.KernelIdeal.sig Kind.scVector Space.hbm Cert.KernelIdeal.S100000x64 EltTy.f32)
local notation "parW" => (Memref.whole Cert.KernelIdeal.main_v3_scv : Memref Cert.KernelIdeal.sig Kind.scVector Space.hbm Cert.KernelIdeal.S1312 EltTy.f32)
local notation "outW" => (Memref.whole Cert.KernelIdeal.main_v4_scv : Memref Cert.KernelIdeal.sig Kind.scVector Space.hbm Cert.KernelIdeal.S16384 EltTy.f32)
local notation "uidxS" => (Memref.whole Cert.KernelIdeal.cc0_scratch0 : Memref Cert.KernelIdeal.sig Kind.scVector Space.vmem Cert.KernelIdeal.S512 EltTy.i32)
local notation "iidxS" => (Memref.whole Cert.KernelIdeal.cc0_scratch1 : Memref Cert.KernelIdeal.sig Kind.scVector Space.vmem Cert.KernelIdeal.S512 EltTy.i32)
local notation "urowS" => (Memref.whole Cert.KernelIdeal.cc0_scratch2 : Memref Cert.KernelIdeal.sig Kind.scVector Space.vmem Cert.KernelIdeal.S2x128x64 EltTy.f32)
local notation "irowS" => (Memref.whole Cert.KernelIdeal.cc0_scratch3 : Memref Cert.KernelIdeal.sig Kind.scVector Space.vmem Cert.KernelIdeal.S2x128x64 EltTy.f32)
local notation "parS" => (Memref.whole Cert.KernelIdeal.cc0_scratch4 : Memref Cert.KernelIdeal.sig Kind.scVector Space.vmem Cert.KernelIdeal.S1312 EltTy.f32)
local notation "accS" => (Memref.whole Cert.KernelIdeal.cc0_scratch5 : Memref Cert.KernelIdeal.sig Kind.scVector Space.vmem Cert.KernelIdeal.S10x512 EltTy.f32)
local notation "outS" => (Memref.whole Cert.KernelIdeal.cc0_scratch6 : Memref Cert.KernelIdeal.sig Kind.scVector Space.vmem Cert.KernelIdeal.S512 EltTy.f32)

section TileV

variable (m : (ℓ : Loc nD τ sig) → Buf (Elt Ideal) ℓ) (d : Dev nD) (L : grid0.Coords)

/-- The chunk a half holds before chunk `c` is consumed: half 0 holds chunk 0, then chunk 2; half 1 chunk 1, then 3. -/
def ch0 (c : ℕ) : Fin 4 := if c = 0 then 0 else 2
def ch1 (c : ℕ) : Fin 4 := if c ≤ 1 then 1 else 3
theorem ch0_0 : ch0 0 = 0 := rfl
theorem ch0_1 : ch0 1 = 2 := rfl
theorem ch0_2 : ch0 2 = 2 := rfl
theorem ch0_3 : ch0 3 = 2 := rfl
theorem ch0_4 : ch0 4 = 2 := rfl
theorem ch1_0 : ch1 0 = 1 := rfl
theorem ch1_1 : ch1 1 = 1 := rfl
theorem ch1_2 : ch1 2 = 3 := rfl
theorem ch1_3 : ch1 3 = 3 := rfl
theorem ch1_4 : ch1 4 = 3 := rfl

abbrev idleHalfV (b : Fin 2) (su si : SemLoc sig) : sProp 𝕄 :=
  iprop(semVal (thr d L, su) 0 ∗ semVal (thr d L, si) 0 ∗ bigSep Finset.univ (ownU (F := Ideal) d L b) ∗ bigSep Finset.univ (ownI (F := Ideal) d L b))

/-- Before chunk `c` is consumed, with contents: the accumulator holds the pre-activations of the chunks before `c`; a
    half in flight delivers, row by row, the table rows that its chunk's samples name. -/
def chunkAtV (O : CellTallies nD τ sig (HIx 1)) (W : Waits sig (HIx 1)) (q : PosShare TreeShare)
    (f0 : (uidxS).view.ty.Contents (Elt Ideal)) (f1 : (iidxS).view.ty.Contents (Elt Ideal)) (c : ℕ) (_ : Unit) : sProp 𝕄 :=
  iprop(Transfers.MayWaits (thr d L) (none : HIx 1) O
    ∗ (∃ W', ⌜∀ p ∈ W', p ∈ W ∨ p.2 = none⌝ ∗ owes (thr d L) O W')
    ∗ idxU (F := Ideal) d L (m (a0Loc d)) f0 ∗ idxI (F := Ideal) d L (m (a1Loc d)) f1
    ∗ (∃ fp, ((parS).view.loc (thr d L) ↦{fullShare} fp) ∗ ⌜ParOK m d fp⌝)
    ∗ (∃ f, ((accS).view.loc (thr d L) ↦{fullShare} f) ∗ ⌜AccOK m d L c f⌝)
    ∗ (if c ≤ 2 then iprop(batchUV (F := Ideal) d L (m (a0Loc d)) (m (a2Loc d)) 0 (ch0 c) (SemLoc.dma cc0_scratch7.sem) 128 0 ∗ batchIV (F := Ideal) d L (m (a1Loc d)) (m (a3Loc d)) 0 (ch0 c) (SemLoc.dma cc0_scratch9.sem) 128 0) else idleHalfV d L 0 (SemLoc.dma cc0_scratch7.sem) (SemLoc.dma cc0_scratch9.sem))
    ∗ (if c ≤ 3 then iprop(batchUV (F := Ideal) d L (m (a0Loc d)) (m (a2Loc d)) 1 (ch1 c) (SemLoc.dma cc0_scratch8.sem) 128 0 ∗ batchIV (F := Ideal) d L (m (a1Loc d)) (m (a3Loc d)) 1 (ch1 c) (SemLoc.dma cc0_scratch10.sem) 128 0) else idleHalfV d L 1 (SemLoc.dma cc0_scratch8.sem) (SemLoc.dma cc0_scratch10.sem))
    ∗ (if c = 0 then iprop(bigSep (Ring.rangeSet 512 256 384) (fun t => tokU (F := Ideal) d L q (m (a2Loc d)) t.val) ∗ bigSep (Ring.rangeSet 512 256 384) (fun t => tokI (F := Ideal) d L q (m (a3Loc d)) t.val)) else iprop(emp))
    ∗ (if c ≤ 1 then iprop(bigSep (Ring.rangeSet 512 384 512) (fun t => tokU (F := Ideal) d L q (m (a2Loc d)) t.val) ∗ bigSep (Ring.rangeSet 512 384 512) (fun t => tokI (F := Ideal) d L q (m (a3Loc d)) t.val)) else iprop(emp)))

def tilePreV (O : CellTallies nD τ sig (HIx 1)) (W : Waits sig (HIx 1)) (q : PosShare TreeShare) : sProp 𝕄 :=
  iprop(Transfers.MayWaits (thr d L) (none : HIx 1) O
    ∗ ((userW).view.loc (thr d L) ↦{q} m (a0Loc d)) ∗ ((itemW).view.loc (thr d L) ↦{q} m (a1Loc d))
    ∗ ((uembW).view.loc (thr d L) ↦{q} m (a2Loc d)) ∗ ((iembW).view.loc (thr d L) ↦{q} m (a3Loc d)) ∗ ((parW).view.loc (thr d L) ↦{q} parV m d)
    ∗ (∃ fo, (outSl L).view.loc (thr d L) ↦[(outSl L).view.set]{fullShare} fo)
    ∗ tileOwn (F := Ideal) d L ∗ tileRestOwn (F := Ideal) d L ∗ owes (thr d L) O W)

def tilePostV (O : CellTallies nD τ sig (HIx 1)) (W : Waits sig (HIx 1)) : sProp 𝕄 :=
  iprop((oLoc d ↦[(outSl L).view.set]{fullShare} flatG m d)
    ∗ tileOwn (F := Ideal) d L ∗ tileRestOwn (F := Ideal) d L ∗ ∃ W', ⌜∀ p ∈ W', p ∈ W ∨ p.2 = none⌝ ∗ owes (thr d L) O W')

set_option maxHeartbeats 16000000 in
theorem tile_runV (O : CellTallies nD τ sig (HIx 1)) (W : Waits sig (HIx 1)) (q : PosShare TreeShare)
    (hu : ∀ b, (m (a0Loc d) b).toNat < 1000000) (hi : ∀ b, (m (a1Loc d) b).toNat < 100000) :
    tilePreV m d L O W q
      ⊢ wp frame (wpE (defs₀ (F := Ideal)) 𝒱₀ (thr d L) none) Set.univ
          (cc0__fwd L userW (Memref.isWhole_whole _) itemW (Memref.isWhole_whole _) uembW (Memref.isWhole_whole _) iembW (Memref.isWhole_whole _) parW (Memref.isWhole_whole _) outW (Memref.isWhole_whole _)
            uidxS (Memref.isWhole_whole _) iidxS (Memref.isWhole_whole _) urowS (Memref.isWhole_whole _) irowS (Memref.isWhole_whole _) parS (Memref.isWhole_whole _) accS (Memref.isWhole_whole _) outS (Memref.isWhole_whole _)
            cc0_scratch7 cc0_scratch8 cc0_scratch9 cc0_scratch10 cc0_scoped0 cc0_scoped1 cc0_scoped2 cc0_scoped3)
          fun _ => tilePostV m d L O W := by
  have hfu := (show ∀ (fu : S16384.Idx → BitVec 32), (∀ b, (fu b).toNat < 1000000) → ∀ b, (fu b).toNat < 1000000 from fun _ h => h) (m (a0Loc d)) hu
  have hfi := (show ∀ (fi : S16384.Idx → BitVec 32), (∀ b, (fi b).toNat < 100000) → ∀ b, (fi b).toNat < 100000 from fun _ h => h) (m (a1Loc d)) hi
  simp only [cc0__fwd_eq_skeleton]; unfold cc0__fwd_skel
  unfold tilePreV tileOwn
  iintro ⟨Hmw, Hu, Hi, Hue, Hie, Hp, ⟨%fo, Ho⟩, ⟨⟨%f0, H0⟩, ⟨%f1, H1⟩, ⟨%f2, H2⟩, ⟨%f3, H3⟩, ⟨%f4, H4⟩, ⟨%f5, H5⟩, ⟨%f6, H6⟩,
    Hs7, Hs8, Hs9, Hs10, Hc0, Hc1, Hc2, Hc3⟩, Hrest, HO⟩
  ihave HRU := (urowS_to_rows (F := Ideal) d L f2) $$ H2
  icases HRU with ⟨RU0, RU1⟩
  ihave HRI := (irowS_to_rows (F := Ideal) d L f3) $$ H3
  icases HRI with ⟨RI0, RI1⟩
  ihave RU0 := (Entails.of_eq (show bigSep Finset.univ (ownU (F := Ideal) d L 0) = bigSep (Ring.rangeSet 128 0 128) (ownU (F := Ideal) d L 0) by rw [Ring.rangeSet_univ])) $$ RU0
  ihave RU1 := (Entails.of_eq (show bigSep Finset.univ (ownU (F := Ideal) d L 1) = bigSep (Ring.rangeSet 128 0 128) (ownU (F := Ideal) d L 1) by rw [Ring.rangeSet_univ])) $$ RU1
  ihave RI0 := (Entails.of_eq (show bigSep Finset.univ (ownI (F := Ideal) d L 0) = bigSep (Ring.rangeSet 128 0 128) (ownI (F := Ideal) d L 0) by rw [Ring.rangeSet_univ])) $$ RI0
  ihave RI1 := (Entails.of_eq (show bigSep Finset.univ (ownI (F := Ideal) d L 1) = bigSep (Ring.rangeSet 128 0 128) (ownI (F := Ideal) d L 1) by rw [Ring.rangeSet_univ])) $$ RI1
  ihave HtU := (toksU_split (F := Ideal) d L q (m (a2Loc d))) $$ Hue
  icases HtU with ⟨TUa, TUb, TUc, TUd⟩
  ihave HtI := (toksI_split (F := Ideal) d L q (m (a3Loc d))) $$ Hie
  icases HtI with ⟨TIa, TIb, TIc, TId⟩
  imod (Transfers.batch_alloc' (Lvl := ℕ) (countersEmb (U := UU)) (thr d L) (none : HIx 1) 2048 (ownUV (F := Ideal) d L (m (a0Loc d)) (m (a2Loc d)) 0 (0 : Fin 4)) (sm := SemLoc.dma cc0_scratch7.sem) (E := Set.univ)) $$ Hs7 with HB7
  imod (Transfers.batch_alloc' (Lvl := ℕ) (countersEmb (U := UU)) (thr d L) (none : HIx 1) 2048 (ownIV (F := Ideal) d L (m (a1Loc d)) (m (a3Loc d)) 0 (0 : Fin 4)) (sm := SemLoc.dma cc0_scratch9.sem) (E := Set.univ)) $$ Hs9 with HB9
  imod (Transfers.batch_alloc' (Lvl := ℕ) (countersEmb (U := UU)) (thr d L) (none : HIx 1) 2048 (ownUV (F := Ideal) d L (m (a0Loc d)) (m (a2Loc d)) 1 (1 : Fin 4)) (sm := SemLoc.dma cc0_scratch8.sem) (E := Set.univ)) $$ Hs8 with HB8
  imod (Transfers.batch_alloc' (Lvl := ℕ) (countersEmb (U := UU)) (thr d L) (none : HIx 1) 2048 (ownIV (F := Ideal) d L (m (a1Loc d)) (m (a3Loc d)) 1 (1 : Fin 4)) (sm := SemLoc.dma cc0_scratch10.sem) (E := Set.univ)) $$ Hs10 with HB10
  repeat (sl_exec; unfold SparseCore.vectorLoadIdx)
  sl_exec
  have e2 : Scf.trips k0_t2_loop.lb k0_t2_loop.ub k0_t2_loop.st = 8 := by decide
  have e3 : Scf.trips k0_t3_loop.lb k0_t3_loop.ub k0_t3_loop.st = 8 := by decide
  rw [e2]
  try rw [e3]
  iclear RU0 RI0 TUa TIa RU1 RI1 TUb TIb Hu Hi Hp
  sl_for (chunkAtV m d L O W q f0 f1) $$ [Hmw HO H0 H1 H4 H5 HB7 HB9 HB8 HB10 TUc TIc TUd TId]
  case region =>
    intro k acc
    obtain ⟨kv, hkv⟩ := k
    have e4 : Scf.trips k0_t4_loop.lb k0_t4_loop.ub k0_t4_loop.st = 4 := by decide
    match kv, hkv with
    | 0, hkv =>
      show chunkAtV m d L O W q f0 f1 0 () ⊢ wp _ _ _ _ (chunkAtV m d L O W q f0 f1 1)
      unfold chunkAtV
      rw [if_pos (by decide : ((0 : ℕ) ≤ 2)), if_pos (by decide : ((0 : ℕ) ≤ 3)), if_pos (rfl : (0 : ℕ) = 0), if_pos (by decide : ((0 : ℕ) ≤ 1)), if_pos (by decide : ((1 : ℕ) ≤ 2)), if_pos (by decide : ((1 : ℕ) ≤ 3)), if_neg (by decide : ¬ ((1 : ℕ) = 0)), if_pos (by decide : ((1 : ℕ) ≤ 1))]
      try rw [ch0_0]
      try rw [ch1_0]
      try rw [ch0_1]
      try rw [ch1_1]
      iintro ⟨#Hmw, ⟨%W0, %hW0, HO⟩, H0, H1, ⟨%PARC, H4, %hPar⟩, ⟨%f5, H5, %hf5⟩, ⟨HB7, HB9⟩, ⟨HB8, HB10⟩, ⟨TUc, TIc⟩, ⟨TUd, TId⟩⟩
      have k0_h1 : k0_cond1 ⟨0, hkv⟩ = 1#1 := by decide +revert
      have k0_h2 : ¬ k0_cond2 ⟨0, hkv⟩ = 1#1 := by decide +revert
      have k0_h3 : k0_cond3 ⟨0, hkv⟩ = 1#1 := by decide +revert
      have k0_h4 : ¬ k0_cond4 ⟨0, hkv⟩ = 1#1 := by decide +revert
      sl_exec
      sl_for (drainInvG (F := Ideal) d L (ownUV (F := Ideal) d L (m (a0Loc d)) (m (a2Loc d)) 0 (0 : Fin 4)) (ownIV (F := Ideal) d L (m (a1Loc d)) (m (a3Loc d)) 0 (0 : Fin 4)) (SemLoc.dma cc0_scratch7.sem) (SemLoc.dma cc0_scratch9.sem) O W) $$ [HO HB7 HB9]
      case region =>
        intro k acc
        exact t5G_step (F := Ideal) d L _ _ _ _ _ _ _ _ _ _ _ _ O W k acc
      · iapply (drainG_entry (F := Ideal) d L _ _ (SemLoc.dma cc0_scratch7.sem) (SemLoc.dma cc0_scratch9.sem) O W _)
        isplitr; · iexact Hmw
        isplitl [HO]
        · iexists W0; isplitr; · ipureintro; exact hW0
          iexact HO
        isplitl [HB7]; · iexact HB7
        iexact HB9
      iintro %acc' HI
      rw [show Scf.trips k0_t5_loop.lb k0_t5_loop.ub k0_t5_loop.st = 128 from k0_t5_trips]
      ihave HX := (drainG_exit (F := Ideal) d L _ _ (SemLoc.dma cc0_scratch7.sem) (SemLoc.dma cc0_scratch9.sem) O W acc') $$ HI
      icases HX with ⟨-, ⟨%W1, %hW1, HO⟩, Hs7, RU0, Hs9, RI0⟩
      ihave HhU := (rows_to_halfUOK m d L 0 ⟨0, hkv⟩ (off144_0 hkv) (0 : Fin 4)) $$ RU0
      icases HhU with ⟨%gU, HhU, %hgU⟩
      ihave HhI := (rows_to_halfIOK m d L 0 ⟨0, hkv⟩ (off158_0 hkv) (0 : Fin 4)) $$ RI0
      icases HhI with ⟨%gI, HhI, %hgI⟩
      sl_exec
      ihave RU0 := (halfU_to_rows (F := Ideal) d L 0 ⟨0, hkv⟩ (off144_0 hkv) _) $$ HhU
      ihave RI0 := (halfI_to_rows (F := Ideal) d L 0 ⟨0, hkv⟩ (off158_0 hkv) _) $$ HhI
      ihave RU0 := (Entails.of_eq (show bigSep Finset.univ (ownU (F := Ideal) d L 0) = bigSep (Ring.rangeSet 128 0 128) (ownU (F := Ideal) d L 0) by rw [Ring.rangeSet_univ])) $$ RU0
      ihave RI0 := (Entails.of_eq (show bigSep Finset.univ (ownI (F := Ideal) d L 0) = bigSep (Ring.rangeSet 128 0 128) (ownI (F := Ideal) d L 0) by rw [Ring.rangeSet_univ])) $$ RI0
      imod (Transfers.batch_alloc' (Lvl := ℕ) (countersEmb (U := UU)) (thr d L) (none : HIx 1) 2048 (ownUV (F := Ideal) d L (m (a0Loc d)) (m (a2Loc d)) 0 (2 : Fin 4)) (sm := SemLoc.dma cc0_scratch7.sem) (E := Set.univ)) $$ Hs7 with HB7
      imod (Transfers.batch_alloc' (Lvl := ℕ) (countersEmb (U := UU)) (thr d L) (none : HIx 1) 2048 (ownIV (F := Ideal) d L (m (a1Loc d)) (m (a3Loc d)) 0 (2 : Fin 4)) (sm := SemLoc.dma cc0_scratch9.sem) (E := Set.univ)) $$ Hs9 with HB9
      sl_exec
      rw [show Scf.trips k0_t11_loop.lb k0_t11_loop.ub k0_t11_loop.st = 8 by decide]
      iclear RU0 RI0 TUc TIc
      sl_step
      isplitr; · iexact Hmw
      isplitl [HO]
      · iexists W1; isplitr; · ipureintro; exact hW1
        iexact HO
      isplitl [H0]; · iexact H0
      isplitl [H1]; · iexact H1
      isplitl [H4]
      · iexists PARC; isplitl [H4]; · iexact H4
        ipureintro; exact hPar
      isplitl [H5]
      · iexists _; isplitl [H5]; · iexact H5
        ipureintro; exact accOK_step m d L ⟨0, hkv⟩ (0 : Fin 4) rfl _ rfl PARC hPar gU hgU gI hgI _ _ _ _ _ _ _ _ f5 hf5 hu hi
      isplitl [HB7 HB9]
      · isplitl [HB7]; · iexact HB7
        iexact HB9
      isplitl [HB8 HB10]
      · isplitl [HB8]; · iexact HB8
        iexact HB10
      isplitr; · iempintro
      isplitl [TUd]; · iexact TUd
      iexact TId
    | 1, hkv =>
      show chunkAtV m d L O W q f0 f1 1 () ⊢ wp _ _ _ _ (chunkAtV m d L O W q f0 f1 2)
      unfold chunkAtV
      rw [if_pos (by decide : ((1 : ℕ) ≤ 2)), if_pos (by decide : ((1 : ℕ) ≤ 3)), if_neg (by decide : ¬ ((1 : ℕ) = 0)), if_pos (by decide : ((1 : ℕ) ≤ 1)), if_pos (by decide : ((2 : ℕ) ≤ 2)), if_pos (by decide : ((2 : ℕ) ≤ 3)), if_neg (by decide : ¬ ((2 : ℕ) = 0)), if_neg (by decide : ¬ ((2 : ℕ) ≤ 1))]
      try rw [ch0_1]
      try rw [ch1_1]
      try rw [ch0_2]
      try rw [ch1_2]
      iintro ⟨#Hmw, ⟨%W0, %hW0, HO⟩, H0, H1, ⟨%PARC, H4, %hPar⟩, ⟨%f5, H5, %hf5⟩, ⟨HB7, HB9⟩, ⟨HB8, HB10⟩, -, ⟨TUd, TId⟩⟩
      have k0_h1 : ¬ k0_cond1 ⟨1, hkv⟩ = 1#1 := by decide +revert
      have k0_h2 : k0_cond2 ⟨1, hkv⟩ = 1#1 := by decide +revert
      have k0_h3 : ¬ k0_cond3 ⟨1, hkv⟩ = 1#1 := by decide +revert
      have k0_h4 : k0_cond4 ⟨1, hkv⟩ = 1#1 := by decide +revert
      sl_exec
      sl_for (drainInvG (F := Ideal) d L (ownUV (F := Ideal) d L (m (a0Loc d)) (m (a2Loc d)) 1 (1 : Fin 4)) (ownIV (F := Ideal) d L (m (a1Loc d)) (m (a3Loc d)) 1 (1 : Fin 4)) (SemLoc.dma cc0_scratch8.sem) (SemLoc.dma cc0_scratch10.sem) O W) $$ [HO HB8 HB10]
      case region =>
        intro k acc
        exact t6G_step (F := Ideal) d L _ _ _ _ _ _ _ _ _ _ _ _ O W k acc
      · iapply (drainG_entry (F := Ideal) d L _ _ (SemLoc.dma cc0_scratch8.sem) (SemLoc.dma cc0_scratch10.sem) O W _)
        isplitr; · iexact Hmw
        isplitl [HO]
        · iexists W0; isplitr; · ipureintro; exact hW0
          iexact HO
        isplitl [HB8]; · iexact HB8
        iexact HB10
      iintro %acc' HI
      rw [show Scf.trips k0_t6_loop.lb k0_t6_loop.ub k0_t6_loop.st = 128 from k0_t6_trips]
      ihave HX := (drainG_exit (F := Ideal) d L _ _ (SemLoc.dma cc0_scratch8.sem) (SemLoc.dma cc0_scratch10.sem) O W acc') $$ HI
      icases HX with ⟨-, ⟨%W1, %hW1, HO⟩, Hs8, RU1, Hs10, RI1⟩
      ihave HhU := (rows_to_halfUOK m d L 1 ⟨1, hkv⟩ (off144_1 hkv) (1 : Fin 4)) $$ RU1
      icases HhU with ⟨%gU, HhU, %hgU⟩
      ihave HhI := (rows_to_halfIOK m d L 1 ⟨1, hkv⟩ (off158_1 hkv) (1 : Fin 4)) $$ RI1
      icases HhI with ⟨%gI, HhI, %hgI⟩
      sl_exec
      ihave RU1 := (halfU_to_rows (F := Ideal) d L 1 ⟨1, hkv⟩ (off144_1 hkv) _) $$ HhU
      ihave RI1 := (halfI_to_rows (F := Ideal) d L 1 ⟨1, hkv⟩ (off158_1 hkv) _) $$ HhI
      ihave RU1 := (Entails.of_eq (show bigSep Finset.univ (ownU (F := Ideal) d L 1) = bigSep (Ring.rangeSet 128 0 128) (ownU (F := Ideal) d L 1) by rw [Ring.rangeSet_univ])) $$ RU1
      ihave RI1 := (Entails.of_eq (show bigSep Finset.univ (ownI (F := Ideal) d L 1) = bigSep (Ring.rangeSet 128 0 128) (ownI (F := Ideal) d L 1) by rw [Ring.rangeSet_univ])) $$ RI1
      imod (Transfers.batch_alloc' (Lvl := ℕ) (countersEmb (U := UU)) (thr d L) (none : HIx 1) 2048 (ownUV (F := Ideal) d L (m (a0Loc d)) (m (a2Loc d)) 1 (3 : Fin 4)) (sm := SemLoc.dma cc0_scratch8.sem) (E := Set.univ)) $$ Hs8 with HB8
      imod (Transfers.batch_alloc' (Lvl := ℕ) (countersEmb (U := UU)) (thr d L) (none : HIx 1) 2048 (ownIV (F := Ideal) d L (m (a1Loc d)) (m (a3Loc d)) 1 (3 : Fin 4)) (sm := SemLoc.dma cc0_scratch10.sem) (E := Set.univ)) $$ Hs10 with HB10
      sl_exec
      rw [show Scf.trips k0_t12_loop.lb k0_t12_loop.ub k0_t12_loop.st = 8 by decide]
      iclear RU1 RI1 TUd TId
      sl_step
      isplitr; · iexact Hmw
      isplitl [HO]
      · iexists W1; isplitr; · ipureintro; exact hW1
        iexact HO
      isplitl [H0]; · iexact H0
      isplitl [H1]; · iexact H1
      isplitl [H4]
      · iexists PARC; isplitl [H4]; · iexact H4
        ipureintro; exact hPar
      isplitl [H5]
      · iexists _; isplitl [H5]; · iexact H5
        ipureintro; exact accOK_step m d L ⟨1, hkv⟩ (1 : Fin 4) rfl _ rfl PARC hPar gU hgU gI hgI _ _ _ _ _ _ _ _ f5 hf5 hu hi
      isplitl [HB7 HB9]
      · isplitl [HB7]; · iexact HB7
        iexact HB9
      isplitl [HB8 HB10]
      · isplitl [HB8]; · iexact HB8
        iexact HB10
      isplitr; · iempintro
      iempintro
    | 2, hkv =>
      show chunkAtV m d L O W q f0 f1 2 () ⊢ wp _ _ _ _ (chunkAtV m d L O W q f0 f1 3)
      unfold chunkAtV
      rw [if_pos (by decide : ((2 : ℕ) ≤ 2)), if_pos (by decide : ((2 : ℕ) ≤ 3)), if_neg (by decide : ¬ ((2 : ℕ) = 0)), if_neg (by decide : ¬ ((2 : ℕ) ≤ 1)), if_neg (by decide : ¬ ((3 : ℕ) ≤ 2)), if_pos (by decide : ((3 : ℕ) ≤ 3)), if_neg (by decide : ¬ ((3 : ℕ) = 0)), if_neg (by decide : ¬ ((3 : ℕ) ≤ 1))]
      try rw [ch0_2]
      try rw [ch1_2]
      try rw [ch0_3]
      try rw [ch1_3]
      iintro ⟨#Hmw, ⟨%W0, %hW0, HO⟩, H0, H1, ⟨%PARC, H4, %hPar⟩, ⟨%f5, H5, %hf5⟩, ⟨HB7, HB9⟩, ⟨HB8, HB10⟩, -, -⟩
      have k0_h1 : k0_cond1 ⟨2, hkv⟩ = 1#1 := by decide +revert
      have k0_h2 : ¬ k0_cond2 ⟨2, hkv⟩ = 1#1 := by decide +revert
      have k0_h3 : ¬ k0_cond3 ⟨2, hkv⟩ = 1#1 := by decide +revert
      have k0_h4 : ¬ k0_cond4 ⟨2, hkv⟩ = 1#1 := by decide +revert
      sl_exec
      sl_for (drainInvG (F := Ideal) d L (ownUV (F := Ideal) d L (m (a0Loc d)) (m (a2Loc d)) 0 (2 : Fin 4)) (ownIV (F := Ideal) d L (m (a1Loc d)) (m (a3Loc d)) 0 (2 : Fin 4)) (SemLoc.dma cc0_scratch7.sem) (SemLoc.dma cc0_scratch9.sem) O W) $$ [HO HB7 HB9]
      case region =>
        intro k acc
        exact t5G_step (F := Ideal) d L _ _ _ _ _ _ _ _ _ _ _ _ O W k acc
      · iapply (drainG_entry (F := Ideal) d L _ _ (SemLoc.dma cc0_scratch7.sem) (SemLoc.dma cc0_scratch9.sem) O W _)
        isplitr; · iexact Hmw
        isplitl [HO]
        · iexists W0; isplitr; · ipureintro; exact hW0
          iexact HO
        isplitl [HB7]; · iexact HB7
        iexact HB9
      iintro %acc' HI
      rw [show Scf.trips k0_t5_loop.lb k0_t5_loop.ub k0_t5_loop.st = 128 from k0_t5_trips]
      ihave HX := (drainG_exit (F := Ideal) d L _ _ (SemLoc.dma cc0_scratch7.sem) (SemLoc.dma cc0_scratch9.sem) O W acc') $$ HI
      icases HX with ⟨-, ⟨%W1, %hW1, HO⟩, Hs7, RU0, Hs9, RI0⟩
      ihave HhU := (rows_to_halfUOK m d L 0 ⟨2, hkv⟩ (off144_2 hkv) (2 : Fin 4)) $$ RU0
      icases HhU with ⟨%gU, HhU, %hgU⟩
      ihave HhI := (rows_to_halfIOK m d L 0 ⟨2, hkv⟩ (off158_2 hkv) (2 : Fin 4)) $$ RI0
      icases HhI with ⟨%gI, HhI, %hgI⟩
      sl_exec
      ihave RU0 := (halfU_to_rows (F := Ideal) d L 0 ⟨2, hkv⟩ (off144_2 hkv) _) $$ HhU
      ihave RI0 := (halfI_to_rows (F := Ideal) d L 0 ⟨2, hkv⟩ (off158_2 hkv) _) $$ HhI
      sl_step
      isplitr; · iexact Hmw
      isplitl [HO]
      · iexists W1; isplitr; · ipureintro; exact hW1
        iexact HO
      isplitl [H0]; · iexact H0
      isplitl [H1]; · iexact H1
      isplitl [H4]
      · iexists PARC; isplitl [H4]; · iexact H4
        ipureintro; exact hPar
      isplitl [H5]
      · iexists _; isplitl [H5]; · iexact H5
        ipureintro; exact accOK_step m d L ⟨2, hkv⟩ (2 : Fin 4) rfl _ rfl PARC hPar gU hgU gI hgI _ _ _ _ _ _ _ _ f5 hf5 hu hi
      isplitl [Hs7 Hs9 RU0 RI0]
      · isplitl [Hs7]; · iexact Hs7
        isplitl [Hs9]; · iexact Hs9
        isplitl [RU0]; · iexact RU0
        iexact RI0
      isplitl [HB8 HB10]
      · isplitl [HB8]; · iexact HB8
        iexact HB10
      isplitr; · iempintro
      iempintro
    | 3, hkv =>
      show chunkAtV m d L O W q f0 f1 3 () ⊢ wp _ _ _ _ (chunkAtV m d L O W q f0 f1 4)
      unfold chunkAtV
      rw [if_neg (by decide : ¬ ((3 : ℕ) ≤ 2)), if_pos (by decide : ((3 : ℕ) ≤ 3)), if_neg (by decide : ¬ ((3 : ℕ) = 0)), if_neg (by decide : ¬ ((3 : ℕ) ≤ 1)), if_neg (by decide : ¬ ((4 : ℕ) ≤ 2)), if_neg (by decide : ¬ ((4 : ℕ) ≤ 3)), if_neg (by decide : ¬ ((4 : ℕ) = 0)), if_neg (by decide : ¬ ((4 : ℕ) ≤ 1))]
      try rw [ch0_3]
      try rw [ch1_3]
      try rw [ch0_4]
      try rw [ch1_4]
      iintro ⟨#Hmw, ⟨%W0, %hW0, HO⟩, H0, H1, ⟨%PARC, H4, %hPar⟩, ⟨%f5, H5, %hf5⟩, ⟨Hs7, Hs9, RU0, RI0⟩, ⟨HB8, HB10⟩, -, -⟩
      have k0_h1 : ¬ k0_cond1 ⟨3, hkv⟩ = 1#1 := by decide +revert
      have k0_h2 : k0_cond2 ⟨3, hkv⟩ = 1#1 := by decide +revert
      have k0_h3 : ¬ k0_cond3 ⟨3, hkv⟩ = 1#1 := by decide +revert
      have k0_h4 : ¬ k0_cond4 ⟨3, hkv⟩ = 1#1 := by decide +revert
      sl_exec
      sl_for (drainInvG (F := Ideal) d L (ownUV (F := Ideal) d L (m (a0Loc d)) (m (a2Loc d)) 1 (3 : Fin 4)) (ownIV (F := Ideal) d L (m (a1Loc d)) (m (a3Loc d)) 1 (3 : Fin 4)) (SemLoc.dma cc0_scratch8.sem) (SemLoc.dma cc0_scratch10.sem) O W) $$ [HO HB8 HB10]
      case region =>
        intro k acc
        exact t6G_step (F := Ideal) d L _ _ _ _ _ _ _ _ _ _ _ _ O W k acc
      · iapply (drainG_entry (F := Ideal) d L _ _ (SemLoc.dma cc0_scratch8.sem) (SemLoc.dma cc0_scratch10.sem) O W _)
        isplitr; · iexact Hmw
        isplitl [HO]
        · iexists W0; isplitr; · ipureintro; exact hW0
          iexact HO
        isplitl [HB8]; · iexact HB8
        iexact HB10
      iintro %acc' HI
      rw [show Scf.trips k0_t6_loop.lb k0_t6_loop.ub k0_t6_loop.st = 128 from k0_t6_trips]
      ihave HX := (drainG_exit (F := Ideal) d L _ _ (SemLoc.dma cc0_scratch8.sem) (SemLoc.dma cc0_scratch10.sem) O W acc') $$ HI
      icases HX with ⟨-, ⟨%W1, %hW1, HO⟩, Hs8, RU1, Hs10, RI1⟩
      ihave HhU := (rows_to_halfUOK m d L 1 ⟨3, hkv⟩ (off144_3 hkv) (3 : Fin 4)) $$ RU1
      icases HhU with ⟨%gU, HhU, %hgU⟩
      ihave HhI := (rows_to_halfIOK m d L 1 ⟨3, hkv⟩ (off158_3 hkv) (3 : Fin 4)) $$ RI1
      icases HhI with ⟨%gI, HhI, %hgI⟩
      sl_exec
      ihave RU1 := (halfU_to_rows (F := Ideal) d L 1 ⟨3, hkv⟩ (off144_3 hkv) _) $$ HhU
      ihave RI1 := (halfI_to_rows (F := Ideal) d L 1 ⟨3, hkv⟩ (off158_3 hkv) _) $$ HhI
      sl_step
      isplitr; · iexact Hmw
      isplitl [HO]
      · iexists W1; isplitr; · ipureintro; exact hW1
        iexact HO
      isplitl [H0]; · iexact H0
      isplitl [H1]; · iexact H1
      isplitl [H4]
      · iexists PARC; isplitl [H4]; · iexact H4
        ipureintro; exact hPar
      isplitl [H5]
      · iexists _; isplitl [H5]; · iexact H5
        ipureintro; exact accOK_step m d L ⟨3, hkv⟩ (3 : Fin 4) rfl _ rfl PARC hPar gU hgU gI hgI _ _ _ _ _ _ _ _ f5 hf5 hu hi
      isplitl [Hs7 Hs9 RU0 RI0]
      · isplitl [Hs7]; · iexact Hs7
        isplitl [Hs9]; · iexact Hs9
        isplitl [RU0]; · iexact RU0
        iexact RI0
      isplitl [Hs8 Hs10 RU1 RI1]
      · isplitl [Hs8]; · iexact Hs8
        isplitl [Hs10]; · iexact Hs10
        isplitl [RU1]; · iexact RU1
        iexact RI1
      isplitr; · iempintro
      iempintro
    | n + 4, hkv => exact absurd hkv (by rw [e4]; omega)
  · unfold chunkAtV
    rw [if_pos (by decide : (0 : ℕ) ≤ 2), if_pos (by decide : (0 : ℕ) ≤ 3), if_pos rfl, if_pos (by decide : (0 : ℕ) ≤ 1)]
    rw [ch0_0, ch1_0]
    isplitl [Hmw]; · iexact Hmw
    isplitl [HO]
    · iexists _; isplitr
      rotate_left
      · iexact HO
      · ipureintro; intro p hp
        rcases Finset.mem_insert.mp hp with hp | hp; · exact Or.inr (by rw [hp]; rfl)
        rcases Finset.mem_insert.mp hp with hp | hp; · exact Or.inr (by rw [hp]; rfl)
        rcases Finset.mem_insert.mp hp with hp | hp; · exact Or.inr (by rw [hp]; rfl)
        exact .inl hp
    isplitl [H0]; · iexact H0
    isplitl [H1]; · iexact H1
    isplitl [H4]
    · iexists _; isplitl [H4]; · iexact H4
      ipureintro; exact parS_ok m d _
    isplitl [H5]
    · iexists _; isplitl [H5]; · iexact H5
      ipureintro; exact accOK_init_prog m d L _ (parS_ok m d _) _ _ _ _ _ _ _ _ _ _ _
    isplitl [HB7 HB9]; · isplitl [HB7]; · iexact HB7
                         iexact HB9
    isplitl [HB8 HB10]; · isplitl [HB8]; · iexact HB8
                          iexact HB10
    isplitl [TUc TIc]; · isplitl [TUc]; · iexact TUc
                         iexact TIc
    isplitl [TUd]; · iexact TUd
    iexact TId
  iintro %_ HI
  have e4 : Scf.trips k0_t4_loop.lb k0_t4_loop.ub k0_t4_loop.st = 4 := by decide
  rw [e4]
  unfold chunkAtV
  rw [if_neg (by decide : ¬ (4 : ℕ) ≤ 2), if_neg (by decide : ¬ (4 : ℕ) ≤ 3), if_neg (by decide : ¬ (4 : ℕ) = 0), if_neg (by decide : ¬ (4 : ℕ) ≤ 1)]
  icases HI with ⟨Hmw, ⟨%W', %hW', HO⟩, H0, H1, ⟨%PARC, H4, %hPar⟩, ⟨%fa, H5, %hfa⟩, ⟨Hs7, Hs9, RU0, RI0⟩, ⟨Hs8, Hs10, RU1, RI1⟩, -, -⟩
  repeat (sl_exec; unfold SparseCore.vectorLoadIdx)
  sl_exec
  sl_step
  iclear Hmw
  unfold tilePostV tileOwn
  isplitl [Ho]
  · iapply (slice_flatG m d L _ (outOK_final_prog m d L fa hfa PARC hPar _ _ _ _ _ _ _ _ _ _ _ _) _)
    iexact Ho
  isplitl [H0 H1 RU0 RU1 RI0 RI1 H4 H5 H6 Hs7 Hs8 Hs9 Hs10 Hc0 Hc1 Hc2 Hc3]
  · isplitl [H0]; · iexists _; iexact H0
    isplitl [H1]; · iexists _; iexact H1
    isplitl [RU0 RU1]
    · iapply (rows_to_urowS (F := Ideal) d L)
      isplitl [RU0]; · iexact RU0
      iexact RU1
    isplitl [RI0 RI1]
    · iapply (rows_to_irowS (F := Ideal) d L)
      isplitl [RI0]; · iexact RI0
      iexact RI1
    isplitl [H4]; · iexists _; iexact H4
    isplitl [H5]; · iexists _; iexact H5
    isplitl [H6]; · iexists _; iexact H6
    isplitl [Hs7]; · iexact Hs7
    isplitl [Hs8]; · iexact Hs8
    isplitl [Hs9]; · iexact Hs9
    isplitl [Hs10]; · iexact Hs10
    isplitl [Hc0]; · iexact Hc0
    isplitl [Hc1]; · iexact Hc1
    isplitl [Hc2]; · iexact Hc2
    iexact Hc3
  isplitl [Hrest]; · iexact Hrest
  iexists _; isplitr
  rotate_left
  · iexact HO
  · ipureintro; intro p hp
    rcases Finset.mem_insert.mp hp with hp | hp; · exact Or.inr (by rw [hp]; rfl)
    exact hW' p hp

end TileV

/-! ## The tile obligation with its result named -/

section OblV

variable (m : (ℓ : Loc nD τ sig) → Buf (Elt Ideal) ℓ)

theorem tile_valueV : TileBodyV m := by
  intro hpre d L O W hO
  have hu : ∀ b, ((m (a0Loc d) : S16384.Idx → BitVec 32) b).toNat < 1000000 := fun b => (hpre d b).1
  have hi : ∀ b, ((m (a1Loc d) : S16384.Idx → BitVec 32) b).toNat < 100000 := fun b => (hpre d b).2
  refine BIBase.Entails.trans ?_ ((tile_runV m d L O W (qT (L 0).val (L 1).val) hu hi).trans
    (wp_mono frame _ _ fun _ => ?_))
  · unfold tilePreV goResV
    iintro ⟨#Hlv, ⟨Hu, Hi, Hue, Hie, Hp, Ho⟩, Hsb, Hss, HO⟩
    ihave Hmw := ((K (F := Ideal)).mayWaits_none (thr := thr d L) hO) $$ Hlv
    ihave Hs := (scoped_open (F := Ideal) d L) $$ [Hsb Hss]
    · isplitl [Hsb]; · iexact Hsb
      iexact Hss
    icases Hs with ⟨Hown, Hrest⟩
    isplitl [Hmw]; · iexact Hmw
    isplitl [Hu]; · iexact Hu
    isplitl [Hi]; · iexact Hi
    isplitl [Hue]; · iexact Hue
    isplitl [Hie]; · iexact Hie
    isplitl [Hp]; · iexact Hp
    isplitl [Ho]; · iexact Ho
    isplitl [Hown]; · iexact Hown
    isplitl [Hrest]; · iexact Hrest
    iexact HO
  · unfold tilePostV tdResV
    iintro ⟨Ho, Hown, Hrest, HO⟩
    ihave Hs := (scoped_close (F := Ideal) d L) $$ [Hown Hrest]
    · isplitl [Hown]; · iexact Hown
      iexact Hrest
    icases Hs with ⟨Hsb, Hss⟩
    isplitl [Ho]; · iexact Ho
    isplitl [Hsb]; · iexact Hsb
    isplitl [Hss]; · iexact Hss
    iexact HO

end OblV

end Cert.Proof.KI

end
-- ==== Proof.lean ====
/-
  The certificate: a two-layer scorer over gathered embeddings, computed by a SparseCore kernel, against its jnp reference.

  Both programs compute, for each of 16384 samples b,
      out[b] = (∑ h < 10, max ((∑ k < 128, x[b,k] · W1[k,h]) + b1[h]) 0 · W2[h,0]) + b2[0],
  where x[b, ·] is the user's embedding row followed by the item's, each entry rectified (Spec.lean). The reference
  gathers the rows with jnp.take, whose wrap of negative indices and mask of out-of-range ones are the identity on the
  indices the precondition allows, and then multiplies two matrices (RefRun, RefValue, RefClaims). The kernel packs the
  parameters into one vector on the host and runs on 2 × 16 vector subcores; tile (c, s) owns samples 1024 s + 512 c …
  of the batch, fetches their rows chunk by chunk into two half buffers with one copy per row, drains a half by counting
  the landed rows' units, and accumulates the first layer sixteen samples at a time (KBody and the modules under it).

  The three frames: every weakly fair execution ends, faults nowhere and leaves the arguments as they were — for the
  reference from its run; for the kernel, at either float instance, from the launch theorem once each tile's task is
  proved at symbolic coordinates (KLaunch from KBody). The ideal pass rewrote nothing, so `preserves` is trivial.
  The two idealized programs end with equal results once the kernel's result is named as the function above
  (`algebraic_of_value`); that naming is the statement `kernel_value`, which the launch theorem reduces to each tile's
  task with its 512 results named (`tile_value`).
-/
import proofs.«214512_g89103391522852_cont_sun_m_1157_25_alg».proof.Defs
import proofs.«214512_g89103391522852_cont_sun_m_1157_25_alg».proof.Proof.Gen.Kernel
import proofs.«214512_g89103391522852_cont_sun_m_1157_25_alg».proof.Proof.Gen.Kernel.Skeleton
import proofs.«214512_g89103391522852_cont_sun_m_1157_25_alg».proof.Proof.Gen.KernelIdeal
import proofs.«214512_g89103391522852_cont_sun_m_1157_25_alg».proof.Proof.Gen.KernelIdeal.Skeleton
import proofs.«214512_g89103391522852_cont_sun_m_1157_25_alg».proof.Proof.Gen.ReferenceIdeal
import proofs.«214512_g89103391522852_cont_sun_m_1157_25_alg».proof.Proof.Gen.Pre_input_domain
import proofs.«214512_g89103391522852_cont_sun_m_1157_25_alg».proof.Proof.RefClaims
import proofs.«214512_g89103391522852_cont_sun_m_1157_25_alg».proof.Proof.KAlg
import proofs.«214512_g89103391522852_cont_sun_m_1157_25_alg».proof.Proof.KLaunch
import proofs.«214512_g89103391522852_cont_sun_m_1157_25_alg».proof.Proof.KLaunchB
import proofs.«214512_g89103391522852_cont_sun_m_1157_25_alg».proof.Proof.KBody
import proofs.«214512_g89103391522852_cont_sun_m_1157_25_alg».proof.Proof.KBodyB
import proofs.«214512_g89103391522852_cont_sun_m_1157_25_alg».proof.Proof.KLaunchV
import proofs.«214512_g89103391522852_cont_sun_m_1157_25_alg».proof.Proof.KBodyV
import Idealize.ShloMosaic.Adequacy
import Idealize.ShloMosaic.Init

noncomputable section

namespace Cert.Proof

open Idealize.ShloMosaic Idealize.SL.Sem Cert.Kernel

/-- The word-level kernel runs to the end and keeps its arguments. -/
theorem frame_kernel : Cert.frame_Kernel := Cert.Proof.KB.frame_KB fun m => Cert.Proof.KB.tile_body m

/-- So does its idealization. -/
theorem frame_kernelIdeal : Cert.frame_KernelIdeal := Cert.Proof.KI.frame_KI fun m => Cert.Proof.KI.tile_body m

/-- A tile's task with its result named: handed the packed parameters at their contents, the tile at `L` leaves in its
    512 entries of the result the scores of its 512 samples. -/
theorem tile_value (m : (ℓ : Loc Cert.KernelIdeal.nD Cert.KernelIdeal.τ Cert.KernelIdeal.sig) → Buf (Elt Ideal) ℓ) : Cert.Proof.KI.TileBodyV m :=
  Cert.Proof.KI.tile_valueV m

/-- The idealized kernel's result is the function of Spec.lean of its arguments. -/
theorem kernel_value : KernelValue := Cert.Proof.KI.kernelValue_of_body tile_value

theorem claim : Cert.Claim := ⟨Cert.Kernel.Gen.facts, Cert.KernelIdeal.Gen.facts, Cert.ReferenceIdeal.Gen.facts, Cert.Pre_input_domain.Gen.facts,
  frame_kernel, frame_kernelIdeal, Cert.RefClaims.frame_ref, trivial, algebraic_of_value kernel_value⟩

end Cert.Proof

end
